-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  IdealRules.named_const.Statement Cert.KernelIdeal.κ "inv_60000" .f32 0x378BCF65#32 ((1 / 60000 : ℝ) : EReal)
  ∧ IdealRules.named_const.Statement Cert.KernelIdeal.κ "inv_60000" .f32 0x378BCF65#32 ((1 / 60000 : ℝ) : EReal)
  ∧ IdealRules.named_const.Statement Cert.KernelIdeal.κ "inv_60000" .f32 0x378BCF65#32 ((1 / 60000 : ℝ) : EReal)
  ∧ IdealRules.named_const.Statement Cert.KernelIdeal.κ "inv_60000" .f32 0x378BCF65#32 ((1 / 60000 : ℝ) : EReal)
  ∧ IdealRules.named_const.Statement Cert.KernelIdeal.κ "inv_60000" .f32 0x378BCF65#32 ((1 / 60000 : ℝ) : EReal)
  ∧ IdealRules.named_const.Statement Cert.KernelIdeal.κ "inv_60000" .f32 0x378BCF65#32 ((1 / 60000 : ℝ) : EReal)
  ∧ IdealRules.named_const.Statement Cert.KernelIdeal.κ "inv_60000" .f32 0x378BCF65#32 ((1 / 60000 : ℝ) : EReal)
  ∧ IdealRules.named_const.Statement Cert.KernelIdeal.κ "inv_60000" .f32 0x378BCF65#32 ((1 / 60000 : ℝ) : EReal)
  ∧ IdealRules.named_const.Statement Cert.KernelIdeal.κ "inv_200000" .f32 0x36A7C5AC#32 ((1 / 200000 : ℝ) : EReal)
  ∧ IdealRules.named_const.Statement Cert.KernelIdeal.κ "inv_200000" .f32 0x36A7C5AC#32 ((1 / 200000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60000x128 : Shape := ⟨2, ![60000, 128]⟩
abbrev S200000x64 : Shape := ⟨2, ![200000, 64]⟩
abbrev S27x40000 : Shape := ⟨2, ![27, 40000]⟩
abbrev S27x25000 : Shape := ⟨2, ![27, 25000]⟩
abbrev S27x64x64 : Shape := ⟨3, ![27, 64, 64]⟩
abbrev S64 : Shape := ⟨1, ![64]⟩
abbrev S27x128x64 : Shape := ⟨3, ![27, 128, 64]⟩
abbrev S27x64x1 : Shape := ⟨3, ![27, 64, 1]⟩
abbrev S27x1x64 : Shape := ⟨3, ![27, 1, 64]⟩
abbrev S1 : Shape := ⟨1, ![1]⟩
abbrev S_ : Shape := ⟨0, ![]⟩

class Facts : Prop where
  bcast_S_S60000x128 : S_.BroadcastsInDim S60000x128 (![] : Fin 0 → Fin S60000x128.rank)
  reducesTo_S60000x128_S_d0_1 : S60000x128.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_
  bcast_S_S27x128x64 : S_.BroadcastsInDim S27x128x64 (![] : Fin 0 → Fin S27x128x64.rank)
  reducesTo_S27x128x64_S_d0_1_2 : S27x128x64.ReducesTo [0, 1, 2] S_
  bcast_S_S27x64x1 : S_.BroadcastsInDim S27x64x1 (![] : Fin 0 → Fin S27x64x1.rank)
  reducesTo_S27x64x1_S_d0_1_2 : S27x64x1.ReducesTo [0, 1, 2] S_
  bcast_S_S27x1x64 : S_.BroadcastsInDim S27x1x64 (![] : Fin 0 → Fin S27x1x64.rank)
  reducesTo_S27x1x64_S_d0_1_2 : S27x1x64.ReducesTo [0, 1, 2] S_
  bcast_S_S1 : S_.BroadcastsInDim S1 (![] : Fin 0 → Fin S1.rank)
  reducesTo_S1_S_d0 : S1.ReducesTo [0] S_
  bcast_S_S27x40000 : S_.BroadcastsInDim S27x40000 (![] : Fin 0 → Fin S27x40000.rank)
  reducesTo_S27x40000_S_d0_1 : S27x40000.ReducesTo [0, 1] S_
  bcast_S_S27x25000 : S_.BroadcastsInDim S27x25000 (![] : Fin 0 → Fin S27x25000.rank)
  reducesTo_S27x25000_S_d0_1 : S27x25000.ReducesTo [0, 1] S_

variable [Facts]

def fn_part7 {F : FTy → Type} [FloatOps F] (main_arg4 : IVec S27x25000 32) (main_arg5 : IVec S27x25000 32) (main_v117 : IVec S_ 1) (main_v118 : IVec S27x25000 32) : IVec S_ 1 :=
  let main_v119 : IVec S27x25000 1 := cmpi .sge main_arg4 main_v118
  let main_c_47 : IVec S_ 32 := constantI S_ 32 60000#32
  let main_v120 : IVec S27x25000 32 := broadcastInDim S27x25000 ![] bcast_S_S27x25000 main_c_47
  let main_v121 : IVec S27x25000 1 := cmpi .slt main_arg4 main_v120
  let main_v122 : IVec S27x25000 1 := andi main_v119 main_v121
  let main_c_48 : IVec S_ 1 := constantI S_ 1 1#1
  let main_v123 : IVec S_ 1 := (fun x v => Host.reduce IntOp.andi x v reducesTo_S27x25000_S_d0_1 h_S_) main_v122 main_c_48
  let main_v124 : IVec S_ 1 := andi main_v117 main_v123
  let main_c_49 : IVec S_ 32 := constantI S_ 32 0#32
  let main_v125 : IVec S27x25000 32 := broadcastInDim S27x25000 ![] bcast_S_S27x25000 main_c_49
  let main_v126 : IVec S27x25000 1 := cmpi .sge main_arg5 main_v125
  let main_c_50 : IVec S_ 32 := constantI S_ 32 60000#32
  let main_v127 : IVec S27x25000 32 := broadcastInDim S27x25000 ![] bcast_S_S27x25000 main_c_50
  let main_v128 : IVec S27x25000 1 := cmpi .slt main_arg5 main_v127
  let main_v129 : IVec S27x25000 1 := andi main_v126 main_v128
  let main_c_51 : IVec S_ 1 := constantI S_ 1 1#1
  let main_v130 : IVec S_ 1 := (fun x v => Host.reduce IntOp.andi x v reducesTo_S27x25000_S_d0_1 h_S_) main_v129 main_c_51
  let main_v131 : IVec S_ 1 := andi main_v124 main_v130
  main_v131

def fn_part6 {F : FTy → Type} [FloatOps F] (main_arg2 : IVec S27x40000 32) (main_arg3 : IVec S27x40000 32) (main_arg4 : IVec S27x25000 32) (main_arg5 : IVec S27x25000 32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_c_40 : IVec S_ 32 := constantI S_ 32 0#32
  let main_v104 : IVec S27x40000 32 := broadcastInDim S27x40000 ![] bcast_S_S27x40000 main_c_40
  let main_v105 : IVec S27x40000 1 := cmpi .sge main_arg2 main_v104
  let main_c_41 : IVec S_ 32 := constantI S_ 32 200000#32
  let main_v106 : IVec S27x40000 32 := broadcastInDim S27x40000 ![] bcast_S_S27x40000 main_c_41
  let main_v107 : IVec S27x40000 1 := cmpi .slt main_arg2 main_v106
  let main_v108 : IVec S27x40000 1 := andi main_v105 main_v107
  let main_c_42 : IVec S_ 1 := constantI S_ 1 1#1
  let main_v109 : IVec S_ 1 := (fun x v => Host.reduce IntOp.andi x v reducesTo_S27x40000_S_d0_1 h_S_) main_v108 main_c_42
  let main_v110 : IVec S_ 1 := andi main_v103 main_v109
  let main_c_43 : IVec S_ 32 := constantI S_ 32 0#32
  let main_v111 : IVec S27x40000 32 := broadcastInDim S27x40000 ![] bcast_S_S27x40000 main_c_43
  let main_v112 : IVec S27x40000 1 := cmpi .sge main_arg3 main_v111
  let main_c_44 : IVec S_ 32 := constantI S_ 32 60000#32
  let main_v113 : IVec S27x40000 32 := broadcastInDim S27x40000 ![] bcast_S_S27x40000 main_c_44
  let main_v114 : IVec S27x40000 1 := cmpi .slt main_arg3 main_v113
  let main_v115 : IVec S27x40000 1 := andi main_v112 main_v114
  let main_c_45 : IVec S_ 1 := constantI S_ 1 1#1
  let main_v116 : IVec S_ 1 := (fun x v => Host.reduce IntOp.andi x v reducesTo_S27x40000_S_d0_1 h_S_) main_v115 main_c_45
  let main_v117 : IVec S_ 1 := andi main_v110 main_v116
  let main_c_46 : IVec S_ 32 := constantI S_ 32 0#32
  let main_v118 : IVec S27x25000 32 := broadcastInDim S27x25000 ![] bcast_S_S27x25000 main_c_46
  fn_part7 (F := F) main_arg4 main_arg5 main_v117 main_v118

def fn_part5 {F : FTy → Type} [FloatOps F] (main_arg2 : IVec S27x40000 32) (main_arg3 : IVec S27x40000 32) (main_arg4 : IVec S27x25000 32) (main_arg5 : IVec S27x25000 32) (main_arg22 : FVec F S1 .f32) (main_arg23 : FVec F S64 .f32) (main_arg24 : FVec F S64 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S1 .f32 := Host.absf main_arg22
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S64 .f32 := Host.absf main_arg23
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg24
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg2 main_arg3 main_arg4 main_arg5 main_v98 main_v101 main_c_39

def fn_part4 {F : FTy → Type} [FloatOps F] (main_arg2 : IVec S27x40000 32) (main_arg3 : IVec S27x40000 32) (main_arg4 : IVec S27x25000 32) (main_arg5 : IVec S27x25000 32) (main_arg18 : FVec F S64 .f32) (main_arg19 : FVec F S64 .f32) (main_arg20 : FVec F S64 .f32) (main_arg21 : FVec F S1 .f32) (main_arg22 : FVec F S1 .f32) (main_arg23 : FVec F S64 .f32) (main_arg24 : FVec F S64 .f32) (main_v63 : IVec S_ 1) (main_v67 : IVec S_ 1) : IVec S_ 1 :=
  let main_v68 : IVec S_ 1 := andi main_v63 main_v67
  let main_v69 : FVec F S64 .f32 := Host.absf main_arg18
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg20
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S1 .f32 := Host.absf main_arg21
  let main_cst_32 : FVec F S_ .f32 := constant S_ .f32 0x7F800000#32
  fn_part5 (F := F) main_arg2 main_arg3 main_arg4 main_arg5 main_arg22 main_arg23 main_arg24 main_v83 main_v84 main_cst_32

def fn_part3 {F : FTy → Type} [FloatOps F] (main_arg2 : IVec S27x40000 32) (main_arg3 : IVec S27x40000 32) (main_arg4 : IVec S27x25000 32) (main_arg5 : IVec S27x25000 32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S1 .f32) (main_arg22 : FVec F S1 .f32) (main_arg23 : FVec F S64 .f32) (main_arg24 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg16
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg17
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_arg3 main_arg4 main_arg5 main_arg18 main_arg19 main_arg20 main_arg21 main_arg22 main_arg23 main_arg24 main_v63 main_v67

def fn_part2 {F : FTy → Type} [FloatOps F] (main_arg2 : IVec S27x40000 32) (main_arg3 : IVec S27x40000 32) (main_arg4 : IVec S27x25000 32) (main_arg5 : IVec S27x25000 32) (main_arg11 : FVec F S64 .f32) (main_arg12 : FVec F S27x64x1 .f32) (main_arg13 : FVec F S27x1x64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S1 .f32) (main_arg22 : FVec F S1 .f32) (main_arg23 : FVec F S64 .f32) (main_arg24 : FVec F S64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S27x64x1 .f32 := Host.absf main_arg12
  let main_cst_14 : FVec F S_ .f32 := constant S_ .f32 0x7F800000#32
  let main_v40 : FVec F S27x64x1 .f32 := broadcastInDim S27x64x1 ![] bcast_S_S27x64x1 main_cst_14
  let main_v41 : IVec S27x64x1 1 := cmpf .olt main_v39 main_v40
  let main_c_15 : IVec S_ 1 := constantI S_ 1 1#1
  let main_v42 : IVec S_ 1 := (fun x v => Host.reduce IntOp.andi x v reducesTo_S27x64x1_S_d0_1_2 h_S_) main_v41 main_c_15
  let main_v43 : IVec S_ 1 := andi main_v38 main_v42
  let main_v44 : FVec F S27x1x64 .f32 := Host.absf main_arg13
  let main_cst_16 : FVec F S_ .f32 := constant S_ .f32 0x7F800000#32
  let main_v45 : FVec F S27x1x64 .f32 := broadcastInDim S27x1x64 ![] bcast_S_S27x1x64 main_cst_16
  let main_v46 : IVec S27x1x64 1 := cmpf .olt main_v44 main_v45
  let main_c_17 : IVec S_ 1 := constantI S_ 1 1#1
  let main_v47 : IVec S_ 1 := (fun x v => Host.reduce IntOp.andi x v reducesTo_S27x1x64_S_d0_1_2 h_S_) main_v46 main_c_17
  let main_v48 : IVec S_ 1 := andi main_v43 main_v47
  let main_v49 : FVec F S64 .f32 := Host.absf main_arg14
  let main_cst_18 : FVec F S_ .f32 := constant S_ .f32 0x7F800000#32
  let main_v50 : FVec F S64 .f32 := broadcastInDim S64 ![] bcast_S_S64 main_cst_18
  fn_part3 (F := F) main_arg2 main_arg3 main_arg4 main_arg5 main_arg15 main_arg16 main_arg17 main_arg18 main_arg19 main_arg20 main_arg21 main_arg22 main_arg23 main_arg24 main_v48 main_v49 main_v50

def fn_part1 {F : FTy → Type} [FloatOps F] (main_arg2 : IVec S27x40000 32) (main_arg3 : IVec S27x40000 32) (main_arg4 : IVec S27x25000 32) (main_arg5 : IVec S27x25000 32) (main_arg8 : FVec F S27x128x64 .f32) (main_arg9 : FVec F S64 .f32) (main_arg10 : FVec F S27x64x64 .f32) (main_arg11 : FVec F S64 .f32) (main_arg12 : FVec F S27x64x1 .f32) (main_arg13 : FVec F S27x1x64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S1 .f32) (main_arg22 : FVec F S1 .f32) (main_arg23 : FVec F S64 .f32) (main_arg24 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S27x128x64 .f32 := Host.absf main_arg8
  let main_cst_6 : FVec F S_ .f32 := constant S_ .f32 0x7F800000#32
  let main_v20 : FVec F S27x128x64 .f32 := broadcastInDim S27x128x64 ![] bcast_S_S27x128x64 main_cst_6
  let main_v21 : IVec S27x128x64 1 := cmpf .olt main_v19 main_v20
  let main_c_7 : IVec S_ 1 := constantI S_ 1 1#1
  let main_v22 : IVec S_ 1 := (fun x v => Host.reduce IntOp.andi x v reducesTo_S27x128x64_S_d0_1_2 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S27x64x64 .f32 := Host.absf main_arg10
  let main_cst_10 : FVec F S_ .f32 := constant S_ .f32 0x7F800000#32
  let main_v30 : FVec F S27x64x64 .f32 := broadcastInDim S27x64x64 ![] bcast_S_S27x64x64 main_cst_10
  let main_v31 : IVec S27x64x64 1 := cmpf .olt main_v29 main_v30
  let main_c_11 : IVec S_ 1 := constantI S_ 1 1#1
  let main_v32 : IVec S_ 1 := (fun x v => Host.reduce IntOp.andi x v reducesTo_S27x64x64_S_d0_1_2 h_S_) main_v31 main_c_11
  let main_v33 : IVec S_ 1 := andi main_v28 main_v32
  fn_part2 (F := F) main_arg2 main_arg3 main_arg4 main_arg5 main_arg11 main_arg12 main_arg13 main_arg14 main_arg15 main_arg16 main_arg17 main_arg18 main_arg19 main_arg20 main_arg21 main_arg22 main_arg23 main_arg24 main_v33

def fn {F : FTy → Type} [FloatOps F] (main_arg0 : FVec F S60000x128 .f32) (main_arg1 : FVec F S200000x64 .f32) (main_arg2 : IVec S27x40000 32) (main_arg3 : IVec S27x40000 32) (main_arg4 : IVec S27x25000 32) (main_arg5 : IVec S27x25000 32) (main_arg6 : FVec F S27x64x64 .f32) (main_arg7 : FVec F S64 .f32) (main_arg8 : FVec F S27x128x64 .f32) (main_arg9 : FVec F S64 .f32) (main_arg10 : FVec F S27x64x64 .f32) (main_arg11 : FVec F S64 .f32) (main_arg12 : FVec F S27x64x1 .f32) (main_arg13 : FVec F S27x1x64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S1 .f32) (main_arg22 : FVec F S1 .f32) (main_arg23 : FVec F S64 .f32) (main_arg24 : FVec F S64 .f32) : IVec S_ 1 :=
  let main_v0 : FVec F S60000x128 .f32 := Host.absf main_arg0
  let main_cst : FVec F S_ .f32 := constant S_ .f32 0x7F800000#32
  let main_v1 : FVec F S60000x128 .f32 := broadcastInDim S60000x128 ![] bcast_S_S60000x128 main_cst
  let main_v2 : IVec S60000x128 1 := cmpf .olt main_v0 main_v1
  let main_c : IVec S_ 1 := constantI S_ 1 1#1
  let main_v3 : IVec S_ 1 := (fun x v => Host.reduce IntOp.andi x v reducesTo_S60000x128_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S27x64x64 .f32 := Host.absf main_arg6
  let main_cst_2 : FVec F S_ .f32 := constant S_ .f32 0x7F800000#32
  let main_v10 : FVec F S27x64x64 .f32 := broadcastInDim S27x64x64 ![] bcast_S_S27x64x64 main_cst_2
  let main_v11 : IVec S27x64x64 1 := cmpf .olt main_v9 main_v10
  let main_c_3 : IVec S_ 1 := constantI S_ 1 1#1
  let main_v12 : IVec S_ 1 := (fun x v => Host.reduce IntOp.andi x v reducesTo_S27x64x64_S_d0_1_2 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg3 main_arg4 main_arg5 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S60000x128 : Shape := ⟨2, ![60000, 128]⟩
abbrev S200000x64 : Shape := ⟨2, ![200000, 64]⟩
abbrev S27x40000 : Shape := ⟨2, ![27, 40000]⟩
abbrev S27x25000 : Shape := ⟨2, ![27, 25000]⟩
abbrev S27x64x64 : Shape := ⟨3, ![27, 64, 64]⟩
abbrev S64 : Shape := ⟨1, ![64]⟩
abbrev S27x128x64 : Shape := ⟨3, ![27, 128, 64]⟩
abbrev S27x64x1 : Shape := ⟨3, ![27, 64, 1]⟩
abbrev S27x1x64 : Shape := ⟨3, ![27, 1, 64]⟩
abbrev S1 : Shape := ⟨1, ![1]⟩
abbrev S_ : Shape := ⟨0, ![]⟩
abbrev S27x40000x1 : Shape := ⟨3, ![27, 40000, 1]⟩
abbrev S1x1x1 : Shape := ⟨3, ![1, 1, 1]⟩
abbrev S27x40000x64 : Shape := ⟨3, ![27, 40000, 64]⟩
abbrev S1x5000x64 : Shape := ⟨3, ![1, 5000, 64]⟩
abbrev S1x64x64 : Shape := ⟨3, ![1, 64, 64]⟩
abbrev S5000x64 : Shape := ⟨2, ![5000, 64]⟩
abbrev S64x64 : Shape := ⟨2, ![64, 64]⟩
abbrev S1080000x64 : Shape := ⟨2, ![1080000, 64]⟩
abbrev S1080000 : Shape := ⟨1, ![1080000]⟩
abbrev S60000x64 : Shape := ⟨2, ![60000, 64]⟩
abbrev S1080000x1 : Shape := ⟨2, ![1080000, 1]⟩
abbrev S1x64 : Shape := ⟨2, ![1, 64]⟩
abbrev S3000x64 : Shape := ⟨2, ![3000, 64]⟩
abbrev S27x25000x1 : Shape := ⟨3, ![27, 25000, 1]⟩
abbrev S27x25000x128 : Shape := ⟨3, ![27, 25000, 128]⟩
abbrev S27x25000x64 : Shape := ⟨3, ![27, 25000, 64]⟩
abbrev S1x5000x128 : Shape := ⟨3, ![1, 5000, 128]⟩
abbrev S1x128x64 : Shape := ⟨3, ![1, 128, 64]⟩
abbrev S5000x128 : Shape := ⟨2, ![5000, 128]⟩
abbrev S128x64 : Shape := ⟨2, ![128, 64]⟩
abbrev S675000x64 : Shape := ⟨2, ![675000, 64]⟩
abbrev S675000 : Shape := ⟨1, ![675000]⟩
abbrev S675000x1 : Shape := ⟨2, ![675000, 1]⟩
abbrev S1x64x1 : Shape := ⟨3, ![1, 64, 1]⟩
abbrev S1x5000x1 : Shape := ⟨3, ![1, 5000, 1]⟩
abbrev S64x1 : Shape := ⟨2, ![64, 1]⟩
abbrev S5000x1 : Shape := ⟨2, ![5000, 1]⟩
abbrev S60000x1 : Shape := ⟨2, ![60000, 1]⟩
abbrev S1x1 : Shape := ⟨2, ![1, 1]⟩
abbrev S3000x1 : Shape := ⟨2, ![3000, 1]⟩
abbrev S1x1x64 : Shape := ⟨3, ![1, 1, 64]⟩
abbrev S10000x64 : Shape := ⟨2, ![10000, 64]⟩

abbrev nBuf : Space → Nat
  | .hbm => 213
  | .vmem => 100
  | .smem => 0
  | _ => 0

abbrev hbmTy0_0 (i : Nat) : BufTy := match i % 128 with
  | 0 => ⟨S60000x128, .f32⟩
  | 1 => ⟨S200000x64, .f32⟩
  | 2 => ⟨S27x40000, .i32⟩
  | 3 => ⟨S27x40000, .i32⟩
  | 4 => ⟨S27x25000, .i32⟩
  | 5 => ⟨S27x25000, .i32⟩
  | 6 => ⟨S27x64x64, .f32⟩
  | 7 => ⟨S64, .f32⟩
  | 8 => ⟨S27x128x64, .f32⟩
  | 9 => ⟨S64, .f32⟩
  | 10 => ⟨S27x64x64, .f32⟩
  | 11 => ⟨S64, .f32⟩
  | 12 => ⟨S27x64x1, .f32⟩
  | 13 => ⟨S27x1x64, .f32⟩
  | 14 => ⟨S64, .f32⟩
  | 15 => ⟨S64, .f32⟩
  | 16 => ⟨S64, .f32⟩
  | 17 => ⟨S64, .f32⟩
  | 18 => ⟨S64, .f32⟩
  | 19 => ⟨S64, .f32⟩
  | 20 => ⟨S64, .f32⟩
  | 21 => ⟨S1, .f32⟩
  | 22 => ⟨S1, .f32⟩
  | 23 => ⟨S64, .f32⟩
  | 24 => ⟨S64, .f32⟩
  | 25 => ⟨S_, .i32⟩
  | 26 => ⟨S27x40000, .i32⟩
  | 27 => ⟨S27x40000, .i1⟩
  | 28 => ⟨S_, .i32⟩
  | 29 => ⟨S27x40000, .i32⟩
  | 30 => ⟨S27x40000, .i32⟩
  | 31 => ⟨S27x40000, .i32⟩
  | 32 => ⟨S27x40000x1, .i32⟩
  | 33 => ⟨S1, .i32⟩
  | 34 => ⟨S_, .i32⟩
  | 35 => ⟨S27x40000x1, .i32⟩
  | 36 => ⟨S27x40000x1, .i1⟩
  | 37 => ⟨S1x1x1, .i32⟩
  | 38 => ⟨S27x40000x1, .i32⟩
  | 39 => ⟨S27x40000x1, .i1⟩
  | 40 => ⟨S27x40000x1, .i1⟩
  | 41 => ⟨S_, .i1⟩
  | 42 => ⟨S27x40000, .i1⟩
  | 43 => ⟨S27x40000x64, .f32⟩
  | 44 => ⟨S27x40000x64, .i1⟩
  | 45 => ⟨S_, .f32⟩
  | 46 => ⟨S27x40000x64, .f32⟩
  | 47 => ⟨S27x40000x64, .f32⟩
  | 48 => ⟨S27x40000x64, .f32⟩
  | 49 => ⟨S1080000x64, .f32⟩
  | 50 => ⟨S1080000, .i32⟩
  | 51 => ⟨S_, .f32⟩
  | 52 => ⟨S60000x64, .f32⟩
  | 53 => ⟨S1080000x1, .i32⟩
  | 54 => ⟨S60000x64, .f32⟩
  | 55 => ⟨S1x64, .f32⟩
  | 56 => ⟨S60000x64, .f32⟩
  | 57 => ⟨S60000x64, .f32⟩
  | 58 => ⟨S1x64, .f32⟩
  | 59 => ⟨S1x64, .f32⟩
  | 60 => ⟨S1x64, .f32⟩
  | 61 => ⟨S1x64, .f32⟩
  | 62 => ⟨S60000x64, .f32⟩
  | 63 => ⟨S_, .i32⟩
  | 64 => ⟨S27x25000, .i32⟩
  | 65 => ⟨S27x25000, .i1⟩
  | 66 => ⟨S_, .i32⟩
  | 67 => ⟨S27x25000, .i32⟩
  | 68 => ⟨S27x25000, .i32⟩
  | 69 => ⟨S27x25000, .i32⟩
  | 70 => ⟨S27x25000x1, .i32⟩
  | 71 => ⟨S1, .i32⟩
  | 72 => ⟨S_, .i32⟩
  | 73 => ⟨S27x25000x1, .i32⟩
  | 74 => ⟨S27x25000x1, .i1⟩
  | 75 => ⟨S1x1x1, .i32⟩
  | 76 => ⟨S27x25000x1, .i32⟩
  | 77 => ⟨S27x25000x1, .i1⟩
  | 78 => ⟨S27x25000x1, .i1⟩
  | 79 => ⟨S_, .i1⟩
  | 80 => ⟨S27x25000, .i1⟩
  | 81 => ⟨S27x25000x128, .f32⟩
  | 82 => ⟨S27x25000x128, .i1⟩
  | 83 => ⟨S_, .f32⟩
  | 84 => ⟨S27x25000x128, .f32⟩
  | 85 => ⟨S27x25000x128, .f32⟩
  | 86 => ⟨S27x25000x64, .f32⟩
  | 87 => ⟨S675000x64, .f32⟩
  | 88 => ⟨S675000, .i32⟩
  | 89 => ⟨S_, .f32⟩
  | 90 => ⟨S60000x64, .f32⟩
  | 91 => ⟨S675000x1, .i32⟩
  | 92 => ⟨S60000x64, .f32⟩
  | 93 => ⟨S1x64, .f32⟩
  | 94 => ⟨S60000x64, .f32⟩
  | 95 => ⟨S60000x64, .f32⟩
  | 96 => ⟨S1x64, .f32⟩
  | 97 => ⟨S1x64, .f32⟩
  | 98 => ⟨S1x64, .f32⟩
  | 99 => ⟨S1x64, .f32⟩
  | 100 => ⟨S60000x64, .f32⟩
  | 101 => ⟨S_, .i32⟩
  | 102 => ⟨S27x25000, .i32⟩
  | 103 => ⟨S27x25000, .i1⟩
  | 104 => ⟨S_, .i32⟩
  | 105 => ⟨S27x25000, .i32⟩
  | 106 => ⟨S27x25000, .i32⟩
  | 107 => ⟨S27x25000, .i32⟩
  | 108 => ⟨S27x25000x1, .i32⟩
  | 109 => ⟨S1, .i32⟩
  | 110 => ⟨S_, .i32⟩
  | 111 => ⟨S27x25000x1, .i32⟩
  | 112 => ⟨S27x25000x1, .i1⟩
  | 113 => ⟨S1x1x1, .i32⟩
  | 114 => ⟨S27x25000x1, .i32⟩
  | 115 => ⟨S27x25000x1, .i1⟩
  | 116 => ⟨S27x25000x1, .i1⟩
  | 117 => ⟨S_, .i1⟩
  | 118 => ⟨S27x25000, .i1⟩
  | 119 => ⟨S27x25000x64, .f32⟩
  | 120 => ⟨S27x25000x64, .i1⟩
  | 121 => ⟨S_, .f32⟩
  | 122 => ⟨S27x25000x64, .f32⟩
  | 123 => ⟨S27x25000x64, .f32⟩
  | 124 => ⟨S27x25000x64, .f32⟩
  | 125 => ⟨S675000x64, .f32⟩
  | 126 => ⟨S675000, .i32⟩
  | 127 => ⟨S_, .f32⟩
  | _ => ⟨S60000x128, .f32⟩

abbrev hbmTy0_1 (i : Nat) : BufTy := match i % 128 with
  | 0 => ⟨S60000x64, .f32⟩
  | 1 => ⟨S675000x1, .i32⟩
  | 2 => ⟨S60000x64, .f32⟩
  | 3 => ⟨S1x64, .f32⟩
  | 4 => ⟨S60000x64, .f32⟩
  | 5 => ⟨S60000x64, .f32⟩
  | 6 => ⟨S1x64, .f32⟩
  | 7 => ⟨S1x64, .f32⟩
  | 8 => ⟨S1x64, .f32⟩
  | 9 => ⟨S1x64, .f32⟩
  | 10 => ⟨S60000x64, .f32⟩
  | 11 => ⟨S60000x64, .f32⟩
  | 12 => ⟨S_, .i32⟩
  | 13 => ⟨S27x25000, .i32⟩
  | 14 => ⟨S27x25000, .i1⟩
  | 15 => ⟨S_, .i32⟩
  | 16 => ⟨S27x25000, .i32⟩
  | 17 => ⟨S27x25000, .i32⟩
  | 18 => ⟨S27x25000, .i32⟩
  | 19 => ⟨S27x25000x1, .i32⟩
  | 20 => ⟨S1, .i32⟩
  | 21 => ⟨S_, .i32⟩
  | 22 => ⟨S27x25000x1, .i32⟩
  | 23 => ⟨S27x25000x1, .i1⟩
  | 24 => ⟨S1x1x1, .i32⟩
  | 25 => ⟨S27x25000x1, .i32⟩
  | 26 => ⟨S27x25000x1, .i1⟩
  | 27 => ⟨S27x25000x1, .i1⟩
  | 28 => ⟨S_, .i1⟩
  | 29 => ⟨S27x25000, .i1⟩
  | 30 => ⟨S27x25000x64, .f32⟩
  | 31 => ⟨S27x25000x64, .i1⟩
  | 32 => ⟨S_, .f32⟩
  | 33 => ⟨S27x25000x64, .f32⟩
  | 34 => ⟨S27x25000x64, .f32⟩
  | 35 => ⟨S27x25000x1, .f32⟩
  | 36 => ⟨S675000x1, .f32⟩
  | 37 => ⟨S675000, .i32⟩
  | 38 => ⟨S_, .f32⟩
  | 39 => ⟨S60000x1, .f32⟩
  | 40 => ⟨S675000x1, .i32⟩
  | 41 => ⟨S60000x1, .f32⟩
  | 42 => ⟨S1x1, .f32⟩
  | 43 => ⟨S1x1, .f32⟩
  | 44 => ⟨S1x1, .f32⟩
  | 45 => ⟨S1x1, .f32⟩
  | 46 => ⟨S60000x1, .f32⟩
  | 47 => ⟨S_, .i32⟩
  | 48 => ⟨S27x40000, .i32⟩
  | 49 => ⟨S27x40000, .i1⟩
  | 50 => ⟨S_, .i32⟩
  | 51 => ⟨S27x40000, .i32⟩
  | 52 => ⟨S27x40000, .i32⟩
  | 53 => ⟨S27x40000, .i32⟩
  | 54 => ⟨S27x40000x1, .i32⟩
  | 55 => ⟨S1, .i32⟩
  | 56 => ⟨S_, .i32⟩
  | 57 => ⟨S27x40000x1, .i32⟩
  | 58 => ⟨S27x40000x1, .i1⟩
  | 59 => ⟨S1x1x1, .i32⟩
  | 60 => ⟨S27x40000x1, .i32⟩
  | 61 => ⟨S27x40000x1, .i1⟩
  | 62 => ⟨S27x40000x1, .i1⟩
  | 63 => ⟨S_, .i1⟩
  | 64 => ⟨S27x40000, .i1⟩
  | 65 => ⟨S27x40000x1, .f32⟩
  | 66 => ⟨S27x40000x1, .i1⟩
  | 67 => ⟨S_, .f32⟩
  | 68 => ⟨S27x40000x1, .f32⟩
  | 69 => ⟨S27x40000x1, .f32⟩
  | 70 => ⟨S27x40000x64, .f32⟩
  | 71 => ⟨S1080000x64, .f32⟩
  | 72 => ⟨S1080000, .i32⟩
  | 73 => ⟨S_, .f32⟩
  | 74 => ⟨S200000x64, .f32⟩
  | 75 => ⟨S1080000x1, .i32⟩
  | 76 => ⟨S200000x64, .f32⟩
  | 77 => ⟨S1x64, .f32⟩
  | 78 => ⟨S200000x64, .f32⟩
  | 79 => ⟨S200000x64, .f32⟩
  | 80 => ⟨S1x64, .f32⟩
  | 81 => ⟨S1x64, .f32⟩
  | 82 => ⟨S1x64, .f32⟩
  | 83 => ⟨S1x64, .f32⟩
  | 84 => ⟨S200000x64, .f32⟩
  | _ => ⟨S60000x128, .f32⟩

abbrev hbmTy (i : Nat) : BufTy := match i / 128 with
  | 0 => hbmTy0_0 i
  | 1 => hbmTy0_1 i
  | _ => ⟨S60000x128, .f32⟩

abbrev bufTy : (tb : Table) → Fin (tcTables nBuf tb) → BufTy
  | .hbm, ⟨i, _⟩ => hbmTy i
  | .local _ .vmem, ⟨0, _⟩ => ⟨S1x5000x64, .f32⟩
  | .local _ .vmem, ⟨1, _⟩ => ⟨S1x5000x64, .f32⟩
  | .local _ .vmem, ⟨2, _⟩ => ⟨S1x64x64, .f32⟩
  | .local _ .vmem, ⟨3, _⟩ => ⟨S1x64x64, .f32⟩
  | .local _ .vmem, ⟨4, _⟩ => ⟨S1x5000x64, .f32⟩
  | .local _ .vmem, ⟨5, _⟩ => ⟨S1x5000x64, .f32⟩
  | .local _ .vmem, ⟨6, _⟩ => ⟨S3000x64, .f32⟩
  | .local _ .vmem, ⟨7, _⟩ => ⟨S3000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S3000x64, .f32⟩
  | .local _ .vmem, ⟨13, _⟩ => ⟨S3000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S3000x64, .f32⟩
  | .local _ .vmem, ⟨19, _⟩ => ⟨S3000x64, .f32⟩
  | .local _ .vmem, ⟨20, _⟩ => ⟨S1x5000x128, .f32⟩
  | .local _ .vmem, ⟨21, _⟩ => ⟨S1x5000x128, .f32⟩
  | .local _ .vmem, ⟨22, _⟩ => ⟨S1x128x64, .f32⟩
  | .local _ .vmem, ⟨23, _⟩ => ⟨S1x128x64, .f32⟩
  | .local _ .vmem, ⟨24, _⟩ => ⟨S1x5000x64, .f32⟩
  | .local _ .vmem, ⟨25, _⟩ => ⟨S1x5000x64, .f32⟩
  | .local _ .vmem, ⟨26, _⟩ => ⟨S3000x64, .f32⟩
  | .local _ .vmem, ⟨27, _⟩ => ⟨S3000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S3000x64, .f32⟩
  | .local _ .vmem, ⟨33, _⟩ => ⟨S3000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S3000x64, .f32⟩
  | .local _ .vmem, ⟨39, _⟩ => ⟨S3000x64, .f32⟩
  | .local _ .vmem, ⟨40, _⟩ => ⟨S1x5000x64, .f32⟩
  | .local _ .vmem, ⟨41, _⟩ => ⟨S1x5000x64, .f32⟩
  | .local _ .vmem, ⟨42, _⟩ => ⟨S1x64x64, .f32⟩
  | .local _ .vmem, ⟨43, _⟩ => ⟨S1x64x64, .f32⟩
  | .local _ .vmem, ⟨44, _⟩ => ⟨S1x5000x64, .f32⟩
  | .local _ .vmem, ⟨45, _⟩ => ⟨S1x5000x64, .f32⟩
  | .local _ .vmem, ⟨46, _⟩ => ⟨S3000x64, .f32⟩
  | .local _ .vmem, ⟨47, _⟩ => ⟨S3000x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S3000x64, .f32⟩
  | .local _ .vmem, ⟨53, _⟩ => ⟨S3000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S3000x64, .f32⟩
  | .local _ .vmem, ⟨59, _⟩ => ⟨S3000x64, .f32⟩
  | .local _ .vmem, ⟨60, _⟩ => ⟨S1x5000x64, .f32⟩
  | .local _ .vmem, ⟨61, _⟩ => ⟨S1x5000x64, .f32⟩
  | .local _ .vmem, ⟨62, _⟩ => ⟨S1x64x1, .f32⟩
  | .local _ .vmem, ⟨63, _⟩ => ⟨S1x64x1, .f32⟩
  | .local _ .vmem, ⟨64, _⟩ => ⟨S1x5000x1, .f32⟩
  | .local _ .vmem, ⟨65, _⟩ => ⟨S1x5000x1, .f32⟩
  | .local _ .vmem, ⟨66, _⟩ => ⟨S3000x1, .f32⟩
  | .local _ .vmem, ⟨67, _⟩ => ⟨S3000x1, .f32⟩
  | .local _ .vmem, ⟨68, _⟩ => ⟨S1x1, .f32⟩
  | .local _ .vmem, ⟨69, _⟩ => ⟨S1x1, .f32⟩
  | .local _ .vmem, ⟨70, _⟩ => ⟨S1x1, .f32⟩
  | .local _ .vmem, ⟨71, _⟩ => ⟨S1x1, .f32⟩
  | .local _ .vmem, ⟨72, _⟩ => ⟨S3000x1, .f32⟩
  | .local _ .vmem, ⟨73, _⟩ => ⟨S3000x1, .f32⟩
  | .local _ .vmem, ⟨74, _⟩ => ⟨S1x1, .f32⟩
  | .local _ .vmem, ⟨75, _⟩ => ⟨S1x1, .f32⟩
  | .local _ .vmem, ⟨76, _⟩ => ⟨S1x1, .f32⟩
  | .local _ .vmem, ⟨77, _⟩ => ⟨S1x1, .f32⟩
  | .local _ .vmem, ⟨78, _⟩ => ⟨S3000x1, .f32⟩
  | .local _ .vmem, ⟨79, _⟩ => ⟨S3000x1, .f32⟩
  | .local _ .vmem, ⟨80, _⟩ => ⟨S1x5000x1, .f32⟩
  | .local _ .vmem, ⟨81, _⟩ => ⟨S1x5000x1, .f32⟩
  | .local _ .vmem, ⟨82, _⟩ => ⟨S1x1x64, .f32⟩
  | .local _ .vmem, ⟨83, _⟩ => ⟨S1x1x64, .f32⟩
  | .local _ .vmem, ⟨84, _⟩ => ⟨S1x5000x64, .f32⟩
  | .local _ .vmem, ⟨85, _⟩ => ⟨S1x5000x64, .f32⟩
  | .local _ .vmem, ⟨86, _⟩ => ⟨S10000x64, .f32⟩
  | .local _ .vmem, ⟨87, _⟩ => ⟨S10000x64, .f32⟩
  | .local _ .vmem, ⟨88, _⟩ => ⟨S1x64, .f32⟩
  | .local _ .vmem, ⟨89, _⟩ => ⟨S1x64, .f32⟩
  | .local _ .vmem, ⟨90, _⟩ => ⟨S1x64, .f32⟩
  | .local _ .vmem, ⟨91, _⟩ => ⟨S1x64, .f32⟩
  | .local _ .vmem, ⟨92, _⟩ => ⟨S10000x64, .f32⟩
  | .local _ .vmem, ⟨93, _⟩ => ⟨S10000x64, .f32⟩
  | .local _ .vmem, ⟨94, _⟩ => ⟨S1x64, .f32⟩
  | .local _ .vmem, ⟨95, _⟩ => ⟨S1x64, .f32⟩
  | .local _ .vmem, ⟨96, _⟩ => ⟨S1x64, .f32⟩
  | .local _ .vmem, ⟨97, _⟩ => ⟨S1x64, .f32⟩
  | .local _ .vmem, ⟨98, _⟩ => ⟨S10000x64, .f32⟩
  | .local _ .vmem, ⟨99, _⟩ => ⟨S10000x64, .f32⟩
  | _, _ => ⟨S60000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v0 : Ref sig .tc := ⟨.hbm, 47, rfl⟩
abbrev main_v1 : Ref sig .tc := ⟨.hbm, 48, rfl⟩
abbrev main_v2 : Ref sig .tc := ⟨.hbm, 49, rfl⟩
abbrev main_v3 : Ref sig .tc := ⟨.hbm, 50, rfl⟩
abbrev main_cst : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12_0 : Ref sig .tc := ⟨.hbm, 60, rfl⟩
abbrev main_v12_1 : Ref sig .tc := ⟨.hbm, 61, rfl⟩
abbrev main_v13 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v14 : Ref sig .tc := ⟨.hbm, 85, rfl⟩
abbrev main_v15 : Ref sig .tc := ⟨.hbm, 86, rfl⟩
abbrev main_v16 : Ref sig .tc := ⟨.hbm, 87, rfl⟩
abbrev main_v17 : Ref sig .tc := ⟨.hbm, 88, rfl⟩
abbrev main_cst_0 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26_0 : Ref sig .tc := ⟨.hbm, 98, rfl⟩
abbrev main_v26_1 : Ref sig .tc := ⟨.hbm, 99, rfl⟩
abbrev main_v27 : Ref sig .tc := ⟨.hbm, 100, rfl⟩
abbrev main_call2_c : Ref sig .tc := ⟨.hbm, 101, rfl⟩
abbrev main_call2_v0 : Ref sig .tc := ⟨.hbm, 102, rfl⟩
abbrev main_call2_v1 : Ref sig .tc := ⟨.hbm, 103, rfl⟩
abbrev main_call2_c_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_c_1 : Ref sig .tc := ⟨.hbm, 109, rfl⟩
abbrev main_call2_c_2 : Ref sig .tc := ⟨.hbm, 110, rfl⟩
abbrev main_call2_v6 : Ref sig .tc := ⟨.hbm, 111, rfl⟩
abbrev main_call2_v7 : Ref sig .tc := ⟨.hbm, 112, rfl⟩
abbrev main_call2_v8 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_c_3 : Ref sig .tc := ⟨.hbm, 117, rfl⟩
abbrev main_call2_v12 : Ref sig .tc := ⟨.hbm, 118, rfl⟩
abbrev main_call2_v13 : Ref sig .tc := ⟨.hbm, 119, rfl⟩
abbrev main_call2_v14 : Ref sig .tc := ⟨.hbm, 120, rfl⟩
abbrev main_call2_cst : Ref sig .tc := ⟨.hbm, 121, rfl⟩
abbrev main_call2_v15 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_cst_1 : Ref sig .tc := ⟨.hbm, 127, rfl⟩
abbrev main_v32 : Ref sig .tc := ⟨.hbm, 128, rfl⟩
abbrev main_v33 : Ref sig .tc := ⟨.hbm, 129, rfl⟩
abbrev main_v34 : Ref sig .tc := ⟨.hbm, 130, rfl⟩
abbrev main_v35 : Ref sig .tc := ⟨.hbm, 131, rfl⟩
abbrev main_v36 : Ref sig .tc := ⟨.hbm, 132, rfl⟩
abbrev main_v37 : Ref sig .tc := ⟨.hbm, 133, rfl⟩
abbrev main_v38 : Ref sig .tc := ⟨.hbm, 134, rfl⟩
abbrev main_v39 : Ref sig .tc := ⟨.hbm, 135, rfl⟩
abbrev main_v40_0 : Ref sig .tc := ⟨.hbm, 136, rfl⟩
abbrev main_v40_1 : Ref sig .tc := ⟨.hbm, 137, rfl⟩
abbrev main_v41 : Ref sig .tc := ⟨.hbm, 138, rfl⟩
abbrev main_v42 : Ref sig .tc := ⟨.hbm, 139, rfl⟩
abbrev main_call3_c : Ref sig .tc := ⟨.hbm, 140, rfl⟩
abbrev main_call3_v0 : Ref sig .tc := ⟨.hbm, 141, rfl⟩
abbrev main_call3_v1 : Ref sig .tc := ⟨.hbm, 142, rfl⟩
abbrev main_call3_c_0 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_call3_v5 : Ref sig .tc := ⟨.hbm, 147, rfl⟩
abbrev main_call3_c_1 : Ref sig .tc := ⟨.hbm, 148, rfl⟩
abbrev main_call3_c_2 : Ref sig .tc := ⟨.hbm, 149, rfl⟩
abbrev main_call3_v6 : Ref sig .tc := ⟨.hbm, 150, rfl⟩
abbrev main_call3_v7 : Ref sig .tc := ⟨.hbm, 151, rfl⟩
abbrev main_call3_v8 : Ref sig .tc := ⟨.hbm, 152, rfl⟩
abbrev main_call3_v9 : Ref sig .tc := ⟨.hbm, 153, rfl⟩
abbrev main_call3_v10 : Ref sig .tc := ⟨.hbm, 154, rfl⟩
abbrev main_call3_v11 : Ref sig .tc := ⟨.hbm, 155, rfl⟩
abbrev main_call3_c_3 : Ref sig .tc := ⟨.hbm, 156, rfl⟩
abbrev main_call3_v12 : Ref sig .tc := ⟨.hbm, 157, rfl⟩
abbrev main_call3_v13 : Ref sig .tc := ⟨.hbm, 158, rfl⟩
abbrev main_call3_v14 : Ref sig .tc := ⟨.hbm, 159, rfl⟩
abbrev main_call3_cst : Ref sig .tc := ⟨.hbm, 160, rfl⟩
abbrev main_call3_v15 : Ref sig .tc := ⟨.hbm, 161, rfl⟩
abbrev main_v43 : Ref sig .tc := ⟨.hbm, 162, rfl⟩
abbrev main_v44 : Ref sig .tc := ⟨.hbm, 163, rfl⟩
abbrev main_v45 : Ref sig .tc := ⟨.hbm, 164, rfl⟩
abbrev main_v46 : Ref sig .tc := ⟨.hbm, 165, rfl⟩
abbrev main_cst_2 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩
abbrev main_v52_0 : Ref sig .tc := ⟨.hbm, 172, rfl⟩
abbrev main_v52_1 : Ref sig .tc := ⟨.hbm, 173, rfl⟩
abbrev main_v53 : Ref sig .tc := ⟨.hbm, 174, rfl⟩
abbrev main_call4_c : Ref sig .tc := ⟨.hbm, 175, rfl⟩
abbrev main_call4_v0 : Ref sig .tc := ⟨.hbm, 176, rfl⟩
abbrev main_call4_v1 : Ref sig .tc := ⟨.hbm, 177, rfl⟩
abbrev main_call4_c_0 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_c_1 : Ref sig .tc := ⟨.hbm, 183, rfl⟩
abbrev main_call4_c_2 : Ref sig .tc := ⟨.hbm, 184, rfl⟩
abbrev main_call4_v6 : Ref sig .tc := ⟨.hbm, 185, rfl⟩
abbrev main_call4_v7 : Ref sig .tc := ⟨.hbm, 186, rfl⟩
abbrev main_call4_v8 : Ref sig .tc := ⟨.hbm, 187, rfl⟩
abbrev main_call4_v9 : Ref sig .tc := ⟨.hbm, 188, rfl⟩
abbrev main_call4_v10 : Ref sig .tc := ⟨.hbm, 189, rfl⟩
abbrev main_call4_v11 : Ref sig .tc := ⟨.hbm, 190, rfl⟩
abbrev main_call4_c_3 : Ref sig .tc := ⟨.hbm, 191, rfl⟩
abbrev main_call4_v12 : Ref sig .tc := ⟨.hbm, 192, rfl⟩
abbrev main_call4_v13 : Ref sig .tc := ⟨.hbm, 193, rfl⟩
abbrev main_call4_v14 : Ref sig .tc := ⟨.hbm, 194, rfl⟩
abbrev main_call4_cst : Ref sig .tc := ⟨.hbm, 195, rfl⟩
abbrev main_call4_v15 : Ref sig .tc := ⟨.hbm, 196, rfl⟩
abbrev main_v54 : Ref sig .tc := ⟨.hbm, 197, rfl⟩
abbrev main_v55 : Ref sig .tc := ⟨.hbm, 198, rfl⟩
abbrev main_v56 : Ref sig .tc := ⟨.hbm, 199, rfl⟩
abbrev main_v57 : Ref sig .tc := ⟨.hbm, 200, rfl⟩
abbrev main_cst_3 : Ref sig .tc := ⟨.hbm, 201, rfl⟩
abbrev main_v58 : Ref sig .tc := ⟨.hbm, 202, rfl⟩
abbrev main_v59 : Ref sig .tc := ⟨.hbm, 203, rfl⟩
abbrev main_v60 : Ref sig .tc := ⟨.hbm, 204, rfl⟩
abbrev main_v61 : Ref sig .tc := ⟨.hbm, 205, rfl⟩
abbrev main_v62 : Ref sig .tc := ⟨.hbm, 206, rfl⟩
abbrev main_v63 : Ref sig .tc := ⟨.hbm, 207, rfl⟩
abbrev main_v64 : Ref sig .tc := ⟨.hbm, 208, rfl⟩
abbrev main_v65 : Ref sig .tc := ⟨.hbm, 209, rfl⟩
abbrev main_v66_0 : Ref sig .tc := ⟨.hbm, 210, rfl⟩
abbrev main_v66_1 : Ref sig .tc := ⟨.hbm, 211, rfl⟩
abbrev main_v67 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_scratch0 : Ref sig .tc := ⟨.vmem, 30, rfl⟩
abbrev cc4_scratch1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_scratch0 : Ref sig .tc := ⟨.vmem, 50, rfl⟩
abbrev cc7_scratch1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg4_0 : Ref sig .tc := ⟨.vmem, 57, rfl⟩
abbrev cc8_stg5_0 : Ref sig .tc := ⟨.vmem, 58, rfl⟩
abbrev cc8_stg5_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg1_1 : Ref sig .tc := ⟨.vmem, 63, rfl⟩
abbrev cc9_stg2_0 : Ref sig .tc := ⟨.vmem, 64, rfl⟩
abbrev cc9_stg2_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg2_0 : Ref sig .tc := ⟨.vmem, 69, rfl⟩
abbrev cc10_scratch0 : Ref sig .tc := ⟨.vmem, 70, rfl⟩
abbrev cc10_scratch1 : Ref sig .tc := ⟨.vmem, 71, rfl⟩
abbrev cc11_stg0_0 : Ref sig .tc := ⟨.vmem, 72, rfl⟩
abbrev cc11_stg0_1 : Ref sig .tc := ⟨.vmem, 73, rfl⟩
abbrev cc11_stg1_0 : Ref sig .tc := ⟨.vmem, 74, rfl⟩
abbrev cc11_stg2_0 : Ref sig .tc := ⟨.vmem, 75, rfl⟩
abbrev cc11_stg3_0 : Ref sig .tc := ⟨.vmem, 76, rfl⟩
abbrev cc11_stg4_0 : Ref sig .tc := ⟨.vmem, 77, rfl⟩
abbrev cc11_stg5_0 : Ref sig .tc := ⟨.vmem, 78, rfl⟩
abbrev cc11_stg5_1 : Ref sig .tc := ⟨.vmem, 79, rfl⟩
abbrev cc12_stg0_0 : Ref sig .tc := ⟨.vmem, 80, rfl⟩
abbrev cc12_stg0_1 : Ref sig .tc := ⟨.vmem, 81, rfl⟩
abbrev cc12_stg1_0 : Ref sig .tc := ⟨.vmem, 82, rfl⟩
abbrev cc12_stg1_1 : Ref sig .tc := ⟨.vmem, 83, rfl⟩
abbrev cc12_stg2_0 : Ref sig .tc := ⟨.vmem, 84, rfl⟩
abbrev cc12_stg2_1 : Ref sig .tc := ⟨.vmem, 85, rfl⟩
abbrev cc13_stg0_0 : Ref sig .tc := ⟨.vmem, 86, rfl⟩
abbrev cc13_stg0_1 : Ref sig .tc := ⟨.vmem, 87, rfl⟩
abbrev cc13_stg1_0 : Ref sig .tc := ⟨.vmem, 88, rfl⟩
abbrev cc13_stg2_0 : Ref sig .tc := ⟨.vmem, 89, rfl⟩
abbrev cc13_scratch0 : Ref sig .tc := ⟨.vmem, 90, rfl⟩
abbrev cc13_scratch1 : Ref sig .tc := ⟨.vmem, 91, rfl⟩
abbrev cc14_stg0_0 : Ref sig .tc := ⟨.vmem, 92, rfl⟩
abbrev cc14_stg0_1 : Ref sig .tc := ⟨.vmem, 93, rfl⟩
abbrev cc14_stg1_0 : Ref sig .tc := ⟨.vmem, 94, rfl⟩
abbrev cc14_stg2_0 : Ref sig .tc := ⟨.vmem, 95, rfl⟩
abbrev cc14_stg3_0 : Ref sig .tc := ⟨.vmem, 96, rfl⟩
abbrev cc14_stg4_0 : Ref sig .tc := ⟨.vmem, 97, rfl⟩
abbrev cc14_stg5_0 : Ref sig .tc := ⟨.vmem, 98, rfl⟩
abbrev cc14_stg5_1 : Ref sig .tc := ⟨.vmem, 99, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem5_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem3_0 : DmaSem sig := 50
abbrev cc8_sem4_0 : DmaSem sig := 51
abbrev cc8_sem5_0 : DmaSem sig := 52
abbrev cc8_sem5_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59
abbrev cc10_sem0_0 : DmaSem sig := 60
abbrev cc10_sem0_1 : DmaSem sig := 61
abbrev cc10_sem1_0 : DmaSem sig := 62
abbrev cc10_sem2_0 : DmaSem sig := 63
abbrev cc11_sem0_0 : DmaSem sig := 64
abbrev cc11_sem0_1 : DmaSem sig := 65
abbrev cc11_sem1_0 : DmaSem sig := 66
abbrev cc11_sem2_0 : DmaSem sig := 67
abbrev cc11_sem3_0 : DmaSem sig := 68
abbrev cc11_sem4_0 : DmaSem sig := 69
abbrev cc11_sem5_0 : DmaSem sig := 70
abbrev cc11_sem5_1 : DmaSem sig := 71
abbrev cc12_sem0_0 : DmaSem sig := 72
abbrev cc12_sem0_1 : DmaSem sig := 73
abbrev cc12_sem1_0 : DmaSem sig := 74
abbrev cc12_sem1_1 : DmaSem sig := 75
abbrev cc12_sem2_0 : DmaSem sig := 76
abbrev cc12_sem2_1 : DmaSem sig := 77
abbrev cc13_sem0_0 : DmaSem sig := 78
abbrev cc13_sem0_1 : DmaSem sig := 79
abbrev cc13_sem1_0 : DmaSem sig := 80
abbrev cc13_sem2_0 : DmaSem sig := 81
abbrev cc14_sem0_0 : DmaSem sig := 82
abbrev cc14_sem0_1 : DmaSem sig := 83
abbrev cc14_sem1_0 : DmaSem sig := 84
abbrev cc14_sem2_0 : DmaSem sig := 85
abbrev cc14_sem3_0 : DmaSem sig := 86
abbrev cc14_sem4_0 : DmaSem sig := 87
abbrev cc14_sem5_0 : DmaSem sig := 88
abbrev cc14_sem5_1 : DmaSem sig := 89

abbrev nD : Nat := 1
abbrev τ : Topo := Topo.v7x

variable {F : FTy → Type} [FloatOps F]

abbrev grid0 : Pipeline.Grid := ⟨2, ![27, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S3000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![27, 5], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x128x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S3000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S3000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S3000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨2, ![27, 5], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S1x5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x64x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S3000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S3000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S3000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨2, ![27, 5], ![false, false]⟩

def cc9_transform_0 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc9_transform_1 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage9_0 : Fin 2 → Memref sig .tc .vmem S1x5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1x64x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev stage9_2 : Fin 2 → Memref sig .tc .vmem S1x5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨1, ![20], ![false]⟩

def k10_cond2 (i : grid10.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S3000x1 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x1 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S3000x1 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x1 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x1 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x1 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S3000x1 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨2, ![27, 8], ![false, false]⟩

def cc12_transform_0 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc12_transform_1 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc12_transform_2 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage12_0 : Fin 2 → Memref sig .tc .vmem S1x5000x1 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 2 → Memref sig .tc .vmem S1x1x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true, false]

abbrev stage12_2 : Fin 2 → Memref sig .tc .vmem S1x5000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true]

abbrev grid13 : Pipeline.Grid := ⟨1, ![20], ![false]⟩

def k13_cond2 (i : grid13.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S10000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x64 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S10000x64 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

class Facts₀ : Prop where
  bcast_S_S27x40000 : S_.BroadcastsInDim S27x40000 (![] : Fin 0 → Fin S27x40000.rank)
  bcast_S27x40000_S27x40000x1_0_1 : S27x40000.BroadcastsInDim S27x40000x1 (![0, 1] : Fin 2 → Fin S27x40000x1.rank)
  bcast_S_S27x40000x1 : S_.BroadcastsInDim S27x40000x1 (![] : Fin 0 → Fin S27x40000x1.rank)
  bcast_S1_S1x1x1_2 : S1.BroadcastsInDim S1x1x1 (![2] : Fin 1 → Fin S1x1x1.rank)
  bcast_S1x1x1_S27x40000x1_0_1_2 : S1x1x1.BroadcastsInDim S27x40000x1 (![0, 1, 2] : Fin 3 → Fin S27x40000x1.rank)
  reducesTo_S27x40000x1_S27x40000_d2 : S27x40000x1.ReducesTo [2] S27x40000
  h_S_ : 0 < S_.numel
  bcast_S27x40000_S27x40000x64_0_1 : S27x40000.BroadcastsInDim S27x40000x64 (![0, 1] : Fin 2 → Fin S27x40000x64.rank)
  bcast_S_S27x40000x64 : S_.BroadcastsInDim S27x40000x64 (![] : Fin 0 → Fin S27x40000x64.rank)
  inb_S1x5000x64_S1x5000x64_0_0_0 : ∀ a, (![0, 0, 0] : Fin 3 → Nat) a + S1x5000x64.size a ≤ S1x5000x64.size a
  h_S1x5000x64 : 0 < S1x5000x64.numel
  shapeCasts_S1x5000x64_S5000x64 : S1x5000x64.ShapeCasts S5000x64
  bitsLt_bf16_f32 : FTy.bits .bf16 < FTy.bits .f32
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S5000x64_S1x5000x64 : S5000x64.ShapeCasts S1x5000x64
  shapeCasts_S27x40000x64_S1080000x64 : S27x40000x64.ShapeCasts S1080000x64
  shapeCasts_S27x40000_S1080000 : S27x40000.ShapeCasts S1080000
  bcast_S_S60000x64 : S_.BroadcastsInDim S60000x64 (![] : Fin 0 → Fin S60000x64.rank)
  bcast_S1080000_S1080000x1_0 : S1080000.BroadcastsInDim S1080000x1 (![0] : Fin 1 → Fin S1080000x1.rank)
  bcast_S64_S1x64_1 : S64.BroadcastsInDim S1x64 (![1] : Fin 1 → Fin S1x64.rank)
  bcast_S1x64_S60000x64_0_1 : S1x64.BroadcastsInDim S60000x64 (![0, 1] : Fin 2 → Fin S60000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  reduces_S3000x64_S64 : S3000x64.Reduces [0] S64
  broadcasts_S1x64_S3000x64 : S1x64.Broadcasts S3000x64
  bcast_S_S27x25000 : S_.BroadcastsInDim S27x25000 (![] : Fin 0 → Fin S27x25000.rank)
  bcast_S27x25000_S27x25000x1_0_1 : S27x25000.BroadcastsInDim S27x25000x1 (![0, 1] : Fin 2 → Fin S27x25000x1.rank)
  bcast_S_S27x25000x1 : S_.BroadcastsInDim S27x25000x1 (![] : Fin 0 → Fin S27x25000x1.rank)
  bcast_S1x1x1_S27x25000x1_0_1_2 : S1x1x1.BroadcastsInDim S27x25000x1 (![0, 1, 2] : Fin 3 → Fin S27x25000x1.rank)
  reducesTo_S27x25000x1_S27x25000_d2 : S27x25000x1.ReducesTo [2] S27x25000
  bcast_S27x25000_S27x25000x128_0_1 : S27x25000.BroadcastsInDim S27x25000x128 (![0, 1] : Fin 2 → Fin S27x25000x128.rank)
  bcast_S_S27x25000x128 : S_.BroadcastsInDim S27x25000x128 (![] : Fin 0 → Fin S27x25000x128.rank)
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S27x25000x64_S675000x64 : S27x25000x64.ShapeCasts S675000x64
  shapeCasts_S27x25000_S675000 : S27x25000.ShapeCasts S675000
  bcast_S675000_S675000x1_0 : S675000.BroadcastsInDim S675000x1 (![0] : Fin 1 → Fin S675000x1.rank)
  bcast_S27x25000_S27x25000x64_0_1 : S27x25000.BroadcastsInDim S27x25000x64 (![0, 1] : Fin 2 → Fin S27x25000x64.rank)
  bcast_S_S27x25000x64 : S_.BroadcastsInDim S27x25000x64 (![] : Fin 0 → Fin S27x25000x64.rank)
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  inb_S1x5000x1_S1x5000x1_0_0_0 : ∀ a, (![0, 0, 0] : Fin 3 → Nat) a + S1x5000x1.size a ≤ S1x5000x1.size a
  h_S1x5000x1 : 0 < S1x5000x1.numel
  shapeCasts_S1x5000x1_S5000x1 : S1x5000x1.ShapeCasts S5000x1
  shapeCasts_S5000x1_S1x5000x1 : S5000x1.ShapeCasts S1x5000x1
  shapeCasts_S27x25000x1_S675000x1 : S27x25000x1.ShapeCasts S675000x1
  bcast_S_S60000x1 : S_.BroadcastsInDim S60000x1 (![] : Fin 0 → Fin S60000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S3000x1_S3000x1_0_0 : ∀ a, (![0, 0] : Fin 2 → Nat) a + S3000x1.size a ≤ S3000x1.size a
  h_S3000x1 : 0 < S3000x1.numel
  shapeCasts_S3000x1_S3000x1 : S3000x1.ShapeCasts S3000x1
  reduces_S3000x1_S1 : S3000x1.Reduces [0] S1
  broadcasts_S1x1_S3000x1 : S1x1.Broadcasts S3000x1
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  bcast_S_S200000x64 : S_.BroadcastsInDim S200000x64 (![] : Fin 0 → Fin S200000x64.rank)
  bcast_S1x64_S200000x64_0_1 : S1x64.BroadcastsInDim S200000x64 (![0, 1] : Fin 2 → Fin S200000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S64 : S10000x64.Reduces [0] S64
  broadcasts_S1x64_S10000x64 : S1x64.Broadcasts S10000x64
  gather_S200000x64_S27x40000x1_S27x40000x64_2_0_n_n_0_2_164_wf : GatherDims.WF S200000x64 S27x40000x1 S27x40000x64 [2] [0] [] [0] [] 2 ![1, 64]
  dot_S5000x64_S64x64_S5000x64_1_0_0_1_n_n_wf : DotDims.WF S5000x64 S64x64 S5000x64 [1] [0] [0] [1] [] []
  scatter_S60000x64_S1080000x1_S1080000x64_1_0_0_1_wf : ScatterDims.WF S60000x64 S1080000x1 S1080000x64 [1] [0] [0] 1
  gather_S60000x128_S27x25000x1_S27x25000x128_2_0_n_n_0_2_1128_wf : GatherDims.WF S60000x128 S27x25000x1 S27x25000x128 [2] [0] [] [0] [] 2 ![1, 128]
  dot_S5000x128_S128x64_S5000x64_1_0_0_1_n_n_wf : DotDims.WF S5000x128 S128x64 S5000x64 [1] [0] [0] [1] [] []
  scatter_S60000x64_S675000x1_S675000x64_1_0_0_1_wf : ScatterDims.WF S60000x64 S675000x1 S675000x64 [1] [0] [0] 1
  gather_S60000x64_S27x25000x1_S27x25000x64_2_0_n_n_0_2_164_wf : GatherDims.WF S60000x64 S27x25000x1 S27x25000x64 [2] [0] [] [0] [] 2 ![1, 64]
  dot_S5000x64_S64x1_S5000x1_1_0_0_1_n_n_wf : DotDims.WF S5000x64 S64x1 S5000x1 [1] [0] [0] [1] [] []
  scatter_S60000x1_S675000x1_S675000x1_1_0_0_1_wf : ScatterDims.WF S60000x1 S675000x1 S675000x1 [1] [0] [0] 1
  gather_S60000x1_S27x40000x1_S27x40000x1_2_0_n_n_0_2_11_wf : GatherDims.WF S60000x1 S27x40000x1 S27x40000x1 [2] [0] [] [0] [] 2 ![1, 1]
  dot_S5000x1_S1x64_S5000x64_1_0_0_1_n_n_wf : DotDims.WF S5000x1 S1x64 S5000x64 [1] [0] [0] [1] [] []
  scatter_S200000x64_S1080000x1_S1080000x64_1_0_0_1_wf : ScatterDims.WF S200000x64 S1080000x1 S1080000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x64.size a ≤ S27x40000x64.size a
  hwx0_0 : ∀ i : grid0.Coords, EltTy.bits .f32 = 32 ∨ (Rect.block (s := S27x40000x64) S1x5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .f32 = 32 ∨ (Rect.block (s := S27x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5000x64.size a ≤ S27x40000x64.size a
  hwx0_2 : ∀ i : grid0.Coords, EltTy.bits .f32 = 32 ∨ (Rect.block (s := S27x40000x64) S1x5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S60000x64.size a
  hwx1_0 : ∀ i : grid1.Coords, EltTy.bits .f32 = 32 ∨ (Rect.block (s := S60000x64) S3000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S60000x64.size a
  hwx2_0 : ∀ i : grid2.Coords, EltTy.bits .f32 = 32 ∨ (Rect.block (s := S60000x64) S3000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S3000x64.size a ≤ S60000x64.size a
  hwx2_5 : ∀ i : grid2.Coords, EltTy.bits .f32 = 32 ∨ (Rect.block (s := S60000x64) S3000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x5000x128.size a ≤ S27x25000x128.size a
  hwx3_0 : ∀ i : grid3.Coords, EltTy.bits .f32 = 32 ∨ (Rect.block (s := S27x25000x128) S1x5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x128x64.size a ≤ S27x128x64.size a
  hwx3_1 : ∀ i : grid3.Coords, EltTy.bits .f32 = 32 ∨ (Rect.block (s := S27x128x64) S1x128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x5000x64.size a ≤ S27x25000x64.size a
  hwx3_2 : ∀ i : grid3.Coords, EltTy.bits .f32 = 32 ∨ (Rect.block (s := S27x25000x64) S1x5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S3000x64.size a ≤ S60000x64.size a
  hwx4_0 : ∀ i : grid4.Coords, EltTy.bits .f32 = 32 ∨ (Rect.block (s := S60000x64) S3000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S3000x64.size a ≤ S60000x64.size a
  hwx5_0 : ∀ i : grid5.Coords, EltTy.bits .f32 = 32 ∨ (Rect.block (s := S60000x64) S3000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S3000x64.size a ≤ S60000x64.size a
  hwx5_5 : ∀ i : grid5.Coords, EltTy.bits .f32 = 32 ∨ (Rect.block (s := S60000x64) S3000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x5000x64.size a ≤ S27x25000x64.size a
  hwx6_0 : ∀ i : grid6.Coords, EltTy.bits .f32 = 32 ∨ (Rect.block (s := S27x25000x64) S1x5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x64x64.size a ≤ S27x64x64.size a
  hwx6_1 : ∀ i : grid6.Coords, EltTy.bits .f32 = 32 ∨ (Rect.block (s := S27x64x64) S1x64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x5000x64.size a ≤ S27x25000x64.size a
  hwx6_2 : ∀ i : grid6.Coords, EltTy.bits .f32 = 32 ∨ (Rect.block (s := S27x25000x64) S1x5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S3000x64.size a ≤ S60000x64.size a
  hwx7_0 : ∀ i : grid7.Coords, EltTy.bits .f32 = 32 ∨ (Rect.block (s := S60000x64) S3000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S3000x64.size a ≤ S60000x64.size a
  hwx8_0 : ∀ i : grid8.Coords, EltTy.bits .f32 = 32 ∨ (Rect.block (s := S60000x64) S3000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S3000x64.size a ≤ S60000x64.size a
  hwx8_5 : ∀ i : grid8.Coords, EltTy.bits .f32 = 32 ∨ (Rect.block (s := S60000x64) S3000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x5000x64.size a ≤ S27x25000x64.size a
  hwx9_0 : ∀ i : grid9.Coords, EltTy.bits .f32 = 32 ∨ (Rect.block (s := S27x25000x64) S1x5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x64x1.size a ≤ S27x64x1.size a
  hwx9_1 : ∀ i : grid9.Coords, EltTy.bits .f32 = 32 ∨ (Rect.block (s := S27x64x1) S1x64x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1x5000x1.size a ≤ S27x25000x1.size a
  hwx9_2 : ∀ i : grid9.Coords, EltTy.bits .f32 = 32 ∨ (Rect.block (s := S27x25000x1) S1x5000x1.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S3000x1.size a ≤ S60000x1.size a
  hwx10_0 : ∀ i : grid10.Coords, EltTy.bits .f32 = 32 ∨ (Rect.block (s := S60000x1) S3000x1.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x1.size a ≤ S1x1.size a
  hwx10_1 : ∀ i : grid10.Coords, EltTy.bits .f32 = 32 ∨ (Rect.block (s := S1x1) S1x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x1.size a ≤ S1x1.size a
  hwx10_2 : ∀ i : grid10.Coords, EltTy.bits .f32 = 32 ∨ (Rect.block (s := S1x1) S1x1.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S3000x1.size a ≤ S60000x1.size a
  hwx11_0 : ∀ i : grid11.Coords, EltTy.bits .f32 = 32 ∨ (Rect.block (s := S60000x1) S3000x1.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x1.size a ≤ S1x1.size a
  hwx11_1 : ∀ i : grid11.Coords, EltTy.bits .f32 = 32 ∨ (Rect.block (s := S1x1) S1x1.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x1.size a ≤ S1x1.size a
  hwx11_2 : ∀ i : grid11.Coords, EltTy.bits .f32 = 32 ∨ (Rect.block (s := S1x1) S1x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x1.size a ≤ S1x1.size a
  hwx11_3 : ∀ i : grid11.Coords, EltTy.bits .f32 = 32 ∨ (Rect.block (s := S1x1) S1x1.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x1.size a ≤ S1x1.size a
  hwx11_4 : ∀ i : grid11.Coords, EltTy.bits .f32 = 32 ∨ (Rect.block (s := S1x1) S1x1.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S3000x1.size a ≤ S60000x1.size a
  hwx11_5 : ∀ i : grid11.Coords, EltTy.bits .f32 = 32 ∨ (Rect.block (s := S60000x1) S3000x1.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1x5000x1.size a ≤ S27x40000x1.size a
  hwx12_0 : ∀ i : grid12.Coords, EltTy.bits .f32 = 32 ∨ (Rect.block (s := S27x40000x1) S1x5000x1.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1x1x64.size a ≤ S27x1x64.size a
  hwx12_1 : ∀ i : grid12.Coords, EltTy.bits .f32 = 32 ∨ (Rect.block (s := S27x1x64) S1x1x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1x5000x64.size a ≤ S27x40000x64.size a
  hwx12_2 : ∀ i : grid12.Coords, EltTy.bits .f32 = 32 ∨ (Rect.block (s := S27x40000x64) S1x5000x64.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x64.size a ≤ S200000x64.size a
  hwx13_0 : ∀ i : grid13.Coords, EltTy.bits .f32 = 32 ∨ (Rect.block (s := S200000x64) S10000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x64.size a ≤ S1x64.size a
  hwx13_1 : ∀ i : grid13.Coords, EltTy.bits .f32 = 32 ∨ (Rect.block (s := S1x64) S1x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x64.size a ≤ S200000x64.size a
  hwx14_0 : ∀ i : grid14.Coords, EltTy.bits .f32 = 32 ∨ (Rect.block (s := S200000x64) S10000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x64.size a ≤ S1x64.size a
  hwx14_1 : ∀ i : grid14.Coords, EltTy.bits .f32 = 32 ∨ (Rect.block (s := S1x64) S1x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x64.size a ≤ S1x64.size a
  hwx14_2 : ∀ i : grid14.Coords, EltTy.bits .f32 = 32 ∨ (Rect.block (s := S1x64) S1x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x64.size a ≤ S1x64.size a
  hwx14_4 : ∀ i : grid14.Coords, EltTy.bits .f32 = 32 ∨ (Rect.block (s := S1x64) S1x64.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S10000x64.size a ≤ S200000x64.size a
  hwx14_5 : ∀ i : grid14.Coords, EltTy.bits .f32 = 32 ∨ (Rect.block (s := S200000x64) S10000x64.size (cc14_transform_5 i) (hinb14_5 i)).WholeWords (EltTy.packing .f32)

variable [Facts₀]

def gather_S200000x64_S27x40000x1_S27x40000x64_2_0_n_n_0_2_164 : GatherDims S200000x64 S27x40000x1 S27x40000x64 where
  offsetDims := [2]
  collapsedSliceDims := [0]
  operandBatchingDims := []
  startIndicesBatchingDims := []
  startIndexMap := [0]
  indexVectorDim := 2
  sliceSizes := ![1, 64]
  wf := gather_S200000x64_S27x40000x1_S27x40000x64_2_0_n_n_0_2_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S60000x64_S1080000x1_S1080000x64_1_0_0_1 : ScatterDims S60000x64 S1080000x1 S1080000x64 where
  updateWindowDims := [1]
  insertedWindowDims := [0]
  scatterDimsToOperandDims := [0]
  indexVectorDim := 1
  wf := scatter_S60000x64_S1080000x1_S1080000x64_1_0_0_1_wf
def gather_S60000x128_S27x25000x1_S27x25000x128_2_0_n_n_0_2_1128 : GatherDims S60000x128 S27x25000x1 S27x25000x128 where
  offsetDims := [2]
  collapsedSliceDims := [0]
  operandBatchingDims := []
  startIndicesBatchingDims := []
  startIndexMap := [0]
  indexVectorDim := 2
  sliceSizes := ![1, 128]
  wf := gather_S60000x128_S27x25000x1_S27x25000x128_2_0_n_n_0_2_1128_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S60000x64_S675000x1_S675000x64_1_0_0_1 : ScatterDims S60000x64 S675000x1 S675000x64 where
  updateWindowDims := [1]
  insertedWindowDims := [0]
  scatterDimsToOperandDims := [0]
  indexVectorDim := 1
  wf := scatter_S60000x64_S675000x1_S675000x64_1_0_0_1_wf
def gather_S60000x64_S27x25000x1_S27x25000x64_2_0_n_n_0_2_164 : GatherDims S60000x64 S27x25000x1 S27x25000x64 where
  offsetDims := [2]
  collapsedSliceDims := [0]
  operandBatchingDims := []
  startIndicesBatchingDims := []
  startIndexMap := [0]
  indexVectorDim := 2
  sliceSizes := ![1, 64]
  wf := gather_S60000x64_S27x25000x1_S27x25000x64_2_0_n_n_0_2_164_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def scatter_S60000x1_S675000x1_S675000x1_1_0_0_1 : ScatterDims S60000x1 S675000x1 S675000x1 where
  updateWindowDims := [1]
  insertedWindowDims := [0]
  scatterDimsToOperandDims := [0]
  indexVectorDim := 1
  wf := scatter_S60000x1_S675000x1_S675000x1_1_0_0_1_wf
def gather_S60000x1_S27x40000x1_S27x40000x1_2_0_n_n_0_2_11 : GatherDims S60000x1 S27x40000x1 S27x40000x1 where
  offsetDims := [2]
  collapsedSliceDims := [0]
  operandBatchingDims := []
  startIndicesBatchingDims := []
  startIndexMap := [0]
  indexVectorDim := 2
  sliceSizes := ![1, 1]
  wf := gather_S60000x1_S27x40000x1_S27x40000x1_2_0_n_n_0_2_11_wf
def dot_S5000x1_S1x64_S5000x64_1_0_0_1_n_n : DotDims S5000x1 S1x64 S5000x64 where
  lhsContracting := [1]
  rhsContracting := [0]
  lhsNonContracting := [0]
  rhsNonContracting := [1]
  lhsBatch := []
  rhsBatch := []
  wf := dot_S5000x1_S1x64_S5000x64_1_0_0_1_n_n_wf
def scatter_S200000x64_S1080000x1_S1080000x64_1_0_0_1 : ScatterDims S200000x64 S1080000x1 S1080000x64 where
  updateWindowDims := [1]
  insertedWindowDims := [0]
  scatterDimsToOperandDims := [0]
  indexVectorDim := 1
  wf := scatter_S200000x64_S1080000x1_S1080000x64_1_0_0_1_wf

abbrev win0_0 : Pipeline.Window sig grid0 :=
  Pipeline.Window.ofSpec (Memref.whole main_v0) S1x5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v9) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12_0) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12_1) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S3000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v14) S1x5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S1x128x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v23) S3000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v26_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v23) S3000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26_0) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v26_1) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v24) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v25) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v27) S3000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v28) S1x5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S1x64x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v29) S1x5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v37) S3000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v40_0) S1x64.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v40_1) S1x64.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun i => !(k7_cond2 i == 1#1) | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v37) S3000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v40_0) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v40_1) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v38) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v39) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v41) S3000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v43) S1x5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg12) S1x64x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v44) S1x5000x1.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v49) S3000x1.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v52_0) S1x1.size cc10_transform_1 reads10_1 true true 1 stage10_1 sem10_1
    hrank10 hreads10_1 hinb10_1 nbuf10_1 (Memref.isWhole_whole _) hwx10_1 hstage10_1

abbrev win10_2 : Pipeline.Window sig grid10 :=
  Pipeline.Window.ofSpec (Memref.whole main_v52_1) S1x1.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun i => !(k10_cond2 i == 1#1) | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v49) S3000x1.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v52_0) S1x1.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v52_1) S1x1.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v50) S1x1.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v51) S1x1.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v53) S3000x1.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v54) S1x5000x1.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg13) S1x1x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v55) S1x5000x64.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v63) S10000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v66_0) S1x64.size cc13_transform_1 reads13_1 true true 1 stage13_1 sem13_1
    hrank13 hreads13_1 hinb13_1 nbuf13_1 (Memref.isWhole_whole _) hwx13_1 hstage13_1

abbrev win13_2 : Pipeline.Window sig grid13 :=
  Pipeline.Window.ofSpec (Memref.whole main_v66_1) S1x64.size cc13_transform_2 reads13_2 true true 1 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev idle13 : Fin 3 → grid13.Coords → Bool := fun | 0 => fun _ => false | 1 => fun i => !(k13_cond2 i == 1#1) | 2 => fun i => !(k13_cond2 i == 1#1) | ⟨_ + 3, h⟩ => absurd h (Nat.not_lt.2 (Nat.le_add_left _ _))

abbrev win14_0 : Pipeline.Window sig grid14 :=
  Pipeline.Window.ofSpec (Memref.whole main_v63) S10000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v66_0) S1x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v66_1) S1x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v64) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v65) S1x64.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v67) S10000x64.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

class Facts : Prop extends Facts₀ where

variable [Facts]
-- ==== ReferenceIdeal.lean ====
abbrev S60000x128 : Shape := ⟨2, ![60000, 128]⟩
abbrev S200000x64 : Shape := ⟨2, ![200000, 64]⟩
abbrev S27x40000 : Shape := ⟨2, ![27, 40000]⟩
abbrev S27x25000 : Shape := ⟨2, ![27, 25000]⟩
abbrev S27x64x64 : Shape := ⟨3, ![27, 64, 64]⟩
abbrev S64 : Shape := ⟨1, ![64]⟩
abbrev S27x128x64 : Shape := ⟨3, ![27, 128, 64]⟩
abbrev S27x64x1 : Shape := ⟨3, ![27, 64, 1]⟩
abbrev S27x1x64 : Shape := ⟨3, ![27, 1, 64]⟩
abbrev S1 : Shape := ⟨1, ![1]⟩
abbrev S_ : Shape := ⟨0, ![]⟩
abbrev S27x40000x1 : Shape := ⟨3, ![27, 40000, 1]⟩
abbrev S1x1x1 : Shape := ⟨3, ![1, 1, 1]⟩
abbrev S27x40000x64 : Shape := ⟨3, ![27, 40000, 64]⟩
abbrev S1080000x64 : Shape := ⟨2, ![1080000, 64]⟩
abbrev S1080000 : Shape := ⟨1, ![1080000]⟩
abbrev S60000x64 : Shape := ⟨2, ![60000, 64]⟩
abbrev S1080000x1 : Shape := ⟨2, ![1080000, 1]⟩
abbrev S1x64 : Shape := ⟨2, ![1, 64]⟩
abbrev S27x25000x1 : Shape := ⟨3, ![27, 25000, 1]⟩
abbrev S27x25000x128 : Shape := ⟨3, ![27, 25000, 128]⟩
abbrev S27x25000x64 : Shape := ⟨3, ![27, 25000, 64]⟩
abbrev S675000x64 : Shape := ⟨2, ![675000, 64]⟩
abbrev S675000 : Shape := ⟨1, ![675000]⟩
abbrev S675000x1 : Shape := ⟨2, ![675000, 1]⟩
abbrev S60000x1 : Shape := ⟨2, ![60000, 1]⟩
abbrev S1x1 : Shape := ⟨2, ![1, 1]⟩

abbrev nBuf : Space → Nat
  | .hbm => 374
  | .vmem => 0
  | .smem => 0
  | _ => 0

abbrev hbmTy0_0 (i : Nat) : BufTy := match i % 128 with
  | 0 => ⟨S60000x128, .f32⟩
  | 1 => ⟨S200000x64, .f32⟩
  | 2 => ⟨S27x40000, .i32⟩
  | 3 => ⟨S27x40000, .i32⟩
  | 4 => ⟨S27x25000, .i32⟩
  | 5 => ⟨S27x25000, .i32⟩
  | 6 => ⟨S27x64x64, .f32⟩
  | 7 => ⟨S64, .f32⟩
  | 8 => ⟨S27x128x64, .f32⟩
  | 9 => ⟨S64, .f32⟩
  | 10 => ⟨S27x64x64, .f32⟩
  | 11 => ⟨S64, .f32⟩
  | 12 => ⟨S27x64x1, .f32⟩
  | 13 => ⟨S27x1x64, .f32⟩
  | 14 => ⟨S64, .f32⟩
  | 15 => ⟨S64, .f32⟩
  | 16 => ⟨S64, .f32⟩
  | 17 => ⟨S64, .f32⟩
  | 18 => ⟨S64, .f32⟩
  | 19 => ⟨S64, .f32⟩
  | 20 => ⟨S64, .f32⟩
  | 21 => ⟨S1, .f32⟩
  | 22 => ⟨S1, .f32⟩
  | 23 => ⟨S64, .f32⟩
  | 24 => ⟨S64, .f32⟩
  | 25 => ⟨S_, .i32⟩
  | 26 => ⟨S27x40000, .i32⟩
  | 27 => ⟨S27x40000, .i1⟩
  | 28 => ⟨S_, .i32⟩
  | 29 => ⟨S27x40000, .i32⟩
  | 30 => ⟨S27x40000, .i32⟩
  | 31 => ⟨S27x40000, .i32⟩
  | 32 => ⟨S27x40000x1, .i32⟩
  | 33 => ⟨S1, .i32⟩
  | 34 => ⟨S_, .i32⟩
  | 35 => ⟨S27x40000x1, .i32⟩
  | 36 => ⟨S27x40000x1, .i1⟩
  | 37 => ⟨S1x1x1, .i32⟩
  | 38 => ⟨S27x40000x1, .i32⟩
  | 39 => ⟨S27x40000x1, .i1⟩
  | 40 => ⟨S27x40000x1, .i1⟩
  | 41 => ⟨S_, .i1⟩
  | 42 => ⟨S27x40000, .i1⟩
  | 43 => ⟨S27x40000x64, .f32⟩
  | 44 => ⟨S27x40000x64, .i1⟩
  | 45 => ⟨S_, .f32⟩
  | 46 => ⟨S27x40000x64, .f32⟩
  | 47 => ⟨S27x40000x64, .f32⟩
  | 48 => ⟨S27x40000x64, .f32⟩
  | 49 => ⟨S1080000x64, .f32⟩
  | 50 => ⟨S1080000, .i32⟩
  | 51 => ⟨S_, .f32⟩
  | 52 => ⟨S60000x64, .f32⟩
  | 53 => ⟨S1080000x1, .i32⟩
  | 54 => ⟨S60000x64, .f32⟩
  | 55 => ⟨S1x64, .f32⟩
  | 56 => ⟨S60000x64, .f32⟩
  | 57 => ⟨S60000x64, .f32⟩
  | 58 => ⟨S_, .f32⟩
  | 59 => ⟨S64, .f32⟩
  | 60 => ⟨S_, .f32⟩
  | 61 => ⟨S64, .f32⟩
  | 62 => ⟨S64, .f32⟩
  | 63 => ⟨S1x64, .f32⟩
  | 64 => ⟨S60000x64, .f32⟩
  | 65 => ⟨S60000x64, .f32⟩
  | 66 => ⟨S60000x64, .f32⟩
  | 67 => ⟨S_, .f32⟩
  | 68 => ⟨S64, .f32⟩
  | 69 => ⟨S_, .f32⟩
  | 70 => ⟨S64, .f32⟩
  | 71 => ⟨S64, .f32⟩
  | 72 => ⟨S1x64, .f32⟩
  | 73 => ⟨S60000x64, .f32⟩
  | 74 => ⟨S60000x64, .f32⟩
  | 75 => ⟨S_, .f32⟩
  | 76 => ⟨S64, .f32⟩
  | 77 => ⟨S64, .f32⟩
  | 78 => ⟨S64, .f32⟩
  | 79 => ⟨S1x64, .f32⟩
  | 80 => ⟨S60000x64, .f32⟩
  | 81 => ⟨S60000x64, .f32⟩
  | 82 => ⟨S1x64, .f32⟩
  | 83 => ⟨S60000x64, .f32⟩
  | 84 => ⟨S60000x64, .f32⟩
  | 85 => ⟨S1x64, .f32⟩
  | 86 => ⟨S60000x64, .f32⟩
  | 87 => ⟨S60000x64, .f32⟩
  | 88 => ⟨S_, .f32⟩
  | 89 => ⟨S60000x64, .f32⟩
  | 90 => ⟨S60000x64, .i1⟩
  | 91 => ⟨S_, .f32⟩
  | 92 => ⟨S60000x64, .f32⟩
  | 93 => ⟨S60000x64, .f32⟩
  | 94 => ⟨S60000x64, .f32⟩
  | 95 => ⟨S_, .i32⟩
  | 96 => ⟨S27x25000, .i32⟩
  | 97 => ⟨S27x25000, .i1⟩
  | 98 => ⟨S_, .i32⟩
  | 99 => ⟨S27x25000, .i32⟩
  | 100 => ⟨S27x25000, .i32⟩
  | 101 => ⟨S27x25000, .i32⟩
  | 102 => ⟨S27x25000x1, .i32⟩
  | 103 => ⟨S1, .i32⟩
  | 104 => ⟨S_, .i32⟩
  | 105 => ⟨S27x25000x1, .i32⟩
  | 106 => ⟨S27x25000x1, .i1⟩
  | 107 => ⟨S1x1x1, .i32⟩
  | 108 => ⟨S27x25000x1, .i32⟩
  | 109 => ⟨S27x25000x1, .i1⟩
  | 110 => ⟨S27x25000x1, .i1⟩
  | 111 => ⟨S_, .i1⟩
  | 112 => ⟨S27x25000, .i1⟩
  | 113 => ⟨S27x25000x128, .f32⟩
  | 114 => ⟨S27x25000x128, .i1⟩
  | 115 => ⟨S_, .f32⟩
  | 116 => ⟨S27x25000x128, .f32⟩
  | 117 => ⟨S27x25000x128, .f32⟩
  | 118 => ⟨S27x25000x64, .f32⟩
  | 119 => ⟨S675000x64, .f32⟩
  | 120 => ⟨S675000, .i32⟩
  | 121 => ⟨S_, .f32⟩
  | 122 => ⟨S60000x64, .f32⟩
  | 123 => ⟨S675000x1, .i32⟩
  | 124 => ⟨S60000x64, .f32⟩
  | 125 => ⟨S1x64, .f32⟩
  | 126 => ⟨S60000x64, .f32⟩
  | 127 => ⟨S60000x64, .f32⟩
  | _ => ⟨S60000x128, .f32⟩

abbrev hbmTy0_1 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S1x64, .f32⟩
  | 6 => ⟨S60000x64, .f32⟩
  | 7 => ⟨S60000x64, .f32⟩
  | 8 => ⟨S60000x64, .f32⟩
  | 9 => ⟨S_, .f32⟩
  | 10 => ⟨S64, .f32⟩
  | 11 => ⟨S_, .f32⟩
  | 12 => ⟨S64, .f32⟩
  | 13 => ⟨S64, .f32⟩
  | 14 => ⟨S1x64, .f32⟩
  | 15 => ⟨S60000x64, .f32⟩
  | 16 => ⟨S60000x64, .f32⟩
  | 17 => ⟨S_, .f32⟩
  | 18 => ⟨S64, .f32⟩
  | 19 => ⟨S64, .f32⟩
  | 20 => ⟨S64, .f32⟩
  | 21 => ⟨S1x64, .f32⟩
  | 22 => ⟨S60000x64, .f32⟩
  | 23 => ⟨S60000x64, .f32⟩
  | 24 => ⟨S1x64, .f32⟩
  | 25 => ⟨S60000x64, .f32⟩
  | 26 => ⟨S60000x64, .f32⟩
  | 27 => ⟨S1x64, .f32⟩
  | 28 => ⟨S60000x64, .f32⟩
  | 29 => ⟨S60000x64, .f32⟩
  | 30 => ⟨S_, .f32⟩
  | 31 => ⟨S60000x64, .f32⟩
  | 32 => ⟨S60000x64, .i1⟩
  | 33 => ⟨S_, .f32⟩
  | 34 => ⟨S60000x64, .f32⟩
  | 35 => ⟨S60000x64, .f32⟩
  | 36 => ⟨S60000x64, .f32⟩
  | 37 => ⟨S_, .i32⟩
  | 38 => ⟨S27x25000, .i32⟩
  | 39 => ⟨S27x25000, .i1⟩
  | 40 => ⟨S_, .i32⟩
  | 41 => ⟨S27x25000, .i32⟩
  | 42 => ⟨S27x25000, .i32⟩
  | 43 => ⟨S27x25000, .i32⟩
  | 44 => ⟨S27x25000x1, .i32⟩
  | 45 => ⟨S1, .i32⟩
  | 46 => ⟨S_, .i32⟩
  | 47 => ⟨S27x25000x1, .i32⟩
  | 48 => ⟨S27x25000x1, .i1⟩
  | 49 => ⟨S1x1x1, .i32⟩
  | 50 => ⟨S27x25000x1, .i32⟩
  | 51 => ⟨S27x25000x1, .i1⟩
  | 52 => ⟨S27x25000x1, .i1⟩
  | 53 => ⟨S_, .i1⟩
  | 54 => ⟨S27x25000, .i1⟩
  | 55 => ⟨S27x25000x64, .f32⟩
  | 56 => ⟨S27x25000x64, .i1⟩
  | 57 => ⟨S_, .f32⟩
  | 58 => ⟨S27x25000x64, .f32⟩
  | 59 => ⟨S27x25000x64, .f32⟩
  | 60 => ⟨S27x25000x64, .f32⟩
  | 61 => ⟨S675000x64, .f32⟩
  | 62 => ⟨S675000, .i32⟩
  | 63 => ⟨S_, .f32⟩
  | 64 => ⟨S60000x64, .f32⟩
  | 65 => ⟨S675000x1, .i32⟩
  | 66 => ⟨S60000x64, .f32⟩
  | 67 => ⟨S1x64, .f32⟩
  | 68 => ⟨S60000x64, .f32⟩
  | 69 => ⟨S60000x64, .f32⟩
  | 70 => ⟨S_, .f32⟩
  | 71 => ⟨S64, .f32⟩
  | 72 => ⟨S_, .f32⟩
  | 73 => ⟨S64, .f32⟩
  | 74 => ⟨S64, .f32⟩
  | 75 => ⟨S1x64, .f32⟩
  | 76 => ⟨S60000x64, .f32⟩
  | 77 => ⟨S60000x64, .f32⟩
  | 78 => ⟨S60000x64, .f32⟩
  | 79 => ⟨S_, .f32⟩
  | 80 => ⟨S64, .f32⟩
  | 81 => ⟨S_, .f32⟩
  | 82 => ⟨S64, .f32⟩
  | 83 => ⟨S64, .f32⟩
  | 84 => ⟨S1x64, .f32⟩
  | 85 => ⟨S60000x64, .f32⟩
  | 86 => ⟨S60000x64, .f32⟩
  | 87 => ⟨S_, .f32⟩
  | 88 => ⟨S64, .f32⟩
  | 89 => ⟨S64, .f32⟩
  | 90 => ⟨S64, .f32⟩
  | 91 => ⟨S1x64, .f32⟩
  | 92 => ⟨S60000x64, .f32⟩
  | 93 => ⟨S60000x64, .f32⟩
  | 94 => ⟨S1x64, .f32⟩
  | 95 => ⟨S60000x64, .f32⟩
  | 96 => ⟨S60000x64, .f32⟩
  | 97 => ⟨S1x64, .f32⟩
  | 98 => ⟨S60000x64, .f32⟩
  | 99 => ⟨S60000x64, .f32⟩
  | 100 => ⟨S_, .f32⟩
  | 101 => ⟨S60000x64, .f32⟩
  | 102 => ⟨S60000x64, .i1⟩
  | 103 => ⟨S_, .f32⟩
  | 104 => ⟨S60000x64, .f32⟩
  | 105 => ⟨S60000x64, .f32⟩
  | 106 => ⟨S60000x64, .f32⟩
  | 107 => ⟨S60000x64, .f32⟩
  | 108 => ⟨S_, .i32⟩
  | 109 => ⟨S27x25000, .i32⟩
  | 110 => ⟨S27x25000, .i1⟩
  | 111 => ⟨S_, .i32⟩
  | 112 => ⟨S27x25000, .i32⟩
  | 113 => ⟨S27x25000, .i32⟩
  | 114 => ⟨S27x25000, .i32⟩
  | 115 => ⟨S27x25000x1, .i32⟩
  | 116 => ⟨S1, .i32⟩
  | 117 => ⟨S_, .i32⟩
  | 118 => ⟨S27x25000x1, .i32⟩
  | 119 => ⟨S27x25000x1, .i1⟩
  | 120 => ⟨S1x1x1, .i32⟩
  | 121 => ⟨S27x25000x1, .i32⟩
  | 122 => ⟨S27x25000x1, .i1⟩
  | 123 => ⟨S27x25000x1, .i1⟩
  | 124 => ⟨S_, .i1⟩
  | 125 => ⟨S27x25000, .i1⟩
  | 126 => ⟨S27x25000x64, .f32⟩
  | 127 => ⟨S27x25000x64, .i1⟩
  | _ => ⟨S60000x128, .f32⟩

abbrev hbmTy0_2 (i : Nat) : BufTy := match i % 128 with
  | 0 => ⟨S_, .f32⟩
  | 1 => ⟨S27x25000x64, .f32⟩
  | 2 => ⟨S27x25000x64, .f32⟩
  | 3 => ⟨S27x25000x1, .f32⟩
  | 4 => ⟨S675000x1, .f32⟩
  | 5 => ⟨S675000, .i32⟩
  | 6 => ⟨S_, .f32⟩
  | 7 => ⟨S60000x1, .f32⟩
  | 8 => ⟨S675000x1, .i32⟩
  | 9 => ⟨S60000x1, .f32⟩
  | 10 => ⟨S_, .f32⟩
  | 11 => ⟨S1, .f32⟩
  | 12 => ⟨S_, .f32⟩
  | 13 => ⟨S1, .f32⟩
  | 14 => ⟨S1, .f32⟩
  | 15 => ⟨S1x1, .f32⟩
  | 16 => ⟨S60000x1, .f32⟩
  | 17 => ⟨S60000x1, .f32⟩
  | 18 => ⟨S60000x1, .f32⟩
  | 19 => ⟨S_, .f32⟩
  | 20 => ⟨S1, .f32⟩
  | 21 => ⟨S_, .f32⟩
  | 22 => ⟨S1, .f32⟩
  | 23 => ⟨S1, .f32⟩
  | 24 => ⟨S1x1, .f32⟩
  | 25 => ⟨S60000x1, .f32⟩
  | 26 => ⟨S60000x1, .f32⟩
  | 27 => ⟨S_, .f32⟩
  | 28 => ⟨S1, .f32⟩
  | 29 => ⟨S1, .f32⟩
  | 30 => ⟨S1, .f32⟩
  | 31 => ⟨S1x1, .f32⟩
  | 32 => ⟨S60000x1, .f32⟩
  | 33 => ⟨S60000x1, .f32⟩
  | 34 => ⟨S1x1, .f32⟩
  | 35 => ⟨S60000x1, .f32⟩
  | 36 => ⟨S60000x1, .f32⟩
  | 37 => ⟨S1x1, .f32⟩
  | 38 => ⟨S60000x1, .f32⟩
  | 39 => ⟨S60000x1, .f32⟩
  | 40 => ⟨S_, .f32⟩
  | 41 => ⟨S60000x1, .f32⟩
  | 42 => ⟨S60000x1, .i1⟩
  | 43 => ⟨S_, .f32⟩
  | 44 => ⟨S60000x1, .f32⟩
  | 45 => ⟨S60000x1, .f32⟩
  | 46 => ⟨S60000x1, .f32⟩
  | 47 => ⟨S_, .i32⟩
  | 48 => ⟨S27x40000, .i32⟩
  | 49 => ⟨S27x40000, .i1⟩
  | 50 => ⟨S_, .i32⟩
  | 51 => ⟨S27x40000, .i32⟩
  | 52 => ⟨S27x40000, .i32⟩
  | 53 => ⟨S27x40000, .i32⟩
  | 54 => ⟨S27x40000x1, .i32⟩
  | 55 => ⟨S1, .i32⟩
  | 56 => ⟨S_, .i32⟩
  | 57 => ⟨S27x40000x1, .i32⟩
  | 58 => ⟨S27x40000x1, .i1⟩
  | 59 => ⟨S1x1x1, .i32⟩
  | 60 => ⟨S27x40000x1, .i32⟩
  | 61 => ⟨S27x40000x1, .i1⟩
  | 62 => ⟨S27x40000x1, .i1⟩
  | 63 => ⟨S_, .i1⟩
  | 64 => ⟨S27x40000, .i1⟩
  | 65 => ⟨S27x40000x1, .f32⟩
  | 66 => ⟨S27x40000x1, .i1⟩
  | 67 => ⟨S_, .f32⟩
  | 68 => ⟨S27x40000x1, .f32⟩
  | 69 => ⟨S27x40000x1, .f32⟩
  | 70 => ⟨S27x40000x64, .f32⟩
  | 71 => ⟨S1080000x64, .f32⟩
  | 72 => ⟨S1080000, .i32⟩
  | 73 => ⟨S_, .f32⟩
  | 74 => ⟨S200000x64, .f32⟩
  | 75 => ⟨S1080000x1, .i32⟩
  | 76 => ⟨S200000x64, .f32⟩
  | 77 => ⟨S1x64, .f32⟩
  | 78 => ⟨S200000x64, .f32⟩
  | 79 => ⟨S200000x64, .f32⟩
  | 80 => ⟨S_, .f32⟩
  | 81 => ⟨S64, .f32⟩
  | 82 => ⟨S_, .f32⟩
  | 83 => ⟨S64, .f32⟩
  | 84 => ⟨S64, .f32⟩
  | 85 => ⟨S1x64, .f32⟩
  | 86 => ⟨S200000x64, .f32⟩
  | 87 => ⟨S200000x64, .f32⟩
  | 88 => ⟨S200000x64, .f32⟩
  | 89 => ⟨S_, .f32⟩
  | 90 => ⟨S64, .f32⟩
  | 91 => ⟨S_, .f32⟩
  | 92 => ⟨S64, .f32⟩
  | 93 => ⟨S64, .f32⟩
  | 94 => ⟨S1x64, .f32⟩
  | 95 => ⟨S200000x64, .f32⟩
  | 96 => ⟨S200000x64, .f32⟩
  | 97 => ⟨S_, .f32⟩
  | 98 => ⟨S64, .f32⟩
  | 99 => ⟨S64, .f32⟩
  | 100 => ⟨S64, .f32⟩
  | 101 => ⟨S1x64, .f32⟩
  | 102 => ⟨S200000x64, .f32⟩
  | 103 => ⟨S200000x64, .f32⟩
  | 104 => ⟨S1x64, .f32⟩
  | 105 => ⟨S200000x64, .f32⟩
  | 106 => ⟨S200000x64, .f32⟩
  | 107 => ⟨S1x64, .f32⟩
  | 108 => ⟨S200000x64, .f32⟩
  | 109 => ⟨S200000x64, .f32⟩
  | 110 => ⟨S200000x64, .f32⟩
  | 111 => ⟨S200000x64, .f32⟩
  | 112 => ⟨S_, .f32⟩
  | 113 => ⟨S200000x64, .f32⟩
  | 114 => ⟨S200000x64, .f32⟩
  | 115 => ⟨S_, .f32⟩
  | 116 => ⟨S200000x64, .f32⟩
  | 117 => ⟨S200000x64, .f32⟩
  | _ => ⟨S60000x128, .f32⟩

abbrev hbmTy (i : Nat) : BufTy := match i / 128 with
  | 0 => hbmTy0_0 i
  | 1 => hbmTy0_1 i
  | 2 => hbmTy0_2 i
  | _ => ⟨S60000x128, .f32⟩

abbrev bufTy : (tb : Table) → Fin (tcTables nBuf tb) → BufTy
  | .hbm, ⟨i, _⟩ => hbmTy i
  | _, _ => ⟨S60000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v0 : Ref sig .tc := ⟨.hbm, 47, rfl⟩
abbrev main_v1 : Ref sig .tc := ⟨.hbm, 48, rfl⟩
abbrev main_v2 : Ref sig .tc := ⟨.hbm, 49, rfl⟩
abbrev main_v3 : Ref sig .tc := ⟨.hbm, 50, rfl⟩
abbrev main_cst : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_cst_0 : Ref sig .tc := ⟨.hbm, 58, rfl⟩
abbrev main_v10 : Ref sig .tc := ⟨.hbm, 59, rfl⟩
abbrev main_cst_1 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_cst_2 : Ref sig .tc := ⟨.hbm, 67, rfl⟩
abbrev main_v17 : Ref sig .tc := ⟨.hbm, 68, rfl⟩
abbrev main_cst_3 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_cst_4 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_5 : Ref sig .tc := ⟨.hbm, 88, rfl⟩
abbrev main_v35 : Ref sig .tc := ⟨.hbm, 89, rfl⟩
abbrev main_v36 : Ref sig .tc := ⟨.hbm, 90, rfl⟩
abbrev main_cst_6 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_call2_c : Ref sig .tc := ⟨.hbm, 95, rfl⟩
abbrev main_call2_v0 : Ref sig .tc := ⟨.hbm, 96, rfl⟩
abbrev main_call2_v1 : Ref sig .tc := ⟨.hbm, 97, rfl⟩
abbrev main_call2_c_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_c_1 : Ref sig .tc := ⟨.hbm, 103, rfl⟩
abbrev main_call2_c_2 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_c_3 : Ref sig .tc := ⟨.hbm, 111, rfl⟩
abbrev main_call2_v12 : Ref sig .tc := ⟨.hbm, 112, rfl⟩
abbrev main_call2_v13 : Ref sig .tc := ⟨.hbm, 113, rfl⟩
abbrev main_call2_v14 : Ref sig .tc := ⟨.hbm, 114, rfl⟩
abbrev main_call2_cst : Ref sig .tc := ⟨.hbm, 115, rfl⟩
abbrev main_call2_v15 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_cst_7 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_cst_8 : Ref sig .tc := ⟨.hbm, 128, rfl⟩
abbrev main_v50 : Ref sig .tc := ⟨.hbm, 129, rfl⟩
abbrev main_cst_9 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_cst_10 : Ref sig .tc := ⟨.hbm, 137, rfl⟩
abbrev main_v57 : Ref sig .tc := ⟨.hbm, 138, rfl⟩
abbrev main_cst_11 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_cst_12 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_cst_13 : Ref sig .tc := ⟨.hbm, 158, rfl⟩
abbrev main_v75 : Ref sig .tc := ⟨.hbm, 159, rfl⟩
abbrev main_v76 : Ref sig .tc := ⟨.hbm, 160, rfl⟩
abbrev main_cst_14 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_call4_c : Ref sig .tc := ⟨.hbm, 165, rfl⟩
abbrev main_call4_v0 : Ref sig .tc := ⟨.hbm, 166, rfl⟩
abbrev main_call4_v1 : Ref sig .tc := ⟨.hbm, 167, rfl⟩
abbrev main_call4_c_0 : Ref sig .tc := ⟨.hbm, 168, rfl⟩
abbrev main_call4_v2 : Ref sig .tc := ⟨.hbm, 169, rfl⟩
abbrev main_call4_v3 : Ref sig .tc := ⟨.hbm, 170, rfl⟩
abbrev main_call4_v4 : Ref sig .tc := ⟨.hbm, 171, rfl⟩
abbrev main_call4_v5 : Ref sig .tc := ⟨.hbm, 172, rfl⟩
abbrev main_call4_c_1 : Ref sig .tc := ⟨.hbm, 173, rfl⟩
abbrev main_call4_c_2 : Ref sig .tc := ⟨.hbm, 174, rfl⟩
abbrev main_call4_v6 : Ref sig .tc := ⟨.hbm, 175, rfl⟩
abbrev main_call4_v7 : Ref sig .tc := ⟨.hbm, 176, rfl⟩
abbrev main_call4_v8 : Ref sig .tc := ⟨.hbm, 177, rfl⟩
abbrev main_call4_v9 : Ref sig .tc := ⟨.hbm, 178, rfl⟩
abbrev main_call4_v10 : Ref sig .tc := ⟨.hbm, 179, rfl⟩
abbrev main_call4_v11 : Ref sig .tc := ⟨.hbm, 180, rfl⟩
abbrev main_call4_c_3 : Ref sig .tc := ⟨.hbm, 181, rfl⟩
abbrev main_call4_v12 : Ref sig .tc := ⟨.hbm, 182, rfl⟩
abbrev main_call4_v13 : Ref sig .tc := ⟨.hbm, 183, rfl⟩
abbrev main_call4_v14 : Ref sig .tc := ⟨.hbm, 184, rfl⟩
abbrev main_call4_cst : Ref sig .tc := ⟨.hbm, 185, rfl⟩
abbrev main_call4_v15 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_cst_15 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_cst_16 : Ref sig .tc := ⟨.hbm, 198, rfl⟩
abbrev main_v90 : Ref sig .tc := ⟨.hbm, 199, rfl⟩
abbrev main_cst_17 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_cst_18 : Ref sig .tc := ⟨.hbm, 207, rfl⟩
abbrev main_v97 : Ref sig .tc := ⟨.hbm, 208, rfl⟩
abbrev main_cst_19 : Ref sig .tc := ⟨.hbm, 209, rfl⟩
abbrev main_v98 : Ref sig .tc := ⟨.hbm, 210, rfl⟩
abbrev main_v99 : Ref sig .tc := ⟨.hbm, 211, rfl⟩
abbrev main_v100 : Ref sig .tc := ⟨.hbm, 212, rfl⟩
abbrev main_v101 : Ref sig .tc := ⟨.hbm, 213, rfl⟩
abbrev main_v102 : Ref sig .tc := ⟨.hbm, 214, rfl⟩
abbrev main_cst_20 : Ref sig .tc := ⟨.hbm, 215, rfl⟩
abbrev main_v103 : Ref sig .tc := ⟨.hbm, 216, rfl⟩
abbrev main_v104 : Ref sig .tc := ⟨.hbm, 217, rfl⟩
abbrev main_v105 : Ref sig .tc := ⟨.hbm, 218, rfl⟩
abbrev main_v106 : Ref sig .tc := ⟨.hbm, 219, rfl⟩
abbrev main_v107 : Ref sig .tc := ⟨.hbm, 220, rfl⟩
abbrev main_v108 : Ref sig .tc := ⟨.hbm, 221, rfl⟩
abbrev main_v109 : Ref sig .tc := ⟨.hbm, 222, rfl⟩
abbrev main_v110 : Ref sig .tc := ⟨.hbm, 223, rfl⟩
abbrev main_v111 : Ref sig .tc := ⟨.hbm, 224, rfl⟩
abbrev main_v112 : Ref sig .tc := ⟨.hbm, 225, rfl⟩
abbrev main_v113 : Ref sig .tc := ⟨.hbm, 226, rfl⟩
abbrev main_v114 : Ref sig .tc := ⟨.hbm, 227, rfl⟩
abbrev main_cst_21 : Ref sig .tc := ⟨.hbm, 228, rfl⟩
abbrev main_v115 : Ref sig .tc := ⟨.hbm, 229, rfl⟩
abbrev main_v116 : Ref sig .tc := ⟨.hbm, 230, rfl⟩
abbrev main_cst_22 : Ref sig .tc := ⟨.hbm, 231, rfl⟩
abbrev main_v117 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_call6_c : Ref sig .tc := ⟨.hbm, 236, rfl⟩
abbrev main_call6_v0 : Ref sig .tc := ⟨.hbm, 237, rfl⟩
abbrev main_call6_v1 : Ref sig .tc := ⟨.hbm, 238, rfl⟩
abbrev main_call6_c_0 : Ref sig .tc := ⟨.hbm, 239, rfl⟩
abbrev main_call6_v2 : Ref sig .tc := ⟨.hbm, 240, rfl⟩
abbrev main_call6_v3 : Ref sig .tc := ⟨.hbm, 241, rfl⟩
abbrev main_call6_v4 : Ref sig .tc := ⟨.hbm, 242, rfl⟩
abbrev main_call6_v5 : Ref sig .tc := ⟨.hbm, 243, rfl⟩
abbrev main_call6_c_1 : Ref sig .tc := ⟨.hbm, 244, rfl⟩
abbrev main_call6_c_2 : Ref sig .tc := ⟨.hbm, 245, rfl⟩
abbrev main_call6_v6 : Ref sig .tc := ⟨.hbm, 246, rfl⟩
abbrev main_call6_v7 : Ref sig .tc := ⟨.hbm, 247, rfl⟩
abbrev main_call6_v8 : Ref sig .tc := ⟨.hbm, 248, rfl⟩
abbrev main_call6_v9 : Ref sig .tc := ⟨.hbm, 249, rfl⟩
abbrev main_call6_v10 : Ref sig .tc := ⟨.hbm, 250, rfl⟩
abbrev main_call6_v11 : Ref sig .tc := ⟨.hbm, 251, rfl⟩
abbrev main_call6_c_3 : Ref sig .tc := ⟨.hbm, 252, rfl⟩
abbrev main_call6_v12 : Ref sig .tc := ⟨.hbm, 253, rfl⟩
abbrev main_call6_v13 : Ref sig .tc := ⟨.hbm, 254, rfl⟩
abbrev main_call6_v14 : Ref sig .tc := ⟨.hbm, 255, rfl⟩
abbrev main_call6_cst : Ref sig .tc := ⟨.hbm, 256, rfl⟩
abbrev main_call6_v15 : Ref sig .tc := ⟨.hbm, 257, rfl⟩
abbrev main_v121 : Ref sig .tc := ⟨.hbm, 258, rfl⟩
abbrev main_v122 : Ref sig .tc := ⟨.hbm, 259, rfl⟩
abbrev main_v123 : Ref sig .tc := ⟨.hbm, 260, rfl⟩
abbrev main_v124 : Ref sig .tc := ⟨.hbm, 261, rfl⟩
abbrev main_cst_23 : Ref sig .tc := ⟨.hbm, 262, rfl⟩
abbrev main_v125 : Ref sig .tc := ⟨.hbm, 263, rfl⟩
abbrev main_v126 : Ref sig .tc := ⟨.hbm, 264, rfl⟩
abbrev main_v127 : Ref sig .tc := ⟨.hbm, 265, rfl⟩
abbrev main_cst_24 : Ref sig .tc := ⟨.hbm, 266, rfl⟩
abbrev main_v128 : Ref sig .tc := ⟨.hbm, 267, rfl⟩
abbrev main_cst_25 : Ref sig .tc := ⟨.hbm, 268, rfl⟩
abbrev main_v129 : Ref sig .tc := ⟨.hbm, 269, rfl⟩
abbrev main_v130 : Ref sig .tc := ⟨.hbm, 270, rfl⟩
abbrev main_v131 : Ref sig .tc := ⟨.hbm, 271, rfl⟩
abbrev main_v132 : Ref sig .tc := ⟨.hbm, 272, rfl⟩
abbrev main_v133 : Ref sig .tc := ⟨.hbm, 273, rfl⟩
abbrev main_v134 : Ref sig .tc := ⟨.hbm, 274, rfl⟩
abbrev main_cst_26 : Ref sig .tc := ⟨.hbm, 275, rfl⟩
abbrev main_v135 : Ref sig .tc := ⟨.hbm, 276, rfl⟩
abbrev main_cst_27 : Ref sig .tc := ⟨.hbm, 277, rfl⟩
abbrev main_v136 : Ref sig .tc := ⟨.hbm, 278, rfl⟩
abbrev main_v137 : Ref sig .tc := ⟨.hbm, 279, rfl⟩
abbrev main_v138 : Ref sig .tc := ⟨.hbm, 280, rfl⟩
abbrev main_v139 : Ref sig .tc := ⟨.hbm, 281, rfl⟩
abbrev main_v140 : Ref sig .tc := ⟨.hbm, 282, rfl⟩
abbrev main_cst_28 : Ref sig .tc := ⟨.hbm, 283, rfl⟩
abbrev main_v141 : Ref sig .tc := ⟨.hbm, 284, rfl⟩
abbrev main_v142 : Ref sig .tc := ⟨.hbm, 285, rfl⟩
abbrev main_v143 : Ref sig .tc := ⟨.hbm, 286, rfl⟩
abbrev main_v144 : Ref sig .tc := ⟨.hbm, 287, rfl⟩
abbrev main_v145 : Ref sig .tc := ⟨.hbm, 288, rfl⟩
abbrev main_v146 : Ref sig .tc := ⟨.hbm, 289, rfl⟩
abbrev main_v147 : Ref sig .tc := ⟨.hbm, 290, rfl⟩
abbrev main_v148 : Ref sig .tc := ⟨.hbm, 291, rfl⟩
abbrev main_v149 : Ref sig .tc := ⟨.hbm, 292, rfl⟩
abbrev main_v150 : Ref sig .tc := ⟨.hbm, 293, rfl⟩
abbrev main_v151 : Ref sig .tc := ⟨.hbm, 294, rfl⟩
abbrev main_v152 : Ref sig .tc := ⟨.hbm, 295, rfl⟩
abbrev main_cst_29 : Ref sig .tc := ⟨.hbm, 296, rfl⟩
abbrev main_v153 : Ref sig .tc := ⟨.hbm, 297, rfl⟩
abbrev main_v154 : Ref sig .tc := ⟨.hbm, 298, rfl⟩
abbrev main_cst_30 : Ref sig .tc := ⟨.hbm, 299, rfl⟩
abbrev main_v155 : Ref sig .tc := ⟨.hbm, 300, rfl⟩
abbrev main_v156 : Ref sig .tc := ⟨.hbm, 301, rfl⟩
abbrev main_v157 : Ref sig .tc := ⟨.hbm, 302, rfl⟩
abbrev main_call8_c : Ref sig .tc := ⟨.hbm, 303, rfl⟩
abbrev main_call8_v0 : Ref sig .tc := ⟨.hbm, 304, rfl⟩
abbrev main_call8_v1 : Ref sig .tc := ⟨.hbm, 305, rfl⟩
abbrev main_call8_c_0 : Ref sig .tc := ⟨.hbm, 306, rfl⟩
abbrev main_call8_v2 : Ref sig .tc := ⟨.hbm, 307, rfl⟩
abbrev main_call8_v3 : Ref sig .tc := ⟨.hbm, 308, rfl⟩
abbrev main_call8_v4 : Ref sig .tc := ⟨.hbm, 309, rfl⟩
abbrev main_call8_v5 : Ref sig .tc := ⟨.hbm, 310, rfl⟩
abbrev main_call8_c_1 : Ref sig .tc := ⟨.hbm, 311, rfl⟩
abbrev main_call8_c_2 : Ref sig .tc := ⟨.hbm, 312, rfl⟩
abbrev main_call8_v6 : Ref sig .tc := ⟨.hbm, 313, rfl⟩
abbrev main_call8_v7 : Ref sig .tc := ⟨.hbm, 314, rfl⟩
abbrev main_call8_v8 : Ref sig .tc := ⟨.hbm, 315, rfl⟩
abbrev main_call8_v9 : Ref sig .tc := ⟨.hbm, 316, rfl⟩
abbrev main_call8_v10 : Ref sig .tc := ⟨.hbm, 317, rfl⟩
abbrev main_call8_v11 : Ref sig .tc := ⟨.hbm, 318, rfl⟩
abbrev main_call8_c_3 : Ref sig .tc := ⟨.hbm, 319, rfl⟩
abbrev main_call8_v12 : Ref sig .tc := ⟨.hbm, 320, rfl⟩
abbrev main_call8_v13 : Ref sig .tc := ⟨.hbm, 321, rfl⟩
abbrev main_call8_v14 : Ref sig .tc := ⟨.hbm, 322, rfl⟩
abbrev main_call8_cst : Ref sig .tc := ⟨.hbm, 323, rfl⟩
abbrev main_call8_v15 : Ref sig .tc := ⟨.hbm, 324, rfl⟩
abbrev main_v158 : Ref sig .tc := ⟨.hbm, 325, rfl⟩
abbrev main_v159 : Ref sig .tc := ⟨.hbm, 326, rfl⟩
abbrev main_v160 : Ref sig .tc := ⟨.hbm, 327, rfl⟩
abbrev main_v161 : Ref sig .tc := ⟨.hbm, 328, rfl⟩
abbrev main_cst_31 : Ref sig .tc := ⟨.hbm, 329, rfl⟩
abbrev main_v162 : Ref sig .tc := ⟨.hbm, 330, rfl⟩
abbrev main_v163 : Ref sig .tc := ⟨.hbm, 331, rfl⟩
abbrev main_v164 : Ref sig .tc := ⟨.hbm, 332, rfl⟩
abbrev main_v165 : Ref sig .tc := ⟨.hbm, 333, rfl⟩
abbrev main_v166 : Ref sig .tc := ⟨.hbm, 334, rfl⟩
abbrev main_v167 : Ref sig .tc := ⟨.hbm, 335, rfl⟩
abbrev main_cst_32 : Ref sig .tc := ⟨.hbm, 336, rfl⟩
abbrev main_v168 : Ref sig .tc := ⟨.hbm, 337, rfl⟩
abbrev main_cst_33 : Ref sig .tc := ⟨.hbm, 338, rfl⟩
abbrev main_v169 : Ref sig .tc := ⟨.hbm, 339, rfl⟩
abbrev main_v170 : Ref sig .tc := ⟨.hbm, 340, rfl⟩
abbrev main_v171 : Ref sig .tc := ⟨.hbm, 341, rfl⟩
abbrev main_v172 : Ref sig .tc := ⟨.hbm, 342, rfl⟩
abbrev main_v173 : Ref sig .tc := ⟨.hbm, 343, rfl⟩
abbrev main_v174 : Ref sig .tc := ⟨.hbm, 344, rfl⟩
abbrev main_cst_34 : Ref sig .tc := ⟨.hbm, 345, rfl⟩
abbrev main_v175 : Ref sig .tc := ⟨.hbm, 346, rfl⟩
abbrev main_cst_35 : Ref sig .tc := ⟨.hbm, 347, rfl⟩
abbrev main_v176 : Ref sig .tc := ⟨.hbm, 348, rfl⟩
abbrev main_v177 : Ref sig .tc := ⟨.hbm, 349, rfl⟩
abbrev main_v178 : Ref sig .tc := ⟨.hbm, 350, rfl⟩
abbrev main_v179 : Ref sig .tc := ⟨.hbm, 351, rfl⟩
abbrev main_v180 : Ref sig .tc := ⟨.hbm, 352, rfl⟩
abbrev main_cst_36 : Ref sig .tc := ⟨.hbm, 353, rfl⟩
abbrev main_v181 : Ref sig .tc := ⟨.hbm, 354, rfl⟩
abbrev main_v182 : Ref sig .tc := ⟨.hbm, 355, rfl⟩
abbrev main_v183 : Ref sig .tc := ⟨.hbm, 356, rfl⟩
abbrev main_v184 : Ref sig .tc := ⟨.hbm, 357, rfl⟩
abbrev main_v185 : Ref sig .tc := ⟨.hbm, 358, rfl⟩
abbrev main_v186 : Ref sig .tc := ⟨.hbm, 359, rfl⟩
abbrev main_v187 : Ref sig .tc := ⟨.hbm, 360, rfl⟩
abbrev main_v188 : Ref sig .tc := ⟨.hbm, 361, rfl⟩
abbrev main_v189 : Ref sig .tc := ⟨.hbm, 362, rfl⟩
abbrev main_v190 : Ref sig .tc := ⟨.hbm, 363, rfl⟩
abbrev main_v191 : Ref sig .tc := ⟨.hbm, 364, rfl⟩
abbrev main_v192 : Ref sig .tc := ⟨.hbm, 365, rfl⟩
abbrev main_v193 : Ref sig .tc := ⟨.hbm, 366, rfl⟩
abbrev main_v194 : Ref sig .tc := ⟨.hbm, 367, rfl⟩
abbrev main_cst_37 : Ref sig .tc := ⟨.hbm, 368, rfl⟩
abbrev main_v195 : Ref sig .tc := ⟨.hbm, 369, rfl⟩
abbrev main_v196 : Ref sig .tc := ⟨.hbm, 370, rfl⟩
abbrev main_cst_38 : Ref sig .tc := ⟨.hbm, 371, rfl⟩
abbrev main_v197 : Ref sig .tc := ⟨.hbm, 372, rfl⟩
abbrev main_v198 : Ref sig .tc := ⟨.hbm, 373, rfl⟩

abbrev nD : Nat := 1
abbrev τ : Topo := Topo.v7x

variable {F : FTy → Type} [FloatOps F]

class Facts₀ : Prop where
  bcast_S_S27x40000 : S_.BroadcastsInDim S27x40000 (![] : Fin 0 → Fin S27x40000.rank)
  bcast_S27x40000_S27x40000x1_0_1 : S27x40000.BroadcastsInDim S27x40000x1 (![0, 1] : Fin 2 → Fin S27x40000x1.rank)
  bcast_S_S27x40000x1 : S_.BroadcastsInDim S27x40000x1 (![] : Fin 0 → Fin S27x40000x1.rank)
  bcast_S1_S1x1x1_2 : S1.BroadcastsInDim S1x1x1 (![2] : Fin 1 → Fin S1x1x1.rank)
  bcast_S1x1x1_S27x40000x1_0_1_2 : S1x1x1.BroadcastsInDim S27x40000x1 (![0, 1, 2] : Fin 3 → Fin S27x40000x1.rank)
  reducesTo_S27x40000x1_S27x40000_d2 : S27x40000x1.ReducesTo [2] S27x40000
  h_S_ : 0 < S_.numel
  bcast_S27x40000_S27x40000x64_0_1 : S27x40000.BroadcastsInDim S27x40000x64 (![0, 1] : Fin 2 → Fin S27x40000x64.rank)
  bcast_S_S27x40000x64 : S_.BroadcastsInDim S27x40000x64 (![] : Fin 0 → Fin S27x40000x64.rank)
  shapeCasts_S27x40000x64_S1080000x64 : S27x40000x64.ShapeCasts S1080000x64
  shapeCasts_S27x40000_S1080000 : S27x40000.ShapeCasts S1080000
  bcast_S_S60000x64 : S_.BroadcastsInDim S60000x64 (![] : Fin 0 → Fin S60000x64.rank)
  bcast_S1080000_S1080000x1_0 : S1080000.BroadcastsInDim S1080000x1 (![0] : Fin 1 → Fin S1080000x1.rank)
  bcast_S64_S1x64_1 : S64.BroadcastsInDim S1x64 (![1] : Fin 1 → Fin S1x64.rank)
  bcast_S1x64_S60000x64_0_1 : S1x64.BroadcastsInDim S60000x64 (![0, 1] : Fin 2 → Fin S60000x64.rank)
  reducesTo_S60000x64_S64_d0 : S60000x64.ReducesTo [0] S64
  bcast_S_S64 : S_.BroadcastsInDim S64 (![] : Fin 0 → Fin S64.rank)
  bcast_S_S27x25000 : S_.BroadcastsInDim S27x25000 (![] : Fin 0 → Fin S27x25000.rank)
  bcast_S27x25000_S27x25000x1_0_1 : S27x25000.BroadcastsInDim S27x25000x1 (![0, 1] : Fin 2 → Fin S27x25000x1.rank)
  bcast_S_S27x25000x1 : S_.BroadcastsInDim S27x25000x1 (![] : Fin 0 → Fin S27x25000x1.rank)
  bcast_S1x1x1_S27x25000x1_0_1_2 : S1x1x1.BroadcastsInDim S27x25000x1 (![0, 1, 2] : Fin 3 → Fin S27x25000x1.rank)
  reducesTo_S27x25000x1_S27x25000_d2 : S27x25000x1.ReducesTo [2] S27x25000
  bcast_S27x25000_S27x25000x128_0_1 : S27x25000.BroadcastsInDim S27x25000x128 (![0, 1] : Fin 2 → Fin S27x25000x128.rank)
  bcast_S_S27x25000x128 : S_.BroadcastsInDim S27x25000x128 (![] : Fin 0 → Fin S27x25000x128.rank)
  shapeCasts_S27x25000x64_S675000x64 : S27x25000x64.ShapeCasts S675000x64
  shapeCasts_S27x25000_S675000 : S27x25000.ShapeCasts S675000
  bcast_S675000_S675000x1_0 : S675000.BroadcastsInDim S675000x1 (![0] : Fin 1 → Fin S675000x1.rank)
  bcast_S27x25000_S27x25000x64_0_1 : S27x25000.BroadcastsInDim S27x25000x64 (![0, 1] : Fin 2 → Fin S27x25000x64.rank)
  bcast_S_S27x25000x64 : S_.BroadcastsInDim S27x25000x64 (![] : Fin 0 → Fin S27x25000x64.rank)
  shapeCasts_S27x25000x1_S675000x1 : S27x25000x1.ShapeCasts S675000x1
  bcast_S_S60000x1 : S_.BroadcastsInDim S60000x1 (![] : Fin 0 → Fin S60000x1.rank)
  reducesTo_S60000x1_S1_d0 : S60000x1.ReducesTo [0] S1
  bcast_S_S1 : S_.BroadcastsInDim S1 (![] : Fin 0 → Fin S1.rank)
  bcast_S1_S1x1_1 : S1.BroadcastsInDim S1x1 (![1] : Fin 1 → Fin S1x1.rank)
  bcast_S1x1_S60000x1_0_1 : S1x1.BroadcastsInDim S60000x1 (![0, 1] : Fin 2 → Fin S60000x1.rank)
  bcast_S_S200000x64 : S_.BroadcastsInDim S200000x64 (![] : Fin 0 → Fin S200000x64.rank)
  bcast_S1x64_S200000x64_0_1 : S1x64.BroadcastsInDim S200000x64 (![0, 1] : Fin 2 → Fin S200000x64.rank)
  reducesTo_S200000x64_S64_d0 : S200000x64.ReducesTo [0] S64
  gather_S200000x64_S27x40000x1_S27x40000x64_2_0_n_n_0_2_164_wf : GatherDims.WF S200000x64 S27x40000x1 S27x40000x64 [2] [0] [] [0] [] 2 ![1, 64]
  dot_S27x40000x64_S27x64x64_S27x40000x64_2_1_1_2_0_0_wf : DotDims.WF S27x40000x64 S27x64x64 S27x40000x64 [2] [1] [1] [2] [0] [0]
  scatter_S60000x64_S1080000x1_S1080000x64_1_0_0_1_wf : ScatterDims.WF S60000x64 S1080000x1 S1080000x64 [1] [0] [0] 1
  gather_S60000x128_S27x25000x1_S27x25000x128_2_0_n_n_0_2_1128_wf : GatherDims.WF S60000x128 S27x25000x1 S27x25000x128 [2] [0] [] [0] [] 2 ![1, 128]
  dot_S27x25000x128_S27x128x64_S27x25000x64_2_1_1_2_0_0_wf : DotDims.WF S27x25000x128 S27x128x64 S27x25000x64 [2] [1] [1] [2] [0] [0]
  scatter_S60000x64_S675000x1_S675000x64_1_0_0_1_wf : ScatterDims.WF S60000x64 S675000x1 S675000x64 [1] [0] [0] 1
  gather_S60000x64_S27x25000x1_S27x25000x64_2_0_n_n_0_2_164_wf : GatherDims.WF S60000x64 S27x25000x1 S27x25000x64 [2] [0] [] [0] [] 2 ![1, 64]
  dot_S27x25000x64_S27x64x64_S27x25000x64_2_1_1_2_0_0_wf : DotDims.WF S27x25000x64 S27x64x64 S27x25000x64 [2] [1] [1] [2] [0] [0]
  dot_S27x25000x64_S27x64x1_S27x25000x1_2_1_1_2_0_0_wf : DotDims.WF S27x25000x64 S27x64x1 S27x25000x1 [2] [1] [1] [2] [0] [0]
  scatter_S60000x1_S675000x1_S675000x1_1_0_0_1_wf : ScatterDims.WF S60000x1 S675000x1 S675000x1 [1] [0] [0] 1
  gather_S60000x1_S27x40000x1_S27x40000x1_2_0_n_n_0_2_11_wf : GatherDims.WF S60000x1 S27x40000x1 S27x40000x1 [2] [0] [] [0] [] 2 ![1, 1]
  dot_S27x40000x1_S27x1x64_S27x40000x64_2_1_1_2_0_0_wf : DotDims.WF S27x40000x1 S27x1x64 S27x40000x64 [2] [1] [1] [2] [0] [0]
  scatter_S200000x64_S1080000x1_S1080000x64_1_0_0_1_wf : ScatterDims.WF S200000x64 S1080000x1 S1080000x64 [1] [0] [0] 1

variable [Facts₀]

def gather_S200000x64_S27x40000x1_S27x40000x64_2_0_n_n_0_2_164 : GatherDims S200000x64 S27x40000x1 S27x40000x64 where
  offsetDims := [2]
  collapsedSliceDims := [0]
  operandBatchingDims := []
  startIndicesBatchingDims := []
  startIndexMap := [0]
  indexVectorDim := 2
  sliceSizes := ![1, 64]
  wf := gather_S200000x64_S27x40000x1_S27x40000x64_2_0_n_n_0_2_164_wf
def dot_S27x40000x64_S27x64x64_S27x40000x64_2_1_1_2_0_0 : DotDims S27x40000x64 S27x64x64 S27x40000x64 where
  lhsContracting := [2]
  rhsContracting := [1]
  lhsNonContracting := [1]
  rhsNonContracting := [2]
  lhsBatch := [0]
  rhsBatch := [0]
  wf := dot_S27x40000x64_S27x64x64_S27x40000x64_2_1_1_2_0_0_wf
def scatter_S60000x64_S1080000x1_S1080000x64_1_0_0_1 : ScatterDims S60000x64 S1080000x1 S1080000x64 where
  updateWindowDims := [1]
  insertedWindowDims := [0]
  scatterDimsToOperandDims := [0]
  indexVectorDim := 1
  wf := scatter_S60000x64_S1080000x1_S1080000x64_1_0_0_1_wf
def gather_S60000x128_S27x25000x1_S27x25000x128_2_0_n_n_0_2_1128 : GatherDims S60000x128 S27x25000x1 S27x25000x128 where
  offsetDims := [2]
  collapsedSliceDims := [0]
  operandBatchingDims := []
  startIndicesBatchingDims := []
  startIndexMap := [0]
  indexVectorDim := 2
  sliceSizes := ![1, 128]
  wf := gather_S60000x128_S27x25000x1_S27x25000x128_2_0_n_n_0_2_1128_wf
def dot_S27x25000x128_S27x128x64_S27x25000x64_2_1_1_2_0_0 : DotDims S27x25000x128 S27x128x64 S27x25000x64 where
  lhsContracting := [2]
  rhsContracting := [1]
  lhsNonContracting := [1]
  rhsNonContracting := [2]
  lhsBatch := [0]
  rhsBatch := [0]
  wf := dot_S27x25000x128_S27x128x64_S27x25000x64_2_1_1_2_0_0_wf
def scatter_S60000x64_S675000x1_S675000x64_1_0_0_1 : ScatterDims S60000x64 S675000x1 S675000x64 where
  updateWindowDims := [1]
  insertedWindowDims := [0]
  scatterDimsToOperandDims := [0]
  indexVectorDim := 1
  wf := scatter_S60000x64_S675000x1_S675000x64_1_0_0_1_wf
def gather_S60000x64_S27x25000x1_S27x25000x64_2_0_n_n_0_2_164 : GatherDims S60000x64 S27x25000x1 S27x25000x64 where
  offsetDims := [2]
  collapsedSliceDims := [0]
  operandBatchingDims := []
  startIndicesBatchingDims := []
  startIndexMap := [0]
  indexVectorDim := 2
  sliceSizes := ![1, 64]
  wf := gather_S60000x64_S27x25000x1_S27x25000x64_2_0_n_n_0_2_164_wf
def dot_S27x25000x64_S27x64x64_S27x25000x64_2_1_1_2_0_0 : DotDims S27x25000x64 S27x64x64 S27x25000x64 where
  lhsContracting := [2]
  rhsContracting := [1]
  lhsNonContracting := [1]
  rhsNonContracting := [2]
  lhsBatch := [0]
  rhsBatch := [0]
  wf := dot_S27x25000x64_S27x64x64_S27x25000x64_2_1_1_2_0_0_wf
def dot_S27x25000x64_S27x64x1_S27x25000x1_2_1_1_2_0_0 : DotDims S27x25000x64 S27x64x1 S27x25000x1 where
  lhsContracting := [2]
  rhsContracting := [1]
  lhsNonContracting := [1]
  rhsNonContracting := [2]
  lhsBatch := [0]
  rhsBatch := [0]
  wf := dot_S27x25000x64_S27x64x1_S27x25000x1_2_1_1_2_0_0_wf
def scatter_S60000x1_S675000x1_S675000x1_1_0_0_1 : ScatterDims S60000x1 S675000x1 S675000x1 where
  updateWindowDims := [1]
  insertedWindowDims := [0]
  scatterDimsToOperandDims := [0]
  indexVectorDim := 1
  wf := scatter_S60000x1_S675000x1_S675000x1_1_0_0_1_wf
def gather_S60000x1_S27x40000x1_S27x40000x1_2_0_n_n_0_2_11 : GatherDims S60000x1 S27x40000x1 S27x40000x1 where
  offsetDims := [2]
  collapsedSliceDims := [0]
  operandBatchingDims := []
  startIndicesBatchingDims := []
  startIndexMap := [0]
  indexVectorDim := 2
  sliceSizes := ![1, 1]
  wf := gather_S60000x1_S27x40000x1_S27x40000x1_2_0_n_n_0_2_11_wf
def dot_S27x40000x1_S27x1x64_S27x40000x64_2_1_1_2_0_0 : DotDims S27x40000x1 S27x1x64 S27x40000x64 where
  lhsContracting := [2]
  rhsContracting := [1]
  lhsNonContracting := [1]
  rhsNonContracting := [2]
  lhsBatch := [0]
  rhsBatch := [0]
  wf := dot_S27x40000x1_S27x1x64_S27x40000x64_2_1_1_2_0_0_wf
def scatter_S200000x64_S1080000x1_S1080000x64_1_0_0_1 : ScatterDims S200000x64 S1080000x1 S1080000x64 where
  updateWindowDims := [1]
  insertedWindowDims := [0]
  scatterDimsToOperandDims := [0]
  indexVectorDim := 1
  wf := scatter_S200000x64_S1080000x1_S1080000x64_1_0_0_1_wf

class Facts : Prop extends Facts₀ where

variable [Facts]
-- ==== Proof.Preserves.lean ====
/-
  The ideal pass named ten constants of the five statistics bodies: the reciprocal of the row count, `1/60000` in the
  four stages whose batch has 60000 rows (twice each: once for the mean, once for the mean of squares) and `1/200000`
  in the last stage. Each conjunct says that the certificate's table gives the name that rational and that the printed
  constant is that rational at the extended reals.
-/
import proofs.«180908_j8211977470570_1_alg».proof.Defs

noncomputable section

namespace Cert.Proof.Pieces

open Idealize.ShloMosaic

theorem inv60000 : IdealRules.named_const.Statement Cert.KernelIdeal.κ "inv_60000" .f32 0x378BCF65#32 ((1 / 60000 : ℝ) : EReal) :=
  IdealRules.named_const.statement Cert.KernelIdeal.κ "inv_60000" .f32 0x378BCF65#32 ((1 / 60000 : ℝ) : EReal) rfl

theorem inv200000 : IdealRules.named_const.Statement Cert.KernelIdeal.κ "inv_200000" .f32 0x36A7C5AC#32 ((1 / 200000 : ℝ) : EReal) :=
  IdealRules.named_const.statement Cert.KernelIdeal.κ "inv_200000" .f32 0x36A7C5AC#32 ((1 / 200000 : ℝ) : EReal) rfl

theorem preserves : Cert.preserves_Kernel_KernelIdeal :=
  ⟨inv60000, inv60000, inv60000, inv60000, inv60000, inv60000, inv60000, inv60000, inv200000, inv200000⟩

end Cert.Proof.Pieces

end
-- ==== Proof.RegionRecordBits.lean ====
import proofs.«180908_j8211977470570_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- No core owes another anything: no level is assigned. -/
abbrev 𝒱₀ : Variants := Variants.none
abbrev L : GSem nD τ sig → Finset Unit := fun _ => ∅
abbrev lv : GSem nD τ sig → Unit → ℕ := fun _ _ => 0

/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)

abbrev adm : (p : Fin 15) → (pcfgs (F := F) p).Adm := fun p => (cfgs p).toPCfg_adm

/-- A valuation of every buffer read at the TensorCore's references. -/
abbrev atTc (W : Dev nD → Valuation τ sig (Elt F)) : (c : Dev nD) → (b : Ref sig .tc) → Buf (Elt F) ((c : Thread nD τ).loc b) :=
  fun c b => W c (Proc.devRef .tc b)

set_option backward.isDefEq.respectTransparency.types false in
/-- A region as a segment of the program's run. Its invariant starts and ends at the untouched scoped buffers beside
    the generator register (`hin`, `hout`: in between it may carry scratch contents from point to point), it owes
    nothing and holds full shares. Entered with every unscoped buffer at `Vin`, it is left with them at `Vout`, which
    has the region's arrays at what the write-backs leave and agrees with `Vin` elsewhere. -/
def regOf (pdats : (p : Fin 15) → (c : Dev nD) → Dat τ (Elt F) Unit ℕ (UR sig nD τ) ℕ (Pipeline.pin (pcfgs (F := F)) adm p) c)
    (p : Fin 15) (hl : Pipeline.LaunchFacts (nD := nD) (τ := τ) cfgs p)
    (hin : ∀ c, (Pipeline.ΦA (cfgs p).spec c : sProp 𝕄) ⊢ (pdats p c).Φ 0)
    (hout : ∀ c, (pdats p c).Φ (Fin.last _) ⊢ (Pipeline.ΦA (cfgs p).spec c : sProp 𝕄))
    (hq : ∀ c w, (pdats p c).q w = fullShare)
    (howed : ∀ c t, (pdats p c).owed t = 0)
    (hrec : ∀ c t, (pdats p c).recorded t = Set.univ)
    (hbody : ∀ c, BodyObligation (pdats p c) (defs₀ (F := F)) Variants.none () Set.univ)
    (Vin Vout : Dev nD → Valuation τ sig (Elt F))
    (hA : ∀ c w, (pdats p c).A w = atTc Vin c (Pipeline.arrRef (cfgs p).spec w))
    (hF : ∀ c w, (pdats p c).arrAt w (cfgs p).N = atTc Vout c (Pipeline.arrRef (cfgs p).spec w))
    (hrest : ∀ c b, b ∉ Finset.univ.image (Pipeline.arrRef (cfgs p).spec) → atTc Vout c b = atTc Vin c b) :
    Pipeline.RegionSeg (pcfgs (F := F)) adm pdats () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    rw [Pipeline.ownSems0_none]
    have hsplit := Pipeline.arrays_of_unscopedBufs (p := p) (pcfgs (F := F)) adm pdats hl.win hl.arr_whole c
      ((pdats p c).share_full (hq c)) (atTc Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (by rw [hrec c 0]; exact Set.mem_univ x)
      iexact HO
    isplitl [Hp]; · iexact Hp
    iexact Hrest
  hin c := by
    refine (?_ : _ ⊢ (Pipeline.ΦA (cfgs p).spec c : sProp 𝕄)).trans (hin c)
    unfold Pipeline.ΦA
    iintro ⟨Hp, -, Hr⟩
    isplitl [Hr]; · iexact Hr
    iexact Hp
  hout c := by
    rw [Pipeline.ownSems0_none]
    refine (hout c).trans (?_ : (Pipeline.ΦA (cfgs p).spec c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c pdats ((pdats p c).share_full (hq c))
      (atTc Vin c) (atTc Vout c) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.Kernel.Regs

end
-- ==== Proof.MatmulRegionKernel0.lean ====
/- Region 0 of @main (pipeline 0, `cc0_kernel`): a matrix product of two whole blocks, stored whole.
   Stated at a parameter `V`: the contents of the core's buffers when the region is entered.  The body reads
   window 0 (a block of rows) and window 1 (a block of weights) whole, rounds both to bf16, multiplies them
   into a zero accumulator, reads window 2 (the value is not used), and overwrites window 2 whole with the
   product.  Hence after the body the two input buffers are as found and the output buffer is a function
   `out0_2` of the two input blocks alone. -/
import proofs.«180908_j8211977470570_1_alg».proof.Proof.Gen.Kernel.Launch
import proofs.«180908_j8211977470570_1_alg».proof.Proof.Gen.Kernel.Skeleton
import proofs.«180908_j8211977470570_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the core's buffers when the region is entered
variable (V : (c : Dev nD) → (b : Ref sig .tc) → Buf (Elt F) ((c : Thread nD τ).loc b))

/-! ## The windows' blocks -/

/-- Window `w`'s block at point `t`, read off its array at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_a : Rect S1x5000x64 := Rect.unit (s := S1x5000x64) ![0, 0, 0] S1x5000x64.size inb_S1x5000x64_S1x5000x64_0_0_0
abbrev r0_b : Rect S1x64x64 := Rect.unit (s := S1x64x64) ![0, 0, 0] S1x64x64.size inb_S1x64x64_S1x64x64_0_0_0
abbrev r0_o : Rect S1x5000x64 := Rect.unit (s := S1x5000x64) ![0, 0, 0] S1x5000x64.size inb_S1x5000x64_S1x5000x64_0_0_0

/-! ## What the body leaves in the output window's buffer -/

/-- Window 2's buffer after the body, from the two input blocks: its one store, of the product, over the whole buffer. -/
def out0_2 (x0 : Vec F S1x5000x64 .f32) (x1 : Vec F S1x64x64 .f32) : Vec F S1x5000x64 .f32 :=
  View.canon [⟨r0_o, k0_pay1 (View.ld x0 r0_a) (View.ld x1 r0_b)⟩]

/-- The one store covers the buffer. -/
theorem cover0_2 (p0 : Vec F S1x5000x64 .f32) (y : S1x5000x64.Idx) :
    ∃ pc ∈ ([⟨r0_o, p0⟩] : List (View.Piece (Elt F) S1x5000x64 .f32)), y ∈ pc.1.set :=
  View.cover_of_tiled [⟨r0_o, p0⟩] S1x5000x64.size (by rfl) y

/-! ## The body's triple -/

set_option maxHeartbeats 1000000 in
/-- The body on whole buffers — the inputs' at contents `x0`, `x1`, the output's at anything — runs to the
    continuation holding the inputs' as they were and the output's at `out0_2 x0 x1`. -/
theorem sound_kernel0 (c : Dev nD) (E : Set ℕ) (i : grid0.Coords)
    (arg2 : Memref sig .tc .vmem S1x5000x64 .f32) (harg2 : arg2.IsWhole)
    (arg3 : Memref sig .tc .vmem S1x64x64 .f32) (harg3 : arg3.IsWhole)
    (arg4 : Memref sig .tc .vmem S1x5000x64 .f32) (harg4 : arg4.IsWhole)
    (x0 : Vec F S1x5000x64 .f32) (x1 : Vec F S1x64x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays at the entry contents `V`; after the body at point `t`
    each input's buffer at its block and the output's at `out0_2` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's rule, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Regs
-- ==== Proof.StatsKernel1Runs.lean ====
import proofs.«180908_j8211977470570_1_alg».proof.Proof.Gen.Kernel.Launch
import proofs.«180908_j8211977470570_1_alg».proof.Proof.Gen.Kernel.Skeleton
import proofs.«180908_j8211977470570_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The statistics region of pipeline 1: what its three control cases share

The kernel keeps two running column sums (of the block and of its square) in two scratch buffers the pipeline does not
stage: the first grid point zeroes them, every point adds its block's column sums, the last point turns them into the
mean and the variance and stores those into the two output windows. Everything is stated at a parameter `V`, the buffer
contents when the region is entered. -/

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is `V`'s
    and whose body leaves the block in place: the window is fetched at every point, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first conditional (the reset of the running sums), from the grid coordinate. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 20 = 0 :=
  (by decide +kernel : ∀ t : Fin grid1.N, cond1_0 (grid1.coords t) ↔ t.val % 20 = 0)

/-- The condition of the body's second conditional (the final division and the two output stores). -/
abbrev cond1_1 (i : grid1.Coords) : Prop := k1_cond2 i = 1#1
/-- It holds at the last point only — decided over the grid. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- The input window is never idle. -/
theorem liveAt1_0 : ∀ t : Fin cfg1.N, cfg1.idle 0 (grid1.coords t) = false := by decide +kernel
/-- Away from the last point the two output windows are idle (the body stores nothing into them) -/
theorem idleAt1_1 : ∀ t : Fin cfg1.N, ¬cond1_1 (grid1.coords t) → cfg1.idle 1 (grid1.coords t) = true := by decide +kernel
theorem idleAt1_2 : ∀ t : Fin cfg1.N, ¬cond1_1 (grid1.coords t) → cfg1.idle 2 (grid1.coords t) = true := by decide +kernel
/-- and are not written back. -/
theorem noFlush1_1 : ∀ t : Fin cfg1.N, ¬cond1_1 (grid1.coords t) → (cfg1.win 1).flush t = false := by decide +kernel
theorem noFlush1_2 : ∀ t : Fin cfg1.N, ¬cond1_1 (grid1.coords t) → (cfg1.win 2).flush t = false := by decide +kernel
/-- At the last point they are live. -/
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-! ## The memrefs the body is called with -/

/-- One staging buffer of each output window, through which its contents are stated (the choice does not matter once
    the stores cover the block). -/
abbrev VO1_1 : View sig .tc .vmem S1x64 .f32 := (Memref.whole cc1_stg1_0 : Memref sig .tc .vmem S1x64 .f32).view
abbrev VO1_2 : View sig .tc .vmem S1x64 .f32 := (Memref.whole cc1_stg2_0 : Memref sig .tc .vmem S1x64 .f32).view
/-- Each window's current staging memref at point `t`, as the pipeline passes it, and its wholeness. -/
abbrev ms1_0 (t : Fin cfg1.N) : Memref sig .tc .vmem S3000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
/-- The two scratch operands: whole scoped buffers of the kernel's own, passed beside the windows. -/
abbrev scM1_0 : Memref sig .tc .vmem S1x64 .f32 := Memref.whole cc1_scratch0
abbrev scM1_1 : Memref sig .tc .vmem S1x64 .f32 := Memref.whole cc1_scratch1
/-- The same as views: what they hold is stated through these. -/
abbrev VS1_0 : View sig .tc .vmem S1x64 .f32 := scM1_0.view
abbrev VS1_1 : View sig .tc .vmem S1x64 .f32 := scM1_1.view

/-- The region's entry invariant (every scoped buffer no window stages at some contents, the generator register at
    some state) with the two scratch operands taken out as memrefs owned at some contents; the other scoped buffers stay
    unopened. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

end Cert.Kernel.Regs

end
-- ==== Proof.StatsKernel1RunA.lean ====
import proofs.«180908_j8211977470570_1_alg».proof.Proof.StatsKernel1Runs

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE FIRST POINT (the reset taken, the final stores not): what the body's stores leave in the two scratch buffers, as
    pieces (last first), WITH the proof that on whole memrefs — the input block's at its contents `x0`, the two scratch
    buffers at anything — the body runs to the continuation holding the input as it was and each scratch buffer with its
    pieces written (zero stored, then the block's column sums added). The two output windows are not touched and are
    left out. The pieces are the witness the symbolic run finds. -/
noncomputable def kernelRun1_A (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S3000x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg4 fullShare d) ∗ (∃ d, owns (c : Thread nD τ) arg5 fullShare d)
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1_kernel i arg1 harg1 arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%ds0, %fs0, -, HS0⟩, ⟨%ds1, %fs1, -, HS1⟩, Hk⟩
    obtain rfl := harg1.eq_unread hf0
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.Kernel.Regs

end
-- ==== Proof.StatsKernel1RunB.lean ====
import proofs.«180908_j8211977470570_1_alg».proof.Proof.StatsKernel1RunA

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A MIDDLE POINT (neither conditional taken): what the body's stores leave in the two scratch buffers, as pieces, WITH
    the proof that on whole memrefs — the input block's at `x0`, the two scratch buffers at the running sums `xs0`, `xs1`
    the point before left — the body runs to the continuation holding the input as it was and each scratch buffer with
    its pieces written (the block's column sums added). The two output windows are not touched and are left out. -/
noncomputable def kernelRun1_B (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S3000x64 .f32) (xs0 : Vec F S1x64 .f32) (xs1 : Vec F S1x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg4 fullShare xs0 ∗ owns (c : Thread nD τ) arg5 fullShare xs1
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1_kernel i arg1 harg1 arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.Kernel.Regs

end
-- ==== Proof.StatsKernel1RunC.lean ====
import proofs.«180908_j8211977470570_1_alg».proof.Proof.StatsKernel1RunB

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE LAST POINT (the reset not taken, the final stores taken): what the body's stores leave in the two output
    windows' staging memrefs and in the two scratch buffers, as pieces, WITH the proof that on whole memrefs — the input
    block's at `x0`, the outputs' at anything, the scratch buffers at the running sums `xs0`, `xs1` the point before
    left — the body runs to the continuation holding the input as it was and each of the four with its pieces written
    (the sums completed; the mean, and the mean of squares less the mean squared, stored). -/
noncomputable def kernelRun1_C (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) :
    Σ' (L1 : List (View.Piece (Elt F) S1x64 .f32)) (L2 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc1_kernel i arg1 harg1 arg2 harg2 arg3 harg3 arg4 harg4 arg5 harg5) K } := by
  refine ⟨?_, ?_, ?_, ?_, fun E K => ?run⟩
  case run =>
    simp only [cc1_kernel_eq_skeleton]; unfold cc1_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [HS0]
    · iexists _; iexact HS0
    iexists _; iexact HS1

end Cert.Kernel.Regs

end
-- ==== Proof.StatsRegionKernel1.lean ====
import proofs.«180908_j8211977470570_1_alg».proof.Proof.StatsKernel1RunC

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The statistics region of pipeline 1: the running sums, the proof data, the body obligation -/

/-! ## What each case's stores leave -/

/-- At the first point the stores into the first scratch buffer (the zero, then the sum) tile it, so they cover it. -/
theorem scover1_A_0 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S3000x64 .f32) (y : S1x64.Idx) :
    ∃ pc ∈ (kernelRun1_A c i arg1 harg1 arg2 harg2 arg3 harg3 arg4 harg4 arg5 harg5 hc0 hc1 x0).1, y ∈ pc.1.set :=
  View.cover_of_tiledL (kernelRun1_A c i arg1 harg1 arg2 harg2 arg3 harg3 arg4 harg4 arg5 harg5 hc0 hc1 x0).1 S1x64.size (by sl_kernel_rfl) y

/-- What they leave there: the pieces read back (over contents that, the pieces covering the buffer, do not matter). -/
def sout1_A_0 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S3000x64 .f32) : Vec F S1x64 .f32 :=
  VS1_0.read (Elt F) (VS1_0.writes (Elt F) VS1_0.junk (kernelRun1_A c i arg1 harg1 arg2 harg2 arg3 harg3 arg4 harg4 arg5 harg5 hc0 hc1 x0).1)

/-- At the first point the stores into the second scratch buffer tile it, so they cover it. -/
theorem scover1_A_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S3000x64 .f32) (y : S1x64.Idx) :
    ∃ pc ∈ (kernelRun1_A c i arg1 harg1 arg2 harg2 arg3 harg3 arg4 harg4 arg5 harg5 hc0 hc1 x0).2.1, y ∈ pc.1.set :=
  View.cover_of_tiledL (kernelRun1_A c i arg1 harg1 arg2 harg2 arg3 harg3 arg4 harg4 arg5 harg5 hc0 hc1 x0).2.1 S1x64.size (by sl_kernel_rfl) y

/-- What they leave there: the pieces read back (over contents that, the pieces covering the buffer, do not matter). -/
def sout1_A_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S3000x64 .f32) : Vec F S1x64 .f32 :=
  VS1_1.read (Elt F) (VS1_1.writes (Elt F) VS1_1.junk (kernelRun1_A c i arg1 harg1 arg2 harg2 arg3 harg3 arg4 harg4 arg5 harg5 hc0 hc1 x0).2.1)

/-- At a middle point the store into the first scratch buffer tiles it. -/
theorem scover1_B_0 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S3000x64 .f32) (xs0 : Vec F S1x64 .f32) (xs1 : Vec F S1x64 .f32) (y : S1x64.Idx) :
    ∃ pc ∈ (kernelRun1_B c i arg1 harg1 arg2 harg2 arg3 harg3 arg4 harg4 arg5 harg5 hc0 hc1 x0 xs0 xs1).1, y ∈ pc.1.set :=
  View.cover_of_tiledL (kernelRun1_B c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def sout1_B_0 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S3000x64 .f32) (xs0 : Vec F S1x64 .f32) (xs1 : Vec F S1x64 .f32) : Vec F S1x64 .f32 :=
  VS1_0.read (Elt F) (VS1_0.writes (Elt F) VS1_0.junk (kernelRun1_B c i arg1 harg1 arg2 harg2 arg3 harg3 arg4 harg4 arg5 harg5 hc0 hc1 x0 xs0 xs1).1)

/-- At a middle point the store into the second scratch buffer tiles it. -/
theorem scover1_B_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S3000x64 .f32) (xs0 : Vec F S1x64 .f32) (xs1 : Vec F S1x64 .f32) (y : S1x64.Idx) :
    ∃ pc ∈ (kernelRun1_B c i arg1 harg1 arg2 harg2 arg3 harg3 arg4 harg4 arg5 harg5 hc0 hc1 x0 xs0 xs1).2.1, y ∈ pc.1.set :=
  View.cover_of_tiledL (kernelRun1_B c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def sout1_B_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S3000x64 .f32) (xs0 : Vec F S1x64 .f32) (xs1 : Vec F S1x64 .f32) : Vec F S1x64 .f32 :=
  VS1_1.read (Elt F) (VS1_1.writes (Elt F) VS1_1.junk (kernelRun1_B c i arg1 harg1 arg2 harg2 arg3 harg3 arg4 harg4 arg5 harg5 hc0 hc1 x0 xs0 xs1).2.1)

/-- At the last point the store into the first output window (the mean) tiles its block. -/
theorem cover1_C_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) (y : S1x64.Idx) :
    ∃ pc ∈ (kernelRun1_C c i arg1 harg1 arg2 harg2 arg3 harg3 arg4 harg4 arg5 harg5 hc0 hc1 x0 xs0 xs1).1, y ∈ pc.1.set :=
  View.cover_of_tiledL (kernelRun1_C c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def out1_C_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) : Vec F S1x64 .f32 :=
  VO1_1.read (Elt F) (VO1_1.writes (Elt F) VO1_1.junk (kernelRun1_C c i arg1 harg1 arg2 harg2 arg3 harg3 arg4 harg4 arg5 harg5 hc0 hc1 x0 xs0 xs1).1)

/-- At the last point the store into the second output window (the variance) tiles its block. -/
theorem cover1_C_2 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) (y : S1x64.Idx) :
    ∃ pc ∈ (kernelRun1_C c i arg1 harg1 arg2 harg2 arg3 harg3 arg4 harg4 arg5 harg5 hc0 hc1 x0 xs0 xs1).2.1, y ∈ pc.1.set :=
  View.cover_of_tiledL (kernelRun1_C c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def out1_C_2 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) : Vec F S1x64 .f32 :=
  VO1_2.read (Elt F) (VO1_2.writes (Elt F) VO1_2.junk (kernelRun1_C c i arg1 harg1 arg2 harg2 arg3 harg3 arg4 harg4 arg5 harg5 hc0 hc1 x0 xs0 xs1).2.1)

/-- At the last point the store into the first scratch buffer tiles it. -/
theorem scover1_C_0 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) (y : S1x64.Idx) :
    ∃ pc ∈ (kernelRun1_C c i arg1 harg1 arg2 harg2 arg3 harg3 arg4 harg4 arg5 harg5 hc0 hc1 x0 xs0 xs1).2.2.1, y ∈ pc.1.set :=
  View.cover_of_tiledL (kernelRun1_C c i arg1 harg1 arg2 harg2 arg3 harg3 arg4 harg4 arg5 harg5 hc0 hc1 x0 xs0 xs1).2.2.1 S1x64.size (by sl_kernel_rfl) y

/-- What they leave there: the pieces read back (over contents that, the pieces covering the buffer, do not matter). -/
def sout1_C_0 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) : Vec F S1x64 .f32 :=
  VS1_0.read (Elt F) (VS1_0.writes (Elt F) VS1_0.junk (kernelRun1_C c i arg1 harg1 arg2 harg2 arg3 harg3 arg4 harg4 arg5 harg5 hc0 hc1 x0 xs0 xs1).2.2.1)

/-- At the last point the store into the second scratch buffer tiles it. -/
theorem scover1_C_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) (y : S1x64.Idx) :
    ∃ pc ∈ (kernelRun1_C c i arg1 harg1 arg2 harg2 arg3 harg3 arg4 harg4 arg5 harg5 hc0 hc1 x0 xs0 xs1).2.2.2.1, y ∈ pc.1.set :=
  View.cover_of_tiledL (kernelRun1_C c i arg1 harg1 arg2 harg2 arg3 harg3 arg4 harg4 arg5 harg5 hc0 hc1 x0 xs0 xs1).2.2.2.1 S1x64.size (by sl_kernel_rfl) y

/-- What they leave there: the pieces read back (over contents that, the pieces covering the buffer, do not matter). -/
def sout1_C_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) : Vec F S1x64 .f32 :=
  VS1_1.read (Elt F) (VS1_1.writes (Elt F) VS1_1.junk (kernelRun1_C c i arg1 harg1 arg2 harg2 arg3 harg3 arg4 harg4 arg5 harg5 hc0 hc1 x0 xs0 xs1).2.2.2.1)

/-- After the first point the reset is never taken again: the grid has 20 points. -/
theorem not_cond1_0_succ (n : ℕ) (hn : n + 1 < cfg1.N) : ¬cond1_0 (grid1.coords ⟨n + 1, hn⟩) := fun h => by
  have h' := (hcond1_0 ⟨n + 1, hn⟩).mp h
  have hN : n + 1 < 20 := lt_of_lt_of_eq hn (show cfg1.N = 20 from N_1)
  dsimp only at h'; omega

/-- The first point is not the last. -/
theorem not_cond1_1_zero (hn : 0 < cfg1.N) : ¬cond1_1 (grid1.coords ⟨0, hn⟩) := fun h => by
  have h' := (hcond1_1 ⟨0, hn⟩).mp h
  dsimp only at h'; omega

section Region1
variable (V : (c : Dev nD) → (b : Ref sig .tc) → Buf (Elt F) ((c : Thread nD τ).loc b))

/-- Contents of an output window at a point where nothing reads them (the window is idle there and not written back). -/
def unread1_1 : Vec F S1x64 .f32 := VO1_1.read (Elt F) VO1_1.junk
def unread1_2 : Vec F S1x64 .f32 := VO1_2.read (Elt F) VO1_2.junk

/-! ## What the outputs and the scratch hold after each point -/

/-- THE ACCUMULATION. After the body at position `n`: the two output windows' staging buffers (named only at the last
    point) and the two scratch buffers — the first point's case run on the block, then each later point's case run on the
    block and on what the point before left in the scratch. -/
def outsAt1 (c : Dev nD) : (n : ℕ) → n < cfg1.N → (Vec F S1x64 .f32 × Vec F S1x64 .f32) × (Vec F S1x64 .f32 × Vec F S1x64 .f32)
  | 0, hn =>
    ((unread1_1, unread1_2),
     (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (not_cond1_1_zero hn) (iblk1 V c 0 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (not_cond1_1_zero hn) (iblk1 V c 0 ⟨0, hn⟩)))
  | n + 1, hn =>
    if h1 : (n + 1) % 20 = 19 then
      ((out1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (not_cond1_0_succ n hn) ((hcond1_1 ⟨n + 1, hn⟩).mpr h1) (iblk1 V c 0 ⟨n + 1, hn⟩) (outsAt1 c n (Nat.lt_of_succ_lt hn)).2.1 (outsAt1 c n (Nat.lt_of_succ_lt hn)).2.2,
        out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (not_cond1_0_succ n hn) ((hcond1_1 ⟨n + 1, hn⟩).mpr h1) (iblk1 V c 0 ⟨n + 1, hn⟩) (outsAt1 c n (Nat.lt_of_succ_lt hn)).2.1 (outsAt1 c n (Nat.lt_of_succ_lt hn)).2.2),
       (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (not_cond1_0_succ n hn) ((hcond1_1 ⟨n + 1, hn⟩).mpr h1) (iblk1 V c 0 ⟨n + 1, hn⟩) (outsAt1 c n (Nat.lt_of_succ_lt hn)).2.1 (outsAt1 c n (Nat.lt_of_succ_lt hn)).2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (not_cond1_0_succ n hn) ((hcond1_1 ⟨n + 1, hn⟩).mpr h1) (iblk1 V c 0 ⟨n + 1, hn⟩) (outsAt1 c n (Nat.lt_of_succ_lt hn)).2.1 (outsAt1 c n (Nat.lt_of_succ_lt hn)).2.2))
    else
      ((unread1_1, unread1_2),
       (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (not_cond1_0_succ n hn) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (not_cond1_0_succ n hn) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2))

/-- `outsAt1` at the first point. -/
theorem outsAt1_A (c : Dev nD) (t : Fin cfg1.N) (hc0 : cond1_0 (grid1.coords t)) (hc1 : ¬cond1_1 (grid1.coords t)) :
    outsAt1 V c t.val t.isLt = ((unread1_1, unread1_2),
      (sout1_A_0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t), sout1_A_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t))) := by
  obtain ⟨n, hn⟩ := t
  cases n with
  | zero => exact rfl
  | succ n => exact absurd hc0 (not_cond1_0_succ n hn)

/-- `outsAt1` at a middle point: over what the point before left in the scratch. -/
theorem outsAt1_B (c : Dev nD) (t : Fin cfg1.N) (hc0 : ¬cond1_0 (grid1.coords t)) (hc1 : ¬cond1_1 (grid1.coords t)) :
    outsAt1 V c t.val t.isLt = ((unread1_1, unread1_2),
      (sout1_B_0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2,
       sout1_B_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact absurd ((hcond1_0 ⟨0, hn⟩).mpr (Nat.zero_mod _)) hc0
  | succ n => exact (dif_neg (fun h => hc1 ((hcond1_1 ⟨n + 1, hn⟩).mpr h))).trans rfl

/-- `outsAt1` at the last point: over what the point before left in the scratch. -/
theorem outsAt1_C (c : Dev nD) (t : Fin cfg1.N) (hc0 : ¬cond1_0 (grid1.coords t)) (hc1 : cond1_1 (grid1.coords t)) :
    outsAt1 V c t.val t.isLt =
      ((out1_C_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2,
        out1_C_2 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2),
       (sout1_C_0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2,
        sout1_C_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact absurd ((hcond1_0 ⟨0, hn⟩).mpr (Nat.zero_mod _)) hc0
  | succ n => exact (dif_pos ((hcond1_1 ⟨n + 1, hn⟩).mp hc1)).trans rfl

/-! ## The region's invariant -/

/-- The invariant before position `n`: before the first point every scoped buffer no window stages at some contents
    (the two scratch buffers hold anything on entry) and the generator register at some state; afterwards the two
    scratch buffers at the running sums the point before left, the other such buffers unopened, and the register. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of pipeline 1 on core `c`: the arrays as the region finds them (`V`); after the body the input's
    buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1.1
    | ⟨2, _⟩ => (outsAt1 V c t.val t.isLt).1.2
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1.1 := by dsimp only [dat1]
theorem after1_2 (c : Dev nD) (t : Fin cfg1.N) : (dat1 V c).after 2 t = (outsAt1 V c t.val t.isLt).1.2 := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the input's memref holds its block; the closed forms say which case the point is in; the
    invariant hands the body the two scratch buffers at what the point before left (at anything at the first point) and
    takes them back at this point's contents; the idle output windows pass through untouched; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  by_cases hc1 : cond1_1 (grid1.coords t)
  · have h1 : t.val % 20 = 19 := (hcond1_1 t).mp hc1
    have hc0 : ¬cond1_0 (grid1.coords t) := fun h => by have := (hcond1_0 t).mp h; omega
    have hz : t.val ≠ 0 := by omega
    rw [show (dat1 V c).leavesExact 1 t = owns (c : Thread nD τ) (ms1_1 t) fullShare ((dat1 V c).after 1 t) from by
      unfold Dat.leavesExact; rw [liveAt1_1 t hc1], after1_1]
    rw [show (dat1 V c).leavesExact 2 t = owns (c : Thread nD τ) (ms1_2 t) fullShare ((dat1 V c).after 2 t) from by
      unfold Dat.leavesExact; rw [liveAt1_2 t hc1], after1_2]
    rw [outsAt1_C V c t hc0 hc1]
    unfold out1_C_1 out1_C_2 sout1_C_0 sout1_C_1; (try dsimp only)
    rw [PhiS1_castSucc V c t, PhiS1_pos V c _ _ hz]
    iintro ⟨⟨⟨⟨HS0, HS1⟩, HR⟩, Hg⟩, Ho, ⟨%d0, H0⟩, ⟨%d1, H1⟩, ⟨%d2, H2⟩⟩
    iapply ((kernelRun1_C c (grid1.coords t) _ _ _ _ _ _ _ _ _ _ hc0 hc1 (iblk1 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_C_0 c _ _ _ _ _ _ _ _ _ _ _ _ _ _ _ _)
          · unfold owns; iexists _; isplitr
            swap; · iexact HS1
            ipureintro; exact View.read_writes_of_cover _ _ _ _ _ (scover1_C_1 c _ _ _ _ _ _ _ _ _ _ _ _ _ _ _ _)
        · iexact HR
      · iexact Hg
    isplitl [Ho]; · iexact Ho
    isplitl [H0]; · iexact H0
    isplitl [H1]
    · unfold owns; iexists _; isplitr
      swap; · iexact H1
      ipureintro; exact View.read_writes_of_cover _ _ _ _ _ (cover1_C_1 c _ _ _ _ _ _ _ _ _ _ _ _ _ _ _ _)
    · unfold owns; iexists _; isplitr
      swap; · iexact H2
      ipureintro; exact View.read_writes_of_cover _ _ _ _ _ (cover1_C_2 c _ _ _ _ _ _ _ _ _ _ _ _ _ _ _ _)
  · rw [Dat.leavesExact_idle (dat1 V c) 1 t (idleAt1_1 t hc1) (noFlush1_1 t hc1)]
    rw [Dat.leavesExact_idle (dat1 V c) 2 t (idleAt1_2 t hc1) (noFlush1_2 t hc1)]
    by_cases hc0 : cond1_0 (grid1.coords t)
    · have hz : t.val = 0 := by have := (hcond1_0 t).mp hc0; omega
      rw [outsAt1_A V c t hc0 hc1]
      unfold sout1_A_0 sout1_A_1; (try dsimp only)
      rw [PhiS1_castSucc V c t, PhiS1_zero V c _ _ hz, PhiA1_eq]
      iintro ⟨⟨⟨⟨HS0, HS1⟩, HR⟩, Hg⟩, Ho, ⟨%d0, H0⟩, ⟨%d1, H1⟩, ⟨%d2, H2⟩⟩
      iapply ((kernelRun1_A c (grid1.coords t) _ _ _ _ _ _ _ _ _ _ hc0 hc1 (iblk1 V c 0 t)).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _)
          · iexact HR
        · iexact Hg
      isplitl [Ho]; · iexact Ho
      isplitl [H0]; · iexact H0
      isplitl [H1]; · iexists _; iexact H1
      iexists _; iexact H2
    · have hz : t.val ≠ 0 := fun h => hc0 ((hcond1_0 t).mpr (by rw [h]))
      rw [outsAt1_B V c t hc0 hc1]
      unfold sout1_B_0 sout1_B_1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩⟩
      iapply ((kernelRun1_B c (grid1.coords t) _ _ _ _ _ _ _ _ _ _ hc0 hc1 (iblk1 V c 0 t) _ _).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _)
          · iexact HR
        · iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (every scoped buffer no window stages, the generator register) is the invariant
    before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Region1

end Cert.Kernel.Regs

end
-- ==== Proof.NormRegionKernel2.lean ====
/-
  Region 2 of @main (pipeline 2, `cc2_kernel`): the batch-norm NORMALISE step, stated at a parameter `V` — the
  TensorCore's buffer contents when the region is entered.

  The body is pointwise. At every grid point it reads the row block `x` of the array (window 0) and the four
  per-channel rows mean, variance, gamma, beta (windows 1–4, one block each, the same at every point), and stores
  into the output window's buffer (window 5) the single value
      act ((x − mean) · rsqrt (var + ε) · gamma + beta)
  (`k2_pay1`), where act is the leaky rectifier with slope 0.01. One whole-rectangle store covers the output buffer, so what
  the body leaves there is a closed function `out2_5` of the five input blocks; the input buffers are left as found.
  From this: the body's triple (`sound_kernel2`), the pipeline's proof data (`dat2`: arrays as the region finds
  them, each input buffer at its block, the output buffer at `out2_5` of the blocks), and the body obligation at every
  point (`body_obligation2`).
-/
import proofs.«180908_j8211977470570_1_alg».proof.Proof.Gen.Kernel.Launch
import proofs.«180908_j8211977470570_1_alg».proof.Proof.Gen.Kernel.Skeleton
import proofs.«180908_j8211977470570_1_alg».proof.Proof.Gen.Kernel.Points
import Idealize.ShloMosaic.Lib.Pipeline.FrameBody
import Idealize.ShloMosaic.Lib.Tactic

-- membership in a rectangle of full extents recurses once per coordinate of the long axis
set_option maxRecDepth 16384

noncomputable section

namespace Cert.Kernel.Regs

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole rectangle of a row block, and of a per-channel row. -/
abbrev r2_big : Rect S3000x64 := Rect.unit (s := S3000x64) ![0, 0] S3000x64.size inb_S3000x64_S3000x64_0_0
abbrev r2_row : Rect S1x64 := Rect.unit (s := S1x64) ![0, 0] S1x64.size inb_S1x64_S1x64_0_0

/-! ## What the body leaves in the output window's buffer -/

/-- Window 5's staging buffer after the body, from the five input windows' blocks: its one store, of the
    normalised and activated rows, over the whole buffer. -/
def out2_5 (x0 : Vec F S3000x64 .f32) (x1 x2 x3 x4 : Vec F S1x64 .f32) : Vec F S3000x64 .f32 :=
  View.canon [⟨r2_big, k2_pay1 (View.ld x0 r2_big) (View.ld x1 r2_row) (View.ld x2 r2_row) (View.ld x3 r2_row) (View.ld x4 r2_row)⟩]

/-- The store's rectangle is the whole buffer, so it covers it. -/
theorem cover2_5 (p0 : Vec F S3000x64 .f32) (y : S3000x64.Idx) :
    ∃ pc ∈ ([⟨r2_big, p0⟩] : List (View.Piece (Elt F) S3000x64 .f32)), y ∈ pc.1.set :=
  View.cover_of_tiled [⟨r2_big, p0⟩] S3000x64.size (by rfl) y

/-! ## The body's triple -/

set_option maxHeartbeats 1000000 in
/-- The kernel body on whole staging memrefs, the inputs' at read contents `x0 … x4` and the output's at anything, runs
    to the continuation holding the inputs' as they were and the output's at `out2_5` of the inputs'. The grid
    coordinate `i` is not read. -/
theorem sound_kernel2 (c : Dev nD) (E : Set ℕ) (i : grid2.Coords)
    (arg1 : Memref sig .tc .vmem S3000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S3000x64 .f32) (harg6 : arg6.IsWhole)
    (x0 : Vec F S3000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point `t`
    each input's buffer at its block and the output's at `out2_5` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Regs
-- ==== Proof.MatmulRegionKernel3.lean ====
/- Region 3 of @main (pipeline 3, `cc3_kernel`): a matrix product of two whole blocks, stored whole.
   Stated at a parameter `V`: the contents of the core's buffers when the region is entered.  The body reads
   window 0 (a block of rows) and window 1 (a block of weights) whole, rounds both to bf16, multiplies them
   into a zero accumulator, reads window 2 (the value is not used), and overwrites window 2 whole with the
   product.  Hence after the body the two input buffers are as found and the output buffer is a function
   `out3_2` of the two input blocks alone. -/
import proofs.«180908_j8211977470570_1_alg».proof.Proof.Gen.Kernel.Launch
import proofs.«180908_j8211977470570_1_alg».proof.Proof.Gen.Kernel.Skeleton
import proofs.«180908_j8211977470570_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the core's buffers when the region is entered
variable (V : (c : Dev nD) → (b : Ref sig .tc) → Buf (Elt F) ((c : Thread nD τ).loc b))

/-! ## The windows' blocks -/

/-- Window `w`'s block at point `t`, read off its array at the entry contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_a : Rect S1x5000x128 := Rect.unit (s := S1x5000x128) ![0, 0, 0] S1x5000x128.size inb_S1x5000x128_S1x5000x128_0_0_0
abbrev r3_b : Rect S1x128x64 := Rect.unit (s := S1x128x64) ![0, 0, 0] S1x128x64.size inb_S1x128x64_S1x128x64_0_0_0
abbrev r3_o : Rect S1x5000x64 := Rect.unit (s := S1x5000x64) ![0, 0, 0] S1x5000x64.size inb_S1x5000x64_S1x5000x64_0_0_0

/-! ## What the body leaves in the output window's buffer -/

/-- Window 2's buffer after the body, from the two input blocks: its one store, of the product, over the whole buffer. -/
def out3_2 (x0 : Vec F S1x5000x128 .f32) (x1 : Vec F S1x128x64 .f32) : Vec F S1x5000x64 .f32 :=
  View.canon [⟨r3_o, k3_pay1 (View.ld x0 r3_a) (View.ld x1 r3_b)⟩]

/-- The one store covers the buffer. -/
theorem cover3_2 (p0 : Vec F S1x5000x64 .f32) (y : S1x5000x64.Idx) :
    ∃ pc ∈ ([⟨r3_o, p0⟩] : List (View.Piece (Elt F) S1x5000x64 .f32)), y ∈ pc.1.set :=
  View.cover_of_tiled [⟨r3_o, p0⟩] S1x5000x64.size (by rfl) y

/-! ## The body's triple -/

set_option maxHeartbeats 1000000 in
/-- The body on whole buffers — the inputs' at contents `x0`, `x1`, the output's at anything — runs to the
    continuation holding the inputs' as they were and the output's at `out3_2 x0 x1`. -/
theorem sound_kernel3 (c : Dev nD) (E : Set ℕ) (i : grid3.Coords)
    (arg2 : Memref sig .tc .vmem S1x5000x128 .f32) (harg2 : arg2.IsWhole)
    (arg3 : Memref sig .tc .vmem S1x128x64 .f32) (harg3 : arg3.IsWhole)
    (arg4 : Memref sig .tc .vmem S1x5000x64 .f32) (harg4 : arg4.IsWhole)
    (x0 : Vec F S1x5000x128 .f32) (x1 : Vec F S1x128x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3_kernel i arg2 harg2 arg3 harg3 arg4 harg4) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays at the entry contents `V`; after the body at point `t`
    each input's buffer at its block and the output's at `out3_2` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

/-- Each input's current buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's rule, at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Regs
-- ==== Proof.StatsKernel4Runs.lean ====
import proofs.«180908_j8211977470570_1_alg».proof.Proof.Gen.Kernel.Launch
import proofs.«180908_j8211977470570_1_alg».proof.Proof.Gen.Kernel.Skeleton
import proofs.«180908_j8211977470570_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The statistics region of pipeline 4: what its three control cases share

The kernel keeps two running column sums (of the block and of its square) in two scratch buffers the pipeline does not
stage: the first grid point zeroes them, every point adds its block's column sums, the last point turns them into the
mean and the variance and stores those into the two output windows. Everything is stated at a parameter `V`, the buffer
contents when the region is entered. -/

section Region4
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is `V`'s
    and whose body leaves the block in place: the window is fetched at every point, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

end Region4

/-! ## The body's branch conditions -/

/-- The condition of the body's first conditional (the reset of the running sums), from the grid coordinate. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val % 20 = 0 :=
  (by decide +kernel : ∀ t : Fin grid4.N, cond4_0 (grid4.coords t) ↔ t.val % 20 = 0)

/-- The condition of the body's second conditional (the final division and the two output stores). -/
abbrev cond4_1 (i : grid4.Coords) : Prop := k4_cond2 i = 1#1
/-- It holds at the last point only — decided over the grid. -/
theorem hcond4_1 : ∀ t : Fin cfg4.N, cond4_1 (grid4.coords t) ↔ t.val % 20 = 19 :=
  (by decide +kernel : ∀ t : Fin grid4.N, cond4_1 (grid4.coords t) ↔ t.val % 20 = 19)

/-! ## Where the windows are idle -/

/-- The input window is never idle. -/
theorem liveAt4_0 : ∀ t : Fin cfg4.N, cfg4.idle 0 (grid4.coords t) = false := by decide +kernel
/-- Away from the last point the two output windows are idle (the body stores nothing into them) -/
theorem idleAt4_1 : ∀ t : Fin cfg4.N, ¬cond4_1 (grid4.coords t) → cfg4.idle 1 (grid4.coords t) = true := by decide +kernel
theorem idleAt4_2 : ∀ t : Fin cfg4.N, ¬cond4_1 (grid4.coords t) → cfg4.idle 2 (grid4.coords t) = true := by decide +kernel
/-- and are not written back. -/
theorem noFlush4_1 : ∀ t : Fin cfg4.N, ¬cond4_1 (grid4.coords t) → (cfg4.win 1).flush t = false := by decide +kernel
theorem noFlush4_2 : ∀ t : Fin cfg4.N, ¬cond4_1 (grid4.coords t) → (cfg4.win 2).flush t = false := by decide +kernel
/-- At the last point they are live. -/
theorem liveAt4_1 : ∀ t : Fin cfg4.N, cond4_1 (grid4.coords t) → cfg4.idle 1 (grid4.coords t) = false := by decide +kernel
theorem liveAt4_2 : ∀ t : Fin cfg4.N, cond4_1 (grid4.coords t) → cfg4.idle 2 (grid4.coords t) = false := by decide +kernel

/-! ## The memrefs the body is called with -/

/-- One staging buffer of each output window, through which its contents are stated (the choice does not matter once
    the stores cover the block). -/
abbrev VO4_1 : View sig .tc .vmem S1x64 .f32 := (Memref.whole cc4_stg1_0 : Memref sig .tc .vmem S1x64 .f32).view
abbrev VO4_2 : View sig .tc .vmem S1x64 .f32 := (Memref.whole cc4_stg2_0 : Memref sig .tc .vmem S1x64 .f32).view
/-- Each window's current staging memref at point `t`, as the pipeline passes it, and its wholeness. -/
abbrev ms4_0 (t : Fin cfg4.N) : Memref sig .tc .vmem S3000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
/-- The two scratch operands: whole scoped buffers of the kernel's own, passed beside the windows. -/
abbrev scM4_0 : Memref sig .tc .vmem S1x64 .f32 := Memref.whole cc4_scratch0
abbrev scM4_1 : Memref sig .tc .vmem S1x64 .f32 := Memref.whole cc4_scratch1
/-- The same as views: what they hold is stated through these. -/
abbrev VS4_0 : View sig .tc .vmem S1x64 .f32 := scM4_0.view
abbrev VS4_1 : View sig .tc .vmem S1x64 .f32 := scM4_1.view

/-- The region's entry invariant (every scoped buffer no window stages at some contents, the generator register at
    some state) with the two scratch operands taken out as memrefs owned at some contents; the other scoped buffers stay
    unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

end Cert.Kernel.Regs

end
-- ==== Proof.StatsKernel4RunA.lean ====
import proofs.«180908_j8211977470570_1_alg».proof.Proof.StatsKernel4Runs

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE FIRST POINT (the reset taken, the final stores not): what the body's stores leave in the two scratch buffers, as
    pieces (last first), WITH the proof that on whole memrefs — the input block's at its contents `x0`, the two scratch
    buffers at anything — the body runs to the continuation holding the input as it was and each scratch buffer with its
    pieces written (zero stored, then the block's column sums added). The two output windows are not touched and are
    left out. The pieces are the witness the symbolic run finds. -/
noncomputable def kernelRun4_A (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S3000x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg4 fullShare d) ∗ (∃ d, owns (c : Thread nD τ) arg5 fullShare d)
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4_kernel i arg1 harg1 arg2 harg2 arg3 harg3 arg4 harg4 arg5 harg5) K } := by
  refine ⟨?_, ?_, fun E K => ?run⟩
  case run =>
    simp only [cc4_kernel_eq_skeleton]; unfold cc4_kernel_skel
    unfold owns
    iintro ⟨⟨%f0, %hf0, H0⟩, ⟨%ds0, %fs0, -, HS0⟩, ⟨%ds1, %fs1, -, HS1⟩, Hk⟩
    obtain rfl := harg1.eq_unread hf0
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.Kernel.Regs

end
-- ==== Proof.StatsKernel4RunB.lean ====
import proofs.«180908_j8211977470570_1_alg».proof.Proof.StatsKernel4RunA

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A MIDDLE POINT (neither conditional taken): what the body's stores leave in the two scratch buffers, as pieces, WITH
    the proof that on whole memrefs — the input block's at `x0`, the two scratch buffers at the running sums `xs0`, `xs1`
    the point before left — the body runs to the continuation holding the input as it was and each scratch buffer with
    its pieces written (the block's column sums added). The two output windows are not touched and are left out. -/
noncomputable def kernelRun4_B (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S3000x64 .f32) (xs0 : Vec F S1x64 .f32) (xs1 : Vec F S1x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg4 fullShare xs0 ∗ owns (c : Thread nD τ) arg5 fullShare xs1
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4_kernel i arg1 harg1 arg2 harg2 arg3 harg3 arg4 harg4 arg5 harg5) K } := by
  refine ⟨?_, ?_, fun E K => ?run⟩
  case run =>
    simp only [cc4_kernel_eq_skeleton]; unfold cc4_kernel_skel
    unfold owns
    iintro ⟨⟨%f0, %hf0, H0⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.Kernel.Regs

end
-- ==== Proof.StatsKernel4RunC.lean ====
import proofs.«180908_j8211977470570_1_alg».proof.Proof.StatsKernel4RunB

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE LAST POINT (the reset not taken, the final stores taken): what the body's stores leave in the two output
    windows' staging memrefs and in the two scratch buffers, as pieces, WITH the proof that on whole memrefs — the input
    block's at `x0`, the outputs' at anything, the scratch buffers at the running sums `xs0`, `xs1` the point before
    left — the body runs to the continuation holding the input as it was and each of the four with its pieces written
    (the sums completed; the mean, and the mean of squares less the mean squared, stored). -/
noncomputable def kernelRun4_C (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) :
    Σ' (L1 : List (View.Piece (Elt F) S1x64 .f32)) (L2 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc4_kernel i arg1 harg1 arg2 harg2 arg3 harg3 arg4 harg4 arg5 harg5) K } := by
  refine ⟨?_, ?_, ?_, ?_, fun E K => ?run⟩
  case run =>
    simp only [cc4_kernel_eq_skeleton]; unfold cc4_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [HS0]
    · iexists _; iexact HS0
    iexists _; iexact HS1

end Cert.Kernel.Regs

end
-- ==== Proof.StatsRegionKernel4.lean ====
import proofs.«180908_j8211977470570_1_alg».proof.Proof.StatsKernel4RunC

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The statistics region of pipeline 4: the running sums, the proof data, the body obligation -/

/-! ## What each case's stores leave -/

/-- At the first point the stores into the first scratch buffer (the zero, then the sum) tile it, so they cover it. -/
theorem scover4_A_0 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S3000x64 .f32) (y : S1x64.Idx) :
    ∃ pc ∈ (kernelRun4_A c i arg1 harg1 arg2 harg2 arg3 harg3 arg4 harg4 arg5 harg5 hc0 hc1 x0).1, y ∈ pc.1.set :=
  View.cover_of_tiledL (kernelRun4_A c i arg1 harg1 arg2 harg2 arg3 harg3 arg4 harg4 arg5 harg5 hc0 hc1 x0).1 S1x64.size (by sl_kernel_rfl) y

/-- What they leave there: the pieces read back (over contents that, the pieces covering the buffer, do not matter). -/
def sout4_A_0 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S3000x64 .f32) : Vec F S1x64 .f32 :=
  VS4_0.read (Elt F) (VS4_0.writes (Elt F) VS4_0.junk (kernelRun4_A c i arg1 harg1 arg2 harg2 arg3 harg3 arg4 harg4 arg5 harg5 hc0 hc1 x0).1)

/-- At the first point the stores into the second scratch buffer tile it, so they cover it. -/
theorem scover4_A_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S3000x64 .f32) (y : S1x64.Idx) :
    ∃ pc ∈ (kernelRun4_A c i arg1 harg1 arg2 harg2 arg3 harg3 arg4 harg4 arg5 harg5 hc0 hc1 x0).2.1, y ∈ pc.1.set :=
  View.cover_of_tiledL (kernelRun4_A c i arg1 harg1 arg2 harg2 arg3 harg3 arg4 harg4 arg5 harg5 hc0 hc1 x0).2.1 S1x64.size (by sl_kernel_rfl) y

/-- What they leave there: the pieces read back (over contents that, the pieces covering the buffer, do not matter). -/
def sout4_A_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S3000x64 .f32) : Vec F S1x64 .f32 :=
  VS4_1.read (Elt F) (VS4_1.writes (Elt F) VS4_1.junk (kernelRun4_A c i arg1 harg1 arg2 harg2 arg3 harg3 arg4 harg4 arg5 harg5 hc0 hc1 x0).2.1)

/-- At a middle point the store into the first scratch buffer tiles it. -/
theorem scover4_B_0 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S3000x64 .f32) (xs0 : Vec F S1x64 .f32) (xs1 : Vec F S1x64 .f32) (y : S1x64.Idx) :
    ∃ pc ∈ (kernelRun4_B c i arg1 harg1 arg2 harg2 arg3 harg3 arg4 harg4 arg5 harg5 hc0 hc1 x0 xs0 xs1).1, y ∈ pc.1.set :=
  View.cover_of_tiledL (kernelRun4_B c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def sout4_B_0 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S3000x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 hc0 hc1 x0 xs0 xs1).1)

/-- At a middle point the store into the second scratch buffer tiles it. -/
theorem scover4_B_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S3000x64 .f32) (xs0 : Vec F S1x64 .f32) (xs1 : Vec F S1x64 .f32) (y : S1x64.Idx) :
    ∃ pc ∈ (kernelRun4_B c i arg1 harg1 arg2 harg2 arg3 harg3 arg4 harg4 arg5 harg5 hc0 hc1 x0 xs0 xs1).2.1, y ∈ pc.1.set :=
  View.cover_of_tiledL (kernelRun4_B c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def sout4_B_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S3000x64 .f32) (xs0 : Vec F S1x64 .f32) (xs1 : Vec F S1x64 .f32) : Vec F S1x64 .f32 :=
  VS4_1.read (Elt F) (VS4_1.writes (Elt F) VS4_1.junk (kernelRun4_B c i arg1 harg1 arg2 harg2 arg3 harg3 arg4 harg4 arg5 harg5 hc0 hc1 x0 xs0 xs1).2.1)

/-- At the last point the store into the first output window (the mean) tiles its block. -/
theorem cover4_C_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) (y : S1x64.Idx) :
    ∃ pc ∈ (kernelRun4_C c i arg1 harg1 arg2 harg2 arg3 harg3 arg4 harg4 arg5 harg5 hc0 hc1 x0 xs0 xs1).1, y ∈ pc.1.set :=
  View.cover_of_tiledL (kernelRun4_C c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def out4_C_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) : Vec F S1x64 .f32 :=
  VO4_1.read (Elt F) (VO4_1.writes (Elt F) VO4_1.junk (kernelRun4_C c i arg1 harg1 arg2 harg2 arg3 harg3 arg4 harg4 arg5 harg5 hc0 hc1 x0 xs0 xs1).1)

/-- At the last point the store into the second output window (the variance) tiles its block. -/
theorem cover4_C_2 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) (y : S1x64.Idx) :
    ∃ pc ∈ (kernelRun4_C c i arg1 harg1 arg2 harg2 arg3 harg3 arg4 harg4 arg5 harg5 hc0 hc1 x0 xs0 xs1).2.1, y ∈ pc.1.set :=
  View.cover_of_tiledL (kernelRun4_C c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def out4_C_2 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) : Vec F S1x64 .f32 :=
  VO4_2.read (Elt F) (VO4_2.writes (Elt F) VO4_2.junk (kernelRun4_C c i arg1 harg1 arg2 harg2 arg3 harg3 arg4 harg4 arg5 harg5 hc0 hc1 x0 xs0 xs1).2.1)

/-- At the last point the store into the first scratch buffer tiles it. -/
theorem scover4_C_0 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) (y : S1x64.Idx) :
    ∃ pc ∈ (kernelRun4_C c i arg1 harg1 arg2 harg2 arg3 harg3 arg4 harg4 arg5 harg5 hc0 hc1 x0 xs0 xs1).2.2.1, y ∈ pc.1.set :=
  View.cover_of_tiledL (kernelRun4_C c i arg1 harg1 arg2 harg2 arg3 harg3 arg4 harg4 arg5 harg5 hc0 hc1 x0 xs0 xs1).2.2.1 S1x64.size (by sl_kernel_rfl) y

/-- What they leave there: the pieces read back (over contents that, the pieces covering the buffer, do not matter). -/
def sout4_C_0 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) : Vec F S1x64 .f32 :=
  VS4_0.read (Elt F) (VS4_0.writes (Elt F) VS4_0.junk (kernelRun4_C c i arg1 harg1 arg2 harg2 arg3 harg3 arg4 harg4 arg5 harg5 hc0 hc1 x0 xs0 xs1).2.2.1)

/-- At the last point the store into the second scratch buffer tiles it. -/
theorem scover4_C_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) (y : S1x64.Idx) :
    ∃ pc ∈ (kernelRun4_C c i arg1 harg1 arg2 harg2 arg3 harg3 arg4 harg4 arg5 harg5 hc0 hc1 x0 xs0 xs1).2.2.2.1, y ∈ pc.1.set :=
  View.cover_of_tiledL (kernelRun4_C c i arg1 harg1 arg2 harg2 arg3 harg3 arg4 harg4 arg5 harg5 hc0 hc1 x0 xs0 xs1).2.2.2.1 S1x64.size (by sl_kernel_rfl) y

/-- What they leave there: the pieces read back (over contents that, the pieces covering the buffer, do not matter). -/
def sout4_C_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) : Vec F S1x64 .f32 :=
  VS4_1.read (Elt F) (VS4_1.writes (Elt F) VS4_1.junk (kernelRun4_C c i arg1 harg1 arg2 harg2 arg3 harg3 arg4 harg4 arg5 harg5 hc0 hc1 x0 xs0 xs1).2.2.2.1)

/-- After the first point the reset is never taken again: the grid has 20 points. -/
theorem not_cond4_0_succ (n : ℕ) (hn : n + 1 < cfg4.N) : ¬cond4_0 (grid4.coords ⟨n + 1, hn⟩) := fun h => by
  have h' := (hcond4_0 ⟨n + 1, hn⟩).mp h
  have hN : n + 1 < 20 := lt_of_lt_of_eq hn (show cfg4.N = 20 from N_4)
  dsimp only at h'; omega

/-- The first point is not the last. -/
theorem not_cond4_1_zero (hn : 0 < cfg4.N) : ¬cond4_1 (grid4.coords ⟨0, hn⟩) := fun h => by
  have h' := (hcond4_1 ⟨0, hn⟩).mp h
  dsimp only at h'; omega

section Region4
variable (V : (c : Dev nD) → (b : Ref sig .tc) → Buf (Elt F) ((c : Thread nD τ).loc b))

/-- Contents of an output window at a point where nothing reads them (the window is idle there and not written back). -/
def unread4_1 : Vec F S1x64 .f32 := VO4_1.read (Elt F) VO4_1.junk
def unread4_2 : Vec F S1x64 .f32 := VO4_2.read (Elt F) VO4_2.junk

/-! ## What the outputs and the scratch hold after each point -/

/-- THE ACCUMULATION. After the body at position `n`: the two output windows' staging buffers (named only at the last
    point) and the two scratch buffers — the first point's case run on the block, then each later point's case run on the
    block and on what the point before left in the scratch. -/
def outsAt4 (c : Dev nD) : (n : ℕ) → n < cfg4.N → (Vec F S1x64 .f32 × Vec F S1x64 .f32) × (Vec F S1x64 .f32 × Vec F S1x64 .f32)
  | 0, hn =>
    ((unread4_1, unread4_2),
     (sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 ⟨0, hn⟩).mpr (Nat.zero_mod _)) (not_cond4_1_zero hn) (iblk4 V c 0 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 ⟨0, hn⟩).mpr (Nat.zero_mod _)) (not_cond4_1_zero hn) (iblk4 V c 0 ⟨0, hn⟩)))
  | n + 1, hn =>
    if h1 : (n + 1) % 20 = 19 then
      ((out4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (not_cond4_0_succ n hn) ((hcond4_1 ⟨n + 1, hn⟩).mpr h1) (iblk4 V c 0 ⟨n + 1, hn⟩) (outsAt4 c n (Nat.lt_of_succ_lt hn)).2.1 (outsAt4 c n (Nat.lt_of_succ_lt hn)).2.2,
        out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (not_cond4_0_succ n hn) ((hcond4_1 ⟨n + 1, hn⟩).mpr h1) (iblk4 V c 0 ⟨n + 1, hn⟩) (outsAt4 c n (Nat.lt_of_succ_lt hn)).2.1 (outsAt4 c n (Nat.lt_of_succ_lt hn)).2.2),
       (sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (not_cond4_0_succ n hn) ((hcond4_1 ⟨n + 1, hn⟩).mpr h1) (iblk4 V c 0 ⟨n + 1, hn⟩) (outsAt4 c n (Nat.lt_of_succ_lt hn)).2.1 (outsAt4 c n (Nat.lt_of_succ_lt hn)).2.2,
        sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (not_cond4_0_succ n hn) ((hcond4_1 ⟨n + 1, hn⟩).mpr h1) (iblk4 V c 0 ⟨n + 1, hn⟩) (outsAt4 c n (Nat.lt_of_succ_lt hn)).2.1 (outsAt4 c n (Nat.lt_of_succ_lt hn)).2.2))
    else
      ((unread4_1, unread4_2),
       (sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (not_cond4_0_succ n hn) (fun h => h1 ((hcond4_1 ⟨n + 1, hn⟩).mp h)) (iblk4 V c 0 ⟨n + 1, hn⟩) (outsAt4 c n (Nat.lt_of_succ_lt hn)).2.1 (outsAt4 c n (Nat.lt_of_succ_lt hn)).2.2,
        sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (not_cond4_0_succ n hn) (fun h => h1 ((hcond4_1 ⟨n + 1, hn⟩).mp h)) (iblk4 V c 0 ⟨n + 1, hn⟩) (outsAt4 c n (Nat.lt_of_succ_lt hn)).2.1 (outsAt4 c n (Nat.lt_of_succ_lt hn)).2.2))

/-- `outsAt4` at the first point. -/
theorem outsAt4_A (c : Dev nD) (t : Fin cfg4.N) (hc0 : cond4_0 (grid4.coords t)) (hc1 : ¬cond4_1 (grid4.coords t)) :
    outsAt4 V c t.val t.isLt = ((unread4_1, unread4_2),
      (sout4_A_0 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t), sout4_A_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t))) := by
  obtain ⟨n, hn⟩ := t
  cases n with
  | zero => exact rfl
  | succ n => exact absurd hc0 (not_cond4_0_succ n hn)

/-- `outsAt4` at a middle point: over what the point before left in the scratch. -/
theorem outsAt4_B (c : Dev nD) (t : Fin cfg4.N) (hc0 : ¬cond4_0 (grid4.coords t)) (hc1 : ¬cond4_1 (grid4.coords t)) :
    outsAt4 V c t.val t.isLt = ((unread4_1, unread4_2),
      (sout4_B_0 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (outsAt4 V c (t.val - 1) (Nat.lt_of_le_of_lt (Nat.sub_le _ _) t.isLt)).2.1 (outsAt4 V c (t.val - 1) (Nat.lt_of_le_of_lt (Nat.sub_le _ _) t.isLt)).2.2,
       sout4_B_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (outsAt4 V c (t.val - 1) (Nat.lt_of_le_of_lt (Nat.sub_le _ _) t.isLt)).2.1 (outsAt4 V c (t.val - 1) (Nat.lt_of_le_of_lt (Nat.sub_le _ _) t.isLt)).2.2)) := by
  obtain ⟨n, hn⟩ := t
  cases n with
  | zero => exact absurd ((hcond4_0 ⟨0, hn⟩).mpr (Nat.zero_mod _)) hc0
  | succ n => exact (dif_neg (fun h => hc1 ((hcond4_1 ⟨n + 1, hn⟩).mpr h))).trans rfl

/-- `outsAt4` at the last point: over what the point before left in the scratch. -/
theorem outsAt4_C (c : Dev nD) (t : Fin cfg4.N) (hc0 : ¬cond4_0 (grid4.coords t)) (hc1 : cond4_1 (grid4.coords t)) :
    outsAt4 V c t.val t.isLt =
      ((out4_C_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (outsAt4 V c (t.val - 1) (Nat.lt_of_le_of_lt (Nat.sub_le _ _) t.isLt)).2.1 (outsAt4 V c (t.val - 1) (Nat.lt_of_le_of_lt (Nat.sub_le _ _) t.isLt)).2.2,
        out4_C_2 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (outsAt4 V c (t.val - 1) (Nat.lt_of_le_of_lt (Nat.sub_le _ _) t.isLt)).2.1 (outsAt4 V c (t.val - 1) (Nat.lt_of_le_of_lt (Nat.sub_le _ _) t.isLt)).2.2),
       (sout4_C_0 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (outsAt4 V c (t.val - 1) (Nat.lt_of_le_of_lt (Nat.sub_le _ _) t.isLt)).2.1 (outsAt4 V c (t.val - 1) (Nat.lt_of_le_of_lt (Nat.sub_le _ _) t.isLt)).2.2,
        sout4_C_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (outsAt4 V c (t.val - 1) (Nat.lt_of_le_of_lt (Nat.sub_le _ _) t.isLt)).2.1 (outsAt4 V c (t.val - 1) (Nat.lt_of_le_of_lt (Nat.sub_le _ _) t.isLt)).2.2)) := by
  obtain ⟨n, hn⟩ := t
  cases n with
  | zero => exact absurd ((hcond4_0 ⟨0, hn⟩).mpr (Nat.zero_mod _)) hc0
  | succ n => exact (dif_pos ((hcond4_1 ⟨n + 1, hn⟩).mp hc1)).trans rfl

/-! ## The region's invariant -/

/-- The invariant before position `n`: before the first point every scoped buffer no window stages at some contents
    (the two scratch buffers hold anything on entry) and the generator register at some state; afterwards the two
    scratch buffers at the running sums the point before left, the other such buffers unopened, and the register. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.1) ∗ owns (c : Thread nD τ) scM4_1 fullShare ((outsAt4 V c n hn).2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the scratch at that point's contents. -/
theorem PhiS4_succ (c : Dev nD) (n : ℕ) (hn : n < cfg4.N) :
    PhiS4 V c (n + 1) hn = iprop(iprop(iprop(owns (c : Thread nD τ) scM4_0 fullShare ((outsAt4 V c n hn).2.1) ∗ owns (c : Thread nD τ) scM4_1 fullShare ((outsAt4 V c n hn).2.2))
      ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the scratch at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.1) ∗ owns (c : Thread nD τ) scM4_1 fullShare ((outsAt4 V c (n - 1) (by omega)).2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of pipeline 4 on core `c`: the arrays as the region finds them (`V`); after the body the input's
    buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1.1
    | ⟨2, _⟩ => (outsAt4 V c t.val t.isLt).1.2
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt).1.1 := by dsimp only [dat4]
theorem after4_2 (c : Dev nD) (t : Fin cfg4.N) : (dat4 V c).after 2 t = (outsAt4 V c t.val t.isLt).1.2 := by dsimp only [dat4]

/-- The input's current staging buffer holds its block at every point. -/
theorem before4_0 (c : Dev nD) (t : Fin cfg4.N) (d) : (dat4 V c).before 0 t d = iblk4 V c 0 t :=
  before4_0_of V (dat4 V c) (A_eq4 V c 0) (after4_0 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the input's memref holds its block; the closed forms say which case the point is in; the
    invariant hands the body the two scratch buffers at what the point before left (at anything at the first point) and
    takes them back at this point's contents; the idle output windows pass through untouched; the core owes nothing. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from by
    unfold Dat.leavesExact; rw [liveAt4_0 t], after4_0]
  by_cases hc1 : cond4_1 (grid4.coords t)
  · have h1 : t.val % 20 = 19 := (hcond4_1 t).mp hc1
    have hc0 : ¬cond4_0 (grid4.coords t) := fun h => by have := (hcond4_0 t).mp h; omega
    have hz : t.val ≠ 0 := by omega
    rw [show (dat4 V c).leavesExact 1 t = owns (c : Thread nD τ) (ms4_1 t) fullShare ((dat4 V c).after 1 t) from by
      unfold Dat.leavesExact; rw [liveAt4_1 t hc1], after4_1]
    rw [show (dat4 V c).leavesExact 2 t = owns (c : Thread nD τ) (ms4_2 t) fullShare ((dat4 V c).after 2 t) from by
      unfold Dat.leavesExact; rw [liveAt4_2 t hc1], after4_2]
    rw [outsAt4_C V c t hc0 hc1]
    unfold out4_C_1 out4_C_2 sout4_C_0 sout4_C_1; (try dsimp only)
    rw [PhiS4_castSucc V c t, PhiS4_pos V c _ _ hz]
    iintro ⟨⟨⟨⟨HS0, HS1⟩, HR⟩, Hg⟩, Ho, ⟨%d0, H0⟩, ⟨%d1, H1⟩, ⟨%d2, H2⟩⟩
    iapply ((kernelRun4_C c (grid4.coords t) _ _ _ _ _ _ _ _ _ _ hc0 hc1 (iblk4 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover4_C_0 c _ _ _ _ _ _ _ _ _ _ _ _ _ _ _ _)
          · unfold owns; iexists _; isplitr
            swap; · iexact HS1
            ipureintro; exact View.read_writes_of_cover _ _ _ _ _ (scover4_C_1 c _ _ _ _ _ _ _ _ _ _ _ _ _ _ _ _)
        · iexact HR
      · iexact Hg
    isplitl [Ho]; · iexact Ho
    isplitl [H0]; · iexact H0
    isplitl [H1]
    · unfold owns; iexists _; isplitr
      swap; · iexact H1
      ipureintro; exact View.read_writes_of_cover _ _ _ _ _ (cover4_C_1 c _ _ _ _ _ _ _ _ _ _ _ _ _ _ _ _)
    · unfold owns; iexists _; isplitr
      swap; · iexact H2
      ipureintro; exact View.read_writes_of_cover _ _ _ _ _ (cover4_C_2 c _ _ _ _ _ _ _ _ _ _ _ _ _ _ _ _)
  · rw [Dat.leavesExact_idle (dat4 V c) 1 t (idleAt4_1 t hc1) (noFlush4_1 t hc1)]
    rw [Dat.leavesExact_idle (dat4 V c) 2 t (idleAt4_2 t hc1) (noFlush4_2 t hc1)]
    by_cases hc0 : cond4_0 (grid4.coords t)
    · have hz : t.val = 0 := by have := (hcond4_0 t).mp hc0; omega
      rw [outsAt4_A V c t hc0 hc1]
      unfold sout4_A_0 sout4_A_1; (try dsimp only)
      rw [PhiS4_castSucc V c t, PhiS4_zero V c _ _ hz, PhiA4_eq]
      iintro ⟨⟨⟨⟨HS0, HS1⟩, HR⟩, Hg⟩, Ho, ⟨%d0, H0⟩, ⟨%d1, H1⟩, ⟨%d2, H2⟩⟩
      iapply ((kernelRun4_A c (grid4.coords t) _ _ _ _ _ _ _ _ _ _ hc0 hc1 (iblk4 V c 0 t)).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_A_0 c _ _ _ _ _ _ _ _ _ _ _ _ _ _)
            · unfold owns; iexists _; isplitr
              swap; · iexact HS1
              ipureintro; exact View.read_writes_of_cover _ _ _ _ _ (scover4_A_1 c _ _ _ _ _ _ _ _ _ _ _ _ _ _)
          · iexact HR
        · iexact Hg
      isplitl [Ho]; · iexact Ho
      isplitl [H0]; · iexact H0
      isplitl [H1]; · iexists _; iexact H1
      iexists _; iexact H2
    · have hz : t.val ≠ 0 := fun h => hc0 ((hcond4_0 t).mpr (by rw [h]))
      rw [outsAt4_B V c t hc0 hc1]
      unfold sout4_B_0 sout4_B_1; (try dsimp only)
      rw [PhiS4_castSucc V c t, PhiS4_pos V c _ _ hz]
      iintro ⟨⟨⟨⟨HS0, HS1⟩, HR⟩, Hg⟩, Ho, ⟨%d0, H0⟩, ⟨%d1, H1⟩, ⟨%d2, H2⟩⟩
      iapply ((kernelRun4_B c (grid4.coords t) _ _ _ _ _ _ _ _ _ _ hc0 hc1 (iblk4 V c 0 t) _ _).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _)
          · iexact HR
        · iexact Hg
      isplitl [Ho]; · iexact Ho
      isplitl [H0]; · iexact H0
      isplitl [H1]; · iexists _; iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with (every scoped buffer no window stages, the generator register) is the invariant
    before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives that back: the scratch buffers' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 20 := N_4; omega)

end Region4

end Cert.Kernel.Regs

end
-- ==== Proof.NormRegionKernel5.lean ====
/-
  Region 5 of @main (pipeline 5, `cc5_kernel`): the batch-norm NORMALISE step, stated at a parameter `V` — the
  TensorCore's buffer contents when the region is entered.

  The body is pointwise. At every grid point it reads the row block `x` of the array (window 0) and the four
  per-channel rows mean, variance, gamma, beta (windows 1–4, one block each, the same at every point), and stores
  into the output window's buffer (window 5) the single value
      act ((x − mean) · rsqrt (var + ε) · gamma + beta)
  (`k5_pay1`), where act is the leaky rectifier with slope 0.01. One whole-rectangle store covers the output buffer, so what
  the body leaves there is a closed function `out5_5` of the five input blocks; the input buffers are left as found.
  From this: the body's triple (`sound_kernel5`), the pipeline's proof data (`dat5`: arrays as the region finds
  them, each input buffer at its block, the output buffer at `out5_5` of the blocks), and the body obligation at every
  point (`body_obligation5`).
-/
import proofs.«180908_j8211977470570_1_alg».proof.Proof.Gen.Kernel.Launch
import proofs.«180908_j8211977470570_1_alg».proof.Proof.Gen.Kernel.Skeleton
import proofs.«180908_j8211977470570_1_alg».proof.Proof.Gen.Kernel.Points
import Idealize.ShloMosaic.Lib.Pipeline.FrameBody
import Idealize.ShloMosaic.Lib.Tactic

-- membership in a rectangle of full extents recurses once per coordinate of the long axis
set_option maxRecDepth 16384

noncomputable section

namespace Cert.Kernel.Regs

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block index
    has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof
    data whose array is `V`'s (`hA`) and whose body leaves the block in place (`hafter`): unfetched, the block index
    has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof
    data whose array is `V`'s (`hA`) and whose body leaves the block in place (`hafter`): unfetched, the block index
    has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof
    data whose array is `V`'s (`hA`) and whose body leaves the block in place (`hafter`): unfetched, the block index
    has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for any proof
    data whose array is `V`'s (`hA`) and whose body leaves the block in place (`hafter`): unfetched, the block index
    has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole rectangle of a row block, and of a per-channel row. -/
abbrev r5_big : Rect S3000x64 := Rect.unit (s := S3000x64) ![0, 0] S3000x64.size inb_S3000x64_S3000x64_0_0
abbrev r5_row : Rect S1x64 := Rect.unit (s := S1x64) ![0, 0] S1x64.size inb_S1x64_S1x64_0_0

/-! ## What the body leaves in the output window's buffer -/

/-- Window 5's staging buffer after the body, from the five input windows' blocks: its one store, of the
    normalised and activated rows, over the whole buffer. -/
def out5_5 (x0 : Vec F S3000x64 .f32) (x1 x2 x3 x4 : Vec F S1x64 .f32) : Vec F S3000x64 .f32 :=
  View.canon [⟨r5_big, k5_pay1 (View.ld x0 r5_big) (View.ld x1 r5_row) (View.ld x2 r5_row) (View.ld x3 r5_row) (View.ld x4 r5_row)⟩]

/-- The store's rectangle is the whole buffer, so it covers it. -/
theorem cover5_5 (p0 : Vec F S3000x64 .f32) (y : S3000x64.Idx) :
    ∃ pc ∈ ([⟨r5_big, p0⟩] : List (View.Piece (Elt F) S3000x64 .f32)), y ∈ pc.1.set :=
  View.cover_of_tiled [⟨r5_big, p0⟩] S3000x64.size (by rfl) y

/-! ## The body's triple -/

set_option maxHeartbeats 1000000 in
/-- The kernel body on whole staging memrefs, the inputs' at read contents `x0 … x4` and the output's at anything, runs
    to the continuation holding the inputs' as they were and the output's at `out5_5` of the inputs'. The grid
    coordinate `i` is not read. -/
theorem sound_kernel5 (c : Dev nD) (E : Set ℕ) (i : grid5.Coords)
    (arg1 : Memref sig .tc .vmem S3000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S3000x64 .f32) (harg6 : arg6.IsWhole)
    (x0 : Vec F S3000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point `t`
    each input's buffer at its block and the output's at `out5_5` of the input blocks; the invariant the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the definition's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Regs
-- ==== Proof.MatmulRegionKernel6.lean ====
/- Region 6 of @main (pipeline 6, `cc6_kernel`): a matrix product of two whole blocks, stored whole.
   Stated at a parameter `V`: the contents of the core's buffers when the region is entered.  The body reads
   window 0 (a block of rows) and window 1 (a block of weights) whole, rounds both to bf16, multiplies them
   into a zero accumulator, reads window 2 (the value is not used), and overwrites window 2 whole with the
   product.  Hence after the body the two input buffers are as found and the output buffer is a function
   `out6_2` of the two input blocks alone. -/
import proofs.«180908_j8211977470570_1_alg».proof.Proof.Gen.Kernel.Launch
import proofs.«180908_j8211977470570_1_alg».proof.Proof.Gen.Kernel.Skeleton
import proofs.«180908_j8211977470570_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the core's buffers when the region is entered
variable (V : (c : Dev nD) → (b : Ref sig .tc) → Buf (Elt F) ((c : Thread nD τ).loc b))

/-! ## The windows' blocks -/

/-- Window `w`'s block at point `t`, read off its array at the entry contents `V`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current buffer holds its block at every point, fetched there or not (unfetched, the
    block index has not moved), for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_a : Rect S1x5000x64 := Rect.unit (s := S1x5000x64) ![0, 0, 0] S1x5000x64.size inb_S1x5000x64_S1x5000x64_0_0_0
abbrev r6_b : Rect S1x64x64 := Rect.unit (s := S1x64x64) ![0, 0, 0] S1x64x64.size inb_S1x64x64_S1x64x64_0_0_0
abbrev r6_o : Rect S1x5000x64 := Rect.unit (s := S1x5000x64) ![0, 0, 0] S1x5000x64.size inb_S1x5000x64_S1x5000x64_0_0_0

/-! ## What the body leaves in the output window's buffer -/

/-- Window 2's buffer after the body, from the two input blocks: its one store, of the product, over the whole buffer. -/
def out6_2 (x0 : Vec F S1x5000x64 .f32) (x1 : Vec F S1x64x64 .f32) : Vec F S1x5000x64 .f32 :=
  View.canon [⟨r6_o, k6_pay1 (View.ld x0 r6_a) (View.ld x1 r6_b)⟩]

/-- The one store covers the buffer. -/
theorem cover6_2 (p0 : Vec F S1x5000x64 .f32) (y : S1x5000x64.Idx) :
    ∃ pc ∈ ([⟨r6_o, p0⟩] : List (View.Piece (Elt F) S1x5000x64 .f32)), y ∈ pc.1.set :=
  View.cover_of_tiled [⟨r6_o, p0⟩] S1x5000x64.size (by rfl) y

/-! ## The body's triple -/

set_option maxHeartbeats 1000000 in
/-- The body on whole buffers — the inputs' at contents `x0`, `x1`, the output's at anything — runs to the
    continuation holding the inputs' as they were and the output's at `out6_2 x0 x1`. -/
theorem sound_kernel6 (c : Dev nD) (E : Set ℕ) (i : grid6.Coords)
    (arg2 : Memref sig .tc .vmem S1x5000x64 .f32) (harg2 : arg2.IsWhole)
    (arg3 : Memref sig .tc .vmem S1x64x64 .f32) (harg3 : arg3.IsWhole)
    (arg4 : Memref sig .tc .vmem S1x5000x64 .f32) (harg4 : arg4.IsWhole)
    (x0 : Vec F S1x5000x64 .f32) (x1 : Vec F S1x64x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out6_2 x0 x1)) -∗ K ⟨⟩))
      ⊢ wp frame (wpE (defs₀ (F := F)) Variants.none c none) E (cc6_kernel i arg2 harg2 arg3 harg3 arg4 harg4) K := by
  simp only [cc6_kernel_eq_skeleton]; unfold cc6_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays at the entry contents `V`; after the body at point `t`
    each input's buffer at its block and the output's at `out6_2` of the input blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) :
    (dat6 V c).after 2 t = out6_2 (iblk6 V c 0 t) (iblk6 V c 1 t) := by dsimp only [dat6]

/-- Each input's current buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's rule, at every point. -/
theorem body_obligation6 (c : Dev nD) : BodyObligation (dat6 (F := F) V c) (defs₀ (F := F)) Variants.none () Set.univ := fun t => by
  rw [bigSep_W6, bigSep_W6]
  exact sound_body6 V c t

end Region

end Cert.Kernel.Regs
-- ==== Proof.StatsKernel7Runs.lean ====
import proofs.«180908_j8211977470570_1_alg».proof.Proof.Gen.Kernel.Launch
import proofs.«180908_j8211977470570_1_alg».proof.Proof.Gen.Kernel.Skeleton
import proofs.«180908_j8211977470570_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The statistics region of pipeline 7: what its three control cases share

The kernel keeps two running column sums (of the block and of its square) in two scratch buffers the pipeline does not
stage: the first grid point zeroes them, every point adds its block's column sums, the last point turns them into the
mean and the variance and stores those into the two output windows. Everything is stated at a parameter `V`, the buffer
contents when the region is entered. -/

section Region7
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's current staging buffer holds its block at every point, for any proof data whose array is `V`'s
    and whose body leaves the block in place: the window is fetched at every point, uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

end Region7

/-! ## The body's branch conditions -/

/-- The condition of the body's first conditional (the reset of the running sums), from the grid coordinate. -/
abbrev cond7_0 (i : grid7.Coords) : Prop := (Scalar.cmpi .ne (Scalar.extui (Scalar.cmpi .eq (BitVec.ofNat 32 (i 0).val) 0#32)) 0#32) = 1#1
/-- It holds at the first point only — decided over the grid. -/
theorem hcond7_0 : ∀ t : Fin cfg7.N, cond7_0 (grid7.coords t) ↔ t.val % 20 = 0 :=
  (by decide +kernel : ∀ t : Fin grid7.N, cond7_0 (grid7.coords t) ↔ t.val % 20 = 0)

/-- The condition of the body's second conditional (the final division and the two output stores). -/
abbrev cond7_1 (i : grid7.Coords) : Prop := k7_cond2 i = 1#1
/-- It holds at the last point only — decided over the grid. -/
theorem hcond7_1 : ∀ t : Fin cfg7.N, cond7_1 (grid7.coords t) ↔ t.val % 20 = 19 :=
  (by decide +kernel : ∀ t : Fin grid7.N, cond7_1 (grid7.coords t) ↔ t.val % 20 = 19)

/-! ## Where the windows are idle -/

/-- The input window is never idle. -/
theorem liveAt7_0 : ∀ t : Fin cfg7.N, cfg7.idle 0 (grid7.coords t) = false := by decide +kernel
/-- Away from the last point the two output windows are idle (the body stores nothing into them) -/
theorem idleAt7_1 : ∀ t : Fin cfg7.N, ¬cond7_1 (grid7.coords t) → cfg7.idle 1 (grid7.coords t) = true := by decide +kernel
theorem idleAt7_2 : ∀ t : Fin cfg7.N, ¬cond7_1 (grid7.coords t) → cfg7.idle 2 (grid7.coords t) = true := by decide +kernel
/-- and are not written back. -/
theorem noFlush7_1 : ∀ t : Fin cfg7.N, ¬cond7_1 (grid7.coords t) → (cfg7.win 1).flush t = false := by decide +kernel
theorem noFlush7_2 : ∀ t : Fin cfg7.N, ¬cond7_1 (grid7.coords t) → (cfg7.win 2).flush t = false := by decide +kernel
/-- At the last point they are live. -/
theorem liveAt7_1 : ∀ t : Fin cfg7.N, cond7_1 (grid7.coords t) → cfg7.idle 1 (grid7.coords t) = false := by decide +kernel
theorem liveAt7_2 : ∀ t : Fin cfg7.N, cond7_1 (grid7.coords t) → cfg7.idle 2 (grid7.coords t) = false := by decide +kernel

/-! ## The memrefs the body is called with -/

/-- One staging buffer of each output window, through which its contents are stated (the choice does not matter once
    the stores cover the block). -/
abbrev VO7_1 : View sig .tc .vmem S1x64 .f32 := (Memref.whole cc7_stg1_0 : Memref sig .tc .vmem S1x64 .f32).view
abbrev VO7_2 : View sig .tc .vmem S1x64 .f32 := (Memref.whole cc7_stg2_0 : Memref sig .tc .vmem S1x64 .f32).view
/-- Each window's current staging memref at point `t`, as the pipeline passes it, and its wholeness. -/
abbrev ms7_0 (t : Fin cfg7.N) : Memref sig .tc .vmem S3000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x64 .f32 := win7_2.stage (cfg7.slots t 2)
abbrev hs7_2 (t : Fin cfg7.N) : (ms7_2 t).IsWhole := hstage7_2 ((cfg7.slots t 2).cast nbuf7_2)
/-- The two scratch operands: whole scoped buffers of the kernel's own, passed beside the windows. -/
abbrev scM7_0 : Memref sig .tc .vmem S1x64 .f32 := Memref.whole cc7_scratch0
abbrev scM7_1 : Memref sig .tc .vmem S1x64 .f32 := Memref.whole cc7_scratch1
/-- The same as views: what they hold is stated through these. -/
abbrev VS7_0 : View sig .tc .vmem S1x64 .f32 := scM7_0.view
abbrev VS7_1 : View sig .tc .vmem S1x64 .f32 := scM7_1.view

/-- The region's entry invariant (every scoped buffer no window stages at some contents, the generator register at
    some state) with the two scratch operands taken out as memrefs owned at some contents; the other scoped buffers stay
    unopened. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1])
          ∗ (∃ r, prngReg c r)) := by
  unfold Pipeline.ΦA; rw [scopedRest7_split]; simp only [scM7_0, scM7_1, owns_whole]; try rfl

end Cert.Kernel.Regs

end
-- ==== Proof.StatsKernel7RunA.lean ====
import proofs.«180908_j8211977470570_1_alg».proof.Proof.StatsKernel7Runs

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE FIRST POINT (the reset taken, the final stores not): what the body's stores leave in the two scratch buffers, as
    pieces (last first), WITH the proof that on whole memrefs — the input block's at its contents `x0`, the two scratch
    buffers at anything — the body runs to the continuation holding the input as it was and each scratch buffer with its
    pieces written (zero stored, then the block's column sums added). The two output windows are not touched and are
    left out. The pieces are the witness the symbolic run finds. -/
noncomputable def kernelRun7_A (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond7_0 i) (hc1 : ¬cond7_1 i)
    (x0 : Vec F S3000x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg4 fullShare d) ∗ (∃ d, owns (c : Thread nD τ) arg5 fullShare d)
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc7_kernel i arg1 harg1 arg2 harg2 arg3 harg3 arg4 harg4 arg5 harg5) K } := by
  refine ⟨?_, ?_, fun E K => ?run⟩
  case run =>
    simp only [cc7_kernel_eq_skeleton]; unfold cc7_kernel_skel
    unfold owns
    iintro ⟨⟨%f0, %hf0, H0⟩, ⟨%ds0, %fs0, -, HS0⟩, ⟨%ds1, %fs1, -, HS1⟩, Hk⟩
    obtain rfl := harg1.eq_unread hf0
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.Kernel.Regs

end
-- ==== Proof.StatsKernel7RunB.lean ====
import proofs.«180908_j8211977470570_1_alg».proof.Proof.StatsKernel7RunA

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A MIDDLE POINT (neither conditional taken): what the body's stores leave in the two scratch buffers, as pieces, WITH
    the proof that on whole memrefs — the input block's at `x0`, the two scratch buffers at the running sums `xs0`, `xs1`
    the point before left — the body runs to the continuation holding the input as it was and each scratch buffer with
    its pieces written (the block's column sums added). The two output windows are not touched and are left out. -/
noncomputable def kernelRun7_B (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : ¬cond7_1 i)
    (x0 : Vec F S3000x64 .f32) (xs0 : Vec F S1x64 .f32) (xs1 : Vec F S1x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg4 fullShare xs0 ∗ owns (c : Thread nD τ) arg5 fullShare xs1
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc7_kernel i arg1 harg1 arg2 harg2 arg3 harg3 arg4 harg4 arg5 harg5) K } := by
  refine ⟨?_, ?_, fun E K => ?run⟩
  case run =>
    simp only [cc7_kernel_eq_skeleton]; unfold cc7_kernel_skel
    unfold owns
    iintro ⟨⟨%f0, %hf0, H0⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.Kernel.Regs

end
-- ==== Proof.StatsKernel7RunC.lean ====
import proofs.«180908_j8211977470570_1_alg».proof.Proof.StatsKernel7RunB

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE LAST POINT (the reset not taken, the final stores taken): what the body's stores leave in the two output
    windows' staging memrefs and in the two scratch buffers, as pieces, WITH the proof that on whole memrefs — the input
    block's at `x0`, the outputs' at anything, the scratch buffers at the running sums `xs0`, `xs1` the point before
    left — the body runs to the continuation holding the input as it was and each of the four with its pieces written
    (the sums completed; the mean, and the mean of squares less the mean squared, stored). -/
noncomputable def kernelRun7_C (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) :
    Σ' (L1 : List (View.Piece (Elt F) S1x64 .f32)) (L2 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc7_kernel i arg1 harg1 arg2 harg2 arg3 harg3 arg4 harg4 arg5 harg5) K } := by
  refine ⟨?_, ?_, ?_, ?_, fun E K => ?run⟩
  case run =>
    simp only [cc7_kernel_eq_skeleton]; unfold cc7_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [HS0]
    · iexists _; iexact HS0
    iexists _; iexact HS1

end Cert.Kernel.Regs

end
-- ==== Proof.StatsRegionKernel7.lean ====
import proofs.«180908_j8211977470570_1_alg».proof.Proof.StatsKernel7RunC

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The statistics region of pipeline 7: the running sums, the proof data, the body obligation -/

/-! ## What each case's stores leave -/

/-- At the first point the stores into the first scratch buffer (the zero, then the sum) tile it, so they cover it. -/
theorem scover7_A_0 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond7_0 i) (hc1 : ¬cond7_1 i)
    (x0 : Vec F S3000x64 .f32) (y : S1x64.Idx) :
    ∃ pc ∈ (kernelRun7_A c i arg1 harg1 arg2 harg2 arg3 harg3 arg4 harg4 arg5 harg5 hc0 hc1 x0).1, y ∈ pc.1.set :=
  View.cover_of_tiledL (kernelRun7_A c i arg1 harg1 arg2 harg2 arg3 harg3 arg4 harg4 arg5 harg5 hc0 hc1 x0).1 S1x64.size (by sl_kernel_rfl) y

/-- What they leave there: the pieces read back (over contents that, the pieces covering the buffer, do not matter). -/
def sout7_A_0 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond7_0 i) (hc1 : ¬cond7_1 i)
    (x0 : Vec F S3000x64 .f32) : Vec F S1x64 .f32 :=
  VS7_0.read (Elt F) (VS7_0.writes (Elt F) VS7_0.junk (kernelRun7_A c i arg1 harg1 arg2 harg2 arg3 harg3 arg4 harg4 arg5 harg5 hc0 hc1 x0).1)

/-- At the first point the stores into the second scratch buffer tile it, so they cover it. -/
theorem scover7_A_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond7_0 i) (hc1 : ¬cond7_1 i)
    (x0 : Vec F S3000x64 .f32) (y : S1x64.Idx) :
    ∃ pc ∈ (kernelRun7_A c i arg1 harg1 arg2 harg2 arg3 harg3 arg4 harg4 arg5 harg5 hc0 hc1 x0).2.1, y ∈ pc.1.set :=
  View.cover_of_tiledL (kernelRun7_A c i arg1 harg1 arg2 harg2 arg3 harg3 arg4 harg4 arg5 harg5 hc0 hc1 x0).2.1 S1x64.size (by sl_kernel_rfl) y

/-- What they leave there: the pieces read back (over contents that, the pieces covering the buffer, do not matter). -/
def sout7_A_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond7_0 i) (hc1 : ¬cond7_1 i)
    (x0 : Vec F S3000x64 .f32) : Vec F S1x64 .f32 :=
  VS7_1.read (Elt F) (VS7_1.writes (Elt F) VS7_1.junk (kernelRun7_A c i arg1 harg1 arg2 harg2 arg3 harg3 arg4 harg4 arg5 harg5 hc0 hc1 x0).2.1)

/-- At a middle point the store into the first scratch buffer tiles it. -/
theorem scover7_B_0 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : ¬cond7_1 i)
    (x0 : Vec F S3000x64 .f32) (xs0 : Vec F S1x64 .f32) (xs1 : Vec F S1x64 .f32) (y : S1x64.Idx) :
    ∃ pc ∈ (kernelRun7_B c i arg1 harg1 arg2 harg2 arg3 harg3 arg4 harg4 arg5 harg5 hc0 hc1 x0 xs0 xs1).1, y ∈ pc.1.set :=
  View.cover_of_tiledL (kernelRun7_B c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def sout7_B_0 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : ¬cond7_1 i)
    (x0 : Vec F S3000x64 .f32) (xs0 : Vec F S1x64 .f32) (xs1 : Vec F S1x64 .f32) : Vec F S1x64 .f32 :=
  VS7_0.read (Elt F) (VS7_0.writes (Elt F) VS7_0.junk (kernelRun7_B c i arg1 harg1 arg2 harg2 arg3 harg3 arg4 harg4 arg5 harg5 hc0 hc1 x0 xs0 xs1).1)

/-- At a middle point the store into the second scratch buffer tiles it. -/
theorem scover7_B_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : ¬cond7_1 i)
    (x0 : Vec F S3000x64 .f32) (xs0 : Vec F S1x64 .f32) (xs1 : Vec F S1x64 .f32) (y : S1x64.Idx) :
    ∃ pc ∈ (kernelRun7_B c i arg1 harg1 arg2 harg2 arg3 harg3 arg4 harg4 arg5 harg5 hc0 hc1 x0 xs0 xs1).2.1, y ∈ pc.1.set :=
  View.cover_of_tiledL (kernelRun7_B c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def sout7_B_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : ¬cond7_1 i)
    (x0 : Vec F S3000x64 .f32) (xs0 : Vec F S1x64 .f32) (xs1 : Vec F S1x64 .f32) : Vec F S1x64 .f32 :=
  VS7_1.read (Elt F) (VS7_1.writes (Elt F) VS7_1.junk (kernelRun7_B c i arg1 harg1 arg2 harg2 arg3 harg3 arg4 harg4 arg5 harg5 hc0 hc1 x0 xs0 xs1).2.1)

/-- At the last point the store into the first output window (the mean) tiles its block. -/
theorem cover7_C_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) (y : S1x64.Idx) :
    ∃ pc ∈ (kernelRun7_C c i arg1 harg1 arg2 harg2 arg3 harg3 arg4 harg4 arg5 harg5 hc0 hc1 x0 xs0 xs1).1, y ∈ pc.1.set :=
  View.cover_of_tiledL (kernelRun7_C c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def out7_C_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) : Vec F S1x64 .f32 :=
  VO7_1.read (Elt F) (VO7_1.writes (Elt F) VO7_1.junk (kernelRun7_C c i arg1 harg1 arg2 harg2 arg3 harg3 arg4 harg4 arg5 harg5 hc0 hc1 x0 xs0 xs1).1)

/-- At the last point the store into the second output window (the variance) tiles its block. -/
theorem cover7_C_2 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) (y : S1x64.Idx) :
    ∃ pc ∈ (kernelRun7_C c i arg1 harg1 arg2 harg2 arg3 harg3 arg4 harg4 arg5 harg5 hc0 hc1 x0 xs0 xs1).2.1, y ∈ pc.1.set :=
  View.cover_of_tiledL (kernelRun7_C c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def out7_C_2 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) : Vec F S1x64 .f32 :=
  VO7_2.read (Elt F) (VO7_2.writes (Elt F) VO7_2.junk (kernelRun7_C c i arg1 harg1 arg2 harg2 arg3 harg3 arg4 harg4 arg5 harg5 hc0 hc1 x0 xs0 xs1).2.1)

/-- At the last point the store into the first scratch buffer tiles it. -/
theorem scover7_C_0 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) (y : S1x64.Idx) :
    ∃ pc ∈ (kernelRun7_C c i arg1 harg1 arg2 harg2 arg3 harg3 arg4 harg4 arg5 harg5 hc0 hc1 x0 xs0 xs1).2.2.1, y ∈ pc.1.set :=
  View.cover_of_tiledL (kernelRun7_C c i arg1 harg1 arg2 harg2 arg3 harg3 arg4 harg4 arg5 harg5 hc0 hc1 x0 xs0 xs1).2.2.1 S1x64.size (by sl_kernel_rfl) y

/-- What they leave there: the pieces read back (over contents that, the pieces covering the buffer, do not matter). -/
def sout7_C_0 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) : Vec F S1x64 .f32 :=
  VS7_0.read (Elt F) (VS7_0.writes (Elt F) VS7_0.junk (kernelRun7_C c i arg1 harg1 arg2 harg2 arg3 harg3 arg4 harg4 arg5 harg5 hc0 hc1 x0 xs0 xs1).2.2.1)

/-- At the last point the store into the second scratch buffer tiles it. -/
theorem scover7_C_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) (y : S1x64.Idx) :
    ∃ pc ∈ (kernelRun7_C c i arg1 harg1 arg2 harg2 arg3 harg3 arg4 harg4 arg5 harg5 hc0 hc1 x0 xs0 xs1).2.2.2.1, y ∈ pc.1.set :=
  View.cover_of_tiledL (kernelRun7_C c i arg1 harg1 arg2 harg2 arg3 harg3 arg4 harg4 arg5 harg5 hc0 hc1 x0 xs0 xs1).2.2.2.1 S1x64.size (by sl_kernel_rfl) y

/-- What they leave there: the pieces read back (over contents that, the pieces covering the buffer, do not matter). -/
def sout7_C_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) : Vec F S1x64 .f32 :=
  VS7_1.read (Elt F) (VS7_1.writes (Elt F) VS7_1.junk (kernelRun7_C c i arg1 harg1 arg2 harg2 arg3 harg3 arg4 harg4 arg5 harg5 hc0 hc1 x0 xs0 xs1).2.2.2.1)

/-- After the first point the reset is never taken again: the grid has 20 points. -/
theorem not_cond7_0_succ (n : ℕ) (hn : n + 1 < cfg7.N) : ¬cond7_0 (grid7.coords ⟨n + 1, hn⟩) := fun h => by
  have h' := (hcond7_0 ⟨n + 1, hn⟩).mp h
  have hN : n + 1 < 20 := lt_of_lt_of_eq hn (show cfg7.N = 20 from N_7)
  dsimp only at h'; omega

/-- The first point is not the last. -/
theorem not_cond7_1_zero (hn : 0 < cfg7.N) : ¬cond7_1 (grid7.coords ⟨0, hn⟩) := fun h => by
  have h' := (hcond7_1 ⟨0, hn⟩).mp h
  dsimp only at h'; omega

section Region7
variable (V : (c : Dev nD) → (b : Ref sig .tc) → Buf (Elt F) ((c : Thread nD τ).loc b))

/-- Contents of an output window at a point where nothing reads them (the window is idle there and not written back). -/
def unread7_1 : Vec F S1x64 .f32 := VO7_1.read (Elt F) VO7_1.junk
def unread7_2 : Vec F S1x64 .f32 := VO7_2.read (Elt F) VO7_2.junk

/-! ## What the outputs and the scratch hold after each point -/

/-- THE ACCUMULATION. After the body at position `n`: the two output windows' staging buffers (named only at the last
    point) and the two scratch buffers — the first point's case run on the block, then each later point's case run on the
    block and on what the point before left in the scratch. -/
def outsAt7 (c : Dev nD) : (n : ℕ) → n < cfg7.N → (Vec F S1x64 .f32 × Vec F S1x64 .f32) × (Vec F S1x64 .f32 × Vec F S1x64 .f32)
  | 0, hn =>
    ((unread7_1, unread7_2),
     (sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr (Nat.zero_mod _)) (not_cond7_1_zero hn) (iblk7 V c 0 ⟨0, hn⟩),
      sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr (Nat.zero_mod _)) (not_cond7_1_zero hn) (iblk7 V c 0 ⟨0, hn⟩)))
  | n + 1, hn =>
    if h1 : (n + 1) % 20 = 19 then
      ((out7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (not_cond7_0_succ n hn) ((hcond7_1 ⟨n + 1, hn⟩).mpr h1) (iblk7 V c 0 ⟨n + 1, hn⟩) (outsAt7 c n (Nat.lt_of_succ_lt hn)).2.1 (outsAt7 c n (Nat.lt_of_succ_lt hn)).2.2,
        out7_C_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (not_cond7_0_succ n hn) ((hcond7_1 ⟨n + 1, hn⟩).mpr h1) (iblk7 V c 0 ⟨n + 1, hn⟩) (outsAt7 c n (Nat.lt_of_succ_lt hn)).2.1 (outsAt7 c n (Nat.lt_of_succ_lt hn)).2.2),
       (sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (not_cond7_0_succ n hn) ((hcond7_1 ⟨n + 1, hn⟩).mpr h1) (iblk7 V c 0 ⟨n + 1, hn⟩) (outsAt7 c n (Nat.lt_of_succ_lt hn)).2.1 (outsAt7 c n (Nat.lt_of_succ_lt hn)).2.2,
        sout7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (not_cond7_0_succ n hn) ((hcond7_1 ⟨n + 1, hn⟩).mpr h1) (iblk7 V c 0 ⟨n + 1, hn⟩) (outsAt7 c n (Nat.lt_of_succ_lt hn)).2.1 (outsAt7 c n (Nat.lt_of_succ_lt hn)).2.2))
    else
      ((unread7_1, unread7_2),
       (sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (not_cond7_0_succ n hn) (fun h => h1 ((hcond7_1 ⟨n + 1, hn⟩).mp h)) (iblk7 V c 0 ⟨n + 1, hn⟩) (outsAt7 c n (Nat.lt_of_succ_lt hn)).2.1 (outsAt7 c n (Nat.lt_of_succ_lt hn)).2.2,
        sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (not_cond7_0_succ n hn) (fun h => h1 ((hcond7_1 ⟨n + 1, hn⟩).mp h)) (iblk7 V c 0 ⟨n + 1, hn⟩) (outsAt7 c n (Nat.lt_of_succ_lt hn)).2.1 (outsAt7 c n (Nat.lt_of_succ_lt hn)).2.2))

/-- `outsAt7` at the first point. -/
theorem outsAt7_A (c : Dev nD) (t : Fin cfg7.N) (hc0 : cond7_0 (grid7.coords t)) (hc1 : ¬cond7_1 (grid7.coords t)) :
    outsAt7 V c t.val t.isLt = ((unread7_1, unread7_2),
      (sout7_A_0 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t), sout7_A_1 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t))) := by
  obtain ⟨n, hn⟩ := t
  cases n with
  | zero => exact rfl
  | succ n => exact absurd hc0 (not_cond7_0_succ n hn)

/-- `outsAt7` at a middle point: over what the point before left in the scratch. -/
theorem outsAt7_B (c : Dev nD) (t : Fin cfg7.N) (hc0 : ¬cond7_0 (grid7.coords t)) (hc1 : ¬cond7_1 (grid7.coords t)) :
    outsAt7 V c t.val t.isLt = ((unread7_1, unread7_2),
      (sout7_B_0 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t) (outsAt7 V c (t.val - 1) (Nat.lt_of_le_of_lt (Nat.sub_le _ _) t.isLt)).2.1 (outsAt7 V c (t.val - 1) (Nat.lt_of_le_of_lt (Nat.sub_le _ _) t.isLt)).2.2,
       sout7_B_1 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t) (outsAt7 V c (t.val - 1) (Nat.lt_of_le_of_lt (Nat.sub_le _ _) t.isLt)).2.1 (outsAt7 V c (t.val - 1) (Nat.lt_of_le_of_lt (Nat.sub_le _ _) t.isLt)).2.2)) := by
  obtain ⟨n, hn⟩ := t
  cases n with
  | zero => exact absurd ((hcond7_0 ⟨0, hn⟩).mpr (Nat.zero_mod _)) hc0
  | succ n => exact (dif_neg (fun h => hc1 ((hcond7_1 ⟨n + 1, hn⟩).mpr h))).trans rfl

/-- `outsAt7` at the last point: over what the point before left in the scratch. -/
theorem outsAt7_C (c : Dev nD) (t : Fin cfg7.N) (hc0 : ¬cond7_0 (grid7.coords t)) (hc1 : cond7_1 (grid7.coords t)) :
    outsAt7 V c t.val t.isLt =
      ((out7_C_1 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t) (outsAt7 V c (t.val - 1) (Nat.lt_of_le_of_lt (Nat.sub_le _ _) t.isLt)).2.1 (outsAt7 V c (t.val - 1) (Nat.lt_of_le_of_lt (Nat.sub_le _ _) t.isLt)).2.2,
        out7_C_2 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t) (outsAt7 V c (t.val - 1) (Nat.lt_of_le_of_lt (Nat.sub_le _ _) t.isLt)).2.1 (outsAt7 V c (t.val - 1) (Nat.lt_of_le_of_lt (Nat.sub_le _ _) t.isLt)).2.2),
       (sout7_C_0 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t) (outsAt7 V c (t.val - 1) (Nat.lt_of_le_of_lt (Nat.sub_le _ _) t.isLt)).2.1 (outsAt7 V c (t.val - 1) (Nat.lt_of_le_of_lt (Nat.sub_le _ _) t.isLt)).2.2,
        sout7_C_1 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t) (outsAt7 V c (t.val - 1) (Nat.lt_of_le_of_lt (Nat.sub_le _ _) t.isLt)).2.1 (outsAt7 V c (t.val - 1) (Nat.lt_of_le_of_lt (Nat.sub_le _ _) t.isLt)).2.2)) := by
  obtain ⟨n, hn⟩ := t
  cases n with
  | zero => exact absurd ((hcond7_0 ⟨0, hn⟩).mpr (Nat.zero_mod _)) hc0
  | succ n => exact (dif_pos ((hcond7_1 ⟨n + 1, hn⟩).mp hc1)).trans rfl

/-! ## The region's invariant -/

/-- The invariant before position `n`: before the first point every scoped buffer no window stages at some contents
    (the two scratch buffers hold anything on entry) and the generator register at some state; afterwards the two
    scratch buffers at the running sums the point before left, the other such buffers unopened, and the register. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2.1) ∗ owns (c : Thread nD τ) scM7_1 fullShare ((outsAt7 V c n hn).2.2))
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

/-- After point `n` (before point `n + 1`): the scratch at that point's contents. -/
theorem PhiS7_succ (c : Dev nD) (n : ℕ) (hn : n < cfg7.N) :
    PhiS7 V c (n + 1) hn = iprop(iprop(iprop(owns (c : Thread nD τ) scM7_0 fullShare ((outsAt7 V c n hn).2.1) ∗ owns (c : Thread nD τ) scM7_1 fullShare ((outsAt7 V c n hn).2.2))
      ∗ Pipeline.scopedRestBut (Ix := Unit) (Name := ℕ) (U := UR sig nD τ) (Lvl := ℕ) (Val := Elt F) spec7 c [cc7_scratch0, cc7_scratch1]) ∗ (∃ r, prngReg c r)) := rfl

/-- Before a point that is not the first: the scratch at what the point before left. -/
theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2.1) ∗ owns (c : Thread nD τ) scM7_1 fullShare ((outsAt7 V c (n - 1) (by omega)).2.2))
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The pipeline's proof data -/

/-- The proof data of pipeline 7 on core `c`: the arrays as the region finds them (`V`); after the body the input's
    buffer at its block and the outputs' at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => (outsAt7 V c t.val t.isLt).1.1
    | ⟨2, _⟩ => (outsAt7 V c t.val t.isLt).1.2
  Φ t := PhiS7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- The invariant at a point's start, restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = (outsAt7 V c t.val t.isLt).1.1 := by dsimp only [dat7]
theorem after7_2 (c : Dev nD) (t : Fin cfg7.N) : (dat7 V c).after 2 t = (outsAt7 V c t.val t.isLt).1.2 := by dsimp only [dat7]

/-- The input's current staging buffer holds its block at every point. -/
theorem before7_0 (c : Dev nD) (t : Fin cfg7.N) (d) : (dat7 V c).before 0 t d = iblk7 V c 0 t :=
  before7_0_of V (dat7 V c) (A_eq7 V c 0) (after7_0 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point: the input's memref holds its block; the closed forms say which case the point is in; the
    invariant hands the body the two scratch buffers at what the point before left (at anything at the first point) and
    takes them back at this point's contents; the idle output windows pass through untouched; the core owes nothing. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = PhiS7 V c (t.val + 1) t.isLt from rfl, PhiS7_succ]
  have hN : t.val < 20 := lt_of_lt_of_eq t.isLt (show cfg7.N = 20 from N_7)
  rw [show (dat7 V c).leavesExact 0 t = owns (c : Thread nD τ) (ms7_0 t) fullShare ((dat7 V c).after 0 t) from by
    unfold Dat.leavesExact; rw [liveAt7_0 t], after7_0]
  by_cases hc1 : cond7_1 (grid7.coords t)
  · have h1 : t.val % 20 = 19 := (hcond7_1 t).mp hc1
    have hc0 : ¬cond7_0 (grid7.coords t) := fun h => by have := (hcond7_0 t).mp h; omega
    have hz : t.val ≠ 0 := by omega
    rw [show (dat7 V c).leavesExact 1 t = owns (c : Thread nD τ) (ms7_1 t) fullShare ((dat7 V c).after 1 t) from by
      unfold Dat.leavesExact; rw [liveAt7_1 t hc1], after7_1]
    rw [show (dat7 V c).leavesExact 2 t = owns (c : Thread nD τ) (ms7_2 t) fullShare ((dat7 V c).after 2 t) from by
      unfold Dat.leavesExact; rw [liveAt7_2 t hc1], after7_2]
    rw [outsAt7_C V c t hc0 hc1]
    unfold out7_C_1 out7_C_2 sout7_C_0 sout7_C_1; (try dsimp only)
    rw [PhiS7_castSucc V c t, PhiS7_pos V c _ _ hz]
    iintro ⟨⟨⟨⟨HS0, HS1⟩, HR⟩, Hg⟩, Ho, ⟨%d0, H0⟩, ⟨%d1, H1⟩, ⟨%d2, H2⟩⟩
    iapply ((kernelRun7_C c (grid7.coords t) _ _ _ _ _ _ _ _ _ _ hc0 hc1 (iblk7 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover7_C_0 c _ _ _ _ _ _ _ _ _ _ _ _ _ _ _ _)
          · unfold owns; iexists _; isplitr
            swap; · iexact HS1
            ipureintro; exact View.read_writes_of_cover _ _ _ _ _ (scover7_C_1 c _ _ _ _ _ _ _ _ _ _ _ _ _ _ _ _)
        · iexact HR
      · iexact Hg
    isplitl [Ho]; · iexact Ho
    isplitl [H0]; · iexact H0
    isplitl [H1]
    · unfold owns; iexists _; isplitr
      swap; · iexact H1
      ipureintro; exact View.read_writes_of_cover _ _ _ _ _ (cover7_C_1 c _ _ _ _ _ _ _ _ _ _ _ _ _ _ _ _)
    · unfold owns; iexists _; isplitr
      swap; · iexact H2
      ipureintro; exact View.read_writes_of_cover _ _ _ _ _ (cover7_C_2 c _ _ _ _ _ _ _ _ _ _ _ _ _ _ _ _)
  · rw [Dat.leavesExact_idle (dat7 V c) 1 t (idleAt7_1 t hc1) (noFlush7_1 t hc1)]
    rw [Dat.leavesExact_idle (dat7 V c) 2 t (idleAt7_2 t hc1) (noFlush7_2 t hc1)]
    by_cases hc0 : cond7_0 (grid7.coords t)
    · have hz : t.val = 0 := by have := (hcond7_0 t).mp hc0; omega
      rw [outsAt7_A V c t hc0 hc1]
      unfold sout7_A_0 sout7_A_1; (try dsimp only)
      rw [PhiS7_castSucc V c t, PhiS7_zero V c _ _ hz, PhiA7_eq]
      iintro ⟨⟨⟨⟨HS0, HS1⟩, HR⟩, Hg⟩, Ho, ⟨%d0, H0⟩, ⟨%d1, H1⟩, ⟨%d2, H2⟩⟩
      iapply ((kernelRun7_A c (grid7.coords t) _ _ _ _ _ _ _ _ _ _ hc0 hc1 (iblk7 V c 0 t)).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_A_0 c _ _ _ _ _ _ _ _ _ _ _ _ _ _)
            · unfold owns; iexists _; isplitr
              swap; · iexact HS1
              ipureintro; exact View.read_writes_of_cover _ _ _ _ _ (scover7_A_1 c _ _ _ _ _ _ _ _ _ _ _ _ _ _)
          · iexact HR
        · iexact Hg
      isplitl [Ho]; · iexact Ho
      isplitl [H0]; · iexact H0
      isplitl [H1]; · iexists _; iexact H1
      iexists _; iexact H2
    · have hz : t.val ≠ 0 := fun h => hc0 ((hcond7_0 t).mpr (by rw [h]))
      rw [outsAt7_B V c t hc0 hc1]
      unfold sout7_B_0 sout7_B_1; (try dsimp only)
      rw [PhiS7_castSucc V c t, PhiS7_pos V c _ _ hz]
      iintro ⟨⟨⟨⟨HS0, HS1⟩, HR⟩, Hg⟩, Ho, ⟨%d0, H0⟩, ⟨%d1, H1⟩, ⟨%d2, H2⟩⟩
      iapply ((kernelRun7_B c (grid7.coords t) _ _ _ _ _ _ _ _ _ _ hc0 hc1 (iblk7 V c 0 t) _ _).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_B_0 c _ _ _ _ _ _ _ _ _ _ _ _ _ _ _ _)
            · unfold owns; iexists _; isplitr
              swap; · iexact HS1
              ipureintro; exact View.read_writes_of_cover _ _ _ _ _ (scover7_B_1 c _ _ _ _ _ _ _ _ _ _ _ _ _ _ _ _)
          · iexact HR
        · iexact Hg
      isplitl [Ho]; · iexact Ho
      isplitl [H0]; · iexact H0
      isplitl [H1]; · iexists _; iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the region is entered with (every scoped buffer no window stages, the generator register) is the invariant
    before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives that back: the scratch buffers' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout7 (c : Dev nD) : (dat7 V c).Φ (Fin.last cfg7.N) ⊢ Pipeline.ΦA spec7 c :=
  Phi_out7 V c _ (by rw [Fin.val_last]; have : cfg7.N = 20 := N_7; omega)

end Region7

end Cert.Kernel.Regs

end
-- ==== Proof.NormRegionKernel8.lean ====
/-
  Region 8 of @main (pipeline 8, `cc8_kernel`): the batch-norm NORMALISE step, stated at a parameter `V` — the
  TensorCore's buffer contents when the region is entered.

  The body is pointwise. At every grid point it reads the row block `x` of the array (window 0) and the four
  per-channel rows mean, variance, gamma, beta (windows 1–4, one block each, the same at every point), and stores
  into the output window's buffer (window 5) the single value
      act ((x − mean) · rsqrt (var + ε) · gamma + beta)
  (`k8_pay1`), where act is the leaky rectifier with slope 0.01. One whole-rectangle store covers the output buffer, so what
  the body leaves there is a closed function `out8_5` of the five input blocks; the input buffers are left as found.
  From this: the body's triple (`sound_kernel8`), the pipeline's proof data (`dat8`: arrays as the region finds
  them, each input buffer at its block, the output buffer at `out8_5` of the blocks), and the body obligation at every
  point (`body_obligation8`).
-/
import proofs.«180908_j8211977470570_1_alg».proof.Proof.Gen.Kernel.Launch
import proofs.«180908_j8211977470570_1_alg».proof.Proof.Gen.Kernel.Skeleton
import proofs.«180908_j8211977470570_1_alg».proof.Proof.Gen.Kernel.Points
import Idealize.ShloMosaic.Lib.Pipeline.FrameBody
import Idealize.ShloMosaic.Lib.Tactic

-- membership in a rectangle of full extents recurses once per coordinate of the long axis
set_option maxRecDepth 16384

noncomputable section

namespace Cert.Kernel.Regs

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): unfetched, the block index
    has not moved; the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not, for any proof
    data whose array is `V`'s (`hA`) and whose body leaves the block in place (`hafter`): unfetched, the block index
    has not moved; the window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not, for any proof
    data whose array is `V`'s (`hA`) and whose body leaves the block in place (`hafter`): unfetched, the block index
    has not moved; the window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's current staging buffer holds its block at every point, fetched there or not, for any proof
    data whose array is `V`'s (`hA`) and whose body leaves the block in place (`hafter`): unfetched, the block index
    has not moved; the window is uncut and never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's current staging buffer holds its block at every point, fetched there or not, for any proof
    data whose array is `V`'s (`hA`) and whose body leaves the block in place (`hafter`): unfetched, the block index
    has not moved; the window is uncut and never idle. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole rectangle of a row block, and of a per-channel row. -/
abbrev r8_big : Rect S3000x64 := Rect.unit (s := S3000x64) ![0, 0] S3000x64.size inb_S3000x64_S3000x64_0_0
abbrev r8_row : Rect S1x64 := Rect.unit (s := S1x64) ![0, 0] S1x64.size inb_S1x64_S1x64_0_0

/-! ## What the body leaves in the output window's buffer -/

/-- Window 5's staging buffer after the body, from the five input windows' blocks: its one store, of the
    normalised and activated rows, over the whole buffer. -/
def out8_5 (x0 : Vec F S3000x64 .f32) (x1 x2 x3 x4 : Vec F S1x64 .f32) : Vec F S3000x64 .f32 :=
  View.canon [⟨r8_big, k8_pay1 (View.ld x0 r8_big) (View.ld x1 r8_row) (View.ld x2 r8_row) (View.ld x3 r8_row) (View.ld x4 r8_row)⟩]

/-- The store's rectangle is the whole buffer, so it covers it. -/
theorem cover8_5 (p0 : Vec F S3000x64 .f32) (y : S3000x64.Idx) :
    ∃ pc ∈ ([⟨r8_big, p0⟩] : List (View.Piece (Elt F) S3000x64 .f32)), y ∈ pc.1.set :=
  View.cover_of_tiled [⟨r8_big, p0⟩] S3000x64.size (by rfl) y

/-! ## The body's triple -/

set_option maxHeartbeats 1000000 in
/-- The kernel body on whole staging memrefs, the inputs' at read contents `x0 … x4` and the output's at anything, runs
    to the continuation holding the inputs' as they were and the output's at `out8_5` of the inputs'. The grid
    coordinate `i` is not read. -/
theorem sound_kernel8 (c : Dev nD) (E : Set ℕ) (i : grid8.Coords)
    (arg1 : Memref sig .tc .vmem S3000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S3000x64 .f32) (harg6 : arg6.IsWhole)
    (x0 : Vec F S3000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8_kernel i arg1 harg1 arg2 harg2 arg3 harg3 arg4 harg4 arg5 harg5 arg6 harg6) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays as the region finds them (`V`); after the body at point `t`
    each input's buffer at its block and the output's at `out8_5` of the input blocks; the invariant the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the definition's `match` reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Regs
-- ==== Proof.MatmulRegionKernel9.lean ====
/- Region 9 of @main (pipeline 9, `cc9_kernel`): a matrix product of two whole blocks, stored whole.
   Stated at a parameter `V`: the contents of the core's buffers when the region is entered.  The body reads
   window 0 (a block of rows) and window 1 (a block of weights) whole, rounds both to bf16, multiplies them
   into a zero accumulator, reads window 2 (the value is not used), and overwrites window 2 whole with the
   product.  Hence after the body the two input buffers are as found and the output buffer is a function
   `out9_2` of the two input blocks alone. -/
import proofs.«180908_j8211977470570_1_alg».proof.Proof.Gen.Kernel.Launch
import proofs.«180908_j8211977470570_1_alg».proof.Proof.Gen.Kernel.Skeleton
import proofs.«180908_j8211977470570_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the core's buffers when the region is entered
variable (V : (c : Dev nD) → (b : Ref sig .tc) → Buf (Elt F) ((c : Thread nD τ).loc b))

/-! ## The windows' blocks -/

/-- Window `w`'s block at point `t`, read off its array at the entry contents `V`. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current buffer holds its block at every point, fetched there or not (unfetched, the
    block index has not moved), for any proof data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_a : Rect S1x5000x64 := Rect.unit (s := S1x5000x64) ![0, 0, 0] S1x5000x64.size inb_S1x5000x64_S1x5000x64_0_0_0
abbrev r9_b : Rect S1x64x1 := Rect.unit (s := S1x64x1) ![0, 0, 0] S1x64x1.size inb_S1x64x1_S1x64x1_0_0_0
abbrev r9_o : Rect S1x5000x1 := Rect.unit (s := S1x5000x1) ![0, 0, 0] S1x5000x1.size inb_S1x5000x1_S1x5000x1_0_0_0

/-! ## What the body leaves in the output window's buffer -/

/-- Window 2's buffer after the body, from the two input blocks: its one store, of the product, over the whole buffer. -/
def out9_2 (x0 : Vec F S1x5000x64 .f32) (x1 : Vec F S1x64x1 .f32) : Vec F S1x5000x1 .f32 :=
  View.canon [⟨r9_o, k9_pay1 (View.ld x0 r9_a) (View.ld x1 r9_b)⟩]

/-- The one store covers the buffer. -/
theorem cover9_2 (p0 : Vec F S1x5000x1 .f32) (y : S1x5000x1.Idx) :
    ∃ pc ∈ ([⟨r9_o, p0⟩] : List (View.Piece (Elt F) S1x5000x1 .f32)), y ∈ pc.1.set :=
  View.cover_of_tiled [⟨r9_o, p0⟩] S1x5000x1.size (by rfl) y

/-! ## The body's triple -/

set_option maxHeartbeats 1000000 in
/-- The body on whole buffers — the inputs' at contents `x0`, `x1`, the output's at anything — runs to the
    continuation holding the inputs' as they were and the output's at `out9_2 x0 x1`. -/
theorem sound_kernel9 (c : Dev nD) (E : Set ℕ) (i : grid9.Coords)
    (arg2 : Memref sig .tc .vmem S1x5000x64 .f32) (harg2 : arg2.IsWhole)
    (arg3 : Memref sig .tc .vmem S1x64x1 .f32) (harg3 : arg3.IsWhole)
    (arg4 : Memref sig .tc .vmem S1x5000x1 .f32) (harg4 : arg4.IsWhole)
    (x0 : Vec F S1x5000x64 .f32) (x1 : Vec F S1x64x1 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out9_2 x0 x1)) -∗ K ⟨⟩))
      ⊢ wp frame (wpE (defs₀ (F := F)) Variants.none c none) E (cc9_kernel i arg2 harg2 arg3 harg3 arg4 harg4) K := by
  simp only [cc9_kernel_eq_skeleton]; unfold cc9_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data of pipeline 9 on core `c`: the arrays at the entry contents `V`; after the body at point `t`
    each input's buffer at its block and the output's at `out9_2` of the input blocks; the invariant is the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) :
    (dat9 V c).after 2 t = out9_2 (iblk9 V c 0 t) (iblk9 V c 1 t) := by dsimp only [dat9]

/-- Each input's current buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' buffers hold their blocks, so the body's triple applies; the invariant and
    what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's rule, at every point. -/
theorem body_obligation9 (c : Dev nD) : BodyObligation (dat9 (F := F) V c) (defs₀ (F := F)) Variants.none () Set.univ := fun t => by
  rw [bigSep_W9, bigSep_W9]
  exact sound_body9 V c t

end Region

end Cert.Kernel.Regs
-- ==== Proof.StatsKernel10Runs.lean ====
import proofs.«180908_j8211977470570_1_alg».proof.Proof.Gen.Kernel.Launch
import proofs.«180908_j8211977470570_1_alg».proof.Proof.Gen.Kernel.Skeleton
import proofs.«180908_j8211977470570_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The statistics region of pipeline 10: what its three control cases share

The kernel keeps two running column sums (of the block and of its square) in two scratch buffers the pipeline does not
stage: the first grid point zeroes them, every point adds its block's column sums, the last point turns them into the
mean and the variance and stores those into the two output windows. Everything is stated at a parameter `V`, the buffer
contents when the region is entered. -/

section Region10
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The input window's current staging buffer holds its block at every point, for any proof data whose array is `V`'s
    and whose body leaves the block in place: the window is fetched at every point, uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

end Region10

/-! ## The body's branch conditions -/

/-- The condition of the body's first conditional (the reset of the running sums), from the grid coordinate. -/
abbrev cond10_0 (i : grid10.Coords) : Prop := (Scalar.cmpi .ne (Scalar.extui (Scalar.cmpi .eq (BitVec.ofNat 32 (i 0).val) 0#32)) 0#32) = 1#1
/-- It holds at the first point only — decided over the grid. -/
theorem hcond10_0 : ∀ t : Fin cfg10.N, cond10_0 (grid10.coords t) ↔ t.val % 20 = 0 :=
  (by decide +kernel : ∀ t : Fin grid10.N, cond10_0 (grid10.coords t) ↔ t.val % 20 = 0)

/-- The condition of the body's second conditional (the final division and the two output stores). -/
abbrev cond10_1 (i : grid10.Coords) : Prop := k10_cond2 i = 1#1
/-- It holds at the last point only — decided over the grid. -/
theorem hcond10_1 : ∀ t : Fin cfg10.N, cond10_1 (grid10.coords t) ↔ t.val % 20 = 19 :=
  (by decide +kernel : ∀ t : Fin grid10.N, cond10_1 (grid10.coords t) ↔ t.val % 20 = 19)

/-! ## Where the windows are idle -/

/-- The input window is never idle. -/
theorem liveAt10_0 : ∀ t : Fin cfg10.N, cfg10.idle 0 (grid10.coords t) = false := by decide +kernel
/-- Away from the last point the two output windows are idle (the body stores nothing into them) -/
theorem idleAt10_1 : ∀ t : Fin cfg10.N, ¬cond10_1 (grid10.coords t) → cfg10.idle 1 (grid10.coords t) = true := by decide +kernel
theorem idleAt10_2 : ∀ t : Fin cfg10.N, ¬cond10_1 (grid10.coords t) → cfg10.idle 2 (grid10.coords t) = true := by decide +kernel
/-- and are not written back. -/
theorem noFlush10_1 : ∀ t : Fin cfg10.N, ¬cond10_1 (grid10.coords t) → (cfg10.win 1).flush t = false := by decide +kernel
theorem noFlush10_2 : ∀ t : Fin cfg10.N, ¬cond10_1 (grid10.coords t) → (cfg10.win 2).flush t = false := by decide +kernel
/-- At the last point they are live. -/
theorem liveAt10_1 : ∀ t : Fin cfg10.N, cond10_1 (grid10.coords t) → cfg10.idle 1 (grid10.coords t) = false := by decide +kernel
theorem liveAt10_2 : ∀ t : Fin cfg10.N, cond10_1 (grid10.coords t) → cfg10.idle 2 (grid10.coords t) = false := by decide +kernel

/-! ## The memrefs the body is called with -/

/-- One staging buffer of each output window, through which its contents are stated (the choice does not matter once
    the stores cover the block). -/
abbrev VO10_1 : View sig .tc .vmem S1x1 .f32 := (Memref.whole cc10_stg1_0 : Memref sig .tc .vmem S1x1 .f32).view
abbrev VO10_2 : View sig .tc .vmem S1x1 .f32 := (Memref.whole cc10_stg2_0 : Memref sig .tc .vmem S1x1 .f32).view
/-- Each window's current staging memref at point `t`, as the pipeline passes it, and its wholeness. -/
abbrev ms10_0 (t : Fin cfg10.N) : Memref sig .tc .vmem S3000x1 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1x1 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x1 .f32 := win10_2.stage (cfg10.slots t 2)
abbrev hs10_2 (t : Fin cfg10.N) : (ms10_2 t).IsWhole := hstage10_2 ((cfg10.slots t 2).cast nbuf10_2)
/-- The two scratch operands: whole scoped buffers of the kernel's own, passed beside the windows. -/
abbrev scM10_0 : Memref sig .tc .vmem S1x1 .f32 := Memref.whole cc10_scratch0
abbrev scM10_1 : Memref sig .tc .vmem S1x1 .f32 := Memref.whole cc10_scratch1
/-- The same as views: what they hold is stated through these. -/
abbrev VS10_0 : View sig .tc .vmem S1x1 .f32 := scM10_0.view
abbrev VS10_1 : View sig .tc .vmem S1x1 .f32 := scM10_1.view

/-- The region's entry invariant (every scoped buffer no window stages at some contents, the generator register at
    some state) with the two scratch operands taken out as memrefs owned at some contents; the other scoped buffers stay
    unopened. -/
theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d))
          ∗ Pipeline.scopedRestBut (Ix := Unit) (Name := ℕ) (U := UR sig nD τ) (Lvl := ℕ) (Val := Elt F) spec10 c [cc10_scratch0, cc10_scratch1])
          ∗ (∃ r, prngReg c r)) := by
  unfold Pipeline.ΦA; rw [scopedRest10_split]; simp only [scM10_0, scM10_1, owns_whole]; try rfl

end Cert.Kernel.Regs

end
-- ==== Proof.StatsKernel10RunA.lean ====
import proofs.«180908_j8211977470570_1_alg».proof.Proof.StatsKernel10Runs

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE FIRST POINT (the reset taken, the final stores not): what the body's stores leave in the two scratch buffers, as
    pieces (last first), WITH the proof that on whole memrefs — the input block's at its contents `x0`, the two scratch
    buffers at anything — the body runs to the continuation holding the input as it was and each scratch buffer with its
    pieces written (zero stored, then the block's column sums added). The two output windows are not touched and are
    left out. The pieces are the witness the symbolic run finds. -/
noncomputable def kernelRun10_A (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond10_0 i) (hc1 : ¬cond10_1 i)
    (x0 : Vec F S3000x1 .f32) :
    Σ' (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ (∃ d, owns (c : Thread nD τ) arg4 fullShare d) ∗ (∃ d, owns (c : Thread nD τ) arg5 fullShare d)
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc10_kernel i arg1 harg1 arg2 harg2 arg3 harg3 arg4 harg4 arg5 harg5) K } := by
  refine ⟨?_, ?_, fun E K => ?run⟩
  case run =>
    simp only [cc10_kernel_eq_skeleton]; unfold cc10_kernel_skel
    unfold owns
    iintro ⟨⟨%f0, %hf0, H0⟩, ⟨%ds0, %fs0, -, HS0⟩, ⟨%ds1, %fs1, -, HS1⟩, Hk⟩
    obtain rfl := harg1.eq_unread hf0
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.Kernel.Regs

end
-- ==== Proof.StatsKernel10RunB.lean ====
import proofs.«180908_j8211977470570_1_alg».proof.Proof.StatsKernel10RunA

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A MIDDLE POINT (neither conditional taken): what the body's stores leave in the two scratch buffers, as pieces, WITH
    the proof that on whole memrefs — the input block's at `x0`, the two scratch buffers at the running sums `xs0`, `xs1`
    the point before left — the body runs to the continuation holding the input as it was and each scratch buffer with
    its pieces written (the block's column sums added). The two output windows are not touched and are left out. -/
noncomputable def kernelRun10_B (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : ¬cond10_1 i)
    (x0 : Vec F S3000x1 .f32) (xs0 : Vec F S1x1 .f32) (xs1 : Vec F S1x1 .f32) :
    Σ' (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ owns (c : Thread nD τ) arg4 fullShare xs0 ∗ owns (c : Thread nD τ) arg5 fullShare xs1
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc10_kernel i arg1 harg1 arg2 harg2 arg3 harg3 arg4 harg4 arg5 harg5) K } := by
  refine ⟨?_, ?_, fun E K => ?run⟩
  case run =>
    simp only [cc10_kernel_eq_skeleton]; unfold cc10_kernel_skel
    unfold owns
    iintro ⟨⟨%f0, %hf0, H0⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.Kernel.Regs

end
-- ==== Proof.StatsKernel10RunC.lean ====
import proofs.«180908_j8211977470570_1_alg».proof.Proof.StatsKernel10RunB

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE LAST POINT (the reset not taken, the final stores taken): what the body's stores leave in the two output
    windows' staging memrefs and in the two scratch buffers, as pieces, WITH the proof that on whole memrefs — the input
    block's at `x0`, the outputs' at anything, the scratch buffers at the running sums `xs0`, `xs1` the point before
    left — the body runs to the continuation holding the input as it was and each of the four with its pieces written
    (the sums completed; the mean, and the mean of squares less the mean squared, stored). -/
noncomputable def kernelRun10_C (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) :
    Σ' (L1 : List (View.Piece (Elt F) S1x1 .f32)) (L2 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc10_kernel i arg1 harg1 arg2 harg2 arg3 harg3 arg4 harg4 arg5 harg5) K } := by
  refine ⟨?_, ?_, ?_, ?_, fun E K => ?run⟩
  case run =>
    simp only [cc10_kernel_eq_skeleton]; unfold cc10_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [HS0]
    · iexists _; iexact HS0
    iexists _; iexact HS1

end Cert.Kernel.Regs

end
-- ==== Proof.StatsRegionKernel10.lean ====
import proofs.«180908_j8211977470570_1_alg».proof.Proof.StatsKernel10RunC

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The statistics region of pipeline 10: the running sums, the proof data, the body obligation -/

/-! ## What each case's stores leave -/

/-- At the first point the stores into the first scratch buffer (the zero, then the sum) tile it, so they cover it. -/
theorem scover10_A_0 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond10_0 i) (hc1 : ¬cond10_1 i)
    (x0 : Vec F S3000x1 .f32) (y : S1x1.Idx) :
    ∃ pc ∈ (kernelRun10_A c i arg1 harg1 arg2 harg2 arg3 harg3 arg4 harg4 arg5 harg5 hc0 hc1 x0).1, y ∈ pc.1.set :=
  View.cover_of_tiledL (kernelRun10_A c i arg1 harg1 arg2 harg2 arg3 harg3 arg4 harg4 arg5 harg5 hc0 hc1 x0).1 S1x1.size (by sl_kernel_rfl) y

/-- What they leave there: the pieces read back (over contents that, the pieces covering the buffer, do not matter). -/
def sout10_A_0 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond10_0 i) (hc1 : ¬cond10_1 i)
    (x0 : Vec F S3000x1 .f32) : Vec F S1x1 .f32 :=
  VS10_0.read (Elt F) (VS10_0.writes (Elt F) VS10_0.junk (kernelRun10_A c i arg1 harg1 arg2 harg2 arg3 harg3 arg4 harg4 arg5 harg5 hc0 hc1 x0).1)

/-- At the first point the stores into the second scratch buffer tile it, so they cover it. -/
theorem scover10_A_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond10_0 i) (hc1 : ¬cond10_1 i)
    (x0 : Vec F S3000x1 .f32) (y : S1x1.Idx) :
    ∃ pc ∈ (kernelRun10_A c i arg1 harg1 arg2 harg2 arg3 harg3 arg4 harg4 arg5 harg5 hc0 hc1 x0).2.1, y ∈ pc.1.set :=
  View.cover_of_tiledL (kernelRun10_A c i arg1 harg1 arg2 harg2 arg3 harg3 arg4 harg4 arg5 harg5 hc0 hc1 x0).2.1 S1x1.size (by sl_kernel_rfl) y

/-- What they leave there: the pieces read back (over contents that, the pieces covering the buffer, do not matter). -/
def sout10_A_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond10_0 i) (hc1 : ¬cond10_1 i)
    (x0 : Vec F S3000x1 .f32) : Vec F S1x1 .f32 :=
  VS10_1.read (Elt F) (VS10_1.writes (Elt F) VS10_1.junk (kernelRun10_A c i arg1 harg1 arg2 harg2 arg3 harg3 arg4 harg4 arg5 harg5 hc0 hc1 x0).2.1)

/-- At a middle point the store into the first scratch buffer tiles it. -/
theorem scover10_B_0 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : ¬cond10_1 i)
    (x0 : Vec F S3000x1 .f32) (xs0 : Vec F S1x1 .f32) (xs1 : Vec F S1x1 .f32) (y : S1x1.Idx) :
    ∃ pc ∈ (kernelRun10_B c i arg1 harg1 arg2 harg2 arg3 harg3 arg4 harg4 arg5 harg5 hc0 hc1 x0 xs0 xs1).1, y ∈ pc.1.set :=
  View.cover_of_tiledL (kernelRun10_B c i arg1 harg1 arg2 harg2 arg3 harg3 arg4 harg4 arg5 harg5 hc0 hc1 x0 xs0 xs1).1 S1x1.size (by sl_kernel_rfl) y

/-- What they leave there: the pieces read back (over contents that, the pieces covering the buffer, do not matter). -/
def sout10_B_0 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : ¬cond10_1 i)
    (x0 : Vec F S3000x1 .f32) (xs0 : Vec F S1x1 .f32) (xs1 : Vec F S1x1 .f32) : Vec F S1x1 .f32 :=
  VS10_0.read (Elt F) (VS10_0.writes (Elt F) VS10_0.junk (kernelRun10_B c i arg1 harg1 arg2 harg2 arg3 harg3 arg4 harg4 arg5 harg5 hc0 hc1 x0 xs0 xs1).1)

/-- At a middle point the store into the second scratch buffer tiles it. -/
theorem scover10_B_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : ¬cond10_1 i)
    (x0 : Vec F S3000x1 .f32) (xs0 : Vec F S1x1 .f32) (xs1 : Vec F S1x1 .f32) (y : S1x1.Idx) :
    ∃ pc ∈ (kernelRun10_B c i arg1 harg1 arg2 harg2 arg3 harg3 arg4 harg4 arg5 harg5 hc0 hc1 x0 xs0 xs1).2.1, y ∈ pc.1.set :=
  View.cover_of_tiledL (kernelRun10_B c i arg1 harg1 arg2 harg2 arg3 harg3 arg4 harg4 arg5 harg5 hc0 hc1 x0 xs0 xs1).2.1 S1x1.size (by sl_kernel_rfl) y

/-- What they leave there: the pieces read back (over contents that, the pieces covering the buffer, do not matter). -/
def sout10_B_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : ¬cond10_1 i)
    (x0 : Vec F S3000x1 .f32) (xs0 : Vec F S1x1 .f32) (xs1 : Vec F S1x1 .f32) : Vec F S1x1 .f32 :=
  VS10_1.read (Elt F) (VS10_1.writes (Elt F) VS10_1.junk (kernelRun10_B c i arg1 harg1 arg2 harg2 arg3 harg3 arg4 harg4 arg5 harg5 hc0 hc1 x0 xs0 xs1).2.1)

/-- At the last point the store into the first output window (the mean) tiles its block. -/
theorem cover10_C_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) (y : S1x1.Idx) :
    ∃ pc ∈ (kernelRun10_C c i arg1 harg1 arg2 harg2 arg3 harg3 arg4 harg4 arg5 harg5 hc0 hc1 x0 xs0 xs1).1, y ∈ pc.1.set :=
  View.cover_of_tiledL (kernelRun10_C c i arg1 harg1 arg2 harg2 arg3 harg3 arg4 harg4 arg5 harg5 hc0 hc1 x0 xs0 xs1).1 S1x1.size (by sl_kernel_rfl) y

/-- What they leave there: the pieces read back (over contents that, the pieces covering the buffer, do not matter). -/
def out10_C_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) : Vec F S1x1 .f32 :=
  VO10_1.read (Elt F) (VO10_1.writes (Elt F) VO10_1.junk (kernelRun10_C c i arg1 harg1 arg2 harg2 arg3 harg3 arg4 harg4 arg5 harg5 hc0 hc1 x0 xs0 xs1).1)

/-- At the last point the store into the second output window (the variance) tiles its block. -/
theorem cover10_C_2 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) (y : S1x1.Idx) :
    ∃ pc ∈ (kernelRun10_C c i arg1 harg1 arg2 harg2 arg3 harg3 arg4 harg4 arg5 harg5 hc0 hc1 x0 xs0 xs1).2.1, y ∈ pc.1.set :=
  View.cover_of_tiledL (kernelRun10_C c i arg1 harg1 arg2 harg2 arg3 harg3 arg4 harg4 arg5 harg5 hc0 hc1 x0 xs0 xs1).2.1 S1x1.size (by sl_kernel_rfl) y

/-- What they leave there: the pieces read back (over contents that, the pieces covering the buffer, do not matter). -/
def out10_C_2 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) : Vec F S1x1 .f32 :=
  VO10_2.read (Elt F) (VO10_2.writes (Elt F) VO10_2.junk (kernelRun10_C c i arg1 harg1 arg2 harg2 arg3 harg3 arg4 harg4 arg5 harg5 hc0 hc1 x0 xs0 xs1).2.1)

/-- At the last point the store into the first scratch buffer tiles it. -/
theorem scover10_C_0 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) (y : S1x1.Idx) :
    ∃ pc ∈ (kernelRun10_C c i arg1 harg1 arg2 harg2 arg3 harg3 arg4 harg4 arg5 harg5 hc0 hc1 x0 xs0 xs1).2.2.1, y ∈ pc.1.set :=
  View.cover_of_tiledL (kernelRun10_C c i arg1 harg1 arg2 harg2 arg3 harg3 arg4 harg4 arg5 harg5 hc0 hc1 x0 xs0 xs1).2.2.1 S1x1.size (by sl_kernel_rfl) y

/-- What they leave there: the pieces read back (over contents that, the pieces covering the buffer, do not matter). -/
def sout10_C_0 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) : Vec F S1x1 .f32 :=
  VS10_0.read (Elt F) (VS10_0.writes (Elt F) VS10_0.junk (kernelRun10_C c i arg1 harg1 arg2 harg2 arg3 harg3 arg4 harg4 arg5 harg5 hc0 hc1 x0 xs0 xs1).2.2.1)

/-- At the last point the store into the second scratch buffer tiles it. -/
theorem scover10_C_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) (y : S1x1.Idx) :
    ∃ pc ∈ (kernelRun10_C c i arg1 harg1 arg2 harg2 arg3 harg3 arg4 harg4 arg5 harg5 hc0 hc1 x0 xs0 xs1).2.2.2.1, y ∈ pc.1.set :=
  View.cover_of_tiledL (kernelRun10_C c i arg1 harg1 arg2 harg2 arg3 harg3 arg4 harg4 arg5 harg5 hc0 hc1 x0 xs0 xs1).2.2.2.1 S1x1.size (by sl_kernel_rfl) y

/-- What they leave there: the pieces read back (over contents that, the pieces covering the buffer, do not matter). -/
def sout10_C_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) : Vec F S1x1 .f32 :=
  VS10_1.read (Elt F) (VS10_1.writes (Elt F) VS10_1.junk (kernelRun10_C c i arg1 harg1 arg2 harg2 arg3 harg3 arg4 harg4 arg5 harg5 hc0 hc1 x0 xs0 xs1).2.2.2.1)

/-- After the first point the reset is never taken again: the grid has 20 points. -/
theorem not_cond10_0_succ (n : ℕ) (hn : n + 1 < cfg10.N) : ¬cond10_0 (grid10.coords ⟨n + 1, hn⟩) := fun h => by
  have h' := (hcond10_0 ⟨n + 1, hn⟩).mp h
  have hN : n + 1 < 20 := lt_of_lt_of_eq hn (show cfg10.N = 20 from N_10)
  dsimp only at h'; omega

/-- The first point is not the last. -/
theorem not_cond10_1_zero (hn : 0 < cfg10.N) : ¬cond10_1 (grid10.coords ⟨0, hn⟩) := fun h => by
  have h' := (hcond10_1 ⟨0, hn⟩).mp h
  dsimp only at h'; omega

section Region10
variable (V : (c : Dev nD) → (b : Ref sig .tc) → Buf (Elt F) ((c : Thread nD τ).loc b))

/-- Contents of an output window at a point where nothing reads them (the window is idle there and not written back). -/
def unread10_1 : Vec F S1x1 .f32 := VO10_1.read (Elt F) VO10_1.junk
def unread10_2 : Vec F S1x1 .f32 := VO10_2.read (Elt F) VO10_2.junk

/-! ## What the outputs and the scratch hold after each point -/

/-- THE ACCUMULATION. After the body at position `n`: the two output windows' staging buffers (named only at the last
    point) and the two scratch buffers — the first point's case run on the block, then each later point's case run on the
    block and on what the point before left in the scratch. -/
def outsAt10 (c : Dev nD) : (n : ℕ) → n < cfg10.N → (Vec F S1x1 .f32 × Vec F S1x1 .f32) × (Vec F S1x1 .f32 × Vec F S1x1 .f32)
  | 0, hn =>
    ((unread10_1, unread10_2),
     (sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) scM10_1 (Memref.isWhole_whole _) ((hcond10_0 ⟨0, hn⟩).mpr (Nat.zero_mod _)) (not_cond10_1_zero hn) (iblk10 V c 0 ⟨0, hn⟩),
      sout10_A_1 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) scM10_1 (Memref.isWhole_whole _) ((hcond10_0 ⟨0, hn⟩).mpr (Nat.zero_mod _)) (not_cond10_1_zero hn) (iblk10 V c 0 ⟨0, hn⟩)))
  | n + 1, hn =>
    if h1 : (n + 1) % 20 = 19 then
      ((out10_C_1 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) scM10_1 (Memref.isWhole_whole _) (not_cond10_0_succ n hn) ((hcond10_1 ⟨n + 1, hn⟩).mpr h1) (iblk10 V c 0 ⟨n + 1, hn⟩) (outsAt10 c n (Nat.lt_of_succ_lt hn)).2.1 (outsAt10 c n (Nat.lt_of_succ_lt hn)).2.2,
        out10_C_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) scM10_1 (Memref.isWhole_whole _) (not_cond10_0_succ n hn) ((hcond10_1 ⟨n + 1, hn⟩).mpr h1) (iblk10 V c 0 ⟨n + 1, hn⟩) (outsAt10 c n (Nat.lt_of_succ_lt hn)).2.1 (outsAt10 c n (Nat.lt_of_succ_lt hn)).2.2),
       (sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) scM10_1 (Memref.isWhole_whole _) (not_cond10_0_succ n hn) ((hcond10_1 ⟨n + 1, hn⟩).mpr h1) (iblk10 V c 0 ⟨n + 1, hn⟩) (outsAt10 c n (Nat.lt_of_succ_lt hn)).2.1 (outsAt10 c n (Nat.lt_of_succ_lt hn)).2.2,
        sout10_C_1 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) scM10_1 (Memref.isWhole_whole _) (not_cond10_0_succ n hn) ((hcond10_1 ⟨n + 1, hn⟩).mpr h1) (iblk10 V c 0 ⟨n + 1, hn⟩) (outsAt10 c n (Nat.lt_of_succ_lt hn)).2.1 (outsAt10 c n (Nat.lt_of_succ_lt hn)).2.2))
    else
      ((unread10_1, unread10_2),
       (sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) scM10_1 (Memref.isWhole_whole _) (not_cond10_0_succ n hn) (fun h => h1 ((hcond10_1 ⟨n + 1, hn⟩).mp h)) (iblk10 V c 0 ⟨n + 1, hn⟩) (outsAt10 c n (Nat.lt_of_succ_lt hn)).2.1 (outsAt10 c n (Nat.lt_of_succ_lt hn)).2.2,
        sout10_B_1 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) scM10_1 (Memref.isWhole_whole _) (not_cond10_0_succ n hn) (fun h => h1 ((hcond10_1 ⟨n + 1, hn⟩).mp h)) (iblk10 V c 0 ⟨n + 1, hn⟩) (outsAt10 c n (Nat.lt_of_succ_lt hn)).2.1 (outsAt10 c n (Nat.lt_of_succ_lt hn)).2.2))

/-- `outsAt10` at the first point. -/
theorem outsAt10_A (c : Dev nD) (t : Fin cfg10.N) (hc0 : cond10_0 (grid10.coords t)) (hc1 : ¬cond10_1 (grid10.coords t)) :
    outsAt10 V c t.val t.isLt = ((unread10_1, unread10_2),
      (sout10_A_0 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t), sout10_A_1 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t))) := by
  obtain ⟨n, hn⟩ := t
  cases n with
  | zero => exact rfl
  | succ n => exact absurd hc0 (not_cond10_0_succ n hn)

/-- `outsAt10` at a middle point: over what the point before left in the scratch. -/
theorem outsAt10_B (c : Dev nD) (t : Fin cfg10.N) (hc0 : ¬cond10_0 (grid10.coords t)) (hc1 : ¬cond10_1 (grid10.coords t)) :
    outsAt10 V c t.val t.isLt = ((unread10_1, unread10_2),
      (sout10_B_0 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t) (outsAt10 V c (t.val - 1) (Nat.lt_of_le_of_lt (Nat.sub_le _ _) t.isLt)).2.1 (outsAt10 V c (t.val - 1) (Nat.lt_of_le_of_lt (Nat.sub_le _ _) t.isLt)).2.2,
       sout10_B_1 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t) (outsAt10 V c (t.val - 1) (Nat.lt_of_le_of_lt (Nat.sub_le _ _) t.isLt)).2.1 (outsAt10 V c (t.val - 1) (Nat.lt_of_le_of_lt (Nat.sub_le _ _) t.isLt)).2.2)) := by
  obtain ⟨n, hn⟩ := t
  cases n with
  | zero => exact absurd ((hcond10_0 ⟨0, hn⟩).mpr (Nat.zero_mod _)) hc0
  | succ n => exact (dif_neg (fun h => hc1 ((hcond10_1 ⟨n + 1, hn⟩).mpr h))).trans rfl

/-- `outsAt10` at the last point: over what the point before left in the scratch. -/
theorem outsAt10_C (c : Dev nD) (t : Fin cfg10.N) (hc0 : ¬cond10_0 (grid10.coords t)) (hc1 : cond10_1 (grid10.coords t)) :
    outsAt10 V c t.val t.isLt =
      ((out10_C_1 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t) (outsAt10 V c (t.val - 1) (Nat.lt_of_le_of_lt (Nat.sub_le _ _) t.isLt)).2.1 (outsAt10 V c (t.val - 1) (Nat.lt_of_le_of_lt (Nat.sub_le _ _) t.isLt)).2.2,
        out10_C_2 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t) (outsAt10 V c (t.val - 1) (Nat.lt_of_le_of_lt (Nat.sub_le _ _) t.isLt)).2.1 (outsAt10 V c (t.val - 1) (Nat.lt_of_le_of_lt (Nat.sub_le _ _) t.isLt)).2.2),
       (sout10_C_0 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t) (outsAt10 V c (t.val - 1) (Nat.lt_of_le_of_lt (Nat.sub_le _ _) t.isLt)).2.1 (outsAt10 V c (t.val - 1) (Nat.lt_of_le_of_lt (Nat.sub_le _ _) t.isLt)).2.2,
        sout10_C_1 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t) (outsAt10 V c (t.val - 1) (Nat.lt_of_le_of_lt (Nat.sub_le _ _) t.isLt)).2.1 (outsAt10 V c (t.val - 1) (Nat.lt_of_le_of_lt (Nat.sub_le _ _) t.isLt)).2.2)) := by
  obtain ⟨n, hn⟩ := t
  cases n with
  | zero => exact absurd ((hcond10_0 ⟨0, hn⟩).mpr (Nat.zero_mod _)) hc0
  | succ n => exact (dif_pos ((hcond10_1 ⟨n + 1, hn⟩).mp hc1)).trans rfl

/-! ## The region's invariant -/

/-- The invariant before position `n`: before the first point every scoped buffer no window stages at some contents
    (the two scratch buffers hold anything on entry) and the generator register at some state; afterwards the two
    scratch buffers at the running sums the point before left, the other such buffers unopened, and the register. -/
def PhiS10 (c : Dev nD) : (n : ℕ) → n ≤ cfg10.N → sProp 𝕄
  | 0, _ => Pipeline.ΦA spec10 c
  | n + 1, hn => iprop(iprop(iprop(owns (c : Thread nD τ) scM10_0 fullShare ((outsAt10 V c n hn).2.1) ∗ owns (c : Thread nD τ) scM10_1 fullShare ((outsAt10 V c n hn).2.2))
      ∗ Pipeline.scopedRestBut (Ix := Unit) (Name := ℕ) (U := UR sig nD τ) (Lvl := ℕ) (Val := Elt F) spec10 c [cc10_scratch0, cc10_scratch1]) ∗ (∃ r, prngReg c r))

theorem PhiS10_zero (c : Dev nD) (n : ℕ) (h : n ≤ cfg10.N) (hz : n = 0) : PhiS10 V c n h = Pipeline.ΦA spec10 c := by
  subst hz; rfl

/-- After point `n` (before point `n + 1`): the scratch at that point's contents. -/
theorem PhiS10_succ (c : Dev nD) (n : ℕ) (hn : n < cfg10.N) :
    PhiS10 V c (n + 1) hn = iprop(iprop(iprop(owns (c : Thread nD τ) scM10_0 fullShare ((outsAt10 V c n hn).2.1) ∗ owns (c : Thread nD τ) scM10_1 fullShare ((outsAt10 V c n hn).2.2))
      ∗ Pipeline.scopedRestBut (Ix := Unit) (Name := ℕ) (U := UR sig nD τ) (Lvl := ℕ) (Val := Elt F) spec10 c [cc10_scratch0, cc10_scratch1]) ∗ (∃ r, prngReg c r)) := rfl

/-- Before a point that is not the first: the scratch at what the point before left. -/
theorem PhiS10_pos (c : Dev nD) (n : ℕ) (h : n ≤ cfg10.N) (hz : n ≠ 0) :
    PhiS10 V c n h = iprop(iprop(iprop(owns (c : Thread nD τ) scM10_0 fullShare ((outsAt10 V c (n - 1) (by omega)).2.1) ∗ owns (c : Thread nD τ) scM10_1 fullShare ((outsAt10 V c (n - 1) (by omega)).2.2))
      ∗ Pipeline.scopedRestBut (Ix := Unit) (Name := ℕ) (U := UR sig nD τ) (Lvl := ℕ) (Val := Elt F) spec10 c [cc10_scratch0, cc10_scratch1]) ∗ (∃ r, prngReg c r)) := by
  cases n with
  | zero => exact absurd rfl hz
  | succ n => rfl

/-! ## The pipeline's proof data -/

/-- The proof data of pipeline 10 on core `c`: the arrays as the region finds them (`V`); after the body the input's
    buffer at its block and the outputs' at `outsAt10`; the invariant `PhiS10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => (outsAt10 V c t.val t.isLt).1.1
    | ⟨2, _⟩ => (outsAt10 V c t.val t.isLt).1.2
  Φ t := PhiS10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

/-- The invariant at a point's start, restated at `t.val`. -/
theorem PhiS10_castSucc (c : Dev nD) (t : Fin cfg10.N) :
    (dat10 V c).Φ t.castSucc = PhiS10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = (outsAt10 V c t.val t.isLt).1.1 := by dsimp only [dat10]
theorem after10_2 (c : Dev nD) (t : Fin cfg10.N) : (dat10 V c).after 2 t = (outsAt10 V c t.val t.isLt).1.2 := by dsimp only [dat10]

/-- The input's current staging buffer holds its block at every point. -/
theorem before10_0 (c : Dev nD) (t : Fin cfg10.N) (d) : (dat10 V c).before 0 t d = iblk10 V c 0 t :=
  before10_0_of V (dat10 V c) (A_eq10 V c 0) (after10_0 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point: the input's memref holds its block; the closed forms say which case the point is in; the
    invariant hands the body the two scratch buffers at what the point before left (at anything at the first point) and
    takes them back at this point's contents; the idle output windows pass through untouched; the core owes nothing. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0]
  rw [show (dat10 V c).owesAt () t.succ = (dat10 V c).owesAt () t.castSucc from rfl]
  rw [show (dat10 V c).Φ t.succ = PhiS10 V c (t.val + 1) t.isLt from rfl, PhiS10_succ]
  have hN : t.val < 20 := lt_of_lt_of_eq t.isLt (show cfg10.N = 20 from N_10)
  rw [show (dat10 V c).leavesExact 0 t = owns (c : Thread nD τ) (ms10_0 t) fullShare ((dat10 V c).after 0 t) from by
    unfold Dat.leavesExact; rw [liveAt10_0 t], after10_0]
  by_cases hc1 : cond10_1 (grid10.coords t)
  · have h1 : t.val % 20 = 19 := (hcond10_1 t).mp hc1
    have hc0 : ¬cond10_0 (grid10.coords t) := fun h => by have := (hcond10_0 t).mp h; omega
    have hz : t.val ≠ 0 := by omega
    rw [show (dat10 V c).leavesExact 1 t = owns (c : Thread nD τ) (ms10_1 t) fullShare ((dat10 V c).after 1 t) from by
      unfold Dat.leavesExact; rw [liveAt10_1 t hc1], after10_1]
    rw [show (dat10 V c).leavesExact 2 t = owns (c : Thread nD τ) (ms10_2 t) fullShare ((dat10 V c).after 2 t) from by
      unfold Dat.leavesExact; rw [liveAt10_2 t hc1], after10_2]
    rw [outsAt10_C V c t hc0 hc1]
    unfold out10_C_1 out10_C_2 sout10_C_0 sout10_C_1; (try dsimp only)
    rw [PhiS10_castSucc V c t, PhiS10_pos V c _ _ hz]
    iintro ⟨⟨⟨⟨HS0, HS1⟩, HR⟩, Hg⟩, Ho, ⟨%d0, H0⟩, ⟨%d1, H1⟩, ⟨%d2, H2⟩⟩
    iapply ((kernelRun10_C c (grid10.coords t) _ _ _ _ _ _ _ _ _ _ hc0 hc1 (iblk10 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover10_C_0 c _ _ _ _ _ _ _ _ _ _ _ _ _ _ _ _)
          · unfold owns; iexists _; isplitr
            swap; · iexact HS1
            ipureintro; exact View.read_writes_of_cover _ _ _ _ _ (scover10_C_1 c _ _ _ _ _ _ _ _ _ _ _ _ _ _ _ _)
        · iexact HR
      · iexact Hg
    isplitl [Ho]; · iexact Ho
    isplitl [H0]; · iexact H0
    isplitl [H1]
    · unfold owns; iexists _; isplitr
      swap; · iexact H1
      ipureintro; exact View.read_writes_of_cover _ _ _ _ _ (cover10_C_1 c _ _ _ _ _ _ _ _ _ _ _ _ _ _ _ _)
    · unfold owns; iexists _; isplitr
      swap; · iexact H2
      ipureintro; exact View.read_writes_of_cover _ _ _ _ _ (cover10_C_2 c _ _ _ _ _ _ _ _ _ _ _ _ _ _ _ _)
  · rw [Dat.leavesExact_idle (dat10 V c) 1 t (idleAt10_1 t hc1) (noFlush10_1 t hc1)]
    rw [Dat.leavesExact_idle (dat10 V c) 2 t (idleAt10_2 t hc1) (noFlush10_2 t hc1)]
    by_cases hc0 : cond10_0 (grid10.coords t)
    · have hz : t.val = 0 := by have := (hcond10_0 t).mp hc0; omega
      rw [outsAt10_A V c t hc0 hc1]
      unfold sout10_A_0 sout10_A_1; (try dsimp only)
      rw [PhiS10_castSucc V c t, PhiS10_zero V c _ _ hz, PhiA10_eq]
      iintro ⟨⟨⟨⟨HS0, HS1⟩, HR⟩, Hg⟩, Ho, ⟨%d0, H0⟩, ⟨%d1, H1⟩, ⟨%d2, H2⟩⟩
      iapply ((kernelRun10_A c (grid10.coords t) _ _ _ _ _ _ _ _ _ _ hc0 hc1 (iblk10 V c 0 t)).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover10_A_0 c _ _ _ _ _ _ _ _ _ _ _ _ _ _)
            · unfold owns; iexists _; isplitr
              swap; · iexact HS1
              ipureintro; exact View.read_writes_of_cover _ _ _ _ _ (scover10_A_1 c _ _ _ _ _ _ _ _ _ _ _ _ _ _)
          · iexact HR
        · iexact Hg
      isplitl [Ho]; · iexact Ho
      isplitl [H0]; · iexact H0
      isplitl [H1]; · iexists _; iexact H1
      iexists _; iexact H2
    · have hz : t.val ≠ 0 := fun h => hc0 ((hcond10_0 t).mpr (by rw [h]))
      rw [outsAt10_B V c t hc0 hc1]
      unfold sout10_B_0 sout10_B_1; (try dsimp only)
      rw [PhiS10_castSucc V c t, PhiS10_pos V c _ _ hz]
      iintro ⟨⟨⟨⟨HS0, HS1⟩, HR⟩, Hg⟩, Ho, ⟨%d0, H0⟩, ⟨%d1, H1⟩, ⟨%d2, H2⟩⟩
      iapply ((kernelRun10_B c (grid10.coords t) _ _ _ _ _ _ _ _ _ _ hc0 hc1 (iblk10 V c 0 t) _ _).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover10_B_0 c _ _ _ _ _ _ _ _ _ _ _ _ _ _ _ _)
            · unfold owns; iexists _; isplitr
              swap; · iexact HS1
              ipureintro; exact View.read_writes_of_cover _ _ _ _ _ (scover10_B_1 c _ _ _ _ _ _ _ _ _ _ _ _ _ _ _ _)
          · iexact HR
        · iexact Hg
      isplitl [Ho]; · iexact Ho
      isplitl [H0]; · iexact H0
      isplitl [H1]; · iexists _; iexact H1
      iexists _; iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the region is entered with (every scoped buffer no window stages, the generator register) is the invariant
    before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point but the first the invariant gives that back: the scratch buffers' named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout10 (c : Dev nD) : (dat10 V c).Φ (Fin.last cfg10.N) ⊢ Pipeline.ΦA spec10 c :=
  Phi_out10 V c _ (by rw [Fin.val_last]; have : cfg10.N = 20 := N_10; omega)

end Region10

end Cert.Kernel.Regs

end
-- ==== Proof.NormRegionKernel11.lean ====
/-
  Region 11 of @main (pipeline 11, `cc11_kernel`): the batch-norm NORMALISE step, stated at a parameter `V` — the
  TensorCore's buffer contents when the region is entered.

  The body is pointwise. At every grid point it reads the row block `x` of the array (window 0) and the four
  per-channel rows mean, variance, gamma, beta (windows 1–4, one block each, the same at every point), and stores
  into the output window's buffer (window 5) the single value
      act ((x − mean) · rsqrt (var + ε) · gamma + beta)
  (`k11_pay1`), where act is the leaky rectifier with slope 0.01. One whole-rectangle store covers the output buffer, so what
  the body leaves there is a closed function `out11_5` of the five input blocks; the input buffers are left as found.
  From this: the body's triple (`sound_kernel11`), the pipeline's proof data (`dat11`: arrays as the region finds
  them, each input buffer at its block, the output buffer at `out11_5` of the blocks), and the body obligation at every
  point (`body_obligation11`).
-/
import proofs.«180908_j8211977470570_1_alg».proof.Proof.Gen.Kernel.Launch
import proofs.«180908_j8211977470570_1_alg».proof.Proof.Gen.Kernel.Skeleton
import proofs.«180908_j8211977470570_1_alg».proof.Proof.Gen.Kernel.Points
import Idealize.ShloMosaic.Lib.Pipeline.FrameBody
import Idealize.ShloMosaic.Lib.Tactic

-- membership in a rectangle of full extents recurses once per coordinate of the long axis
set_option maxRecDepth 16384

noncomputable section

namespace Cert.Kernel.Regs

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): unfetched, the block index
    has not moved; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, fetched there or not, for any proof
    data whose array is `V`'s (`hA`) and whose body leaves the block in place (`hafter`): unfetched, the block index
    has not moved; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, fetched there or not, for any proof
    data whose array is `V`'s (`hA`) and whose body leaves the block in place (`hafter`): unfetched, the block index
    has not moved; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current staging buffer holds its block at every point, fetched there or not, for any proof
    data whose array is `V`'s (`hA`) and whose body leaves the block in place (`hafter`): unfetched, the block index
    has not moved; the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current staging buffer holds its block at every point, fetched there or not, for any proof
    data whose array is `V`'s (`hA`) and whose body leaves the block in place (`hafter`): unfetched, the block index
    has not moved; the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

/-- The whole rectangle of a row block, and of a per-channel row. -/
abbrev r11_big : Rect S3000x1 := Rect.unit (s := S3000x1) ![0, 0] S3000x1.size inb_S3000x1_S3000x1_0_0
abbrev r11_row : Rect S1x1 := Rect.unit (s := S1x1) ![0, 0] S1x1.size inb_S1x1_S1x1_0_0

/-! ## What the body leaves in the output window's buffer -/

/-- Window 5's staging buffer after the body, from the five input windows' blocks: its one store, of the
    normalised and activated rows, over the whole buffer. -/
def out11_5 (x0 : Vec F S3000x1 .f32) (x1 x2 x3 x4 : Vec F S1x1 .f32) : Vec F S3000x1 .f32 :=
  View.canon [⟨r11_big, k11_pay1 (View.ld x0 r11_big) (View.ld x1 r11_row) (View.ld x2 r11_row) (View.ld x3 r11_row) (View.ld x4 r11_row)⟩]

/-- The store's rectangle is the whole buffer, so it covers it. -/
theorem cover11_5 (p0 : Vec F S3000x1 .f32) (y : S3000x1.Idx) :
    ∃ pc ∈ ([⟨r11_big, p0⟩] : List (View.Piece (Elt F) S3000x1 .f32)), y ∈ pc.1.set :=
  View.cover_of_tiled [⟨r11_big, p0⟩] S3000x1.size (by rfl) y

/-! ## The body's triple -/

set_option maxHeartbeats 1000000 in
/-- The kernel body on whole staging memrefs, the inputs' at read contents `x0 … x4` and the output's at anything, runs
    to the continuation holding the inputs' as they were and the output's at `out11_5` of the inputs'. The grid
    coordinate `i` is not read. -/
theorem sound_kernel11 (c : Dev nD) (E : Set ℕ) (i : grid11.Coords)
    (arg1 : Memref sig .tc .vmem S3000x1 .f32) (harg1 : arg1.IsWhole) (arg2 : Memref sig .tc .vmem S1x1 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S3000x1 .f32) (harg6 : arg6.IsWhole)
    (x0 : Vec F S3000x1 .f32) (x1 x2 x3 x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E (cc11_kernel i arg1 harg1 arg2 harg2 arg3 harg3 arg4 harg4 arg5 harg5 arg6 harg6) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The pipeline's proof data -/

/-- The proof data of pipeline 11 on core `c`: the arrays as the region finds them (`V`); after the body at point `t`
    each input's buffer at its block and the output's at `out11_5` of the input blocks; the invariant the scoped rest
    and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents (the definition projected). -/
theorem A_eq11 (c : Dev nD) (w : Fin cfg11.W) : (dat11 V c).A w = V c (Pipeline.arrRef spec11 w) := by
  dsimp only [dat11]

/-- What the body leaves, window by window (the definition's `match` reduced). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation, at a generic point -/

/-- What the body is called with at point `t` (the windows one by one), -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' memrefs hold their blocks (`before11_W`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Regs
-- ==== Proof.MatmulRegionKernel12.lean ====
/- Region 12 of @main (pipeline 12, `cc12_kernel`): a matrix product of two whole blocks, stored whole.
   Stated at a parameter `V`: the contents of the core's buffers when the region is entered.  The body reads
   window 0 (a block of rows) and window 1 (a block of weights) whole, rounds both to bf16, multiplies them
   into a zero accumulator, reads window 2 (the value is not used), and overwrites window 2 whole with the
   product.  Hence after the body the two input buffers are as found and the output buffer is a function
   `out12_2` of the two input blocks alone. -/
import proofs.«180908_j8211977470570_1_alg».proof.Proof.Gen.Kernel.Launch
import proofs.«180908_j8211977470570_1_alg».proof.Proof.Gen.Kernel.Skeleton
import proofs.«180908_j8211977470570_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the core's buffers when the region is entered
variable (V : (c : Dev nD) → (b : Ref sig .tc) → Buf (Elt F) ((c : Thread nD τ).loc b))

/-! ## The windows' blocks -/

/-- Window `w`'s block at point `t`, read off its array at the entry contents `V`. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current buffer holds its block at every point, fetched there or not (unfetched, the
    block index has not moved), for any proof data whose array is `V`'s and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each buffer whole -/

abbrev r12_a : Rect S1x5000x1 := Rect.unit (s := S1x5000x1) ![0, 0, 0] S1x5000x1.size inb_S1x5000x1_S1x5000x1_0_0_0
abbrev r12_b : Rect S1x1x64 := Rect.unit (s := S1x1x64) ![0, 0, 0] S1x1x64.size inb_S1x1x64_S1x1x64_0_0_0
abbrev r12_o : Rect S1x5000x64 := Rect.unit (s := S1x5000x64) ![0, 0, 0] S1x5000x64.size inb_S1x5000x64_S1x5000x64_0_0_0

/-! ## What the body leaves in the output window's buffer -/

/-- Window 2's buffer after the body, from the two input blocks: its one store, of the product, over the whole buffer. -/
def out12_2 (x0 : Vec F S1x5000x1 .f32) (x1 : Vec F S1x1x64 .f32) : Vec F S1x5000x64 .f32 :=
  View.canon [⟨r12_o, k12_pay1 (View.ld x0 r12_a) (View.ld x1 r12_b)⟩]

/-- The one store covers the buffer. -/
theorem cover12_2 (p0 : Vec F S1x5000x64 .f32) (y : S1x5000x64.Idx) :
    ∃ pc ∈ ([⟨r12_o, p0⟩] : List (View.Piece (Elt F) S1x5000x64 .f32)), y ∈ pc.1.set :=
  View.cover_of_tiled [⟨r12_o, p0⟩] S1x5000x64.size (by rfl) y

/-! ## The body's triple -/

set_option maxHeartbeats 1000000 in
/-- The body on whole buffers — the inputs' at contents `x0`, `x1`, the output's at anything — runs to the
    continuation holding the inputs' as they were and the output's at `out12_2 x0 x1`. -/
theorem sound_kernel12 (c : Dev nD) (E : Set ℕ) (i : grid12.Coords)
    (arg2 : Memref sig .tc .vmem S1x5000x1 .f32) (harg2 : arg2.IsWhole)
    (arg3 : Memref sig .tc .vmem S1x1x64 .f32) (harg3 : arg3.IsWhole)
    (arg4 : Memref sig .tc .vmem S1x5000x64 .f32) (harg4 : arg4.IsWhole)
    (x0 : Vec F S1x5000x1 .f32) (x1 : Vec F S1x1x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out12_2 x0 x1)) -∗ K ⟨⟩))
      ⊢ wp frame (wpE (defs₀ (F := F)) Variants.none c none) E (cc12_kernel i arg2 harg2 arg3 harg3 arg4 harg4) K := by
  simp only [cc12_kernel_eq_skeleton]; unfold cc12_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-! ## The pipeline's proof data -/

/-- The proof data of pipeline 12 on core `c`: the arrays at the entry contents `V`; after the body at point `t`
    each input's buffer at its block and the output's at `out12_2` of the input blocks; the invariant is the scoped
    rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

/-- The proof data's arrays are the entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) :
    (dat12 V c).after 2 t = out12_2 (iblk12 V c 0 t) (iblk12 V c 1 t) := by dsimp only [dat12]

/-- Each input's current buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' buffers hold their blocks, so the body's triple applies; the invariant and
    what the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's rule, at every point. -/
theorem body_obligation12 (c : Dev nD) : BodyObligation (dat12 (F := F) V c) (defs₀ (F := F)) Variants.none () Set.univ := fun t => by
  rw [bigSep_W12, bigSep_W12]
  exact sound_body12 V c t

end Region

end Cert.Kernel.Regs
-- ==== Proof.StatsKernel13Runs.lean ====
import proofs.«180908_j8211977470570_1_alg».proof.Proof.Gen.Kernel.Launch
import proofs.«180908_j8211977470570_1_alg».proof.Proof.Gen.Kernel.Skeleton
import proofs.«180908_j8211977470570_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The statistics region of pipeline 13: what its three control cases share

The kernel keeps two running column sums (of the block and of its square) in two scratch buffers the pipeline does not
stage: the first grid point zeroes them, every point adds its block's column sums, the last point turns them into the
mean and the variance and stores those into the two output windows. Everything is stated at a parameter `V`, the buffer
contents when the region is entered. -/

section Region13
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The input window's current staging buffer holds its block at every point, for any proof data whose array is `V`'s
    and whose body leaves the block in place: the window is fetched at every point, uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

end Region13

/-! ## The body's branch conditions -/

/-- The condition of the body's first conditional (the reset of the running sums), from the grid coordinate. -/
abbrev cond13_0 (i : grid13.Coords) : Prop := (Scalar.cmpi .ne (Scalar.extui (Scalar.cmpi .eq (BitVec.ofNat 32 (i 0).val) 0#32)) 0#32) = 1#1
/-- It holds at the first point only — decided over the grid. -/
theorem hcond13_0 : ∀ t : Fin cfg13.N, cond13_0 (grid13.coords t) ↔ t.val % 20 = 0 :=
  (by decide +kernel : ∀ t : Fin grid13.N, cond13_0 (grid13.coords t) ↔ t.val % 20 = 0)

/-- The condition of the body's second conditional (the final division and the two output stores). -/
abbrev cond13_1 (i : grid13.Coords) : Prop := k13_cond2 i = 1#1
/-- It holds at the last point only — decided over the grid. -/
theorem hcond13_1 : ∀ t : Fin cfg13.N, cond13_1 (grid13.coords t) ↔ t.val % 20 = 19 :=
  (by decide +kernel : ∀ t : Fin grid13.N, cond13_1 (grid13.coords t) ↔ t.val % 20 = 19)

/-! ## Where the windows are idle -/

/-- The input window is never idle. -/
theorem liveAt13_0 : ∀ t : Fin cfg13.N, cfg13.idle 0 (grid13.coords t) = false := by decide +kernel
/-- Away from the last point the two output windows are idle (the body stores nothing into them) -/
theorem idleAt13_1 : ∀ t : Fin cfg13.N, ¬cond13_1 (grid13.coords t) → cfg13.idle 1 (grid13.coords t) = true := by decide +kernel
theorem idleAt13_2 : ∀ t : Fin cfg13.N, ¬cond13_1 (grid13.coords t) → cfg13.idle 2 (grid13.coords t) = true := by decide +kernel
/-- and are not written back. -/
theorem noFlush13_1 : ∀ t : Fin cfg13.N, ¬cond13_1 (grid13.coords t) → (cfg13.win 1).flush t = false := by decide +kernel
theorem noFlush13_2 : ∀ t : Fin cfg13.N, ¬cond13_1 (grid13.coords t) → (cfg13.win 2).flush t = false := by decide +kernel
/-- At the last point they are live. -/
theorem liveAt13_1 : ∀ t : Fin cfg13.N, cond13_1 (grid13.coords t) → cfg13.idle 1 (grid13.coords t) = false := by decide +kernel
theorem liveAt13_2 : ∀ t : Fin cfg13.N, cond13_1 (grid13.coords t) → cfg13.idle 2 (grid13.coords t) = false := by decide +kernel

/-! ## The memrefs the body is called with -/

/-- One staging buffer of each output window, through which its contents are stated (the choice does not matter once
    the stores cover the block). -/
abbrev VO13_1 : View sig .tc .vmem S1x64 .f32 := (Memref.whole cc13_stg1_0 : Memref sig .tc .vmem S1x64 .f32).view
abbrev VO13_2 : View sig .tc .vmem S1x64 .f32 := (Memref.whole cc13_stg2_0 : Memref sig .tc .vmem S1x64 .f32).view
/-- Each window's current staging memref at point `t`, as the pipeline passes it, and its wholeness. -/
abbrev ms13_0 (t : Fin cfg13.N) : Memref sig .tc .vmem S10000x64 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S1x64 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1x64 .f32 := win13_2.stage (cfg13.slots t 2)
abbrev hs13_2 (t : Fin cfg13.N) : (ms13_2 t).IsWhole := hstage13_2 ((cfg13.slots t 2).cast nbuf13_2)
/-- The two scratch operands: whole scoped buffers of the kernel's own, passed beside the windows. -/
abbrev scM13_0 : Memref sig .tc .vmem S1x64 .f32 := Memref.whole cc13_scratch0
abbrev scM13_1 : Memref sig .tc .vmem S1x64 .f32 := Memref.whole cc13_scratch1
/-- The same as views: what they hold is stated through these. -/
abbrev VS13_0 : View sig .tc .vmem S1x64 .f32 := scM13_0.view
abbrev VS13_1 : View sig .tc .vmem S1x64 .f32 := scM13_1.view

/-- The region's entry invariant (every scoped buffer no window stages at some contents, the generator register at
    some state) with the two scratch operands taken out as memrefs owned at some contents; the other scoped buffers stay
    unopened. -/
theorem PhiA13_eq (c : Dev nD) :
    (Pipeline.ΦA spec13 c : sProp 𝕄)
      = iprop(iprop(iprop((∃ d, owns (c : Thread nD τ) scM13_0 fullShare d) ∗ (∃ d, owns (c : Thread nD τ) scM13_1 fullShare d))
          ∗ Pipeline.scopedRestBut (Ix := Unit) (Name := ℕ) (U := UR sig nD τ) (Lvl := ℕ) (Val := Elt F) spec13 c [cc13_scratch0, cc13_scratch1])
          ∗ (∃ r, prngReg c r)) := by
  unfold Pipeline.ΦA; rw [scopedRest13_split]; simp only [scM13_0, scM13_1, owns_whole]; try rfl

end Cert.Kernel.Regs

end
-- ==== Proof.StatsKernel13RunA.lean ====
import proofs.«180908_j8211977470570_1_alg».proof.Proof.StatsKernel13Runs

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE FIRST POINT (the reset taken, the final stores not): what the body's stores leave in the two scratch buffers, as
    pieces (last first), WITH the proof that on whole memrefs — the input block's at its contents `x0`, the two scratch
    buffers at anything — the body runs to the continuation holding the input as it was and each scratch buffer with its
    pieces written (zero stored, then the block's column sums added). The two output windows are not touched and are
    left out. The pieces are the witness the symbolic run finds. -/
noncomputable def kernelRun13_A (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg4 fullShare d) ∗ (∃ d, owns (c : Thread nD τ) arg5 fullShare d)
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc13_kernel i arg1 harg1 arg2 harg2 arg3 harg3 arg4 harg4 arg5 harg5) K } := by
  refine ⟨?_, ?_, fun E K => ?run⟩
  case run =>
    simp only [cc13_kernel_eq_skeleton]; unfold cc13_kernel_skel
    unfold owns
    iintro ⟨⟨%f0, %hf0, H0⟩, ⟨%ds0, %fs0, -, HS0⟩, ⟨%ds1, %fs1, -, HS1⟩, Hk⟩
    obtain rfl := harg1.eq_unread hf0
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.Kernel.Regs

end
-- ==== Proof.StatsKernel13RunB.lean ====
import proofs.«180908_j8211977470570_1_alg».proof.Proof.StatsKernel13RunA

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A MIDDLE POINT (neither conditional taken): what the body's stores leave in the two scratch buffers, as pieces, WITH
    the proof that on whole memrefs — the input block's at `x0`, the two scratch buffers at the running sums `xs0`, `xs1`
    the point before left — the body runs to the continuation holding the input as it was and each scratch buffer with
    its pieces written (the block's column sums added). The two output windows are not touched and are left out. -/
noncomputable def kernelRun13_B (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (xs0 : Vec F S1x64 .f32) (xs1 : Vec F S1x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg4 fullShare xs0 ∗ owns (c : Thread nD τ) arg5 fullShare xs1
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc13_kernel i arg1 harg1 arg2 harg2 arg3 harg3 arg4 harg4 arg5 harg5) K } := by
  refine ⟨?_, ?_, fun E K => ?run⟩
  case run =>
    simp only [cc13_kernel_eq_skeleton]; unfold cc13_kernel_skel
    unfold owns
    iintro ⟨⟨%f0, %hf0, H0⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.Kernel.Regs

end
-- ==== Proof.StatsKernel13RunC.lean ====
import proofs.«180908_j8211977470570_1_alg».proof.Proof.StatsKernel13RunB

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE LAST POINT (the reset not taken, the final stores taken): what the body's stores leave in the two output
    windows' staging memrefs and in the two scratch buffers, as pieces, WITH the proof that on whole memrefs — the input
    block's at `x0`, the outputs' at anything, the scratch buffers at the running sums `xs0`, `xs1` the point before
    left — the body runs to the continuation holding the input as it was and each of the four with its pieces written
    (the sums completed; the mean, and the mean of squares less the mean squared, stored). -/
noncomputable def kernelRun13_C (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) :
    Σ' (L1 : List (View.Piece (Elt F) S1x64 .f32)) (L2 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc13_kernel i arg1 harg1 arg2 harg2 arg3 harg3 arg4 harg4 arg5 harg5) K } := by
  refine ⟨?_, ?_, ?_, ?_, fun E K => ?run⟩
  case run =>
    simp only [cc13_kernel_eq_skeleton]; unfold cc13_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [HS0]
    · iexists _; iexact HS0
    iexists _; iexact HS1

end Cert.Kernel.Regs

end
-- ==== Proof.StatsRegionKernel13.lean ====
import proofs.«180908_j8211977470570_1_alg».proof.Proof.StatsKernel13RunC

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The statistics region of pipeline 13: the running sums, the proof data, the body obligation -/

/-! ## What each case's stores leave -/

/-- At the first point the stores into the first scratch buffer (the zero, then the sum) tile it, so they cover it. -/
theorem scover13_A_0 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) (y : S1x64.Idx) :
    ∃ pc ∈ (kernelRun13_A c i arg1 harg1 arg2 harg2 arg3 harg3 arg4 harg4 arg5 harg5 hc0 hc1 x0).1, y ∈ pc.1.set :=
  View.cover_of_tiledL (kernelRun13_A c i arg1 harg1 arg2 harg2 arg3 harg3 arg4 harg4 arg5 harg5 hc0 hc1 x0).1 S1x64.size (by sl_kernel_rfl) y

/-- What they leave there: the pieces read back (over contents that, the pieces covering the buffer, do not matter). -/
def sout13_A_0 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) : Vec F S1x64 .f32 :=
  VS13_0.read (Elt F) (VS13_0.writes (Elt F) VS13_0.junk (kernelRun13_A c i arg1 harg1 arg2 harg2 arg3 harg3 arg4 harg4 arg5 harg5 hc0 hc1 x0).1)

/-- At the first point the stores into the second scratch buffer tile it, so they cover it. -/
theorem scover13_A_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) (y : S1x64.Idx) :
    ∃ pc ∈ (kernelRun13_A c i arg1 harg1 arg2 harg2 arg3 harg3 arg4 harg4 arg5 harg5 hc0 hc1 x0).2.1, y ∈ pc.1.set :=
  View.cover_of_tiledL (kernelRun13_A c i arg1 harg1 arg2 harg2 arg3 harg3 arg4 harg4 arg5 harg5 hc0 hc1 x0).2.1 S1x64.size (by sl_kernel_rfl) y

/-- What they leave there: the pieces read back (over contents that, the pieces covering the buffer, do not matter). -/
def sout13_A_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) : Vec F S1x64 .f32 :=
  VS13_1.read (Elt F) (VS13_1.writes (Elt F) VS13_1.junk (kernelRun13_A c i arg1 harg1 arg2 harg2 arg3 harg3 arg4 harg4 arg5 harg5 hc0 hc1 x0).2.1)

/-- At a middle point the store into the first scratch buffer tiles it. -/
theorem scover13_B_0 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (xs0 : Vec F S1x64 .f32) (xs1 : Vec F S1x64 .f32) (y : S1x64.Idx) :
    ∃ pc ∈ (kernelRun13_B c i arg1 harg1 arg2 harg2 arg3 harg3 arg4 harg4 arg5 harg5 hc0 hc1 x0 xs0 xs1).1, y ∈ pc.1.set :=
  View.cover_of_tiledL (kernelRun13_B c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def sout13_B_0 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (xs0 : Vec F S1x64 .f32) (xs1 : Vec F S1x64 .f32) : Vec F S1x64 .f32 :=
  VS13_0.read (Elt F) (VS13_0.writes (Elt F) VS13_0.junk (kernelRun13_B c i arg1 harg1 arg2 harg2 arg3 harg3 arg4 harg4 arg5 harg5 hc0 hc1 x0 xs0 xs1).1)

/-- At a middle point the store into the second scratch buffer tiles it. -/
theorem scover13_B_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (xs0 : Vec F S1x64 .f32) (xs1 : Vec F S1x64 .f32) (y : S1x64.Idx) :
    ∃ pc ∈ (kernelRun13_B c i arg1 harg1 arg2 harg2 arg3 harg3 arg4 harg4 arg5 harg5 hc0 hc1 x0 xs0 xs1).2.1, y ∈ pc.1.set :=
  View.cover_of_tiledL (kernelRun13_B c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def sout13_B_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (xs0 : Vec F S1x64 .f32) (xs1 : Vec F S1x64 .f32) : Vec F S1x64 .f32 :=
  VS13_1.read (Elt F) (VS13_1.writes (Elt F) VS13_1.junk (kernelRun13_B c i arg1 harg1 arg2 harg2 arg3 harg3 arg4 harg4 arg5 harg5 hc0 hc1 x0 xs0 xs1).2.1)

/-- At the last point the store into the first output window (the mean) tiles its block. -/
theorem cover13_C_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) (y : S1x64.Idx) :
    ∃ pc ∈ (kernelRun13_C c i arg1 harg1 arg2 harg2 arg3 harg3 arg4 harg4 arg5 harg5 hc0 hc1 x0 xs0 xs1).1, y ∈ pc.1.set :=
  View.cover_of_tiledL (kernelRun13_C c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def out13_C_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) : Vec F S1x64 .f32 :=
  VO13_1.read (Elt F) (VO13_1.writes (Elt F) VO13_1.junk (kernelRun13_C c i arg1 harg1 arg2 harg2 arg3 harg3 arg4 harg4 arg5 harg5 hc0 hc1 x0 xs0 xs1).1)

/-- At the last point the store into the second output window (the variance) tiles its block. -/
theorem cover13_C_2 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) (y : S1x64.Idx) :
    ∃ pc ∈ (kernelRun13_C c i arg1 harg1 arg2 harg2 arg3 harg3 arg4 harg4 arg5 harg5 hc0 hc1 x0 xs0 xs1).2.1, y ∈ pc.1.set :=
  View.cover_of_tiledL (kernelRun13_C c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def out13_C_2 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) : Vec F S1x64 .f32 :=
  VO13_2.read (Elt F) (VO13_2.writes (Elt F) VO13_2.junk (kernelRun13_C c i arg1 harg1 arg2 harg2 arg3 harg3 arg4 harg4 arg5 harg5 hc0 hc1 x0 xs0 xs1).2.1)

/-- At the last point the store into the first scratch buffer tiles it. -/
theorem scover13_C_0 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) (y : S1x64.Idx) :
    ∃ pc ∈ (kernelRun13_C c i arg1 harg1 arg2 harg2 arg3 harg3 arg4 harg4 arg5 harg5 hc0 hc1 x0 xs0 xs1).2.2.1, y ∈ pc.1.set :=
  View.cover_of_tiledL (kernelRun13_C c i arg1 harg1 arg2 harg2 arg3 harg3 arg4 harg4 arg5 harg5 hc0 hc1 x0 xs0 xs1).2.2.1 S1x64.size (by sl_kernel_rfl) y

/-- What they leave there: the pieces read back (over contents that, the pieces covering the buffer, do not matter). -/
def sout13_C_0 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) : Vec F S1x64 .f32 :=
  VS13_0.read (Elt F) (VS13_0.writes (Elt F) VS13_0.junk (kernelRun13_C c i arg1 harg1 arg2 harg2 arg3 harg3 arg4 harg4 arg5 harg5 hc0 hc1 x0 xs0 xs1).2.2.1)

/-- At the last point the store into the second scratch buffer tiles it. -/
theorem scover13_C_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) (y : S1x64.Idx) :
    ∃ pc ∈ (kernelRun13_C c i arg1 harg1 arg2 harg2 arg3 harg3 arg4 harg4 arg5 harg5 hc0 hc1 x0 xs0 xs1).2.2.2.1, y ∈ pc.1.set :=
  View.cover_of_tiledL (kernelRun13_C c i arg1 harg1 arg2 harg2 arg3 harg3 arg4 harg4 arg5 harg5 hc0 hc1 x0 xs0 xs1).2.2.2.1 S1x64.size (by sl_kernel_rfl) y

/-- What they leave there: the pieces read back (over contents that, the pieces covering the buffer, do not matter). -/
def sout13_C_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) : Vec F S1x64 .f32 :=
  VS13_1.read (Elt F) (VS13_1.writes (Elt F) VS13_1.junk (kernelRun13_C c i arg1 harg1 arg2 harg2 arg3 harg3 arg4 harg4 arg5 harg5 hc0 hc1 x0 xs0 xs1).2.2.2.1)

/-- After the first point the reset is never taken again: the grid has 20 points. -/
theorem not_cond13_0_succ (n : ℕ) (hn : n + 1 < cfg13.N) : ¬cond13_0 (grid13.coords ⟨n + 1, hn⟩) := fun h => by
  have h' := (hcond13_0 ⟨n + 1, hn⟩).mp h
  have hN : n + 1 < 20 := lt_of_lt_of_eq hn (show cfg13.N = 20 from N_13)
  dsimp only at h'; omega

/-- The first point is not the last. -/
theorem not_cond13_1_zero (hn : 0 < cfg13.N) : ¬cond13_1 (grid13.coords ⟨0, hn⟩) := fun h => by
  have h' := (hcond13_1 ⟨0, hn⟩).mp h
  dsimp only at h'; omega

section Region13
variable (V : (c : Dev nD) → (b : Ref sig .tc) → Buf (Elt F) ((c : Thread nD τ).loc b))

/-- Contents of an output window at a point where nothing reads them (the window is idle there and not written back). -/
def unread13_1 : Vec F S1x64 .f32 := VO13_1.read (Elt F) VO13_1.junk
def unread13_2 : Vec F S1x64 .f32 := VO13_2.read (Elt F) VO13_2.junk

/-! ## What the outputs and the scratch hold after each point -/

/-- THE ACCUMULATION. After the body at position `n`: the two output windows' staging buffers (named only at the last
    point) and the two scratch buffers — the first point's case run on the block, then each later point's case run on the
    block and on what the point before left in the scratch. -/
def outsAt13 (c : Dev nD) : (n : ℕ) → n < cfg13.N → (Vec F S1x64 .f32 × Vec F S1x64 .f32) × (Vec F S1x64 .f32 × Vec F S1x64 .f32)
  | 0, hn =>
    ((unread13_1, unread13_2),
     (sout13_A_0 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) scM13_0 (Memref.isWhole_whole _) scM13_1 (Memref.isWhole_whole _) ((hcond13_0 ⟨0, hn⟩).mpr (Nat.zero_mod _)) (not_cond13_1_zero hn) (iblk13 V c 0 ⟨0, hn⟩),
      sout13_A_1 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) scM13_0 (Memref.isWhole_whole _) scM13_1 (Memref.isWhole_whole _) ((hcond13_0 ⟨0, hn⟩).mpr (Nat.zero_mod _)) (not_cond13_1_zero hn) (iblk13 V c 0 ⟨0, hn⟩)))
  | n + 1, hn =>
    if h1 : (n + 1) % 20 = 19 then
      ((out13_C_1 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13_0 (Memref.isWhole_whole _) scM13_1 (Memref.isWhole_whole _) (not_cond13_0_succ n hn) ((hcond13_1 ⟨n + 1, hn⟩).mpr h1) (iblk13 V c 0 ⟨n + 1, hn⟩) (outsAt13 c n (Nat.lt_of_succ_lt hn)).2.1 (outsAt13 c n (Nat.lt_of_succ_lt hn)).2.2,
        out13_C_2 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13_0 (Memref.isWhole_whole _) scM13_1 (Memref.isWhole_whole _) (not_cond13_0_succ n hn) ((hcond13_1 ⟨n + 1, hn⟩).mpr h1) (iblk13 V c 0 ⟨n + 1, hn⟩) (outsAt13 c n (Nat.lt_of_succ_lt hn)).2.1 (outsAt13 c n (Nat.lt_of_succ_lt hn)).2.2),
       (sout13_C_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13_0 (Memref.isWhole_whole _) scM13_1 (Memref.isWhole_whole _) (not_cond13_0_succ n hn) ((hcond13_1 ⟨n + 1, hn⟩).mpr h1) (iblk13 V c 0 ⟨n + 1, hn⟩) (outsAt13 c n (Nat.lt_of_succ_lt hn)).2.1 (outsAt13 c n (Nat.lt_of_succ_lt hn)).2.2,
        sout13_C_1 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13_0 (Memref.isWhole_whole _) scM13_1 (Memref.isWhole_whole _) (not_cond13_0_succ n hn) ((hcond13_1 ⟨n + 1, hn⟩).mpr h1) (iblk13 V c 0 ⟨n + 1, hn⟩) (outsAt13 c n (Nat.lt_of_succ_lt hn)).2.1 (outsAt13 c n (Nat.lt_of_succ_lt hn)).2.2))
    else
      ((unread13_1, unread13_2),
       (sout13_B_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13_0 (Memref.isWhole_whole _) scM13_1 (Memref.isWhole_whole _) (not_cond13_0_succ n hn) (fun h => h1 ((hcond13_1 ⟨n + 1, hn⟩).mp h)) (iblk13 V c 0 ⟨n + 1, hn⟩) (outsAt13 c n (Nat.lt_of_succ_lt hn)).2.1 (outsAt13 c n (Nat.lt_of_succ_lt hn)).2.2,
        sout13_B_1 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13_0 (Memref.isWhole_whole _) scM13_1 (Memref.isWhole_whole _) (not_cond13_0_succ n hn) (fun h => h1 ((hcond13_1 ⟨n + 1, hn⟩).mp h)) (iblk13 V c 0 ⟨n + 1, hn⟩) (outsAt13 c n (Nat.lt_of_succ_lt hn)).2.1 (outsAt13 c n (Nat.lt_of_succ_lt hn)).2.2))

/-- `outsAt13` at the first point. -/
theorem outsAt13_A (c : Dev nD) (t : Fin cfg13.N) (hc0 : cond13_0 (grid13.coords t)) (hc1 : ¬cond13_1 (grid13.coords t)) :
    outsAt13 V c t.val t.isLt = ((unread13_1, unread13_2),
      (sout13_A_0 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t), sout13_A_1 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t))) := by
  obtain ⟨n, hn⟩ := t
  cases n with
  | zero => exact rfl
  | succ n => exact absurd hc0 (not_cond13_0_succ n hn)

/-- `outsAt13` at a middle point: over what the point before left in the scratch. -/
theorem outsAt13_B (c : Dev nD) (t : Fin cfg13.N) (hc0 : ¬cond13_0 (grid13.coords t)) (hc1 : ¬cond13_1 (grid13.coords t)) :
    outsAt13 V c t.val t.isLt = ((unread13_1, unread13_2),
      (sout13_B_0 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t) (outsAt13 V c (t.val - 1) (Nat.lt_of_le_of_lt (Nat.sub_le _ _) t.isLt)).2.1 (outsAt13 V c (t.val - 1) (Nat.lt_of_le_of_lt (Nat.sub_le _ _) t.isLt)).2.2,
       sout13_B_1 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t) (outsAt13 V c (t.val - 1) (Nat.lt_of_le_of_lt (Nat.sub_le _ _) t.isLt)).2.1 (outsAt13 V c (t.val - 1) (Nat.lt_of_le_of_lt (Nat.sub_le _ _) t.isLt)).2.2)) := by
  obtain ⟨n, hn⟩ := t
  cases n with
  | zero => exact absurd ((hcond13_0 ⟨0, hn⟩).mpr (Nat.zero_mod _)) hc0
  | succ n => exact (dif_neg (fun h => hc1 ((hcond13_1 ⟨n + 1, hn⟩).mpr h))).trans rfl

/-- `outsAt13` at the last point: over what the point before left in the scratch. -/
theorem outsAt13_C (c : Dev nD) (t : Fin cfg13.N) (hc0 : ¬cond13_0 (grid13.coords t)) (hc1 : cond13_1 (grid13.coords t)) :
    outsAt13 V c t.val t.isLt =
      ((out13_C_1 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t) (outsAt13 V c (t.val - 1) (Nat.lt_of_le_of_lt (Nat.sub_le _ _) t.isLt)).2.1 (outsAt13 V c (t.val - 1) (Nat.lt_of_le_of_lt (Nat.sub_le _ _) t.isLt)).2.2,
        out13_C_2 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t) (outsAt13 V c (t.val - 1) (Nat.lt_of_le_of_lt (Nat.sub_le _ _) t.isLt)).2.1 (outsAt13 V c (t.val - 1) (Nat.lt_of_le_of_lt (Nat.sub_le _ _) t.isLt)).2.2),
       (sout13_C_0 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t) (outsAt13 V c (t.val - 1) (Nat.lt_of_le_of_lt (Nat.sub_le _ _) t.isLt)).2.1 (outsAt13 V c (t.val - 1) (Nat.lt_of_le_of_lt (Nat.sub_le _ _) t.isLt)).2.2,
        sout13_C_1 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t) (outsAt13 V c (t.val - 1) (Nat.lt_of_le_of_lt (Nat.sub_le _ _) t.isLt)).2.1 (outsAt13 V c (t.val - 1) (Nat.lt_of_le_of_lt (Nat.sub_le _ _) t.isLt)).2.2)) := by
  obtain ⟨n, hn⟩ := t
  cases n with
  | zero => exact absurd ((hcond13_0 ⟨0, hn⟩).mpr (Nat.zero_mod _)) hc0
  | succ n => exact (dif_pos ((hcond13_1 ⟨n + 1, hn⟩).mp hc1)).trans rfl

/-! ## The region's invariant -/

/-- The invariant before position `n`: before the first point every scoped buffer no window stages at some contents
    (the two scratch buffers hold anything on entry) and the generator register at some state; afterwards the two
    scratch buffers at the running sums the point before left, the other such buffers unopened, and the register. -/
def PhiS13 (c : Dev nD) : (n : ℕ) → n ≤ cfg13.N → sProp 𝕄
  | 0, _ => Pipeline.ΦA spec13 c
  | n + 1, hn => iprop(iprop(iprop(owns (c : Thread nD τ) scM13_0 fullShare ((outsAt13 V c n hn).2.1) ∗ owns (c : Thread nD τ) scM13_1 fullShare ((outsAt13 V c n hn).2.2))
      ∗ Pipeline.scopedRestBut (Ix := Unit) (Name := ℕ) (U := UR sig nD τ) (Lvl := ℕ) (Val := Elt F) spec13 c [cc13_scratch0, cc13_scratch1]) ∗ (∃ r, prngReg c r))

theorem PhiS13_zero (c : Dev nD) (n : ℕ) (h : n ≤ cfg13.N) (hz : n = 0) : PhiS13 V c n h = Pipeline.ΦA spec13 c := by
  subst hz; rfl

/-- After point `n` (before point `n + 1`): the scratch at that point's contents. -/
theorem PhiS13_succ (c : Dev nD) (n : ℕ) (hn : n < cfg13.N) :
    PhiS13 V c (n + 1) hn = iprop(iprop(iprop(owns (c : Thread nD τ) scM13_0 fullShare ((outsAt13 V c n hn).2.1) ∗ owns (c : Thread nD τ) scM13_1 fullShare ((outsAt13 V c n hn).2.2))
      ∗ Pipeline.scopedRestBut (Ix := Unit) (Name := ℕ) (U := UR sig nD τ) (Lvl := ℕ) (Val := Elt F) spec13 c [cc13_scratch0, cc13_scratch1]) ∗ (∃ r, prngReg c r)) := rfl

/-- Before a point that is not the first: the scratch at what the point before left. -/
theorem PhiS13_pos (c : Dev nD) (n : ℕ) (h : n ≤ cfg13.N) (hz : n ≠ 0) :
    PhiS13 V c n h = iprop(iprop(iprop(owns (c : Thread nD τ) scM13_0 fullShare ((outsAt13 V c (n - 1) (by omega)).2.1) ∗ owns (c : Thread nD τ) scM13_1 fullShare ((outsAt13 V c (n - 1) (by omega)).2.2))
      ∗ Pipeline.scopedRestBut (Ix := Unit) (Name := ℕ) (U := UR sig nD τ) (Lvl := ℕ) (Val := Elt F) spec13 c [cc13_scratch0, cc13_scratch1]) ∗ (∃ r, prngReg c r)) := by
  cases n with
  | zero => exact absurd rfl hz
  | succ n => rfl

/-! ## The pipeline's proof data -/

/-- The proof data of pipeline 13 on core `c`: the arrays as the region finds them (`V`); after the body the input's
    buffer at its block and the outputs' at `outsAt13`; the invariant `PhiS13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => (outsAt13 V c t.val t.isLt).1.1
    | ⟨2, _⟩ => (outsAt13 V c t.val t.isLt).1.2
  Φ t := PhiS13 V c t.val (Nat.le_of_lt_succ t.isLt)
  q _ := fullShare
  owed _ := 0

/-- The proof data's arrays are the region-entry contents. -/
theorem A_eq13 (c : Dev nD) (w : Fin cfg13.W) : (dat13 V c).A w = V c (Pipeline.arrRef spec13 w) := by
  dsimp only [dat13]

/-- The invariant at a point's start, restated at `t.val`. -/
theorem PhiS13_castSucc (c : Dev nD) (t : Fin cfg13.N) :
    (dat13 V c).Φ t.castSucc = PhiS13 V c t.val (Nat.le_of_lt t.isLt) := by
  dsimp only [dat13]; simp only [Fin.coe_castSucc]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = (outsAt13 V c t.val t.isLt).1.1 := by dsimp only [dat13]
theorem after13_2 (c : Dev nD) (t : Fin cfg13.N) : (dat13 V c).after 2 t = (outsAt13 V c t.val t.isLt).1.2 := by dsimp only [dat13]

/-- The input's current staging buffer holds its block at every point. -/
theorem before13_0 (c : Dev nD) (t : Fin cfg13.N) (d) : (dat13 V c).before 0 t d = iblk13 V c 0 t :=
  before13_0_of V (dat13 V c) (A_eq13 V c 0) (after13_0 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

set_option maxHeartbeats 4800000 in
/-- The body at any point: the input's memref holds its block; the closed forms say which case the point is in; the
    invariant hands the body the two scratch buffers at what the point before left (at anything at the first point) and
    takes them back at this point's contents; the idle output windows pass through untouched; the core owes nothing. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0]
  rw [show (dat13 V c).owesAt () t.succ = (dat13 V c).owesAt () t.castSucc from rfl]
  rw [show (dat13 V c).Φ t.succ = PhiS13 V c (t.val + 1) t.isLt from rfl, PhiS13_succ]
  have hN : t.val < 20 := lt_of_lt_of_eq t.isLt (show cfg13.N = 20 from N_13)
  rw [show (dat13 V c).leavesExact 0 t = owns (c : Thread nD τ) (ms13_0 t) fullShare ((dat13 V c).after 0 t) from by
    unfold Dat.leavesExact; rw [liveAt13_0 t], after13_0]
  by_cases hc1 : cond13_1 (grid13.coords t)
  · have h1 : t.val % 20 = 19 := (hcond13_1 t).mp hc1
    have hc0 : ¬cond13_0 (grid13.coords t) := fun h => by have := (hcond13_0 t).mp h; omega
    have hz : t.val ≠ 0 := by omega
    rw [show (dat13 V c).leavesExact 1 t = owns (c : Thread nD τ) (ms13_1 t) fullShare ((dat13 V c).after 1 t) from by
      unfold Dat.leavesExact; rw [liveAt13_1 t hc1], after13_1]
    rw [show (dat13 V c).leavesExact 2 t = owns (c : Thread nD τ) (ms13_2 t) fullShare ((dat13 V c).after 2 t) from by
      unfold Dat.leavesExact; rw [liveAt13_2 t hc1], after13_2]
    rw [outsAt13_C V c t hc0 hc1]
    unfold out13_C_1 out13_C_2 sout13_C_0 sout13_C_1; (try dsimp only)
    rw [PhiS13_castSucc V c t, PhiS13_pos V c _ _ hz]
    iintro ⟨⟨⟨⟨HS0, HS1⟩, HR⟩, Hg⟩, Ho, ⟨%d0, H0⟩, ⟨%d1, H1⟩, ⟨%d2, H2⟩⟩
    iapply ((kernelRun13_C c (grid13.coords t) _ _ _ _ _ _ _ _ _ _ hc0 hc1 (iblk13 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover13_C_0 c _ _ _ _ _ _ _ _ _ _ _ _ _ _ _ _)
          · unfold owns; iexists _; isplitr
            swap; · iexact HS1
            ipureintro; exact View.read_writes_of_cover _ _ _ _ _ (scover13_C_1 c _ _ _ _ _ _ _ _ _ _ _ _ _ _ _ _)
        · iexact HR
      · iexact Hg
    isplitl [Ho]; · iexact Ho
    isplitl [H0]; · iexact H0
    isplitl [H1]
    · unfold owns; iexists _; isplitr
      swap; · iexact H1
      ipureintro; exact View.read_writes_of_cover _ _ _ _ _ (cover13_C_1 c _ _ _ _ _ _ _ _ _ _ _ _ _ _ _ _)
    · unfold owns; iexists _; isplitr
      swap; · iexact H2
      ipureintro; exact View.read_writes_of_cover _ _ _ _ _ (cover13_C_2 c _ _ _ _ _ _ _ _ _ _ _ _ _ _ _ _)
  · rw [Dat.leavesExact_idle (dat13 V c) 1 t (idleAt13_1 t hc1) (noFlush13_1 t hc1)]
    rw [Dat.leavesExact_idle (dat13 V c) 2 t (idleAt13_2 t hc1) (noFlush13_2 t hc1)]
    by_cases hc0 : cond13_0 (grid13.coords t)
    · have hz : t.val = 0 := by have := (hcond13_0 t).mp hc0; omega
      rw [outsAt13_A V c t hc0 hc1]
      unfold sout13_A_0 sout13_A_1; (try dsimp only)
      rw [PhiS13_castSucc V c t, PhiS13_zero V c _ _ hz, PhiA13_eq]
      iintro ⟨⟨⟨⟨HS0, HS1⟩, HR⟩, Hg⟩, Ho, ⟨%d0, H0⟩, ⟨%d1, H1⟩, ⟨%d2, H2⟩⟩
      iapply ((kernelRun13_A c (grid13.coords t) _ _ _ _ _ _ _ _ _ _ hc0 hc1 (iblk13 V c 0 t)).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover13_A_0 c _ _ _ _ _ _ _ _ _ _ _ _ _ _)
            · unfold owns; iexists _; isplitr
              swap; · iexact HS1
              ipureintro; exact View.read_writes_of_cover _ _ _ _ _ (scover13_A_1 c _ _ _ _ _ _ _ _ _ _ _ _ _ _)
          · iexact HR
        · iexact Hg
      isplitl [Ho]; · iexact Ho
      isplitl [H0]; · iexact H0
      isplitl [H1]; · iexists _; iexact H1
      iexists _; iexact H2
    · have hz : t.val ≠ 0 := fun h => hc0 ((hcond13_0 t).mpr (by rw [h]))
      rw [outsAt13_B V c t hc0 hc1]
      unfold sout13_B_0 sout13_B_1; (try dsimp only)
      rw [PhiS13_castSucc V c t, PhiS13_pos V c _ _ hz]
      iintro ⟨⟨⟨⟨HS0, HS1⟩, HR⟩, Hg⟩, Ho, ⟨%d0, H0⟩, ⟨%d1, H1⟩, ⟨%d2, H2⟩⟩
      iapply ((kernelRun13_B c (grid13.coords t) _ _ _ _ _ _ _ _ _ _ hc0 hc1 (iblk13 V c 0 t) _ _).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover13_B_0 c _ _ _ _ _ _ _ _ _ _ _ _ _ _ _ _)
            · unfold owns; iexists _; isplitr
              swap; · iexact HS1
              ipureintro; exact View.read_writes_of_cover _ _ _ _ _ (scover13_B_1 c _ _ _ _ _ _ _ _ _ _ _ _ _ _ _ _)
          · iexact HR
        · iexact Hg
      isplitl [Ho]; · iexact Ho
      isplitl [H0]; · iexact H0
      isplitl [H1]; · iexists _; iexact H1
      iexists _; iexact H2

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the region is entered with (every scoped buffer no window stages, the generator register) is the invariant
    before the first point. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After any point but the first the invariant gives that back: the scratch buffers' named contents are forgotten. -/
theorem Phi_out13 (c : Dev nD) (t : Fin (cfg13.N + 1)) (ht : t.val ≠ 0) : (dat13 V c).Φ t ⊢ Pipeline.ΦA spec13 c := by
  rw [show (dat13 V c).Φ t = PhiS13 V c t.val (Nat.le_of_lt_succ t.isLt) from rfl, PhiS13_pos V c _ _ ht, PhiA13_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout13 (c : Dev nD) : (dat13 V c).Φ (Fin.last cfg13.N) ⊢ Pipeline.ΦA spec13 c :=
  Phi_out13 V c _ (by rw [Fin.val_last]; have : cfg13.N = 20 := N_13; omega)

end Region13

end Cert.Kernel.Regs

end
-- ==== Proof.NormRegionKernel14.lean ====
/-
  Region 14 of @main (pipeline 14, `cc14_kernel`): the batch-norm NORMALISE step, stated at a parameter `V` — the
  TensorCore's buffer contents when the region is entered.

  The body is pointwise. At every grid point it reads the row block `x` of the array (window 0) and the four
  per-channel rows mean, variance, gamma, beta (windows 1–4, one block each, the same at every point), and stores
  into the output window's buffer (window 5) the single value
      act ((x − mean) · rsqrt (var + ε) · gamma + beta)
  (`k14_pay1`), where act is the logistic function. One whole-rectangle store covers the output buffer, so what
  the body leaves there is a closed function `out14_5` of the five input blocks; the input buffers are left as found.
  From this: the body's triple (`sound_kernel14`), the pipeline's proof data (`dat14`: arrays as the region finds
  them, each input buffer at its block, the output buffer at `out14_5` of the blocks), and the body obligation at every
  point (`body_obligation14`).
-/
import proofs.«180908_j8211977470570_1_alg».proof.Proof.Gen.Kernel.Launch
import proofs.«180908_j8211977470570_1_alg».proof.Proof.Gen.Kernel.Skeleton
import proofs.«180908_j8211977470570_1_alg».proof.Proof.Gen.Kernel.Points
import Idealize.ShloMosaic.Lib.Pipeline.FrameBody
import Idealize.ShloMosaic.Lib.Tactic

-- membership in a rectangle of full extents recurses once per coordinate of the long axis
set_option maxRecDepth 16384

noncomputable section

namespace Cert.Kernel.Regs

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof
    data whose array is `V`'s (`hA`) and whose body leaves the block in place (`hafter`): unfetched, the block index
    has not moved; the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- Input window 1's current staging buffer holds its block at every point, fetched there or not, for any proof
    data whose array is `V`'s (`hA`) and whose body leaves the block in place (`hafter`): unfetched, the block index
    has not moved; the window is uncut and never idle. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
/-- Input window 2's current staging buffer holds its block at every point, fetched there or not, for any proof
    data whose array is `V`'s (`hA`) and whose body leaves the block in place (`hafter`): unfetched, the block index
    has not moved; the window is uncut and never idle. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
/-- Input window 3's current staging buffer holds its block at every point, fetched there or not, for any proof
    data whose array is `V`'s (`hA`) and whose body leaves the block in place (`hafter`): unfetched, the block index
    has not moved; the window is uncut and never idle. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
/-- Input window 4's current staging buffer holds its block at every point, fetched there or not, for any proof
    data whose array is `V`'s (`hA`) and whose body leaves the block in place (`hafter`): unfetched, the block index
    has not moved; the window is uncut and never idle. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- The whole rectangle of a row block, and of a per-channel row. -/
abbrev r14_big : Rect S10000x64 := Rect.unit (s := S10000x64) ![0, 0] S10000x64.size inb_S10000x64_S10000x64_0_0
abbrev r14_row : Rect S1x64 := Rect.unit (s := S1x64) ![0, 0] S1x64.size inb_S1x64_S1x64_0_0

/-! ## What the body leaves in the output window's buffer -/

/-- Window 5's staging buffer after the body, from the five input windows' blocks: its one store, of the
    normalised and activated rows, over the whole buffer. -/
def out14_5 (x0 : Vec F S10000x64 .f32) (x1 x2 x3 x4 : Vec F S1x64 .f32) : Vec F S10000x64 .f32 :=
  View.canon [⟨r14_big, k14_pay1 (View.ld x0 r14_big) (View.ld x1 r14_row) (View.ld x2 r14_row) (View.ld x3 r14_row) (View.ld x4 r14_row)⟩]

/-- The store's rectangle is the whole buffer, so it covers it. -/
theorem cover14_5 (p0 : Vec F S10000x64 .f32) (y : S10000x64.Idx) :
    ∃ pc ∈ ([⟨r14_big, p0⟩] : List (View.Piece (Elt F) S10000x64 .f32)), y ∈ pc.1.set :=
  View.cover_of_tiled [⟨r14_big, p0⟩] S10000x64.size (by rfl) y

/-! ## The body's triple -/

set_option maxHeartbeats 1000000 in
/-- The kernel body on whole staging memrefs, the inputs' at read contents `x0 … x4` and the output's at anything, runs
    to the continuation holding the inputs' as they were and the output's at `out14_5` of the inputs'. The grid
    coordinate `i` is not read. -/
theorem sound_kernel14 (c : Dev nD) (E : Set ℕ) (i : grid14.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out14_5 x0 x1 x2 x3 x4)) -∗ K ⟨⟩))
      ⊢ wp frame (wpE (defs₀ (F := F)) Variants.none c none) E (cc14_kernel i arg1 harg1 arg2 harg2 arg3 harg3 arg4 harg4 arg5 harg5 arg6 harg6) K := by
  simp only [cc14_kernel_eq_skeleton]; unfold cc14_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-! ## The pipeline's proof data -/

/-- The proof data of pipeline 14 on core `c`: the arrays as the region finds them (`V`); after the body at point `t`
    each input's buffer at its block and the output's at `out14_5` of the input blocks; the invariant the scoped rest
    and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the region-entry contents (the definition projected). -/
theorem A_eq14 (c : Dev nD) (w : Fin cfg14.W) : (dat14 V c).A w = V c (Pipeline.arrRef spec14 w) := by
  dsimp only [dat14]

/-- What the body leaves, window by window (the definition's `match` reduced). -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = out14_5 (iblk14 V c 0 t) (iblk14 V c 1 t) (iblk14 V c 2 t) (iblk14 V c 3 t) (iblk14 V c 4 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation, at a generic point -/

/-- What the body is called with at point `t` (the windows one by one), -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' memrefs hold their blocks (`before14_W`), so `sound_kernel14` applies; the
    invariant and the core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Regs
-- ==== Proof.AssemblyBits.lean ====
import proofs.«180908_j8211977470570_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180908_j8211977470570_1_alg».proof.Proof.RegionRecordBits
import proofs.«180908_j8211977470570_1_alg».proof.Proof.MatmulRegionKernel0
import proofs.«180908_j8211977470570_1_alg».proof.Proof.StatsRegionKernel1
import proofs.«180908_j8211977470570_1_alg».proof.Proof.NormRegionKernel2
import proofs.«180908_j8211977470570_1_alg».proof.Proof.MatmulRegionKernel3
import proofs.«180908_j8211977470570_1_alg».proof.Proof.StatsRegionKernel4
import proofs.«180908_j8211977470570_1_alg».proof.Proof.NormRegionKernel5
import proofs.«180908_j8211977470570_1_alg».proof.Proof.MatmulRegionKernel6
import proofs.«180908_j8211977470570_1_alg».proof.Proof.StatsRegionKernel7
import proofs.«180908_j8211977470570_1_alg».proof.Proof.NormRegionKernel8
import proofs.«180908_j8211977470570_1_alg».proof.Proof.MatmulRegionKernel9
import proofs.«180908_j8211977470570_1_alg».proof.Proof.StatsRegionKernel10
import proofs.«180908_j8211977470570_1_alg».proof.Proof.NormRegionKernel11
import proofs.«180908_j8211977470570_1_alg».proof.Proof.MatmulRegionKernel12
import proofs.«180908_j8211977470570_1_alg».proof.Proof.StatsRegionKernel13
import proofs.«180908_j8211977470570_1_alg».proof.Proof.NormRegionKernel14
set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of the program

`W J c` is what core `c`'s unscoped buffers hold before item `J`: the launch memory, then each host stretch applied, and
after a region its output arrays at what the write-backs leave, every other buffer as before. -/

abbrev W0 : Dev nD → Valuation τ sig (Elt F) := fun c b => m (c, b)
abbrev W1 : Dev nD → Valuation τ sig (Elt F) := fun c => StableHlo.after hostOps0 (W0 m c)
def W2 (c : Dev nD) : Valuation τ sig (Elt F) :=
  Function.update (W1 m c) (Proc.devRef .tc (Pipeline.arrRef spec0 2)) ((dat0 (atTc (W1 m)) c).arrAt 2 cfg0.N)
abbrev W3 : Dev nD → Valuation τ sig (Elt F) := fun c => StableHlo.after hostOps1 (W2 m c)
def W4 (c : Dev nD) : Valuation τ sig (Elt F) :=
  Function.update (Function.update (W3 m c) (Proc.devRef .tc (Pipeline.arrRef spec1 1)) ((dat1 (atTc (W3 m)) c).arrAt 1 cfg1.N)) (Proc.devRef .tc (Pipeline.arrRef spec1 2)) ((dat1 (atTc (W3 m)) c).arrAt 2 cfg1.N)
def W5 (c : Dev nD) : Valuation τ sig (Elt F) :=
  Function.update (W4 m c) (Proc.devRef .tc (Pipeline.arrRef spec2 5)) ((dat2 (atTc (W4 m)) c).arrAt 5 cfg2.N)
abbrev W6 : Dev nD → Valuation τ sig (Elt F) := fun c => StableHlo.after hostOps3 (W5 m c)
def W7 (c : Dev nD) : Valuation τ sig (Elt F) :=
  Function.update (W6 m c) (Proc.devRef .tc (Pipeline.arrRef spec3 2)) ((dat3 (atTc (W6 m)) c).arrAt 2 cfg3.N)
abbrev W8 : Dev nD → Valuation τ sig (Elt F) := fun c => StableHlo.after hostOps4 (W7 m c)
def W9 (c : Dev nD) : Valuation τ sig (Elt F) :=
  Function.update (Function.update (W8 m c) (Proc.devRef .tc (Pipeline.arrRef spec4 1)) ((dat4 (atTc (W8 m)) c).arrAt 1 cfg4.N)) (Proc.devRef .tc (Pipeline.arrRef spec4 2)) ((dat4 (atTc (W8 m)) c).arrAt 2 cfg4.N)
def W10 (c : Dev nD) : Valuation τ sig (Elt F) :=
  Function.update (W9 m c) (Proc.devRef .tc (Pipeline.arrRef spec5 5)) ((dat5 (atTc (W9 m)) c).arrAt 5 cfg5.N)
abbrev W11 : Dev nD → Valuation τ sig (Elt F) := fun c => StableHlo.after hostOps6 (W10 m c)
def W12 (c : Dev nD) : Valuation τ sig (Elt F) :=
  Function.update (W11 m c) (Proc.devRef .tc (Pipeline.arrRef spec6 2)) ((dat6 (atTc (W11 m)) c).arrAt 2 cfg6.N)
abbrev W13 : Dev nD → Valuation τ sig (Elt F) := fun c => StableHlo.after hostOps7 (W12 m c)
def W14 (c : Dev nD) : Valuation τ sig (Elt F) :=
  Function.update (Function.update (W13 m c) (Proc.devRef .tc (Pipeline.arrRef spec7 1)) ((dat7 (atTc (W13 m)) c).arrAt 1 cfg7.N)) (Proc.devRef .tc (Pipeline.arrRef spec7 2)) ((dat7 (atTc (W13 m)) c).arrAt 2 cfg7.N)
def W15 (c : Dev nD) : Valuation τ sig (Elt F) :=
  Function.update (W14 m c) (Proc.devRef .tc (Pipeline.arrRef spec8 5)) ((dat8 (atTc (W14 m)) c).arrAt 5 cfg8.N)
abbrev W16 : Dev nD → Valuation τ sig (Elt F) := fun c => StableHlo.after hostOps9 (W15 m c)
abbrev W17 : Dev nD → Valuation τ sig (Elt F) := fun c => StableHlo.after hostOps9_1 (W16 m c)
def W18 (c : Dev nD) : Valuation τ sig (Elt F) :=
  Function.update (W17 m c) (Proc.devRef .tc (Pipeline.arrRef spec9 2)) ((dat9 (atTc (W17 m)) c).arrAt 2 cfg9.N)
abbrev W19 : Dev nD → Valuation τ sig (Elt F) := fun c => StableHlo.after hostOps10 (W18 m c)
def W20 (c : Dev nD) : Valuation τ sig (Elt F) :=
  Function.update (Function.update (W19 m c) (Proc.devRef .tc (Pipeline.arrRef spec10 1)) ((dat10 (atTc (W19 m)) c).arrAt 1 cfg10.N)) (Proc.devRef .tc (Pipeline.arrRef spec10 2)) ((dat10 (atTc (W19 m)) c).arrAt 2 cfg10.N)
def W21 (c : Dev nD) : Valuation τ sig (Elt F) :=
  Function.update (W20 m c) (Proc.devRef .tc (Pipeline.arrRef spec11 5)) ((dat11 (atTc (W20 m)) c).arrAt 5 cfg11.N)
abbrev W22 : Dev nD → Valuation τ sig (Elt F) := fun c => StableHlo.after hostOps12 (W21 m c)
def W23 (c : Dev nD) : Valuation τ sig (Elt F) :=
  Function.update (W22 m c) (Proc.devRef .tc (Pipeline.arrRef spec12 2)) ((dat12 (atTc (W22 m)) c).arrAt 2 cfg12.N)
abbrev W24 : Dev nD → Valuation τ sig (Elt F) := fun c => StableHlo.after hostOps13 (W23 m c)
def W25 (c : Dev nD) : Valuation τ sig (Elt F) :=
  Function.update (Function.update (W24 m c) (Proc.devRef .tc (Pipeline.arrRef spec13 1)) ((dat13 (atTc (W24 m)) c).arrAt 1 cfg13.N)) (Proc.devRef .tc (Pipeline.arrRef spec13 2)) ((dat13 (atTc (W24 m)) c).arrAt 2 cfg13.N)
def W26 (c : Dev nD) : Valuation τ sig (Elt F) :=
  Function.update (W25 m c) (Proc.devRef .tc (Pipeline.arrRef spec14 5)) ((dat14 (atTc (W25 m)) c).arrAt 5 cfg14.N)

/-! ## Each region's arrays at its exit, and the other buffers -/
set_option maxHeartbeats 2000000 in
theorem hF0 (c : Dev nD) (w : Fin cfg0.W) : (dat0 (atTc (W1 m)) c).arrAt w cfg0.N = atTc (W2 m) c (Pipeline.arrRef spec0 w) := by
  match w with
  | ⟨0, _⟩ =>
    show _ = W2 m c (Proc.devRef .tc (Pipeline.arrRef spec0 0))
    unfold W2; rw [Function.update_of_ne (StableHlo.devRef_ne_of_ne (fun e => absurd (launch0.win.arr_inj e) (by decide)) : (Proc.devRef .tc (Pipeline.arrRef spec0 0) : DevRef τ sig) ≠ Proc.devRef .tc (Pipeline.arrRef spec0 2))]
    exact ((dat0 (atTc (W1 m)) c).arrAt_in 0 rfl _).trans (A_eq0 (atTc (W1 m)) c 0)
  | ⟨1, _⟩ =>
    show _ = W2 m c (Proc.devRef .tc (Pipeline.arrRef spec0 1))
    unfold W2; rw [Function.update_of_ne (StableHlo.devRef_ne_of_ne (fun e => absurd (launch0.win.arr_inj e) (by decide)) : (Proc.devRef .tc (Pipeline.arrRef spec0 1) : DevRef τ sig) ≠ Proc.devRef .tc (Pipeline.arrRef spec0 2))]
    exact ((dat0 (atTc (W1 m)) c).arrAt_in 1 rfl _).trans (A_eq0 (atTc (W1 m)) c 1)
  | ⟨2, _⟩ =>
    show _ = W2 m c (Proc.devRef .tc (Pipeline.arrRef spec0 2))
    unfold W2; rw [Function.update_self]
    rfl
theorem hrest0 (c : Dev nD) : ∀ b, b ∉ Finset.univ.image (Pipeline.arrRef spec0) → atTc (W2 m) c b = atTc (W1 m) c b := by
  intro b hb
  show W2 m c (Proc.devRef .tc b) = W1 m c (Proc.devRef .tc b)
  unfold W2
  rw [Function.update_of_ne (StableHlo.devRef_ne_of_ne (fun e => hb (Finset.mem_image.mpr ⟨2, Finset.mem_univ _, e.symm⟩)))]
set_option maxHeartbeats 2000000 in
theorem hF1 (c : Dev nD) (w : Fin cfg1.W) : (dat1 (atTc (W3 m)) c).arrAt w cfg1.N = atTc (W4 m) c (Pipeline.arrRef spec1 w) := by
  match w with
  | ⟨0, _⟩ =>
    show _ = W4 m c (Proc.devRef .tc (Pipeline.arrRef spec1 0))
    unfold W4; rw [Function.update_of_ne (StableHlo.devRef_ne_of_ne (fun e => absurd (launch1.win.arr_inj e) (by decide)) : (Proc.devRef .tc (Pipeline.arrRef spec1 0) : DevRef τ sig) ≠ Proc.devRef .tc (Pipeline.arrRef spec1 2))]; rw [Function.update_of_ne (StableHlo.devRef_ne_of_ne (fun e => absurd (launch1.win.arr_inj e) (by decide)) : (Proc.devRef .tc (Pipeline.arrRef spec1 0) : DevRef τ sig) ≠ Proc.devRef .tc (Pipeline.arrRef spec1 1))]
    exact ((dat1 (atTc (W3 m)) c).arrAt_in 0 rfl _).trans (A_eq1 (atTc (W3 m)) c 0)
  | ⟨1, _⟩ =>
    show _ = W4 m c (Proc.devRef .tc (Pipeline.arrRef spec1 1))
    unfold W4; rw [Function.update_of_ne (StableHlo.devRef_ne_of_ne (fun e => absurd (launch1.win.arr_inj e) (by decide)) : (Proc.devRef .tc (Pipeline.arrRef spec1 1) : DevRef τ sig) ≠ Proc.devRef .tc (Pipeline.arrRef spec1 2))]; rw [Function.update_self]
    rfl
  | ⟨2, _⟩ =>
    show _ = W4 m c (Proc.devRef .tc (Pipeline.arrRef spec1 2))
    unfold W4; rw [Function.update_self]
    rfl
theorem hrest1 (c : Dev nD) : ∀ b, b ∉ Finset.univ.image (Pipeline.arrRef spec1) → atTc (W4 m) c b = atTc (W3 m) c b := by
  intro b hb
  show W4 m c (Proc.devRef .tc b) = W3 m c (Proc.devRef .tc b)
  unfold W4
  rw [Function.update_of_ne (StableHlo.devRef_ne_of_ne (fun e => hb (Finset.mem_image.mpr ⟨2, Finset.mem_univ _, e.symm⟩)))]
  rw [Function.update_of_ne (StableHlo.devRef_ne_of_ne (fun e => hb (Finset.mem_image.mpr ⟨1, Finset.mem_univ _, e.symm⟩)))]
set_option maxHeartbeats 2000000 in
theorem hF2 (c : Dev nD) (w : Fin cfg2.W) : (dat2 (atTc (W4 m)) c).arrAt w cfg2.N = atTc (W5 m) c (Pipeline.arrRef spec2 w) := by
  match w with
  | ⟨0, _⟩ =>
    show _ = W5 m c (Proc.devRef .tc (Pipeline.arrRef spec2 0))
    unfold W5; rw [Function.update_of_ne (StableHlo.devRef_ne_of_ne (fun e => absurd (launch2.win.arr_inj e) (by decide)) : (Proc.devRef .tc (Pipeline.arrRef spec2 0) : DevRef τ sig) ≠ Proc.devRef .tc (Pipeline.arrRef spec2 5))]
    exact ((dat2 (atTc (W4 m)) c).arrAt_in 0 rfl _).trans (A_eq2 (atTc (W4 m)) c 0)
  | ⟨1, _⟩ =>
    show _ = W5 m c (Proc.devRef .tc (Pipeline.arrRef spec2 1))
    unfold W5; rw [Function.update_of_ne (StableHlo.devRef_ne_of_ne (fun e => absurd (launch2.win.arr_inj e) (by decide)) : (Proc.devRef .tc (Pipeline.arrRef spec2 1) : DevRef τ sig) ≠ Proc.devRef .tc (Pipeline.arrRef spec2 5))]
    exact ((dat2 (atTc (W4 m)) c).arrAt_in 1 rfl _).trans (A_eq2 (atTc (W4 m)) c 1)
  | ⟨2, _⟩ =>
    show _ = W5 m c (Proc.devRef .tc (Pipeline.arrRef spec2 2))
    unfold W5; rw [Function.update_of_ne (StableHlo.devRef_ne_of_ne (fun e => absurd (launch2.win.arr_inj e) (by decide)) : (Proc.devRef .tc (Pipeline.arrRef spec2 2) : DevRef τ sig) ≠ Proc.devRef .tc (Pipeline.arrRef spec2 5))]
    exact ((dat2 (atTc (W4 m)) c).arrAt_in 2 rfl _).trans (A_eq2 (atTc (W4 m)) c 2)
  | ⟨3, _⟩ =>
    show _ = W5 m c (Proc.devRef .tc (Pipeline.arrRef spec2 3))
    unfold W5; rw [Function.update_of_ne (StableHlo.devRef_ne_of_ne (fun e => absurd (launch2.win.arr_inj e) (by decide)) : (Proc.devRef .tc (Pipeline.arrRef spec2 3) : DevRef τ sig) ≠ Proc.devRef .tc (Pipeline.arrRef spec2 5))]
    exact ((dat2 (atTc (W4 m)) c).arrAt_in 3 rfl _).trans (A_eq2 (atTc (W4 m)) c 3)
  | ⟨4, _⟩ =>
    show _ = W5 m c (Proc.devRef .tc (Pipeline.arrRef spec2 4))
    unfold W5; rw [Function.update_of_ne (StableHlo.devRef_ne_of_ne (fun e => absurd (launch2.win.arr_inj e) (by decide)) : (Proc.devRef .tc (Pipeline.arrRef spec2 4) : DevRef τ sig) ≠ Proc.devRef .tc (Pipeline.arrRef spec2 5))]
    exact ((dat2 (atTc (W4 m)) c).arrAt_in 4 rfl _).trans (A_eq2 (atTc (W4 m)) c 4)
  | ⟨5, _⟩ =>
    show _ = W5 m c (Proc.devRef .tc (Pipeline.arrRef spec2 5))
    unfold W5; rw [Function.update_self]
    rfl
theorem hrest2 (c : Dev nD) : ∀ b, b ∉ Finset.univ.image (Pipeline.arrRef spec2) → atTc (W5 m) c b = atTc (W4 m) c b := by
  intro b hb
  show W5 m c (Proc.devRef .tc b) = W4 m c (Proc.devRef .tc b)
  unfold W5
  rw [Function.update_of_ne (StableHlo.devRef_ne_of_ne (fun e => hb (Finset.mem_image.mpr ⟨5, Finset.mem_univ _, e.symm⟩)))]
set_option maxHeartbeats 2000000 in
theorem hF3 (c : Dev nD) (w : Fin cfg3.W) : (dat3 (atTc (W6 m)) c).arrAt w cfg3.N = atTc (W7 m) c (Pipeline.arrRef spec3 w) := by
  match w with
  | ⟨0, _⟩ =>
    show _ = W7 m c (Proc.devRef .tc (Pipeline.arrRef spec3 0))
    unfold W7; rw [Function.update_of_ne (StableHlo.devRef_ne_of_ne (fun e => absurd (launch3.win.arr_inj e) (by decide)) : (Proc.devRef .tc (Pipeline.arrRef spec3 0) : DevRef τ sig) ≠ Proc.devRef .tc (Pipeline.arrRef spec3 2))]
    exact ((dat3 (atTc (W6 m)) c).arrAt_in 0 rfl _).trans (A_eq3 (atTc (W6 m)) c 0)
  | ⟨1, _⟩ =>
    show _ = W7 m c (Proc.devRef .tc (Pipeline.arrRef spec3 1))
    unfold W7; rw [Function.update_of_ne (StableHlo.devRef_ne_of_ne (fun e => absurd (launch3.win.arr_inj e) (by decide)) : (Proc.devRef .tc (Pipeline.arrRef spec3 1) : DevRef τ sig) ≠ Proc.devRef .tc (Pipeline.arrRef spec3 2))]
    exact ((dat3 (atTc (W6 m)) c).arrAt_in 1 rfl _).trans (A_eq3 (atTc (W6 m)) c 1)
  | ⟨2, _⟩ =>
    show _ = W7 m c (Proc.devRef .tc (Pipeline.arrRef spec3 2))
    unfold W7; rw [Function.update_self]
    rfl
theorem hrest3 (c : Dev nD) : ∀ b, b ∉ Finset.univ.image (Pipeline.arrRef spec3) → atTc (W7 m) c b = atTc (W6 m) c b := by
  intro b hb
  show W7 m c (Proc.devRef .tc b) = W6 m c (Proc.devRef .tc b)
  unfold W7
  rw [Function.update_of_ne (StableHlo.devRef_ne_of_ne (fun e => hb (Finset.mem_image.mpr ⟨2, Finset.mem_univ _, e.symm⟩)))]
set_option maxHeartbeats 2000000 in
theorem hF4 (c : Dev nD) (w : Fin cfg4.W) : (dat4 (atTc (W8 m)) c).arrAt w cfg4.N = atTc (W9 m) c (Pipeline.arrRef spec4 w) := by
  match w with
  | ⟨0, _⟩ =>
    show _ = W9 m c (Proc.devRef .tc (Pipeline.arrRef spec4 0))
    unfold W9; rw [Function.update_of_ne (StableHlo.devRef_ne_of_ne (fun e => absurd (launch4.win.arr_inj e) (by decide)) : (Proc.devRef .tc (Pipeline.arrRef spec4 0) : DevRef τ sig) ≠ Proc.devRef .tc (Pipeline.arrRef spec4 2))]; rw [Function.update_of_ne (StableHlo.devRef_ne_of_ne (fun e => absurd (launch4.win.arr_inj e) (by decide)) : (Proc.devRef .tc (Pipeline.arrRef spec4 0) : DevRef τ sig) ≠ Proc.devRef .tc (Pipeline.arrRef spec4 1))]
    exact ((dat4 (atTc (W8 m)) c).arrAt_in 0 rfl _).trans (A_eq4 (atTc (W8 m)) c 0)
  | ⟨1, _⟩ =>
    show _ = W9 m c (Proc.devRef .tc (Pipeline.arrRef spec4 1))
    unfold W9; rw [Function.update_of_ne (StableHlo.devRef_ne_of_ne (fun e => absurd (launch4.win.arr_inj e) (by decide)) : (Proc.devRef .tc (Pipeline.arrRef spec4 1) : DevRef τ sig) ≠ Proc.devRef .tc (Pipeline.arrRef spec4 2))]; rw [Function.update_self]
    rfl
  | ⟨2, _⟩ =>
    show _ = W9 m c (Proc.devRef .tc (Pipeline.arrRef spec4 2))
    unfold W9; rw [Function.update_self]
    rfl
theorem hrest4 (c : Dev nD) : ∀ b, b ∉ Finset.univ.image (Pipeline.arrRef spec4) → atTc (W9 m) c b = atTc (W8 m) c b := by
  intro b hb
  show W9 m c (Proc.devRef .tc b) = W8 m c (Proc.devRef .tc b)
  unfold W9
  rw [Function.update_of_ne (StableHlo.devRef_ne_of_ne (fun e => hb (Finset.mem_image.mpr ⟨2, Finset.mem_univ _, e.symm⟩)))]
  rw [Function.update_of_ne (StableHlo.devRef_ne_of_ne (fun e => hb (Finset.mem_image.mpr ⟨1, Finset.mem_univ _, e.symm⟩)))]
set_option maxHeartbeats 2000000 in
theorem hF5 (c : Dev nD) (w : Fin cfg5.W) : (dat5 (atTc (W9 m)) c).arrAt w cfg5.N = atTc (W10 m) c (Pipeline.arrRef spec5 w) := by
  match w with
  | ⟨0, _⟩ =>
    show _ = W10 m c (Proc.devRef .tc (Pipeline.arrRef spec5 0))
    unfold W10; rw [Function.update_of_ne (StableHlo.devRef_ne_of_ne (fun e => absurd (launch5.win.arr_inj e) (by decide)) : (Proc.devRef .tc (Pipeline.arrRef spec5 0) : DevRef τ sig) ≠ Proc.devRef .tc (Pipeline.arrRef spec5 5))]
    exact ((dat5 (atTc (W9 m)) c).arrAt_in 0 rfl _).trans (A_eq5 (atTc (W9 m)) c 0)
  | ⟨1, _⟩ =>
    show _ = W10 m c (Proc.devRef .tc (Pipeline.arrRef spec5 1))
    unfold W10; rw [Function.update_of_ne (StableHlo.devRef_ne_of_ne (fun e => absurd (launch5.win.arr_inj e) (by decide)) : (Proc.devRef .tc (Pipeline.arrRef spec5 1) : DevRef τ sig) ≠ Proc.devRef .tc (Pipeline.arrRef spec5 5))]
    exact ((dat5 (atTc (W9 m)) c).arrAt_in 1 rfl _).trans (A_eq5 (atTc (W9 m)) c 1)
  | ⟨2, _⟩ =>
    show _ = W10 m c (Proc.devRef .tc (Pipeline.arrRef spec5 2))
    unfold W10; rw [Function.update_of_ne (StableHlo.devRef_ne_of_ne (fun e => absurd (launch5.win.arr_inj e) (by decide)) : (Proc.devRef .tc (Pipeline.arrRef spec5 2) : DevRef τ sig) ≠ Proc.devRef .tc (Pipeline.arrRef spec5 5))]
    exact ((dat5 (atTc (W9 m)) c).arrAt_in 2 rfl _).trans (A_eq5 (atTc (W9 m)) c 2)
  | ⟨3, _⟩ =>
    show _ = W10 m c (Proc.devRef .tc (Pipeline.arrRef spec5 3))
    unfold W10; rw [Function.update_of_ne (StableHlo.devRef_ne_of_ne (fun e => absurd (launch5.win.arr_inj e) (by decide)) : (Proc.devRef .tc (Pipeline.arrRef spec5 3) : DevRef τ sig) ≠ Proc.devRef .tc (Pipeline.arrRef spec5 5))]
    exact ((dat5 (atTc (W9 m)) c).arrAt_in 3 rfl _).trans (A_eq5 (atTc (W9 m)) c 3)
  | ⟨4, _⟩ =>
    show _ = W10 m c (Proc.devRef .tc (Pipeline.arrRef spec5 4))
    unfold W10; rw [Function.update_of_ne (StableHlo.devRef_ne_of_ne (fun e => absurd (launch5.win.arr_inj e) (by decide)) : (Proc.devRef .tc (Pipeline.arrRef spec5 4) : DevRef τ sig) ≠ Proc.devRef .tc (Pipeline.arrRef spec5 5))]
    exact ((dat5 (atTc (W9 m)) c).arrAt_in 4 rfl _).trans (A_eq5 (atTc (W9 m)) c 4)
  | ⟨5, _⟩ =>
    show _ = W10 m c (Proc.devRef .tc (Pipeline.arrRef spec5 5))
    unfold W10; rw [Function.update_self]
    rfl
theorem hrest5 (c : Dev nD) : ∀ b, b ∉ Finset.univ.image (Pipeline.arrRef spec5) → atTc (W10 m) c b = atTc (W9 m) c b := by
  intro b hb
  show W10 m c (Proc.devRef .tc b) = W9 m c (Proc.devRef .tc b)
  unfold W10
  rw [Function.update_of_ne (StableHlo.devRef_ne_of_ne (fun e => hb (Finset.mem_image.mpr ⟨5, Finset.mem_univ _, e.symm⟩)))]
set_option maxHeartbeats 2000000 in
theorem hF6 (c : Dev nD) (w : Fin cfg6.W) : (dat6 (atTc (W11 m)) c).arrAt w cfg6.N = atTc (W12 m) c (Pipeline.arrRef spec6 w) := by
  match w with
  | ⟨0, _⟩ =>
    show _ = W12 m c (Proc.devRef .tc (Pipeline.arrRef spec6 0))
    unfold W12; rw [Function.update_of_ne (StableHlo.devRef_ne_of_ne (fun e => absurd (launch6.win.arr_inj e) (by decide)) : (Proc.devRef .tc (Pipeline.arrRef spec6 0) : DevRef τ sig) ≠ Proc.devRef .tc (Pipeline.arrRef spec6 2))]
    exact ((dat6 (atTc (W11 m)) c).arrAt_in 0 rfl _).trans (A_eq6 (atTc (W11 m)) c 0)
  | ⟨1, _⟩ =>
    show _ = W12 m c (Proc.devRef .tc (Pipeline.arrRef spec6 1))
    unfold W12; rw [Function.update_of_ne (StableHlo.devRef_ne_of_ne (fun e => absurd (launch6.win.arr_inj e) (by decide)) : (Proc.devRef .tc (Pipeline.arrRef spec6 1) : DevRef τ sig) ≠ Proc.devRef .tc (Pipeline.arrRef spec6 2))]
    exact ((dat6 (atTc (W11 m)) c).arrAt_in 1 rfl _).trans (A_eq6 (atTc (W11 m)) c 1)
  | ⟨2, _⟩ =>
    show _ = W12 m c (Proc.devRef .tc (Pipeline.arrRef spec6 2))
    unfold W12; rw [Function.update_self]
    rfl
theorem hrest6 (c : Dev nD) : ∀ b, b ∉ Finset.univ.image (Pipeline.arrRef spec6) → atTc (W12 m) c b = atTc (W11 m) c b := by
  intro b hb
  show W12 m c (Proc.devRef .tc b) = W11 m c (Proc.devRef .tc b)
  unfold W12
  rw [Function.update_of_ne (StableHlo.devRef_ne_of_ne (fun e => hb (Finset.mem_image.mpr ⟨2, Finset.mem_univ _, e.symm⟩)))]
set_option maxHeartbeats 2000000 in
theorem hF7 (c : Dev nD) (w : Fin cfg7.W) : (dat7 (atTc (W13 m)) c).arrAt w cfg7.N = atTc (W14 m) c (Pipeline.arrRef spec7 w) := by
  match w with
  | ⟨0, _⟩ =>
    show _ = W14 m c (Proc.devRef .tc (Pipeline.arrRef spec7 0))
    unfold W14; rw [Function.update_of_ne (StableHlo.devRef_ne_of_ne (fun e => absurd (launch7.win.arr_inj e) (by decide)) : (Proc.devRef .tc (Pipeline.arrRef spec7 0) : DevRef τ sig) ≠ Proc.devRef .tc (Pipeline.arrRef spec7 2))]; rw [Function.update_of_ne (StableHlo.devRef_ne_of_ne (fun e => absurd (launch7.win.arr_inj e) (by decide)) : (Proc.devRef .tc (Pipeline.arrRef spec7 0) : DevRef τ sig) ≠ Proc.devRef .tc (Pipeline.arrRef spec7 1))]
    exact ((dat7 (atTc (W13 m)) c).arrAt_in 0 rfl _).trans (A_eq7 (atTc (W13 m)) c 0)
  | ⟨1, _⟩ =>
    show _ = W14 m c (Proc.devRef .tc (Pipeline.arrRef spec7 1))
    unfold W14; rw [Function.update_of_ne (StableHlo.devRef_ne_of_ne (fun e => absurd (launch7.win.arr_inj e) (by decide)) : (Proc.devRef .tc (Pipeline.arrRef spec7 1) : DevRef τ sig) ≠ Proc.devRef .tc (Pipeline.arrRef spec7 2))]; rw [Function.update_self]
    rfl
  | ⟨2, _⟩ =>
    show _ = W14 m c (Proc.devRef .tc (Pipeline.arrRef spec7 2))
    unfold W14; rw [Function.update_self]
    rfl
theorem hrest7 (c : Dev nD) : ∀ b, b ∉ Finset.univ.image (Pipeline.arrRef spec7) → atTc (W14 m) c b = atTc (W13 m) c b := by
  intro b hb
  show W14 m c (Proc.devRef .tc b) = W13 m c (Proc.devRef .tc b)
  unfold W14
  rw [Function.update_of_ne (StableHlo.devRef_ne_of_ne (fun e => hb (Finset.mem_image.mpr ⟨2, Finset.mem_univ _, e.symm⟩)))]
  rw [Function.update_of_ne (StableHlo.devRef_ne_of_ne (fun e => hb (Finset.mem_image.mpr ⟨1, Finset.mem_univ _, e.symm⟩)))]
set_option maxHeartbeats 2000000 in
theorem hF8 (c : Dev nD) (w : Fin cfg8.W) : (dat8 (atTc (W14 m)) c).arrAt w cfg8.N = atTc (W15 m) c (Pipeline.arrRef spec8 w) := by
  match w with
  | ⟨0, _⟩ =>
    show _ = W15 m c (Proc.devRef .tc (Pipeline.arrRef spec8 0))
    unfold W15; rw [Function.update_of_ne (StableHlo.devRef_ne_of_ne (fun e => absurd (launch8.win.arr_inj e) (by decide)) : (Proc.devRef .tc (Pipeline.arrRef spec8 0) : DevRef τ sig) ≠ Proc.devRef .tc (Pipeline.arrRef spec8 5))]
    exact ((dat8 (atTc (W14 m)) c).arrAt_in 0 rfl _).trans (A_eq8 (atTc (W14 m)) c 0)
  | ⟨1, _⟩ =>
    show _ = W15 m c (Proc.devRef .tc (Pipeline.arrRef spec8 1))
    unfold W15; rw [Function.update_of_ne (StableHlo.devRef_ne_of_ne (fun e => absurd (launch8.win.arr_inj e) (by decide)) : (Proc.devRef .tc (Pipeline.arrRef spec8 1) : DevRef τ sig) ≠ Proc.devRef .tc (Pipeline.arrRef spec8 5))]
    exact ((dat8 (atTc (W14 m)) c).arrAt_in 1 rfl _).trans (A_eq8 (atTc (W14 m)) c 1)
  | ⟨2, _⟩ =>
    show _ = W15 m c (Proc.devRef .tc (Pipeline.arrRef spec8 2))
    unfold W15; rw [Function.update_of_ne (StableHlo.devRef_ne_of_ne (fun e => absurd (launch8.win.arr_inj e) (by decide)) : (Proc.devRef .tc (Pipeline.arrRef spec8 2) : DevRef τ sig) ≠ Proc.devRef .tc (Pipeline.arrRef spec8 5))]
    exact ((dat8 (atTc (W14 m)) c).arrAt_in 2 rfl _).trans (A_eq8 (atTc (W14 m)) c 2)
  | ⟨3, _⟩ =>
    show _ = W15 m c (Proc.devRef .tc (Pipeline.arrRef spec8 3))
    unfold W15; rw [Function.update_of_ne (StableHlo.devRef_ne_of_ne (fun e => absurd (launch8.win.arr_inj e) (by decide)) : (Proc.devRef .tc (Pipeline.arrRef spec8 3) : DevRef τ sig) ≠ Proc.devRef .tc (Pipeline.arrRef spec8 5))]
    exact ((dat8 (atTc (W14 m)) c).arrAt_in 3 rfl _).trans (A_eq8 (atTc (W14 m)) c 3)
  | ⟨4, _⟩ =>
    show _ = W15 m c (Proc.devRef .tc (Pipeline.arrRef spec8 4))
    unfold W15; rw [Function.update_of_ne (StableHlo.devRef_ne_of_ne (fun e => absurd (launch8.win.arr_inj e) (by decide)) : (Proc.devRef .tc (Pipeline.arrRef spec8 4) : DevRef τ sig) ≠ Proc.devRef .tc (Pipeline.arrRef spec8 5))]
    exact ((dat8 (atTc (W14 m)) c).arrAt_in 4 rfl _).trans (A_eq8 (atTc (W14 m)) c 4)
  | ⟨5, _⟩ =>
    show _ = W15 m c (Proc.devRef .tc (Pipeline.arrRef spec8 5))
    unfold W15; rw [Function.update_self]
    rfl
theorem hrest8 (c : Dev nD) : ∀ b, b ∉ Finset.univ.image (Pipeline.arrRef spec8) → atTc (W15 m) c b = atTc (W14 m) c b := by
  intro b hb
  show W15 m c (Proc.devRef .tc b) = W14 m c (Proc.devRef .tc b)
  unfold W15
  rw [Function.update_of_ne (StableHlo.devRef_ne_of_ne (fun e => hb (Finset.mem_image.mpr ⟨5, Finset.mem_univ _, e.symm⟩)))]
set_option maxHeartbeats 2000000 in
theorem hF9 (c : Dev nD) (w : Fin cfg9.W) : (dat9 (atTc (W17 m)) c).arrAt w cfg9.N = atTc (W18 m) c (Pipeline.arrRef spec9 w) := by
  match w with
  | ⟨0, _⟩ =>
    show _ = W18 m c (Proc.devRef .tc (Pipeline.arrRef spec9 0))
    unfold W18; rw [Function.update_of_ne (StableHlo.devRef_ne_of_ne (fun e => absurd (launch9.win.arr_inj e) (by decide)) : (Proc.devRef .tc (Pipeline.arrRef spec9 0) : DevRef τ sig) ≠ Proc.devRef .tc (Pipeline.arrRef spec9 2))]
    exact ((dat9 (atTc (W17 m)) c).arrAt_in 0 rfl _).trans (A_eq9 (atTc (W17 m)) c 0)
  | ⟨1, _⟩ =>
    show _ = W18 m c (Proc.devRef .tc (Pipeline.arrRef spec9 1))
    unfold W18; rw [Function.update_of_ne (StableHlo.devRef_ne_of_ne (fun e => absurd (launch9.win.arr_inj e) (by decide)) : (Proc.devRef .tc (Pipeline.arrRef spec9 1) : DevRef τ sig) ≠ Proc.devRef .tc (Pipeline.arrRef spec9 2))]
    exact ((dat9 (atTc (W17 m)) c).arrAt_in 1 rfl _).trans (A_eq9 (atTc (W17 m)) c 1)
  | ⟨2, _⟩ =>
    show _ = W18 m c (Proc.devRef .tc (Pipeline.arrRef spec9 2))
    unfold W18; rw [Function.update_self]
    rfl
theorem hrest9 (c : Dev nD) : ∀ b, b ∉ Finset.univ.image (Pipeline.arrRef spec9) → atTc (W18 m) c b = atTc (W17 m) c b := by
  intro b hb
  show W18 m c (Proc.devRef .tc b) = W17 m c (Proc.devRef .tc b)
  unfold W18
  rw [Function.update_of_ne (StableHlo.devRef_ne_of_ne (fun e => hb (Finset.mem_image.mpr ⟨2, Finset.mem_univ _, e.symm⟩)))]
set_option maxHeartbeats 2000000 in
theorem hF10 (c : Dev nD) (w : Fin cfg10.W) : (dat10 (atTc (W19 m)) c).arrAt w cfg10.N = atTc (W20 m) c (Pipeline.arrRef spec10 w) := by
  match w with
  | ⟨0, _⟩ =>
    show _ = W20 m c (Proc.devRef .tc (Pipeline.arrRef spec10 0))
    unfold W20; rw [Function.update_of_ne (StableHlo.devRef_ne_of_ne (fun e => absurd (launch10.win.arr_inj e) (by decide)) : (Proc.devRef .tc (Pipeline.arrRef spec10 0) : DevRef τ sig) ≠ Proc.devRef .tc (Pipeline.arrRef spec10 2))]; rw [Function.update_of_ne (StableHlo.devRef_ne_of_ne (fun e => absurd (launch10.win.arr_inj e) (by decide)) : (Proc.devRef .tc (Pipeline.arrRef spec10 0) : DevRef τ sig) ≠ Proc.devRef .tc (Pipeline.arrRef spec10 1))]
    exact ((dat10 (atTc (W19 m)) c).arrAt_in 0 rfl _).trans (A_eq10 (atTc (W19 m)) c 0)
  | ⟨1, _⟩ =>
    show _ = W20 m c (Proc.devRef .tc (Pipeline.arrRef spec10 1))
    unfold W20; rw [Function.update_of_ne (StableHlo.devRef_ne_of_ne (fun e => absurd (launch10.win.arr_inj e) (by decide)) : (Proc.devRef .tc (Pipeline.arrRef spec10 1) : DevRef τ sig) ≠ Proc.devRef .tc (Pipeline.arrRef spec10 2))]; rw [Function.update_self]
    rfl
  | ⟨2, _⟩ =>
    show _ = W20 m c (Proc.devRef .tc (Pipeline.arrRef spec10 2))
    unfold W20; rw [Function.update_self]
    rfl
theorem hrest10 (c : Dev nD) : ∀ b, b ∉ Finset.univ.image (Pipeline.arrRef spec10) → atTc (W20 m) c b = atTc (W19 m) c b := by
  intro b hb
  show W20 m c (Proc.devRef .tc b) = W19 m c (Proc.devRef .tc b)
  unfold W20
  rw [Function.update_of_ne (StableHlo.devRef_ne_of_ne (fun e => hb (Finset.mem_image.mpr ⟨2, Finset.mem_univ _, e.symm⟩)))]
  rw [Function.update_of_ne (StableHlo.devRef_ne_of_ne (fun e => hb (Finset.mem_image.mpr ⟨1, Finset.mem_univ _, e.symm⟩)))]
set_option maxHeartbeats 2000000 in
theorem hF11 (c : Dev nD) (w : Fin cfg11.W) : (dat11 (atTc (W20 m)) c).arrAt w cfg11.N = atTc (W21 m) c (Pipeline.arrRef spec11 w) := by
  match w with
  | ⟨0, _⟩ =>
    show _ = W21 m c (Proc.devRef .tc (Pipeline.arrRef spec11 0))
    unfold W21; rw [Function.update_of_ne (StableHlo.devRef_ne_of_ne (fun e => absurd (launch11.win.arr_inj e) (by decide)) : (Proc.devRef .tc (Pipeline.arrRef spec11 0) : DevRef τ sig) ≠ Proc.devRef .tc (Pipeline.arrRef spec11 5))]
    exact ((dat11 (atTc (W20 m)) c).arrAt_in 0 rfl _).trans (A_eq11 (atTc (W20 m)) c 0)
  | ⟨1, _⟩ =>
    show _ = W21 m c (Proc.devRef .tc (Pipeline.arrRef spec11 1))
    unfold W21; rw [Function.update_of_ne (StableHlo.devRef_ne_of_ne (fun e => absurd (launch11.win.arr_inj e) (by decide)) : (Proc.devRef .tc (Pipeline.arrRef spec11 1) : DevRef τ sig) ≠ Proc.devRef .tc (Pipeline.arrRef spec11 5))]
    exact ((dat11 (atTc (W20 m)) c).arrAt_in 1 rfl _).trans (A_eq11 (atTc (W20 m)) c 1)
  | ⟨2, _⟩ =>
    show _ = W21 m c (Proc.devRef .tc (Pipeline.arrRef spec11 2))
    unfold W21; rw [Function.update_of_ne (StableHlo.devRef_ne_of_ne (fun e => absurd (launch11.win.arr_inj e) (by decide)) : (Proc.devRef .tc (Pipeline.arrRef spec11 2) : DevRef τ sig) ≠ Proc.devRef .tc (Pipeline.arrRef spec11 5))]
    exact ((dat11 (atTc (W20 m)) c).arrAt_in 2 rfl _).trans (A_eq11 (atTc (W20 m)) c 2)
  | ⟨3, _⟩ =>
    show _ = W21 m c (Proc.devRef .tc (Pipeline.arrRef spec11 3))
    unfold W21; rw [Function.update_of_ne (StableHlo.devRef_ne_of_ne (fun e => absurd (launch11.win.arr_inj e) (by decide)) : (Proc.devRef .tc (Pipeline.arrRef spec11 3) : DevRef τ sig) ≠ Proc.devRef .tc (Pipeline.arrRef spec11 5))]
    exact ((dat11 (atTc (W20 m)) c).arrAt_in 3 rfl _).trans (A_eq11 (atTc (W20 m)) c 3)
  | ⟨4, _⟩ =>
    show _ = W21 m c (Proc.devRef .tc (Pipeline.arrRef spec11 4))
    unfold W21; rw [Function.update_of_ne (StableHlo.devRef_ne_of_ne (fun e => absurd (launch11.win.arr_inj e) (by decide)) : (Proc.devRef .tc (Pipeline.arrRef spec11 4) : DevRef τ sig) ≠ Proc.devRef .tc (Pipeline.arrRef spec11 5))]
    exact ((dat11 (atTc (W20 m)) c).arrAt_in 4 rfl _).trans (A_eq11 (atTc (W20 m)) c 4)
  | ⟨5, _⟩ =>
    show _ = W21 m c (Proc.devRef .tc (Pipeline.arrRef spec11 5))
    unfold W21; rw [Function.update_self]
    rfl
theorem hrest11 (c : Dev nD) : ∀ b, b ∉ Finset.univ.image (Pipeline.arrRef spec11) → atTc (W21 m) c b = atTc (W20 m) c b := by
  intro b hb
  show W21 m c (Proc.devRef .tc b) = W20 m c (Proc.devRef .tc b)
  unfold W21
  rw [Function.update_of_ne (StableHlo.devRef_ne_of_ne (fun e => hb (Finset.mem_image.mpr ⟨5, Finset.mem_univ _, e.symm⟩)))]
set_option maxHeartbeats 2000000 in
theorem hF12 (c : Dev nD) (w : Fin cfg12.W) : (dat12 (atTc (W22 m)) c).arrAt w cfg12.N = atTc (W23 m) c (Pipeline.arrRef spec12 w) := by
  match w with
  | ⟨0, _⟩ =>
    show _ = W23 m c (Proc.devRef .tc (Pipeline.arrRef spec12 0))
    unfold W23; rw [Function.update_of_ne (StableHlo.devRef_ne_of_ne (fun e => absurd (launch12.win.arr_inj e) (by decide)) : (Proc.devRef .tc (Pipeline.arrRef spec12 0) : DevRef τ sig) ≠ Proc.devRef .tc (Pipeline.arrRef spec12 2))]
    exact ((dat12 (atTc (W22 m)) c).arrAt_in 0 rfl _).trans (A_eq12 (atTc (W22 m)) c 0)
  | ⟨1, _⟩ =>
    show _ = W23 m c (Proc.devRef .tc (Pipeline.arrRef spec12 1))
    unfold W23; rw [Function.update_of_ne (StableHlo.devRef_ne_of_ne (fun e => absurd (launch12.win.arr_inj e) (by decide)) : (Proc.devRef .tc (Pipeline.arrRef spec12 1) : DevRef τ sig) ≠ Proc.devRef .tc (Pipeline.arrRef spec12 2))]
    exact ((dat12 (atTc (W22 m)) c).arrAt_in 1 rfl _).trans (A_eq12 (atTc (W22 m)) c 1)
  | ⟨2, _⟩ =>
    show _ = W23 m c (Proc.devRef .tc (Pipeline.arrRef spec12 2))
    unfold W23; rw [Function.update_self]
    rfl
theorem hrest12 (c : Dev nD) : ∀ b, b ∉ Finset.univ.image (Pipeline.arrRef spec12) → atTc (W23 m) c b = atTc (W22 m) c b := by
  intro b hb
  show W23 m c (Proc.devRef .tc b) = W22 m c (Proc.devRef .tc b)
  unfold W23
  rw [Function.update_of_ne (StableHlo.devRef_ne_of_ne (fun e => hb (Finset.mem_image.mpr ⟨2, Finset.mem_univ _, e.symm⟩)))]
set_option maxHeartbeats 2000000 in
theorem hF13 (c : Dev nD) (w : Fin cfg13.W) : (dat13 (atTc (W24 m)) c).arrAt w cfg13.N = atTc (W25 m) c (Pipeline.arrRef spec13 w) := by
  match w with
  | ⟨0, _⟩ =>
    show _ = W25 m c (Proc.devRef .tc (Pipeline.arrRef spec13 0))
    unfold W25; rw [Function.update_of_ne (StableHlo.devRef_ne_of_ne (fun e => absurd (launch13.win.arr_inj e) (by decide)) : (Proc.devRef .tc (Pipeline.arrRef spec13 0) : DevRef τ sig) ≠ Proc.devRef .tc (Pipeline.arrRef spec13 2))]; rw [Function.update_of_ne (StableHlo.devRef_ne_of_ne (fun e => absurd (launch13.win.arr_inj e) (by decide)) : (Proc.devRef .tc (Pipeline.arrRef spec13 0) : DevRef τ sig) ≠ Proc.devRef .tc (Pipeline.arrRef spec13 1))]
    exact ((dat13 (atTc (W24 m)) c).arrAt_in 0 rfl _).trans (A_eq13 (atTc (W24 m)) c 0)
  | ⟨1, _⟩ =>
    show _ = W25 m c (Proc.devRef .tc (Pipeline.arrRef spec13 1))
    unfold W25; rw [Function.update_of_ne (StableHlo.devRef_ne_of_ne (fun e => absurd (launch13.win.arr_inj e) (by decide)) : (Proc.devRef .tc (Pipeline.arrRef spec13 1) : DevRef τ sig) ≠ Proc.devRef .tc (Pipeline.arrRef spec13 2))]; rw [Function.update_self]
    rfl
  | ⟨2, _⟩ =>
    show _ = W25 m c (Proc.devRef .tc (Pipeline.arrRef spec13 2))
    unfold W25; rw [Function.update_self]
    rfl
theorem hrest13 (c : Dev nD) : ∀ b, b ∉ Finset.univ.image (Pipeline.arrRef spec13) → atTc (W25 m) c b = atTc (W24 m) c b := by
  intro b hb
  show W25 m c (Proc.devRef .tc b) = W24 m c (Proc.devRef .tc b)
  unfold W25
  rw [Function.update_of_ne (StableHlo.devRef_ne_of_ne (fun e => hb (Finset.mem_image.mpr ⟨2, Finset.mem_univ _, e.symm⟩)))]
  rw [Function.update_of_ne (StableHlo.devRef_ne_of_ne (fun e => hb (Finset.mem_image.mpr ⟨1, Finset.mem_univ _, e.symm⟩)))]
set_option maxHeartbeats 2000000 in
theorem hF14 (c : Dev nD) (w : Fin cfg14.W) : (dat14 (atTc (W25 m)) c).arrAt w cfg14.N = atTc (W26 m) c (Pipeline.arrRef spec14 w) := by
  match w with
  | ⟨0, _⟩ =>
    show _ = W26 m c (Proc.devRef .tc (Pipeline.arrRef spec14 0))
    unfold W26; rw [Function.update_of_ne (StableHlo.devRef_ne_of_ne (fun e => absurd (launch14.win.arr_inj e) (by decide)) : (Proc.devRef .tc (Pipeline.arrRef spec14 0) : DevRef τ sig) ≠ Proc.devRef .tc (Pipeline.arrRef spec14 5))]
    exact ((dat14 (atTc (W25 m)) c).arrAt_in 0 rfl _).trans (A_eq14 (atTc (W25 m)) c 0)
  | ⟨1, _⟩ =>
    show _ = W26 m c (Proc.devRef .tc (Pipeline.arrRef spec14 1))
    unfold W26; rw [Function.update_of_ne (StableHlo.devRef_ne_of_ne (fun e => absurd (launch14.win.arr_inj e) (by decide)) : (Proc.devRef .tc (Pipeline.arrRef spec14 1) : DevRef τ sig) ≠ Proc.devRef .tc (Pipeline.arrRef spec14 5))]
    exact ((dat14 (atTc (W25 m)) c).arrAt_in 1 rfl _).trans (A_eq14 (atTc (W25 m)) c 1)
  | ⟨2, _⟩ =>
    show _ = W26 m c (Proc.devRef .tc (Pipeline.arrRef spec14 2))
    unfold W26; rw [Function.update_of_ne (StableHlo.devRef_ne_of_ne (fun e => absurd (launch14.win.arr_inj e) (by decide)) : (Proc.devRef .tc (Pipeline.arrRef spec14 2) : DevRef τ sig) ≠ Proc.devRef .tc (Pipeline.arrRef spec14 5))]
    exact ((dat14 (atTc (W25 m)) c).arrAt_in 2 rfl _).trans (A_eq14 (atTc (W25 m)) c 2)
  | ⟨3, _⟩ =>
    show _ = W26 m c (Proc.devRef .tc (Pipeline.arrRef spec14 3))
    unfold W26; rw [Function.update_of_ne (StableHlo.devRef_ne_of_ne (fun e => absurd (launch14.win.arr_inj e) (by decide)) : (Proc.devRef .tc (Pipeline.arrRef spec14 3) : DevRef τ sig) ≠ Proc.devRef .tc (Pipeline.arrRef spec14 5))]
    exact ((dat14 (atTc (W25 m)) c).arrAt_in 3 rfl _).trans (A_eq14 (atTc (W25 m)) c 3)
  | ⟨4, _⟩ =>
    show _ = W26 m c (Proc.devRef .tc (Pipeline.arrRef spec14 4))
    unfold W26; rw [Function.update_of_ne (StableHlo.devRef_ne_of_ne (fun e => absurd (launch14.win.arr_inj e) (by decide)) : (Proc.devRef .tc (Pipeline.arrRef spec14 4) : DevRef τ sig) ≠ Proc.devRef .tc (Pipeline.arrRef spec14 5))]
    exact ((dat14 (atTc (W25 m)) c).arrAt_in 4 rfl _).trans (A_eq14 (atTc (W25 m)) c 4)
  | ⟨5, _⟩ =>
    show _ = W26 m c (Proc.devRef .tc (Pipeline.arrRef spec14 5))
    unfold W26; rw [Function.update_self]
    rfl
theorem hrest14 (c : Dev nD) : ∀ b, b ∉ Finset.univ.image (Pipeline.arrRef spec14) → atTc (W26 m) c b = atTc (W25 m) c b := by
  intro b hb
  show W26 m c (Proc.devRef .tc b) = W25 m c (Proc.devRef .tc b)
  unfold W26
  rw [Function.update_of_ne (StableHlo.devRef_ne_of_ne (fun e => hb (Finset.mem_image.mpr ⟨5, Finset.mem_univ _, e.symm⟩)))]

/-! ## The proof data family and the regions as segments -/

def pdats : (p : Fin 15) → (c : Dev nD) → Dat τ (Elt F) Unit ℕ (UR sig nD τ) ℕ (Pipeline.pin (pcfgs (F := F)) adm p) c
  | ⟨0, _⟩ => fun c => dat0 (atTc (W1 m)) c
  | ⟨1, _⟩ => fun c => dat1 (atTc (W3 m)) c
  | ⟨2, _⟩ => fun c => dat2 (atTc (W4 m)) c
  | ⟨3, _⟩ => fun c => dat3 (atTc (W6 m)) c
  | ⟨4, _⟩ => fun c => dat4 (atTc (W8 m)) c
  | ⟨5, _⟩ => fun c => dat5 (atTc (W9 m)) c
  | ⟨6, _⟩ => fun c => dat6 (atTc (W11 m)) c
  | ⟨7, _⟩ => fun c => dat7 (atTc (W13 m)) c
  | ⟨8, _⟩ => fun c => dat8 (atTc (W14 m)) c
  | ⟨9, _⟩ => fun c => dat9 (atTc (W17 m)) c
  | ⟨10, _⟩ => fun c => dat10 (atTc (W19 m)) c
  | ⟨11, _⟩ => fun c => dat11 (atTc (W20 m)) c
  | ⟨12, _⟩ => fun c => dat12 (atTc (W22 m)) c
  | ⟨13, _⟩ => fun c => dat13 (atTc (W24 m)) c
  | ⟨14, _⟩ => fun c => dat14 (atTc (W25 m)) c

/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

def reg0 : Pipeline.RegionSeg (pcfgs (F := F)) adm (pdats m) () defs₀ 𝒱₀ L lv 0 :=
  regOf (pdats m) 0 launch0 (fun _ => .rfl) (fun _ => .rfl)
    (fun _ _ => rfl) (fun _ _ => rfl) (fun _ _ => rfl) (fun c => body_obligation0 (atTc (W1 m)) c)
    (W1 m) (W2 m) (fun c w => A_eq0 (atTc (W1 m)) c w) (hF0 m) (hrest0 m)
def reg1 : Pipeline.RegionSeg (pcfgs (F := F)) adm (pdats m) () defs₀ 𝒱₀ L lv 1 :=
  regOf (pdats m) 1 launch1 (fun c => hin1 (atTc (W3 m)) c) (fun c => hout1 (atTc (W3 m)) c)
    (fun _ _ => rfl) (fun _ _ => rfl) (fun _ _ => rfl) (fun c => body_obligation1 (atTc (W3 m)) c)
    (W3 m) (W4 m) (fun c w => A_eq1 (atTc (W3 m)) c w) (hF1 m) (hrest1 m)
def reg2 : Pipeline.RegionSeg (pcfgs (F := F)) adm (pdats m) () defs₀ 𝒱₀ L lv 2 :=
  regOf (pdats m) 2 launch2 (fun _ => .rfl) (fun _ => .rfl)
    (fun _ _ => rfl) (fun _ _ => rfl) (fun _ _ => rfl) (fun c => body_obligation2 (atTc (W4 m)) c)
    (W4 m) (W5 m) (fun c w => A_eq2 (atTc (W4 m)) c w) (hF2 m) (hrest2 m)
def reg3 : Pipeline.RegionSeg (pcfgs (F := F)) adm (pdats m) () defs₀ 𝒱₀ L lv 3 :=
  regOf (pdats m) 3 launch3 (fun _ => .rfl) (fun _ => .rfl)
    (fun _ _ => rfl) (fun _ _ => rfl) (fun _ _ => rfl) (fun c => body_obligation3 (atTc (W6 m)) c)
    (W6 m) (W7 m) (fun c w => A_eq3 (atTc (W6 m)) c w) (hF3 m) (hrest3 m)
def reg4 : Pipeline.RegionSeg (pcfgs (F := F)) adm (pdats m) () defs₀ 𝒱₀ L lv 4 :=
  regOf (pdats m) 4 launch4 (fun c => hin4 (atTc (W8 m)) c) (fun c => hout4 (atTc (W8 m)) c)
    (fun _ _ => rfl) (fun _ _ => rfl) (fun _ _ => rfl) (fun c => body_obligation4 (atTc (W8 m)) c)
    (W8 m) (W9 m) (fun c w => A_eq4 (atTc (W8 m)) c w) (hF4 m) (hrest4 m)
def reg5 : Pipeline.RegionSeg (pcfgs (F := F)) adm (pdats m) () defs₀ 𝒱₀ L lv 5 :=
  regOf (pdats m) 5 launch5 (fun _ => .rfl) (fun _ => .rfl)
    (fun _ _ => rfl) (fun _ _ => rfl) (fun _ _ => rfl) (fun c => body_obligation5 (atTc (W9 m)) c)
    (W9 m) (W10 m) (fun c w => A_eq5 (atTc (W9 m)) c w) (hF5 m) (hrest5 m)
def reg6 : Pipeline.RegionSeg (pcfgs (F := F)) adm (pdats m) () defs₀ 𝒱₀ L lv 6 :=
  regOf (pdats m) 6 launch6 (fun _ => .rfl) (fun _ => .rfl)
    (fun _ _ => rfl) (fun _ _ => rfl) (fun _ _ => rfl) (fun c => body_obligation6 (atTc (W11 m)) c)
    (W11 m) (W12 m) (fun c w => A_eq6 (atTc (W11 m)) c w) (hF6 m) (hrest6 m)
def reg7 : Pipeline.RegionSeg (pcfgs (F := F)) adm (pdats m) () defs₀ 𝒱₀ L lv 7 :=
  regOf (pdats m) 7 launch7 (fun c => hin7 (atTc (W13 m)) c) (fun c => hout7 (atTc (W13 m)) c)
    (fun _ _ => rfl) (fun _ _ => rfl) (fun _ _ => rfl) (fun c => body_obligation7 (atTc (W13 m)) c)
    (W13 m) (W14 m) (fun c w => A_eq7 (atTc (W13 m)) c w) (hF7 m) (hrest7 m)
def reg8 : Pipeline.RegionSeg (pcfgs (F := F)) adm (pdats m) () defs₀ 𝒱₀ L lv 8 :=
  regOf (pdats m) 8 launch8 (fun _ => .rfl) (fun _ => .rfl)
    (fun _ _ => rfl) (fun _ _ => rfl) (fun _ _ => rfl) (fun c => body_obligation8 (atTc (W14 m)) c)
    (W14 m) (W15 m) (fun c w => A_eq8 (atTc (W14 m)) c w) (hF8 m) (hrest8 m)
def reg9 : Pipeline.RegionSeg (pcfgs (F := F)) adm (pdats m) () defs₀ 𝒱₀ L lv 9 :=
  regOf (pdats m) 9 launch9 (fun _ => .rfl) (fun _ => .rfl)
    (fun _ _ => rfl) (fun _ _ => rfl) (fun _ _ => rfl) (fun c => body_obligation9 (atTc (W17 m)) c)
    (W17 m) (W18 m) (fun c w => A_eq9 (atTc (W17 m)) c w) (hF9 m) (hrest9 m)
def reg10 : Pipeline.RegionSeg (pcfgs (F := F)) adm (pdats m) () defs₀ 𝒱₀ L lv 10 :=
  regOf (pdats m) 10 launch10 (fun c => hin10 (atTc (W19 m)) c) (fun c => hout10 (atTc (W19 m)) c)
    (fun _ _ => rfl) (fun _ _ => rfl) (fun _ _ => rfl) (fun c => body_obligation10 (atTc (W19 m)) c)
    (W19 m) (W20 m) (fun c w => A_eq10 (atTc (W19 m)) c w) (hF10 m) (hrest10 m)
def reg11 : Pipeline.RegionSeg (pcfgs (F := F)) adm (pdats m) () defs₀ 𝒱₀ L lv 11 :=
  regOf (pdats m) 11 launch11 (fun _ => .rfl) (fun _ => .rfl)
    (fun _ _ => rfl) (fun _ _ => rfl) (fun _ _ => rfl) (fun c => body_obligation11 (atTc (W20 m)) c)
    (W20 m) (W21 m) (fun c w => A_eq11 (atTc (W20 m)) c w) (hF11 m) (hrest11 m)
def reg12 : Pipeline.RegionSeg (pcfgs (F := F)) adm (pdats m) () defs₀ 𝒱₀ L lv 12 :=
  regOf (pdats m) 12 launch12 (fun _ => .rfl) (fun _ => .rfl)
    (fun _ _ => rfl) (fun _ _ => rfl) (fun _ _ => rfl) (fun c => body_obligation12 (atTc (W22 m)) c)
    (W22 m) (W23 m) (fun c w => A_eq12 (atTc (W22 m)) c w) (hF12 m) (hrest12 m)
def reg13 : Pipeline.RegionSeg (pcfgs (F := F)) adm (pdats m) () defs₀ 𝒱₀ L lv 13 :=
  regOf (pdats m) 13 launch13 (fun c => hin13 (atTc (W24 m)) c) (fun c => hout13 (atTc (W24 m)) c)
    (fun _ _ => rfl) (fun _ _ => rfl) (fun _ _ => rfl) (fun c => body_obligation13 (atTc (W24 m)) c)
    (W24 m) (W25 m) (fun c w => A_eq13 (atTc (W24 m)) c w) (hF13 m) (hrest13 m)
def reg14 : Pipeline.RegionSeg (pcfgs (F := F)) adm (pdats m) () defs₀ 𝒱₀ L lv 14 :=
  regOf (pdats m) 14 launch14 (fun _ => .rfl) (fun _ => .rfl)
    (fun _ _ => rfl) (fun _ _ => rfl) (fun _ _ => rfl) (fun c => body_obligation14 (atTc (W25 m)) c)
    (W25 m) (W26 m) (fun c w => A_eq14 (atTc (W25 m)) c w) (hF14 m) (hrest14 m)

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .host (hseg hostOps4 hostOps4_sub hostOps4_fresh (W7 m)),
    .region (reg4 m),
    .region (reg5 m),
    .host (hseg hostOps6 hostOps6_sub hostOps6_fresh (W10 m)),
    .region (reg6 m),
    .host (hseg hostOps7 hostOps7_sub hostOps7_fresh (W12 m)),
    .region (reg7 m),
    .region (reg8 m),
    .host (hseg hostOps9 hostOps9_sub hostOps9_fresh (W15 m)),
    .host (hseg hostOps9_1 hostOps9_1_sub hostOps9_1_fresh (W16 m)),
    .region (reg9 m),
    .host (hseg hostOps10 hostOps10_sub hostOps10_fresh (W18 m)),
    .region (reg10 m),
    .region (reg11 m),
    .host (hseg hostOps12 hostOps12_sub hostOps12_fresh (W21 m)),
    .region (reg12 m),
    .host (hseg hostOps13 hostOps13_sub hostOps13_fresh (W23 m)),
    .region (reg13 m),
    .region (reg14 m) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every weakly fair execution of the program from the memory `m` with zero counters terminates, nothing
    faulting, and every final memory holds each unscoped buffer at the last contents `W26`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W26 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          StableHlo.seq hostOps6,
          Prog.lift (.customCall (Pipeline.entry 6) ()),
          StableHlo.seq hostOps7,
          Prog.lift (.customCall (Pipeline.entry 7) ()),
          Prog.lift (.customCall (Pipeline.entry 8) ()),
          StableHlo.seq hostOps9,
          StableHlo.seq hostOps9_1,
          Prog.lift (.customCall (Pipeline.entry 9) ()),
          StableHlo.seq hostOps10,
          Prog.lift (.customCall (Pipeline.entry 10) ()),
          Prog.lift (.customCall (Pipeline.entry 11) ()),
          StableHlo.seq hostOps12,
          Prog.lift (.customCall (Pipeline.entry 12) ()),
          StableHlo.seq hostOps13,
          Prog.lift (.customCall (Pipeline.entry 13) ()),
          Prog.lift (.customCall (Pipeline.entry 14) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W26 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W26 m c) ∗ (∃ r, prngReg c r) ∗ ∃ W, owes (c : Thread nD τ) (0 : CellTallies nD τ sig Unit) W) : sProp 𝕄) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m c b)
    (hfin := fun c s' => by
      iintro ⟨⟨Hh, -⟩, HSI⟩
      unfold StableHlo.held
      imodintro
      iapply (pointsTo_read_all (Pipeline.ucRefs τ sig) (fun b => (((c : Thread nD τ)).1, b)) (W26 m c) s')
      isplitl [Hh] <;> iassumption)
    (hQ := fun s h c => h c)

end Cert.Kernel.Regs

end
-- ==== Proof.RunFactsBits.lean ====
import proofs.«180908_j8211977470570_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180908_j8211977470570_1_alg».proof.Proof.AssemblyBits
set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves unchanged -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ ([Pipeline.arrRef spec0 2] : List (Ref sig .tc))) : W2 m c (Proc.devRef .tc r) = W1 m c (Proc.devRef .tc r) := by
  unfold W2
  rw [Function.update_of_ne (StableHlo.devRef_ne_of_ne (List.ne_of_not_mem_cons h))]
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ∉ ([Pipeline.arrRef spec1 1, Pipeline.arrRef spec1 2] : List (Ref sig .tc))) : W4 m c (Proc.devRef .tc r) = W3 m c (Proc.devRef .tc r) := by
  unfold W4
  rw [Function.update_of_ne (StableHlo.devRef_ne_of_ne (List.ne_of_not_mem_cons (List.not_mem_of_not_mem_cons h)))]
  rw [Function.update_of_ne (StableHlo.devRef_ne_of_ne (List.ne_of_not_mem_cons h))]
theorem W5_of (c : Dev nD) (r : Ref sig .tc) (h : r ∉ ([Pipeline.arrRef spec2 5] : List (Ref sig .tc))) : W5 m c (Proc.devRef .tc r) = W4 m c (Proc.devRef .tc r) := by
  unfold W5
  rw [Function.update_of_ne (StableHlo.devRef_ne_of_ne (List.ne_of_not_mem_cons h))]
theorem W6_of (c : Dev nD) (r : Ref sig .tc) (h : r ∉ hostOps3_W) : W6 m c (Proc.devRef .tc r) = W5 m c (Proc.devRef .tc r) :=
  StableHlo.after_of_writes_sub hostOps3 _ hostOps3_writes h
theorem W7_of (c : Dev nD) (r : Ref sig .tc) (h : r ∉ ([Pipeline.arrRef spec3 2] : List (Ref sig .tc))) : W7 m c (Proc.devRef .tc r) = W6 m c (Proc.devRef .tc r) := by
  unfold W7
  rw [Function.update_of_ne (StableHlo.devRef_ne_of_ne (List.ne_of_not_mem_cons h))]
theorem W8_of (c : Dev nD) (r : Ref sig .tc) (h : r ∉ hostOps4_W) : W8 m c (Proc.devRef .tc r) = W7 m c (Proc.devRef .tc r) :=
  StableHlo.after_of_writes_sub hostOps4 _ hostOps4_writes h
theorem W9_of (c : Dev nD) (r : Ref sig .tc) (h : r ∉ ([Pipeline.arrRef spec4 1, Pipeline.arrRef spec4 2] : List (Ref sig .tc))) : W9 m c (Proc.devRef .tc r) = W8 m c (Proc.devRef .tc r) := by
  unfold W9
  rw [Function.update_of_ne (StableHlo.devRef_ne_of_ne (List.ne_of_not_mem_cons (List.not_mem_of_not_mem_cons h)))]
  rw [Function.update_of_ne (StableHlo.devRef_ne_of_ne (List.ne_of_not_mem_cons h))]
theorem W10_of (c : Dev nD) (r : Ref sig .tc) (h : r ∉ ([Pipeline.arrRef spec5 5] : List (Ref sig .tc))) : W10 m c (Proc.devRef .tc r) = W9 m c (Proc.devRef .tc r) := by
  unfold W10
  rw [Function.update_of_ne (StableHlo.devRef_ne_of_ne (List.ne_of_not_mem_cons h))]
theorem W11_of (c : Dev nD) (r : Ref sig .tc) (h : r ∉ hostOps6_W) : W11 m c (Proc.devRef .tc r) = W10 m c (Proc.devRef .tc r) :=
  StableHlo.after_of_writes_sub hostOps6 _ hostOps6_writes h
theorem W12_of (c : Dev nD) (r : Ref sig .tc) (h : r ∉ ([Pipeline.arrRef spec6 2] : List (Ref sig .tc))) : W12 m c (Proc.devRef .tc r) = W11 m c (Proc.devRef .tc r) := by
  unfold W12
  rw [Function.update_of_ne (StableHlo.devRef_ne_of_ne (List.ne_of_not_mem_cons h))]
theorem W13_of (c : Dev nD) (r : Ref sig .tc) (h : r ∉ hostOps7_W) : W13 m c (Proc.devRef .tc r) = W12 m c (Proc.devRef .tc r) :=
  StableHlo.after_of_writes_sub hostOps7 _ hostOps7_writes h
theorem W14_of (c : Dev nD) (r : Ref sig .tc) (h : r ∉ ([Pipeline.arrRef spec7 1, Pipeline.arrRef spec7 2] : List (Ref sig .tc))) : W14 m c (Proc.devRef .tc r) = W13 m c (Proc.devRef .tc r) := by
  unfold W14
  rw [Function.update_of_ne (StableHlo.devRef_ne_of_ne (List.ne_of_not_mem_cons (List.not_mem_of_not_mem_cons h)))]
  rw [Function.update_of_ne (StableHlo.devRef_ne_of_ne (List.ne_of_not_mem_cons h))]
theorem W15_of (c : Dev nD) (r : Ref sig .tc) (h : r ∉ ([Pipeline.arrRef spec8 5] : List (Ref sig .tc))) : W15 m c (Proc.devRef .tc r) = W14 m c (Proc.devRef .tc r) := by
  unfold W15
  rw [Function.update_of_ne (StableHlo.devRef_ne_of_ne (List.ne_of_not_mem_cons h))]
theorem W16_of (c : Dev nD) (r : Ref sig .tc) (h : r ∉ hostOps9_W) : W16 m c (Proc.devRef .tc r) = W15 m c (Proc.devRef .tc r) :=
  StableHlo.after_of_writes_sub hostOps9 _ hostOps9_writes h
theorem W17_of (c : Dev nD) (r : Ref sig .tc) (h : r ∉ hostOps9_1_W) : W17 m c (Proc.devRef .tc r) = W16 m c (Proc.devRef .tc r) :=
  StableHlo.after_of_writes_sub hostOps9_1 _ hostOps9_1_writes h
theorem W18_of (c : Dev nD) (r : Ref sig .tc) (h : r ∉ ([Pipeline.arrRef spec9 2] : List (Ref sig .tc))) : W18 m c (Proc.devRef .tc r) = W17 m c (Proc.devRef .tc r) := by
  unfold W18
  rw [Function.update_of_ne (StableHlo.devRef_ne_of_ne (List.ne_of_not_mem_cons h))]
theorem W19_of (c : Dev nD) (r : Ref sig .tc) (h : r ∉ hostOps10_W) : W19 m c (Proc.devRef .tc r) = W18 m c (Proc.devRef .tc r) :=
  StableHlo.after_of_writes_sub hostOps10 _ hostOps10_writes h
theorem W20_of (c : Dev nD) (r : Ref sig .tc) (h : r ∉ ([Pipeline.arrRef spec10 1, Pipeline.arrRef spec10 2] : List (Ref sig .tc))) : W20 m c (Proc.devRef .tc r) = W19 m c (Proc.devRef .tc r) := by
  unfold W20
  rw [Function.update_of_ne (StableHlo.devRef_ne_of_ne (List.ne_of_not_mem_cons (List.not_mem_of_not_mem_cons h)))]
  rw [Function.update_of_ne (StableHlo.devRef_ne_of_ne (List.ne_of_not_mem_cons h))]
theorem W21_of (c : Dev nD) (r : Ref sig .tc) (h : r ∉ ([Pipeline.arrRef spec11 5] : List (Ref sig .tc))) : W21 m c (Proc.devRef .tc r) = W20 m c (Proc.devRef .tc r) := by
  unfold W21
  rw [Function.update_of_ne (StableHlo.devRef_ne_of_ne (List.ne_of_not_mem_cons h))]
theorem W22_of (c : Dev nD) (r : Ref sig .tc) (h : r ∉ hostOps12_W) : W22 m c (Proc.devRef .tc r) = W21 m c (Proc.devRef .tc r) :=
  StableHlo.after_of_writes_sub hostOps12 _ hostOps12_writes h
theorem W23_of (c : Dev nD) (r : Ref sig .tc) (h : r ∉ ([Pipeline.arrRef spec12 2] : List (Ref sig .tc))) : W23 m c (Proc.devRef .tc r) = W22 m c (Proc.devRef .tc r) := by
  unfold W23
  rw [Function.update_of_ne (StableHlo.devRef_ne_of_ne (List.ne_of_not_mem_cons h))]
theorem W24_of (c : Dev nD) (r : Ref sig .tc) (h : r ∉ hostOps13_W) : W24 m c (Proc.devRef .tc r) = W23 m c (Proc.devRef .tc r) :=
  StableHlo.after_of_writes_sub hostOps13 _ hostOps13_writes h
theorem W25_of (c : Dev nD) (r : Ref sig .tc) (h : r ∉ ([Pipeline.arrRef spec13 1, Pipeline.arrRef spec13 2] : List (Ref sig .tc))) : W25 m c (Proc.devRef .tc r) = W24 m c (Proc.devRef .tc r) := by
  unfold W25
  rw [Function.update_of_ne (StableHlo.devRef_ne_of_ne (List.ne_of_not_mem_cons (List.not_mem_of_not_mem_cons h)))]
  rw [Function.update_of_ne (StableHlo.devRef_ne_of_ne (List.ne_of_not_mem_cons h))]
theorem W26_of (c : Dev nD) (r : Ref sig .tc) (h : r ∉ ([Pipeline.arrRef spec14 5] : List (Ref sig .tc))) : W26 m c (Proc.devRef .tc r) = W25 m c (Proc.devRef .tc r) := by
  unfold W26
  rw [Function.update_of_ne (StableHlo.devRef_ne_of_ne (List.ne_of_not_mem_cons h))]

/-! ## No item writes an argument -/

theorem W26_main_arg0 (c : Dev nD) : W26 m c (Proc.devRef .tc main_arg0) = m ((c : Thread nD τ).loc main_arg0) :=
  (W26_of m c main_arg0 (by decide)).trans <| (W25_of m c main_arg0 (by decide)).trans <| (W24_of m c main_arg0 (by decide)).trans <| (W23_of m c main_arg0 (by decide)).trans <| (W22_of m c main_arg0 (by decide)).trans <| (W21_of m c main_arg0 (by decide)).trans <| (W20_of m c main_arg0 (by decide)).trans <| (W19_of m c main_arg0 (by decide)).trans <| (W18_of m c main_arg0 (by decide)).trans <| (W17_of m c main_arg0 (by decide)).trans <| (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem W26_main_arg1 (c : Dev nD) : W26 m c (Proc.devRef .tc main_arg1) = m ((c : Thread nD τ).loc main_arg1) :=
  (W26_of m c main_arg1 (by decide)).trans <| (W25_of m c main_arg1 (by decide)).trans <| (W24_of m c main_arg1 (by decide)).trans <| (W23_of m c main_arg1 (by decide)).trans <| (W22_of m c main_arg1 (by decide)).trans <| (W21_of m c main_arg1 (by decide)).trans <| (W20_of m c main_arg1 (by decide)).trans <| (W19_of m c main_arg1 (by decide)).trans <| (W18_of m c main_arg1 (by decide)).trans <| (W17_of m c main_arg1 (by decide)).trans <| (W16_of m c main_arg1 (by decide)).trans <| (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem W26_main_arg2 (c : Dev nD) : W26 m c (Proc.devRef .tc main_arg2) = m ((c : Thread nD τ).loc main_arg2) :=
  (W26_of m c main_arg2 (by decide)).trans <| (W25_of m c main_arg2 (by decide)).trans <| (W24_of m c main_arg2 (by decide)).trans <| (W23_of m c main_arg2 (by decide)).trans <| (W22_of m c main_arg2 (by decide)).trans <| (W21_of m c main_arg2 (by decide)).trans <| (W20_of m c main_arg2 (by decide)).trans <| (W19_of m c main_arg2 (by decide)).trans <| (W18_of m c main_arg2 (by decide)).trans <| (W17_of m c main_arg2 (by decide)).trans <| (W16_of m c main_arg2 (by decide)).trans <| (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem W26_main_arg3 (c : Dev nD) : W26 m c (Proc.devRef .tc main_arg3) = m ((c : Thread nD τ).loc main_arg3) :=
  (W26_of m c main_arg3 (by decide)).trans <| (W25_of m c main_arg3 (by decide)).trans <| (W24_of m c main_arg3 (by decide)).trans <| (W23_of m c main_arg3 (by decide)).trans <| (W22_of m c main_arg3 (by decide)).trans <| (W21_of m c main_arg3 (by decide)).trans <| (W20_of m c main_arg3 (by decide)).trans <| (W19_of m c main_arg3 (by decide)).trans <| (W18_of m c main_arg3 (by decide)).trans <| (W17_of m c main_arg3 (by decide)).trans <| (W16_of m c main_arg3 (by decide)).trans <| (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem W26_main_arg4 (c : Dev nD) : W26 m c (Proc.devRef .tc main_arg4) = m ((c : Thread nD τ).loc main_arg4) :=
  (W26_of m c main_arg4 (by decide)).trans <| (W25_of m c main_arg4 (by decide)).trans <| (W24_of m c main_arg4 (by decide)).trans <| (W23_of m c main_arg4 (by decide)).trans <| (W22_of m c main_arg4 (by decide)).trans <| (W21_of m c main_arg4 (by decide)).trans <| (W20_of m c main_arg4 (by decide)).trans <| (W19_of m c main_arg4 (by decide)).trans <| (W18_of m c main_arg4 (by decide)).trans <| (W17_of m c main_arg4 (by decide)).trans <| (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem W26_main_arg5 (c : Dev nD) : W26 m c (Proc.devRef .tc main_arg5) = m ((c : Thread nD τ).loc main_arg5) :=
  (W26_of m c main_arg5 (by decide)).trans <| (W25_of m c main_arg5 (by decide)).trans <| (W24_of m c main_arg5 (by decide)).trans <| (W23_of m c main_arg5 (by decide)).trans <| (W22_of m c main_arg5 (by decide)).trans <| (W21_of m c main_arg5 (by decide)).trans <| (W20_of m c main_arg5 (by decide)).trans <| (W19_of m c main_arg5 (by decide)).trans <| (W18_of m c main_arg5 (by decide)).trans <| (W17_of m c main_arg5 (by decide)).trans <| (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem W26_main_arg6 (c : Dev nD) : W26 m c (Proc.devRef .tc main_arg6) = m ((c : Thread nD τ).loc main_arg6) :=
  (W26_of m c main_arg6 (by decide)).trans <| (W25_of m c main_arg6 (by decide)).trans <| (W24_of m c main_arg6 (by decide)).trans <| (W23_of m c main_arg6 (by decide)).trans <| (W22_of m c main_arg6 (by decide)).trans <| (W21_of m c main_arg6 (by decide)).trans <| (W20_of m c main_arg6 (by decide)).trans <| (W19_of m c main_arg6 (by decide)).trans <| (W18_of m c main_arg6 (by decide)).trans <| (W17_of m c main_arg6 (by decide)).trans <| (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem W26_main_arg7 (c : Dev nD) : W26 m c (Proc.devRef .tc main_arg7) = m ((c : Thread nD τ).loc main_arg7) :=
  (W26_of m c main_arg7 (by decide)).trans <| (W25_of m c main_arg7 (by decide)).trans <| (W24_of m c main_arg7 (by decide)).trans <| (W23_of m c main_arg7 (by decide)).trans <| (W22_of m c main_arg7 (by decide)).trans <| (W21_of m c main_arg7 (by decide)).trans <| (W20_of m c main_arg7 (by decide)).trans <| (W19_of m c main_arg7 (by decide)).trans <| (W18_of m c main_arg7 (by decide)).trans <| (W17_of m c main_arg7 (by decide)).trans <| (W16_of m c main_arg7 (by decide)).trans <| (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl
theorem W26_main_arg8 (c : Dev nD) : W26 m c (Proc.devRef .tc main_arg8) = m ((c : Thread nD τ).loc main_arg8) :=
  (W26_of m c main_arg8 (by decide)).trans <| (W25_of m c main_arg8 (by decide)).trans <| (W24_of m c main_arg8 (by decide)).trans <| (W23_of m c main_arg8 (by decide)).trans <| (W22_of m c main_arg8 (by decide)).trans <| (W21_of m c main_arg8 (by decide)).trans <| (W20_of m c main_arg8 (by decide)).trans <| (W19_of m c main_arg8 (by decide)).trans <| (W18_of m c main_arg8 (by decide)).trans <| (W17_of m c main_arg8 (by decide)).trans <| (W16_of m c main_arg8 (by decide)).trans <| (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl
theorem W26_main_arg9 (c : Dev nD) : W26 m c (Proc.devRef .tc main_arg9) = m ((c : Thread nD τ).loc main_arg9) :=
  (W26_of m c main_arg9 (by decide)).trans <| (W25_of m c main_arg9 (by decide)).trans <| (W24_of m c main_arg9 (by decide)).trans <| (W23_of m c main_arg9 (by decide)).trans <| (W22_of m c main_arg9 (by decide)).trans <| (W21_of m c main_arg9 (by decide)).trans <| (W20_of m c main_arg9 (by decide)).trans <| (W19_of m c main_arg9 (by decide)).trans <| (W18_of m c main_arg9 (by decide)).trans <| (W17_of m c main_arg9 (by decide)).trans <| (W16_of m c main_arg9 (by decide)).trans <| (W15_of m c main_arg9 (by decide)).trans <| (W14_of m c main_arg9 (by decide)).trans <| (W13_of m c main_arg9 (by decide)).trans <| (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
theorem W26_main_arg10 (c : Dev nD) : W26 m c (Proc.devRef .tc main_arg10) = m ((c : Thread nD τ).loc main_arg10) :=
  (W26_of m c main_arg10 (by decide)).trans <| (W25_of m c main_arg10 (by decide)).trans <| (W24_of m c main_arg10 (by decide)).trans <| (W23_of m c main_arg10 (by decide)).trans <| (W22_of m c main_arg10 (by decide)).trans <| (W21_of m c main_arg10 (by decide)).trans <| (W20_of m c main_arg10 (by decide)).trans <| (W19_of m c main_arg10 (by decide)).trans <| (W18_of m c main_arg10 (by decide)).trans <| (W17_of m c main_arg10 (by decide)).trans <| (W16_of m c main_arg10 (by decide)).trans <| (W15_of m c main_arg10 (by decide)).trans <| (W14_of m c main_arg10 (by decide)).trans <| (W13_of m c main_arg10 (by decide)).trans <| (W12_of m c main_arg10 (by decide)).trans <| (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans <| rfl
theorem W26_main_arg11 (c : Dev nD) : W26 m c (Proc.devRef .tc main_arg11) = m ((c : Thread nD τ).loc main_arg11) :=
  (W26_of m c main_arg11 (by decide)).trans <| (W25_of m c main_arg11 (by decide)).trans <| (W24_of m c main_arg11 (by decide)).trans <| (W23_of m c main_arg11 (by decide)).trans <| (W22_of m c main_arg11 (by decide)).trans <| (W21_of m c main_arg11 (by decide)).trans <| (W20_of m c main_arg11 (by decide)).trans <| (W19_of m c main_arg11 (by decide)).trans <| (W18_of m c main_arg11 (by decide)).trans <| (W17_of m c main_arg11 (by decide)).trans <| (W16_of m c main_arg11 (by decide)).trans <| (W15_of m c main_arg11 (by decide)).trans <| (W14_of m c main_arg11 (by decide)).trans <| (W13_of m c main_arg11 (by decide)).trans <| (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans <| rfl
theorem W26_main_arg12 (c : Dev nD) : W26 m c (Proc.devRef .tc main_arg12) = m ((c : Thread nD τ).loc main_arg12) :=
  (W26_of m c main_arg12 (by decide)).trans <| (W25_of m c main_arg12 (by decide)).trans <| (W24_of m c main_arg12 (by decide)).trans <| (W23_of m c main_arg12 (by decide)).trans <| (W22_of m c main_arg12 (by decide)).trans <| (W21_of m c main_arg12 (by decide)).trans <| (W20_of m c main_arg12 (by decide)).trans <| (W19_of m c main_arg12 (by decide)).trans <| (W18_of m c main_arg12 (by decide)).trans <| (W17_of m c main_arg12 (by decide)).trans <| (W16_of m c main_arg12 (by decide)).trans <| (W15_of m c main_arg12 (by decide)).trans <| (W14_of m c main_arg12 (by decide)).trans <| (W13_of m c main_arg12 (by decide)).trans <| (W12_of m c main_arg12 (by decide)).trans <| (W11_of m c main_arg12 (by decide)).trans <| (W10_of m c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide)).trans <| rfl
theorem W26_main_arg13 (c : Dev nD) : W26 m c (Proc.devRef .tc main_arg13) = m ((c : Thread nD τ).loc main_arg13) :=
  (W26_of m c main_arg13 (by decide)).trans <| (W25_of m c main_arg13 (by decide)).trans <| (W24_of m c main_arg13 (by decide)).trans <| (W23_of m c main_arg13 (by decide)).trans <| (W22_of m c main_arg13 (by decide)).trans <| (W21_of m c main_arg13 (by decide)).trans <| (W20_of m c main_arg13 (by decide)).trans <| (W19_of m c main_arg13 (by decide)).trans <| (W18_of m c main_arg13 (by decide)).trans <| (W17_of m c main_arg13 (by decide)).trans <| (W16_of m c main_arg13 (by decide)).trans <| (W15_of m c main_arg13 (by decide)).trans <| (W14_of m c main_arg13 (by decide)).trans <| (W13_of m c main_arg13 (by decide)).trans <| (W12_of m c main_arg13 (by decide)).trans <| (W11_of m c main_arg13 (by decide)).trans <| (W10_of m c main_arg13 (by decide)).trans <| (W9_of m c main_arg13 (by decide)).trans <| (W8_of m c main_arg13 (by decide)).trans <| (W7_of m c main_arg13 (by decide)).trans <| (W6_of m c main_arg13 (by decide)).trans <| (W5_of m c main_arg13 (by decide)).trans <| (W4_of m c main_arg13 (by decide)).trans <| (W3_of m c main_arg13 (by decide)).trans <| (W2_of m c main_arg13 (by decide)).trans <| (W1_of m c main_arg13 (by decide)).trans <| rfl
theorem W26_main_arg14 (c : Dev nD) : W26 m c (Proc.devRef .tc main_arg14) = m ((c : Thread nD τ).loc main_arg14) :=
  (W26_of m c main_arg14 (by decide)).trans <| (W25_of m c main_arg14 (by decide)).trans <| (W24_of m c main_arg14 (by decide)).trans <| (W23_of m c main_arg14 (by decide)).trans <| (W22_of m c main_arg14 (by decide)).trans <| (W21_of m c main_arg14 (by decide)).trans <| (W20_of m c main_arg14 (by decide)).trans <| (W19_of m c main_arg14 (by decide)).trans <| (W18_of m c main_arg14 (by decide)).trans <| (W17_of m c main_arg14 (by decide)).trans <| (W16_of m c main_arg14 (by decide)).trans <| (W15_of m c main_arg14 (by decide)).trans <| (W14_of m c main_arg14 (by decide)).trans <| (W13_of m c main_arg14 (by decide)).trans <| (W12_of m c main_arg14 (by decide)).trans <| (W11_of m c main_arg14 (by decide)).trans <| (W10_of m c main_arg14 (by decide)).trans <| (W9_of m c main_arg14 (by decide)).trans <| (W8_of m c main_arg14 (by decide)).trans <| (W7_of m c main_arg14 (by decide)).trans <| (W6_of m c main_arg14 (by decide)).trans <| (W5_of m c main_arg14 (by decide)).trans <| (W4_of m c main_arg14 (by decide)).trans <| (W3_of m c main_arg14 (by decide)).trans <| (W2_of m c main_arg14 (by decide)).trans <| (W1_of m c main_arg14 (by decide)).trans <| rfl
theorem W26_main_arg15 (c : Dev nD) : W26 m c (Proc.devRef .tc main_arg15) = m ((c : Thread nD τ).loc main_arg15) :=
  (W26_of m c main_arg15 (by decide)).trans <| (W25_of m c main_arg15 (by decide)).trans <| (W24_of m c main_arg15 (by decide)).trans <| (W23_of m c main_arg15 (by decide)).trans <| (W22_of m c main_arg15 (by decide)).trans <| (W21_of m c main_arg15 (by decide)).trans <| (W20_of m c main_arg15 (by decide)).trans <| (W19_of m c main_arg15 (by decide)).trans <| (W18_of m c main_arg15 (by decide)).trans <| (W17_of m c main_arg15 (by decide)).trans <| (W16_of m c main_arg15 (by decide)).trans <| (W15_of m c main_arg15 (by decide)).trans <| (W14_of m c main_arg15 (by decide)).trans <| (W13_of m c main_arg15 (by decide)).trans <| (W12_of m c main_arg15 (by decide)).trans <| (W11_of m c main_arg15 (by decide)).trans <| (W10_of m c main_arg15 (by decide)).trans <| (W9_of m c main_arg15 (by decide)).trans <| (W8_of m c main_arg15 (by decide)).trans <| (W7_of m c main_arg15 (by decide)).trans <| (W6_of m c main_arg15 (by decide)).trans <| (W5_of m c main_arg15 (by decide)).trans <| (W4_of m c main_arg15 (by decide)).trans <| (W3_of m c main_arg15 (by decide)).trans <| (W2_of m c main_arg15 (by decide)).trans <| (W1_of m c main_arg15 (by decide)).trans <| rfl
theorem W26_main_arg16 (c : Dev nD) : W26 m c (Proc.devRef .tc main_arg16) = m ((c : Thread nD τ).loc main_arg16) :=
  (W26_of m c main_arg16 (by decide)).trans <| (W25_of m c main_arg16 (by decide)).trans <| (W24_of m c main_arg16 (by decide)).trans <| (W23_of m c main_arg16 (by decide)).trans <| (W22_of m c main_arg16 (by decide)).trans <| (W21_of m c main_arg16 (by decide)).trans <| (W20_of m c main_arg16 (by decide)).trans <| (W19_of m c main_arg16 (by decide)).trans <| (W18_of m c main_arg16 (by decide)).trans <| (W17_of m c main_arg16 (by decide)).trans <| (W16_of m c main_arg16 (by decide)).trans <| (W15_of m c main_arg16 (by decide)).trans <| (W14_of m c main_arg16 (by decide)).trans <| (W13_of m c main_arg16 (by decide)).trans <| (W12_of m c main_arg16 (by decide)).trans <| (W11_of m c main_arg16 (by decide)).trans <| (W10_of m c main_arg16 (by decide)).trans <| (W9_of m c main_arg16 (by decide)).trans <| (W8_of m c main_arg16 (by decide)).trans <| (W7_of m c main_arg16 (by decide)).trans <| (W6_of m c main_arg16 (by decide)).trans <| (W5_of m c main_arg16 (by decide)).trans <| (W4_of m c main_arg16 (by decide)).trans <| (W3_of m c main_arg16 (by decide)).trans <| (W2_of m c main_arg16 (by decide)).trans <| (W1_of m c main_arg16 (by decide)).trans <| rfl
theorem W26_main_arg17 (c : Dev nD) : W26 m c (Proc.devRef .tc main_arg17) = m ((c : Thread nD τ).loc main_arg17) :=
  (W26_of m c main_arg17 (by decide)).trans <| (W25_of m c main_arg17 (by decide)).trans <| (W24_of m c main_arg17 (by decide)).trans <| (W23_of m c main_arg17 (by decide)).trans <| (W22_of m c main_arg17 (by decide)).trans <| (W21_of m c main_arg17 (by decide)).trans <| (W20_of m c main_arg17 (by decide)).trans <| (W19_of m c main_arg17 (by decide)).trans <| (W18_of m c main_arg17 (by decide)).trans <| (W17_of m c main_arg17 (by decide)).trans <| (W16_of m c main_arg17 (by decide)).trans <| (W15_of m c main_arg17 (by decide)).trans <| (W14_of m c main_arg17 (by decide)).trans <| (W13_of m c main_arg17 (by decide)).trans <| (W12_of m c main_arg17 (by decide)).trans <| (W11_of m c main_arg17 (by decide)).trans <| (W10_of m c main_arg17 (by decide)).trans <| (W9_of m c main_arg17 (by decide)).trans <| (W8_of m c main_arg17 (by decide)).trans <| (W7_of m c main_arg17 (by decide)).trans <| (W6_of m c main_arg17 (by decide)).trans <| (W5_of m c main_arg17 (by decide)).trans <| (W4_of m c main_arg17 (by decide)).trans <| (W3_of m c main_arg17 (by decide)).trans <| (W2_of m c main_arg17 (by decide)).trans <| (W1_of m c main_arg17 (by decide)).trans <| rfl
theorem W26_main_arg18 (c : Dev nD) : W26 m c (Proc.devRef .tc main_arg18) = m ((c : Thread nD τ).loc main_arg18) :=
  (W26_of m c main_arg18 (by decide)).trans <| (W25_of m c main_arg18 (by decide)).trans <| (W24_of m c main_arg18 (by decide)).trans <| (W23_of m c main_arg18 (by decide)).trans <| (W22_of m c main_arg18 (by decide)).trans <| (W21_of m c main_arg18 (by decide)).trans <| (W20_of m c main_arg18 (by decide)).trans <| (W19_of m c main_arg18 (by decide)).trans <| (W18_of m c main_arg18 (by decide)).trans <| (W17_of m c main_arg18 (by decide)).trans <| (W16_of m c main_arg18 (by decide)).trans <| (W15_of m c main_arg18 (by decide)).trans <| (W14_of m c main_arg18 (by decide)).trans <| (W13_of m c main_arg18 (by decide)).trans <| (W12_of m c main_arg18 (by decide)).trans <| (W11_of m c main_arg18 (by decide)).trans <| (W10_of m c main_arg18 (by decide)).trans <| (W9_of m c main_arg18 (by decide)).trans <| (W8_of m c main_arg18 (by decide)).trans <| (W7_of m c main_arg18 (by decide)).trans <| (W6_of m c main_arg18 (by decide)).trans <| (W5_of m c main_arg18 (by decide)).trans <| (W4_of m c main_arg18 (by decide)).trans <| (W3_of m c main_arg18 (by decide)).trans <| (W2_of m c main_arg18 (by decide)).trans <| (W1_of m c main_arg18 (by decide)).trans <| rfl
theorem W26_main_arg19 (c : Dev nD) : W26 m c (Proc.devRef .tc main_arg19) = m ((c : Thread nD τ).loc main_arg19) :=
  (W26_of m c main_arg19 (by decide)).trans <| (W25_of m c main_arg19 (by decide)).trans <| (W24_of m c main_arg19 (by decide)).trans <| (W23_of m c main_arg19 (by decide)).trans <| (W22_of m c main_arg19 (by decide)).trans <| (W21_of m c main_arg19 (by decide)).trans <| (W20_of m c main_arg19 (by decide)).trans <| (W19_of m c main_arg19 (by decide)).trans <| (W18_of m c main_arg19 (by decide)).trans <| (W17_of m c main_arg19 (by decide)).trans <| (W16_of m c main_arg19 (by decide)).trans <| (W15_of m c main_arg19 (by decide)).trans <| (W14_of m c main_arg19 (by decide)).trans <| (W13_of m c main_arg19 (by decide)).trans <| (W12_of m c main_arg19 (by decide)).trans <| (W11_of m c main_arg19 (by decide)).trans <| (W10_of m c main_arg19 (by decide)).trans <| (W9_of m c main_arg19 (by decide)).trans <| (W8_of m c main_arg19 (by decide)).trans <| (W7_of m c main_arg19 (by decide)).trans <| (W6_of m c main_arg19 (by decide)).trans <| (W5_of m c main_arg19 (by decide)).trans <| (W4_of m c main_arg19 (by decide)).trans <| (W3_of m c main_arg19 (by decide)).trans <| (W2_of m c main_arg19 (by decide)).trans <| (W1_of m c main_arg19 (by decide)).trans <| rfl
theorem W26_main_arg20 (c : Dev nD) : W26 m c (Proc.devRef .tc main_arg20) = m ((c : Thread nD τ).loc main_arg20) :=
  (W26_of m c main_arg20 (by decide)).trans <| (W25_of m c main_arg20 (by decide)).trans <| (W24_of m c main_arg20 (by decide)).trans <| (W23_of m c main_arg20 (by decide)).trans <| (W22_of m c main_arg20 (by decide)).trans <| (W21_of m c main_arg20 (by decide)).trans <| (W20_of m c main_arg20 (by decide)).trans <| (W19_of m c main_arg20 (by decide)).trans <| (W18_of m c main_arg20 (by decide)).trans <| (W17_of m c main_arg20 (by decide)).trans <| (W16_of m c main_arg20 (by decide)).trans <| (W15_of m c main_arg20 (by decide)).trans <| (W14_of m c main_arg20 (by decide)).trans <| (W13_of m c main_arg20 (by decide)).trans <| (W12_of m c main_arg20 (by decide)).trans <| (W11_of m c main_arg20 (by decide)).trans <| (W10_of m c main_arg20 (by decide)).trans <| (W9_of m c main_arg20 (by decide)).trans <| (W8_of m c main_arg20 (by decide)).trans <| (W7_of m c main_arg20 (by decide)).trans <| (W6_of m c main_arg20 (by decide)).trans <| (W5_of m c main_arg20 (by decide)).trans <| (W4_of m c main_arg20 (by decide)).trans <| (W3_of m c main_arg20 (by decide)).trans <| (W2_of m c main_arg20 (by decide)).trans <| (W1_of m c main_arg20 (by decide)).trans <| rfl
theorem W26_main_arg21 (c : Dev nD) : W26 m c (Proc.devRef .tc main_arg21) = m ((c : Thread nD τ).loc main_arg21) :=
  (W26_of m c main_arg21 (by decide)).trans <| (W25_of m c main_arg21 (by decide)).trans <| (W24_of m c main_arg21 (by decide)).trans <| (W23_of m c main_arg21 (by decide)).trans <| (W22_of m c main_arg21 (by decide)).trans <| (W21_of m c main_arg21 (by decide)).trans <| (W20_of m c main_arg21 (by decide)).trans <| (W19_of m c main_arg21 (by decide)).trans <| (W18_of m c main_arg21 (by decide)).trans <| (W17_of m c main_arg21 (by decide)).trans <| (W16_of m c main_arg21 (by decide)).trans <| (W15_of m c main_arg21 (by decide)).trans <| (W14_of m c main_arg21 (by decide)).trans <| (W13_of m c main_arg21 (by decide)).trans <| (W12_of m c main_arg21 (by decide)).trans <| (W11_of m c main_arg21 (by decide)).trans <| (W10_of m c main_arg21 (by decide)).trans <| (W9_of m c main_arg21 (by decide)).trans <| (W8_of m c main_arg21 (by decide)).trans <| (W7_of m c main_arg21 (by decide)).trans <| (W6_of m c main_arg21 (by decide)).trans <| (W5_of m c main_arg21 (by decide)).trans <| (W4_of m c main_arg21 (by decide)).trans <| (W3_of m c main_arg21 (by decide)).trans <| (W2_of m c main_arg21 (by decide)).trans <| (W1_of m c main_arg21 (by decide)).trans <| rfl
theorem W26_main_arg22 (c : Dev nD) : W26 m c (Proc.devRef .tc main_arg22) = m ((c : Thread nD τ).loc main_arg22) :=
  (W26_of m c main_arg22 (by decide)).trans <| (W25_of m c main_arg22 (by decide)).trans <| (W24_of m c main_arg22 (by decide)).trans <| (W23_of m c main_arg22 (by decide)).trans <| (W22_of m c main_arg22 (by decide)).trans <| (W21_of m c main_arg22 (by decide)).trans <| (W20_of m c main_arg22 (by decide)).trans <| (W19_of m c main_arg22 (by decide)).trans <| (W18_of m c main_arg22 (by decide)).trans <| (W17_of m c main_arg22 (by decide)).trans <| (W16_of m c main_arg22 (by decide)).trans <| (W15_of m c main_arg22 (by decide)).trans <| (W14_of m c main_arg22 (by decide)).trans <| (W13_of m c main_arg22 (by decide)).trans <| (W12_of m c main_arg22 (by decide)).trans <| (W11_of m c main_arg22 (by decide)).trans <| (W10_of m c main_arg22 (by decide)).trans <| (W9_of m c main_arg22 (by decide)).trans <| (W8_of m c main_arg22 (by decide)).trans <| (W7_of m c main_arg22 (by decide)).trans <| (W6_of m c main_arg22 (by decide)).trans <| (W5_of m c main_arg22 (by decide)).trans <| (W4_of m c main_arg22 (by decide)).trans <| (W3_of m c main_arg22 (by decide)).trans <| (W2_of m c main_arg22 (by decide)).trans <| (W1_of m c main_arg22 (by decide)).trans <| rfl
theorem W26_main_arg23 (c : Dev nD) : W26 m c (Proc.devRef .tc main_arg23) = m ((c : Thread nD τ).loc main_arg23) :=
  (W26_of m c main_arg23 (by decide)).trans <| (W25_of m c main_arg23 (by decide)).trans <| (W24_of m c main_arg23 (by decide)).trans <| (W23_of m c main_arg23 (by decide)).trans <| (W22_of m c main_arg23 (by decide)).trans <| (W21_of m c main_arg23 (by decide)).trans <| (W20_of m c main_arg23 (by decide)).trans <| (W19_of m c main_arg23 (by decide)).trans <| (W18_of m c main_arg23 (by decide)).trans <| (W17_of m c main_arg23 (by decide)).trans <| (W16_of m c main_arg23 (by decide)).trans <| (W15_of m c main_arg23 (by decide)).trans <| (W14_of m c main_arg23 (by decide)).trans <| (W13_of m c main_arg23 (by decide)).trans <| (W12_of m c main_arg23 (by decide)).trans <| (W11_of m c main_arg23 (by decide)).trans <| (W10_of m c main_arg23 (by decide)).trans <| (W9_of m c main_arg23 (by decide)).trans <| (W8_of m c main_arg23 (by decide)).trans <| (W7_of m c main_arg23 (by decide)).trans <| (W6_of m c main_arg23 (by decide)).trans <| (W5_of m c main_arg23 (by decide)).trans <| (W4_of m c main_arg23 (by decide)).trans <| (W3_of m c main_arg23 (by decide)).trans <| (W2_of m c main_arg23 (by decide)).trans <| (W1_of m c main_arg23 (by decide)).trans <| rfl
theorem W26_main_arg24 (c : Dev nD) : W26 m c (Proc.devRef .tc main_arg24) = m ((c : Thread nD τ).loc main_arg24) :=
  (W26_of m c main_arg24 (by decide)).trans <| (W25_of m c main_arg24 (by decide)).trans <| (W24_of m c main_arg24 (by decide)).trans <| (W23_of m c main_arg24 (by decide)).trans <| (W22_of m c main_arg24 (by decide)).trans <| (W21_of m c main_arg24 (by decide)).trans <| (W20_of m c main_arg24 (by decide)).trans <| (W19_of m c main_arg24 (by decide)).trans <| (W18_of m c main_arg24 (by decide)).trans <| (W17_of m c main_arg24 (by decide)).trans <| (W16_of m c main_arg24 (by decide)).trans <| (W15_of m c main_arg24 (by decide)).trans <| (W14_of m c main_arg24 (by decide)).trans <| (W13_of m c main_arg24 (by decide)).trans <| (W12_of m c main_arg24 (by decide)).trans <| (W11_of m c main_arg24 (by decide)).trans <| (W10_of m c main_arg24 (by decide)).trans <| (W9_of m c main_arg24 (by decide)).trans <| (W8_of m c main_arg24 (by decide)).trans <| (W7_of m c main_arg24 (by decide)).trans <| (W6_of m c main_arg24 (by decide)).trans <| (W5_of m c main_arg24 (by decide)).trans <| (W4_of m c main_arg24 (by decide)).trans <| (W3_of m c main_arg24 (by decide)).trans <| (W2_of m c main_arg24 (by decide)).trans <| (W1_of m c main_arg24 (by decide)).trans <| rfl

/-- THE FRAME: the program runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_arg0 (by decide))).trans (W26_main_arg0 m c),
      (h c _ (mem_uc main_arg1 (by decide))).trans (W26_main_arg1 m c),
      (h c _ (mem_uc main_arg2 (by decide))).trans (W26_main_arg2 m c),
      (h c _ (mem_uc main_arg3 (by decide))).trans (W26_main_arg3 m c),
      (h c _ (mem_uc main_arg4 (by decide))).trans (W26_main_arg4 m c),
      (h c _ (mem_uc main_arg5 (by decide))).trans (W26_main_arg5 m c),
      (h c _ (mem_uc main_arg6 (by decide))).trans (W26_main_arg6 m c),
      (h c _ (mem_uc main_arg7 (by decide))).trans (W26_main_arg7 m c),
      (h c _ (mem_uc main_arg8 (by decide))).trans (W26_main_arg8 m c),
      (h c _ (mem_uc main_arg9 (by decide))).trans (W26_main_arg9 m c),
      (h c _ (mem_uc main_arg10 (by decide))).trans (W26_main_arg10 m c),
      (h c _ (mem_uc main_arg11 (by decide))).trans (W26_main_arg11 m c),
      (h c _ (mem_uc main_arg12 (by decide))).trans (W26_main_arg12 m c),
      (h c _ (mem_uc main_arg13 (by decide))).trans (W26_main_arg13 m c),
      (h c _ (mem_uc main_arg14 (by decide))).trans (W26_main_arg14 m c),
      (h c _ (mem_uc main_arg15 (by decide))).trans (W26_main_arg15 m c),
      (h c _ (mem_uc main_arg16 (by decide))).trans (W26_main_arg16 m c),
      (h c _ (mem_uc main_arg17 (by decide))).trans (W26_main_arg17 m c),
      (h c _ (mem_uc main_arg18 (by decide))).trans (W26_main_arg18 m c),
      (h c _ (mem_uc main_arg19 (by decide))).trans (W26_main_arg19 m c),
      (h c _ (mem_uc main_arg20 (by decide))).trans (W26_main_arg20 m c),
      (h c _ (mem_uc main_arg21 (by decide))).trans (W26_main_arg21 m c),
      (h c _ (mem_uc main_arg22 (by decide))).trans (W26_main_arg22 m c),
      (h c _ (mem_uc main_arg23 (by decide))).trans (W26_main_arg23 m c),
      (h c _ (mem_uc main_arg24 (by decide))).trans (W26_main_arg24 m c)⟩) (run_all m ρ)

/-- The run with the result array named: it ends at the last contents of `main_v67`, the arguments as launched. -/
theorem run_result : θ_run defs (onTc (τ := τ) (main (F := F))) ⟨m, fun _ => 0, ρ⟩ (fun r => ∀ c : Dev nD,
      r.2.mem ((c.tc : Thread nD τ).loc main_v67) = W26 m c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨h c _ (mem_uc main_v67 (by decide)),
      (h c _ (mem_uc main_arg0 (by decide))).trans (W26_main_arg0 m c),
      (h c _ (mem_uc main_arg1 (by decide))).trans (W26_main_arg1 m c),
      (h c _ (mem_uc main_arg2 (by decide))).trans (W26_main_arg2 m c),
      (h c _ (mem_uc main_arg3 (by decide))).trans (W26_main_arg3 m c),
      (h c _ (mem_uc main_arg4 (by decide))).trans (W26_main_arg4 m c),
      (h c _ (mem_uc main_arg5 (by decide))).trans (W26_main_arg5 m c),
      (h c _ (mem_uc main_arg6 (by decide))).trans (W26_main_arg6 m c),
      (h c _ (mem_uc main_arg7 (by decide))).trans (W26_main_arg7 m c),
      (h c _ (mem_uc main_arg8 (by decide))).trans (W26_main_arg8 m c),
      (h c _ (mem_uc main_arg9 (by decide))).trans (W26_main_arg9 m c),
      (h c _ (mem_uc main_arg10 (by decide))).trans (W26_main_arg10 m c),
      (h c _ (mem_uc main_arg11 (by decide))).trans (W26_main_arg11 m c),
      (h c _ (mem_uc main_arg12 (by decide))).trans (W26_main_arg12 m c),
      (h c _ (mem_uc main_arg13 (by decide))).trans (W26_main_arg13 m c),
      (h c _ (mem_uc main_arg14 (by decide))).trans (W26_main_arg14 m c),
      (h c _ (mem_uc main_arg15 (by decide))).trans (W26_main_arg15 m c),
      (h c _ (mem_uc main_arg16 (by decide))).trans (W26_main_arg16 m c),
      (h c _ (mem_uc main_arg17 (by decide))).trans (W26_main_arg17 m c),
      (h c _ (mem_uc main_arg18 (by decide))).trans (W26_main_arg18 m c),
      (h c _ (mem_uc main_arg19 (by decide))).trans (W26_main_arg19 m c),
      (h c _ (mem_uc main_arg20 (by decide))).trans (W26_main_arg20 m c),
      (h c _ (mem_uc main_arg21 (by decide))).trans (W26_main_arg21 m c),
      (h c _ (mem_uc main_arg22 (by decide))).trans (W26_main_arg22 m c),
      (h c _ (mem_uc main_arg23 (by decide))).trans (W26_main_arg23 m c),
      (h c _ (mem_uc main_arg24 (by decide))).trans (W26_main_arg24 m c)⟩) (run_all m ρ)

end Cert.Kernel.Regs

end
-- ==== Proof.RegionRecordIdeal.lean ====
import proofs.«180908_j8211977470570_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- No core owes another anything: no level is assigned. -/
abbrev 𝒱₀ : Variants := Variants.none
abbrev L : GSem nD τ sig → Finset Unit := fun _ => ∅
abbrev lv : GSem nD τ sig → Unit → ℕ := fun _ _ => 0

/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)

abbrev adm : (p : Fin 15) → (pcfgs (F := F) p).Adm := fun p => (cfgs p).toPCfg_adm

/-- A valuation of every buffer read at the TensorCore's references. -/
abbrev atTc (W : Dev nD → Valuation τ sig (Elt F)) : (c : Dev nD) → (b : Ref sig .tc) → Buf (Elt F) ((c : Thread nD τ).loc b) :=
  fun c b => W c (Proc.devRef .tc b)

set_option backward.isDefEq.respectTransparency.types false in
/-- A region as a segment of the program's run. Its invariant starts and ends at the untouched scoped buffers beside
    the generator register (`hin`, `hout`: in between it may carry scratch contents from point to point), it owes
    nothing and holds full shares. Entered with every unscoped buffer at `Vin`, it is left with them at `Vout`, which
    has the region's arrays at what the write-backs leave and agrees with `Vin` elsewhere. -/
def regOf (pdats : (p : Fin 15) → (c : Dev nD) → Dat τ (Elt F) Unit ℕ (UR sig nD τ) ℕ (Pipeline.pin (pcfgs (F := F)) adm p) c)
    (p : Fin 15) (hl : Pipeline.LaunchFacts (nD := nD) (τ := τ) cfgs p)
    (hin : ∀ c, (Pipeline.ΦA (cfgs p).spec c : sProp 𝕄) ⊢ (pdats p c).Φ 0)
    (hout : ∀ c, (pdats p c).Φ (Fin.last _) ⊢ (Pipeline.ΦA (cfgs p).spec c : sProp 𝕄))
    (hq : ∀ c w, (pdats p c).q w = fullShare)
    (howed : ∀ c t, (pdats p c).owed t = 0)
    (hrec : ∀ c t, (pdats p c).recorded t = Set.univ)
    (hbody : ∀ c, BodyObligation (pdats p c) (defs₀ (F := F)) Variants.none () Set.univ)
    (Vin Vout : Dev nD → Valuation τ sig (Elt F))
    (hA : ∀ c w, (pdats p c).A w = atTc Vin c (Pipeline.arrRef (cfgs p).spec w))
    (hF : ∀ c w, (pdats p c).arrAt w (cfgs p).N = atTc Vout c (Pipeline.arrRef (cfgs p).spec w))
    (hrest : ∀ c b, b ∉ Finset.univ.image (Pipeline.arrRef (cfgs p).spec) → atTc Vout c b = atTc Vin c b) :
    Pipeline.RegionSeg (pcfgs (F := F)) adm pdats () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    rw [Pipeline.ownSems0_none]
    have hsplit := Pipeline.arrays_of_unscopedBufs (p := p) (pcfgs (F := F)) adm pdats hl.win hl.arr_whole c
      ((pdats p c).share_full (hq c)) (atTc Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (by rw [hrec c 0]; exact Set.mem_univ x)
      iexact HO
    isplitl [Hp]; · iexact Hp
    iexact Hrest
  hin c := by
    refine (?_ : _ ⊢ (Pipeline.ΦA (cfgs p).spec c : sProp 𝕄)).trans (hin c)
    unfold Pipeline.ΦA
    iintro ⟨Hp, -, Hr⟩
    isplitl [Hr]; · iexact Hr
    iexact Hp
  hout c := by
    rw [Pipeline.ownSems0_none]
    refine (hout c).trans (?_ : (Pipeline.ΦA (cfgs p).spec c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c pdats ((pdats p c).share_full (hq c))
      (atTc Vin c) (atTc Vout c) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.KernelIdeal.Regs

end
-- ==== Proof.MatmulRegion0.lean ====
/- Region 0 of @main (pipeline 0, `cc0_kernel`): a matrix product of two whole blocks, stored whole.
   Stated at a parameter `V`: the contents of the core's buffers when the region is entered.  The body reads
   window 0 (a block of rows) and window 1 (a block of weights) whole, rounds both to bf16, multiplies them
   into a zero accumulator, reads window 2 (the value is not used), and overwrites window 2 whole with the
   product.  Hence after the body the two input buffers are as found and the output buffer is a function
   `out0_2` of the two input blocks alone. -/
import proofs.«180908_j8211977470570_1_alg».proof.Proof.Gen.KernelIdeal.Launch
import proofs.«180908_j8211977470570_1_alg».proof.Proof.Gen.KernelIdeal.Skeleton
import proofs.«180908_j8211977470570_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
-- the contents of the core's buffers when the region is entered
variable (V : (c : Dev nD) → (b : Ref sig .tc) → Buf (Elt F) ((c : Thread nD τ).loc b))

/-! ## The windows' blocks -/

/-- Window `w`'s block at point `t`, read off its array at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_a : Rect S1x5000x64 := Rect.unit (s := S1x5000x64) ![0, 0, 0] S1x5000x64.size inb_S1x5000x64_S1x5000x64_0_0_0
abbrev r0_b : Rect S1x64x64 := Rect.unit (s := S1x64x64) ![0, 0, 0] S1x64x64.size inb_S1x64x64_S1x64x64_0_0_0
abbrev r0_o : Rect S1x5000x64 := Rect.unit (s := S1x5000x64) ![0, 0, 0] S1x5000x64.size inb_S1x5000x64_S1x5000x64_0_0_0

/-! ## What the body leaves in the output window's buffer -/

/-- Window 2's buffer after the body, from the two input blocks: its one store, of the product, over the whole buffer. -/
def out0_2 (x0 : Vec F S1x5000x64 .f32) (x1 : Vec F S1x64x64 .f32) : Vec F S1x5000x64 .f32 :=
  View.canon [⟨r0_o, k0_pay1 (View.ld x0 r0_a) (View.ld x1 r0_b)⟩]

/-- The one store covers the buffer. -/
theorem cover0_2 (p0 : Vec F S1x5000x64 .f32) (y : S1x5000x64.Idx) :
    ∃ pc ∈ ([⟨r0_o, p0⟩] : List (View.Piece (Elt F) S1x5000x64 .f32)), y ∈ pc.1.set :=
  View.cover_of_tiled [⟨r0_o, p0⟩] S1x5000x64.size (by rfl) y

/-! ## The body's triple -/

set_option maxHeartbeats 1000000 in
/-- The body on whole buffers — the inputs' at contents `x0`, `x1`, the output's at anything — runs to the
    continuation holding the inputs' as they were and the output's at `out0_2 x0 x1`. -/
theorem sound_kernel0 (c : Dev nD) (E : Set ℕ) (i : grid0.Coords)
    (arg2 : Memref sig .tc .vmem S1x5000x64 .f32) (harg2 : arg2.IsWhole)
    (arg3 : Memref sig .tc .vmem S1x64x64 .f32) (harg3 : arg3.IsWhole)
    (arg4 : Memref sig .tc .vmem S1x5000x64 .f32) (harg4 : arg4.IsWhole)
    (x0 : Vec F S1x5000x64 .f32) (x1 : Vec F S1x64x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays at the entry contents `V`; after the body at point `t`
    each input's buffer at its block and the output's at `out0_2` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's rule, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Regs
-- ==== Proof.Stats1Runs.lean ====
import proofs.«180908_j8211977470570_1_alg».proof.Proof.Gen.KernelIdeal.Launch
import proofs.«180908_j8211977470570_1_alg».proof.Proof.Gen.KernelIdeal.Skeleton
import proofs.«180908_j8211977470570_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The statistics region of pipeline 1: what its three control cases share

The kernel keeps two running column sums (of the block and of its square) in two scratch buffers the pipeline does not
stage: the first grid point zeroes them, every point adds its block's column sums, the last point turns them into the
mean and the variance and stores those into the two output windows. Everything is stated at a parameter `V`, the buffer
contents when the region is entered. -/

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is `V`'s
    and whose body leaves the block in place: the window is fetched at every point, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first conditional (the reset of the running sums), from the grid coordinate. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 20 = 0 :=
  (by decide +kernel : ∀ t : Fin grid1.N, cond1_0 (grid1.coords t) ↔ t.val % 20 = 0)

/-- The condition of the body's second conditional (the final division and the two output stores). -/
abbrev cond1_1 (i : grid1.Coords) : Prop := k1_cond2 i = 1#1
/-- It holds at the last point only — decided over the grid. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- The input window is never idle. -/
theorem liveAt1_0 : ∀ t : Fin cfg1.N, cfg1.idle 0 (grid1.coords t) = false := by decide +kernel
/-- Away from the last point the two output windows are idle (the body stores nothing into them) -/
theorem idleAt1_1 : ∀ t : Fin cfg1.N, ¬cond1_1 (grid1.coords t) → cfg1.idle 1 (grid1.coords t) = true := by decide +kernel
theorem idleAt1_2 : ∀ t : Fin cfg1.N, ¬cond1_1 (grid1.coords t) → cfg1.idle 2 (grid1.coords t) = true := by decide +kernel
/-- and are not written back. -/
theorem noFlush1_1 : ∀ t : Fin cfg1.N, ¬cond1_1 (grid1.coords t) → (cfg1.win 1).flush t = false := by decide +kernel
theorem noFlush1_2 : ∀ t : Fin cfg1.N, ¬cond1_1 (grid1.coords t) → (cfg1.win 2).flush t = false := by decide +kernel
/-- At the last point they are live. -/
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-! ## The memrefs the body is called with -/

/-- One staging buffer of each output window, through which its contents are stated (the choice does not matter once
    the stores cover the block). -/
abbrev VO1_1 : View sig .tc .vmem S1x64 .f32 := (Memref.whole cc1_stg1_0 : Memref sig .tc .vmem S1x64 .f32).view
abbrev VO1_2 : View sig .tc .vmem S1x64 .f32 := (Memref.whole cc1_stg2_0 : Memref sig .tc .vmem S1x64 .f32).view
/-- Each window's current staging memref at point `t`, as the pipeline passes it, and its wholeness. -/
abbrev ms1_0 (t : Fin cfg1.N) : Memref sig .tc .vmem S3000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
/-- The two scratch operands: whole scoped buffers of the kernel's own, passed beside the windows. -/
abbrev scM1_0 : Memref sig .tc .vmem S1x64 .f32 := Memref.whole cc1_scratch0
abbrev scM1_1 : Memref sig .tc .vmem S1x64 .f32 := Memref.whole cc1_scratch1
/-- The same as views: what they hold is stated through these. -/
abbrev VS1_0 : View sig .tc .vmem S1x64 .f32 := scM1_0.view
abbrev VS1_1 : View sig .tc .vmem S1x64 .f32 := scM1_1.view

/-- The region's entry invariant (every scoped buffer no window stages at some contents, the generator register at
    some state) with the two scratch operands taken out as memrefs owned at some contents; the other scoped buffers stay
    unopened. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

end Cert.KernelIdeal.Regs

end
-- ==== Proof.Stats1RunA.lean ====
import proofs.«180908_j8211977470570_1_alg».proof.Proof.Stats1Runs

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- THE FIRST POINT (the reset taken, the final stores not): what the body's stores leave in the two scratch buffers, as
    pieces (last first), WITH the proof that on whole memrefs — the input block's at its contents `x0`, the two scratch
    buffers at anything — the body runs to the continuation holding the input as it was and each scratch buffer with its
    pieces written (zero stored, then the block's column sums added). The two output windows are not touched and are
    left out. The pieces are the witness the symbolic run finds. -/
noncomputable def kernelRun1_A (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S3000x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg4 fullShare d) ∗ (∃ d, owns (c : Thread nD τ) arg5 fullShare d)
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1_kernel i arg1 harg1 arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%ds0, %fs0, -, HS0⟩, ⟨%ds1, %fs1, -, HS1⟩, Hk⟩
    obtain rfl := harg1.eq_unread hf0
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.KernelIdeal.Regs

end
-- ==== Proof.Stats1RunB.lean ====
import proofs.«180908_j8211977470570_1_alg».proof.Proof.Stats1RunA

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- A MIDDLE POINT (neither conditional taken): what the body's stores leave in the two scratch buffers, as pieces, WITH
    the proof that on whole memrefs — the input block's at `x0`, the two scratch buffers at the running sums `xs0`, `xs1`
    the point before left — the body runs to the continuation holding the input as it was and each scratch buffer with
    its pieces written (the block's column sums added). The two output windows are not touched and are left out. -/
noncomputable def kernelRun1_B (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S3000x64 .f32) (xs0 : Vec F S1x64 .f32) (xs1 : Vec F S1x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg4 fullShare xs0 ∗ owns (c : Thread nD τ) arg5 fullShare xs1
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1_kernel i arg1 harg1 arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.KernelIdeal.Regs

end
-- ==== Proof.Stats1RunC.lean ====
import proofs.«180908_j8211977470570_1_alg».proof.Proof.Stats1RunB

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- THE LAST POINT (the reset not taken, the final stores taken): what the body's stores leave in the two output
    windows' staging memrefs and in the two scratch buffers, as pieces, WITH the proof that on whole memrefs — the input
    block's at `x0`, the outputs' at anything, the scratch buffers at the running sums `xs0`, `xs1` the point before
    left — the body runs to the continuation holding the input as it was and each of the four with its pieces written
    (the sums completed; the mean, and the mean of squares less the mean squared, stored). -/
noncomputable def kernelRun1_C (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) :
    Σ' (L1 : List (View.Piece (Elt F) S1x64 .f32)) (L2 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc1_kernel i arg1 harg1 arg2 harg2 arg3 harg3 arg4 harg4 arg5 harg5) K } := by
  refine ⟨?_, ?_, ?_, ?_, fun E K => ?run⟩
  case run =>
    simp only [cc1_kernel_eq_skeleton]; unfold cc1_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [HS0]
    · iexists _; iexact HS0
    iexists _; iexact HS1

end Cert.KernelIdeal.Regs

end
-- ==== Proof.StatsRegion1.lean ====
import proofs.«180908_j8211977470570_1_alg».proof.Proof.Stats1RunC

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The statistics region of pipeline 1: the running sums, the proof data, the body obligation -/

/-! ## What each case's stores leave -/

/-- At the first point the stores into the first scratch buffer (the zero, then the sum) tile it, so they cover it. -/
theorem scover1_A_0 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S3000x64 .f32) (y : S1x64.Idx) :
    ∃ pc ∈ (kernelRun1_A c i arg1 harg1 arg2 harg2 arg3 harg3 arg4 harg4 arg5 harg5 hc0 hc1 x0).1, y ∈ pc.1.set :=
  View.cover_of_tiledL (kernelRun1_A c i arg1 harg1 arg2 harg2 arg3 harg3 arg4 harg4 arg5 harg5 hc0 hc1 x0).1 S1x64.size (by sl_kernel_rfl) y

/-- What they leave there: the pieces read back (over contents that, the pieces covering the buffer, do not matter). -/
def sout1_A_0 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S3000x64 .f32) : Vec F S1x64 .f32 :=
  VS1_0.read (Elt F) (VS1_0.writes (Elt F) VS1_0.junk (kernelRun1_A c i arg1 harg1 arg2 harg2 arg3 harg3 arg4 harg4 arg5 harg5 hc0 hc1 x0).1)

/-- At the first point the stores into the second scratch buffer tile it, so they cover it. -/
theorem scover1_A_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S3000x64 .f32) (y : S1x64.Idx) :
    ∃ pc ∈ (kernelRun1_A c i arg1 harg1 arg2 harg2 arg3 harg3 arg4 harg4 arg5 harg5 hc0 hc1 x0).2.1, y ∈ pc.1.set :=
  View.cover_of_tiledL (kernelRun1_A c i arg1 harg1 arg2 harg2 arg3 harg3 arg4 harg4 arg5 harg5 hc0 hc1 x0).2.1 S1x64.size (by sl_kernel_rfl) y

/-- What they leave there: the pieces read back (over contents that, the pieces covering the buffer, do not matter). -/
def sout1_A_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S3000x64 .f32) : Vec F S1x64 .f32 :=
  VS1_1.read (Elt F) (VS1_1.writes (Elt F) VS1_1.junk (kernelRun1_A c i arg1 harg1 arg2 harg2 arg3 harg3 arg4 harg4 arg5 harg5 hc0 hc1 x0).2.1)

/-- At a middle point the store into the first scratch buffer tiles it. -/
theorem scover1_B_0 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S3000x64 .f32) (xs0 : Vec F S1x64 .f32) (xs1 : Vec F S1x64 .f32) (y : S1x64.Idx) :
    ∃ pc ∈ (kernelRun1_B c i arg1 harg1 arg2 harg2 arg3 harg3 arg4 harg4 arg5 harg5 hc0 hc1 x0 xs0 xs1).1, y ∈ pc.1.set :=
  View.cover_of_tiledL (kernelRun1_B c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def sout1_B_0 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S3000x64 .f32) (xs0 : Vec F S1x64 .f32) (xs1 : Vec F S1x64 .f32) : Vec F S1x64 .f32 :=
  VS1_0.read (Elt F) (VS1_0.writes (Elt F) VS1_0.junk (kernelRun1_B c i arg1 harg1 arg2 harg2 arg3 harg3 arg4 harg4 arg5 harg5 hc0 hc1 x0 xs0 xs1).1)

/-- At a middle point the store into the second scratch buffer tiles it. -/
theorem scover1_B_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S3000x64 .f32) (xs0 : Vec F S1x64 .f32) (xs1 : Vec F S1x64 .f32) (y : S1x64.Idx) :
    ∃ pc ∈ (kernelRun1_B c i arg1 harg1 arg2 harg2 arg3 harg3 arg4 harg4 arg5 harg5 hc0 hc1 x0 xs0 xs1).2.1, y ∈ pc.1.set :=
  View.cover_of_tiledL (kernelRun1_B c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def sout1_B_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S3000x64 .f32) (xs0 : Vec F S1x64 .f32) (xs1 : Vec F S1x64 .f32) : Vec F S1x64 .f32 :=
  VS1_1.read (Elt F) (VS1_1.writes (Elt F) VS1_1.junk (kernelRun1_B c i arg1 harg1 arg2 harg2 arg3 harg3 arg4 harg4 arg5 harg5 hc0 hc1 x0 xs0 xs1).2.1)

/-- At the last point the store into the first output window (the mean) tiles its block. -/
theorem cover1_C_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) (y : S1x64.Idx) :
    ∃ pc ∈ (kernelRun1_C c i arg1 harg1 arg2 harg2 arg3 harg3 arg4 harg4 arg5 harg5 hc0 hc1 x0 xs0 xs1).1, y ∈ pc.1.set :=
  View.cover_of_tiledL (kernelRun1_C c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def out1_C_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) : Vec F S1x64 .f32 :=
  VO1_1.read (Elt F) (VO1_1.writes (Elt F) VO1_1.junk (kernelRun1_C c i arg1 harg1 arg2 harg2 arg3 harg3 arg4 harg4 arg5 harg5 hc0 hc1 x0 xs0 xs1).1)

/-- At the last point the store into the second output window (the variance) tiles its block. -/
theorem cover1_C_2 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) (y : S1x64.Idx) :
    ∃ pc ∈ (kernelRun1_C c i arg1 harg1 arg2 harg2 arg3 harg3 arg4 harg4 arg5 harg5 hc0 hc1 x0 xs0 xs1).2.1, y ∈ pc.1.set :=
  View.cover_of_tiledL (kernelRun1_C c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def out1_C_2 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) : Vec F S1x64 .f32 :=
  VO1_2.read (Elt F) (VO1_2.writes (Elt F) VO1_2.junk (kernelRun1_C c i arg1 harg1 arg2 harg2 arg3 harg3 arg4 harg4 arg5 harg5 hc0 hc1 x0 xs0 xs1).2.1)

/-- At the last point the store into the first scratch buffer tiles it. -/
theorem scover1_C_0 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) (y : S1x64.Idx) :
    ∃ pc ∈ (kernelRun1_C c i arg1 harg1 arg2 harg2 arg3 harg3 arg4 harg4 arg5 harg5 hc0 hc1 x0 xs0 xs1).2.2.1, y ∈ pc.1.set :=
  View.cover_of_tiledL (kernelRun1_C c i arg1 harg1 arg2 harg2 arg3 harg3 arg4 harg4 arg5 harg5 hc0 hc1 x0 xs0 xs1).2.2.1 S1x64.size (by sl_kernel_rfl) y

/-- What they leave there: the pieces read back (over contents that, the pieces covering the buffer, do not matter). -/
def sout1_C_0 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) : Vec F S1x64 .f32 :=
  VS1_0.read (Elt F) (VS1_0.writes (Elt F) VS1_0.junk (kernelRun1_C c i arg1 harg1 arg2 harg2 arg3 harg3 arg4 harg4 arg5 harg5 hc0 hc1 x0 xs0 xs1).2.2.1)

/-- At the last point the store into the second scratch buffer tiles it. -/
theorem scover1_C_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) (y : S1x64.Idx) :
    ∃ pc ∈ (kernelRun1_C c i arg1 harg1 arg2 harg2 arg3 harg3 arg4 harg4 arg5 harg5 hc0 hc1 x0 xs0 xs1).2.2.2.1, y ∈ pc.1.set :=
  View.cover_of_tiledL (kernelRun1_C c i arg1 harg1 arg2 harg2 arg3 harg3 arg4 harg4 arg5 harg5 hc0 hc1 x0 xs0 xs1).2.2.2.1 S1x64.size (by sl_kernel_rfl) y

/-- What they leave there: the pieces read back (over contents that, the pieces covering the buffer, do not matter). -/
def sout1_C_1 (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S3000x64 .f32) (xs0 : Vec F S1x64 .f32) (xs1 : Vec F S1x64 .f32) : Vec F S1x64 .f32 :=
  VS1_1.read (Elt F) (VS1_1.writes (Elt F) VS1_1.junk (kernelRun1_C c i arg1 harg1 arg2 harg2 arg3 harg3 arg4 harg4 arg5 harg5 hc0 hc1 x0 xs0 xs1).2.2.2.1)

/-- After the first point the reset is never taken again: the grid has 20 points. -/
theorem not_cond1_0_succ (n : ℕ) (hn : n + 1 < cfg1.N) : ¬cond1_0 (grid1.coords ⟨n + 1, hn⟩) := fun h => by
  have h' := (hcond1_0 ⟨n + 1, hn⟩).mp h
  have hN : n + 1 < 20 := lt_of_lt_of_eq hn (show cfg1.N = 20 from N_1)
  dsimp only at h'; omega

/-- The first point is not the last. -/
theorem not_cond1_1_zero (hn : 0 < cfg1.N) : ¬cond1_1 (grid1.coords ⟨0, hn⟩) := fun h => by
  have h' := (hcond1_1 ⟨0, hn⟩).mp h
  dsimp only at h'; omega

section Region1
variable (V : (c : Dev nD) → (b : Ref sig .tc) → Buf (Elt F) ((c : Thread nD τ).loc b))

/-- Contents of an output window at a point where nothing reads them (the window is idle there and not written back). -/
def unread1_1 : Vec F S1x64 .f32 := VO1_1.read (Elt F) VO1_1.junk
def unread1_2 : Vec F S1x64 .f32 := VO1_2.read (Elt F) VO1_2.junk

/-! ## What the outputs and the scratch hold after each point -/

/-- THE ACCUMULATION. After the body at position `n`: the two output windows' staging buffers (named only at the last
    point) and the two scratch buffers — the first point's case run on the block, then each later point's case run on the
    block and on what the point before left in the scratch. -/
def outsAt1 (c : Dev nD) : (n : ℕ) → n < cfg1.N → (Vec F S1x64 .f32 × Vec F S1x64 .f32) × (Vec F S1x64 .f32 × Vec F S1x64 .f32)
  | 0, hn =>
    ((unread1_1, unread1_2),
     (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (not_cond1_1_zero hn) (iblk1 V c 0 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (not_cond1_1_zero hn) (iblk1 V c 0 ⟨0, hn⟩)))
  | n + 1, hn =>
    if h1 : (n + 1) % 20 = 19 then
      ((out1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (not_cond1_0_succ n hn) ((hcond1_1 ⟨n + 1, hn⟩).mpr h1) (iblk1 V c 0 ⟨n + 1, hn⟩) (outsAt1 c n (Nat.lt_of_succ_lt hn)).2.1 (outsAt1 c n (Nat.lt_of_succ_lt hn)).2.2,
        out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (not_cond1_0_succ n hn) ((hcond1_1 ⟨n + 1, hn⟩).mpr h1) (iblk1 V c 0 ⟨n + 1, hn⟩) (outsAt1 c n (Nat.lt_of_succ_lt hn)).2.1 (outsAt1 c n (Nat.lt_of_succ_lt hn)).2.2),
       (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (not_cond1_0_succ n hn) ((hcond1_1 ⟨n + 1, hn⟩).mpr h1) (iblk1 V c 0 ⟨n + 1, hn⟩) (outsAt1 c n (Nat.lt_of_succ_lt hn)).2.1 (outsAt1 c n (Nat.lt_of_succ_lt hn)).2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (not_cond1_0_succ n hn) ((hcond1_1 ⟨n + 1, hn⟩).mpr h1) (iblk1 V c 0 ⟨n + 1, hn⟩) (outsAt1 c n (Nat.lt_of_succ_lt hn)).2.1 (outsAt1 c n (Nat.lt_of_succ_lt hn)).2.2))
    else
      ((unread1_1, unread1_2),
       (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (not_cond1_0_succ n hn) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (not_cond1_0_succ n hn) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2))

/-- `outsAt1` at the first point. -/
theorem outsAt1_A (c : Dev nD) (t : Fin cfg1.N) (hc0 : cond1_0 (grid1.coords t)) (hc1 : ¬cond1_1 (grid1.coords t)) :
    outsAt1 V c t.val t.isLt = ((unread1_1, unread1_2),
      (sout1_A_0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t), sout1_A_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t))) := by
  obtain ⟨n, hn⟩ := t
  cases n with
  | zero => exact rfl
  | succ n => exact absurd hc0 (not_cond1_0_succ n hn)

/-- `outsAt1` at a middle point: over what the point before left in the scratch. -/
theorem outsAt1_B (c : Dev nD) (t : Fin cfg1.N) (hc0 : ¬cond1_0 (grid1.coords t)) (hc1 : ¬cond1_1 (grid1.coords t)) :
    outsAt1 V c t.val t.isLt = ((unread1_1, unread1_2),
      (sout1_B_0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2,
       sout1_B_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact absurd ((hcond1_0 ⟨0, hn⟩).mpr (Nat.zero_mod _)) hc0
  | succ n => exact (dif_neg (fun h => hc1 ((hcond1_1 ⟨n + 1, hn⟩).mpr h))).trans rfl

/-- `outsAt1` at the last point: over what the point before left in the scratch. -/
theorem outsAt1_C (c : Dev nD) (t : Fin cfg1.N) (hc0 : ¬cond1_0 (grid1.coords t)) (hc1 : cond1_1 (grid1.coords t)) :
    outsAt1 V c t.val t.isLt =
      ((out1_C_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2,
        out1_C_2 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2),
       (sout1_C_0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2,
        sout1_C_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact absurd ((hcond1_0 ⟨0, hn⟩).mpr (Nat.zero_mod _)) hc0
  | succ n => exact (dif_pos ((hcond1_1 ⟨n + 1, hn⟩).mp hc1)).trans rfl

/-! ## The region's invariant -/

/-- The invariant before position `n`: before the first point every scoped buffer no window stages at some contents
    (the two scratch buffers hold anything on entry) and the generator register at some state; afterwards the two
    scratch buffers at the running sums the point before left, the other such buffers unopened, and the register. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of pipeline 1 on core `c`: the arrays as the region finds them (`V`); after the body the input's
    buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1.1
    | ⟨2, _⟩ => (outsAt1 V c t.val t.isLt).1.2
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1.1 := by dsimp only [dat1]
theorem after1_2 (c : Dev nD) (t : Fin cfg1.N) : (dat1 V c).after 2 t = (outsAt1 V c t.val t.isLt).1.2 := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the input's memref holds its block; the closed forms say which case the point is in; the
    invariant hands the body the two scratch buffers at what the point before left (at anything at the first point) and
    takes them back at this point's contents; the idle output windows pass through untouched; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  by_cases hc1 : cond1_1 (grid1.coords t)
  · have h1 : t.val % 20 = 19 := (hcond1_1 t).mp hc1
    have hc0 : ¬cond1_0 (grid1.coords t) := fun h => by have := (hcond1_0 t).mp h; omega
    have hz : t.val ≠ 0 := by omega
    rw [show (dat1 V c).leavesExact 1 t = owns (c : Thread nD τ) (ms1_1 t) fullShare ((dat1 V c).after 1 t) from by
      unfold Dat.leavesExact; rw [liveAt1_1 t hc1], after1_1]
    rw [show (dat1 V c).leavesExact 2 t = owns (c : Thread nD τ) (ms1_2 t) fullShare ((dat1 V c).after 2 t) from by
      unfold Dat.leavesExact; rw [liveAt1_2 t hc1], after1_2]
    rw [outsAt1_C V c t hc0 hc1]
    unfold out1_C_1 out1_C_2 sout1_C_0 sout1_C_1; (try dsimp only)
    rw [PhiS1_castSucc V c t, PhiS1_pos V c _ _ hz]
    iintro ⟨⟨⟨⟨HS0, HS1⟩, HR⟩, Hg⟩, Ho, ⟨%d0, H0⟩, ⟨%d1, H1⟩, ⟨%d2, H2⟩⟩
    iapply ((kernelRun1_C c (grid1.coords t) _ _ _ _ _ _ _ _ _ _ hc0 hc1 (iblk1 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_C_0 c _ _ _ _ _ _ _ _ _ _ _ _ _ _ _ _)
          · unfold owns; iexists _; isplitr
            swap; · iexact HS1
            ipureintro; exact View.read_writes_of_cover _ _ _ _ _ (scover1_C_1 c _ _ _ _ _ _ _ _ _ _ _ _ _ _ _ _)
        · iexact HR
      · iexact Hg
    isplitl [Ho]; · iexact Ho
    isplitl [H0]; · iexact H0
    isplitl [H1]
    · unfold owns; iexists _; isplitr
      swap; · iexact H1
      ipureintro; exact View.read_writes_of_cover _ _ _ _ _ (cover1_C_1 c _ _ _ _ _ _ _ _ _ _ _ _ _ _ _ _)
    · unfold owns; iexists _; isplitr
      swap; · iexact H2
      ipureintro; exact View.read_writes_of_cover _ _ _ _ _ (cover1_C_2 c _ _ _ _ _ _ _ _ _ _ _ _ _ _ _ _)
  · rw [Dat.leavesExact_idle (dat1 V c) 1 t (idleAt1_1 t hc1) (noFlush1_1 t hc1)]
    rw [Dat.leavesExact_idle (dat1 V c) 2 t (idleAt1_2 t hc1) (noFlush1_2 t hc1)]
    by_cases hc0 : cond1_0 (grid1.coords t)
    · have hz : t.val = 0 := by have := (hcond1_0 t).mp hc0; omega
      rw [outsAt1_A V c t hc0 hc1]
      unfold sout1_A_0 sout1_A_1; (try dsimp only)
      rw [PhiS1_castSucc V c t, PhiS1_zero V c _ _ hz, PhiA1_eq]
      iintro ⟨⟨⟨⟨HS0, HS1⟩, HR⟩, Hg⟩, Ho, ⟨%d0, H0⟩, ⟨%d1, H1⟩, ⟨%d2, H2⟩⟩
      iapply ((kernelRun1_A c (grid1.coords t) _ _ _ _ _ _ _ _ _ _ hc0 hc1 (iblk1 V c 0 t)).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _)
          · iexact HR
        · iexact Hg
      isplitl [Ho]; · iexact Ho
      isplitl [H0]; · iexact H0
      isplitl [H1]; · iexists _; iexact H1
      iexists _; iexact H2
    · have hz : t.val ≠ 0 := fun h => hc0 ((hcond1_0 t).mpr (by rw [h]))
      rw [outsAt1_B V c t hc0 hc1]
      unfold sout1_B_0 sout1_B_1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩⟩
      iapply ((kernelRun1_B c (grid1.coords t) _ _ _ _ _ _ _ _ _ _ hc0 hc1 (iblk1 V c 0 t) _ _).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _)
          · iexact HR
        · iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (every scoped buffer no window stages, the generator register) is the invariant
    before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Region1

end Cert.KernelIdeal.Regs

end
-- ==== Proof.NormRegion2.lean ====
/-
  Region 2 of @main (pipeline 2, `cc2_kernel`): the batch-norm NORMALISE step, stated at a parameter `V` — the
  TensorCore's buffer contents when the region is entered.

  The body is pointwise. At every grid point it reads the row block `x` of the array (window 0) and the four
  per-channel rows mean, variance, gamma, beta (windows 1–4, one block each, the same at every point), and stores
  into the output window's buffer (window 5) the single value
      act ((x − mean) · rsqrt (var + ε) · gamma + beta)
  (`k2_pay1`), where act is the leaky rectifier with slope 0.01. One whole-rectangle store covers the output buffer, so what
  the body leaves there is a closed function `out2_5` of the five input blocks; the input buffers are left as found.
  From this: the body's triple (`sound_kernel2`), the pipeline's proof data (`dat2`: arrays as the region finds
  them, each input buffer at its block, the output buffer at `out2_5` of the blocks), and the body obligation at every
  point (`body_obligation2`).
-/
import proofs.«180908_j8211977470570_1_alg».proof.Proof.Gen.KernelIdeal.Launch
import proofs.«180908_j8211977470570_1_alg».proof.Proof.Gen.KernelIdeal.Skeleton
import proofs.«180908_j8211977470570_1_alg».proof.Proof.Gen.KernelIdeal.Points
import Idealize.ShloMosaic.Lib.Pipeline.FrameBody
import Idealize.ShloMosaic.Lib.Tactic

-- membership in a rectangle of full extents recurses once per coordinate of the long axis
set_option maxRecDepth 16384

noncomputable section

namespace Cert.KernelIdeal.Regs

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole rectangle of a row block, and of a per-channel row. -/
abbrev r2_big : Rect S3000x64 := Rect.unit (s := S3000x64) ![0, 0] S3000x64.size inb_S3000x64_S3000x64_0_0
abbrev r2_row : Rect S1x64 := Rect.unit (s := S1x64) ![0, 0] S1x64.size inb_S1x64_S1x64_0_0

/-! ## What the body leaves in the output window's buffer -/

/-- Window 5's staging buffer after the body, from the five input windows' blocks: its one store, of the
    normalised and activated rows, over the whole buffer. -/
def out2_5 (x0 : Vec F S3000x64 .f32) (x1 x2 x3 x4 : Vec F S1x64 .f32) : Vec F S3000x64 .f32 :=
  View.canon [⟨r2_big, k2_pay1 (View.ld x0 r2_big) (View.ld x1 r2_row) (View.ld x2 r2_row) (View.ld x3 r2_row) (View.ld x4 r2_row)⟩]

/-- The store's rectangle is the whole buffer, so it covers it. -/
theorem cover2_5 (p0 : Vec F S3000x64 .f32) (y : S3000x64.Idx) :
    ∃ pc ∈ ([⟨r2_big, p0⟩] : List (View.Piece (Elt F) S3000x64 .f32)), y ∈ pc.1.set :=
  View.cover_of_tiled [⟨r2_big, p0⟩] S3000x64.size (by rfl) y

/-! ## The body's triple -/

set_option maxHeartbeats 1000000 in
/-- The kernel body on whole staging memrefs, the inputs' at read contents `x0 … x4` and the output's at anything, runs
    to the continuation holding the inputs' as they were and the output's at `out2_5` of the inputs'. The grid
    coordinate `i` is not read. -/
theorem sound_kernel2 (c : Dev nD) (E : Set ℕ) (i : grid2.Coords)
    (arg1 : Memref sig .tc .vmem S3000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S3000x64 .f32) (harg6 : arg6.IsWhole)
    (x0 : Vec F S3000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point `t`
    each input's buffer at its block and the output's at `out2_5` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Regs
-- ==== Proof.MatmulRegion3.lean ====
/- Region 3 of @main (pipeline 3, `cc3_kernel`): a matrix product of two whole blocks, stored whole.
   Stated at a parameter `V`: the contents of the core's buffers when the region is entered.  The body reads
   window 0 (a block of rows) and window 1 (a block of weights) whole, rounds both to bf16, multiplies them
   into a zero accumulator, reads window 2 (the value is not used), and overwrites window 2 whole with the
   product.  Hence after the body the two input buffers are as found and the output buffer is a function
   `out3_2` of the two input blocks alone. -/
import proofs.«180908_j8211977470570_1_alg».proof.Proof.Gen.KernelIdeal.Launch
import proofs.«180908_j8211977470570_1_alg».proof.Proof.Gen.KernelIdeal.Skeleton
import proofs.«180908_j8211977470570_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
-- the contents of the core's buffers when the region is entered
variable (V : (c : Dev nD) → (b : Ref sig .tc) → Buf (Elt F) ((c : Thread nD τ).loc b))

/-! ## The windows' blocks -/

/-- Window `w`'s block at point `t`, read off its array at the entry contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_a : Rect S1x5000x128 := Rect.unit (s := S1x5000x128) ![0, 0, 0] S1x5000x128.size inb_S1x5000x128_S1x5000x128_0_0_0
abbrev r3_b : Rect S1x128x64 := Rect.unit (s := S1x128x64) ![0, 0, 0] S1x128x64.size inb_S1x128x64_S1x128x64_0_0_0
abbrev r3_o : Rect S1x5000x64 := Rect.unit (s := S1x5000x64) ![0, 0, 0] S1x5000x64.size inb_S1x5000x64_S1x5000x64_0_0_0

/-! ## What the body leaves in the output window's buffer -/

/-- Window 2's buffer after the body, from the two input blocks: its one store, of the product, over the whole buffer. -/
def out3_2 (x0 : Vec F S1x5000x128 .f32) (x1 : Vec F S1x128x64 .f32) : Vec F S1x5000x64 .f32 :=
  View.canon [⟨r3_o, k3_pay1 (View.ld x0 r3_a) (View.ld x1 r3_b)⟩]

/-- The one store covers the buffer. -/
theorem cover3_2 (p0 : Vec F S1x5000x64 .f32) (y : S1x5000x64.Idx) :
    ∃ pc ∈ ([⟨r3_o, p0⟩] : List (View.Piece (Elt F) S1x5000x64 .f32)), y ∈ pc.1.set :=
  View.cover_of_tiled [⟨r3_o, p0⟩] S1x5000x64.size (by rfl) y

/-! ## The body's triple -/

set_option maxHeartbeats 1000000 in
/-- The body on whole buffers — the inputs' at contents `x0`, `x1`, the output's at anything — runs to the
    continuation holding the inputs' as they were and the output's at `out3_2 x0 x1`. -/
theorem sound_kernel3 (c : Dev nD) (E : Set ℕ) (i : grid3.Coords)
    (arg2 : Memref sig .tc .vmem S1x5000x128 .f32) (harg2 : arg2.IsWhole)
    (arg3 : Memref sig .tc .vmem S1x128x64 .f32) (harg3 : arg3.IsWhole)
    (arg4 : Memref sig .tc .vmem S1x5000x64 .f32) (harg4 : arg4.IsWhole)
    (x0 : Vec F S1x5000x128 .f32) (x1 : Vec F S1x128x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3_kernel i arg2 harg2 arg3 harg3 arg4 harg4) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays at the entry contents `V`; after the body at point `t`
    each input's buffer at its block and the output's at `out3_2` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

/-- Each input's current buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's rule, at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Regs
-- ==== Proof.Stats4Runs.lean ====
import proofs.«180908_j8211977470570_1_alg».proof.Proof.Gen.KernelIdeal.Launch
import proofs.«180908_j8211977470570_1_alg».proof.Proof.Gen.KernelIdeal.Skeleton
import proofs.«180908_j8211977470570_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The statistics region of pipeline 4: what its three control cases share

The kernel keeps two running column sums (of the block and of its square) in two scratch buffers the pipeline does not
stage: the first grid point zeroes them, every point adds its block's column sums, the last point turns them into the
mean and the variance and stores those into the two output windows. Everything is stated at a parameter `V`, the buffer
contents when the region is entered. -/

section Region4
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is `V`'s
    and whose body leaves the block in place: the window is fetched at every point, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

end Region4

/-! ## The body's branch conditions -/

/-- The condition of the body's first conditional (the reset of the running sums), from the grid coordinate. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val % 20 = 0 :=
  (by decide +kernel : ∀ t : Fin grid4.N, cond4_0 (grid4.coords t) ↔ t.val % 20 = 0)

/-- The condition of the body's second conditional (the final division and the two output stores). -/
abbrev cond4_1 (i : grid4.Coords) : Prop := k4_cond2 i = 1#1
/-- It holds at the last point only — decided over the grid. -/
theorem hcond4_1 : ∀ t : Fin cfg4.N, cond4_1 (grid4.coords t) ↔ t.val % 20 = 19 :=
  (by decide +kernel : ∀ t : Fin grid4.N, cond4_1 (grid4.coords t) ↔ t.val % 20 = 19)

/-! ## Where the windows are idle -/

/-- The input window is never idle. -/
theorem liveAt4_0 : ∀ t : Fin cfg4.N, cfg4.idle 0 (grid4.coords t) = false := by decide +kernel
/-- Away from the last point the two output windows are idle (the body stores nothing into them) -/
theorem idleAt4_1 : ∀ t : Fin cfg4.N, ¬cond4_1 (grid4.coords t) → cfg4.idle 1 (grid4.coords t) = true := by decide +kernel
theorem idleAt4_2 : ∀ t : Fin cfg4.N, ¬cond4_1 (grid4.coords t) → cfg4.idle 2 (grid4.coords t) = true := by decide +kernel
/-- and are not written back. -/
theorem noFlush4_1 : ∀ t : Fin cfg4.N, ¬cond4_1 (grid4.coords t) → (cfg4.win 1).flush t = false := by decide +kernel
theorem noFlush4_2 : ∀ t : Fin cfg4.N, ¬cond4_1 (grid4.coords t) → (cfg4.win 2).flush t = false := by decide +kernel
/-- At the last point they are live. -/
theorem liveAt4_1 : ∀ t : Fin cfg4.N, cond4_1 (grid4.coords t) → cfg4.idle 1 (grid4.coords t) = false := by decide +kernel
theorem liveAt4_2 : ∀ t : Fin cfg4.N, cond4_1 (grid4.coords t) → cfg4.idle 2 (grid4.coords t) = false := by decide +kernel

/-! ## The memrefs the body is called with -/

/-- One staging buffer of each output window, through which its contents are stated (the choice does not matter once
    the stores cover the block). -/
abbrev VO4_1 : View sig .tc .vmem S1x64 .f32 := (Memref.whole cc4_stg1_0 : Memref sig .tc .vmem S1x64 .f32).view
abbrev VO4_2 : View sig .tc .vmem S1x64 .f32 := (Memref.whole cc4_stg2_0 : Memref sig .tc .vmem S1x64 .f32).view
/-- Each window's current staging memref at point `t`, as the pipeline passes it, and its wholeness. -/
abbrev ms4_0 (t : Fin cfg4.N) : Memref sig .tc .vmem S3000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
/-- The two scratch operands: whole scoped buffers of the kernel's own, passed beside the windows. -/
abbrev scM4_0 : Memref sig .tc .vmem S1x64 .f32 := Memref.whole cc4_scratch0
abbrev scM4_1 : Memref sig .tc .vmem S1x64 .f32 := Memref.whole cc4_scratch1
/-- The same as views: what they hold is stated through these. -/
abbrev VS4_0 : View sig .tc .vmem S1x64 .f32 := scM4_0.view
abbrev VS4_1 : View sig .tc .vmem S1x64 .f32 := scM4_1.view

/-- The region's entry invariant (every scoped buffer no window stages at some contents, the generator register at
    some state) with the two scratch operands taken out as memrefs owned at some contents; the other scoped buffers stay
    unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

end Cert.KernelIdeal.Regs

end
-- ==== Proof.Stats4RunA.lean ====
import proofs.«180908_j8211977470570_1_alg».proof.Proof.Stats4Runs

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- THE FIRST POINT (the reset taken, the final stores not): what the body's stores leave in the two scratch buffers, as
    pieces (last first), WITH the proof that on whole memrefs — the input block's at its contents `x0`, the two scratch
    buffers at anything — the body runs to the continuation holding the input as it was and each scratch buffer with its
    pieces written (zero stored, then the block's column sums added). The two output windows are not touched and are
    left out. The pieces are the witness the symbolic run finds. -/
noncomputable def kernelRun4_A (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S3000x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg4 fullShare d) ∗ (∃ d, owns (c : Thread nD τ) arg5 fullShare d)
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4_kernel i arg1 harg1 arg2 harg2 arg3 harg3 arg4 harg4 arg5 harg5) K } := by
  refine ⟨?_, ?_, fun E K => ?run⟩
  case run =>
    simp only [cc4_kernel_eq_skeleton]; unfold cc4_kernel_skel
    unfold owns
    iintro ⟨⟨%f0, %hf0, H0⟩, ⟨%ds0, %fs0, -, HS0⟩, ⟨%ds1, %fs1, -, HS1⟩, Hk⟩
    obtain rfl := harg1.eq_unread hf0
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.KernelIdeal.Regs

end
-- ==== Proof.Stats4RunB.lean ====
import proofs.«180908_j8211977470570_1_alg».proof.Proof.Stats4RunA

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- A MIDDLE POINT (neither conditional taken): what the body's stores leave in the two scratch buffers, as pieces, WITH
    the proof that on whole memrefs — the input block's at `x0`, the two scratch buffers at the running sums `xs0`, `xs1`
    the point before left — the body runs to the continuation holding the input as it was and each scratch buffer with
    its pieces written (the block's column sums added). The two output windows are not touched and are left out. -/
noncomputable def kernelRun4_B (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S3000x64 .f32) (xs0 : Vec F S1x64 .f32) (xs1 : Vec F S1x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg4 fullShare xs0 ∗ owns (c : Thread nD τ) arg5 fullShare xs1
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4_kernel i arg1 harg1 arg2 harg2 arg3 harg3 arg4 harg4 arg5 harg5) K } := by
  refine ⟨?_, ?_, fun E K => ?run⟩
  case run =>
    simp only [cc4_kernel_eq_skeleton]; unfold cc4_kernel_skel
    unfold owns
    iintro ⟨⟨%f0, %hf0, H0⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.KernelIdeal.Regs

end
-- ==== Proof.Stats4RunC.lean ====
import proofs.«180908_j8211977470570_1_alg».proof.Proof.Stats4RunB

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- THE LAST POINT (the reset not taken, the final stores taken): what the body's stores leave in the two output
    windows' staging memrefs and in the two scratch buffers, as pieces, WITH the proof that on whole memrefs — the input
    block's at `x0`, the outputs' at anything, the scratch buffers at the running sums `xs0`, `xs1` the point before
    left — the body runs to the continuation holding the input as it was and each of the four with its pieces written
    (the sums completed; the mean, and the mean of squares less the mean squared, stored). -/
noncomputable def kernelRun4_C (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) :
    Σ' (L1 : List (View.Piece (Elt F) S1x64 .f32)) (L2 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc4_kernel i arg1 harg1 arg2 harg2 arg3 harg3 arg4 harg4 arg5 harg5) K } := by
  refine ⟨?_, ?_, ?_, ?_, fun E K => ?run⟩
  case run =>
    simp only [cc4_kernel_eq_skeleton]; unfold cc4_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [HS0]
    · iexists _; iexact HS0
    iexists _; iexact HS1

end Cert.KernelIdeal.Regs

end
-- ==== Proof.StatsRegion4.lean ====
import proofs.«180908_j8211977470570_1_alg».proof.Proof.Stats4RunC

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The statistics region of pipeline 4: the running sums, the proof data, the body obligation -/

/-! ## What each case's stores leave -/

/-- At the first point the stores into the first scratch buffer (the zero, then the sum) tile it, so they cover it. -/
theorem scover4_A_0 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S3000x64 .f32) (y : S1x64.Idx) :
    ∃ pc ∈ (kernelRun4_A c i arg1 harg1 arg2 harg2 arg3 harg3 arg4 harg4 arg5 harg5 hc0 hc1 x0).1, y ∈ pc.1.set :=
  View.cover_of_tiledL (kernelRun4_A c i arg1 harg1 arg2 harg2 arg3 harg3 arg4 harg4 arg5 harg5 hc0 hc1 x0).1 S1x64.size (by sl_kernel_rfl) y

/-- What they leave there: the pieces read back (over contents that, the pieces covering the buffer, do not matter). -/
def sout4_A_0 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S3000x64 .f32) : Vec F S1x64 .f32 :=
  VS4_0.read (Elt F) (VS4_0.writes (Elt F) VS4_0.junk (kernelRun4_A c i arg1 harg1 arg2 harg2 arg3 harg3 arg4 harg4 arg5 harg5 hc0 hc1 x0).1)

/-- At the first point the stores into the second scratch buffer tile it, so they cover it. -/
theorem scover4_A_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S3000x64 .f32) (y : S1x64.Idx) :
    ∃ pc ∈ (kernelRun4_A c i arg1 harg1 arg2 harg2 arg3 harg3 arg4 harg4 arg5 harg5 hc0 hc1 x0).2.1, y ∈ pc.1.set :=
  View.cover_of_tiledL (kernelRun4_A c i arg1 harg1 arg2 harg2 arg3 harg3 arg4 harg4 arg5 harg5 hc0 hc1 x0).2.1 S1x64.size (by sl_kernel_rfl) y

/-- What they leave there: the pieces read back (over contents that, the pieces covering the buffer, do not matter). -/
def sout4_A_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S3000x64 .f32) : Vec F S1x64 .f32 :=
  VS4_1.read (Elt F) (VS4_1.writes (Elt F) VS4_1.junk (kernelRun4_A c i arg1 harg1 arg2 harg2 arg3 harg3 arg4 harg4 arg5 harg5 hc0 hc1 x0).2.1)

/-- At a middle point the store into the first scratch buffer tiles it. -/
theorem scover4_B_0 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S3000x64 .f32) (xs0 : Vec F S1x64 .f32) (xs1 : Vec F S1x64 .f32) (y : S1x64.Idx) :
    ∃ pc ∈ (kernelRun4_B c i arg1 harg1 arg2 harg2 arg3 harg3 arg4 harg4 arg5 harg5 hc0 hc1 x0 xs0 xs1).1, y ∈ pc.1.set :=
  View.cover_of_tiledL (kernelRun4_B c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def sout4_B_0 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S3000x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 hc0 hc1 x0 xs0 xs1).1)

/-- At a middle point the store into the second scratch buffer tiles it. -/
theorem scover4_B_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S3000x64 .f32) (xs0 : Vec F S1x64 .f32) (xs1 : Vec F S1x64 .f32) (y : S1x64.Idx) :
    ∃ pc ∈ (kernelRun4_B c i arg1 harg1 arg2 harg2 arg3 harg3 arg4 harg4 arg5 harg5 hc0 hc1 x0 xs0 xs1).2.1, y ∈ pc.1.set :=
  View.cover_of_tiledL (kernelRun4_B c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def sout4_B_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S3000x64 .f32) (xs0 : Vec F S1x64 .f32) (xs1 : Vec F S1x64 .f32) : Vec F S1x64 .f32 :=
  VS4_1.read (Elt F) (VS4_1.writes (Elt F) VS4_1.junk (kernelRun4_B c i arg1 harg1 arg2 harg2 arg3 harg3 arg4 harg4 arg5 harg5 hc0 hc1 x0 xs0 xs1).2.1)

/-- At the last point the store into the first output window (the mean) tiles its block. -/
theorem cover4_C_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) (y : S1x64.Idx) :
    ∃ pc ∈ (kernelRun4_C c i arg1 harg1 arg2 harg2 arg3 harg3 arg4 harg4 arg5 harg5 hc0 hc1 x0 xs0 xs1).1, y ∈ pc.1.set :=
  View.cover_of_tiledL (kernelRun4_C c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def out4_C_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) : Vec F S1x64 .f32 :=
  VO4_1.read (Elt F) (VO4_1.writes (Elt F) VO4_1.junk (kernelRun4_C c i arg1 harg1 arg2 harg2 arg3 harg3 arg4 harg4 arg5 harg5 hc0 hc1 x0 xs0 xs1).1)

/-- At the last point the store into the second output window (the variance) tiles its block. -/
theorem cover4_C_2 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) (y : S1x64.Idx) :
    ∃ pc ∈ (kernelRun4_C c i arg1 harg1 arg2 harg2 arg3 harg3 arg4 harg4 arg5 harg5 hc0 hc1 x0 xs0 xs1).2.1, y ∈ pc.1.set :=
  View.cover_of_tiledL (kernelRun4_C c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def out4_C_2 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) : Vec F S1x64 .f32 :=
  VO4_2.read (Elt F) (VO4_2.writes (Elt F) VO4_2.junk (kernelRun4_C c i arg1 harg1 arg2 harg2 arg3 harg3 arg4 harg4 arg5 harg5 hc0 hc1 x0 xs0 xs1).2.1)

/-- At the last point the store into the first scratch buffer tiles it. -/
theorem scover4_C_0 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) (y : S1x64.Idx) :
    ∃ pc ∈ (kernelRun4_C c i arg1 harg1 arg2 harg2 arg3 harg3 arg4 harg4 arg5 harg5 hc0 hc1 x0 xs0 xs1).2.2.1, y ∈ pc.1.set :=
  View.cover_of_tiledL (kernelRun4_C c i arg1 harg1 arg2 harg2 arg3 harg3 arg4 harg4 arg5 harg5 hc0 hc1 x0 xs0 xs1).2.2.1 S1x64.size (by sl_kernel_rfl) y

/-- What they leave there: the pieces read back (over contents that, the pieces covering the buffer, do not matter). -/
def sout4_C_0 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) : Vec F S1x64 .f32 :=
  VS4_0.read (Elt F) (VS4_0.writes (Elt F) VS4_0.junk (kernelRun4_C c i arg1 harg1 arg2 harg2 arg3 harg3 arg4 harg4 arg5 harg5 hc0 hc1 x0 xs0 xs1).2.2.1)

/-- At the last point the store into the second scratch buffer tiles it. -/
theorem scover4_C_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) (y : S1x64.Idx) :
    ∃ pc ∈ (kernelRun4_C c i arg1 harg1 arg2 harg2 arg3 harg3 arg4 harg4 arg5 harg5 hc0 hc1 x0 xs0 xs1).2.2.2.1, y ∈ pc.1.set :=
  View.cover_of_tiledL (kernelRun4_C c i arg1 harg1 arg2 harg2 arg3 harg3 arg4 harg4 arg5 harg5 hc0 hc1 x0 xs0 xs1).2.2.2.1 S1x64.size (by sl_kernel_rfl) y

/-- What they leave there: the pieces read back (over contents that, the pieces covering the buffer, do not matter). -/
def sout4_C_1 (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S3000x64 .f32) (xs0 : Vec F S1x64 .f32) (xs1 : Vec F S1x64 .f32) : Vec F S1x64 .f32 :=
  VS4_1.read (Elt F) (VS4_1.writes (Elt F) VS4_1.junk (kernelRun4_C c i arg1 harg1 arg2 harg2 arg3 harg3 arg4 harg4 arg5 harg5 hc0 hc1 x0 xs0 xs1).2.2.2.1)

/-- After the first point the reset is never taken again: the grid has 20 points. -/
theorem not_cond4_0_succ (n : ℕ) (hn : n + 1 < cfg4.N) : ¬cond4_0 (grid4.coords ⟨n + 1, hn⟩) := fun h => by
  have h' := (hcond4_0 ⟨n + 1, hn⟩).mp h
  have hN : n + 1 < 20 := lt_of_lt_of_eq hn (show cfg4.N = 20 from N_4)
  dsimp only at h'; omega

/-- The first point is not the last. -/
theorem not_cond4_1_zero (hn : 0 < cfg4.N) : ¬cond4_1 (grid4.coords ⟨0, hn⟩) := fun h => by
  have h' := (hcond4_1 ⟨0, hn⟩).mp h
  dsimp only at h'; omega

section Region4
variable (V : (c : Dev nD) → (b : Ref sig .tc) → Buf (Elt F) ((c : Thread nD τ).loc b))

/-- Contents of an output window at a point where nothing reads them (the window is idle there and not written back). -/
def unread4_1 : Vec F S1x64 .f32 := VO4_1.read (Elt F) VO4_1.junk
def unread4_2 : Vec F S1x64 .f32 := VO4_2.read (Elt F) VO4_2.junk

/-! ## What the outputs and the scratch hold after each point -/

/-- THE ACCUMULATION. After the body at position `n`: the two output windows' staging buffers (named only at the last
    point) and the two scratch buffers — the first point's case run on the block, then each later point's case run on the
    block and on what the point before left in the scratch. -/
def outsAt4 (c : Dev nD) : (n : ℕ) → n < cfg4.N → (Vec F S1x64 .f32 × Vec F S1x64 .f32) × (Vec F S1x64 .f32 × Vec F S1x64 .f32)
  | 0, hn =>
    ((unread4_1, unread4_2),
     (sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 ⟨0, hn⟩).mpr (Nat.zero_mod _)) (not_cond4_1_zero hn) (iblk4 V c 0 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 ⟨0, hn⟩).mpr (Nat.zero_mod _)) (not_cond4_1_zero hn) (iblk4 V c 0 ⟨0, hn⟩)))
  | n + 1, hn =>
    if h1 : (n + 1) % 20 = 19 then
      ((out4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (not_cond4_0_succ n hn) ((hcond4_1 ⟨n + 1, hn⟩).mpr h1) (iblk4 V c 0 ⟨n + 1, hn⟩) (outsAt4 c n (Nat.lt_of_succ_lt hn)).2.1 (outsAt4 c n (Nat.lt_of_succ_lt hn)).2.2,
        out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (not_cond4_0_succ n hn) ((hcond4_1 ⟨n + 1, hn⟩).mpr h1) (iblk4 V c 0 ⟨n + 1, hn⟩) (outsAt4 c n (Nat.lt_of_succ_lt hn)).2.1 (outsAt4 c n (Nat.lt_of_succ_lt hn)).2.2),
       (sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (not_cond4_0_succ n hn) ((hcond4_1 ⟨n + 1, hn⟩).mpr h1) (iblk4 V c 0 ⟨n + 1, hn⟩) (outsAt4 c n (Nat.lt_of_succ_lt hn)).2.1 (outsAt4 c n (Nat.lt_of_succ_lt hn)).2.2,
        sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (not_cond4_0_succ n hn) ((hcond4_1 ⟨n + 1, hn⟩).mpr h1) (iblk4 V c 0 ⟨n + 1, hn⟩) (outsAt4 c n (Nat.lt_of_succ_lt hn)).2.1 (outsAt4 c n (Nat.lt_of_succ_lt hn)).2.2))
    else
      ((unread4_1, unread4_2),
       (sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (not_cond4_0_succ n hn) (fun h => h1 ((hcond4_1 ⟨n + 1, hn⟩).mp h)) (iblk4 V c 0 ⟨n + 1, hn⟩) (outsAt4 c n (Nat.lt_of_succ_lt hn)).2.1 (outsAt4 c n (Nat.lt_of_succ_lt hn)).2.2,
        sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (not_cond4_0_succ n hn) (fun h => h1 ((hcond4_1 ⟨n + 1, hn⟩).mp h)) (iblk4 V c 0 ⟨n + 1, hn⟩) (outsAt4 c n (Nat.lt_of_succ_lt hn)).2.1 (outsAt4 c n (Nat.lt_of_succ_lt hn)).2.2))

/-- `outsAt4` at the first point. -/
theorem outsAt4_A (c : Dev nD) (t : Fin cfg4.N) (hc0 : cond4_0 (grid4.coords t)) (hc1 : ¬cond4_1 (grid4.coords t)) :
    outsAt4 V c t.val t.isLt = ((unread4_1, unread4_2),
      (sout4_A_0 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t), sout4_A_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t))) := by
  obtain ⟨n, hn⟩ := t
  cases n with
  | zero => exact rfl
  | succ n => exact absurd hc0 (not_cond4_0_succ n hn)

/-- `outsAt4` at a middle point: over what the point before left in the scratch. -/
theorem outsAt4_B (c : Dev nD) (t : Fin cfg4.N) (hc0 : ¬cond4_0 (grid4.coords t)) (hc1 : ¬cond4_1 (grid4.coords t)) :
    outsAt4 V c t.val t.isLt = ((unread4_1, unread4_2),
      (sout4_B_0 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (outsAt4 V c (t.val - 1) (Nat.lt_of_le_of_lt (Nat.sub_le _ _) t.isLt)).2.1 (outsAt4 V c (t.val - 1) (Nat.lt_of_le_of_lt (Nat.sub_le _ _) t.isLt)).2.2,
       sout4_B_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (outsAt4 V c (t.val - 1) (Nat.lt_of_le_of_lt (Nat.sub_le _ _) t.isLt)).2.1 (outsAt4 V c (t.val - 1) (Nat.lt_of_le_of_lt (Nat.sub_le _ _) t.isLt)).2.2)) := by
  obtain ⟨n, hn⟩ := t
  cases n with
  | zero => exact absurd ((hcond4_0 ⟨0, hn⟩).mpr (Nat.zero_mod _)) hc0
  | succ n => exact (dif_neg (fun h => hc1 ((hcond4_1 ⟨n + 1, hn⟩).mpr h))).trans rfl

/-- `outsAt4` at the last point: over what the point before left in the scratch. -/
theorem outsAt4_C (c : Dev nD) (t : Fin cfg4.N) (hc0 : ¬cond4_0 (grid4.coords t)) (hc1 : cond4_1 (grid4.coords t)) :
    outsAt4 V c t.val t.isLt =
      ((out4_C_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (outsAt4 V c (t.val - 1) (Nat.lt_of_le_of_lt (Nat.sub_le _ _) t.isLt)).2.1 (outsAt4 V c (t.val - 1) (Nat.lt_of_le_of_lt (Nat.sub_le _ _) t.isLt)).2.2,
        out4_C_2 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (outsAt4 V c (t.val - 1) (Nat.lt_of_le_of_lt (Nat.sub_le _ _) t.isLt)).2.1 (outsAt4 V c (t.val - 1) (Nat.lt_of_le_of_lt (Nat.sub_le _ _) t.isLt)).2.2),
       (sout4_C_0 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (outsAt4 V c (t.val - 1) (Nat.lt_of_le_of_lt (Nat.sub_le _ _) t.isLt)).2.1 (outsAt4 V c (t.val - 1) (Nat.lt_of_le_of_lt (Nat.sub_le _ _) t.isLt)).2.2,
        sout4_C_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (outsAt4 V c (t.val - 1) (Nat.lt_of_le_of_lt (Nat.sub_le _ _) t.isLt)).2.1 (outsAt4 V c (t.val - 1) (Nat.lt_of_le_of_lt (Nat.sub_le _ _) t.isLt)).2.2)) := by
  obtain ⟨n, hn⟩ := t
  cases n with
  | zero => exact absurd ((hcond4_0 ⟨0, hn⟩).mpr (Nat.zero_mod _)) hc0
  | succ n => exact (dif_pos ((hcond4_1 ⟨n + 1, hn⟩).mp hc1)).trans rfl

/-! ## The region's invariant -/

/-- The invariant before position `n`: before the first point every scoped buffer no window stages at some contents
    (the two scratch buffers hold anything on entry) and the generator register at some state; afterwards the two
    scratch buffers at the running sums the point before left, the other such buffers unopened, and the register. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.1) ∗ owns (c : Thread nD τ) scM4_1 fullShare ((outsAt4 V c n hn).2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the scratch at that point's contents. -/
theorem PhiS4_succ (c : Dev nD) (n : ℕ) (hn : n < cfg4.N) :
    PhiS4 V c (n + 1) hn = iprop(iprop(iprop(owns (c : Thread nD τ) scM4_0 fullShare ((outsAt4 V c n hn).2.1) ∗ owns (c : Thread nD τ) scM4_1 fullShare ((outsAt4 V c n hn).2.2))
      ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the scratch at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.1) ∗ owns (c : Thread nD τ) scM4_1 fullShare ((outsAt4 V c (n - 1) (by omega)).2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of pipeline 4 on core `c`: the arrays as the region finds them (`V`); after the body the input's
    buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1.1
    | ⟨2, _⟩ => (outsAt4 V c t.val t.isLt).1.2
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt).1.1 := by dsimp only [dat4]
theorem after4_2 (c : Dev nD) (t : Fin cfg4.N) : (dat4 V c).after 2 t = (outsAt4 V c t.val t.isLt).1.2 := by dsimp only [dat4]

/-- The input's current staging buffer holds its block at every point. -/
theorem before4_0 (c : Dev nD) (t : Fin cfg4.N) (d) : (dat4 V c).before 0 t d = iblk4 V c 0 t :=
  before4_0_of V (dat4 V c) (A_eq4 V c 0) (after4_0 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the input's memref holds its block; the closed forms say which case the point is in; the
    invariant hands the body the two scratch buffers at what the point before left (at anything at the first point) and
    takes them back at this point's contents; the idle output windows pass through untouched; the core owes nothing. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from by
    unfold Dat.leavesExact; rw [liveAt4_0 t], after4_0]
  by_cases hc1 : cond4_1 (grid4.coords t)
  · have h1 : t.val % 20 = 19 := (hcond4_1 t).mp hc1
    have hc0 : ¬cond4_0 (grid4.coords t) := fun h => by have := (hcond4_0 t).mp h; omega
    have hz : t.val ≠ 0 := by omega
    rw [show (dat4 V c).leavesExact 1 t = owns (c : Thread nD τ) (ms4_1 t) fullShare ((dat4 V c).after 1 t) from by
      unfold Dat.leavesExact; rw [liveAt4_1 t hc1], after4_1]
    rw [show (dat4 V c).leavesExact 2 t = owns (c : Thread nD τ) (ms4_2 t) fullShare ((dat4 V c).after 2 t) from by
      unfold Dat.leavesExact; rw [liveAt4_2 t hc1], after4_2]
    rw [outsAt4_C V c t hc0 hc1]
    unfold out4_C_1 out4_C_2 sout4_C_0 sout4_C_1; (try dsimp only)
    rw [PhiS4_castSucc V c t, PhiS4_pos V c _ _ hz]
    iintro ⟨⟨⟨⟨HS0, HS1⟩, HR⟩, Hg⟩, Ho, ⟨%d0, H0⟩, ⟨%d1, H1⟩, ⟨%d2, H2⟩⟩
    iapply ((kernelRun4_C c (grid4.coords t) _ _ _ _ _ _ _ _ _ _ hc0 hc1 (iblk4 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover4_C_0 c _ _ _ _ _ _ _ _ _ _ _ _ _ _ _ _)
          · unfold owns; iexists _; isplitr
            swap; · iexact HS1
            ipureintro; exact View.read_writes_of_cover _ _ _ _ _ (scover4_C_1 c _ _ _ _ _ _ _ _ _ _ _ _ _ _ _ _)
        · iexact HR
      · iexact Hg
    isplitl [Ho]; · iexact Ho
    isplitl [H0]; · iexact H0
    isplitl [H1]
    · unfold owns; iexists _; isplitr
      swap; · iexact H1
      ipureintro; exact View.read_writes_of_cover _ _ _ _ _ (cover4_C_1 c _ _ _ _ _ _ _ _ _ _ _ _ _ _ _ _)
    · unfold owns; iexists _; isplitr
      swap; · iexact H2
      ipureintro; exact View.read_writes_of_cover _ _ _ _ _ (cover4_C_2 c _ _ _ _ _ _ _ _ _ _ _ _ _ _ _ _)
  · rw [Dat.leavesExact_idle (dat4 V c) 1 t (idleAt4_1 t hc1) (noFlush4_1 t hc1)]
    rw [Dat.leavesExact_idle (dat4 V c) 2 t (idleAt4_2 t hc1) (noFlush4_2 t hc1)]
    by_cases hc0 : cond4_0 (grid4.coords t)
    · have hz : t.val = 0 := by have := (hcond4_0 t).mp hc0; omega
      rw [outsAt4_A V c t hc0 hc1]
      unfold sout4_A_0 sout4_A_1; (try dsimp only)
      rw [PhiS4_castSucc V c t, PhiS4_zero V c _ _ hz, PhiA4_eq]
      iintro ⟨⟨⟨⟨HS0, HS1⟩, HR⟩, Hg⟩, Ho, ⟨%d0, H0⟩, ⟨%d1, H1⟩, ⟨%d2, H2⟩⟩
      iapply ((kernelRun4_A c (grid4.coords t) _ _ _ _ _ _ _ _ _ _ hc0 hc1 (iblk4 V c 0 t)).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_A_0 c _ _ _ _ _ _ _ _ _ _ _ _ _ _)
            · unfold owns; iexists _; isplitr
              swap; · iexact HS1
              ipureintro; exact View.read_writes_of_cover _ _ _ _ _ (scover4_A_1 c _ _ _ _ _ _ _ _ _ _ _ _ _ _)
          · iexact HR
        · iexact Hg
      isplitl [Ho]; · iexact Ho
      isplitl [H0]; · iexact H0
      isplitl [H1]; · iexists _; iexact H1
      iexists _; iexact H2
    · have hz : t.val ≠ 0 := fun h => hc0 ((hcond4_0 t).mpr (by rw [h]))
      rw [outsAt4_B V c t hc0 hc1]
      unfold sout4_B_0 sout4_B_1; (try dsimp only)
      rw [PhiS4_castSucc V c t, PhiS4_pos V c _ _ hz]
      iintro ⟨⟨⟨⟨HS0, HS1⟩, HR⟩, Hg⟩, Ho, ⟨%d0, H0⟩, ⟨%d1, H1⟩, ⟨%d2, H2⟩⟩
      iapply ((kernelRun4_B c (grid4.coords t) _ _ _ _ _ _ _ _ _ _ hc0 hc1 (iblk4 V c 0 t) _ _).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _)
          · iexact HR
        · iexact Hg
      isplitl [Ho]; · iexact Ho
      isplitl [H0]; · iexact H0
      isplitl [H1]; · iexists _; iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with (every scoped buffer no window stages, the generator register) is the invariant
    before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives that back: the scratch buffers' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 20 := N_4; omega)

end Region4

end Cert.KernelIdeal.Regs

end
-- ==== Proof.NormRegion5.lean ====
/-
  Region 5 of @main (pipeline 5, `cc5_kernel`): the batch-norm NORMALISE step, stated at a parameter `V` — the
  TensorCore's buffer contents when the region is entered.

  The body is pointwise. At every grid point it reads the row block `x` of the array (window 0) and the four
  per-channel rows mean, variance, gamma, beta (windows 1–4, one block each, the same at every point), and stores
  into the output window's buffer (window 5) the single value
      act ((x − mean) · rsqrt (var + ε) · gamma + beta)
  (`k5_pay1`), where act is the leaky rectifier with slope 0.01. One whole-rectangle store covers the output buffer, so what
  the body leaves there is a closed function `out5_5` of the five input blocks; the input buffers are left as found.
  From this: the body's triple (`sound_kernel5`), the pipeline's proof data (`dat5`: arrays as the region finds
  them, each input buffer at its block, the output buffer at `out5_5` of the blocks), and the body obligation at every
  point (`body_obligation5`).
-/
import proofs.«180908_j8211977470570_1_alg».proof.Proof.Gen.KernelIdeal.Launch
import proofs.«180908_j8211977470570_1_alg».proof.Proof.Gen.KernelIdeal.Skeleton
import proofs.«180908_j8211977470570_1_alg».proof.Proof.Gen.KernelIdeal.Points
import Idealize.ShloMosaic.Lib.Pipeline.FrameBody
import Idealize.ShloMosaic.Lib.Tactic

-- membership in a rectangle of full extents recurses once per coordinate of the long axis
set_option maxRecDepth 16384

noncomputable section

namespace Cert.KernelIdeal.Regs

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block index
    has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof
    data whose array is `V`'s (`hA`) and whose body leaves the block in place (`hafter`): unfetched, the block index
    has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof
    data whose array is `V`'s (`hA`) and whose body leaves the block in place (`hafter`): unfetched, the block index
    has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof
    data whose array is `V`'s (`hA`) and whose body leaves the block in place (`hafter`): unfetched, the block index
    has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for any proof
    data whose array is `V`'s (`hA`) and whose body leaves the block in place (`hafter`): unfetched, the block index
    has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole rectangle of a row block, and of a per-channel row. -/
abbrev r5_big : Rect S3000x64 := Rect.unit (s := S3000x64) ![0, 0] S3000x64.size inb_S3000x64_S3000x64_0_0
abbrev r5_row : Rect S1x64 := Rect.unit (s := S1x64) ![0, 0] S1x64.size inb_S1x64_S1x64_0_0

/-! ## What the body leaves in the output window's buffer -/

/-- Window 5's staging buffer after the body, from the five input windows' blocks: its one store, of the
    normalised and activated rows, over the whole buffer. -/
def out5_5 (x0 : Vec F S3000x64 .f32) (x1 x2 x3 x4 : Vec F S1x64 .f32) : Vec F S3000x64 .f32 :=
  View.canon [⟨r5_big, k5_pay1 (View.ld x0 r5_big) (View.ld x1 r5_row) (View.ld x2 r5_row) (View.ld x3 r5_row) (View.ld x4 r5_row)⟩]

/-- The store's rectangle is the whole buffer, so it covers it. -/
theorem cover5_5 (p0 : Vec F S3000x64 .f32) (y : S3000x64.Idx) :
    ∃ pc ∈ ([⟨r5_big, p0⟩] : List (View.Piece (Elt F) S3000x64 .f32)), y ∈ pc.1.set :=
  View.cover_of_tiled [⟨r5_big, p0⟩] S3000x64.size (by rfl) y

/-! ## The body's triple -/

set_option maxHeartbeats 1000000 in
/-- The kernel body on whole staging memrefs, the inputs' at read contents `x0 … x4` and the output's at anything, runs
    to the continuation holding the inputs' as they were and the output's at `out5_5` of the inputs'. The grid
    coordinate `i` is not read. -/
theorem sound_kernel5 (c : Dev nD) (E : Set ℕ) (i : grid5.Coords)
    (arg1 : Memref sig .tc .vmem S3000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S3000x64 .f32) (harg6 : arg6.IsWhole)
    (x0 : Vec F S3000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point `t`
    each input's buffer at its block and the output's at `out5_5` of the input blocks; the invariant the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the definition's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Regs
-- ==== Proof.MatmulRegion6.lean ====
/- Region 6 of @main (pipeline 6, `cc6_kernel`): a matrix product of two whole blocks, stored whole.
   Stated at a parameter `V`: the contents of the core's buffers when the region is entered.  The body reads
   window 0 (a block of rows) and window 1 (a block of weights) whole, rounds both to bf16, multiplies them
   into a zero accumulator, reads window 2 (the value is not used), and overwrites window 2 whole with the
   product.  Hence after the body the two input buffers are as found and the output buffer is a function
   `out6_2` of the two input blocks alone. -/
import proofs.«180908_j8211977470570_1_alg».proof.Proof.Gen.KernelIdeal.Launch
import proofs.«180908_j8211977470570_1_alg».proof.Proof.Gen.KernelIdeal.Skeleton
import proofs.«180908_j8211977470570_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
-- the contents of the core's buffers when the region is entered
variable (V : (c : Dev nD) → (b : Ref sig .tc) → Buf (Elt F) ((c : Thread nD τ).loc b))

/-! ## The windows' blocks -/

/-- Window `w`'s block at point `t`, read off its array at the entry contents `V`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current buffer holds its block at every point, fetched there or not (unfetched, the
    block index has not moved), for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_a : Rect S1x5000x64 := Rect.unit (s := S1x5000x64) ![0, 0, 0] S1x5000x64.size inb_S1x5000x64_S1x5000x64_0_0_0
abbrev r6_b : Rect S1x64x64 := Rect.unit (s := S1x64x64) ![0, 0, 0] S1x64x64.size inb_S1x64x64_S1x64x64_0_0_0
abbrev r6_o : Rect S1x5000x64 := Rect.unit (s := S1x5000x64) ![0, 0, 0] S1x5000x64.size inb_S1x5000x64_S1x5000x64_0_0_0

/-! ## What the body leaves in the output window's buffer -/

/-- Window 2's buffer after the body, from the two input blocks: its one store, of the product, over the whole buffer. -/
def out6_2 (x0 : Vec F S1x5000x64 .f32) (x1 : Vec F S1x64x64 .f32) : Vec F S1x5000x64 .f32 :=
  View.canon [⟨r6_o, k6_pay1 (View.ld x0 r6_a) (View.ld x1 r6_b)⟩]

/-- The one store covers the buffer. -/
theorem cover6_2 (p0 : Vec F S1x5000x64 .f32) (y : S1x5000x64.Idx) :
    ∃ pc ∈ ([⟨r6_o, p0⟩] : List (View.Piece (Elt F) S1x5000x64 .f32)), y ∈ pc.1.set :=
  View.cover_of_tiled [⟨r6_o, p0⟩] S1x5000x64.size (by rfl) y

/-! ## The body's triple -/

set_option maxHeartbeats 1000000 in
/-- The body on whole buffers — the inputs' at contents `x0`, `x1`, the output's at anything — runs to the
    continuation holding the inputs' as they were and the output's at `out6_2 x0 x1`. -/
theorem sound_kernel6 (c : Dev nD) (E : Set ℕ) (i : grid6.Coords)
    (arg2 : Memref sig .tc .vmem S1x5000x64 .f32) (harg2 : arg2.IsWhole)
    (arg3 : Memref sig .tc .vmem S1x64x64 .f32) (harg3 : arg3.IsWhole)
    (arg4 : Memref sig .tc .vmem S1x5000x64 .f32) (harg4 : arg4.IsWhole)
    (x0 : Vec F S1x5000x64 .f32) (x1 : Vec F S1x64x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out6_2 x0 x1)) -∗ K ⟨⟩))
      ⊢ wp frame (wpE (defs₀ (F := F)) Variants.none c none) E (cc6_kernel i arg2 harg2 arg3 harg3 arg4 harg4) K := by
  simp only [cc6_kernel_eq_skeleton]; unfold cc6_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays at the entry contents `V`; after the body at point `t`
    each input's buffer at its block and the output's at `out6_2` of the input blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) :
    (dat6 V c).after 2 t = out6_2 (iblk6 V c 0 t) (iblk6 V c 1 t) := by dsimp only [dat6]

/-- Each input's current buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's rule, at every point. -/
theorem body_obligation6 (c : Dev nD) : BodyObligation (dat6 (F := F) V c) (defs₀ (F := F)) Variants.none () Set.univ := fun t => by
  rw [bigSep_W6, bigSep_W6]
  exact sound_body6 V c t

end Region

end Cert.KernelIdeal.Regs
-- ==== Proof.Stats7Runs.lean ====
import proofs.«180908_j8211977470570_1_alg».proof.Proof.Gen.KernelIdeal.Launch
import proofs.«180908_j8211977470570_1_alg».proof.Proof.Gen.KernelIdeal.Skeleton
import proofs.«180908_j8211977470570_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The statistics region of pipeline 7: what its three control cases share

The kernel keeps two running column sums (of the block and of its square) in two scratch buffers the pipeline does not
stage: the first grid point zeroes them, every point adds its block's column sums, the last point turns them into the
mean and the variance and stores those into the two output windows. Everything is stated at a parameter `V`, the buffer
contents when the region is entered. -/

section Region7
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's current staging buffer holds its block at every point, for any proof data whose array is `V`'s
    and whose body leaves the block in place: the window is fetched at every point, uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

end Region7

/-! ## The body's branch conditions -/

/-- The condition of the body's first conditional (the reset of the running sums), from the grid coordinate. -/
abbrev cond7_0 (i : grid7.Coords) : Prop := (Scalar.cmpi .ne (Scalar.extui (Scalar.cmpi .eq (BitVec.ofNat 32 (i 0).val) 0#32)) 0#32) = 1#1
/-- It holds at the first point only — decided over the grid. -/
theorem hcond7_0 : ∀ t : Fin cfg7.N, cond7_0 (grid7.coords t) ↔ t.val % 20 = 0 :=
  (by decide +kernel : ∀ t : Fin grid7.N, cond7_0 (grid7.coords t) ↔ t.val % 20 = 0)

/-- The condition of the body's second conditional (the final division and the two output stores). -/
abbrev cond7_1 (i : grid7.Coords) : Prop := k7_cond2 i = 1#1
/-- It holds at the last point only — decided over the grid. -/
theorem hcond7_1 : ∀ t : Fin cfg7.N, cond7_1 (grid7.coords t) ↔ t.val % 20 = 19 :=
  (by decide +kernel : ∀ t : Fin grid7.N, cond7_1 (grid7.coords t) ↔ t.val % 20 = 19)

/-! ## Where the windows are idle -/

/-- The input window is never idle. -/
theorem liveAt7_0 : ∀ t : Fin cfg7.N, cfg7.idle 0 (grid7.coords t) = false := by decide +kernel
/-- Away from the last point the two output windows are idle (the body stores nothing into them) -/
theorem idleAt7_1 : ∀ t : Fin cfg7.N, ¬cond7_1 (grid7.coords t) → cfg7.idle 1 (grid7.coords t) = true := by decide +kernel
theorem idleAt7_2 : ∀ t : Fin cfg7.N, ¬cond7_1 (grid7.coords t) → cfg7.idle 2 (grid7.coords t) = true := by decide +kernel
/-- and are not written back. -/
theorem noFlush7_1 : ∀ t : Fin cfg7.N, ¬cond7_1 (grid7.coords t) → (cfg7.win 1).flush t = false := by decide +kernel
theorem noFlush7_2 : ∀ t : Fin cfg7.N, ¬cond7_1 (grid7.coords t) → (cfg7.win 2).flush t = false := by decide +kernel
/-- At the last point they are live. -/
theorem liveAt7_1 : ∀ t : Fin cfg7.N, cond7_1 (grid7.coords t) → cfg7.idle 1 (grid7.coords t) = false := by decide +kernel
theorem liveAt7_2 : ∀ t : Fin cfg7.N, cond7_1 (grid7.coords t) → cfg7.idle 2 (grid7.coords t) = false := by decide +kernel

/-! ## The memrefs the body is called with -/

/-- One staging buffer of each output window, through which its contents are stated (the choice does not matter once
    the stores cover the block). -/
abbrev VO7_1 : View sig .tc .vmem S1x64 .f32 := (Memref.whole cc7_stg1_0 : Memref sig .tc .vmem S1x64 .f32).view
abbrev VO7_2 : View sig .tc .vmem S1x64 .f32 := (Memref.whole cc7_stg2_0 : Memref sig .tc .vmem S1x64 .f32).view
/-- Each window's current staging memref at point `t`, as the pipeline passes it, and its wholeness. -/
abbrev ms7_0 (t : Fin cfg7.N) : Memref sig .tc .vmem S3000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x64 .f32 := win7_2.stage (cfg7.slots t 2)
abbrev hs7_2 (t : Fin cfg7.N) : (ms7_2 t).IsWhole := hstage7_2 ((cfg7.slots t 2).cast nbuf7_2)
/-- The two scratch operands: whole scoped buffers of the kernel's own, passed beside the windows. -/
abbrev scM7_0 : Memref sig .tc .vmem S1x64 .f32 := Memref.whole cc7_scratch0
abbrev scM7_1 : Memref sig .tc .vmem S1x64 .f32 := Memref.whole cc7_scratch1
/-- The same as views: what they hold is stated through these. -/
abbrev VS7_0 : View sig .tc .vmem S1x64 .f32 := scM7_0.view
abbrev VS7_1 : View sig .tc .vmem S1x64 .f32 := scM7_1.view

/-- The region's entry invariant (every scoped buffer no window stages at some contents, the generator register at
    some state) with the two scratch operands taken out as memrefs owned at some contents; the other scoped buffers stay
    unopened. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1])
          ∗ (∃ r, prngReg c r)) := by
  unfold Pipeline.ΦA; rw [scopedRest7_split]; simp only [scM7_0, scM7_1, owns_whole]; try rfl

end Cert.KernelIdeal.Regs

end
-- ==== Proof.Stats7RunA.lean ====
import proofs.«180908_j8211977470570_1_alg».proof.Proof.Stats7Runs

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- THE FIRST POINT (the reset taken, the final stores not): what the body's stores leave in the two scratch buffers, as
    pieces (last first), WITH the proof that on whole memrefs — the input block's at its contents `x0`, the two scratch
    buffers at anything — the body runs to the continuation holding the input as it was and each scratch buffer with its
    pieces written (zero stored, then the block's column sums added). The two output windows are not touched and are
    left out. The pieces are the witness the symbolic run finds. -/
noncomputable def kernelRun7_A (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond7_0 i) (hc1 : ¬cond7_1 i)
    (x0 : Vec F S3000x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg4 fullShare d) ∗ (∃ d, owns (c : Thread nD τ) arg5 fullShare d)
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc7_kernel i arg1 harg1 arg2 harg2 arg3 harg3 arg4 harg4 arg5 harg5) K } := by
  refine ⟨?_, ?_, fun E K => ?run⟩
  case run =>
    simp only [cc7_kernel_eq_skeleton]; unfold cc7_kernel_skel
    unfold owns
    iintro ⟨⟨%f0, %hf0, H0⟩, ⟨%ds0, %fs0, -, HS0⟩, ⟨%ds1, %fs1, -, HS1⟩, Hk⟩
    obtain rfl := harg1.eq_unread hf0
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.KernelIdeal.Regs

end
-- ==== Proof.Stats7RunB.lean ====
import proofs.«180908_j8211977470570_1_alg».proof.Proof.Stats7RunA

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- A MIDDLE POINT (neither conditional taken): what the body's stores leave in the two scratch buffers, as pieces, WITH
    the proof that on whole memrefs — the input block's at `x0`, the two scratch buffers at the running sums `xs0`, `xs1`
    the point before left — the body runs to the continuation holding the input as it was and each scratch buffer with
    its pieces written (the block's column sums added). The two output windows are not touched and are left out. -/
noncomputable def kernelRun7_B (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : ¬cond7_1 i)
    (x0 : Vec F S3000x64 .f32) (xs0 : Vec F S1x64 .f32) (xs1 : Vec F S1x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg4 fullShare xs0 ∗ owns (c : Thread nD τ) arg5 fullShare xs1
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc7_kernel i arg1 harg1 arg2 harg2 arg3 harg3 arg4 harg4 arg5 harg5) K } := by
  refine ⟨?_, ?_, fun E K => ?run⟩
  case run =>
    simp only [cc7_kernel_eq_skeleton]; unfold cc7_kernel_skel
    unfold owns
    iintro ⟨⟨%f0, %hf0, H0⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.KernelIdeal.Regs

end
-- ==== Proof.Stats7RunC.lean ====
import proofs.«180908_j8211977470570_1_alg».proof.Proof.Stats7RunB

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- THE LAST POINT (the reset not taken, the final stores taken): what the body's stores leave in the two output
    windows' staging memrefs and in the two scratch buffers, as pieces, WITH the proof that on whole memrefs — the input
    block's at `x0`, the outputs' at anything, the scratch buffers at the running sums `xs0`, `xs1` the point before
    left — the body runs to the continuation holding the input as it was and each of the four with its pieces written
    (the sums completed; the mean, and the mean of squares less the mean squared, stored). -/
noncomputable def kernelRun7_C (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) :
    Σ' (L1 : List (View.Piece (Elt F) S1x64 .f32)) (L2 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc7_kernel i arg1 harg1 arg2 harg2 arg3 harg3 arg4 harg4 arg5 harg5) K } := by
  refine ⟨?_, ?_, ?_, ?_, fun E K => ?run⟩
  case run =>
    simp only [cc7_kernel_eq_skeleton]; unfold cc7_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [HS0]
    · iexists _; iexact HS0
    iexists _; iexact HS1

end Cert.KernelIdeal.Regs

end
-- ==== Proof.StatsRegion7.lean ====
import proofs.«180908_j8211977470570_1_alg».proof.Proof.Stats7RunC

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The statistics region of pipeline 7: the running sums, the proof data, the body obligation -/

/-! ## What each case's stores leave -/

/-- At the first point the stores into the first scratch buffer (the zero, then the sum) tile it, so they cover it. -/
theorem scover7_A_0 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond7_0 i) (hc1 : ¬cond7_1 i)
    (x0 : Vec F S3000x64 .f32) (y : S1x64.Idx) :
    ∃ pc ∈ (kernelRun7_A c i arg1 harg1 arg2 harg2 arg3 harg3 arg4 harg4 arg5 harg5 hc0 hc1 x0).1, y ∈ pc.1.set :=
  View.cover_of_tiledL (kernelRun7_A c i arg1 harg1 arg2 harg2 arg3 harg3 arg4 harg4 arg5 harg5 hc0 hc1 x0).1 S1x64.size (by sl_kernel_rfl) y

/-- What they leave there: the pieces read back (over contents that, the pieces covering the buffer, do not matter). -/
def sout7_A_0 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond7_0 i) (hc1 : ¬cond7_1 i)
    (x0 : Vec F S3000x64 .f32) : Vec F S1x64 .f32 :=
  VS7_0.read (Elt F) (VS7_0.writes (Elt F) VS7_0.junk (kernelRun7_A c i arg1 harg1 arg2 harg2 arg3 harg3 arg4 harg4 arg5 harg5 hc0 hc1 x0).1)

/-- At the first point the stores into the second scratch buffer tile it, so they cover it. -/
theorem scover7_A_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond7_0 i) (hc1 : ¬cond7_1 i)
    (x0 : Vec F S3000x64 .f32) (y : S1x64.Idx) :
    ∃ pc ∈ (kernelRun7_A c i arg1 harg1 arg2 harg2 arg3 harg3 arg4 harg4 arg5 harg5 hc0 hc1 x0).2.1, y ∈ pc.1.set :=
  View.cover_of_tiledL (kernelRun7_A c i arg1 harg1 arg2 harg2 arg3 harg3 arg4 harg4 arg5 harg5 hc0 hc1 x0).2.1 S1x64.size (by sl_kernel_rfl) y

/-- What they leave there: the pieces read back (over contents that, the pieces covering the buffer, do not matter). -/
def sout7_A_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond7_0 i) (hc1 : ¬cond7_1 i)
    (x0 : Vec F S3000x64 .f32) : Vec F S1x64 .f32 :=
  VS7_1.read (Elt F) (VS7_1.writes (Elt F) VS7_1.junk (kernelRun7_A c i arg1 harg1 arg2 harg2 arg3 harg3 arg4 harg4 arg5 harg5 hc0 hc1 x0).2.1)

/-- At a middle point the store into the first scratch buffer tiles it. -/
theorem scover7_B_0 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : ¬cond7_1 i)
    (x0 : Vec F S3000x64 .f32) (xs0 : Vec F S1x64 .f32) (xs1 : Vec F S1x64 .f32) (y : S1x64.Idx) :
    ∃ pc ∈ (kernelRun7_B c i arg1 harg1 arg2 harg2 arg3 harg3 arg4 harg4 arg5 harg5 hc0 hc1 x0 xs0 xs1).1, y ∈ pc.1.set :=
  View.cover_of_tiledL (kernelRun7_B c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def sout7_B_0 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : ¬cond7_1 i)
    (x0 : Vec F S3000x64 .f32) (xs0 : Vec F S1x64 .f32) (xs1 : Vec F S1x64 .f32) : Vec F S1x64 .f32 :=
  VS7_0.read (Elt F) (VS7_0.writes (Elt F) VS7_0.junk (kernelRun7_B c i arg1 harg1 arg2 harg2 arg3 harg3 arg4 harg4 arg5 harg5 hc0 hc1 x0 xs0 xs1).1)

/-- At a middle point the store into the second scratch buffer tiles it. -/
theorem scover7_B_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : ¬cond7_1 i)
    (x0 : Vec F S3000x64 .f32) (xs0 : Vec F S1x64 .f32) (xs1 : Vec F S1x64 .f32) (y : S1x64.Idx) :
    ∃ pc ∈ (kernelRun7_B c i arg1 harg1 arg2 harg2 arg3 harg3 arg4 harg4 arg5 harg5 hc0 hc1 x0 xs0 xs1).2.1, y ∈ pc.1.set :=
  View.cover_of_tiledL (kernelRun7_B c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def sout7_B_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : ¬cond7_1 i)
    (x0 : Vec F S3000x64 .f32) (xs0 : Vec F S1x64 .f32) (xs1 : Vec F S1x64 .f32) : Vec F S1x64 .f32 :=
  VS7_1.read (Elt F) (VS7_1.writes (Elt F) VS7_1.junk (kernelRun7_B c i arg1 harg1 arg2 harg2 arg3 harg3 arg4 harg4 arg5 harg5 hc0 hc1 x0 xs0 xs1).2.1)

/-- At the last point the store into the first output window (the mean) tiles its block. -/
theorem cover7_C_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) (y : S1x64.Idx) :
    ∃ pc ∈ (kernelRun7_C c i arg1 harg1 arg2 harg2 arg3 harg3 arg4 harg4 arg5 harg5 hc0 hc1 x0 xs0 xs1).1, y ∈ pc.1.set :=
  View.cover_of_tiledL (kernelRun7_C c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def out7_C_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) : Vec F S1x64 .f32 :=
  VO7_1.read (Elt F) (VO7_1.writes (Elt F) VO7_1.junk (kernelRun7_C c i arg1 harg1 arg2 harg2 arg3 harg3 arg4 harg4 arg5 harg5 hc0 hc1 x0 xs0 xs1).1)

/-- At the last point the store into the second output window (the variance) tiles its block. -/
theorem cover7_C_2 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) (y : S1x64.Idx) :
    ∃ pc ∈ (kernelRun7_C c i arg1 harg1 arg2 harg2 arg3 harg3 arg4 harg4 arg5 harg5 hc0 hc1 x0 xs0 xs1).2.1, y ∈ pc.1.set :=
  View.cover_of_tiledL (kernelRun7_C c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def out7_C_2 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) : Vec F S1x64 .f32 :=
  VO7_2.read (Elt F) (VO7_2.writes (Elt F) VO7_2.junk (kernelRun7_C c i arg1 harg1 arg2 harg2 arg3 harg3 arg4 harg4 arg5 harg5 hc0 hc1 x0 xs0 xs1).2.1)

/-- At the last point the store into the first scratch buffer tiles it. -/
theorem scover7_C_0 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) (y : S1x64.Idx) :
    ∃ pc ∈ (kernelRun7_C c i arg1 harg1 arg2 harg2 arg3 harg3 arg4 harg4 arg5 harg5 hc0 hc1 x0 xs0 xs1).2.2.1, y ∈ pc.1.set :=
  View.cover_of_tiledL (kernelRun7_C c i arg1 harg1 arg2 harg2 arg3 harg3 arg4 harg4 arg5 harg5 hc0 hc1 x0 xs0 xs1).2.2.1 S1x64.size (by sl_kernel_rfl) y

/-- What they leave there: the pieces read back (over contents that, the pieces covering the buffer, do not matter). -/
def sout7_C_0 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) : Vec F S1x64 .f32 :=
  VS7_0.read (Elt F) (VS7_0.writes (Elt F) VS7_0.junk (kernelRun7_C c i arg1 harg1 arg2 harg2 arg3 harg3 arg4 harg4 arg5 harg5 hc0 hc1 x0 xs0 xs1).2.2.1)

/-- At the last point the store into the second scratch buffer tiles it. -/
theorem scover7_C_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) (y : S1x64.Idx) :
    ∃ pc ∈ (kernelRun7_C c i arg1 harg1 arg2 harg2 arg3 harg3 arg4 harg4 arg5 harg5 hc0 hc1 x0 xs0 xs1).2.2.2.1, y ∈ pc.1.set :=
  View.cover_of_tiledL (kernelRun7_C c i arg1 harg1 arg2 harg2 arg3 harg3 arg4 harg4 arg5 harg5 hc0 hc1 x0 xs0 xs1).2.2.2.1 S1x64.size (by sl_kernel_rfl) y

/-- What they leave there: the pieces read back (over contents that, the pieces covering the buffer, do not matter). -/
def sout7_C_1 (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x0 : Vec F S3000x64 .f32) (xs0 : Vec F S1x64 .f32) (xs1 : Vec F S1x64 .f32) : Vec F S1x64 .f32 :=
  VS7_1.read (Elt F) (VS7_1.writes (Elt F) VS7_1.junk (kernelRun7_C c i arg1 harg1 arg2 harg2 arg3 harg3 arg4 harg4 arg5 harg5 hc0 hc1 x0 xs0 xs1).2.2.2.1)

/-- After the first point the reset is never taken again: the grid has 20 points. -/
theorem not_cond7_0_succ (n : ℕ) (hn : n + 1 < cfg7.N) : ¬cond7_0 (grid7.coords ⟨n + 1, hn⟩) := fun h => by
  have h' := (hcond7_0 ⟨n + 1, hn⟩).mp h
  have hN : n + 1 < 20 := lt_of_lt_of_eq hn (show cfg7.N = 20 from N_7)
  dsimp only at h'; omega

/-- The first point is not the last. -/
theorem not_cond7_1_zero (hn : 0 < cfg7.N) : ¬cond7_1 (grid7.coords ⟨0, hn⟩) := fun h => by
  have h' := (hcond7_1 ⟨0, hn⟩).mp h
  dsimp only at h'; omega

section Region7
variable (V : (c : Dev nD) → (b : Ref sig .tc) → Buf (Elt F) ((c : Thread nD τ).loc b))

/-- Contents of an output window at a point where nothing reads them (the window is idle there and not written back). -/
def unread7_1 : Vec F S1x64 .f32 := VO7_1.read (Elt F) VO7_1.junk
def unread7_2 : Vec F S1x64 .f32 := VO7_2.read (Elt F) VO7_2.junk

/-! ## What the outputs and the scratch hold after each point -/

/-- THE ACCUMULATION. After the body at position `n`: the two output windows' staging buffers (named only at the last
    point) and the two scratch buffers — the first point's case run on the block, then each later point's case run on the
    block and on what the point before left in the scratch. -/
def outsAt7 (c : Dev nD) : (n : ℕ) → n < cfg7.N → (Vec F S1x64 .f32 × Vec F S1x64 .f32) × (Vec F S1x64 .f32 × Vec F S1x64 .f32)
  | 0, hn =>
    ((unread7_1, unread7_2),
     (sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr (Nat.zero_mod _)) (not_cond7_1_zero hn) (iblk7 V c 0 ⟨0, hn⟩),
      sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr (Nat.zero_mod _)) (not_cond7_1_zero hn) (iblk7 V c 0 ⟨0, hn⟩)))
  | n + 1, hn =>
    if h1 : (n + 1) % 20 = 19 then
      ((out7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (not_cond7_0_succ n hn) ((hcond7_1 ⟨n + 1, hn⟩).mpr h1) (iblk7 V c 0 ⟨n + 1, hn⟩) (outsAt7 c n (Nat.lt_of_succ_lt hn)).2.1 (outsAt7 c n (Nat.lt_of_succ_lt hn)).2.2,
        out7_C_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (not_cond7_0_succ n hn) ((hcond7_1 ⟨n + 1, hn⟩).mpr h1) (iblk7 V c 0 ⟨n + 1, hn⟩) (outsAt7 c n (Nat.lt_of_succ_lt hn)).2.1 (outsAt7 c n (Nat.lt_of_succ_lt hn)).2.2),
       (sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (not_cond7_0_succ n hn) ((hcond7_1 ⟨n + 1, hn⟩).mpr h1) (iblk7 V c 0 ⟨n + 1, hn⟩) (outsAt7 c n (Nat.lt_of_succ_lt hn)).2.1 (outsAt7 c n (Nat.lt_of_succ_lt hn)).2.2,
        sout7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (not_cond7_0_succ n hn) ((hcond7_1 ⟨n + 1, hn⟩).mpr h1) (iblk7 V c 0 ⟨n + 1, hn⟩) (outsAt7 c n (Nat.lt_of_succ_lt hn)).2.1 (outsAt7 c n (Nat.lt_of_succ_lt hn)).2.2))
    else
      ((unread7_1, unread7_2),
       (sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (not_cond7_0_succ n hn) (fun h => h1 ((hcond7_1 ⟨n + 1, hn⟩).mp h)) (iblk7 V c 0 ⟨n + 1, hn⟩) (outsAt7 c n (Nat.lt_of_succ_lt hn)).2.1 (outsAt7 c n (Nat.lt_of_succ_lt hn)).2.2,
        sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (not_cond7_0_succ n hn) (fun h => h1 ((hcond7_1 ⟨n + 1, hn⟩).mp h)) (iblk7 V c 0 ⟨n + 1, hn⟩) (outsAt7 c n (Nat.lt_of_succ_lt hn)).2.1 (outsAt7 c n (Nat.lt_of_succ_lt hn)).2.2))

/-- `outsAt7` at the first point. -/
theorem outsAt7_A (c : Dev nD) (t : Fin cfg7.N) (hc0 : cond7_0 (grid7.coords t)) (hc1 : ¬cond7_1 (grid7.coords t)) :
    outsAt7 V c t.val t.isLt = ((unread7_1, unread7_2),
      (sout7_A_0 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t), sout7_A_1 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t))) := by
  obtain ⟨n, hn⟩ := t
  cases n with
  | zero => exact rfl
  | succ n => exact absurd hc0 (not_cond7_0_succ n hn)

/-- `outsAt7` at a middle point: over what the point before left in the scratch. -/
theorem outsAt7_B (c : Dev nD) (t : Fin cfg7.N) (hc0 : ¬cond7_0 (grid7.coords t)) (hc1 : ¬cond7_1 (grid7.coords t)) :
    outsAt7 V c t.val t.isLt = ((unread7_1, unread7_2),
      (sout7_B_0 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t) (outsAt7 V c (t.val - 1) (Nat.lt_of_le_of_lt (Nat.sub_le _ _) t.isLt)).2.1 (outsAt7 V c (t.val - 1) (Nat.lt_of_le_of_lt (Nat.sub_le _ _) t.isLt)).2.2,
       sout7_B_1 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t) (outsAt7 V c (t.val - 1) (Nat.lt_of_le_of_lt (Nat.sub_le _ _) t.isLt)).2.1 (outsAt7 V c (t.val - 1) (Nat.lt_of_le_of_lt (Nat.sub_le _ _) t.isLt)).2.2)) := by
  obtain ⟨n, hn⟩ := t
  cases n with
  | zero => exact absurd ((hcond7_0 ⟨0, hn⟩).mpr (Nat.zero_mod _)) hc0
  | succ n => exact (dif_neg (fun h => hc1 ((hcond7_1 ⟨n + 1, hn⟩).mpr h))).trans rfl

/-- `outsAt7` at the last point: over what the point before left in the scratch. -/
theorem outsAt7_C (c : Dev nD) (t : Fin cfg7.N) (hc0 : ¬cond7_0 (grid7.coords t)) (hc1 : cond7_1 (grid7.coords t)) :
    outsAt7 V c t.val t.isLt =
      ((out7_C_1 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t) (outsAt7 V c (t.val - 1) (Nat.lt_of_le_of_lt (Nat.sub_le _ _) t.isLt)).2.1 (outsAt7 V c (t.val - 1) (Nat.lt_of_le_of_lt (Nat.sub_le _ _) t.isLt)).2.2,
        out7_C_2 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t) (outsAt7 V c (t.val - 1) (Nat.lt_of_le_of_lt (Nat.sub_le _ _) t.isLt)).2.1 (outsAt7 V c (t.val - 1) (Nat.lt_of_le_of_lt (Nat.sub_le _ _) t.isLt)).2.2),
       (sout7_C_0 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t) (outsAt7 V c (t.val - 1) (Nat.lt_of_le_of_lt (Nat.sub_le _ _) t.isLt)).2.1 (outsAt7 V c (t.val - 1) (Nat.lt_of_le_of_lt (Nat.sub_le _ _) t.isLt)).2.2,
        sout7_C_1 c (grid7.coords t) (ms7_0 t) (hs7_0 t) (ms7_1 t) (hs7_1 t) (ms7_2 t) (hs7_2 t) scM7_0 (Memref.isWhole_whole _) scM7_1 (Memref.isWhole_whole _) hc0 hc1 (iblk7 V c 0 t) (outsAt7 V c (t.val - 1) (Nat.lt_of_le_of_lt (Nat.sub_le _ _) t.isLt)).2.1 (outsAt7 V c (t.val - 1) (Nat.lt_of_le_of_lt (Nat.sub_le _ _) t.isLt)).2.2)) := by
  obtain ⟨n, hn⟩ := t
  cases n with
  | zero => exact absurd ((hcond7_0 ⟨0, hn⟩).mpr (Nat.zero_mod _)) hc0
  | succ n => exact (dif_pos ((hcond7_1 ⟨n + 1, hn⟩).mp hc1)).trans rfl

/-! ## The region's invariant -/

/-- The invariant before position `n`: before the first point every scoped buffer no window stages at some contents
    (the two scratch buffers hold anything on entry) and the generator register at some state; afterwards the two
    scratch buffers at the running sums the point before left, the other such buffers unopened, and the register. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2.1) ∗ owns (c : Thread nD τ) scM7_1 fullShare ((outsAt7 V c n hn).2.2))
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

/-- After point `n` (before point `n + 1`): the scratch at that point's contents. -/
theorem PhiS7_succ (c : Dev nD) (n : ℕ) (hn : n < cfg7.N) :
    PhiS7 V c (n + 1) hn = iprop(iprop(iprop(owns (c : Thread nD τ) scM7_0 fullShare ((outsAt7 V c n hn).2.1) ∗ owns (c : Thread nD τ) scM7_1 fullShare ((outsAt7 V c n hn).2.2))
      ∗ Pipeline.scopedRestBut (Ix := Unit) (Name := ℕ) (U := UR sig nD τ) (Lvl := ℕ) (Val := Elt F) spec7 c [cc7_scratch0, cc7_scratch1]) ∗ (∃ r, prngReg c r)) := rfl

/-- Before a point that is not the first: the scratch at what the point before left. -/
theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2.1) ∗ owns (c : Thread nD τ) scM7_1 fullShare ((outsAt7 V c (n - 1) (by omega)).2.2))
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The pipeline's proof data -/

/-- The proof data of pipeline 7 on core `c`: the arrays as the region finds them (`V`); after the body the input's
    buffer at its block and the outputs' at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => (outsAt7 V c t.val t.isLt).1.1
    | ⟨2, _⟩ => (outsAt7 V c t.val t.isLt).1.2
  Φ t := PhiS7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- The invariant at a point's start, restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = (outsAt7 V c t.val t.isLt).1.1 := by dsimp only [dat7]
theorem after7_2 (c : Dev nD) (t : Fin cfg7.N) : (dat7 V c).after 2 t = (outsAt7 V c t.val t.isLt).1.2 := by dsimp only [dat7]

/-- The input's current staging buffer holds its block at every point. -/
theorem before7_0 (c : Dev nD) (t : Fin cfg7.N) (d) : (dat7 V c).before 0 t d = iblk7 V c 0 t :=
  before7_0_of V (dat7 V c) (A_eq7 V c 0) (after7_0 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point: the input's memref holds its block; the closed forms say which case the point is in; the
    invariant hands the body the two scratch buffers at what the point before left (at anything at the first point) and
    takes them back at this point's contents; the idle output windows pass through untouched; the core owes nothing. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = PhiS7 V c (t.val + 1) t.isLt from rfl, PhiS7_succ]
  have hN : t.val < 20 := lt_of_lt_of_eq t.isLt (show cfg7.N = 20 from N_7)
  rw [show (dat7 V c).leavesExact 0 t = owns (c : Thread nD τ) (ms7_0 t) fullShare ((dat7 V c).after 0 t) from by
    unfold Dat.leavesExact; rw [liveAt7_0 t], after7_0]
  by_cases hc1 : cond7_1 (grid7.coords t)
  · have h1 : t.val % 20 = 19 := (hcond7_1 t).mp hc1
    have hc0 : ¬cond7_0 (grid7.coords t) := fun h => by have := (hcond7_0 t).mp h; omega
    have hz : t.val ≠ 0 := by omega
    rw [show (dat7 V c).leavesExact 1 t = owns (c : Thread nD τ) (ms7_1 t) fullShare ((dat7 V c).after 1 t) from by
      unfold Dat.leavesExact; rw [liveAt7_1 t hc1], after7_1]
    rw [show (dat7 V c).leavesExact 2 t = owns (c : Thread nD τ) (ms7_2 t) fullShare ((dat7 V c).after 2 t) from by
      unfold Dat.leavesExact; rw [liveAt7_2 t hc1], after7_2]
    rw [outsAt7_C V c t hc0 hc1]
    unfold out7_C_1 out7_C_2 sout7_C_0 sout7_C_1; (try dsimp only)
    rw [PhiS7_castSucc V c t, PhiS7_pos V c _ _ hz]
    iintro ⟨⟨⟨⟨HS0, HS1⟩, HR⟩, Hg⟩, Ho, ⟨%d0, H0⟩, ⟨%d1, H1⟩, ⟨%d2, H2⟩⟩
    iapply ((kernelRun7_C c (grid7.coords t) _ _ _ _ _ _ _ _ _ _ hc0 hc1 (iblk7 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover7_C_0 c _ _ _ _ _ _ _ _ _ _ _ _ _ _ _ _)
          · unfold owns; iexists _; isplitr
            swap; · iexact HS1
            ipureintro; exact View.read_writes_of_cover _ _ _ _ _ (scover7_C_1 c _ _ _ _ _ _ _ _ _ _ _ _ _ _ _ _)
        · iexact HR
      · iexact Hg
    isplitl [Ho]; · iexact Ho
    isplitl [H0]; · iexact H0
    isplitl [H1]
    · unfold owns; iexists _; isplitr
      swap; · iexact H1
      ipureintro; exact View.read_writes_of_cover _ _ _ _ _ (cover7_C_1 c _ _ _ _ _ _ _ _ _ _ _ _ _ _ _ _)
    · unfold owns; iexists _; isplitr
      swap; · iexact H2
      ipureintro; exact View.read_writes_of_cover _ _ _ _ _ (cover7_C_2 c _ _ _ _ _ _ _ _ _ _ _ _ _ _ _ _)
  · rw [Dat.leavesExact_idle (dat7 V c) 1 t (idleAt7_1 t hc1) (noFlush7_1 t hc1)]
    rw [Dat.leavesExact_idle (dat7 V c) 2 t (idleAt7_2 t hc1) (noFlush7_2 t hc1)]
    by_cases hc0 : cond7_0 (grid7.coords t)
    · have hz : t.val = 0 := by have := (hcond7_0 t).mp hc0; omega
      rw [outsAt7_A V c t hc0 hc1]
      unfold sout7_A_0 sout7_A_1; (try dsimp only)
      rw [PhiS7_castSucc V c t, PhiS7_zero V c _ _ hz, PhiA7_eq]
      iintro ⟨⟨⟨⟨HS0, HS1⟩, HR⟩, Hg⟩, Ho, ⟨%d0, H0⟩, ⟨%d1, H1⟩, ⟨%d2, H2⟩⟩
      iapply ((kernelRun7_A c (grid7.coords t) _ _ _ _ _ _ _ _ _ _ hc0 hc1 (iblk7 V c 0 t)).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_A_0 c _ _ _ _ _ _ _ _ _ _ _ _ _ _)
            · unfold owns; iexists _; isplitr
              swap; · iexact HS1
              ipureintro; exact View.read_writes_of_cover _ _ _ _ _ (scover7_A_1 c _ _ _ _ _ _ _ _ _ _ _ _ _ _)
          · iexact HR
        · iexact Hg
      isplitl [Ho]; · iexact Ho
      isplitl [H0]; · iexact H0
      isplitl [H1]; · iexists _; iexact H1
      iexists _; iexact H2
    · have hz : t.val ≠ 0 := fun h => hc0 ((hcond7_0 t).mpr (by rw [h]))
      rw [outsAt7_B V c t hc0 hc1]
      unfold sout7_B_0 sout7_B_1; (try dsimp only)
      rw [PhiS7_castSucc V c t, PhiS7_pos V c _ _ hz]
      iintro ⟨⟨⟨⟨HS0, HS1⟩, HR⟩, Hg⟩, Ho, ⟨%d0, H0⟩, ⟨%d1, H1⟩, ⟨%d2, H2⟩⟩
      iapply ((kernelRun7_B c (grid7.coords t) _ _ _ _ _ _ _ _ _ _ hc0 hc1 (iblk7 V c 0 t) _ _).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_B_0 c _ _ _ _ _ _ _ _ _ _ _ _ _ _ _ _)
            · unfold owns; iexists _; isplitr
              swap; · iexact HS1
              ipureintro; exact View.read_writes_of_cover _ _ _ _ _ (scover7_B_1 c _ _ _ _ _ _ _ _ _ _ _ _ _ _ _ _)
          · iexact HR
        · iexact Hg
      isplitl [Ho]; · iexact Ho
      isplitl [H0]; · iexact H0
      isplitl [H1]; · iexists _; iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the region is entered with (every scoped buffer no window stages, the generator register) is the invariant
    before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives that back: the scratch buffers' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout7 (c : Dev nD) : (dat7 V c).Φ (Fin.last cfg7.N) ⊢ Pipeline.ΦA spec7 c :=
  Phi_out7 V c _ (by rw [Fin.val_last]; have : cfg7.N = 20 := N_7; omega)

end Region7

end Cert.KernelIdeal.Regs

end
-- ==== Proof.NormRegion8.lean ====
/-
  Region 8 of @main (pipeline 8, `cc8_kernel`): the batch-norm NORMALISE step, stated at a parameter `V` — the
  TensorCore's buffer contents when the region is entered.

  The body is pointwise. At every grid point it reads the row block `x` of the array (window 0) and the four
  per-channel rows mean, variance, gamma, beta (windows 1–4, one block each, the same at every point), and stores
  into the output window's buffer (window 5) the single value
      act ((x − mean) · rsqrt (var + ε) · gamma + beta)
  (`k8_pay1`), where act is the leaky rectifier with slope 0.01. One whole-rectangle store covers the output buffer, so what
  the body leaves there is a closed function `out8_5` of the five input blocks; the input buffers are left as found.
  From this: the body's triple (`sound_kernel8`), the pipeline's proof data (`dat8`: arrays as the region finds
  them, each input buffer at its block, the output buffer at `out8_5` of the blocks), and the body obligation at every
  point (`body_obligation8`).
-/
import proofs.«180908_j8211977470570_1_alg».proof.Proof.Gen.KernelIdeal.Launch
import proofs.«180908_j8211977470570_1_alg».proof.Proof.Gen.KernelIdeal.Skeleton
import proofs.«180908_j8211977470570_1_alg».proof.Proof.Gen.KernelIdeal.Points
import Idealize.ShloMosaic.Lib.Pipeline.FrameBody
import Idealize.ShloMosaic.Lib.Tactic

-- membership in a rectangle of full extents recurses once per coordinate of the long axis
set_option maxRecDepth 16384

noncomputable section

namespace Cert.KernelIdeal.Regs

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): unfetched, the block index
    has not moved; the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not, for any proof
    data whose array is `V`'s (`hA`) and whose body leaves the block in place (`hafter`): unfetched, the block index
    has not moved; the window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not, for any proof
    data whose array is `V`'s (`hA`) and whose body leaves the block in place (`hafter`): unfetched, the block index
    has not moved; the window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's current staging buffer holds its block at every point, fetched there or not, for any proof
    data whose array is `V`'s (`hA`) and whose body leaves the block in place (`hafter`): unfetched, the block index
    has not moved; the window is uncut and never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's current staging buffer holds its block at every point, fetched there or not, for any proof
    data whose array is `V`'s (`hA`) and whose body leaves the block in place (`hafter`): unfetched, the block index
    has not moved; the window is uncut and never idle. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole rectangle of a row block, and of a per-channel row. -/
abbrev r8_big : Rect S3000x64 := Rect.unit (s := S3000x64) ![0, 0] S3000x64.size inb_S3000x64_S3000x64_0_0
abbrev r8_row : Rect S1x64 := Rect.unit (s := S1x64) ![0, 0] S1x64.size inb_S1x64_S1x64_0_0

/-! ## What the body leaves in the output window's buffer -/

/-- Window 5's staging buffer after the body, from the five input windows' blocks: its one store, of the
    normalised and activated rows, over the whole buffer. -/
def out8_5 (x0 : Vec F S3000x64 .f32) (x1 x2 x3 x4 : Vec F S1x64 .f32) : Vec F S3000x64 .f32 :=
  View.canon [⟨r8_big, k8_pay1 (View.ld x0 r8_big) (View.ld x1 r8_row) (View.ld x2 r8_row) (View.ld x3 r8_row) (View.ld x4 r8_row)⟩]

/-- The store's rectangle is the whole buffer, so it covers it. -/
theorem cover8_5 (p0 : Vec F S3000x64 .f32) (y : S3000x64.Idx) :
    ∃ pc ∈ ([⟨r8_big, p0⟩] : List (View.Piece (Elt F) S3000x64 .f32)), y ∈ pc.1.set :=
  View.cover_of_tiled [⟨r8_big, p0⟩] S3000x64.size (by rfl) y

/-! ## The body's triple -/

set_option maxHeartbeats 1000000 in
/-- The kernel body on whole staging memrefs, the inputs' at read contents `x0 … x4` and the output's at anything, runs
    to the continuation holding the inputs' as they were and the output's at `out8_5` of the inputs'. The grid
    coordinate `i` is not read. -/
theorem sound_kernel8 (c : Dev nD) (E : Set ℕ) (i : grid8.Coords)
    (arg1 : Memref sig .tc .vmem S3000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S3000x64 .f32) (harg6 : arg6.IsWhole)
    (x0 : Vec F S3000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8_kernel i arg1 harg1 arg2 harg2 arg3 harg3 arg4 harg4 arg5 harg5 arg6 harg6) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays as the region finds them (`V`); after the body at point `t`
    each input's buffer at its block and the output's at `out8_5` of the input blocks; the invariant the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the definition's `match` reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Regs
-- ==== Proof.MatmulRegion9.lean ====
/- Region 9 of @main (pipeline 9, `cc9_kernel`): a matrix product of two whole blocks, stored whole.
   Stated at a parameter `V`: the contents of the core's buffers when the region is entered.  The body reads
   window 0 (a block of rows) and window 1 (a block of weights) whole, rounds both to bf16, multiplies them
   into a zero accumulator, reads window 2 (the value is not used), and overwrites window 2 whole with the
   product.  Hence after the body the two input buffers are as found and the output buffer is a function
   `out9_2` of the two input blocks alone. -/
import proofs.«180908_j8211977470570_1_alg».proof.Proof.Gen.KernelIdeal.Launch
import proofs.«180908_j8211977470570_1_alg».proof.Proof.Gen.KernelIdeal.Skeleton
import proofs.«180908_j8211977470570_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
-- the contents of the core's buffers when the region is entered
variable (V : (c : Dev nD) → (b : Ref sig .tc) → Buf (Elt F) ((c : Thread nD τ).loc b))

/-! ## The windows' blocks -/

/-- Window `w`'s block at point `t`, read off its array at the entry contents `V`. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current buffer holds its block at every point, fetched there or not (unfetched, the
    block index has not moved), for any proof data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_a : Rect S1x5000x64 := Rect.unit (s := S1x5000x64) ![0, 0, 0] S1x5000x64.size inb_S1x5000x64_S1x5000x64_0_0_0
abbrev r9_b : Rect S1x64x1 := Rect.unit (s := S1x64x1) ![0, 0, 0] S1x64x1.size inb_S1x64x1_S1x64x1_0_0_0
abbrev r9_o : Rect S1x5000x1 := Rect.unit (s := S1x5000x1) ![0, 0, 0] S1x5000x1.size inb_S1x5000x1_S1x5000x1_0_0_0

/-! ## What the body leaves in the output window's buffer -/

/-- Window 2's buffer after the body, from the two input blocks: its one store, of the product, over the whole buffer. -/
def out9_2 (x0 : Vec F S1x5000x64 .f32) (x1 : Vec F S1x64x1 .f32) : Vec F S1x5000x1 .f32 :=
  View.canon [⟨r9_o, k9_pay1 (View.ld x0 r9_a) (View.ld x1 r9_b)⟩]

/-- The one store covers the buffer. -/
theorem cover9_2 (p0 : Vec F S1x5000x1 .f32) (y : S1x5000x1.Idx) :
    ∃ pc ∈ ([⟨r9_o, p0⟩] : List (View.Piece (Elt F) S1x5000x1 .f32)), y ∈ pc.1.set :=
  View.cover_of_tiled [⟨r9_o, p0⟩] S1x5000x1.size (by rfl) y

/-! ## The body's triple -/

set_option maxHeartbeats 1000000 in
/-- The body on whole buffers — the inputs' at contents `x0`, `x1`, the output's at anything — runs to the
    continuation holding the inputs' as they were and the output's at `out9_2 x0 x1`. -/
theorem sound_kernel9 (c : Dev nD) (E : Set ℕ) (i : grid9.Coords)
    (arg2 : Memref sig .tc .vmem S1x5000x64 .f32) (harg2 : arg2.IsWhole)
    (arg3 : Memref sig .tc .vmem S1x64x1 .f32) (harg3 : arg3.IsWhole)
    (arg4 : Memref sig .tc .vmem S1x5000x1 .f32) (harg4 : arg4.IsWhole)
    (x0 : Vec F S1x5000x64 .f32) (x1 : Vec F S1x64x1 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out9_2 x0 x1)) -∗ K ⟨⟩))
      ⊢ wp frame (wpE (defs₀ (F := F)) Variants.none c none) E (cc9_kernel i arg2 harg2 arg3 harg3 arg4 harg4) K := by
  simp only [cc9_kernel_eq_skeleton]; unfold cc9_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data of pipeline 9 on core `c`: the arrays at the entry contents `V`; after the body at point `t`
    each input's buffer at its block and the output's at `out9_2` of the input blocks; the invariant is the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) :
    (dat9 V c).after 2 t = out9_2 (iblk9 V c 0 t) (iblk9 V c 1 t) := by dsimp only [dat9]

/-- Each input's current buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' buffers hold their blocks, so the body's triple applies; the invariant and
    what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's rule, at every point. -/
theorem body_obligation9 (c : Dev nD) : BodyObligation (dat9 (F := F) V c) (defs₀ (F := F)) Variants.none () Set.univ := fun t => by
  rw [bigSep_W9, bigSep_W9]
  exact sound_body9 V c t

end Region

end Cert.KernelIdeal.Regs
-- ==== Proof.Stats10Runs.lean ====
import proofs.«180908_j8211977470570_1_alg».proof.Proof.Gen.KernelIdeal.Launch
import proofs.«180908_j8211977470570_1_alg».proof.Proof.Gen.KernelIdeal.Skeleton
import proofs.«180908_j8211977470570_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The statistics region of pipeline 10: what its three control cases share

The kernel keeps two running column sums (of the block and of its square) in two scratch buffers the pipeline does not
stage: the first grid point zeroes them, every point adds its block's column sums, the last point turns them into the
mean and the variance and stores those into the two output windows. Everything is stated at a parameter `V`, the buffer
contents when the region is entered. -/

section Region10
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The input window's current staging buffer holds its block at every point, for any proof data whose array is `V`'s
    and whose body leaves the block in place: the window is fetched at every point, uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

end Region10

/-! ## The body's branch conditions -/

/-- The condition of the body's first conditional (the reset of the running sums), from the grid coordinate. -/
abbrev cond10_0 (i : grid10.Coords) : Prop := (Scalar.cmpi .ne (Scalar.extui (Scalar.cmpi .eq (BitVec.ofNat 32 (i 0).val) 0#32)) 0#32) = 1#1
/-- It holds at the first point only — decided over the grid. -/
theorem hcond10_0 : ∀ t : Fin cfg10.N, cond10_0 (grid10.coords t) ↔ t.val % 20 = 0 :=
  (by decide +kernel : ∀ t : Fin grid10.N, cond10_0 (grid10.coords t) ↔ t.val % 20 = 0)

/-- The condition of the body's second conditional (the final division and the two output stores). -/
abbrev cond10_1 (i : grid10.Coords) : Prop := k10_cond2 i = 1#1
/-- It holds at the last point only — decided over the grid. -/
theorem hcond10_1 : ∀ t : Fin cfg10.N, cond10_1 (grid10.coords t) ↔ t.val % 20 = 19 :=
  (by decide +kernel : ∀ t : Fin grid10.N, cond10_1 (grid10.coords t) ↔ t.val % 20 = 19)

/-! ## Where the windows are idle -/

/-- The input window is never idle. -/
theorem liveAt10_0 : ∀ t : Fin cfg10.N, cfg10.idle 0 (grid10.coords t) = false := by decide +kernel
/-- Away from the last point the two output windows are idle (the body stores nothing into them) -/
theorem idleAt10_1 : ∀ t : Fin cfg10.N, ¬cond10_1 (grid10.coords t) → cfg10.idle 1 (grid10.coords t) = true := by decide +kernel
theorem idleAt10_2 : ∀ t : Fin cfg10.N, ¬cond10_1 (grid10.coords t) → cfg10.idle 2 (grid10.coords t) = true := by decide +kernel
/-- and are not written back. -/
theorem noFlush10_1 : ∀ t : Fin cfg10.N, ¬cond10_1 (grid10.coords t) → (cfg10.win 1).flush t = false := by decide +kernel
theorem noFlush10_2 : ∀ t : Fin cfg10.N, ¬cond10_1 (grid10.coords t) → (cfg10.win 2).flush t = false := by decide +kernel
/-- At the last point they are live. -/
theorem liveAt10_1 : ∀ t : Fin cfg10.N, cond10_1 (grid10.coords t) → cfg10.idle 1 (grid10.coords t) = false := by decide +kernel
theorem liveAt10_2 : ∀ t : Fin cfg10.N, cond10_1 (grid10.coords t) → cfg10.idle 2 (grid10.coords t) = false := by decide +kernel

/-! ## The memrefs the body is called with -/

/-- One staging buffer of each output window, through which its contents are stated (the choice does not matter once
    the stores cover the block). -/
abbrev VO10_1 : View sig .tc .vmem S1x1 .f32 := (Memref.whole cc10_stg1_0 : Memref sig .tc .vmem S1x1 .f32).view
abbrev VO10_2 : View sig .tc .vmem S1x1 .f32 := (Memref.whole cc10_stg2_0 : Memref sig .tc .vmem S1x1 .f32).view
/-- Each window's current staging memref at point `t`, as the pipeline passes it, and its wholeness. -/
abbrev ms10_0 (t : Fin cfg10.N) : Memref sig .tc .vmem S3000x1 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1x1 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x1 .f32 := win10_2.stage (cfg10.slots t 2)
abbrev hs10_2 (t : Fin cfg10.N) : (ms10_2 t).IsWhole := hstage10_2 ((cfg10.slots t 2).cast nbuf10_2)
/-- The two scratch operands: whole scoped buffers of the kernel's own, passed beside the windows. -/
abbrev scM10_0 : Memref sig .tc .vmem S1x1 .f32 := Memref.whole cc10_scratch0
abbrev scM10_1 : Memref sig .tc .vmem S1x1 .f32 := Memref.whole cc10_scratch1
/-- The same as views: what they hold is stated through these. -/
abbrev VS10_0 : View sig .tc .vmem S1x1 .f32 := scM10_0.view
abbrev VS10_1 : View sig .tc .vmem S1x1 .f32 := scM10_1.view

/-- The region's entry invariant (every scoped buffer no window stages at some contents, the generator register at
    some state) with the two scratch operands taken out as memrefs owned at some contents; the other scoped buffers stay
    unopened. -/
theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d))
          ∗ Pipeline.scopedRestBut (Ix := Unit) (Name := ℕ) (U := UR sig nD τ) (Lvl := ℕ) (Val := Elt F) spec10 c [cc10_scratch0, cc10_scratch1])
          ∗ (∃ r, prngReg c r)) := by
  unfold Pipeline.ΦA; rw [scopedRest10_split]; simp only [scM10_0, scM10_1, owns_whole]; try rfl

end Cert.KernelIdeal.Regs

end
-- ==== Proof.Stats10RunA.lean ====
import proofs.«180908_j8211977470570_1_alg».proof.Proof.Stats10Runs

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- THE FIRST POINT (the reset taken, the final stores not): what the body's stores leave in the two scratch buffers, as
    pieces (last first), WITH the proof that on whole memrefs — the input block's at its contents `x0`, the two scratch
    buffers at anything — the body runs to the continuation holding the input as it was and each scratch buffer with its
    pieces written (zero stored, then the block's column sums added). The two output windows are not touched and are
    left out. The pieces are the witness the symbolic run finds. -/
noncomputable def kernelRun10_A (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond10_0 i) (hc1 : ¬cond10_1 i)
    (x0 : Vec F S3000x1 .f32) :
    Σ' (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ (∃ d, owns (c : Thread nD τ) arg4 fullShare d) ∗ (∃ d, owns (c : Thread nD τ) arg5 fullShare d)
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc10_kernel i arg1 harg1 arg2 harg2 arg3 harg3 arg4 harg4 arg5 harg5) K } := by
  refine ⟨?_, ?_, fun E K => ?run⟩
  case run =>
    simp only [cc10_kernel_eq_skeleton]; unfold cc10_kernel_skel
    unfold owns
    iintro ⟨⟨%f0, %hf0, H0⟩, ⟨%ds0, %fs0, -, HS0⟩, ⟨%ds1, %fs1, -, HS1⟩, Hk⟩
    obtain rfl := harg1.eq_unread hf0
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.KernelIdeal.Regs

end
-- ==== Proof.Stats10RunB.lean ====
import proofs.«180908_j8211977470570_1_alg».proof.Proof.Stats10RunA

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- A MIDDLE POINT (neither conditional taken): what the body's stores leave in the two scratch buffers, as pieces, WITH
    the proof that on whole memrefs — the input block's at `x0`, the two scratch buffers at the running sums `xs0`, `xs1`
    the point before left — the body runs to the continuation holding the input as it was and each scratch buffer with
    its pieces written (the block's column sums added). The two output windows are not touched and are left out. -/
noncomputable def kernelRun10_B (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : ¬cond10_1 i)
    (x0 : Vec F S3000x1 .f32) (xs0 : Vec F S1x1 .f32) (xs1 : Vec F S1x1 .f32) :
    Σ' (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ owns (c : Thread nD τ) arg4 fullShare xs0 ∗ owns (c : Thread nD τ) arg5 fullShare xs1
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc10_kernel i arg1 harg1 arg2 harg2 arg3 harg3 arg4 harg4 arg5 harg5) K } := by
  refine ⟨?_, ?_, fun E K => ?run⟩
  case run =>
    simp only [cc10_kernel_eq_skeleton]; unfold cc10_kernel_skel
    unfold owns
    iintro ⟨⟨%f0, %hf0, H0⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.KernelIdeal.Regs

end
-- ==== Proof.Stats10RunC.lean ====
import proofs.«180908_j8211977470570_1_alg».proof.Proof.Stats10RunB

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- THE LAST POINT (the reset not taken, the final stores taken): what the body's stores leave in the two output
    windows' staging memrefs and in the two scratch buffers, as pieces, WITH the proof that on whole memrefs — the input
    block's at `x0`, the outputs' at anything, the scratch buffers at the running sums `xs0`, `xs1` the point before
    left — the body runs to the continuation holding the input as it was and each of the four with its pieces written
    (the sums completed; the mean, and the mean of squares less the mean squared, stored). -/
noncomputable def kernelRun10_C (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) :
    Σ' (L1 : List (View.Piece (Elt F) S1x1 .f32)) (L2 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc10_kernel i arg1 harg1 arg2 harg2 arg3 harg3 arg4 harg4 arg5 harg5) K } := by
  refine ⟨?_, ?_, ?_, ?_, fun E K => ?run⟩
  case run =>
    simp only [cc10_kernel_eq_skeleton]; unfold cc10_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [HS0]
    · iexists _; iexact HS0
    iexists _; iexact HS1

end Cert.KernelIdeal.Regs

end
-- ==== Proof.StatsRegion10.lean ====
import proofs.«180908_j8211977470570_1_alg».proof.Proof.Stats10RunC

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The statistics region of pipeline 10: the running sums, the proof data, the body obligation -/

/-! ## What each case's stores leave -/

/-- At the first point the stores into the first scratch buffer (the zero, then the sum) tile it, so they cover it. -/
theorem scover10_A_0 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond10_0 i) (hc1 : ¬cond10_1 i)
    (x0 : Vec F S3000x1 .f32) (y : S1x1.Idx) :
    ∃ pc ∈ (kernelRun10_A c i arg1 harg1 arg2 harg2 arg3 harg3 arg4 harg4 arg5 harg5 hc0 hc1 x0).1, y ∈ pc.1.set :=
  View.cover_of_tiledL (kernelRun10_A c i arg1 harg1 arg2 harg2 arg3 harg3 arg4 harg4 arg5 harg5 hc0 hc1 x0).1 S1x1.size (by sl_kernel_rfl) y

/-- What they leave there: the pieces read back (over contents that, the pieces covering the buffer, do not matter). -/
def sout10_A_0 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond10_0 i) (hc1 : ¬cond10_1 i)
    (x0 : Vec F S3000x1 .f32) : Vec F S1x1 .f32 :=
  VS10_0.read (Elt F) (VS10_0.writes (Elt F) VS10_0.junk (kernelRun10_A c i arg1 harg1 arg2 harg2 arg3 harg3 arg4 harg4 arg5 harg5 hc0 hc1 x0).1)

/-- At the first point the stores into the second scratch buffer tile it, so they cover it. -/
theorem scover10_A_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond10_0 i) (hc1 : ¬cond10_1 i)
    (x0 : Vec F S3000x1 .f32) (y : S1x1.Idx) :
    ∃ pc ∈ (kernelRun10_A c i arg1 harg1 arg2 harg2 arg3 harg3 arg4 harg4 arg5 harg5 hc0 hc1 x0).2.1, y ∈ pc.1.set :=
  View.cover_of_tiledL (kernelRun10_A c i arg1 harg1 arg2 harg2 arg3 harg3 arg4 harg4 arg5 harg5 hc0 hc1 x0).2.1 S1x1.size (by sl_kernel_rfl) y

/-- What they leave there: the pieces read back (over contents that, the pieces covering the buffer, do not matter). -/
def sout10_A_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond10_0 i) (hc1 : ¬cond10_1 i)
    (x0 : Vec F S3000x1 .f32) : Vec F S1x1 .f32 :=
  VS10_1.read (Elt F) (VS10_1.writes (Elt F) VS10_1.junk (kernelRun10_A c i arg1 harg1 arg2 harg2 arg3 harg3 arg4 harg4 arg5 harg5 hc0 hc1 x0).2.1)

/-- At a middle point the store into the first scratch buffer tiles it. -/
theorem scover10_B_0 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : ¬cond10_1 i)
    (x0 : Vec F S3000x1 .f32) (xs0 : Vec F S1x1 .f32) (xs1 : Vec F S1x1 .f32) (y : S1x1.Idx) :
    ∃ pc ∈ (kernelRun10_B c i arg1 harg1 arg2 harg2 arg3 harg3 arg4 harg4 arg5 harg5 hc0 hc1 x0 xs0 xs1).1, y ∈ pc.1.set :=
  View.cover_of_tiledL (kernelRun10_B c i arg1 harg1 arg2 harg2 arg3 harg3 arg4 harg4 arg5 harg5 hc0 hc1 x0 xs0 xs1).1 S1x1.size (by sl_kernel_rfl) y

/-- What they leave there: the pieces read back (over contents that, the pieces covering the buffer, do not matter). -/
def sout10_B_0 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : ¬cond10_1 i)
    (x0 : Vec F S3000x1 .f32) (xs0 : Vec F S1x1 .f32) (xs1 : Vec F S1x1 .f32) : Vec F S1x1 .f32 :=
  VS10_0.read (Elt F) (VS10_0.writes (Elt F) VS10_0.junk (kernelRun10_B c i arg1 harg1 arg2 harg2 arg3 harg3 arg4 harg4 arg5 harg5 hc0 hc1 x0 xs0 xs1).1)

/-- At a middle point the store into the second scratch buffer tiles it. -/
theorem scover10_B_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : ¬cond10_1 i)
    (x0 : Vec F S3000x1 .f32) (xs0 : Vec F S1x1 .f32) (xs1 : Vec F S1x1 .f32) (y : S1x1.Idx) :
    ∃ pc ∈ (kernelRun10_B c i arg1 harg1 arg2 harg2 arg3 harg3 arg4 harg4 arg5 harg5 hc0 hc1 x0 xs0 xs1).2.1, y ∈ pc.1.set :=
  View.cover_of_tiledL (kernelRun10_B c i arg1 harg1 arg2 harg2 arg3 harg3 arg4 harg4 arg5 harg5 hc0 hc1 x0 xs0 xs1).2.1 S1x1.size (by sl_kernel_rfl) y

/-- What they leave there: the pieces read back (over contents that, the pieces covering the buffer, do not matter). -/
def sout10_B_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : ¬cond10_1 i)
    (x0 : Vec F S3000x1 .f32) (xs0 : Vec F S1x1 .f32) (xs1 : Vec F S1x1 .f32) : Vec F S1x1 .f32 :=
  VS10_1.read (Elt F) (VS10_1.writes (Elt F) VS10_1.junk (kernelRun10_B c i arg1 harg1 arg2 harg2 arg3 harg3 arg4 harg4 arg5 harg5 hc0 hc1 x0 xs0 xs1).2.1)

/-- At the last point the store into the first output window (the mean) tiles its block. -/
theorem cover10_C_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) (y : S1x1.Idx) :
    ∃ pc ∈ (kernelRun10_C c i arg1 harg1 arg2 harg2 arg3 harg3 arg4 harg4 arg5 harg5 hc0 hc1 x0 xs0 xs1).1, y ∈ pc.1.set :=
  View.cover_of_tiledL (kernelRun10_C c i arg1 harg1 arg2 harg2 arg3 harg3 arg4 harg4 arg5 harg5 hc0 hc1 x0 xs0 xs1).1 S1x1.size (by sl_kernel_rfl) y

/-- What they leave there: the pieces read back (over contents that, the pieces covering the buffer, do not matter). -/
def out10_C_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) : Vec F S1x1 .f32 :=
  VO10_1.read (Elt F) (VO10_1.writes (Elt F) VO10_1.junk (kernelRun10_C c i arg1 harg1 arg2 harg2 arg3 harg3 arg4 harg4 arg5 harg5 hc0 hc1 x0 xs0 xs1).1)

/-- At the last point the store into the second output window (the variance) tiles its block. -/
theorem cover10_C_2 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) (y : S1x1.Idx) :
    ∃ pc ∈ (kernelRun10_C c i arg1 harg1 arg2 harg2 arg3 harg3 arg4 harg4 arg5 harg5 hc0 hc1 x0 xs0 xs1).2.1, y ∈ pc.1.set :=
  View.cover_of_tiledL (kernelRun10_C c i arg1 harg1 arg2 harg2 arg3 harg3 arg4 harg4 arg5 harg5 hc0 hc1 x0 xs0 xs1).2.1 S1x1.size (by sl_kernel_rfl) y

/-- What they leave there: the pieces read back (over contents that, the pieces covering the buffer, do not matter). -/
def out10_C_2 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) : Vec F S1x1 .f32 :=
  VO10_2.read (Elt F) (VO10_2.writes (Elt F) VO10_2.junk (kernelRun10_C c i arg1 harg1 arg2 harg2 arg3 harg3 arg4 harg4 arg5 harg5 hc0 hc1 x0 xs0 xs1).2.1)

/-- At the last point the store into the first scratch buffer tiles it. -/
theorem scover10_C_0 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) (y : S1x1.Idx) :
    ∃ pc ∈ (kernelRun10_C c i arg1 harg1 arg2 harg2 arg3 harg3 arg4 harg4 arg5 harg5 hc0 hc1 x0 xs0 xs1).2.2.1, y ∈ pc.1.set :=
  View.cover_of_tiledL (kernelRun10_C c i arg1 harg1 arg2 harg2 arg3 harg3 arg4 harg4 arg5 harg5 hc0 hc1 x0 xs0 xs1).2.2.1 S1x1.size (by sl_kernel_rfl) y

/-- What they leave there: the pieces read back (over contents that, the pieces covering the buffer, do not matter). -/
def sout10_C_0 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) : Vec F S1x1 .f32 :=
  VS10_0.read (Elt F) (VS10_0.writes (Elt F) VS10_0.junk (kernelRun10_C c i arg1 harg1 arg2 harg2 arg3 harg3 arg4 harg4 arg5 harg5 hc0 hc1 x0 xs0 xs1).2.2.1)

/-- At the last point the store into the second scratch buffer tiles it. -/
theorem scover10_C_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) (y : S1x1.Idx) :
    ∃ pc ∈ (kernelRun10_C c i arg1 harg1 arg2 harg2 arg3 harg3 arg4 harg4 arg5 harg5 hc0 hc1 x0 xs0 xs1).2.2.2.1, y ∈ pc.1.set :=
  View.cover_of_tiledL (kernelRun10_C c i arg1 harg1 arg2 harg2 arg3 harg3 arg4 harg4 arg5 harg5 hc0 hc1 x0 xs0 xs1).2.2.2.1 S1x1.size (by sl_kernel_rfl) y

/-- What they leave there: the pieces read back (over contents that, the pieces covering the buffer, do not matter). -/
def sout10_C_1 (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x0 : Vec F S3000x1 .f32) (xs0 : Vec F S1x1 .f32) (xs1 : Vec F S1x1 .f32) : Vec F S1x1 .f32 :=
  VS10_1.read (Elt F) (VS10_1.writes (Elt F) VS10_1.junk (kernelRun10_C c i arg1 harg1 arg2 harg2 arg3 harg3 arg4 harg4 arg5 harg5 hc0 hc1 x0 xs0 xs1).2.2.2.1)

/-- After the first point the reset is never taken again: the grid has 20 points. -/
theorem not_cond10_0_succ (n : ℕ) (hn : n + 1 < cfg10.N) : ¬cond10_0 (grid10.coords ⟨n + 1, hn⟩) := fun h => by
  have h' := (hcond10_0 ⟨n + 1, hn⟩).mp h
  have hN : n + 1 < 20 := lt_of_lt_of_eq hn (show cfg10.N = 20 from N_10)
  dsimp only at h'; omega

/-- The first point is not the last. -/
theorem not_cond10_1_zero (hn : 0 < cfg10.N) : ¬cond10_1 (grid10.coords ⟨0, hn⟩) := fun h => by
  have h' := (hcond10_1 ⟨0, hn⟩).mp h
  dsimp only at h'; omega

section Region10
variable (V : (c : Dev nD) → (b : Ref sig .tc) → Buf (Elt F) ((c : Thread nD τ).loc b))

/-- Contents of an output window at a point where nothing reads them (the window is idle there and not written back). -/
def unread10_1 : Vec F S1x1 .f32 := VO10_1.read (Elt F) VO10_1.junk
def unread10_2 : Vec F S1x1 .f32 := VO10_2.read (Elt F) VO10_2.junk

/-! ## What the outputs and the scratch hold after each point -/

/-- THE ACCUMULATION. After the body at position `n`: the two output windows' staging buffers (named only at the last
    point) and the two scratch buffers — the first point's case run on the block, then each later point's case run on the
    block and on what the point before left in the scratch. -/
def outsAt10 (c : Dev nD) : (n : ℕ) → n < cfg10.N → (Vec F S1x1 .f32 × Vec F S1x1 .f32) × (Vec F S1x1 .f32 × Vec F S1x1 .f32)
  | 0, hn =>
    ((unread10_1, unread10_2),
     (sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) scM10_1 (Memref.isWhole_whole _) ((hcond10_0 ⟨0, hn⟩).mpr (Nat.zero_mod _)) (not_cond10_1_zero hn) (iblk10 V c 0 ⟨0, hn⟩),
      sout10_A_1 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) scM10_1 (Memref.isWhole_whole _) ((hcond10_0 ⟨0, hn⟩).mpr (Nat.zero_mod _)) (not_cond10_1_zero hn) (iblk10 V c 0 ⟨0, hn⟩)))
  | n + 1, hn =>
    if h1 : (n + 1) % 20 = 19 then
      ((out10_C_1 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) scM10_1 (Memref.isWhole_whole _) (not_cond10_0_succ n hn) ((hcond10_1 ⟨n + 1, hn⟩).mpr h1) (iblk10 V c 0 ⟨n + 1, hn⟩) (outsAt10 c n (Nat.lt_of_succ_lt hn)).2.1 (outsAt10 c n (Nat.lt_of_succ_lt hn)).2.2,
        out10_C_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) scM10_1 (Memref.isWhole_whole _) (not_cond10_0_succ n hn) ((hcond10_1 ⟨n + 1, hn⟩).mpr h1) (iblk10 V c 0 ⟨n + 1, hn⟩) (outsAt10 c n (Nat.lt_of_succ_lt hn)).2.1 (outsAt10 c n (Nat.lt_of_succ_lt hn)).2.2),
       (sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) scM10_1 (Memref.isWhole_whole _) (not_cond10_0_succ n hn) ((hcond10_1 ⟨n + 1, hn⟩).mpr h1) (iblk10 V c 0 ⟨n + 1, hn⟩) (outsAt10 c n (Nat.lt_of_succ_lt hn)).2.1 (outsAt10 c n (Nat.lt_of_succ_lt hn)).2.2,
        sout10_C_1 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) scM10_1 (Memref.isWhole_whole _) (not_cond10_0_succ n hn) ((hcond10_1 ⟨n + 1, hn⟩).mpr h1) (iblk10 V c 0 ⟨n + 1, hn⟩) (outsAt10 c n (Nat.lt_of_succ_lt hn)).2.1 (outsAt10 c n (Nat.lt_of_succ_lt hn)).2.2))
    else
      ((unread10_1, unread10_2),
       (sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) scM10_1 (Memref.isWhole_whole _) (not_cond10_0_succ n hn) (fun h => h1 ((hcond10_1 ⟨n + 1, hn⟩).mp h)) (iblk10 V c 0 ⟨n + 1, hn⟩) (outsAt10 c n (Nat.lt_of_succ_lt hn)).2.1 (outsAt10 c n (Nat.lt_of_succ_lt hn)).2.2,
        sout10_B_1 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) scM10_1 (Memref.isWhole_whole _) (not_cond10_0_succ n hn) (fun h => h1 ((hcond10_1 ⟨n + 1, hn⟩).mp h)) (iblk10 V c 0 ⟨n + 1, hn⟩) (outsAt10 c n (Nat.lt_of_succ_lt hn)).2.1 (outsAt10 c n (Nat.lt_of_succ_lt hn)).2.2))

/-- `outsAt10` at the first point. -/
theorem outsAt10_A (c : Dev nD) (t : Fin cfg10.N) (hc0 : cond10_0 (grid10.coords t)) (hc1 : ¬cond10_1 (grid10.coords t)) :
    outsAt10 V c t.val t.isLt = ((unread10_1, unread10_2),
      (sout10_A_0 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t), sout10_A_1 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t))) := by
  obtain ⟨n, hn⟩ := t
  cases n with
  | zero => exact rfl
  | succ n => exact absurd hc0 (not_cond10_0_succ n hn)

/-- `outsAt10` at a middle point: over what the point before left in the scratch. -/
theorem outsAt10_B (c : Dev nD) (t : Fin cfg10.N) (hc0 : ¬cond10_0 (grid10.coords t)) (hc1 : ¬cond10_1 (grid10.coords t)) :
    outsAt10 V c t.val t.isLt = ((unread10_1, unread10_2),
      (sout10_B_0 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t) (outsAt10 V c (t.val - 1) (Nat.lt_of_le_of_lt (Nat.sub_le _ _) t.isLt)).2.1 (outsAt10 V c (t.val - 1) (Nat.lt_of_le_of_lt (Nat.sub_le _ _) t.isLt)).2.2,
       sout10_B_1 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t) (outsAt10 V c (t.val - 1) (Nat.lt_of_le_of_lt (Nat.sub_le _ _) t.isLt)).2.1 (outsAt10 V c (t.val - 1) (Nat.lt_of_le_of_lt (Nat.sub_le _ _) t.isLt)).2.2)) := by
  obtain ⟨n, hn⟩ := t
  cases n with
  | zero => exact absurd ((hcond10_0 ⟨0, hn⟩).mpr (Nat.zero_mod _)) hc0
  | succ n => exact (dif_neg (fun h => hc1 ((hcond10_1 ⟨n + 1, hn⟩).mpr h))).trans rfl

/-- `outsAt10` at the last point: over what the point before left in the scratch. -/
theorem outsAt10_C (c : Dev nD) (t : Fin cfg10.N) (hc0 : ¬cond10_0 (grid10.coords t)) (hc1 : cond10_1 (grid10.coords t)) :
    outsAt10 V c t.val t.isLt =
      ((out10_C_1 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t) (outsAt10 V c (t.val - 1) (Nat.lt_of_le_of_lt (Nat.sub_le _ _) t.isLt)).2.1 (outsAt10 V c (t.val - 1) (Nat.lt_of_le_of_lt (Nat.sub_le _ _) t.isLt)).2.2,
        out10_C_2 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t) (outsAt10 V c (t.val - 1) (Nat.lt_of_le_of_lt (Nat.sub_le _ _) t.isLt)).2.1 (outsAt10 V c (t.val - 1) (Nat.lt_of_le_of_lt (Nat.sub_le _ _) t.isLt)).2.2),
       (sout10_C_0 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t) (outsAt10 V c (t.val - 1) (Nat.lt_of_le_of_lt (Nat.sub_le _ _) t.isLt)).2.1 (outsAt10 V c (t.val - 1) (Nat.lt_of_le_of_lt (Nat.sub_le _ _) t.isLt)).2.2,
        sout10_C_1 c (grid10.coords t) (ms10_0 t) (hs10_0 t) (ms10_1 t) (hs10_1 t) (ms10_2 t) (hs10_2 t) scM10_0 (Memref.isWhole_whole _) scM10_1 (Memref.isWhole_whole _) hc0 hc1 (iblk10 V c 0 t) (outsAt10 V c (t.val - 1) (Nat.lt_of_le_of_lt (Nat.sub_le _ _) t.isLt)).2.1 (outsAt10 V c (t.val - 1) (Nat.lt_of_le_of_lt (Nat.sub_le _ _) t.isLt)).2.2)) := by
  obtain ⟨n, hn⟩ := t
  cases n with
  | zero => exact absurd ((hcond10_0 ⟨0, hn⟩).mpr (Nat.zero_mod _)) hc0
  | succ n => exact (dif_pos ((hcond10_1 ⟨n + 1, hn⟩).mp hc1)).trans rfl

/-! ## The region's invariant -/

/-- The invariant before position `n`: before the first point every scoped buffer no window stages at some contents
    (the two scratch buffers hold anything on entry) and the generator register at some state; afterwards the two
    scratch buffers at the running sums the point before left, the other such buffers unopened, and the register. -/
def PhiS10 (c : Dev nD) : (n : ℕ) → n ≤ cfg10.N → sProp 𝕄
  | 0, _ => Pipeline.ΦA spec10 c
  | n + 1, hn => iprop(iprop(iprop(owns (c : Thread nD τ) scM10_0 fullShare ((outsAt10 V c n hn).2.1) ∗ owns (c : Thread nD τ) scM10_1 fullShare ((outsAt10 V c n hn).2.2))
      ∗ Pipeline.scopedRestBut (Ix := Unit) (Name := ℕ) (U := UR sig nD τ) (Lvl := ℕ) (Val := Elt F) spec10 c [cc10_scratch0, cc10_scratch1]) ∗ (∃ r, prngReg c r))

theorem PhiS10_zero (c : Dev nD) (n : ℕ) (h : n ≤ cfg10.N) (hz : n = 0) : PhiS10 V c n h = Pipeline.ΦA spec10 c := by
  subst hz; rfl

/-- After point `n` (before point `n + 1`): the scratch at that point's contents. -/
theorem PhiS10_succ (c : Dev nD) (n : ℕ) (hn : n < cfg10.N) :
    PhiS10 V c (n + 1) hn = iprop(iprop(iprop(owns (c : Thread nD τ) scM10_0 fullShare ((outsAt10 V c n hn).2.1) ∗ owns (c : Thread nD τ) scM10_1 fullShare ((outsAt10 V c n hn).2.2))
      ∗ Pipeline.scopedRestBut (Ix := Unit) (Name := ℕ) (U := UR sig nD τ) (Lvl := ℕ) (Val := Elt F) spec10 c [cc10_scratch0, cc10_scratch1]) ∗ (∃ r, prngReg c r)) := rfl

/-- Before a point that is not the first: the scratch at what the point before left. -/
theorem PhiS10_pos (c : Dev nD) (n : ℕ) (h : n ≤ cfg10.N) (hz : n ≠ 0) :
    PhiS10 V c n h = iprop(iprop(iprop(owns (c : Thread nD τ) scM10_0 fullShare ((outsAt10 V c (n - 1) (by omega)).2.1) ∗ owns (c : Thread nD τ) scM10_1 fullShare ((outsAt10 V c (n - 1) (by omega)).2.2))
      ∗ Pipeline.scopedRestBut (Ix := Unit) (Name := ℕ) (U := UR sig nD τ) (Lvl := ℕ) (Val := Elt F) spec10 c [cc10_scratch0, cc10_scratch1]) ∗ (∃ r, prngReg c r)) := by
  cases n with
  | zero => exact absurd rfl hz
  | succ n => rfl

/-! ## The pipeline's proof data -/

/-- The proof data of pipeline 10 on core `c`: the arrays as the region finds them (`V`); after the body the input's
    buffer at its block and the outputs' at `outsAt10`; the invariant `PhiS10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => (outsAt10 V c t.val t.isLt).1.1
    | ⟨2, _⟩ => (outsAt10 V c t.val t.isLt).1.2
  Φ t := PhiS10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

/-- The invariant at a point's start, restated at `t.val`. -/
theorem PhiS10_castSucc (c : Dev nD) (t : Fin cfg10.N) :
    (dat10 V c).Φ t.castSucc = PhiS10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = (outsAt10 V c t.val t.isLt).1.1 := by dsimp only [dat10]
theorem after10_2 (c : Dev nD) (t : Fin cfg10.N) : (dat10 V c).after 2 t = (outsAt10 V c t.val t.isLt).1.2 := by dsimp only [dat10]

/-- The input's current staging buffer holds its block at every point. -/
theorem before10_0 (c : Dev nD) (t : Fin cfg10.N) (d) : (dat10 V c).before 0 t d = iblk10 V c 0 t :=
  before10_0_of V (dat10 V c) (A_eq10 V c 0) (after10_0 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point: the input's memref holds its block; the closed forms say which case the point is in; the
    invariant hands the body the two scratch buffers at what the point before left (at anything at the first point) and
    takes them back at this point's contents; the idle output windows pass through untouched; the core owes nothing. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0]
  rw [show (dat10 V c).owesAt () t.succ = (dat10 V c).owesAt () t.castSucc from rfl]
  rw [show (dat10 V c).Φ t.succ = PhiS10 V c (t.val + 1) t.isLt from rfl, PhiS10_succ]
  have hN : t.val < 20 := lt_of_lt_of_eq t.isLt (show cfg10.N = 20 from N_10)
  rw [show (dat10 V c).leavesExact 0 t = owns (c : Thread nD τ) (ms10_0 t) fullShare ((dat10 V c).after 0 t) from by
    unfold Dat.leavesExact; rw [liveAt10_0 t], after10_0]
  by_cases hc1 : cond10_1 (grid10.coords t)
  · have h1 : t.val % 20 = 19 := (hcond10_1 t).mp hc1
    have hc0 : ¬cond10_0 (grid10.coords t) := fun h => by have := (hcond10_0 t).mp h; omega
    have hz : t.val ≠ 0 := by omega
    rw [show (dat10 V c).leavesExact 1 t = owns (c : Thread nD τ) (ms10_1 t) fullShare ((dat10 V c).after 1 t) from by
      unfold Dat.leavesExact; rw [liveAt10_1 t hc1], after10_1]
    rw [show (dat10 V c).leavesExact 2 t = owns (c : Thread nD τ) (ms10_2 t) fullShare ((dat10 V c).after 2 t) from by
      unfold Dat.leavesExact; rw [liveAt10_2 t hc1], after10_2]
    rw [outsAt10_C V c t hc0 hc1]
    unfold out10_C_1 out10_C_2 sout10_C_0 sout10_C_1; (try dsimp only)
    rw [PhiS10_castSucc V c t, PhiS10_pos V c _ _ hz]
    iintro ⟨⟨⟨⟨HS0, HS1⟩, HR⟩, Hg⟩, Ho, ⟨%d0, H0⟩, ⟨%d1, H1⟩, ⟨%d2, H2⟩⟩
    iapply ((kernelRun10_C c (grid10.coords t) _ _ _ _ _ _ _ _ _ _ hc0 hc1 (iblk10 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover10_C_0 c _ _ _ _ _ _ _ _ _ _ _ _ _ _ _ _)
          · unfold owns; iexists _; isplitr
            swap; · iexact HS1
            ipureintro; exact View.read_writes_of_cover _ _ _ _ _ (scover10_C_1 c _ _ _ _ _ _ _ _ _ _ _ _ _ _ _ _)
        · iexact HR
      · iexact Hg
    isplitl [Ho]; · iexact Ho
    isplitl [H0]; · iexact H0
    isplitl [H1]
    · unfold owns; iexists _; isplitr
      swap; · iexact H1
      ipureintro; exact View.read_writes_of_cover _ _ _ _ _ (cover10_C_1 c _ _ _ _ _ _ _ _ _ _ _ _ _ _ _ _)
    · unfold owns; iexists _; isplitr
      swap; · iexact H2
      ipureintro; exact View.read_writes_of_cover _ _ _ _ _ (cover10_C_2 c _ _ _ _ _ _ _ _ _ _ _ _ _ _ _ _)
  · rw [Dat.leavesExact_idle (dat10 V c) 1 t (idleAt10_1 t hc1) (noFlush10_1 t hc1)]
    rw [Dat.leavesExact_idle (dat10 V c) 2 t (idleAt10_2 t hc1) (noFlush10_2 t hc1)]
    by_cases hc0 : cond10_0 (grid10.coords t)
    · have hz : t.val = 0 := by have := (hcond10_0 t).mp hc0; omega
      rw [outsAt10_A V c t hc0 hc1]
      unfold sout10_A_0 sout10_A_1; (try dsimp only)
      rw [PhiS10_castSucc V c t, PhiS10_zero V c _ _ hz, PhiA10_eq]
      iintro ⟨⟨⟨⟨HS0, HS1⟩, HR⟩, Hg⟩, Ho, ⟨%d0, H0⟩, ⟨%d1, H1⟩, ⟨%d2, H2⟩⟩
      iapply ((kernelRun10_A c (grid10.coords t) _ _ _ _ _ _ _ _ _ _ hc0 hc1 (iblk10 V c 0 t)).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover10_A_0 c _ _ _ _ _ _ _ _ _ _ _ _ _ _)
            · unfold owns; iexists _; isplitr
              swap; · iexact HS1
              ipureintro; exact View.read_writes_of_cover _ _ _ _ _ (scover10_A_1 c _ _ _ _ _ _ _ _ _ _ _ _ _ _)
          · iexact HR
        · iexact Hg
      isplitl [Ho]; · iexact Ho
      isplitl [H0]; · iexact H0
      isplitl [H1]; · iexists _; iexact H1
      iexists _; iexact H2
    · have hz : t.val ≠ 0 := fun h => hc0 ((hcond10_0 t).mpr (by rw [h]))
      rw [outsAt10_B V c t hc0 hc1]
      unfold sout10_B_0 sout10_B_1; (try dsimp only)
      rw [PhiS10_castSucc V c t, PhiS10_pos V c _ _ hz]
      iintro ⟨⟨⟨⟨HS0, HS1⟩, HR⟩, Hg⟩, Ho, ⟨%d0, H0⟩, ⟨%d1, H1⟩, ⟨%d2, H2⟩⟩
      iapply ((kernelRun10_B c (grid10.coords t) _ _ _ _ _ _ _ _ _ _ hc0 hc1 (iblk10 V c 0 t) _ _).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover10_B_0 c _ _ _ _ _ _ _ _ _ _ _ _ _ _ _ _)
            · unfold owns; iexists _; isplitr
              swap; · iexact HS1
              ipureintro; exact View.read_writes_of_cover _ _ _ _ _ (scover10_B_1 c _ _ _ _ _ _ _ _ _ _ _ _ _ _ _ _)
          · iexact HR
        · iexact Hg
      isplitl [Ho]; · iexact Ho
      isplitl [H0]; · iexact H0
      isplitl [H1]; · iexists _; iexact H1
      iexists _; iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the region is entered with (every scoped buffer no window stages, the generator register) is the invariant
    before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point but the first the invariant gives that back: the scratch buffers' named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout10 (c : Dev nD) : (dat10 V c).Φ (Fin.last cfg10.N) ⊢ Pipeline.ΦA spec10 c :=
  Phi_out10 V c _ (by rw [Fin.val_last]; have : cfg10.N = 20 := N_10; omega)

end Region10

end Cert.KernelIdeal.Regs

end
-- ==== Proof.NormRegion11.lean ====
/-
  Region 11 of @main (pipeline 11, `cc11_kernel`): the batch-norm NORMALISE step, stated at a parameter `V` — the
  TensorCore's buffer contents when the region is entered.

  The body is pointwise. At every grid point it reads the row block `x` of the array (window 0) and the four
  per-channel rows mean, variance, gamma, beta (windows 1–4, one block each, the same at every point), and stores
  into the output window's buffer (window 5) the single value
      act ((x − mean) · rsqrt (var + ε) · gamma + beta)
  (`k11_pay1`), where act is the leaky rectifier with slope 0.01. One whole-rectangle store covers the output buffer, so what
  the body leaves there is a closed function `out11_5` of the five input blocks; the input buffers are left as found.
  From this: the body's triple (`sound_kernel11`), the pipeline's proof data (`dat11`: arrays as the region finds
  them, each input buffer at its block, the output buffer at `out11_5` of the blocks), and the body obligation at every
  point (`body_obligation11`).
-/
import proofs.«180908_j8211977470570_1_alg».proof.Proof.Gen.KernelIdeal.Launch
import proofs.«180908_j8211977470570_1_alg».proof.Proof.Gen.KernelIdeal.Skeleton
import proofs.«180908_j8211977470570_1_alg».proof.Proof.Gen.KernelIdeal.Points
import Idealize.ShloMosaic.Lib.Pipeline.FrameBody
import Idealize.ShloMosaic.Lib.Tactic

-- membership in a rectangle of full extents recurses once per coordinate of the long axis
set_option maxRecDepth 16384

noncomputable section

namespace Cert.KernelIdeal.Regs

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): unfetched, the block index
    has not moved; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, fetched there or not, for any proof
    data whose array is `V`'s (`hA`) and whose body leaves the block in place (`hafter`): unfetched, the block index
    has not moved; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, fetched there or not, for any proof
    data whose array is `V`'s (`hA`) and whose body leaves the block in place (`hafter`): unfetched, the block index
    has not moved; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current staging buffer holds its block at every point, fetched there or not, for any proof
    data whose array is `V`'s (`hA`) and whose body leaves the block in place (`hafter`): unfetched, the block index
    has not moved; the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current staging buffer holds its block at every point, fetched there or not, for any proof
    data whose array is `V`'s (`hA`) and whose body leaves the block in place (`hafter`): unfetched, the block index
    has not moved; the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

/-- The whole rectangle of a row block, and of a per-channel row. -/
abbrev r11_big : Rect S3000x1 := Rect.unit (s := S3000x1) ![0, 0] S3000x1.size inb_S3000x1_S3000x1_0_0
abbrev r11_row : Rect S1x1 := Rect.unit (s := S1x1) ![0, 0] S1x1.size inb_S1x1_S1x1_0_0

/-! ## What the body leaves in the output window's buffer -/

/-- Window 5's staging buffer after the body, from the five input windows' blocks: its one store, of the
    normalised and activated rows, over the whole buffer. -/
def out11_5 (x0 : Vec F S3000x1 .f32) (x1 x2 x3 x4 : Vec F S1x1 .f32) : Vec F S3000x1 .f32 :=
  View.canon [⟨r11_big, k11_pay1 (View.ld x0 r11_big) (View.ld x1 r11_row) (View.ld x2 r11_row) (View.ld x3 r11_row) (View.ld x4 r11_row)⟩]

/-- The store's rectangle is the whole buffer, so it covers it. -/
theorem cover11_5 (p0 : Vec F S3000x1 .f32) (y : S3000x1.Idx) :
    ∃ pc ∈ ([⟨r11_big, p0⟩] : List (View.Piece (Elt F) S3000x1 .f32)), y ∈ pc.1.set :=
  View.cover_of_tiled [⟨r11_big, p0⟩] S3000x1.size (by rfl) y

/-! ## The body's triple -/

set_option maxHeartbeats 1000000 in
/-- The kernel body on whole staging memrefs, the inputs' at read contents `x0 … x4` and the output's at anything, runs
    to the continuation holding the inputs' as they were and the output's at `out11_5` of the inputs'. The grid
    coordinate `i` is not read. -/
theorem sound_kernel11 (c : Dev nD) (E : Set ℕ) (i : grid11.Coords)
    (arg1 : Memref sig .tc .vmem S3000x1 .f32) (harg1 : arg1.IsWhole) (arg2 : Memref sig .tc .vmem S1x1 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S3000x1 .f32) (harg6 : arg6.IsWhole)
    (x0 : Vec F S3000x1 .f32) (x1 x2 x3 x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E (cc11_kernel i arg1 harg1 arg2 harg2 arg3 harg3 arg4 harg4 arg5 harg5 arg6 harg6) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The pipeline's proof data -/

/-- The proof data of pipeline 11 on core `c`: the arrays as the region finds them (`V`); after the body at point `t`
    each input's buffer at its block and the output's at `out11_5` of the input blocks; the invariant the scoped rest
    and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents (the definition projected). -/
theorem A_eq11 (c : Dev nD) (w : Fin cfg11.W) : (dat11 V c).A w = V c (Pipeline.arrRef spec11 w) := by
  dsimp only [dat11]

/-- What the body leaves, window by window (the definition's `match` reduced). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation, at a generic point -/

/-- What the body is called with at point `t` (the windows one by one), -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' memrefs hold their blocks (`before11_W`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Regs
-- ==== Proof.MatmulRegion12.lean ====
/- Region 12 of @main (pipeline 12, `cc12_kernel`): a matrix product of two whole blocks, stored whole.
   Stated at a parameter `V`: the contents of the core's buffers when the region is entered.  The body reads
   window 0 (a block of rows) and window 1 (a block of weights) whole, rounds both to bf16, multiplies them
   into a zero accumulator, reads window 2 (the value is not used), and overwrites window 2 whole with the
   product.  Hence after the body the two input buffers are as found and the output buffer is a function
   `out12_2` of the two input blocks alone. -/
import proofs.«180908_j8211977470570_1_alg».proof.Proof.Gen.KernelIdeal.Launch
import proofs.«180908_j8211977470570_1_alg».proof.Proof.Gen.KernelIdeal.Skeleton
import proofs.«180908_j8211977470570_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
-- the contents of the core's buffers when the region is entered
variable (V : (c : Dev nD) → (b : Ref sig .tc) → Buf (Elt F) ((c : Thread nD τ).loc b))

/-! ## The windows' blocks -/

/-- Window `w`'s block at point `t`, read off its array at the entry contents `V`. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current buffer holds its block at every point, fetched there or not (unfetched, the
    block index has not moved), for any proof data whose array is `V`'s and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each buffer whole -/

abbrev r12_a : Rect S1x5000x1 := Rect.unit (s := S1x5000x1) ![0, 0, 0] S1x5000x1.size inb_S1x5000x1_S1x5000x1_0_0_0
abbrev r12_b : Rect S1x1x64 := Rect.unit (s := S1x1x64) ![0, 0, 0] S1x1x64.size inb_S1x1x64_S1x1x64_0_0_0
abbrev r12_o : Rect S1x5000x64 := Rect.unit (s := S1x5000x64) ![0, 0, 0] S1x5000x64.size inb_S1x5000x64_S1x5000x64_0_0_0

/-! ## What the body leaves in the output window's buffer -/

/-- Window 2's buffer after the body, from the two input blocks: its one store, of the product, over the whole buffer. -/
def out12_2 (x0 : Vec F S1x5000x1 .f32) (x1 : Vec F S1x1x64 .f32) : Vec F S1x5000x64 .f32 :=
  View.canon [⟨r12_o, k12_pay1 (View.ld x0 r12_a) (View.ld x1 r12_b)⟩]

/-- The one store covers the buffer. -/
theorem cover12_2 (p0 : Vec F S1x5000x64 .f32) (y : S1x5000x64.Idx) :
    ∃ pc ∈ ([⟨r12_o, p0⟩] : List (View.Piece (Elt F) S1x5000x64 .f32)), y ∈ pc.1.set :=
  View.cover_of_tiled [⟨r12_o, p0⟩] S1x5000x64.size (by rfl) y

/-! ## The body's triple -/

set_option maxHeartbeats 1000000 in
/-- The body on whole buffers — the inputs' at contents `x0`, `x1`, the output's at anything — runs to the
    continuation holding the inputs' as they were and the output's at `out12_2 x0 x1`. -/
theorem sound_kernel12 (c : Dev nD) (E : Set ℕ) (i : grid12.Coords)
    (arg2 : Memref sig .tc .vmem S1x5000x1 .f32) (harg2 : arg2.IsWhole)
    (arg3 : Memref sig .tc .vmem S1x1x64 .f32) (harg3 : arg3.IsWhole)
    (arg4 : Memref sig .tc .vmem S1x5000x64 .f32) (harg4 : arg4.IsWhole)
    (x0 : Vec F S1x5000x1 .f32) (x1 : Vec F S1x1x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out12_2 x0 x1)) -∗ K ⟨⟩))
      ⊢ wp frame (wpE (defs₀ (F := F)) Variants.none c none) E (cc12_kernel i arg2 harg2 arg3 harg3 arg4 harg4) K := by
  simp only [cc12_kernel_eq_skeleton]; unfold cc12_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-! ## The pipeline's proof data -/

/-- The proof data of pipeline 12 on core `c`: the arrays at the entry contents `V`; after the body at point `t`
    each input's buffer at its block and the output's at `out12_2` of the input blocks; the invariant is the scoped
    rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

/-- The proof data's arrays are the entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) :
    (dat12 V c).after 2 t = out12_2 (iblk12 V c 0 t) (iblk12 V c 1 t) := by dsimp only [dat12]

/-- Each input's current buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' buffers hold their blocks, so the body's triple applies; the invariant and
    what the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's rule, at every point. -/
theorem body_obligation12 (c : Dev nD) : BodyObligation (dat12 (F := F) V c) (defs₀ (F := F)) Variants.none () Set.univ := fun t => by
  rw [bigSep_W12, bigSep_W12]
  exact sound_body12 V c t

end Region

end Cert.KernelIdeal.Regs
-- ==== Proof.Stats13Runs.lean ====
import proofs.«180908_j8211977470570_1_alg».proof.Proof.Gen.KernelIdeal.Launch
import proofs.«180908_j8211977470570_1_alg».proof.Proof.Gen.KernelIdeal.Skeleton
import proofs.«180908_j8211977470570_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The statistics region of pipeline 13: what its three control cases share

The kernel keeps two running column sums (of the block and of its square) in two scratch buffers the pipeline does not
stage: the first grid point zeroes them, every point adds its block's column sums, the last point turns them into the
mean and the variance and stores those into the two output windows. Everything is stated at a parameter `V`, the buffer
contents when the region is entered. -/

section Region13
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The input window's current staging buffer holds its block at every point, for any proof data whose array is `V`'s
    and whose body leaves the block in place: the window is fetched at every point, uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

end Region13

/-! ## The body's branch conditions -/

/-- The condition of the body's first conditional (the reset of the running sums), from the grid coordinate. -/
abbrev cond13_0 (i : grid13.Coords) : Prop := (Scalar.cmpi .ne (Scalar.extui (Scalar.cmpi .eq (BitVec.ofNat 32 (i 0).val) 0#32)) 0#32) = 1#1
/-- It holds at the first point only — decided over the grid. -/
theorem hcond13_0 : ∀ t : Fin cfg13.N, cond13_0 (grid13.coords t) ↔ t.val % 20 = 0 :=
  (by decide +kernel : ∀ t : Fin grid13.N, cond13_0 (grid13.coords t) ↔ t.val % 20 = 0)

/-- The condition of the body's second conditional (the final division and the two output stores). -/
abbrev cond13_1 (i : grid13.Coords) : Prop := k13_cond2 i = 1#1
/-- It holds at the last point only — decided over the grid. -/
theorem hcond13_1 : ∀ t : Fin cfg13.N, cond13_1 (grid13.coords t) ↔ t.val % 20 = 19 :=
  (by decide +kernel : ∀ t : Fin grid13.N, cond13_1 (grid13.coords t) ↔ t.val % 20 = 19)

/-! ## Where the windows are idle -/

/-- The input window is never idle. -/
theorem liveAt13_0 : ∀ t : Fin cfg13.N, cfg13.idle 0 (grid13.coords t) = false := by decide +kernel
/-- Away from the last point the two output windows are idle (the body stores nothing into them) -/
theorem idleAt13_1 : ∀ t : Fin cfg13.N, ¬cond13_1 (grid13.coords t) → cfg13.idle 1 (grid13.coords t) = true := by decide +kernel
theorem idleAt13_2 : ∀ t : Fin cfg13.N, ¬cond13_1 (grid13.coords t) → cfg13.idle 2 (grid13.coords t) = true := by decide +kernel
/-- and are not written back. -/
theorem noFlush13_1 : ∀ t : Fin cfg13.N, ¬cond13_1 (grid13.coords t) → (cfg13.win 1).flush t = false := by decide +kernel
theorem noFlush13_2 : ∀ t : Fin cfg13.N, ¬cond13_1 (grid13.coords t) → (cfg13.win 2).flush t = false := by decide +kernel
/-- At the last point they are live. -/
theorem liveAt13_1 : ∀ t : Fin cfg13.N, cond13_1 (grid13.coords t) → cfg13.idle 1 (grid13.coords t) = false := by decide +kernel
theorem liveAt13_2 : ∀ t : Fin cfg13.N, cond13_1 (grid13.coords t) → cfg13.idle 2 (grid13.coords t) = false := by decide +kernel

/-! ## The memrefs the body is called with -/

/-- One staging buffer of each output window, through which its contents are stated (the choice does not matter once
    the stores cover the block). -/
abbrev VO13_1 : View sig .tc .vmem S1x64 .f32 := (Memref.whole cc13_stg1_0 : Memref sig .tc .vmem S1x64 .f32).view
abbrev VO13_2 : View sig .tc .vmem S1x64 .f32 := (Memref.whole cc13_stg2_0 : Memref sig .tc .vmem S1x64 .f32).view
/-- Each window's current staging memref at point `t`, as the pipeline passes it, and its wholeness. -/
abbrev ms13_0 (t : Fin cfg13.N) : Memref sig .tc .vmem S10000x64 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S1x64 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1x64 .f32 := win13_2.stage (cfg13.slots t 2)
abbrev hs13_2 (t : Fin cfg13.N) : (ms13_2 t).IsWhole := hstage13_2 ((cfg13.slots t 2).cast nbuf13_2)
/-- The two scratch operands: whole scoped buffers of the kernel's own, passed beside the windows. -/
abbrev scM13_0 : Memref sig .tc .vmem S1x64 .f32 := Memref.whole cc13_scratch0
abbrev scM13_1 : Memref sig .tc .vmem S1x64 .f32 := Memref.whole cc13_scratch1
/-- The same as views: what they hold is stated through these. -/
abbrev VS13_0 : View sig .tc .vmem S1x64 .f32 := scM13_0.view
abbrev VS13_1 : View sig .tc .vmem S1x64 .f32 := scM13_1.view

/-- The region's entry invariant (every scoped buffer no window stages at some contents, the generator register at
    some state) with the two scratch operands taken out as memrefs owned at some contents; the other scoped buffers stay
    unopened. -/
theorem PhiA13_eq (c : Dev nD) :
    (Pipeline.ΦA spec13 c : sProp 𝕄)
      = iprop(iprop(iprop((∃ d, owns (c : Thread nD τ) scM13_0 fullShare d) ∗ (∃ d, owns (c : Thread nD τ) scM13_1 fullShare d))
          ∗ Pipeline.scopedRestBut (Ix := Unit) (Name := ℕ) (U := UR sig nD τ) (Lvl := ℕ) (Val := Elt F) spec13 c [cc13_scratch0, cc13_scratch1])
          ∗ (∃ r, prngReg c r)) := by
  unfold Pipeline.ΦA; rw [scopedRest13_split]; simp only [scM13_0, scM13_1, owns_whole]; try rfl

end Cert.KernelIdeal.Regs

end
-- ==== Proof.Stats13RunA.lean ====
import proofs.«180908_j8211977470570_1_alg».proof.Proof.Stats13Runs

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- THE FIRST POINT (the reset taken, the final stores not): what the body's stores leave in the two scratch buffers, as
    pieces (last first), WITH the proof that on whole memrefs — the input block's at its contents `x0`, the two scratch
    buffers at anything — the body runs to the continuation holding the input as it was and each scratch buffer with its
    pieces written (zero stored, then the block's column sums added). The two output windows are not touched and are
    left out. The pieces are the witness the symbolic run finds. -/
noncomputable def kernelRun13_A (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg4 fullShare d) ∗ (∃ d, owns (c : Thread nD τ) arg5 fullShare d)
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc13_kernel i arg1 harg1 arg2 harg2 arg3 harg3 arg4 harg4 arg5 harg5) K } := by
  refine ⟨?_, ?_, fun E K => ?run⟩
  case run =>
    simp only [cc13_kernel_eq_skeleton]; unfold cc13_kernel_skel
    unfold owns
    iintro ⟨⟨%f0, %hf0, H0⟩, ⟨%ds0, %fs0, -, HS0⟩, ⟨%ds1, %fs1, -, HS1⟩, Hk⟩
    obtain rfl := harg1.eq_unread hf0
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.KernelIdeal.Regs

end
-- ==== Proof.Stats13RunB.lean ====
import proofs.«180908_j8211977470570_1_alg».proof.Proof.Stats13RunA

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- A MIDDLE POINT (neither conditional taken): what the body's stores leave in the two scratch buffers, as pieces, WITH
    the proof that on whole memrefs — the input block's at `x0`, the two scratch buffers at the running sums `xs0`, `xs1`
    the point before left — the body runs to the continuation holding the input as it was and each scratch buffer with
    its pieces written (the block's column sums added). The two output windows are not touched and are left out. -/
noncomputable def kernelRun13_B (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (xs0 : Vec F S1x64 .f32) (xs1 : Vec F S1x64 .f32) :
    Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg4 fullShare xs0 ∗ owns (c : Thread nD τ) arg5 fullShare xs1
            ∗ (iprop(owns (c : Thread nD τ) arg1 fullShare x0 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc13_kernel i arg1 harg1 arg2 harg2 arg3 harg3 arg4 harg4 arg5 harg5) K } := by
  refine ⟨?_, ?_, fun E K => ?run⟩
  case run =>
    simp only [cc13_kernel_eq_skeleton]; unfold cc13_kernel_skel
    unfold owns
    iintro ⟨⟨%f0, %hf0, H0⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [HS0]
    · iexists _; iexact HS0
    iexists _; iexact HS1

end Cert.KernelIdeal.Regs

end
-- ==== Proof.Stats13RunC.lean ====
import proofs.«180908_j8211977470570_1_alg».proof.Proof.Stats13RunB

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- THE LAST POINT (the reset not taken, the final stores taken): what the body's stores leave in the two output
    windows' staging memrefs and in the two scratch buffers, as pieces, WITH the proof that on whole memrefs — the input
    block's at `x0`, the outputs' at anything, the scratch buffers at the running sums `xs0`, `xs1` the point before
    left — the body runs to the continuation holding the input as it was and each of the four with its pieces written
    (the sums completed; the mean, and the mean of squares less the mean squared, stored). -/
noncomputable def kernelRun13_C (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) :
    Σ' (L1 : List (View.Piece (Elt F) S1x64 .f32)) (L2 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc13_kernel i arg1 harg1 arg2 harg2 arg3 harg3 arg4 harg4 arg5 harg5) K } := by
  refine ⟨?_, ?_, ?_, ?_, fun E K => ?run⟩
  case run =>
    simp only [cc13_kernel_eq_skeleton]; unfold cc13_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [HS0]
    · iexists _; iexact HS0
    iexists _; iexact HS1

end Cert.KernelIdeal.Regs

end
-- ==== Proof.StatsRegion13.lean ====
import proofs.«180908_j8211977470570_1_alg».proof.Proof.Stats13RunC

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The statistics region of pipeline 13: the running sums, the proof data, the body obligation -/

/-! ## What each case's stores leave -/

/-- At the first point the stores into the first scratch buffer (the zero, then the sum) tile it, so they cover it. -/
theorem scover13_A_0 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) (y : S1x64.Idx) :
    ∃ pc ∈ (kernelRun13_A c i arg1 harg1 arg2 harg2 arg3 harg3 arg4 harg4 arg5 harg5 hc0 hc1 x0).1, y ∈ pc.1.set :=
  View.cover_of_tiledL (kernelRun13_A c i arg1 harg1 arg2 harg2 arg3 harg3 arg4 harg4 arg5 harg5 hc0 hc1 x0).1 S1x64.size (by sl_kernel_rfl) y

/-- What they leave there: the pieces read back (over contents that, the pieces covering the buffer, do not matter). -/
def sout13_A_0 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) : Vec F S1x64 .f32 :=
  VS13_0.read (Elt F) (VS13_0.writes (Elt F) VS13_0.junk (kernelRun13_A c i arg1 harg1 arg2 harg2 arg3 harg3 arg4 harg4 arg5 harg5 hc0 hc1 x0).1)

/-- At the first point the stores into the second scratch buffer tile it, so they cover it. -/
theorem scover13_A_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) (y : S1x64.Idx) :
    ∃ pc ∈ (kernelRun13_A c i arg1 harg1 arg2 harg2 arg3 harg3 arg4 harg4 arg5 harg5 hc0 hc1 x0).2.1, y ∈ pc.1.set :=
  View.cover_of_tiledL (kernelRun13_A c i arg1 harg1 arg2 harg2 arg3 harg3 arg4 harg4 arg5 harg5 hc0 hc1 x0).2.1 S1x64.size (by sl_kernel_rfl) y

/-- What they leave there: the pieces read back (over contents that, the pieces covering the buffer, do not matter). -/
def sout13_A_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x0 : Vec F S10000x64 .f32) : Vec F S1x64 .f32 :=
  VS13_1.read (Elt F) (VS13_1.writes (Elt F) VS13_1.junk (kernelRun13_A c i arg1 harg1 arg2 harg2 arg3 harg3 arg4 harg4 arg5 harg5 hc0 hc1 x0).2.1)

/-- At a middle point the store into the first scratch buffer tiles it. -/
theorem scover13_B_0 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (xs0 : Vec F S1x64 .f32) (xs1 : Vec F S1x64 .f32) (y : S1x64.Idx) :
    ∃ pc ∈ (kernelRun13_B c i arg1 harg1 arg2 harg2 arg3 harg3 arg4 harg4 arg5 harg5 hc0 hc1 x0 xs0 xs1).1, y ∈ pc.1.set :=
  View.cover_of_tiledL (kernelRun13_B c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def sout13_B_0 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (xs0 : Vec F S1x64 .f32) (xs1 : Vec F S1x64 .f32) : Vec F S1x64 .f32 :=
  VS13_0.read (Elt F) (VS13_0.writes (Elt F) VS13_0.junk (kernelRun13_B c i arg1 harg1 arg2 harg2 arg3 harg3 arg4 harg4 arg5 harg5 hc0 hc1 x0 xs0 xs1).1)

/-- At a middle point the store into the second scratch buffer tiles it. -/
theorem scover13_B_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (xs0 : Vec F S1x64 .f32) (xs1 : Vec F S1x64 .f32) (y : S1x64.Idx) :
    ∃ pc ∈ (kernelRun13_B c i arg1 harg1 arg2 harg2 arg3 harg3 arg4 harg4 arg5 harg5 hc0 hc1 x0 xs0 xs1).2.1, y ∈ pc.1.set :=
  View.cover_of_tiledL (kernelRun13_B c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def sout13_B_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x0 : Vec F S10000x64 .f32) (xs0 : Vec F S1x64 .f32) (xs1 : Vec F S1x64 .f32) : Vec F S1x64 .f32 :=
  VS13_1.read (Elt F) (VS13_1.writes (Elt F) VS13_1.junk (kernelRun13_B c i arg1 harg1 arg2 harg2 arg3 harg3 arg4 harg4 arg5 harg5 hc0 hc1 x0 xs0 xs1).2.1)

/-- At the last point the store into the first output window (the mean) tiles its block. -/
theorem cover13_C_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) (y : S1x64.Idx) :
    ∃ pc ∈ (kernelRun13_C c i arg1 harg1 arg2 harg2 arg3 harg3 arg4 harg4 arg5 harg5 hc0 hc1 x0 xs0 xs1).1, y ∈ pc.1.set :=
  View.cover_of_tiledL (kernelRun13_C c i arg1 harg1 arg2 harg2 arg3 harg3 arg4 harg4 arg5 harg5 hc0 hc1 x0 xs0 xs1).1 S1x64.size (by sl_kernel_rfl) y

/-- What they leave there: the pieces read back (over contents that, the pieces covering the buffer, do not matter). -/
def out13_C_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) : Vec F S1x64 .f32 :=
  VO13_1.read (Elt F) (VO13_1.writes (Elt F) VO13_1.junk (kernelRun13_C c i arg1 harg1 arg2 harg2 arg3 harg3 arg4 harg4 arg5 harg5 hc0 hc1 x0 xs0 xs1).1)

/-- At the last point the store into the second output window (the variance) tiles its block. -/
theorem cover13_C_2 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) (y : S1x64.Idx) :
    ∃ pc ∈ (kernelRun13_C c i arg1 harg1 arg2 harg2 arg3 harg3 arg4 harg4 arg5 harg5 hc0 hc1 x0 xs0 xs1).2.1, y ∈ pc.1.set :=
  View.cover_of_tiledL (kernelRun13_C c i arg1 harg1 arg2 harg2 arg3 harg3 arg4 harg4 arg5 harg5 hc0 hc1 x0 xs0 xs1).2.1 S1x64.size (by sl_kernel_rfl) y

/-- What they leave there: the pieces read back (over contents that, the pieces covering the buffer, do not matter). -/
def out13_C_2 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) : Vec F S1x64 .f32 :=
  VO13_2.read (Elt F) (VO13_2.writes (Elt F) VO13_2.junk (kernelRun13_C c i arg1 harg1 arg2 harg2 arg3 harg3 arg4 harg4 arg5 harg5 hc0 hc1 x0 xs0 xs1).2.1)

/-- At the last point the store into the first scratch buffer tiles it. -/
theorem scover13_C_0 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) (y : S1x64.Idx) :
    ∃ pc ∈ (kernelRun13_C c i arg1 harg1 arg2 harg2 arg3 harg3 arg4 harg4 arg5 harg5 hc0 hc1 x0 xs0 xs1).2.2.1, y ∈ pc.1.set :=
  View.cover_of_tiledL (kernelRun13_C c i arg1 harg1 arg2 harg2 arg3 harg3 arg4 harg4 arg5 harg5 hc0 hc1 x0 xs0 xs1).2.2.1 S1x64.size (by sl_kernel_rfl) y

/-- What they leave there: the pieces read back (over contents that, the pieces covering the buffer, do not matter). -/
def sout13_C_0 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) : Vec F S1x64 .f32 :=
  VS13_0.read (Elt F) (VS13_0.writes (Elt F) VS13_0.junk (kernelRun13_C c i arg1 harg1 arg2 harg2 arg3 harg3 arg4 harg4 arg5 harg5 hc0 hc1 x0 xs0 xs1).2.2.1)

/-- At the last point the store into the second scratch buffer tiles it. -/
theorem scover13_C_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) (y : S1x64.Idx) :
    ∃ pc ∈ (kernelRun13_C c i arg1 harg1 arg2 harg2 arg3 harg3 arg4 harg4 arg5 harg5 hc0 hc1 x0 xs0 xs1).2.2.2.1, y ∈ pc.1.set :=
  View.cover_of_tiledL (kernelRun13_C c i arg1 harg1 arg2 harg2 arg3 harg3 arg4 harg4 arg5 harg5 hc0 hc1 x0 xs0 xs1).2.2.2.1 S1x64.size (by sl_kernel_rfl) y

/-- What they leave there: the pieces read back (over contents that, the pieces covering the buffer, do not matter). -/
def sout13_C_1 (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x0 : Vec F S10000x64 .f32) (xs0 : Vec F S1x64 .f32) (xs1 : Vec F S1x64 .f32) : Vec F S1x64 .f32 :=
  VS13_1.read (Elt F) (VS13_1.writes (Elt F) VS13_1.junk (kernelRun13_C c i arg1 harg1 arg2 harg2 arg3 harg3 arg4 harg4 arg5 harg5 hc0 hc1 x0 xs0 xs1).2.2.2.1)

/-- After the first point the reset is never taken again: the grid has 20 points. -/
theorem not_cond13_0_succ (n : ℕ) (hn : n + 1 < cfg13.N) : ¬cond13_0 (grid13.coords ⟨n + 1, hn⟩) := fun h => by
  have h' := (hcond13_0 ⟨n + 1, hn⟩).mp h
  have hN : n + 1 < 20 := lt_of_lt_of_eq hn (show cfg13.N = 20 from N_13)
  dsimp only at h'; omega

/-- The first point is not the last. -/
theorem not_cond13_1_zero (hn : 0 < cfg13.N) : ¬cond13_1 (grid13.coords ⟨0, hn⟩) := fun h => by
  have h' := (hcond13_1 ⟨0, hn⟩).mp h
  dsimp only at h'; omega

section Region13
variable (V : (c : Dev nD) → (b : Ref sig .tc) → Buf (Elt F) ((c : Thread nD τ).loc b))

/-- Contents of an output window at a point where nothing reads them (the window is idle there and not written back). -/
def unread13_1 : Vec F S1x64 .f32 := VO13_1.read (Elt F) VO13_1.junk
def unread13_2 : Vec F S1x64 .f32 := VO13_2.read (Elt F) VO13_2.junk

/-! ## What the outputs and the scratch hold after each point -/

/-- THE ACCUMULATION. After the body at position `n`: the two output windows' staging buffers (named only at the last
    point) and the two scratch buffers — the first point's case run on the block, then each later point's case run on the
    block and on what the point before left in the scratch. -/
def outsAt13 (c : Dev nD) : (n : ℕ) → n < cfg13.N → (Vec F S1x64 .f32 × Vec F S1x64 .f32) × (Vec F S1x64 .f32 × Vec F S1x64 .f32)
  | 0, hn =>
    ((unread13_1, unread13_2),
     (sout13_A_0 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) scM13_0 (Memref.isWhole_whole _) scM13_1 (Memref.isWhole_whole _) ((hcond13_0 ⟨0, hn⟩).mpr (Nat.zero_mod _)) (not_cond13_1_zero hn) (iblk13 V c 0 ⟨0, hn⟩),
      sout13_A_1 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) scM13_0 (Memref.isWhole_whole _) scM13_1 (Memref.isWhole_whole _) ((hcond13_0 ⟨0, hn⟩).mpr (Nat.zero_mod _)) (not_cond13_1_zero hn) (iblk13 V c 0 ⟨0, hn⟩)))
  | n + 1, hn =>
    if h1 : (n + 1) % 20 = 19 then
      ((out13_C_1 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13_0 (Memref.isWhole_whole _) scM13_1 (Memref.isWhole_whole _) (not_cond13_0_succ n hn) ((hcond13_1 ⟨n + 1, hn⟩).mpr h1) (iblk13 V c 0 ⟨n + 1, hn⟩) (outsAt13 c n (Nat.lt_of_succ_lt hn)).2.1 (outsAt13 c n (Nat.lt_of_succ_lt hn)).2.2,
        out13_C_2 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13_0 (Memref.isWhole_whole _) scM13_1 (Memref.isWhole_whole _) (not_cond13_0_succ n hn) ((hcond13_1 ⟨n + 1, hn⟩).mpr h1) (iblk13 V c 0 ⟨n + 1, hn⟩) (outsAt13 c n (Nat.lt_of_succ_lt hn)).2.1 (outsAt13 c n (Nat.lt_of_succ_lt hn)).2.2),
       (sout13_C_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13_0 (Memref.isWhole_whole _) scM13_1 (Memref.isWhole_whole _) (not_cond13_0_succ n hn) ((hcond13_1 ⟨n + 1, hn⟩).mpr h1) (iblk13 V c 0 ⟨n + 1, hn⟩) (outsAt13 c n (Nat.lt_of_succ_lt hn)).2.1 (outsAt13 c n (Nat.lt_of_succ_lt hn)).2.2,
        sout13_C_1 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13_0 (Memref.isWhole_whole _) scM13_1 (Memref.isWhole_whole _) (not_cond13_0_succ n hn) ((hcond13_1 ⟨n + 1, hn⟩).mpr h1) (iblk13 V c 0 ⟨n + 1, hn⟩) (outsAt13 c n (Nat.lt_of_succ_lt hn)).2.1 (outsAt13 c n (Nat.lt_of_succ_lt hn)).2.2))
    else
      ((unread13_1, unread13_2),
       (sout13_B_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13_0 (Memref.isWhole_whole _) scM13_1 (Memref.isWhole_whole _) (not_cond13_0_succ n hn) (fun h => h1 ((hcond13_1 ⟨n + 1, hn⟩).mp h)) (iblk13 V c 0 ⟨n + 1, hn⟩) (outsAt13 c n (Nat.lt_of_succ_lt hn)).2.1 (outsAt13 c n (Nat.lt_of_succ_lt hn)).2.2,
        sout13_B_1 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13_0 (Memref.isWhole_whole _) scM13_1 (Memref.isWhole_whole _) (not_cond13_0_succ n hn) (fun h => h1 ((hcond13_1 ⟨n + 1, hn⟩).mp h)) (iblk13 V c 0 ⟨n + 1, hn⟩) (outsAt13 c n (Nat.lt_of_succ_lt hn)).2.1 (outsAt13 c n (Nat.lt_of_succ_lt hn)).2.2))

/-- `outsAt13` at the first point. -/
theorem outsAt13_A (c : Dev nD) (t : Fin cfg13.N) (hc0 : cond13_0 (grid13.coords t)) (hc1 : ¬cond13_1 (grid13.coords t)) :
    outsAt13 V c t.val t.isLt = ((unread13_1, unread13_2),
      (sout13_A_0 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t), sout13_A_1 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t))) := by
  obtain ⟨n, hn⟩ := t
  cases n with
  | zero => exact rfl
  | succ n => exact absurd hc0 (not_cond13_0_succ n hn)

/-- `outsAt13` at a middle point: over what the point before left in the scratch. -/
theorem outsAt13_B (c : Dev nD) (t : Fin cfg13.N) (hc0 : ¬cond13_0 (grid13.coords t)) (hc1 : ¬cond13_1 (grid13.coords t)) :
    outsAt13 V c t.val t.isLt = ((unread13_1, unread13_2),
      (sout13_B_0 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t) (outsAt13 V c (t.val - 1) (Nat.lt_of_le_of_lt (Nat.sub_le _ _) t.isLt)).2.1 (outsAt13 V c (t.val - 1) (Nat.lt_of_le_of_lt (Nat.sub_le _ _) t.isLt)).2.2,
       sout13_B_1 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t) (outsAt13 V c (t.val - 1) (Nat.lt_of_le_of_lt (Nat.sub_le _ _) t.isLt)).2.1 (outsAt13 V c (t.val - 1) (Nat.lt_of_le_of_lt (Nat.sub_le _ _) t.isLt)).2.2)) := by
  obtain ⟨n, hn⟩ := t
  cases n with
  | zero => exact absurd ((hcond13_0 ⟨0, hn⟩).mpr (Nat.zero_mod _)) hc0
  | succ n => exact (dif_neg (fun h => hc1 ((hcond13_1 ⟨n + 1, hn⟩).mpr h))).trans rfl

/-- `outsAt13` at the last point: over what the point before left in the scratch. -/
theorem outsAt13_C (c : Dev nD) (t : Fin cfg13.N) (hc0 : ¬cond13_0 (grid13.coords t)) (hc1 : cond13_1 (grid13.coords t)) :
    outsAt13 V c t.val t.isLt =
      ((out13_C_1 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t) (outsAt13 V c (t.val - 1) (Nat.lt_of_le_of_lt (Nat.sub_le _ _) t.isLt)).2.1 (outsAt13 V c (t.val - 1) (Nat.lt_of_le_of_lt (Nat.sub_le _ _) t.isLt)).2.2,
        out13_C_2 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t) (outsAt13 V c (t.val - 1) (Nat.lt_of_le_of_lt (Nat.sub_le _ _) t.isLt)).2.1 (outsAt13 V c (t.val - 1) (Nat.lt_of_le_of_lt (Nat.sub_le _ _) t.isLt)).2.2),
       (sout13_C_0 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t) (outsAt13 V c (t.val - 1) (Nat.lt_of_le_of_lt (Nat.sub_le _ _) t.isLt)).2.1 (outsAt13 V c (t.val - 1) (Nat.lt_of_le_of_lt (Nat.sub_le _ _) t.isLt)).2.2,
        sout13_C_1 c (grid13.coords t) (ms13_0 t) (hs13_0 t) (ms13_1 t) (hs13_1 t) (ms13_2 t) (hs13_2 t) scM13_0 (Memref.isWhole_whole _) scM13_1 (Memref.isWhole_whole _) hc0 hc1 (iblk13 V c 0 t) (outsAt13 V c (t.val - 1) (Nat.lt_of_le_of_lt (Nat.sub_le _ _) t.isLt)).2.1 (outsAt13 V c (t.val - 1) (Nat.lt_of_le_of_lt (Nat.sub_le _ _) t.isLt)).2.2)) := by
  obtain ⟨n, hn⟩ := t
  cases n with
  | zero => exact absurd ((hcond13_0 ⟨0, hn⟩).mpr (Nat.zero_mod _)) hc0
  | succ n => exact (dif_pos ((hcond13_1 ⟨n + 1, hn⟩).mp hc1)).trans rfl

/-! ## The region's invariant -/

/-- The invariant before position `n`: before the first point every scoped buffer no window stages at some contents
    (the two scratch buffers hold anything on entry) and the generator register at some state; afterwards the two
    scratch buffers at the running sums the point before left, the other such buffers unopened, and the register. -/
def PhiS13 (c : Dev nD) : (n : ℕ) → n ≤ cfg13.N → sProp 𝕄
  | 0, _ => Pipeline.ΦA spec13 c
  | n + 1, hn => iprop(iprop(iprop(owns (c : Thread nD τ) scM13_0 fullShare ((outsAt13 V c n hn).2.1) ∗ owns (c : Thread nD τ) scM13_1 fullShare ((outsAt13 V c n hn).2.2))
      ∗ Pipeline.scopedRestBut (Ix := Unit) (Name := ℕ) (U := UR sig nD τ) (Lvl := ℕ) (Val := Elt F) spec13 c [cc13_scratch0, cc13_scratch1]) ∗ (∃ r, prngReg c r))

theorem PhiS13_zero (c : Dev nD) (n : ℕ) (h : n ≤ cfg13.N) (hz : n = 0) : PhiS13 V c n h = Pipeline.ΦA spec13 c := by
  subst hz; rfl

/-- After point `n` (before point `n + 1`): the scratch at that point's contents. -/
theorem PhiS13_succ (c : Dev nD) (n : ℕ) (hn : n < cfg13.N) :
    PhiS13 V c (n + 1) hn = iprop(iprop(iprop(owns (c : Thread nD τ) scM13_0 fullShare ((outsAt13 V c n hn).2.1) ∗ owns (c : Thread nD τ) scM13_1 fullShare ((outsAt13 V c n hn).2.2))
      ∗ Pipeline.scopedRestBut (Ix := Unit) (Name := ℕ) (U := UR sig nD τ) (Lvl := ℕ) (Val := Elt F) spec13 c [cc13_scratch0, cc13_scratch1]) ∗ (∃ r, prngReg c r)) := rfl

/-- Before a point that is not the first: the scratch at what the point before left. -/
theorem PhiS13_pos (c : Dev nD) (n : ℕ) (h : n ≤ cfg13.N) (hz : n ≠ 0) :
    PhiS13 V c n h = iprop(iprop(iprop(owns (c : Thread nD τ) scM13_0 fullShare ((outsAt13 V c (n - 1) (by omega)).2.1) ∗ owns (c : Thread nD τ) scM13_1 fullShare ((outsAt13 V c (n - 1) (by omega)).2.2))
      ∗ Pipeline.scopedRestBut (Ix := Unit) (Name := ℕ) (U := UR sig nD τ) (Lvl := ℕ) (Val := Elt F) spec13 c [cc13_scratch0, cc13_scratch1]) ∗ (∃ r, prngReg c r)) := by
  cases n with
  | zero => exact absurd rfl hz
  | succ n => rfl

/-! ## The pipeline's proof data -/

/-- The proof data of pipeline 13 on core `c`: the arrays as the region finds them (`V`); after the body the input's
    buffer at its block and the outputs' at `outsAt13`; the invariant `PhiS13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => (outsAt13 V c t.val t.isLt).1.1
    | ⟨2, _⟩ => (outsAt13 V c t.val t.isLt).1.2
  Φ t := PhiS13 V c t.val (Nat.le_of_lt_succ t.isLt)
  q _ := fullShare
  owed _ := 0

/-- The proof data's arrays are the region-entry contents. -/
theorem A_eq13 (c : Dev nD) (w : Fin cfg13.W) : (dat13 V c).A w = V c (Pipeline.arrRef spec13 w) := by
  dsimp only [dat13]

/-- The invariant at a point's start, restated at `t.val`. -/
theorem PhiS13_castSucc (c : Dev nD) (t : Fin cfg13.N) :
    (dat13 V c).Φ t.castSucc = PhiS13 V c t.val (Nat.le_of_lt t.isLt) := by
  dsimp only [dat13]; simp only [Fin.coe_castSucc]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = (outsAt13 V c t.val t.isLt).1.1 := by dsimp only [dat13]
theorem after13_2 (c : Dev nD) (t : Fin cfg13.N) : (dat13 V c).after 2 t = (outsAt13 V c t.val t.isLt).1.2 := by dsimp only [dat13]

/-- The input's current staging buffer holds its block at every point. -/
theorem before13_0 (c : Dev nD) (t : Fin cfg13.N) (d) : (dat13 V c).before 0 t d = iblk13 V c 0 t :=
  before13_0_of V (dat13 V c) (A_eq13 V c 0) (after13_0 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

set_option maxHeartbeats 4800000 in
/-- The body at any point: the input's memref holds its block; the closed forms say which case the point is in; the
    invariant hands the body the two scratch buffers at what the point before left (at anything at the first point) and
    takes them back at this point's contents; the idle output windows pass through untouched; the core owes nothing. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0]
  rw [show (dat13 V c).owesAt () t.succ = (dat13 V c).owesAt () t.castSucc from rfl]
  rw [show (dat13 V c).Φ t.succ = PhiS13 V c (t.val + 1) t.isLt from rfl, PhiS13_succ]
  have hN : t.val < 20 := lt_of_lt_of_eq t.isLt (show cfg13.N = 20 from N_13)
  rw [show (dat13 V c).leavesExact 0 t = owns (c : Thread nD τ) (ms13_0 t) fullShare ((dat13 V c).after 0 t) from by
    unfold Dat.leavesExact; rw [liveAt13_0 t], after13_0]
  by_cases hc1 : cond13_1 (grid13.coords t)
  · have h1 : t.val % 20 = 19 := (hcond13_1 t).mp hc1
    have hc0 : ¬cond13_0 (grid13.coords t) := fun h => by have := (hcond13_0 t).mp h; omega
    have hz : t.val ≠ 0 := by omega
    rw [show (dat13 V c).leavesExact 1 t = owns (c : Thread nD τ) (ms13_1 t) fullShare ((dat13 V c).after 1 t) from by
      unfold Dat.leavesExact; rw [liveAt13_1 t hc1], after13_1]
    rw [show (dat13 V c).leavesExact 2 t = owns (c : Thread nD τ) (ms13_2 t) fullShare ((dat13 V c).after 2 t) from by
      unfold Dat.leavesExact; rw [liveAt13_2 t hc1], after13_2]
    rw [outsAt13_C V c t hc0 hc1]
    unfold out13_C_1 out13_C_2 sout13_C_0 sout13_C_1; (try dsimp only)
    rw [PhiS13_castSucc V c t, PhiS13_pos V c _ _ hz]
    iintro ⟨⟨⟨⟨HS0, HS1⟩, HR⟩, Hg⟩, Ho, ⟨%d0, H0⟩, ⟨%d1, H1⟩, ⟨%d2, H2⟩⟩
    iapply ((kernelRun13_C c (grid13.coords t) _ _ _ _ _ _ _ _ _ _ hc0 hc1 (iblk13 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover13_C_0 c _ _ _ _ _ _ _ _ _ _ _ _ _ _ _ _)
          · unfold owns; iexists _; isplitr
            swap; · iexact HS1
            ipureintro; exact View.read_writes_of_cover _ _ _ _ _ (scover13_C_1 c _ _ _ _ _ _ _ _ _ _ _ _ _ _ _ _)
        · iexact HR
      · iexact Hg
    isplitl [Ho]; · iexact Ho
    isplitl [H0]; · iexact H0
    isplitl [H1]
    · unfold owns; iexists _; isplitr
      swap; · iexact H1
      ipureintro; exact View.read_writes_of_cover _ _ _ _ _ (cover13_C_1 c _ _ _ _ _ _ _ _ _ _ _ _ _ _ _ _)
    · unfold owns; iexists _; isplitr
      swap; · iexact H2
      ipureintro; exact View.read_writes_of_cover _ _ _ _ _ (cover13_C_2 c _ _ _ _ _ _ _ _ _ _ _ _ _ _ _ _)
  · rw [Dat.leavesExact_idle (dat13 V c) 1 t (idleAt13_1 t hc1) (noFlush13_1 t hc1)]
    rw [Dat.leavesExact_idle (dat13 V c) 2 t (idleAt13_2 t hc1) (noFlush13_2 t hc1)]
    by_cases hc0 : cond13_0 (grid13.coords t)
    · have hz : t.val = 0 := by have := (hcond13_0 t).mp hc0; omega
      rw [outsAt13_A V c t hc0 hc1]
      unfold sout13_A_0 sout13_A_1; (try dsimp only)
      rw [PhiS13_castSucc V c t, PhiS13_zero V c _ _ hz, PhiA13_eq]
      iintro ⟨⟨⟨⟨HS0, HS1⟩, HR⟩, Hg⟩, Ho, ⟨%d0, H0⟩, ⟨%d1, H1⟩, ⟨%d2, H2⟩⟩
      iapply ((kernelRun13_A c (grid13.coords t) _ _ _ _ _ _ _ _ _ _ hc0 hc1 (iblk13 V c 0 t)).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover13_A_0 c _ _ _ _ _ _ _ _ _ _ _ _ _ _)
            · unfold owns; iexists _; isplitr
              swap; · iexact HS1
              ipureintro; exact View.read_writes_of_cover _ _ _ _ _ (scover13_A_1 c _ _ _ _ _ _ _ _ _ _ _ _ _ _)
          · iexact HR
        · iexact Hg
      isplitl [Ho]; · iexact Ho
      isplitl [H0]; · iexact H0
      isplitl [H1]; · iexists _; iexact H1
      iexists _; iexact H2
    · have hz : t.val ≠ 0 := fun h => hc0 ((hcond13_0 t).mpr (by rw [h]))
      rw [outsAt13_B V c t hc0 hc1]
      unfold sout13_B_0 sout13_B_1; (try dsimp only)
      rw [PhiS13_castSucc V c t, PhiS13_pos V c _ _ hz]
      iintro ⟨⟨⟨⟨HS0, HS1⟩, HR⟩, Hg⟩, Ho, ⟨%d0, H0⟩, ⟨%d1, H1⟩, ⟨%d2, H2⟩⟩
      iapply ((kernelRun13_B c (grid13.coords t) _ _ _ _ _ _ _ _ _ _ hc0 hc1 (iblk13 V c 0 t) _ _).2.2 Set.univ _)
      isplitl [H0]; · iexact H0
      isplitl [HS0]; · iexact HS0
      isplitl [HS1]; · iexact HS1
      iintro ⟨H0, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover13_B_0 c _ _ _ _ _ _ _ _ _ _ _ _ _ _ _ _)
            · unfold owns; iexists _; isplitr
              swap; · iexact HS1
              ipureintro; exact View.read_writes_of_cover _ _ _ _ _ (scover13_B_1 c _ _ _ _ _ _ _ _ _ _ _ _ _ _ _ _)
          · iexact HR
        · iexact Hg
      isplitl [Ho]; · iexact Ho
      isplitl [H0]; · iexact H0
      isplitl [H1]; · iexists _; iexact H1
      iexists _; iexact H2

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the region is entered with (every scoped buffer no window stages, the generator register) is the invariant
    before the first point. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After any point but the first the invariant gives that back: the scratch buffers' named contents are forgotten. -/
theorem Phi_out13 (c : Dev nD) (t : Fin (cfg13.N + 1)) (ht : t.val ≠ 0) : (dat13 V c).Φ t ⊢ Pipeline.ΦA spec13 c := by
  rw [show (dat13 V c).Φ t = PhiS13 V c t.val (Nat.le_of_lt_succ t.isLt) from rfl, PhiS13_pos V c _ _ ht, PhiA13_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout13 (c : Dev nD) : (dat13 V c).Φ (Fin.last cfg13.N) ⊢ Pipeline.ΦA spec13 c :=
  Phi_out13 V c _ (by rw [Fin.val_last]; have : cfg13.N = 20 := N_13; omega)

end Region13

end Cert.KernelIdeal.Regs

end
-- ==== Proof.NormRegion14.lean ====
/-
  Region 14 of @main (pipeline 14, `cc14_kernel`): the batch-norm NORMALISE step, stated at a parameter `V` — the
  TensorCore's buffer contents when the region is entered.

  The body is pointwise. At every grid point it reads the row block `x` of the array (window 0) and the four
  per-channel rows mean, variance, gamma, beta (windows 1–4, one block each, the same at every point), and stores
  into the output window's buffer (window 5) the single value
      act ((x − mean) · rsqrt (var + ε) · gamma + beta)
  (`k14_pay1`), where act is the logistic function. One whole-rectangle store covers the output buffer, so what
  the body leaves there is a closed function `out14_5` of the five input blocks; the input buffers are left as found.
  From this: the body's triple (`sound_kernel14`), the pipeline's proof data (`dat14`: arrays as the region finds
  them, each input buffer at its block, the output buffer at `out14_5` of the blocks), and the body obligation at every
  point (`body_obligation14`).
-/
import proofs.«180908_j8211977470570_1_alg».proof.Proof.Gen.KernelIdeal.Launch
import proofs.«180908_j8211977470570_1_alg».proof.Proof.Gen.KernelIdeal.Skeleton
import proofs.«180908_j8211977470570_1_alg».proof.Proof.Gen.KernelIdeal.Points
import Idealize.ShloMosaic.Lib.Pipeline.FrameBody
import Idealize.ShloMosaic.Lib.Tactic

-- membership in a rectangle of full extents recurses once per coordinate of the long axis
set_option maxRecDepth 16384

noncomputable section

namespace Cert.KernelIdeal.Regs

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof
    data whose array is `V`'s (`hA`) and whose body leaves the block in place (`hafter`): unfetched, the block index
    has not moved; the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- Input window 1's current staging buffer holds its block at every point, fetched there or not, for any proof
    data whose array is `V`'s (`hA`) and whose body leaves the block in place (`hafter`): unfetched, the block index
    has not moved; the window is uncut and never idle. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
/-- Input window 2's current staging buffer holds its block at every point, fetched there or not, for any proof
    data whose array is `V`'s (`hA`) and whose body leaves the block in place (`hafter`): unfetched, the block index
    has not moved; the window is uncut and never idle. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
/-- Input window 3's current staging buffer holds its block at every point, fetched there or not, for any proof
    data whose array is `V`'s (`hA`) and whose body leaves the block in place (`hafter`): unfetched, the block index
    has not moved; the window is uncut and never idle. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
/-- Input window 4's current staging buffer holds its block at every point, fetched there or not, for any proof
    data whose array is `V`'s (`hA`) and whose body leaves the block in place (`hafter`): unfetched, the block index
    has not moved; the window is uncut and never idle. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- The whole rectangle of a row block, and of a per-channel row. -/
abbrev r14_big : Rect S10000x64 := Rect.unit (s := S10000x64) ![0, 0] S10000x64.size inb_S10000x64_S10000x64_0_0
abbrev r14_row : Rect S1x64 := Rect.unit (s := S1x64) ![0, 0] S1x64.size inb_S1x64_S1x64_0_0

/-! ## What the body leaves in the output window's buffer -/

/-- Window 5's staging buffer after the body, from the five input windows' blocks: its one store, of the
    normalised and activated rows, over the whole buffer. -/
def out14_5 (x0 : Vec F S10000x64 .f32) (x1 x2 x3 x4 : Vec F S1x64 .f32) : Vec F S10000x64 .f32 :=
  View.canon [⟨r14_big, k14_pay1 (View.ld x0 r14_big) (View.ld x1 r14_row) (View.ld x2 r14_row) (View.ld x3 r14_row) (View.ld x4 r14_row)⟩]

/-- The store's rectangle is the whole buffer, so it covers it. -/
theorem cover14_5 (p0 : Vec F S10000x64 .f32) (y : S10000x64.Idx) :
    ∃ pc ∈ ([⟨r14_big, p0⟩] : List (View.Piece (Elt F) S10000x64 .f32)), y ∈ pc.1.set :=
  View.cover_of_tiled [⟨r14_big, p0⟩] S10000x64.size (by rfl) y

/-! ## The body's triple -/

set_option maxHeartbeats 1000000 in
/-- The kernel body on whole staging memrefs, the inputs' at read contents `x0 … x4` and the output's at anything, runs
    to the continuation holding the inputs' as they were and the output's at `out14_5` of the inputs'. The grid
    coordinate `i` is not read. -/
theorem sound_kernel14 (c : Dev nD) (E : Set ℕ) (i : grid14.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out14_5 x0 x1 x2 x3 x4)) -∗ K ⟨⟩))
      ⊢ wp frame (wpE (defs₀ (F := F)) Variants.none c none) E (cc14_kernel i arg1 harg1 arg2 harg2 arg3 harg3 arg4 harg4 arg5 harg5 arg6 harg6) K := by
  simp only [cc14_kernel_eq_skeleton]; unfold cc14_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-! ## The pipeline's proof data -/

/-- The proof data of pipeline 14 on core `c`: the arrays as the region finds them (`V`); after the body at point `t`
    each input's buffer at its block and the output's at `out14_5` of the input blocks; the invariant the scoped rest
    and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the region-entry contents (the definition projected). -/
theorem A_eq14 (c : Dev nD) (w : Fin cfg14.W) : (dat14 V c).A w = V c (Pipeline.arrRef spec14 w) := by
  dsimp only [dat14]

/-- What the body leaves, window by window (the definition's `match` reduced). -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = out14_5 (iblk14 V c 0 t) (iblk14 V c 1 t) (iblk14 V c 2 t) (iblk14 V c 3 t) (iblk14 V c 4 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation, at a generic point -/

/-- What the body is called with at point `t` (the windows one by one), -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' memrefs hold their blocks (`before14_W`), so `sound_kernel14` applies; the
    invariant and the core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Regs
-- ==== Proof.AssemblyIdeal.lean ====
import proofs.«180908_j8211977470570_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180908_j8211977470570_1_alg».proof.Proof.RegionRecordIdeal
import proofs.«180908_j8211977470570_1_alg».proof.Proof.MatmulRegion0
import proofs.«180908_j8211977470570_1_alg».proof.Proof.StatsRegion1
import proofs.«180908_j8211977470570_1_alg».proof.Proof.NormRegion2
import proofs.«180908_j8211977470570_1_alg».proof.Proof.MatmulRegion3
import proofs.«180908_j8211977470570_1_alg».proof.Proof.StatsRegion4
import proofs.«180908_j8211977470570_1_alg».proof.Proof.NormRegion5
import proofs.«180908_j8211977470570_1_alg».proof.Proof.MatmulRegion6
import proofs.«180908_j8211977470570_1_alg».proof.Proof.StatsRegion7
import proofs.«180908_j8211977470570_1_alg».proof.Proof.NormRegion8
import proofs.«180908_j8211977470570_1_alg».proof.Proof.MatmulRegion9
import proofs.«180908_j8211977470570_1_alg».proof.Proof.StatsRegion10
import proofs.«180908_j8211977470570_1_alg».proof.Proof.NormRegion11
import proofs.«180908_j8211977470570_1_alg».proof.Proof.MatmulRegion12
import proofs.«180908_j8211977470570_1_alg».proof.Proof.StatsRegion13
import proofs.«180908_j8211977470570_1_alg».proof.Proof.NormRegion14
set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents between the items of the program

`W J c` is what core `c`'s unscoped buffers hold before item `J`: the launch memory, then each host stretch applied, and
after a region its output arrays at what the write-backs leave, every other buffer as before. -/

abbrev W0 : Dev nD → Valuation τ sig (Elt F) := fun c b => m (c, b)
abbrev W1 : Dev nD → Valuation τ sig (Elt F) := fun c => StableHlo.after hostOps0 (W0 m c)
def W2 (c : Dev nD) : Valuation τ sig (Elt F) :=
  Function.update (W1 m c) (Proc.devRef .tc (Pipeline.arrRef spec0 2)) ((dat0 (atTc (W1 m)) c).arrAt 2 cfg0.N)
abbrev W3 : Dev nD → Valuation τ sig (Elt F) := fun c => StableHlo.after hostOps1 (W2 m c)
def W4 (c : Dev nD) : Valuation τ sig (Elt F) :=
  Function.update (Function.update (W3 m c) (Proc.devRef .tc (Pipeline.arrRef spec1 1)) ((dat1 (atTc (W3 m)) c).arrAt 1 cfg1.N)) (Proc.devRef .tc (Pipeline.arrRef spec1 2)) ((dat1 (atTc (W3 m)) c).arrAt 2 cfg1.N)
def W5 (c : Dev nD) : Valuation τ sig (Elt F) :=
  Function.update (W4 m c) (Proc.devRef .tc (Pipeline.arrRef spec2 5)) ((dat2 (atTc (W4 m)) c).arrAt 5 cfg2.N)
abbrev W6 : Dev nD → Valuation τ sig (Elt F) := fun c => StableHlo.after hostOps3 (W5 m c)
def W7 (c : Dev nD) : Valuation τ sig (Elt F) :=
  Function.update (W6 m c) (Proc.devRef .tc (Pipeline.arrRef spec3 2)) ((dat3 (atTc (W6 m)) c).arrAt 2 cfg3.N)
abbrev W8 : Dev nD → Valuation τ sig (Elt F) := fun c => StableHlo.after hostOps4 (W7 m c)
def W9 (c : Dev nD) : Valuation τ sig (Elt F) :=
  Function.update (Function.update (W8 m c) (Proc.devRef .tc (Pipeline.arrRef spec4 1)) ((dat4 (atTc (W8 m)) c).arrAt 1 cfg4.N)) (Proc.devRef .tc (Pipeline.arrRef spec4 2)) ((dat4 (atTc (W8 m)) c).arrAt 2 cfg4.N)
def W10 (c : Dev nD) : Valuation τ sig (Elt F) :=
  Function.update (W9 m c) (Proc.devRef .tc (Pipeline.arrRef spec5 5)) ((dat5 (atTc (W9 m)) c).arrAt 5 cfg5.N)
abbrev W11 : Dev nD → Valuation τ sig (Elt F) := fun c => StableHlo.after hostOps6 (W10 m c)
def W12 (c : Dev nD) : Valuation τ sig (Elt F) :=
  Function.update (W11 m c) (Proc.devRef .tc (Pipeline.arrRef spec6 2)) ((dat6 (atTc (W11 m)) c).arrAt 2 cfg6.N)
abbrev W13 : Dev nD → Valuation τ sig (Elt F) := fun c => StableHlo.after hostOps7 (W12 m c)
def W14 (c : Dev nD) : Valuation τ sig (Elt F) :=
  Function.update (Function.update (W13 m c) (Proc.devRef .tc (Pipeline.arrRef spec7 1)) ((dat7 (atTc (W13 m)) c).arrAt 1 cfg7.N)) (Proc.devRef .tc (Pipeline.arrRef spec7 2)) ((dat7 (atTc (W13 m)) c).arrAt 2 cfg7.N)
def W15 (c : Dev nD) : Valuation τ sig (Elt F) :=
  Function.update (W14 m c) (Proc.devRef .tc (Pipeline.arrRef spec8 5)) ((dat8 (atTc (W14 m)) c).arrAt 5 cfg8.N)
abbrev W16 : Dev nD → Valuation τ sig (Elt F) := fun c => StableHlo.after hostOps9 (W15 m c)
abbrev W17 : Dev nD → Valuation τ sig (Elt F) := fun c => StableHlo.after hostOps9_1 (W16 m c)
def W18 (c : Dev nD) : Valuation τ sig (Elt F) :=
  Function.update (W17 m c) (Proc.devRef .tc (Pipeline.arrRef spec9 2)) ((dat9 (atTc (W17 m)) c).arrAt 2 cfg9.N)
abbrev W19 : Dev nD → Valuation τ sig (Elt F) := fun c => StableHlo.after hostOps10 (W18 m c)
def W20 (c : Dev nD) : Valuation τ sig (Elt F) :=
  Function.update (Function.update (W19 m c) (Proc.devRef .tc (Pipeline.arrRef spec10 1)) ((dat10 (atTc (W19 m)) c).arrAt 1 cfg10.N)) (Proc.devRef .tc (Pipeline.arrRef spec10 2)) ((dat10 (atTc (W19 m)) c).arrAt 2 cfg10.N)
def W21 (c : Dev nD) : Valuation τ sig (Elt F) :=
  Function.update (W20 m c) (Proc.devRef .tc (Pipeline.arrRef spec11 5)) ((dat11 (atTc (W20 m)) c).arrAt 5 cfg11.N)
abbrev W22 : Dev nD → Valuation τ sig (Elt F) := fun c => StableHlo.after hostOps12 (W21 m c)
def W23 (c : Dev nD) : Valuation τ sig (Elt F) :=
  Function.update (W22 m c) (Proc.devRef .tc (Pipeline.arrRef spec12 2)) ((dat12 (atTc (W22 m)) c).arrAt 2 cfg12.N)
abbrev W24 : Dev nD → Valuation τ sig (Elt F) := fun c => StableHlo.after hostOps13 (W23 m c)
def W25 (c : Dev nD) : Valuation τ sig (Elt F) :=
  Function.update (Function.update (W24 m c) (Proc.devRef .tc (Pipeline.arrRef spec13 1)) ((dat13 (atTc (W24 m)) c).arrAt 1 cfg13.N)) (Proc.devRef .tc (Pipeline.arrRef spec13 2)) ((dat13 (atTc (W24 m)) c).arrAt 2 cfg13.N)
def W26 (c : Dev nD) : Valuation τ sig (Elt F) :=
  Function.update (W25 m c) (Proc.devRef .tc (Pipeline.arrRef spec14 5)) ((dat14 (atTc (W25 m)) c).arrAt 5 cfg14.N)

/-! ## Each region's arrays at its exit, and the other buffers -/
set_option maxHeartbeats 2000000 in
theorem hF0 (c : Dev nD) (w : Fin cfg0.W) : (dat0 (atTc (W1 m)) c).arrAt w cfg0.N = atTc (W2 m) c (Pipeline.arrRef spec0 w) := by
  match w with
  | ⟨0, _⟩ =>
    show _ = W2 m c (Proc.devRef .tc (Pipeline.arrRef spec0 0))
    unfold W2; rw [Function.update_of_ne (StableHlo.devRef_ne_of_ne (fun e => absurd (launch0.win.arr_inj e) (by decide)) : (Proc.devRef .tc (Pipeline.arrRef spec0 0) : DevRef τ sig) ≠ Proc.devRef .tc (Pipeline.arrRef spec0 2))]
    exact ((dat0 (atTc (W1 m)) c).arrAt_in 0 rfl _).trans (A_eq0 (atTc (W1 m)) c 0)
  | ⟨1, _⟩ =>
    show _ = W2 m c (Proc.devRef .tc (Pipeline.arrRef spec0 1))
    unfold W2; rw [Function.update_of_ne (StableHlo.devRef_ne_of_ne (fun e => absurd (launch0.win.arr_inj e) (by decide)) : (Proc.devRef .tc (Pipeline.arrRef spec0 1) : DevRef τ sig) ≠ Proc.devRef .tc (Pipeline.arrRef spec0 2))]
    exact ((dat0 (atTc (W1 m)) c).arrAt_in 1 rfl _).trans (A_eq0 (atTc (W1 m)) c 1)
  | ⟨2, _⟩ =>
    show _ = W2 m c (Proc.devRef .tc (Pipeline.arrRef spec0 2))
    unfold W2; rw [Function.update_self]
    rfl
theorem hrest0 (c : Dev nD) : ∀ b, b ∉ Finset.univ.image (Pipeline.arrRef spec0) → atTc (W2 m) c b = atTc (W1 m) c b := by
  intro b hb
  show W2 m c (Proc.devRef .tc b) = W1 m c (Proc.devRef .tc b)
  unfold W2
  rw [Function.update_of_ne (StableHlo.devRef_ne_of_ne (fun e => hb (Finset.mem_image.mpr ⟨2, Finset.mem_univ _, e.symm⟩)))]
set_option maxHeartbeats 2000000 in
theorem hF1 (c : Dev nD) (w : Fin cfg1.W) : (dat1 (atTc (W3 m)) c).arrAt w cfg1.N = atTc (W4 m) c (Pipeline.arrRef spec1 w) := by
  match w with
  | ⟨0, _⟩ =>
    show _ = W4 m c (Proc.devRef .tc (Pipeline.arrRef spec1 0))
    unfold W4; rw [Function.update_of_ne (StableHlo.devRef_ne_of_ne (fun e => absurd (launch1.win.arr_inj e) (by decide)) : (Proc.devRef .tc (Pipeline.arrRef spec1 0) : DevRef τ sig) ≠ Proc.devRef .tc (Pipeline.arrRef spec1 2))]; rw [Function.update_of_ne (StableHlo.devRef_ne_of_ne (fun e => absurd (launch1.win.arr_inj e) (by decide)) : (Proc.devRef .tc (Pipeline.arrRef spec1 0) : DevRef τ sig) ≠ Proc.devRef .tc (Pipeline.arrRef spec1 1))]
    exact ((dat1 (atTc (W3 m)) c).arrAt_in 0 rfl _).trans (A_eq1 (atTc (W3 m)) c 0)
  | ⟨1, _⟩ =>
    show _ = W4 m c (Proc.devRef .tc (Pipeline.arrRef spec1 1))
    unfold W4; rw [Function.update_of_ne (StableHlo.devRef_ne_of_ne (fun e => absurd (launch1.win.arr_inj e) (by decide)) : (Proc.devRef .tc (Pipeline.arrRef spec1 1) : DevRef τ sig) ≠ Proc.devRef .tc (Pipeline.arrRef spec1 2))]; rw [Function.update_self]
    rfl
  | ⟨2, _⟩ =>
    show _ = W4 m c (Proc.devRef .tc (Pipeline.arrRef spec1 2))
    unfold W4; rw [Function.update_self]
    rfl
theorem hrest1 (c : Dev nD) : ∀ b, b ∉ Finset.univ.image (Pipeline.arrRef spec1) → atTc (W4 m) c b = atTc (W3 m) c b := by
  intro b hb
  show W4 m c (Proc.devRef .tc b) = W3 m c (Proc.devRef .tc b)
  unfold W4
  rw [Function.update_of_ne (StableHlo.devRef_ne_of_ne (fun e => hb (Finset.mem_image.mpr ⟨2, Finset.mem_univ _, e.symm⟩)))]
  rw [Function.update_of_ne (StableHlo.devRef_ne_of_ne (fun e => hb (Finset.mem_image.mpr ⟨1, Finset.mem_univ _, e.symm⟩)))]
set_option maxHeartbeats 2000000 in
theorem hF2 (c : Dev nD) (w : Fin cfg2.W) : (dat2 (atTc (W4 m)) c).arrAt w cfg2.N = atTc (W5 m) c (Pipeline.arrRef spec2 w) := by
  match w with
  | ⟨0, _⟩ =>
    show _ = W5 m c (Proc.devRef .tc (Pipeline.arrRef spec2 0))
    unfold W5; rw [Function.update_of_ne (StableHlo.devRef_ne_of_ne (fun e => absurd (launch2.win.arr_inj e) (by decide)) : (Proc.devRef .tc (Pipeline.arrRef spec2 0) : DevRef τ sig) ≠ Proc.devRef .tc (Pipeline.arrRef spec2 5))]
    exact ((dat2 (atTc (W4 m)) c).arrAt_in 0 rfl _).trans (A_eq2 (atTc (W4 m)) c 0)
  | ⟨1, _⟩ =>
    show _ = W5 m c (Proc.devRef .tc (Pipeline.arrRef spec2 1))
    unfold W5; rw [Function.update_of_ne (StableHlo.devRef_ne_of_ne (fun e => absurd (launch2.win.arr_inj e) (by decide)) : (Proc.devRef .tc (Pipeline.arrRef spec2 1) : DevRef τ sig) ≠ Proc.devRef .tc (Pipeline.arrRef spec2 5))]
    exact ((dat2 (atTc (W4 m)) c).arrAt_in 1 rfl _).trans (A_eq2 (atTc (W4 m)) c 1)
  | ⟨2, _⟩ =>
    show _ = W5 m c (Proc.devRef .tc (Pipeline.arrRef spec2 2))
    unfold W5; rw [Function.update_of_ne (StableHlo.devRef_ne_of_ne (fun e => absurd (launch2.win.arr_inj e) (by decide)) : (Proc.devRef .tc (Pipeline.arrRef spec2 2) : DevRef τ sig) ≠ Proc.devRef .tc (Pipeline.arrRef spec2 5))]
    exact ((dat2 (atTc (W4 m)) c).arrAt_in 2 rfl _).trans (A_eq2 (atTc (W4 m)) c 2)
  | ⟨3, _⟩ =>
    show _ = W5 m c (Proc.devRef .tc (Pipeline.arrRef spec2 3))
    unfold W5; rw [Function.update_of_ne (StableHlo.devRef_ne_of_ne (fun e => absurd (launch2.win.arr_inj e) (by decide)) : (Proc.devRef .tc (Pipeline.arrRef spec2 3) : DevRef τ sig) ≠ Proc.devRef .tc (Pipeline.arrRef spec2 5))]
    exact ((dat2 (atTc (W4 m)) c).arrAt_in 3 rfl _).trans (A_eq2 (atTc (W4 m)) c 3)
  | ⟨4, _⟩ =>
    show _ = W5 m c (Proc.devRef .tc (Pipeline.arrRef spec2 4))
    unfold W5; rw [Function.update_of_ne (StableHlo.devRef_ne_of_ne (fun e => absurd (launch2.win.arr_inj e) (by decide)) : (Proc.devRef .tc (Pipeline.arrRef spec2 4) : DevRef τ sig) ≠ Proc.devRef .tc (Pipeline.arrRef spec2 5))]
    exact ((dat2 (atTc (W4 m)) c).arrAt_in 4 rfl _).trans (A_eq2 (atTc (W4 m)) c 4)
  | ⟨5, _⟩ =>
    show _ = W5 m c (Proc.devRef .tc (Pipeline.arrRef spec2 5))
    unfold W5; rw [Function.update_self]
    rfl
theorem hrest2 (c : Dev nD) : ∀ b, b ∉ Finset.univ.image (Pipeline.arrRef spec2) → atTc (W5 m) c b = atTc (W4 m) c b := by
  intro b hb
  show W5 m c (Proc.devRef .tc b) = W4 m c (Proc.devRef .tc b)
  unfold W5
  rw [Function.update_of_ne (StableHlo.devRef_ne_of_ne (fun e => hb (Finset.mem_image.mpr ⟨5, Finset.mem_univ _, e.symm⟩)))]
set_option maxHeartbeats 2000000 in
theorem hF3 (c : Dev nD) (w : Fin cfg3.W) : (dat3 (atTc (W6 m)) c).arrAt w cfg3.N = atTc (W7 m) c (Pipeline.arrRef spec3 w) := by
  match w with
  | ⟨0, _⟩ =>
    show _ = W7 m c (Proc.devRef .tc (Pipeline.arrRef spec3 0))
    unfold W7; rw [Function.update_of_ne (StableHlo.devRef_ne_of_ne (fun e => absurd (launch3.win.arr_inj e) (by decide)) : (Proc.devRef .tc (Pipeline.arrRef spec3 0) : DevRef τ sig) ≠ Proc.devRef .tc (Pipeline.arrRef spec3 2))]
    exact ((dat3 (atTc (W6 m)) c).arrAt_in 0 rfl _).trans (A_eq3 (atTc (W6 m)) c 0)
  | ⟨1, _⟩ =>
    show _ = W7 m c (Proc.devRef .tc (Pipeline.arrRef spec3 1))
    unfold W7; rw [Function.update_of_ne (StableHlo.devRef_ne_of_ne (fun e => absurd (launch3.win.arr_inj e) (by decide)) : (Proc.devRef .tc (Pipeline.arrRef spec3 1) : DevRef τ sig) ≠ Proc.devRef .tc (Pipeline.arrRef spec3 2))]
    exact ((dat3 (atTc (W6 m)) c).arrAt_in 1 rfl _).trans (A_eq3 (atTc (W6 m)) c 1)
  | ⟨2, _⟩ =>
    show _ = W7 m c (Proc.devRef .tc (Pipeline.arrRef spec3 2))
    unfold W7; rw [Function.update_self]
    rfl
theorem hrest3 (c : Dev nD) : ∀ b, b ∉ Finset.univ.image (Pipeline.arrRef spec3) → atTc (W7 m) c b = atTc (W6 m) c b := by
  intro b hb
  show W7 m c (Proc.devRef .tc b) = W6 m c (Proc.devRef .tc b)
  unfold W7
  rw [Function.update_of_ne (StableHlo.devRef_ne_of_ne (fun e => hb (Finset.mem_image.mpr ⟨2, Finset.mem_univ _, e.symm⟩)))]
set_option maxHeartbeats 2000000 in
theorem hF4 (c : Dev nD) (w : Fin cfg4.W) : (dat4 (atTc (W8 m)) c).arrAt w cfg4.N = atTc (W9 m) c (Pipeline.arrRef spec4 w) := by
  match w with
  | ⟨0, _⟩ =>
    show _ = W9 m c (Proc.devRef .tc (Pipeline.arrRef spec4 0))
    unfold W9; rw [Function.update_of_ne (StableHlo.devRef_ne_of_ne (fun e => absurd (launch4.win.arr_inj e) (by decide)) : (Proc.devRef .tc (Pipeline.arrRef spec4 0) : DevRef τ sig) ≠ Proc.devRef .tc (Pipeline.arrRef spec4 2))]; rw [Function.update_of_ne (StableHlo.devRef_ne_of_ne (fun e => absurd (launch4.win.arr_inj e) (by decide)) : (Proc.devRef .tc (Pipeline.arrRef spec4 0) : DevRef τ sig) ≠ Proc.devRef .tc (Pipeline.arrRef spec4 1))]
    exact ((dat4 (atTc (W8 m)) c).arrAt_in 0 rfl _).trans (A_eq4 (atTc (W8 m)) c 0)
  | ⟨1, _⟩ =>
    show _ = W9 m c (Proc.devRef .tc (Pipeline.arrRef spec4 1))
    unfold W9; rw [Function.update_of_ne (StableHlo.devRef_ne_of_ne (fun e => absurd (launch4.win.arr_inj e) (by decide)) : (Proc.devRef .tc (Pipeline.arrRef spec4 1) : DevRef τ sig) ≠ Proc.devRef .tc (Pipeline.arrRef spec4 2))]; rw [Function.update_self]
    rfl
  | ⟨2, _⟩ =>
    show _ = W9 m c (Proc.devRef .tc (Pipeline.arrRef spec4 2))
    unfold W9; rw [Function.update_self]
    rfl
theorem hrest4 (c : Dev nD) : ∀ b, b ∉ Finset.univ.image (Pipeline.arrRef spec4) → atTc (W9 m) c b = atTc (W8 m) c b := by
  intro b hb
  show W9 m c (Proc.devRef .tc b) = W8 m c (Proc.devRef .tc b)
  unfold W9
  rw [Function.update_of_ne (StableHlo.devRef_ne_of_ne (fun e => hb (Finset.mem_image.mpr ⟨2, Finset.mem_univ _, e.symm⟩)))]
  rw [Function.update_of_ne (StableHlo.devRef_ne_of_ne (fun e => hb (Finset.mem_image.mpr ⟨1, Finset.mem_univ _, e.symm⟩)))]
set_option maxHeartbeats 2000000 in
theorem hF5 (c : Dev nD) (w : Fin cfg5.W) : (dat5 (atTc (W9 m)) c).arrAt w cfg5.N = atTc (W10 m) c (Pipeline.arrRef spec5 w) := by
  match w with
  | ⟨0, _⟩ =>
    show _ = W10 m c (Proc.devRef .tc (Pipeline.arrRef spec5 0))
    unfold W10; rw [Function.update_of_ne (StableHlo.devRef_ne_of_ne (fun e => absurd (launch5.win.arr_inj e) (by decide)) : (Proc.devRef .tc (Pipeline.arrRef spec5 0) : DevRef τ sig) ≠ Proc.devRef .tc (Pipeline.arrRef spec5 5))]
    exact ((dat5 (atTc (W9 m)) c).arrAt_in 0 rfl _).trans (A_eq5 (atTc (W9 m)) c 0)
  | ⟨1, _⟩ =>
    show _ = W10 m c (Proc.devRef .tc (Pipeline.arrRef spec5 1))
    unfold W10; rw [Function.update_of_ne (StableHlo.devRef_ne_of_ne (fun e => absurd (launch5.win.arr_inj e) (by decide)) : (Proc.devRef .tc (Pipeline.arrRef spec5 1) : DevRef τ sig) ≠ Proc.devRef .tc (Pipeline.arrRef spec5 5))]
    exact ((dat5 (atTc (W9 m)) c).arrAt_in 1 rfl _).trans (A_eq5 (atTc (W9 m)) c 1)
  | ⟨2, _⟩ =>
    show _ = W10 m c (Proc.devRef .tc (Pipeline.arrRef spec5 2))
    unfold W10; rw [Function.update_of_ne (StableHlo.devRef_ne_of_ne (fun e => absurd (launch5.win.arr_inj e) (by decide)) : (Proc.devRef .tc (Pipeline.arrRef spec5 2) : DevRef τ sig) ≠ Proc.devRef .tc (Pipeline.arrRef spec5 5))]
    exact ((dat5 (atTc (W9 m)) c).arrAt_in 2 rfl _).trans (A_eq5 (atTc (W9 m)) c 2)
  | ⟨3, _⟩ =>
    show _ = W10 m c (Proc.devRef .tc (Pipeline.arrRef spec5 3))
    unfold W10; rw [Function.update_of_ne (StableHlo.devRef_ne_of_ne (fun e => absurd (launch5.win.arr_inj e) (by decide)) : (Proc.devRef .tc (Pipeline.arrRef spec5 3) : DevRef τ sig) ≠ Proc.devRef .tc (Pipeline.arrRef spec5 5))]
    exact ((dat5 (atTc (W9 m)) c).arrAt_in 3 rfl _).trans (A_eq5 (atTc (W9 m)) c 3)
  | ⟨4, _⟩ =>
    show _ = W10 m c (Proc.devRef .tc (Pipeline.arrRef spec5 4))
    unfold W10; rw [Function.update_of_ne (StableHlo.devRef_ne_of_ne (fun e => absurd (launch5.win.arr_inj e) (by decide)) : (Proc.devRef .tc (Pipeline.arrRef spec5 4) : DevRef τ sig) ≠ Proc.devRef .tc (Pipeline.arrRef spec5 5))]
    exact ((dat5 (atTc (W9 m)) c).arrAt_in 4 rfl _).trans (A_eq5 (atTc (W9 m)) c 4)
  | ⟨5, _⟩ =>
    show _ = W10 m c (Proc.devRef .tc (Pipeline.arrRef spec5 5))
    unfold W10; rw [Function.update_self]
    rfl
theorem hrest5 (c : Dev nD) : ∀ b, b ∉ Finset.univ.image (Pipeline.arrRef spec5) → atTc (W10 m) c b = atTc (W9 m) c b := by
  intro b hb
  show W10 m c (Proc.devRef .tc b) = W9 m c (Proc.devRef .tc b)
  unfold W10
  rw [Function.update_of_ne (StableHlo.devRef_ne_of_ne (fun e => hb (Finset.mem_image.mpr ⟨5, Finset.mem_univ _, e.symm⟩)))]
set_option maxHeartbeats 2000000 in
theorem hF6 (c : Dev nD) (w : Fin cfg6.W) : (dat6 (atTc (W11 m)) c).arrAt w cfg6.N = atTc (W12 m) c (Pipeline.arrRef spec6 w) := by
  match w with
  | ⟨0, _⟩ =>
    show _ = W12 m c (Proc.devRef .tc (Pipeline.arrRef spec6 0))
    unfold W12; rw [Function.update_of_ne (StableHlo.devRef_ne_of_ne (fun e => absurd (launch6.win.arr_inj e) (by decide)) : (Proc.devRef .tc (Pipeline.arrRef spec6 0) : DevRef τ sig) ≠ Proc.devRef .tc (Pipeline.arrRef spec6 2))]
    exact ((dat6 (atTc (W11 m)) c).arrAt_in 0 rfl _).trans (A_eq6 (atTc (W11 m)) c 0)
  | ⟨1, _⟩ =>
    show _ = W12 m c (Proc.devRef .tc (Pipeline.arrRef spec6 1))
    unfold W12; rw [Function.update_of_ne (StableHlo.devRef_ne_of_ne (fun e => absurd (launch6.win.arr_inj e) (by decide)) : (Proc.devRef .tc (Pipeline.arrRef spec6 1) : DevRef τ sig) ≠ Proc.devRef .tc (Pipeline.arrRef spec6 2))]
    exact ((dat6 (atTc (W11 m)) c).arrAt_in 1 rfl _).trans (A_eq6 (atTc (W11 m)) c 1)
  | ⟨2, _⟩ =>
    show _ = W12 m c (Proc.devRef .tc (Pipeline.arrRef spec6 2))
    unfold W12; rw [Function.update_self]
    rfl
theorem hrest6 (c : Dev nD) : ∀ b, b ∉ Finset.univ.image (Pipeline.arrRef spec6) → atTc (W12 m) c b = atTc (W11 m) c b := by
  intro b hb
  show W12 m c (Proc.devRef .tc b) = W11 m c (Proc.devRef .tc b)
  unfold W12
  rw [Function.update_of_ne (StableHlo.devRef_ne_of_ne (fun e => hb (Finset.mem_image.mpr ⟨2, Finset.mem_univ _, e.symm⟩)))]
set_option maxHeartbeats 2000000 in
theorem hF7 (c : Dev nD) (w : Fin cfg7.W) : (dat7 (atTc (W13 m)) c).arrAt w cfg7.N = atTc (W14 m) c (Pipeline.arrRef spec7 w) := by
  match w with
  | ⟨0, _⟩ =>
    show _ = W14 m c (Proc.devRef .tc (Pipeline.arrRef spec7 0))
    unfold W14; rw [Function.update_of_ne (StableHlo.devRef_ne_of_ne (fun e => absurd (launch7.win.arr_inj e) (by decide)) : (Proc.devRef .tc (Pipeline.arrRef spec7 0) : DevRef τ sig) ≠ Proc.devRef .tc (Pipeline.arrRef spec7 2))]; rw [Function.update_of_ne (StableHlo.devRef_ne_of_ne (fun e => absurd (launch7.win.arr_inj e) (by decide)) : (Proc.devRef .tc (Pipeline.arrRef spec7 0) : DevRef τ sig) ≠ Proc.devRef .tc (Pipeline.arrRef spec7 1))]
    exact ((dat7 (atTc (W13 m)) c).arrAt_in 0 rfl _).trans (A_eq7 (atTc (W13 m)) c 0)
  | ⟨1, _⟩ =>
    show _ = W14 m c (Proc.devRef .tc (Pipeline.arrRef spec7 1))
    unfold W14; rw [Function.update_of_ne (StableHlo.devRef_ne_of_ne (fun e => absurd (launch7.win.arr_inj e) (by decide)) : (Proc.devRef .tc (Pipeline.arrRef spec7 1) : DevRef τ sig) ≠ Proc.devRef .tc (Pipeline.arrRef spec7 2))]; rw [Function.update_self]
    rfl
  | ⟨2, _⟩ =>
    show _ = W14 m c (Proc.devRef .tc (Pipeline.arrRef spec7 2))
    unfold W14; rw [Function.update_self]
    rfl
theorem hrest7 (c : Dev nD) : ∀ b, b ∉ Finset.univ.image (Pipeline.arrRef spec7) → atTc (W14 m) c b = atTc (W13 m) c b := by
  intro b hb
  show W14 m c (Proc.devRef .tc b) = W13 m c (Proc.devRef .tc b)
  unfold W14
  rw [Function.update_of_ne (StableHlo.devRef_ne_of_ne (fun e => hb (Finset.mem_image.mpr ⟨2, Finset.mem_univ _, e.symm⟩)))]
  rw [Function.update_of_ne (StableHlo.devRef_ne_of_ne (fun e => hb (Finset.mem_image.mpr ⟨1, Finset.mem_univ _, e.symm⟩)))]
set_option maxHeartbeats 2000000 in
theorem hF8 (c : Dev nD) (w : Fin cfg8.W) : (dat8 (atTc (W14 m)) c).arrAt w cfg8.N = atTc (W15 m) c (Pipeline.arrRef spec8 w) := by
  match w with
  | ⟨0, _⟩ =>
    show _ = W15 m c (Proc.devRef .tc (Pipeline.arrRef spec8 0))
    unfold W15; rw [Function.update_of_ne (StableHlo.devRef_ne_of_ne (fun e => absurd (launch8.win.arr_inj e) (by decide)) : (Proc.devRef .tc (Pipeline.arrRef spec8 0) : DevRef τ sig) ≠ Proc.devRef .tc (Pipeline.arrRef spec8 5))]
    exact ((dat8 (atTc (W14 m)) c).arrAt_in 0 rfl _).trans (A_eq8 (atTc (W14 m)) c 0)
  | ⟨1, _⟩ =>
    show _ = W15 m c (Proc.devRef .tc (Pipeline.arrRef spec8 1))
    unfold W15; rw [Function.update_of_ne (StableHlo.devRef_ne_of_ne (fun e => absurd (launch8.win.arr_inj e) (by decide)) : (Proc.devRef .tc (Pipeline.arrRef spec8 1) : DevRef τ sig) ≠ Proc.devRef .tc (Pipeline.arrRef spec8 5))]
    exact ((dat8 (atTc (W14 m)) c).arrAt_in 1 rfl _).trans (A_eq8 (atTc (W14 m)) c 1)
  | ⟨2, _⟩ =>
    show _ = W15 m c (Proc.devRef .tc (Pipeline.arrRef spec8 2))
    unfold W15; rw [Function.update_of_ne (StableHlo.devRef_ne_of_ne (fun e => absurd (launch8.win.arr_inj e) (by decide)) : (Proc.devRef .tc (Pipeline.arrRef spec8 2) : DevRef τ sig) ≠ Proc.devRef .tc (Pipeline.arrRef spec8 5))]
    exact ((dat8 (atTc (W14 m)) c).arrAt_in 2 rfl _).trans (A_eq8 (atTc (W14 m)) c 2)
  | ⟨3, _⟩ =>
    show _ = W15 m c (Proc.devRef .tc (Pipeline.arrRef spec8 3))
    unfold W15; rw [Function.update_of_ne (StableHlo.devRef_ne_of_ne (fun e => absurd (launch8.win.arr_inj e) (by decide)) : (Proc.devRef .tc (Pipeline.arrRef spec8 3) : DevRef τ sig) ≠ Proc.devRef .tc (Pipeline.arrRef spec8 5))]
    exact ((dat8 (atTc (W14 m)) c).arrAt_in 3 rfl _).trans (A_eq8 (atTc (W14 m)) c 3)
  | ⟨4, _⟩ =>
    show _ = W15 m c (Proc.devRef .tc (Pipeline.arrRef spec8 4))
    unfold W15; rw [Function.update_of_ne (StableHlo.devRef_ne_of_ne (fun e => absurd (launch8.win.arr_inj e) (by decide)) : (Proc.devRef .tc (Pipeline.arrRef spec8 4) : DevRef τ sig) ≠ Proc.devRef .tc (Pipeline.arrRef spec8 5))]
    exact ((dat8 (atTc (W14 m)) c).arrAt_in 4 rfl _).trans (A_eq8 (atTc (W14 m)) c 4)
  | ⟨5, _⟩ =>
    show _ = W15 m c (Proc.devRef .tc (Pipeline.arrRef spec8 5))
    unfold W15; rw [Function.update_self]
    rfl
theorem hrest8 (c : Dev nD) : ∀ b, b ∉ Finset.univ.image (Pipeline.arrRef spec8) → atTc (W15 m) c b = atTc (W14 m) c b := by
  intro b hb
  show W15 m c (Proc.devRef .tc b) = W14 m c (Proc.devRef .tc b)
  unfold W15
  rw [Function.update_of_ne (StableHlo.devRef_ne_of_ne (fun e => hb (Finset.mem_image.mpr ⟨5, Finset.mem_univ _, e.symm⟩)))]
set_option maxHeartbeats 2000000 in
theorem hF9 (c : Dev nD) (w : Fin cfg9.W) : (dat9 (atTc (W17 m)) c).arrAt w cfg9.N = atTc (W18 m) c (Pipeline.arrRef spec9 w) := by
  match w with
  | ⟨0, _⟩ =>
    show _ = W18 m c (Proc.devRef .tc (Pipeline.arrRef spec9 0))
    unfold W18; rw [Function.update_of_ne (StableHlo.devRef_ne_of_ne (fun e => absurd (launch9.win.arr_inj e) (by decide)) : (Proc.devRef .tc (Pipeline.arrRef spec9 0) : DevRef τ sig) ≠ Proc.devRef .tc (Pipeline.arrRef spec9 2))]
    exact ((dat9 (atTc (W17 m)) c).arrAt_in 0 rfl _).trans (A_eq9 (atTc (W17 m)) c 0)
  | ⟨1, _⟩ =>
    show _ = W18 m c (Proc.devRef .tc (Pipeline.arrRef spec9 1))
    unfold W18; rw [Function.update_of_ne (StableHlo.devRef_ne_of_ne (fun e => absurd (launch9.win.arr_inj e) (by decide)) : (Proc.devRef .tc (Pipeline.arrRef spec9 1) : DevRef τ sig) ≠ Proc.devRef .tc (Pipeline.arrRef spec9 2))]
    exact ((dat9 (atTc (W17 m)) c).arrAt_in 1 rfl _).trans (A_eq9 (atTc (W17 m)) c 1)
  | ⟨2, _⟩ =>
    show _ = W18 m c (Proc.devRef .tc (Pipeline.arrRef spec9 2))
    unfold W18; rw [Function.update_self]
    rfl
theorem hrest9 (c : Dev nD) : ∀ b, b ∉ Finset.univ.image (Pipeline.arrRef spec9) → atTc (W18 m) c b = atTc (W17 m) c b := by
  intro b hb
  show W18 m c (Proc.devRef .tc b) = W17 m c (Proc.devRef .tc b)
  unfold W18
  rw [Function.update_of_ne (StableHlo.devRef_ne_of_ne (fun e => hb (Finset.mem_image.mpr ⟨2, Finset.mem_univ _, e.symm⟩)))]
set_option maxHeartbeats 2000000 in
theorem hF10 (c : Dev nD) (w : Fin cfg10.W) : (dat10 (atTc (W19 m)) c).arrAt w cfg10.N = atTc (W20 m) c (Pipeline.arrRef spec10 w) := by
  match w with
  | ⟨0, _⟩ =>
    show _ = W20 m c (Proc.devRef .tc (Pipeline.arrRef spec10 0))
    unfold W20; rw [Function.update_of_ne (StableHlo.devRef_ne_of_ne (fun e => absurd (launch10.win.arr_inj e) (by decide)) : (Proc.devRef .tc (Pipeline.arrRef spec10 0) : DevRef τ sig) ≠ Proc.devRef .tc (Pipeline.arrRef spec10 2))]; rw [Function.update_of_ne (StableHlo.devRef_ne_of_ne (fun e => absurd (launch10.win.arr_inj e) (by decide)) : (Proc.devRef .tc (Pipeline.arrRef spec10 0) : DevRef τ sig) ≠ Proc.devRef .tc (Pipeline.arrRef spec10 1))]
    exact ((dat10 (atTc (W19 m)) c).arrAt_in 0 rfl _).trans (A_eq10 (atTc (W19 m)) c 0)
  | ⟨1, _⟩ =>
    show _ = W20 m c (Proc.devRef .tc (Pipeline.arrRef spec10 1))
    unfold W20; rw [Function.update_of_ne (StableHlo.devRef_ne_of_ne (fun e => absurd (launch10.win.arr_inj e) (by decide)) : (Proc.devRef .tc (Pipeline.arrRef spec10 1) : DevRef τ sig) ≠ Proc.devRef .tc (Pipeline.arrRef spec10 2))]; rw [Function.update_self]
    rfl
  | ⟨2, _⟩ =>
    show _ = W20 m c (Proc.devRef .tc (Pipeline.arrRef spec10 2))
    unfold W20; rw [Function.update_self]
    rfl
theorem hrest10 (c : Dev nD) : ∀ b, b ∉ Finset.univ.image (Pipeline.arrRef spec10) → atTc (W20 m) c b = atTc (W19 m) c b := by
  intro b hb
  show W20 m c (Proc.devRef .tc b) = W19 m c (Proc.devRef .tc b)
  unfold W20
  rw [Function.update_of_ne (StableHlo.devRef_ne_of_ne (fun e => hb (Finset.mem_image.mpr ⟨2, Finset.mem_univ _, e.symm⟩)))]
  rw [Function.update_of_ne (StableHlo.devRef_ne_of_ne (fun e => hb (Finset.mem_image.mpr ⟨1, Finset.mem_univ _, e.symm⟩)))]
set_option maxHeartbeats 2000000 in
theorem hF11 (c : Dev nD) (w : Fin cfg11.W) : (dat11 (atTc (W20 m)) c).arrAt w cfg11.N = atTc (W21 m) c (Pipeline.arrRef spec11 w) := by
  match w with
  | ⟨0, _⟩ =>
    show _ = W21 m c (Proc.devRef .tc (Pipeline.arrRef spec11 0))
    unfold W21; rw [Function.update_of_ne (StableHlo.devRef_ne_of_ne (fun e => absurd (launch11.win.arr_inj e) (by decide)) : (Proc.devRef .tc (Pipeline.arrRef spec11 0) : DevRef τ sig) ≠ Proc.devRef .tc (Pipeline.arrRef spec11 5))]
    exact ((dat11 (atTc (W20 m)) c).arrAt_in 0 rfl _).trans (A_eq11 (atTc (W20 m)) c 0)
  | ⟨1, _⟩ =>
    show _ = W21 m c (Proc.devRef .tc (Pipeline.arrRef spec11 1))
    unfold W21; rw [Function.update_of_ne (StableHlo.devRef_ne_of_ne (fun e => absurd (launch11.win.arr_inj e) (by decide)) : (Proc.devRef .tc (Pipeline.arrRef spec11 1) : DevRef τ sig) ≠ Proc.devRef .tc (Pipeline.arrRef spec11 5))]
    exact ((dat11 (atTc (W20 m)) c).arrAt_in 1 rfl _).trans (A_eq11 (atTc (W20 m)) c 1)
  | ⟨2, _⟩ =>
    show _ = W21 m c (Proc.devRef .tc (Pipeline.arrRef spec11 2))
    unfold W21; rw [Function.update_of_ne (StableHlo.devRef_ne_of_ne (fun e => absurd (launch11.win.arr_inj e) (by decide)) : (Proc.devRef .tc (Pipeline.arrRef spec11 2) : DevRef τ sig) ≠ Proc.devRef .tc (Pipeline.arrRef spec11 5))]
    exact ((dat11 (atTc (W20 m)) c).arrAt_in 2 rfl _).trans (A_eq11 (atTc (W20 m)) c 2)
  | ⟨3, _⟩ =>
    show _ = W21 m c (Proc.devRef .tc (Pipeline.arrRef spec11 3))
    unfold W21; rw [Function.update_of_ne (StableHlo.devRef_ne_of_ne (fun e => absurd (launch11.win.arr_inj e) (by decide)) : (Proc.devRef .tc (Pipeline.arrRef spec11 3) : DevRef τ sig) ≠ Proc.devRef .tc (Pipeline.arrRef spec11 5))]
    exact ((dat11 (atTc (W20 m)) c).arrAt_in 3 rfl _).trans (A_eq11 (atTc (W20 m)) c 3)
  | ⟨4, _⟩ =>
    show _ = W21 m c (Proc.devRef .tc (Pipeline.arrRef spec11 4))
    unfold W21; rw [Function.update_of_ne (StableHlo.devRef_ne_of_ne (fun e => absurd (launch11.win.arr_inj e) (by decide)) : (Proc.devRef .tc (Pipeline.arrRef spec11 4) : DevRef τ sig) ≠ Proc.devRef .tc (Pipeline.arrRef spec11 5))]
    exact ((dat11 (atTc (W20 m)) c).arrAt_in 4 rfl _).trans (A_eq11 (atTc (W20 m)) c 4)
  | ⟨5, _⟩ =>
    show _ = W21 m c (Proc.devRef .tc (Pipeline.arrRef spec11 5))
    unfold W21; rw [Function.update_self]
    rfl
theorem hrest11 (c : Dev nD) : ∀ b, b ∉ Finset.univ.image (Pipeline.arrRef spec11) → atTc (W21 m) c b = atTc (W20 m) c b := by
  intro b hb
  show W21 m c (Proc.devRef .tc b) = W20 m c (Proc.devRef .tc b)
  unfold W21
  rw [Function.update_of_ne (StableHlo.devRef_ne_of_ne (fun e => hb (Finset.mem_image.mpr ⟨5, Finset.mem_univ _, e.symm⟩)))]
set_option maxHeartbeats 2000000 in
theorem hF12 (c : Dev nD) (w : Fin cfg12.W) : (dat12 (atTc (W22 m)) c).arrAt w cfg12.N = atTc (W23 m) c (Pipeline.arrRef spec12 w) := by
  match w with
  | ⟨0, _⟩ =>
    show _ = W23 m c (Proc.devRef .tc (Pipeline.arrRef spec12 0))
    unfold W23; rw [Function.update_of_ne (StableHlo.devRef_ne_of_ne (fun e => absurd (launch12.win.arr_inj e) (by decide)) : (Proc.devRef .tc (Pipeline.arrRef spec12 0) : DevRef τ sig) ≠ Proc.devRef .tc (Pipeline.arrRef spec12 2))]
    exact ((dat12 (atTc (W22 m)) c).arrAt_in 0 rfl _).trans (A_eq12 (atTc (W22 m)) c 0)
  | ⟨1, _⟩ =>
    show _ = W23 m c (Proc.devRef .tc (Pipeline.arrRef spec12 1))
    unfold W23; rw [Function.update_of_ne (StableHlo.devRef_ne_of_ne (fun e => absurd (launch12.win.arr_inj e) (by decide)) : (Proc.devRef .tc (Pipeline.arrRef spec12 1) : DevRef τ sig) ≠ Proc.devRef .tc (Pipeline.arrRef spec12 2))]
    exact ((dat12 (atTc (W22 m)) c).arrAt_in 1 rfl _).trans (A_eq12 (atTc (W22 m)) c 1)
  | ⟨2, _⟩ =>
    show _ = W23 m c (Proc.devRef .tc (Pipeline.arrRef spec12 2))
    unfold W23; rw [Function.update_self]
    rfl
theorem hrest12 (c : Dev nD) : ∀ b, b ∉ Finset.univ.image (Pipeline.arrRef spec12) → atTc (W23 m) c b = atTc (W22 m) c b := by
  intro b hb
  show W23 m c (Proc.devRef .tc b) = W22 m c (Proc.devRef .tc b)
  unfold W23
  rw [Function.update_of_ne (StableHlo.devRef_ne_of_ne (fun e => hb (Finset.mem_image.mpr ⟨2, Finset.mem_univ _, e.symm⟩)))]
set_option maxHeartbeats 2000000 in
theorem hF13 (c : Dev nD) (w : Fin cfg13.W) : (dat13 (atTc (W24 m)) c).arrAt w cfg13.N = atTc (W25 m) c (Pipeline.arrRef spec13 w) := by
  match w with
  | ⟨0, _⟩ =>
    show _ = W25 m c (Proc.devRef .tc (Pipeline.arrRef spec13 0))
    unfold W25; rw [Function.update_of_ne (StableHlo.devRef_ne_of_ne (fun e => absurd (launch13.win.arr_inj e) (by decide)) : (Proc.devRef .tc (Pipeline.arrRef spec13 0) : DevRef τ sig) ≠ Proc.devRef .tc (Pipeline.arrRef spec13 2))]; rw [Function.update_of_ne (StableHlo.devRef_ne_of_ne (fun e => absurd (launch13.win.arr_inj e) (by decide)) : (Proc.devRef .tc (Pipeline.arrRef spec13 0) : DevRef τ sig) ≠ Proc.devRef .tc (Pipeline.arrRef spec13 1))]
    exact ((dat13 (atTc (W24 m)) c).arrAt_in 0 rfl _).trans (A_eq13 (atTc (W24 m)) c 0)
  | ⟨1, _⟩ =>
    show _ = W25 m c (Proc.devRef .tc (Pipeline.arrRef spec13 1))
    unfold W25; rw [Function.update_of_ne (StableHlo.devRef_ne_of_ne (fun e => absurd (launch13.win.arr_inj e) (by decide)) : (Proc.devRef .tc (Pipeline.arrRef spec13 1) : DevRef τ sig) ≠ Proc.devRef .tc (Pipeline.arrRef spec13 2))]; rw [Function.update_self]
    rfl
  | ⟨2, _⟩ =>
    show _ = W25 m c (Proc.devRef .tc (Pipeline.arrRef spec13 2))
    unfold W25; rw [Function.update_self]
    rfl
theorem hrest13 (c : Dev nD) : ∀ b, b ∉ Finset.univ.image (Pipeline.arrRef spec13) → atTc (W25 m) c b = atTc (W24 m) c b := by
  intro b hb
  show W25 m c (Proc.devRef .tc b) = W24 m c (Proc.devRef .tc b)
  unfold W25
  rw [Function.update_of_ne (StableHlo.devRef_ne_of_ne (fun e => hb (Finset.mem_image.mpr ⟨2, Finset.mem_univ _, e.symm⟩)))]
  rw [Function.update_of_ne (StableHlo.devRef_ne_of_ne (fun e => hb (Finset.mem_image.mpr ⟨1, Finset.mem_univ _, e.symm⟩)))]
set_option maxHeartbeats 2000000 in
theorem hF14 (c : Dev nD) (w : Fin cfg14.W) : (dat14 (atTc (W25 m)) c).arrAt w cfg14.N = atTc (W26 m) c (Pipeline.arrRef spec14 w) := by
  match w with
  | ⟨0, _⟩ =>
    show _ = W26 m c (Proc.devRef .tc (Pipeline.arrRef spec14 0))
    unfold W26; rw [Function.update_of_ne (StableHlo.devRef_ne_of_ne (fun e => absurd (launch14.win.arr_inj e) (by decide)) : (Proc.devRef .tc (Pipeline.arrRef spec14 0) : DevRef τ sig) ≠ Proc.devRef .tc (Pipeline.arrRef spec14 5))]
    exact ((dat14 (atTc (W25 m)) c).arrAt_in 0 rfl _).trans (A_eq14 (atTc (W25 m)) c 0)
  | ⟨1, _⟩ =>
    show _ = W26 m c (Proc.devRef .tc (Pipeline.arrRef spec14 1))
    unfold W26; rw [Function.update_of_ne (StableHlo.devRef_ne_of_ne (fun e => absurd (launch14.win.arr_inj e) (by decide)) : (Proc.devRef .tc (Pipeline.arrRef spec14 1) : DevRef τ sig) ≠ Proc.devRef .tc (Pipeline.arrRef spec14 5))]
    exact ((dat14 (atTc (W25 m)) c).arrAt_in 1 rfl _).trans (A_eq14 (atTc (W25 m)) c 1)
  | ⟨2, _⟩ =>
    show _ = W26 m c (Proc.devRef .tc (Pipeline.arrRef spec14 2))
    unfold W26; rw [Function.update_of_ne (StableHlo.devRef_ne_of_ne (fun e => absurd (launch14.win.arr_inj e) (by decide)) : (Proc.devRef .tc (Pipeline.arrRef spec14 2) : DevRef τ sig) ≠ Proc.devRef .tc (Pipeline.arrRef spec14 5))]
    exact ((dat14 (atTc (W25 m)) c).arrAt_in 2 rfl _).trans (A_eq14 (atTc (W25 m)) c 2)
  | ⟨3, _⟩ =>
    show _ = W26 m c (Proc.devRef .tc (Pipeline.arrRef spec14 3))
    unfold W26; rw [Function.update_of_ne (StableHlo.devRef_ne_of_ne (fun e => absurd (launch14.win.arr_inj e) (by decide)) : (Proc.devRef .tc (Pipeline.arrRef spec14 3) : DevRef τ sig) ≠ Proc.devRef .tc (Pipeline.arrRef spec14 5))]
    exact ((dat14 (atTc (W25 m)) c).arrAt_in 3 rfl _).trans (A_eq14 (atTc (W25 m)) c 3)
  | ⟨4, _⟩ =>
    show _ = W26 m c (Proc.devRef .tc (Pipeline.arrRef spec14 4))
    unfold W26; rw [Function.update_of_ne (StableHlo.devRef_ne_of_ne (fun e => absurd (launch14.win.arr_inj e) (by decide)) : (Proc.devRef .tc (Pipeline.arrRef spec14 4) : DevRef τ sig) ≠ Proc.devRef .tc (Pipeline.arrRef spec14 5))]
    exact ((dat14 (atTc (W25 m)) c).arrAt_in 4 rfl _).trans (A_eq14 (atTc (W25 m)) c 4)
  | ⟨5, _⟩ =>
    show _ = W26 m c (Proc.devRef .tc (Pipeline.arrRef spec14 5))
    unfold W26; rw [Function.update_self]
    rfl
theorem hrest14 (c : Dev nD) : ∀ b, b ∉ Finset.univ.image (Pipeline.arrRef spec14) → atTc (W26 m) c b = atTc (W25 m) c b := by
  intro b hb
  show W26 m c (Proc.devRef .tc b) = W25 m c (Proc.devRef .tc b)
  unfold W26
  rw [Function.update_of_ne (StableHlo.devRef_ne_of_ne (fun e => hb (Finset.mem_image.mpr ⟨5, Finset.mem_univ _, e.symm⟩)))]

/-! ## The proof data family and the regions as segments -/

def pdats : (p : Fin 15) → (c : Dev nD) → Dat τ (Elt F) Unit ℕ (UR sig nD τ) ℕ (Pipeline.pin (pcfgs (F := F)) adm p) c
  | ⟨0, _⟩ => fun c => dat0 (atTc (W1 m)) c
  | ⟨1, _⟩ => fun c => dat1 (atTc (W3 m)) c
  | ⟨2, _⟩ => fun c => dat2 (atTc (W4 m)) c
  | ⟨3, _⟩ => fun c => dat3 (atTc (W6 m)) c
  | ⟨4, _⟩ => fun c => dat4 (atTc (W8 m)) c
  | ⟨5, _⟩ => fun c => dat5 (atTc (W9 m)) c
  | ⟨6, _⟩ => fun c => dat6 (atTc (W11 m)) c
  | ⟨7, _⟩ => fun c => dat7 (atTc (W13 m)) c
  | ⟨8, _⟩ => fun c => dat8 (atTc (W14 m)) c
  | ⟨9, _⟩ => fun c => dat9 (atTc (W17 m)) c
  | ⟨10, _⟩ => fun c => dat10 (atTc (W19 m)) c
  | ⟨11, _⟩ => fun c => dat11 (atTc (W20 m)) c
  | ⟨12, _⟩ => fun c => dat12 (atTc (W22 m)) c
  | ⟨13, _⟩ => fun c => dat13 (atTc (W24 m)) c
  | ⟨14, _⟩ => fun c => dat14 (atTc (W25 m)) c

/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

def reg0 : Pipeline.RegionSeg (pcfgs (F := F)) adm (pdats m) () defs₀ 𝒱₀ L lv 0 :=
  regOf (pdats m) 0 launch0 (fun _ => .rfl) (fun _ => .rfl)
    (fun _ _ => rfl) (fun _ _ => rfl) (fun _ _ => rfl) (fun c => body_obligation0 (atTc (W1 m)) c)
    (W1 m) (W2 m) (fun c w => A_eq0 (atTc (W1 m)) c w) (hF0 m) (hrest0 m)
def reg1 : Pipeline.RegionSeg (pcfgs (F := F)) adm (pdats m) () defs₀ 𝒱₀ L lv 1 :=
  regOf (pdats m) 1 launch1 (fun c => hin1 (atTc (W3 m)) c) (fun c => hout1 (atTc (W3 m)) c)
    (fun _ _ => rfl) (fun _ _ => rfl) (fun _ _ => rfl) (fun c => body_obligation1 (atTc (W3 m)) c)
    (W3 m) (W4 m) (fun c w => A_eq1 (atTc (W3 m)) c w) (hF1 m) (hrest1 m)
def reg2 : Pipeline.RegionSeg (pcfgs (F := F)) adm (pdats m) () defs₀ 𝒱₀ L lv 2 :=
  regOf (pdats m) 2 launch2 (fun _ => .rfl) (fun _ => .rfl)
    (fun _ _ => rfl) (fun _ _ => rfl) (fun _ _ => rfl) (fun c => body_obligation2 (atTc (W4 m)) c)
    (W4 m) (W5 m) (fun c w => A_eq2 (atTc (W4 m)) c w) (hF2 m) (hrest2 m)
def reg3 : Pipeline.RegionSeg (pcfgs (F := F)) adm (pdats m) () defs₀ 𝒱₀ L lv 3 :=
  regOf (pdats m) 3 launch3 (fun _ => .rfl) (fun _ => .rfl)
    (fun _ _ => rfl) (fun _ _ => rfl) (fun _ _ => rfl) (fun c => body_obligation3 (atTc (W6 m)) c)
    (W6 m) (W7 m) (fun c w => A_eq3 (atTc (W6 m)) c w) (hF3 m) (hrest3 m)
def reg4 : Pipeline.RegionSeg (pcfgs (F := F)) adm (pdats m) () defs₀ 𝒱₀ L lv 4 :=
  regOf (pdats m) 4 launch4 (fun c => hin4 (atTc (W8 m)) c) (fun c => hout4 (atTc (W8 m)) c)
    (fun _ _ => rfl) (fun _ _ => rfl) (fun _ _ => rfl) (fun c => body_obligation4 (atTc (W8 m)) c)
    (W8 m) (W9 m) (fun c w => A_eq4 (atTc (W8 m)) c w) (hF4 m) (hrest4 m)
def reg5 : Pipeline.RegionSeg (pcfgs (F := F)) adm (pdats m) () defs₀ 𝒱₀ L lv 5 :=
  regOf (pdats m) 5 launch5 (fun _ => .rfl) (fun _ => .rfl)
    (fun _ _ => rfl) (fun _ _ => rfl) (fun _ _ => rfl) (fun c => body_obligation5 (atTc (W9 m)) c)
    (W9 m) (W10 m) (fun c w => A_eq5 (atTc (W9 m)) c w) (hF5 m) (hrest5 m)
def reg6 : Pipeline.RegionSeg (pcfgs (F := F)) adm (pdats m) () defs₀ 𝒱₀ L lv 6 :=
  regOf (pdats m) 6 launch6 (fun _ => .rfl) (fun _ => .rfl)
    (fun _ _ => rfl) (fun _ _ => rfl) (fun _ _ => rfl) (fun c => body_obligation6 (atTc (W11 m)) c)
    (W11 m) (W12 m) (fun c w => A_eq6 (atTc (W11 m)) c w) (hF6 m) (hrest6 m)
def reg7 : Pipeline.RegionSeg (pcfgs (F := F)) adm (pdats m) () defs₀ 𝒱₀ L lv 7 :=
  regOf (pdats m) 7 launch7 (fun c => hin7 (atTc (W13 m)) c) (fun c => hout7 (atTc (W13 m)) c)
    (fun _ _ => rfl) (fun _ _ => rfl) (fun _ _ => rfl) (fun c => body_obligation7 (atTc (W13 m)) c)
    (W13 m) (W14 m) (fun c w => A_eq7 (atTc (W13 m)) c w) (hF7 m) (hrest7 m)
def reg8 : Pipeline.RegionSeg (pcfgs (F := F)) adm (pdats m) () defs₀ 𝒱₀ L lv 8 :=
  regOf (pdats m) 8 launch8 (fun _ => .rfl) (fun _ => .rfl)
    (fun _ _ => rfl) (fun _ _ => rfl) (fun _ _ => rfl) (fun c => body_obligation8 (atTc (W14 m)) c)
    (W14 m) (W15 m) (fun c w => A_eq8 (atTc (W14 m)) c w) (hF8 m) (hrest8 m)
def reg9 : Pipeline.RegionSeg (pcfgs (F := F)) adm (pdats m) () defs₀ 𝒱₀ L lv 9 :=
  regOf (pdats m) 9 launch9 (fun _ => .rfl) (fun _ => .rfl)
    (fun _ _ => rfl) (fun _ _ => rfl) (fun _ _ => rfl) (fun c => body_obligation9 (atTc (W17 m)) c)
    (W17 m) (W18 m) (fun c w => A_eq9 (atTc (W17 m)) c w) (hF9 m) (hrest9 m)
def reg10 : Pipeline.RegionSeg (pcfgs (F := F)) adm (pdats m) () defs₀ 𝒱₀ L lv 10 :=
  regOf (pdats m) 10 launch10 (fun c => hin10 (atTc (W19 m)) c) (fun c => hout10 (atTc (W19 m)) c)
    (fun _ _ => rfl) (fun _ _ => rfl) (fun _ _ => rfl) (fun c => body_obligation10 (atTc (W19 m)) c)
    (W19 m) (W20 m) (fun c w => A_eq10 (atTc (W19 m)) c w) (hF10 m) (hrest10 m)
def reg11 : Pipeline.RegionSeg (pcfgs (F := F)) adm (pdats m) () defs₀ 𝒱₀ L lv 11 :=
  regOf (pdats m) 11 launch11 (fun _ => .rfl) (fun _ => .rfl)
    (fun _ _ => rfl) (fun _ _ => rfl) (fun _ _ => rfl) (fun c => body_obligation11 (atTc (W20 m)) c)
    (W20 m) (W21 m) (fun c w => A_eq11 (atTc (W20 m)) c w) (hF11 m) (hrest11 m)
def reg12 : Pipeline.RegionSeg (pcfgs (F := F)) adm (pdats m) () defs₀ 𝒱₀ L lv 12 :=
  regOf (pdats m) 12 launch12 (fun _ => .rfl) (fun _ => .rfl)
    (fun _ _ => rfl) (fun _ _ => rfl) (fun _ _ => rfl) (fun c => body_obligation12 (atTc (W22 m)) c)
    (W22 m) (W23 m) (fun c w => A_eq12 (atTc (W22 m)) c w) (hF12 m) (hrest12 m)
def reg13 : Pipeline.RegionSeg (pcfgs (F := F)) adm (pdats m) () defs₀ 𝒱₀ L lv 13 :=
  regOf (pdats m) 13 launch13 (fun c => hin13 (atTc (W24 m)) c) (fun c => hout13 (atTc (W24 m)) c)
    (fun _ _ => rfl) (fun _ _ => rfl) (fun _ _ => rfl) (fun c => body_obligation13 (atTc (W24 m)) c)
    (W24 m) (W25 m) (fun c w => A_eq13 (atTc (W24 m)) c w) (hF13 m) (hrest13 m)
def reg14 : Pipeline.RegionSeg (pcfgs (F := F)) adm (pdats m) () defs₀ 𝒱₀ L lv 14 :=
  regOf (pdats m) 14 launch14 (fun _ => .rfl) (fun _ => .rfl)
    (fun _ _ => rfl) (fun _ _ => rfl) (fun _ _ => rfl) (fun c => body_obligation14 (atTc (W25 m)) c)
    (W25 m) (W26 m) (fun c w => A_eq14 (atTc (W25 m)) c w) (hF14 m) (hrest14 m)

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .host (hseg hostOps4 hostOps4_sub hostOps4_fresh (W7 m)),
    .region (reg4 m),
    .region (reg5 m),
    .host (hseg hostOps6 hostOps6_sub hostOps6_fresh (W10 m)),
    .region (reg6 m),
    .host (hseg hostOps7 hostOps7_sub hostOps7_fresh (W12 m)),
    .region (reg7 m),
    .region (reg8 m),
    .host (hseg hostOps9 hostOps9_sub hostOps9_fresh (W15 m)),
    .host (hseg hostOps9_1 hostOps9_1_sub hostOps9_1_fresh (W16 m)),
    .region (reg9 m),
    .host (hseg hostOps10 hostOps10_sub hostOps10_fresh (W18 m)),
    .region (reg10 m),
    .region (reg11 m),
    .host (hseg hostOps12 hostOps12_sub hostOps12_fresh (W21 m)),
    .region (reg12 m),
    .host (hseg hostOps13 hostOps13_sub hostOps13_fresh (W23 m)),
    .region (reg13 m),
    .region (reg14 m) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every weakly fair execution of the program from the memory `m` with zero counters terminates, nothing
    faulting, and every final memory holds each unscoped buffer at the last contents `W26`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W26 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          StableHlo.seq hostOps6,
          Prog.lift (.customCall (Pipeline.entry 6) ()),
          StableHlo.seq hostOps7,
          Prog.lift (.customCall (Pipeline.entry 7) ()),
          Prog.lift (.customCall (Pipeline.entry 8) ()),
          StableHlo.seq hostOps9,
          StableHlo.seq hostOps9_1,
          Prog.lift (.customCall (Pipeline.entry 9) ()),
          StableHlo.seq hostOps10,
          Prog.lift (.customCall (Pipeline.entry 10) ()),
          Prog.lift (.customCall (Pipeline.entry 11) ()),
          StableHlo.seq hostOps12,
          Prog.lift (.customCall (Pipeline.entry 12) ()),
          StableHlo.seq hostOps13,
          Prog.lift (.customCall (Pipeline.entry 13) ()),
          Prog.lift (.customCall (Pipeline.entry 14) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W26 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W26 m c) ∗ (∃ r, prngReg c r) ∗ ∃ W, owes (c : Thread nD τ) (0 : CellTallies nD τ sig Unit) W) : sProp 𝕄) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m c b)
    (hfin := fun c s' => by
      iintro ⟨⟨Hh, -⟩, HSI⟩
      unfold StableHlo.held
      imodintro
      iapply (pointsTo_read_all (Pipeline.ucRefs τ sig) (fun b => (((c : Thread nD τ)).1, b)) (W26 m c) s')
      isplitl [Hh] <;> iassumption)
    (hQ := fun s h c => h c)

end Cert.KernelIdeal.Regs

end
-- ==== Proof.RunFactsIdeal.lean ====
import proofs.«180908_j8211977470570_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«180908_j8211977470570_1_alg».proof.Proof.AssemblyIdeal
set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each item leaves unchanged -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ ([Pipeline.arrRef spec0 2] : List (Ref sig .tc))) : W2 m c (Proc.devRef .tc r) = W1 m c (Proc.devRef .tc r) := by
  unfold W2
  rw [Function.update_of_ne (StableHlo.devRef_ne_of_ne (List.ne_of_not_mem_cons h))]
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ∉ ([Pipeline.arrRef spec1 1, Pipeline.arrRef spec1 2] : List (Ref sig .tc))) : W4 m c (Proc.devRef .tc r) = W3 m c (Proc.devRef .tc r) := by
  unfold W4
  rw [Function.update_of_ne (StableHlo.devRef_ne_of_ne (List.ne_of_not_mem_cons (List.not_mem_of_not_mem_cons h)))]
  rw [Function.update_of_ne (StableHlo.devRef_ne_of_ne (List.ne_of_not_mem_cons h))]
theorem W5_of (c : Dev nD) (r : Ref sig .tc) (h : r ∉ ([Pipeline.arrRef spec2 5] : List (Ref sig .tc))) : W5 m c (Proc.devRef .tc r) = W4 m c (Proc.devRef .tc r) := by
  unfold W5
  rw [Function.update_of_ne (StableHlo.devRef_ne_of_ne (List.ne_of_not_mem_cons h))]
theorem W6_of (c : Dev nD) (r : Ref sig .tc) (h : r ∉ hostOps3_W) : W6 m c (Proc.devRef .tc r) = W5 m c (Proc.devRef .tc r) :=
  StableHlo.after_of_writes_sub hostOps3 _ hostOps3_writes h
theorem W7_of (c : Dev nD) (r : Ref sig .tc) (h : r ∉ ([Pipeline.arrRef spec3 2] : List (Ref sig .tc))) : W7 m c (Proc.devRef .tc r) = W6 m c (Proc.devRef .tc r) := by
  unfold W7
  rw [Function.update_of_ne (StableHlo.devRef_ne_of_ne (List.ne_of_not_mem_cons h))]
theorem W8_of (c : Dev nD) (r : Ref sig .tc) (h : r ∉ hostOps4_W) : W8 m c (Proc.devRef .tc r) = W7 m c (Proc.devRef .tc r) :=
  StableHlo.after_of_writes_sub hostOps4 _ hostOps4_writes h
theorem W9_of (c : Dev nD) (r : Ref sig .tc) (h : r ∉ ([Pipeline.arrRef spec4 1, Pipeline.arrRef spec4 2] : List (Ref sig .tc))) : W9 m c (Proc.devRef .tc r) = W8 m c (Proc.devRef .tc r) := by
  unfold W9
  rw [Function.update_of_ne (StableHlo.devRef_ne_of_ne (List.ne_of_not_mem_cons (List.not_mem_of_not_mem_cons h)))]
  rw [Function.update_of_ne (StableHlo.devRef_ne_of_ne (List.ne_of_not_mem_cons h))]
theorem W10_of (c : Dev nD) (r : Ref sig .tc) (h : r ∉ ([Pipeline.arrRef spec5 5] : List (Ref sig .tc))) : W10 m c (Proc.devRef .tc r) = W9 m c (Proc.devRef .tc r) := by
  unfold W10
  rw [Function.update_of_ne (StableHlo.devRef_ne_of_ne (List.ne_of_not_mem_cons h))]
theorem W11_of (c : Dev nD) (r : Ref sig .tc) (h : r ∉ hostOps6_W) : W11 m c (Proc.devRef .tc r) = W10 m c (Proc.devRef .tc r) :=
  StableHlo.after_of_writes_sub hostOps6 _ hostOps6_writes h
theorem W12_of (c : Dev nD) (r : Ref sig .tc) (h : r ∉ ([Pipeline.arrRef spec6 2] : List (Ref sig .tc))) : W12 m c (Proc.devRef .tc r) = W11 m c (Proc.devRef .tc r) := by
  unfold W12
  rw [Function.update_of_ne (StableHlo.devRef_ne_of_ne (List.ne_of_not_mem_cons h))]
theorem W13_of (c : Dev nD) (r : Ref sig .tc) (h : r ∉ hostOps7_W) : W13 m c (Proc.devRef .tc r) = W12 m c (Proc.devRef .tc r) :=
  StableHlo.after_of_writes_sub hostOps7 _ hostOps7_writes h
theorem W14_of (c : Dev nD) (r : Ref sig .tc) (h : r ∉ ([Pipeline.arrRef spec7 1, Pipeline.arrRef spec7 2] : List (Ref sig .tc))) : W14 m c (Proc.devRef .tc r) = W13 m c (Proc.devRef .tc r) := by
  unfold W14
  rw [Function.update_of_ne (StableHlo.devRef_ne_of_ne (List.ne_of_not_mem_cons (List.not_mem_of_not_mem_cons h)))]
  rw [Function.update_of_ne (StableHlo.devRef_ne_of_ne (List.ne_of_not_mem_cons h))]
theorem W15_of (c : Dev nD) (r : Ref sig .tc) (h : r ∉ ([Pipeline.arrRef spec8 5] : List (Ref sig .tc))) : W15 m c (Proc.devRef .tc r) = W14 m c (Proc.devRef .tc r) := by
  unfold W15
  rw [Function.update_of_ne (StableHlo.devRef_ne_of_ne (List.ne_of_not_mem_cons h))]
theorem W16_of (c : Dev nD) (r : Ref sig .tc) (h : r ∉ hostOps9_W) : W16 m c (Proc.devRef .tc r) = W15 m c (Proc.devRef .tc r) :=
  StableHlo.after_of_writes_sub hostOps9 _ hostOps9_writes h
theorem W17_of (c : Dev nD) (r : Ref sig .tc) (h : r ∉ hostOps9_1_W) : W17 m c (Proc.devRef .tc r) = W16 m c (Proc.devRef .tc r) :=
  StableHlo.after_of_writes_sub hostOps9_1 _ hostOps9_1_writes h
theorem W18_of (c : Dev nD) (r : Ref sig .tc) (h : r ∉ ([Pipeline.arrRef spec9 2] : List (Ref sig .tc))) : W18 m c (Proc.devRef .tc r) = W17 m c (Proc.devRef .tc r) := by
  unfold W18
  rw [Function.update_of_ne (StableHlo.devRef_ne_of_ne (List.ne_of_not_mem_cons h))]
theorem W19_of (c : Dev nD) (r : Ref sig .tc) (h : r ∉ hostOps10_W) : W19 m c (Proc.devRef .tc r) = W18 m c (Proc.devRef .tc r) :=
  StableHlo.after_of_writes_sub hostOps10 _ hostOps10_writes h
theorem W20_of (c : Dev nD) (r : Ref sig .tc) (h : r ∉ ([Pipeline.arrRef spec10 1, Pipeline.arrRef spec10 2] : List (Ref sig .tc))) : W20 m c (Proc.devRef .tc r) = W19 m c (Proc.devRef .tc r) := by
  unfold W20
  rw [Function.update_of_ne (StableHlo.devRef_ne_of_ne (List.ne_of_not_mem_cons (List.not_mem_of_not_mem_cons h)))]
  rw [Function.update_of_ne (StableHlo.devRef_ne_of_ne (List.ne_of_not_mem_cons h))]
theorem W21_of (c : Dev nD) (r : Ref sig .tc) (h : r ∉ ([Pipeline.arrRef spec11 5] : List (Ref sig .tc))) : W21 m c (Proc.devRef .tc r) = W20 m c (Proc.devRef .tc r) := by
  unfold W21
  rw [Function.update_of_ne (StableHlo.devRef_ne_of_ne (List.ne_of_not_mem_cons h))]
theorem W22_of (c : Dev nD) (r : Ref sig .tc) (h : r ∉ hostOps12_W) : W22 m c (Proc.devRef .tc r) = W21 m c (Proc.devRef .tc r) :=
  StableHlo.after_of_writes_sub hostOps12 _ hostOps12_writes h
theorem W23_of (c : Dev nD) (r : Ref sig .tc) (h : r ∉ ([Pipeline.arrRef spec12 2] : List (Ref sig .tc))) : W23 m c (Proc.devRef .tc r) = W22 m c (Proc.devRef .tc r) := by
  unfold W23
  rw [Function.update_of_ne (StableHlo.devRef_ne_of_ne (List.ne_of_not_mem_cons h))]
theorem W24_of (c : Dev nD) (r : Ref sig .tc) (h : r ∉ hostOps13_W) : W24 m c (Proc.devRef .tc r) = W23 m c (Proc.devRef .tc r) :=
  StableHlo.after_of_writes_sub hostOps13 _ hostOps13_writes h
theorem W25_of (c : Dev nD) (r : Ref sig .tc) (h : r ∉ ([Pipeline.arrRef spec13 1, Pipeline.arrRef spec13 2] : List (Ref sig .tc))) : W25 m c (Proc.devRef .tc r) = W24 m c (Proc.devRef .tc r) := by
  unfold W25
  rw [Function.update_of_ne (StableHlo.devRef_ne_of_ne (List.ne_of_not_mem_cons (List.not_mem_of_not_mem_cons h)))]
  rw [Function.update_of_ne (StableHlo.devRef_ne_of_ne (List.ne_of_not_mem_cons h))]
theorem W26_of (c : Dev nD) (r : Ref sig .tc) (h : r ∉ ([Pipeline.arrRef spec14 5] : List (Ref sig .tc))) : W26 m c (Proc.devRef .tc r) = W25 m c (Proc.devRef .tc r) := by
  unfold W26
  rw [Function.update_of_ne (StableHlo.devRef_ne_of_ne (List.ne_of_not_mem_cons h))]

/-! ## No item writes an argument -/

theorem W26_main_arg0 (c : Dev nD) : W26 m c (Proc.devRef .tc main_arg0) = m ((c : Thread nD τ).loc main_arg0) :=
  (W26_of m c main_arg0 (by decide)).trans <| (W25_of m c main_arg0 (by decide)).trans <| (W24_of m c main_arg0 (by decide)).trans <| (W23_of m c main_arg0 (by decide)).trans <| (W22_of m c main_arg0 (by decide)).trans <| (W21_of m c main_arg0 (by decide)).trans <| (W20_of m c main_arg0 (by decide)).trans <| (W19_of m c main_arg0 (by decide)).trans <| (W18_of m c main_arg0 (by decide)).trans <| (W17_of m c main_arg0 (by decide)).trans <| (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem W26_main_arg1 (c : Dev nD) : W26 m c (Proc.devRef .tc main_arg1) = m ((c : Thread nD τ).loc main_arg1) :=
  (W26_of m c main_arg1 (by decide)).trans <| (W25_of m c main_arg1 (by decide)).trans <| (W24_of m c main_arg1 (by decide)).trans <| (W23_of m c main_arg1 (by decide)).trans <| (W22_of m c main_arg1 (by decide)).trans <| (W21_of m c main_arg1 (by decide)).trans <| (W20_of m c main_arg1 (by decide)).trans <| (W19_of m c main_arg1 (by decide)).trans <| (W18_of m c main_arg1 (by decide)).trans <| (W17_of m c main_arg1 (by decide)).trans <| (W16_of m c main_arg1 (by decide)).trans <| (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem W26_main_arg2 (c : Dev nD) : W26 m c (Proc.devRef .tc main_arg2) = m ((c : Thread nD τ).loc main_arg2) :=
  (W26_of m c main_arg2 (by decide)).trans <| (W25_of m c main_arg2 (by decide)).trans <| (W24_of m c main_arg2 (by decide)).trans <| (W23_of m c main_arg2 (by decide)).trans <| (W22_of m c main_arg2 (by decide)).trans <| (W21_of m c main_arg2 (by decide)).trans <| (W20_of m c main_arg2 (by decide)).trans <| (W19_of m c main_arg2 (by decide)).trans <| (W18_of m c main_arg2 (by decide)).trans <| (W17_of m c main_arg2 (by decide)).trans <| (W16_of m c main_arg2 (by decide)).trans <| (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem W26_main_arg3 (c : Dev nD) : W26 m c (Proc.devRef .tc main_arg3) = m ((c : Thread nD τ).loc main_arg3) :=
  (W26_of m c main_arg3 (by decide)).trans <| (W25_of m c main_arg3 (by decide)).trans <| (W24_of m c main_arg3 (by decide)).trans <| (W23_of m c main_arg3 (by decide)).trans <| (W22_of m c main_arg3 (by decide)).trans <| (W21_of m c main_arg3 (by decide)).trans <| (W20_of m c main_arg3 (by decide)).trans <| (W19_of m c main_arg3 (by decide)).trans <| (W18_of m c main_arg3 (by decide)).trans <| (W17_of m c main_arg3 (by decide)).trans <| (W16_of m c main_arg3 (by decide)).trans <| (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem W26_main_arg4 (c : Dev nD) : W26 m c (Proc.devRef .tc main_arg4) = m ((c : Thread nD τ).loc main_arg4) :=
  (W26_of m c main_arg4 (by decide)).trans <| (W25_of m c main_arg4 (by decide)).trans <| (W24_of m c main_arg4 (by decide)).trans <| (W23_of m c main_arg4 (by decide)).trans <| (W22_of m c main_arg4 (by decide)).trans <| (W21_of m c main_arg4 (by decide)).trans <| (W20_of m c main_arg4 (by decide)).trans <| (W19_of m c main_arg4 (by decide)).trans <| (W18_of m c main_arg4 (by decide)).trans <| (W17_of m c main_arg4 (by decide)).trans <| (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem W26_main_arg5 (c : Dev nD) : W26 m c (Proc.devRef .tc main_arg5) = m ((c : Thread nD τ).loc main_arg5) :=
  (W26_of m c main_arg5 (by decide)).trans <| (W25_of m c main_arg5 (by decide)).trans <| (W24_of m c main_arg5 (by decide)).trans <| (W23_of m c main_arg5 (by decide)).trans <| (W22_of m c main_arg5 (by decide)).trans <| (W21_of m c main_arg5 (by decide)).trans <| (W20_of m c main_arg5 (by decide)).trans <| (W19_of m c main_arg5 (by decide)).trans <| (W18_of m c main_arg5 (by decide)).trans <| (W17_of m c main_arg5 (by decide)).trans <| (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem W26_main_arg6 (c : Dev nD) : W26 m c (Proc.devRef .tc main_arg6) = m ((c : Thread nD τ).loc main_arg6) :=
  (W26_of m c main_arg6 (by decide)).trans <| (W25_of m c main_arg6 (by decide)).trans <| (W24_of m c main_arg6 (by decide)).trans <| (W23_of m c main_arg6 (by decide)).trans <| (W22_of m c main_arg6 (by decide)).trans <| (W21_of m c main_arg6 (by decide)).trans <| (W20_of m c main_arg6 (by decide)).trans <| (W19_of m c main_arg6 (by decide)).trans <| (W18_of m c main_arg6 (by decide)).trans <| (W17_of m c main_arg6 (by decide)).trans <| (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem W26_main_arg7 (c : Dev nD) : W26 m c (Proc.devRef .tc main_arg7) = m ((c : Thread nD τ).loc main_arg7) :=
  (W26_of m c main_arg7 (by decide)).trans <| (W25_of m c main_arg7 (by decide)).trans <| (W24_of m c main_arg7 (by decide)).trans <| (W23_of m c main_arg7 (by decide)).trans <| (W22_of m c main_arg7 (by decide)).trans <| (W21_of m c main_arg7 (by decide)).trans <| (W20_of m c main_arg7 (by decide)).trans <| (W19_of m c main_arg7 (by decide)).trans <| (W18_of m c main_arg7 (by decide)).trans <| (W17_of m c main_arg7 (by decide)).trans <| (W16_of m c main_arg7 (by decide)).trans <| (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl
theorem W26_main_arg8 (c : Dev nD) : W26 m c (Proc.devRef .tc main_arg8) = m ((c : Thread nD τ).loc main_arg8) :=
  (W26_of m c main_arg8 (by decide)).trans <| (W25_of m c main_arg8 (by decide)).trans <| (W24_of m c main_arg8 (by decide)).trans <| (W23_of m c main_arg8 (by decide)).trans <| (W22_of m c main_arg8 (by decide)).trans <| (W21_of m c main_arg8 (by decide)).trans <| (W20_of m c main_arg8 (by decide)).trans <| (W19_of m c main_arg8 (by decide)).trans <| (W18_of m c main_arg8 (by decide)).trans <| (W17_of m c main_arg8 (by decide)).trans <| (W16_of m c main_arg8 (by decide)).trans <| (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl
theorem W26_main_arg9 (c : Dev nD) : W26 m c (Proc.devRef .tc main_arg9) = m ((c : Thread nD τ).loc main_arg9) :=
  (W26_of m c main_arg9 (by decide)).trans <| (W25_of m c main_arg9 (by decide)).trans <| (W24_of m c main_arg9 (by decide)).trans <| (W23_of m c main_arg9 (by decide)).trans <| (W22_of m c main_arg9 (by decide)).trans <| (W21_of m c main_arg9 (by decide)).trans <| (W20_of m c main_arg9 (by decide)).trans <| (W19_of m c main_arg9 (by decide)).trans <| (W18_of m c main_arg9 (by decide)).trans <| (W17_of m c main_arg9 (by decide)).trans <| (W16_of m c main_arg9 (by decide)).trans <| (W15_of m c main_arg9 (by decide)).trans <| (W14_of m c main_arg9 (by decide)).trans <| (W13_of m c main_arg9 (by decide)).trans <| (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
theorem W26_main_arg10 (c : Dev nD) : W26 m c (Proc.devRef .tc main_arg10) = m ((c : Thread nD τ).loc main_arg10) :=
  (W26_of m c main_arg10 (by decide)).trans <| (W25_of m c main_arg10 (by decide)).trans <| (W24_of m c main_arg10 (by decide)).trans <| (W23_of m c main_arg10 (by decide)).trans <| (W22_of m c main_arg10 (by decide)).trans <| (W21_of m c main_arg10 (by decide)).trans <| (W20_of m c main_arg10 (by decide)).trans <| (W19_of m c main_arg10 (by decide)).trans <| (W18_of m c main_arg10 (by decide)).trans <| (W17_of m c main_arg10 (by decide)).trans <| (W16_of m c main_arg10 (by decide)).trans <| (W15_of m c main_arg10 (by decide)).trans <| (W14_of m c main_arg10 (by decide)).trans <| (W13_of m c main_arg10 (by decide)).trans <| (W12_of m c main_arg10 (by decide)).trans <| (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans <| rfl
theorem W26_main_arg11 (c : Dev nD) : W26 m c (Proc.devRef .tc main_arg11) = m ((c : Thread nD τ).loc main_arg11) :=
  (W26_of m c main_arg11 (by decide)).trans <| (W25_of m c main_arg11 (by decide)).trans <| (W24_of m c main_arg11 (by decide)).trans <| (W23_of m c main_arg11 (by decide)).trans <| (W22_of m c main_arg11 (by decide)).trans <| (W21_of m c main_arg11 (by decide)).trans <| (W20_of m c main_arg11 (by decide)).trans <| (W19_of m c main_arg11 (by decide)).trans <| (W18_of m c main_arg11 (by decide)).trans <| (W17_of m c main_arg11 (by decide)).trans <| (W16_of m c main_arg11 (by decide)).trans <| (W15_of m c main_arg11 (by decide)).trans <| (W14_of m c main_arg11 (by decide)).trans <| (W13_of m c main_arg11 (by decide)).trans <| (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans <| rfl
theorem W26_main_arg12 (c : Dev nD) : W26 m c (Proc.devRef .tc main_arg12) = m ((c : Thread nD τ).loc main_arg12) :=
  (W26_of m c main_arg12 (by decide)).trans <| (W25_of m c main_arg12 (by decide)).trans <| (W24_of m c main_arg12 (by decide)).trans <| (W23_of m c main_arg12 (by decide)).trans <| (W22_of m c main_arg12 (by decide)).trans <| (W21_of m c main_arg12 (by decide)).trans <| (W20_of m c main_arg12 (by decide)).trans <| (W19_of m c main_arg12 (by decide)).trans <| (W18_of m c main_arg12 (by decide)).trans <| (W17_of m c main_arg12 (by decide)).trans <| (W16_of m c main_arg12 (by decide)).trans <| (W15_of m c main_arg12 (by decide)).trans <| (W14_of m c main_arg12 (by decide)).trans <| (W13_of m c main_arg12 (by decide)).trans <| (W12_of m c main_arg12 (by decide)).trans <| (W11_of m c main_arg12 (by decide)).trans <| (W10_of m c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide)).trans <| rfl
theorem W26_main_arg13 (c : Dev nD) : W26 m c (Proc.devRef .tc main_arg13) = m ((c : Thread nD τ).loc main_arg13) :=
  (W26_of m c main_arg13 (by decide)).trans <| (W25_of m c main_arg13 (by decide)).trans <| (W24_of m c main_arg13 (by decide)).trans <| (W23_of m c main_arg13 (by decide)).trans <| (W22_of m c main_arg13 (by decide)).trans <| (W21_of m c main_arg13 (by decide)).trans <| (W20_of m c main_arg13 (by decide)).trans <| (W19_of m c main_arg13 (by decide)).trans <| (W18_of m c main_arg13 (by decide)).trans <| (W17_of m c main_arg13 (by decide)).trans <| (W16_of m c main_arg13 (by decide)).trans <| (W15_of m c main_arg13 (by decide)).trans <| (W14_of m c main_arg13 (by decide)).trans <| (W13_of m c main_arg13 (by decide)).trans <| (W12_of m c main_arg13 (by decide)).trans <| (W11_of m c main_arg13 (by decide)).trans <| (W10_of m c main_arg13 (by decide)).trans <| (W9_of m c main_arg13 (by decide)).trans <| (W8_of m c main_arg13 (by decide)).trans <| (W7_of m c main_arg13 (by decide)).trans <| (W6_of m c main_arg13 (by decide)).trans <| (W5_of m c main_arg13 (by decide)).trans <| (W4_of m c main_arg13 (by decide)).trans <| (W3_of m c main_arg13 (by decide)).trans <| (W2_of m c main_arg13 (by decide)).trans <| (W1_of m c main_arg13 (by decide)).trans <| rfl
theorem W26_main_arg14 (c : Dev nD) : W26 m c (Proc.devRef .tc main_arg14) = m ((c : Thread nD τ).loc main_arg14) :=
  (W26_of m c main_arg14 (by decide)).trans <| (W25_of m c main_arg14 (by decide)).trans <| (W24_of m c main_arg14 (by decide)).trans <| (W23_of m c main_arg14 (by decide)).trans <| (W22_of m c main_arg14 (by decide)).trans <| (W21_of m c main_arg14 (by decide)).trans <| (W20_of m c main_arg14 (by decide)).trans <| (W19_of m c main_arg14 (by decide)).trans <| (W18_of m c main_arg14 (by decide)).trans <| (W17_of m c main_arg14 (by decide)).trans <| (W16_of m c main_arg14 (by decide)).trans <| (W15_of m c main_arg14 (by decide)).trans <| (W14_of m c main_arg14 (by decide)).trans <| (W13_of m c main_arg14 (by decide)).trans <| (W12_of m c main_arg14 (by decide)).trans <| (W11_of m c main_arg14 (by decide)).trans <| (W10_of m c main_arg14 (by decide)).trans <| (W9_of m c main_arg14 (by decide)).trans <| (W8_of m c main_arg14 (by decide)).trans <| (W7_of m c main_arg14 (by decide)).trans <| (W6_of m c main_arg14 (by decide)).trans <| (W5_of m c main_arg14 (by decide)).trans <| (W4_of m c main_arg14 (by decide)).trans <| (W3_of m c main_arg14 (by decide)).trans <| (W2_of m c main_arg14 (by decide)).trans <| (W1_of m c main_arg14 (by decide)).trans <| rfl
theorem W26_main_arg15 (c : Dev nD) : W26 m c (Proc.devRef .tc main_arg15) = m ((c : Thread nD τ).loc main_arg15) :=
  (W26_of m c main_arg15 (by decide)).trans <| (W25_of m c main_arg15 (by decide)).trans <| (W24_of m c main_arg15 (by decide)).trans <| (W23_of m c main_arg15 (by decide)).trans <| (W22_of m c main_arg15 (by decide)).trans <| (W21_of m c main_arg15 (by decide)).trans <| (W20_of m c main_arg15 (by decide)).trans <| (W19_of m c main_arg15 (by decide)).trans <| (W18_of m c main_arg15 (by decide)).trans <| (W17_of m c main_arg15 (by decide)).trans <| (W16_of m c main_arg15 (by decide)).trans <| (W15_of m c main_arg15 (by decide)).trans <| (W14_of m c main_arg15 (by decide)).trans <| (W13_of m c main_arg15 (by decide)).trans <| (W12_of m c main_arg15 (by decide)).trans <| (W11_of m c main_arg15 (by decide)).trans <| (W10_of m c main_arg15 (by decide)).trans <| (W9_of m c main_arg15 (by decide)).trans <| (W8_of m c main_arg15 (by decide)).trans <| (W7_of m c main_arg15 (by decide)).trans <| (W6_of m c main_arg15 (by decide)).trans <| (W5_of m c main_arg15 (by decide)).trans <| (W4_of m c main_arg15 (by decide)).trans <| (W3_of m c main_arg15 (by decide)).trans <| (W2_of m c main_arg15 (by decide)).trans <| (W1_of m c main_arg15 (by decide)).trans <| rfl
theorem W26_main_arg16 (c : Dev nD) : W26 m c (Proc.devRef .tc main_arg16) = m ((c : Thread nD τ).loc main_arg16) :=
  (W26_of m c main_arg16 (by decide)).trans <| (W25_of m c main_arg16 (by decide)).trans <| (W24_of m c main_arg16 (by decide)).trans <| (W23_of m c main_arg16 (by decide)).trans <| (W22_of m c main_arg16 (by decide)).trans <| (W21_of m c main_arg16 (by decide)).trans <| (W20_of m c main_arg16 (by decide)).trans <| (W19_of m c main_arg16 (by decide)).trans <| (W18_of m c main_arg16 (by decide)).trans <| (W17_of m c main_arg16 (by decide)).trans <| (W16_of m c main_arg16 (by decide)).trans <| (W15_of m c main_arg16 (by decide)).trans <| (W14_of m c main_arg16 (by decide)).trans <| (W13_of m c main_arg16 (by decide)).trans <| (W12_of m c main_arg16 (by decide)).trans <| (W11_of m c main_arg16 (by decide)).trans <| (W10_of m c main_arg16 (by decide)).trans <| (W9_of m c main_arg16 (by decide)).trans <| (W8_of m c main_arg16 (by decide)).trans <| (W7_of m c main_arg16 (by decide)).trans <| (W6_of m c main_arg16 (by decide)).trans <| (W5_of m c main_arg16 (by decide)).trans <| (W4_of m c main_arg16 (by decide)).trans <| (W3_of m c main_arg16 (by decide)).trans <| (W2_of m c main_arg16 (by decide)).trans <| (W1_of m c main_arg16 (by decide)).trans <| rfl
theorem W26_main_arg17 (c : Dev nD) : W26 m c (Proc.devRef .tc main_arg17) = m ((c : Thread nD τ).loc main_arg17) :=
  (W26_of m c main_arg17 (by decide)).trans <| (W25_of m c main_arg17 (by decide)).trans <| (W24_of m c main_arg17 (by decide)).trans <| (W23_of m c main_arg17 (by decide)).trans <| (W22_of m c main_arg17 (by decide)).trans <| (W21_of m c main_arg17 (by decide)).trans <| (W20_of m c main_arg17 (by decide)).trans <| (W19_of m c main_arg17 (by decide)).trans <| (W18_of m c main_arg17 (by decide)).trans <| (W17_of m c main_arg17 (by decide)).trans <| (W16_of m c main_arg17 (by decide)).trans <| (W15_of m c main_arg17 (by decide)).trans <| (W14_of m c main_arg17 (by decide)).trans <| (W13_of m c main_arg17 (by decide)).trans <| (W12_of m c main_arg17 (by decide)).trans <| (W11_of m c main_arg17 (by decide)).trans <| (W10_of m c main_arg17 (by decide)).trans <| (W9_of m c main_arg17 (by decide)).trans <| (W8_of m c main_arg17 (by decide)).trans <| (W7_of m c main_arg17 (by decide)).trans <| (W6_of m c main_arg17 (by decide)).trans <| (W5_of m c main_arg17 (by decide)).trans <| (W4_of m c main_arg17 (by decide)).trans <| (W3_of m c main_arg17 (by decide)).trans <| (W2_of m c main_arg17 (by decide)).trans <| (W1_of m c main_arg17 (by decide)).trans <| rfl
theorem W26_main_arg18 (c : Dev nD) : W26 m c (Proc.devRef .tc main_arg18) = m ((c : Thread nD τ).loc main_arg18) :=
  (W26_of m c main_arg18 (by decide)).trans <| (W25_of m c main_arg18 (by decide)).trans <| (W24_of m c main_arg18 (by decide)).trans <| (W23_of m c main_arg18 (by decide)).trans <| (W22_of m c main_arg18 (by decide)).trans <| (W21_of m c main_arg18 (by decide)).trans <| (W20_of m c main_arg18 (by decide)).trans <| (W19_of m c main_arg18 (by decide)).trans <| (W18_of m c main_arg18 (by decide)).trans <| (W17_of m c main_arg18 (by decide)).trans <| (W16_of m c main_arg18 (by decide)).trans <| (W15_of m c main_arg18 (by decide)).trans <| (W14_of m c main_arg18 (by decide)).trans <| (W13_of m c main_arg18 (by decide)).trans <| (W12_of m c main_arg18 (by decide)).trans <| (W11_of m c main_arg18 (by decide)).trans <| (W10_of m c main_arg18 (by decide)).trans <| (W9_of m c main_arg18 (by decide)).trans <| (W8_of m c main_arg18 (by decide)).trans <| (W7_of m c main_arg18 (by decide)).trans <| (W6_of m c main_arg18 (by decide)).trans <| (W5_of m c main_arg18 (by decide)).trans <| (W4_of m c main_arg18 (by decide)).trans <| (W3_of m c main_arg18 (by decide)).trans <| (W2_of m c main_arg18 (by decide)).trans <| (W1_of m c main_arg18 (by decide)).trans <| rfl
theorem W26_main_arg19 (c : Dev nD) : W26 m c (Proc.devRef .tc main_arg19) = m ((c : Thread nD τ).loc main_arg19) :=
  (W26_of m c main_arg19 (by decide)).trans <| (W25_of m c main_arg19 (by decide)).trans <| (W24_of m c main_arg19 (by decide)).trans <| (W23_of m c main_arg19 (by decide)).trans <| (W22_of m c main_arg19 (by decide)).trans <| (W21_of m c main_arg19 (by decide)).trans <| (W20_of m c main_arg19 (by decide)).trans <| (W19_of m c main_arg19 (by decide)).trans <| (W18_of m c main_arg19 (by decide)).trans <| (W17_of m c main_arg19 (by decide)).trans <| (W16_of m c main_arg19 (by decide)).trans <| (W15_of m c main_arg19 (by decide)).trans <| (W14_of m c main_arg19 (by decide)).trans <| (W13_of m c main_arg19 (by decide)).trans <| (W12_of m c main_arg19 (by decide)).trans <| (W11_of m c main_arg19 (by decide)).trans <| (W10_of m c main_arg19 (by decide)).trans <| (W9_of m c main_arg19 (by decide)).trans <| (W8_of m c main_arg19 (by decide)).trans <| (W7_of m c main_arg19 (by decide)).trans <| (W6_of m c main_arg19 (by decide)).trans <| (W5_of m c main_arg19 (by decide)).trans <| (W4_of m c main_arg19 (by decide)).trans <| (W3_of m c main_arg19 (by decide)).trans <| (W2_of m c main_arg19 (by decide)).trans <| (W1_of m c main_arg19 (by decide)).trans <| rfl
theorem W26_main_arg20 (c : Dev nD) : W26 m c (Proc.devRef .tc main_arg20) = m ((c : Thread nD τ).loc main_arg20) :=
  (W26_of m c main_arg20 (by decide)).trans <| (W25_of m c main_arg20 (by decide)).trans <| (W24_of m c main_arg20 (by decide)).trans <| (W23_of m c main_arg20 (by decide)).trans <| (W22_of m c main_arg20 (by decide)).trans <| (W21_of m c main_arg20 (by decide)).trans <| (W20_of m c main_arg20 (by decide)).trans <| (W19_of m c main_arg20 (by decide)).trans <| (W18_of m c main_arg20 (by decide)).trans <| (W17_of m c main_arg20 (by decide)).trans <| (W16_of m c main_arg20 (by decide)).trans <| (W15_of m c main_arg20 (by decide)).trans <| (W14_of m c main_arg20 (by decide)).trans <| (W13_of m c main_arg20 (by decide)).trans <| (W12_of m c main_arg20 (by decide)).trans <| (W11_of m c main_arg20 (by decide)).trans <| (W10_of m c main_arg20 (by decide)).trans <| (W9_of m c main_arg20 (by decide)).trans <| (W8_of m c main_arg20 (by decide)).trans <| (W7_of m c main_arg20 (by decide)).trans <| (W6_of m c main_arg20 (by decide)).trans <| (W5_of m c main_arg20 (by decide)).trans <| (W4_of m c main_arg20 (by decide)).trans <| (W3_of m c main_arg20 (by decide)).trans <| (W2_of m c main_arg20 (by decide)).trans <| (W1_of m c main_arg20 (by decide)).trans <| rfl
theorem W26_main_arg21 (c : Dev nD) : W26 m c (Proc.devRef .tc main_arg21) = m ((c : Thread nD τ).loc main_arg21) :=
  (W26_of m c main_arg21 (by decide)).trans <| (W25_of m c main_arg21 (by decide)).trans <| (W24_of m c main_arg21 (by decide)).trans <| (W23_of m c main_arg21 (by decide)).trans <| (W22_of m c main_arg21 (by decide)).trans <| (W21_of m c main_arg21 (by decide)).trans <| (W20_of m c main_arg21 (by decide)).trans <| (W19_of m c main_arg21 (by decide)).trans <| (W18_of m c main_arg21 (by decide)).trans <| (W17_of m c main_arg21 (by decide)).trans <| (W16_of m c main_arg21 (by decide)).trans <| (W15_of m c main_arg21 (by decide)).trans <| (W14_of m c main_arg21 (by decide)).trans <| (W13_of m c main_arg21 (by decide)).trans <| (W12_of m c main_arg21 (by decide)).trans <| (W11_of m c main_arg21 (by decide)).trans <| (W10_of m c main_arg21 (by decide)).trans <| (W9_of m c main_arg21 (by decide)).trans <| (W8_of m c main_arg21 (by decide)).trans <| (W7_of m c main_arg21 (by decide)).trans <| (W6_of m c main_arg21 (by decide)).trans <| (W5_of m c main_arg21 (by decide)).trans <| (W4_of m c main_arg21 (by decide)).trans <| (W3_of m c main_arg21 (by decide)).trans <| (W2_of m c main_arg21 (by decide)).trans <| (W1_of m c main_arg21 (by decide)).trans <| rfl
theorem W26_main_arg22 (c : Dev nD) : W26 m c (Proc.devRef .tc main_arg22) = m ((c : Thread nD τ).loc main_arg22) :=
  (W26_of m c main_arg22 (by decide)).trans <| (W25_of m c main_arg22 (by decide)).trans <| (W24_of m c main_arg22 (by decide)).trans <| (W23_of m c main_arg22 (by decide)).trans <| (W22_of m c main_arg22 (by decide)).trans <| (W21_of m c main_arg22 (by decide)).trans <| (W20_of m c main_arg22 (by decide)).trans <| (W19_of m c main_arg22 (by decide)).trans <| (W18_of m c main_arg22 (by decide)).trans <| (W17_of m c main_arg22 (by decide)).trans <| (W16_of m c main_arg22 (by decide)).trans <| (W15_of m c main_arg22 (by decide)).trans <| (W14_of m c main_arg22 (by decide)).trans <| (W13_of m c main_arg22 (by decide)).trans <| (W12_of m c main_arg22 (by decide)).trans <| (W11_of m c main_arg22 (by decide)).trans <| (W10_of m c main_arg22 (by decide)).trans <| (W9_of m c main_arg22 (by decide)).trans <| (W8_of m c main_arg22 (by decide)).trans <| (W7_of m c main_arg22 (by decide)).trans <| (W6_of m c main_arg22 (by decide)).trans <| (W5_of m c main_arg22 (by decide)).trans <| (W4_of m c main_arg22 (by decide)).trans <| (W3_of m c main_arg22 (by decide)).trans <| (W2_of m c main_arg22 (by decide)).trans <| (W1_of m c main_arg22 (by decide)).trans <| rfl
theorem W26_main_arg23 (c : Dev nD) : W26 m c (Proc.devRef .tc main_arg23) = m ((c : Thread nD τ).loc main_arg23) :=
  (W26_of m c main_arg23 (by decide)).trans <| (W25_of m c main_arg23 (by decide)).trans <| (W24_of m c main_arg23 (by decide)).trans <| (W23_of m c main_arg23 (by decide)).trans <| (W22_of m c main_arg23 (by decide)).trans <| (W21_of m c main_arg23 (by decide)).trans <| (W20_of m c main_arg23 (by decide)).trans <| (W19_of m c main_arg23 (by decide)).trans <| (W18_of m c main_arg23 (by decide)).trans <| (W17_of m c main_arg23 (by decide)).trans <| (W16_of m c main_arg23 (by decide)).trans <| (W15_of m c main_arg23 (by decide)).trans <| (W14_of m c main_arg23 (by decide)).trans <| (W13_of m c main_arg23 (by decide)).trans <| (W12_of m c main_arg23 (by decide)).trans <| (W11_of m c main_arg23 (by decide)).trans <| (W10_of m c main_arg23 (by decide)).trans <| (W9_of m c main_arg23 (by decide)).trans <| (W8_of m c main_arg23 (by decide)).trans <| (W7_of m c main_arg23 (by decide)).trans <| (W6_of m c main_arg23 (by decide)).trans <| (W5_of m c main_arg23 (by decide)).trans <| (W4_of m c main_arg23 (by decide)).trans <| (W3_of m c main_arg23 (by decide)).trans <| (W2_of m c main_arg23 (by decide)).trans <| (W1_of m c main_arg23 (by decide)).trans <| rfl
theorem W26_main_arg24 (c : Dev nD) : W26 m c (Proc.devRef .tc main_arg24) = m ((c : Thread nD τ).loc main_arg24) :=
  (W26_of m c main_arg24 (by decide)).trans <| (W25_of m c main_arg24 (by decide)).trans <| (W24_of m c main_arg24 (by decide)).trans <| (W23_of m c main_arg24 (by decide)).trans <| (W22_of m c main_arg24 (by decide)).trans <| (W21_of m c main_arg24 (by decide)).trans <| (W20_of m c main_arg24 (by decide)).trans <| (W19_of m c main_arg24 (by decide)).trans <| (W18_of m c main_arg24 (by decide)).trans <| (W17_of m c main_arg24 (by decide)).trans <| (W16_of m c main_arg24 (by decide)).trans <| (W15_of m c main_arg24 (by decide)).trans <| (W14_of m c main_arg24 (by decide)).trans <| (W13_of m c main_arg24 (by decide)).trans <| (W12_of m c main_arg24 (by decide)).trans <| (W11_of m c main_arg24 (by decide)).trans <| (W10_of m c main_arg24 (by decide)).trans <| (W9_of m c main_arg24 (by decide)).trans <| (W8_of m c main_arg24 (by decide)).trans <| (W7_of m c main_arg24 (by decide)).trans <| (W6_of m c main_arg24 (by decide)).trans <| (W5_of m c main_arg24 (by decide)).trans <| (W4_of m c main_arg24 (by decide)).trans <| (W3_of m c main_arg24 (by decide)).trans <| (W2_of m c main_arg24 (by decide)).trans <| (W1_of m c main_arg24 (by decide)).trans <| rfl

/-- THE FRAME: the program runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_arg0 (by decide))).trans (W26_main_arg0 m c),
      (h c _ (mem_uc main_arg1 (by decide))).trans (W26_main_arg1 m c),
      (h c _ (mem_uc main_arg2 (by decide))).trans (W26_main_arg2 m c),
      (h c _ (mem_uc main_arg3 (by decide))).trans (W26_main_arg3 m c),
      (h c _ (mem_uc main_arg4 (by decide))).trans (W26_main_arg4 m c),
      (h c _ (mem_uc main_arg5 (by decide))).trans (W26_main_arg5 m c),
      (h c _ (mem_uc main_arg6 (by decide))).trans (W26_main_arg6 m c),
      (h c _ (mem_uc main_arg7 (by decide))).trans (W26_main_arg7 m c),
      (h c _ (mem_uc main_arg8 (by decide))).trans (W26_main_arg8 m c),
      (h c _ (mem_uc main_arg9 (by decide))).trans (W26_main_arg9 m c),
      (h c _ (mem_uc main_arg10 (by decide))).trans (W26_main_arg10 m c),
      (h c _ (mem_uc main_arg11 (by decide))).trans (W26_main_arg11 m c),
      (h c _ (mem_uc main_arg12 (by decide))).trans (W26_main_arg12 m c),
      (h c _ (mem_uc main_arg13 (by decide))).trans (W26_main_arg13 m c),
      (h c _ (mem_uc main_arg14 (by decide))).trans (W26_main_arg14 m c),
      (h c _ (mem_uc main_arg15 (by decide))).trans (W26_main_arg15 m c),
      (h c _ (mem_uc main_arg16 (by decide))).trans (W26_main_arg16 m c),
      (h c _ (mem_uc main_arg17 (by decide))).trans (W26_main_arg17 m c),
      (h c _ (mem_uc main_arg18 (by decide))).trans (W26_main_arg18 m c),
      (h c _ (mem_uc main_arg19 (by decide))).trans (W26_main_arg19 m c),
      (h c _ (mem_uc main_arg20 (by decide))).trans (W26_main_arg20 m c),
      (h c _ (mem_uc main_arg21 (by decide))).trans (W26_main_arg21 m c),
      (h c _ (mem_uc main_arg22 (by decide))).trans (W26_main_arg22 m c),
      (h c _ (mem_uc main_arg23 (by decide))).trans (W26_main_arg23 m c),
      (h c _ (mem_uc main_arg24 (by decide))).trans (W26_main_arg24 m c)⟩) (run_all m ρ)

/-- The run with the result array named: it ends at the last contents of `main_v67`, the arguments as launched. -/
theorem run_result : θ_run defs (onTc (τ := τ) (main (F := F))) ⟨m, fun _ => 0, ρ⟩ (fun r => ∀ c : Dev nD,
      r.2.mem ((c.tc : Thread nD τ).loc main_v67) = W26 m c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨h c _ (mem_uc main_v67 (by decide)),
      (h c _ (mem_uc main_arg0 (by decide))).trans (W26_main_arg0 m c),
      (h c _ (mem_uc main_arg1 (by decide))).trans (W26_main_arg1 m c),
      (h c _ (mem_uc main_arg2 (by decide))).trans (W26_main_arg2 m c),
      (h c _ (mem_uc main_arg3 (by decide))).trans (W26_main_arg3 m c),
      (h c _ (mem_uc main_arg4 (by decide))).trans (W26_main_arg4 m c),
      (h c _ (mem_uc main_arg5 (by decide))).trans (W26_main_arg5 m c),
      (h c _ (mem_uc main_arg6 (by decide))).trans (W26_main_arg6 m c),
      (h c _ (mem_uc main_arg7 (by decide))).trans (W26_main_arg7 m c),
      (h c _ (mem_uc main_arg8 (by decide))).trans (W26_main_arg8 m c),
      (h c _ (mem_uc main_arg9 (by decide))).trans (W26_main_arg9 m c),
      (h c _ (mem_uc main_arg10 (by decide))).trans (W26_main_arg10 m c),
      (h c _ (mem_uc main_arg11 (by decide))).trans (W26_main_arg11 m c),
      (h c _ (mem_uc main_arg12 (by decide))).trans (W26_main_arg12 m c),
      (h c _ (mem_uc main_arg13 (by decide))).trans (W26_main_arg13 m c),
      (h c _ (mem_uc main_arg14 (by decide))).trans (W26_main_arg14 m c),
      (h c _ (mem_uc main_arg15 (by decide))).trans (W26_main_arg15 m c),
      (h c _ (mem_uc main_arg16 (by decide))).trans (W26_main_arg16 m c),
      (h c _ (mem_uc main_arg17 (by decide))).trans (W26_main_arg17 m c),
      (h c _ (mem_uc main_arg18 (by decide))).trans (W26_main_arg18 m c),
      (h c _ (mem_uc main_arg19 (by decide))).trans (W26_main_arg19 m c),
      (h c _ (mem_uc main_arg20 (by decide))).trans (W26_main_arg20 m c),
      (h c _ (mem_uc main_arg21 (by decide))).trans (W26_main_arg21 m c),
      (h c _ (mem_uc main_arg22 (by decide))).trans (W26_main_arg22 m c),
      (h c _ (mem_uc main_arg23 (by decide))).trans (W26_main_arg23 m c),
      (h c _ (mem_uc main_arg24 (by decide))).trans (W26_main_arg24 m c)⟩) (run_all m ρ)

end Cert.KernelIdeal.Regs

end
-- ==== Proof.RefRunOps.lean ====
/-
  The reference program's @main as a straight line of host operations.

  @main is printed in four consecutive windows, and its calls of the outlined functions (the index
  normalisation and range mask of a row lookup, the selects of the activations) are bodies to be
  unfolded at the call site. Here each window is ONE literal list of operations, every call replaced by
  the callee's operations over the buffers of that call's record, in program order; the whole program is
  the four lists one after the other. Each window is that list run in order by unfolding, and so is @main.
  Beside the lists: every operation stays inside the TensorCore's buffers and determines its result
  (none allocates), which is what the run of a straight line asks.
-/
import proofs.«180908_j8211977470570_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0, calls unfolded: 104 operations. -/
abbrev ops0 : List (HloOp τ sig (Elt F)) :=
  [ StableHlo.TRef.nullary main_call0.c (constantI S_ 32 0#32),
    StableHlo.TRef.unary main_call0.c main_call0.v0 (broadcastInDim S27x40000 ![] bcast_S_S27x40000),
    StableHlo.TRef.binary (.of main_arg2 : StableHlo.TRef sig ⟨S27x40000, .i32⟩) main_call0.v0 main_call0.v1 (cmpi .slt),
    StableHlo.TRef.nullary main_call0.c_0 (constantI S_ 32 200000#32),
    StableHlo.TRef.unary main_call0.c_0 main_call0.v2 (broadcastInDim S27x40000 ![] bcast_S_S27x40000),
    StableHlo.TRef.binary (.of main_arg2 : StableHlo.TRef sig ⟨S27x40000, .i32⟩) main_call0.v2 main_call0.v3 addi,
    StableHlo.TRef.ternary main_call0.v1 main_call0.v3 (.of main_arg2 : StableHlo.TRef sig ⟨S27x40000, .i32⟩) main_call0.call0.v0 select,
    StableHlo.TRef.unary main_call0.call0.v0 main_call0.v5 (broadcastInDim S27x40000x1 ![0, 1] bcast_S27x40000_S27x40000x1_0_1),
    StableHlo.TRef.nullary main_call0.c_1 (constantI S1 32 199999#32),
    StableHlo.TRef.nullary main_call0.c_2 (constantI S_ 32 0#32),
    StableHlo.TRef.unary main_call0.c_2 main_call0.v6 (broadcastInDim S27x40000x1 ![] bcast_S_S27x40000x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S27x40000x1 ![0, 1, 2] bcast_S1x1x1_S27x40000x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S27x40000x1_S27x40000_d2 h_S_),
    StableHlo.TRef.binary (.of main_arg1 : StableHlo.TRef sig ⟨S200000x64, .f32⟩) main_call0.v5 main_call0.v13 (fun x i => Host.gather gather_S200000x64_S27x40000x1_S27x40000x64_2_0_n_n_0_2_164 x i),
    StableHlo.TRef.unary main_call0.v12 main_call0.v14 (broadcastInDim S27x40000x64 ![0, 1] bcast_S27x40000_S27x40000x64_0_1),
    StableHlo.TRef.nullary main_call0.cst (constant S_ .f32 0x7FC00000#32),
    StableHlo.TRef.unary main_call0.cst main_call0.v15 (broadcastInDim S27x40000x64 ![] bcast_S_S27x40000x64),
    StableHlo.TRef.ternary main_call0.v14 main_call0.v13 main_call0.v15 main_call0.v16 select,
    StableHlo.binary main_v0 main_arg6 main_v1 ((fun l r => Host.dotGeneral dot_S27x40000x64_S27x64x64_S27x40000x64_2_1_1_2_0_0 none l r) : (⟨S27x40000x64, .f32⟩ : BufTy).Contents (Elt F) → (⟨S27x64x64, .f32⟩ : BufTy).Contents (Elt F) → (⟨S27x40000x64, .f32⟩ : BufTy).Contents (Elt F)),
    StableHlo.reshape main_v1 main_v2 rfl shapeCasts_S27x40000x64_S1080000x64,
    StableHlo.reshape main_arg3 main_v3 rfl shapeCasts_S27x40000_S1080000,
    StableHlo.nullary main_cst (constant S_ .f32 0x00000000#32),
    StableHlo.unary main_cst main_v4 (broadcastInDim S60000x64 ![] bcast_S_S60000x64 : (⟨S_, .f32⟩ : BufTy).Contents (Elt F) → (⟨S60000x64, .f32⟩ : BufTy).Contents (Elt F)),
    StableHlo.unary main_v3 main_v5 (broadcastInDim S1080000x1 ![0] bcast_S1080000_S1080000x1_0 : (⟨S1080000, .i32⟩ : BufTy).Contents (Elt F) → (⟨S1080000x1, .i32⟩ : BufTy).Contents (Elt F)),
    StableHlo.ternary main_v4 main_v5 main_v2 main_v6 ((fun x i u => Host.scatterAdd scatter_S60000x64_S1080000x1_S1080000x64_1_0_0_1 x i u) : (⟨S60000x64, .f32⟩ : BufTy).Contents (Elt F) → (⟨S1080000x1, .i32⟩ : BufTy).Contents (Elt F) → (⟨S1080000x64, .f32⟩ : BufTy).Contents (Elt F) → (⟨S60000x64, .f32⟩ : BufTy).Contents (Elt F)),
    StableHlo.unary main_arg7 main_v7 (broadcastInDim S1x64 ![1] bcast_S64_S1x64_1 : (⟨S64, .f32⟩ : BufTy).Contents (Elt F) → (⟨S1x64, .f32⟩ : BufTy).Contents (Elt F)),
    StableHlo.unary main_v7 main_v8 (broadcastInDim S60000x64 ![0, 1] bcast_S1x64_S60000x64_0_1 : (⟨S1x64, .f32⟩ : BufTy).Contents (Elt F) → (⟨S60000x64, .f32⟩ : BufTy).Contents (Elt F)),
    StableHlo.binary main_v6 main_v8 main_v9 (addf : (⟨S60000x64, .f32⟩ : BufTy).Contents (Elt F) → (⟨S60000x64, .f32⟩ : BufTy).Contents (Elt F) → (⟨S60000x64, .f32⟩ : BufTy).Contents (Elt F)),
    StableHlo.nullary main_cst_0 (constant S_ .f32 0x00000000#32),
    StableHlo.binary main_v9 main_cst_0 main_v10 ((fun x v => Host.reduceAdd x v reducesTo_S60000x64_S64_d0 h_S_) : (⟨S60000x64, .f32⟩ : BufTy).Contents (Elt F) → (⟨S_, .f32⟩ : BufTy).Contents (Elt F) → (⟨S64, .f32⟩ : BufTy).Contents (Elt F)),
    StableHlo.nullary main_cst_1 (constant S_ .f32 0x476A6000#32),
    StableHlo.unary main_cst_1 main_v11 (broadcastInDim S64 ![] bcast_S_S64 : (⟨S_, .f32⟩ : BufTy).Contents (Elt F) → (⟨S64, .f32⟩ : BufTy).Contents (Elt F)),
    StableHlo.binary main_v10 main_v11 main_v12 (Host.divf : (⟨S64, .f32⟩ : BufTy).Contents (Elt F) → (⟨S64, .f32⟩ : BufTy).Contents (Elt F) → (⟨S64, .f32⟩ : BufTy).Contents (Elt F)),
    StableHlo.unary main_v12 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S60000x64 ![0, 1] bcast_S1x64_S60000x64_0_1 : (⟨S1x64, .f32⟩ : BufTy).Contents (Elt F) → (⟨S60000x64, .f32⟩ : BufTy).Contents (Elt F)),
    StableHlo.binary main_v9 main_v14 main_v15 (subf : (⟨S60000x64, .f32⟩ : BufTy).Contents (Elt F) → (⟨S60000x64, .f32⟩ : BufTy).Contents (Elt F) → (⟨S60000x64, .f32⟩ : BufTy).Contents (Elt F)),
    StableHlo.binary main_v15 main_v15 main_v16 (mulf : (⟨S60000x64, .f32⟩ : BufTy).Contents (Elt F) → (⟨S60000x64, .f32⟩ : BufTy).Contents (Elt F) → (⟨S60000x64, .f32⟩ : BufTy).Contents (Elt F)),
    StableHlo.nullary main_cst_2 (constant S_ .f32 0x00000000#32),
    StableHlo.binary main_v16 main_cst_2 main_v17 ((fun x v => Host.reduceAdd x v reducesTo_S60000x64_S64_d0 h_S_) : (⟨S60000x64, .f32⟩ : BufTy).Contents (Elt F) → (⟨S_, .f32⟩ : BufTy).Contents (Elt F) → (⟨S64, .f32⟩ : BufTy).Contents (Elt F)),
    StableHlo.nullary main_cst_3 (constant S_ .f32 0x476A6000#32),
    StableHlo.unary main_cst_3 main_v18 (broadcastInDim S64 ![] bcast_S_S64 : (⟨S_, .f32⟩ : BufTy).Contents (Elt F) → (⟨S64, .f32⟩ : BufTy).Contents (Elt F)),
    StableHlo.binary main_v17 main_v18 main_v19 (Host.divf : (⟨S64, .f32⟩ : BufTy).Contents (Elt F) → (⟨S64, .f32⟩ : BufTy).Contents (Elt F) → (⟨S64, .f32⟩ : BufTy).Contents (Elt F)),
    StableHlo.unary main_v12 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S60000x64 ![0, 1] bcast_S1x64_S60000x64_0_1 : (⟨S1x64, .f32⟩ : BufTy).Contents (Elt F) → (⟨S60000x64, .f32⟩ : BufTy).Contents (Elt F)),
    StableHlo.binary main_v9 main_v21 main_v22 (subf : (⟨S60000x64, .f32⟩ : BufTy).Contents (Elt F) → (⟨S60000x64, .f32⟩ : BufTy).Contents (Elt F) → (⟨S60000x64, .f32⟩ : BufTy).Contents (Elt F)),
    StableHlo.nullary main_cst_4 (constant S_ .f32 0x3727C5AC#32),
    StableHlo.unary main_cst_4 main_v23 (broadcastInDim S64 ![] bcast_S_S64 : (⟨S_, .f32⟩ : BufTy).Contents (Elt F) → (⟨S64, .f32⟩ : BufTy).Contents (Elt F)),
    StableHlo.binary main_v19 main_v23 main_v24 (addf : (⟨S64, .f32⟩ : BufTy).Contents (Elt F) → (⟨S64, .f32⟩ : BufTy).Contents (Elt F) → (⟨S64, .f32⟩ : BufTy).Contents (Elt F)),
    StableHlo.unary main_v24 main_v25 (Host.rsqrt : (⟨S64, .f32⟩ : BufTy).Contents (Elt F) → (⟨S64, .f32⟩ : BufTy).Contents (Elt F)),
    StableHlo.unary main_v25 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S60000x64 ![0, 1] bcast_S1x64_S60000x64_0_1 : (⟨S1x64, .f32⟩ : BufTy).Contents (Elt F) → (⟨S60000x64, .f32⟩ : BufTy).Contents (Elt F)),
    StableHlo.binary main_v22 main_v27 main_v28 (mulf : (⟨S60000x64, .f32⟩ : BufTy).Contents (Elt F) → (⟨S60000x64, .f32⟩ : BufTy).Contents (Elt F) → (⟨S60000x64, .f32⟩ : BufTy).Contents (Elt F)),
    StableHlo.unary main_arg15 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S60000x64 ![0, 1] bcast_S1x64_S60000x64_0_1 : (⟨S1x64, .f32⟩ : BufTy).Contents (Elt F) → (⟨S60000x64, .f32⟩ : BufTy).Contents (Elt F)),
    StableHlo.binary main_v28 main_v30 main_v31 (mulf : (⟨S60000x64, .f32⟩ : BufTy).Contents (Elt F) → (⟨S60000x64, .f32⟩ : BufTy).Contents (Elt F) → (⟨S60000x64, .f32⟩ : BufTy).Contents (Elt F)),
    StableHlo.unary main_arg16 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S60000x64 ![0, 1] bcast_S1x64_S60000x64_0_1 : (⟨S1x64, .f32⟩ : BufTy).Contents (Elt F) → (⟨S60000x64, .f32⟩ : BufTy).Contents (Elt F)),
    StableHlo.binary main_v31 main_v33 main_v34 (addf : (⟨S60000x64, .f32⟩ : BufTy).Contents (Elt F) → (⟨S60000x64, .f32⟩ : BufTy).Contents (Elt F) → (⟨S60000x64, .f32⟩ : BufTy).Contents (Elt F)),
    StableHlo.nullary main_cst_5 (constant S_ .f32 0x00000000#32),
    StableHlo.unary main_cst_5 main_v35 (broadcastInDim S60000x64 ![] bcast_S_S60000x64 : (⟨S_, .f32⟩ : BufTy).Contents (Elt F) → (⟨S60000x64, .f32⟩ : BufTy).Contents (Elt F)),
    StableHlo.binary main_v34 main_v35 main_v36 (cmpf .oge : (⟨S60000x64, .f32⟩ : BufTy).Contents (Elt F) → (⟨S60000x64, .f32⟩ : BufTy).Contents (Elt F) → (⟨S60000x64, .i1⟩ : BufTy).Contents (Elt F)),
    StableHlo.nullary main_cst_6 (constant S_ .f32 0x3C23D70A#32),
    StableHlo.unary main_cst_6 main_v37 (broadcastInDim S60000x64 ![] bcast_S_S60000x64 : (⟨S_, .f32⟩ : BufTy).Contents (Elt F) → (⟨S60000x64, .f32⟩ : BufTy).Contents (Elt F)),
    StableHlo.binary main_v37 main_v34 main_v38 (mulf : (⟨S60000x64, .f32⟩ : BufTy).Contents (Elt F) → (⟨S60000x64, .f32⟩ : BufTy).Contents (Elt F) → (⟨S60000x64, .f32⟩ : BufTy).Contents (Elt F)),
    StableHlo.TRef.ternary (.of main_v36 : StableHlo.TRef sig ⟨S60000x64, .i1⟩) (.of main_v34 : StableHlo.TRef sig ⟨S60000x64, .f32⟩) (.of main_v38 : StableHlo.TRef sig ⟨S60000x64, .f32⟩) main_call1.v0 select,
    StableHlo.TRef.nullary main_call2.c (constantI S_ 32 0#32),
    StableHlo.TRef.unary main_call2.c main_call2.v0 (broadcastInDim S27x25000 ![] bcast_S_S27x25000),
    StableHlo.TRef.binary (.of main_arg4 : StableHlo.TRef sig ⟨S27x25000, .i32⟩) main_call2.v0 main_call2.v1 (cmpi .slt),
    StableHlo.TRef.nullary main_call2.c_0 (constantI S_ 32 60000#32),
    StableHlo.TRef.unary main_call2.c_0 main_call2.v2 (broadcastInDim S27x25000 ![] bcast_S_S27x25000),
    StableHlo.TRef.binary (.of main_arg4 : StableHlo.TRef sig ⟨S27x25000, .i32⟩) main_call2.v2 main_call2.v3 addi,
    StableHlo.TRef.ternary main_call2.v1 main_call2.v3 (.of main_arg4 : StableHlo.TRef sig ⟨S27x25000, .i32⟩) main_call2.call0.v0 select,
    StableHlo.TRef.unary main_call2.call0.v0 main_call2.v5 (broadcastInDim S27x25000x1 ![0, 1] bcast_S27x25000_S27x25000x1_0_1),
    StableHlo.TRef.nullary main_call2.c_1 (constantI S1 32 59999#32),
    StableHlo.TRef.nullary main_call2.c_2 (constantI S_ 32 0#32),
    StableHlo.TRef.unary main_call2.c_2 main_call2.v6 (broadcastInDim S27x25000x1 ![] bcast_S_S27x25000x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S27x25000x1 ![0, 1, 2] bcast_S1x1x1_S27x25000x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S27x25000x1_S27x25000_d2 h_S_),
    StableHlo.TRef.binary (.of main_arg0 : StableHlo.TRef sig ⟨S60000x128, .f32⟩) main_call2.v5 main_call2.v13 (fun x i => Host.gather gather_S60000x128_S27x25000x1_S27x25000x128_2_0_n_n_0_2_1128 x i),
    StableHlo.TRef.unary main_call2.v12 main_call2.v14 (broadcastInDim S27x25000x128 ![0, 1] bcast_S27x25000_S27x25000x128_0_1),
    StableHlo.TRef.nullary main_call2.cst (constant S_ .f32 0x7FC00000#32),
    StableHlo.TRef.unary main_call2.cst main_call2.v15 (broadcastInDim S27x25000x128 ![] bcast_S_S27x25000x128),
    StableHlo.TRef.ternary main_call2.v14 main_call2.v13 main_call2.v15 main_call2.v16 select,
    StableHlo.binary main_v40 main_arg8 main_v41 ((fun l r => Host.dotGeneral dot_S27x25000x128_S27x128x64_S27x25000x64_2_1_1_2_0_0 none l r) : (⟨S27x25000x128, .f32⟩ : BufTy).Contents (Elt F) → (⟨S27x128x64, .f32⟩ : BufTy).Contents (Elt F) → (⟨S27x25000x64, .f32⟩ : BufTy).Contents (Elt F)),
    StableHlo.reshape main_v41 main_v42 rfl shapeCasts_S27x25000x64_S675000x64,
    StableHlo.reshape main_arg5 main_v43 rfl shapeCasts_S27x25000_S675000,
    StableHlo.nullary main_cst_7 (constant S_ .f32 0x00000000#32),
    StableHlo.unary main_cst_7 main_v44 (broadcastInDim S60000x64 ![] bcast_S_S60000x64 : (⟨S_, .f32⟩ : BufTy).Contents (Elt F) → (⟨S60000x64, .f32⟩ : BufTy).Contents (Elt F)),
    StableHlo.unary main_v43 main_v45 (broadcastInDim S675000x1 ![0] bcast_S675000_S675000x1_0 : (⟨S675000, .i32⟩ : BufTy).Contents (Elt F) → (⟨S675000x1, .i32⟩ : BufTy).Contents (Elt F)),
    StableHlo.ternary main_v44 main_v45 main_v42 main_v46 ((fun x i u => Host.scatterAdd scatter_S60000x64_S675000x1_S675000x64_1_0_0_1 x i u) : (⟨S60000x64, .f32⟩ : BufTy).Contents (Elt F) → (⟨S675000x1, .i32⟩ : BufTy).Contents (Elt F) → (⟨S675000x64, .f32⟩ : BufTy).Contents (Elt F) → (⟨S60000x64, .f32⟩ : BufTy).Contents (Elt F)),
    StableHlo.unary main_arg9 main_v47 (broadcastInDim S1x64 ![1] bcast_S64_S1x64_1 : (⟨S64, .f32⟩ : BufTy).Contents (Elt F) → (⟨S1x64, .f32⟩ : BufTy).Contents (Elt F)),
    StableHlo.unary main_v47 main_v48 (broadcastInDim S60000x64 ![0, 1] bcast_S1x64_S60000x64_0_1 : (⟨S1x64, .f32⟩ : BufTy).Contents (Elt F) → (⟨S60000x64, .f32⟩ : BufTy).Contents (Elt F)),
    StableHlo.binary main_v46 main_v48 main_v49 (addf : (⟨S60000x64, .f32⟩ : BufTy).Contents (Elt F) → (⟨S60000x64, .f32⟩ : BufTy).Contents (Elt F) → (⟨S60000x64, .f32⟩ : BufTy).Contents (Elt F)),
    StableHlo.nullary main_cst_8 (constant S_ .f32 0x00000000#32) ]

/-- The operations of @main's window 1, calls unfolded: 82 operations. -/
abbrev ops1 : List (HloOp τ sig (Elt F)) :=
  [ StableHlo.binary main_v49 main_cst_8 main_v50 ((fun x v => Host.reduceAdd x v reducesTo_S60000x64_S64_d0 h_S_) : (⟨S60000x64, .f32⟩ : BufTy).Contents (Elt F) → (⟨S_, .f32⟩ : BufTy).Contents (Elt F) → (⟨S64, .f32⟩ : BufTy).Contents (Elt F)),
    StableHlo.nullary main_cst_9 (constant S_ .f32 0x476A6000#32),
    StableHlo.unary main_cst_9 main_v51 (broadcastInDim S64 ![] bcast_S_S64 : (⟨S_, .f32⟩ : BufTy).Contents (Elt F) → (⟨S64, .f32⟩ : BufTy).Contents (Elt F)),
    StableHlo.binary main_v50 main_v51 main_v52 (Host.divf : (⟨S64, .f32⟩ : BufTy).Contents (Elt F) → (⟨S64, .f32⟩ : BufTy).Contents (Elt F) → (⟨S64, .f32⟩ : BufTy).Contents (Elt F)),
    StableHlo.unary main_v52 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S60000x64 ![0, 1] bcast_S1x64_S60000x64_0_1 : (⟨S1x64, .f32⟩ : BufTy).Contents (Elt F) → (⟨S60000x64, .f32⟩ : BufTy).Contents (Elt F)),
    StableHlo.binary main_v49 main_v54 main_v55 (subf : (⟨S60000x64, .f32⟩ : BufTy).Contents (Elt F) → (⟨S60000x64, .f32⟩ : BufTy).Contents (Elt F) → (⟨S60000x64, .f32⟩ : BufTy).Contents (Elt F)),
    StableHlo.binary main_v55 main_v55 main_v56 (mulf : (⟨S60000x64, .f32⟩ : BufTy).Contents (Elt F) → (⟨S60000x64, .f32⟩ : BufTy).Contents (Elt F) → (⟨S60000x64, .f32⟩ : BufTy).Contents (Elt F)),
    StableHlo.nullary main_cst_10 (constant S_ .f32 0x00000000#32),
    StableHlo.binary main_v56 main_cst_10 main_v57 ((fun x v => Host.reduceAdd x v reducesTo_S60000x64_S64_d0 h_S_) : (⟨S60000x64, .f32⟩ : BufTy).Contents (Elt F) → (⟨S_, .f32⟩ : BufTy).Contents (Elt F) → (⟨S64, .f32⟩ : BufTy).Contents (Elt F)),
    StableHlo.nullary main_cst_11 (constant S_ .f32 0x476A6000#32),
    StableHlo.unary main_cst_11 main_v58 (broadcastInDim S64 ![] bcast_S_S64 : (⟨S_, .f32⟩ : BufTy).Contents (Elt F) → (⟨S64, .f32⟩ : BufTy).Contents (Elt F)),
    StableHlo.binary main_v57 main_v58 main_v59 (Host.divf : (⟨S64, .f32⟩ : BufTy).Contents (Elt F) → (⟨S64, .f32⟩ : BufTy).Contents (Elt F) → (⟨S64, .f32⟩ : BufTy).Contents (Elt F)),
    StableHlo.unary main_v52 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S60000x64 ![0, 1] bcast_S1x64_S60000x64_0_1 : (⟨S1x64, .f32⟩ : BufTy).Contents (Elt F) → (⟨S60000x64, .f32⟩ : BufTy).Contents (Elt F)),
    StableHlo.binary main_v49 main_v61 main_v62 (subf : (⟨S60000x64, .f32⟩ : BufTy).Contents (Elt F) → (⟨S60000x64, .f32⟩ : BufTy).Contents (Elt F) → (⟨S60000x64, .f32⟩ : BufTy).Contents (Elt F)),
    StableHlo.nullary main_cst_12 (constant S_ .f32 0x3727C5AC#32),
    StableHlo.unary main_cst_12 main_v63 (broadcastInDim S64 ![] bcast_S_S64 : (⟨S_, .f32⟩ : BufTy).Contents (Elt F) → (⟨S64, .f32⟩ : BufTy).Contents (Elt F)),
    StableHlo.binary main_v59 main_v63 main_v64 (addf : (⟨S64, .f32⟩ : BufTy).Contents (Elt F) → (⟨S64, .f32⟩ : BufTy).Contents (Elt F) → (⟨S64, .f32⟩ : BufTy).Contents (Elt F)),
    StableHlo.unary main_v64 main_v65 (Host.rsqrt : (⟨S64, .f32⟩ : BufTy).Contents (Elt F) → (⟨S64, .f32⟩ : BufTy).Contents (Elt F)),
    StableHlo.unary main_v65 main_v66 (broadcastInDim S1x64 ![1] bcast_S64_S1x64_1 : (⟨S64, .f32⟩ : BufTy).Contents (Elt F) → (⟨S1x64, .f32⟩ : BufTy).Contents (Elt F)),
    StableHlo.unary main_v66 main_v67 (broadcastInDim S60000x64 ![0, 1] bcast_S1x64_S60000x64_0_1 : (⟨S1x64, .f32⟩ : BufTy).Contents (Elt F) → (⟨S60000x64, .f32⟩ : BufTy).Contents (Elt F)),
    StableHlo.binary main_v62 main_v67 main_v68 (mulf : (⟨S60000x64, .f32⟩ : BufTy).Contents (Elt F) → (⟨S60000x64, .f32⟩ : BufTy).Contents (Elt F) → (⟨S60000x64, .f32⟩ : BufTy).Contents (Elt F)),
    StableHlo.unary main_arg17 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S60000x64 ![0, 1] bcast_S1x64_S60000x64_0_1 : (⟨S1x64, .f32⟩ : BufTy).Contents (Elt F) → (⟨S60000x64, .f32⟩ : BufTy).Contents (Elt F)),
    StableHlo.binary main_v68 main_v70 main_v71 (mulf : (⟨S60000x64, .f32⟩ : BufTy).Contents (Elt F) → (⟨S60000x64, .f32⟩ : BufTy).Contents (Elt F) → (⟨S60000x64, .f32⟩ : BufTy).Contents (Elt F)),
    StableHlo.unary main_arg18 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S60000x64 ![0, 1] bcast_S1x64_S60000x64_0_1 : (⟨S1x64, .f32⟩ : BufTy).Contents (Elt F) → (⟨S60000x64, .f32⟩ : BufTy).Contents (Elt F)),
    StableHlo.binary main_v71 main_v73 main_v74 (addf : (⟨S60000x64, .f32⟩ : BufTy).Contents (Elt F) → (⟨S60000x64, .f32⟩ : BufTy).Contents (Elt F) → (⟨S60000x64, .f32⟩ : BufTy).Contents (Elt F)),
    StableHlo.nullary main_cst_13 (constant S_ .f32 0x00000000#32),
    StableHlo.unary main_cst_13 main_v75 (broadcastInDim S60000x64 ![] bcast_S_S60000x64 : (⟨S_, .f32⟩ : BufTy).Contents (Elt F) → (⟨S60000x64, .f32⟩ : BufTy).Contents (Elt F)),
    StableHlo.binary main_v74 main_v75 main_v76 (cmpf .oge : (⟨S60000x64, .f32⟩ : BufTy).Contents (Elt F) → (⟨S60000x64, .f32⟩ : BufTy).Contents (Elt F) → (⟨S60000x64, .i1⟩ : BufTy).Contents (Elt F)),
    StableHlo.nullary main_cst_14 (constant S_ .f32 0x3C23D70A#32),
    StableHlo.unary main_cst_14 main_v77 (broadcastInDim S60000x64 ![] bcast_S_S60000x64 : (⟨S_, .f32⟩ : BufTy).Contents (Elt F) → (⟨S60000x64, .f32⟩ : BufTy).Contents (Elt F)),
    StableHlo.binary main_v77 main_v74 main_v78 (mulf : (⟨S60000x64, .f32⟩ : BufTy).Contents (Elt F) → (⟨S60000x64, .f32⟩ : BufTy).Contents (Elt F) → (⟨S60000x64, .f32⟩ : BufTy).Contents (Elt F)),
    StableHlo.TRef.ternary (.of main_v76 : StableHlo.TRef sig ⟨S60000x64, .i1⟩) (.of main_v74 : StableHlo.TRef sig ⟨S60000x64, .f32⟩) (.of main_v78 : StableHlo.TRef sig ⟨S60000x64, .f32⟩) main_call3.v0 select,
    StableHlo.TRef.nullary main_call4.c (constantI S_ 32 0#32),
    StableHlo.TRef.unary main_call4.c main_call4.v0 (broadcastInDim S27x25000 ![] bcast_S_S27x25000),
    StableHlo.TRef.binary (.of main_arg5 : StableHlo.TRef sig ⟨S27x25000, .i32⟩) main_call4.v0 main_call4.v1 (cmpi .slt),
    StableHlo.TRef.nullary main_call4.c_0 (constantI S_ 32 60000#32),
    StableHlo.TRef.unary main_call4.c_0 main_call4.v2 (broadcastInDim S27x25000 ![] bcast_S_S27x25000),
    StableHlo.TRef.binary (.of main_arg5 : StableHlo.TRef sig ⟨S27x25000, .i32⟩) main_call4.v2 main_call4.v3 addi,
    StableHlo.TRef.ternary main_call4.v1 main_call4.v3 (.of main_arg5 : StableHlo.TRef sig ⟨S27x25000, .i32⟩) main_call4.call0.v0 select,
    StableHlo.TRef.unary main_call4.call0.v0 main_call4.v5 (broadcastInDim S27x25000x1 ![0, 1] bcast_S27x25000_S27x25000x1_0_1),
    StableHlo.TRef.nullary main_call4.c_1 (constantI S1 32 59999#32),
    StableHlo.TRef.nullary main_call4.c_2 (constantI S_ 32 0#32),
    StableHlo.TRef.unary main_call4.c_2 main_call4.v6 (broadcastInDim S27x25000x1 ![] bcast_S_S27x25000x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S27x25000x1 ![0, 1, 2] bcast_S1x1x1_S27x25000x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S27x25000x1_S27x25000_d2 h_S_),
    StableHlo.TRef.binary (.of main_v79 : StableHlo.TRef sig ⟨S60000x64, .f32⟩) main_call4.v5 main_call4.v13 (fun x i => Host.gather gather_S60000x64_S27x25000x1_S27x25000x64_2_0_n_n_0_2_164 x i),
    StableHlo.TRef.unary main_call4.v12 main_call4.v14 (broadcastInDim S27x25000x64 ![0, 1] bcast_S27x25000_S27x25000x64_0_1),
    StableHlo.TRef.nullary main_call4.cst (constant S_ .f32 0x7FC00000#32),
    StableHlo.TRef.unary main_call4.cst main_call4.v15 (broadcastInDim S27x25000x64 ![] bcast_S_S27x25000x64),
    StableHlo.TRef.ternary main_call4.v14 main_call4.v13 main_call4.v15 main_call4.v16 select,
    StableHlo.binary main_v80 main_arg10 main_v81 ((fun l r => Host.dotGeneral dot_S27x25000x64_S27x64x64_S27x25000x64_2_1_1_2_0_0 none l r) : (⟨S27x25000x64, .f32⟩ : BufTy).Contents (Elt F) → (⟨S27x64x64, .f32⟩ : BufTy).Contents (Elt F) → (⟨S27x25000x64, .f32⟩ : BufTy).Contents (Elt F)),
    StableHlo.reshape main_v81 main_v82 rfl shapeCasts_S27x25000x64_S675000x64,
    StableHlo.reshape main_arg4 main_v83 rfl shapeCasts_S27x25000_S675000,
    StableHlo.nullary main_cst_15 (constant S_ .f32 0x00000000#32),
    StableHlo.unary main_cst_15 main_v84 (broadcastInDim S60000x64 ![] bcast_S_S60000x64 : (⟨S_, .f32⟩ : BufTy).Contents (Elt F) → (⟨S60000x64, .f32⟩ : BufTy).Contents (Elt F)),
    StableHlo.unary main_v83 main_v85 (broadcastInDim S675000x1 ![0] bcast_S675000_S675000x1_0 : (⟨S675000, .i32⟩ : BufTy).Contents (Elt F) → (⟨S675000x1, .i32⟩ : BufTy).Contents (Elt F)),
    StableHlo.ternary main_v84 main_v85 main_v82 main_v86 ((fun x i u => Host.scatterAdd scatter_S60000x64_S675000x1_S675000x64_1_0_0_1 x i u) : (⟨S60000x64, .f32⟩ : BufTy).Contents (Elt F) → (⟨S675000x1, .i32⟩ : BufTy).Contents (Elt F) → (⟨S675000x64, .f32⟩ : BufTy).Contents (Elt F) → (⟨S60000x64, .f32⟩ : BufTy).Contents (Elt F)),
    StableHlo.unary main_arg11 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S60000x64 ![0, 1] bcast_S1x64_S60000x64_0_1 : (⟨S1x64, .f32⟩ : BufTy).Contents (Elt F) → (⟨S60000x64, .f32⟩ : BufTy).Contents (Elt F)),
    StableHlo.binary main_v86 main_v88 main_v89 (addf : (⟨S60000x64, .f32⟩ : BufTy).Contents (Elt F) → (⟨S60000x64, .f32⟩ : BufTy).Contents (Elt F) → (⟨S60000x64, .f32⟩ : BufTy).Contents (Elt F)),
    StableHlo.nullary main_cst_16 (constant S_ .f32 0x00000000#32),
    StableHlo.binary main_v89 main_cst_16 main_v90 ((fun x v => Host.reduceAdd x v reducesTo_S60000x64_S64_d0 h_S_) : (⟨S60000x64, .f32⟩ : BufTy).Contents (Elt F) → (⟨S_, .f32⟩ : BufTy).Contents (Elt F) → (⟨S64, .f32⟩ : BufTy).Contents (Elt F)),
    StableHlo.nullary main_cst_17 (constant S_ .f32 0x476A6000#32),
    StableHlo.unary main_cst_17 main_v91 (broadcastInDim S64 ![] bcast_S_S64 : (⟨S_, .f32⟩ : BufTy).Contents (Elt F) → (⟨S64, .f32⟩ : BufTy).Contents (Elt F)),
    StableHlo.binary main_v90 main_v91 main_v92 (Host.divf : (⟨S64, .f32⟩ : BufTy).Contents (Elt F) → (⟨S64, .f32⟩ : BufTy).Contents (Elt F) → (⟨S64, .f32⟩ : BufTy).Contents (Elt F)),
    StableHlo.unary main_v92 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S60000x64 ![0, 1] bcast_S1x64_S60000x64_0_1 : (⟨S1x64, .f32⟩ : BufTy).Contents (Elt F) → (⟨S60000x64, .f32⟩ : BufTy).Contents (Elt F)),
    StableHlo.binary main_v89 main_v94 main_v95 (subf : (⟨S60000x64, .f32⟩ : BufTy).Contents (Elt F) → (⟨S60000x64, .f32⟩ : BufTy).Contents (Elt F) → (⟨S60000x64, .f32⟩ : BufTy).Contents (Elt F)),
    StableHlo.binary main_v95 main_v95 main_v96 (mulf : (⟨S60000x64, .f32⟩ : BufTy).Contents (Elt F) → (⟨S60000x64, .f32⟩ : BufTy).Contents (Elt F) → (⟨S60000x64, .f32⟩ : BufTy).Contents (Elt F)),
    StableHlo.nullary main_cst_18 (constant S_ .f32 0x00000000#32),
    StableHlo.binary main_v96 main_cst_18 main_v97 ((fun x v => Host.reduceAdd x v reducesTo_S60000x64_S64_d0 h_S_) : (⟨S60000x64, .f32⟩ : BufTy).Contents (Elt F) → (⟨S_, .f32⟩ : BufTy).Contents (Elt F) → (⟨S64, .f32⟩ : BufTy).Contents (Elt F)),
    StableHlo.nullary main_cst_19 (constant S_ .f32 0x476A6000#32),
    StableHlo.unary main_cst_19 main_v98 (broadcastInDim S64 ![] bcast_S_S64 : (⟨S_, .f32⟩ : BufTy).Contents (Elt F) → (⟨S64, .f32⟩ : BufTy).Contents (Elt F)) ]

/-- The operations of @main's window 2, calls unfolded: 82 operations. -/
abbrev ops2 : List (HloOp τ sig (Elt F)) :=
  [ StableHlo.binary main_v97 main_v98 main_v99 (Host.divf : (⟨S64, .f32⟩ : BufTy).Contents (Elt F) → (⟨S64, .f32⟩ : BufTy).Contents (Elt F) → (⟨S64, .f32⟩ : BufTy).Contents (Elt F)),
    StableHlo.unary main_v92 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S60000x64 ![0, 1] bcast_S1x64_S60000x64_0_1 : (⟨S1x64, .f32⟩ : BufTy).Contents (Elt F) → (⟨S60000x64, .f32⟩ : BufTy).Contents (Elt F)),
    StableHlo.binary main_v89 main_v101 main_v102 (subf : (⟨S60000x64, .f32⟩ : BufTy).Contents (Elt F) → (⟨S60000x64, .f32⟩ : BufTy).Contents (Elt F) → (⟨S60000x64, .f32⟩ : BufTy).Contents (Elt F)),
    StableHlo.nullary main_cst_20 (constant S_ .f32 0x3727C5AC#32),
    StableHlo.unary main_cst_20 main_v103 (broadcastInDim S64 ![] bcast_S_S64 : (⟨S_, .f32⟩ : BufTy).Contents (Elt F) → (⟨S64, .f32⟩ : BufTy).Contents (Elt F)),
    StableHlo.binary main_v99 main_v103 main_v104 (addf : (⟨S64, .f32⟩ : BufTy).Contents (Elt F) → (⟨S64, .f32⟩ : BufTy).Contents (Elt F) → (⟨S64, .f32⟩ : BufTy).Contents (Elt F)),
    StableHlo.unary main_v104 main_v105 (Host.rsqrt : (⟨S64, .f32⟩ : BufTy).Contents (Elt F) → (⟨S64, .f32⟩ : BufTy).Contents (Elt F)),
    StableHlo.unary main_v105 main_v106 (broadcastInDim S1x64 ![1] bcast_S64_S1x64_1 : (⟨S64, .f32⟩ : BufTy).Contents (Elt F) → (⟨S1x64, .f32⟩ : BufTy).Contents (Elt F)),
    StableHlo.unary main_v106 main_v107 (broadcastInDim S60000x64 ![0, 1] bcast_S1x64_S60000x64_0_1 : (⟨S1x64, .f32⟩ : BufTy).Contents (Elt F) → (⟨S60000x64, .f32⟩ : BufTy).Contents (Elt F)),
    StableHlo.binary main_v102 main_v107 main_v108 (mulf : (⟨S60000x64, .f32⟩ : BufTy).Contents (Elt F) → (⟨S60000x64, .f32⟩ : BufTy).Contents (Elt F) → (⟨S60000x64, .f32⟩ : BufTy).Contents (Elt F)),
    StableHlo.unary main_arg19 main_v109 (broadcastInDim S1x64 ![1] bcast_S64_S1x64_1 : (⟨S64, .f32⟩ : BufTy).Contents (Elt F) → (⟨S1x64, .f32⟩ : BufTy).Contents (Elt F)),
    StableHlo.unary main_v109 main_v110 (broadcastInDim S60000x64 ![0, 1] bcast_S1x64_S60000x64_0_1 : (⟨S1x64, .f32⟩ : BufTy).Contents (Elt F) → (⟨S60000x64, .f32⟩ : BufTy).Contents (Elt F)),
    StableHlo.binary main_v108 main_v110 main_v111 (mulf : (⟨S60000x64, .f32⟩ : BufTy).Contents (Elt F) → (⟨S60000x64, .f32⟩ : BufTy).Contents (Elt F) → (⟨S60000x64, .f32⟩ : BufTy).Contents (Elt F)),
    StableHlo.unary main_arg20 main_v112 (broadcastInDim S1x64 ![1] bcast_S64_S1x64_1 : (⟨S64, .f32⟩ : BufTy).Contents (Elt F) → (⟨S1x64, .f32⟩ : BufTy).Contents (Elt F)),
    StableHlo.unary main_v112 main_v113 (broadcastInDim S60000x64 ![0, 1] bcast_S1x64_S60000x64_0_1 : (⟨S1x64, .f32⟩ : BufTy).Contents (Elt F) → (⟨S60000x64, .f32⟩ : BufTy).Contents (Elt F)),
    StableHlo.binary main_v111 main_v113 main_v114 (addf : (⟨S60000x64, .f32⟩ : BufTy).Contents (Elt F) → (⟨S60000x64, .f32⟩ : BufTy).Contents (Elt F) → (⟨S60000x64, .f32⟩ : BufTy).Contents (Elt F)),
    StableHlo.nullary main_cst_21 (constant S_ .f32 0x00000000#32),
    StableHlo.unary main_cst_21 main_v115 (broadcastInDim S60000x64 ![] bcast_S_S60000x64 : (⟨S_, .f32⟩ : BufTy).Contents (Elt F) → (⟨S60000x64, .f32⟩ : BufTy).Contents (Elt F)),
    StableHlo.binary main_v114 main_v115 main_v116 (cmpf .oge : (⟨S60000x64, .f32⟩ : BufTy).Contents (Elt F) → (⟨S60000x64, .f32⟩ : BufTy).Contents (Elt F) → (⟨S60000x64, .i1⟩ : BufTy).Contents (Elt F)),
    StableHlo.nullary main_cst_22 (constant S_ .f32 0x3C23D70A#32),
    StableHlo.unary main_cst_22 main_v117 (broadcastInDim S60000x64 ![] bcast_S_S60000x64 : (⟨S_, .f32⟩ : BufTy).Contents (Elt F) → (⟨S60000x64, .f32⟩ : BufTy).Contents (Elt F)),
    StableHlo.binary main_v117 main_v114 main_v118 (mulf : (⟨S60000x64, .f32⟩ : BufTy).Contents (Elt F) → (⟨S60000x64, .f32⟩ : BufTy).Contents (Elt F) → (⟨S60000x64, .f32⟩ : BufTy).Contents (Elt F)),
    StableHlo.TRef.ternary (.of main_v116 : StableHlo.TRef sig ⟨S60000x64, .i1⟩) (.of main_v114 : StableHlo.TRef sig ⟨S60000x64, .f32⟩) (.of main_v118 : StableHlo.TRef sig ⟨S60000x64, .f32⟩) main_call5.v0 select,
    StableHlo.binary main_v119 main_v39 main_v120 (addf : (⟨S60000x64, .f32⟩ : BufTy).Contents (Elt F) → (⟨S60000x64, .f32⟩ : BufTy).Contents (Elt F) → (⟨S60000x64, .f32⟩ : BufTy).Contents (Elt F)),
    StableHlo.TRef.nullary main_call6.c (constantI S_ 32 0#32),
    StableHlo.TRef.unary main_call6.c main_call6.v0 (broadcastInDim S27x25000 ![] bcast_S_S27x25000),
    StableHlo.TRef.binary (.of main_arg4 : StableHlo.TRef sig ⟨S27x25000, .i32⟩) main_call6.v0 main_call6.v1 (cmpi .slt),
    StableHlo.TRef.nullary main_call6.c_0 (constantI S_ 32 60000#32),
    StableHlo.TRef.unary main_call6.c_0 main_call6.v2 (broadcastInDim S27x25000 ![] bcast_S_S27x25000),
    StableHlo.TRef.binary (.of main_arg4 : StableHlo.TRef sig ⟨S27x25000, .i32⟩) main_call6.v2 main_call6.v3 addi,
    StableHlo.TRef.ternary main_call6.v1 main_call6.v3 (.of main_arg4 : StableHlo.TRef sig ⟨S27x25000, .i32⟩) main_call6.call0.v0 select,
    StableHlo.TRef.unary main_call6.call0.v0 main_call6.v5 (broadcastInDim S27x25000x1 ![0, 1] bcast_S27x25000_S27x25000x1_0_1),
    StableHlo.TRef.nullary main_call6.c_1 (constantI S1 32 59999#32),
    StableHlo.TRef.nullary main_call6.c_2 (constantI S_ 32 0#32),
    StableHlo.TRef.unary main_call6.c_2 main_call6.v6 (broadcastInDim S27x25000x1 ![] bcast_S_S27x25000x1),
    StableHlo.TRef.binary main_call6.v5 main_call6.v6 main_call6.v7 (cmpi .sge),
    StableHlo.TRef.unary main_call6.c_1 main_call6.v8 (broadcastInDim S1x1x1 ![2] bcast_S1_S1x1x1_2),
    StableHlo.TRef.unary main_call6.v8 main_call6.v9 (broadcastInDim S27x25000x1 ![0, 1, 2] bcast_S1x1x1_S27x25000x1_0_1_2),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S27x25000x1_S27x25000_d2 h_S_),
    StableHlo.TRef.binary (.of main_v120 : StableHlo.TRef sig ⟨S60000x64, .f32⟩) main_call6.v5 main_call6.v13 (fun x i => Host.gather gather_S60000x64_S27x25000x1_S27x25000x64_2_0_n_n_0_2_164 x i),
    StableHlo.TRef.unary main_call6.v12 main_call6.v14 (broadcastInDim S27x25000x64 ![0, 1] bcast_S27x25000_S27x25000x64_0_1),
    StableHlo.TRef.nullary main_call6.cst (constant S_ .f32 0x7FC00000#32),
    StableHlo.TRef.unary main_call6.cst main_call6.v15 (broadcastInDim S27x25000x64 ![] bcast_S_S27x25000x64),
    StableHlo.TRef.ternary main_call6.v14 main_call6.v13 main_call6.v15 main_call6.v16 select,
    StableHlo.binary main_v121 main_arg12 main_v122 ((fun l r => Host.dotGeneral dot_S27x25000x64_S27x64x1_S27x25000x1_2_1_1_2_0_0 none l r) : (⟨S27x25000x64, .f32⟩ : BufTy).Contents (Elt F) → (⟨S27x64x1, .f32⟩ : BufTy).Contents (Elt F) → (⟨S27x25000x1, .f32⟩ : BufTy).Contents (Elt F)),
    StableHlo.reshape main_v122 main_v123 rfl shapeCasts_S27x25000x1_S675000x1,
    StableHlo.reshape main_arg5 main_v124 rfl shapeCasts_S27x25000_S675000,
    StableHlo.nullary main_cst_23 (constant S_ .f32 0x00000000#32),
    StableHlo.unary main_cst_23 main_v125 (broadcastInDim S60000x1 ![] bcast_S_S60000x1 : (⟨S_, .f32⟩ : BufTy).Contents (Elt F) → (⟨S60000x1, .f32⟩ : BufTy).Contents (Elt F)),
    StableHlo.unary main_v124 main_v126 (broadcastInDim S675000x1 ![0] bcast_S675000_S675000x1_0 : (⟨S675000, .i32⟩ : BufTy).Contents (Elt F) → (⟨S675000x1, .i32⟩ : BufTy).Contents (Elt F)),
    StableHlo.ternary main_v125 main_v126 main_v123 main_v127 ((fun x i u => Host.scatterAdd scatter_S60000x1_S675000x1_S675000x1_1_0_0_1 x i u) : (⟨S60000x1, .f32⟩ : BufTy).Contents (Elt F) → (⟨S675000x1, .i32⟩ : BufTy).Contents (Elt F) → (⟨S675000x1, .f32⟩ : BufTy).Contents (Elt F) → (⟨S60000x1, .f32⟩ : BufTy).Contents (Elt F)),
    StableHlo.nullary main_cst_24 (constant S_ .f32 0x00000000#32),
    StableHlo.binary main_v127 main_cst_24 main_v128 ((fun x v => Host.reduceAdd x v reducesTo_S60000x1_S1_d0 h_S_) : (⟨S60000x1, .f32⟩ : BufTy).Contents (Elt F) → (⟨S_, .f32⟩ : BufTy).Contents (Elt F) → (⟨S1, .f32⟩ : BufTy).Contents (Elt F)),
    StableHlo.nullary main_cst_25 (constant S_ .f32 0x476A6000#32),
    StableHlo.unary main_cst_25 main_v129 (broadcastInDim S1 ![] bcast_S_S1 : (⟨S_, .f32⟩ : BufTy).Contents (Elt F) → (⟨S1, .f32⟩ : BufTy).Contents (Elt F)),
    StableHlo.binary main_v128 main_v129 main_v130 (Host.divf : (⟨S1, .f32⟩ : BufTy).Contents (Elt F) → (⟨S1, .f32⟩ : BufTy).Contents (Elt F) → (⟨S1, .f32⟩ : BufTy).Contents (Elt F)),
    StableHlo.unary main_v130 main_v131 (broadcastInDim S1x1 ![1] bcast_S1_S1x1_1 : (⟨S1, .f32⟩ : BufTy).Contents (Elt F) → (⟨S1x1, .f32⟩ : BufTy).Contents (Elt F)),
    StableHlo.unary main_v131 main_v132 (broadcastInDim S60000x1 ![0, 1] bcast_S1x1_S60000x1_0_1 : (⟨S1x1, .f32⟩ : BufTy).Contents (Elt F) → (⟨S60000x1, .f32⟩ : BufTy).Contents (Elt F)),
    StableHlo.binary main_v127 main_v132 main_v133 (subf : (⟨S60000x1, .f32⟩ : BufTy).Contents (Elt F) → (⟨S60000x1, .f32⟩ : BufTy).Contents (Elt F) → (⟨S60000x1, .f32⟩ : BufTy).Contents (Elt F)),
    StableHlo.binary main_v133 main_v133 main_v134 (mulf : (⟨S60000x1, .f32⟩ : BufTy).Contents (Elt F) → (⟨S60000x1, .f32⟩ : BufTy).Contents (Elt F) → (⟨S60000x1, .f32⟩ : BufTy).Contents (Elt F)),
    StableHlo.nullary main_cst_26 (constant S_ .f32 0x00000000#32),
    StableHlo.binary main_v134 main_cst_26 main_v135 ((fun x v => Host.reduceAdd x v reducesTo_S60000x1_S1_d0 h_S_) : (⟨S60000x1, .f32⟩ : BufTy).Contents (Elt F) → (⟨S_, .f32⟩ : BufTy).Contents (Elt F) → (⟨S1, .f32⟩ : BufTy).Contents (Elt F)),
    StableHlo.nullary main_cst_27 (constant S_ .f32 0x476A6000#32),
    StableHlo.unary main_cst_27 main_v136 (broadcastInDim S1 ![] bcast_S_S1 : (⟨S_, .f32⟩ : BufTy).Contents (Elt F) → (⟨S1, .f32⟩ : BufTy).Contents (Elt F)),
    StableHlo.binary main_v135 main_v136 main_v137 (Host.divf : (⟨S1, .f32⟩ : BufTy).Contents (Elt F) → (⟨S1, .f32⟩ : BufTy).Contents (Elt F) → (⟨S1, .f32⟩ : BufTy).Contents (Elt F)),
    StableHlo.unary main_v130 main_v138 (broadcastInDim S1x1 ![1] bcast_S1_S1x1_1 : (⟨S1, .f32⟩ : BufTy).Contents (Elt F) → (⟨S1x1, .f32⟩ : BufTy).Contents (Elt F)),
    StableHlo.unary main_v138 main_v139 (broadcastInDim S60000x1 ![0, 1] bcast_S1x1_S60000x1_0_1 : (⟨S1x1, .f32⟩ : BufTy).Contents (Elt F) → (⟨S60000x1, .f32⟩ : BufTy).Contents (Elt F)),
    StableHlo.binary main_v127 main_v139 main_v140 (subf : (⟨S60000x1, .f32⟩ : BufTy).Contents (Elt F) → (⟨S60000x1, .f32⟩ : BufTy).Contents (Elt F) → (⟨S60000x1, .f32⟩ : BufTy).Contents (Elt F)),
    StableHlo.nullary main_cst_28 (constant S_ .f32 0x3727C5AC#32),
    StableHlo.unary main_cst_28 main_v141 (broadcastInDim S1 ![] bcast_S_S1 : (⟨S_, .f32⟩ : BufTy).Contents (Elt F) → (⟨S1, .f32⟩ : BufTy).Contents (Elt F)),
    StableHlo.binary main_v137 main_v141 main_v142 (addf : (⟨S1, .f32⟩ : BufTy).Contents (Elt F) → (⟨S1, .f32⟩ : BufTy).Contents (Elt F) → (⟨S1, .f32⟩ : BufTy).Contents (Elt F)),
    StableHlo.unary main_v142 main_v143 (Host.rsqrt : (⟨S1, .f32⟩ : BufTy).Contents (Elt F) → (⟨S1, .f32⟩ : BufTy).Contents (Elt F)),
    StableHlo.unary main_v143 main_v144 (broadcastInDim S1x1 ![1] bcast_S1_S1x1_1 : (⟨S1, .f32⟩ : BufTy).Contents (Elt F) → (⟨S1x1, .f32⟩ : BufTy).Contents (Elt F)),
    StableHlo.unary main_v144 main_v145 (broadcastInDim S60000x1 ![0, 1] bcast_S1x1_S60000x1_0_1 : (⟨S1x1, .f32⟩ : BufTy).Contents (Elt F) → (⟨S60000x1, .f32⟩ : BufTy).Contents (Elt F)),
    StableHlo.binary main_v140 main_v145 main_v146 (mulf : (⟨S60000x1, .f32⟩ : BufTy).Contents (Elt F) → (⟨S60000x1, .f32⟩ : BufTy).Contents (Elt F) → (⟨S60000x1, .f32⟩ : BufTy).Contents (Elt F)),
    StableHlo.unary main_arg21 main_v147 (broadcastInDim S1x1 ![1] bcast_S1_S1x1_1 : (⟨S1, .f32⟩ : BufTy).Contents (Elt F) → (⟨S1x1, .f32⟩ : BufTy).Contents (Elt F)),
    StableHlo.unary main_v147 main_v148 (broadcastInDim S60000x1 ![0, 1] bcast_S1x1_S60000x1_0_1 : (⟨S1x1, .f32⟩ : BufTy).Contents (Elt F) → (⟨S60000x1, .f32⟩ : BufTy).Contents (Elt F)),
    StableHlo.binary main_v146 main_v148 main_v149 (mulf : (⟨S60000x1, .f32⟩ : BufTy).Contents (Elt F) → (⟨S60000x1, .f32⟩ : BufTy).Contents (Elt F) → (⟨S60000x1, .f32⟩ : BufTy).Contents (Elt F)) ]

/-- The operations of @main's window 3, calls unfolded: 81 operations. -/
abbrev ops3 : List (HloOp τ sig (Elt F)) :=
  [ StableHlo.unary main_arg22 main_v150 (broadcastInDim S1x1 ![1] bcast_S1_S1x1_1 : (⟨S1, .f32⟩ : BufTy).Contents (Elt F) → (⟨S1x1, .f32⟩ : BufTy).Contents (Elt F)),
    StableHlo.unary main_v150 main_v151 (broadcastInDim S60000x1 ![0, 1] bcast_S1x1_S60000x1_0_1 : (⟨S1x1, .f32⟩ : BufTy).Contents (Elt F) → (⟨S60000x1, .f32⟩ : BufTy).Contents (Elt F)),
    StableHlo.binary main_v149 main_v151 main_v152 (addf : (⟨S60000x1, .f32⟩ : BufTy).Contents (Elt F) → (⟨S60000x1, .f32⟩ : BufTy).Contents (Elt F) → (⟨S60000x1, .f32⟩ : BufTy).Contents (Elt F)),
    StableHlo.nullary main_cst_29 (constant S_ .f32 0x00000000#32),
    StableHlo.unary main_cst_29 main_v153 (broadcastInDim S60000x1 ![] bcast_S_S60000x1 : (⟨S_, .f32⟩ : BufTy).Contents (Elt F) → (⟨S60000x1, .f32⟩ : BufTy).Contents (Elt F)),
    StableHlo.binary main_v152 main_v153 main_v154 (cmpf .oge : (⟨S60000x1, .f32⟩ : BufTy).Contents (Elt F) → (⟨S60000x1, .f32⟩ : BufTy).Contents (Elt F) → (⟨S60000x1, .i1⟩ : BufTy).Contents (Elt F)),
    StableHlo.nullary main_cst_30 (constant S_ .f32 0x3C23D70A#32),
    StableHlo.unary main_cst_30 main_v155 (broadcastInDim S60000x1 ![] bcast_S_S60000x1 : (⟨S_, .f32⟩ : BufTy).Contents (Elt F) → (⟨S60000x1, .f32⟩ : BufTy).Contents (Elt F)),
    StableHlo.binary main_v155 main_v152 main_v156 (mulf : (⟨S60000x1, .f32⟩ : BufTy).Contents (Elt F) → (⟨S60000x1, .f32⟩ : BufTy).Contents (Elt F) → (⟨S60000x1, .f32⟩ : BufTy).Contents (Elt F)),
    StableHlo.TRef.ternary (.of main_v154 : StableHlo.TRef sig ⟨S60000x1, .i1⟩) (.of main_v152 : StableHlo.TRef sig ⟨S60000x1, .f32⟩) (.of main_v156 : StableHlo.TRef sig ⟨S60000x1, .f32⟩) main_call7.v0 select,
    StableHlo.TRef.nullary main_call8.c (constantI S_ 32 0#32),
    StableHlo.TRef.unary main_call8.c main_call8.v0 (broadcastInDim S27x40000 ![] bcast_S_S27x40000),
    StableHlo.TRef.binary (.of main_arg3 : StableHlo.TRef sig ⟨S27x40000, .i32⟩) main_call8.v0 main_call8.v1 (cmpi .slt),
    StableHlo.TRef.nullary main_call8.c_0 (constantI S_ 32 60000#32),
    StableHlo.TRef.unary main_call8.c_0 main_call8.v2 (broadcastInDim S27x40000 ![] bcast_S_S27x40000),
    StableHlo.TRef.binary (.of main_arg3 : StableHlo.TRef sig ⟨S27x40000, .i32⟩) main_call8.v2 main_call8.v3 addi,
    StableHlo.TRef.ternary main_call8.v1 main_call8.v3 (.of main_arg3 : StableHlo.TRef sig ⟨S27x40000, .i32⟩) main_call8.call0.v0 select,
    StableHlo.TRef.unary main_call8.call0.v0 main_call8.v5 (broadcastInDim S27x40000x1 ![0, 1] bcast_S27x40000_S27x40000x1_0_1),
    StableHlo.TRef.nullary main_call8.c_1 (constantI S1 32 59999#32),
    StableHlo.TRef.nullary main_call8.c_2 (constantI S_ 32 0#32),
    StableHlo.TRef.unary main_call8.c_2 main_call8.v6 (broadcastInDim S27x40000x1 ![] bcast_S_S27x40000x1),
    StableHlo.TRef.binary main_call8.v5 main_call8.v6 main_call8.v7 (cmpi .sge),
    StableHlo.TRef.unary main_call8.c_1 main_call8.v8 (broadcastInDim S1x1x1 ![2] bcast_S1_S1x1x1_2),
    StableHlo.TRef.unary main_call8.v8 main_call8.v9 (broadcastInDim S27x40000x1 ![0, 1, 2] bcast_S1x1x1_S27x40000x1_0_1_2),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S27x40000x1_S27x40000_d2 h_S_),
    StableHlo.TRef.binary (.of main_v157 : StableHlo.TRef sig ⟨S60000x1, .f32⟩) main_call8.v5 main_call8.v13 (fun x i => Host.gather gather_S60000x1_S27x40000x1_S27x40000x1_2_0_n_n_0_2_11 x i),
    StableHlo.TRef.unary main_call8.v12 main_call8.v14 (broadcastInDim S27x40000x1 ![0, 1] bcast_S27x40000_S27x40000x1_0_1),
    StableHlo.TRef.nullary main_call8.cst (constant S_ .f32 0x7FC00000#32),
    StableHlo.TRef.unary main_call8.cst main_call8.v15 (broadcastInDim S27x40000x1 ![] bcast_S_S27x40000x1),
    StableHlo.TRef.ternary main_call8.v14 main_call8.v13 main_call8.v15 main_call8.v16 select,
    StableHlo.binary main_v158 main_arg13 main_v159 ((fun l r => Host.dotGeneral dot_S27x40000x1_S27x1x64_S27x40000x64_2_1_1_2_0_0 none l r) : (⟨S27x40000x1, .f32⟩ : BufTy).Contents (Elt F) → (⟨S27x1x64, .f32⟩ : BufTy).Contents (Elt F) → (⟨S27x40000x64, .f32⟩ : BufTy).Contents (Elt F)),
    StableHlo.reshape main_v159 main_v160 rfl shapeCasts_S27x40000x64_S1080000x64,
    StableHlo.reshape main_arg2 main_v161 rfl shapeCasts_S27x40000_S1080000,
    StableHlo.nullary main_cst_31 (constant S_ .f32 0x00000000#32),
    StableHlo.unary main_cst_31 main_v162 (broadcastInDim S200000x64 ![] bcast_S_S200000x64 : (⟨S_, .f32⟩ : BufTy).Contents (Elt F) → (⟨S200000x64, .f32⟩ : BufTy).Contents (Elt F)),
    StableHlo.unary main_v161 main_v163 (broadcastInDim S1080000x1 ![0] bcast_S1080000_S1080000x1_0 : (⟨S1080000, .i32⟩ : BufTy).Contents (Elt F) → (⟨S1080000x1, .i32⟩ : BufTy).Contents (Elt F)),
    StableHlo.ternary main_v162 main_v163 main_v160 main_v164 ((fun x i u => Host.scatterAdd scatter_S200000x64_S1080000x1_S1080000x64_1_0_0_1 x i u) : (⟨S200000x64, .f32⟩ : BufTy).Contents (Elt F) → (⟨S1080000x1, .i32⟩ : BufTy).Contents (Elt F) → (⟨S1080000x64, .f32⟩ : BufTy).Contents (Elt F) → (⟨S200000x64, .f32⟩ : BufTy).Contents (Elt F)),
    StableHlo.unary main_arg14 main_v165 (broadcastInDim S1x64 ![1] bcast_S64_S1x64_1 : (⟨S64, .f32⟩ : BufTy).Contents (Elt F) → (⟨S1x64, .f32⟩ : BufTy).Contents (Elt F)),
    StableHlo.unary main_v165 main_v166 (broadcastInDim S200000x64 ![0, 1] bcast_S1x64_S200000x64_0_1 : (⟨S1x64, .f32⟩ : BufTy).Contents (Elt F) → (⟨S200000x64, .f32⟩ : BufTy).Contents (Elt F)),
    StableHlo.binary main_v164 main_v166 main_v167 (addf : (⟨S200000x64, .f32⟩ : BufTy).Contents (Elt F) → (⟨S200000x64, .f32⟩ : BufTy).Contents (Elt F) → (⟨S200000x64, .f32⟩ : BufTy).Contents (Elt F)),
    StableHlo.nullary main_cst_32 (constant S_ .f32 0x00000000#32),
    StableHlo.binary main_v167 main_cst_32 main_v168 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    StableHlo.nullary main_cst_33 (constant S_ .f32 0x48435000#32),
    StableHlo.unary main_cst_33 main_v169 (broadcastInDim S64 ![] bcast_S_S64 : (⟨S_, .f32⟩ : BufTy).Contents (Elt F) → (⟨S64, .f32⟩ : BufTy).Contents (Elt F)),
    StableHlo.binary main_v168 main_v169 main_v170 (Host.divf : (⟨S64, .f32⟩ : BufTy).Contents (Elt F) → (⟨S64, .f32⟩ : BufTy).Contents (Elt F) → (⟨S64, .f32⟩ : BufTy).Contents (Elt F)),
    StableHlo.unary main_v170 main_v171 (broadcastInDim S1x64 ![1] bcast_S64_S1x64_1 : (⟨S64, .f32⟩ : BufTy).Contents (Elt F) → (⟨S1x64, .f32⟩ : BufTy).Contents (Elt F)),
    StableHlo.unary main_v171 main_v172 (broadcastInDim S200000x64 ![0, 1] bcast_S1x64_S200000x64_0_1 : (⟨S1x64, .f32⟩ : BufTy).Contents (Elt F) → (⟨S200000x64, .f32⟩ : BufTy).Contents (Elt F)),
    StableHlo.binary main_v167 main_v172 main_v173 (subf : (⟨S200000x64, .f32⟩ : BufTy).Contents (Elt F) → (⟨S200000x64, .f32⟩ : BufTy).Contents (Elt F) → (⟨S200000x64, .f32⟩ : BufTy).Contents (Elt F)),
    StableHlo.binary main_v173 main_v173 main_v174 (mulf : (⟨S200000x64, .f32⟩ : BufTy).Contents (Elt F) → (⟨S200000x64, .f32⟩ : BufTy).Contents (Elt F) → (⟨S200000x64, .f32⟩ : BufTy).Contents (Elt F)),
    StableHlo.nullary main_cst_34 (constant S_ .f32 0x00000000#32),
    StableHlo.binary main_v174 main_cst_34 main_v175 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    StableHlo.nullary main_cst_35 (constant S_ .f32 0x48435000#32),
    StableHlo.unary main_cst_35 main_v176 (broadcastInDim S64 ![] bcast_S_S64 : (⟨S_, .f32⟩ : BufTy).Contents (Elt F) → (⟨S64, .f32⟩ : BufTy).Contents (Elt F)),
    StableHlo.binary main_v175 main_v176 main_v177 (Host.divf : (⟨S64, .f32⟩ : BufTy).Contents (Elt F) → (⟨S64, .f32⟩ : BufTy).Contents (Elt F) → (⟨S64, .f32⟩ : BufTy).Contents (Elt F)),
    StableHlo.unary main_v170 main_v178 (broadcastInDim S1x64 ![1] bcast_S64_S1x64_1 : (⟨S64, .f32⟩ : BufTy).Contents (Elt F) → (⟨S1x64, .f32⟩ : BufTy).Contents (Elt F)),
    StableHlo.unary main_v178 main_v179 (broadcastInDim S200000x64 ![0, 1] bcast_S1x64_S200000x64_0_1 : (⟨S1x64, .f32⟩ : BufTy).Contents (Elt F) → (⟨S200000x64, .f32⟩ : BufTy).Contents (Elt F)),
    StableHlo.binary main_v167 main_v179 main_v180 (subf : (⟨S200000x64, .f32⟩ : BufTy).Contents (Elt F) → (⟨S200000x64, .f32⟩ : BufTy).Contents (Elt F) → (⟨S200000x64, .f32⟩ : BufTy).Contents (Elt F)),
    StableHlo.nullary main_cst_36 (constant S_ .f32 0x3727C5AC#32),
    StableHlo.unary main_cst_36 main_v181 (broadcastInDim S64 ![] bcast_S_S64 : (⟨S_, .f32⟩ : BufTy).Contents (Elt F) → (⟨S64, .f32⟩ : BufTy).Contents (Elt F)),
    StableHlo.binary main_v177 main_v181 main_v182 (addf : (⟨S64, .f32⟩ : BufTy).Contents (Elt F) → (⟨S64, .f32⟩ : BufTy).Contents (Elt F) → (⟨S64, .f32⟩ : BufTy).Contents (Elt F)),
    StableHlo.unary main_v182 main_v183 (Host.rsqrt : (⟨S64, .f32⟩ : BufTy).Contents (Elt F) → (⟨S64, .f32⟩ : BufTy).Contents (Elt F)),
    StableHlo.unary main_v183 main_v184 (broadcastInDim S1x64 ![1] bcast_S64_S1x64_1 : (⟨S64, .f32⟩ : BufTy).Contents (Elt F) → (⟨S1x64, .f32⟩ : BufTy).Contents (Elt F)),
    StableHlo.unary main_v184 main_v185 (broadcastInDim S200000x64 ![0, 1] bcast_S1x64_S200000x64_0_1 : (⟨S1x64, .f32⟩ : BufTy).Contents (Elt F) → (⟨S200000x64, .f32⟩ : BufTy).Contents (Elt F)),
    StableHlo.binary main_v180 main_v185 main_v186 (mulf : (⟨S200000x64, .f32⟩ : BufTy).Contents (Elt F) → (⟨S200000x64, .f32⟩ : BufTy).Contents (Elt F) → (⟨S200000x64, .f32⟩ : BufTy).Contents (Elt F)),
    StableHlo.unary main_arg23 main_v187 (broadcastInDim S1x64 ![1] bcast_S64_S1x64_1 : (⟨S64, .f32⟩ : BufTy).Contents (Elt F) → (⟨S1x64, .f32⟩ : BufTy).Contents (Elt F)),
    StableHlo.unary main_v187 main_v188 (broadcastInDim S200000x64 ![0, 1] bcast_S1x64_S200000x64_0_1 : (⟨S1x64, .f32⟩ : BufTy).Contents (Elt F) → (⟨S200000x64, .f32⟩ : BufTy).Contents (Elt F)),
    StableHlo.binary main_v186 main_v188 main_v189 (mulf : (⟨S200000x64, .f32⟩ : BufTy).Contents (Elt F) → (⟨S200000x64, .f32⟩ : BufTy).Contents (Elt F) → (⟨S200000x64, .f32⟩ : BufTy).Contents (Elt F)),
    StableHlo.unary main_arg24 main_v190 (broadcastInDim S1x64 ![1] bcast_S64_S1x64_1 : (⟨S64, .f32⟩ : BufTy).Contents (Elt F) → (⟨S1x64, .f32⟩ : BufTy).Contents (Elt F)),
    StableHlo.unary main_v190 main_v191 (broadcastInDim S200000x64 ![0, 1] bcast_S1x64_S200000x64_0_1 : (⟨S1x64, .f32⟩ : BufTy).Contents (Elt F) → (⟨S200000x64, .f32⟩ : BufTy).Contents (Elt F)),
    StableHlo.binary main_v189 main_v191 main_v192 (addf : (⟨S200000x64, .f32⟩ : BufTy).Contents (Elt F) → (⟨S200000x64, .f32⟩ : BufTy).Contents (Elt F) → (⟨S200000x64, .f32⟩ : BufTy).Contents (Elt F)),
    StableHlo.unary main_v192 main_v193 (Host.negf : (⟨S200000x64, .f32⟩ : BufTy).Contents (Elt F) → (⟨S200000x64, .f32⟩ : BufTy).Contents (Elt F)),
    StableHlo.unary main_v193 main_v194 (Host.exp : (⟨S200000x64, .f32⟩ : BufTy).Contents (Elt F) → (⟨S200000x64, .f32⟩ : BufTy).Contents (Elt F)),
    StableHlo.nullary main_cst_37 (constant S_ .f32 0x3F800000#32),
    StableHlo.unary main_cst_37 main_v195 (broadcastInDim S200000x64 ![] bcast_S_S200000x64 : (⟨S_, .f32⟩ : BufTy).Contents (Elt F) → (⟨S200000x64, .f32⟩ : BufTy).Contents (Elt F)),
    StableHlo.binary main_v195 main_v194 main_v196 (addf : (⟨S200000x64, .f32⟩ : BufTy).Contents (Elt F) → (⟨S200000x64, .f32⟩ : BufTy).Contents (Elt F) → (⟨S200000x64, .f32⟩ : BufTy).Contents (Elt F)),
    StableHlo.nullary main_cst_38 (constant S_ .f32 0x3F800000#32),
    StableHlo.unary main_cst_38 main_v197 (broadcastInDim S200000x64 ![] bcast_S_S200000x64 : (⟨S_, .f32⟩ : BufTy).Contents (Elt F) → (⟨S200000x64, .f32⟩ : BufTy).Contents (Elt F)),
    StableHlo.binary main_v197 main_v196 main_v198 (Host.divf : (⟨S200000x64, .f32⟩ : BufTy).Contents (Elt F) → (⟨S200000x64, .f32⟩ : BufTy).Contents (Elt F) → (⟨S200000x64, .f32⟩ : BufTy).Contents (Elt F)) ]

/-- @main's operations, in order: the four windows one after the other. -/
abbrev ops : List (HloOp τ sig (Elt F)) := ops0 ++ (ops1 ++ (ops2 ++ ops3))

set_option maxRecDepth 8192 in
set_option maxHeartbeats 4000000 in
/-- Window 0 is its list run in order: the calls unfold to their bodies, and sequencing re-associates by computation. -/
theorem main_part0_eq (c : Dev nD) : main_part0 (F := F) c = seq ops0 := rfl

set_option maxRecDepth 8192 in
set_option maxHeartbeats 4000000 in
/-- Window 1 is its list run in order: the calls unfold to their bodies, and sequencing re-associates by computation. -/
theorem main_part1_eq (c : Dev nD) : main_part1 (F := F) c = seq ops1 := rfl

set_option maxRecDepth 8192 in
set_option maxHeartbeats 4000000 in
/-- Window 2 is its list run in order: the calls unfold to their bodies, and sequencing re-associates by computation. -/
theorem main_part2_eq (c : Dev nD) : main_part2 (F := F) c = seq ops2 := rfl

set_option maxRecDepth 8192 in
set_option maxHeartbeats 4000000 in
/-- Window 3 is its list run in order: the calls unfold to their bodies, and sequencing re-associates by computation. -/
theorem main_part3_eq (c : Dev nD) : main_part3 (F := F) c = seq ops3 := rfl

set_option maxRecDepth 8192 in
/-- @main is the whole line run in order. -/
theorem main_eq (c : Dev nD) : main (F := F) c = seq ops := by
  simp only [ops, seq_append, ← main_part0_eq c, ← main_part1_eq c, ← main_part2_eq c, ← main_part3_eq c]
  rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., reshape_bufs_sub .., reshape_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., reshape_bufs_sub .., reshape_bufs_sub .., nullary_bufs_sub .., unary_bufs_sub .., unary_bufs_sub .., ternary_bufs_sub .., unary_bufs_sub .., unary_bufs_sub .., binary_bufs_sub .., nullary_bufs_sub ..⟩

set_option maxRecDepth 8192 in
theorem ops1_sub : (ops1 : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., reshape_bufs_sub .., reshape_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub ..⟩

set_option maxRecDepth 8192 in
theorem ops2_sub : (ops2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., reshape_bufs_sub .., reshape_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

set_option maxRecDepth 8192 in
theorem ops3_sub : (ops3 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., reshape_bufs_sub .., reshape_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- Every operation reads and writes TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation determines its result: none leaves a buffer with arbitrary contents. -/
theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

end Cert.ReferenceIdeal.RefRun

end
-- ==== Proof.LibHostRead.lean ====
/-
  Reading the contents of a buffer after a long straight line of host operations.

  `StableHlo.after ops V` is what the buffers hold once the operations `ops` have run in order from
  contents `V`. When the line is in single-assignment form — operation number `k` writes exactly the
  reference `W[k]`, and nothing an operation reads or writes is written again later — the FINAL contents
  satisfy each operation's own equation: the result buffer of operation `k` holds the operation's function
  of the final contents of its operands. These are the lemmas `after_nullary_fix`, `after_unary_fix`,
  `after_binary_fix`, `after_ternary_fix`, `after_reshape_fix` below, one per builder.

  Their side conditions are made to be cheap on a literal list of a couple of hundred operations:
  * `Aligned ops W`, proved ONCE per line: the operations and the list of the references they write, paired
    in order (on literal lists it unfolds to a conjunction of equations each closed by `rfl`);
  * `ops[k]? = some (unary x y f hx hy)` for the literal position `k`, closed by `rfl`;
  * that the operands and the result are not among the references written after position `k`,
    `x ∉ W.drop (k + 1)`, and that an operand is not the result, `x ≠ y`: decided over references.
  Nothing is unfolded along the line: the cost of one reading does not grow with the operations before it.
-/
import Idealize.ShloMosaic.Lib.StableHlo
import Idealize.ShloMosaic.Lib.StableHlo.Run

noncomputable section

namespace LibHostRead

open Idealize.ShloMosaic Idealize.ShloMosaic.StableHlo

variable {τ : Topo} {sig : RefSig} {Val : EltTy → Type}

/-- Two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations `ops` write exactly the references `W`, one each, paired in order. -/
def Aligned : List (HloOp τ sig Val) → List (Ref sig .tc) → Prop
  | [], [] => True
  | op :: ops, y :: W => op.writes = {Proc.devRef (τ := τ) .tc y} ∧ Aligned ops W
  | [], _ :: _ => False
  | _ :: _, [] => False

theorem Aligned.drop : ∀ {ops : List (HloOp τ sig Val)} {W : List (Ref sig .tc)}, Aligned ops W →
    ∀ n : Nat, Aligned (ops.drop n) (W.drop n)
  | _, _, h, 0 => h
  | [], [], _, _ + 1 => trivial
  | _ :: _, _ :: _, h, n + 1 => Aligned.drop h.2 n
  | [], _ :: _, h, _ + 1 => h.elim
  | _ :: _, [], h, _ + 1 => h.elim

/-- Every operation of an aligned line writes one reference, and that reference is in the list. -/
theorem Aligned.writes_of_mem : ∀ {ops : List (HloOp τ sig Val)} {W : List (Ref sig .tc)}, Aligned ops W →
    ∀ op ∈ ops, ∃ y ∈ W, op.writes = {Proc.devRef (τ := τ) .tc y}
  | [], [], _, _, hop => (List.not_mem_nil hop).elim
  | o :: _, y :: _, h, op, hop => by
    rcases List.mem_cons.mp hop with rfl | hop
    · exact ⟨y, List.mem_cons_self, h.1⟩
    · obtain ⟨z, hz, e⟩ := Aligned.writes_of_mem h.2 op hop
      exact ⟨z, List.mem_cons_of_mem _ hz, e⟩
  | [], _ :: _, h, _, _ => h.elim
  | _ :: _, [], h, _, _ => h.elim

/-- A reference not among those written after position `k` is written by no operation after position `k`. -/
theorem Aligned.not_written_after {ops : List (HloOp τ sig Val)} {W : List (Ref sig .tc)} (hA : Aligned ops W) (k : Nat)
    {r : Ref sig .tc} (hr : r ∉ W.drop (k + 1)) : ∀ op ∈ ops.drop (k + 1), Proc.devRef (τ := τ) .tc r ∉ op.writes := by
  intro op hop hmem
  obtain ⟨y, hy, e⟩ := (hA.drop (k + 1)).writes_of_mem op hop
  rw [e, Finset.mem_singleton] at hmem
  exact hr (Proc.devRef_injective _ hmem ▸ hy)

/-- The contents of a buffer after the line, when nothing after position `k` writes it: what operation `k` leaves
    there, run from the contents the operations before it leave. -/
theorem after_eq_result_of_not_written {ops : List (HloOp τ sig Val)} {k : Nat} {op : HloOp τ sig Val}
    (hk : ops[k]? = some op) (V : Valuation τ sig Val) {b : DevRef τ sig}
    (hpost : ∀ o ∈ ops.drop (k + 1), b ∉ o.writes) :
    after ops V b = op.result (after (ops.take k) V) b := by
  obtain ⟨hlt, rfl⟩ := List.getElem?_eq_some_iff.mp hk
  have hsplit : ops = ops.take k ++ ops[k] :: ops.drop (k + 1) := by
    rw [← List.drop_eq_getElem_cons hlt, List.take_append_drop]
  conv_lhs => rw [hsplit]
  rw [after_append, after_cons, after_of_forall_not_mem _ _ hpost]

section Fix

variable {ops : List (HloOp τ sig Val)} {W : List (Ref sig .tc)} (hA : Aligned ops W) (k : Nat)
include hA

/-- A constant's buffer holds the constant at the end. -/
theorem after_nullary_fix {y : Ref sig .tc} {v : y.ty.Contents Val} {hy}
    (hk : ops[k]? = some (nullary y v hy)) (hy' : y ∉ W.drop (k + 1)) (V : Valuation τ sig Val) :
    after ops V (Proc.devRef .tc y) = v := by
  rw [after_eq_result_of_not_written hk V (hA.not_written_after k hy'), nullary_result]

/-- A one-operand operation's result buffer holds, at the end, its function of the operand's final contents. -/
theorem after_unary_fix {x y : Ref sig .tc} {f : x.ty.Contents Val → y.ty.Contents Val} {hx hy}
    (hk : ops[k]? = some (unary x y f hx hy)) (hxy : x ≠ y) (hx' : x ∉ W.drop (k + 1)) (hy' : y ∉ W.drop (k + 1))
    (V : Valuation τ sig Val) :
    after ops V (Proc.devRef .tc y) = f (after ops V (Proc.devRef .tc x)) := by
  rw [after_eq_result_of_not_written hk V (hA.not_written_after k hy'), unary_result,
    after_eq_result_of_not_written hk V (hA.not_written_after k hx'), unary_result_ne _ _ _ _ _ _ hxy]

/-- A two-operand operation's. -/
theorem after_binary_fix {a b y : Ref sig .tc} {f : a.ty.Contents Val → b.ty.Contents Val → y.ty.Contents Val} {ha hb hy}
    (hk : ops[k]? = some (binary a b y f ha hb hy)) (hay : a ≠ y) (hby : b ≠ y)
    (ha' : a ∉ W.drop (k + 1)) (hb' : b ∉ W.drop (k + 1)) (hy' : y ∉ W.drop (k + 1)) (V : Valuation τ sig Val) :
    after ops V (Proc.devRef .tc y) = f (after ops V (Proc.devRef .tc a)) (after ops V (Proc.devRef .tc b)) := by
  rw [after_eq_result_of_not_written hk V (hA.not_written_after k hy'), binary_result,
    after_eq_result_of_not_written hk V (hA.not_written_after k ha'), binary_result_ne _ _ _ _ _ _ _ _ hay,
    after_eq_result_of_not_written hk V (hA.not_written_after k hb'), binary_result_ne _ _ _ _ _ _ _ _ hby]

/-- A three-operand operation's. -/
theorem after_ternary_fix {c a b y : Ref sig .tc}
    {f : c.ty.Contents Val → a.ty.Contents Val → b.ty.Contents Val → y.ty.Contents Val} {hc ha hb hy}
    (hk : ops[k]? = some (ternary c a b y f hc ha hb hy)) (hcy : c ≠ y) (hay : a ≠ y) (hby : b ≠ y)
    (hc' : c ∉ W.drop (k + 1)) (ha' : a ∉ W.drop (k + 1)) (hb' : b ∉ W.drop (k + 1)) (hy' : y ∉ W.drop (k + 1))
    (V : Valuation τ sig Val) :
    after ops V (Proc.devRef .tc y)
      = f (after ops V (Proc.devRef .tc c)) (after ops V (Proc.devRef .tc a)) (after ops V (Proc.devRef .tc b)) := by
  rw [after_eq_result_of_not_written hk V (hA.not_written_after k hy'), ternary_result,
    after_eq_result_of_not_written hk V (hA.not_written_after k hc'), ternary_result_ne _ _ _ _ _ _ _ _ _ _ hcy,
    after_eq_result_of_not_written hk V (hA.not_written_after k ha'), ternary_result_ne _ _ _ _ _ _ _ _ _ _ hay,
    after_eq_result_of_not_written hk V (hA.not_written_after k hb'), ternary_result_ne _ _ _ _ _ _ _ _ _ _ hby]

/-- A reshape's result buffer holds, at the end, the operand's final contents in row-major order at the result's shape. -/
theorem after_reshape_fix {x y : Ref sig .tc} {he : x.ty.elt = y.ty.elt} {hn : x.ty.shape.ShapeCasts y.ty.shape} {hx hy}
    (hk : ops[k]? = some (reshape x y he hn hx hy)) (hxy : x ≠ y) (hx' : x ∉ W.drop (k + 1)) (hy' : y ∉ W.drop (k + 1))
    (V : Valuation τ sig Val) :
    after ops V (Proc.devRef .tc y) = fun i => he ▸ shapeCast y.ty.shape (after ops V (Proc.devRef .tc x)) hn i := by
  rw [after_eq_result_of_not_written hk V (hA.not_written_after k hy'), reshape_result,
    after_eq_result_of_not_written hk V (hA.not_written_after k hx'), reshape_result_ne _ _ _ _ _ _ _ hxy]

end Fix

/-- A reference the line never writes keeps its contents (for the line's arguments). -/
theorem after_of_not_written {ops : List (HloOp τ sig Val)} {W : List (Ref sig .tc)} (hA : Aligned ops W)
    {r : Ref sig .tc} (hr : r ∉ W) (V : Valuation τ sig Val) :
    after ops V (Proc.devRef .tc r) = V (Proc.devRef .tc r) :=
  after_of_forall_not_mem ops V fun op hop hmem => by
    obtain ⟨y, hy, e⟩ := hA.writes_of_mem op hop
    rw [e, Finset.mem_singleton] at hmem
    exact hr (Proc.devRef_injective _ hmem ▸ hy)

end LibHostRead

end
-- ==== Proof.RefRun.lean ====
/-
  The run of the reference program, read back.

  @main is a straight line of host operations in single-assignment form: operation number k writes one
  buffer of its own, and no argument array is among the buffers written. So every weakly fair execution
  terminates, the result buffer ends at the fold of the operations over the launch contents, and each
  argument array ends as it was at launch.
-/
import proofs.«180908_j8211977470570_1_alg».proof.Proof.Gen.ReferenceIdeal
import Idealize.ShloMosaic.Lib.StableHlo.Run
import proofs.«180908_j8211977470570_1_alg».proof.Proof.RefRunOps
import proofs.«180908_j8211977470570_1_alg».proof.Proof.LibHostRead

noncomputable section

namespace Cert.ReferenceIdeal.RefRun

open Cert.ReferenceIdeal Cert.ReferenceIdeal.Gen Idealize.ShloMosaic Idealize.ShloMosaic.TcCoe Idealize.SL.Sem Idealize.ShloMosaic.StableHlo LibHostRead

variable {F : FTy → Type} [FloatOps F]

/-- The buffers window 0's operations write, in order. -/
abbrev W0 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_v1, main_v2, main_v3, main_cst, main_v4, main_v5, main_v6, main_v7, main_v8, main_v9, main_cst_0, main_v10, main_cst_1, main_v11, main_v12, main_v13, main_v14, main_v15, main_v16, main_cst_2, main_v17, main_cst_3, main_v18, main_v19, main_v20, main_v21, main_v22, main_cst_4, main_v23, main_v24, main_v25, main_v26, main_v27, main_v28, main_v29, main_v30, main_v31, main_v32, main_v33, main_v34, main_cst_5, main_v35, main_v36, main_cst_6, main_v37, main_v38, main_v39, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v40, main_v41, main_v42, main_v43, main_cst_7, main_v44, main_v45, main_v46, main_v47, main_v48, main_v49, main_cst_8]

/-- The buffers window 1's operations write, in order. -/
abbrev W1 : List (Ref sig .tc) :=
  [main_v50, main_cst_9, main_v51, main_v52, main_v53, main_v54, main_v55, main_v56, main_cst_10, main_v57, main_cst_11, main_v58, main_v59, main_v60, main_v61, main_v62, main_cst_12, main_v63, main_v64, main_v65, main_v66, main_v67, main_v68, main_v69, main_v70, main_v71, main_v72, main_v73, main_v74, main_cst_13, main_v75, main_v76, main_cst_14, main_v77, main_v78, main_v79, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v80, main_v81, main_v82, main_v83, main_cst_15, main_v84, main_v85, main_v86, main_v87, main_v88, main_v89, main_cst_16, main_v90, main_cst_17, main_v91, main_v92, main_v93, main_v94, main_v95, main_v96, main_cst_18, main_v97, main_cst_19, main_v98]

/-- The buffers window 2's operations write, in order. -/
abbrev W2 : List (Ref sig .tc) :=
  [main_v99, main_v100, main_v101, main_v102, main_cst_20, main_v103, main_v104, main_v105, main_v106, main_v107, main_v108, main_v109, main_v110, main_v111, main_v112, main_v113, main_v114, main_cst_21, main_v115, main_v116, main_cst_22, main_v117, main_v118, main_v119, main_v120, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v121, main_v122, main_v123, main_v124, main_cst_23, main_v125, main_v126, main_v127, main_cst_24, main_v128, main_cst_25, main_v129, main_v130, main_v131, main_v132, main_v133, main_v134, main_cst_26, main_v135, main_cst_27, main_v136, main_v137, main_v138, main_v139, main_v140, main_cst_28, main_v141, main_v142, main_v143, main_v144, main_v145, main_v146, main_v147, main_v148, main_v149]

/-- The buffers window 3's operations write, in order. -/
abbrev W3 : List (Ref sig .tc) :=
  [main_v150, main_v151, main_v152, main_cst_29, main_v153, main_v154, main_cst_30, main_v155, main_v156, main_v157, main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v158, main_v159, main_v160, main_v161, main_cst_31, main_v162, main_v163, main_v164, main_v165, main_v166, main_v167, main_cst_32, main_v168, main_cst_33, main_v169, main_v170, main_v171, main_v172, main_v173, main_v174, main_cst_34, main_v175, main_cst_35, main_v176, main_v177, main_v178, main_v179, main_v180, main_cst_36, main_v181, main_v182, main_v183, main_v184, main_v185, main_v186, main_v187, main_v188, main_v189, main_v190, main_v191, main_v192, main_v193, main_v194, main_cst_37, main_v195, main_v196, main_cst_38, main_v197, main_v198]

/-- The buffers @main's operations write, in order. -/
abbrev W : List (Ref sig .tc) := W0 ++ (W1 ++ (W2 ++ W3))

theorem aligned_nil {τ : Topo} {sig : RefSig} {Val : EltTy → Type} : Aligned ([] : List (HloOp τ sig Val)) [] := trivial

theorem aligned_cons {τ : Topo} {sig : RefSig} {Val : EltTy → Type} {op : HloOp τ sig Val} {l : List (HloOp τ sig Val)}
    {y : Ref sig .tc} {Wl : List (Ref sig .tc)} (h : op.writes = {Proc.devRef (τ := τ) .tc y}) (t : Aligned l Wl) :
    Aligned (op :: l) (y :: Wl) := ⟨h, t⟩

/-- Two aligned lines one after the other are aligned with the two lists of written buffers one after the other. -/
theorem aligned_append {τ : Topo} {sig : RefSig} {Val : EltTy → Type} {l₁ l₂ : List (HloOp τ sig Val)} {W₁ W₂ : List (Ref sig .tc)}
    (h₁ : Aligned l₁ W₁) (h₂ : Aligned l₂ W₂) : Aligned (l₁ ++ l₂) (W₁ ++ W₂) := by
  induction l₁ generalizing W₁ with
  | nil =>
    cases W₁ with
    | nil => exact h₂
    | cons _ _ => exact False.elim h₁
  | cons op l ih =>
    cases W₁ with
    | nil => exact False.elim h₁
    | cons y Wl => exact ⟨h₁.1, ih h₁.2⟩

set_option maxRecDepth 8192 in
/-- Window 0: operation number k writes exactly the k-th buffer of the list. -/
theorem aligned0 : Aligned (τ := τ) (ops0 (F := F)) W0 := by
  repeat (first | exact aligned_nil | refine aligned_cons rfl ?_)

set_option maxRecDepth 8192 in
/-- Window 1: operation number k writes exactly the k-th buffer of the list. -/
theorem aligned1 : Aligned (τ := τ) (ops1 (F := F)) W1 := by
  repeat (first | exact aligned_nil | refine aligned_cons rfl ?_)

set_option maxRecDepth 8192 in
/-- Window 2: operation number k writes exactly the k-th buffer of the list. -/
theorem aligned2 : Aligned (τ := τ) (ops2 (F := F)) W2 := by
  repeat (first | exact aligned_nil | refine aligned_cons rfl ?_)

set_option maxRecDepth 8192 in
/-- Window 3: operation number k writes exactly the k-th buffer of the list. -/
theorem aligned3 : Aligned (τ := τ) (ops3 (F := F)) W3 := by
  repeat (first | exact aligned_nil | refine aligned_cons rfl ?_)

/-- The whole line: operation number k writes exactly the k-th buffer of `W`. -/
theorem aligned : Aligned (τ := τ) (ops (F := F)) W :=
  aligned_append aligned0 (aligned_append aligned1 (aligned_append aligned2 aligned3))

/-- A buffer the line never writes keeps its contents through it. -/
theorem kept (V : Valuation τ sig (Elt F)) {r : Ref sig .tc} (hr : r ∉ W) :
    after ops V (Proc.devRef .tc r) = V (Proc.devRef .tc r) :=
  after_of_not_written aligned hr V

theorem main_arg0_not_written : main_arg0 ∉ W := by decide
theorem main_arg1_not_written : main_arg1 ∉ W := by decide
theorem main_arg2_not_written : main_arg2 ∉ W := by decide
theorem main_arg3_not_written : main_arg3 ∉ W := by decide
theorem main_arg4_not_written : main_arg4 ∉ W := by decide
theorem main_arg5_not_written : main_arg5 ∉ W := by decide
theorem main_arg6_not_written : main_arg6 ∉ W := by decide
theorem main_arg7_not_written : main_arg7 ∉ W := by decide
theorem main_arg8_not_written : main_arg8 ∉ W := by decide
theorem main_arg9_not_written : main_arg9 ∉ W := by decide
theorem main_arg10_not_written : main_arg10 ∉ W := by decide
theorem main_arg11_not_written : main_arg11 ∉ W := by decide
theorem main_arg12_not_written : main_arg12 ∉ W := by decide
theorem main_arg13_not_written : main_arg13 ∉ W := by decide
theorem main_arg14_not_written : main_arg14 ∉ W := by decide
theorem main_arg15_not_written : main_arg15 ∉ W := by decide
theorem main_arg16_not_written : main_arg16 ∉ W := by decide
theorem main_arg17_not_written : main_arg17 ∉ W := by decide
theorem main_arg18_not_written : main_arg18 ∉ W := by decide
theorem main_arg19_not_written : main_arg19 ∉ W := by decide
theorem main_arg20_not_written : main_arg20 ∉ W := by decide
theorem main_arg21_not_written : main_arg21 ∉ W := by decide
theorem main_arg22_not_written : main_arg22 ∉ W := by decide
theorem main_arg23_not_written : main_arg23 ∉ W := by decide
theorem main_arg24_not_written : main_arg24 ∉ W := by decide

/-- On every device, for any float values, from any memory with zero counters: every weakly fair execution of
    @main terminates with the result buffer at the fold of the operations over the launch contents and every
    argument array unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v198) = after ops (fun b => m (c, b)) (Proc.devRef .tc main_v198)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨h c main_v198,
      (h c main_arg0).trans (kept _ main_arg0_not_written),
      (h c main_arg1).trans (kept _ main_arg1_not_written),
      (h c main_arg2).trans (kept _ main_arg2_not_written),
      (h c main_arg3).trans (kept _ main_arg3_not_written),
      (h c main_arg4).trans (kept _ main_arg4_not_written),
      (h c main_arg5).trans (kept _ main_arg5_not_written),
      (h c main_arg6).trans (kept _ main_arg6_not_written),
      (h c main_arg7).trans (kept _ main_arg7_not_written),
      (h c main_arg8).trans (kept _ main_arg8_not_written),
      (h c main_arg9).trans (kept _ main_arg9_not_written),
      (h c main_arg10).trans (kept _ main_arg10_not_written),
      (h c main_arg11).trans (kept _ main_arg11_not_written),
      (h c main_arg12).trans (kept _ main_arg12_not_written),
      (h c main_arg13).trans (kept _ main_arg13_not_written),
      (h c main_arg14).trans (kept _ main_arg14_not_written),
      (h c main_arg15).trans (kept _ main_arg15_not_written),
      (h c main_arg16).trans (kept _ main_arg16_not_written),
      (h c main_arg17).trans (kept _ main_arg17_not_written),
      (h c main_arg18).trans (kept _ main_arg18_not_written),
      (h c main_arg19).trans (kept _ main_arg19_not_written),
      (h c main_arg20).trans (kept _ main_arg20_not_written),
      (h c main_arg21).trans (kept _ main_arg21_not_written),
      (h c main_arg22).trans (kept _ main_arg22_not_written),
      (h c main_arg23).trans (kept _ main_arg23_not_written),
      (h c main_arg24).trans (kept _ main_arg24_not_written)⟩)
    (run_seq scopedRefs_eq scopedSems_eq defs main (fun _ => ops) main_eq (fun _ => ops_sub) m ρ (fun _ => ops_fresh))

end Cert.ReferenceIdeal.RefRun

end
-- ==== Proof.Frames.lean ====
/-
  The three frame claims. Each program runs to the end, nothing faulting, and leaves its argument arrays as launched:
  the two kernel programs by the run of their fifteen regions and eleven host stretches (every unscoped buffer is
  followed from item to item, and no item writes an argument), the reference by the run of its host operations.
-/
import proofs.«180908_j8211977470570_1_alg».proof.Defs
import proofs.«180908_j8211977470570_1_alg».proof.Proof.Gen.Kernel
import proofs.«180908_j8211977470570_1_alg».proof.Proof.Gen.KernelIdeal
import proofs.«180908_j8211977470570_1_alg».proof.Proof.Gen.ReferenceIdeal
import proofs.«180908_j8211977470570_1_alg».proof.Proof.Gen.Pre_finite_inputs
import proofs.«180908_j8211977470570_1_alg».proof.Proof.RunFactsBits
import proofs.«180908_j8211977470570_1_alg».proof.Proof.RunFactsIdeal
import proofs.«180908_j8211977470570_1_alg».proof.Proof.RefRun

noncomputable section

namespace Cert.Proof.Pieces

open Idealize.ShloMosaic Idealize.SL.Sem

theorem frame_kernel : Cert.frame_Kernel := fun m ρ _ => Cert.Kernel.Regs.frame (F := Bits) m ρ

theorem frame_kernelIdeal : Cert.frame_KernelIdeal := fun m ρ _ => Cert.KernelIdeal.Regs.frame (F := Ideal) m ρ

theorem frame_referenceIdeal : Cert.frame_ReferenceIdeal := fun m ρ _ =>
  (θ_run (Cert.ReferenceIdeal.defs (F := Ideal)) _ _).mono (fun _ h c => (h c).2)
    (Cert.ReferenceIdeal.RefRun.run (F := Ideal) m ρ)

end Cert.Proof.Pieces

end
-- ==== Proof.RefRead.lean ====
/-
  Reading a call's operations without transport.

  The operations of an unfolded call are stated over typed references: a buffer together with the tensor
  type of the value it holds, the operation's function moved to the buffer's own contents type along the
  equation between the two types. At a literal buffer that equation holds by computation, so the typed
  reference is the buffer at its own type, the transport is the identity, and the final contents satisfy
  the operation's equation with the function applied as it stands. These are the single-assignment
  reading lemmas for the typed builders in that form: no transport is left in what they produce.
-/
import proofs.«180908_j8211977470570_1_alg».proof.Proof.Gen.ReferenceIdeal
import Idealize.ShloMosaic.Lib.StableHlo.Run
import proofs.«180908_j8211977470570_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo LibHostRead

variable {F : FTy → Type} [FloatOps F]

section TypedFix

variable {τ : Topo} {sig : RefSig} {Val : EltTy → Type}
variable {l : List (HloOp τ sig Val)} {Wl : List (Ref sig .tc)} (hA : Aligned l Wl) (k : Nat)
include hA

/-- A typed constant's buffer holds the constant at the end. -/
theorem after_nullary_fixT {ry : Ref sig .tc} {v : ry.ty.Contents Val} {hdy hsy}
    (hk : l[k]? = some (TRef.nullary (⟨ry, rfl, hdy, hsy⟩ : TRef sig ry.ty) v)) (hy' : ry ∉ Wl.drop (k + 1))
    (V : Valuation τ sig Val) :
    after l V (Proc.devRef .tc ry) = v :=
  after_nullary_fix hA k hk hy' V

/-- A typed one-operand operation's result buffer holds, at the end, its function of the operand's final contents. -/
theorem after_unary_fixT {rx ry : Ref sig .tc} {g : rx.ty.Contents Val → ry.ty.Contents Val} {hdx hsx hdy hsy}
    (hk : l[k]? = some (TRef.unary (⟨rx, rfl, hdx, hsx⟩ : TRef sig rx.ty) (⟨ry, rfl, hdy, hsy⟩ : TRef sig ry.ty) g))
    (hxy : rx ≠ ry) (hx' : rx ∉ Wl.drop (k + 1)) (hy' : ry ∉ Wl.drop (k + 1)) (V : Valuation τ sig Val) :
    after l V (Proc.devRef .tc ry) = g (after l V (Proc.devRef .tc rx)) :=
  after_unary_fix hA k hk hxy hx' hy' V

/-- A typed two-operand operation's. -/
theorem after_binary_fixT {ra rb ry : Ref sig .tc} {g : ra.ty.Contents Val → rb.ty.Contents Val → ry.ty.Contents Val}
    {hda hsa hdb hsb hdy hsy}
    (hk : l[k]? = some (TRef.binary (⟨ra, rfl, hda, hsa⟩ : TRef sig ra.ty) (⟨rb, rfl, hdb, hsb⟩ : TRef sig rb.ty)
      (⟨ry, rfl, hdy, hsy⟩ : TRef sig ry.ty) g))
    (hay : ra ≠ ry) (hby : rb ≠ ry) (ha' : ra ∉ Wl.drop (k + 1)) (hb' : rb ∉ Wl.drop (k + 1)) (hy' : ry ∉ Wl.drop (k + 1))
    (V : Valuation τ sig Val) :
    after l V (Proc.devRef .tc ry) = g (after l V (Proc.devRef .tc ra)) (after l V (Proc.devRef .tc rb)) :=
  after_binary_fix hA k hk hay hby ha' hb' hy' V

/-- A typed three-operand operation's. -/
theorem after_ternary_fixT {rc ra rb ry : Ref sig .tc}
    {g : rc.ty.Contents Val → ra.ty.Contents Val → rb.ty.Contents Val → ry.ty.Contents Val}
    {hdc hsc hda hsa hdb hsb hdy hsy}
    (hk : l[k]? = some (TRef.ternary (⟨rc, rfl, hdc, hsc⟩ : TRef sig rc.ty) (⟨ra, rfl, hda, hsa⟩ : TRef sig ra.ty)
      (⟨rb, rfl, hdb, hsb⟩ : TRef sig rb.ty) (⟨ry, rfl, hdy, hsy⟩ : TRef sig ry.ty) g))
    (hcy : rc ≠ ry) (hay : ra ≠ ry) (hby : rb ≠ ry)
    (hc' : rc ∉ Wl.drop (k + 1)) (ha' : ra ∉ Wl.drop (k + 1)) (hb' : rb ∉ Wl.drop (k + 1)) (hy' : ry ∉ Wl.drop (k + 1))
    (V : Valuation τ sig Val) :
    after l V (Proc.devRef .tc ry)
      = g (after l V (Proc.devRef .tc rc)) (after l V (Proc.devRef .tc ra)) (after l V (Proc.devRef .tc rb)) :=
  after_ternary_fix hA k hk hcy hay hby hc' ha' hb' hy' V

end TypedFix

end Cert.ReferenceIdeal.RefRun

end
-- ==== Proof.RefStage1.lean ====
/-
  Stage 1 of the reference, read off the run one operation at a time.

  Over the final contents of the buffers, every operation's result buffer holds the operation's function of its
  operands' buffers (the line is in single-assignment form). Chaining these equations from a stage boundary
  back to the previous boundaries and the argument arrays gives the boundary's value as one named function.
-/
import proofs.«180908_j8211977470570_1_alg».proof.Proof.Gen.ReferenceIdeal
import Idealize.ShloMosaic.Lib.StableHlo.Run
import proofs.«180908_j8211977470570_1_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo LibHostRead

variable {F : FTy → Type} [FloatOps F]

/-- Stage 1, up to the pre-activation: the rows of the table `a1` looked up at the source indices `a2` (a negative index counts from the end; an index out of range gives the not-a-number constant), times the weights `a6` per offset, summed from zero into the destination rows `a3`, plus the bias `a7`. -/
def refPre_1 (a1 : (⟨S200000x64, .f32⟩ : BufTy).Contents (Elt F)) (a2 : (⟨S27x40000, .i32⟩ : BufTy).Contents (Elt F)) (a6 : (⟨S27x64x64, .f32⟩ : BufTy).Contents (Elt F)) (a3 : (⟨S27x40000, .i32⟩ : BufTy).Contents (Elt F)) (a7 : (⟨S64, .f32⟩ : BufTy).Contents (Elt F)) :
    (⟨S60000x64, .f32⟩ : BufTy).Contents (Elt F) :=
  ((addf : (⟨S60000x64, .f32⟩ : BufTy).Contents (Elt F) → (⟨S60000x64, .f32⟩ : BufTy).Contents (Elt F) → (⟨S60000x64, .f32⟩ : BufTy).Contents (Elt F)) (Host.scatterAdd scatter_S60000x64_S1080000x1_S1080000x64_1_0_0_1 ((broadcastInDim S60000x64 ![] bcast_S_S60000x64 : (⟨S_, .f32⟩ : BufTy).Contents (Elt F) → (⟨S60000x64, .f32⟩ : BufTy).Contents (Elt F)) (constant S_ .f32 0x00000000#32)) ((broadcastInDim S1080000x1 ![0] bcast_S1080000_S1080000x1_0 : (⟨S1080000, .i32⟩ : BufTy).Contents (Elt F) → (⟨S1080000x1, .i32⟩ : BufTy).Contents (Elt F)) (shapeCast _ a3 shapeCasts_S27x40000_S1080000)) (shapeCast _ (Host.dotGeneral dot_S27x40000x64_S27x64x64_S27x40000x64_2_1_1_2_0_0 none (select ((broadcastInDim S27x40000x64 ![0, 1] bcast_S27x40000_S27x40000x64_0_1) (Host.reduce IntOp.andi (andi ((cmpi .sge) ((broadcastInDim S27x40000x1 ![0, 1] bcast_S27x40000_S27x40000x1_0_1) (select ((cmpi .slt) a2 ((broadcastInDim S27x40000 ![] bcast_S_S27x40000) (constantI S_ 32 0#32))) (addi a2 ((broadcastInDim S27x40000 ![] bcast_S_S27x40000) (constantI S_ 32 200000#32))) a2)) ((broadcastInDim S27x40000x1 ![] bcast_S_S27x40000x1) (constantI S_ 32 0#32))) ((cmpi .sle) ((broadcastInDim S27x40000x1 ![0, 1] bcast_S27x40000_S27x40000x1_0_1) (select ((cmpi .slt) a2 ((broadcastInDim S27x40000 ![] bcast_S_S27x40000) (constantI S_ 32 0#32))) (addi a2 ((broadcastInDim S27x40000 ![] bcast_S_S27x40000) (constantI S_ 32 200000#32))) a2)) ((broadcastInDim S27x40000x1 ![0, 1, 2] bcast_S1x1x1_S27x40000x1_0_1_2) ((broadcastInDim S1x1x1 ![2] bcast_S1_S1x1x1_2) (constantI S1 32 199999#32))))) (constantI S_ 1 1#1) reducesTo_S27x40000x1_S27x40000_d2 h_S_)) (Host.gather gather_S200000x64_S27x40000x1_S27x40000x64_2_0_n_n_0_2_164 a1 ((broadcastInDim S27x40000x1 ![0, 1] bcast_S27x40000_S27x40000x1_0_1) (select ((cmpi .slt) a2 ((broadcastInDim S27x40000 ![] bcast_S_S27x40000) (constantI S_ 32 0#32))) (addi a2 ((broadcastInDim S27x40000 ![] bcast_S_S27x40000) (constantI S_ 32 200000#32))) a2))) ((broadcastInDim S27x40000x64 ![] bcast_S_S27x40000x64) (constant S_ .f32 0x7FC00000#32))) a6) shapeCasts_S27x40000x64_S1080000x64)) ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) a7)))

set_option maxRecDepth 8192 in
/-- After the run, `main_v9` holds `refPre_1` of what `main_arg1`, `main_arg2`, `main_arg6`, `main_arg3`, `main_arg7` hold after the run (an argument array: what it held at launch). -/
theorem val_v9 (V : Valuation τ sig (Elt F)) :
    after ops V (Proc.devRef .tc main_v9) = refPre_1 (V (Proc.devRef .tc main_arg1)) (V (Proc.devRef .tc main_arg2)) (V (Proc.devRef .tc main_arg6)) (V (Proc.devRef .tc main_arg3)) (V (Proc.devRef .tc main_arg7)) := by
  rw [after_binary_fix aligned 32 rfl (by decide) (by decide) (by decide) (by decide) (by decide) V]
  rw [after_unary_fix aligned 31 rfl (by decide) (by decide) (by decide) V]
  rw [after_unary_fix aligned 30 rfl (by decide) (by decide) (by decide) V]
  rw [after_ternary_fix aligned 29 rfl (by decide) (by decide) (by decide) (by decide) (by decide) (by decide) (by decide) V]
  rw [after_unary_fix aligned 28 rfl (by decide) (by decide) (by decide) V]
  rw [after_unary_fix aligned 27 rfl (by decide) (by decide) (by decide) V]
  rw [after_nullary_fix aligned 26 rfl (by decide) V]
  rw [after_reshape_fix aligned 25 rfl (by decide) (by decide) (by decide) V]
  rw [after_reshape_fix aligned 24 rfl (by decide) (by decide) (by decide) V]
  rw [after_binary_fix aligned 23 rfl (by decide) (by decide) (by decide) (by decide) (by decide) V]
  rw [after_ternary_fixT (rc := main_call0_v14) (ra := main_call0_v13) (rb := main_call0_v15) (ry := main_v0) aligned 22 rfl (by decide) (by decide) (by decide) (by decide) (by decide) (by decide) (by decide) V]
  rw [after_unary_fixT (rx := main_call0_cst) (ry := main_call0_v15) aligned 21 rfl (by decide) (by decide) (by decide) V]
  rw [after_nullary_fixT (ry := main_call0_cst) aligned 20 rfl (by decide) V]
  rw [after_unary_fixT (rx := main_call0_v12) (ry := main_call0_v14) aligned 19 rfl (by decide) (by decide) (by decide) V]
  rw [after_binary_fixT (ra := main_arg1) (rb := main_call0_v5) (ry := main_call0_v13) aligned 18 rfl (by decide) (by decide) (by decide) (by decide) (by decide) V]
  rw [after_binary_fixT (ra := main_call0_v11) (rb := main_call0_c_3) (ry := main_call0_v12) aligned 17 rfl (by decide) (by decide) (by decide) (by decide) (by decide) V]
  rw [after_nullary_fixT (ry := main_call0_c_3) aligned 16 rfl (by decide) V]
  rw [after_binary_fixT (ra := main_call0_v7) (rb := main_call0_v10) (ry := main_call0_v11) aligned 15 rfl (by decide) (by decide) (by decide) (by decide) (by decide) V]
  rw [after_binary_fixT (ra := main_call0_v5) (rb := main_call0_v9) (ry := main_call0_v10) aligned 14 rfl (by decide) (by decide) (by decide) (by decide) (by decide) V]
  rw [after_unary_fixT (rx := main_call0_v8) (ry := main_call0_v9) aligned 13 rfl (by decide) (by decide) (by decide) V]
  rw [after_unary_fixT (rx := main_call0_c_1) (ry := main_call0_v8) aligned 12 rfl (by decide) (by decide) (by decide) V]
  rw [after_binary_fixT (ra := main_call0_v5) (rb := main_call0_v6) (ry := main_call0_v7) aligned 11 rfl (by decide) (by decide) (by decide) (by decide) (by decide) V]
  rw [after_unary_fixT (rx := main_call0_c_2) (ry := main_call0_v6) aligned 10 rfl (by decide) (by decide) (by decide) V]
  rw [after_nullary_fixT (ry := main_call0_c_2) aligned 9 rfl (by decide) V]
  rw [after_nullary_fixT (ry := main_call0_c_1) aligned 8 rfl (by decide) V]
  rw [after_unary_fixT (rx := main_call0_v4) (ry := main_call0_v5) aligned 7 rfl (by decide) (by decide) (by decide) V]
  rw [after_ternary_fixT (rc := main_call0_v1) (ra := main_call0_v3) (rb := main_arg2) (ry := main_call0_v4) aligned 6 rfl (by decide) (by decide) (by decide) (by decide) (by decide) (by decide) (by decide) V]
  rw [after_binary_fixT (ra := main_arg2) (rb := main_call0_v2) (ry := main_call0_v3) aligned 5 rfl (by decide) (by decide) (by decide) (by decide) (by decide) V]
  rw [after_unary_fixT (rx := main_call0_c_0) (ry := main_call0_v2) aligned 4 rfl (by decide) (by decide) (by decide) V]
  rw [after_nullary_fixT (ry := main_call0_c_0) aligned 3 rfl (by decide) V]
  rw [after_binary_fixT (ra := main_arg2) (rb := main_call0_v0) (ry := main_call0_v1) aligned 2 rfl (by decide) (by decide) (by decide) (by decide) (by decide) V]
  rw [after_unary_fixT (rx := main_call0_c) (ry := main_call0_v0) aligned 1 rfl (by decide) (by decide) (by decide) V]
  rw [after_nullary_fixT (ry := main_call0_c) aligned 0 rfl (by decide) V]
  simp only [kept V main_arg1_not_written, kept V main_arg2_not_written, kept V main_arg6_not_written, kept V main_arg3_not_written, kept V main_arg7_not_written]
  rfl

/-- Stage 1: the mean over the rows, per channel. -/
def mean_1 (x9 : (⟨S60000x64, .f32⟩ : BufTy).Contents (Elt F)) :
    (⟨S64, .f32⟩ : BufTy).Contents (Elt F) :=
  ((Host.divf : (⟨S64, .f32⟩ : BufTy).Contents (Elt F) → (⟨S64, .f32⟩ : BufTy).Contents (Elt F) → (⟨S64, .f32⟩ : BufTy).Contents (Elt F)) (Host.reduceAdd x9 (constant S_ .f32 0x00000000#32) reducesTo_S60000x64_S64_d0 h_S_) ((broadcastInDim S64 ![] bcast_S_S64 : (⟨S_, .f32⟩ : BufTy).Contents (Elt F) → (⟨S64, .f32⟩ : BufTy).Contents (Elt F)) (constant S_ .f32 0x476A6000#32)))

set_option maxRecDepth 8192 in
/-- After the run, `main_v12` holds `mean_1` of what `main_v9` hold after the run (an argument array: what it held at launch). -/
theorem val_v12 (V : Valuation τ sig (Elt F)) :
    after ops V (Proc.devRef .tc main_v12) = mean_1 (after ops V (Proc.devRef .tc main_v9)) := by
  rw [after_binary_fix aligned 37 rfl (by decide) (by decide) (by decide) (by decide) (by decide) V]
  rw [after_unary_fix aligned 36 rfl (by decide) (by decide) (by decide) V]
  rw [after_nullary_fix aligned 35 rfl (by decide) V]
  rw [after_binary_fix aligned 34 rfl (by decide) (by decide) (by decide) (by decide) (by decide) V]
  rw [after_nullary_fix aligned 33 rfl (by decide) V]
  rfl

/-- Stage 1: batch normalisation over the rows: centred, times the reciprocal square root of the variance plus epsilon, times gamma, plus beta. -/
def norm_1 (x9 : (⟨S60000x64, .f32⟩ : BufTy).Contents (Elt F)) (a15 : (⟨S64, .f32⟩ : BufTy).Contents (Elt F)) (a16 : (⟨S64, .f32⟩ : BufTy).Contents (Elt F)) :
    (⟨S60000x64, .f32⟩ : BufTy).Contents (Elt F) :=
  ((addf : (⟨S60000x64, .f32⟩ : BufTy).Contents (Elt F) → (⟨S60000x64, .f32⟩ : BufTy).Contents (Elt F) → (⟨S60000x64, .f32⟩ : BufTy).Contents (Elt F)) ((mulf : (⟨S60000x64, .f32⟩ : BufTy).Contents (Elt F) → (⟨S60000x64, .f32⟩ : BufTy).Contents (Elt F) → (⟨S60000x64, .f32⟩ : BufTy).Contents (Elt F)) ((mulf : (⟨S60000x64, .f32⟩ : BufTy).Contents (Elt F) → (⟨S60000x64, .f32⟩ : BufTy).Contents (Elt F) → (⟨S60000x64, .f32⟩ : BufTy).Contents (Elt F)) ((subf : (⟨S60000x64, .f32⟩ : BufTy).Contents (Elt F) → (⟨S60000x64, .f32⟩ : BufTy).Contents (Elt F) → (⟨S60000x64, .f32⟩ : BufTy).Contents (Elt F)) x9 ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) (mean_1 x9)))) ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt : (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) ((Host.divf : (⟨S64, .f32⟩ : BufTy).Contents (Elt F) → (⟨S64, .f32⟩ : BufTy).Contents (Elt F) → (⟨S64, .f32⟩ : BufTy).Contents (Elt F)) (Host.reduceAdd ((mulf : (⟨S60000x64, .f32⟩ : BufTy).Contents (Elt F) → (⟨S60000x64, .f32⟩ : BufTy).Contents (Elt F) → (⟨S60000x64, .f32⟩ : BufTy).Contents (Elt F)) ((subf : (⟨S60000x64, .f32⟩ : BufTy).Contents (Elt F) → (⟨S60000x64, .f32⟩ : BufTy).Contents (Elt F) → (⟨S60000x64, .f32⟩ : BufTy).Contents (Elt F)) x9 ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) (mean_1 x9)))) ((subf : (⟨S60000x64, .f32⟩ : BufTy).Contents (Elt F) → (⟨S60000x64, .f32⟩ : BufTy).Contents (Elt F) → (⟨S60000x64, .f32⟩ : BufTy).Contents (Elt F)) x9 ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) (mean_1 x9))))) (constant S_ .f32 0x00000000#32) reducesTo_S60000x64_S64_d0 h_S_) ((broadcastInDim S64 ![] bcast_S_S64 : (⟨S_, .f32⟩ : BufTy).Contents (Elt F) → (⟨S64, .f32⟩ : BufTy).Contents (Elt F)) (constant S_ .f32 0x476A6000#32))) ((broadcastInDim S64 ![] bcast_S_S64 : (⟨S_, .f32⟩ : BufTy).Contents (Elt F) → (⟨S64, .f32⟩ : BufTy).Contents (Elt F)) (constant S_ .f32 0x3727C5AC#32))))))) ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) a15))) ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) a16)))

set_option maxRecDepth 8192 in
/-- After the run, `main_v34` holds `norm_1` of what `main_v9`, `main_arg15`, `main_arg16` hold after the run (an argument array: what it held at launch). -/
theorem val_v34 (V : Valuation τ sig (Elt F)) :
    after ops V (Proc.devRef .tc main_v34) = norm_1 (after ops V (Proc.devRef .tc main_v9)) (V (Proc.devRef .tc main_arg15)) (V (Proc.devRef .tc main_arg16)) := by
  rw [after_binary_fix aligned 62 rfl (by decide) (by decide) (by decide) (by decide) (by decide) V]
  rw [after_unary_fix aligned 61 rfl (by decide) (by decide) (by decide) V]
  rw [after_unary_fix aligned 60 rfl (by decide) (by decide) (by decide) V]
  rw [after_binary_fix aligned 59 rfl (by decide) (by decide) (by decide) (by decide) (by decide) V]
  rw [after_unary_fix aligned 58 rfl (by decide) (by decide) (by decide) V]
  rw [after_unary_fix aligned 57 rfl (by decide) (by decide) (by decide) V]
  rw [after_binary_fix aligned 56 rfl (by decide) (by decide) (by decide) (by decide) (by decide) V]
  rw [after_unary_fix aligned 55 rfl (by decide) (by decide) (by decide) V]
  rw [after_unary_fix aligned 54 rfl (by decide) (by decide) (by decide) V]
  rw [after_unary_fix aligned 53 rfl (by decide) (by decide) (by decide) V]
  rw [after_binary_fix aligned 52 rfl (by decide) (by decide) (by decide) (by decide) (by decide) V]
  rw [after_unary_fix aligned 51 rfl (by decide) (by decide) (by decide) V]
  rw [after_nullary_fix aligned 50 rfl (by decide) V]
  rw [after_binary_fix aligned 49 rfl (by decide) (by decide) (by decide) (by decide) (by decide) V]
  rw [after_unary_fix aligned 48 rfl (by decide) (by decide) (by decide) V]
  rw [after_unary_fix aligned 47 rfl (by decide) (by decide) (by decide) V]
  rw [after_binary_fix aligned 46 rfl (by decide) (by decide) (by decide) (by decide) (by decide) V]
  rw [after_unary_fix aligned 45 rfl (by decide) (by decide) (by decide) V]
  rw [after_nullary_fix aligned 44 rfl (by decide) V]
  rw [after_binary_fix aligned 43 rfl (by decide) (by decide) (by decide) (by decide) (by decide) V]
  rw [after_nullary_fix aligned 42 rfl (by decide) V]
  rw [after_binary_fix aligned 41 rfl (by decide) (by decide) (by decide) (by decide) (by decide) V]
  rw [after_binary_fix aligned 40 rfl (by decide) (by decide) (by decide) (by decide) (by decide) V]
  rw [after_unary_fix aligned 39 rfl (by decide) (by decide) (by decide) V]
  rw [after_unary_fix aligned 38 rfl (by decide) (by decide) (by decide) V]
  rw [val_v12 V]
  simp only [kept V main_arg15_not_written, kept V main_arg16_not_written]
  rfl

/-- Stage 1: the leaky activation: the value where it is at least zero, a hundredth of it elsewhere. -/
def act_1 (x34 : (⟨S60000x64, .f32⟩ : BufTy).Contents (Elt F)) :
    (⟨S60000x64, .f32⟩ : BufTy).Contents (Elt F) :=
  (select ((cmpf .oge : (⟨S60000x64, .f32⟩ : BufTy).Contents (Elt F) → (⟨S60000x64, .f32⟩ : BufTy).Contents (Elt F) → (⟨S60000x64, .i1⟩ : BufTy).Contents (Elt F)) x34 ((broadcastInDim S60000x64 ![] bcast_S_S60000x64 : (⟨S_, .f32⟩ : BufTy).Contents (Elt F) → (⟨S60000x64, .f32⟩ : BufTy).Contents (Elt F)) (constant S_ .f32 0x00000000#32))) x34 ((mulf : (⟨S60000x64, .f32⟩ : BufTy).Contents (Elt F) → (⟨S60000x64, .f32⟩ : BufTy).Contents (Elt F) → (⟨S60000x64, .f32⟩ : BufTy).Contents (Elt F)) ((broadcastInDim S60000x64 ![] bcast_S_S60000x64 : (⟨S_, .f32⟩ : BufTy).Contents (Elt F) → (⟨S60000x64, .f32⟩ : BufTy).Contents (Elt F)) (constant S_ .f32 0x3C23D70A#32)) x34))

set_option maxRecDepth 8192 in
/-- After the run, `main_v39` holds `act_1` of what `main_v34` hold after the run (an argument array: what it held at launch). -/
theorem val_v39_act (V : Valuation τ sig (Elt F)) :
    after ops V (Proc.devRef .tc main_v39) = act_1 (after ops V (Proc.devRef .tc main_v34)) := by
  rw [after_ternary_fixT (rc := main_v36) (ra := main_v34) (rb := main_v38) (ry := main_v39) aligned 69 rfl (by decide) (by decide) (by decide) (by decide) (by decide) (by decide) (by decide) V]
  rw [after_binary_fix aligned 68 rfl (by decide) (by decide) (by decide) (by decide) (by decide) V]
  rw [after_unary_fix aligned 67 rfl (by decide) (by decide) (by decide) V]
  rw [after_nullary_fix aligned 66 rfl (by decide) V]
  rw [after_binary_fix aligned 65 rfl (by decide) (by decide) (by decide) (by decide) (by decide) V]
  rw [after_unary_fix aligned 64 rfl (by decide) (by decide) (by decide) V]
  rw [after_nullary_fix aligned 63 rfl (by decide) V]
  rfl

/-- Stage 1, from the pre-activation `x9` to the stage's output: batch normalisation with `a15` and `a16`, then the activation. -/
def refBn_1 (x9 : (⟨S60000x64, .f32⟩ : BufTy).Contents (Elt F)) (a15 : (⟨S64, .f32⟩ : BufTy).Contents (Elt F)) (a16 : (⟨S64, .f32⟩ : BufTy).Contents (Elt F)) :
    (⟨S60000x64, .f32⟩ : BufTy).Contents (Elt F) :=
  act_1 (norm_1 x9 a15 a16)

set_option maxRecDepth 8192 in
/-- After the run, `main_v39` holds `refBn_1` of what `main_v9`, `main_arg15`, `main_arg16` hold after the run (an argument array: what it held at launch). -/
theorem val_v39 (V : Valuation τ sig (Elt F)) :
    after ops V (Proc.devRef .tc main_v39) = refBn_1 (after ops V (Proc.devRef .tc main_v9)) (V (Proc.devRef .tc main_arg15)) (V (Proc.devRef .tc main_arg16)) := by
  rw [val_v39_act V, val_v34 V]
  rfl

end Cert.ReferenceIdeal.RefRun

end
-- ==== Proof.RefStage2.lean ====
/-
  Stage 2 of the reference, read off the run one operation at a time.

  Over the final contents of the buffers, every operation's result buffer holds the operation's function of its
  operands' buffers (the line is in single-assignment form). Chaining these equations from a stage boundary
  back to the previous boundaries and the argument arrays gives the boundary's value as one named function.
-/
import proofs.«180908_j8211977470570_1_alg».proof.Proof.Gen.ReferenceIdeal
import Idealize.ShloMosaic.Lib.StableHlo.Run
import proofs.«180908_j8211977470570_1_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo LibHostRead

variable {F : FTy → Type} [FloatOps F]

/-- Stage 2, up to the pre-activation: the rows of the table `a0` looked up at the source indices `a4` (a negative index counts from the end; an index out of range gives the not-a-number constant), times the weights `a8` per offset, summed from zero into the destination rows `a5`, plus the bias `a9`. -/
def refPre_2 (a0 : (⟨S60000x128, .f32⟩ : BufTy).Contents (Elt F)) (a4 : (⟨S27x25000, .i32⟩ : BufTy).Contents (Elt F)) (a8 : (⟨S27x128x64, .f32⟩ : BufTy).Contents (Elt F)) (a5 : (⟨S27x25000, .i32⟩ : BufTy).Contents (Elt F)) (a9 : (⟨S64, .f32⟩ : BufTy).Contents (Elt F)) :
    (⟨S60000x64, .f32⟩ : BufTy).Contents (Elt F) :=
  ((addf : (⟨S60000x64, .f32⟩ : BufTy).Contents (Elt F) → (⟨S60000x64, .f32⟩ : BufTy).Contents (Elt F) → (⟨S60000x64, .f32⟩ : BufTy).Contents (Elt F)) (Host.scatterAdd scatter_S60000x64_S675000x1_S675000x64_1_0_0_1 ((broadcastInDim S60000x64 ![] bcast_S_S60000x64 : (⟨S_, .f32⟩ : BufTy).Contents (Elt F) → (⟨S60000x64, .f32⟩ : BufTy).Contents (Elt F)) (constant S_ .f32 0x00000000#32)) ((broadcastInDim S675000x1 ![0] bcast_S675000_S675000x1_0 : (⟨S675000, .i32⟩ : BufTy).Contents (Elt F) → (⟨S675000x1, .i32⟩ : BufTy).Contents (Elt F)) (shapeCast _ a5 shapeCasts_S27x25000_S675000)) (shapeCast _ (Host.dotGeneral dot_S27x25000x128_S27x128x64_S27x25000x64_2_1_1_2_0_0 none (select ((broadcastInDim S27x25000x128 ![0, 1] bcast_S27x25000_S27x25000x128_0_1) (Host.reduce IntOp.andi (andi ((cmpi .sge) ((broadcastInDim S27x25000x1 ![0, 1] bcast_S27x25000_S27x25000x1_0_1) (select ((cmpi .slt) a4 ((broadcastInDim S27x25000 ![] bcast_S_S27x25000) (constantI S_ 32 0#32))) (addi a4 ((broadcastInDim S27x25000 ![] bcast_S_S27x25000) (constantI S_ 32 60000#32))) a4)) ((broadcastInDim S27x25000x1 ![] bcast_S_S27x25000x1) (constantI S_ 32 0#32))) ((cmpi .sle) ((broadcastInDim S27x25000x1 ![0, 1] bcast_S27x25000_S27x25000x1_0_1) (select ((cmpi .slt) a4 ((broadcastInDim S27x25000 ![] bcast_S_S27x25000) (constantI S_ 32 0#32))) (addi a4 ((broadcastInDim S27x25000 ![] bcast_S_S27x25000) (constantI S_ 32 60000#32))) a4)) ((broadcastInDim S27x25000x1 ![0, 1, 2] bcast_S1x1x1_S27x25000x1_0_1_2) ((broadcastInDim S1x1x1 ![2] bcast_S1_S1x1x1_2) (constantI S1 32 59999#32))))) (constantI S_ 1 1#1) reducesTo_S27x25000x1_S27x25000_d2 h_S_)) (Host.gather gather_S60000x128_S27x25000x1_S27x25000x128_2_0_n_n_0_2_1128 a0 ((broadcastInDim S27x25000x1 ![0, 1] bcast_S27x25000_S27x25000x1_0_1) (select ((cmpi .slt) a4 ((broadcastInDim S27x25000 ![] bcast_S_S27x25000) (constantI S_ 32 0#32))) (addi a4 ((broadcastInDim S27x25000 ![] bcast_S_S27x25000) (constantI S_ 32 60000#32))) a4))) ((broadcastInDim S27x25000x128 ![] bcast_S_S27x25000x128) (constant S_ .f32 0x7FC00000#32))) a8) shapeCasts_S27x25000x64_S675000x64)) ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) a9)))

set_option maxRecDepth 8192 in
/-- After the run, `main_v49` holds `refPre_2` of what `main_arg0`, `main_arg4`, `main_arg8`, `main_arg5`, `main_arg9` hold after the run (an argument array: what it held at launch). -/
theorem val_v49 (V : Valuation τ sig (Elt F)) :
    after ops V (Proc.devRef .tc main_v49) = refPre_2 (V (Proc.devRef .tc main_arg0)) (V (Proc.devRef .tc main_arg4)) (V (Proc.devRef .tc main_arg8)) (V (Proc.devRef .tc main_arg5)) (V (Proc.devRef .tc main_arg9)) := by
  rw [after_binary_fix aligned 102 rfl (by decide) (by decide) (by decide) (by decide) (by decide) V]
  rw [after_unary_fix aligned 101 rfl (by decide) (by decide) (by decide) V]
  rw [after_unary_fix aligned 100 rfl (by decide) (by decide) (by decide) V]
  rw [after_ternary_fix aligned 99 rfl (by decide) (by decide) (by decide) (by decide) (by decide) (by decide) (by decide) V]
  rw [after_unary_fix aligned 98 rfl (by decide) (by decide) (by decide) V]
  rw [after_unary_fix aligned 97 rfl (by decide) (by decide) (by decide) V]
  rw [after_nullary_fix aligned 96 rfl (by decide) V]
  rw [after_reshape_fix aligned 95 rfl (by decide) (by decide) (by decide) V]
  rw [after_reshape_fix aligned 94 rfl (by decide) (by decide) (by decide) V]
  rw [after_binary_fix aligned 93 rfl (by decide) (by decide) (by decide) (by decide) (by decide) V]
  rw [after_ternary_fixT (rc := main_call2_v14) (ra := main_call2_v13) (rb := main_call2_v15) (ry := main_v40) aligned 92 rfl (by decide) (by decide) (by decide) (by decide) (by decide) (by decide) (by decide) V]
  rw [after_unary_fixT (rx := main_call2_cst) (ry := main_call2_v15) aligned 91 rfl (by decide) (by decide) (by decide) V]
  rw [after_nullary_fixT (ry := main_call2_cst) aligned 90 rfl (by decide) V]
  rw [after_unary_fixT (rx := main_call2_v12) (ry := main_call2_v14) aligned 89 rfl (by decide) (by decide) (by decide) V]
  rw [after_binary_fixT (ra := main_arg0) (rb := main_call2_v5) (ry := main_call2_v13) aligned 88 rfl (by decide) (by decide) (by decide) (by decide) (by decide) V]
  rw [after_binary_fixT (ra := main_call2_v11) (rb := main_call2_c_3) (ry := main_call2_v12) aligned 87 rfl (by decide) (by decide) (by decide) (by decide) (by decide) V]
  rw [after_nullary_fixT (ry := main_call2_c_3) aligned 86 rfl (by decide) V]
  rw [after_binary_fixT (ra := main_call2_v7) (rb := main_call2_v10) (ry := main_call2_v11) aligned 85 rfl (by decide) (by decide) (by decide) (by decide) (by decide) V]
  rw [after_binary_fixT (ra := main_call2_v5) (rb := main_call2_v9) (ry := main_call2_v10) aligned 84 rfl (by decide) (by decide) (by decide) (by decide) (by decide) V]
  rw [after_unary_fixT (rx := main_call2_v8) (ry := main_call2_v9) aligned 83 rfl (by decide) (by decide) (by decide) V]
  rw [after_unary_fixT (rx := main_call2_c_1) (ry := main_call2_v8) aligned 82 rfl (by decide) (by decide) (by decide) V]
  rw [after_binary_fixT (ra := main_call2_v5) (rb := main_call2_v6) (ry := main_call2_v7) aligned 81 rfl (by decide) (by decide) (by decide) (by decide) (by decide) V]
  rw [after_unary_fixT (rx := main_call2_c_2) (ry := main_call2_v6) aligned 80 rfl (by decide) (by decide) (by decide) V]
  rw [after_nullary_fixT (ry := main_call2_c_2) aligned 79 rfl (by decide) V]
  rw [after_nullary_fixT (ry := main_call2_c_1) aligned 78 rfl (by decide) V]
  rw [after_unary_fixT (rx := main_call2_v4) (ry := main_call2_v5) aligned 77 rfl (by decide) (by decide) (by decide) V]
  rw [after_ternary_fixT (rc := main_call2_v1) (ra := main_call2_v3) (rb := main_arg4) (ry := main_call2_v4) aligned 76 rfl (by decide) (by decide) (by decide) (by decide) (by decide) (by decide) (by decide) V]
  rw [after_binary_fixT (ra := main_arg4) (rb := main_call2_v2) (ry := main_call2_v3) aligned 75 rfl (by decide) (by decide) (by decide) (by decide) (by decide) V]
  rw [after_unary_fixT (rx := main_call2_c_0) (ry := main_call2_v2) aligned 74 rfl (by decide) (by decide) (by decide) V]
  rw [after_nullary_fixT (ry := main_call2_c_0) aligned 73 rfl (by decide) V]
  rw [after_binary_fixT (ra := main_arg4) (rb := main_call2_v0) (ry := main_call2_v1) aligned 72 rfl (by decide) (by decide) (by decide) (by decide) (by decide) V]
  rw [after_unary_fixT (rx := main_call2_c) (ry := main_call2_v0) aligned 71 rfl (by decide) (by decide) (by decide) V]
  rw [after_nullary_fixT (ry := main_call2_c) aligned 70 rfl (by decide) V]
  simp only [kept V main_arg0_not_written, kept V main_arg4_not_written, kept V main_arg8_not_written, kept V main_arg5_not_written, kept V main_arg9_not_written]
  rfl

/-- Stage 2: the mean over the rows, per channel. -/
def mean_2 (x49 : (⟨S60000x64, .f32⟩ : BufTy).Contents (Elt F)) :
    (⟨S64, .f32⟩ : BufTy).Contents (Elt F) :=
  ((Host.divf : (⟨S64, .f32⟩ : BufTy).Contents (Elt F) → (⟨S64, .f32⟩ : BufTy).Contents (Elt F) → (⟨S64, .f32⟩ : BufTy).Contents (Elt F)) (Host.reduceAdd x49 (constant S_ .f32 0x00000000#32) reducesTo_S60000x64_S64_d0 h_S_) ((broadcastInDim S64 ![] bcast_S_S64 : (⟨S_, .f32⟩ : BufTy).Contents (Elt F) → (⟨S64, .f32⟩ : BufTy).Contents (Elt F)) (constant S_ .f32 0x476A6000#32)))

set_option maxRecDepth 8192 in
/-- After the run, `main_v52` holds `mean_2` of what `main_v49` hold after the run (an argument array: what it held at launch). -/
theorem val_v52 (V : Valuation τ sig (Elt F)) :
    after ops V (Proc.devRef .tc main_v52) = mean_2 (after ops V (Proc.devRef .tc main_v49)) := by
  rw [after_binary_fix aligned 107 rfl (by decide) (by decide) (by decide) (by decide) (by decide) V]
  rw [after_unary_fix aligned 106 rfl (by decide) (by decide) (by decide) V]
  rw [after_nullary_fix aligned 105 rfl (by decide) V]
  rw [after_binary_fix aligned 104 rfl (by decide) (by decide) (by decide) (by decide) (by decide) V]
  rw [after_nullary_fix aligned 103 rfl (by decide) V]
  rfl

/-- Stage 2: batch normalisation over the rows: centred, times the reciprocal square root of the variance plus epsilon, times gamma, plus beta. -/
def norm_2 (x49 : (⟨S60000x64, .f32⟩ : BufTy).Contents (Elt F)) (a17 : (⟨S64, .f32⟩ : BufTy).Contents (Elt F)) (a18 : (⟨S64, .f32⟩ : BufTy).Contents (Elt F)) :
    (⟨S60000x64, .f32⟩ : BufTy).Contents (Elt F) :=
  ((addf : (⟨S60000x64, .f32⟩ : BufTy).Contents (Elt F) → (⟨S60000x64, .f32⟩ : BufTy).Contents (Elt F) → (⟨S60000x64, .f32⟩ : BufTy).Contents (Elt F)) ((mulf : (⟨S60000x64, .f32⟩ : BufTy).Contents (Elt F) → (⟨S60000x64, .f32⟩ : BufTy).Contents (Elt F) → (⟨S60000x64, .f32⟩ : BufTy).Contents (Elt F)) ((mulf : (⟨S60000x64, .f32⟩ : BufTy).Contents (Elt F) → (⟨S60000x64, .f32⟩ : BufTy).Contents (Elt F) → (⟨S60000x64, .f32⟩ : BufTy).Contents (Elt F)) ((subf : (⟨S60000x64, .f32⟩ : BufTy).Contents (Elt F) → (⟨S60000x64, .f32⟩ : BufTy).Contents (Elt F) → (⟨S60000x64, .f32⟩ : BufTy).Contents (Elt F)) x49 ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) (mean_2 x49)))) ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt : (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) ((Host.divf : (⟨S64, .f32⟩ : BufTy).Contents (Elt F) → (⟨S64, .f32⟩ : BufTy).Contents (Elt F) → (⟨S64, .f32⟩ : BufTy).Contents (Elt F)) (Host.reduceAdd ((mulf : (⟨S60000x64, .f32⟩ : BufTy).Contents (Elt F) → (⟨S60000x64, .f32⟩ : BufTy).Contents (Elt F) → (⟨S60000x64, .f32⟩ : BufTy).Contents (Elt F)) ((subf : (⟨S60000x64, .f32⟩ : BufTy).Contents (Elt F) → (⟨S60000x64, .f32⟩ : BufTy).Contents (Elt F) → (⟨S60000x64, .f32⟩ : BufTy).Contents (Elt F)) x49 ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) (mean_2 x49)))) ((subf : (⟨S60000x64, .f32⟩ : BufTy).Contents (Elt F) → (⟨S60000x64, .f32⟩ : BufTy).Contents (Elt F) → (⟨S60000x64, .f32⟩ : BufTy).Contents (Elt F)) x49 ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) (mean_2 x49))))) (constant S_ .f32 0x00000000#32) reducesTo_S60000x64_S64_d0 h_S_) ((broadcastInDim S64 ![] bcast_S_S64 : (⟨S_, .f32⟩ : BufTy).Contents (Elt F) → (⟨S64, .f32⟩ : BufTy).Contents (Elt F)) (constant S_ .f32 0x476A6000#32))) ((broadcastInDim S64 ![] bcast_S_S64 : (⟨S_, .f32⟩ : BufTy).Contents (Elt F) → (⟨S64, .f32⟩ : BufTy).Contents (Elt F)) (constant S_ .f32 0x3727C5AC#32))))))) ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) a17))) ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) a18)))

set_option maxRecDepth 8192 in
/-- After the run, `main_v74` holds `norm_2` of what `main_v49`, `main_arg17`, `main_arg18` hold after the run (an argument array: what it held at launch). -/
theorem val_v74 (V : Valuation τ sig (Elt F)) :
    after ops V (Proc.devRef .tc main_v74) = norm_2 (after ops V (Proc.devRef .tc main_v49)) (V (Proc.devRef .tc main_arg17)) (V (Proc.devRef .tc main_arg18)) := by
  rw [after_binary_fix aligned 132 rfl (by decide) (by decide) (by decide) (by decide) (by decide) V]
  rw [after_unary_fix aligned 131 rfl (by decide) (by decide) (by decide) V]
  rw [after_unary_fix aligned 130 rfl (by decide) (by decide) (by decide) V]
  rw [after_binary_fix aligned 129 rfl (by decide) (by decide) (by decide) (by decide) (by decide) V]
  rw [after_unary_fix aligned 128 rfl (by decide) (by decide) (by decide) V]
  rw [after_unary_fix aligned 127 rfl (by decide) (by decide) (by decide) V]
  rw [after_binary_fix aligned 126 rfl (by decide) (by decide) (by decide) (by decide) (by decide) V]
  rw [after_unary_fix aligned 125 rfl (by decide) (by decide) (by decide) V]
  rw [after_unary_fix aligned 124 rfl (by decide) (by decide) (by decide) V]
  rw [after_unary_fix aligned 123 rfl (by decide) (by decide) (by decide) V]
  rw [after_binary_fix aligned 122 rfl (by decide) (by decide) (by decide) (by decide) (by decide) V]
  rw [after_unary_fix aligned 121 rfl (by decide) (by decide) (by decide) V]
  rw [after_nullary_fix aligned 120 rfl (by decide) V]
  rw [after_binary_fix aligned 119 rfl (by decide) (by decide) (by decide) (by decide) (by decide) V]
  rw [after_unary_fix aligned 118 rfl (by decide) (by decide) (by decide) V]
  rw [after_unary_fix aligned 117 rfl (by decide) (by decide) (by decide) V]
  rw [after_binary_fix aligned 116 rfl (by decide) (by decide) (by decide) (by decide) (by decide) V]
  rw [after_unary_fix aligned 115 rfl (by decide) (by decide) (by decide) V]
  rw [after_nullary_fix aligned 114 rfl (by decide) V]
  rw [after_binary_fix aligned 113 rfl (by decide) (by decide) (by decide) (by decide) (by decide) V]
  rw [after_nullary_fix aligned 112 rfl (by decide) V]
  rw [after_binary_fix aligned 111 rfl (by decide) (by decide) (by decide) (by decide) (by decide) V]
  rw [after_binary_fix aligned 110 rfl (by decide) (by decide) (by decide) (by decide) (by decide) V]
  rw [after_unary_fix aligned 109 rfl (by decide) (by decide) (by decide) V]
  rw [after_unary_fix aligned 108 rfl (by decide) (by decide) (by decide) V]
  rw [val_v52 V]
  simp only [kept V main_arg17_not_written, kept V main_arg18_not_written]
  rfl

/-- Stage 2: the leaky activation: the value where it is at least zero, a hundredth of it elsewhere. -/
def act_2 (x74 : (⟨S60000x64, .f32⟩ : BufTy).Contents (Elt F)) :
    (⟨S60000x64, .f32⟩ : BufTy).Contents (Elt F) :=
  (select ((cmpf .oge : (⟨S60000x64, .f32⟩ : BufTy).Contents (Elt F) → (⟨S60000x64, .f32⟩ : BufTy).Contents (Elt F) → (⟨S60000x64, .i1⟩ : BufTy).Contents (Elt F)) x74 ((broadcastInDim S60000x64 ![] bcast_S_S60000x64 : (⟨S_, .f32⟩ : BufTy).Contents (Elt F) → (⟨S60000x64, .f32⟩ : BufTy).Contents (Elt F)) (constant S_ .f32 0x00000000#32))) x74 ((mulf : (⟨S60000x64, .f32⟩ : BufTy).Contents (Elt F) → (⟨S60000x64, .f32⟩ : BufTy).Contents (Elt F) → (⟨S60000x64, .f32⟩ : BufTy).Contents (Elt F)) ((broadcastInDim S60000x64 ![] bcast_S_S60000x64 : (⟨S_, .f32⟩ : BufTy).Contents (Elt F) → (⟨S60000x64, .f32⟩ : BufTy).Contents (Elt F)) (constant S_ .f32 0x3C23D70A#32)) x74))

set_option maxRecDepth 8192 in
/-- After the run, `main_v79` holds `act_2` of what `main_v74` hold after the run (an argument array: what it held at launch). -/
theorem val_v79_act (V : Valuation τ sig (Elt F)) :
    after ops V (Proc.devRef .tc main_v79) = act_2 (after ops V (Proc.devRef .tc main_v74)) := by
  rw [after_ternary_fixT (rc := main_v76) (ra := main_v74) (rb := main_v78) (ry := main_v79) aligned 139 rfl (by decide) (by decide) (by decide) (by decide) (by decide) (by decide) (by decide) V]
  rw [after_binary_fix aligned 138 rfl (by decide) (by decide) (by decide) (by decide) (by decide) V]
  rw [after_unary_fix aligned 137 rfl (by decide) (by decide) (by decide) V]
  rw [after_nullary_fix aligned 136 rfl (by decide) V]
  rw [after_binary_fix aligned 135 rfl (by decide) (by decide) (by decide) (by decide) (by decide) V]
  rw [after_unary_fix aligned 134 rfl (by decide) (by decide) (by decide) V]
  rw [after_nullary_fix aligned 133 rfl (by decide) V]
  rfl

/-- Stage 2, from the pre-activation `x49` to the stage's output: batch normalisation with `a17` and `a18`, then the activation. -/
def refBn_2 (x49 : (⟨S60000x64, .f32⟩ : BufTy).Contents (Elt F)) (a17 : (⟨S64, .f32⟩ : BufTy).Contents (Elt F)) (a18 : (⟨S64, .f32⟩ : BufTy).Contents (Elt F)) :
    (⟨S60000x64, .f32⟩ : BufTy).Contents (Elt F) :=
  act_2 (norm_2 x49 a17 a18)

set_option maxRecDepth 8192 in
/-- After the run, `main_v79` holds `refBn_2` of what `main_v49`, `main_arg17`, `main_arg18` hold after the run (an argument array: what it held at launch). -/
theorem val_v79 (V : Valuation τ sig (Elt F)) :
    after ops V (Proc.devRef .tc main_v79) = refBn_2 (after ops V (Proc.devRef .tc main_v49)) (V (Proc.devRef .tc main_arg17)) (V (Proc.devRef .tc main_arg18)) := by
  rw [val_v79_act V, val_v74 V]
  rfl

end Cert.ReferenceIdeal.RefRun

end
-- ==== Proof.RefStage3.lean ====
/-
  Stage 3 of the reference, read off the run one operation at a time.

  Over the final contents of the buffers, every operation's result buffer holds the operation's function of its
  operands' buffers (the line is in single-assignment form). Chaining these equations from a stage boundary
  back to the previous boundaries and the argument arrays gives the boundary's value as one named function.
-/
import proofs.«180908_j8211977470570_1_alg».proof.Proof.Gen.ReferenceIdeal
import Idealize.ShloMosaic.Lib.StableHlo.Run
import proofs.«180908_j8211977470570_1_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo LibHostRead

variable {F : FTy → Type} [FloatOps F]

/-- Stage 3, up to the pre-activation: the rows of the table `x79` looked up at the source indices `a5` (a negative index counts from the end; an index out of range gives the not-a-number constant), times the weights `a10` per offset, summed from zero into the destination rows `a4`, plus the bias `a11`. -/
def refPre_3 (x79 : (⟨S60000x64, .f32⟩ : BufTy).Contents (Elt F)) (a5 : (⟨S27x25000, .i32⟩ : BufTy).Contents (Elt F)) (a10 : (⟨S27x64x64, .f32⟩ : BufTy).Contents (Elt F)) (a4 : (⟨S27x25000, .i32⟩ : BufTy).Contents (Elt F)) (a11 : (⟨S64, .f32⟩ : BufTy).Contents (Elt F)) :
    (⟨S60000x64, .f32⟩ : BufTy).Contents (Elt F) :=
  ((addf : (⟨S60000x64, .f32⟩ : BufTy).Contents (Elt F) → (⟨S60000x64, .f32⟩ : BufTy).Contents (Elt F) → (⟨S60000x64, .f32⟩ : BufTy).Contents (Elt F)) (Host.scatterAdd scatter_S60000x64_S675000x1_S675000x64_1_0_0_1 ((broadcastInDim S60000x64 ![] bcast_S_S60000x64 : (⟨S_, .f32⟩ : BufTy).Contents (Elt F) → (⟨S60000x64, .f32⟩ : BufTy).Contents (Elt F)) (constant S_ .f32 0x00000000#32)) ((broadcastInDim S675000x1 ![0] bcast_S675000_S675000x1_0 : (⟨S675000, .i32⟩ : BufTy).Contents (Elt F) → (⟨S675000x1, .i32⟩ : BufTy).Contents (Elt F)) (shapeCast _ a4 shapeCasts_S27x25000_S675000)) (shapeCast _ (Host.dotGeneral dot_S27x25000x64_S27x64x64_S27x25000x64_2_1_1_2_0_0 none (select ((broadcastInDim S27x25000x64 ![0, 1] bcast_S27x25000_S27x25000x64_0_1) (Host.reduce IntOp.andi (andi ((cmpi .sge) ((broadcastInDim S27x25000x1 ![0, 1] bcast_S27x25000_S27x25000x1_0_1) (select ((cmpi .slt) a5 ((broadcastInDim S27x25000 ![] bcast_S_S27x25000) (constantI S_ 32 0#32))) (addi a5 ((broadcastInDim S27x25000 ![] bcast_S_S27x25000) (constantI S_ 32 60000#32))) a5)) ((broadcastInDim S27x25000x1 ![] bcast_S_S27x25000x1) (constantI S_ 32 0#32))) ((cmpi .sle) ((broadcastInDim S27x25000x1 ![0, 1] bcast_S27x25000_S27x25000x1_0_1) (select ((cmpi .slt) a5 ((broadcastInDim S27x25000 ![] bcast_S_S27x25000) (constantI S_ 32 0#32))) (addi a5 ((broadcastInDim S27x25000 ![] bcast_S_S27x25000) (constantI S_ 32 60000#32))) a5)) ((broadcastInDim S27x25000x1 ![0, 1, 2] bcast_S1x1x1_S27x25000x1_0_1_2) ((broadcastInDim S1x1x1 ![2] bcast_S1_S1x1x1_2) (constantI S1 32 59999#32))))) (constantI S_ 1 1#1) reducesTo_S27x25000x1_S27x25000_d2 h_S_)) (Host.gather gather_S60000x64_S27x25000x1_S27x25000x64_2_0_n_n_0_2_164 x79 ((broadcastInDim S27x25000x1 ![0, 1] bcast_S27x25000_S27x25000x1_0_1) (select ((cmpi .slt) a5 ((broadcastInDim S27x25000 ![] bcast_S_S27x25000) (constantI S_ 32 0#32))) (addi a5 ((broadcastInDim S27x25000 ![] bcast_S_S27x25000) (constantI S_ 32 60000#32))) a5))) ((broadcastInDim S27x25000x64 ![] bcast_S_S27x25000x64) (constant S_ .f32 0x7FC00000#32))) a10) shapeCasts_S27x25000x64_S675000x64)) ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) a11)))

set_option maxRecDepth 8192 in
/-- After the run, `main_v89` holds `refPre_3` of what `main_v79`, `main_arg5`, `main_arg10`, `main_arg4`, `main_arg11` hold after the run (an argument array: what it held at launch). -/
theorem val_v89 (V : Valuation τ sig (Elt F)) :
    after ops V (Proc.devRef .tc main_v89) = refPre_3 (after ops V (Proc.devRef .tc main_v79)) (V (Proc.devRef .tc main_arg5)) (V (Proc.devRef .tc main_arg10)) (V (Proc.devRef .tc main_arg4)) (V (Proc.devRef .tc main_arg11)) := by
  rw [after_binary_fix aligned 172 rfl (by decide) (by decide) (by decide) (by decide) (by decide) V]
  rw [after_unary_fix aligned 171 rfl (by decide) (by decide) (by decide) V]
  rw [after_unary_fix aligned 170 rfl (by decide) (by decide) (by decide) V]
  rw [after_ternary_fix aligned 169 rfl (by decide) (by decide) (by decide) (by decide) (by decide) (by decide) (by decide) V]
  rw [after_unary_fix aligned 168 rfl (by decide) (by decide) (by decide) V]
  rw [after_unary_fix aligned 167 rfl (by decide) (by decide) (by decide) V]
  rw [after_nullary_fix aligned 166 rfl (by decide) V]
  rw [after_reshape_fix aligned 165 rfl (by decide) (by decide) (by decide) V]
  rw [after_reshape_fix aligned 164 rfl (by decide) (by decide) (by decide) V]
  rw [after_binary_fix aligned 163 rfl (by decide) (by decide) (by decide) (by decide) (by decide) V]
  rw [after_ternary_fixT (rc := main_call4_v14) (ra := main_call4_v13) (rb := main_call4_v15) (ry := main_v80) aligned 162 rfl (by decide) (by decide) (by decide) (by decide) (by decide) (by decide) (by decide) V]
  rw [after_unary_fixT (rx := main_call4_cst) (ry := main_call4_v15) aligned 161 rfl (by decide) (by decide) (by decide) V]
  rw [after_nullary_fixT (ry := main_call4_cst) aligned 160 rfl (by decide) V]
  rw [after_unary_fixT (rx := main_call4_v12) (ry := main_call4_v14) aligned 159 rfl (by decide) (by decide) (by decide) V]
  rw [after_binary_fixT (ra := main_v79) (rb := main_call4_v5) (ry := main_call4_v13) aligned 158 rfl (by decide) (by decide) (by decide) (by decide) (by decide) V]
  rw [after_binary_fixT (ra := main_call4_v11) (rb := main_call4_c_3) (ry := main_call4_v12) aligned 157 rfl (by decide) (by decide) (by decide) (by decide) (by decide) V]
  rw [after_nullary_fixT (ry := main_call4_c_3) aligned 156 rfl (by decide) V]
  rw [after_binary_fixT (ra := main_call4_v7) (rb := main_call4_v10) (ry := main_call4_v11) aligned 155 rfl (by decide) (by decide) (by decide) (by decide) (by decide) V]
  rw [after_binary_fixT (ra := main_call4_v5) (rb := main_call4_v9) (ry := main_call4_v10) aligned 154 rfl (by decide) (by decide) (by decide) (by decide) (by decide) V]
  rw [after_unary_fixT (rx := main_call4_v8) (ry := main_call4_v9) aligned 153 rfl (by decide) (by decide) (by decide) V]
  rw [after_unary_fixT (rx := main_call4_c_1) (ry := main_call4_v8) aligned 152 rfl (by decide) (by decide) (by decide) V]
  rw [after_binary_fixT (ra := main_call4_v5) (rb := main_call4_v6) (ry := main_call4_v7) aligned 151 rfl (by decide) (by decide) (by decide) (by decide) (by decide) V]
  rw [after_unary_fixT (rx := main_call4_c_2) (ry := main_call4_v6) aligned 150 rfl (by decide) (by decide) (by decide) V]
  rw [after_nullary_fixT (ry := main_call4_c_2) aligned 149 rfl (by decide) V]
  rw [after_nullary_fixT (ry := main_call4_c_1) aligned 148 rfl (by decide) V]
  rw [after_unary_fixT (rx := main_call4_v4) (ry := main_call4_v5) aligned 147 rfl (by decide) (by decide) (by decide) V]
  rw [after_ternary_fixT (rc := main_call4_v1) (ra := main_call4_v3) (rb := main_arg5) (ry := main_call4_v4) aligned 146 rfl (by decide) (by decide) (by decide) (by decide) (by decide) (by decide) (by decide) V]
  rw [after_binary_fixT (ra := main_arg5) (rb := main_call4_v2) (ry := main_call4_v3) aligned 145 rfl (by decide) (by decide) (by decide) (by decide) (by decide) V]
  rw [after_unary_fixT (rx := main_call4_c_0) (ry := main_call4_v2) aligned 144 rfl (by decide) (by decide) (by decide) V]
  rw [after_nullary_fixT (ry := main_call4_c_0) aligned 143 rfl (by decide) V]
  rw [after_binary_fixT (ra := main_arg5) (rb := main_call4_v0) (ry := main_call4_v1) aligned 142 rfl (by decide) (by decide) (by decide) (by decide) (by decide) V]
  rw [after_unary_fixT (rx := main_call4_c) (ry := main_call4_v0) aligned 141 rfl (by decide) (by decide) (by decide) V]
  rw [after_nullary_fixT (ry := main_call4_c) aligned 140 rfl (by decide) V]
  simp only [kept V main_arg5_not_written, kept V main_arg10_not_written, kept V main_arg4_not_written, kept V main_arg11_not_written]
  rfl

/-- Stage 3: the mean over the rows, per channel. -/
def mean_3 (x89 : (⟨S60000x64, .f32⟩ : BufTy).Contents (Elt F)) :
    (⟨S64, .f32⟩ : BufTy).Contents (Elt F) :=
  ((Host.divf : (⟨S64, .f32⟩ : BufTy).Contents (Elt F) → (⟨S64, .f32⟩ : BufTy).Contents (Elt F) → (⟨S64, .f32⟩ : BufTy).Contents (Elt F)) (Host.reduceAdd x89 (constant S_ .f32 0x00000000#32) reducesTo_S60000x64_S64_d0 h_S_) ((broadcastInDim S64 ![] bcast_S_S64 : (⟨S_, .f32⟩ : BufTy).Contents (Elt F) → (⟨S64, .f32⟩ : BufTy).Contents (Elt F)) (constant S_ .f32 0x476A6000#32)))

set_option maxRecDepth 8192 in
/-- After the run, `main_v92` holds `mean_3` of what `main_v89` hold after the run (an argument array: what it held at launch). -/
theorem val_v92 (V : Valuation τ sig (Elt F)) :
    after ops V (Proc.devRef .tc main_v92) = mean_3 (after ops V (Proc.devRef .tc main_v89)) := by
  rw [after_binary_fix aligned 177 rfl (by decide) (by decide) (by decide) (by decide) (by decide) V]
  rw [after_unary_fix aligned 176 rfl (by decide) (by decide) (by decide) V]
  rw [after_nullary_fix aligned 175 rfl (by decide) V]
  rw [after_binary_fix aligned 174 rfl (by decide) (by decide) (by decide) (by decide) (by decide) V]
  rw [after_nullary_fix aligned 173 rfl (by decide) V]
  rfl

/-- Stage 3: batch normalisation over the rows: centred, times the reciprocal square root of the variance plus epsilon, times gamma, plus beta. -/
def norm_3 (x89 : (⟨S60000x64, .f32⟩ : BufTy).Contents (Elt F)) (a19 : (⟨S64, .f32⟩ : BufTy).Contents (Elt F)) (a20 : (⟨S64, .f32⟩ : BufTy).Contents (Elt F)) :
    (⟨S60000x64, .f32⟩ : BufTy).Contents (Elt F) :=
  ((addf : (⟨S60000x64, .f32⟩ : BufTy).Contents (Elt F) → (⟨S60000x64, .f32⟩ : BufTy).Contents (Elt F) → (⟨S60000x64, .f32⟩ : BufTy).Contents (Elt F)) ((mulf : (⟨S60000x64, .f32⟩ : BufTy).Contents (Elt F) → (⟨S60000x64, .f32⟩ : BufTy).Contents (Elt F) → (⟨S60000x64, .f32⟩ : BufTy).Contents (Elt F)) ((mulf : (⟨S60000x64, .f32⟩ : BufTy).Contents (Elt F) → (⟨S60000x64, .f32⟩ : BufTy).Contents (Elt F) → (⟨S60000x64, .f32⟩ : BufTy).Contents (Elt F)) ((subf : (⟨S60000x64, .f32⟩ : BufTy).Contents (Elt F) → (⟨S60000x64, .f32⟩ : BufTy).Contents (Elt F) → (⟨S60000x64, .f32⟩ : BufTy).Contents (Elt F)) x89 ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) (mean_3 x89)))) ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt : (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) ((Host.divf : (⟨S64, .f32⟩ : BufTy).Contents (Elt F) → (⟨S64, .f32⟩ : BufTy).Contents (Elt F) → (⟨S64, .f32⟩ : BufTy).Contents (Elt F)) (Host.reduceAdd ((mulf : (⟨S60000x64, .f32⟩ : BufTy).Contents (Elt F) → (⟨S60000x64, .f32⟩ : BufTy).Contents (Elt F) → (⟨S60000x64, .f32⟩ : BufTy).Contents (Elt F)) ((subf : (⟨S60000x64, .f32⟩ : BufTy).Contents (Elt F) → (⟨S60000x64, .f32⟩ : BufTy).Contents (Elt F) → (⟨S60000x64, .f32⟩ : BufTy).Contents (Elt F)) x89 ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) (mean_3 x89)))) ((subf : (⟨S60000x64, .f32⟩ : BufTy).Contents (Elt F) → (⟨S60000x64, .f32⟩ : BufTy).Contents (Elt F) → (⟨S60000x64, .f32⟩ : BufTy).Contents (Elt F)) x89 ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) (mean_3 x89))))) (constant S_ .f32 0x00000000#32) reducesTo_S60000x64_S64_d0 h_S_) ((broadcastInDim S64 ![] bcast_S_S64 : (⟨S_, .f32⟩ : BufTy).Contents (Elt F) → (⟨S64, .f32⟩ : BufTy).Contents (Elt F)) (constant S_ .f32 0x476A6000#32))) ((broadcastInDim S64 ![] bcast_S_S64 : (⟨S_, .f32⟩ : BufTy).Contents (Elt F) → (⟨S64, .f32⟩ : BufTy).Contents (Elt F)) (constant S_ .f32 0x3727C5AC#32))))))) ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) a19))) ((broadcastInDim S60000x64 ![0, 1] bcast_S1x64_S60000x64_0_1 : (⟨S1x64, .f32⟩ : BufTy).Contents (Elt F) → (⟨S60000x64, .f32⟩ : BufTy).Contents (Elt F)) ((broadcastInDim S1x64 ![1] bcast_S64_S1x64_1 : (⟨S64, .f32⟩ : BufTy).Contents (Elt F) → (⟨S1x64, .f32⟩ : BufTy).Contents (Elt F)) a20)))

set_option maxRecDepth 8192 in
/-- After the run, `main_v114` holds `norm_3` of what `main_v89`, `main_arg19`, `main_arg20` hold after the run (an argument array: what it held at launch). -/
theorem val_v114 (V : Valuation τ sig (Elt F)) :
    after ops V (Proc.devRef .tc main_v114) = norm_3 (after ops V (Proc.devRef .tc main_v89)) (V (Proc.devRef .tc main_arg19)) (V (Proc.devRef .tc main_arg20)) := by
  rw [after_binary_fix aligned 202 rfl (by decide) (by decide) (by decide) (by decide) (by decide) V]
  rw [after_unary_fix aligned 201 rfl (by decide) (by decide) (by decide) V]
  rw [after_unary_fix aligned 200 rfl (by decide) (by decide) (by decide) V]
  rw [after_binary_fix aligned 199 rfl (by decide) (by decide) (by decide) (by decide) (by decide) V]
  rw [after_unary_fix aligned 198 rfl (by decide) (by decide) (by decide) V]
  rw [after_unary_fix aligned 197 rfl (by decide) (by decide) (by decide) V]
  rw [after_binary_fix aligned 196 rfl (by decide) (by decide) (by decide) (by decide) (by decide) V]
  rw [after_unary_fix aligned 195 rfl (by decide) (by decide) (by decide) V]
  rw [after_unary_fix aligned 194 rfl (by decide) (by decide) (by decide) V]
  rw [after_unary_fix aligned 193 rfl (by decide) (by decide) (by decide) V]
  rw [after_binary_fix aligned 192 rfl (by decide) (by decide) (by decide) (by decide) (by decide) V]
  rw [after_unary_fix aligned 191 rfl (by decide) (by decide) (by decide) V]
  rw [after_nullary_fix aligned 190 rfl (by decide) V]
  rw [after_binary_fix aligned 189 rfl (by decide) (by decide) (by decide) (by decide) (by decide) V]
  rw [after_unary_fix aligned 188 rfl (by decide) (by decide) (by decide) V]
  rw [after_unary_fix aligned 187 rfl (by decide) (by decide) (by decide) V]
  rw [after_binary_fix aligned 186 rfl (by decide) (by decide) (by decide) (by decide) (by decide) V]
  rw [after_unary_fix aligned 185 rfl (by decide) (by decide) (by decide) V]
  rw [after_nullary_fix aligned 184 rfl (by decide) V]
  rw [after_binary_fix aligned 183 rfl (by decide) (by decide) (by decide) (by decide) (by decide) V]
  rw [after_nullary_fix aligned 182 rfl (by decide) V]
  rw [after_binary_fix aligned 181 rfl (by decide) (by decide) (by decide) (by decide) (by decide) V]
  rw [after_binary_fix aligned 180 rfl (by decide) (by decide) (by decide) (by decide) (by decide) V]
  rw [after_unary_fix aligned 179 rfl (by decide) (by decide) (by decide) V]
  rw [after_unary_fix aligned 178 rfl (by decide) (by decide) (by decide) V]
  rw [val_v92 V]
  simp only [kept V main_arg19_not_written, kept V main_arg20_not_written]
  rfl

/-- Stage 3: the leaky activation: the value where it is at least zero, a hundredth of it elsewhere. -/
def act_3 (x114 : (⟨S60000x64, .f32⟩ : BufTy).Contents (Elt F)) :
    (⟨S60000x64, .f32⟩ : BufTy).Contents (Elt F) :=
  (select ((cmpf .oge : (⟨S60000x64, .f32⟩ : BufTy).Contents (Elt F) → (⟨S60000x64, .f32⟩ : BufTy).Contents (Elt F) → (⟨S60000x64, .i1⟩ : BufTy).Contents (Elt F)) x114 ((broadcastInDim S60000x64 ![] bcast_S_S60000x64 : (⟨S_, .f32⟩ : BufTy).Contents (Elt F) → (⟨S60000x64, .f32⟩ : BufTy).Contents (Elt F)) (constant S_ .f32 0x00000000#32))) x114 ((mulf : (⟨S60000x64, .f32⟩ : BufTy).Contents (Elt F) → (⟨S60000x64, .f32⟩ : BufTy).Contents (Elt F) → (⟨S60000x64, .f32⟩ : BufTy).Contents (Elt F)) ((broadcastInDim S60000x64 ![] bcast_S_S60000x64 : (⟨S_, .f32⟩ : BufTy).Contents (Elt F) → (⟨S60000x64, .f32⟩ : BufTy).Contents (Elt F)) (constant S_ .f32 0x3C23D70A#32)) x114))

set_option maxRecDepth 8192 in
/-- After the run, `main_v119` holds `act_3` of what `main_v114` hold after the run (an argument array: what it held at launch). -/
theorem val_v119_act (V : Valuation τ sig (Elt F)) :
    after ops V (Proc.devRef .tc main_v119) = act_3 (after ops V (Proc.devRef .tc main_v114)) := by
  rw [after_ternary_fixT (rc := main_v116) (ra := main_v114) (rb := main_v118) (ry := main_v119) aligned 209 rfl (by decide) (by decide) (by decide) (by decide) (by decide) (by decide) (by decide) V]
  rw [after_binary_fix aligned 208 rfl (by decide) (by decide) (by decide) (by decide) (by decide) V]
  rw [after_unary_fix aligned 207 rfl (by decide) (by decide) (by decide) V]
  rw [after_nullary_fix aligned 206 rfl (by decide) V]
  rw [after_binary_fix aligned 205 rfl (by decide) (by decide) (by decide) (by decide) (by decide) V]
  rw [after_unary_fix aligned 204 rfl (by decide) (by decide) (by decide) V]
  rw [after_nullary_fix aligned 203 rfl (by decide) V]
  rfl

/-- Stage 3, from the pre-activation `x89` to the stage's output: batch normalisation with `a19` and `a20`, then the activation. -/
def refBn_3 (x89 : (⟨S60000x64, .f32⟩ : BufTy).Contents (Elt F)) (a19 : (⟨S64, .f32⟩ : BufTy).Contents (Elt F)) (a20 : (⟨S64, .f32⟩ : BufTy).Contents (Elt F)) :
    (⟨S60000x64, .f32⟩ : BufTy).Contents (Elt F) :=
  act_3 (norm_3 x89 a19 a20)

set_option maxRecDepth 8192 in
/-- After the run, `main_v119` holds `refBn_3` of what `main_v89`, `main_arg19`, `main_arg20` hold after the run (an argument array: what it held at launch). -/
theorem val_v119 (V : Valuation τ sig (Elt F)) :
    after ops V (Proc.devRef .tc main_v119) = refBn_3 (after ops V (Proc.devRef .tc main_v89)) (V (Proc.devRef .tc main_arg19)) (V (Proc.devRef .tc main_arg20)) := by
  rw [val_v119_act V, val_v114 V]
  rfl

set_option maxRecDepth 8192 in
/-- After the run, `main_v120` holds the sum of the outputs of stages 3 and 1. -/
theorem val_v120 (V : Valuation τ sig (Elt F)) :
    after ops V (Proc.devRef .tc main_v120)
      = (addf : (⟨S60000x64, .f32⟩ : BufTy).Contents (Elt F) → (⟨S60000x64, .f32⟩ : BufTy).Contents (Elt F) → (⟨S60000x64, .f32⟩ : BufTy).Contents (Elt F)) (after ops V (Proc.devRef .tc main_v119)) (after ops V (Proc.devRef .tc main_v39)) := by
  rw [after_binary_fix aligned 210 rfl (by decide) (by decide) (by decide) (by decide) (by decide) V]

end Cert.ReferenceIdeal.RefRun

end
-- ==== Proof.RefStage4.lean ====
/-
  Stage 4 of the reference, read off the run one operation at a time.

  Over the final contents of the buffers, every operation's result buffer holds the operation's function of its
  operands' buffers (the line is in single-assignment form). Chaining these equations from a stage boundary
  back to the previous boundaries and the argument arrays gives the boundary's value as one named function.
-/
import proofs.«180908_j8211977470570_1_alg».proof.Proof.Gen.ReferenceIdeal
import Idealize.ShloMosaic.Lib.StableHlo.Run
import proofs.«180908_j8211977470570_1_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo LibHostRead

variable {F : FTy → Type} [FloatOps F]

/-- Stage 4, up to the pre-activation: the rows of the table `x120` looked up at the source indices `a4` (a negative index counts from the end; an index out of range gives the not-a-number constant), times the weights `a12` per offset, summed from zero into the destination rows `a5`. -/
def refPre_4 (x120 : (⟨S60000x64, .f32⟩ : BufTy).Contents (Elt F)) (a4 : (⟨S27x25000, .i32⟩ : BufTy).Contents (Elt F)) (a12 : (⟨S27x64x1, .f32⟩ : BufTy).Contents (Elt F)) (a5 : (⟨S27x25000, .i32⟩ : BufTy).Contents (Elt F)) :
    (⟨S60000x1, .f32⟩ : BufTy).Contents (Elt F) :=
  (Host.scatterAdd scatter_S60000x1_S675000x1_S675000x1_1_0_0_1 ((broadcastInDim S60000x1 ![] bcast_S_S60000x1 : (⟨S_, .f32⟩ : BufTy).Contents (Elt F) → (⟨S60000x1, .f32⟩ : BufTy).Contents (Elt F)) (constant S_ .f32 0x00000000#32)) ((broadcastInDim S675000x1 ![0] bcast_S675000_S675000x1_0 : (⟨S675000, .i32⟩ : BufTy).Contents (Elt F) → (⟨S675000x1, .i32⟩ : BufTy).Contents (Elt F)) (shapeCast _ a5 shapeCasts_S27x25000_S675000)) (shapeCast _ (Host.dotGeneral dot_S27x25000x64_S27x64x1_S27x25000x1_2_1_1_2_0_0 none (select ((broadcastInDim S27x25000x64 ![0, 1] bcast_S27x25000_S27x25000x64_0_1) (Host.reduce IntOp.andi (andi ((cmpi .sge) ((broadcastInDim S27x25000x1 ![0, 1] bcast_S27x25000_S27x25000x1_0_1) (select ((cmpi .slt) a4 ((broadcastInDim S27x25000 ![] bcast_S_S27x25000) (constantI S_ 32 0#32))) (addi a4 ((broadcastInDim S27x25000 ![] bcast_S_S27x25000) (constantI S_ 32 60000#32))) a4)) ((broadcastInDim S27x25000x1 ![] bcast_S_S27x25000x1) (constantI S_ 32 0#32))) ((cmpi .sle) ((broadcastInDim S27x25000x1 ![0, 1] bcast_S27x25000_S27x25000x1_0_1) (select ((cmpi .slt) a4 ((broadcastInDim S27x25000 ![] bcast_S_S27x25000) (constantI S_ 32 0#32))) (addi a4 ((broadcastInDim S27x25000 ![] bcast_S_S27x25000) (constantI S_ 32 60000#32))) a4)) ((broadcastInDim S27x25000x1 ![0, 1, 2] bcast_S1x1x1_S27x25000x1_0_1_2) ((broadcastInDim S1x1x1 ![2] bcast_S1_S1x1x1_2) (constantI S1 32 59999#32))))) (constantI S_ 1 1#1) reducesTo_S27x25000x1_S27x25000_d2 h_S_)) (Host.gather gather_S60000x64_S27x25000x1_S27x25000x64_2_0_n_n_0_2_164 x120 ((broadcastInDim S27x25000x1 ![0, 1] bcast_S27x25000_S27x25000x1_0_1) (select ((cmpi .slt) a4 ((broadcastInDim S27x25000 ![] bcast_S_S27x25000) (constantI S_ 32 0#32))) (addi a4 ((broadcastInDim S27x25000 ![] bcast_S_S27x25000) (constantI S_ 32 60000#32))) a4))) ((broadcastInDim S27x25000x64 ![] bcast_S_S27x25000x64) (constant S_ .f32 0x7FC00000#32))) a12) shapeCasts_S27x25000x1_S675000x1))

set_option maxRecDepth 8192 in
/-- After the run, `main_v127` holds `refPre_4` of what `main_v120`, `main_arg4`, `main_arg12`, `main_arg5` hold after the run (an argument array: what it held at launch). -/
theorem val_v127 (V : Valuation τ sig (Elt F)) :
    after ops V (Proc.devRef .tc main_v127) = refPre_4 (after ops V (Proc.devRef .tc main_v120)) (V (Proc.devRef .tc main_arg4)) (V (Proc.devRef .tc main_arg12)) (V (Proc.devRef .tc main_arg5)) := by
  rw [after_ternary_fix aligned 240 rfl (by decide) (by decide) (by decide) (by decide) (by decide) (by decide) (by decide) V]
  rw [after_unary_fix aligned 239 rfl (by decide) (by decide) (by decide) V]
  rw [after_unary_fix aligned 238 rfl (by decide) (by decide) (by decide) V]
  rw [after_nullary_fix aligned 237 rfl (by decide) V]
  rw [after_reshape_fix aligned 236 rfl (by decide) (by decide) (by decide) V]
  rw [after_reshape_fix aligned 235 rfl (by decide) (by decide) (by decide) V]
  rw [after_binary_fix aligned 234 rfl (by decide) (by decide) (by decide) (by decide) (by decide) V]
  rw [after_ternary_fixT (rc := main_call6_v14) (ra := main_call6_v13) (rb := main_call6_v15) (ry := main_v121) aligned 233 rfl (by decide) (by decide) (by decide) (by decide) (by decide) (by decide) (by decide) V]
  rw [after_unary_fixT (rx := main_call6_cst) (ry := main_call6_v15) aligned 232 rfl (by decide) (by decide) (by decide) V]
  rw [after_nullary_fixT (ry := main_call6_cst) aligned 231 rfl (by decide) V]
  rw [after_unary_fixT (rx := main_call6_v12) (ry := main_call6_v14) aligned 230 rfl (by decide) (by decide) (by decide) V]
  rw [after_binary_fixT (ra := main_v120) (rb := main_call6_v5) (ry := main_call6_v13) aligned 229 rfl (by decide) (by decide) (by decide) (by decide) (by decide) V]
  rw [after_binary_fixT (ra := main_call6_v11) (rb := main_call6_c_3) (ry := main_call6_v12) aligned 228 rfl (by decide) (by decide) (by decide) (by decide) (by decide) V]
  rw [after_nullary_fixT (ry := main_call6_c_3) aligned 227 rfl (by decide) V]
  rw [after_binary_fixT (ra := main_call6_v7) (rb := main_call6_v10) (ry := main_call6_v11) aligned 226 rfl (by decide) (by decide) (by decide) (by decide) (by decide) V]
  rw [after_binary_fixT (ra := main_call6_v5) (rb := main_call6_v9) (ry := main_call6_v10) aligned 225 rfl (by decide) (by decide) (by decide) (by decide) (by decide) V]
  rw [after_unary_fixT (rx := main_call6_v8) (ry := main_call6_v9) aligned 224 rfl (by decide) (by decide) (by decide) V]
  rw [after_unary_fixT (rx := main_call6_c_1) (ry := main_call6_v8) aligned 223 rfl (by decide) (by decide) (by decide) V]
  rw [after_binary_fixT (ra := main_call6_v5) (rb := main_call6_v6) (ry := main_call6_v7) aligned 222 rfl (by decide) (by decide) (by decide) (by decide) (by decide) V]
  rw [after_unary_fixT (rx := main_call6_c_2) (ry := main_call6_v6) aligned 221 rfl (by decide) (by decide) (by decide) V]
  rw [after_nullary_fixT (ry := main_call6_c_2) aligned 220 rfl (by decide) V]
  rw [after_nullary_fixT (ry := main_call6_c_1) aligned 219 rfl (by decide) V]
  rw [after_unary_fixT (rx := main_call6_v4) (ry := main_call6_v5) aligned 218 rfl (by decide) (by decide) (by decide) V]
  rw [after_ternary_fixT (rc := main_call6_v1) (ra := main_call6_v3) (rb := main_arg4) (ry := main_call6_v4) aligned 217 rfl (by decide) (by decide) (by decide) (by decide) (by decide) (by decide) (by decide) V]
  rw [after_binary_fixT (ra := main_arg4) (rb := main_call6_v2) (ry := main_call6_v3) aligned 216 rfl (by decide) (by decide) (by decide) (by decide) (by decide) V]
  rw [after_unary_fixT (rx := main_call6_c_0) (ry := main_call6_v2) aligned 215 rfl (by decide) (by decide) (by decide) V]
  rw [after_nullary_fixT (ry := main_call6_c_0) aligned 214 rfl (by decide) V]
  rw [after_binary_fixT (ra := main_arg4) (rb := main_call6_v0) (ry := main_call6_v1) aligned 213 rfl (by decide) (by decide) (by decide) (by decide) (by decide) V]
  rw [after_unary_fixT (rx := main_call6_c) (ry := main_call6_v0) aligned 212 rfl (by decide) (by decide) (by decide) V]
  rw [after_nullary_fixT (ry := main_call6_c) aligned 211 rfl (by decide) V]
  simp only [kept V main_arg4_not_written, kept V main_arg12_not_written, kept V main_arg5_not_written]
  rfl

/-- Stage 4: the mean over the rows, per channel. -/
def mean_4 (x127 : (⟨S60000x1, .f32⟩ : BufTy).Contents (Elt F)) :
    (⟨S1, .f32⟩ : BufTy).Contents (Elt F) :=
  ((Host.divf : (⟨S1, .f32⟩ : BufTy).Contents (Elt F) → (⟨S1, .f32⟩ : BufTy).Contents (Elt F) → (⟨S1, .f32⟩ : BufTy).Contents (Elt F)) (Host.reduceAdd x127 (constant S_ .f32 0x00000000#32) reducesTo_S60000x1_S1_d0 h_S_) ((broadcastInDim S1 ![] bcast_S_S1 : (⟨S_, .f32⟩ : BufTy).Contents (Elt F) → (⟨S1, .f32⟩ : BufTy).Contents (Elt F)) (constant S_ .f32 0x476A6000#32)))

set_option maxRecDepth 8192 in
/-- After the run, `main_v130` holds `mean_4` of what `main_v127` hold after the run (an argument array: what it held at launch). -/
theorem val_v130 (V : Valuation τ sig (Elt F)) :
    after ops V (Proc.devRef .tc main_v130) = mean_4 (after ops V (Proc.devRef .tc main_v127)) := by
  rw [after_binary_fix aligned 245 rfl (by decide) (by decide) (by decide) (by decide) (by decide) V]
  rw [after_unary_fix aligned 244 rfl (by decide) (by decide) (by decide) V]
  rw [after_nullary_fix aligned 243 rfl (by decide) V]
  rw [after_binary_fix aligned 242 rfl (by decide) (by decide) (by decide) (by decide) (by decide) V]
  rw [after_nullary_fix aligned 241 rfl (by decide) V]
  rfl

/-- Stage 4: batch normalisation over the rows: centred, times the reciprocal square root of the variance plus epsilon, times gamma, plus beta. -/
def norm_4 (x127 : (⟨S60000x1, .f32⟩ : BufTy).Contents (Elt F)) (a21 : (⟨S1, .f32⟩ : BufTy).Contents (Elt F)) (a22 : (⟨S1, .f32⟩ : BufTy).Contents (Elt F)) :
    (⟨S60000x1, .f32⟩ : BufTy).Contents (Elt F) :=
  ((addf : (⟨S60000x1, .f32⟩ : BufTy).Contents (Elt F) → (⟨S60000x1, .f32⟩ : BufTy).Contents (Elt F) → (⟨S60000x1, .f32⟩ : BufTy).Contents (Elt F)) ((mulf : (⟨S60000x1, .f32⟩ : BufTy).Contents (Elt F) → (⟨S60000x1, .f32⟩ : BufTy).Contents (Elt F) → (⟨S60000x1, .f32⟩ : BufTy).Contents (Elt F)) ((mulf : (⟨S60000x1, .f32⟩ : BufTy).Contents (Elt F) → (⟨S60000x1, .f32⟩ : BufTy).Contents (Elt F) → (⟨S60000x1, .f32⟩ : BufTy).Contents (Elt F)) ((subf : (⟨S60000x1, .f32⟩ : BufTy).Contents (Elt F) → (⟨S60000x1, .f32⟩ : BufTy).Contents (Elt F) → (⟨S60000x1, .f32⟩ : BufTy).Contents (Elt F)) x127 ((broadcastInDim S60000x1 ![0, 1] bcast_S1x1_S60000x1_0_1 : (⟨S1x1, .f32⟩ : BufTy).Contents (Elt F) → (⟨S60000x1, .f32⟩ : BufTy).Contents (Elt F)) ((broadcastInDim S1x1 ![1] bcast_S1_S1x1_1 : (⟨S1, .f32⟩ : BufTy).Contents (Elt F) → (⟨S1x1, .f32⟩ : BufTy).Contents (Elt F)) (mean_4 x127)))) ((broadcastInDim S60000x1 ![0, 1] bcast_S1x1_S60000x1_0_1 : (⟨S1x1, .f32⟩ : BufTy).Contents (Elt F) → (⟨S60000x1, .f32⟩ : BufTy).Contents (Elt F)) ((broadcastInDim S1x1 ![1] bcast_S1_S1x1_1 : (⟨S1, .f32⟩ : BufTy).Contents (Elt F) → (⟨S1x1, .f32⟩ : BufTy).Contents (Elt F)) ((Host.rsqrt : (⟨S1, .f32⟩ : BufTy).Contents (Elt F) → (⟨S1, .f32⟩ : BufTy).Contents (Elt F)) ((addf : (⟨S1, .f32⟩ : BufTy).Contents (Elt F) → (⟨S1, .f32⟩ : BufTy).Contents (Elt F) → (⟨S1, .f32⟩ : BufTy).Contents (Elt F)) ((Host.divf : (⟨S1, .f32⟩ : BufTy).Contents (Elt F) → (⟨S1, .f32⟩ : BufTy).Contents (Elt F) → (⟨S1, .f32⟩ : BufTy).Contents (Elt F)) (Host.reduceAdd ((mulf : (⟨S60000x1, .f32⟩ : BufTy).Contents (Elt F) → (⟨S60000x1, .f32⟩ : BufTy).Contents (Elt F) → (⟨S60000x1, .f32⟩ : BufTy).Contents (Elt F)) ((subf : (⟨S60000x1, .f32⟩ : BufTy).Contents (Elt F) → (⟨S60000x1, .f32⟩ : BufTy).Contents (Elt F) → (⟨S60000x1, .f32⟩ : BufTy).Contents (Elt F)) x127 ((broadcastInDim S60000x1 ![0, 1] bcast_S1x1_S60000x1_0_1 : (⟨S1x1, .f32⟩ : BufTy).Contents (Elt F) → (⟨S60000x1, .f32⟩ : BufTy).Contents (Elt F)) ((broadcastInDim S1x1 ![1] bcast_S1_S1x1_1 : (⟨S1, .f32⟩ : BufTy).Contents (Elt F) → (⟨S1x1, .f32⟩ : BufTy).Contents (Elt F)) (mean_4 x127)))) ((subf : (⟨S60000x1, .f32⟩ : BufTy).Contents (Elt F) → (⟨S60000x1, .f32⟩ : BufTy).Contents (Elt F) → (⟨S60000x1, .f32⟩ : BufTy).Contents (Elt F)) x127 ((broadcastInDim S60000x1 ![0, 1] bcast_S1x1_S60000x1_0_1 : (⟨S1x1, .f32⟩ : BufTy).Contents (Elt F) → (⟨S60000x1, .f32⟩ : BufTy).Contents (Elt F)) ((broadcastInDim S1x1 ![1] bcast_S1_S1x1_1 : (⟨S1, .f32⟩ : BufTy).Contents (Elt F) → (⟨S1x1, .f32⟩ : BufTy).Contents (Elt F)) (mean_4 x127))))) (constant S_ .f32 0x00000000#32) reducesTo_S60000x1_S1_d0 h_S_) ((broadcastInDim S1 ![] bcast_S_S1 : (⟨S_, .f32⟩ : BufTy).Contents (Elt F) → (⟨S1, .f32⟩ : BufTy).Contents (Elt F)) (constant S_ .f32 0x476A6000#32))) ((broadcastInDim S1 ![] bcast_S_S1 : (⟨S_, .f32⟩ : BufTy).Contents (Elt F) → (⟨S1, .f32⟩ : BufTy).Contents (Elt F)) (constant S_ .f32 0x3727C5AC#32))))))) ((broadcastInDim S60000x1 ![0, 1] bcast_S1x1_S60000x1_0_1 : (⟨S1x1, .f32⟩ : BufTy).Contents (Elt F) → (⟨S60000x1, .f32⟩ : BufTy).Contents (Elt F)) ((broadcastInDim S1x1 ![1] bcast_S1_S1x1_1 : (⟨S1, .f32⟩ : BufTy).Contents (Elt F) → (⟨S1x1, .f32⟩ : BufTy).Contents (Elt F)) a21))) ((broadcastInDim S60000x1 ![0, 1] bcast_S1x1_S60000x1_0_1 : (⟨S1x1, .f32⟩ : BufTy).Contents (Elt F) → (⟨S60000x1, .f32⟩ : BufTy).Contents (Elt F)) ((broadcastInDim S1x1 ![1] bcast_S1_S1x1_1 : (⟨S1, .f32⟩ : BufTy).Contents (Elt F) → (⟨S1x1, .f32⟩ : BufTy).Contents (Elt F)) a22)))

set_option maxRecDepth 8192 in
/-- After the run, `main_v152` holds `norm_4` of what `main_v127`, `main_arg21`, `main_arg22` hold after the run (an argument array: what it held at launch). -/
theorem val_v152 (V : Valuation τ sig (Elt F)) :
    after ops V (Proc.devRef .tc main_v152) = norm_4 (after ops V (Proc.devRef .tc main_v127)) (V (Proc.devRef .tc main_arg21)) (V (Proc.devRef .tc main_arg22)) := by
  rw [after_binary_fix aligned 270 rfl (by decide) (by decide) (by decide) (by decide) (by decide) V]
  rw [after_unary_fix aligned 269 rfl (by decide) (by decide) (by decide) V]
  rw [after_unary_fix aligned 268 rfl (by decide) (by decide) (by decide) V]
  rw [after_binary_fix aligned 267 rfl (by decide) (by decide) (by decide) (by decide) (by decide) V]
  rw [after_unary_fix aligned 266 rfl (by decide) (by decide) (by decide) V]
  rw [after_unary_fix aligned 265 rfl (by decide) (by decide) (by decide) V]
  rw [after_binary_fix aligned 264 rfl (by decide) (by decide) (by decide) (by decide) (by decide) V]
  rw [after_unary_fix aligned 263 rfl (by decide) (by decide) (by decide) V]
  rw [after_unary_fix aligned 262 rfl (by decide) (by decide) (by decide) V]
  rw [after_unary_fix aligned 261 rfl (by decide) (by decide) (by decide) V]
  rw [after_binary_fix aligned 260 rfl (by decide) (by decide) (by decide) (by decide) (by decide) V]
  rw [after_unary_fix aligned 259 rfl (by decide) (by decide) (by decide) V]
  rw [after_nullary_fix aligned 258 rfl (by decide) V]
  rw [after_binary_fix aligned 257 rfl (by decide) (by decide) (by decide) (by decide) (by decide) V]
  rw [after_unary_fix aligned 256 rfl (by decide) (by decide) (by decide) V]
  rw [after_unary_fix aligned 255 rfl (by decide) (by decide) (by decide) V]
  rw [after_binary_fix aligned 254 rfl (by decide) (by decide) (by decide) (by decide) (by decide) V]
  rw [after_unary_fix aligned 253 rfl (by decide) (by decide) (by decide) V]
  rw [after_nullary_fix aligned 252 rfl (by decide) V]
  rw [after_binary_fix aligned 251 rfl (by decide) (by decide) (by decide) (by decide) (by decide) V]
  rw [after_nullary_fix aligned 250 rfl (by decide) V]
  rw [after_binary_fix aligned 249 rfl (by decide) (by decide) (by decide) (by decide) (by decide) V]
  rw [after_binary_fix aligned 248 rfl (by decide) (by decide) (by decide) (by decide) (by decide) V]
  rw [after_unary_fix aligned 247 rfl (by decide) (by decide) (by decide) V]
  rw [after_unary_fix aligned 246 rfl (by decide) (by decide) (by decide) V]
  rw [val_v130 V]
  simp only [kept V main_arg21_not_written, kept V main_arg22_not_written]
  rfl

/-- Stage 4: the leaky activation: the value where it is at least zero, a hundredth of it elsewhere. -/
def act_4 (x152 : (⟨S60000x1, .f32⟩ : BufTy).Contents (Elt F)) :
    (⟨S60000x1, .f32⟩ : BufTy).Contents (Elt F) :=
  (select ((cmpf .oge : (⟨S60000x1, .f32⟩ : BufTy).Contents (Elt F) → (⟨S60000x1, .f32⟩ : BufTy).Contents (Elt F) → (⟨S60000x1, .i1⟩ : BufTy).Contents (Elt F)) x152 ((broadcastInDim S60000x1 ![] bcast_S_S60000x1 : (⟨S_, .f32⟩ : BufTy).Contents (Elt F) → (⟨S60000x1, .f32⟩ : BufTy).Contents (Elt F)) (constant S_ .f32 0x00000000#32))) x152 ((mulf : (⟨S60000x1, .f32⟩ : BufTy).Contents (Elt F) → (⟨S60000x1, .f32⟩ : BufTy).Contents (Elt F) → (⟨S60000x1, .f32⟩ : BufTy).Contents (Elt F)) ((broadcastInDim S60000x1 ![] bcast_S_S60000x1 : (⟨S_, .f32⟩ : BufTy).Contents (Elt F) → (⟨S60000x1, .f32⟩ : BufTy).Contents (Elt F)) (constant S_ .f32 0x3C23D70A#32)) x152))

set_option maxRecDepth 8192 in
/-- After the run, `main_v157` holds `act_4` of what `main_v152` hold after the run (an argument array: what it held at launch). -/
theorem val_v157_act (V : Valuation τ sig (Elt F)) :
    after ops V (Proc.devRef .tc main_v157) = act_4 (after ops V (Proc.devRef .tc main_v152)) := by
  rw [after_ternary_fixT (rc := main_v154) (ra := main_v152) (rb := main_v156) (ry := main_v157) aligned 277 rfl (by decide) (by decide) (by decide) (by decide) (by decide) (by decide) (by decide) V]
  rw [after_binary_fix aligned 276 rfl (by decide) (by decide) (by decide) (by decide) (by decide) V]
  rw [after_unary_fix aligned 275 rfl (by decide) (by decide) (by decide) V]
  rw [after_nullary_fix aligned 274 rfl (by decide) V]
  rw [after_binary_fix aligned 273 rfl (by decide) (by decide) (by decide) (by decide) (by decide) V]
  rw [after_unary_fix aligned 272 rfl (by decide) (by decide) (by decide) V]
  rw [after_nullary_fix aligned 271 rfl (by decide) V]
  rfl

/-- Stage 4, from the pre-activation `x127` to the stage's output: batch normalisation with `a21` and `a22`, then the activation. -/
def refBn_4 (x127 : (⟨S60000x1, .f32⟩ : BufTy).Contents (Elt F)) (a21 : (⟨S1, .f32⟩ : BufTy).Contents (Elt F)) (a22 : (⟨S1, .f32⟩ : BufTy).Contents (Elt F)) :
    (⟨S60000x1, .f32⟩ : BufTy).Contents (Elt F) :=
  act_4 (norm_4 x127 a21 a22)

set_option maxRecDepth 8192 in
/-- After the run, `main_v157` holds `refBn_4` of what `main_v127`, `main_arg21`, `main_arg22` hold after the run (an argument array: what it held at launch). -/
theorem val_v157 (V : Valuation τ sig (Elt F)) :
    after ops V (Proc.devRef .tc main_v157) = refBn_4 (after ops V (Proc.devRef .tc main_v127)) (V (Proc.devRef .tc main_arg21)) (V (Proc.devRef .tc main_arg22)) := by
  rw [val_v157_act V, val_v152 V]
  rfl

end Cert.ReferenceIdeal.RefRun

end
-- ==== Proof.RefStage5.lean ====
/-
  Stage 5 of the reference, read off the run one operation at a time.

  Over the final contents of the buffers, every operation's result buffer holds the operation's function of its
  operands' buffers (the line is in single-assignment form). Chaining these equations from a stage boundary
  back to the previous boundaries and the argument arrays gives the boundary's value as one named function.
-/
import proofs.«180908_j8211977470570_1_alg».proof.Proof.Gen.ReferenceIdeal
import Idealize.ShloMosaic.Lib.StableHlo.Run
import proofs.«180908_j8211977470570_1_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo LibHostRead

variable {F : FTy → Type} [FloatOps F]

/-- Stage 5, up to the pre-activation: the rows of the table `x157` looked up at the source indices `a3` (a negative index counts from the end; an index out of range gives the not-a-number constant), times the weights `a13` per offset, summed from zero into the destination rows `a2`, plus the bias `a14`. -/
def refPre_5 (x157 : (⟨S60000x1, .f32⟩ : BufTy).Contents (Elt F)) (a3 : (⟨S27x40000, .i32⟩ : BufTy).Contents (Elt F)) (a13 : (⟨S27x1x64, .f32⟩ : BufTy).Contents (Elt F)) (a2 : (⟨S27x40000, .i32⟩ : BufTy).Contents (Elt F)) (a14 : (⟨S64, .f32⟩ : BufTy).Contents (Elt F)) :
    (⟨S200000x64, .f32⟩ : BufTy).Contents (Elt F) :=
  ((addf : (⟨S200000x64, .f32⟩ : BufTy).Contents (Elt F) → (⟨S200000x64, .f32⟩ : BufTy).Contents (Elt F) → (⟨S200000x64, .f32⟩ : BufTy).Contents (Elt F)) (Host.scatterAdd scatter_S200000x64_S1080000x1_S1080000x64_1_0_0_1 ((broadcastInDim S200000x64 ![] bcast_S_S200000x64 : (⟨S_, .f32⟩ : BufTy).Contents (Elt F) → (⟨S200000x64, .f32⟩ : BufTy).Contents (Elt F)) (constant S_ .f32 0x00000000#32)) ((broadcastInDim S1080000x1 ![0] bcast_S1080000_S1080000x1_0 : (⟨S1080000, .i32⟩ : BufTy).Contents (Elt F) → (⟨S1080000x1, .i32⟩ : BufTy).Contents (Elt F)) (shapeCast _ a2 shapeCasts_S27x40000_S1080000)) (shapeCast _ (Host.dotGeneral dot_S27x40000x1_S27x1x64_S27x40000x64_2_1_1_2_0_0 none (select ((broadcastInDim S27x40000x1 ![0, 1] bcast_S27x40000_S27x40000x1_0_1) (Host.reduce IntOp.andi (andi ((cmpi .sge) ((broadcastInDim S27x40000x1 ![0, 1] bcast_S27x40000_S27x40000x1_0_1) (select ((cmpi .slt) a3 ((broadcastInDim S27x40000 ![] bcast_S_S27x40000) (constantI S_ 32 0#32))) (addi a3 ((broadcastInDim S27x40000 ![] bcast_S_S27x40000) (constantI S_ 32 60000#32))) a3)) ((broadcastInDim S27x40000x1 ![] bcast_S_S27x40000x1) (constantI S_ 32 0#32))) ((cmpi .sle) ((broadcastInDim S27x40000x1 ![0, 1] bcast_S27x40000_S27x40000x1_0_1) (select ((cmpi .slt) a3 ((broadcastInDim S27x40000 ![] bcast_S_S27x40000) (constantI S_ 32 0#32))) (addi a3 ((broadcastInDim S27x40000 ![] bcast_S_S27x40000) (constantI S_ 32 60000#32))) a3)) ((broadcastInDim S27x40000x1 ![0, 1, 2] bcast_S1x1x1_S27x40000x1_0_1_2) ((broadcastInDim S1x1x1 ![2] bcast_S1_S1x1x1_2) (constantI S1 32 59999#32))))) (constantI S_ 1 1#1) reducesTo_S27x40000x1_S27x40000_d2 h_S_)) (Host.gather gather_S60000x1_S27x40000x1_S27x40000x1_2_0_n_n_0_2_11 x157 ((broadcastInDim S27x40000x1 ![0, 1] bcast_S27x40000_S27x40000x1_0_1) (select ((cmpi .slt) a3 ((broadcastInDim S27x40000 ![] bcast_S_S27x40000) (constantI S_ 32 0#32))) (addi a3 ((broadcastInDim S27x40000 ![] bcast_S_S27x40000) (constantI S_ 32 60000#32))) a3))) ((broadcastInDim S27x40000x1 ![] bcast_S_S27x40000x1) (constant S_ .f32 0x7FC00000#32))) a13) shapeCasts_S27x40000x64_S1080000x64)) ((broadcastInDim S200000x64 ![0, 1] bcast_S1x64_S200000x64_0_1 : (⟨S1x64, .f32⟩ : BufTy).Contents (Elt F) → (⟨S200000x64, .f32⟩ : BufTy).Contents (Elt F)) ((broadcastInDim S1x64 ![1] bcast_S64_S1x64_1 : (⟨S64, .f32⟩ : BufTy).Contents (Elt F) → (⟨S1x64, .f32⟩ : BufTy).Contents (Elt F)) a14)))

set_option maxRecDepth 8192 in
/-- After the run, `main_v167` holds `refPre_5` of what `main_v157`, `main_arg3`, `main_arg13`, `main_arg2`, `main_arg14` hold after the run (an argument array: what it held at launch). -/
theorem val_v167 (V : Valuation τ sig (Elt F)) :
    after ops V (Proc.devRef .tc main_v167) = refPre_5 (after ops V (Proc.devRef .tc main_v157)) (V (Proc.devRef .tc main_arg3)) (V (Proc.devRef .tc main_arg13)) (V (Proc.devRef .tc main_arg2)) (V (Proc.devRef .tc main_arg14)) := by
  rw [after_binary_fix aligned 310 rfl (by decide) (by decide) (by decide) (by decide) (by decide) V]
  rw [after_unary_fix aligned 309 rfl (by decide) (by decide) (by decide) V]
  rw [after_unary_fix aligned 308 rfl (by decide) (by decide) (by decide) V]
  rw [after_ternary_fix aligned 307 rfl (by decide) (by decide) (by decide) (by decide) (by decide) (by decide) (by decide) V]
  rw [after_unary_fix aligned 306 rfl (by decide) (by decide) (by decide) V]
  rw [after_unary_fix aligned 305 rfl (by decide) (by decide) (by decide) V]
  rw [after_nullary_fix aligned 304 rfl (by decide) V]
  rw [after_reshape_fix aligned 303 rfl (by decide) (by decide) (by decide) V]
  rw [after_reshape_fix aligned 302 rfl (by decide) (by decide) (by decide) V]
  rw [after_binary_fix aligned 301 rfl (by decide) (by decide) (by decide) (by decide) (by decide) V]
  rw [after_ternary_fixT (rc := main_call8_v14) (ra := main_call8_v13) (rb := main_call8_v15) (ry := main_v158) aligned 300 rfl (by decide) (by decide) (by decide) (by decide) (by decide) (by decide) (by decide) V]
  rw [after_unary_fixT (rx := main_call8_cst) (ry := main_call8_v15) aligned 299 rfl (by decide) (by decide) (by decide) V]
  rw [after_nullary_fixT (ry := main_call8_cst) aligned 298 rfl (by decide) V]
  rw [after_unary_fixT (rx := main_call8_v12) (ry := main_call8_v14) aligned 297 rfl (by decide) (by decide) (by decide) V]
  rw [after_binary_fixT (ra := main_v157) (rb := main_call8_v5) (ry := main_call8_v13) aligned 296 rfl (by decide) (by decide) (by decide) (by decide) (by decide) V]
  rw [after_binary_fixT (ra := main_call8_v11) (rb := main_call8_c_3) (ry := main_call8_v12) aligned 295 rfl (by decide) (by decide) (by decide) (by decide) (by decide) V]
  rw [after_nullary_fixT (ry := main_call8_c_3) aligned 294 rfl (by decide) V]
  rw [after_binary_fixT (ra := main_call8_v7) (rb := main_call8_v10) (ry := main_call8_v11) aligned 293 rfl (by decide) (by decide) (by decide) (by decide) (by decide) V]
  rw [after_binary_fixT (ra := main_call8_v5) (rb := main_call8_v9) (ry := main_call8_v10) aligned 292 rfl (by decide) (by decide) (by decide) (by decide) (by decide) V]
  rw [after_unary_fixT (rx := main_call8_v8) (ry := main_call8_v9) aligned 291 rfl (by decide) (by decide) (by decide) V]
  rw [after_unary_fixT (rx := main_call8_c_1) (ry := main_call8_v8) aligned 290 rfl (by decide) (by decide) (by decide) V]
  rw [after_binary_fixT (ra := main_call8_v5) (rb := main_call8_v6) (ry := main_call8_v7) aligned 289 rfl (by decide) (by decide) (by decide) (by decide) (by decide) V]
  rw [after_unary_fixT (rx := main_call8_c_2) (ry := main_call8_v6) aligned 288 rfl (by decide) (by decide) (by decide) V]
  rw [after_nullary_fixT (ry := main_call8_c_2) aligned 287 rfl (by decide) V]
  rw [after_nullary_fixT (ry := main_call8_c_1) aligned 286 rfl (by decide) V]
  rw [after_unary_fixT (rx := main_call8_v4) (ry := main_call8_v5) aligned 285 rfl (by decide) (by decide) (by decide) V]
  rw [after_ternary_fixT (rc := main_call8_v1) (ra := main_call8_v3) (rb := main_arg3) (ry := main_call8_v4) aligned 284 rfl (by decide) (by decide) (by decide) (by decide) (by decide) (by decide) (by decide) V]
  rw [after_binary_fixT (ra := main_arg3) (rb := main_call8_v2) (ry := main_call8_v3) aligned 283 rfl (by decide) (by decide) (by decide) (by decide) (by decide) V]
  rw [after_unary_fixT (rx := main_call8_c_0) (ry := main_call8_v2) aligned 282 rfl (by decide) (by decide) (by decide) V]
  rw [after_nullary_fixT (ry := main_call8_c_0) aligned 281 rfl (by decide) V]
  rw [after_binary_fixT (ra := main_arg3) (rb := main_call8_v0) (ry := main_call8_v1) aligned 280 rfl (by decide) (by decide) (by decide) (by decide) (by decide) V]
  rw [after_unary_fixT (rx := main_call8_c) (ry := main_call8_v0) aligned 279 rfl (by decide) (by decide) (by decide) V]
  rw [after_nullary_fixT (ry := main_call8_c) aligned 278 rfl (by decide) V]
  simp only [kept V main_arg3_not_written, kept V main_arg13_not_written, kept V main_arg2_not_written, kept V main_arg14_not_written]
  rfl

/-- Stage 5: the mean over the rows, per channel. -/
def mean_5 (x167 : (⟨S200000x64, .f32⟩ : BufTy).Contents (Elt F)) :
    (⟨S64, .f32⟩ : BufTy).Contents (Elt F) :=
  ((Host.divf : (⟨S64, .f32⟩ : BufTy).Contents (Elt F) → (⟨S64, .f32⟩ : BufTy).Contents (Elt F) → (⟨S64, .f32⟩ : BufTy).Contents (Elt F)) (Host.reduceAdd x167 (constant S_ .f32 0x00000000#32) reducesTo_S200000x64_S64_d0 h_S_) ((broadcastInDim S64 ![] bcast_S_S64 : (⟨S_, .f32⟩ : BufTy).Contents (Elt F) → (⟨S64, .f32⟩ : BufTy).Contents (Elt F)) (constant S_ .f32 0x48435000#32)))

set_option maxRecDepth 8192 in
/-- After the run, `main_v170` holds `mean_5` of what `main_v167` hold after the run (an argument array: what it held at launch). -/
theorem val_v170 (V : Valuation τ sig (Elt F)) :
    after ops V (Proc.devRef .tc main_v170) = mean_5 (after ops V (Proc.devRef .tc main_v167)) := by
  rw [after_binary_fix aligned 315 rfl (by decide) (by decide) (by decide) (by decide) (by decide) V]
  rw [after_unary_fix aligned 314 rfl (by decide) (by decide) (by decide) V]
  rw [after_nullary_fix aligned 313 rfl (by decide) V]
  rw [after_binary_fix aligned 312 rfl (by decide) (by decide) (by decide) (by decide) (by decide) V]
  rw [after_nullary_fix aligned 311 rfl (by decide) V]
  rfl

/-- Stage 5: batch normalisation over the rows: centred, times the reciprocal square root of the variance plus epsilon, times gamma, plus beta. -/
def norm_5 (x167 : (⟨S200000x64, .f32⟩ : BufTy).Contents (Elt F)) (a23 : (⟨S64, .f32⟩ : BufTy).Contents (Elt F)) (a24 : (⟨S64, .f32⟩ : BufTy).Contents (Elt F)) :
    (⟨S200000x64, .f32⟩ : BufTy).Contents (Elt F) :=
  ((addf : (⟨S200000x64, .f32⟩ : BufTy).Contents (Elt F) → (⟨S200000x64, .f32⟩ : BufTy).Contents (Elt F) → (⟨S200000x64, .f32⟩ : BufTy).Contents (Elt F)) ((mulf : (⟨S200000x64, .f32⟩ : BufTy).Contents (Elt F) → (⟨S200000x64, .f32⟩ : BufTy).Contents (Elt F) → (⟨S200000x64, .f32⟩ : BufTy).Contents (Elt F)) ((mulf : (⟨S200000x64, .f32⟩ : BufTy).Contents (Elt F) → (⟨S200000x64, .f32⟩ : BufTy).Contents (Elt F) → (⟨S200000x64, .f32⟩ : BufTy).Contents (Elt F)) ((subf : (⟨S200000x64, .f32⟩ : BufTy).Contents (Elt F) → (⟨S200000x64, .f32⟩ : BufTy).Contents (Elt F) → (⟨S200000x64, .f32⟩ : BufTy).Contents (Elt F)) x167 ((broadcastInDim S200000x64 ![0, 1] bcast_S1x64_S200000x64_0_1 : (⟨S1x64, .f32⟩ : BufTy).Contents (Elt F) → (⟨S200000x64, .f32⟩ : BufTy).Contents (Elt F)) ((broadcastInDim S1x64 ![1] bcast_S64_S1x64_1 : (⟨S64, .f32⟩ : BufTy).Contents (Elt F) → (⟨S1x64, .f32⟩ : BufTy).Contents (Elt F)) (mean_5 x167)))) ((broadcastInDim S200000x64 ![0, 1] bcast_S1x64_S200000x64_0_1 : (⟨S1x64, .f32⟩ : BufTy).Contents (Elt F) → (⟨S200000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt : (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) ((Host.divf : (⟨S64, .f32⟩ : BufTy).Contents (Elt F) → (⟨S64, .f32⟩ : BufTy).Contents (Elt F) → (⟨S64, .f32⟩ : BufTy).Contents (Elt F)) (Host.reduceAdd ((mulf : (⟨S200000x64, .f32⟩ : BufTy).Contents (Elt F) → (⟨S200000x64, .f32⟩ : BufTy).Contents (Elt F) → (⟨S200000x64, .f32⟩ : BufTy).Contents (Elt F)) ((subf : (⟨S200000x64, .f32⟩ : BufTy).Contents (Elt F) → (⟨S200000x64, .f32⟩ : BufTy).Contents (Elt F) → (⟨S200000x64, .f32⟩ : BufTy).Contents (Elt F)) x167 ((broadcastInDim S200000x64 ![0, 1] bcast_S1x64_S200000x64_0_1 : (⟨S1x64, .f32⟩ : BufTy).Contents (Elt F) → (⟨S200000x64, .f32⟩ : BufTy).Contents (Elt F)) ((broadcastInDim S1x64 ![1] bcast_S64_S1x64_1 : (⟨S64, .f32⟩ : BufTy).Contents (Elt F) → (⟨S1x64, .f32⟩ : BufTy).Contents (Elt F)) (mean_5 x167)))) ((subf : (⟨S200000x64, .f32⟩ : BufTy).Contents (Elt F) → (⟨S200000x64, .f32⟩ : BufTy).Contents (Elt F) → (⟨S200000x64, .f32⟩ : BufTy).Contents (Elt F)) x167 ((broadcastInDim S200000x64 ![0, 1] bcast_S1x64_S200000x64_0_1 : (⟨S1x64, .f32⟩ : BufTy).Contents (Elt F) → (⟨S200000x64, .f32⟩ : BufTy).Contents (Elt F)) ((broadcastInDim S1x64 ![1] bcast_S64_S1x64_1 : (⟨S64, .f32⟩ : BufTy).Contents (Elt F) → (⟨S1x64, .f32⟩ : BufTy).Contents (Elt F)) (mean_5 x167))))) (constant S_ .f32 0x00000000#32) reducesTo_S200000x64_S64_d0 h_S_) ((broadcastInDim S64 ![] bcast_S_S64 : (⟨S_, .f32⟩ : BufTy).Contents (Elt F) → (⟨S64, .f32⟩ : BufTy).Contents (Elt F)) (constant S_ .f32 0x48435000#32))) ((broadcastInDim S64 ![] bcast_S_S64 : (⟨S_, .f32⟩ : BufTy).Contents (Elt F) → (⟨S64, .f32⟩ : BufTy).Contents (Elt F)) (constant S_ .f32 0x3727C5AC#32))))))) ((broadcastInDim S200000x64 ![0, 1] bcast_S1x64_S200000x64_0_1 : (⟨S1x64, .f32⟩ : BufTy).Contents (Elt F) → (⟨S200000x64, .f32⟩ : BufTy).Contents (Elt F)) ((broadcastInDim S1x64 ![1] bcast_S64_S1x64_1 : (⟨S64, .f32⟩ : BufTy).Contents (Elt F) → (⟨S1x64, .f32⟩ : BufTy).Contents (Elt F)) a23))) ((broadcastInDim S200000x64 ![0, 1] bcast_S1x64_S200000x64_0_1 : (⟨S1x64, .f32⟩ : BufTy).Contents (Elt F) → (⟨S200000x64, .f32⟩ : BufTy).Contents (Elt F)) ((broadcastInDim S1x64 ![1] bcast_S64_S1x64_1 : (⟨S64, .f32⟩ : BufTy).Contents (Elt F) → (⟨S1x64, .f32⟩ : BufTy).Contents (Elt F)) a24)))

set_option maxRecDepth 8192 in
/-- After the run, `main_v192` holds `norm_5` of what `main_v167`, `main_arg23`, `main_arg24` hold after the run (an argument array: what it held at launch). -/
theorem val_v192 (V : Valuation τ sig (Elt F)) :
    after ops V (Proc.devRef .tc main_v192) = norm_5 (after ops V (Proc.devRef .tc main_v167)) (V (Proc.devRef .tc main_arg23)) (V (Proc.devRef .tc main_arg24)) := by
  rw [after_binary_fix aligned 340 rfl (by decide) (by decide) (by decide) (by decide) (by decide) V]
  rw [after_unary_fix aligned 339 rfl (by decide) (by decide) (by decide) V]
  rw [after_unary_fix aligned 338 rfl (by decide) (by decide) (by decide) V]
  rw [after_binary_fix aligned 337 rfl (by decide) (by decide) (by decide) (by decide) (by decide) V]
  rw [after_unary_fix aligned 336 rfl (by decide) (by decide) (by decide) V]
  rw [after_unary_fix aligned 335 rfl (by decide) (by decide) (by decide) V]
  rw [after_binary_fix aligned 334 rfl (by decide) (by decide) (by decide) (by decide) (by decide) V]
  rw [after_unary_fix aligned 333 rfl (by decide) (by decide) (by decide) V]
  rw [after_unary_fix aligned 332 rfl (by decide) (by decide) (by decide) V]
  rw [after_unary_fix aligned 331 rfl (by decide) (by decide) (by decide) V]
  rw [after_binary_fix aligned 330 rfl (by decide) (by decide) (by decide) (by decide) (by decide) V]
  rw [after_unary_fix aligned 329 rfl (by decide) (by decide) (by decide) V]
  rw [after_nullary_fix aligned 328 rfl (by decide) V]
  rw [after_binary_fix aligned 327 rfl (by decide) (by decide) (by decide) (by decide) (by decide) V]
  rw [after_unary_fix aligned 326 rfl (by decide) (by decide) (by decide) V]
  rw [after_unary_fix aligned 325 rfl (by decide) (by decide) (by decide) V]
  rw [after_binary_fix aligned 324 rfl (by decide) (by decide) (by decide) (by decide) (by decide) V]
  rw [after_unary_fix aligned 323 rfl (by decide) (by decide) (by decide) V]
  rw [after_nullary_fix aligned 322 rfl (by decide) V]
  rw [after_binary_fix aligned 321 rfl (by decide) (by decide) (by decide) (by decide) (by decide) V]
  rw [after_nullary_fix aligned 320 rfl (by decide) V]
  rw [after_binary_fix aligned 319 rfl (by decide) (by decide) (by decide) (by decide) (by decide) V]
  rw [after_binary_fix aligned 318 rfl (by decide) (by decide) (by decide) (by decide) (by decide) V]
  rw [after_unary_fix aligned 317 rfl (by decide) (by decide) (by decide) V]
  rw [after_unary_fix aligned 316 rfl (by decide) (by decide) (by decide) V]
  rw [val_v170 V]
  simp only [kept V main_arg23_not_written, kept V main_arg24_not_written]
  rfl

/-- Stage 5: the logistic function: one over one plus the exponential of the negated value. -/
def act_5 (x192 : (⟨S200000x64, .f32⟩ : BufTy).Contents (Elt F)) :
    (⟨S200000x64, .f32⟩ : BufTy).Contents (Elt F) :=
  ((Host.divf : (⟨S200000x64, .f32⟩ : BufTy).Contents (Elt F) → (⟨S200000x64, .f32⟩ : BufTy).Contents (Elt F) → (⟨S200000x64, .f32⟩ : BufTy).Contents (Elt F)) ((broadcastInDim S200000x64 ![] bcast_S_S200000x64 : (⟨S_, .f32⟩ : BufTy).Contents (Elt F) → (⟨S200000x64, .f32⟩ : BufTy).Contents (Elt F)) (constant S_ .f32 0x3F800000#32)) ((addf : (⟨S200000x64, .f32⟩ : BufTy).Contents (Elt F) → (⟨S200000x64, .f32⟩ : BufTy).Contents (Elt F) → (⟨S200000x64, .f32⟩ : BufTy).Contents (Elt F)) ((broadcastInDim S200000x64 ![] bcast_S_S200000x64 : (⟨S_, .f32⟩ : BufTy).Contents (Elt F) → (⟨S200000x64, .f32⟩ : BufTy).Contents (Elt F)) (constant S_ .f32 0x3F800000#32)) ((Host.exp : (⟨S200000x64, .f32⟩ : BufTy).Contents (Elt F) → (⟨S200000x64, .f32⟩ : BufTy).Contents (Elt F)) ((Host.negf : (⟨S200000x64, .f32⟩ : BufTy).Contents (Elt F) → (⟨S200000x64, .f32⟩ : BufTy).Contents (Elt F)) x192))))

set_option maxRecDepth 8192 in
/-- After the run, `main_v198` holds `act_5` of what `main_v192` hold after the run (an argument array: what it held at launch). -/
theorem val_v198_act (V : Valuation τ sig (Elt F)) :
    after ops V (Proc.devRef .tc main_v198) = act_5 (after ops V (Proc.devRef .tc main_v192)) := by
  rw [after_binary_fix aligned 348 rfl (by decide) (by decide) (by decide) (by decide) (by decide) V]
  rw [after_unary_fix aligned 347 rfl (by decide) (by decide) (by decide) V]
  rw [after_nullary_fix aligned 346 rfl (by decide) V]
  rw [after_binary_fix aligned 345 rfl (by decide) (by decide) (by decide) (by decide) (by decide) V]
  rw [after_unary_fix aligned 344 rfl (by decide) (by decide) (by decide) V]
  rw [after_nullary_fix aligned 343 rfl (by decide) V]
  rw [after_unary_fix aligned 342 rfl (by decide) (by decide) (by decide) V]
  rw [after_unary_fix aligned 341 rfl (by decide) (by decide) (by decide) V]
  rfl

/-- Stage 5, from the pre-activation `x167` to the stage's output: batch normalisation with `a23` and `a24`, then the activation. -/
def refBn_5 (x167 : (⟨S200000x64, .f32⟩ : BufTy).Contents (Elt F)) (a23 : (⟨S64, .f32⟩ : BufTy).Contents (Elt F)) (a24 : (⟨S64, .f32⟩ : BufTy).Contents (Elt F)) :
    (⟨S200000x64, .f32⟩ : BufTy).Contents (Elt F) :=
  act_5 (norm_5 x167 a23 a24)

set_option maxRecDepth 8192 in
/-- After the run, `main_v198` holds `refBn_5` of what `main_v167`, `main_arg23`, `main_arg24` hold after the run (an argument array: what it held at launch). -/
theorem val_v198 (V : Valuation τ sig (Elt F)) :
    after ops V (Proc.devRef .tc main_v198) = refBn_5 (after ops V (Proc.devRef .tc main_v167)) (V (Proc.devRef .tc main_arg23)) (V (Proc.devRef .tc main_arg24)) := by
  rw [val_v198_act V, val_v192 V]
  rfl

end Cert.ReferenceIdeal.RefRun

end
-- ==== Proof.RefValue.lean ====
/-
  The reference's result as a composition of the stages' named functions of the 25 argument arrays.

  Each stage is two functions: from a table and the index, weight and bias arrays to the pre-activation, and
  from the pre-activation and the scale and shift arrays to the stage's output. Stage 3's table is stage 2's
  output, stage 4's the sum of the outputs of stages 3 and 1, stage 5's stage 4's output.
-/
import proofs.«180908_j8211977470570_1_alg».proof.Proof.Gen.ReferenceIdeal
import Idealize.ShloMosaic.Lib.StableHlo.Run
import proofs.«180908_j8211977470570_1_alg».proof.Proof.RefStage1
import proofs.«180908_j8211977470570_1_alg».proof.Proof.RefStage2
import proofs.«180908_j8211977470570_1_alg».proof.Proof.RefStage3
import proofs.«180908_j8211977470570_1_alg».proof.Proof.RefStage4
import proofs.«180908_j8211977470570_1_alg».proof.Proof.RefStage5

noncomputable section

namespace Cert.ReferenceIdeal.RefRun

open Cert.ReferenceIdeal Cert.ReferenceIdeal.Gen Idealize.ShloMosaic Idealize.ShloMosaic.TcCoe Idealize.SL.Sem Idealize.ShloMosaic.StableHlo LibHostRead

variable {F : FTy → Type} [FloatOps F]

/-- The reference's result as a function of the 25 argument arrays: the five stages composed. -/
def refOut
    (a0 : (⟨S60000x128, .f32⟩ : BufTy).Contents (Elt F))
    (a1 : (⟨S200000x64, .f32⟩ : BufTy).Contents (Elt F))
    (a2 : (⟨S27x40000, .i32⟩ : BufTy).Contents (Elt F))
    (a3 : (⟨S27x40000, .i32⟩ : BufTy).Contents (Elt F))
    (a4 : (⟨S27x25000, .i32⟩ : BufTy).Contents (Elt F))
    (a5 : (⟨S27x25000, .i32⟩ : BufTy).Contents (Elt F))
    (a6 : (⟨S27x64x64, .f32⟩ : BufTy).Contents (Elt F))
    (a7 : (⟨S64, .f32⟩ : BufTy).Contents (Elt F))
    (a8 : (⟨S27x128x64, .f32⟩ : BufTy).Contents (Elt F))
    (a9 : (⟨S64, .f32⟩ : BufTy).Contents (Elt F))
    (a10 : (⟨S27x64x64, .f32⟩ : BufTy).Contents (Elt F))
    (a11 : (⟨S64, .f32⟩ : BufTy).Contents (Elt F))
    (a12 : (⟨S27x64x1, .f32⟩ : BufTy).Contents (Elt F))
    (a13 : (⟨S27x1x64, .f32⟩ : BufTy).Contents (Elt F))
    (a14 : (⟨S64, .f32⟩ : BufTy).Contents (Elt F))
    (a15 : (⟨S64, .f32⟩ : BufTy).Contents (Elt F))
    (a16 : (⟨S64, .f32⟩ : BufTy).Contents (Elt F))
    (a17 : (⟨S64, .f32⟩ : BufTy).Contents (Elt F))
    (a18 : (⟨S64, .f32⟩ : BufTy).Contents (Elt F))
    (a19 : (⟨S64, .f32⟩ : BufTy).Contents (Elt F))
    (a20 : (⟨S64, .f32⟩ : BufTy).Contents (Elt F))
    (a21 : (⟨S1, .f32⟩ : BufTy).Contents (Elt F))
    (a22 : (⟨S1, .f32⟩ : BufTy).Contents (Elt F))
    (a23 : (⟨S64, .f32⟩ : BufTy).Contents (Elt F))
    (a24 : (⟨S64, .f32⟩ : BufTy).Contents (Elt F)) :
    (⟨S200000x64, .f32⟩ : BufTy).Contents (Elt F) :=
  refBn_5 (refPre_5 (refBn_4 (refPre_4 ((addf : (⟨S60000x64, .f32⟩ : BufTy).Contents (Elt F) → (⟨S60000x64, .f32⟩ : BufTy).Contents (Elt F) → (⟨S60000x64, .f32⟩ : BufTy).Contents (Elt F)) (refBn_3 (refPre_3 (refBn_2 (refPre_2 a0 a4 a8 a5 a9) a17 a18) a5 a10 a4 a11) a19 a20) (refBn_1 (refPre_1 a1 a2 a6 a3 a7) a15 a16)) a4 a12 a5) a21 a22) a3 a13 a2 a14) a23 a24

set_option maxRecDepth 8192 in
/-- After the run from any contents, the result buffer holds the five stages composed, applied to what the argument
    arrays held at the start. -/
theorem val_out (V : Valuation τ sig (Elt F)) :
    after ops V (Proc.devRef .tc main_v198)
      = refBn_5 (refPre_5 (refBn_4 (refPre_4 ((addf : (⟨S60000x64, .f32⟩ : BufTy).Contents (Elt F) → (⟨S60000x64, .f32⟩ : BufTy).Contents (Elt F) → (⟨S60000x64, .f32⟩ : BufTy).Contents (Elt F)) (refBn_3 (refPre_3 (refBn_2 (refPre_2 (V (Proc.devRef .tc main_arg0)) (V (Proc.devRef .tc main_arg4)) (V (Proc.devRef .tc main_arg8)) (V (Proc.devRef .tc main_arg5)) (V (Proc.devRef .tc main_arg9))) (V (Proc.devRef .tc main_arg17)) (V (Proc.devRef .tc main_arg18))) (V (Proc.devRef .tc main_arg5)) (V (Proc.devRef .tc main_arg10)) (V (Proc.devRef .tc main_arg4)) (V (Proc.devRef .tc main_arg11))) (V (Proc.devRef .tc main_arg19)) (V (Proc.devRef .tc main_arg20))) (refBn_1 (refPre_1 (V (Proc.devRef .tc main_arg1)) (V (Proc.devRef .tc main_arg2)) (V (Proc.devRef .tc main_arg6)) (V (Proc.devRef .tc main_arg3)) (V (Proc.devRef .tc main_arg7))) (V (Proc.devRef .tc main_arg15)) (V (Proc.devRef .tc main_arg16)))) (V (Proc.devRef .tc main_arg4)) (V (Proc.devRef .tc main_arg12)) (V (Proc.devRef .tc main_arg5))) (V (Proc.devRef .tc main_arg21)) (V (Proc.devRef .tc main_arg22))) (V (Proc.devRef .tc main_arg3)) (V (Proc.devRef .tc main_arg13)) (V (Proc.devRef .tc main_arg2)) (V (Proc.devRef .tc main_arg14))) (V (Proc.devRef .tc main_arg23)) (V (Proc.devRef .tc main_arg24)) := by
  rw [val_v198 V, val_v167 V, val_v157 V, val_v127 V, val_v120 V, val_v119 V, val_v89 V, val_v79 V, val_v49 V,
    val_v39 V, val_v9 V]

/-- The same through the one name. -/
theorem val_out' (V : Valuation τ sig (Elt F)) :
    after ops V (Proc.devRef .tc main_v198)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) :=
  val_out V

end Cert.ReferenceIdeal.RefRun

end
-- ==== Proof.RefRunValue.lean ====
/-
  The run of the reference with its result as the composed stages.

  Every weakly fair execution of @main terminates with the result buffer at the five stages composed, applied to
  the argument arrays' launch contents, and every argument array unchanged.
-/
import proofs.«180908_j8211977470570_1_alg».proof.Proof.Gen.ReferenceIdeal
import Idealize.ShloMosaic.Lib.StableHlo.Run
import proofs.«180908_j8211977470570_1_alg».proof.Proof.RefValue

noncomputable section

namespace Cert.ReferenceIdeal.RefRun

open Cert.ReferenceIdeal Cert.ReferenceIdeal.Gen Idealize.ShloMosaic Idealize.ShloMosaic.TcCoe Idealize.SL.Sem Idealize.ShloMosaic.StableHlo LibHostRead

variable {F : FTy → Type} [FloatOps F]

theorem run_value (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v198)
        = refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
            (m ((c.tc : Thread nD τ).loc main_arg20))
            (m ((c.tc : Thread nD τ).loc main_arg21))
            (m ((c.tc : Thread nD τ).loc main_arg22))
            (m ((c.tc : Thread nD τ).loc main_arg23))
            (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c).1.trans (val_out' _), (h c).2⟩) (run m ρ)

end Cert.ReferenceIdeal.RefRun

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.MatmulValue0.lean ====
/- The value of region 0 of @main over the extended reals: the output array, once every block has been
   written back, is the batched matrix product of the two input arrays as the region found them,
     out[k, r, q] = Σ_cc  g[k, r, cc] · w[k, cc, q].
   A block of the output is the product of the matching block of rows of `g` (rows e·5000 … e·5000 + 4999 of
   slab k) with slab k of `w`; rounding to bf16 is the identity over the extended reals, and a product into the
   zero accumulator is the plain sum over the shared axis.  The blocks tile the output, so the array is that
   one function everywhere. -/
import proofs.«180908_j8211977470570_1_alg».proof.Proof.MatmulRegion0
import proofs.«180908_j8211977470570_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal.Gen Cert.KernelIdeal.Regs
open Idealize.ShloMosaic Idealize.ShloMosaic.TcCoe Idealize.ShloMosaic.ValueIdx
open Idealize.ShloMosaic.Pipeline (Dat)
open scoped BigOperators

/-! ## The specification -/

/-- The batched product of a [27, 40000, 64] array with a [27, 64, 64] array, slab by slab. -/
def mm0 (g : S27x40000x64.Idx → EReal) (w : S27x64x64.Idx → EReal) : S27x40000x64.Idx → EReal :=
  fun j => ∑ cc : Fin 64, g (ix3 (j 0 : Fin 27) (j 1 : Fin 40000) cc) * w (ix3 (j 0 : Fin 27) cc (j 2 : Fin 64))

theorem mm0_apply (g : S27x40000x64.Idx → EReal) (w : S27x64x64.Idx → EReal) (j : S27x40000x64.Idx) :
    mm0 g w j = ∑ cc : Fin 64, g (ix3 (j 0 : Fin 27) (j 1 : Fin 40000) cc) * w (ix3 (j 0 : Fin 27) cc (j 2 : Fin 64)) := rfl

/-! ## The body's product at an entry of a block -/

/-- The stored block at (z, r, q): the sum over the shared axis of row r of the block of rows times column q of the
    block of weights.  The unit axes are dropped and added by the shape casts; rounding is the identity. -/
theorem pay0_apply (x0 : Vec Ideal S1x5000x64 .f32) (x1 : Vec Ideal S1x64x64 .f32) (z : Fin 1) (r : Fin 5000) (q : Fin 64) :
    k0_pay1 (F := Ideal) x0 x1 (ix3 z r q) = ∑ cc : Fin 64, x0 (ix3 (0 : Fin 1) r cc) * x1 (ix3 (0 : Fin 1) cc q) := by
  unfold k0_pay1
  refine (shapeCast_ab_1ab_apply _ _ z r q).trans ?_
  refine (Cert.LibPlainMatmul.matmul_zero_plain _ _ _ r q).trans ?_
  refine Finset.sum_congr rfl fun cc _ => ?_
  show shapeCast S5000x64 x0 _ (ix2 r cc) * shapeCast S64x64 x1 _ (ix2 cc q) = _
  rw [shapeCast_1ab_ab_apply, shapeCast_1ab_ab_apply]

/-- The same at an index of the block not yet split into coordinates. -/
theorem pay0_at (x0 : Vec Ideal S1x5000x64 .f32) (x1 : Vec Ideal S1x64x64 .f32) (y : S1x5000x64.Idx) :
    k0_pay1 (F := Ideal) x0 x1 y = ∑ cc : Fin 64, x0 (ix3 (0 : Fin 1) (y 1 : Fin 5000) cc) * x1 (ix3 (0 : Fin 1) cc (y 2 : Fin 64)) :=
  (congrArg (k0_pay1 (F := Ideal) x0 x1) (eq_ix3 y)).trans (pay0_apply x0 x1 (y 0) (y 1) (y 2))

/-- An entry of the stored block is the entry `E` of the batched product, once the block of rows is known to hold
    row (E 0, E 1) of `g` and the block of weights slab E 0 of `w`. -/
theorem block_entry0 (g : S27x40000x64.Idx → EReal) (w : S27x64x64.Idx → EReal) (x0 : Vec Ideal S1x5000x64 .f32) (x1 : Vec Ideal S1x64x64 .f32)
    (E : S27x40000x64.Idx) (y : S1x5000x64.Idx)
    (hx0 : ∀ cc : Fin 64, x0 (ix3 (0 : Fin 1) (y 1 : Fin 5000) cc) = g (ix3 (E 0 : Fin 27) (E 1 : Fin 40000) cc))
    (hx1 : ∀ cc : Fin 64, x1 (ix3 (0 : Fin 1) cc (y 2 : Fin 64)) = w (ix3 (E 0 : Fin 27) cc (E 2 : Fin 64))) :
    k0_pay1 (F := Ideal) x0 x1 y = mm0 g w E := by
  rw [pay0_at, mm0_apply]
  exact Finset.sum_congr rfl fun cc _ => by rw [hx0 cc, hx1 cc]

/-! ## From blocks to the array -/

theorem hz0 : (![0, 0, 0] : Fin 3 → Nat) = fun _ => 0 := funext fun a => by fin_cases a <;> rfl

/-- The block index maps, decided over the grid: at point t = (k, e) the block of rows and the output block sit at
    (k, e, 0) and the block of weights at (k, 0, 0). -/
theorem idx_facts0 : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 26
    ∧ win0_2.index t (1 : Fin 3) ≤ 7 :=
  (by decide +kernel : ∀ t : Fin grid0.N, _)

/-- Every block of the output is some point's. -/
theorem idx_onto0 : ∀ (q0 : Fin 27) (q1 : Fin 8), ∃ t : Fin cfg0.N, win0_2.index t = ![q0.val, q1.val, 0] :=
  (by decide +kernel : ∀ (q0 : Fin 27) (q1 : Fin 8), ∃ t : Fin grid0.N, win0_2.index t = ![q0.val, q1.val, 0])

section AtEntry
variable (V : (c : Dev nD) → (b : Ref sig .tc) → Buf (Elt Ideal) ((c : Thread nD τ).loc b))

set_option maxHeartbeats 1000000 in
/-- What point t writes back is block t of the product of the two input arrays as the region finds them. -/
theorem flushed0_eq (c : Dev nD) (t : Fin cfg0.N) :
    (dat0 (F := Ideal) V c).flushed 2 t
      = ((cfg0.win 2).blk t).view.read (Elt Ideal) (mm0 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz0]
  simp only [View.ld_unit_zero (S := S1x5000x64) hz0, View.ld_unit_zero (S := S1x64x64) hz0]
  obtain ⟨e0, e1, e2, e3, e4, e5, e6, e7, e8⟩ := idx_facts0 t
  funext y
  have hy0 : (y 0).val < 1 := (y 0).isLt
  refine block_entry0 (V c (Pipeline.arrRef spec0 0)) (V c (Pipeline.arrRef spec0 1)) (iblk0 V c 0 t) (iblk0 V c 1 t)
    (((cfg0.win 2).blk t).view.emb y) y (fun cc => ?_) (fun cc => ?_)
  · show V c (Pipeline.arrRef spec0 0) (((cfg0.win 0).blk t).view.emb (ix3 (0 : Fin 1) (y 1 : Fin 5000) cc)) = _
    refine congrArg (V c (Pipeline.arrRef spec0 0)) ?_
    funext a; apply Fin.ext
    match a with
    | ⟨0, _⟩ => show win0_0.index t (0 : Fin 3) * 1 + 1 * 0 = win0_2.index t (0 : Fin 3) * 1 + 1 * (y 0).val; omega
    | ⟨1, _⟩ => show win0_0.index t (1 : Fin 3) * 5000 + 1 * (y 1).val = win0_2.index t (1 : Fin 3) * 5000 + 1 * (y 1).val; omega
    | ⟨2, _⟩ => show win0_0.index t (2 : Fin 3) * 64 + 1 * cc.val = cc.val; omega
  · show V c (Pipeline.arrRef spec0 1) (((cfg0.win 1).blk t).view.emb (ix3 (0 : Fin 1) cc (y 2 : Fin 64))) = _
    refine congrArg (V c (Pipeline.arrRef spec0 1)) ?_
    funext a; apply Fin.ext
    match a with
    | ⟨0, _⟩ => show win0_1.index t (0 : Fin 3) * 1 + 1 * 0 = win0_2.index t (0 : Fin 3) * 1 + 1 * (y 0).val; omega
    | ⟨1, _⟩ => show win0_1.index t (1 : Fin 3) * 64 + 1 * cc.val = cc.val; omega
    | ⟨2, _⟩ => show win0_1.index t (2 : Fin 3) * 64 + 1 * (y 2).val = win0_2.index t (2 : Fin 3) * 64 + 1 * (y 2).val; omega

/-- An index of the output array is in point t's block iff each coordinate is in the block's range on its axis. -/
theorem mem_blk0 (t : Fin cfg0.N) (i : S27x40000x64.Idx) :
    i ∈ ((cfg0.win 2).blk t).view.set ↔ ∀ a : Fin 3, win0_2.index t a * S1x5000x64.size a ≤ (i a).val ∧ (i a).val < win0_2.index t a * S1x5000x64.size a + S1x5000x64.size a := by
  show i ∈ ((View.whole main_v1).slice (win0_2.rect t)).set ↔ _
  rw [View.set_slice_whole, Rect.mem_set_unit]
  exact Iff.rfl

/-- The output's blocks tile the array: row r of slab k is in the block of point (k, r / 5000). -/
theorem cover0 (i : S27x40000x64.Idx) : ∃ t : Fin cfg0.N, (cfg0.win 2).flush t = true ∧ i ∈ ((cfg0.win 2).blk t).view.set := by
  have hi0 : (i 0).val < 27 := (i 0).isLt
  have hi1 : (i 1).val < 40000 := (i 1).isLt
  have hi2 : (i 2).val < 64 := (i 2).isLt
  obtain ⟨t, ht⟩ := idx_onto0 ⟨(i 0).val, hi0⟩ ⟨(i 1).val / 5000, by omega⟩
  have q0 : win0_2.index t (0 : Fin 3) = (i 0).val := congrFun ht 0
  have q1 : win0_2.index t (1 : Fin 3) = (i 1).val / 5000 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 5000 ≤ (i 1).val ∧ (i 1).val < win0_2.index t (1 : Fin 3) * 5000 + 5000; omega
  | ⟨2, _⟩ => show win0_2.index t (2 : Fin 3) * 64 ≤ (i 2).val ∧ (i 2).val < win0_2.index t (2 : Fin 3) * 64 + 64; omega

/-- The output array after the region: the batched product of the two input arrays as the region found them. -/
theorem final0 (c : Dev nD) :
    (dat0 (F := Ideal) V c).arrAt 2 cfg0.N = mm0 (V c (Pipeline.arrRef spec0 0)) (V c (Pipeline.arrRef spec0 1)) :=
  (dat0 (F := Ideal) V c).arrAt_eq_of_cover 2 (mm0 (V c (Pipeline.arrRef spec0 0)) (V c (Pipeline.arrRef spec0 1)))
    (fun t _ => flushed0_eq V c t) (fun i => cover0 i)

end AtEntry

end Cert.KernelIdeal.Vals
-- ==== Proof.MatmulValue3.lean ====
/- The value of region 3 of @main over the extended reals: the output array, once every block has been
   written back, is the batched matrix product of the two input arrays as the region found them,
     out[k, r, q] = Σ_cc  g[k, r, cc] · w[k, cc, q].
   A block of the output is the product of the matching block of rows of `g` (rows e·5000 … e·5000 + 4999 of
   slab k) with slab k of `w`; rounding to bf16 is the identity over the extended reals, and a product into the
   zero accumulator is the plain sum over the shared axis.  The blocks tile the output, so the array is that
   one function everywhere. -/
import proofs.«180908_j8211977470570_1_alg».proof.Proof.MatmulRegion3
import proofs.«180908_j8211977470570_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal.Gen Cert.KernelIdeal.Regs
open Idealize.ShloMosaic Idealize.ShloMosaic.TcCoe Idealize.ShloMosaic.ValueIdx
open Idealize.ShloMosaic.Pipeline (Dat)
open scoped BigOperators

/-! ## The specification -/

/-- The batched product of a [27, 25000, 128] array with a [27, 128, 64] array, slab by slab. -/
def mm3 (g : S27x25000x128.Idx → EReal) (w : S27x128x64.Idx → EReal) : S27x25000x64.Idx → EReal :=
  fun j => ∑ cc : Fin 128, g (ix3 (j 0 : Fin 27) (j 1 : Fin 25000) cc) * w (ix3 (j 0 : Fin 27) cc (j 2 : Fin 64))

theorem mm3_apply (g : S27x25000x128.Idx → EReal) (w : S27x128x64.Idx → EReal) (j : S27x25000x64.Idx) :
    mm3 g w j = ∑ cc : Fin 128, g (ix3 (j 0 : Fin 27) (j 1 : Fin 25000) cc) * w (ix3 (j 0 : Fin 27) cc (j 2 : Fin 64)) := rfl

/-! ## The body's product at an entry of a block -/

/-- The stored block at (z, r, q): the sum over the shared axis of row r of the block of rows times column q of the
    block of weights.  The unit axes are dropped and added by the shape casts; rounding is the identity. -/
theorem pay3_apply (x0 : Vec Ideal S1x5000x128 .f32) (x1 : Vec Ideal S1x128x64 .f32) (z : Fin 1) (r : Fin 5000) (q : Fin 64) :
    k3_pay1 (F := Ideal) x0 x1 (ix3 z r q) = ∑ cc : Fin 128, x0 (ix3 (0 : Fin 1) r cc) * x1 (ix3 (0 : Fin 1) cc q) := by
  unfold k3_pay1
  refine (shapeCast_ab_1ab_apply _ _ z r q).trans ?_
  refine (Cert.LibPlainMatmul.matmul_zero_plain _ _ _ r q).trans ?_
  refine Finset.sum_congr rfl fun cc _ => ?_
  show shapeCast S5000x128 x0 _ (ix2 r cc) * shapeCast S128x64 x1 _ (ix2 cc q) = _
  rw [shapeCast_1ab_ab_apply, shapeCast_1ab_ab_apply]

/-- The same at an index of the block not yet split into coordinates. -/
theorem pay3_at (x0 : Vec Ideal S1x5000x128 .f32) (x1 : Vec Ideal S1x128x64 .f32) (y : S1x5000x64.Idx) :
    k3_pay1 (F := Ideal) x0 x1 y = ∑ cc : Fin 128, x0 (ix3 (0 : Fin 1) (y 1 : Fin 5000) cc) * x1 (ix3 (0 : Fin 1) cc (y 2 : Fin 64)) :=
  (congrArg (k3_pay1 (F := Ideal) x0 x1) (eq_ix3 y)).trans (pay3_apply x0 x1 (y 0) (y 1) (y 2))

/-- An entry of the stored block is the entry `E` of the batched product, once the block of rows is known to hold
    row (E 0, E 1) of `g` and the block of weights slab E 0 of `w`. -/
theorem block_entry3 (g : S27x25000x128.Idx → EReal) (w : S27x128x64.Idx → EReal) (x0 : Vec Ideal S1x5000x128 .f32) (x1 : Vec Ideal S1x128x64 .f32)
    (E : S27x25000x64.Idx) (y : S1x5000x64.Idx)
    (hx0 : ∀ cc : Fin 128, x0 (ix3 (0 : Fin 1) (y 1 : Fin 5000) cc) = g (ix3 (E 0 : Fin 27) (E 1 : Fin 25000) cc))
    (hx1 : ∀ cc : Fin 128, x1 (ix3 (0 : Fin 1) cc (y 2 : Fin 64)) = w (ix3 (E 0 : Fin 27) cc (E 2 : Fin 64))) :
    k3_pay1 (F := Ideal) x0 x1 y = mm3 g w E := by
  rw [pay3_at, mm3_apply]
  exact Finset.sum_congr rfl fun cc _ => by rw [hx0 cc, hx1 cc]

/-! ## From blocks to the array -/

theorem hz3 : (![0, 0, 0] : Fin 3 → Nat) = fun _ => 0 := funext fun a => by fin_cases a <;> rfl

/-- The block index maps, decided over the grid: at point t = (k, e) the block of rows and the output block sit at
    (k, e, 0) and the block of weights at (k, 0, 0). -/
theorem idx_facts3 : ∀ t : Fin cfg3.N, win3_0.index t (0 : Fin 3) = win3_2.index t (0 : Fin 3)
    ∧ win3_0.index t (1 : Fin 3) = win3_2.index t (1 : Fin 3)
    ∧ win3_0.index t (2 : Fin 3) = 0
    ∧ win3_1.index t (0 : Fin 3) = win3_2.index t (0 : Fin 3)
    ∧ win3_1.index t (1 : Fin 3) = 0
    ∧ win3_1.index t (2 : Fin 3) = 0
    ∧ win3_2.index t (2 : Fin 3) = 0
    ∧ win3_2.index t (0 : Fin 3) ≤ 26
    ∧ win3_2.index t (1 : Fin 3) ≤ 4 :=
  (by decide +kernel : ∀ t : Fin grid3.N, _)

/-- Every block of the output is some point's. -/
theorem idx_onto3 : ∀ (q0 : Fin 27) (q1 : Fin 5), ∃ t : Fin cfg3.N, win3_2.index t = ![q0.val, q1.val, 0] :=
  (by decide +kernel : ∀ (q0 : Fin 27) (q1 : Fin 5), ∃ t : Fin grid3.N, win3_2.index t = ![q0.val, q1.val, 0])

section AtEntry
variable (V : (c : Dev nD) → (b : Ref sig .tc) → Buf (Elt Ideal) ((c : Thread nD τ).loc b))

set_option maxHeartbeats 1000000 in
/-- What point t writes back is block t of the product of the two input arrays as the region finds them. -/
theorem flushed3_eq (c : Dev nD) (t : Fin cfg3.N) :
    (dat3 (F := Ideal) V c).flushed 2 t
      = ((cfg3.win 2).blk t).view.read (Elt Ideal) (mm3 (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero hz3]
  simp only [View.ld_unit_zero (S := S1x5000x128) hz3, View.ld_unit_zero (S := S1x128x64) hz3]
  obtain ⟨e0, e1, e2, e3, e4, e5, e6, e7, e8⟩ := idx_facts3 t
  funext y
  have hy0 : (y 0).val < 1 := (y 0).isLt
  refine block_entry3 (V c (Pipeline.arrRef spec3 0)) (V c (Pipeline.arrRef spec3 1)) (iblk3 V c 0 t) (iblk3 V c 1 t)
    (((cfg3.win 2).blk t).view.emb y) y (fun cc => ?_) (fun cc => ?_)
  · show V c (Pipeline.arrRef spec3 0) (((cfg3.win 0).blk t).view.emb (ix3 (0 : Fin 1) (y 1 : Fin 5000) cc)) = _
    refine congrArg (V c (Pipeline.arrRef spec3 0)) ?_
    funext a; apply Fin.ext
    match a with
    | ⟨0, _⟩ => show win3_0.index t (0 : Fin 3) * 1 + 1 * 0 = win3_2.index t (0 : Fin 3) * 1 + 1 * (y 0).val; omega
    | ⟨1, _⟩ => show win3_0.index t (1 : Fin 3) * 5000 + 1 * (y 1).val = win3_2.index t (1 : Fin 3) * 5000 + 1 * (y 1).val; omega
    | ⟨2, _⟩ => show win3_0.index t (2 : Fin 3) * 128 + 1 * cc.val = cc.val; omega
  · show V c (Pipeline.arrRef spec3 1) (((cfg3.win 1).blk t).view.emb (ix3 (0 : Fin 1) cc (y 2 : Fin 64))) = _
    refine congrArg (V c (Pipeline.arrRef spec3 1)) ?_
    funext a; apply Fin.ext
    match a with
    | ⟨0, _⟩ => show win3_1.index t (0 : Fin 3) * 1 + 1 * 0 = win3_2.index t (0 : Fin 3) * 1 + 1 * (y 0).val; omega
    | ⟨1, _⟩ => show win3_1.index t (1 : Fin 3) * 128 + 1 * cc.val = cc.val; omega
    | ⟨2, _⟩ => show win3_1.index t (2 : Fin 3) * 64 + 1 * (y 2).val = win3_2.index t (2 : Fin 3) * 64 + 1 * (y 2).val; omega

/-- An index of the output array is in point t's block iff each coordinate is in the block's range on its axis. -/
theorem mem_blk3 (t : Fin cfg3.N) (i : S27x25000x64.Idx) :
    i ∈ ((cfg3.win 2).blk t).view.set ↔ ∀ a : Fin 3, win3_2.index t a * S1x5000x64.size a ≤ (i a).val ∧ (i a).val < win3_2.index t a * S1x5000x64.size a + S1x5000x64.size a := by
  show i ∈ ((View.whole main_v15).slice (win3_2.rect t)).set ↔ _
  rw [View.set_slice_whole, Rect.mem_set_unit]
  exact Iff.rfl

/-- The output's blocks tile the array: row r of slab k is in the block of point (k, r / 5000). -/
theorem cover3 (i : S27x25000x64.Idx) : ∃ t : Fin cfg3.N, (cfg3.win 2).flush t = true ∧ i ∈ ((cfg3.win 2).blk t).view.set := by
  have hi0 : (i 0).val < 27 := (i 0).isLt
  have hi1 : (i 1).val < 25000 := (i 1).isLt
  have hi2 : (i 2).val < 64 := (i 2).isLt
  obtain ⟨t, ht⟩ := idx_onto3 ⟨(i 0).val, hi0⟩ ⟨(i 1).val / 5000, by omega⟩
  have q0 : win3_2.index t (0 : Fin 3) = (i 0).val := congrFun ht 0
  have q1 : win3_2.index t (1 : Fin 3) = (i 1).val / 5000 := congrFun ht 1
  have q2 : win3_2.index t (2 : Fin 3) = 0 := congrFun ht 2
  refine ⟨t, flush3_2 t, ?_⟩
  rw [mem_blk3]
  intro a
  match a with
  | ⟨0, _⟩ => show win3_2.index t (0 : Fin 3) * 1 ≤ (i 0).val ∧ (i 0).val < win3_2.index t (0 : Fin 3) * 1 + 1; omega
  | ⟨1, _⟩ => show win3_2.index t (1 : Fin 3) * 5000 ≤ (i 1).val ∧ (i 1).val < win3_2.index t (1 : Fin 3) * 5000 + 5000; omega
  | ⟨2, _⟩ => show win3_2.index t (2 : Fin 3) * 64 ≤ (i 2).val ∧ (i 2).val < win3_2.index t (2 : Fin 3) * 64 + 64; omega

/-- The output array after the region: the batched product of the two input arrays as the region found them. -/
theorem final3 (c : Dev nD) :
    (dat3 (F := Ideal) V c).arrAt 2 cfg3.N = mm3 (V c (Pipeline.arrRef spec3 0)) (V c (Pipeline.arrRef spec3 1)) :=
  (dat3 (F := Ideal) V c).arrAt_eq_of_cover 2 (mm3 (V c (Pipeline.arrRef spec3 0)) (V c (Pipeline.arrRef spec3 1)))
    (fun t _ => flushed3_eq V c t) (fun i => cover3 i)

end AtEntry

end Cert.KernelIdeal.Vals
-- ==== Proof.MatmulValue6.lean ====
/- The value of region 6 of @main over the extended reals: the output array, once every block has been
   written back, is the batched matrix product of the two input arrays as the region found them,
     out[k, r, q] = Σ_cc  g[k, r, cc] · w[k, cc, q].
   A block of the output is the product of the matching block of rows of `g` (rows e·5000 … e·5000 + 4999 of
   slab k) with slab k of `w`; rounding to bf16 is the identity over the extended reals, and a product into the
   zero accumulator is the plain sum over the shared axis.  The blocks tile the output, so the array is that
   one function everywhere. -/
import proofs.«180908_j8211977470570_1_alg».proof.Proof.MatmulRegion6
import proofs.«180908_j8211977470570_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal.Gen Cert.KernelIdeal.Regs
open Idealize.ShloMosaic Idealize.ShloMosaic.TcCoe Idealize.ShloMosaic.ValueIdx
open Idealize.ShloMosaic.Pipeline (Dat)
open scoped BigOperators

/-! ## The specification -/

/-- The batched product of a [27, 25000, 64] array with a [27, 64, 64] array, slab by slab. -/
def mm6 (g : S27x25000x64.Idx → EReal) (w : S27x64x64.Idx → EReal) : S27x25000x64.Idx → EReal :=
  fun j => ∑ cc : Fin 64, g (ix3 (j 0 : Fin 27) (j 1 : Fin 25000) cc) * w (ix3 (j 0 : Fin 27) cc (j 2 : Fin 64))

theorem mm6_apply (g : S27x25000x64.Idx → EReal) (w : S27x64x64.Idx → EReal) (j : S27x25000x64.Idx) :
    mm6 g w j = ∑ cc : Fin 64, g (ix3 (j 0 : Fin 27) (j 1 : Fin 25000) cc) * w (ix3 (j 0 : Fin 27) cc (j 2 : Fin 64)) := rfl

/-! ## The body's product at an entry of a block -/

/-- The stored block at (z, r, q): the sum over the shared axis of row r of the block of rows times column q of the
    block of weights.  The unit axes are dropped and added by the shape casts; rounding is the identity. -/
theorem pay6_apply (x0 : Vec Ideal S1x5000x64 .f32) (x1 : Vec Ideal S1x64x64 .f32) (z : Fin 1) (r : Fin 5000) (q : Fin 64) :
    k6_pay1 (F := Ideal) x0 x1 (ix3 z r q) = ∑ cc : Fin 64, x0 (ix3 (0 : Fin 1) r cc) * x1 (ix3 (0 : Fin 1) cc q) := by
  unfold k6_pay1
  refine (shapeCast_ab_1ab_apply _ _ z r q).trans ?_
  refine (Cert.LibPlainMatmul.matmul_zero_plain _ _ _ r q).trans ?_
  refine Finset.sum_congr rfl fun cc _ => ?_
  show shapeCast S5000x64 x0 _ (ix2 r cc) * shapeCast S64x64 x1 _ (ix2 cc q) = _
  rw [shapeCast_1ab_ab_apply, shapeCast_1ab_ab_apply]

/-- The same at an index of the block not yet split into coordinates. -/
theorem pay6_at (x0 : Vec Ideal S1x5000x64 .f32) (x1 : Vec Ideal S1x64x64 .f32) (y : S1x5000x64.Idx) :
    k6_pay1 (F := Ideal) x0 x1 y = ∑ cc : Fin 64, x0 (ix3 (0 : Fin 1) (y 1 : Fin 5000) cc) * x1 (ix3 (0 : Fin 1) cc (y 2 : Fin 64)) :=
  (congrArg (k6_pay1 (F := Ideal) x0 x1) (eq_ix3 y)).trans (pay6_apply x0 x1 (y 0) (y 1) (y 2))

/-- An entry of the stored block is the entry `E` of the batched product, once the block of rows is known to hold
    row (E 0, E 1) of `g` and the block of weights slab E 0 of `w`. -/
theorem block_entry6 (g : S27x25000x64.Idx → EReal) (w : S27x64x64.Idx → EReal) (x0 : Vec Ideal S1x5000x64 .f32) (x1 : Vec Ideal S1x64x64 .f32)
    (E : S27x25000x64.Idx) (y : S1x5000x64.Idx)
    (hx0 : ∀ cc : Fin 64, x0 (ix3 (0 : Fin 1) (y 1 : Fin 5000) cc) = g (ix3 (E 0 : Fin 27) (E 1 : Fin 25000) cc))
    (hx1 : ∀ cc : Fin 64, x1 (ix3 (0 : Fin 1) cc (y 2 : Fin 64)) = w (ix3 (E 0 : Fin 27) cc (E 2 : Fin 64))) :
    k6_pay1 (F := Ideal) x0 x1 y = mm6 g w E := by
  rw [pay6_at, mm6_apply]
  exact Finset.sum_congr rfl fun cc _ => by rw [hx0 cc, hx1 cc]

/-! ## From blocks to the array -/

theorem hz6 : (![0, 0, 0] : Fin 3 → Nat) = fun _ => 0 := funext fun a => by fin_cases a <;> rfl

/-- The block index maps, decided over the grid: at point t = (k, e) the block of rows and the output block sit at
    (k, e, 0) and the block of weights at (k, 0, 0). -/
theorem idx_facts6 : ∀ t : Fin cfg6.N, win6_0.index t (0 : Fin 3) = win6_2.index t (0 : Fin 3)
    ∧ win6_0.index t (1 : Fin 3) = win6_2.index t (1 : Fin 3)
    ∧ win6_0.index t (2 : Fin 3) = 0
    ∧ win6_1.index t (0 : Fin 3) = win6_2.index t (0 : Fin 3)
    ∧ win6_1.index t (1 : Fin 3) = 0
    ∧ win6_1.index t (2 : Fin 3) = 0
    ∧ win6_2.index t (2 : Fin 3) = 0
    ∧ win6_2.index t (0 : Fin 3) ≤ 26
    ∧ win6_2.index t (1 : Fin 3) ≤ 4 :=
  (by decide +kernel : ∀ t : Fin grid6.N, _)

/-- Every block of the output is some point's. -/
theorem idx_onto6 : ∀ (q0 : Fin 27) (q1 : Fin 5), ∃ t : Fin cfg6.N, win6_2.index t = ![q0.val, q1.val, 0] :=
  (by decide +kernel : ∀ (q0 : Fin 27) (q1 : Fin 5), ∃ t : Fin grid6.N, win6_2.index t = ![q0.val, q1.val, 0])

section AtEntry
variable (V : (c : Dev nD) → (b : Ref sig .tc) → Buf (Elt Ideal) ((c : Thread nD τ).loc b))

set_option maxHeartbeats 1000000 in
/-- What point t writes back is block t of the product of the two input arrays as the region finds them. -/
theorem flushed6_eq (c : Dev nD) (t : Fin cfg6.N) :
    (dat6 (F := Ideal) V c).flushed 2 t
      = ((cfg6.win 2).blk t).view.read (Elt Ideal) (mm6 (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero hz6]
  simp only [View.ld_unit_zero (S := S1x5000x64) hz6, View.ld_unit_zero (S := S1x64x64) hz6]
  obtain ⟨e0, e1, e2, e3, e4, e5, e6, e7, e8⟩ := idx_facts6 t
  funext y
  have hy0 : (y 0).val < 1 := (y 0).isLt
  refine block_entry6 (V c (Pipeline.arrRef spec6 0)) (V c (Pipeline.arrRef spec6 1)) (iblk6 V c 0 t) (iblk6 V c 1 t)
    (((cfg6.win 2).blk t).view.emb y) y (fun cc => ?_) (fun cc => ?_)
  · show V c (Pipeline.arrRef spec6 0) (((cfg6.win 0).blk t).view.emb (ix3 (0 : Fin 1) (y 1 : Fin 5000) cc)) = _
    refine congrArg (V c (Pipeline.arrRef spec6 0)) ?_
    funext a; apply Fin.ext
    match a with
    | ⟨0, _⟩ => show win6_0.index t (0 : Fin 3) * 1 + 1 * 0 = win6_2.index t (0 : Fin 3) * 1 + 1 * (y 0).val; omega
    | ⟨1, _⟩ => show win6_0.index t (1 : Fin 3) * 5000 + 1 * (y 1).val = win6_2.index t (1 : Fin 3) * 5000 + 1 * (y 1).val; omega
    | ⟨2, _⟩ => show win6_0.index t (2 : Fin 3) * 64 + 1 * cc.val = cc.val; omega
  · show V c (Pipeline.arrRef spec6 1) (((cfg6.win 1).blk t).view.emb (ix3 (0 : Fin 1) cc (y 2 : Fin 64))) = _
    refine congrArg (V c (Pipeline.arrRef spec6 1)) ?_
    funext a; apply Fin.ext
    match a with
    | ⟨0, _⟩ => show win6_1.index t (0 : Fin 3) * 1 + 1 * 0 = win6_2.index t (0 : Fin 3) * 1 + 1 * (y 0).val; omega
    | ⟨1, _⟩ => show win6_1.index t (1 : Fin 3) * 64 + 1 * cc.val = cc.val; omega
    | ⟨2, _⟩ => show win6_1.index t (2 : Fin 3) * 64 + 1 * (y 2).val = win6_2.index t (2 : Fin 3) * 64 + 1 * (y 2).val; omega

/-- An index of the output array is in point t's block iff each coordinate is in the block's range on its axis. -/
theorem mem_blk6 (t : Fin cfg6.N) (i : S27x25000x64.Idx) :
    i ∈ ((cfg6.win 2).blk t).view.set ↔ ∀ a : Fin 3, win6_2.index t a * S1x5000x64.size a ≤ (i a).val ∧ (i a).val < win6_2.index t a * S1x5000x64.size a + S1x5000x64.size a := by
  show i ∈ ((View.whole main_v29).slice (win6_2.rect t)).set ↔ _
  rw [View.set_slice_whole, Rect.mem_set_unit]
  exact Iff.rfl

/-- The output's blocks tile the array: row r of slab k is in the block of point (k, r / 5000). -/
theorem cover6 (i : S27x25000x64.Idx) : ∃ t : Fin cfg6.N, (cfg6.win 2).flush t = true ∧ i ∈ ((cfg6.win 2).blk t).view.set := by
  have hi0 : (i 0).val < 27 := (i 0).isLt
  have hi1 : (i 1).val < 25000 := (i 1).isLt
  have hi2 : (i 2).val < 64 := (i 2).isLt
  obtain ⟨t, ht⟩ := idx_onto6 ⟨(i 0).val, hi0⟩ ⟨(i 1).val / 5000, by omega⟩
  have q0 : win6_2.index t (0 : Fin 3) = (i 0).val := congrFun ht 0
  have q1 : win6_2.index t (1 : Fin 3) = (i 1).val / 5000 := congrFun ht 1
  have q2 : win6_2.index t (2 : Fin 3) = 0 := congrFun ht 2
  refine ⟨t, flush6_2 t, ?_⟩
  rw [mem_blk6]
  intro a
  match a with
  | ⟨0, _⟩ => show win6_2.index t (0 : Fin 3) * 1 ≤ (i 0).val ∧ (i 0).val < win6_2.index t (0 : Fin 3) * 1 + 1; omega
  | ⟨1, _⟩ => show win6_2.index t (1 : Fin 3) * 5000 ≤ (i 1).val ∧ (i 1).val < win6_2.index t (1 : Fin 3) * 5000 + 5000; omega
  | ⟨2, _⟩ => show win6_2.index t (2 : Fin 3) * 64 ≤ (i 2).val ∧ (i 2).val < win6_2.index t (2 : Fin 3) * 64 + 64; omega

/-- The output array after the region: the batched product of the two input arrays as the region found them. -/
theorem final6 (c : Dev nD) :
    (dat6 (F := Ideal) V c).arrAt 2 cfg6.N = mm6 (V c (Pipeline.arrRef spec6 0)) (V c (Pipeline.arrRef spec6 1)) :=
  (dat6 (F := Ideal) V c).arrAt_eq_of_cover 2 (mm6 (V c (Pipeline.arrRef spec6 0)) (V c (Pipeline.arrRef spec6 1)))
    (fun t _ => flushed6_eq V c t) (fun i => cover6 i)

end AtEntry

end Cert.KernelIdeal.Vals
-- ==== Proof.MatmulValue9.lean ====
/- The value of region 9 of @main over the extended reals: the output array, once every block has been
   written back, is the batched matrix product of the two input arrays as the region found them,
     out[k, r, q] = Σ_cc  g[k, r, cc] · w[k, cc, q].
   A block of the output is the product of the matching block of rows of `g` (rows e·5000 … e·5000 + 4999 of
   slab k) with slab k of `w`; rounding to bf16 is the identity over the extended reals, and a product into the
   zero accumulator is the plain sum over the shared axis.  The blocks tile the output, so the array is that
   one function everywhere. -/
import proofs.«180908_j8211977470570_1_alg».proof.Proof.MatmulRegion9
import proofs.«180908_j8211977470570_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal.Gen Cert.KernelIdeal.Regs
open Idealize.ShloMosaic Idealize.ShloMosaic.TcCoe Idealize.ShloMosaic.ValueIdx
open Idealize.ShloMosaic.Pipeline (Dat)
open scoped BigOperators

/-! ## The specification -/

/-- The batched product of a [27, 25000, 64] array with a [27, 64, 1] array, slab by slab. -/
def mm9 (g : S27x25000x64.Idx → EReal) (w : S27x64x1.Idx → EReal) : S27x25000x1.Idx → EReal :=
  fun j => ∑ cc : Fin 64, g (ix3 (j 0 : Fin 27) (j 1 : Fin 25000) cc) * w (ix3 (j 0 : Fin 27) cc (j 2 : Fin 1))

theorem mm9_apply (g : S27x25000x64.Idx → EReal) (w : S27x64x1.Idx → EReal) (j : S27x25000x1.Idx) :
    mm9 g w j = ∑ cc : Fin 64, g (ix3 (j 0 : Fin 27) (j 1 : Fin 25000) cc) * w (ix3 (j 0 : Fin 27) cc (j 2 : Fin 1)) := rfl

/-! ## The body's product at an entry of a block -/

/-- The stored block at (z, r, q): the sum over the shared axis of row r of the block of rows times column q of the
    block of weights.  The unit axes are dropped and added by the shape casts; rounding is the identity. -/
theorem pay9_apply (x0 : Vec Ideal S1x5000x64 .f32) (x1 : Vec Ideal S1x64x1 .f32) (z : Fin 1) (r : Fin 5000) (q : Fin 1) :
    k9_pay1 (F := Ideal) x0 x1 (ix3 z r q) = ∑ cc : Fin 64, x0 (ix3 (0 : Fin 1) r cc) * x1 (ix3 (0 : Fin 1) cc q) := by
  unfold k9_pay1
  refine (shapeCast_ab_1ab_apply _ _ z r q).trans ?_
  refine (Cert.LibPlainMatmul.matmul_zero_plain _ _ _ r q).trans ?_
  refine Finset.sum_congr rfl fun cc _ => ?_
  show shapeCast S5000x64 x0 _ (ix2 r cc) * shapeCast S64x1 x1 _ (ix2 cc q) = _
  rw [shapeCast_1ab_ab_apply, shapeCast_1ab_ab_apply]

/-- The same at an index of the block not yet split into coordinates. -/
theorem pay9_at (x0 : Vec Ideal S1x5000x64 .f32) (x1 : Vec Ideal S1x64x1 .f32) (y : S1x5000x1.Idx) :
    k9_pay1 (F := Ideal) x0 x1 y = ∑ cc : Fin 64, x0 (ix3 (0 : Fin 1) (y 1 : Fin 5000) cc) * x1 (ix3 (0 : Fin 1) cc (y 2 : Fin 1)) :=
  (congrArg (k9_pay1 (F := Ideal) x0 x1) (eq_ix3 y)).trans (pay9_apply x0 x1 (y 0) (y 1) (y 2))

/-- An entry of the stored block is the entry `E` of the batched product, once the block of rows is known to hold
    row (E 0, E 1) of `g` and the block of weights slab E 0 of `w`. -/
theorem block_entry9 (g : S27x25000x64.Idx → EReal) (w : S27x64x1.Idx → EReal) (x0 : Vec Ideal S1x5000x64 .f32) (x1 : Vec Ideal S1x64x1 .f32)
    (E : S27x25000x1.Idx) (y : S1x5000x1.Idx)
    (hx0 : ∀ cc : Fin 64, x0 (ix3 (0 : Fin 1) (y 1 : Fin 5000) cc) = g (ix3 (E 0 : Fin 27) (E 1 : Fin 25000) cc))
    (hx1 : ∀ cc : Fin 64, x1 (ix3 (0 : Fin 1) cc (y 2 : Fin 1)) = w (ix3 (E 0 : Fin 27) cc (E 2 : Fin 1))) :
    k9_pay1 (F := Ideal) x0 x1 y = mm9 g w E := by
  rw [pay9_at, mm9_apply]
  exact Finset.sum_congr rfl fun cc _ => by rw [hx0 cc, hx1 cc]

/-! ## From blocks to the array -/

theorem hz9 : (![0, 0, 0] : Fin 3 → Nat) = fun _ => 0 := funext fun a => by fin_cases a <;> rfl

/-- The block index maps, decided over the grid: at point t = (k, e) the block of rows and the output block sit at
    (k, e, 0) and the block of weights at (k, 0, 0). -/
theorem idx_facts9 : ∀ t : Fin cfg9.N, win9_0.index t (0 : Fin 3) = win9_2.index t (0 : Fin 3)
    ∧ win9_0.index t (1 : Fin 3) = win9_2.index t (1 : Fin 3)
    ∧ win9_0.index t (2 : Fin 3) = 0
    ∧ win9_1.index t (0 : Fin 3) = win9_2.index t (0 : Fin 3)
    ∧ win9_1.index t (1 : Fin 3) = 0
    ∧ win9_1.index t (2 : Fin 3) = 0
    ∧ win9_2.index t (2 : Fin 3) = 0
    ∧ win9_2.index t (0 : Fin 3) ≤ 26
    ∧ win9_2.index t (1 : Fin 3) ≤ 4 :=
  (by decide +kernel : ∀ t : Fin grid9.N, _)

/-- Every block of the output is some point's. -/
theorem idx_onto9 : ∀ (q0 : Fin 27) (q1 : Fin 5), ∃ t : Fin cfg9.N, win9_2.index t = ![q0.val, q1.val, 0] :=
  (by decide +kernel : ∀ (q0 : Fin 27) (q1 : Fin 5), ∃ t : Fin grid9.N, win9_2.index t = ![q0.val, q1.val, 0])

section AtEntry
variable (V : (c : Dev nD) → (b : Ref sig .tc) → Buf (Elt Ideal) ((c : Thread nD τ).loc b))

set_option maxHeartbeats 1000000 in
/-- What point t writes back is block t of the product of the two input arrays as the region finds them. -/
theorem flushed9_eq (c : Dev nD) (t : Fin cfg9.N) :
    (dat9 (F := Ideal) V c).flushed 2 t
      = ((cfg9.win 2).blk t).view.read (Elt Ideal) (mm9 (V c (Pipeline.arrRef spec9 0)) (V c (Pipeline.arrRef spec9 1))) := by
  show (cfg9.win 2).cut (grid9.coords t) ((dat9 (F := Ideal) V c).after 2 t) = _
  rw [after9_2]
  unfold out9_2
  rw [View.canon_unit_zero hz9]
  simp only [View.ld_unit_zero (S := S1x5000x64) hz9, View.ld_unit_zero (S := S1x64x1) hz9]
  obtain ⟨e0, e1, e2, e3, e4, e5, e6, e7, e8⟩ := idx_facts9 t
  funext y
  have hy0 : (y 0).val < 1 := (y 0).isLt
  refine block_entry9 (V c (Pipeline.arrRef spec9 0)) (V c (Pipeline.arrRef spec9 1)) (iblk9 V c 0 t) (iblk9 V c 1 t)
    (((cfg9.win 2).blk t).view.emb y) y (fun cc => ?_) (fun cc => ?_)
  · show V c (Pipeline.arrRef spec9 0) (((cfg9.win 0).blk t).view.emb (ix3 (0 : Fin 1) (y 1 : Fin 5000) cc)) = _
    refine congrArg (V c (Pipeline.arrRef spec9 0)) ?_
    funext a; apply Fin.ext
    match a with
    | ⟨0, _⟩ => show win9_0.index t (0 : Fin 3) * 1 + 1 * 0 = win9_2.index t (0 : Fin 3) * 1 + 1 * (y 0).val; omega
    | ⟨1, _⟩ => show win9_0.index t (1 : Fin 3) * 5000 + 1 * (y 1).val = win9_2.index t (1 : Fin 3) * 5000 + 1 * (y 1).val; omega
    | ⟨2, _⟩ => show win9_0.index t (2 : Fin 3) * 64 + 1 * cc.val = cc.val; omega
  · show V c (Pipeline.arrRef spec9 1) (((cfg9.win 1).blk t).view.emb (ix3 (0 : Fin 1) cc (y 2 : Fin 1))) = _
    refine congrArg (V c (Pipeline.arrRef spec9 1)) ?_
    funext a; apply Fin.ext
    match a with
    | ⟨0, _⟩ => show win9_1.index t (0 : Fin 3) * 1 + 1 * 0 = win9_2.index t (0 : Fin 3) * 1 + 1 * (y 0).val; omega
    | ⟨1, _⟩ => show win9_1.index t (1 : Fin 3) * 64 + 1 * cc.val = cc.val; omega
    | ⟨2, _⟩ => show win9_1.index t (2 : Fin 3) * 1 + 1 * (y 2).val = win9_2.index t (2 : Fin 3) * 1 + 1 * (y 2).val; omega

/-- An index of the output array is in point t's block iff each coordinate is in the block's range on its axis. -/
theorem mem_blk9 (t : Fin cfg9.N) (i : S27x25000x1.Idx) :
    i ∈ ((cfg9.win 2).blk t).view.set ↔ ∀ a : Fin 3, win9_2.index t a * S1x5000x1.size a ≤ (i a).val ∧ (i a).val < win9_2.index t a * S1x5000x1.size a + S1x5000x1.size a := by
  show i ∈ ((View.whole main_v44).slice (win9_2.rect t)).set ↔ _
  rw [View.set_slice_whole, Rect.mem_set_unit]
  exact Iff.rfl

/-- The output's blocks tile the array: row r of slab k is in the block of point (k, r / 5000). -/
theorem cover9 (i : S27x25000x1.Idx) : ∃ t : Fin cfg9.N, (cfg9.win 2).flush t = true ∧ i ∈ ((cfg9.win 2).blk t).view.set := by
  have hi0 : (i 0).val < 27 := (i 0).isLt
  have hi1 : (i 1).val < 25000 := (i 1).isLt
  have hi2 : (i 2).val < 1 := (i 2).isLt
  obtain ⟨t, ht⟩ := idx_onto9 ⟨(i 0).val, hi0⟩ ⟨(i 1).val / 5000, by omega⟩
  have q0 : win9_2.index t (0 : Fin 3) = (i 0).val := congrFun ht 0
  have q1 : win9_2.index t (1 : Fin 3) = (i 1).val / 5000 := congrFun ht 1
  have q2 : win9_2.index t (2 : Fin 3) = 0 := congrFun ht 2
  refine ⟨t, flush9_2 t, ?_⟩
  rw [mem_blk9]
  intro a
  match a with
  | ⟨0, _⟩ => show win9_2.index t (0 : Fin 3) * 1 ≤ (i 0).val ∧ (i 0).val < win9_2.index t (0 : Fin 3) * 1 + 1; omega
  | ⟨1, _⟩ => show win9_2.index t (1 : Fin 3) * 5000 ≤ (i 1).val ∧ (i 1).val < win9_2.index t (1 : Fin 3) * 5000 + 5000; omega
  | ⟨2, _⟩ => show win9_2.index t (2 : Fin 3) * 1 ≤ (i 2).val ∧ (i 2).val < win9_2.index t (2 : Fin 3) * 1 + 1; omega

/-- The output array after the region: the batched product of the two input arrays as the region found them. -/
theorem final9 (c : Dev nD) :
    (dat9 (F := Ideal) V c).arrAt 2 cfg9.N = mm9 (V c (Pipeline.arrRef spec9 0)) (V c (Pipeline.arrRef spec9 1)) :=
  (dat9 (F := Ideal) V c).arrAt_eq_of_cover 2 (mm9 (V c (Pipeline.arrRef spec9 0)) (V c (Pipeline.arrRef spec9 1)))
    (fun t _ => flushed9_eq V c t) (fun i => cover9 i)

end AtEntry

end Cert.KernelIdeal.Vals
-- ==== Proof.MatmulValue12.lean ====
/- The value of region 12 of @main over the extended reals: the output array, once every block has been
   written back, is the batched matrix product of the two input arrays as the region found them,
     out[k, r, q] = Σ_cc  g[k, r, cc] · w[k, cc, q].
   A block of the output is the product of the matching block of rows of `g` (rows e·5000 … e·5000 + 4999 of
   slab k) with slab k of `w`; rounding to bf16 is the identity over the extended reals, and a product into the
   zero accumulator is the plain sum over the shared axis.  The blocks tile the output, so the array is that
   one function everywhere. -/
import proofs.«180908_j8211977470570_1_alg».proof.Proof.MatmulRegion12
import proofs.«180908_j8211977470570_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal.Gen Cert.KernelIdeal.Regs
open Idealize.ShloMosaic Idealize.ShloMosaic.TcCoe Idealize.ShloMosaic.ValueIdx
open Idealize.ShloMosaic.Pipeline (Dat)
open scoped BigOperators

/-! ## The specification -/

/-- The batched product of a [27, 40000, 1] array with a [27, 1, 64] array, slab by slab. -/
def mm12 (g : S27x40000x1.Idx → EReal) (w : S27x1x64.Idx → EReal) : S27x40000x64.Idx → EReal :=
  fun j => ∑ cc : Fin 1, g (ix3 (j 0 : Fin 27) (j 1 : Fin 40000) cc) * w (ix3 (j 0 : Fin 27) cc (j 2 : Fin 64))

theorem mm12_apply (g : S27x40000x1.Idx → EReal) (w : S27x1x64.Idx → EReal) (j : S27x40000x64.Idx) :
    mm12 g w j = ∑ cc : Fin 1, g (ix3 (j 0 : Fin 27) (j 1 : Fin 40000) cc) * w (ix3 (j 0 : Fin 27) cc (j 2 : Fin 64)) := rfl

/-! ## The body's product at an entry of a block -/

/-- The stored block at (z, r, q): the sum over the shared axis of row r of the block of rows times column q of the
    block of weights.  The unit axes are dropped and added by the shape casts; rounding is the identity. -/
theorem pay12_apply (x0 : Vec Ideal S1x5000x1 .f32) (x1 : Vec Ideal S1x1x64 .f32) (z : Fin 1) (r : Fin 5000) (q : Fin 64) :
    k12_pay1 (F := Ideal) x0 x1 (ix3 z r q) = ∑ cc : Fin 1, x0 (ix3 (0 : Fin 1) r cc) * x1 (ix3 (0 : Fin 1) cc q) := by
  unfold k12_pay1
  refine (shapeCast_ab_1ab_apply _ _ z r q).trans ?_
  refine (Cert.LibPlainMatmul.matmul_zero_plain _ _ _ r q).trans ?_
  refine Finset.sum_congr rfl fun cc _ => ?_
  show shapeCast S5000x1 x0 _ (ix2 r cc) * shapeCast S1x64 x1 _ (ix2 cc q) = _
  rw [shapeCast_1ab_ab_apply, shapeCast_1ab_ab_apply]

/-- The same at an index of the block not yet split into coordinates. -/
theorem pay12_at (x0 : Vec Ideal S1x5000x1 .f32) (x1 : Vec Ideal S1x1x64 .f32) (y : S1x5000x64.Idx) :
    k12_pay1 (F := Ideal) x0 x1 y = ∑ cc : Fin 1, x0 (ix3 (0 : Fin 1) (y 1 : Fin 5000) cc) * x1 (ix3 (0 : Fin 1) cc (y 2 : Fin 64)) :=
  (congrArg (k12_pay1 (F := Ideal) x0 x1) (eq_ix3 y)).trans (pay12_apply x0 x1 (y 0) (y 1) (y 2))

/-- An entry of the stored block is the entry `E` of the batched product, once the block of rows is known to hold
    row (E 0, E 1) of `g` and the block of weights slab E 0 of `w`. -/
theorem block_entry12 (g : S27x40000x1.Idx → EReal) (w : S27x1x64.Idx → EReal) (x0 : Vec Ideal S1x5000x1 .f32) (x1 : Vec Ideal S1x1x64 .f32)
    (E : S27x40000x64.Idx) (y : S1x5000x64.Idx)
    (hx0 : ∀ cc : Fin 1, x0 (ix3 (0 : Fin 1) (y 1 : Fin 5000) cc) = g (ix3 (E 0 : Fin 27) (E 1 : Fin 40000) cc))
    (hx1 : ∀ cc : Fin 1, x1 (ix3 (0 : Fin 1) cc (y 2 : Fin 64)) = w (ix3 (E 0 : Fin 27) cc (E 2 : Fin 64))) :
    k12_pay1 (F := Ideal) x0 x1 y = mm12 g w E := by
  rw [pay12_at, mm12_apply]
  exact Finset.sum_congr rfl fun cc _ => by rw [hx0 cc, hx1 cc]

/-! ## From blocks to the array -/

theorem hz12 : (![0, 0, 0] : Fin 3 → Nat) = fun _ => 0 := funext fun a => by fin_cases a <;> rfl

/-- The block index maps, decided over the grid: at point t = (k, e) the block of rows and the output block sit at
    (k, e, 0) and the block of weights at (k, 0, 0). -/
theorem idx_facts12 : ∀ t : Fin cfg12.N, win12_0.index t (0 : Fin 3) = win12_2.index t (0 : Fin 3)
    ∧ win12_0.index t (1 : Fin 3) = win12_2.index t (1 : Fin 3)
    ∧ win12_0.index t (2 : Fin 3) = 0
    ∧ win12_1.index t (0 : Fin 3) = win12_2.index t (0 : Fin 3)
    ∧ win12_1.index t (1 : Fin 3) = 0
    ∧ win12_1.index t (2 : Fin 3) = 0
    ∧ win12_2.index t (2 : Fin 3) = 0
    ∧ win12_2.index t (0 : Fin 3) ≤ 26
    ∧ win12_2.index t (1 : Fin 3) ≤ 7 :=
  (by decide +kernel : ∀ t : Fin grid12.N, _)

/-- Every block of the output is some point's. -/
theorem idx_onto12 : ∀ (q0 : Fin 27) (q1 : Fin 8), ∃ t : Fin cfg12.N, win12_2.index t = ![q0.val, q1.val, 0] :=
  (by decide +kernel : ∀ (q0 : Fin 27) (q1 : Fin 8), ∃ t : Fin grid12.N, win12_2.index t = ![q0.val, q1.val, 0])

section AtEntry
variable (V : (c : Dev nD) → (b : Ref sig .tc) → Buf (Elt Ideal) ((c : Thread nD τ).loc b))

set_option maxHeartbeats 1000000 in
/-- What point t writes back is block t of the product of the two input arrays as the region finds them. -/
theorem flushed12_eq (c : Dev nD) (t : Fin cfg12.N) :
    (dat12 (F := Ideal) V c).flushed 2 t
      = ((cfg12.win 2).blk t).view.read (Elt Ideal) (mm12 (V c (Pipeline.arrRef spec12 0)) (V c (Pipeline.arrRef spec12 1))) := by
  show (cfg12.win 2).cut (grid12.coords t) ((dat12 (F := Ideal) V c).after 2 t) = _
  rw [after12_2]
  unfold out12_2
  rw [View.canon_unit_zero hz12]
  simp only [View.ld_unit_zero (S := S1x5000x1) hz12, View.ld_unit_zero (S := S1x1x64) hz12]
  obtain ⟨e0, e1, e2, e3, e4, e5, e6, e7, e8⟩ := idx_facts12 t
  funext y
  have hy0 : (y 0).val < 1 := (y 0).isLt
  refine block_entry12 (V c (Pipeline.arrRef spec12 0)) (V c (Pipeline.arrRef spec12 1)) (iblk12 V c 0 t) (iblk12 V c 1 t)
    (((cfg12.win 2).blk t).view.emb y) y (fun cc => ?_) (fun cc => ?_)
  · show V c (Pipeline.arrRef spec12 0) (((cfg12.win 0).blk t).view.emb (ix3 (0 : Fin 1) (y 1 : Fin 5000) cc)) = _
    refine congrArg (V c (Pipeline.arrRef spec12 0)) ?_
    funext a; apply Fin.ext
    match a with
    | ⟨0, _⟩ => show win12_0.index t (0 : Fin 3) * 1 + 1 * 0 = win12_2.index t (0 : Fin 3) * 1 + 1 * (y 0).val; omega
    | ⟨1, _⟩ => show win12_0.index t (1 : Fin 3) * 5000 + 1 * (y 1).val = win12_2.index t (1 : Fin 3) * 5000 + 1 * (y 1).val; omega
    | ⟨2, _⟩ => show win12_0.index t (2 : Fin 3) * 1 + 1 * cc.val = cc.val; omega
  · show V c (Pipeline.arrRef spec12 1) (((cfg12.win 1).blk t).view.emb (ix3 (0 : Fin 1) cc (y 2 : Fin 64))) = _
    refine congrArg (V c (Pipeline.arrRef spec12 1)) ?_
    funext a; apply Fin.ext
    match a with
    | ⟨0, _⟩ => show win12_1.index t (0 : Fin 3) * 1 + 1 * 0 = win12_2.index t (0 : Fin 3) * 1 + 1 * (y 0).val; omega
    | ⟨1, _⟩ => show win12_1.index t (1 : Fin 3) * 1 + 1 * cc.val = cc.val; omega
    | ⟨2, _⟩ => show win12_1.index t (2 : Fin 3) * 64 + 1 * (y 2).val = win12_2.index t (2 : Fin 3) * 64 + 1 * (y 2).val; omega

/-- An index of the output array is in point t's block iff each coordinate is in the block's range on its axis. -/
theorem mem_blk12 (t : Fin cfg12.N) (i : S27x40000x64.Idx) :
    i ∈ ((cfg12.win 2).blk t).view.set ↔ ∀ a : Fin 3, win12_2.index t a * S1x5000x64.size a ≤ (i a).val ∧ (i a).val < win12_2.index t a * S1x5000x64.size a + S1x5000x64.size a := by
  show i ∈ ((View.whole main_v55).slice (win12_2.rect t)).set ↔ _
  rw [View.set_slice_whole, Rect.mem_set_unit]
  exact Iff.rfl

/-- The output's blocks tile the array: row r of slab k is in the block of point (k, r / 5000). -/
theorem cover12 (i : S27x40000x64.Idx) : ∃ t : Fin cfg12.N, (cfg12.win 2).flush t = true ∧ i ∈ ((cfg12.win 2).blk t).view.set := by
  have hi0 : (i 0).val < 27 := (i 0).isLt
  have hi1 : (i 1).val < 40000 := (i 1).isLt
  have hi2 : (i 2).val < 64 := (i 2).isLt
  obtain ⟨t, ht⟩ := idx_onto12 ⟨(i 0).val, hi0⟩ ⟨(i 1).val / 5000, by omega⟩
  have q0 : win12_2.index t (0 : Fin 3) = (i 0).val := congrFun ht 0
  have q1 : win12_2.index t (1 : Fin 3) = (i 1).val / 5000 := congrFun ht 1
  have q2 : win12_2.index t (2 : Fin 3) = 0 := congrFun ht 2
  refine ⟨t, flush12_2 t, ?_⟩
  rw [mem_blk12]
  intro a
  match a with
  | ⟨0, _⟩ => show win12_2.index t (0 : Fin 3) * 1 ≤ (i 0).val ∧ (i 0).val < win12_2.index t (0 : Fin 3) * 1 + 1; omega
  | ⟨1, _⟩ => show win12_2.index t (1 : Fin 3) * 5000 ≤ (i 1).val ∧ (i 1).val < win12_2.index t (1 : Fin 3) * 5000 + 5000; omega
  | ⟨2, _⟩ => show win12_2.index t (2 : Fin 3) * 64 ≤ (i 2).val ∧ (i 2).val < win12_2.index t (2 : Fin 3) * 64 + 64; omega

/-- The output array after the region: the batched product of the two input arrays as the region found them. -/
theorem final12 (c : Dev nD) :
    (dat12 (F := Ideal) V c).arrAt 2 cfg12.N = mm12 (V c (Pipeline.arrRef spec12 0)) (V c (Pipeline.arrRef spec12 1)) :=
  (dat12 (F := Ideal) V c).arrAt_eq_of_cover 2 (mm12 (V c (Pipeline.arrRef spec12 0)) (V c (Pipeline.arrRef spec12 1)))
    (fun t _ => flushed12_eq V c t) (fun i => cover12 i)

end AtEntry

end Cert.KernelIdeal.Vals
-- ==== Proof.NormValue2.lean ====
/-
  The value of region 2 of @main over the extended reals: once every block has been written back, the output array is

      out[r, q] = act ((x[r, q] − mean[0, q]) · rsqrt (var[0, q] + ε) · gamma[0, q] + beta[0, q]),

  x the [60000, 64] input array and mean, var, gamma, beta the four [1, 64] rows as the region found them, ε the
  literal 0x3727C5AC, act the leaky rectifier: y itself where y ≥ 0, the slope 0.01 (as its nearest float) times y elsewhere.

  The body is pointwise in the row block and reads the four rows through a row broadcast, so the entry (p, q) of the
  block stored at a grid point depends only on entry (p, q) of the row block and on column q of the four rows. Point t
  stages rows t·3000 … t·3000 + 2999 of x and of the output and the whole of each row array; the 20 blocks tile
  the output, so the array is that one function everywhere.
-/
import proofs.«180908_j8211977470570_1_alg».proof.Proof.NormRegion2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal.Gen Cert.KernelIdeal.Regs
open Idealize.ShloMosaic Idealize.ShloMosaic.TcCoe Idealize.ShloMosaic.ValueIdx
open Idealize.ShloMosaic.Pipeline (Dat)

/-! ## The specification -/

/-- Batch-norm normalisation with its activation, entry by entry: row r, column q of the result from the same entry
    of `x` and column q of the four per-column rows. -/
def bnAct2 (x : S60000x64.Idx → EReal) (mu var g b : S1x64.Idx → EReal) : S60000x64.Idx → EReal :=
  fun j => Scalar.select (Ideal.cmp .oge ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))) 0) ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))) (Ideal.ofBits .f32 0x3C23D70A#32 * ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))))

theorem bnAct2_apply (x : S60000x64.Idx → EReal) (mu var g b : S1x64.Idx → EReal) (j : S60000x64.Idx) :
    bnAct2 x mu var g b j = Scalar.select (Ideal.cmp .oge ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))) 0) ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))) (Ideal.ofBits .f32 0x3C23D70A#32 * ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64)))) := rfl

/-! ## The body's stored value at an entry of a block -/

/-- The stored block at (p, q): the pointwise chain at entry (p, q) of the row block and column q of the four rows
    (the shape casts are identities, each row is repeated down the block, a splat constant reads its value). -/
theorem pay2_apply (x0 : Vec Ideal S3000x64 .f32) (x1 x2 x3 x4 : Vec Ideal S1x64 .f32) (p : Fin 3000) (q : Fin 64) :
    k2_pay1 (F := Ideal) x0 x1 x2 x3 x4 (ix2 p q) = Scalar.select (Ideal.cmp .oge ((x0 (ix2 p q) - x1 (ix2 (0 : Fin 1) q)) * Ideal.rsqrt (x2 (ix2 (0 : Fin 1) q) + Ideal.ofBits .f32 0x3727C5AC#32) * x3 (ix2 (0 : Fin 1) q) + x4 (ix2 (0 : Fin 1) q)) 0) ((x0 (ix2 p q) - x1 (ix2 (0 : Fin 1) q)) * Ideal.rsqrt (x2 (ix2 (0 : Fin 1) q) + Ideal.ofBits .f32 0x3727C5AC#32) * x3 (ix2 (0 : Fin 1) q) + x4 (ix2 (0 : Fin 1) q)) (Ideal.ofBits .f32 0x3C23D70A#32 * ((x0 (ix2 p q) - x1 (ix2 (0 : Fin 1) q)) * Ideal.rsqrt (x2 (ix2 (0 : Fin 1) q) + Ideal.ofBits .f32 0x3727C5AC#32) * x3 (ix2 (0 : Fin 1) q) + x4 (ix2 (0 : Fin 1) q))) := by
  unfold k2_pay1
  simp only [shapeCast_self]
  show Scalar.select (Ideal.cmp .oge _ (Ideal.ofBits .f32 0x00000000#32)) _ _ = _
  simp only [broadcastTo_1b_ab_apply, addf_apply, mulf_apply, subf_apply, broadcast_apply]
  rw [Ideal.ofBits_zero_f32]
  rfl

/-- The same at an index of the block not yet split into coordinates. -/
theorem pay2_at (x0 : Vec Ideal S3000x64 .f32) (x1 x2 x3 x4 : Vec Ideal S1x64 .f32) (y : S3000x64.Idx) :
    k2_pay1 (F := Ideal) x0 x1 x2 x3 x4 y = Scalar.select (Ideal.cmp .oge ((x0 (ix2 (y 0 : Fin 3000) (y 1 : Fin 64)) - x1 (ix2 (0 : Fin 1) (y 1 : Fin 64))) * Ideal.rsqrt (x2 (ix2 (0 : Fin 1) (y 1 : Fin 64)) + Ideal.ofBits .f32 0x3727C5AC#32) * x3 (ix2 (0 : Fin 1) (y 1 : Fin 64)) + x4 (ix2 (0 : Fin 1) (y 1 : Fin 64))) 0) ((x0 (ix2 (y 0 : Fin 3000) (y 1 : Fin 64)) - x1 (ix2 (0 : Fin 1) (y 1 : Fin 64))) * Ideal.rsqrt (x2 (ix2 (0 : Fin 1) (y 1 : Fin 64)) + Ideal.ofBits .f32 0x3727C5AC#32) * x3 (ix2 (0 : Fin 1) (y 1 : Fin 64)) + x4 (ix2 (0 : Fin 1) (y 1 : Fin 64))) (Ideal.ofBits .f32 0x3C23D70A#32 * ((x0 (ix2 (y 0 : Fin 3000) (y 1 : Fin 64)) - x1 (ix2 (0 : Fin 1) (y 1 : Fin 64))) * Ideal.rsqrt (x2 (ix2 (0 : Fin 1) (y 1 : Fin 64)) + Ideal.ofBits .f32 0x3727C5AC#32) * x3 (ix2 (0 : Fin 1) (y 1 : Fin 64)) + x4 (ix2 (0 : Fin 1) (y 1 : Fin 64)))) :=
  (congrArg (k2_pay1 (F := Ideal) x0 x1 x2 x3 x4) (eq_ix2 y)).trans (pay2_apply x0 x1 x2 x3 x4 (y 0) (y 1))

/-- An entry of the stored block is the entry `E` of the specification, once the row block is known to hold entry `E`
    of `x` there and each row block column `E 1` of its row. -/
theorem block_entry2 (x : S60000x64.Idx → EReal) (mu var g b : S1x64.Idx → EReal)
    (x0 : Vec Ideal S3000x64 .f32) (x1 x2 x3 x4 : Vec Ideal S1x64 .f32) (E : S60000x64.Idx) (y : S3000x64.Idx)
    (h0 : x0 (ix2 (y 0 : Fin 3000) (y 1 : Fin 64)) = x E)
    (h1 : x1 (ix2 (0 : Fin 1) (y 1 : Fin 64)) = mu (ix2 (0 : Fin 1) (E 1 : Fin 64)))
    (h2 : x2 (ix2 (0 : Fin 1) (y 1 : Fin 64)) = var (ix2 (0 : Fin 1) (E 1 : Fin 64)))
    (h3 : x3 (ix2 (0 : Fin 1) (y 1 : Fin 64)) = g (ix2 (0 : Fin 1) (E 1 : Fin 64)))
    (h4 : x4 (ix2 (0 : Fin 1) (y 1 : Fin 64)) = b (ix2 (0 : Fin 1) (E 1 : Fin 64))) :
    k2_pay1 (F := Ideal) x0 x1 x2 x3 x4 y = bnAct2 x mu var g b E := by
  rw [pay2_at, bnAct2_apply, h0, h1, h2, h3, h4]

/-! ## From blocks to the array -/

theorem hz2 : (![0, 0] : Fin 2 → Nat) = fun _ => 0 := funext fun a => by fin_cases a <;> rfl

/-- The block index maps, decided over the grid: at point t the row block and the output block sit at (t, 0), each
    of the four rows at (0, 0). -/
theorem idx_facts2 : ∀ t : Fin cfg2.N, win2_0.index t (0 : Fin 2) = win2_5.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0
    ∧ win2_5.index t (0 : Fin 2) ≤ 19 :=
  (by decide +kernel : ∀ t : Fin grid2.N, _)

/-- Every block of the output is some point's. -/
theorem idx_onto2 : ∀ (q0 : Fin 20), ∃ t : Fin cfg2.N, win2_5.index t = ![q0.val, 0] :=
  (by decide +kernel : ∀ (q0 : Fin 20), ∃ t : Fin grid2.N, win2_5.index t = ![q0.val, 0])

section AtEntry
variable (V : (c : Dev nD) → (b : Ref sig .tc) → Buf (Elt Ideal) ((c : Thread nD τ).loc b))

set_option maxHeartbeats 1000000 in
/-- What point t writes back is block t of the specification at the five input arrays as the region finds them. -/
theorem flushed2_eq (c : Dev nD) (t : Fin cfg2.N) :
    (dat2 (F := Ideal) V c).flushed 5 t
      = ((cfg2.win 5).blk t).view.read (Elt Ideal) (bnAct2 (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 (F := Ideal) V c).after 5 t) = _
  rw [after2_5]
  unfold out2_5
  rw [View.canon_unit_zero hz2]
  simp only [View.ld_unit_zero (S := S3000x64) hz2, View.ld_unit_zero (S := S1x64) hz2]
  obtain ⟨e0, e1, e2, e3, e4, e5, e6, e7, e8, e9, e10, e11⟩ := idx_facts2 t
  funext y
  have hy0 : (y 0).val < 3000 := (y 0).isLt
  have hy1 : (y 1).val < 64 := (y 1).isLt
  refine block_entry2 (V c (Pipeline.arrRef spec2 0)) (V c (Pipeline.arrRef spec2 1)) (V c (Pipeline.arrRef spec2 2)) (V c (Pipeline.arrRef spec2 3)) (V c (Pipeline.arrRef spec2 4))
    (iblk2 V c 0 t) (iblk2 V c 1 t) (iblk2 V c 2 t) (iblk2 V c 3 t) (iblk2 V c 4 t)
    (((cfg2.win 5).blk t).view.emb y) y ?_ ?_ ?_ ?_ ?_
  · show V c (Pipeline.arrRef spec2 0) (((cfg2.win 0).blk t).view.emb (ix2 (y 0 : Fin 3000) (y 1 : Fin 64))) = _
    refine congrArg (V c (Pipeline.arrRef spec2 0)) ?_
    funext a; apply Fin.ext
    match a with
    | ⟨0, _⟩ => show win2_0.index t (0 : Fin 2) * 3000 + 1 * (y 0).val = win2_5.index t (0 : Fin 2) * 3000 + 1 * (y 0).val; omega
    | ⟨1, _⟩ => show win2_0.index t (1 : Fin 2) * 64 + 1 * (y 1).val = win2_5.index t (1 : Fin 2) * 64 + 1 * (y 1).val; omega
  · show V c (Pipeline.arrRef spec2 1) (((cfg2.win 1).blk t).view.emb (ix2 (0 : Fin 1) (y 1 : Fin 64))) = _
    refine congrArg (V c (Pipeline.arrRef spec2 1)) ?_
    funext a; apply Fin.ext
    match a with
    | ⟨0, _⟩ => show win2_1.index t (0 : Fin 2) * 1 + 1 * 0 = 0; omega
    | ⟨1, _⟩ => show win2_1.index t (1 : Fin 2) * 64 + 1 * (y 1).val = win2_5.index t (1 : Fin 2) * 64 + 1 * (y 1).val; omega
  · show V c (Pipeline.arrRef spec2 2) (((cfg2.win 2).blk t).view.emb (ix2 (0 : Fin 1) (y 1 : Fin 64))) = _
    refine congrArg (V c (Pipeline.arrRef spec2 2)) ?_
    funext a; apply Fin.ext
    match a with
    | ⟨0, _⟩ => show win2_2.index t (0 : Fin 2) * 1 + 1 * 0 = 0; omega
    | ⟨1, _⟩ => show win2_2.index t (1 : Fin 2) * 64 + 1 * (y 1).val = win2_5.index t (1 : Fin 2) * 64 + 1 * (y 1).val; omega
  · show V c (Pipeline.arrRef spec2 3) (((cfg2.win 3).blk t).view.emb (ix2 (0 : Fin 1) (y 1 : Fin 64))) = _
    refine congrArg (V c (Pipeline.arrRef spec2 3)) ?_
    funext a; apply Fin.ext
    match a with
    | ⟨0, _⟩ => show win2_3.index t (0 : Fin 2) * 1 + 1 * 0 = 0; omega
    | ⟨1, _⟩ => show win2_3.index t (1 : Fin 2) * 64 + 1 * (y 1).val = win2_5.index t (1 : Fin 2) * 64 + 1 * (y 1).val; omega
  · show V c (Pipeline.arrRef spec2 4) (((cfg2.win 4).blk t).view.emb (ix2 (0 : Fin 1) (y 1 : Fin 64))) = _
    refine congrArg (V c (Pipeline.arrRef spec2 4)) ?_
    funext a; apply Fin.ext
    match a with
    | ⟨0, _⟩ => show win2_4.index t (0 : Fin 2) * 1 + 1 * 0 = 0; omega
    | ⟨1, _⟩ => show win2_4.index t (1 : Fin 2) * 64 + 1 * (y 1).val = win2_5.index t (1 : Fin 2) * 64 + 1 * (y 1).val; omega

/-- An index of the output array is in point t's block iff each coordinate is in the block's range on its axis. -/
theorem mem_blk2 (t : Fin cfg2.N) (i : S60000x64.Idx) :
    i ∈ ((cfg2.win 5).blk t).view.set ↔ ∀ a : Fin 2, win2_5.index t a * S3000x64.size a ≤ (i a).val ∧ (i a).val < win2_5.index t a * S3000x64.size a + S3000x64.size a := by
  show i ∈ ((View.whole main_v13).slice (win2_5.rect t)).set ↔ _
  rw [View.set_slice_whole, Rect.mem_set_unit]
  exact Iff.rfl

/-- The output's blocks tile the array: row r is in the block of point r / 3000. -/
theorem cover2 (i : S60000x64.Idx) : ∃ t : Fin cfg2.N, (cfg2.win 5).flush t = true ∧ i ∈ ((cfg2.win 5).blk t).view.set := by
  have hi0 : (i 0).val < 60000 := (i 0).isLt
  have hi1 : (i 1).val < 64 := (i 1).isLt
  obtain ⟨t, ht⟩ := idx_onto2 ⟨(i 0).val / 3000, by omega⟩
  have q0 : win2_5.index t (0 : Fin 2) = (i 0).val / 3000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 3000 ≤ (i 0).val ∧ (i 0).val < win2_5.index t (0 : Fin 2) * 3000 + 3000; omega
  | ⟨1, _⟩ => show win2_5.index t (1 : Fin 2) * 64 ≤ (i 1).val ∧ (i 1).val < win2_5.index t (1 : Fin 2) * 64 + 64; omega

/-- The output array after the region: the specification at the five input arrays as the region found them. -/
theorem final2 (c : Dev nD) :
    (dat2 (F := Ideal) V c).arrAt 5 cfg2.N = bnAct2 (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5 (bnAct2 (V c (Pipeline.arrRef spec2 0)) (V c (Pipeline.arrRef spec2 1)) (V c (Pipeline.arrRef spec2 2)) (V c (Pipeline.arrRef spec2 3)) (V c (Pipeline.arrRef spec2 4)))
    (fun t _ => flushed2_eq V c t) (fun i => cover2 i)

end AtEntry

end Cert.KernelIdeal.Vals
-- ==== Proof.NormValue5.lean ====
/-
  The value of region 5 of @main over the extended reals: once every block has been written back, the output array is

      out[r, q] = act ((x[r, q] − mean[0, q]) · rsqrt (var[0, q] + ε) · gamma[0, q] + beta[0, q]),

  x the [60000, 64] input array and mean, var, gamma, beta the four [1, 64] rows as the region found them, ε the
  literal 0x3727C5AC, act the leaky rectifier: y itself where y ≥ 0, the slope 0.01 (as its nearest float) times y elsewhere.

  The body is pointwise in the row block and reads the four rows through a row broadcast, so the entry (p, q) of the
  block stored at a grid point depends only on entry (p, q) of the row block and on column q of the four rows. Point t
  stages rows t·3000 … t·3000 + 2999 of x and of the output and the whole of each row array; the 20 blocks tile
  the output, so the array is that one function everywhere.
-/
import proofs.«180908_j8211977470570_1_alg».proof.Proof.NormRegion5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal.Gen Cert.KernelIdeal.Regs
open Idealize.ShloMosaic Idealize.ShloMosaic.TcCoe Idealize.ShloMosaic.ValueIdx
open Idealize.ShloMosaic.Pipeline (Dat)

/-! ## The specification -/

/-- Batch-norm normalisation with its activation, entry by entry: row r, column q of the result from the same entry
    of `x` and column q of the four per-column rows. -/
def bnAct5 (x : S60000x64.Idx → EReal) (mu var g b : S1x64.Idx → EReal) : S60000x64.Idx → EReal :=
  fun j => Scalar.select (Ideal.cmp .oge ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))) 0) ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))) (Ideal.ofBits .f32 0x3C23D70A#32 * ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))))

theorem bnAct5_apply (x : S60000x64.Idx → EReal) (mu var g b : S1x64.Idx → EReal) (j : S60000x64.Idx) :
    bnAct5 x mu var g b j = Scalar.select (Ideal.cmp .oge ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))) 0) ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))) (Ideal.ofBits .f32 0x3C23D70A#32 * ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64)))) := rfl

/-! ## The body's stored value at an entry of a block -/

/-- The stored block at (p, q): the pointwise chain at entry (p, q) of the row block and column q of the four rows
    (the shape casts are identities, each row is repeated down the block, a splat constant reads its value). -/
theorem pay5_apply (x0 : Vec Ideal S3000x64 .f32) (x1 x2 x3 x4 : Vec Ideal S1x64 .f32) (p : Fin 3000) (q : Fin 64) :
    k5_pay1 (F := Ideal) x0 x1 x2 x3 x4 (ix2 p q) = Scalar.select (Ideal.cmp .oge ((x0 (ix2 p q) - x1 (ix2 (0 : Fin 1) q)) * Ideal.rsqrt (x2 (ix2 (0 : Fin 1) q) + Ideal.ofBits .f32 0x3727C5AC#32) * x3 (ix2 (0 : Fin 1) q) + x4 (ix2 (0 : Fin 1) q)) 0) ((x0 (ix2 p q) - x1 (ix2 (0 : Fin 1) q)) * Ideal.rsqrt (x2 (ix2 (0 : Fin 1) q) + Ideal.ofBits .f32 0x3727C5AC#32) * x3 (ix2 (0 : Fin 1) q) + x4 (ix2 (0 : Fin 1) q)) (Ideal.ofBits .f32 0x3C23D70A#32 * ((x0 (ix2 p q) - x1 (ix2 (0 : Fin 1) q)) * Ideal.rsqrt (x2 (ix2 (0 : Fin 1) q) + Ideal.ofBits .f32 0x3727C5AC#32) * x3 (ix2 (0 : Fin 1) q) + x4 (ix2 (0 : Fin 1) q))) := by
  unfold k5_pay1
  simp only [shapeCast_self]
  show Scalar.select (Ideal.cmp .oge _ (Ideal.ofBits .f32 0x00000000#32)) _ _ = _
  simp only [broadcastTo_1b_ab_apply, addf_apply, mulf_apply, subf_apply, broadcast_apply]
  rw [Ideal.ofBits_zero_f32]
  rfl

/-- The same at an index of the block not yet split into coordinates. -/
theorem pay5_at (x0 : Vec Ideal S3000x64 .f32) (x1 x2 x3 x4 : Vec Ideal S1x64 .f32) (y : S3000x64.Idx) :
    k5_pay1 (F := Ideal) x0 x1 x2 x3 x4 y = Scalar.select (Ideal.cmp .oge ((x0 (ix2 (y 0 : Fin 3000) (y 1 : Fin 64)) - x1 (ix2 (0 : Fin 1) (y 1 : Fin 64))) * Ideal.rsqrt (x2 (ix2 (0 : Fin 1) (y 1 : Fin 64)) + Ideal.ofBits .f32 0x3727C5AC#32) * x3 (ix2 (0 : Fin 1) (y 1 : Fin 64)) + x4 (ix2 (0 : Fin 1) (y 1 : Fin 64))) 0) ((x0 (ix2 (y 0 : Fin 3000) (y 1 : Fin 64)) - x1 (ix2 (0 : Fin 1) (y 1 : Fin 64))) * Ideal.rsqrt (x2 (ix2 (0 : Fin 1) (y 1 : Fin 64)) + Ideal.ofBits .f32 0x3727C5AC#32) * x3 (ix2 (0 : Fin 1) (y 1 : Fin 64)) + x4 (ix2 (0 : Fin 1) (y 1 : Fin 64))) (Ideal.ofBits .f32 0x3C23D70A#32 * ((x0 (ix2 (y 0 : Fin 3000) (y 1 : Fin 64)) - x1 (ix2 (0 : Fin 1) (y 1 : Fin 64))) * Ideal.rsqrt (x2 (ix2 (0 : Fin 1) (y 1 : Fin 64)) + Ideal.ofBits .f32 0x3727C5AC#32) * x3 (ix2 (0 : Fin 1) (y 1 : Fin 64)) + x4 (ix2 (0 : Fin 1) (y 1 : Fin 64)))) :=
  (congrArg (k5_pay1 (F := Ideal) x0 x1 x2 x3 x4) (eq_ix2 y)).trans (pay5_apply x0 x1 x2 x3 x4 (y 0) (y 1))

/-- An entry of the stored block is the entry `E` of the specification, once the row block is known to hold entry `E`
    of `x` there and each row block column `E 1` of its row. -/
theorem block_entry5 (x : S60000x64.Idx → EReal) (mu var g b : S1x64.Idx → EReal)
    (x0 : Vec Ideal S3000x64 .f32) (x1 x2 x3 x4 : Vec Ideal S1x64 .f32) (E : S60000x64.Idx) (y : S3000x64.Idx)
    (h0 : x0 (ix2 (y 0 : Fin 3000) (y 1 : Fin 64)) = x E)
    (h1 : x1 (ix2 (0 : Fin 1) (y 1 : Fin 64)) = mu (ix2 (0 : Fin 1) (E 1 : Fin 64)))
    (h2 : x2 (ix2 (0 : Fin 1) (y 1 : Fin 64)) = var (ix2 (0 : Fin 1) (E 1 : Fin 64)))
    (h3 : x3 (ix2 (0 : Fin 1) (y 1 : Fin 64)) = g (ix2 (0 : Fin 1) (E 1 : Fin 64)))
    (h4 : x4 (ix2 (0 : Fin 1) (y 1 : Fin 64)) = b (ix2 (0 : Fin 1) (E 1 : Fin 64))) :
    k5_pay1 (F := Ideal) x0 x1 x2 x3 x4 y = bnAct5 x mu var g b E := by
  rw [pay5_at, bnAct5_apply, h0, h1, h2, h3, h4]

/-! ## From blocks to the array -/

theorem hz5 : (![0, 0] : Fin 2 → Nat) = fun _ => 0 := funext fun a => by fin_cases a <;> rfl

/-- The block index maps, decided over the grid: at point t the row block and the output block sit at (t, 0), each
    of the four rows at (0, 0). -/
theorem idx_facts5 : ∀ t : Fin cfg5.N, win5_0.index t (0 : Fin 2) = win5_5.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (1 : Fin 2) = 0
    ∧ win5_5.index t (0 : Fin 2) ≤ 19 :=
  (by decide +kernel : ∀ t : Fin grid5.N, _)

/-- Every block of the output is some point's. -/
theorem idx_onto5 : ∀ (q0 : Fin 20), ∃ t : Fin cfg5.N, win5_5.index t = ![q0.val, 0] :=
  (by decide +kernel : ∀ (q0 : Fin 20), ∃ t : Fin grid5.N, win5_5.index t = ![q0.val, 0])

section AtEntry
variable (V : (c : Dev nD) → (b : Ref sig .tc) → Buf (Elt Ideal) ((c : Thread nD τ).loc b))

set_option maxHeartbeats 1000000 in
/-- What point t writes back is block t of the specification at the five input arrays as the region finds them. -/
theorem flushed5_eq (c : Dev nD) (t : Fin cfg5.N) :
    (dat5 (F := Ideal) V c).flushed 5 t
      = ((cfg5.win 5).blk t).view.read (Elt Ideal) (bnAct5 (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 (F := Ideal) V c).after 5 t) = _
  rw [after5_5]
  unfold out5_5
  rw [View.canon_unit_zero hz5]
  simp only [View.ld_unit_zero (S := S3000x64) hz5, View.ld_unit_zero (S := S1x64) hz5]
  obtain ⟨e0, e1, e2, e3, e4, e5, e6, e7, e8, e9, e10, e11⟩ := idx_facts5 t
  funext y
  have hy0 : (y 0).val < 3000 := (y 0).isLt
  have hy1 : (y 1).val < 64 := (y 1).isLt
  refine block_entry5 (V c (Pipeline.arrRef spec5 0)) (V c (Pipeline.arrRef spec5 1)) (V c (Pipeline.arrRef spec5 2)) (V c (Pipeline.arrRef spec5 3)) (V c (Pipeline.arrRef spec5 4))
    (iblk5 V c 0 t) (iblk5 V c 1 t) (iblk5 V c 2 t) (iblk5 V c 3 t) (iblk5 V c 4 t)
    (((cfg5.win 5).blk t).view.emb y) y ?_ ?_ ?_ ?_ ?_
  · show V c (Pipeline.arrRef spec5 0) (((cfg5.win 0).blk t).view.emb (ix2 (y 0 : Fin 3000) (y 1 : Fin 64))) = _
    refine congrArg (V c (Pipeline.arrRef spec5 0)) ?_
    funext a; apply Fin.ext
    match a with
    | ⟨0, _⟩ => show win5_0.index t (0 : Fin 2) * 3000 + 1 * (y 0).val = win5_5.index t (0 : Fin 2) * 3000 + 1 * (y 0).val; omega
    | ⟨1, _⟩ => show win5_0.index t (1 : Fin 2) * 64 + 1 * (y 1).val = win5_5.index t (1 : Fin 2) * 64 + 1 * (y 1).val; omega
  · show V c (Pipeline.arrRef spec5 1) (((cfg5.win 1).blk t).view.emb (ix2 (0 : Fin 1) (y 1 : Fin 64))) = _
    refine congrArg (V c (Pipeline.arrRef spec5 1)) ?_
    funext a; apply Fin.ext
    match a with
    | ⟨0, _⟩ => show win5_1.index t (0 : Fin 2) * 1 + 1 * 0 = 0; omega
    | ⟨1, _⟩ => show win5_1.index t (1 : Fin 2) * 64 + 1 * (y 1).val = win5_5.index t (1 : Fin 2) * 64 + 1 * (y 1).val; omega
  · show V c (Pipeline.arrRef spec5 2) (((cfg5.win 2).blk t).view.emb (ix2 (0 : Fin 1) (y 1 : Fin 64))) = _
    refine congrArg (V c (Pipeline.arrRef spec5 2)) ?_
    funext a; apply Fin.ext
    match a with
    | ⟨0, _⟩ => show win5_2.index t (0 : Fin 2) * 1 + 1 * 0 = 0; omega
    | ⟨1, _⟩ => show win5_2.index t (1 : Fin 2) * 64 + 1 * (y 1).val = win5_5.index t (1 : Fin 2) * 64 + 1 * (y 1).val; omega
  · show V c (Pipeline.arrRef spec5 3) (((cfg5.win 3).blk t).view.emb (ix2 (0 : Fin 1) (y 1 : Fin 64))) = _
    refine congrArg (V c (Pipeline.arrRef spec5 3)) ?_
    funext a; apply Fin.ext
    match a with
    | ⟨0, _⟩ => show win5_3.index t (0 : Fin 2) * 1 + 1 * 0 = 0; omega
    | ⟨1, _⟩ => show win5_3.index t (1 : Fin 2) * 64 + 1 * (y 1).val = win5_5.index t (1 : Fin 2) * 64 + 1 * (y 1).val; omega
  · show V c (Pipeline.arrRef spec5 4) (((cfg5.win 4).blk t).view.emb (ix2 (0 : Fin 1) (y 1 : Fin 64))) = _
    refine congrArg (V c (Pipeline.arrRef spec5 4)) ?_
    funext a; apply Fin.ext
    match a with
    | ⟨0, _⟩ => show win5_4.index t (0 : Fin 2) * 1 + 1 * 0 = 0; omega
    | ⟨1, _⟩ => show win5_4.index t (1 : Fin 2) * 64 + 1 * (y 1).val = win5_5.index t (1 : Fin 2) * 64 + 1 * (y 1).val; omega

/-- An index of the output array is in point t's block iff each coordinate is in the block's range on its axis. -/
theorem mem_blk5 (t : Fin cfg5.N) (i : S60000x64.Idx) :
    i ∈ ((cfg5.win 5).blk t).view.set ↔ ∀ a : Fin 2, win5_5.index t a * S3000x64.size a ≤ (i a).val ∧ (i a).val < win5_5.index t a * S3000x64.size a + S3000x64.size a := by
  show i ∈ ((View.whole main_v27).slice (win5_5.rect t)).set ↔ _
  rw [View.set_slice_whole, Rect.mem_set_unit]
  exact Iff.rfl

/-- The output's blocks tile the array: row r is in the block of point r / 3000. -/
theorem cover5 (i : S60000x64.Idx) : ∃ t : Fin cfg5.N, (cfg5.win 5).flush t = true ∧ i ∈ ((cfg5.win 5).blk t).view.set := by
  have hi0 : (i 0).val < 60000 := (i 0).isLt
  have hi1 : (i 1).val < 64 := (i 1).isLt
  obtain ⟨t, ht⟩ := idx_onto5 ⟨(i 0).val / 3000, by omega⟩
  have q0 : win5_5.index t (0 : Fin 2) = (i 0).val / 3000 := congrFun ht 0
  have q1 : win5_5.index t (1 : Fin 2) = 0 := congrFun ht 1
  refine ⟨t, flush5_5 t, ?_⟩
  rw [mem_blk5]
  intro a
  match a with
  | ⟨0, _⟩ => show win5_5.index t (0 : Fin 2) * 3000 ≤ (i 0).val ∧ (i 0).val < win5_5.index t (0 : Fin 2) * 3000 + 3000; omega
  | ⟨1, _⟩ => show win5_5.index t (1 : Fin 2) * 64 ≤ (i 1).val ∧ (i 1).val < win5_5.index t (1 : Fin 2) * 64 + 64; omega

/-- The output array after the region: the specification at the five input arrays as the region found them. -/
theorem final5 (c : Dev nD) :
    (dat5 (F := Ideal) V c).arrAt 5 cfg5.N = bnAct5 (V c (Pipeline.arrRef spec5 0)) (V c (Pipeline.arrRef spec5 1)) (V c (Pipeline.arrRef spec5 2)) (V c (Pipeline.arrRef spec5 3)) (V c (Pipeline.arrRef spec5 4)) :=
  (dat5 (F := Ideal) V c).arrAt_eq_of_cover 5 (bnAct5 (V c (Pipeline.arrRef spec5 0)) (V c (Pipeline.arrRef spec5 1)) (V c (Pipeline.arrRef spec5 2)) (V c (Pipeline.arrRef spec5 3)) (V c (Pipeline.arrRef spec5 4)))
    (fun t _ => flushed5_eq V c t) (fun i => cover5 i)

end AtEntry

end Cert.KernelIdeal.Vals
-- ==== Proof.NormValue8.lean ====
/-
  The value of region 8 of @main over the extended reals: once every block has been written back, the output array is

      out[r, q] = act ((x[r, q] − mean[0, q]) · rsqrt (var[0, q] + ε) · gamma[0, q] + beta[0, q]),

  x the [60000, 64] input array and mean, var, gamma, beta the four [1, 64] rows as the region found them, ε the
  literal 0x3727C5AC, act the leaky rectifier: y itself where y ≥ 0, the slope 0.01 (as its nearest float) times y elsewhere.

  The body is pointwise in the row block and reads the four rows through a row broadcast, so the entry (p, q) of the
  block stored at a grid point depends only on entry (p, q) of the row block and on column q of the four rows. Point t
  stages rows t·3000 … t·3000 + 2999 of x and of the output and the whole of each row array; the 20 blocks tile
  the output, so the array is that one function everywhere.
-/
import proofs.«180908_j8211977470570_1_alg».proof.Proof.NormRegion8
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal.Gen Cert.KernelIdeal.Regs
open Idealize.ShloMosaic Idealize.ShloMosaic.TcCoe Idealize.ShloMosaic.ValueIdx
open Idealize.ShloMosaic.Pipeline (Dat)

/-! ## The specification -/

/-- Batch-norm normalisation with its activation, entry by entry: row r, column q of the result from the same entry
    of `x` and column q of the four per-column rows. -/
def bnAct8 (x : S60000x64.Idx → EReal) (mu var g b : S1x64.Idx → EReal) : S60000x64.Idx → EReal :=
  fun j => Scalar.select (Ideal.cmp .oge ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))) 0) ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))) (Ideal.ofBits .f32 0x3C23D70A#32 * ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))))

theorem bnAct8_apply (x : S60000x64.Idx → EReal) (mu var g b : S1x64.Idx → EReal) (j : S60000x64.Idx) :
    bnAct8 x mu var g b j = Scalar.select (Ideal.cmp .oge ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))) 0) ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))) (Ideal.ofBits .f32 0x3C23D70A#32 * ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64)))) := rfl

/-! ## The body's stored value at an entry of a block -/

/-- The stored block at (p, q): the pointwise chain at entry (p, q) of the row block and column q of the four rows
    (the shape casts are identities, each row is repeated down the block, a splat constant reads its value). -/
theorem pay8_apply (x0 : Vec Ideal S3000x64 .f32) (x1 x2 x3 x4 : Vec Ideal S1x64 .f32) (p : Fin 3000) (q : Fin 64) :
    k8_pay1 (F := Ideal) x0 x1 x2 x3 x4 (ix2 p q) = Scalar.select (Ideal.cmp .oge ((x0 (ix2 p q) - x1 (ix2 (0 : Fin 1) q)) * Ideal.rsqrt (x2 (ix2 (0 : Fin 1) q) + Ideal.ofBits .f32 0x3727C5AC#32) * x3 (ix2 (0 : Fin 1) q) + x4 (ix2 (0 : Fin 1) q)) 0) ((x0 (ix2 p q) - x1 (ix2 (0 : Fin 1) q)) * Ideal.rsqrt (x2 (ix2 (0 : Fin 1) q) + Ideal.ofBits .f32 0x3727C5AC#32) * x3 (ix2 (0 : Fin 1) q) + x4 (ix2 (0 : Fin 1) q)) (Ideal.ofBits .f32 0x3C23D70A#32 * ((x0 (ix2 p q) - x1 (ix2 (0 : Fin 1) q)) * Ideal.rsqrt (x2 (ix2 (0 : Fin 1) q) + Ideal.ofBits .f32 0x3727C5AC#32) * x3 (ix2 (0 : Fin 1) q) + x4 (ix2 (0 : Fin 1) q))) := by
  unfold k8_pay1
  simp only [shapeCast_self]
  show Scalar.select (Ideal.cmp .oge _ (Ideal.ofBits .f32 0x00000000#32)) _ _ = _
  simp only [broadcastTo_1b_ab_apply, addf_apply, mulf_apply, subf_apply, broadcast_apply]
  rw [Ideal.ofBits_zero_f32]
  rfl

/-- The same at an index of the block not yet split into coordinates. -/
theorem pay8_at (x0 : Vec Ideal S3000x64 .f32) (x1 x2 x3 x4 : Vec Ideal S1x64 .f32) (y : S3000x64.Idx) :
    k8_pay1 (F := Ideal) x0 x1 x2 x3 x4 y = Scalar.select (Ideal.cmp .oge ((x0 (ix2 (y 0 : Fin 3000) (y 1 : Fin 64)) - x1 (ix2 (0 : Fin 1) (y 1 : Fin 64))) * Ideal.rsqrt (x2 (ix2 (0 : Fin 1) (y 1 : Fin 64)) + Ideal.ofBits .f32 0x3727C5AC#32) * x3 (ix2 (0 : Fin 1) (y 1 : Fin 64)) + x4 (ix2 (0 : Fin 1) (y 1 : Fin 64))) 0) ((x0 (ix2 (y 0 : Fin 3000) (y 1 : Fin 64)) - x1 (ix2 (0 : Fin 1) (y 1 : Fin 64))) * Ideal.rsqrt (x2 (ix2 (0 : Fin 1) (y 1 : Fin 64)) + Ideal.ofBits .f32 0x3727C5AC#32) * x3 (ix2 (0 : Fin 1) (y 1 : Fin 64)) + x4 (ix2 (0 : Fin 1) (y 1 : Fin 64))) (Ideal.ofBits .f32 0x3C23D70A#32 * ((x0 (ix2 (y 0 : Fin 3000) (y 1 : Fin 64)) - x1 (ix2 (0 : Fin 1) (y 1 : Fin 64))) * Ideal.rsqrt (x2 (ix2 (0 : Fin 1) (y 1 : Fin 64)) + Ideal.ofBits .f32 0x3727C5AC#32) * x3 (ix2 (0 : Fin 1) (y 1 : Fin 64)) + x4 (ix2 (0 : Fin 1) (y 1 : Fin 64)))) :=
  (congrArg (k8_pay1 (F := Ideal) x0 x1 x2 x3 x4) (eq_ix2 y)).trans (pay8_apply x0 x1 x2 x3 x4 (y 0) (y 1))

/-- An entry of the stored block is the entry `E` of the specification, once the row block is known to hold entry `E`
    of `x` there and each row block column `E 1` of its row. -/
theorem block_entry8 (x : S60000x64.Idx → EReal) (mu var g b : S1x64.Idx → EReal)
    (x0 : Vec Ideal S3000x64 .f32) (x1 x2 x3 x4 : Vec Ideal S1x64 .f32) (E : S60000x64.Idx) (y : S3000x64.Idx)
    (h0 : x0 (ix2 (y 0 : Fin 3000) (y 1 : Fin 64)) = x E)
    (h1 : x1 (ix2 (0 : Fin 1) (y 1 : Fin 64)) = mu (ix2 (0 : Fin 1) (E 1 : Fin 64)))
    (h2 : x2 (ix2 (0 : Fin 1) (y 1 : Fin 64)) = var (ix2 (0 : Fin 1) (E 1 : Fin 64)))
    (h3 : x3 (ix2 (0 : Fin 1) (y 1 : Fin 64)) = g (ix2 (0 : Fin 1) (E 1 : Fin 64)))
    (h4 : x4 (ix2 (0 : Fin 1) (y 1 : Fin 64)) = b (ix2 (0 : Fin 1) (E 1 : Fin 64))) :
    k8_pay1 (F := Ideal) x0 x1 x2 x3 x4 y = bnAct8 x mu var g b E := by
  rw [pay8_at, bnAct8_apply, h0, h1, h2, h3, h4]

/-! ## From blocks to the array -/

theorem hz8 : (![0, 0] : Fin 2 → Nat) = fun _ => 0 := funext fun a => by fin_cases a <;> rfl

/-- The block index maps, decided over the grid: at point t the row block and the output block sit at (t, 0), each
    of the four rows at (0, 0). -/
theorem idx_facts8 : ∀ t : Fin cfg8.N, win8_0.index t (0 : Fin 2) = win8_5.index t (0 : Fin 2)
    ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (1 : Fin 2) = 0
    ∧ win8_5.index t (0 : Fin 2) ≤ 19 :=
  (by decide +kernel : ∀ t : Fin grid8.N, _)

/-- Every block of the output is some point's. -/
theorem idx_onto8 : ∀ (q0 : Fin 20), ∃ t : Fin cfg8.N, win8_5.index t = ![q0.val, 0] :=
  (by decide +kernel : ∀ (q0 : Fin 20), ∃ t : Fin grid8.N, win8_5.index t = ![q0.val, 0])

section AtEntry
variable (V : (c : Dev nD) → (b : Ref sig .tc) → Buf (Elt Ideal) ((c : Thread nD τ).loc b))

set_option maxHeartbeats 1000000 in
/-- What point t writes back is block t of the specification at the five input arrays as the region finds them. -/
theorem flushed8_eq (c : Dev nD) (t : Fin cfg8.N) :
    (dat8 (F := Ideal) V c).flushed 5 t
      = ((cfg8.win 5).blk t).view.read (Elt Ideal) (bnAct8 (V c (Pipeline.arrRef spec8 0)) (V c (Pipeline.arrRef spec8 1)) (V c (Pipeline.arrRef spec8 2)) (V c (Pipeline.arrRef spec8 3)) (V c (Pipeline.arrRef spec8 4))) := by
  show (cfg8.win 5).cut (grid8.coords t) ((dat8 (F := Ideal) V c).after 5 t) = _
  rw [after8_5]
  unfold out8_5
  rw [View.canon_unit_zero hz8]
  simp only [View.ld_unit_zero (S := S3000x64) hz8, View.ld_unit_zero (S := S1x64) hz8]
  obtain ⟨e0, e1, e2, e3, e4, e5, e6, e7, e8, e9, e10, e11⟩ := idx_facts8 t
  funext y
  have hy0 : (y 0).val < 3000 := (y 0).isLt
  have hy1 : (y 1).val < 64 := (y 1).isLt
  refine block_entry8 (V c (Pipeline.arrRef spec8 0)) (V c (Pipeline.arrRef spec8 1)) (V c (Pipeline.arrRef spec8 2)) (V c (Pipeline.arrRef spec8 3)) (V c (Pipeline.arrRef spec8 4))
    (iblk8 V c 0 t) (iblk8 V c 1 t) (iblk8 V c 2 t) (iblk8 V c 3 t) (iblk8 V c 4 t)
    (((cfg8.win 5).blk t).view.emb y) y ?_ ?_ ?_ ?_ ?_
  · show V c (Pipeline.arrRef spec8 0) (((cfg8.win 0).blk t).view.emb (ix2 (y 0 : Fin 3000) (y 1 : Fin 64))) = _
    refine congrArg (V c (Pipeline.arrRef spec8 0)) ?_
    funext a; apply Fin.ext
    match a with
    | ⟨0, _⟩ => show win8_0.index t (0 : Fin 2) * 3000 + 1 * (y 0).val = win8_5.index t (0 : Fin 2) * 3000 + 1 * (y 0).val; omega
    | ⟨1, _⟩ => show win8_0.index t (1 : Fin 2) * 64 + 1 * (y 1).val = win8_5.index t (1 : Fin 2) * 64 + 1 * (y 1).val; omega
  · show V c (Pipeline.arrRef spec8 1) (((cfg8.win 1).blk t).view.emb (ix2 (0 : Fin 1) (y 1 : Fin 64))) = _
    refine congrArg (V c (Pipeline.arrRef spec8 1)) ?_
    funext a; apply Fin.ext
    match a with
    | ⟨0, _⟩ => show win8_1.index t (0 : Fin 2) * 1 + 1 * 0 = 0; omega
    | ⟨1, _⟩ => show win8_1.index t (1 : Fin 2) * 64 + 1 * (y 1).val = win8_5.index t (1 : Fin 2) * 64 + 1 * (y 1).val; omega
  · show V c (Pipeline.arrRef spec8 2) (((cfg8.win 2).blk t).view.emb (ix2 (0 : Fin 1) (y 1 : Fin 64))) = _
    refine congrArg (V c (Pipeline.arrRef spec8 2)) ?_
    funext a; apply Fin.ext
    match a with
    | ⟨0, _⟩ => show win8_2.index t (0 : Fin 2) * 1 + 1 * 0 = 0; omega
    | ⟨1, _⟩ => show win8_2.index t (1 : Fin 2) * 64 + 1 * (y 1).val = win8_5.index t (1 : Fin 2) * 64 + 1 * (y 1).val; omega
  · show V c (Pipeline.arrRef spec8 3) (((cfg8.win 3).blk t).view.emb (ix2 (0 : Fin 1) (y 1 : Fin 64))) = _
    refine congrArg (V c (Pipeline.arrRef spec8 3)) ?_
    funext a; apply Fin.ext
    match a with
    | ⟨0, _⟩ => show win8_3.index t (0 : Fin 2) * 1 + 1 * 0 = 0; omega
    | ⟨1, _⟩ => show win8_3.index t (1 : Fin 2) * 64 + 1 * (y 1).val = win8_5.index t (1 : Fin 2) * 64 + 1 * (y 1).val; omega
  · show V c (Pipeline.arrRef spec8 4) (((cfg8.win 4).blk t).view.emb (ix2 (0 : Fin 1) (y 1 : Fin 64))) = _
    refine congrArg (V c (Pipeline.arrRef spec8 4)) ?_
    funext a; apply Fin.ext
    match a with
    | ⟨0, _⟩ => show win8_4.index t (0 : Fin 2) * 1 + 1 * 0 = 0; omega
    | ⟨1, _⟩ => show win8_4.index t (1 : Fin 2) * 64 + 1 * (y 1).val = win8_5.index t (1 : Fin 2) * 64 + 1 * (y 1).val; omega

/-- An index of the output array is in point t's block iff each coordinate is in the block's range on its axis. -/
theorem mem_blk8 (t : Fin cfg8.N) (i : S60000x64.Idx) :
    i ∈ ((cfg8.win 5).blk t).view.set ↔ ∀ a : Fin 2, win8_5.index t a * S3000x64.size a ≤ (i a).val ∧ (i a).val < win8_5.index t a * S3000x64.size a + S3000x64.size a := by
  show i ∈ ((View.whole main_v41).slice (win8_5.rect t)).set ↔ _
  rw [View.set_slice_whole, Rect.mem_set_unit]
  exact Iff.rfl

/-- The output's blocks tile the array: row r is in the block of point r / 3000. -/
theorem cover8 (i : S60000x64.Idx) : ∃ t : Fin cfg8.N, (cfg8.win 5).flush t = true ∧ i ∈ ((cfg8.win 5).blk t).view.set := by
  have hi0 : (i 0).val < 60000 := (i 0).isLt
  have hi1 : (i 1).val < 64 := (i 1).isLt
  obtain ⟨t, ht⟩ := idx_onto8 ⟨(i 0).val / 3000, by omega⟩
  have q0 : win8_5.index t (0 : Fin 2) = (i 0).val / 3000 := congrFun ht 0
  have q1 : win8_5.index t (1 : Fin 2) = 0 := congrFun ht 1
  refine ⟨t, flush8_5 t, ?_⟩
  rw [mem_blk8]
  intro a
  match a with
  | ⟨0, _⟩ => show win8_5.index t (0 : Fin 2) * 3000 ≤ (i 0).val ∧ (i 0).val < win8_5.index t (0 : Fin 2) * 3000 + 3000; omega
  | ⟨1, _⟩ => show win8_5.index t (1 : Fin 2) * 64 ≤ (i 1).val ∧ (i 1).val < win8_5.index t (1 : Fin 2) * 64 + 64; omega

/-- The output array after the region: the specification at the five input arrays as the region found them. -/
theorem final8 (c : Dev nD) :
    (dat8 (F := Ideal) V c).arrAt 5 cfg8.N = bnAct8 (V c (Pipeline.arrRef spec8 0)) (V c (Pipeline.arrRef spec8 1)) (V c (Pipeline.arrRef spec8 2)) (V c (Pipeline.arrRef spec8 3)) (V c (Pipeline.arrRef spec8 4)) :=
  (dat8 (F := Ideal) V c).arrAt_eq_of_cover 5 (bnAct8 (V c (Pipeline.arrRef spec8 0)) (V c (Pipeline.arrRef spec8 1)) (V c (Pipeline.arrRef spec8 2)) (V c (Pipeline.arrRef spec8 3)) (V c (Pipeline.arrRef spec8 4)))
    (fun t _ => flushed8_eq V c t) (fun i => cover8 i)

end AtEntry

end Cert.KernelIdeal.Vals
-- ==== Proof.NormValue11.lean ====
/-
  The value of region 11 of @main over the extended reals: once every block has been written back, the output array is

      out[r, q] = act ((x[r, q] − mean[0, q]) · rsqrt (var[0, q] + ε) · gamma[0, q] + beta[0, q]),

  x the [60000, 1] input array and mean, var, gamma, beta the four [1, 1] rows as the region found them, ε the
  literal 0x3727C5AC, act the leaky rectifier: y itself where y ≥ 0, the slope 0.01 (as its nearest float) times y elsewhere.

  The body is pointwise in the row block and reads the four rows through a row broadcast, so the entry (p, q) of the
  block stored at a grid point depends only on entry (p, q) of the row block and on column q of the four rows. Point t
  stages rows t·3000 … t·3000 + 2999 of x and of the output and the whole of each row array; the 20 blocks tile
  the output, so the array is that one function everywhere.
-/
import proofs.«180908_j8211977470570_1_alg».proof.Proof.NormRegion11
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal.Gen Cert.KernelIdeal.Regs
open Idealize.ShloMosaic Idealize.ShloMosaic.TcCoe Idealize.ShloMosaic.ValueIdx
open Idealize.ShloMosaic.Pipeline (Dat)

/-! ## The specification -/

/-- Batch-norm normalisation with its activation, entry by entry: row r, column q of the result from the same entry
    of `x` and column q of the four per-column rows. -/
def bnAct11 (x : S60000x1.Idx → EReal) (mu var g b : S1x1.Idx → EReal) : S60000x1.Idx → EReal :=
  fun j => Scalar.select (Ideal.cmp .oge ((x j - mu (ix2 (0 : Fin 1) (j 1 : Fin 1))) * Ideal.rsqrt (var (ix2 (0 : Fin 1) (j 1 : Fin 1)) + Ideal.ofBits .f32 0x3727C5AC#32) * g (ix2 (0 : Fin 1) (j 1 : Fin 1)) + b (ix2 (0 : Fin 1) (j 1 : Fin 1))) 0) ((x j - mu (ix2 (0 : Fin 1) (j 1 : Fin 1))) * Ideal.rsqrt (var (ix2 (0 : Fin 1) (j 1 : Fin 1)) + Ideal.ofBits .f32 0x3727C5AC#32) * g (ix2 (0 : Fin 1) (j 1 : Fin 1)) + b (ix2 (0 : Fin 1) (j 1 : Fin 1))) (Ideal.ofBits .f32 0x3C23D70A#32 * ((x j - mu (ix2 (0 : Fin 1) (j 1 : Fin 1))) * Ideal.rsqrt (var (ix2 (0 : Fin 1) (j 1 : Fin 1)) + Ideal.ofBits .f32 0x3727C5AC#32) * g (ix2 (0 : Fin 1) (j 1 : Fin 1)) + b (ix2 (0 : Fin 1) (j 1 : Fin 1))))

theorem bnAct11_apply (x : S60000x1.Idx → EReal) (mu var g b : S1x1.Idx → EReal) (j : S60000x1.Idx) :
    bnAct11 x mu var g b j = Scalar.select (Ideal.cmp .oge ((x j - mu (ix2 (0 : Fin 1) (j 1 : Fin 1))) * Ideal.rsqrt (var (ix2 (0 : Fin 1) (j 1 : Fin 1)) + Ideal.ofBits .f32 0x3727C5AC#32) * g (ix2 (0 : Fin 1) (j 1 : Fin 1)) + b (ix2 (0 : Fin 1) (j 1 : Fin 1))) 0) ((x j - mu (ix2 (0 : Fin 1) (j 1 : Fin 1))) * Ideal.rsqrt (var (ix2 (0 : Fin 1) (j 1 : Fin 1)) + Ideal.ofBits .f32 0x3727C5AC#32) * g (ix2 (0 : Fin 1) (j 1 : Fin 1)) + b (ix2 (0 : Fin 1) (j 1 : Fin 1))) (Ideal.ofBits .f32 0x3C23D70A#32 * ((x j - mu (ix2 (0 : Fin 1) (j 1 : Fin 1))) * Ideal.rsqrt (var (ix2 (0 : Fin 1) (j 1 : Fin 1)) + Ideal.ofBits .f32 0x3727C5AC#32) * g (ix2 (0 : Fin 1) (j 1 : Fin 1)) + b (ix2 (0 : Fin 1) (j 1 : Fin 1)))) := rfl

/-! ## The body's stored value at an entry of a block -/

/-- The stored block at (p, q): the pointwise chain at entry (p, q) of the row block and column q of the four rows
    (the shape casts are identities, each row is repeated down the block, a splat constant reads its value). -/
theorem pay11_apply (x0 : Vec Ideal S3000x1 .f32) (x1 x2 x3 x4 : Vec Ideal S1x1 .f32) (p : Fin 3000) (q : Fin 1) :
    k11_pay1 (F := Ideal) x0 x1 x2 x3 x4 (ix2 p q) = Scalar.select (Ideal.cmp .oge ((x0 (ix2 p q) - x1 (ix2 (0 : Fin 1) q)) * Ideal.rsqrt (x2 (ix2 (0 : Fin 1) q) + Ideal.ofBits .f32 0x3727C5AC#32) * x3 (ix2 (0 : Fin 1) q) + x4 (ix2 (0 : Fin 1) q)) 0) ((x0 (ix2 p q) - x1 (ix2 (0 : Fin 1) q)) * Ideal.rsqrt (x2 (ix2 (0 : Fin 1) q) + Ideal.ofBits .f32 0x3727C5AC#32) * x3 (ix2 (0 : Fin 1) q) + x4 (ix2 (0 : Fin 1) q)) (Ideal.ofBits .f32 0x3C23D70A#32 * ((x0 (ix2 p q) - x1 (ix2 (0 : Fin 1) q)) * Ideal.rsqrt (x2 (ix2 (0 : Fin 1) q) + Ideal.ofBits .f32 0x3727C5AC#32) * x3 (ix2 (0 : Fin 1) q) + x4 (ix2 (0 : Fin 1) q))) := by
  unfold k11_pay1
  simp only [shapeCast_self]
  show Scalar.select (Ideal.cmp .oge _ (Ideal.ofBits .f32 0x00000000#32)) _ _ = _
  simp only [broadcastTo_1b_ab_apply, addf_apply, mulf_apply, subf_apply, broadcast_apply]
  rw [Ideal.ofBits_zero_f32]
  rfl

/-- The same at an index of the block not yet split into coordinates. -/
theorem pay11_at (x0 : Vec Ideal S3000x1 .f32) (x1 x2 x3 x4 : Vec Ideal S1x1 .f32) (y : S3000x1.Idx) :
    k11_pay1 (F := Ideal) x0 x1 x2 x3 x4 y = Scalar.select (Ideal.cmp .oge ((x0 (ix2 (y 0 : Fin 3000) (y 1 : Fin 1)) - x1 (ix2 (0 : Fin 1) (y 1 : Fin 1))) * Ideal.rsqrt (x2 (ix2 (0 : Fin 1) (y 1 : Fin 1)) + Ideal.ofBits .f32 0x3727C5AC#32) * x3 (ix2 (0 : Fin 1) (y 1 : Fin 1)) + x4 (ix2 (0 : Fin 1) (y 1 : Fin 1))) 0) ((x0 (ix2 (y 0 : Fin 3000) (y 1 : Fin 1)) - x1 (ix2 (0 : Fin 1) (y 1 : Fin 1))) * Ideal.rsqrt (x2 (ix2 (0 : Fin 1) (y 1 : Fin 1)) + Ideal.ofBits .f32 0x3727C5AC#32) * x3 (ix2 (0 : Fin 1) (y 1 : Fin 1)) + x4 (ix2 (0 : Fin 1) (y 1 : Fin 1))) (Ideal.ofBits .f32 0x3C23D70A#32 * ((x0 (ix2 (y 0 : Fin 3000) (y 1 : Fin 1)) - x1 (ix2 (0 : Fin 1) (y 1 : Fin 1))) * Ideal.rsqrt (x2 (ix2 (0 : Fin 1) (y 1 : Fin 1)) + Ideal.ofBits .f32 0x3727C5AC#32) * x3 (ix2 (0 : Fin 1) (y 1 : Fin 1)) + x4 (ix2 (0 : Fin 1) (y 1 : Fin 1)))) :=
  (congrArg (k11_pay1 (F := Ideal) x0 x1 x2 x3 x4) (eq_ix2 y)).trans (pay11_apply x0 x1 x2 x3 x4 (y 0) (y 1))

/-- An entry of the stored block is the entry `E` of the specification, once the row block is known to hold entry `E`
    of `x` there and each row block column `E 1` of its row. -/
theorem block_entry11 (x : S60000x1.Idx → EReal) (mu var g b : S1x1.Idx → EReal)
    (x0 : Vec Ideal S3000x1 .f32) (x1 x2 x3 x4 : Vec Ideal S1x1 .f32) (E : S60000x1.Idx) (y : S3000x1.Idx)
    (h0 : x0 (ix2 (y 0 : Fin 3000) (y 1 : Fin 1)) = x E)
    (h1 : x1 (ix2 (0 : Fin 1) (y 1 : Fin 1)) = mu (ix2 (0 : Fin 1) (E 1 : Fin 1)))
    (h2 : x2 (ix2 (0 : Fin 1) (y 1 : Fin 1)) = var (ix2 (0 : Fin 1) (E 1 : Fin 1)))
    (h3 : x3 (ix2 (0 : Fin 1) (y 1 : Fin 1)) = g (ix2 (0 : Fin 1) (E 1 : Fin 1)))
    (h4 : x4 (ix2 (0 : Fin 1) (y 1 : Fin 1)) = b (ix2 (0 : Fin 1) (E 1 : Fin 1))) :
    k11_pay1 (F := Ideal) x0 x1 x2 x3 x4 y = bnAct11 x mu var g b E := by
  rw [pay11_at, bnAct11_apply, h0, h1, h2, h3, h4]

/-! ## From blocks to the array -/

theorem hz11 : (![0, 0] : Fin 2 → Nat) = fun _ => 0 := funext fun a => by fin_cases a <;> rfl

/-- The block index maps, decided over the grid: at point t the row block and the output block sit at (t, 0), each
    of the four rows at (0, 0). -/
theorem idx_facts11 : ∀ t : Fin cfg11.N, win11_0.index t (0 : Fin 2) = win11_5.index t (0 : Fin 2)
    ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (1 : Fin 2) = 0
    ∧ win11_5.index t (0 : Fin 2) ≤ 19 :=
  (by decide +kernel : ∀ t : Fin grid11.N, _)

/-- Every block of the output is some point's. -/
theorem idx_onto11 : ∀ (q0 : Fin 20), ∃ t : Fin cfg11.N, win11_5.index t = ![q0.val, 0] :=
  (by decide +kernel : ∀ (q0 : Fin 20), ∃ t : Fin grid11.N, win11_5.index t = ![q0.val, 0])

section AtEntry
variable (V : (c : Dev nD) → (b : Ref sig .tc) → Buf (Elt Ideal) ((c : Thread nD τ).loc b))

set_option maxHeartbeats 1000000 in
/-- What point t writes back is block t of the specification at the five input arrays as the region finds them. -/
theorem flushed11_eq (c : Dev nD) (t : Fin cfg11.N) :
    (dat11 (F := Ideal) V c).flushed 5 t
      = ((cfg11.win 5).blk t).view.read (Elt Ideal) (bnAct11 (V c (Pipeline.arrRef spec11 0)) (V c (Pipeline.arrRef spec11 1)) (V c (Pipeline.arrRef spec11 2)) (V c (Pipeline.arrRef spec11 3)) (V c (Pipeline.arrRef spec11 4))) := by
  show (cfg11.win 5).cut (grid11.coords t) ((dat11 (F := Ideal) V c).after 5 t) = _
  rw [after11_5]
  unfold out11_5
  rw [View.canon_unit_zero hz11]
  simp only [View.ld_unit_zero (S := S3000x1) hz11, View.ld_unit_zero (S := S1x1) hz11]
  obtain ⟨e0, e1, e2, e3, e4, e5, e6, e7, e8, e9, e10, e11⟩ := idx_facts11 t
  funext y
  have hy0 : (y 0).val < 3000 := (y 0).isLt
  have hy1 : (y 1).val < 1 := (y 1).isLt
  refine block_entry11 (V c (Pipeline.arrRef spec11 0)) (V c (Pipeline.arrRef spec11 1)) (V c (Pipeline.arrRef spec11 2)) (V c (Pipeline.arrRef spec11 3)) (V c (Pipeline.arrRef spec11 4))
    (iblk11 V c 0 t) (iblk11 V c 1 t) (iblk11 V c 2 t) (iblk11 V c 3 t) (iblk11 V c 4 t)
    (((cfg11.win 5).blk t).view.emb y) y ?_ ?_ ?_ ?_ ?_
  · show V c (Pipeline.arrRef spec11 0) (((cfg11.win 0).blk t).view.emb (ix2 (y 0 : Fin 3000) (y 1 : Fin 1))) = _
    refine congrArg (V c (Pipeline.arrRef spec11 0)) ?_
    funext a; apply Fin.ext
    match a with
    | ⟨0, _⟩ => show win11_0.index t (0 : Fin 2) * 3000 + 1 * (y 0).val = win11_5.index t (0 : Fin 2) * 3000 + 1 * (y 0).val; omega
    | ⟨1, _⟩ => show win11_0.index t (1 : Fin 2) * 1 + 1 * (y 1).val = win11_5.index t (1 : Fin 2) * 1 + 1 * (y 1).val; omega
  · show V c (Pipeline.arrRef spec11 1) (((cfg11.win 1).blk t).view.emb (ix2 (0 : Fin 1) (y 1 : Fin 1))) = _
    refine congrArg (V c (Pipeline.arrRef spec11 1)) ?_
    funext a; apply Fin.ext
    match a with
    | ⟨0, _⟩ => show win11_1.index t (0 : Fin 2) * 1 + 1 * 0 = 0; omega
    | ⟨1, _⟩ => show win11_1.index t (1 : Fin 2) * 1 + 1 * (y 1).val = win11_5.index t (1 : Fin 2) * 1 + 1 * (y 1).val; omega
  · show V c (Pipeline.arrRef spec11 2) (((cfg11.win 2).blk t).view.emb (ix2 (0 : Fin 1) (y 1 : Fin 1))) = _
    refine congrArg (V c (Pipeline.arrRef spec11 2)) ?_
    funext a; apply Fin.ext
    match a with
    | ⟨0, _⟩ => show win11_2.index t (0 : Fin 2) * 1 + 1 * 0 = 0; omega
    | ⟨1, _⟩ => show win11_2.index t (1 : Fin 2) * 1 + 1 * (y 1).val = win11_5.index t (1 : Fin 2) * 1 + 1 * (y 1).val; omega
  · show V c (Pipeline.arrRef spec11 3) (((cfg11.win 3).blk t).view.emb (ix2 (0 : Fin 1) (y 1 : Fin 1))) = _
    refine congrArg (V c (Pipeline.arrRef spec11 3)) ?_
    funext a; apply Fin.ext
    match a with
    | ⟨0, _⟩ => show win11_3.index t (0 : Fin 2) * 1 + 1 * 0 = 0; omega
    | ⟨1, _⟩ => show win11_3.index t (1 : Fin 2) * 1 + 1 * (y 1).val = win11_5.index t (1 : Fin 2) * 1 + 1 * (y 1).val; omega
  · show V c (Pipeline.arrRef spec11 4) (((cfg11.win 4).blk t).view.emb (ix2 (0 : Fin 1) (y 1 : Fin 1))) = _
    refine congrArg (V c (Pipeline.arrRef spec11 4)) ?_
    funext a; apply Fin.ext
    match a with
    | ⟨0, _⟩ => show win11_4.index t (0 : Fin 2) * 1 + 1 * 0 = 0; omega
    | ⟨1, _⟩ => show win11_4.index t (1 : Fin 2) * 1 + 1 * (y 1).val = win11_5.index t (1 : Fin 2) * 1 + 1 * (y 1).val; omega

/-- An index of the output array is in point t's block iff each coordinate is in the block's range on its axis. -/
theorem mem_blk11 (t : Fin cfg11.N) (i : S60000x1.Idx) :
    i ∈ ((cfg11.win 5).blk t).view.set ↔ ∀ a : Fin 2, win11_5.index t a * S3000x1.size a ≤ (i a).val ∧ (i a).val < win11_5.index t a * S3000x1.size a + S3000x1.size a := by
  show i ∈ ((View.whole main_v53).slice (win11_5.rect t)).set ↔ _
  rw [View.set_slice_whole, Rect.mem_set_unit]
  exact Iff.rfl

/-- The output's blocks tile the array: row r is in the block of point r / 3000. -/
theorem cover11 (i : S60000x1.Idx) : ∃ t : Fin cfg11.N, (cfg11.win 5).flush t = true ∧ i ∈ ((cfg11.win 5).blk t).view.set := by
  have hi0 : (i 0).val < 60000 := (i 0).isLt
  have hi1 : (i 1).val < 1 := (i 1).isLt
  obtain ⟨t, ht⟩ := idx_onto11 ⟨(i 0).val / 3000, by omega⟩
  have q0 : win11_5.index t (0 : Fin 2) = (i 0).val / 3000 := congrFun ht 0
  have q1 : win11_5.index t (1 : Fin 2) = 0 := congrFun ht 1
  refine ⟨t, flush11_5 t, ?_⟩
  rw [mem_blk11]
  intro a
  match a with
  | ⟨0, _⟩ => show win11_5.index t (0 : Fin 2) * 3000 ≤ (i 0).val ∧ (i 0).val < win11_5.index t (0 : Fin 2) * 3000 + 3000; omega
  | ⟨1, _⟩ => show win11_5.index t (1 : Fin 2) * 1 ≤ (i 1).val ∧ (i 1).val < win11_5.index t (1 : Fin 2) * 1 + 1; omega

/-- The output array after the region: the specification at the five input arrays as the region found them. -/
theorem final11 (c : Dev nD) :
    (dat11 (F := Ideal) V c).arrAt 5 cfg11.N = bnAct11 (V c (Pipeline.arrRef spec11 0)) (V c (Pipeline.arrRef spec11 1)) (V c (Pipeline.arrRef spec11 2)) (V c (Pipeline.arrRef spec11 3)) (V c (Pipeline.arrRef spec11 4)) :=
  (dat11 (F := Ideal) V c).arrAt_eq_of_cover 5 (bnAct11 (V c (Pipeline.arrRef spec11 0)) (V c (Pipeline.arrRef spec11 1)) (V c (Pipeline.arrRef spec11 2)) (V c (Pipeline.arrRef spec11 3)) (V c (Pipeline.arrRef spec11 4)))
    (fun t _ => flushed11_eq V c t) (fun i => cover11 i)

end AtEntry

end Cert.KernelIdeal.Vals
-- ==== Proof.NormValue14.lean ====
/-
  The value of region 14 of @main over the extended reals: once every block has been written back, the output array is

      out[r, q] = act ((x[r, q] − mean[0, q]) · rsqrt (var[0, q] + ε) · gamma[0, q] + beta[0, q]),

  x the [200000, 64] input array and mean, var, gamma, beta the four [1, 64] rows as the region found them, ε the
  literal 0x3727C5AC, act the logistic function 1 / (1 + exp (−y)).

  The body is pointwise in the row block and reads the four rows through a row broadcast, so the entry (p, q) of the
  block stored at a grid point depends only on entry (p, q) of the row block and on column q of the four rows. Point t
  stages rows t·10000 … t·10000 + 9999 of x and of the output and the whole of each row array; the 20 blocks tile
  the output, so the array is that one function everywhere.
-/
import proofs.«180908_j8211977470570_1_alg».proof.Proof.NormRegion14
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Vals

open Cert.KernelIdeal.Gen Cert.KernelIdeal.Regs
open Idealize.ShloMosaic Idealize.ShloMosaic.TcCoe Idealize.ShloMosaic.ValueIdx
open Idealize.ShloMosaic.Pipeline (Dat)

/-! ## The specification -/

/-- Batch-norm normalisation with its activation, entry by entry: row r, column q of the result from the same entry
    of `x` and column q of the four per-column rows. -/
def bnAct14 (x : S200000x64.Idx → EReal) (mu var g b : S1x64.Idx → EReal) : S200000x64.Idx → EReal :=
  fun j => Ideal.logistic ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64)))

theorem bnAct14_apply (x : S200000x64.Idx → EReal) (mu var g b : S1x64.Idx → EReal) (j : S200000x64.Idx) :
    bnAct14 x mu var g b j = Ideal.logistic ((x j - mu (ix2 (0 : Fin 1) (j 1 : Fin 64))) * Ideal.rsqrt (var (ix2 (0 : Fin 1) (j 1 : Fin 64)) + Ideal.ofBits .f32 0x3727C5AC#32) * g (ix2 (0 : Fin 1) (j 1 : Fin 64)) + b (ix2 (0 : Fin 1) (j 1 : Fin 64))) := rfl

/-! ## The body's stored value at an entry of a block -/

/-- The stored block at (p, q): the pointwise chain at entry (p, q) of the row block and column q of the four rows
    (the shape casts are identities, each row is repeated down the block, a splat constant reads its value). -/
theorem pay14_apply (x0 : Vec Ideal S10000x64 .f32) (x1 x2 x3 x4 : Vec Ideal S1x64 .f32) (p : Fin 10000) (q : Fin 64) :
    k14_pay1 (F := Ideal) x0 x1 x2 x3 x4 (ix2 p q) = Ideal.logistic ((x0 (ix2 p q) - x1 (ix2 (0 : Fin 1) q)) * Ideal.rsqrt (x2 (ix2 (0 : Fin 1) q) + Ideal.ofBits .f32 0x3727C5AC#32) * x3 (ix2 (0 : Fin 1) q) + x4 (ix2 (0 : Fin 1) q)) := by
  unfold k14_pay1
  simp only [shapeCast_self]
  show Ideal.logistic _ = _
  simp only [broadcastTo_1b_ab_apply, addf_apply, mulf_apply, subf_apply, broadcast_apply]
  rfl

/-- The same at an index of the block not yet split into coordinates. -/
theorem pay14_at (x0 : Vec Ideal S10000x64 .f32) (x1 x2 x3 x4 : Vec Ideal S1x64 .f32) (y : S10000x64.Idx) :
    k14_pay1 (F := Ideal) x0 x1 x2 x3 x4 y = Ideal.logistic ((x0 (ix2 (y 0 : Fin 10000) (y 1 : Fin 64)) - x1 (ix2 (0 : Fin 1) (y 1 : Fin 64))) * Ideal.rsqrt (x2 (ix2 (0 : Fin 1) (y 1 : Fin 64)) + Ideal.ofBits .f32 0x3727C5AC#32) * x3 (ix2 (0 : Fin 1) (y 1 : Fin 64)) + x4 (ix2 (0 : Fin 1) (y 1 : Fin 64))) :=
  (congrArg (k14_pay1 (F := Ideal) x0 x1 x2 x3 x4) (eq_ix2 y)).trans (pay14_apply x0 x1 x2 x3 x4 (y 0) (y 1))

/-- An entry of the stored block is the entry `E` of the specification, once the row block is known to hold entry `E`
    of `x` there and each row block column `E 1` of its row. -/
theorem block_entry14 (x : S200000x64.Idx → EReal) (mu var g b : S1x64.Idx → EReal)
    (x0 : Vec Ideal S10000x64 .f32) (x1 x2 x3 x4 : Vec Ideal S1x64 .f32) (E : S200000x64.Idx) (y : S10000x64.Idx)
    (h0 : x0 (ix2 (y 0 : Fin 10000) (y 1 : Fin 64)) = x E)
    (h1 : x1 (ix2 (0 : Fin 1) (y 1 : Fin 64)) = mu (ix2 (0 : Fin 1) (E 1 : Fin 64)))
    (h2 : x2 (ix2 (0 : Fin 1) (y 1 : Fin 64)) = var (ix2 (0 : Fin 1) (E 1 : Fin 64)))
    (h3 : x3 (ix2 (0 : Fin 1) (y 1 : Fin 64)) = g (ix2 (0 : Fin 1) (E 1 : Fin 64)))
    (h4 : x4 (ix2 (0 : Fin 1) (y 1 : Fin 64)) = b (ix2 (0 : Fin 1) (E 1 : Fin 64))) :
    k14_pay1 (F := Ideal) x0 x1 x2 x3 x4 y = bnAct14 x mu var g b E := by
  rw [pay14_at, bnAct14_apply, h0, h1, h2, h3, h4]

/-! ## From blocks to the array -/

theorem hz14 : (![0, 0] : Fin 2 → Nat) = fun _ => 0 := funext fun a => by fin_cases a <;> rfl

/-- The block index maps, decided over the grid: at point t the row block and the output block sit at (t, 0), each
    of the four rows at (0, 0). -/
theorem idx_facts14 : ∀ t : Fin cfg14.N, win14_0.index t (0 : Fin 2) = win14_5.index t (0 : Fin 2)
    ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (1 : Fin 2) = 0
    ∧ win14_5.index t (0 : Fin 2) ≤ 19 :=
  (by decide +kernel : ∀ t : Fin grid14.N, _)

/-- Every block of the output is some point's. -/
theorem idx_onto14 : ∀ (q0 : Fin 20), ∃ t : Fin cfg14.N, win14_5.index t = ![q0.val, 0] :=
  (by decide +kernel : ∀ (q0 : Fin 20), ∃ t : Fin grid14.N, win14_5.index t = ![q0.val, 0])

section AtEntry
variable (V : (c : Dev nD) → (b : Ref sig .tc) → Buf (Elt Ideal) ((c : Thread nD τ).loc b))

set_option maxHeartbeats 1000000 in
/-- What point t writes back is block t of the specification at the five input arrays as the region finds them. -/
theorem flushed14_eq (c : Dev nD) (t : Fin cfg14.N) :
    (dat14 (F := Ideal) V c).flushed 5 t
      = ((cfg14.win 5).blk t).view.read (Elt Ideal) (bnAct14 (V c (Pipeline.arrRef spec14 0)) (V c (Pipeline.arrRef spec14 1)) (V c (Pipeline.arrRef spec14 2)) (V c (Pipeline.arrRef spec14 3)) (V c (Pipeline.arrRef spec14 4))) := by
  show (cfg14.win 5).cut (grid14.coords t) ((dat14 (F := Ideal) V c).after 5 t) = _
  rw [after14_5]
  unfold out14_5
  rw [View.canon_unit_zero hz14]
  simp only [View.ld_unit_zero (S := S10000x64) hz14, View.ld_unit_zero (S := S1x64) hz14]
  obtain ⟨e0, e1, e2, e3, e4, e5, e6, e7, e8, e9, e10, e11⟩ := idx_facts14 t
  funext y
  have hy0 : (y 0).val < 10000 := (y 0).isLt
  have hy1 : (y 1).val < 64 := (y 1).isLt
  refine block_entry14 (V c (Pipeline.arrRef spec14 0)) (V c (Pipeline.arrRef spec14 1)) (V c (Pipeline.arrRef spec14 2)) (V c (Pipeline.arrRef spec14 3)) (V c (Pipeline.arrRef spec14 4))
    (iblk14 V c 0 t) (iblk14 V c 1 t) (iblk14 V c 2 t) (iblk14 V c 3 t) (iblk14 V c 4 t)
    (((cfg14.win 5).blk t).view.emb y) y ?_ ?_ ?_ ?_ ?_
  · show V c (Pipeline.arrRef spec14 0) (((cfg14.win 0).blk t).view.emb (ix2 (y 0 : Fin 10000) (y 1 : Fin 64))) = _
    refine congrArg (V c (Pipeline.arrRef spec14 0)) ?_
    funext a; apply Fin.ext
    match a with
    | ⟨0, _⟩ => show win14_0.index t (0 : Fin 2) * 10000 + 1 * (y 0).val = win14_5.index t (0 : Fin 2) * 10000 + 1 * (y 0).val; omega
    | ⟨1, _⟩ => show win14_0.index t (1 : Fin 2) * 64 + 1 * (y 1).val = win14_5.index t (1 : Fin 2) * 64 + 1 * (y 1).val; omega
  · show V c (Pipeline.arrRef spec14 1) (((cfg14.win 1).blk t).view.emb (ix2 (0 : Fin 1) (y 1 : Fin 64))) = _
    refine congrArg (V c (Pipeline.arrRef spec14 1)) ?_
    funext a; apply Fin.ext
    match a with
    | ⟨0, _⟩ => show win14_1.index t (0 : Fin 2) * 1 + 1 * 0 = 0; omega
    | ⟨1, _⟩ => show win14_1.index t (1 : Fin 2) * 64 + 1 * (y 1).val = win14_5.index t (1 : Fin 2) * 64 + 1 * (y 1).val; omega
  · show V c (Pipeline.arrRef spec14 2) (((cfg14.win 2).blk t).view.emb (ix2 (0 : Fin 1) (y 1 : Fin 64))) = _
    refine congrArg (V c (Pipeline.arrRef spec14 2)) ?_
    funext a; apply Fin.ext
    match a with
    | ⟨0, _⟩ => show win14_2.index t (0 : Fin 2) * 1 + 1 * 0 = 0; omega
    | ⟨1, _⟩ => show win14_2.index t (1 : Fin 2) * 64 + 1 * (y 1).val = win14_5.index t (1 : Fin 2) * 64 + 1 * (y 1).val; omega
  · show V c (Pipeline.arrRef spec14 3) (((cfg14.win 3).blk t).view.emb (ix2 (0 : Fin 1) (y 1 : Fin 64))) = _
    refine congrArg (V c (Pipeline.arrRef spec14 3)) ?_
    funext a; apply Fin.ext
    match a with
    | ⟨0, _⟩ => show win14_3.index t (0 : Fin 2) * 1 + 1 * 0 = 0; omega
    | ⟨1, _⟩ => show win14_3.index t (1 : Fin 2) * 64 + 1 * (y 1).val = win14_5.index t (1 : Fin 2) * 64 + 1 * (y 1).val; omega
  · show V c (Pipeline.arrRef spec14 4) (((cfg14.win 4).blk t).view.emb (ix2 (0 : Fin 1) (y 1 : Fin 64))) = _
    refine congrArg (V c (Pipeline.arrRef spec14 4)) ?_
    funext a; apply Fin.ext
    match a with
    | ⟨0, _⟩ => show win14_4.index t (0 : Fin 2) * 1 + 1 * 0 = 0; omega
    | ⟨1, _⟩ => show win14_4.index t (1 : Fin 2) * 64 + 1 * (y 1).val = win14_5.index t (1 : Fin 2) * 64 + 1 * (y 1).val; omega

/-- An index of the output array is in point t's block iff each coordinate is in the block's range on its axis. -/
theorem mem_blk14 (t : Fin cfg14.N) (i : S200000x64.Idx) :
    i ∈ ((cfg14.win 5).blk t).view.set ↔ ∀ a : Fin 2, win14_5.index t a * S10000x64.size a ≤ (i a).val ∧ (i a).val < win14_5.index t a * S10000x64.size a + S10000x64.size a := by
  show i ∈ ((View.whole main_v67).slice (win14_5.rect t)).set ↔ _
  rw [View.set_slice_whole, Rect.mem_set_unit]
  exact Iff.rfl

/-- The output's blocks tile the array: row r is in the block of point r / 10000. -/
theorem cover14 (i : S200000x64.Idx) : ∃ t : Fin cfg14.N, (cfg14.win 5).flush t = true ∧ i ∈ ((cfg14.win 5).blk t).view.set := by
  have hi0 : (i 0).val < 200000 := (i 0).isLt
  have hi1 : (i 1).val < 64 := (i 1).isLt
  obtain ⟨t, ht⟩ := idx_onto14 ⟨(i 0).val / 10000, by omega⟩
  have q0 : win14_5.index t (0 : Fin 2) = (i 0).val / 10000 := congrFun ht 0
  have q1 : win14_5.index t (1 : Fin 2) = 0 := congrFun ht 1
  refine ⟨t, flush14_5 t, ?_⟩
  rw [mem_blk14]
  intro a
  match a with
  | ⟨0, _⟩ => show win14_5.index t (0 : Fin 2) * 10000 ≤ (i 0).val ∧ (i 0).val < win14_5.index t (0 : Fin 2) * 10000 + 10000; omega
  | ⟨1, _⟩ => show win14_5.index t (1 : Fin 2) * 64 ≤ (i 1).val ∧ (i 1).val < win14_5.index t (1 : Fin 2) * 64 + 64; omega

/-- The output array after the region: the specification at the five input arrays as the region found them. -/
theorem final14 (c : Dev nD) :
    (dat14 (F := Ideal) V c).arrAt 5 cfg14.N = bnAct14 (V c (Pipeline.arrRef spec14 0)) (V c (Pipeline.arrRef spec14 1)) (V c (Pipeline.arrRef spec14 2)) (V c (Pipeline.arrRef spec14 3)) (V c (Pipeline.arrRef spec14 4)) :=
  (dat14 (F := Ideal) V c).arrAt_eq_of_cover 5 (bnAct14 (V c (Pipeline.arrRef spec14 0)) (V c (Pipeline.arrRef spec14 1)) (V c (Pipeline.arrRef spec14 2)) (V c (Pipeline.arrRef spec14 3)) (V c (Pipeline.arrRef spec14 4)))
    (fun t _ => flushed14_eq V c t) (fun i => cover14 i)

end AtEntry

end Cert.KernelIdeal.Vals
-- ==== Proof.KernelSteps.lean ====
/- The kernel program, region by region, over the extended reals: what each region leaves in its output array as a
   function of what its operand arrays held when it was entered.  A product region leaves the batched matrix
   product of its two operands; a normalise region leaves the normalised and activated rows of its first operand,
   from the mean, the variance, the scale and the shift it is handed. -/
import proofs.«180908_j8211977470570_1_alg».proof.Proof.AssemblyIdeal
import proofs.«180908_j8211977470570_1_alg».proof.Proof.MatmulValue0
import proofs.«180908_j8211977470570_1_alg».proof.Proof.MatmulValue3
import proofs.«180908_j8211977470570_1_alg».proof.Proof.MatmulValue6
import proofs.«180908_j8211977470570_1_alg».proof.Proof.MatmulValue9
import proofs.«180908_j8211977470570_1_alg».proof.Proof.MatmulValue12
import proofs.«180908_j8211977470570_1_alg».proof.Proof.NormValue2
import proofs.«180908_j8211977470570_1_alg».proof.Proof.NormValue5
import proofs.«180908_j8211977470570_1_alg».proof.Proof.NormValue8
import proofs.«180908_j8211977470570_1_alg».proof.Proof.NormValue11
import proofs.«180908_j8211977470570_1_alg».proof.Proof.NormValue14

set_option maxRecDepth 16384

noncomputable section

namespace Cert.KernelIdeal.Chain

open Cert.KernelIdeal Cert.KernelIdeal.Gen Cert.KernelIdeal.Regs Cert.KernelIdeal.Vals
open Idealize.ShloMosaic Idealize.ShloMosaic.TcCoe

variable (m : (ℓ : Loc nD τ sig) → Buf (Elt Ideal) ℓ)

set_option maxHeartbeats 1000000 in
/-- Region 0: `main_v1` after it, from `main_v0`, `main_arg6` before it. -/
theorem step0 (c : Dev nD) :
    W2 m c (Proc.devRef .tc main_v1) = mm0 (W1 m c (Proc.devRef .tc main_v0)) (W1 m c (Proc.devRef .tc main_arg6)) :=
  (hF0 m c 2).symm.trans (final0 (atTc (W1 m)) c)

set_option maxHeartbeats 1000000 in
/-- Region 2: `main_v13` after it, from `main_v9`, `main_v12_0`, `main_v12_1`, `main_v10`, `main_v11` before it. -/
theorem step2 (c : Dev nD) :
    W5 m c (Proc.devRef .tc main_v13) = bnAct2 (W4 m c (Proc.devRef .tc main_v9)) (W4 m c (Proc.devRef .tc main_v12_0)) (W4 m c (Proc.devRef .tc main_v12_1)) (W4 m c (Proc.devRef .tc main_v10)) (W4 m c (Proc.devRef .tc main_v11)) :=
  (hF2 m c 5).symm.trans (final2 (atTc (W4 m)) c)

set_option maxHeartbeats 1000000 in
/-- Region 3: `main_v15` after it, from `main_v14`, `main_arg8` before it. -/
theorem step3 (c : Dev nD) :
    W7 m c (Proc.devRef .tc main_v15) = mm3 (W6 m c (Proc.devRef .tc main_v14)) (W6 m c (Proc.devRef .tc main_arg8)) :=
  (hF3 m c 2).symm.trans (final3 (atTc (W6 m)) c)

set_option maxHeartbeats 1000000 in
/-- Region 5: `main_v27` after it, from `main_v23`, `main_v26_0`, `main_v26_1`, `main_v24`, `main_v25` before it. -/
theorem step5 (c : Dev nD) :
    W10 m c (Proc.devRef .tc main_v27) = bnAct5 (W9 m c (Proc.devRef .tc main_v23)) (W9 m c (Proc.devRef .tc main_v26_0)) (W9 m c (Proc.devRef .tc main_v26_1)) (W9 m c (Proc.devRef .tc main_v24)) (W9 m c (Proc.devRef .tc main_v25)) :=
  (hF5 m c 5).symm.trans (final5 (atTc (W9 m)) c)

set_option maxHeartbeats 1000000 in
/-- Region 6: `main_v29` after it, from `main_v28`, `main_arg10` before it. -/
theorem step6 (c : Dev nD) :
    W12 m c (Proc.devRef .tc main_v29) = mm6 (W11 m c (Proc.devRef .tc main_v28)) (W11 m c (Proc.devRef .tc main_arg10)) :=
  (hF6 m c 2).symm.trans (final6 (atTc (W11 m)) c)

set_option maxHeartbeats 1000000 in
/-- Region 8: `main_v41` after it, from `main_v37`, `main_v40_0`, `main_v40_1`, `main_v38`, `main_v39` before it. -/
theorem step8 (c : Dev nD) :
    W15 m c (Proc.devRef .tc main_v41) = bnAct8 (W14 m c (Proc.devRef .tc main_v37)) (W14 m c (Proc.devRef .tc main_v40_0)) (W14 m c (Proc.devRef .tc main_v40_1)) (W14 m c (Proc.devRef .tc main_v38)) (W14 m c (Proc.devRef .tc main_v39)) :=
  (hF8 m c 5).symm.trans (final8 (atTc (W14 m)) c)

set_option maxHeartbeats 1000000 in
/-- Region 9: `main_v44` after it, from `main_v43`, `main_arg12` before it. -/
theorem step9 (c : Dev nD) :
    W18 m c (Proc.devRef .tc main_v44) = mm9 (W17 m c (Proc.devRef .tc main_v43)) (W17 m c (Proc.devRef .tc main_arg12)) :=
  (hF9 m c 2).symm.trans (final9 (atTc (W17 m)) c)

set_option maxHeartbeats 1000000 in
/-- Region 11: `main_v53` after it, from `main_v49`, `main_v52_0`, `main_v52_1`, `main_v50`, `main_v51` before it. -/
theorem step11 (c : Dev nD) :
    W21 m c (Proc.devRef .tc main_v53) = bnAct11 (W20 m c (Proc.devRef .tc main_v49)) (W20 m c (Proc.devRef .tc main_v52_0)) (W20 m c (Proc.devRef .tc main_v52_1)) (W20 m c (Proc.devRef .tc main_v50)) (W20 m c (Proc.devRef .tc main_v51)) :=
  (hF11 m c 5).symm.trans (final11 (atTc (W20 m)) c)

set_option maxHeartbeats 1000000 in
/-- Region 12: `main_v55` after it, from `main_v54`, `main_arg13` before it. -/
theorem step12 (c : Dev nD) :
    W23 m c (Proc.devRef .tc main_v55) = mm12 (W22 m c (Proc.devRef .tc main_v54)) (W22 m c (Proc.devRef .tc main_arg13)) :=
  (hF12 m c 2).symm.trans (final12 (atTc (W22 m)) c)

set_option maxHeartbeats 1000000 in
/-- Region 14: `main_v67` after it, from `main_v63`, `main_v66_0`, `main_v66_1`, `main_v64`, `main_v65` before it. -/
theorem step14 (c : Dev nD) :
    W26 m c (Proc.devRef .tc main_v67) = bnAct14 (W25 m c (Proc.devRef .tc main_v63)) (W25 m c (Proc.devRef .tc main_v66_0)) (W25 m c (Proc.devRef .tc main_v66_1)) (W25 m c (Proc.devRef .tc main_v64)) (W25 m c (Proc.devRef .tc main_v65)) :=
  (hF14 m c 5).symm.trans (final14 (atTc (W25 m)) c)

end Cert.KernelIdeal.Chain

end
-- ==== Proof.KernelChainMoves.lean ====
/-
  Buffers that the items of the program leave alone. An argument array is never written, so before any item it
  holds its launch contents; an intermediate array is written by one item and read by a later one, and holds between
  the two what the writer left.
-/
import proofs.«180908_j8211977470570_1_alg».proof.Proof.RunFactsIdeal

set_option maxRecDepth 16384

noncomputable section

namespace Cert.KernelIdeal.Chain

open Cert.KernelIdeal Cert.KernelIdeal.Gen Cert.KernelIdeal.Regs
open Idealize.ShloMosaic Idealize.ShloMosaic.TcCoe

variable (m : (ℓ : Loc nD τ sig) → Buf (Elt Ideal) ℓ)

/-! ## Argument arrays, where the items read them -/

/-- Before item 0 argument 1 holds its launch contents. -/
theorem arg1_at0 (c : Dev nD) : W0 m c (Proc.devRef .tc main_arg1) = m ((c : Thread nD τ).loc main_arg1) :=
  rfl
/-- Before item 0 argument 2 holds its launch contents. -/
theorem arg2_at0 (c : Dev nD) : W0 m c (Proc.devRef .tc main_arg2) = m ((c : Thread nD τ).loc main_arg2) :=
  rfl
/-- Before item 1 argument 6 holds its launch contents. -/
theorem arg6_at1 (c : Dev nD) : W1 m c (Proc.devRef .tc main_arg6) = m ((c : Thread nD τ).loc main_arg6) :=
  (W1_of m c main_arg6 (by decide)).trans <| rfl
/-- Before item 2 argument 3 holds its launch contents. -/
theorem arg3_at2 (c : Dev nD) : W2 m c (Proc.devRef .tc main_arg3) = m ((c : Thread nD τ).loc main_arg3) :=
  (W2_of m c main_arg3 (by decide)).trans <| (W1_of m c main_arg3 (by decide)).trans <| rfl
/-- Before item 2 argument 7 holds its launch contents. -/
theorem arg7_at2 (c : Dev nD) : W2 m c (Proc.devRef .tc main_arg7) = m ((c : Thread nD τ).loc main_arg7) :=
  (W2_of m c main_arg7 (by decide)).trans <| (W1_of m c main_arg7 (by decide)).trans <| rfl
/-- Before item 2 argument 15 holds its launch contents. -/
theorem arg15_at2 (c : Dev nD) : W2 m c (Proc.devRef .tc main_arg15) = m ((c : Thread nD τ).loc main_arg15) :=
  (W2_of m c main_arg15 (by decide)).trans <| (W1_of m c main_arg15 (by decide)).trans <| rfl
/-- Before item 2 argument 16 holds its launch contents. -/
theorem arg16_at2 (c : Dev nD) : W2 m c (Proc.devRef .tc main_arg16) = m ((c : Thread nD τ).loc main_arg16) :=
  (W2_of m c main_arg16 (by decide)).trans <| (W1_of m c main_arg16 (by decide)).trans <| rfl
/-- Before item 5 argument 0 holds its launch contents. -/
theorem arg0_at5 (c : Dev nD) : W5 m c (Proc.devRef .tc main_arg0) = m ((c : Thread nD τ).loc main_arg0) :=
  (W5_of m c main_arg0 (by decide)).trans <| (W4_of m c main_arg0 (by decide)).trans <| (W3_of m c main_arg0 (by decide)).trans <| (W2_of m c main_arg0 (by decide)).trans <| (W1_of m c main_arg0 (by decide)).trans <| rfl
/-- Before item 5 argument 4 holds its launch contents. -/
theorem arg4_at5 (c : Dev nD) : W5 m c (Proc.devRef .tc main_arg4) = m ((c : Thread nD τ).loc main_arg4) :=
  (W5_of m c main_arg4 (by decide)).trans <| (W4_of m c main_arg4 (by decide)).trans <| (W3_of m c main_arg4 (by decide)).trans <| (W2_of m c main_arg4 (by decide)).trans <| (W1_of m c main_arg4 (by decide)).trans <| rfl
/-- Before item 6 argument 8 holds its launch contents. -/
theorem arg8_at6 (c : Dev nD) : W6 m c (Proc.devRef .tc main_arg8) = m ((c : Thread nD τ).loc main_arg8) :=
  (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl
/-- Before item 7 argument 5 holds its launch contents. -/
theorem arg5_at7 (c : Dev nD) : W7 m c (Proc.devRef .tc main_arg5) = m ((c : Thread nD τ).loc main_arg5) :=
  (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
/-- Before item 7 argument 9 holds its launch contents. -/
theorem arg9_at7 (c : Dev nD) : W7 m c (Proc.devRef .tc main_arg9) = m ((c : Thread nD τ).loc main_arg9) :=
  (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
/-- Before item 7 argument 17 holds its launch contents. -/
theorem arg17_at7 (c : Dev nD) : W7 m c (Proc.devRef .tc main_arg17) = m ((c : Thread nD τ).loc main_arg17) :=
  (W7_of m c main_arg17 (by decide)).trans <| (W6_of m c main_arg17 (by decide)).trans <| (W5_of m c main_arg17 (by decide)).trans <| (W4_of m c main_arg17 (by decide)).trans <| (W3_of m c main_arg17 (by decide)).trans <| (W2_of m c main_arg17 (by decide)).trans <| (W1_of m c main_arg17 (by decide)).trans <| rfl
/-- Before item 7 argument 18 holds its launch contents. -/
theorem arg18_at7 (c : Dev nD) : W7 m c (Proc.devRef .tc main_arg18) = m ((c : Thread nD τ).loc main_arg18) :=
  (W7_of m c main_arg18 (by decide)).trans <| (W6_of m c main_arg18 (by decide)).trans <| (W5_of m c main_arg18 (by decide)).trans <| (W4_of m c main_arg18 (by decide)).trans <| (W3_of m c main_arg18 (by decide)).trans <| (W2_of m c main_arg18 (by decide)).trans <| (W1_of m c main_arg18 (by decide)).trans <| rfl
/-- Before item 10 argument 5 holds its launch contents. -/
theorem arg5_at10 (c : Dev nD) : W10 m c (Proc.devRef .tc main_arg5) = m ((c : Thread nD τ).loc main_arg5) :=
  (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
/-- Before item 11 argument 10 holds its launch contents. -/
theorem arg10_at11 (c : Dev nD) : W11 m c (Proc.devRef .tc main_arg10) = m ((c : Thread nD τ).loc main_arg10) :=
  (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans <| rfl
/-- Before item 12 argument 4 holds its launch contents. -/
theorem arg4_at12 (c : Dev nD) : W12 m c (Proc.devRef .tc main_arg4) = m ((c : Thread nD τ).loc main_arg4) :=
  (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
/-- Before item 12 argument 11 holds its launch contents. -/
theorem arg11_at12 (c : Dev nD) : W12 m c (Proc.devRef .tc main_arg11) = m ((c : Thread nD τ).loc main_arg11) :=
  (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans <| rfl
/-- Before item 12 argument 19 holds its launch contents. -/
theorem arg19_at12 (c : Dev nD) : W12 m c (Proc.devRef .tc main_arg19) = m ((c : Thread nD τ).loc main_arg19) :=
  (W12_of m c main_arg19 (by decide)).trans <| (W11_of m c main_arg19 (by decide)).trans <| (W10_of m c main_arg19 (by decide)).trans <| (W9_of m c main_arg19 (by decide)).trans <| (W8_of m c main_arg19 (by decide)).trans <| (W7_of m c main_arg19 (by decide)).trans <| (W6_of m c main_arg19 (by decide)).trans <| (W5_of m c main_arg19 (by decide)).trans <| (W4_of m c main_arg19 (by decide)).trans <| (W3_of m c main_arg19 (by decide)).trans <| (W2_of m c main_arg19 (by decide)).trans <| (W1_of m c main_arg19 (by decide)).trans <| rfl
/-- Before item 12 argument 20 holds its launch contents. -/
theorem arg20_at12 (c : Dev nD) : W12 m c (Proc.devRef .tc main_arg20) = m ((c : Thread nD τ).loc main_arg20) :=
  (W12_of m c main_arg20 (by decide)).trans <| (W11_of m c main_arg20 (by decide)).trans <| (W10_of m c main_arg20 (by decide)).trans <| (W9_of m c main_arg20 (by decide)).trans <| (W8_of m c main_arg20 (by decide)).trans <| (W7_of m c main_arg20 (by decide)).trans <| (W6_of m c main_arg20 (by decide)).trans <| (W5_of m c main_arg20 (by decide)).trans <| (W4_of m c main_arg20 (by decide)).trans <| (W3_of m c main_arg20 (by decide)).trans <| (W2_of m c main_arg20 (by decide)).trans <| (W1_of m c main_arg20 (by decide)).trans <| rfl
/-- Before item 16 argument 4 holds its launch contents. -/
theorem arg4_at16 (c : Dev nD) : W16 m c (Proc.devRef .tc main_arg4) = m ((c : Thread nD τ).loc main_arg4) :=
  (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
/-- Before item 17 argument 12 holds its launch contents. -/
theorem arg12_at17 (c : Dev nD) : W17 m c (Proc.devRef .tc main_arg12) = m ((c : Thread nD τ).loc main_arg12) :=
  (W17_of m c main_arg12 (by decide)).trans <| (W16_of m c main_arg12 (by decide)).trans <| (W15_of m c main_arg12 (by decide)).trans <| (W14_of m c main_arg12 (by decide)).trans <| (W13_of m c main_arg12 (by decide)).trans <| (W12_of m c main_arg12 (by decide)).trans <| (W11_of m c main_arg12 (by decide)).trans <| (W10_of m c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide)).trans <| rfl
/-- Before item 18 argument 5 holds its launch contents. -/
theorem arg5_at18 (c : Dev nD) : W18 m c (Proc.devRef .tc main_arg5) = m ((c : Thread nD τ).loc main_arg5) :=
  (W18_of m c main_arg5 (by decide)).trans <| (W17_of m c main_arg5 (by decide)).trans <| (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
/-- Before item 18 argument 21 holds its launch contents. -/
theorem arg21_at18 (c : Dev nD) : W18 m c (Proc.devRef .tc main_arg21) = m ((c : Thread nD τ).loc main_arg21) :=
  (W18_of m c main_arg21 (by decide)).trans <| (W17_of m c main_arg21 (by decide)).trans <| (W16_of m c main_arg21 (by decide)).trans <| (W15_of m c main_arg21 (by decide)).trans <| (W14_of m c main_arg21 (by decide)).trans <| (W13_of m c main_arg21 (by decide)).trans <| (W12_of m c main_arg21 (by decide)).trans <| (W11_of m c main_arg21 (by decide)).trans <| (W10_of m c main_arg21 (by decide)).trans <| (W9_of m c main_arg21 (by decide)).trans <| (W8_of m c main_arg21 (by decide)).trans <| (W7_of m c main_arg21 (by decide)).trans <| (W6_of m c main_arg21 (by decide)).trans <| (W5_of m c main_arg21 (by decide)).trans <| (W4_of m c main_arg21 (by decide)).trans <| (W3_of m c main_arg21 (by decide)).trans <| (W2_of m c main_arg21 (by decide)).trans <| (W1_of m c main_arg21 (by decide)).trans <| rfl
/-- Before item 18 argument 22 holds its launch contents. -/
theorem arg22_at18 (c : Dev nD) : W18 m c (Proc.devRef .tc main_arg22) = m ((c : Thread nD τ).loc main_arg22) :=
  (W18_of m c main_arg22 (by decide)).trans <| (W17_of m c main_arg22 (by decide)).trans <| (W16_of m c main_arg22 (by decide)).trans <| (W15_of m c main_arg22 (by decide)).trans <| (W14_of m c main_arg22 (by decide)).trans <| (W13_of m c main_arg22 (by decide)).trans <| (W12_of m c main_arg22 (by decide)).trans <| (W11_of m c main_arg22 (by decide)).trans <| (W10_of m c main_arg22 (by decide)).trans <| (W9_of m c main_arg22 (by decide)).trans <| (W8_of m c main_arg22 (by decide)).trans <| (W7_of m c main_arg22 (by decide)).trans <| (W6_of m c main_arg22 (by decide)).trans <| (W5_of m c main_arg22 (by decide)).trans <| (W4_of m c main_arg22 (by decide)).trans <| (W3_of m c main_arg22 (by decide)).trans <| (W2_of m c main_arg22 (by decide)).trans <| (W1_of m c main_arg22 (by decide)).trans <| rfl
/-- Before item 21 argument 3 holds its launch contents. -/
theorem arg3_at21 (c : Dev nD) : W21 m c (Proc.devRef .tc main_arg3) = m ((c : Thread nD τ).loc main_arg3) :=
  (W21_of m c main_arg3 (by decide)).trans <| (W20_of m c main_arg3 (by decide)).trans <| (W19_of m c main_arg3 (by decide)).trans <| (W18_of m c main_arg3 (by decide)).trans <| (W17_of m c main_arg3 (by decide)).trans <| (W16_of m c main_arg3 (by decide)).trans <| (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
/-- Before item 22 argument 13 holds its launch contents. -/
theorem arg13_at22 (c : Dev nD) : W22 m c (Proc.devRef .tc main_arg13) = m ((c : Thread nD τ).loc main_arg13) :=
  (W22_of m c main_arg13 (by decide)).trans <| (W21_of m c main_arg13 (by decide)).trans <| (W20_of m c main_arg13 (by decide)).trans <| (W19_of m c main_arg13 (by decide)).trans <| (W18_of m c main_arg13 (by decide)).trans <| (W17_of m c main_arg13 (by decide)).trans <| (W16_of m c main_arg13 (by decide)).trans <| (W15_of m c main_arg13 (by decide)).trans <| (W14_of m c main_arg13 (by decide)).trans <| (W13_of m c main_arg13 (by decide)).trans <| (W12_of m c main_arg13 (by decide)).trans <| (W11_of m c main_arg13 (by decide)).trans <| (W10_of m c main_arg13 (by decide)).trans <| (W9_of m c main_arg13 (by decide)).trans <| (W8_of m c main_arg13 (by decide)).trans <| (W7_of m c main_arg13 (by decide)).trans <| (W6_of m c main_arg13 (by decide)).trans <| (W5_of m c main_arg13 (by decide)).trans <| (W4_of m c main_arg13 (by decide)).trans <| (W3_of m c main_arg13 (by decide)).trans <| (W2_of m c main_arg13 (by decide)).trans <| (W1_of m c main_arg13 (by decide)).trans <| rfl
/-- Before item 23 argument 2 holds its launch contents. -/
theorem arg2_at23 (c : Dev nD) : W23 m c (Proc.devRef .tc main_arg2) = m ((c : Thread nD τ).loc main_arg2) :=
  (W23_of m c main_arg2 (by decide)).trans <| (W22_of m c main_arg2 (by decide)).trans <| (W21_of m c main_arg2 (by decide)).trans <| (W20_of m c main_arg2 (by decide)).trans <| (W19_of m c main_arg2 (by decide)).trans <| (W18_of m c main_arg2 (by decide)).trans <| (W17_of m c main_arg2 (by decide)).trans <| (W16_of m c main_arg2 (by decide)).trans <| (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
/-- Before item 23 argument 14 holds its launch contents. -/
theorem arg14_at23 (c : Dev nD) : W23 m c (Proc.devRef .tc main_arg14) = m ((c : Thread nD τ).loc main_arg14) :=
  (W23_of m c main_arg14 (by decide)).trans <| (W22_of m c main_arg14 (by decide)).trans <| (W21_of m c main_arg14 (by decide)).trans <| (W20_of m c main_arg14 (by decide)).trans <| (W19_of m c main_arg14 (by decide)).trans <| (W18_of m c main_arg14 (by decide)).trans <| (W17_of m c main_arg14 (by decide)).trans <| (W16_of m c main_arg14 (by decide)).trans <| (W15_of m c main_arg14 (by decide)).trans <| (W14_of m c main_arg14 (by decide)).trans <| (W13_of m c main_arg14 (by decide)).trans <| (W12_of m c main_arg14 (by decide)).trans <| (W11_of m c main_arg14 (by decide)).trans <| (W10_of m c main_arg14 (by decide)).trans <| (W9_of m c main_arg14 (by decide)).trans <| (W8_of m c main_arg14 (by decide)).trans <| (W7_of m c main_arg14 (by decide)).trans <| (W6_of m c main_arg14 (by decide)).trans <| (W5_of m c main_arg14 (by decide)).trans <| (W4_of m c main_arg14 (by decide)).trans <| (W3_of m c main_arg14 (by decide)).trans <| (W2_of m c main_arg14 (by decide)).trans <| (W1_of m c main_arg14 (by decide)).trans <| rfl
/-- Before item 23 argument 23 holds its launch contents. -/
theorem arg23_at23 (c : Dev nD) : W23 m c (Proc.devRef .tc main_arg23) = m ((c : Thread nD τ).loc main_arg23) :=
  (W23_of m c main_arg23 (by decide)).trans <| (W22_of m c main_arg23 (by decide)).trans <| (W21_of m c main_arg23 (by decide)).trans <| (W20_of m c main_arg23 (by decide)).trans <| (W19_of m c main_arg23 (by decide)).trans <| (W18_of m c main_arg23 (by decide)).trans <| (W17_of m c main_arg23 (by decide)).trans <| (W16_of m c main_arg23 (by decide)).trans <| (W15_of m c main_arg23 (by decide)).trans <| (W14_of m c main_arg23 (by decide)).trans <| (W13_of m c main_arg23 (by decide)).trans <| (W12_of m c main_arg23 (by decide)).trans <| (W11_of m c main_arg23 (by decide)).trans <| (W10_of m c main_arg23 (by decide)).trans <| (W9_of m c main_arg23 (by decide)).trans <| (W8_of m c main_arg23 (by decide)).trans <| (W7_of m c main_arg23 (by decide)).trans <| (W6_of m c main_arg23 (by decide)).trans <| (W5_of m c main_arg23 (by decide)).trans <| (W4_of m c main_arg23 (by decide)).trans <| (W3_of m c main_arg23 (by decide)).trans <| (W2_of m c main_arg23 (by decide)).trans <| (W1_of m c main_arg23 (by decide)).trans <| rfl
/-- Before item 23 argument 24 holds its launch contents. -/
theorem arg24_at23 (c : Dev nD) : W23 m c (Proc.devRef .tc main_arg24) = m ((c : Thread nD τ).loc main_arg24) :=
  (W23_of m c main_arg24 (by decide)).trans <| (W22_of m c main_arg24 (by decide)).trans <| (W21_of m c main_arg24 (by decide)).trans <| (W20_of m c main_arg24 (by decide)).trans <| (W19_of m c main_arg24 (by decide)).trans <| (W18_of m c main_arg24 (by decide)).trans <| (W17_of m c main_arg24 (by decide)).trans <| (W16_of m c main_arg24 (by decide)).trans <| (W15_of m c main_arg24 (by decide)).trans <| (W14_of m c main_arg24 (by decide)).trans <| (W13_of m c main_arg24 (by decide)).trans <| (W12_of m c main_arg24 (by decide)).trans <| (W11_of m c main_arg24 (by decide)).trans <| (W10_of m c main_arg24 (by decide)).trans <| (W9_of m c main_arg24 (by decide)).trans <| (W8_of m c main_arg24 (by decide)).trans <| (W7_of m c main_arg24 (by decide)).trans <| (W6_of m c main_arg24 (by decide)).trans <| (W5_of m c main_arg24 (by decide)).trans <| (W4_of m c main_arg24 (by decide)).trans <| (W3_of m c main_arg24 (by decide)).trans <| (W2_of m c main_arg24 (by decide)).trans <| (W1_of m c main_arg24 (by decide)).trans <| rfl

/-! ## Intermediate arrays, from their writer to their reader -/

/-- `main_v9` is untouched between item 2 (its writer) and item 4. -/
theorem v9_move (c : Dev nD) : W4 m c (Proc.devRef .tc main_v9) = W3 m c (Proc.devRef .tc main_v9) :=
  (W4_of m c main_v9 (by decide)).trans <| rfl
/-- `main_v10` is untouched between item 2 (its writer) and item 4. -/
theorem v10_move (c : Dev nD) : W4 m c (Proc.devRef .tc main_v10) = W3 m c (Proc.devRef .tc main_v10) :=
  (W4_of m c main_v10 (by decide)).trans <| rfl
/-- `main_v11` is untouched between item 2 (its writer) and item 4. -/
theorem v11_move (c : Dev nD) : W4 m c (Proc.devRef .tc main_v11) = W3 m c (Proc.devRef .tc main_v11) :=
  (W4_of m c main_v11 (by decide)).trans <| rfl
/-- `main_v13` is untouched between item 4 (its writer) and item 15. -/
theorem v13_move (c : Dev nD) : W15 m c (Proc.devRef .tc main_v13) = W5 m c (Proc.devRef .tc main_v13) :=
  (W15_of m c main_v13 (by decide)).trans <| (W14_of m c main_v13 (by decide)).trans <| (W13_of m c main_v13 (by decide)).trans <| (W12_of m c main_v13 (by decide)).trans <| (W11_of m c main_v13 (by decide)).trans <| (W10_of m c main_v13 (by decide)).trans <| (W9_of m c main_v13 (by decide)).trans <| (W8_of m c main_v13 (by decide)).trans <| (W7_of m c main_v13 (by decide)).trans <| (W6_of m c main_v13 (by decide)).trans <| rfl
/-- `main_v23` is untouched between item 7 (its writer) and item 9. -/
theorem v23_move (c : Dev nD) : W9 m c (Proc.devRef .tc main_v23) = W8 m c (Proc.devRef .tc main_v23) :=
  (W9_of m c main_v23 (by decide)).trans <| rfl
/-- `main_v24` is untouched between item 7 (its writer) and item 9. -/
theorem v24_move (c : Dev nD) : W9 m c (Proc.devRef .tc main_v24) = W8 m c (Proc.devRef .tc main_v24) :=
  (W9_of m c main_v24 (by decide)).trans <| rfl
/-- `main_v25` is untouched between item 7 (its writer) and item 9. -/
theorem v25_move (c : Dev nD) : W9 m c (Proc.devRef .tc main_v25) = W8 m c (Proc.devRef .tc main_v25) :=
  (W9_of m c main_v25 (by decide)).trans <| rfl
/-- `main_v37` is untouched between item 12 (its writer) and item 14. -/
theorem v37_move (c : Dev nD) : W14 m c (Proc.devRef .tc main_v37) = W13 m c (Proc.devRef .tc main_v37) :=
  (W14_of m c main_v37 (by decide)).trans <| rfl
/-- `main_v38` is untouched between item 12 (its writer) and item 14. -/
theorem v38_move (c : Dev nD) : W14 m c (Proc.devRef .tc main_v38) = W13 m c (Proc.devRef .tc main_v38) :=
  (W14_of m c main_v38 (by decide)).trans <| rfl
/-- `main_v39` is untouched between item 12 (its writer) and item 14. -/
theorem v39_move (c : Dev nD) : W14 m c (Proc.devRef .tc main_v39) = W13 m c (Proc.devRef .tc main_v39) :=
  (W14_of m c main_v39 (by decide)).trans <| rfl
/-- `main_v49` is untouched between item 18 (its writer) and item 20. -/
theorem v49_move (c : Dev nD) : W20 m c (Proc.devRef .tc main_v49) = W19 m c (Proc.devRef .tc main_v49) :=
  (W20_of m c main_v49 (by decide)).trans <| rfl
/-- `main_v50` is untouched between item 18 (its writer) and item 20. -/
theorem v50_move (c : Dev nD) : W20 m c (Proc.devRef .tc main_v50) = W19 m c (Proc.devRef .tc main_v50) :=
  (W20_of m c main_v50 (by decide)).trans <| rfl
/-- `main_v51` is untouched between item 18 (its writer) and item 20. -/
theorem v51_move (c : Dev nD) : W20 m c (Proc.devRef .tc main_v51) = W19 m c (Proc.devRef .tc main_v51) :=
  (W20_of m c main_v51 (by decide)).trans <| rfl
/-- `main_v63` is untouched between item 23 (its writer) and item 25. -/
theorem v63_move (c : Dev nD) : W25 m c (Proc.devRef .tc main_v63) = W24 m c (Proc.devRef .tc main_v63) :=
  (W25_of m c main_v63 (by decide)).trans <| rfl
/-- `main_v64` is untouched between item 23 (its writer) and item 25. -/
theorem v64_move (c : Dev nD) : W25 m c (Proc.devRef .tc main_v64) = W24 m c (Proc.devRef .tc main_v64) :=
  (W25_of m c main_v64 (by decide)).trans <| rfl
/-- `main_v65` is untouched between item 23 (its writer) and item 25. -/
theorem v65_move (c : Dev nD) : W25 m c (Proc.devRef .tc main_v65) = W24 m c (Proc.devRef .tc main_v65) :=
  (W25_of m c main_v65 (by decide)).trans <| rfl

end Cert.KernelIdeal.Chain

end
-- ==== Proof.LibFinite.lean ====
/-
  Finite extended reals. `IsReal x` says the extended real `x` is a real number (neither
  infinity). The exact float operations of the ideal values — sum, difference, product,
  maximum, minimum, negation, quotient by a nonzero finite divisor, reciprocal square root
  of a positive finite value — keep finite operands finite; a finite sum of finite terms
  is finite, and the coercion `ℝ → EReal` commutes with finite sums.

  Everything here is stated once on `EReal` and once over the `FloatOps` fields at
  `Ideal` (`FloatOps.addf` …), and entrywise over vectors (`AllReal v`).
-/
import Idealize.ShloMosaic.PureOps.Ideal.Laws

open scoped BigOperators
open Idealize.ShloMosaic

namespace LibFinite

/-- The extended real `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r

/-- Finite means: neither infinity. -/
theorem isReal_iff {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | top => exact absurd rfl ht
    | coe r => exact ⟨r, rfl⟩

/-- The real number a finite extended real is. -/
theorem IsReal.coe_toReal {x : EReal} (h : IsReal x) : ((x.toReal : ℝ) : EReal) = x := by
  obtain ⟨r, rfl⟩ := h; rfl

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The quotient of the ideal values by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- The reciprocal square root of a positive real is the real one. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem IsReal.rsqrt {x : EReal} (hx : IsReal x) (hpos : 0 < x) : IsReal (Ideal.rsqrt x) := by
  obtain ⟨a, rfl⟩ := hx
  exact ⟨_, rsqrt_coe_pos (EReal.coe_pos.mp hpos)⟩

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite terms is finite. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A finite sum of finite nonnegative terms is nonnegative (and finite). -/
theorem sum_nonneg_of_isReal {ι : Type*} (s : Finset ι) (f : ι → EReal) (h0 : ∀ i ∈ s, 0 ≤ f i) :
    0 ≤ ∑ i ∈ s, f i := Finset.sum_nonneg h0

/-! ### The same over the float operations of the ideal values -/

variable {φ : FTy}

theorem isReal_addf {x y : Ideal φ} (hx : IsReal x) (hy : IsReal y) : IsReal (FloatOps.addf x y) := hx.add hy
theorem isReal_subf {x y : Ideal φ} (hx : IsReal x) (hy : IsReal y) : IsReal (FloatOps.subf x y) := hx.sub hy
theorem isReal_mulf {x y : Ideal φ} (hx : IsReal x) (hy : IsReal y) : IsReal (FloatOps.mulf x y) := hx.mul hy
theorem isReal_negf {x : Ideal φ} (hx : IsReal x) : IsReal (FloatOps.negf x) := hx.neg
theorem isReal_maximumf {x y : Ideal φ} (hx : IsReal x) (hy : IsReal y) : IsReal (FloatOps.maximumf x y) := hx.max hy
theorem isReal_minimumf {x y : Ideal φ} (hx : IsReal x) (hy : IsReal y) : IsReal (FloatOps.minimumf x y) := hx.min hy
theorem isReal_divf {x y : Ideal φ} (hx : IsReal x) (hy : IsReal y) (h0 : y ≠ 0) : IsReal (FloatOps.divf x y) :=
  hx.div hy h0
theorem isReal_hostDivf {x y : Ideal φ} (hx : IsReal x) (hy : IsReal y) (h0 : y ≠ 0) :
    IsReal (FloatOps.hostDivf x y) := hx.div hy h0
theorem isReal_rsqrt {x : Ideal φ} (hx : IsReal x) (hpos : 0 < x) : IsReal (FloatOps.rsqrt x) := hx.rsqrt hpos
theorem isReal_hostRsqrt {x : Ideal φ} (hx : IsReal x) (hpos : 0 < x) : IsReal (FloatOps.hostUnary .rsqrt x) :=
  hx.rsqrt hpos

/-! ### Entrywise over vectors -/

/-- Every entry of the vector is a real number. -/
def AllReal {s : Shape} (v : s.Idx → EReal) : Prop := ∀ i, IsReal (v i)

variable {s : Shape}

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_divf {x y : FVec Ideal s φ} (hx : AllReal x) (hy : AllReal y) (h0 : ∀ i, y i ≠ 0) :
    AllReal (divf x y) := fun i => (hx i).div (hy i) (h0 i)
theorem allReal_hostDivf {x y : FVec Ideal s φ} (hx : AllReal x) (hy : AllReal y) (h0 : ∀ i, y i ≠ 0) :
    AllReal (Host.divf x y) := fun i => (hx i).div (hy i) (h0 i)
theorem allReal_rsqrt {x : FVec Ideal s φ} (hx : AllReal x) (hpos : ∀ i, 0 < x i) : AllReal (rsqrt x) :=
  fun i => (hx i).rsqrt (hpos i)
theorem allReal_hostRsqrt {x : FVec Ideal s φ} (hx : AllReal x) (hpos : ∀ i, 0 < x i) : AllReal (Host.rsqrt x) :=
  fun i => (hx i).rsqrt (hpos i)
theorem allReal_broadcast {x : EReal} (hx : IsReal x) (t : Shape) : AllReal (broadcast t x) := fun _ => hx

end LibFinite
-- ==== Proof.LibFiniteOps.lean ====
/-
  Finiteness through the vector operations of the ideal values. With `AllReal v` (every entry of
  `v` a real number): a re-indexing of a finite vector (broadcasts, shape casts, slices, transposes,
  a gather) is finite; a matrix product (`tpu.matmul` onto a finite accumulator, the host's
  `dot_general`) of finite operands is finite — at each index a finite sum of products —; so are a
  sum reduction (`vector.multi_reduction <add>`, the host's `reduce … add` from a finite initial
  value) and the host's accumulating scatter of finite updates into a finite operand. A scatter of
  nonnegative updates into a nonnegative operand is nonnegative: a count (ones scattered into zeros)
  is a real `≥ 0`, and its maximum with `1` is a real `≥ 1`, in particular finite and nonzero — a
  divisor the quotient of finite values stays finite by.
-/
import proofs.«180908_j8211977470570_1_alg».proof.Proof.LibFinite

open scoped BigOperators
open Idealize.ShloMosaic

namespace LibFinite

variable {φ φ₁ φ₂ : FTy} {s t : Shape}

/-! ### Constants -/

/-- The f32 pattern of `1.0` is the extended real `1`. -/
theorem f32_one : Ideal.ofBits .f32 0x3F800000#32 = 1 := by
  simp [Ideal.ofBits, Ideal.ieee, -EReal.coe_mul]; norm_num

theorem allReal_constant_zero_f32 (s : Shape) : AllReal (constant (F := Ideal) s .f32 0x00000000#32) :=
  fun _ => by show IsReal (Ideal.ofBits .f32 0x00000000#32); rw [Ideal.ofBits_zero_f32]; exact isReal_zero
theorem allReal_constant_one_f32 (s : Shape) : AllReal (constant (F := Ideal) s .f32 0x3F800000#32) :=
  fun _ => by show IsReal (Ideal.ofBits .f32 0x3F800000#32); rw [f32_one]; exact isReal_one
/-- A constant whose pattern denotes a real. -/
theorem allReal_constant_of_eq (s : Shape) (φ : FTy) (b : BitVec φ.bits) {r : ℝ} (hb : Ideal.ofBits φ b = (r : EReal)) :
    AllReal (constant (F := Ideal) s φ b) :=
  fun _ => ⟨r, hb⟩

/-! ### Re-indexings -/

/-- Reading a finite vector through any map of indices gives a finite vector. -/
theorem allReal_comp {x : s.Idx → EReal} (hx : AllReal x) (f : t.Idx → s.Idx) : AllReal (fun j => x (f j)) :=
  fun j => hx (f j)

theorem allReal_broadcastTo {x : s.Idx → EReal} (hx : AllReal x) (t : Shape) (h : s.Broadcasts t) :
    AllReal (broadcastTo t x h) := fun _ => hx _
theorem allReal_broadcastInDim {x : s.Idx → EReal} (hx : AllReal x) (t : Shape) (dims : Fin s.rank → Fin t.rank)
    (h : s.BroadcastsInDim t dims) : AllReal (broadcastInDim t dims h x) := fun _ => hx _
theorem allReal_shapeCast {x : s.Idx → EReal} (hx : AllReal x) (t : Shape) (h : s.ShapeCasts t) :
    AllReal (shapeCast t x h) := fun _ => hx _
theorem allReal_extractStridedSlice {x : s.Idx → EReal} (hx : AllReal x) (t : Shape) (off : Fin s.rank → Nat)
    (h : s.Slices off t) : AllReal (extractStridedSlice t off x h) := fun _ => hx _
theorem allReal_transpose {x : s.Idx → EReal} (hx : AllReal x) (t : Shape) (perm : List (Fin s.rank))
    (h : s.Transposes perm t) : AllReal (transpose t perm x h) := fun _ => hx _
/-- The host's gather reads the operand at an index computed from the start indices: finite operand,
    finite result, whatever the indices. -/
theorem allReal_gather {si : Shape} {w : Nat} (d : GatherDims s si t) {x : s.Idx → EReal} (hx : AllReal x)
    (idx : IVec si w) : AllReal (Host.gather d x idx) := fun _ => hx _

/-! ### Products -/

/-- `tpu.matmul` of finite operands onto a finite accumulator. -/
theorem allReal_matmul {sl sr so : Shape} (d : DotDims sl sr so) (prec : Option ContractPrecision)
    {lhs : FVec Ideal sl φ₁} {rhs : FVec Ideal sr φ₂} {acc : FVec Ideal so .f32}
    (hl : AllReal lhs) (hr : AllReal rhs) (ha : AllReal acc) : AllReal (matmul d prec lhs rhs acc) := fun j => by
  show IsReal (FloatOps.matmul d prec lhs rhs acc j)
  rw [Ideal.matmul_apply]
  exact (ha j).add (isReal_sum _ _ fun k _ => (hl _).mul (hr _))

/-- …onto the zero splat. -/
theorem allReal_matmul_zero {sl sr so : Shape} (d : DotDims sl sr so) (prec : Option ContractPrecision)
    {lhs : FVec Ideal sl φ₁} {rhs : FVec Ideal sr φ₂} (hl : AllReal lhs) (hr : AllReal rhs) :
    AllReal (matmul d prec lhs rhs (constant so .f32 0x00000000#32)) :=
  allReal_matmul d prec hl hr (allReal_constant_zero_f32 so)

/-- The host's `dot_general` of finite operands, at any schedule key. -/
theorem allReal_dotGeneralAt {sl sr so : Shape} (d : DotDims sl sr so) (prec : Option ContractPrecision)
    (sched : HostSchedule) {lhs : FVec Ideal sl φ₁} {rhs : FVec Ideal sr φ₂} (hl : AllReal lhs) (hr : AllReal rhs) :
    AllReal (FloatOps.dotGeneral d prec sched lhs rhs) := fun j => by
  rw [Ideal.dotGeneral_apply]
  exact isReal_sum _ _ fun k _ => (hl _).mul (hr _)

theorem allReal_dotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := allReal_dotGeneralAt d prec .single hl hr

/-! ### Sum reductions -/

/-- `vector.multi_reduction <add>` of a finite vector, over any axes. -/
theorem allReal_multiReduction_add {axes : List (Fin s.rank)} {src : FVec Ideal s φ} (hsrc : AllReal src)
    (acc : BitVec φ.bits) (h : s.Reduces axes t) (hφ : FKind.Formats φ) (hacc : acc = FKind.add.neutral φ hφ) :
    AllReal (multiReduction .add axes t src acc h hφ hacc) := fun j => by
  show IsReal (Ideal.reduceAdd h src j)
  unfold Ideal.reduceAdd
  exact isReal_sum _ _ fun i _ => hsrc i

/-- The host's `reduce … add` of a finite vector from a finite initial value, over any axes. -/
theorem allReal_hostReduceAdd {axes : List (Fin s.rank)} {u : Shape} {x : FVec Ideal s φ} (hx : AllReal x)
    {init : u.Idx → Ideal φ} (hinit : ∀ k, IsReal (init k)) (h : s.ReducesTo axes t) (hu : 0 < u.numel) :
    AllReal (Host.reduceAdd x init h hu) := fun j => by
  show IsReal (Ideal.hostReduceAdd h x (init (Shape.Idx.first hu)) j)
  unfold Ideal.hostReduceAdd
  exact (hinit _).add (isReal_sum _ _ fun i _ => hx i)

/-! ### The accumulating scatter -/

/-- The host's float scatter-add of finite updates into a finite operand is finite, whatever the indices. -/
theorem allReal_scatterAdd {si u : Shape} {w : Nat} (d : ScatterDims s si u) {x : FVec Ideal s φ} (hx : AllReal x)
    (idx : IVec si w) {upd : FVec Ideal u φ} (hupd : AllReal upd) : AllReal (Host.scatterAdd d x idx upd) := fun i => by
  show IsReal (Ideal.hostScatterAdd d x idx upd i)
  unfold Ideal.hostScatterAdd
  exact (hx i).add (isReal_sum _ _ fun j _ => hupd j)

/-- …and nonnegative when the operand and the updates are. -/
theorem scatterAdd_nonneg {si u : Shape} {w : Nat} (d : ScatterDims s si u) {x : FVec Ideal s φ} (hx : ∀ i, 0 ≤ x i)
    (idx : IVec si w) {upd : FVec Ideal u φ} (hupd : ∀ j, 0 ≤ upd j) (i : s.Idx) : 0 ≤ Host.scatterAdd d x idx upd i := by
  show 0 ≤ Ideal.hostScatterAdd d x idx upd i
  unfold Ideal.hostScatterAdd
  exact add_nonneg (hx i) (Finset.sum_nonneg fun j _ => hupd j)

/-- A count — ones scattered into zeros — is at each element a real `≥ 0`. -/
theorem scatterAdd_count {si u : Shape} {w : Nat} (d : ScatterDims s si u) {x : FVec Ideal s φ} (hx : ∀ i, x i = 0)
    (idx : IVec si w) {upd : FVec Ideal u φ} (hupd : ∀ j, upd j = 1) (i : s.Idx) :
    IsReal (Host.scatterAdd d x idx upd i) ∧ 0 ≤ Host.scatterAdd d x idx upd i :=
  ⟨allReal_scatterAdd d (fun i => by rw [hx i]; exact isReal_zero) idx (fun j => by rw [hupd j]; exact isReal_one) i,
   scatterAdd_nonneg d (fun i => (hx i).ge) idx (fun j => by rw [hupd j]; exact zero_le_one) i⟩

/-- The maximum of a finite value with `1` is finite, at least `1`, and not zero. -/
theorem max_one_spec {c : EReal} (hc : IsReal c) : IsReal (max c 1) ∧ 1 ≤ max c 1 ∧ max c 1 ≠ 0 :=
  ⟨hc.max isReal_one, le_max_right c 1, (lt_of_lt_of_le zero_lt_one (le_max_right c 1)).ne'⟩

/-- Entrywise: `maximumf v ones` of a finite vector is finite and nowhere zero. -/
theorem allReal_max_one {v one : FVec Ideal s φ} (hv : AllReal v) (hone : ∀ i, one i = 1) :
    AllReal (maximumf v one) ∧ ∀ i, maximumf v one i ≠ 0 := by
  refine ⟨fun i => ?_, fun i => ?_⟩
  · show IsReal (max (v i) (one i)); rw [hone i]; exact (max_one_spec (hv i)).1
  · show max (v i) (one i) ≠ 0; rw [hone i]; exact (max_one_spec (hv i)).2.2

end LibFinite
-- ==== Proof.PreDecode.lean ====
/-
  The precondition decoded. The precondition is one i1 scalar: the conjunction, over the 25 argument arrays, of
  "every entry of a float array has absolute value below +∞" (21 arrays) and "every entry of an index array lies in
  [0, n)" (4 arrays, n the extent of the axis it indexes). That the scalar is 1 says each conjunct is 1; a conjunct is
  an and-reduction over all axes from the constant 1, so every compared entry gave 1. For a float entry x at the
  extended reals, max x (−x) < ⊤ (the literal 0x7F800000 is ⊤) says x is neither infinity: x is a real number. For an
  index entry w, the signed comparisons 0 ≤ w and w < n say 0 ≤ w.toInt < n.

  From the range facts, the three comparison bits an index look-up computes: w < 0 is 0, so the wrapped index is w
  itself, and 0 ≤ w and w ≤ n − 1 are both 1.
-/
import proofs.«180908_j8211977470570_1_alg».proof.Defs
import proofs.«180908_j8211977470570_1_alg».proof.Proof.LibFinite
import Idealize.ShloMosaic.Lib.ReduceAll
import Idealize.ShloMosaic.Lib.ValueIdx

set_option maxRecDepth 16384

open Idealize.ShloMosaic Idealize.SL.Sem
open LibFinite

namespace Cert.Bridge.Pre

/-- The scalar shape has one index. -/
instance : Subsingleton (⟨0, ![]⟩ : Shape).Idx := ⟨fun a b => funext fun d => d.elim0⟩

theorem ofBool_eq_one (b : Bool) : BitVec.ofBool b = 1#1 ↔ b = true := by cases b <;> decide
theorem ofBool_eq_zero (b : Bool) : BitVec.ofBool b = 0#1 ↔ b = false := by cases b <;> decide

/-! ### A float entry -/

/-- The f32 literal 0x7F800000 is +∞. -/
theorem ofBits_inf : Ideal.ofBits .f32 0x7F800000#32 = ⊤ := by simp [Ideal.ofBits, Ideal.ieee]

/-- An extended real whose absolute value is below +∞ is a real number. -/
theorem isReal_of_abs_lt_top {x : EReal} (h : max x (-x) < ⊤) : IsReal x := by
  induction x using EReal.rec with
  | bot => exact absurd h (by simp)
  | top => exact absurd h (by simp)
  | coe r => exact ⟨r, rfl⟩

/-- The comparison |x| < +∞ of the ideal values, when it gives 1, says x is real. -/
theorem isReal_of_cmp {x : Ideal .f32}
    (h : FloatOps.cmpf .olt (FloatOps.hostAbsf x) (FloatOps.ofBits (F := Ideal) .f32 0x7F800000#32) = 1#1) :
    IsReal x := by
  have h1 : Ideal.cmp .olt (max x (-x)) (Ideal.ofBits .f32 0x7F800000#32) = 1#1 := h
  rw [ofBits_inf] at h1
  unfold Ideal.cmp at h1
  rw [ofBool_eq_one] at h1
  exact isReal_of_abs_lt_top (of_decide_eq_true h1)

/-- all (|x| < +∞) = 1 says every entry of x is real. -/
theorem allReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ValueIdx.ix0 = 1#1) : AllReal x := by
  intro i
  exact isReal_of_cmp (Host.reduce_andi_all _ _ hr hu _ e i)

/-! ### An index entry -/

/-- all (lo ≤ x ∧ x < hi) = 1 (signed) says every entry of x lies in [lo, hi) as an integer. -/
theorem range_of_all {s : Shape} {axes : List (Fin s.rank)} (x : IVec s 32)
    (hb : (⟨0, ![]⟩ : Shape).BroadcastsInDim s (![] : Fin 0 → Fin s.rank)) (hr : s.ReducesTo axes ⟨0, ![]⟩)
    (hu : 0 < (⟨0, ![]⟩ : Shape).numel) (lo hi : BitVec 32) {l h : Int} (hl : lo.toInt = l) (hh : hi.toInt = h)
    (e : Host.reduce IntOp.andi
          (andi (cmpi .sge x (broadcastInDim s ![] hb (constantI ⟨0, ![]⟩ 32 lo)))
            (cmpi .slt x (broadcastInDim s ![] hb (constantI ⟨0, ![]⟩ 32 hi))))
          (constantI ⟨0, ![]⟩ 1 1#1) hr hu ValueIdx.ix0 = 1#1) :
    ∀ i, l ≤ (x i).toInt ∧ (x i).toInt < h := by
  intro i
  have h1 : IntOp.andi (IntOp.cmpi .sge (x i) lo) (IntOp.cmpi .slt (x i) hi) = 1#1 :=
    Host.reduce_andi_all _ _ hr hu _ e i
  obtain ⟨h2, h3⟩ := IntOp.andi_eq_one.1 h1
  exact ⟨hl ▸ IntOp.cmpi_sge.1 h2, hh ▸ IntOp.cmpi_slt.1 h3⟩

/-! ### The conjunction, split once -/

/-- What the precondition says of the 25 arrays. -/
structure Decoded (a0 : FVec Ideal Cert.Pre_finite_inputs.S60000x128 .f32)
    (a1 : FVec Ideal Cert.Pre_finite_inputs.S200000x64 .f32)
    (a2 : IVec Cert.Pre_finite_inputs.S27x40000 32)
    (a3 : IVec Cert.Pre_finite_inputs.S27x40000 32)
    (a4 : IVec Cert.Pre_finite_inputs.S27x25000 32)
    (a5 : IVec Cert.Pre_finite_inputs.S27x25000 32)
    (a6 : FVec Ideal Cert.Pre_finite_inputs.S27x64x64 .f32)
    (a7 : FVec Ideal Cert.Pre_finite_inputs.S64 .f32)
    (a8 : FVec Ideal Cert.Pre_finite_inputs.S27x128x64 .f32)
    (a9 : FVec Ideal Cert.Pre_finite_inputs.S64 .f32)
    (a10 : FVec Ideal Cert.Pre_finite_inputs.S27x64x64 .f32)
    (a11 : FVec Ideal Cert.Pre_finite_inputs.S64 .f32)
    (a12 : FVec Ideal Cert.Pre_finite_inputs.S27x64x1 .f32)
    (a13 : FVec Ideal Cert.Pre_finite_inputs.S27x1x64 .f32)
    (a14 : FVec Ideal Cert.Pre_finite_inputs.S64 .f32)
    (a15 : FVec Ideal Cert.Pre_finite_inputs.S64 .f32)
    (a16 : FVec Ideal Cert.Pre_finite_inputs.S64 .f32)
    (a17 : FVec Ideal Cert.Pre_finite_inputs.S64 .f32)
    (a18 : FVec Ideal Cert.Pre_finite_inputs.S64 .f32)
    (a19 : FVec Ideal Cert.Pre_finite_inputs.S64 .f32)
    (a20 : FVec Ideal Cert.Pre_finite_inputs.S64 .f32)
    (a21 : FVec Ideal Cert.Pre_finite_inputs.S1 .f32)
    (a22 : FVec Ideal Cert.Pre_finite_inputs.S1 .f32)
    (a23 : FVec Ideal Cert.Pre_finite_inputs.S64 .f32)
    (a24 : FVec Ideal Cert.Pre_finite_inputs.S64 .f32) : Prop where
  real0 : AllReal a0
  real1 : AllReal a1
  range2 : ∀ i, 0 ≤ (a2 i).toInt ∧ (a2 i).toInt < 200000
  range3 : ∀ i, 0 ≤ (a3 i).toInt ∧ (a3 i).toInt < 60000
  range4 : ∀ i, 0 ≤ (a4 i).toInt ∧ (a4 i).toInt < 60000
  range5 : ∀ i, 0 ≤ (a5 i).toInt ∧ (a5 i).toInt < 60000
  real6 : AllReal a6
  real7 : AllReal a7
  real8 : AllReal a8
  real9 : AllReal a9
  real10 : AllReal a10
  real11 : AllReal a11
  real12 : AllReal a12
  real13 : AllReal a13
  real14 : AllReal a14
  real15 : AllReal a15
  real16 : AllReal a16
  real17 : AllReal a17
  real18 : AllReal a18
  real19 : AllReal a19
  real20 : AllReal a20
  real21 : AllReal a21
  real22 : AllReal a22
  real23 : AllReal a23
  real24 : AllReal a24

/-- The precondition's scalar being 1 gives the 25 facts. -/
theorem decode [Cert.Pre_finite_inputs.Facts] (a0 : FVec Ideal Cert.Pre_finite_inputs.S60000x128 .f32)
    (a1 : FVec Ideal Cert.Pre_finite_inputs.S200000x64 .f32)
    (a2 : IVec Cert.Pre_finite_inputs.S27x40000 32)
    (a3 : IVec Cert.Pre_finite_inputs.S27x40000 32)
    (a4 : IVec Cert.Pre_finite_inputs.S27x25000 32)
    (a5 : IVec Cert.Pre_finite_inputs.S27x25000 32)
    (a6 : FVec Ideal Cert.Pre_finite_inputs.S27x64x64 .f32)
    (a7 : FVec Ideal Cert.Pre_finite_inputs.S64 .f32)
    (a8 : FVec Ideal Cert.Pre_finite_inputs.S27x128x64 .f32)
    (a9 : FVec Ideal Cert.Pre_finite_inputs.S64 .f32)
    (a10 : FVec Ideal Cert.Pre_finite_inputs.S27x64x64 .f32)
    (a11 : FVec Ideal Cert.Pre_finite_inputs.S64 .f32)
    (a12 : FVec Ideal Cert.Pre_finite_inputs.S27x64x1 .f32)
    (a13 : FVec Ideal Cert.Pre_finite_inputs.S27x1x64 .f32)
    (a14 : FVec Ideal Cert.Pre_finite_inputs.S64 .f32)
    (a15 : FVec Ideal Cert.Pre_finite_inputs.S64 .f32)
    (a16 : FVec Ideal Cert.Pre_finite_inputs.S64 .f32)
    (a17 : FVec Ideal Cert.Pre_finite_inputs.S64 .f32)
    (a18 : FVec Ideal Cert.Pre_finite_inputs.S64 .f32)
    (a19 : FVec Ideal Cert.Pre_finite_inputs.S64 .f32)
    (a20 : FVec Ideal Cert.Pre_finite_inputs.S64 .f32)
    (a21 : FVec Ideal Cert.Pre_finite_inputs.S1 .f32)
    (a22 : FVec Ideal Cert.Pre_finite_inputs.S1 .f32)
    (a23 : FVec Ideal Cert.Pre_finite_inputs.S64 .f32)
    (a24 : FVec Ideal Cert.Pre_finite_inputs.S64 .f32)
    (h : Cert.Pre_finite_inputs.fn (F := Ideal) a0 a1 a2 a3 a4 a5 a6 a7 a8 a9 a10 a11 a12 a13 a14 a15 a16 a17 a18 a19 a20 a21 a22 a23 a24 = fun _ => 1#1) :
    Decoded a0 a1 a2 a3 a4 a5 a6 a7 a8 a9 a10 a11 a12 a13 a14 a15 a16 a17 a18 a19 a20 a21 a22 a23 a24 := by
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, andi] at e
  simp only [IntOp.andi_eq_one] at e
  obtain ⟨⟨⟨⟨⟨⟨⟨⟨⟨⟨⟨⟨⟨⟨⟨⟨⟨⟨⟨⟨⟨⟨⟨⟨h0, h1⟩, h6⟩, h7⟩, h8⟩, h9⟩, h10⟩, h11⟩, h12⟩, h13⟩, h14⟩, h15⟩, h16⟩, h17⟩, h18⟩, h19⟩, h20⟩, h21⟩, h22⟩, h23⟩, h24⟩, h2⟩, h3⟩, h4⟩, h5⟩ := e
  exact {
    real0 := allReal_of_all a0 _ _ _ h0
    real1 := allReal_of_all a1 _ _ _ h1
    range2 := range_of_all a2 _ _ _ 0#32 200000#32 (by decide) (by decide) h2
    range3 := range_of_all a3 _ _ _ 0#32 60000#32 (by decide) (by decide) h3
    range4 := range_of_all a4 _ _ _ 0#32 60000#32 (by decide) (by decide) h4
    range5 := range_of_all a5 _ _ _ 0#32 60000#32 (by decide) (by decide) h5
    real6 := allReal_of_all a6 _ _ _ h6
    real7 := allReal_of_all a7 _ _ _ h7
    real8 := allReal_of_all a8 _ _ _ h8
    real9 := allReal_of_all a9 _ _ _ h9
    real10 := allReal_of_all a10 _ _ _ h10
    real11 := allReal_of_all a11 _ _ _ h11
    real12 := allReal_of_all a12 _ _ _ h12
    real13 := allReal_of_all a13 _ _ _ h13
    real14 := allReal_of_all a14 _ _ _ h14
    real15 := allReal_of_all a15 _ _ _ h15
    real16 := allReal_of_all a16 _ _ _ h16
    real17 := allReal_of_all a17 _ _ _ h17
    real18 := allReal_of_all a18 _ _ _ h18
    real19 := allReal_of_all a19 _ _ _ h19
    real20 := allReal_of_all a20 _ _ _ h20
    real21 := allReal_of_all a21 _ _ _ h21
    real22 := allReal_of_all a22 _ _ _ h22
    real23 := allReal_of_all a23 _ _ _ h23
    real24 := allReal_of_all a24 _ _ _ h24 }

/-! ### At the launch memory -/

section Memory

variable [Cert.Pre_finite_inputs.Facts]
variable (m : (ℓ : Loc Cert.KernelIdeal.nD Cert.KernelIdeal.τ Cert.KernelIdeal.sig) → Buf (Elt Ideal) ℓ)

/-- The 25 facts of the argument buffers of every core. -/
theorem decoded (h : Cert.Pre_KernelIdeal m) (c : Dev Cert.KernelIdeal.nD) :
    Decoded
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24)) :=
  decode _ _ _ _ _ _ _ _ _ _ _ _ _ _ _ _ _ _ _ _ _ _ _ _ _ (h c)

/-- Every entry of argument 0 is a real number. -/
theorem real_arg0 (h : Cert.Pre_KernelIdeal m) (c : Dev Cert.KernelIdeal.nD) :
    AllReal (s := Cert.KernelIdeal.S60000x128) (m ((c.tc : Thread Cert.KernelIdeal.nD Cert.KernelIdeal.τ).loc Cert.KernelIdeal.main_arg0)) := (decoded m h c).real0

/-- Every entry of argument 1 is a real number. -/
theorem real_arg1 (h : Cert.Pre_KernelIdeal m) (c : Dev Cert.KernelIdeal.nD) :
    AllReal (s := Cert.KernelIdeal.S200000x64) (m ((c.tc : Thread Cert.KernelIdeal.nD Cert.KernelIdeal.τ).loc Cert.KernelIdeal.main_arg1)) := (decoded m h c).real1

/-- Every entry of index argument 2 lies in [0, 200000). -/
theorem range_arg2 (h : Cert.Pre_KernelIdeal m) (c : Dev Cert.KernelIdeal.nD) (i : Cert.KernelIdeal.S27x40000.Idx) :
    0 ≤ ((m ((c.tc : Thread Cert.KernelIdeal.nD Cert.KernelIdeal.τ).loc Cert.KernelIdeal.main_arg2)) i).toInt ∧ ((m ((c.tc : Thread Cert.KernelIdeal.nD Cert.KernelIdeal.τ).loc Cert.KernelIdeal.main_arg2)) i).toInt < 200000 := (decoded m h c).range2 i

/-- Every entry of index argument 3 lies in [0, 60000). -/
theorem range_arg3 (h : Cert.Pre_KernelIdeal m) (c : Dev Cert.KernelIdeal.nD) (i : Cert.KernelIdeal.S27x40000.Idx) :
    0 ≤ ((m ((c.tc : Thread Cert.KernelIdeal.nD Cert.KernelIdeal.τ).loc Cert.KernelIdeal.main_arg3)) i).toInt ∧ ((m ((c.tc : Thread Cert.KernelIdeal.nD Cert.KernelIdeal.τ).loc Cert.KernelIdeal.main_arg3)) i).toInt < 60000 := (decoded m h c).range3 i

/-- Every entry of index argument 4 lies in [0, 60000). -/
theorem range_arg4 (h : Cert.Pre_KernelIdeal m) (c : Dev Cert.KernelIdeal.nD) (i : Cert.KernelIdeal.S27x25000.Idx) :
    0 ≤ ((m ((c.tc : Thread Cert.KernelIdeal.nD Cert.KernelIdeal.τ).loc Cert.KernelIdeal.main_arg4)) i).toInt ∧ ((m ((c.tc : Thread Cert.KernelIdeal.nD Cert.KernelIdeal.τ).loc Cert.KernelIdeal.main_arg4)) i).toInt < 60000 := (decoded m h c).range4 i

/-- Every entry of index argument 5 lies in [0, 60000). -/
theorem range_arg5 (h : Cert.Pre_KernelIdeal m) (c : Dev Cert.KernelIdeal.nD) (i : Cert.KernelIdeal.S27x25000.Idx) :
    0 ≤ ((m ((c.tc : Thread Cert.KernelIdeal.nD Cert.KernelIdeal.τ).loc Cert.KernelIdeal.main_arg5)) i).toInt ∧ ((m ((c.tc : Thread Cert.KernelIdeal.nD Cert.KernelIdeal.τ).loc Cert.KernelIdeal.main_arg5)) i).toInt < 60000 := (decoded m h c).range5 i

/-- Every entry of argument 6 is a real number. -/
theorem real_arg6 (h : Cert.Pre_KernelIdeal m) (c : Dev Cert.KernelIdeal.nD) :
    AllReal (s := Cert.KernelIdeal.S27x64x64) (m ((c.tc : Thread Cert.KernelIdeal.nD Cert.KernelIdeal.τ).loc Cert.KernelIdeal.main_arg6)) := (decoded m h c).real6

/-- Every entry of argument 7 is a real number. -/
theorem real_arg7 (h : Cert.Pre_KernelIdeal m) (c : Dev Cert.KernelIdeal.nD) :
    AllReal (s := Cert.KernelIdeal.S64) (m ((c.tc : Thread Cert.KernelIdeal.nD Cert.KernelIdeal.τ).loc Cert.KernelIdeal.main_arg7)) := (decoded m h c).real7

/-- Every entry of argument 8 is a real number. -/
theorem real_arg8 (h : Cert.Pre_KernelIdeal m) (c : Dev Cert.KernelIdeal.nD) :
    AllReal (s := Cert.KernelIdeal.S27x128x64) (m ((c.tc : Thread Cert.KernelIdeal.nD Cert.KernelIdeal.τ).loc Cert.KernelIdeal.main_arg8)) := (decoded m h c).real8

/-- Every entry of argument 9 is a real number. -/
theorem real_arg9 (h : Cert.Pre_KernelIdeal m) (c : Dev Cert.KernelIdeal.nD) :
    AllReal (s := Cert.KernelIdeal.S64) (m ((c.tc : Thread Cert.KernelIdeal.nD Cert.KernelIdeal.τ).loc Cert.KernelIdeal.main_arg9)) := (decoded m h c).real9

/-- Every entry of argument 10 is a real number. -/
theorem real_arg10 (h : Cert.Pre_KernelIdeal m) (c : Dev Cert.KernelIdeal.nD) :
    AllReal (s := Cert.KernelIdeal.S27x64x64) (m ((c.tc : Thread Cert.KernelIdeal.nD Cert.KernelIdeal.τ).loc Cert.KernelIdeal.main_arg10)) := (decoded m h c).real10

/-- Every entry of argument 11 is a real number. -/
theorem real_arg11 (h : Cert.Pre_KernelIdeal m) (c : Dev Cert.KernelIdeal.nD) :
    AllReal (s := Cert.KernelIdeal.S64) (m ((c.tc : Thread Cert.KernelIdeal.nD Cert.KernelIdeal.τ).loc Cert.KernelIdeal.main_arg11)) := (decoded m h c).real11

/-- Every entry of argument 12 is a real number. -/
theorem real_arg12 (h : Cert.Pre_KernelIdeal m) (c : Dev Cert.KernelIdeal.nD) :
    AllReal (s := Cert.KernelIdeal.S27x64x1) (m ((c.tc : Thread Cert.KernelIdeal.nD Cert.KernelIdeal.τ).loc Cert.KernelIdeal.main_arg12)) := (decoded m h c).real12

/-- Every entry of argument 13 is a real number. -/
theorem real_arg13 (h : Cert.Pre_KernelIdeal m) (c : Dev Cert.KernelIdeal.nD) :
    AllReal (s := Cert.KernelIdeal.S27x1x64) (m ((c.tc : Thread Cert.KernelIdeal.nD Cert.KernelIdeal.τ).loc Cert.KernelIdeal.main_arg13)) := (decoded m h c).real13

/-- Every entry of argument 14 is a real number. -/
theorem real_arg14 (h : Cert.Pre_KernelIdeal m) (c : Dev Cert.KernelIdeal.nD) :
    AllReal (s := Cert.KernelIdeal.S64) (m ((c.tc : Thread Cert.KernelIdeal.nD Cert.KernelIdeal.τ).loc Cert.KernelIdeal.main_arg14)) := (decoded m h c).real14

/-- Every entry of argument 15 is a real number. -/
theorem real_arg15 (h : Cert.Pre_KernelIdeal m) (c : Dev Cert.KernelIdeal.nD) :
    AllReal (s := Cert.KernelIdeal.S64) (m ((c.tc : Thread Cert.KernelIdeal.nD Cert.KernelIdeal.τ).loc Cert.KernelIdeal.main_arg15)) := (decoded m h c).real15

/-- Every entry of argument 16 is a real number. -/
theorem real_arg16 (h : Cert.Pre_KernelIdeal m) (c : Dev Cert.KernelIdeal.nD) :
    AllReal (s := Cert.KernelIdeal.S64) (m ((c.tc : Thread Cert.KernelIdeal.nD Cert.KernelIdeal.τ).loc Cert.KernelIdeal.main_arg16)) := (decoded m h c).real16

/-- Every entry of argument 17 is a real number. -/
theorem real_arg17 (h : Cert.Pre_KernelIdeal m) (c : Dev Cert.KernelIdeal.nD) :
    AllReal (s := Cert.KernelIdeal.S64) (m ((c.tc : Thread Cert.KernelIdeal.nD Cert.KernelIdeal.τ).loc Cert.KernelIdeal.main_arg17)) := (decoded m h c).real17

/-- Every entry of argument 18 is a real number. -/
theorem real_arg18 (h : Cert.Pre_KernelIdeal m) (c : Dev Cert.KernelIdeal.nD) :
    AllReal (s := Cert.KernelIdeal.S64) (m ((c.tc : Thread Cert.KernelIdeal.nD Cert.KernelIdeal.τ).loc Cert.KernelIdeal.main_arg18)) := (decoded m h c).real18

/-- Every entry of argument 19 is a real number. -/
theorem real_arg19 (h : Cert.Pre_KernelIdeal m) (c : Dev Cert.KernelIdeal.nD) :
    AllReal (s := Cert.KernelIdeal.S64) (m ((c.tc : Thread Cert.KernelIdeal.nD Cert.KernelIdeal.τ).loc Cert.KernelIdeal.main_arg19)) := (decoded m h c).real19

/-- Every entry of argument 20 is a real number. -/
theorem real_arg20 (h : Cert.Pre_KernelIdeal m) (c : Dev Cert.KernelIdeal.nD) :
    AllReal (s := Cert.KernelIdeal.S64) (m ((c.tc : Thread Cert.KernelIdeal.nD Cert.KernelIdeal.τ).loc Cert.KernelIdeal.main_arg20)) := (decoded m h c).real20

/-- Every entry of argument 21 is a real number. -/
theorem real_arg21 (h : Cert.Pre_KernelIdeal m) (c : Dev Cert.KernelIdeal.nD) :
    AllReal (s := Cert.KernelIdeal.S1) (m ((c.tc : Thread Cert.KernelIdeal.nD Cert.KernelIdeal.τ).loc Cert.KernelIdeal.main_arg21)) := (decoded m h c).real21

/-- Every entry of argument 22 is a real number. -/
theorem real_arg22 (h : Cert.Pre_KernelIdeal m) (c : Dev Cert.KernelIdeal.nD) :
    AllReal (s := Cert.KernelIdeal.S1) (m ((c.tc : Thread Cert.KernelIdeal.nD Cert.KernelIdeal.τ).loc Cert.KernelIdeal.main_arg22)) := (decoded m h c).real22

/-- Every entry of argument 23 is a real number. -/
theorem real_arg23 (h : Cert.Pre_KernelIdeal m) (c : Dev Cert.KernelIdeal.nD) :
    AllReal (s := Cert.KernelIdeal.S64) (m ((c.tc : Thread Cert.KernelIdeal.nD Cert.KernelIdeal.τ).loc Cert.KernelIdeal.main_arg23)) := (decoded m h c).real23

/-- Every entry of argument 24 is a real number. -/
theorem real_arg24 (h : Cert.Pre_KernelIdeal m) (c : Dev Cert.KernelIdeal.nD) :
    AllReal (s := Cert.KernelIdeal.S64) (m ((c.tc : Thread Cert.KernelIdeal.nD Cert.KernelIdeal.τ).loc Cert.KernelIdeal.main_arg24)) := (decoded m h c).real24

end Memory

/-! ### The comparison bits of an index look-up -/

/-- A nonnegative word is not below zero: the bit of w < 0 is 0. -/
theorem slt_zero_bit {w : BitVec 32} (h0 : 0 ≤ w.toInt) : IntOp.cmpi .slt w 0#32 = 0#1 := by
  unfold IntOp.cmpi
  rw [ofBool_eq_zero]
  by_contra hc
  rw [Bool.not_eq_false, BitVec.slt_iff_toInt_lt, show (0#32 : BitVec 32).toInt = 0 from by decide] at hc
  omega

/-- A nonnegative word: the bit of 0 ≤ w is 1. -/
theorem sge_zero_bit {w : BitVec 32} (h0 : 0 ≤ w.toInt) : IntOp.cmpi .sge w 0#32 = 1#1 :=
  IntOp.cmpi_sge.2 (by rw [show (0#32 : BitVec 32).toInt = 0 from by decide]; exact h0)

/-- A word below n is at most the word n − 1: the bit of w ≤ n − 1 is 1. -/
theorem sle_pred_bit {w hi : BitVec 32} {n : Int} (hh : hi.toInt = n - 1) (h1 : w.toInt < n) :
    IntOp.cmpi .sle w hi = 1#1 := IntOp.cmpi_sle.2 (by rw [hh]; omega)

theorem sle_199999_bit {w : BitVec 32} (h1 : w.toInt < 200000) : IntOp.cmpi .sle w 199999#32 = 1#1 :=
  sle_pred_bit (n := 200000) (by decide) h1

theorem sle_59999_bit {w : BitVec 32} (h1 : w.toInt < 60000) : IntOp.cmpi .sle w 59999#32 = 1#1 :=
  sle_pred_bit (n := 60000) (by decide) h1

/-- A word below the word hi (signed): the bit of w < hi is 1. -/
theorem slt_bit {w hi : BitVec 32} {n : Int} (hh : hi.toInt = n) (h1 : w.toInt < n) :
    IntOp.cmpi .slt w hi = 1#1 := IntOp.cmpi_slt.2 (by rw [hh]; exact h1)

/-- A nonnegative word reads the same signed and unsigned. -/
theorem toInt_toNat {w : BitVec 32} (h0 : 0 ≤ w.toInt) : w.toInt.toNat = w.toNat := by
  have h2 : 2 * w.toNat < 2 ^ 32 := BitVec.toInt_pos_iff.1 h0
  rw [BitVec.toInt_eq_toNat_of_lt h2, Int.toNat_natCast]

/-- A word in [0, N) read signed, as a natural, is below N; clamping it into [0, N − 1] changes nothing. -/
theorem clamp_eq {w : BitVec 32} {N : Nat} (h0 : 0 ≤ w.toInt) (h1 : w.toInt < (N : Int)) :
    w.toInt.toNat < N ∧ min w.toInt.toNat (N - 1) = w.toInt.toNat := by
  have h2 : w.toInt.toNat < N := by omega
  exact ⟨h2, Nat.min_eq_left (by omega)⟩

/-- The wrapped index select (w < 0) (w + n) w of a nonnegative word is the word itself. -/
theorem wrap_eq {w alt : BitVec 32} (h0 : 0 ≤ w.toInt) : Scalar.select (IntOp.cmpi .slt w 0#32) alt w = w := by
  rw [slt_zero_bit h0]; rfl

/-- The in-bounds bit (0 ≤ w) and (w ≤ n − 1) of a word in [0, n) is 1. -/
theorem inbounds_bit {w hi : BitVec 32} {n : Int} (hh : hi.toInt = n - 1) (h0 : 0 ≤ w.toInt) (h1 : w.toInt < n) :
    IntOp.andi (IntOp.cmpi .sge w 0#32) (IntOp.cmpi .sle w hi) = 1#1 :=
  IntOp.andi_eq_one.2 ⟨sge_zero_bit h0, sle_pred_bit hh h1⟩

/-- Entrywise over an index array: the wrapped indices are the indices. -/
theorem wrap_eq_vec {s : Shape} (idx alt zero : IVec s 32) (hz : ∀ i, zero i = 0#32) (h0 : ∀ i, 0 ≤ (idx i).toInt) :
    select (cmpi .slt idx zero) alt idx = idx := by
  funext i
  show Scalar.select (IntOp.cmpi .slt (idx i) (zero i)) (alt i) (idx i) = idx i
  rw [hz i]; exact wrap_eq (h0 i)

/-- A left fold by and from 1 over 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl => by
    rw [List.foldl_cons]
    refine foldl_andi_one f l _ ?_ fun n hn => hl n (List.mem_cons_of_mem _ hn)
    rw [hi, hl a (List.mem_cons_self ..)]; decide

/-- An and-reduction from an initial 1 over entries that are all 1 is 1 at every result index. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl]
  exact foldl_andi_one x _ _ hinit fun n _ => hx n

/-- The validity mask of an index look-up — all, over the reduced axes, of (0 ≤ idx) and (idx ≤ n − 1) — is 1
    everywhere when every index lies in [0, n). -/
theorem valid_mask {s t : Shape} {axes : List (Fin s.rank)} (idx zero hi : IVec s 32) (n : Int)
    (hz : ∀ i, zero i = 0#32) (hh : ∀ i, (hi i).toInt = n - 1)
    (hidx : ∀ i, 0 ≤ (idx i).toInt ∧ (idx i).toInt < n) (h : s.ReducesTo axes t)
    (hu : 0 < (⟨0, ![]⟩ : Shape).numel) (j : t.Idx) :
    Host.reduce IntOp.andi (andi (cmpi .sge idx zero) (cmpi .sle idx hi)) (constantI ⟨0, ![]⟩ 1 1#1) h hu j = 1#1 := by
  refine reduce_andi_one _ _ h hu rfl (fun i => ?_) j
  show IntOp.andi (IntOp.cmpi .sge (idx i) (zero i)) (IntOp.cmpi .sle (idx i) (hi i)) = 1#1
  rw [hz i]; exact inbounds_bit (hh i) (hidx i).1 (hidx i).2

end Cert.Bridge.Pre
-- ==== Proof.KernelHostTake.lean ====
/-
  The host stretches of the program that look rows up by an index array, read as named functions of the buffers they
  read, at the ideal values.
-/
import proofs.«180908_j8211977470570_1_alg».proof.Proof.Gen.KernelIdeal.Launch
import proofs.«180908_j8211977470570_1_alg».proof.Proof.LibFiniteOps
import proofs.«180908_j8211977470570_1_alg».proof.Proof.PreDecode

set_option maxRecDepth 16384

noncomputable section

namespace Cert.KernelIdeal.Stage

open Cert.KernelIdeal Cert.KernelIdeal.Gen
open Idealize.ShloMosaic Idealize.ShloMosaic.TcCoe Idealize.ShloMosaic.StableHlo Idealize.SL.Sem
open LibFinite

/-! ### The typed references' transports are the identity at literal references -/

/-- Contents moved to a reference's own type and back are unchanged. -/
theorem ofBuf_toBuf {T : BufTy} (x : TRef sig T) (v : T.Contents (Elt Ideal)) : x.ofBuf (x.toBuf v) = v := by
  simp only [cast_cast, cast_eq]

theorem ofBuf_main_arg1 (h1 h2 h3) (v : (Proc.devRef .tc main_arg1 : DevRef τ sig).ty.Contents (Elt Ideal)) :
    (TRef.of (T := ⟨S200000x64, .f32⟩) main_arg1 h1 h2 h3).ofBuf v = v := rfl
theorem ofBuf_main_arg2 (h1 h2 h3) (v : (Proc.devRef .tc main_arg2 : DevRef τ sig).ty.Contents (Elt Ideal)) :
    (TRef.of (T := ⟨S27x40000, .i32⟩) main_arg2 h1 h2 h3).ofBuf v = v := rfl
theorem ofBuf_main_arg0 (h1 h2 h3) (v : (Proc.devRef .tc main_arg0 : DevRef τ sig).ty.Contents (Elt Ideal)) :
    (TRef.of (T := ⟨S60000x128, .f32⟩) main_arg0 h1 h2 h3).ofBuf v = v := rfl
theorem ofBuf_main_arg4 (h1 h2 h3) (v : (Proc.devRef .tc main_arg4 : DevRef τ sig).ty.Contents (Elt Ideal)) :
    (TRef.of (T := ⟨S27x25000, .i32⟩) main_arg4 h1 h2 h3).ofBuf v = v := rfl
theorem ofBuf_main_v27 (h1 h2 h3) (v : (Proc.devRef .tc main_v27 : DevRef τ sig).ty.Contents (Elt Ideal)) :
    (TRef.of (T := ⟨S60000x64, .f32⟩) main_v27 h1 h2 h3).ofBuf v = v := rfl
theorem ofBuf_main_arg5 (h1 h2 h3) (v : (Proc.devRef .tc main_arg5 : DevRef τ sig).ty.Contents (Elt Ideal)) :
    (TRef.of (T := ⟨S27x25000, .i32⟩) main_arg5 h1 h2 h3).ofBuf v = v := rfl
theorem ofBuf_main_v42 (h1 h2 h3) (v : (Proc.devRef .tc main_v42 : DevRef τ sig).ty.Contents (Elt Ideal)) :
    (TRef.of (T := ⟨S60000x64, .f32⟩) main_v42 h1 h2 h3).ofBuf v = v := rfl
theorem ofBuf_main_v53 (h1 h2 h3) (v : (Proc.devRef .tc main_v53 : DevRef τ sig).ty.Contents (Elt Ideal)) :
    (TRef.of (T := ⟨S60000x1, .f32⟩) main_v53 h1 h2 h3).ofBuf v = v := rfl
theorem ofBuf_main_arg3 (h1 h2 h3) (v : (Proc.devRef .tc main_arg3 : DevRef τ sig).ty.Contents (Elt Ideal)) :
    (TRef.of (T := ⟨S27x40000, .i32⟩) main_arg3 h1 h2 h3).ofBuf v = v := rfl
theorem toBuf_main_v0 (h1 h2 h3) (v : FVec Ideal S27x40000x64 .f32) :
    TRef.toBuf (Val := Elt Ideal) (TRef.of (T := ⟨S27x40000x64, .f32⟩) main_v0 h1 h2 h3) v = v := rfl
theorem toBuf_main_v14 (h1 h2 h3) (v : FVec Ideal S27x25000x128 .f32) :
    TRef.toBuf (Val := Elt Ideal) (TRef.of (T := ⟨S27x25000x128, .f32⟩) main_v14 h1 h2 h3) v = v := rfl
theorem toBuf_main_v28 (h1 h2 h3) (v : FVec Ideal S27x25000x64 .f32) :
    TRef.toBuf (Val := Elt Ideal) (TRef.of (T := ⟨S27x25000x64, .f32⟩) main_v28 h1 h2 h3) v = v := rfl
theorem toBuf_main_v43 (h1 h2 h3) (v : FVec Ideal S27x25000x64 .f32) :
    TRef.toBuf (Val := Elt Ideal) (TRef.of (T := ⟨S27x25000x64, .f32⟩) main_v43 h1 h2 h3) v = v := rfl
theorem toBuf_main_v54 (h1 h2 h3) (v : FVec Ideal S27x40000x1 .f32) :
    TRef.toBuf (Val := Elt Ideal) (TRef.of (T := ⟨S27x40000x1, .f32⟩) main_v54 h1 h2 h3) v = v := rfl

/-- A selection under a mask that is 1 everywhere is its first operand. -/
theorem select_of_mask_one {s : Shape} {α : Type} (m : IVec s 1) (a b : s.Idx → α) (hm : ∀ i, m i = 1#1) :
    select m a b = a := by
  funext i
  show Scalar.select (m i) (a i) (b i) = a i
  rw [hm i]; rfl

/-! ### take1: rows of S200000x64 by S27x40000 indices -/

/-- The index look-up of S200000x64 rows by a S27x40000 index array: negative indices wrapped by 200000, the range mask
    (0 ≤ i ≤ 199999, and-reduced over the unit axis), the gather, and the selection of the gathered entry against the
    not-a-number constant under the mask. -/
noncomputable def take1 (x : FVec Ideal S200000x64 .f32) (idx : IVec S27x40000 32) : FVec Ideal S27x40000x64 .f32 :=
  let c : IVec S_ 32 := constantI S_ 32 0#32
  let v0 : IVec S27x40000 32 := broadcastInDim S27x40000 ![] bcast_S_S27x40000 c
  let v1 : IVec S27x40000 1 := cmpi .slt idx v0
  let c_0 : IVec S_ 32 := constantI S_ 32 200000#32
  let v2 : IVec S27x40000 32 := broadcastInDim S27x40000 ![] bcast_S_S27x40000 c_0
  let v3 : IVec S27x40000 32 := addi idx v2
  let v4 : IVec S27x40000 32 := select v1 v3 idx
  let v5 : IVec S27x40000x1 32 := broadcastInDim S27x40000x1 ![0, 1] bcast_S27x40000_S27x40000x1_0_1 v4
  let c_1 : IVec S1 32 := constantI S1 32 199999#32
  let c_2 : IVec S_ 32 := constantI S_ 32 0#32
  let v6 : IVec S27x40000x1 32 := broadcastInDim S27x40000x1 ![] bcast_S_S27x40000x1 c_2
  let v7 : IVec S27x40000x1 1 := cmpi .sge v5 v6
  let v8 : IVec S1x1x1 32 := broadcastInDim S1x1x1 ![2] bcast_S1_S1x1x1_2 c_1
  let v9 : IVec S27x40000x1 32 := broadcastInDim S27x40000x1 ![0, 1, 2] bcast_S1x1x1_S27x40000x1_0_1_2 v8
  let v10 : IVec S27x40000x1 1 := cmpi .sle v5 v9
  let v11 : IVec S27x40000x1 1 := andi v7 v10
  let c_3 : IVec S_ 1 := constantI S_ 1 1#1
  let v12 : IVec S27x40000 1 := Host.reduce IntOp.andi v11 c_3 reducesTo_S27x40000x1_S27x40000_d2 h_S_
  let v13 : FVec Ideal S27x40000x64 .f32 := Host.gather gather_S200000x64_S27x40000x1_S27x40000x64_2_0_n_n_0_2_164 x v5
  let v14 : IVec S27x40000x64 1 := broadcastInDim S27x40000x64 ![0, 1] bcast_S27x40000_S27x40000x64_0_1 v12
  let cst : FVec Ideal S_ .f32 := constant (F := Ideal) S_ .f32 0x7FC00000#32
  let v15 : FVec Ideal S27x40000x64 .f32 := broadcastInDim S27x40000x64 ![] bcast_S_S27x40000x64 cst
  select v14 v13 v15

/-- With every index in [0, 200000) the look-up is the plain gather at those indices: no index is wrapped and the mask
    is 1 everywhere. -/
theorem take1_eq_gather (x : FVec Ideal S200000x64 .f32) (idx : IVec S27x40000 32)
    (hidx : ∀ i, 0 ≤ (idx i).toInt ∧ (idx i).toInt < 200000) :
    take1 x idx
      = Host.gather gather_S200000x64_S27x40000x1_S27x40000x64_2_0_n_n_0_2_164 x
          (broadcastInDim S27x40000x1 ![0, 1] bcast_S27x40000_S27x40000x1_0_1 idx) := by
  have hw : select (cmpi .slt idx (broadcastInDim S27x40000 ![] bcast_S_S27x40000 (constantI S_ 32 0#32)))
      (addi idx (broadcastInDim S27x40000 ![] bcast_S_S27x40000 (constantI S_ 32 200000#32))) idx = idx :=
    Cert.Bridge.Pre.wrap_eq_vec idx _ _ (fun _ => rfl) fun i => (hidx i).1
  have hmask : ∀ k, Host.reduce IntOp.andi
      (andi (cmpi .sge (broadcastInDim S27x40000x1 ![0, 1] bcast_S27x40000_S27x40000x1_0_1 idx)
          (broadcastInDim S27x40000x1 ![] bcast_S_S27x40000x1 (constantI S_ 32 0#32)))
        (cmpi .sle (broadcastInDim S27x40000x1 ![0, 1] bcast_S27x40000_S27x40000x1_0_1 idx)
          (broadcastInDim S27x40000x1 ![0, 1, 2] bcast_S1x1x1_S27x40000x1_0_1_2
            (broadcastInDim S1x1x1 ![2] bcast_S1_S1x1x1_2 (constantI S1 32 199999#32)))))
      (constantI S_ 1 1#1) reducesTo_S27x40000x1_S27x40000_d2 h_S_ k = 1#1 :=
    fun k => Cert.Bridge.Pre.valid_mask _ _ _ 200000 (fun _ => rfl) (fun _ => show (199999#32 : BitVec 32).toInt = 200000 - 1 by decide) (fun i => hidx _) _ _ k
  unfold take1
  dsimp only
  rw [hw]
  exact select_of_mask_one _ _ _ fun i => hmask _

/-- The look-up of a real array at indices in range is a real array. -/
theorem take1_allReal (x : FVec Ideal S200000x64 .f32) (idx : IVec S27x40000 32) (hx : AllReal x)
    (hidx : ∀ i, 0 ≤ (idx i).toInt ∧ (idx i).toInt < 200000) : AllReal (take1 x idx) := by
  rw [take1_eq_gather x idx hidx]
  exact allReal_gather _ hx _

set_option maxHeartbeats 4000000 in
/-- After the look-up's operations the result buffer holds the look-up of the two argument buffers. -/
theorem hostOps0_main_v0 (V : Valuation τ sig (Elt Ideal)) :
    StableHlo.after (hostOps0 (F := Ideal)) V (Proc.devRef .tc main_v0)
      = take1 (V (Proc.devRef .tc main_arg1)) (V (Proc.devRef .tc main_arg2)) := by
  after_results_simp
  simp only [ofBuf_toBuf, ofBuf_main_arg1, ofBuf_main_arg2, toBuf_main_v0]
  rfl

/-! ### take2: rows of S60000x128 by S27x25000 indices -/

/-- The index look-up of S60000x128 rows by a S27x25000 index array: negative indices wrapped by 60000, the range mask
    (0 ≤ i ≤ 59999, and-reduced over the unit axis), the gather, and the selection of the gathered entry against the
    not-a-number constant under the mask. -/
noncomputable def take2 (x : FVec Ideal S60000x128 .f32) (idx : IVec S27x25000 32) : FVec Ideal S27x25000x128 .f32 :=
  let c : IVec S_ 32 := constantI S_ 32 0#32
  let v0 : IVec S27x25000 32 := broadcastInDim S27x25000 ![] bcast_S_S27x25000 c
  let v1 : IVec S27x25000 1 := cmpi .slt idx v0
  let c_0 : IVec S_ 32 := constantI S_ 32 60000#32
  let v2 : IVec S27x25000 32 := broadcastInDim S27x25000 ![] bcast_S_S27x25000 c_0
  let v3 : IVec S27x25000 32 := addi idx v2
  let v4 : IVec S27x25000 32 := select v1 v3 idx
  let v5 : IVec S27x25000x1 32 := broadcastInDim S27x25000x1 ![0, 1] bcast_S27x25000_S27x25000x1_0_1 v4
  let c_1 : IVec S1 32 := constantI S1 32 59999#32
  let c_2 : IVec S_ 32 := constantI S_ 32 0#32
  let v6 : IVec S27x25000x1 32 := broadcastInDim S27x25000x1 ![] bcast_S_S27x25000x1 c_2
  let v7 : IVec S27x25000x1 1 := cmpi .sge v5 v6
  let v8 : IVec S1x1x1 32 := broadcastInDim S1x1x1 ![2] bcast_S1_S1x1x1_2 c_1
  let v9 : IVec S27x25000x1 32 := broadcastInDim S27x25000x1 ![0, 1, 2] bcast_S1x1x1_S27x25000x1_0_1_2 v8
  let v10 : IVec S27x25000x1 1 := cmpi .sle v5 v9
  let v11 : IVec S27x25000x1 1 := andi v7 v10
  let c_3 : IVec S_ 1 := constantI S_ 1 1#1
  let v12 : IVec S27x25000 1 := Host.reduce IntOp.andi v11 c_3 reducesTo_S27x25000x1_S27x25000_d2 h_S_
  let v13 : FVec Ideal S27x25000x128 .f32 := Host.gather gather_S60000x128_S27x25000x1_S27x25000x128_2_0_n_n_0_2_1128 x v5
  let v14 : IVec S27x25000x128 1 := broadcastInDim S27x25000x128 ![0, 1] bcast_S27x25000_S27x25000x128_0_1 v12
  let cst : FVec Ideal S_ .f32 := constant (F := Ideal) S_ .f32 0x7FC00000#32
  let v15 : FVec Ideal S27x25000x128 .f32 := broadcastInDim S27x25000x128 ![] bcast_S_S27x25000x128 cst
  select v14 v13 v15

/-- With every index in [0, 60000) the look-up is the plain gather at those indices: no index is wrapped and the mask
    is 1 everywhere. -/
theorem take2_eq_gather (x : FVec Ideal S60000x128 .f32) (idx : IVec S27x25000 32)
    (hidx : ∀ i, 0 ≤ (idx i).toInt ∧ (idx i).toInt < 60000) :
    take2 x idx
      = Host.gather gather_S60000x128_S27x25000x1_S27x25000x128_2_0_n_n_0_2_1128 x
          (broadcastInDim S27x25000x1 ![0, 1] bcast_S27x25000_S27x25000x1_0_1 idx) := by
  have hw : select (cmpi .slt idx (broadcastInDim S27x25000 ![] bcast_S_S27x25000 (constantI S_ 32 0#32)))
      (addi idx (broadcastInDim S27x25000 ![] bcast_S_S27x25000 (constantI S_ 32 60000#32))) idx = idx :=
    Cert.Bridge.Pre.wrap_eq_vec idx _ _ (fun _ => rfl) fun i => (hidx i).1
  have hmask : ∀ k, Host.reduce IntOp.andi
      (andi (cmpi .sge (broadcastInDim S27x25000x1 ![0, 1] bcast_S27x25000_S27x25000x1_0_1 idx)
          (broadcastInDim S27x25000x1 ![] bcast_S_S27x25000x1 (constantI S_ 32 0#32)))
        (cmpi .sle (broadcastInDim S27x25000x1 ![0, 1] bcast_S27x25000_S27x25000x1_0_1 idx)
          (broadcastInDim S27x25000x1 ![0, 1, 2] bcast_S1x1x1_S27x25000x1_0_1_2
            (broadcastInDim S1x1x1 ![2] bcast_S1_S1x1x1_2 (constantI S1 32 59999#32)))))
      (constantI S_ 1 1#1) reducesTo_S27x25000x1_S27x25000_d2 h_S_ k = 1#1 :=
    fun k => Cert.Bridge.Pre.valid_mask _ _ _ 60000 (fun _ => rfl) (fun _ => show (59999#32 : BitVec 32).toInt = 60000 - 1 by decide) (fun i => hidx _) _ _ k
  unfold take2
  dsimp only
  rw [hw]
  exact select_of_mask_one _ _ _ fun i => hmask _

/-- The look-up of a real array at indices in range is a real array. -/
theorem take2_allReal (x : FVec Ideal S60000x128 .f32) (idx : IVec S27x25000 32) (hx : AllReal x)
    (hidx : ∀ i, 0 ≤ (idx i).toInt ∧ (idx i).toInt < 60000) : AllReal (take2 x idx) := by
  rw [take2_eq_gather x idx hidx]
  exact allReal_gather _ hx _

set_option maxHeartbeats 4000000 in
/-- After the look-up's operations the result buffer holds the look-up of the two argument buffers. -/
theorem hostOps3_main_v14 (V : Valuation τ sig (Elt Ideal)) :
    StableHlo.after (hostOps3 (F := Ideal)) V (Proc.devRef .tc main_v14)
      = take2 (V (Proc.devRef .tc main_arg0)) (V (Proc.devRef .tc main_arg4)) := by
  after_results_simp
  simp only [ofBuf_toBuf, ofBuf_main_arg0, ofBuf_main_arg4, toBuf_main_v14]
  rfl

/-! ### take3: rows of S60000x64 by S27x25000 indices -/

/-- The index look-up of S60000x64 rows by a S27x25000 index array: negative indices wrapped by 60000, the range mask
    (0 ≤ i ≤ 59999, and-reduced over the unit axis), the gather, and the selection of the gathered entry against the
    not-a-number constant under the mask. -/
noncomputable def take3 (x : FVec Ideal S60000x64 .f32) (idx : IVec S27x25000 32) : FVec Ideal S27x25000x64 .f32 :=
  let c : IVec S_ 32 := constantI S_ 32 0#32
  let v0 : IVec S27x25000 32 := broadcastInDim S27x25000 ![] bcast_S_S27x25000 c
  let v1 : IVec S27x25000 1 := cmpi .slt idx v0
  let c_0 : IVec S_ 32 := constantI S_ 32 60000#32
  let v2 : IVec S27x25000 32 := broadcastInDim S27x25000 ![] bcast_S_S27x25000 c_0
  let v3 : IVec S27x25000 32 := addi idx v2
  let v4 : IVec S27x25000 32 := select v1 v3 idx
  let v5 : IVec S27x25000x1 32 := broadcastInDim S27x25000x1 ![0, 1] bcast_S27x25000_S27x25000x1_0_1 v4
  let c_1 : IVec S1 32 := constantI S1 32 59999#32
  let c_2 : IVec S_ 32 := constantI S_ 32 0#32
  let v6 : IVec S27x25000x1 32 := broadcastInDim S27x25000x1 ![] bcast_S_S27x25000x1 c_2
  let v7 : IVec S27x25000x1 1 := cmpi .sge v5 v6
  let v8 : IVec S1x1x1 32 := broadcastInDim S1x1x1 ![2] bcast_S1_S1x1x1_2 c_1
  let v9 : IVec S27x25000x1 32 := broadcastInDim S27x25000x1 ![0, 1, 2] bcast_S1x1x1_S27x25000x1_0_1_2 v8
  let v10 : IVec S27x25000x1 1 := cmpi .sle v5 v9
  let v11 : IVec S27x25000x1 1 := andi v7 v10
  let c_3 : IVec S_ 1 := constantI S_ 1 1#1
  let v12 : IVec S27x25000 1 := Host.reduce IntOp.andi v11 c_3 reducesTo_S27x25000x1_S27x25000_d2 h_S_
  let v13 : FVec Ideal S27x25000x64 .f32 := Host.gather gather_S60000x64_S27x25000x1_S27x25000x64_2_0_n_n_0_2_164 x v5
  let v14 : IVec S27x25000x64 1 := broadcastInDim S27x25000x64 ![0, 1] bcast_S27x25000_S27x25000x64_0_1 v12
  let cst : FVec Ideal S_ .f32 := constant (F := Ideal) S_ .f32 0x7FC00000#32
  let v15 : FVec Ideal S27x25000x64 .f32 := broadcastInDim S27x25000x64 ![] bcast_S_S27x25000x64 cst
  select v14 v13 v15

/-- With every index in [0, 60000) the look-up is the plain gather at those indices: no index is wrapped and the mask
    is 1 everywhere. -/
theorem take3_eq_gather (x : FVec Ideal S60000x64 .f32) (idx : IVec S27x25000 32)
    (hidx : ∀ i, 0 ≤ (idx i).toInt ∧ (idx i).toInt < 60000) :
    take3 x idx
      = Host.gather gather_S60000x64_S27x25000x1_S27x25000x64_2_0_n_n_0_2_164 x
          (broadcastInDim S27x25000x1 ![0, 1] bcast_S27x25000_S27x25000x1_0_1 idx) := by
  have hw : select (cmpi .slt idx (broadcastInDim S27x25000 ![] bcast_S_S27x25000 (constantI S_ 32 0#32)))
      (addi idx (broadcastInDim S27x25000 ![] bcast_S_S27x25000 (constantI S_ 32 60000#32))) idx = idx :=
    Cert.Bridge.Pre.wrap_eq_vec idx _ _ (fun _ => rfl) fun i => (hidx i).1
  have hmask : ∀ k, Host.reduce IntOp.andi
      (andi (cmpi .sge (broadcastInDim S27x25000x1 ![0, 1] bcast_S27x25000_S27x25000x1_0_1 idx)
          (broadcastInDim S27x25000x1 ![] bcast_S_S27x25000x1 (constantI S_ 32 0#32)))
        (cmpi .sle (broadcastInDim S27x25000x1 ![0, 1] bcast_S27x25000_S27x25000x1_0_1 idx)
          (broadcastInDim S27x25000x1 ![0, 1, 2] bcast_S1x1x1_S27x25000x1_0_1_2
            (broadcastInDim S1x1x1 ![2] bcast_S1_S1x1x1_2 (constantI S1 32 59999#32)))))
      (constantI S_ 1 1#1) reducesTo_S27x25000x1_S27x25000_d2 h_S_ k = 1#1 :=
    fun k => Cert.Bridge.Pre.valid_mask _ _ _ 60000 (fun _ => rfl) (fun _ => show (59999#32 : BitVec 32).toInt = 60000 - 1 by decide) (fun i => hidx _) _ _ k
  unfold take3
  dsimp only
  rw [hw]
  exact select_of_mask_one _ _ _ fun i => hmask _

/-- The look-up of a real array at indices in range is a real array. -/
theorem take3_allReal (x : FVec Ideal S60000x64 .f32) (idx : IVec S27x25000 32) (hx : AllReal x)
    (hidx : ∀ i, 0 ≤ (idx i).toInt ∧ (idx i).toInt < 60000) : AllReal (take3 x idx) := by
  rw [take3_eq_gather x idx hidx]
  exact allReal_gather _ hx _

set_option maxHeartbeats 4000000 in
/-- After the look-up's operations the result buffer holds the look-up of the two argument buffers. -/
theorem hostOps6_main_v28 (V : Valuation τ sig (Elt Ideal)) :
    StableHlo.after (hostOps6 (F := Ideal)) V (Proc.devRef .tc main_v28)
      = take3 (V (Proc.devRef .tc main_v27)) (V (Proc.devRef .tc main_arg5)) := by
  after_results_simp
  simp only [ofBuf_toBuf, ofBuf_main_v27, ofBuf_main_arg5, toBuf_main_v28]
  rfl

set_option maxHeartbeats 4000000 in
/-- After the look-up's operations the result buffer holds the look-up of the two argument buffers. -/
theorem hostOps9_1_main_v43 (V : Valuation τ sig (Elt Ideal)) :
    StableHlo.after (hostOps9_1 (F := Ideal)) V (Proc.devRef .tc main_v43)
      = take3 (V (Proc.devRef .tc main_v42)) (V (Proc.devRef .tc main_arg4)) := by
  after_results_simp
  simp only [ofBuf_toBuf, ofBuf_main_v42, ofBuf_main_arg4, toBuf_main_v43]
  rfl

/-! ### take5: rows of S60000x1 by S27x40000 indices -/

/-- The index look-up of S60000x1 rows by a S27x40000 index array: negative indices wrapped by 60000, the range mask
    (0 ≤ i ≤ 59999, and-reduced over the unit axis), the gather, and the selection of the gathered entry against the
    not-a-number constant under the mask. -/
noncomputable def take5 (x : FVec Ideal S60000x1 .f32) (idx : IVec S27x40000 32) : FVec Ideal S27x40000x1 .f32 :=
  let c : IVec S_ 32 := constantI S_ 32 0#32
  let v0 : IVec S27x40000 32 := broadcastInDim S27x40000 ![] bcast_S_S27x40000 c
  let v1 : IVec S27x40000 1 := cmpi .slt idx v0
  let c_0 : IVec S_ 32 := constantI S_ 32 60000#32
  let v2 : IVec S27x40000 32 := broadcastInDim S27x40000 ![] bcast_S_S27x40000 c_0
  let v3 : IVec S27x40000 32 := addi idx v2
  let v4 : IVec S27x40000 32 := select v1 v3 idx
  let v5 : IVec S27x40000x1 32 := broadcastInDim S27x40000x1 ![0, 1] bcast_S27x40000_S27x40000x1_0_1 v4
  let c_1 : IVec S1 32 := constantI S1 32 59999#32
  let c_2 : IVec S_ 32 := constantI S_ 32 0#32
  let v6 : IVec S27x40000x1 32 := broadcastInDim S27x40000x1 ![] bcast_S_S27x40000x1 c_2
  let v7 : IVec S27x40000x1 1 := cmpi .sge v5 v6
  let v8 : IVec S1x1x1 32 := broadcastInDim S1x1x1 ![2] bcast_S1_S1x1x1_2 c_1
  let v9 : IVec S27x40000x1 32 := broadcastInDim S27x40000x1 ![0, 1, 2] bcast_S1x1x1_S27x40000x1_0_1_2 v8
  let v10 : IVec S27x40000x1 1 := cmpi .sle v5 v9
  let v11 : IVec S27x40000x1 1 := andi v7 v10
  let c_3 : IVec S_ 1 := constantI S_ 1 1#1
  let v12 : IVec S27x40000 1 := Host.reduce IntOp.andi v11 c_3 reducesTo_S27x40000x1_S27x40000_d2 h_S_
  let v13 : FVec Ideal S27x40000x1 .f32 := Host.gather gather_S60000x1_S27x40000x1_S27x40000x1_2_0_n_n_0_2_11 x v5
  let v14 : IVec S27x40000x1 1 := broadcastInDim S27x40000x1 ![0, 1] bcast_S27x40000_S27x40000x1_0_1 v12
  let cst : FVec Ideal S_ .f32 := constant (F := Ideal) S_ .f32 0x7FC00000#32
  let v15 : FVec Ideal S27x40000x1 .f32 := broadcastInDim S27x40000x1 ![] bcast_S_S27x40000x1 cst
  select v14 v13 v15

/-- With every index in [0, 60000) the look-up is the plain gather at those indices: no index is wrapped and the mask
    is 1 everywhere. -/
theorem take5_eq_gather (x : FVec Ideal S60000x1 .f32) (idx : IVec S27x40000 32)
    (hidx : ∀ i, 0 ≤ (idx i).toInt ∧ (idx i).toInt < 60000) :
    take5 x idx
      = Host.gather gather_S60000x1_S27x40000x1_S27x40000x1_2_0_n_n_0_2_11 x
          (broadcastInDim S27x40000x1 ![0, 1] bcast_S27x40000_S27x40000x1_0_1 idx) := by
  have hw : select (cmpi .slt idx (broadcastInDim S27x40000 ![] bcast_S_S27x40000 (constantI S_ 32 0#32)))
      (addi idx (broadcastInDim S27x40000 ![] bcast_S_S27x40000 (constantI S_ 32 60000#32))) idx = idx :=
    Cert.Bridge.Pre.wrap_eq_vec idx _ _ (fun _ => rfl) fun i => (hidx i).1
  have hmask : ∀ k, Host.reduce IntOp.andi
      (andi (cmpi .sge (broadcastInDim S27x40000x1 ![0, 1] bcast_S27x40000_S27x40000x1_0_1 idx)
          (broadcastInDim S27x40000x1 ![] bcast_S_S27x40000x1 (constantI S_ 32 0#32)))
        (cmpi .sle (broadcastInDim S27x40000x1 ![0, 1] bcast_S27x40000_S27x40000x1_0_1 idx)
          (broadcastInDim S27x40000x1 ![0, 1, 2] bcast_S1x1x1_S27x40000x1_0_1_2
            (broadcastInDim S1x1x1 ![2] bcast_S1_S1x1x1_2 (constantI S1 32 59999#32)))))
      (constantI S_ 1 1#1) reducesTo_S27x40000x1_S27x40000_d2 h_S_ k = 1#1 :=
    fun k => Cert.Bridge.Pre.valid_mask _ _ _ 60000 (fun _ => rfl) (fun _ => show (59999#32 : BitVec 32).toInt = 60000 - 1 by decide) (fun i => hidx _) _ _ k
  unfold take5
  dsimp only
  rw [hw]
  exact select_of_mask_one _ _ _ fun i => hmask _

/-- The look-up of a real array at indices in range is a real array. -/
theorem take5_allReal (x : FVec Ideal S60000x1 .f32) (idx : IVec S27x40000 32) (hx : AllReal x)
    (hidx : ∀ i, 0 ≤ (idx i).toInt ∧ (idx i).toInt < 60000) : AllReal (take5 x idx) := by
  rw [take5_eq_gather x idx hidx]
  exact allReal_gather _ hx _

set_option maxHeartbeats 4000000 in
/-- After the look-up's operations the result buffer holds the look-up of the two argument buffers. -/
theorem hostOps12_main_v54 (V : Valuation τ sig (Elt Ideal)) :
    StableHlo.after (hostOps12 (F := Ideal)) V (Proc.devRef .tc main_v54)
      = take5 (V (Proc.devRef .tc main_v53)) (V (Proc.devRef .tc main_arg3)) := by
  after_results_simp
  simp only [ofBuf_toBuf, ofBuf_main_v53, ofBuf_main_arg3, toBuf_main_v54]
  rfl

end Cert.KernelIdeal.Stage

end
-- ==== Proof.KernelHostPre.lean ====
/-
  The host stretches of the program that scatter messages into rows, add two arrays, and reshape a channel vector to a row, read as named functions of the buffers they
  read, at the ideal values.
-/
import proofs.«180908_j8211977470570_1_alg».proof.Proof.Gen.KernelIdeal.Launch
import proofs.«180908_j8211977470570_1_alg».proof.Proof.LibFiniteOps

set_option maxRecDepth 16384

noncomputable section

namespace Cert.KernelIdeal.Stage

open Cert.KernelIdeal Cert.KernelIdeal.Gen
open Idealize.ShloMosaic Idealize.ShloMosaic.TcCoe Idealize.ShloMosaic.StableHlo Idealize.SL.Sem
open LibFinite

/-- A channel vector as a one-row matrix. -/
noncomputable def row64 (g : FVec Ideal S64 .f32) : FVec Ideal S1x64 .f32 := shapeCast S1x64 g shapeCasts_S64_S1x64

/-- A one-entry vector as a one-by-one matrix. -/
noncomputable def row1 (g : FVec Ideal S1 .f32) : FVec Ideal S1x1 .f32 := shapeCast S1x1 g shapeCasts_S1_S1x1

theorem row64_allReal (g : FVec Ideal S64 .f32) (hg : AllReal g) : AllReal (row64 g) := allReal_shapeCast hg _ _
theorem row1_allReal (g : FVec Ideal S1 .f32) (hg : AllReal g) : AllReal (row1 g) := allReal_shapeCast hg _ _

/-! ### pre1 -/

/-- The scatter stage into S60000x64: the S27x40000x64 messages flattened to rows, the S27x40000 destinations flattened to a column of
    row indices, scatter-added into zeros, and the bias row added to every row. -/
noncomputable def pre1 (msg : FVec Ideal S27x40000x64 .f32) (dst : IVec S27x40000 32) (bias : FVec Ideal S64 .f32) :
    FVec Ideal S60000x64 .f32 :=
  let v2 : FVec Ideal S1080000x64 .f32 := shapeCast S1080000x64 msg shapeCasts_S27x40000x64_S1080000x64
  let v3 : IVec S1080000 32 := shapeCast S1080000 dst shapeCasts_S27x40000_S1080000
  let cst : FVec Ideal S_ .f32 := constant (F := Ideal) S_ .f32 0x00000000#32
  let v4 : FVec Ideal S60000x64 .f32 := broadcastInDim S60000x64 ![] bcast_S_S60000x64 cst
  let v5 : IVec S1080000x1 32 := broadcastInDim S1080000x1 ![0] bcast_S1080000_S1080000x1_0 v3
  let v6 : FVec Ideal S60000x64 .f32 := Host.scatterAdd scatter_S60000x64_S1080000x1_S1080000x64_1_0_0_1 v4 v5 v2
  let v7 : FVec Ideal S1x64 .f32 := broadcastInDim S1x64 ![1] bcast_S64_S1x64_1 bias
  let v8 : FVec Ideal S60000x64 .f32 := broadcastInDim S60000x64 ![0, 1] bcast_S1x64_S60000x64_0_1 v7
  addf v6 v8

/-- The stage of real messages and a real bias is real, whatever the destinations. -/
theorem pre1_allReal (msg : FVec Ideal S27x40000x64 .f32) (dst : IVec S27x40000 32) (bias : FVec Ideal S64 .f32)
    (hmsg : AllReal msg) (hbias : AllReal bias) : AllReal (pre1 msg dst bias) := by
  unfold pre1
  dsimp only
  exact allReal_addf
    (allReal_scatterAdd _ (allReal_broadcastInDim (allReal_constant_zero_f32 S_) _ _ _) _ (allReal_shapeCast hmsg _ _))
    (allReal_broadcastInDim (allReal_broadcastInDim hbias _ _ _) _ _ _)

attribute [local irreducible] Host.scatterAdd in
set_option maxHeartbeats 4000000 in
/-- After the stage's operations its result buffer holds the stage of the buffers it reads. -/
theorem hostOps1_main_v9 (V : Valuation τ sig (Elt Ideal)) :
    StableHlo.after (hostOps1 (F := Ideal)) V (Proc.devRef .tc main_v9)
      = pre1 (V (Proc.devRef .tc main_v1)) (V (Proc.devRef .tc main_arg3)) (V (Proc.devRef .tc main_arg7)) := by
  after_results_simp
  rfl

/-! ### pre2 -/

/-- The scatter stage into S60000x64: the S27x25000x64 messages flattened to rows, the S27x25000 destinations flattened to a column of
    row indices, scatter-added into zeros, and the bias row added to every row. -/
noncomputable def pre2 (msg : FVec Ideal S27x25000x64 .f32) (dst : IVec S27x25000 32) (bias : FVec Ideal S64 .f32) :
    FVec Ideal S60000x64 .f32 :=
  let v2 : FVec Ideal S675000x64 .f32 := shapeCast S675000x64 msg shapeCasts_S27x25000x64_S675000x64
  let v3 : IVec S675000 32 := shapeCast S675000 dst shapeCasts_S27x25000_S675000
  let cst : FVec Ideal S_ .f32 := constant (F := Ideal) S_ .f32 0x00000000#32
  let v4 : FVec Ideal S60000x64 .f32 := broadcastInDim S60000x64 ![] bcast_S_S60000x64 cst
  let v5 : IVec S675000x1 32 := broadcastInDim S675000x1 ![0] bcast_S675000_S675000x1_0 v3
  let v6 : FVec Ideal S60000x64 .f32 := Host.scatterAdd scatter_S60000x64_S675000x1_S675000x64_1_0_0_1 v4 v5 v2
  let v7 : FVec Ideal S1x64 .f32 := broadcastInDim S1x64 ![1] bcast_S64_S1x64_1 bias
  let v8 : FVec Ideal S60000x64 .f32 := broadcastInDim S60000x64 ![0, 1] bcast_S1x64_S60000x64_0_1 v7
  addf v6 v8

/-- The stage of real messages and a real bias is real, whatever the destinations. -/
theorem pre2_allReal (msg : FVec Ideal S27x25000x64 .f32) (dst : IVec S27x25000 32) (bias : FVec Ideal S64 .f32)
    (hmsg : AllReal msg) (hbias : AllReal bias) : AllReal (pre2 msg dst bias) := by
  unfold pre2
  dsimp only
  exact allReal_addf
    (allReal_scatterAdd _ (allReal_broadcastInDim (allReal_constant_zero_f32 S_) _ _ _) _ (allReal_shapeCast hmsg _ _))
    (allReal_broadcastInDim (allReal_broadcastInDim hbias _ _ _) _ _ _)

attribute [local irreducible] Host.scatterAdd in
set_option maxHeartbeats 4000000 in
/-- After the stage's operations its result buffer holds the stage of the buffers it reads. -/
theorem hostOps4_main_v23 (V : Valuation τ sig (Elt Ideal)) :
    StableHlo.after (hostOps4 (F := Ideal)) V (Proc.devRef .tc main_v23)
      = pre2 (V (Proc.devRef .tc main_v15)) (V (Proc.devRef .tc main_arg5)) (V (Proc.devRef .tc main_arg9)) := by
  after_results_simp
  rfl

attribute [local irreducible] Host.scatterAdd in
set_option maxHeartbeats 4000000 in
/-- After the stage's operations its result buffer holds the stage of the buffers it reads. -/
theorem hostOps7_main_v37 (V : Valuation τ sig (Elt Ideal)) :
    StableHlo.after (hostOps7 (F := Ideal)) V (Proc.devRef .tc main_v37)
      = pre2 (V (Proc.devRef .tc main_v29)) (V (Proc.devRef .tc main_arg4)) (V (Proc.devRef .tc main_arg11)) := by
  after_results_simp
  rfl

/-! ### pre4 -/

/-- The scatter stage into S60000x1: the S27x25000x1 messages flattened to rows, the S27x25000 destinations flattened to a column of
    row indices, scatter-added into zeros. -/
noncomputable def pre4 (msg : FVec Ideal S27x25000x1 .f32) (dst : IVec S27x25000 32) :
    FVec Ideal S60000x1 .f32 :=
  let v2 : FVec Ideal S675000x1 .f32 := shapeCast S675000x1 msg shapeCasts_S27x25000x1_S675000x1
  let v3 : IVec S675000 32 := shapeCast S675000 dst shapeCasts_S27x25000_S675000
  let cst : FVec Ideal S_ .f32 := constant (F := Ideal) S_ .f32 0x00000000#32
  let v4 : FVec Ideal S60000x1 .f32 := broadcastInDim S60000x1 ![] bcast_S_S60000x1 cst
  let v5 : IVec S675000x1 32 := broadcastInDim S675000x1 ![0] bcast_S675000_S675000x1_0 v3
  Host.scatterAdd scatter_S60000x1_S675000x1_S675000x1_1_0_0_1 v4 v5 v2

/-- The stage of real messages is real, whatever the destinations. -/
theorem pre4_allReal (msg : FVec Ideal S27x25000x1 .f32) (dst : IVec S27x25000 32)
    (hmsg : AllReal msg) : AllReal (pre4 msg dst) := by
  unfold pre4
  dsimp only
  exact allReal_scatterAdd _ (allReal_broadcastInDim (allReal_constant_zero_f32 S_) _ _ _) _ (allReal_shapeCast hmsg _ _)

attribute [local irreducible] Host.scatterAdd in
set_option maxHeartbeats 4000000 in
/-- After the stage's operations its result buffer holds the stage of the buffers it reads. -/
theorem hostOps10_main_v49 (V : Valuation τ sig (Elt Ideal)) :
    StableHlo.after (hostOps10 (F := Ideal)) V (Proc.devRef .tc main_v49)
      = pre4 (V (Proc.devRef .tc main_v44)) (V (Proc.devRef .tc main_arg5)) := by
  after_results_simp
  rfl

/-! ### pre5 -/

/-- The scatter stage into S200000x64: the S27x40000x64 messages flattened to rows, the S27x40000 destinations flattened to a column of
    row indices, scatter-added into zeros, and the bias row added to every row. -/
noncomputable def pre5 (msg : FVec Ideal S27x40000x64 .f32) (dst : IVec S27x40000 32) (bias : FVec Ideal S64 .f32) :
    FVec Ideal S200000x64 .f32 :=
  let v2 : FVec Ideal S1080000x64 .f32 := shapeCast S1080000x64 msg shapeCasts_S27x40000x64_S1080000x64
  let v3 : IVec S1080000 32 := shapeCast S1080000 dst shapeCasts_S27x40000_S1080000
  let cst : FVec Ideal S_ .f32 := constant (F := Ideal) S_ .f32 0x00000000#32
  let v4 : FVec Ideal S200000x64 .f32 := broadcastInDim S200000x64 ![] bcast_S_S200000x64 cst
  let v5 : IVec S1080000x1 32 := broadcastInDim S1080000x1 ![0] bcast_S1080000_S1080000x1_0 v3
  let v6 : FVec Ideal S200000x64 .f32 := Host.scatterAdd scatter_S200000x64_S1080000x1_S1080000x64_1_0_0_1 v4 v5 v2
  let v7 : FVec Ideal S1x64 .f32 := broadcastInDim S1x64 ![1] bcast_S64_S1x64_1 bias
  let v8 : FVec Ideal S200000x64 .f32 := broadcastInDim S200000x64 ![0, 1] bcast_S1x64_S200000x64_0_1 v7
  addf v6 v8

/-- The stage of real messages and a real bias is real, whatever the destinations. -/
theorem pre5_allReal (msg : FVec Ideal S27x40000x64 .f32) (dst : IVec S27x40000 32) (bias : FVec Ideal S64 .f32)
    (hmsg : AllReal msg) (hbias : AllReal bias) : AllReal (pre5 msg dst bias) := by
  unfold pre5
  dsimp only
  exact allReal_addf
    (allReal_scatterAdd _ (allReal_broadcastInDim (allReal_constant_zero_f32 S_) _ _ _) _ (allReal_shapeCast hmsg _ _))
    (allReal_broadcastInDim (allReal_broadcastInDim hbias _ _ _) _ _ _)

attribute [local irreducible] Host.scatterAdd in
set_option maxHeartbeats 4000000 in
/-- After the stage's operations its result buffer holds the stage of the buffers it reads. -/
theorem hostOps13_main_v63 (V : Valuation τ sig (Elt Ideal)) :
    StableHlo.after (hostOps13 (F := Ideal)) V (Proc.devRef .tc main_v63)
      = pre5 (V (Proc.devRef .tc main_v55)) (V (Proc.devRef .tc main_arg2)) (V (Proc.devRef .tc main_arg14)) := by
  after_results_simp
  rfl

/-! ### The reshaped scale and shift vectors -/

set_option maxHeartbeats 4000000 in
theorem hostOps1_main_v10 (V : Valuation τ sig (Elt Ideal)) :
    StableHlo.after (hostOps1 (F := Ideal)) V (Proc.devRef .tc main_v10) = row64 (V (Proc.devRef .tc main_arg15)) := by
  after_results_simp
  rfl

set_option maxHeartbeats 4000000 in
theorem hostOps1_main_v11 (V : Valuation τ sig (Elt Ideal)) :
    StableHlo.after (hostOps1 (F := Ideal)) V (Proc.devRef .tc main_v11) = row64 (V (Proc.devRef .tc main_arg16)) := by
  after_results_simp
  rfl

set_option maxHeartbeats 4000000 in
theorem hostOps4_main_v24 (V : Valuation τ sig (Elt Ideal)) :
    StableHlo.after (hostOps4 (F := Ideal)) V (Proc.devRef .tc main_v24) = row64 (V (Proc.devRef .tc main_arg17)) := by
  after_results_simp
  rfl

set_option maxHeartbeats 4000000 in
theorem hostOps4_main_v25 (V : Valuation τ sig (Elt Ideal)) :
    StableHlo.after (hostOps4 (F := Ideal)) V (Proc.devRef .tc main_v25) = row64 (V (Proc.devRef .tc main_arg18)) := by
  after_results_simp
  rfl

set_option maxHeartbeats 4000000 in
theorem hostOps7_main_v38 (V : Valuation τ sig (Elt Ideal)) :
    StableHlo.after (hostOps7 (F := Ideal)) V (Proc.devRef .tc main_v38) = row64 (V (Proc.devRef .tc main_arg19)) := by
  after_results_simp
  rfl

set_option maxHeartbeats 4000000 in
theorem hostOps7_main_v39 (V : Valuation τ sig (Elt Ideal)) :
    StableHlo.after (hostOps7 (F := Ideal)) V (Proc.devRef .tc main_v39) = row64 (V (Proc.devRef .tc main_arg20)) := by
  after_results_simp
  rfl

set_option maxHeartbeats 4000000 in
theorem hostOps10_main_v50 (V : Valuation τ sig (Elt Ideal)) :
    StableHlo.after (hostOps10 (F := Ideal)) V (Proc.devRef .tc main_v50) = row1 (V (Proc.devRef .tc main_arg21)) := by
  after_results_simp
  rfl

set_option maxHeartbeats 4000000 in
theorem hostOps10_main_v51 (V : Valuation τ sig (Elt Ideal)) :
    StableHlo.after (hostOps10 (F := Ideal)) V (Proc.devRef .tc main_v51) = row1 (V (Proc.devRef .tc main_arg22)) := by
  after_results_simp
  rfl

set_option maxHeartbeats 4000000 in
theorem hostOps13_main_v64 (V : Valuation τ sig (Elt Ideal)) :
    StableHlo.after (hostOps13 (F := Ideal)) V (Proc.devRef .tc main_v64) = row64 (V (Proc.devRef .tc main_arg23)) := by
  after_results_simp
  rfl

set_option maxHeartbeats 4000000 in
theorem hostOps13_main_v65 (V : Valuation τ sig (Elt Ideal)) :
    StableHlo.after (hostOps13 (F := Ideal)) V (Proc.devRef .tc main_v65) = row64 (V (Proc.devRef .tc main_arg24)) := by
  after_results_simp
  rfl

/-! ### The sum of two branches -/

set_option maxHeartbeats 4000000 in
theorem hostOps9_main_v42 (V : Valuation τ sig (Elt Ideal)) :
    StableHlo.after (hostOps9 (F := Ideal)) V (Proc.devRef .tc main_v42)
      = addf (F := Ideal) (s := S60000x64) (φ := .f32) (V (Proc.devRef .tc main_v41)) (V (Proc.devRef .tc main_v13)) := by
  after_results_simp

end Cert.KernelIdeal.Stage

end
-- ==== Proof.StatsForms.lean ====
/-
  The column statistics of a matrix as the statistics regions leave them: for each channel the sum over all rows times
  the reciprocal of the row count, and the mean of squares minus the squared mean.
-/
import proofs.«180908_j8211977470570_1_alg».proof.KernelIdeal
import Idealize.ShloMosaic.Lib.ValueIdx
import Idealize.ShloMosaic.PureOps.Ideal

noncomputable section

namespace Cert.KernelIdeal.Vals

open Idealize.ShloMosaic Idealize.ShloMosaic.ValueIdx Cert.KernelIdeal

/-- The column means of a 60000×64 matrix, as a 1×64 row. -/
def kmeanA (x : S60000x64.Idx → EReal) : S1x64.Idx → EReal :=
  fun j => (∑ i : Fin 60000, x (ix2 i (j 1 : Fin 64))) * ((1 / (60000 : ℝ) : ℝ) : EReal)
/-- The column variances (mean of squares minus squared mean) of a 60000×64 matrix, as a 1×64 row. -/
def kvarA (x : S60000x64.Idx → EReal) : S1x64.Idx → EReal :=
  fun j => (∑ i : Fin 60000, x (ix2 i (j 1 : Fin 64)) * x (ix2 i (j 1 : Fin 64))) * ((1 / (60000 : ℝ) : ℝ) : EReal)
    - ((∑ i : Fin 60000, x (ix2 i (j 1 : Fin 64))) * ((1 / (60000 : ℝ) : ℝ) : EReal))
      * ((∑ i : Fin 60000, x (ix2 i (j 1 : Fin 64))) * ((1 / (60000 : ℝ) : ℝ) : EReal))
/-- The same of a 60000×1 matrix. -/
def kmeanB (x : S60000x1.Idx → EReal) : S1x1.Idx → EReal :=
  fun j => (∑ i : Fin 60000, x (ix2 i (j 1 : Fin 1))) * ((1 / (60000 : ℝ) : ℝ) : EReal)
def kvarB (x : S60000x1.Idx → EReal) : S1x1.Idx → EReal :=
  fun j => (∑ i : Fin 60000, x (ix2 i (j 1 : Fin 1)) * x (ix2 i (j 1 : Fin 1))) * ((1 / (60000 : ℝ) : ℝ) : EReal)
    - ((∑ i : Fin 60000, x (ix2 i (j 1 : Fin 1))) * ((1 / (60000 : ℝ) : ℝ) : EReal))
      * ((∑ i : Fin 60000, x (ix2 i (j 1 : Fin 1))) * ((1 / (60000 : ℝ) : ℝ) : EReal))
/-- The same of a 200000×64 matrix. -/
def kmeanC (x : S200000x64.Idx → EReal) : S1x64.Idx → EReal :=
  fun j => (∑ i : Fin 200000, x (ix2 i (j 1 : Fin 64))) * ((1 / (200000 : ℝ) : ℝ) : EReal)
def kvarC (x : S200000x64.Idx → EReal) : S1x64.Idx → EReal :=
  fun j => (∑ i : Fin 200000, x (ix2 i (j 1 : Fin 64)) * x (ix2 i (j 1 : Fin 64))) * ((1 / (200000 : ℝ) : ℝ) : EReal)
    - ((∑ i : Fin 200000, x (ix2 i (j 1 : Fin 64))) * ((1 / (200000 : ℝ) : ℝ) : EReal))
      * ((∑ i : Fin 200000, x (ix2 i (j 1 : Fin 64))) * ((1 / (200000 : ℝ) : ℝ) : EReal))

end Cert.KernelIdeal.Vals

end
-- ==== Proof.KernelChainStages.lean ====
/-
  The program's stages as functions of its argument arrays alone. Each stage is: look rows up by an edge list, multiply
  slab by slab by a weight array, sum the products into their destination rows and add a bias (the stage's
  pre-normalisation value `x`), then normalise every column by its own mean and variance, scale, shift and activate
  (the stage's value `y`). Stage 3 reads stage 2, stage 4 reads the sum of stages 3 and 1, stage 5 reads stage 4.
-/
import proofs.«180908_j8211977470570_1_alg».proof.Proof.KernelHostTake
import proofs.«180908_j8211977470570_1_alg».proof.Proof.KernelHostPre
import proofs.«180908_j8211977470570_1_alg».proof.Proof.StatsForms
import proofs.«180908_j8211977470570_1_alg».proof.Proof.MatmulValue0
import proofs.«180908_j8211977470570_1_alg».proof.Proof.MatmulValue3
import proofs.«180908_j8211977470570_1_alg».proof.Proof.MatmulValue6
import proofs.«180908_j8211977470570_1_alg».proof.Proof.MatmulValue9
import proofs.«180908_j8211977470570_1_alg».proof.Proof.MatmulValue12
import proofs.«180908_j8211977470570_1_alg».proof.Proof.NormValue2
import proofs.«180908_j8211977470570_1_alg».proof.Proof.NormValue5
import proofs.«180908_j8211977470570_1_alg».proof.Proof.NormValue8
import proofs.«180908_j8211977470570_1_alg».proof.Proof.NormValue11
import proofs.«180908_j8211977470570_1_alg».proof.Proof.NormValue14

noncomputable section

namespace Cert.KernelIdeal.Chain

open Cert.KernelIdeal Cert.KernelIdeal.Vals Cert.KernelIdeal.Stage
open Idealize.ShloMosaic

/-- Stage 1 before normalisation: rows of the first feature array looked up by the first edge list, multiplied slab by slab by the first weights, summed into their destination rows, plus the bias. -/
def x1 (A1 : FVec Ideal S200000x64 .f32) (A2 : IVec S27x40000 32) (A3 : IVec S27x40000 32) (A6 : FVec Ideal S27x64x64 .f32) (A7 : FVec Ideal S64 .f32) : FVec Ideal S60000x64 .f32 :=
  pre1 (mm0 (take1 A1 A2) A6) A3 A7

/-- Stage 1: the batch-normalised, leaky-rectified `x1`, its column statistics its own. -/
def y1 (A1 : FVec Ideal S200000x64 .f32) (A2 : IVec S27x40000 32) (A3 : IVec S27x40000 32) (A6 : FVec Ideal S27x64x64 .f32) (A7 : FVec Ideal S64 .f32) (A15 : FVec Ideal S64 .f32) (A16 : FVec Ideal S64 .f32) : FVec Ideal S60000x64 .f32 :=
  bnAct2 (x1 A1 A2 A3 A6 A7) (kmeanA (x1 A1 A2 A3 A6 A7)) (kvarA (x1 A1 A2 A3 A6 A7)) (row64 A15) (row64 A16)

/-- Stage 2 before normalisation: the same from the second feature array, the second edge lists and weights. -/
def x2 (A0 : FVec Ideal S60000x128 .f32) (A4 : IVec S27x25000 32) (A5 : IVec S27x25000 32) (A8 : FVec Ideal S27x128x64 .f32) (A9 : FVec Ideal S64 .f32) : FVec Ideal S60000x64 .f32 :=
  pre2 (mm3 (take2 A0 A4) A8) A5 A9

/-- Stage 2: the batch-normalised, leaky-rectified `x2`. -/
def y2 (A0 : FVec Ideal S60000x128 .f32) (A4 : IVec S27x25000 32) (A5 : IVec S27x25000 32) (A8 : FVec Ideal S27x128x64 .f32) (A9 : FVec Ideal S64 .f32) (A17 : FVec Ideal S64 .f32) (A18 : FVec Ideal S64 .f32) : FVec Ideal S60000x64 .f32 :=
  bnAct5 (x2 A0 A4 A5 A8 A9) (kmeanA (x2 A0 A4 A5 A8 A9)) (kvarA (x2 A0 A4 A5 A8 A9)) (row64 A17) (row64 A18)

/-- Stage 3 before normalisation: the same from the stage-2 result. -/
def x3 (A0 : FVec Ideal S60000x128 .f32) (A4 : IVec S27x25000 32) (A5 : IVec S27x25000 32) (A8 : FVec Ideal S27x128x64 .f32) (A9 : FVec Ideal S64 .f32) (A10 : FVec Ideal S27x64x64 .f32) (A11 : FVec Ideal S64 .f32) (A17 : FVec Ideal S64 .f32) (A18 : FVec Ideal S64 .f32) : FVec Ideal S60000x64 .f32 :=
  pre2 (mm6 (take3 (y2 A0 A4 A5 A8 A9 A17 A18) A5) A10) A4 A11

/-- Stage 3: the batch-normalised, leaky-rectified `x3`. -/
def y3 (A0 : FVec Ideal S60000x128 .f32) (A4 : IVec S27x25000 32) (A5 : IVec S27x25000 32) (A8 : FVec Ideal S27x128x64 .f32) (A9 : FVec Ideal S64 .f32) (A10 : FVec Ideal S27x64x64 .f32) (A11 : FVec Ideal S64 .f32) (A17 : FVec Ideal S64 .f32) (A18 : FVec Ideal S64 .f32) (A19 : FVec Ideal S64 .f32) (A20 : FVec Ideal S64 .f32) : FVec Ideal S60000x64 .f32 :=
  bnAct8 (x3 A0 A4 A5 A8 A9 A10 A11 A17 A18) (kmeanA (x3 A0 A4 A5 A8 A9 A10 A11 A17 A18)) (kvarA (x3 A0 A4 A5 A8 A9 A10 A11 A17 A18)) (row64 A19) (row64 A20)

/-- The skip connection: stage 3 plus stage 1, entry by entry. -/
def s (A0 : FVec Ideal S60000x128 .f32) (A1 : FVec Ideal S200000x64 .f32) (A2 : IVec S27x40000 32) (A3 : IVec S27x40000 32) (A4 : IVec S27x25000 32) (A5 : IVec S27x25000 32) (A6 : FVec Ideal S27x64x64 .f32) (A7 : FVec Ideal S64 .f32) (A8 : FVec Ideal S27x128x64 .f32) (A9 : FVec Ideal S64 .f32) (A10 : FVec Ideal S27x64x64 .f32) (A11 : FVec Ideal S64 .f32) (A15 : FVec Ideal S64 .f32) (A16 : FVec Ideal S64 .f32) (A17 : FVec Ideal S64 .f32) (A18 : FVec Ideal S64 .f32) (A19 : FVec Ideal S64 .f32) (A20 : FVec Ideal S64 .f32) : FVec Ideal S60000x64 .f32 :=
  addf (F := Ideal) (s := S60000x64) (φ := .f32) (y3 A0 A4 A5 A8 A9 A10 A11 A17 A18 A19 A20) (y1 A1 A2 A3 A6 A7 A15 A16)

/-- Stage 4 before normalisation: one channel out, no bias. -/
def x4 (A0 : FVec Ideal S60000x128 .f32) (A1 : FVec Ideal S200000x64 .f32) (A2 : IVec S27x40000 32) (A3 : IVec S27x40000 32) (A4 : IVec S27x25000 32) (A5 : IVec S27x25000 32) (A6 : FVec Ideal S27x64x64 .f32) (A7 : FVec Ideal S64 .f32) (A8 : FVec Ideal S27x128x64 .f32) (A9 : FVec Ideal S64 .f32) (A10 : FVec Ideal S27x64x64 .f32) (A11 : FVec Ideal S64 .f32) (A12 : FVec Ideal S27x64x1 .f32) (A15 : FVec Ideal S64 .f32) (A16 : FVec Ideal S64 .f32) (A17 : FVec Ideal S64 .f32) (A18 : FVec Ideal S64 .f32) (A19 : FVec Ideal S64 .f32) (A20 : FVec Ideal S64 .f32) : FVec Ideal S60000x1 .f32 :=
  pre4 (mm9 (take3 (s A0 A1 A2 A3 A4 A5 A6 A7 A8 A9 A10 A11 A15 A16 A17 A18 A19 A20) A4) A12) A5

/-- Stage 4: the batch-normalised, leaky-rectified `x4`. -/
def y4 (A0 : FVec Ideal S60000x128 .f32) (A1 : FVec Ideal S200000x64 .f32) (A2 : IVec S27x40000 32) (A3 : IVec S27x40000 32) (A4 : IVec S27x25000 32) (A5 : IVec S27x25000 32) (A6 : FVec Ideal S27x64x64 .f32) (A7 : FVec Ideal S64 .f32) (A8 : FVec Ideal S27x128x64 .f32) (A9 : FVec Ideal S64 .f32) (A10 : FVec Ideal S27x64x64 .f32) (A11 : FVec Ideal S64 .f32) (A12 : FVec Ideal S27x64x1 .f32) (A15 : FVec Ideal S64 .f32) (A16 : FVec Ideal S64 .f32) (A17 : FVec Ideal S64 .f32) (A18 : FVec Ideal S64 .f32) (A19 : FVec Ideal S64 .f32) (A20 : FVec Ideal S64 .f32) (A21 : FVec Ideal S1 .f32) (A22 : FVec Ideal S1 .f32) : FVec Ideal S60000x1 .f32 :=
  bnAct11 (x4 A0 A1 A2 A3 A4 A5 A6 A7 A8 A9 A10 A11 A12 A15 A16 A17 A18 A19 A20) (kmeanB (x4 A0 A1 A2 A3 A4 A5 A6 A7 A8 A9 A10 A11 A12 A15 A16 A17 A18 A19 A20)) (kvarB (x4 A0 A1 A2 A3 A4 A5 A6 A7 A8 A9 A10 A11 A12 A15 A16 A17 A18 A19 A20)) (row1 A21) (row1 A22)

/-- Stage 5 before normalisation: back on the rows of the first edge list, one channel in, 64 out. -/
def x5 (A0 : FVec Ideal S60000x128 .f32) (A1 : FVec Ideal S200000x64 .f32) (A2 : IVec S27x40000 32) (A3 : IVec S27x40000 32) (A4 : IVec S27x25000 32) (A5 : IVec S27x25000 32) (A6 : FVec Ideal S27x64x64 .f32) (A7 : FVec Ideal S64 .f32) (A8 : FVec Ideal S27x128x64 .f32) (A9 : FVec Ideal S64 .f32) (A10 : FVec Ideal S27x64x64 .f32) (A11 : FVec Ideal S64 .f32) (A12 : FVec Ideal S27x64x1 .f32) (A13 : FVec Ideal S27x1x64 .f32) (A14 : FVec Ideal S64 .f32) (A15 : FVec Ideal S64 .f32) (A16 : FVec Ideal S64 .f32) (A17 : FVec Ideal S64 .f32) (A18 : FVec Ideal S64 .f32) (A19 : FVec Ideal S64 .f32) (A20 : FVec Ideal S64 .f32) (A21 : FVec Ideal S1 .f32) (A22 : FVec Ideal S1 .f32) : FVec Ideal S200000x64 .f32 :=
  pre5 (mm12 (take5 (y4 A0 A1 A2 A3 A4 A5 A6 A7 A8 A9 A10 A11 A12 A15 A16 A17 A18 A19 A20 A21 A22) A3) A13) A2 A14

/-- Stage 5, the program's result: the batch-normalised `x5` through the logistic function. -/
def y5 (A0 : FVec Ideal S60000x128 .f32) (A1 : FVec Ideal S200000x64 .f32) (A2 : IVec S27x40000 32) (A3 : IVec S27x40000 32) (A4 : IVec S27x25000 32) (A5 : IVec S27x25000 32) (A6 : FVec Ideal S27x64x64 .f32) (A7 : FVec Ideal S64 .f32) (A8 : FVec Ideal S27x128x64 .f32) (A9 : FVec Ideal S64 .f32) (A10 : FVec Ideal S27x64x64 .f32) (A11 : FVec Ideal S64 .f32) (A12 : FVec Ideal S27x64x1 .f32) (A13 : FVec Ideal S27x1x64 .f32) (A14 : FVec Ideal S64 .f32) (A15 : FVec Ideal S64 .f32) (A16 : FVec Ideal S64 .f32) (A17 : FVec Ideal S64 .f32) (A18 : FVec Ideal S64 .f32) (A19 : FVec Ideal S64 .f32) (A20 : FVec Ideal S64 .f32) (A21 : FVec Ideal S1 .f32) (A22 : FVec Ideal S1 .f32) (A23 : FVec Ideal S64 .f32) (A24 : FVec Ideal S64 .f32) : FVec Ideal S200000x64 .f32 :=
  bnAct14 (x5 A0 A1 A2 A3 A4 A5 A6 A7 A8 A9 A10 A11 A12 A13 A14 A15 A16 A17 A18 A19 A20 A21 A22) (kmeanC (x5 A0 A1 A2 A3 A4 A5 A6 A7 A8 A9 A10 A11 A12 A13 A14 A15 A16 A17 A18 A19 A20 A21 A22)) (kvarC (x5 A0 A1 A2 A3 A4 A5 A6 A7 A8 A9 A10 A11 A12 A13 A14 A15 A16 A17 A18 A19 A20 A21 A22)) (row64 A23) (row64 A24)

end Cert.KernelIdeal.Chain

end
-- ==== Proof.KernelChain.lean ====
/-
  The program's result as one composition of its stages.

  The program is 26 items: stretches of host operations and kernel regions. Each item's output array is a named
  function of the arrays it reads as they stand when the item starts — a row look-up, a batched product, a
  scatter-sum with bias, the column statistics, the normalisation with its activation, an entrywise sum —, and
  between the item that writes an array and the item that reads it the array is untouched. Following the arrays
  through the items, each intermediate array is a stage value at the argument arrays, and the result array is `y5`.

  The column statistics regions enter through one record (`StatSteps`): each leaves in its two output rows the column
  means and the column variances of the array it reads.
-/
import proofs.«180908_j8211977470570_1_alg».proof.Proof.KernelSteps
import proofs.«180908_j8211977470570_1_alg».proof.Proof.KernelChainMoves
import proofs.«180908_j8211977470570_1_alg».proof.Proof.KernelChainStages

set_option maxRecDepth 16384

noncomputable section

namespace Cert.KernelIdeal.Chain

open Cert.KernelIdeal Cert.KernelIdeal.Gen Cert.KernelIdeal.Regs Cert.KernelIdeal.Vals Cert.KernelIdeal.Stage
open Idealize.ShloMosaic Idealize.ShloMosaic.TcCoe

variable (m : (ℓ : Loc nD τ sig) → Buf (Elt Ideal) ℓ)

/-- What the five column-statistics regions leave: in their first output row the column means, in their second the
    column variances, of the array they read, as it stood when the region was entered. -/
structure StatSteps : Prop where
  s1m : ∀ c : Dev nD, W4 m c (Proc.devRef .tc main_v12_0) = kmeanA (W3 m c (Proc.devRef .tc main_v9))
  s1v : ∀ c : Dev nD, W4 m c (Proc.devRef .tc main_v12_1) = kvarA (W3 m c (Proc.devRef .tc main_v9))
  s4m : ∀ c : Dev nD, W9 m c (Proc.devRef .tc main_v26_0) = kmeanA (W8 m c (Proc.devRef .tc main_v23))
  s4v : ∀ c : Dev nD, W9 m c (Proc.devRef .tc main_v26_1) = kvarA (W8 m c (Proc.devRef .tc main_v23))
  s7m : ∀ c : Dev nD, W14 m c (Proc.devRef .tc main_v40_0) = kmeanA (W13 m c (Proc.devRef .tc main_v37))
  s7v : ∀ c : Dev nD, W14 m c (Proc.devRef .tc main_v40_1) = kvarA (W13 m c (Proc.devRef .tc main_v37))
  s10m : ∀ c : Dev nD, W20 m c (Proc.devRef .tc main_v52_0) = kmeanB (W19 m c (Proc.devRef .tc main_v49))
  s10v : ∀ c : Dev nD, W20 m c (Proc.devRef .tc main_v52_1) = kvarB (W19 m c (Proc.devRef .tc main_v49))
  s13m : ∀ c : Dev nD, W25 m c (Proc.devRef .tc main_v66_0) = kmeanC (W24 m c (Proc.devRef .tc main_v63))
  s13v : ∀ c : Dev nD, W25 m c (Proc.devRef .tc main_v66_1) = kvarC (W24 m c (Proc.devRef .tc main_v63))

/-- Stage 1: the looked-up rows. -/
theorem v0_at1 (c : Dev nD) : W1 m c (Proc.devRef .tc main_v0) = take1 (m ((c : Thread nD τ).loc main_arg1)) (m ((c : Thread nD τ).loc main_arg2)) := by
  refine (hostOps0_main_v0 (W0 m c)).trans ?_
  rw [arg1_at0 m c, arg2_at0 m c]

/-- Stage 1: the slab-by-slab products. -/
theorem v1_at2 (c : Dev nD) : W2 m c (Proc.devRef .tc main_v1) = mm0 (take1 (m ((c : Thread nD τ).loc main_arg1)) (m ((c : Thread nD τ).loc main_arg2))) (m ((c : Thread nD τ).loc main_arg6)) := by
  rw [step0 m c, v0_at1 m c, arg6_at1 m c]

/-- Stage 1: the pre-normalisation value. -/
theorem v9_at3 (c : Dev nD) : W3 m c (Proc.devRef .tc main_v9) = (x1 (m ((c : Thread nD τ).loc main_arg1)) (m ((c : Thread nD τ).loc main_arg2)) (m ((c : Thread nD τ).loc main_arg3)) (m ((c : Thread nD τ).loc main_arg6)) (m ((c : Thread nD τ).loc main_arg7))) := by
  refine (hostOps1_main_v9 (W2 m c)).trans ?_
  rw [v1_at2 m c, arg3_at2 m c, arg7_at2 m c]
  rfl

/-- Stage 1: the scale as a row. -/
theorem v10_at3 (c : Dev nD) : W3 m c (Proc.devRef .tc main_v10) = row64 (m ((c : Thread nD τ).loc main_arg15)) := by
  refine (hostOps1_main_v10 (W2 m c)).trans ?_
  rw [arg15_at2 m c]

/-- Stage 1: the shift as a row. -/
theorem v11_at3 (c : Dev nD) : W3 m c (Proc.devRef .tc main_v11) = row64 (m ((c : Thread nD τ).loc main_arg16)) := by
  refine (hostOps1_main_v11 (W2 m c)).trans ?_
  rw [arg16_at2 m c]

/-- Stage 1: the statistics region leaves the pre-normalisation value in place. -/
theorem v9_at4 (c : Dev nD) : W4 m c (Proc.devRef .tc main_v9) = (x1 (m ((c : Thread nD τ).loc main_arg1)) (m ((c : Thread nD τ).loc main_arg2)) (m ((c : Thread nD τ).loc main_arg3)) (m ((c : Thread nD τ).loc main_arg6)) (m ((c : Thread nD τ).loc main_arg7))) :=
  (v9_move m c).trans (v9_at3 m c)

/-- Stage 1: … and the scale row. -/
theorem v10_at4 (c : Dev nD) : W4 m c (Proc.devRef .tc main_v10) = row64 (m ((c : Thread nD τ).loc main_arg15)) :=
  (v10_move m c).trans (v10_at3 m c)

/-- Stage 1: … and the shift row. -/
theorem v11_at4 (c : Dev nD) : W4 m c (Proc.devRef .tc main_v11) = row64 (m ((c : Thread nD τ).loc main_arg16)) :=
  (v11_move m c).trans (v11_at3 m c)

/-- Stage 1: the column means. -/
theorem v12_0_at4 (H : StatSteps m) (c : Dev nD) : W4 m c (Proc.devRef .tc main_v12_0) = kmeanA (x1 (m ((c : Thread nD τ).loc main_arg1)) (m ((c : Thread nD τ).loc main_arg2)) (m ((c : Thread nD τ).loc main_arg3)) (m ((c : Thread nD τ).loc main_arg6)) (m ((c : Thread nD τ).loc main_arg7))) := by
  rw [H.s1m c, v9_at3 m c]

/-- Stage 1: the column variances. -/
theorem v12_1_at4 (H : StatSteps m) (c : Dev nD) : W4 m c (Proc.devRef .tc main_v12_1) = kvarA (x1 (m ((c : Thread nD τ).loc main_arg1)) (m ((c : Thread nD τ).loc main_arg2)) (m ((c : Thread nD τ).loc main_arg3)) (m ((c : Thread nD τ).loc main_arg6)) (m ((c : Thread nD τ).loc main_arg7))) := by
  rw [H.s1v c, v9_at3 m c]

/-- Stage 1: the stage's value. -/
theorem v13_at5 (H : StatSteps m) (c : Dev nD) : W5 m c (Proc.devRef .tc main_v13) = (y1 (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg15)) (m ((c : Thread nD τ).loc main_arg16))) := by
  rw [step2 m c, v9_at4 m c, v12_0_at4 m H c, v12_1_at4 m H c, v10_at4 m c, v11_at4 m c]
  rfl

/-- Stage 2: the looked-up rows. -/
theorem v14_at6 (c : Dev nD) : W6 m c (Proc.devRef .tc main_v14) = take2 (m ((c : Thread nD τ).loc main_arg0)) (m ((c : Thread nD τ).loc main_arg4)) := by
  refine (hostOps3_main_v14 (W5 m c)).trans ?_
  rw [arg0_at5 m c, arg4_at5 m c]

/-- Stage 2: the slab-by-slab products. -/
theorem v15_at7 (c : Dev nD) : W7 m c (Proc.devRef .tc main_v15) = mm3 (take2 (m ((c : Thread nD τ).loc main_arg0)) (m ((c : Thread nD τ).loc main_arg4))) (m ((c : Thread nD τ).loc main_arg8)) := by
  rw [step3 m c, v14_at6 m c, arg8_at6 m c]

/-- Stage 2: the pre-normalisation value. -/
theorem v23_at8 (c : Dev nD) : W8 m c (Proc.devRef .tc main_v23) = (x2 (m ((c : Thread nD τ).loc main_arg0)) (m ((c : Thread nD τ).loc main_arg4)) (m ((c : Thread nD τ).loc main_arg5)) (m ((c : Thread nD τ).loc main_arg8)) (m ((c : Thread nD τ).loc main_arg9))) := by
  refine (hostOps4_main_v23 (W7 m c)).trans ?_
  rw [v15_at7 m c, arg5_at7 m c, arg9_at7 m c]
  rfl

/-- Stage 2: the scale as a row. -/
theorem v24_at8 (c : Dev nD) : W8 m c (Proc.devRef .tc main_v24) = row64 (m ((c : Thread nD τ).loc main_arg17)) := by
  refine (hostOps4_main_v24 (W7 m c)).trans ?_
  rw [arg17_at7 m c]

/-- Stage 2: the shift as a row. -/
theorem v25_at8 (c : Dev nD) : W8 m c (Proc.devRef .tc main_v25) = row64 (m ((c : Thread nD τ).loc main_arg18)) := by
  refine (hostOps4_main_v25 (W7 m c)).trans ?_
  rw [arg18_at7 m c]

/-- Stage 2: the statistics region leaves the pre-normalisation value in place. -/
theorem v23_at9 (c : Dev nD) : W9 m c (Proc.devRef .tc main_v23) = (x2 (m ((c : Thread nD τ).loc main_arg0)) (m ((c : Thread nD τ).loc main_arg4)) (m ((c : Thread nD τ).loc main_arg5)) (m ((c : Thread nD τ).loc main_arg8)) (m ((c : Thread nD τ).loc main_arg9))) :=
  (v23_move m c).trans (v23_at8 m c)

/-- Stage 2: … and the scale row. -/
theorem v24_at9 (c : Dev nD) : W9 m c (Proc.devRef .tc main_v24) = row64 (m ((c : Thread nD τ).loc main_arg17)) :=
  (v24_move m c).trans (v24_at8 m c)

/-- Stage 2: … and the shift row. -/
theorem v25_at9 (c : Dev nD) : W9 m c (Proc.devRef .tc main_v25) = row64 (m ((c : Thread nD τ).loc main_arg18)) :=
  (v25_move m c).trans (v25_at8 m c)

/-- Stage 2: the column means. -/
theorem v26_0_at9 (H : StatSteps m) (c : Dev nD) : W9 m c (Proc.devRef .tc main_v26_0) = kmeanA (x2 (m ((c : Thread nD τ).loc main_arg0)) (m ((c : Thread nD τ).loc main_arg4)) (m ((c : Thread nD τ).loc main_arg5)) (m ((c : Thread nD τ).loc main_arg8)) (m ((c : Thread nD τ).loc main_arg9))) := by
  rw [H.s4m c, v23_at8 m c]

/-- Stage 2: the column variances. -/
theorem v26_1_at9 (H : StatSteps m) (c : Dev nD) : W9 m c (Proc.devRef .tc main_v26_1) = kvarA (x2 (m ((c : Thread nD τ).loc main_arg0)) (m ((c : Thread nD τ).loc main_arg4)) (m ((c : Thread nD τ).loc main_arg5)) (m ((c : Thread nD τ).loc main_arg8)) (m ((c : Thread nD τ).loc main_arg9))) := by
  rw [H.s4v c, v23_at8 m c]

/-- Stage 2: the stage's value. -/
theorem v27_at10 (H : StatSteps m) (c : Dev nD) : W10 m c (Proc.devRef .tc main_v27) = (y2 (m ((c : Thread nD τ).loc main_arg0)) (m ((c : Thread nD τ).loc main_arg4)) (m ((c : Thread nD τ).loc main_arg5)) (m ((c : Thread nD τ).loc main_arg8)) (m ((c : Thread nD τ).loc main_arg9)) (m ((c : Thread nD τ).loc main_arg17)) (m ((c : Thread nD τ).loc main_arg18))) := by
  rw [step5 m c, v23_at9 m c, v26_0_at9 m H c, v26_1_at9 m H c, v24_at9 m c, v25_at9 m c]
  rfl

/-- Stage 3: the looked-up rows. -/
theorem v28_at11 (H : StatSteps m) (c : Dev nD) : W11 m c (Proc.devRef .tc main_v28) = take3 (y2 (m ((c : Thread nD τ).loc main_arg0)) (m ((c : Thread nD τ).loc main_arg4)) (m ((c : Thread nD τ).loc main_arg5)) (m ((c : Thread nD τ).loc main_arg8)) (m ((c : Thread nD τ).loc main_arg9)) (m ((c : Thread nD τ).loc main_arg17)) (m ((c : Thread nD τ).loc main_arg18))) (m ((c : Thread nD τ).loc main_arg5)) := by
  refine (hostOps6_main_v28 (W10 m c)).trans ?_
  rw [v27_at10 m H c, arg5_at10 m c]

/-- Stage 3: the slab-by-slab products. -/
theorem v29_at12 (H : StatSteps m) (c : Dev nD) : W12 m c (Proc.devRef .tc main_v29) = mm6 (take3 (y2 (m ((c : Thread nD τ).loc main_arg0)) (m ((c : Thread nD τ).loc main_arg4)) (m ((c : Thread nD τ).loc main_arg5)) (m ((c : Thread nD τ).loc main_arg8)) (m ((c : Thread nD τ).loc main_arg9)) (m ((c : Thread nD τ).loc main_arg17)) (m ((c : Thread nD τ).loc main_arg18))) (m ((c : Thread nD τ).loc main_arg5))) (m ((c : Thread nD τ).loc main_arg10)) := by
  rw [step6 m c, v28_at11 m H c, arg10_at11 m c]

/-- Stage 3: the pre-normalisation value. -/
theorem v37_at13 (H : StatSteps m) (c : Dev nD) : W13 m c (Proc.devRef .tc main_v37) = (x3 (m ((c : Thread nD τ).loc main_arg0)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg17)) (m ((c : Thread nD τ).loc main_arg18))) := by
  refine (hostOps7_main_v37 (W12 m c)).trans ?_
  rw [v29_at12 m H c, arg4_at12 m c, arg11_at12 m c]
  rfl

/-- Stage 3: the scale as a row. -/
theorem v38_at13 (c : Dev nD) : W13 m c (Proc.devRef .tc main_v38) = row64 (m ((c : Thread nD τ).loc main_arg19)) := by
  refine (hostOps7_main_v38 (W12 m c)).trans ?_
  rw [arg19_at12 m c]

/-- Stage 3: the shift as a row. -/
theorem v39_at13 (c : Dev nD) : W13 m c (Proc.devRef .tc main_v39) = row64 (m ((c : Thread nD τ).loc main_arg20)) := by
  refine (hostOps7_main_v39 (W12 m c)).trans ?_
  rw [arg20_at12 m c]

/-- Stage 3: the statistics region leaves the pre-normalisation value in place. -/
theorem v37_at14 (H : StatSteps m) (c : Dev nD) : W14 m c (Proc.devRef .tc main_v37) = (x3 (m ((c : Thread nD τ).loc main_arg0)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg17)) (m ((c : Thread nD τ).loc main_arg18))) :=
  (v37_move m c).trans (v37_at13 m H c)

/-- Stage 3: … and the scale row. -/
theorem v38_at14 (c : Dev nD) : W14 m c (Proc.devRef .tc main_v38) = row64 (m ((c : Thread nD τ).loc main_arg19)) :=
  (v38_move m c).trans (v38_at13 m c)

/-- Stage 3: … and the shift row. -/
theorem v39_at14 (c : Dev nD) : W14 m c (Proc.devRef .tc main_v39) = row64 (m ((c : Thread nD τ).loc main_arg20)) :=
  (v39_move m c).trans (v39_at13 m c)

/-- Stage 3: the column means. -/
theorem v40_0_at14 (H : StatSteps m) (c : Dev nD) : W14 m c (Proc.devRef .tc main_v40_0) = kmeanA (x3 (m ((c : Thread nD τ).loc main_arg0)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg17)) (m ((c : Thread nD τ).loc main_arg18))) := by
  rw [H.s7m c, v37_at13 m H c]

/-- Stage 3: the column variances. -/
theorem v40_1_at14 (H : StatSteps m) (c : Dev nD) : W14 m c (Proc.devRef .tc main_v40_1) = kvarA (x3 (m ((c : Thread nD τ).loc main_arg0)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg17)) (m ((c : Thread nD τ).loc main_arg18))) := by
  rw [H.s7v c, v37_at13 m H c]

/-- Stage 3: the stage's value. -/
theorem v41_at15 (H : StatSteps m) (c : Dev nD) : W15 m c (Proc.devRef .tc main_v41) = (y3 (m ((c : Thread nD τ).loc main_arg0)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg17)) (m ((c : Thread nD τ).loc main_arg18)) (m ((c : Thread nD τ).loc main_arg19)) (m ((c : Thread nD τ).loc main_arg20))) := by
  rw [step8 m c, v37_at14 m H c, v40_0_at14 m H c, v40_1_at14 m H c, v38_at14 m c, v39_at14 m c]
  rfl

/-- Stage 1's value is still in place when the skip connection reads it. -/
theorem v13_at15 (H : StatSteps m) (c : Dev nD) : W15 m c (Proc.devRef .tc main_v13) = (y1 (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg15)) (m ((c : Thread nD τ).loc main_arg16))) :=
  (v13_move m c).trans (v13_at5 m H c)

/-- The skip connection: stage 3 plus stage 1. -/
theorem v42_at16 (H : StatSteps m) (c : Dev nD) : W16 m c (Proc.devRef .tc main_v42) = (s (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  refine (hostOps9_main_v42 (W15 m c)).trans ?_
  rw [v41_at15 m H c, v13_at15 m H c]
  rfl

/-- Stage 4: the looked-up rows. -/
theorem v43_at17 (H : StatSteps m) (c : Dev nD) : W17 m c (Proc.devRef .tc main_v43) = take3 (s (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) (m ((c : Thread nD τ).loc main_arg4)) := by
  refine (hostOps9_1_main_v43 (W16 m c)).trans ?_
  rw [v42_at16 m H c, arg4_at16 m c]

/-- Stage 4: the slab-by-slab products. -/
theorem v44_at18 (H : StatSteps m) (c : Dev nD) : W18 m c (Proc.devRef .tc main_v44) = mm9 (take3 (s (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) (m ((c : Thread nD τ).loc main_arg4))) (m ((c : Thread nD τ).loc main_arg12)) := by
  rw [step9 m c, v43_at17 m H c, arg12_at17 m c]

/-- Stage 4: the pre-normalisation value. -/
theorem v49_at19 (H : StatSteps m) (c : Dev nD) : W19 m c (Proc.devRef .tc main_v49) = (x4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  refine (hostOps10_main_v49 (W18 m c)).trans ?_
  rw [v44_at18 m H c, arg5_at18 m c]
  rfl

/-- Stage 4: the scale as a row. -/
theorem v50_at19 (c : Dev nD) : W19 m c (Proc.devRef .tc main_v50) = row1 (m ((c : Thread nD τ).loc main_arg21)) := by
  refine (hostOps10_main_v50 (W18 m c)).trans ?_
  rw [arg21_at18 m c]

/-- Stage 4: the shift as a row. -/
theorem v51_at19 (c : Dev nD) : W19 m c (Proc.devRef .tc main_v51) = row1 (m ((c : Thread nD τ).loc main_arg22)) := by
  refine (hostOps10_main_v51 (W18 m c)).trans ?_
  rw [arg22_at18 m c]

/-- Stage 4: the statistics region leaves the pre-normalisation value in place. -/
theorem v49_at20 (H : StatSteps m) (c : Dev nD) : W20 m c (Proc.devRef .tc main_v49) = (x4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :=
  (v49_move m c).trans (v49_at19 m H c)

/-- Stage 4: … and the scale row. -/
theorem v50_at20 (c : Dev nD) : W20 m c (Proc.devRef .tc main_v50) = row1 (m ((c : Thread nD τ).loc main_arg21)) :=
  (v50_move m c).trans (v50_at19 m c)

/-- Stage 4: … and the shift row. -/
theorem v51_at20 (c : Dev nD) : W20 m c (Proc.devRef .tc main_v51) = row1 (m ((c : Thread nD τ).loc main_arg22)) :=
  (v51_move m c).trans (v51_at19 m c)

/-- Stage 4: the column means. -/
theorem v52_0_at20 (H : StatSteps m) (c : Dev nD) : W20 m c (Proc.devRef .tc main_v52_0) = kmeanB (x4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  rw [H.s10m c, v49_at19 m H c]

/-- Stage 4: the column variances. -/
theorem v52_1_at20 (H : StatSteps m) (c : Dev nD) : W20 m c (Proc.devRef .tc main_v52_1) = kvarB (x4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  rw [H.s10v c, v49_at19 m H c]

/-- Stage 4: the stage's value. -/
theorem v53_at21 (H : StatSteps m) (c : Dev nD) : W21 m c (Proc.devRef .tc main_v53) = (y4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  rw [step11 m c, v49_at20 m H c, v52_0_at20 m H c, v52_1_at20 m H c, v50_at20 m c, v51_at20 m c]
  rfl

/-- Stage 5: the looked-up rows. -/
theorem v54_at22 (H : StatSteps m) (c : Dev nD) : W22 m c (Proc.devRef .tc main_v54) = take5 (y4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (m ((c : Thread nD τ).loc main_arg3)) := by
  refine (hostOps12_main_v54 (W21 m c)).trans ?_
  rw [v53_at21 m H c, arg3_at21 m c]

/-- Stage 5: the slab-by-slab products. -/
theorem v55_at23 (H : StatSteps m) (c : Dev nD) : W23 m c (Proc.devRef .tc main_v55) = mm12 (take5 (y4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (m ((c : Thread nD τ).loc main_arg3))) (m ((c : Thread nD τ).loc main_arg13)) := by
  rw [step12 m c, v54_at22 m H c, arg13_at22 m c]

/-- Stage 5: the pre-normalisation value. -/
theorem v63_at24 (H : StatSteps m) (c : Dev nD) : W24 m c (Proc.devRef .tc main_v63) = (x5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  refine (hostOps13_main_v63 (W23 m c)).trans ?_
  rw [v55_at23 m H c, arg2_at23 m c, arg14_at23 m c]
  rfl

/-- Stage 5: the scale as a row. -/
theorem v64_at24 (c : Dev nD) : W24 m c (Proc.devRef .tc main_v64) = row64 (m ((c : Thread nD τ).loc main_arg23)) := by
  refine (hostOps13_main_v64 (W23 m c)).trans ?_
  rw [arg23_at23 m c]

/-- Stage 5: the shift as a row. -/
theorem v65_at24 (c : Dev nD) : W24 m c (Proc.devRef .tc main_v65) = row64 (m ((c : Thread nD τ).loc main_arg24)) := by
  refine (hostOps13_main_v65 (W23 m c)).trans ?_
  rw [arg24_at23 m c]

/-- Stage 5: the statistics region leaves the pre-normalisation value in place. -/
theorem v63_at25 (H : StatSteps m) (c : Dev nD) : W25 m c (Proc.devRef .tc main_v63) = (x5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) :=
  (v63_move m c).trans (v63_at24 m H c)

/-- Stage 5: … and the scale row. -/
theorem v64_at25 (c : Dev nD) : W25 m c (Proc.devRef .tc main_v64) = row64 (m ((c : Thread nD τ).loc main_arg23)) :=
  (v64_move m c).trans (v64_at24 m c)

/-- Stage 5: … and the shift row. -/
theorem v65_at25 (c : Dev nD) : W25 m c (Proc.devRef .tc main_v65) = row64 (m ((c : Thread nD τ).loc main_arg24)) :=
  (v65_move m c).trans (v65_at24 m c)

/-- Stage 5: the column means. -/
theorem v66_0_at25 (H : StatSteps m) (c : Dev nD) : W25 m c (Proc.devRef .tc main_v66_0) = kmeanC (x5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  rw [H.s13m c, v63_at24 m H c]

/-- Stage 5: the column variances. -/
theorem v66_1_at25 (H : StatSteps m) (c : Dev nD) : W25 m c (Proc.devRef .tc main_v66_1) = kvarC (x5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  rw [H.s13v c, v63_at24 m H c]

/-- The program's result array after the last item, as the composition of the stages at the argument arrays. -/
theorem kernel_value_of (H : StatSteps m) (c : Dev nD) : W26 m c (Proc.devRef .tc main_v67) = (y5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) := by
  rw [step14 m c, v63_at25 m H c, v66_0_at25 m H c, v66_1_at25 m H c, v64_at25 m c, v65_at25 m c]
  rfl

end Cert.KernelIdeal.Chain

end
-- ==== Proof.LibBatchStats.lean ====
/-
  Batch statistics at the ideal values. For a column `h : ι → EReal` of FINITE entries over
  a finite index type of `N` elements, with `S = ∑ h`, `mean = S / N`:

    (∑ (h i − mean) · (h i − mean)) / N  =  (∑ h i · h i) / N − mean · mean

  — the centred (two-pass) variance and the raw-moment (one-pass) variance are the same
  extended real. Distributivity fails at the infinities of `EReal`, so finiteness of every
  entry is needed; the proof moves to the reals, where it is the usual expansion of the
  square. The quotient is the ideal values' `Ideal.div` by the real `N` (`FloatOps.divf`
  and `FloatOps.hostDivf` are this function by definition).

  Also: the variance is a nonnegative real, so adding a positive real `ε` gives a positive
  real, whose reciprocal square root is finite; the literal `0x3727C5AC` (the f32 nearest
  `1e-5`) is such an `ε`; the f32 literals 20000, 50000, 10000, 3000 are those reals; and
  the normalised, scaled, shifted and clamped value `max ((x − mean)·rsqrt(var + ε)·g + β) 0`
  is finite.
-/
import proofs.«180908_j8211977470570_1_alg».proof.Proof.LibFinite

open scoped BigOperators
open Idealize.ShloMosaic
open LibFinite

namespace LibBatchStats

/-- Over the reals: the mean of the squared deviations from the mean is the mean of the squares
    minus the square of the mean. -/
theorem real_var_identity {ι : Type*} [Fintype ι] (r : ι → ℝ) (N : ℝ) (hN : (Fintype.card ι : ℝ) = N)
    (h0 : N ≠ 0) :
    (∑ i, (r i - (∑ i, r i) / N) * (r i - (∑ i, r i) / N)) / N
      = (∑ i, r i * r i) / N - (∑ i, r i) / N * ((∑ i, r i) / N) := by
  obtain ⟨S, hS⟩ : ∃ S, S = ∑ i, r i := ⟨_, rfl⟩
  rw [← hS]
  have h1 : ∑ i, (r i - S / N) * (r i - S / N)
      = ∑ i, r i * r i - 2 * (S / N) * S + N * (S / N * (S / N)) := by
    have e : ∀ i, (r i - S / N) * (r i - S / N) = r i * r i - 2 * (S / N) * r i + S / N * (S / N) :=
      fun i => by ring
    simp only [e, Finset.sum_add_distrib, Finset.sum_sub_distrib, ← Finset.mul_sum, Finset.sum_const,
      Finset.card_univ, nsmul_eq_mul, hN, ← hS]
    ring
  rw [h1]
  field_simp
  ring

/-- The variance identity at the ideal values: for finite entries, the centred sum of squares over `N`
    equals the sum of squares over `N` minus the squared mean. `N` is the (real) number of entries. -/
theorem var_identity {ι : Type*} [Fintype ι] (h : ι → EReal) (hfin : ∀ i, IsReal (h i)) (N : ℝ)
    (hN : (Fintype.card ι : ℝ) = N) (h0 : N ≠ 0) :
    Ideal.div (∑ i, (h i - Ideal.div (∑ i, h i) (N : EReal)) * (h i - Ideal.div (∑ i, h i) (N : EReal))) (N : EReal)
      = Ideal.div (∑ i, h i * h i) (N : EReal)
          - Ideal.div (∑ i, h i) (N : EReal) * Ideal.div (∑ i, h i) (N : EReal) := by
  choose r hr using hfin
  obtain rfl : h = fun i => (r i : EReal) := funext hr
  simp only [← coe_finset_sum, div_coe_coe _ h0, ← EReal.coe_sub, ← EReal.coe_mul]
  exact congrArg _ (real_var_identity r N hN h0)

/-- The mean of finite entries is the real mean. -/
theorem mean_coe {ι : Type*} [Fintype ι] (r : ι → ℝ) {N : ℝ} (h0 : N ≠ 0) :
    Ideal.div (∑ i, (r i : EReal)) (N : EReal) = (((∑ i, r i) / N : ℝ) : EReal) := by
  rw [← coe_finset_sum, div_coe_coe _ h0]

/-- The mean of finite entries is finite. -/
theorem isReal_mean {ι : Type*} [Fintype ι] (h : ι → EReal) (hfin : ∀ i, IsReal (h i)) {N : ℝ} (h0 : N ≠ 0) :
    IsReal (Ideal.div (∑ i, h i) (N : EReal)) :=
  (isReal_sum _ _ fun i _ => hfin i).div (isReal_coe N) (by exact_mod_cast h0)

/-- The centred variance of finite entries is a NONNEGATIVE real (for a positive count `N`). -/
theorem centred_var_nonneg {ι : Type*} [Fintype ι] (h : ι → EReal) (hfin : ∀ i, IsReal (h i)) {N : ℝ}
    (hpos : 0 < N) :
    ∃ v : ℝ, 0 ≤ v ∧
      Ideal.div (∑ i, (h i - Ideal.div (∑ i, h i) (N : EReal)) * (h i - Ideal.div (∑ i, h i) (N : EReal))) (N : EReal)
        = (v : EReal) := by
  choose r hr using hfin
  obtain rfl : h = fun i => (r i : EReal) := funext hr
  refine ⟨(∑ i, (r i - (∑ i, r i) / N) * (r i - (∑ i, r i) / N)) / N, ?_, ?_⟩
  · exact div_nonneg (Finset.sum_nonneg fun i _ => mul_self_nonneg _) hpos.le
  · simp only [← coe_finset_sum, div_coe_coe _ hpos.ne', ← EReal.coe_sub, ← EReal.coe_mul]

/-- So is the raw-moment variance (it is the same extended real). -/
theorem raw_var_nonneg {ι : Type*} [Fintype ι] (h : ι → EReal) (hfin : ∀ i, IsReal (h i)) {N : ℝ}
    (hN : (Fintype.card ι : ℝ) = N) (hpos : 0 < N) :
    ∃ v : ℝ, 0 ≤ v ∧
      Ideal.div (∑ i, h i * h i) (N : EReal)
          - Ideal.div (∑ i, h i) (N : EReal) * Ideal.div (∑ i, h i) (N : EReal) = (v : EReal) := by
  rw [← var_identity h hfin N hN hpos.ne']
  exact centred_var_nonneg h hfin hpos

/-- A nonnegative real plus a positive real is a positive real, as extended reals. -/
theorem add_eps_pos {v e : ℝ} (hv : 0 ≤ v) (he : 0 < e) :
    IsReal ((v : EReal) + (e : EReal)) ∧ (0 : EReal) < (v : EReal) + (e : EReal) := by
  refine ⟨(isReal_coe v).add (isReal_coe e), ?_⟩
  rw [← EReal.coe_add]
  exact EReal.coe_pos.mpr (by linarith)

/-- Hence the reciprocal square root of `variance + ε` is finite. -/
theorem isReal_rsqrt_add_eps {v e : ℝ} (hv : 0 ≤ v) (he : 0 < e) :
    IsReal (Ideal.rsqrt ((v : EReal) + (e : EReal))) :=
  (add_eps_pos hv he).1.rsqrt (add_eps_pos hv he).2

/-! ### The literals -/

/-- The f32 literal `0x3727C5AC` (the float nearest `1e-5`) is a positive real. -/
theorem eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

theorem f32_20000 : Ideal.ofBits .f32 0x469C4000#32 = ((20000 : ℝ) : EReal) := by
  simp [Ideal.ofBits, Ideal.ieee, -EReal.coe_mul]; norm_num
theorem f32_50000 : Ideal.ofBits .f32 0x47435000#32 = ((50000 : ℝ) : EReal) := by
  simp [Ideal.ofBits, Ideal.ieee, -EReal.coe_mul]; norm_num
theorem f32_10000 : Ideal.ofBits .f32 0x461C4000#32 = ((10000 : ℝ) : EReal) := by
  simp [Ideal.ofBits, Ideal.ieee, -EReal.coe_mul]; norm_num
theorem f32_3000 : Ideal.ofBits .f32 0x453B8000#32 = ((3000 : ℝ) : EReal) := by
  simp [Ideal.ofBits, Ideal.ieee, -EReal.coe_mul]; norm_num

/-! ### The normalisation -/

/-- The normalised, scaled, shifted and clamped value depends on the variance only through its value:
    equal variances give equal outputs. -/
theorem bn_relu_congr (x mean var var' eps g b : EReal) (hv : var = var') :
    max ((x - mean) * Ideal.rsqrt (var + eps) * g + b) 0
      = max ((x - mean) * Ideal.rsqrt (var' + eps) * g + b) 0 := by rw [hv]

/-- …and it is finite when `x`, the mean, the scale and the shift are, the variance is a nonnegative real
    and `ε` a positive one. -/
theorem isReal_bn_relu {x mean g b : EReal} {v e : ℝ} (hx : IsReal x) (hm : IsReal mean) (hg : IsReal g)
    (hb : IsReal b) (hv : 0 ≤ v) (he : 0 < e) :
    IsReal (max ((x - mean) * Ideal.rsqrt ((v : EReal) + (e : EReal)) * g + b) 0) :=
  ((((hx.sub hm).mul (isReal_rsqrt_add_eps hv he)).mul hg).add hb).max isReal_zero

end LibBatchStats
-- ==== Proof.BnBridge.lean ====
/-
  The batch-norm bridge at the extended reals.

  One batch-norm stage takes a column x : ι → EReal of N finite entries (one channel of a matrix) and produces
  y i = ((x i − mean) · rsqrt (var + ε)) · γ + β, followed by an activation.

  A one-pass program accumulates S1 = ∑ x i and S2 = ∑ x i · x i (tile by tile) and sets
      mean = S1 · κ,   var = S2 · κ − mean · mean,     κ = 1/N,
  a two-pass program sets
      m = S1 / N,      v = (∑ (x i − m) · (x i − m)) / N.
  For finite entries these are the same extended reals (multiplication by the real 1/N is division by N at every
  extended real; the two variances agree by the expansion of the square, over the reals). Hence the two normalised
  values agree entrywise, and so do their images under any activation.

  Finiteness: mean and variance are real, the variance is nonnegative, variance + ε is positive, its reciprocal
  square root is real, the normalised value is real for real γ, β; a selection between two reals is real (the leaky
  activation); the logistic function of a real is real.

  Also: a sum over T · B rows is the sum over T tiles of the sums over the B rows of each tile (in any commutative
  additive monoid, so on the extended reals without finiteness); a running total that starts at zero and adds one tile
  per step is the sum of the tiles; and the f32 literals 60000, 200000, 0.01 (its nearest float) as reals.

  Everything is stated on plain functions ι → EReal and EReal scalars.
-/
import Idealize.ShloMosaic.Lib.IdealHost
import proofs.«180908_j8211977470570_1_alg».proof.Proof.LibBatchStats

open scoped BigOperators
open Idealize.ShloMosaic
open LibFinite LibBatchStats

namespace Cert.Bridge.Bn

/-! ### (1) The mean: multiplying by the real 1/N is dividing by N -/

/-- At EVERY extended real S (infinite ones too): S · (1/N) = S / N, for a real N ≠ 0. -/
theorem mean_eq {N : ℝ} (h0 : N ≠ 0) (S : EReal) :
    S * ((1 / N : ℝ) : EReal) = Ideal.div S (N : EReal) := (Ideal.div_coe h0 S).symm

/-- The same through the float operations of the ideal values. -/
theorem mean_eq_ops {φ : FTy} {N : ℝ} (h0 : N ≠ 0) (S : Ideal φ) :
    FloatOps.mulf S (((1 / N : ℝ) : EReal) : Ideal φ) = FloatOps.hostDivf S ((N : EReal) : Ideal φ) :=
  mean_eq h0 S

/-! ### (2) The variance: raw moments against centred squares -/

/-- One-pass variance = two-pass variance, for finite entries: with S1 = ∑ x, S2 = ∑ x·x, κ = 1/N,
    S2·κ − (S1·κ)·(S1·κ) = (∑ (x − S1/N)·(x − S1/N)) / N. -/
theorem var_eq {ι : Type*} [Fintype ι] (x : ι → EReal) (hx : ∀ i, IsReal (x i)) (N : ℝ)
    (hN : (Fintype.card ι : ℝ) = N) (h0 : N ≠ 0) :
    (∑ i, x i * x i) * ((1 / N : ℝ) : EReal)
        - (∑ i, x i) * ((1 / N : ℝ) : EReal) * ((∑ i, x i) * ((1 / N : ℝ) : EReal))
      = Ideal.div (∑ i, (x i - Ideal.div (∑ i, x i) (N : EReal)) * (x i - Ideal.div (∑ i, x i) (N : EReal)))
          (N : EReal) := by
  rw [mean_eq h0, mean_eq h0]
  exact (var_identity x hx N hN h0).symm

/-- The same with the two accumulated totals given by name. -/
theorem var_eq_of_sums {ι : Type*} [Fintype ι] (x : ι → EReal) (hx : ∀ i, IsReal (x i)) (N : ℝ)
    (hN : (Fintype.card ι : ℝ) = N) (h0 : N ≠ 0) (S1 S2 : EReal) (h1 : S1 = ∑ i, x i)
    (h2 : S2 = ∑ i, x i * x i) :
    S2 * ((1 / N : ℝ) : EReal) - S1 * ((1 / N : ℝ) : EReal) * (S1 * ((1 / N : ℝ) : EReal))
      = Ideal.div (∑ i, (x i - Ideal.div (∑ i, x i) (N : EReal)) * (x i - Ideal.div (∑ i, x i) (N : EReal)))
          (N : EReal) := by
  subst h1; subst h2; exact var_eq x hx N hN h0

/-- The mean with the accumulated total given by name. -/
theorem mean_eq_of_sum {ι : Type*} [Fintype ι] (x : ι → EReal) {N : ℝ} (h0 : N ≠ 0) (S1 : EReal)
    (h1 : S1 = ∑ i, x i) :
    S1 * ((1 / N : ℝ) : EReal) = Ideal.div (∑ i, x i) (N : EReal) := by
  subst h1; exact mean_eq h0 _

/-- Over rows Fin n the count hypothesis is (n : ℝ) = N. -/
theorem card_fin_cast {n : ℕ} {N : ℝ} (hn : (n : ℝ) = N) : (Fintype.card (Fin n) : ℝ) = N := by
  rw [Fintype.card_fin]; exact hn

/-! ### (3) Regrouping a sum over T·B rows as T tiles of B rows -/

/-- Row t·B + b of tile t lies below T·B. -/
theorem tile_row_lt {T B : ℕ} (t : Fin T) (b : Fin B) : t.val * B + b.val < T * B := by
  have h1 : t.val * B + b.val < t.val * B + B := Nat.add_lt_add_left b.isLt _
  have h2 : t.val * B + B = (t.val + 1) * B := (Nat.succ_mul t.val B).symm
  have h3 : (t.val + 1) * B ≤ T * B := Nat.mul_le_mul_right B t.isLt
  omega

/-- A sum over 0 .. T·B − 1 is the sum over T consecutive tiles of B terms each (ranges). -/
theorem sum_range_tiles {β : Type*} [AddCommMonoid β] (f : ℕ → β) (T B : ℕ) :
    ∑ t ∈ Finset.range T, ∑ b ∈ Finset.range B, f (t * B + b) = ∑ i ∈ Finset.range (T * B), f i := by
  induction T with
  | zero => simp
  | succ T ih => rw [Finset.sum_range_succ, ih, Nat.succ_mul, Finset.sum_range_add]

/-- The same over finite index types, for a function of the natural row number. -/
theorem sum_tiles {β : Type*} [AddCommMonoid β] (f : ℕ → β) (T B : ℕ) :
    ∑ t : Fin T, ∑ b : Fin B, f (t.val * B + b.val) = ∑ i : Fin (T * B), f i.val := by
  rw [Fin.sum_univ_eq_sum_range (fun i => f i) (T * B), ← sum_range_tiles f T B,
    Fin.sum_univ_eq_sum_range (fun t => ∑ b : Fin B, f (t * B + b.val)) T]
  exact Finset.sum_congr rfl fun t _ => Fin.sum_univ_eq_sum_range (fun b => f (t * B + b)) B

/-- The same for a function on the rows Fin N, N = T·B: the total is the sum over the tiles of the tile totals. -/
theorem sum_tiles_fin {β : Type*} [AddCommMonoid β] {T B N : ℕ} (hN : N = T * B) (g : Fin N → β) :
    ∑ t : Fin T, ∑ b : Fin B, g ⟨t.val * B + b.val, hN ▸ tile_row_lt t b⟩ = ∑ i : Fin N, g i := by
  subst hN
  have h := sum_tiles (fun k => if h : k < T * B then g ⟨k, h⟩ else 0) T B
  simp only [Fin.is_lt, dif_pos, Fin.eta] at h
  rw [← h]
  exact Finset.sum_congr rfl fun t _ => Finset.sum_congr rfl fun b _ => by
    rw [dif_pos (tile_row_lt t b)]

/-- A running total that starts at zero and adds one tile per step is, after T steps, the sum of the T tiles. -/
theorem running_total {β : Type*} [AddCommMonoid β] (acc tile : ℕ → β) (h0 : acc 0 = 0)
    (hstep : ∀ t, acc (t + 1) = acc t + tile t) (T : ℕ) : acc T = ∑ t ∈ Finset.range T, tile t := by
  induction T with
  | zero => simpa using h0
  | succ T ih => rw [hstep, ih, Finset.sum_range_succ]

/-- …and with the tiles indexed by Fin T. -/
theorem running_total_fin {β : Type*} [AddCommMonoid β] (acc tile : ℕ → β) (h0 : acc 0 = 0)
    (hstep : ∀ t, acc (t + 1) = acc t + tile t) (T : ℕ) : acc T = ∑ t : Fin T, tile t.val := by
  rw [running_total acc tile h0 hstep T, Fin.sum_univ_eq_sum_range]

/-! ### The literals -/

/-- The f32 literal 0x476A6000 is the real 60000. -/
theorem f32_60000 : Ideal.ofBits .f32 0x476A6000#32 = ((60000 : ℝ) : EReal) := by
  simp [Ideal.ofBits, Ideal.ieee, -EReal.coe_mul]; norm_num

/-- The f32 literal 0x48435000 is the real 200000. -/
theorem f32_200000 : Ideal.ofBits .f32 0x48435000#32 = ((200000 : ℝ) : EReal) := by
  simp [Ideal.ofBits, Ideal.ieee, -EReal.coe_mul]; norm_num

/-- The f32 literal 0x3C23D70A (the float nearest 0.01) is a real number. -/
theorem slope_real : ∃ c : ℝ, Ideal.ofBits .f32 0x3C23D70A#32 = (c : EReal) := by
  refine ⟨10737418 * (2 : ℝ) ^ (-30 : Int), ?_⟩
  simp [Ideal.ofBits, Ideal.ieee, -EReal.coe_mul]

theorem isReal_slope : IsReal (Ideal.ofBits .f32 0x3C23D70A#32) := slope_real

/-- The f32 literal 0x3727C5AC (the float nearest 1e-5) is a real number. -/
theorem isReal_eps : IsReal (Ideal.ofBits .f32 0x3727C5AC#32) := by
  obtain ⟨e, _, he⟩ := eps_pos; exact ⟨e, he⟩

/-! ### (4) Finiteness -/

/-- The one-pass mean of finite entries is real. -/
theorem isReal_kmean {ι : Type*} [Fintype ι] (x : ι → EReal) (hx : ∀ i, IsReal (x i)) (N : ℝ) :
    IsReal ((∑ i, x i) * ((1 / N : ℝ) : EReal)) :=
  (isReal_sum _ _ fun i _ => hx i).mul (isReal_coe _)

/-- The two-pass mean of finite entries is real. -/
theorem isReal_rmean {ι : Type*} [Fintype ι] (x : ι → EReal) (hx : ∀ i, IsReal (x i)) {N : ℝ} (h0 : N ≠ 0) :
    IsReal (Ideal.div (∑ i, x i) (N : EReal)) := isReal_mean x hx h0

/-- The one-pass variance of finite entries is a nonnegative real. -/
theorem kvar_nonneg {ι : Type*} [Fintype ι] (x : ι → EReal) (hx : ∀ i, IsReal (x i)) {N : ℝ}
    (hN : (Fintype.card ι : ℝ) = N) (hpos : 0 < N) :
    ∃ v : ℝ, 0 ≤ v ∧
      (∑ i, x i * x i) * ((1 / N : ℝ) : EReal)
        - (∑ i, x i) * ((1 / N : ℝ) : EReal) * ((∑ i, x i) * ((1 / N : ℝ) : EReal)) = (v : EReal) := by
  rw [var_eq x hx N hN hpos.ne']
  exact centred_var_nonneg x hx hpos

/-- The two-pass variance of finite entries is a nonnegative real. -/
theorem rvar_nonneg {ι : Type*} [Fintype ι] (x : ι → EReal) (hx : ∀ i, IsReal (x i)) {N : ℝ} (hpos : 0 < N) :
    ∃ v : ℝ, 0 ≤ v ∧
      Ideal.div (∑ i, (x i - Ideal.div (∑ i, x i) (N : EReal)) * (x i - Ideal.div (∑ i, x i) (N : EReal)))
        (N : EReal) = (v : EReal) := centred_var_nonneg x hx hpos

/-- A nonnegative real variance plus the literal ε is a positive real. -/
theorem var_add_eps {var : EReal} (hv : ∃ v : ℝ, 0 ≤ v ∧ var = (v : EReal)) :
    IsReal (var + Ideal.ofBits .f32 0x3727C5AC#32) ∧ 0 < var + Ideal.ofBits .f32 0x3727C5AC#32 := by
  obtain ⟨v, hv0, rfl⟩ := hv
  obtain ⟨e, he0, he⟩ := eps_pos
  rw [he]; exact add_eps_pos hv0 he0

/-- A nonnegative real is real and nonnegative as an extended real. -/
theorem isReal_nonneg {var : EReal} (hv : ∃ v : ℝ, 0 ≤ v ∧ var = (v : EReal)) : IsReal var ∧ 0 ≤ var := by
  obtain ⟨v, hv0, rfl⟩ := hv
  exact ⟨isReal_coe v, EReal.coe_nonneg.mpr hv0⟩

/-- …so its reciprocal square root is real. -/
theorem isReal_rsqrt_var_eps {var : EReal} (hv : ∃ v : ℝ, 0 ≤ v ∧ var = (v : EReal)) :
    IsReal (Ideal.rsqrt (var + Ideal.ofBits .f32 0x3727C5AC#32)) :=
  (var_add_eps hv).1.rsqrt (var_add_eps hv).2

/-- The normalised, scaled and shifted value is real when its ingredients are. -/
theorem isReal_bn {xi mean var g b : EReal} (hx : IsReal xi) (hm : IsReal mean)
    (hv : ∃ v : ℝ, 0 ≤ v ∧ var = (v : EReal)) (hg : IsReal g) (hb : IsReal b) :
    IsReal ((xi - mean) * Ideal.rsqrt (var + Ideal.ofBits .f32 0x3727C5AC#32) * g + b) :=
  (((hx.sub hm).mul (isReal_rsqrt_var_eps hv)).mul hg).add hb

/-- The one-pass normalised value of finite data is real. -/
theorem isReal_bn_kernel {ι : Type*} [Fintype ι] (x : ι → EReal) (hx : ∀ i, IsReal (x i)) {N : ℝ}
    (hN : (Fintype.card ι : ℝ) = N) (hpos : 0 < N) {g b : EReal} (hg : IsReal g) (hb : IsReal b) (i : ι) :
    IsReal ((x i - (∑ i, x i) * ((1 / N : ℝ) : EReal))
        * Ideal.rsqrt (((∑ i, x i * x i) * ((1 / N : ℝ) : EReal)
            - (∑ i, x i) * ((1 / N : ℝ) : EReal) * ((∑ i, x i) * ((1 / N : ℝ) : EReal)))
          + Ideal.ofBits .f32 0x3727C5AC#32) * g + b) :=
  isReal_bn (hx i) (isReal_kmean x hx N) (kvar_nonneg x hx hN hpos) hg hb

/-- The two-pass normalised value of finite data is real. -/
theorem isReal_bn_reference {ι : Type*} [Fintype ι] (x : ι → EReal) (hx : ∀ i, IsReal (x i)) {N : ℝ}
    (hpos : 0 < N) {g b : EReal} (hg : IsReal g) (hb : IsReal b) (i : ι) :
    IsReal ((x i - Ideal.div (∑ i, x i) (N : EReal))
        * Ideal.rsqrt (Ideal.div
            (∑ i, (x i - Ideal.div (∑ i, x i) (N : EReal)) * (x i - Ideal.div (∑ i, x i) (N : EReal))) (N : EReal)
          + Ideal.ofBits .f32 0x3727C5AC#32) * g + b) :=
  isReal_bn (hx i) (isReal_rmean x hx hpos.ne') (rvar_nonneg x hx hpos) hg hb

/-- A selection between two reals is real. -/
theorem isReal_select (c : BitVec 1) {a b : EReal} (ha : IsReal a) (hb : IsReal b) :
    IsReal (Scalar.select c a b) := by
  unfold Scalar.select; split <;> assumption

/-- The leaky activation select (y ≥ 0) y (c · y) of a real y, with the literal slope, is real. -/
theorem isReal_leaky {y : EReal} (hy : IsReal y) :
    IsReal (Scalar.select (Ideal.cmp .oge y 0) y (Ideal.ofBits .f32 0x3C23D70A#32 * y)) :=
  isReal_select _ hy (isReal_slope.mul hy)

/-- The same whatever the comparison bit is. -/
theorem isReal_leaky_bit (p : BitVec 1) {y : EReal} (hy : IsReal y) :
    IsReal (Scalar.select p y (Ideal.ofBits .f32 0x3C23D70A#32 * y)) :=
  isReal_select _ hy (isReal_slope.mul hy)

/-- The leaky activation is the usual case distinction. -/
theorem leaky_eq (c y : EReal) :
    Scalar.select (Ideal.cmp .oge y 0) y (c * y) = if 0 ≤ y then y else c * y := by
  unfold Scalar.select Ideal.cmp
  by_cases h : (0 : EReal) ≤ y <;> simp [h]

/-- The logistic function of a real is real. -/
theorem isReal_logistic {y : EReal} (hy : IsReal y) : IsReal (Ideal.logistic y) := by
  obtain ⟨r, rfl⟩ := hy; exact ⟨_, Ideal.logistic_coe r⟩

/-! ### (5) The two normalised values agree -/

/-- Entrywise: the one-pass normalised value is the two-pass normalised value, for finite data. -/
theorem bn_eq {ι : Type*} [Fintype ι] (x : ι → EReal) (hx : ∀ i, IsReal (x i)) (N : ℝ)
    (hN : (Fintype.card ι : ℝ) = N) (h0 : N ≠ 0) (xi eps g b : EReal) :
    (xi - (∑ i, x i) * ((1 / N : ℝ) : EReal))
        * Ideal.rsqrt (((∑ i, x i * x i) * ((1 / N : ℝ) : EReal)
            - (∑ i, x i) * ((1 / N : ℝ) : EReal) * ((∑ i, x i) * ((1 / N : ℝ) : EReal))) + eps) * g + b
      = (xi - Ideal.div (∑ i, x i) (N : EReal))
        * Ideal.rsqrt (Ideal.div
            (∑ i, (x i - Ideal.div (∑ i, x i) (N : EReal)) * (x i - Ideal.div (∑ i, x i) (N : EReal))) (N : EReal)
          + eps) * g + b := by
  rw [var_eq x hx N hN h0, mean_eq h0]

/-- The same from the stored statistics: a mean and a variance that ARE the one-pass ones give the two-pass value. -/
theorem bn_eq_of_stats {ι : Type*} [Fintype ι] (x : ι → EReal) (hx : ∀ i, IsReal (x i)) (N : ℝ)
    (hN : (Fintype.card ι : ℝ) = N) (h0 : N ≠ 0) (S1 S2 mean var : EReal) (h1 : S1 = ∑ i, x i)
    (h2 : S2 = ∑ i, x i * x i) (hmean : mean = S1 * ((1 / N : ℝ) : EReal))
    (hvar : var = S2 * ((1 / N : ℝ) : EReal) - mean * mean) (xi eps g b : EReal) :
    (xi - mean) * Ideal.rsqrt (var + eps) * g + b
      = (xi - Ideal.div (∑ i, x i) (N : EReal))
        * Ideal.rsqrt (Ideal.div
            (∑ i, (x i - Ideal.div (∑ i, x i) (N : EReal)) * (x i - Ideal.div (∑ i, x i) (N : EReal))) (N : EReal)
          + eps) * g + b := by
  subst hvar; subst hmean; subst h1; subst h2
  exact bn_eq x hx N hN h0 xi eps g b

/-- Equal normalised values have equal leaky activations (same slope, same comparison). -/
theorem leaky_congr {y y' : EReal} (h : y = y') (c z : EReal) :
    Scalar.select (Ideal.cmp .oge y z) y (c * y) = Scalar.select (Ideal.cmp .oge y' z) y' (c * y') := by
  rw [h]

/-- Equal normalised values have equal logistic activations. -/
theorem logistic_congr {y y' : EReal} (h : y = y') : Ideal.logistic y = Ideal.logistic y' := by rw [h]

/-- Entrywise, through the leaky activation: one-pass and two-pass outputs agree for finite data. -/
theorem bn_leaky_eq {ι : Type*} [Fintype ι] (x : ι → EReal) (hx : ∀ i, IsReal (x i)) (N : ℝ)
    (hN : (Fintype.card ι : ℝ) = N) (h0 : N ≠ 0) (xi eps g b c z : EReal) :
    Scalar.select
        (Ideal.cmp .oge
          ((xi - (∑ i, x i) * ((1 / N : ℝ) : EReal))
            * Ideal.rsqrt (((∑ i, x i * x i) * ((1 / N : ℝ) : EReal)
                - (∑ i, x i) * ((1 / N : ℝ) : EReal) * ((∑ i, x i) * ((1 / N : ℝ) : EReal))) + eps) * g + b) z)
        ((xi - (∑ i, x i) * ((1 / N : ℝ) : EReal))
            * Ideal.rsqrt (((∑ i, x i * x i) * ((1 / N : ℝ) : EReal)
                - (∑ i, x i) * ((1 / N : ℝ) : EReal) * ((∑ i, x i) * ((1 / N : ℝ) : EReal))) + eps) * g + b)
        (c * ((xi - (∑ i, x i) * ((1 / N : ℝ) : EReal))
            * Ideal.rsqrt (((∑ i, x i * x i) * ((1 / N : ℝ) : EReal)
                - (∑ i, x i) * ((1 / N : ℝ) : EReal) * ((∑ i, x i) * ((1 / N : ℝ) : EReal))) + eps) * g + b))
      = Scalar.select
        (Ideal.cmp .oge
          ((xi - Ideal.div (∑ i, x i) (N : EReal))
            * Ideal.rsqrt (Ideal.div
                (∑ i, (x i - Ideal.div (∑ i, x i) (N : EReal)) * (x i - Ideal.div (∑ i, x i) (N : EReal)))
                (N : EReal) + eps) * g + b) z)
        ((xi - Ideal.div (∑ i, x i) (N : EReal))
            * Ideal.rsqrt (Ideal.div
                (∑ i, (x i - Ideal.div (∑ i, x i) (N : EReal)) * (x i - Ideal.div (∑ i, x i) (N : EReal)))
                (N : EReal) + eps) * g + b)
        (c * ((xi - Ideal.div (∑ i, x i) (N : EReal))
            * Ideal.rsqrt (Ideal.div
                (∑ i, (x i - Ideal.div (∑ i, x i) (N : EReal)) * (x i - Ideal.div (∑ i, x i) (N : EReal)))
                (N : EReal) + eps) * g + b)) :=
  leaky_congr (bn_eq x hx N hN h0 xi eps g b) c z

/-- Entrywise, through the logistic activation: one-pass and two-pass outputs agree for finite data. -/
theorem bn_logistic_eq {ι : Type*} [Fintype ι] (x : ι → EReal) (hx : ∀ i, IsReal (x i)) (N : ℝ)
    (hN : (Fintype.card ι : ℝ) = N) (h0 : N ≠ 0) (xi eps g b : EReal) :
    Ideal.logistic
        ((xi - (∑ i, x i) * ((1 / N : ℝ) : EReal))
          * Ideal.rsqrt (((∑ i, x i * x i) * ((1 / N : ℝ) : EReal)
              - (∑ i, x i) * ((1 / N : ℝ) : EReal) * ((∑ i, x i) * ((1 / N : ℝ) : EReal))) + eps) * g + b)
      = Ideal.div 1 (1 + Ideal.exp (-((xi - Ideal.div (∑ i, x i) (N : EReal))
          * Ideal.rsqrt (Ideal.div
              (∑ i, (x i - Ideal.div (∑ i, x i) (N : EReal)) * (x i - Ideal.div (∑ i, x i) (N : EReal)))
              (N : EReal) + eps) * g + b))) := by
  rw [bn_eq x hx N hN h0 xi eps g b]; rfl

/-- The logistic function spelled out: 1 / (1 + exp (−y)). -/
theorem logistic_eq (y : EReal) : Ideal.logistic y = Ideal.div 1 (1 + Ideal.exp (-y)) := rfl

/-- …and with the summands in the other order. -/
theorem logistic_eq' (y : EReal) : Ideal.logistic y = Ideal.div 1 (Ideal.exp (-y) + 1) := by
  rw [add_comm]; rfl

/-- The kernel's logistic is the reference's quotient 1 / (1 + exp (−y)) built from the host operations, with the
    literal one 0x3F800000, at each entry. -/
theorem logistic_ops {φ : FTy} (y : Ideal φ) :
    FloatOps.logistic y
      = FloatOps.hostDivf (Ideal.ofBits .f32 0x3F800000#32 : EReal)
          (FloatOps.addf (F := Ideal) (φ := φ) (Ideal.ofBits .f32 0x3F800000#32 : EReal)
            (FloatOps.hostUnary (F := Ideal) .exp (FloatOps.hostNegf (F := Ideal) y))) := by
  rw [Ideal.ofBits_one_f32]; rfl

/-- …and with the summands in the other order. -/
theorem logistic_ops' {φ : FTy} (y : Ideal φ) :
    FloatOps.logistic y
      = FloatOps.hostDivf (Ideal.ofBits .f32 0x3F800000#32 : EReal)
          (FloatOps.addf (F := Ideal) (φ := φ) (FloatOps.hostUnary (F := Ideal) .exp (FloatOps.hostNegf (F := Ideal) y))
            (Ideal.ofBits .f32 0x3F800000#32 : EReal)) := by
  rw [Ideal.ofBits_one_f32]
  show Ideal.logistic y = Ideal.div 1 (Ideal.exp (-y) + 1)
  exact logistic_eq' y

end Cert.Bridge.Bn
-- ==== Proof.LibBlockedSum.lean ====
/-
  General lemmas for a contraction that a kernel accumulates block by block along the contracted axis.

  Arrays are read at NATURAL coordinates (their entry inside the extents, zero outside), so that a block's offset
  arithmetic is plain arithmetic on naturals: at2 for a matrix, at1 for a vector, and at2_of_idx / at1_of_idx to pass
  from an entry at an index to the reading at the index's coordinates.

  A sum over 0 .. B n - 1 is the sum, over the n consecutive blocks, of each block's B terms (sum_range_blocks over
  ranges, sum_fin_blocks with the inner and the whole sum over finite index types). Only associativity and
  commutativity of + are used, so the lemmas hold in any commutative additive monoid, in particular on the extended
  reals without any finiteness assumption. blocked_contraction is the form a matrix product with a bias takes:
  accumulated from zero over n blocks of B along the contracted axis, then the bias added, against the whole
  contraction plus the bias.
-/
import Idealize.ShloMosaic.Lib.ValueIdx
import Idealize.ShloMosaic.PureOps.Ideal.Laws

noncomputable section

namespace Cert.BlockedSum

open Idealize.ShloMosaic Idealize.ShloMosaic.ValueIdx

/-- A matrix read at natural coordinates: its entry inside the extents, zero outside. -/
def at2 {n0 n1 : ℕ} (x : (⟨2, ![n0, n1]⟩ : Shape).Idx → EReal) (a b : ℕ) : EReal :=
  if h : a < n0 ∧ b < n1 then x (ix2 ⟨a, h.1⟩ ⟨b, h.2⟩) else 0

/-- A vector read at a natural coordinate: its entry inside the extent, zero outside. -/
def at1 {n : ℕ} (x : (⟨1, ![n]⟩ : Shape).Idx → EReal) (a : ℕ) : EReal :=
  if h : a < n then x (ix1 ⟨a, h⟩) else 0

/-- An entry of a matrix is its reading at the index's coordinates. -/
theorem at2_of_idx {n0 n1 : ℕ} (x : (⟨2, ![n0, n1]⟩ : Shape).Idx → EReal) (j : (⟨2, ![n0, n1]⟩ : Shape).Idx)
    (a b : ℕ) (ha : (j 0).val = a) (hb : (j 1).val = b) : x j = at2 x a b := by
  subst ha; subst hb
  unfold at2
  rw [dif_pos ⟨idx2_lt0 j, idx2_lt1 j⟩]
  exact congrArg x (eq_ix2 j)

/-- An entry of a vector is its reading at the index's coordinate. -/
theorem at1_of_idx {n : ℕ} (x : (⟨1, ![n]⟩ : Shape).Idx → EReal) (j : (⟨1, ![n]⟩ : Shape).Idx)
    (a : ℕ) (ha : (j 0).val = a) : x j = at1 x a := by
  subst ha
  unfold at1
  rw [dif_pos (show (j 0).val < n from (j 0).isLt)]
  exact congrArg x (eq_ix1 j)

/-- A sum over 0 .. B n - 1 is the sum over n consecutive blocks of B terms each. -/
theorem sum_range_blocks {β : Type*} [AddCommMonoid β] (f : ℕ → β) (B : ℕ) (n : ℕ) :
    ∑ s ∈ Finset.range n, ∑ k ∈ Finset.range B, f (B * s + k) = ∑ k ∈ Finset.range (B * n), f k := by
  induction n with
  | zero => simp
  | succ n ih => rw [Finset.sum_range_succ, ih, Nat.mul_succ, Finset.sum_range_add]

/-- The same with each block and the whole sum over finite index types: N = B n terms as n blocks of B. -/
theorem sum_fin_blocks {β : Type*} [AddCommMonoid β] (f : ℕ → β) (B n N : ℕ) (hN : N = B * n) :
    ∑ s ∈ Finset.range n, ∑ k : Fin B, f (B * s + k.val) = ∑ k : Fin N, f k.val := by
  subst hN
  rw [Fin.sum_univ_eq_sum_range (fun k => f k) (B * n), ← sum_range_blocks f B n]
  exact Finset.sum_congr rfl fun s _ => Fin.sum_univ_eq_sum_range (fun k => f (B * s + k)) B

/-- A contraction over N = B n terms, accumulated from zero in n blocks of B, then the bias added: the whole
    contraction plus the bias. -/
theorem blocked_contraction (X W : ℕ → ℕ → EReal) (b : ℕ → EReal) (p q : ℕ) (B n N : ℕ) (hN : N = B * n) :
    (0 + ∑ s ∈ Finset.range n, ∑ k : Fin B, X p (B * s + k.val) * W (B * s + k.val) q) + b q
      = (∑ k : Fin N, X p k.val * W k.val q) + b q := by
  rw [zero_add]
  exact congrArg (· + b q) (sum_fin_blocks (fun k => X p k * W k q) B n N hN)

end Cert.BlockedSum

end
-- ==== Proof.StatsValue1.lean ====
import proofs.«180908_j8211977470570_1_alg».proof.Proof.StatsRegion1
import proofs.«180908_j8211977470570_1_alg».proof.Proof.StatsForms
import proofs.«180908_j8211977470570_1_alg».proof.Proof.BnBridge
import proofs.«180908_j8211977470570_1_alg».proof.Proof.LibBlockedSum
import Idealize.ShloMosaic.Lib.Pipeline.Value
import Idealize.ShloMosaic.Lib.ValueLayout
import Idealize.ShloMosaic.PureOps.Ideal.Laws
import Idealize.ShloMosaic.PureOps.IdealRules

set_option maxRecDepth 16384

noncomputable section

namespace Cert.KernelIdeal.Vals

open scoped BigOperators
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Regs

variable {F : FTy → Type} [FloatOps F] [Named F]

local notation "𝕄" => MT nD τ sig Unit (Elt F) ℕ (UR sig nD τ) ℕ

/-! # The statistics region of pipeline 1: what the two output arrays end holding, at the extended reals

The case runs' found pieces are read back as the body's payloads; the scratch buffers' contents after each point are a
recursion on the point; at the extended reals that recursion is the sum over the tiles of each tile's column sums, all
tiles together being all rows; the last point scales the totals by the named reciprocal of the row count and stores the
mean and the mean of squares less the squared mean; the one write-back of each output window writes its whole array. -/

/-! ## Each case's found pieces, read back as the body's payloads (at any float instance) -/

theorem hz1 : (![0, 0] : Fin 2 → Nat) = fun _ => 0 := funext fun a => by fin_cases a <;> rfl

/-- A middle point: the first scratch buffer, holding `xs0`, is left at `xs0 + colsum x`. -/
theorem sout1_B_0_eq (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x : Vec F S3000x64 .f32) (xs0 xs1 : Vec F S1x64 .f32) :
    sout1_B_0 c i arg1 harg1 arg2 harg2 arg3 harg3 arg4 harg4 arg5 harg5 hc0 hc1 x xs0 xs1 = k1_pay4 x xs0 := by
  unfold sout1_B_0
  rw [View.read_writes_eq_canon _ _ _ (scover1_B_0 c i arg1 harg1 arg2 harg2 arg3 harg3 arg4 harg4 arg5 harg5 hc0 hc1 x xs0 xs1)]
  unfold kernelRun1_B
  dsimp only
  rw [View.canon_unit_zero hz1]
  simp only [View.readAt_eq_ld, harg1.read_unread, harg4.read_unread, harg5.read_unread, View.ld_unit_zero (S := S3000x64) hz1, View.ld_unit_zero (S := S1x64) hz1]

/-- A middle point: the second scratch buffer, holding `xs1`, is left at `xs1 + colsum (x·x)`. -/
theorem sout1_B_1_eq (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x : Vec F S3000x64 .f32) (xs0 xs1 : Vec F S1x64 .f32) :
    sout1_B_1 c i arg1 harg1 arg2 harg2 arg3 harg3 arg4 harg4 arg5 harg5 hc0 hc1 x xs0 xs1 = k1_pay5 x xs1 := by
  unfold sout1_B_1
  rw [View.read_writes_eq_canon _ _ _ (scover1_B_1 c i arg1 harg1 arg2 harg2 arg3 harg3 arg4 harg4 arg5 harg5 hc0 hc1 x xs0 xs1)]
  unfold kernelRun1_B
  dsimp only
  rw [View.canon_unit_zero hz1]
  simp only [View.readAt_eq_ld, harg1.read_unread, harg4.read_unread, harg5.read_unread, View.ld_unit_zero (S := S3000x64) hz1, View.ld_unit_zero (S := S1x64) hz1]

/-- The first point: the first scratch buffer is zeroed, read back, and left at `0 + colsum x`. -/
theorem sout1_A_0_eq (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x : Vec F S3000x64 .f32) :
    sout1_A_0 c i arg1 harg1 arg2 harg2 arg3 harg3 arg4 harg4 arg5 harg5 hc0 hc1 x = k1_pay4 x (k1_pay1 (F := F)) := by
  unfold sout1_A_0
  rw [View.read_writes_eq_canon _ _ _ (scover1_A_0 c i arg1 harg1 arg2 harg2 arg3 harg3 arg4 harg4 arg5 harg5 hc0 hc1 x)]
  unfold kernelRun1_A
  dsimp only
  sl_unfold_words
  rw [View.canon_cons_unit_zero (S := S1x64) hz1, View.readCov_unit_zero (S := S1x64) _ hz1]
  simp only [View.readAt_eq_ld, harg1.read_unread, harg4.read_unread, harg5.read_unread, View.ld_unit_zero (S := S3000x64) hz1, View.ld_unit_zero (S := S1x64) hz1]

/-- The first point: the second scratch buffer is zeroed, read back, and left at `0 + colsum (x·x)`. -/
theorem sout1_A_1_eq (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x : Vec F S3000x64 .f32) :
    sout1_A_1 c i arg1 harg1 arg2 harg2 arg3 harg3 arg4 harg4 arg5 harg5 hc0 hc1 x = k1_pay5 x (k1_pay2 (F := F)) := by
  unfold sout1_A_1
  rw [View.read_writes_eq_canon _ _ _ (scover1_A_1 c i arg1 harg1 arg2 harg2 arg3 harg3 arg4 harg4 arg5 harg5 hc0 hc1 x)]
  unfold kernelRun1_A
  dsimp only
  sl_unfold_words
  rw [View.canon_cons_unit_zero (S := S1x64) hz1, View.readCov_unit_zero (S := S1x64) _ hz1]
  simp only [View.readAt_eq_ld, harg1.read_unread, harg4.read_unread, harg5.read_unread, View.ld_unit_zero (S := S3000x64) hz1, View.ld_unit_zero (S := S1x64) hz1]

/-- The last point: the first scratch buffer is left at `xs0 + colsum x`, -/
theorem sout1_C_0_eq (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x : Vec F S3000x64 .f32) (xs0 xs1 : Vec F S1x64 .f32) :
    sout1_C_0 c i arg1 harg1 arg2 harg2 arg3 harg3 arg4 harg4 arg5 harg5 hc0 hc1 x xs0 xs1 = k1_pay4 x xs0 := by
  unfold sout1_C_0
  rw [View.read_writes_eq_canon _ _ _ (scover1_C_0 c i arg1 harg1 arg2 harg2 arg3 harg3 arg4 harg4 arg5 harg5 hc0 hc1 x xs0 xs1)]
  unfold kernelRun1_C
  dsimp only
  sl_unfold_words
  rw [View.canon_unit_zero hz1]
  simp only [View.readAt_eq_ld, harg1.read_unread, harg4.read_unread, harg5.read_unread, View.ld_unit_zero (S := S3000x64) hz1, View.ld_unit_zero (S := S1x64) hz1]

/-- the second at `xs1 + colsum (x·x)`, -/
theorem sout1_C_1_eq (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x : Vec F S3000x64 .f32) (xs0 xs1 : Vec F S1x64 .f32) :
    sout1_C_1 c i arg1 harg1 arg2 harg2 arg3 harg3 arg4 harg4 arg5 harg5 hc0 hc1 x xs0 xs1 = k1_pay5 x xs1 := by
  unfold sout1_C_1
  rw [View.read_writes_eq_canon _ _ _ (scover1_C_1 c i arg1 harg1 arg2 harg2 arg3 harg3 arg4 harg4 arg5 harg5 hc0 hc1 x xs0 xs1)]
  unfold kernelRun1_C
  dsimp only
  sl_unfold_words
  rw [View.canon_unit_zero hz1]
  simp only [View.readAt_eq_ld, harg1.read_unread, harg4.read_unread, harg5.read_unread, View.ld_unit_zero (S := S3000x64) hz1, View.ld_unit_zero (S := S1x64) hz1]

/-- the first output window at the completed sum scaled, -/
theorem out1_C_1_eq (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x : Vec F S3000x64 .f32) (xs0 xs1 : Vec F S1x64 .f32) :
    out1_C_1 c i arg1 harg1 arg2 harg2 arg3 harg3 arg4 harg4 arg5 harg5 hc0 hc1 x xs0 xs1 = k1_pay6 (k1_pay4 x xs0) := by
  unfold out1_C_1
  rw [View.read_writes_eq_canon _ _ _ (cover1_C_1 c i arg1 harg1 arg2 harg2 arg3 harg3 arg4 harg4 arg5 harg5 hc0 hc1 x xs0 xs1)]
  unfold kernelRun1_C
  dsimp only
  sl_unfold_words
  rw [View.canon_unit_zero hz1, View.readCov_unit_zero (S := S1x64) _ hz1]
  simp only [View.readAt_eq_ld, harg1.read_unread, harg4.read_unread, harg5.read_unread, View.ld_unit_zero (S := S3000x64) hz1, View.ld_unit_zero (S := S1x64) hz1]

/-- and the second at the completed sum of squares scaled, less the square of the first. -/
theorem out1_C_2_eq (c : Dev nD) (i : grid1.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x : Vec F S3000x64 .f32) (xs0 xs1 : Vec F S1x64 .f32) :
    out1_C_2 c i arg1 harg1 arg2 harg2 arg3 harg3 arg4 harg4 arg5 harg5 hc0 hc1 x xs0 xs1 = k1_pay7 (k1_pay4 x xs0) (k1_pay5 x xs1) := by
  unfold out1_C_2
  rw [View.read_writes_eq_canon _ _ _ (cover1_C_2 c i arg1 harg1 arg2 harg2 arg3 harg3 arg4 harg4 arg5 harg5 hc0 hc1 x xs0 xs1)]
  unfold kernelRun1_C
  dsimp only
  sl_unfold_words
  rw [View.canon_unit_zero hz1, View.readCov_unit_zero (S := S1x64) _ hz1, View.readCov_unit_zero (S := S1x64) _ hz1]
  simp only [View.readAt_eq_ld, harg1.read_unread, harg4.read_unread, harg5.read_unread, View.ld_unit_zero (S := S3000x64) hz1, View.ld_unit_zero (S := S1x64) hz1]

/-! ## The running sums by recursion on the point (at any float instance) -/

section Acc1
variable (V : (c : Dev nD) → (b : Ref sig .tc) → Buf (Elt F) ((c : Thread nD τ).loc b))

/-- The two running sums after point `n`: the first point's column sums over the stored zero, then each point's column
    sums added to what the point before left. -/
def acc1 (c : Dev nD) : (n : ℕ) → n < cfg1.N → Vec F S1x64 .f32 × Vec F S1x64 .f32
  | 0, h => (k1_pay4 (iblk1 V c 0 ⟨0, h⟩) (k1_pay1 (F := F)), k1_pay5 (iblk1 V c 0 ⟨0, h⟩) (k1_pay2 (F := F)))
  | n + 1, h => (k1_pay4 (iblk1 V c 0 ⟨n + 1, h⟩) (acc1 c n (Nat.lt_of_succ_lt h)).1,
      k1_pay5 (iblk1 V c 0 ⟨n + 1, h⟩) (acc1 c n (Nat.lt_of_succ_lt h)).2)

/-- What the two scratch buffers hold after point `n` IS that recursion — by induction on the point. -/
theorem outsAt1_scratch (c : Dev nD) : ∀ (n : ℕ) (h : n < cfg1.N), (outsAt1 V c n h).2 = acc1 V c n h
  | 0, h => by
    refine (congrArg Prod.snd (outsAt1_A V c ⟨0, h⟩ ((hcond1_0 ⟨0, h⟩).mpr (Nat.zero_mod _)) (not_cond1_1_zero h))).trans ?_
    show (sout1_A_0 _ _ _ _ _ _ _ _ _ _ _ _ _ _ _, sout1_A_1 _ _ _ _ _ _ _ _ _ _ _ _ _ _ _) = _
    rw [sout1_A_0_eq, sout1_A_1_eq]; rfl
  | n + 1, h => by
    by_cases hc1 : cond1_1 (grid1.coords ⟨n + 1, h⟩)
    · refine (congrArg Prod.snd (outsAt1_C V c ⟨n + 1, h⟩ (not_cond1_0_succ n h) hc1)).trans ?_
      show (sout1_C_0 _ _ _ _ _ _ _ _ _ _ _ _ _ _ _ _ _, sout1_C_1 _ _ _ _ _ _ _ _ _ _ _ _ _ _ _ _ _) = _
      rw [sout1_C_0_eq, sout1_C_1_eq]
      show (k1_pay4 _ (outsAt1 V c n _).2.1, k1_pay5 _ (outsAt1 V c n _).2.2) = _
      rw [outsAt1_scratch c n]; rfl
    · refine (congrArg Prod.snd (outsAt1_B V c ⟨n + 1, h⟩ (not_cond1_0_succ n h) hc1)).trans ?_
      show (sout1_B_0 _ _ _ _ _ _ _ _ _ _ _ _ _ _ _ _ _, sout1_B_1 _ _ _ _ _ _ _ _ _ _ _ _ _ _ _ _ _) = _
      rw [sout1_B_0_eq, sout1_B_1_eq]
      show (k1_pay4 _ (outsAt1 V c n _).2.1, k1_pay5 _ (outsAt1 V c n _).2.2) = _
      rw [outsAt1_scratch c n]; rfl

/-- The last point. -/
def t1_last : Fin cfg1.N := ⟨19, by rw [show cfg1.N = 20 from N_1]; decide⟩

theorem cond1_1_last : cond1_1 (grid1.coords t1_last) := (hcond1_1 t1_last).mpr rfl
theorem not_cond1_0_last : ¬cond1_0 (grid1.coords t1_last) := fun h => absurd ((hcond1_0 t1_last).mp h) (by decide)

/-- What the last point leaves in the two output windows: the scaled sum, and the scaled sum of squares less its square. -/
theorem outsAt1_last (c : Dev nD) :
    (outsAt1 V c t1_last.val t1_last.isLt).1
      = (k1_pay6 (acc1 V c t1_last.val t1_last.isLt).1,
         k1_pay7 (acc1 V c t1_last.val t1_last.isLt).1 (acc1 V c t1_last.val t1_last.isLt).2) := by
  refine (congrArg Prod.fst (outsAt1_C V c t1_last not_cond1_0_last cond1_1_last)).trans ?_
  show (out1_C_1 _ _ _ _ _ _ _ _ _ _ _ _ _ _ _ _ _, out1_C_2 _ _ _ _ _ _ _ _ _ _ _ _ _ _ _ _ _) = _
  rw [out1_C_1_eq, out1_C_2_eq]
  show (k1_pay6 (k1_pay4 _ (outsAt1 V c (t1_last.val - 1) _).2.1), k1_pay7 (k1_pay4 _ (outsAt1 V c (t1_last.val - 1) _).2.1) (k1_pay5 _ (outsAt1 V c (t1_last.val - 1) _).2.2)) = _
  rw [outsAt1_scratch V c (t1_last.val - 1)]; rfl

end Acc1

/-! ## At the extended reals -/

section Ideal1
open Cert.BlockedSum

/-- The named reciprocal of the row count denotes the rational it names. -/
theorem inv1 : Named.named (F := Ideal) κ "inv_60000" (φ := .f32) 0x378BCF65#32 = ((1 / (60000 : ℝ) : ℝ) : EReal) :=
  IdealRules.named_const.ideal_named_scalar _ _ _ _ rfl

/-- The column sums of a block, re-laid as a row: at `(u, q)` the sum of column `q`. -/
theorem colsum1_apply (src : FVec Ideal S3000x64 .f32) (hφ : FKind.Formats .f32) (hacc : (0x00000000#32 : BitVec 32) = FKind.add.neutral .f32 hφ)
    (u : Fin 1) (q : Fin 64) :
    shapeCast S1x64 (multiReduction .add [0] S64 src 0x00000000#32 reduces_S3000x64_S64 hφ hacc) shapeCasts_S64_S1x64 (ix2 u q) = ∑ r : Fin 3000, src (ix2 r q) :=
  (shapeCast_a_1a_apply _ shapeCasts_S64_S1x64 u q).trans
    ((Ideal.multiReduction_add_single src 0x00000000#32 reduces_S3000x64_S64 hφ hacc (ix1 q)).trans
      (Finset.sum_congr rfl fun k _ => congrArg src (funext fun ax => Fin.ext (by
        match ax with
        | ⟨0, _⟩ => rfl
        | ⟨1, _⟩ => rfl))))

theorem pay1_1_apply (j : S1x64.Idx) : k1_pay1 (F := Ideal) j = 0 := by
  unfold k1_pay1; simp only [shapeCast_self]; exact Ideal.ofBits_zero_f32
theorem pay2_1_apply (j : S1x64.Idx) : k1_pay2 (F := Ideal) j = 0 := by
  unfold k1_pay2; simp only [shapeCast_self]; exact Ideal.ofBits_zero_f32

theorem pay4_1_apply (x : Vec Ideal S3000x64 .f32) (s : Vec Ideal S1x64 .f32) (u : Fin 1) (q : Fin 64) :
    k1_pay4 (F := Ideal) x s (ix2 u q) = s (ix2 u q) + ∑ r : Fin 3000, x (ix2 r q) := by
  unfold k1_pay4 k1_pay3; simp only [shapeCast_self]
  refine (addf_apply _ _ _).trans ?_
  exact congrArg (s (ix2 u q) + ·) (colsum1_apply x _ _ u q)

theorem pay5_1_apply (x : Vec Ideal S3000x64 .f32) (s : Vec Ideal S1x64 .f32) (u : Fin 1) (q : Fin 64) :
    k1_pay5 (F := Ideal) x s (ix2 u q) = s (ix2 u q) + ∑ r : Fin 3000, x (ix2 r q) * x (ix2 r q) := by
  unfold k1_pay5 k1_pay3; simp only [shapeCast_self]
  refine (addf_apply _ _ _).trans ?_
  exact congrArg (s (ix2 u q) + ·) (colsum1_apply (mulf x x) _ _ u q)

theorem pay6_1_apply (s : Vec Ideal S1x64 .f32) (j : S1x64.Idx) :
    k1_pay6 (F := Ideal) s j = s j * ((1 / (60000 : ℝ) : ℝ) : EReal) := by
  unfold k1_pay6
  show s j * Named.named (F := Ideal) κ "inv_60000" (φ := .f32) 0x378BCF65#32 = _
  rw [inv1]

theorem pay7_1_apply (s0 s1 : Vec Ideal S1x64 .f32) (j : S1x64.Idx) :
    k1_pay7 (F := Ideal) s0 s1 j = s1 j * ((1 / (60000 : ℝ) : ℝ) : EReal)
      - (s0 j * ((1 / (60000 : ℝ) : ℝ) : EReal)) * (s0 j * ((1 / (60000 : ℝ) : ℝ) : EReal)) := by
  unfold k1_pay7
  show s1 j * Named.named (F := Ideal) κ "inv_60000" (φ := .f32) 0x378BCF65#32 - k1_pay6 (F := Ideal) s0 j * k1_pay6 (F := Ideal) s0 j = _
  rw [inv1, pay6_1_apply]

variable (V : (c : Dev nD) → (b : Ref sig .tc) → Buf (Elt Ideal) ((c : Thread nD τ).loc b))

/-- The statistics' input array as the region finds it. -/
abbrev xin1 (c : Dev nD) : S60000x64.Idx → EReal := V c (Pipeline.arrRef spec1 0)

/-- The input window's block index at point `t` is `(t, 0)`. -/
theorem index1_0 : ∀ t : Fin grid1.N, win1_0.index t 0 = t.val ∧ win1_0.index t 1 = 0 := by decide +kernel

/-- Row `r` of the block at point `t` is row `t · 3000 + r` of the array. -/
theorem iblk1_apply (c : Dev nD) (t : Fin cfg1.N) (r : Fin 3000) (q : Fin 64) :
    (iblk1 V c 0 t : Vec Ideal S3000x64 .f32) (ix2 r q) = at2 (xin1 V c) (t.val * 3000 + r.val) q.val := by
  unfold iblk1
  rw [View.read_apply]
  show xin1 V c _ = _
  refine at2_of_idx (xin1 V c) _ _ _ ?_ ?_
  · show win1_0.index t 0 * 3000 + 1 * r.val = t.val * 3000 + r.val
    rw [(index1_0 t).1]; omega
  · show win1_0.index t 1 * 64 + 1 * q.val = q.val
    rw [(index1_0 t).2]; omega

/-- The running sum after point `n`, at column `q`: the sum over the first `n + 1` tiles of the tile's column sum. -/
theorem acc1_fst (c : Dev nD) (u : Fin 1) (q : Fin 64) : ∀ (n : ℕ) (h : n < cfg1.N),
    (acc1 V c n h).1 (ix2 u q) = ∑ t ∈ Finset.range (n + 1), ∑ r : Fin 3000, at2 (xin1 V c) (t * 3000 + r.val) q.val
  | 0, h => by
    show k1_pay4 (F := Ideal) (iblk1 V c 0 ⟨0, h⟩) (k1_pay1 (F := Ideal)) (ix2 u q) = _
    rw [pay4_1_apply, pay1_1_apply, zero_add, Finset.sum_range_one]
    exact Finset.sum_congr rfl fun r _ => iblk1_apply V c ⟨0, h⟩ r q
  | n + 1, h => by
    show k1_pay4 (F := Ideal) (iblk1 V c 0 ⟨n + 1, h⟩) (acc1 V c n (Nat.lt_of_succ_lt h)).1 (ix2 u q) = _
    rw [pay4_1_apply, acc1_fst c u q n, Finset.sum_range_succ _ (n + 1)]
    exact congrArg (_ + ·) (Finset.sum_congr rfl fun r _ => iblk1_apply V c ⟨n + 1, h⟩ r q)

/-- The running sum of squares after point `n`, at column `q`. -/
theorem acc1_snd (c : Dev nD) (u : Fin 1) (q : Fin 64) : ∀ (n : ℕ) (h : n < cfg1.N),
    (acc1 V c n h).2 (ix2 u q) = ∑ t ∈ Finset.range (n + 1), ∑ r : Fin 3000,
      at2 (xin1 V c) (t * 3000 + r.val) q.val * at2 (xin1 V c) (t * 3000 + r.val) q.val
  | 0, h => by
    show k1_pay5 (F := Ideal) (iblk1 V c 0 ⟨0, h⟩) (k1_pay2 (F := Ideal)) (ix2 u q) = _
    rw [pay5_1_apply, pay2_1_apply, zero_add, Finset.sum_range_one]
    exact Finset.sum_congr rfl fun r _ => by rw [iblk1_apply V c ⟨0, h⟩ r q]
  | n + 1, h => by
    show k1_pay5 (F := Ideal) (iblk1 V c 0 ⟨n + 1, h⟩) (acc1 V c n (Nat.lt_of_succ_lt h)).2 (ix2 u q) = _
    rw [pay5_1_apply, acc1_snd c u q n, Finset.sum_range_succ _ (n + 1)]
    exact congrArg (_ + ·) (Finset.sum_congr rfl fun r _ => by rw [iblk1_apply V c ⟨n + 1, h⟩ r q])

/-- All 20 tiles together are all 60000 rows. -/
theorem tiles1 (f : ℕ → EReal) :
    ∑ t ∈ Finset.range (19 + 1), ∑ r : Fin 3000, f (t * 3000 + r.val) = ∑ i : Fin 60000, f i.val := by
  rw [← Fin.sum_univ_eq_sum_range (fun t => ∑ r : Fin 3000, f (t * 3000 + r.val)) (19 + 1)]
  exact Cert.Bridge.Bn.sum_tiles f 20 3000

/-- After the last point the first running sum is the column's sum over all rows, -/
theorem total1_fst (c : Dev nD) (u : Fin 1) (q : Fin 64) :
    (acc1 V c t1_last.val t1_last.isLt).1 (ix2 u q) = ∑ i : Fin 60000, xin1 V c (ix2 i q) := by
  refine (acc1_fst V c u q 19 _).trans ?_
  refine (tiles1 (fun k => at2 (xin1 V c) k q.val)).trans ?_
  exact Finset.sum_congr rfl fun i _ => (at2_of_idx (xin1 V c) (ix2 i q) i.val q.val rfl rfl).symm

/-- and the second the column's sum of squares. -/
theorem total1_snd (c : Dev nD) (u : Fin 1) (q : Fin 64) :
    (acc1 V c t1_last.val t1_last.isLt).2 (ix2 u q) = ∑ i : Fin 60000, xin1 V c (ix2 i q) * xin1 V c (ix2 i q) := by
  refine (acc1_snd V c u q 19 _).trans ?_
  refine (tiles1 (fun k => at2 (xin1 V c) k q.val * at2 (xin1 V c) k q.val)).trans ?_
  exact Finset.sum_congr rfl fun i _ => by rw [← at2_of_idx (xin1 V c) (ix2 i q) i.val q.val rfl rfl]

/-- What the last point leaves in the first output window is the column means, -/
theorem after1_1_last (c : Dev nD) : (dat1 (F := Ideal) V c).after 1 t1_last = kmeanA (xin1 V c) := by
  rw [after1_1, outsAt1_last]
  funext j
  obtain ⟨u, q, rfl⟩ : ∃ (u : Fin 1) (q : Fin 64), j = ix2 u q := ⟨j 0, j 1, eq_ix2 j⟩
  show k1_pay6 (F := Ideal) _ (ix2 u q) = _
  rw [pay6_1_apply, total1_fst]; rfl

/-- and in the second the column variances. -/
theorem after1_2_last (c : Dev nD) : (dat1 (F := Ideal) V c).after 2 t1_last = kvarA (xin1 V c) := by
  rw [after1_2, outsAt1_last]
  funext j
  obtain ⟨u, q, rfl⟩ : ∃ (u : Fin 1) (q : Fin 64), j = ix2 u q := ⟨j 0, j 1, eq_ix2 j⟩
  show k1_pay7 (F := Ideal) _ _ (ix2 u q) = _
  rw [pay7_1_apply, total1_fst, total1_snd]; rfl

/-- The one write-back of output window 1, at the last point, writes that: block (0, 0) of the [1, 64] array read
    through zero offsets is the array. -/
theorem flushed1_1_eq (c : Dev nD) (t : Fin cfg1.N) (hf : (cfg1.win 1).flush t = true) :
    (dat1 (F := Ideal) V c).flushed 1 t = ((cfg1.win 1).blk t).view.read (Elt Ideal) (kmeanA (xin1 V c)) := by
  have hN : cfg1.N = 20 := N_1
  have hl : t.val = 19 := by have := (flush1_1 t).mp hf; have := t.isLt; omega
  obtain rfl : t = t1_last := Fin.ext hl
  show (cfg1.win 1).cut (grid1.coords t1_last) ((dat1 (F := Ideal) V c).after 1 t1_last) = _
  rw [after1_1_last]
  have hz' : (fun a => win1_1.index t1_last a * main_v12_0.ty.shape.size a) = fun _ => 0 := funext fun a => by fin_cases a <;> decide
  exact (Memref.read_access_unit_zero (Elt Ideal) main_v12_0 hz' (fun a => by rw [congrFun hz' a]; simp) (kmeanA (xin1 V c))).symm

/-- So output array 1 ends holding it. -/
theorem final1_mean (c : Dev nD) : (dat1 (F := Ideal) V c).arrAt 1 cfg1.N = kmeanA (V c (Pipeline.arrRef spec1 0)) :=
  (dat1 (F := Ideal) V c).arrAt_eq_of_cover 1 (kmeanA (xin1 V c)) (flushed1_1_eq V c) fun i =>
    ⟨t1_last, (flush1_1 t1_last).mpr rfl, by
      show i ∈ ((View.whole main_v12_0).slice (win1_1.rect t1_last)).set
      rw [View.set_slice_whole, Rect.mem_set_unit]
      intro a
      have h0 : (i 0 : Nat) < 1 := (i 0).isLt
      have h1 : (i 1 : Nat) < 64 := (i 1).isLt
      match a with
      | ⟨0, _⟩ => show win1_1.index t1_last 0 * win1_1.size 0 ≤ (i 0 : Nat) ∧ (i 0 : Nat) < win1_1.index t1_last 0 * win1_1.size 0 + win1_1.xsize (grid1.coords t1_last) 0
                  rw [show win1_1.index t1_last 0 * win1_1.size 0 = 0 from by decide +kernel, show win1_1.xsize (grid1.coords t1_last) 0 = 1 from by decide +kernel]; omega
      | ⟨1, _⟩ => show win1_1.index t1_last 1 * win1_1.size 1 ≤ (i 1 : Nat) ∧ (i 1 : Nat) < win1_1.index t1_last 1 * win1_1.size 1 + win1_1.xsize (grid1.coords t1_last) 1
                  rw [show win1_1.index t1_last 1 * win1_1.size 1 = 0 from by decide +kernel, show win1_1.xsize (grid1.coords t1_last) 1 = 64 from by decide +kernel]; omega⟩

/-- The one write-back of output window 2, at the last point, writes that: block (0, 0) of the [1, 64] array read
    through zero offsets is the array. -/
theorem flushed1_2_eq (c : Dev nD) (t : Fin cfg1.N) (hf : (cfg1.win 2).flush t = true) :
    (dat1 (F := Ideal) V c).flushed 2 t = ((cfg1.win 2).blk t).view.read (Elt Ideal) (kvarA (xin1 V c)) := by
  have hN : cfg1.N = 20 := N_1
  have hl : t.val = 19 := by have := (flush1_2 t).mp hf; have := t.isLt; omega
  obtain rfl : t = t1_last := Fin.ext hl
  show (cfg1.win 2).cut (grid1.coords t1_last) ((dat1 (F := Ideal) V c).after 2 t1_last) = _
  rw [after1_2_last]
  have hz' : (fun a => win1_2.index t1_last a * main_v12_1.ty.shape.size a) = fun _ => 0 := funext fun a => by fin_cases a <;> decide
  exact (Memref.read_access_unit_zero (Elt Ideal) main_v12_1 hz' (fun a => by rw [congrFun hz' a]; simp) (kvarA (xin1 V c))).symm

/-- So output array 2 ends holding it. -/
theorem final1_var (c : Dev nD) : (dat1 (F := Ideal) V c).arrAt 2 cfg1.N = kvarA (V c (Pipeline.arrRef spec1 0)) :=
  (dat1 (F := Ideal) V c).arrAt_eq_of_cover 2 (kvarA (xin1 V c)) (flushed1_2_eq V c) fun i =>
    ⟨t1_last, (flush1_2 t1_last).mpr rfl, by
      show i ∈ ((View.whole main_v12_1).slice (win1_2.rect t1_last)).set
      rw [View.set_slice_whole, Rect.mem_set_unit]
      intro a
      have h0 : (i 0 : Nat) < 1 := (i 0).isLt
      have h1 : (i 1 : Nat) < 64 := (i 1).isLt
      match a with
      | ⟨0, _⟩ => show win1_2.index t1_last 0 * win1_2.size 0 ≤ (i 0 : Nat) ∧ (i 0 : Nat) < win1_2.index t1_last 0 * win1_2.size 0 + win1_2.xsize (grid1.coords t1_last) 0
                  rw [show win1_2.index t1_last 0 * win1_2.size 0 = 0 from by decide +kernel, show win1_2.xsize (grid1.coords t1_last) 0 = 1 from by decide +kernel]; omega
      | ⟨1, _⟩ => show win1_2.index t1_last 1 * win1_2.size 1 ≤ (i 1 : Nat) ∧ (i 1 : Nat) < win1_2.index t1_last 1 * win1_2.size 1 + win1_2.xsize (grid1.coords t1_last) 1
                  rw [show win1_2.index t1_last 1 * win1_2.size 1 = 0 from by decide +kernel, show win1_2.xsize (grid1.coords t1_last) 1 = 64 from by decide +kernel]; omega⟩

end Ideal1

end Cert.KernelIdeal.Vals

end
-- ==== Proof.StatsValue4.lean ====
import proofs.«180908_j8211977470570_1_alg».proof.Proof.StatsRegion4
import proofs.«180908_j8211977470570_1_alg».proof.Proof.StatsForms
import proofs.«180908_j8211977470570_1_alg».proof.Proof.BnBridge
import proofs.«180908_j8211977470570_1_alg».proof.Proof.LibBlockedSum
import Idealize.ShloMosaic.Lib.Pipeline.Value
import Idealize.ShloMosaic.Lib.ValueLayout
import Idealize.ShloMosaic.PureOps.Ideal.Laws
import Idealize.ShloMosaic.PureOps.IdealRules

set_option maxRecDepth 16384

noncomputable section

namespace Cert.KernelIdeal.Vals

open scoped BigOperators
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Regs

variable {F : FTy → Type} [FloatOps F] [Named F]

local notation "𝕄" => MT nD τ sig Unit (Elt F) ℕ (UR sig nD τ) ℕ

/-! # The statistics region of pipeline 4: what the two output arrays end holding, at the extended reals

The case runs' found pieces are read back as the body's payloads; the scratch buffers' contents after each point are a
recursion on the point; at the extended reals that recursion is the sum over the tiles of each tile's column sums, all
tiles together being all rows; the last point scales the totals by the named reciprocal of the row count and stores the
mean and the mean of squares less the squared mean; the one write-back of each output window writes its whole array. -/

/-! ## Each case's found pieces, read back as the body's payloads (at any float instance) -/

theorem hz4 : (![0, 0] : Fin 2 → Nat) = fun _ => 0 := funext fun a => by fin_cases a <;> rfl

/-- A middle point: the first scratch buffer, holding `xs0`, is left at `xs0 + colsum x`. -/
theorem sout4_B_0_eq (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x : Vec F S3000x64 .f32) (xs0 xs1 : Vec F S1x64 .f32) :
    sout4_B_0 c i arg1 harg1 arg2 harg2 arg3 harg3 arg4 harg4 arg5 harg5 hc0 hc1 x xs0 xs1 = k4_pay4 x xs0 := by
  unfold sout4_B_0
  rw [View.read_writes_eq_canon _ _ _ (scover4_B_0 c i arg1 harg1 arg2 harg2 arg3 harg3 arg4 harg4 arg5 harg5 hc0 hc1 x xs0 xs1)]
  unfold kernelRun4_B
  dsimp only
  rw [View.canon_unit_zero hz4]
  simp only [View.readAt_eq_ld, harg1.read_unread, harg4.read_unread, harg5.read_unread, View.ld_unit_zero (S := S3000x64) hz4, View.ld_unit_zero (S := S1x64) hz4]

/-- A middle point: the second scratch buffer, holding `xs1`, is left at `xs1 + colsum (x·x)`. -/
theorem sout4_B_1_eq (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x : Vec F S3000x64 .f32) (xs0 xs1 : Vec F S1x64 .f32) :
    sout4_B_1 c i arg1 harg1 arg2 harg2 arg3 harg3 arg4 harg4 arg5 harg5 hc0 hc1 x xs0 xs1 = k4_pay5 x xs1 := by
  unfold sout4_B_1
  rw [View.read_writes_eq_canon _ _ _ (scover4_B_1 c i arg1 harg1 arg2 harg2 arg3 harg3 arg4 harg4 arg5 harg5 hc0 hc1 x xs0 xs1)]
  unfold kernelRun4_B
  dsimp only
  rw [View.canon_unit_zero hz4]
  simp only [View.readAt_eq_ld, harg1.read_unread, harg4.read_unread, harg5.read_unread, View.ld_unit_zero (S := S3000x64) hz4, View.ld_unit_zero (S := S1x64) hz4]

/-- The first point: the first scratch buffer is zeroed, read back, and left at `0 + colsum x`. -/
theorem sout4_A_0_eq (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x : Vec F S3000x64 .f32) :
    sout4_A_0 c i arg1 harg1 arg2 harg2 arg3 harg3 arg4 harg4 arg5 harg5 hc0 hc1 x = k4_pay4 x (k4_pay1 (F := F)) := by
  unfold sout4_A_0
  rw [View.read_writes_eq_canon _ _ _ (scover4_A_0 c i arg1 harg1 arg2 harg2 arg3 harg3 arg4 harg4 arg5 harg5 hc0 hc1 x)]
  unfold kernelRun4_A
  dsimp only
  sl_unfold_words
  rw [View.canon_cons_unit_zero (S := S1x64) hz4, View.readCov_unit_zero (S := S1x64) _ hz4]
  simp only [View.readAt_eq_ld, harg1.read_unread, harg4.read_unread, harg5.read_unread, View.ld_unit_zero (S := S3000x64) hz4, View.ld_unit_zero (S := S1x64) hz4]

/-- The first point: the second scratch buffer is zeroed, read back, and left at `0 + colsum (x·x)`. -/
theorem sout4_A_1_eq (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x : Vec F S3000x64 .f32) :
    sout4_A_1 c i arg1 harg1 arg2 harg2 arg3 harg3 arg4 harg4 arg5 harg5 hc0 hc1 x = k4_pay5 x (k4_pay2 (F := F)) := by
  unfold sout4_A_1
  rw [View.read_writes_eq_canon _ _ _ (scover4_A_1 c i arg1 harg1 arg2 harg2 arg3 harg3 arg4 harg4 arg5 harg5 hc0 hc1 x)]
  unfold kernelRun4_A
  dsimp only
  sl_unfold_words
  rw [View.canon_cons_unit_zero (S := S1x64) hz4, View.readCov_unit_zero (S := S1x64) _ hz4]
  simp only [View.readAt_eq_ld, harg1.read_unread, harg4.read_unread, harg5.read_unread, View.ld_unit_zero (S := S3000x64) hz4, View.ld_unit_zero (S := S1x64) hz4]

/-- The last point: the first scratch buffer is left at `xs0 + colsum x`, -/
theorem sout4_C_0_eq (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x : Vec F S3000x64 .f32) (xs0 xs1 : Vec F S1x64 .f32) :
    sout4_C_0 c i arg1 harg1 arg2 harg2 arg3 harg3 arg4 harg4 arg5 harg5 hc0 hc1 x xs0 xs1 = k4_pay4 x xs0 := by
  unfold sout4_C_0
  rw [View.read_writes_eq_canon _ _ _ (scover4_C_0 c i arg1 harg1 arg2 harg2 arg3 harg3 arg4 harg4 arg5 harg5 hc0 hc1 x xs0 xs1)]
  unfold kernelRun4_C
  dsimp only
  sl_unfold_words
  rw [View.canon_unit_zero hz4]
  simp only [View.readAt_eq_ld, harg1.read_unread, harg4.read_unread, harg5.read_unread, View.ld_unit_zero (S := S3000x64) hz4, View.ld_unit_zero (S := S1x64) hz4]

/-- the second at `xs1 + colsum (x·x)`, -/
theorem sout4_C_1_eq (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x : Vec F S3000x64 .f32) (xs0 xs1 : Vec F S1x64 .f32) :
    sout4_C_1 c i arg1 harg1 arg2 harg2 arg3 harg3 arg4 harg4 arg5 harg5 hc0 hc1 x xs0 xs1 = k4_pay5 x xs1 := by
  unfold sout4_C_1
  rw [View.read_writes_eq_canon _ _ _ (scover4_C_1 c i arg1 harg1 arg2 harg2 arg3 harg3 arg4 harg4 arg5 harg5 hc0 hc1 x xs0 xs1)]
  unfold kernelRun4_C
  dsimp only
  sl_unfold_words
  rw [View.canon_unit_zero hz4]
  simp only [View.readAt_eq_ld, harg1.read_unread, harg4.read_unread, harg5.read_unread, View.ld_unit_zero (S := S3000x64) hz4, View.ld_unit_zero (S := S1x64) hz4]

/-- the first output window at the completed sum scaled, -/
theorem out4_C_1_eq (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x : Vec F S3000x64 .f32) (xs0 xs1 : Vec F S1x64 .f32) :
    out4_C_1 c i arg1 harg1 arg2 harg2 arg3 harg3 arg4 harg4 arg5 harg5 hc0 hc1 x xs0 xs1 = k4_pay6 (k4_pay4 x xs0) := by
  unfold out4_C_1
  rw [View.read_writes_eq_canon _ _ _ (cover4_C_1 c i arg1 harg1 arg2 harg2 arg3 harg3 arg4 harg4 arg5 harg5 hc0 hc1 x xs0 xs1)]
  unfold kernelRun4_C
  dsimp only
  sl_unfold_words
  rw [View.canon_unit_zero hz4, View.readCov_unit_zero (S := S1x64) _ hz4]
  simp only [View.readAt_eq_ld, harg1.read_unread, harg4.read_unread, harg5.read_unread, View.ld_unit_zero (S := S3000x64) hz4, View.ld_unit_zero (S := S1x64) hz4]

/-- and the second at the completed sum of squares scaled, less the square of the first. -/
theorem out4_C_2_eq (c : Dev nD) (i : grid4.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x : Vec F S3000x64 .f32) (xs0 xs1 : Vec F S1x64 .f32) :
    out4_C_2 c i arg1 harg1 arg2 harg2 arg3 harg3 arg4 harg4 arg5 harg5 hc0 hc1 x xs0 xs1 = k4_pay7 (k4_pay4 x xs0) (k4_pay5 x xs1) := by
  unfold out4_C_2
  rw [View.read_writes_eq_canon _ _ _ (cover4_C_2 c i arg1 harg1 arg2 harg2 arg3 harg3 arg4 harg4 arg5 harg5 hc0 hc1 x xs0 xs1)]
  unfold kernelRun4_C
  dsimp only
  sl_unfold_words
  rw [View.canon_unit_zero hz4, View.readCov_unit_zero (S := S1x64) _ hz4, View.readCov_unit_zero (S := S1x64) _ hz4]
  simp only [View.readAt_eq_ld, harg1.read_unread, harg4.read_unread, harg5.read_unread, View.ld_unit_zero (S := S3000x64) hz4, View.ld_unit_zero (S := S1x64) hz4]

/-! ## The running sums by recursion on the point (at any float instance) -/

section Acc4
variable (V : (c : Dev nD) → (b : Ref sig .tc) → Buf (Elt F) ((c : Thread nD τ).loc b))

/-- The two running sums after point `n`: the first point's column sums over the stored zero, then each point's column
    sums added to what the point before left. -/
def acc4 (c : Dev nD) : (n : ℕ) → n < cfg4.N → Vec F S1x64 .f32 × Vec F S1x64 .f32
  | 0, h => (k4_pay4 (iblk4 V c 0 ⟨0, h⟩) (k4_pay1 (F := F)), k4_pay5 (iblk4 V c 0 ⟨0, h⟩) (k4_pay2 (F := F)))
  | n + 1, h => (k4_pay4 (iblk4 V c 0 ⟨n + 1, h⟩) (acc4 c n (Nat.lt_of_succ_lt h)).1,
      k4_pay5 (iblk4 V c 0 ⟨n + 1, h⟩) (acc4 c n (Nat.lt_of_succ_lt h)).2)

/-- What the two scratch buffers hold after point `n` IS that recursion — by induction on the point. -/
theorem outsAt4_scratch (c : Dev nD) : ∀ (n : ℕ) (h : n < cfg4.N), (outsAt4 V c n h).2 = acc4 V c n h
  | 0, h => by
    refine (congrArg Prod.snd (outsAt4_A V c ⟨0, h⟩ ((hcond4_0 ⟨0, h⟩).mpr (Nat.zero_mod _)) (not_cond4_1_zero h))).trans ?_
    show (sout4_A_0 _ _ _ _ _ _ _ _ _ _ _ _ _ _ _, sout4_A_1 _ _ _ _ _ _ _ _ _ _ _ _ _ _ _) = _
    rw [sout4_A_0_eq, sout4_A_1_eq]; rfl
  | n + 1, h => by
    by_cases hc1 : cond4_1 (grid4.coords ⟨n + 1, h⟩)
    · refine (congrArg Prod.snd (outsAt4_C V c ⟨n + 1, h⟩ (not_cond4_0_succ n h) hc1)).trans ?_
      show (sout4_C_0 _ _ _ _ _ _ _ _ _ _ _ _ _ _ _ _ _, sout4_C_1 _ _ _ _ _ _ _ _ _ _ _ _ _ _ _ _ _) = _
      rw [sout4_C_0_eq, sout4_C_1_eq]
      show (k4_pay4 _ (outsAt4 V c n _).2.1, k4_pay5 _ (outsAt4 V c n _).2.2) = _
      rw [outsAt4_scratch c n]; rfl
    · refine (congrArg Prod.snd (outsAt4_B V c ⟨n + 1, h⟩ (not_cond4_0_succ n h) hc1)).trans ?_
      show (sout4_B_0 _ _ _ _ _ _ _ _ _ _ _ _ _ _ _ _ _, sout4_B_1 _ _ _ _ _ _ _ _ _ _ _ _ _ _ _ _ _) = _
      rw [sout4_B_0_eq, sout4_B_1_eq]
      show (k4_pay4 _ (outsAt4 V c n _).2.1, k4_pay5 _ (outsAt4 V c n _).2.2) = _
      rw [outsAt4_scratch c n]; rfl

/-- The last point. -/
def t4_last : Fin cfg4.N := ⟨19, by rw [show cfg4.N = 20 from N_4]; decide⟩

theorem cond4_1_last : cond4_1 (grid4.coords t4_last) := (hcond4_1 t4_last).mpr rfl
theorem not_cond4_0_last : ¬cond4_0 (grid4.coords t4_last) := fun h => absurd ((hcond4_0 t4_last).mp h) (by decide)

/-- What the last point leaves in the two output windows: the scaled sum, and the scaled sum of squares less its square. -/
theorem outsAt4_last (c : Dev nD) :
    (outsAt4 V c t4_last.val t4_last.isLt).1
      = (k4_pay6 (acc4 V c t4_last.val t4_last.isLt).1,
         k4_pay7 (acc4 V c t4_last.val t4_last.isLt).1 (acc4 V c t4_last.val t4_last.isLt).2) := by
  refine (congrArg Prod.fst (outsAt4_C V c t4_last not_cond4_0_last cond4_1_last)).trans ?_
  show (out4_C_1 _ _ _ _ _ _ _ _ _ _ _ _ _ _ _ _ _, out4_C_2 _ _ _ _ _ _ _ _ _ _ _ _ _ _ _ _ _) = _
  rw [out4_C_1_eq, out4_C_2_eq]
  show (k4_pay6 (k4_pay4 _ (outsAt4 V c (t4_last.val - 1) _).2.1), k4_pay7 (k4_pay4 _ (outsAt4 V c (t4_last.val - 1) _).2.1) (k4_pay5 _ (outsAt4 V c (t4_last.val - 1) _).2.2)) = _
  rw [outsAt4_scratch V c (t4_last.val - 1)]; rfl

end Acc4

/-! ## At the extended reals -/

section Ideal4
open Cert.BlockedSum

/-- The named reciprocal of the row count denotes the rational it names. -/
theorem inv4 : Named.named (F := Ideal) κ "inv_60000" (φ := .f32) 0x378BCF65#32 = ((1 / (60000 : ℝ) : ℝ) : EReal) :=
  IdealRules.named_const.ideal_named_scalar _ _ _ _ rfl

/-- The column sums of a block, re-laid as a row: at `(u, q)` the sum of column `q`. -/
theorem colsum4_apply (src : FVec Ideal S3000x64 .f32) (hφ : FKind.Formats .f32) (hacc : (0x00000000#32 : BitVec 32) = FKind.add.neutral .f32 hφ)
    (u : Fin 1) (q : Fin 64) :
    shapeCast S1x64 (multiReduction .add [0] S64 src 0x00000000#32 reduces_S3000x64_S64 hφ hacc) shapeCasts_S64_S1x64 (ix2 u q) = ∑ r : Fin 3000, src (ix2 r q) :=
  (shapeCast_a_1a_apply _ shapeCasts_S64_S1x64 u q).trans
    ((Ideal.multiReduction_add_single src 0x00000000#32 reduces_S3000x64_S64 hφ hacc (ix1 q)).trans
      (Finset.sum_congr rfl fun k _ => congrArg src (funext fun ax => Fin.ext (by
        match ax with
        | ⟨0, _⟩ => rfl
        | ⟨1, _⟩ => rfl))))

theorem pay1_4_apply (j : S1x64.Idx) : k4_pay1 (F := Ideal) j = 0 := by
  unfold k4_pay1; simp only [shapeCast_self]; exact Ideal.ofBits_zero_f32
theorem pay2_4_apply (j : S1x64.Idx) : k4_pay2 (F := Ideal) j = 0 := by
  unfold k4_pay2; simp only [shapeCast_self]; exact Ideal.ofBits_zero_f32

theorem pay4_4_apply (x : Vec Ideal S3000x64 .f32) (s : Vec Ideal S1x64 .f32) (u : Fin 1) (q : Fin 64) :
    k4_pay4 (F := Ideal) x s (ix2 u q) = s (ix2 u q) + ∑ r : Fin 3000, x (ix2 r q) := by
  unfold k4_pay4 k4_pay3; simp only [shapeCast_self]
  refine (addf_apply _ _ _).trans ?_
  exact congrArg (s (ix2 u q) + ·) (colsum4_apply x _ _ u q)

theorem pay5_4_apply (x : Vec Ideal S3000x64 .f32) (s : Vec Ideal S1x64 .f32) (u : Fin 1) (q : Fin 64) :
    k4_pay5 (F := Ideal) x s (ix2 u q) = s (ix2 u q) + ∑ r : Fin 3000, x (ix2 r q) * x (ix2 r q) := by
  unfold k4_pay5 k4_pay3; simp only [shapeCast_self]
  refine (addf_apply _ _ _).trans ?_
  exact congrArg (s (ix2 u q) + ·) (colsum4_apply (mulf x x) _ _ u q)

theorem pay6_4_apply (s : Vec Ideal S1x64 .f32) (j : S1x64.Idx) :
    k4_pay6 (F := Ideal) s j = s j * ((1 / (60000 : ℝ) : ℝ) : EReal) := by
  unfold k4_pay6
  show s j * Named.named (F := Ideal) κ "inv_60000" (φ := .f32) 0x378BCF65#32 = _
  rw [inv4]

theorem pay7_4_apply (s0 s1 : Vec Ideal S1x64 .f32) (j : S1x64.Idx) :
    k4_pay7 (F := Ideal) s0 s1 j = s1 j * ((1 / (60000 : ℝ) : ℝ) : EReal)
      - (s0 j * ((1 / (60000 : ℝ) : ℝ) : EReal)) * (s0 j * ((1 / (60000 : ℝ) : ℝ) : EReal)) := by
  unfold k4_pay7
  show s1 j * Named.named (F := Ideal) κ "inv_60000" (φ := .f32) 0x378BCF65#32 - k4_pay6 (F := Ideal) s0 j * k4_pay6 (F := Ideal) s0 j = _
  rw [inv4, pay6_4_apply]

variable (V : (c : Dev nD) → (b : Ref sig .tc) → Buf (Elt Ideal) ((c : Thread nD τ).loc b))

/-- The statistics' input array as the region finds it. -/
abbrev xin4 (c : Dev nD) : S60000x64.Idx → EReal := V c (Pipeline.arrRef spec4 0)

/-- The input window's block index at point `t` is `(t, 0)`. -/
theorem index4_0 : ∀ t : Fin grid4.N, win4_0.index t 0 = t.val ∧ win4_0.index t 1 = 0 := by decide +kernel

/-- Row `r` of the block at point `t` is row `t · 3000 + r` of the array. -/
theorem iblk4_apply (c : Dev nD) (t : Fin cfg4.N) (r : Fin 3000) (q : Fin 64) :
    (iblk4 V c 0 t : Vec Ideal S3000x64 .f32) (ix2 r q) = at2 (xin4 V c) (t.val * 3000 + r.val) q.val := by
  unfold iblk4
  rw [View.read_apply]
  show xin4 V c _ = _
  refine at2_of_idx (xin4 V c) _ _ _ ?_ ?_
  · show win4_0.index t 0 * 3000 + 1 * r.val = t.val * 3000 + r.val
    rw [(index4_0 t).1]; omega
  · show win4_0.index t 1 * 64 + 1 * q.val = q.val
    rw [(index4_0 t).2]; omega

/-- The running sum after point `n`, at column `q`: the sum over the first `n + 1` tiles of the tile's column sum. -/
theorem acc4_fst (c : Dev nD) (u : Fin 1) (q : Fin 64) : ∀ (n : ℕ) (h : n < cfg4.N),
    (acc4 V c n h).1 (ix2 u q) = ∑ t ∈ Finset.range (n + 1), ∑ r : Fin 3000, at2 (xin4 V c) (t * 3000 + r.val) q.val
  | 0, h => by
    show k4_pay4 (F := Ideal) (iblk4 V c 0 ⟨0, h⟩) (k4_pay1 (F := Ideal)) (ix2 u q) = _
    rw [pay4_4_apply, pay1_4_apply, zero_add, Finset.sum_range_one]
    exact Finset.sum_congr rfl fun r _ => iblk4_apply V c ⟨0, h⟩ r q
  | n + 1, h => by
    show k4_pay4 (F := Ideal) (iblk4 V c 0 ⟨n + 1, h⟩) (acc4 V c n (Nat.lt_of_succ_lt h)).1 (ix2 u q) = _
    rw [pay4_4_apply, acc4_fst c u q n, Finset.sum_range_succ _ (n + 1)]
    exact congrArg (_ + ·) (Finset.sum_congr rfl fun r _ => iblk4_apply V c ⟨n + 1, h⟩ r q)

/-- The running sum of squares after point `n`, at column `q`. -/
theorem acc4_snd (c : Dev nD) (u : Fin 1) (q : Fin 64) : ∀ (n : ℕ) (h : n < cfg4.N),
    (acc4 V c n h).2 (ix2 u q) = ∑ t ∈ Finset.range (n + 1), ∑ r : Fin 3000,
      at2 (xin4 V c) (t * 3000 + r.val) q.val * at2 (xin4 V c) (t * 3000 + r.val) q.val
  | 0, h => by
    show k4_pay5 (F := Ideal) (iblk4 V c 0 ⟨0, h⟩) (k4_pay2 (F := Ideal)) (ix2 u q) = _
    rw [pay5_4_apply, pay2_4_apply, zero_add, Finset.sum_range_one]
    exact Finset.sum_congr rfl fun r _ => by rw [iblk4_apply V c ⟨0, h⟩ r q]
  | n + 1, h => by
    show k4_pay5 (F := Ideal) (iblk4 V c 0 ⟨n + 1, h⟩) (acc4 V c n (Nat.lt_of_succ_lt h)).2 (ix2 u q) = _
    rw [pay5_4_apply, acc4_snd c u q n, Finset.sum_range_succ _ (n + 1)]
    exact congrArg (_ + ·) (Finset.sum_congr rfl fun r _ => by rw [iblk4_apply V c ⟨n + 1, h⟩ r q])

/-- All 20 tiles together are all 60000 rows. -/
theorem tiles4 (f : ℕ → EReal) :
    ∑ t ∈ Finset.range (19 + 1), ∑ r : Fin 3000, f (t * 3000 + r.val) = ∑ i : Fin 60000, f i.val := by
  rw [← Fin.sum_univ_eq_sum_range (fun t => ∑ r : Fin 3000, f (t * 3000 + r.val)) (19 + 1)]
  exact Cert.Bridge.Bn.sum_tiles f 20 3000

/-- After the last point the first running sum is the column's sum over all rows, -/
theorem total4_fst (c : Dev nD) (u : Fin 1) (q : Fin 64) :
    (acc4 V c t4_last.val t4_last.isLt).1 (ix2 u q) = ∑ i : Fin 60000, xin4 V c (ix2 i q) := by
  refine (acc4_fst V c u q 19 _).trans ?_
  refine (tiles4 (fun k => at2 (xin4 V c) k q.val)).trans ?_
  exact Finset.sum_congr rfl fun i _ => (at2_of_idx (xin4 V c) (ix2 i q) i.val q.val rfl rfl).symm

/-- and the second the column's sum of squares. -/
theorem total4_snd (c : Dev nD) (u : Fin 1) (q : Fin 64) :
    (acc4 V c t4_last.val t4_last.isLt).2 (ix2 u q) = ∑ i : Fin 60000, xin4 V c (ix2 i q) * xin4 V c (ix2 i q) := by
  refine (acc4_snd V c u q 19 _).trans ?_
  refine (tiles4 (fun k => at2 (xin4 V c) k q.val * at2 (xin4 V c) k q.val)).trans ?_
  exact Finset.sum_congr rfl fun i _ => by rw [← at2_of_idx (xin4 V c) (ix2 i q) i.val q.val rfl rfl]

/-- What the last point leaves in the first output window is the column means, -/
theorem after4_1_last (c : Dev nD) : (dat4 (F := Ideal) V c).after 1 t4_last = kmeanA (xin4 V c) := by
  rw [after4_1, outsAt4_last]
  funext j
  obtain ⟨u, q, rfl⟩ : ∃ (u : Fin 1) (q : Fin 64), j = ix2 u q := ⟨j 0, j 1, eq_ix2 j⟩
  show k4_pay6 (F := Ideal) _ (ix2 u q) = _
  rw [pay6_4_apply, total4_fst]; rfl

/-- and in the second the column variances. -/
theorem after4_2_last (c : Dev nD) : (dat4 (F := Ideal) V c).after 2 t4_last = kvarA (xin4 V c) := by
  rw [after4_2, outsAt4_last]
  funext j
  obtain ⟨u, q, rfl⟩ : ∃ (u : Fin 1) (q : Fin 64), j = ix2 u q := ⟨j 0, j 1, eq_ix2 j⟩
  show k4_pay7 (F := Ideal) _ _ (ix2 u q) = _
  rw [pay7_4_apply, total4_fst, total4_snd]; rfl

/-- The one write-back of output window 1, at the last point, writes that: block (0, 0) of the [1, 64] array read
    through zero offsets is the array. -/
theorem flushed4_1_eq (c : Dev nD) (t : Fin cfg4.N) (hf : (cfg4.win 1).flush t = true) :
    (dat4 (F := Ideal) V c).flushed 1 t = ((cfg4.win 1).blk t).view.read (Elt Ideal) (kmeanA (xin4 V c)) := by
  have hN : cfg4.N = 20 := N_4
  have hl : t.val = 19 := by have := (flush4_1 t).mp hf; have := t.isLt; omega
  obtain rfl : t = t4_last := Fin.ext hl
  show (cfg4.win 1).cut (grid4.coords t4_last) ((dat4 (F := Ideal) V c).after 1 t4_last) = _
  rw [after4_1_last]
  have hz' : (fun a => win4_1.index t4_last a * main_v26_0.ty.shape.size a) = fun _ => 0 := funext fun a => by fin_cases a <;> decide
  exact (Memref.read_access_unit_zero (Elt Ideal) main_v26_0 hz' (fun a => by rw [congrFun hz' a]; simp) (kmeanA (xin4 V c))).symm

/-- So output array 1 ends holding it. -/
theorem final4_mean (c : Dev nD) : (dat4 (F := Ideal) V c).arrAt 1 cfg4.N = kmeanA (V c (Pipeline.arrRef spec4 0)) :=
  (dat4 (F := Ideal) V c).arrAt_eq_of_cover 1 (kmeanA (xin4 V c)) (flushed4_1_eq V c) fun i =>
    ⟨t4_last, (flush4_1 t4_last).mpr rfl, by
      show i ∈ ((View.whole main_v26_0).slice (win4_1.rect t4_last)).set
      rw [View.set_slice_whole, Rect.mem_set_unit]
      intro a
      have h0 : (i 0 : Nat) < 1 := (i 0).isLt
      have h1 : (i 1 : Nat) < 64 := (i 1).isLt
      match a with
      | ⟨0, _⟩ => show win4_1.index t4_last 0 * win4_1.size 0 ≤ (i 0 : Nat) ∧ (i 0 : Nat) < win4_1.index t4_last 0 * win4_1.size 0 + win4_1.xsize (grid4.coords t4_last) 0
                  rw [show win4_1.index t4_last 0 * win4_1.size 0 = 0 from by decide +kernel, show win4_1.xsize (grid4.coords t4_last) 0 = 1 from by decide +kernel]; omega
      | ⟨1, _⟩ => show win4_1.index t4_last 1 * win4_1.size 1 ≤ (i 1 : Nat) ∧ (i 1 : Nat) < win4_1.index t4_last 1 * win4_1.size 1 + win4_1.xsize (grid4.coords t4_last) 1
                  rw [show win4_1.index t4_last 1 * win4_1.size 1 = 0 from by decide +kernel, show win4_1.xsize (grid4.coords t4_last) 1 = 64 from by decide +kernel]; omega⟩

/-- The one write-back of output window 2, at the last point, writes that: block (0, 0) of the [1, 64] array read
    through zero offsets is the array. -/
theorem flushed4_2_eq (c : Dev nD) (t : Fin cfg4.N) (hf : (cfg4.win 2).flush t = true) :
    (dat4 (F := Ideal) V c).flushed 2 t = ((cfg4.win 2).blk t).view.read (Elt Ideal) (kvarA (xin4 V c)) := by
  have hN : cfg4.N = 20 := N_4
  have hl : t.val = 19 := by have := (flush4_2 t).mp hf; have := t.isLt; omega
  obtain rfl : t = t4_last := Fin.ext hl
  show (cfg4.win 2).cut (grid4.coords t4_last) ((dat4 (F := Ideal) V c).after 2 t4_last) = _
  rw [after4_2_last]
  have hz' : (fun a => win4_2.index t4_last a * main_v26_1.ty.shape.size a) = fun _ => 0 := funext fun a => by fin_cases a <;> decide
  exact (Memref.read_access_unit_zero (Elt Ideal) main_v26_1 hz' (fun a => by rw [congrFun hz' a]; simp) (kvarA (xin4 V c))).symm

/-- So output array 2 ends holding it. -/
theorem final4_var (c : Dev nD) : (dat4 (F := Ideal) V c).arrAt 2 cfg4.N = kvarA (V c (Pipeline.arrRef spec4 0)) :=
  (dat4 (F := Ideal) V c).arrAt_eq_of_cover 2 (kvarA (xin4 V c)) (flushed4_2_eq V c) fun i =>
    ⟨t4_last, (flush4_2 t4_last).mpr rfl, by
      show i ∈ ((View.whole main_v26_1).slice (win4_2.rect t4_last)).set
      rw [View.set_slice_whole, Rect.mem_set_unit]
      intro a
      have h0 : (i 0 : Nat) < 1 := (i 0).isLt
      have h1 : (i 1 : Nat) < 64 := (i 1).isLt
      match a with
      | ⟨0, _⟩ => show win4_2.index t4_last 0 * win4_2.size 0 ≤ (i 0 : Nat) ∧ (i 0 : Nat) < win4_2.index t4_last 0 * win4_2.size 0 + win4_2.xsize (grid4.coords t4_last) 0
                  rw [show win4_2.index t4_last 0 * win4_2.size 0 = 0 from by decide +kernel, show win4_2.xsize (grid4.coords t4_last) 0 = 1 from by decide +kernel]; omega
      | ⟨1, _⟩ => show win4_2.index t4_last 1 * win4_2.size 1 ≤ (i 1 : Nat) ∧ (i 1 : Nat) < win4_2.index t4_last 1 * win4_2.size 1 + win4_2.xsize (grid4.coords t4_last) 1
                  rw [show win4_2.index t4_last 1 * win4_2.size 1 = 0 from by decide +kernel, show win4_2.xsize (grid4.coords t4_last) 1 = 64 from by decide +kernel]; omega⟩

end Ideal4

end Cert.KernelIdeal.Vals

end
-- ==== Proof.StatsValue7.lean ====
import proofs.«180908_j8211977470570_1_alg».proof.Proof.StatsRegion7
import proofs.«180908_j8211977470570_1_alg».proof.Proof.StatsForms
import proofs.«180908_j8211977470570_1_alg».proof.Proof.BnBridge
import proofs.«180908_j8211977470570_1_alg».proof.Proof.LibBlockedSum
import Idealize.ShloMosaic.Lib.Pipeline.Value
import Idealize.ShloMosaic.Lib.ValueLayout
import Idealize.ShloMosaic.PureOps.Ideal.Laws
import Idealize.ShloMosaic.PureOps.IdealRules

set_option maxRecDepth 16384

noncomputable section

namespace Cert.KernelIdeal.Vals

open scoped BigOperators
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Regs

variable {F : FTy → Type} [FloatOps F] [Named F]

local notation "𝕄" => MT nD τ sig Unit (Elt F) ℕ (UR sig nD τ) ℕ

/-! # The statistics region of pipeline 7: what the two output arrays end holding, at the extended reals

The case runs' found pieces are read back as the body's payloads; the scratch buffers' contents after each point are a
recursion on the point; at the extended reals that recursion is the sum over the tiles of each tile's column sums, all
tiles together being all rows; the last point scales the totals by the named reciprocal of the row count and stores the
mean and the mean of squares less the squared mean; the one write-back of each output window writes its whole array. -/

/-! ## Each case's found pieces, read back as the body's payloads (at any float instance) -/

theorem hz7 : (![0, 0] : Fin 2 → Nat) = fun _ => 0 := funext fun a => by fin_cases a <;> rfl

/-- A middle point: the first scratch buffer, holding `xs0`, is left at `xs0 + colsum x`. -/
theorem sout7_B_0_eq (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : ¬cond7_1 i)
    (x : Vec F S3000x64 .f32) (xs0 xs1 : Vec F S1x64 .f32) :
    sout7_B_0 c i arg1 harg1 arg2 harg2 arg3 harg3 arg4 harg4 arg5 harg5 hc0 hc1 x xs0 xs1 = k7_pay4 x xs0 := by
  unfold sout7_B_0
  rw [View.read_writes_eq_canon _ _ _ (scover7_B_0 c i arg1 harg1 arg2 harg2 arg3 harg3 arg4 harg4 arg5 harg5 hc0 hc1 x xs0 xs1)]
  unfold kernelRun7_B
  dsimp only
  rw [View.canon_unit_zero hz7]
  simp only [View.readAt_eq_ld, harg1.read_unread, harg4.read_unread, harg5.read_unread, View.ld_unit_zero (S := S3000x64) hz7, View.ld_unit_zero (S := S1x64) hz7]

/-- A middle point: the second scratch buffer, holding `xs1`, is left at `xs1 + colsum (x·x)`. -/
theorem sout7_B_1_eq (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : ¬cond7_1 i)
    (x : Vec F S3000x64 .f32) (xs0 xs1 : Vec F S1x64 .f32) :
    sout7_B_1 c i arg1 harg1 arg2 harg2 arg3 harg3 arg4 harg4 arg5 harg5 hc0 hc1 x xs0 xs1 = k7_pay5 x xs1 := by
  unfold sout7_B_1
  rw [View.read_writes_eq_canon _ _ _ (scover7_B_1 c i arg1 harg1 arg2 harg2 arg3 harg3 arg4 harg4 arg5 harg5 hc0 hc1 x xs0 xs1)]
  unfold kernelRun7_B
  dsimp only
  rw [View.canon_unit_zero hz7]
  simp only [View.readAt_eq_ld, harg1.read_unread, harg4.read_unread, harg5.read_unread, View.ld_unit_zero (S := S3000x64) hz7, View.ld_unit_zero (S := S1x64) hz7]

/-- The first point: the first scratch buffer is zeroed, read back, and left at `0 + colsum x`. -/
theorem sout7_A_0_eq (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond7_0 i) (hc1 : ¬cond7_1 i)
    (x : Vec F S3000x64 .f32) :
    sout7_A_0 c i arg1 harg1 arg2 harg2 arg3 harg3 arg4 harg4 arg5 harg5 hc0 hc1 x = k7_pay4 x (k7_pay1 (F := F)) := by
  unfold sout7_A_0
  rw [View.read_writes_eq_canon _ _ _ (scover7_A_0 c i arg1 harg1 arg2 harg2 arg3 harg3 arg4 harg4 arg5 harg5 hc0 hc1 x)]
  unfold kernelRun7_A
  dsimp only
  sl_unfold_words
  rw [View.canon_cons_unit_zero (S := S1x64) hz7, View.readCov_unit_zero (S := S1x64) _ hz7]
  simp only [View.readAt_eq_ld, harg1.read_unread, harg4.read_unread, harg5.read_unread, View.ld_unit_zero (S := S3000x64) hz7, View.ld_unit_zero (S := S1x64) hz7]

/-- The first point: the second scratch buffer is zeroed, read back, and left at `0 + colsum (x·x)`. -/
theorem sout7_A_1_eq (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond7_0 i) (hc1 : ¬cond7_1 i)
    (x : Vec F S3000x64 .f32) :
    sout7_A_1 c i arg1 harg1 arg2 harg2 arg3 harg3 arg4 harg4 arg5 harg5 hc0 hc1 x = k7_pay5 x (k7_pay2 (F := F)) := by
  unfold sout7_A_1
  rw [View.read_writes_eq_canon _ _ _ (scover7_A_1 c i arg1 harg1 arg2 harg2 arg3 harg3 arg4 harg4 arg5 harg5 hc0 hc1 x)]
  unfold kernelRun7_A
  dsimp only
  sl_unfold_words
  rw [View.canon_cons_unit_zero (S := S1x64) hz7, View.readCov_unit_zero (S := S1x64) _ hz7]
  simp only [View.readAt_eq_ld, harg1.read_unread, harg4.read_unread, harg5.read_unread, View.ld_unit_zero (S := S3000x64) hz7, View.ld_unit_zero (S := S1x64) hz7]

/-- The last point: the first scratch buffer is left at `xs0 + colsum x`, -/
theorem sout7_C_0_eq (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x : Vec F S3000x64 .f32) (xs0 xs1 : Vec F S1x64 .f32) :
    sout7_C_0 c i arg1 harg1 arg2 harg2 arg3 harg3 arg4 harg4 arg5 harg5 hc0 hc1 x xs0 xs1 = k7_pay4 x xs0 := by
  unfold sout7_C_0
  rw [View.read_writes_eq_canon _ _ _ (scover7_C_0 c i arg1 harg1 arg2 harg2 arg3 harg3 arg4 harg4 arg5 harg5 hc0 hc1 x xs0 xs1)]
  unfold kernelRun7_C
  dsimp only
  sl_unfold_words
  rw [View.canon_unit_zero hz7]
  simp only [View.readAt_eq_ld, harg1.read_unread, harg4.read_unread, harg5.read_unread, View.ld_unit_zero (S := S3000x64) hz7, View.ld_unit_zero (S := S1x64) hz7]

/-- the second at `xs1 + colsum (x·x)`, -/
theorem sout7_C_1_eq (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x : Vec F S3000x64 .f32) (xs0 xs1 : Vec F S1x64 .f32) :
    sout7_C_1 c i arg1 harg1 arg2 harg2 arg3 harg3 arg4 harg4 arg5 harg5 hc0 hc1 x xs0 xs1 = k7_pay5 x xs1 := by
  unfold sout7_C_1
  rw [View.read_writes_eq_canon _ _ _ (scover7_C_1 c i arg1 harg1 arg2 harg2 arg3 harg3 arg4 harg4 arg5 harg5 hc0 hc1 x xs0 xs1)]
  unfold kernelRun7_C
  dsimp only
  sl_unfold_words
  rw [View.canon_unit_zero hz7]
  simp only [View.readAt_eq_ld, harg1.read_unread, harg4.read_unread, harg5.read_unread, View.ld_unit_zero (S := S3000x64) hz7, View.ld_unit_zero (S := S1x64) hz7]

/-- the first output window at the completed sum scaled, -/
theorem out7_C_1_eq (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x : Vec F S3000x64 .f32) (xs0 xs1 : Vec F S1x64 .f32) :
    out7_C_1 c i arg1 harg1 arg2 harg2 arg3 harg3 arg4 harg4 arg5 harg5 hc0 hc1 x xs0 xs1 = k7_pay6 (k7_pay4 x xs0) := by
  unfold out7_C_1
  rw [View.read_writes_eq_canon _ _ _ (cover7_C_1 c i arg1 harg1 arg2 harg2 arg3 harg3 arg4 harg4 arg5 harg5 hc0 hc1 x xs0 xs1)]
  unfold kernelRun7_C
  dsimp only
  sl_unfold_words
  rw [View.canon_unit_zero hz7, View.readCov_unit_zero (S := S1x64) _ hz7]
  simp only [View.readAt_eq_ld, harg1.read_unread, harg4.read_unread, harg5.read_unread, View.ld_unit_zero (S := S3000x64) hz7, View.ld_unit_zero (S := S1x64) hz7]

/-- and the second at the completed sum of squares scaled, less the square of the first. -/
theorem out7_C_2_eq (c : Dev nD) (i : grid7.Coords) (arg1 : Memref sig .tc .vmem S3000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (hc1 : cond7_1 i)
    (x : Vec F S3000x64 .f32) (xs0 xs1 : Vec F S1x64 .f32) :
    out7_C_2 c i arg1 harg1 arg2 harg2 arg3 harg3 arg4 harg4 arg5 harg5 hc0 hc1 x xs0 xs1 = k7_pay7 (k7_pay4 x xs0) (k7_pay5 x xs1) := by
  unfold out7_C_2
  rw [View.read_writes_eq_canon _ _ _ (cover7_C_2 c i arg1 harg1 arg2 harg2 arg3 harg3 arg4 harg4 arg5 harg5 hc0 hc1 x xs0 xs1)]
  unfold kernelRun7_C
  dsimp only
  sl_unfold_words
  rw [View.canon_unit_zero hz7, View.readCov_unit_zero (S := S1x64) _ hz7, View.readCov_unit_zero (S := S1x64) _ hz7]
  simp only [View.readAt_eq_ld, harg1.read_unread, harg4.read_unread, harg5.read_unread, View.ld_unit_zero (S := S3000x64) hz7, View.ld_unit_zero (S := S1x64) hz7]

/-! ## The running sums by recursion on the point (at any float instance) -/

section Acc7
variable (V : (c : Dev nD) → (b : Ref sig .tc) → Buf (Elt F) ((c : Thread nD τ).loc b))

/-- The two running sums after point `n`: the first point's column sums over the stored zero, then each point's column
    sums added to what the point before left. -/
def acc7 (c : Dev nD) : (n : ℕ) → n < cfg7.N → Vec F S1x64 .f32 × Vec F S1x64 .f32
  | 0, h => (k7_pay4 (iblk7 V c 0 ⟨0, h⟩) (k7_pay1 (F := F)), k7_pay5 (iblk7 V c 0 ⟨0, h⟩) (k7_pay2 (F := F)))
  | n + 1, h => (k7_pay4 (iblk7 V c 0 ⟨n + 1, h⟩) (acc7 c n (Nat.lt_of_succ_lt h)).1,
      k7_pay5 (iblk7 V c 0 ⟨n + 1, h⟩) (acc7 c n (Nat.lt_of_succ_lt h)).2)

/-- What the two scratch buffers hold after point `n` IS that recursion — by induction on the point. -/
theorem outsAt7_scratch (c : Dev nD) : ∀ (n : ℕ) (h : n < cfg7.N), (outsAt7 V c n h).2 = acc7 V c n h
  | 0, h => by
    refine (congrArg Prod.snd (outsAt7_A V c ⟨0, h⟩ ((hcond7_0 ⟨0, h⟩).mpr (Nat.zero_mod _)) (not_cond7_1_zero h))).trans ?_
    show (sout7_A_0 _ _ _ _ _ _ _ _ _ _ _ _ _ _ _, sout7_A_1 _ _ _ _ _ _ _ _ _ _ _ _ _ _ _) = _
    rw [sout7_A_0_eq, sout7_A_1_eq]; rfl
  | n + 1, h => by
    by_cases hc1 : cond7_1 (grid7.coords ⟨n + 1, h⟩)
    · refine (congrArg Prod.snd (outsAt7_C V c ⟨n + 1, h⟩ (not_cond7_0_succ n h) hc1)).trans ?_
      show (sout7_C_0 _ _ _ _ _ _ _ _ _ _ _ _ _ _ _ _ _, sout7_C_1 _ _ _ _ _ _ _ _ _ _ _ _ _ _ _ _ _) = _
      rw [sout7_C_0_eq, sout7_C_1_eq]
      show (k7_pay4 _ (outsAt7 V c n _).2.1, k7_pay5 _ (outsAt7 V c n _).2.2) = _
      rw [outsAt7_scratch c n]; rfl
    · refine (congrArg Prod.snd (outsAt7_B V c ⟨n + 1, h⟩ (not_cond7_0_succ n h) hc1)).trans ?_
      show (sout7_B_0 _ _ _ _ _ _ _ _ _ _ _ _ _ _ _ _ _, sout7_B_1 _ _ _ _ _ _ _ _ _ _ _ _ _ _ _ _ _) = _
      rw [sout7_B_0_eq, sout7_B_1_eq]
      show (k7_pay4 _ (outsAt7 V c n _).2.1, k7_pay5 _ (outsAt7 V c n _).2.2) = _
      rw [outsAt7_scratch c n]; rfl

/-- The last point. -/
def t7_last : Fin cfg7.N := ⟨19, by rw [show cfg7.N = 20 from N_7]; decide⟩

theorem cond7_1_last : cond7_1 (grid7.coords t7_last) := (hcond7_1 t7_last).mpr rfl
theorem not_cond7_0_last : ¬cond7_0 (grid7.coords t7_last) := fun h => absurd ((hcond7_0 t7_last).mp h) (by decide)

/-- What the last point leaves in the two output windows: the scaled sum, and the scaled sum of squares less its square. -/
theorem outsAt7_last (c : Dev nD) :
    (outsAt7 V c t7_last.val t7_last.isLt).1
      = (k7_pay6 (acc7 V c t7_last.val t7_last.isLt).1,
         k7_pay7 (acc7 V c t7_last.val t7_last.isLt).1 (acc7 V c t7_last.val t7_last.isLt).2) := by
  refine (congrArg Prod.fst (outsAt7_C V c t7_last not_cond7_0_last cond7_1_last)).trans ?_
  show (out7_C_1 _ _ _ _ _ _ _ _ _ _ _ _ _ _ _ _ _, out7_C_2 _ _ _ _ _ _ _ _ _ _ _ _ _ _ _ _ _) = _
  rw [out7_C_1_eq, out7_C_2_eq]
  show (k7_pay6 (k7_pay4 _ (outsAt7 V c (t7_last.val - 1) _).2.1), k7_pay7 (k7_pay4 _ (outsAt7 V c (t7_last.val - 1) _).2.1) (k7_pay5 _ (outsAt7 V c (t7_last.val - 1) _).2.2)) = _
  rw [outsAt7_scratch V c (t7_last.val - 1)]; rfl

end Acc7

/-! ## At the extended reals -/

section Ideal7
open Cert.BlockedSum

/-- The named reciprocal of the row count denotes the rational it names. -/
theorem inv7 : Named.named (F := Ideal) κ "inv_60000" (φ := .f32) 0x378BCF65#32 = ((1 / (60000 : ℝ) : ℝ) : EReal) :=
  IdealRules.named_const.ideal_named_scalar _ _ _ _ rfl

/-- The column sums of a block, re-laid as a row: at `(u, q)` the sum of column `q`. -/
theorem colsum7_apply (src : FVec Ideal S3000x64 .f32) (hφ : FKind.Formats .f32) (hacc : (0x00000000#32 : BitVec 32) = FKind.add.neutral .f32 hφ)
    (u : Fin 1) (q : Fin 64) :
    shapeCast S1x64 (multiReduction .add [0] S64 src 0x00000000#32 reduces_S3000x64_S64 hφ hacc) shapeCasts_S64_S1x64 (ix2 u q) = ∑ r : Fin 3000, src (ix2 r q) :=
  (shapeCast_a_1a_apply _ shapeCasts_S64_S1x64 u q).trans
    ((Ideal.multiReduction_add_single src 0x00000000#32 reduces_S3000x64_S64 hφ hacc (ix1 q)).trans
      (Finset.sum_congr rfl fun k _ => congrArg src (funext fun ax => Fin.ext (by
        match ax with
        | ⟨0, _⟩ => rfl
        | ⟨1, _⟩ => rfl))))

theorem pay1_7_apply (j : S1x64.Idx) : k7_pay1 (F := Ideal) j = 0 := by
  unfold k7_pay1; simp only [shapeCast_self]; exact Ideal.ofBits_zero_f32
theorem pay2_7_apply (j : S1x64.Idx) : k7_pay2 (F := Ideal) j = 0 := by
  unfold k7_pay2; simp only [shapeCast_self]; exact Ideal.ofBits_zero_f32

theorem pay4_7_apply (x : Vec Ideal S3000x64 .f32) (s : Vec Ideal S1x64 .f32) (u : Fin 1) (q : Fin 64) :
    k7_pay4 (F := Ideal) x s (ix2 u q) = s (ix2 u q) + ∑ r : Fin 3000, x (ix2 r q) := by
  unfold k7_pay4 k7_pay3; simp only [shapeCast_self]
  refine (addf_apply _ _ _).trans ?_
  exact congrArg (s (ix2 u q) + ·) (colsum7_apply x _ _ u q)

theorem pay5_7_apply (x : Vec Ideal S3000x64 .f32) (s : Vec Ideal S1x64 .f32) (u : Fin 1) (q : Fin 64) :
    k7_pay5 (F := Ideal) x s (ix2 u q) = s (ix2 u q) + ∑ r : Fin 3000, x (ix2 r q) * x (ix2 r q) := by
  unfold k7_pay5 k7_pay3; simp only [shapeCast_self]
  refine (addf_apply _ _ _).trans ?_
  exact congrArg (s (ix2 u q) + ·) (colsum7_apply (mulf x x) _ _ u q)

theorem pay6_7_apply (s : Vec Ideal S1x64 .f32) (j : S1x64.Idx) :
    k7_pay6 (F := Ideal) s j = s j * ((1 / (60000 : ℝ) : ℝ) : EReal) := by
  unfold k7_pay6
  show s j * Named.named (F := Ideal) κ "inv_60000" (φ := .f32) 0x378BCF65#32 = _
  rw [inv7]

theorem pay7_7_apply (s0 s1 : Vec Ideal S1x64 .f32) (j : S1x64.Idx) :
    k7_pay7 (F := Ideal) s0 s1 j = s1 j * ((1 / (60000 : ℝ) : ℝ) : EReal)
      - (s0 j * ((1 / (60000 : ℝ) : ℝ) : EReal)) * (s0 j * ((1 / (60000 : ℝ) : ℝ) : EReal)) := by
  unfold k7_pay7
  show s1 j * Named.named (F := Ideal) κ "inv_60000" (φ := .f32) 0x378BCF65#32 - k7_pay6 (F := Ideal) s0 j * k7_pay6 (F := Ideal) s0 j = _
  rw [inv7, pay6_7_apply]

variable (V : (c : Dev nD) → (b : Ref sig .tc) → Buf (Elt Ideal) ((c : Thread nD τ).loc b))

/-- The statistics' input array as the region finds it. -/
abbrev xin7 (c : Dev nD) : S60000x64.Idx → EReal := V c (Pipeline.arrRef spec7 0)

/-- The input window's block index at point `t` is `(t, 0)`. -/
theorem index7_0 : ∀ t : Fin grid7.N, win7_0.index t 0 = t.val ∧ win7_0.index t 1 = 0 := by decide +kernel

/-- Row `r` of the block at point `t` is row `t · 3000 + r` of the array. -/
theorem iblk7_apply (c : Dev nD) (t : Fin cfg7.N) (r : Fin 3000) (q : Fin 64) :
    (iblk7 V c 0 t : Vec Ideal S3000x64 .f32) (ix2 r q) = at2 (xin7 V c) (t.val * 3000 + r.val) q.val := by
  unfold iblk7
  rw [View.read_apply]
  show xin7 V c _ = _
  refine at2_of_idx (xin7 V c) _ _ _ ?_ ?_
  · show win7_0.index t 0 * 3000 + 1 * r.val = t.val * 3000 + r.val
    rw [(index7_0 t).1]; omega
  · show win7_0.index t 1 * 64 + 1 * q.val = q.val
    rw [(index7_0 t).2]; omega

/-- The running sum after point `n`, at column `q`: the sum over the first `n + 1` tiles of the tile's column sum. -/
theorem acc7_fst (c : Dev nD) (u : Fin 1) (q : Fin 64) : ∀ (n : ℕ) (h : n < cfg7.N),
    (acc7 V c n h).1 (ix2 u q) = ∑ t ∈ Finset.range (n + 1), ∑ r : Fin 3000, at2 (xin7 V c) (t * 3000 + r.val) q.val
  | 0, h => by
    show k7_pay4 (F := Ideal) (iblk7 V c 0 ⟨0, h⟩) (k7_pay1 (F := Ideal)) (ix2 u q) = _
    rw [pay4_7_apply, pay1_7_apply, zero_add, Finset.sum_range_one]
    exact Finset.sum_congr rfl fun r _ => iblk7_apply V c ⟨0, h⟩ r q
  | n + 1, h => by
    show k7_pay4 (F := Ideal) (iblk7 V c 0 ⟨n + 1, h⟩) (acc7 V c n (Nat.lt_of_succ_lt h)).1 (ix2 u q) = _
    rw [pay4_7_apply, acc7_fst c u q n, Finset.sum_range_succ _ (n + 1)]
    exact congrArg (_ + ·) (Finset.sum_congr rfl fun r _ => iblk7_apply V c ⟨n + 1, h⟩ r q)

/-- The running sum of squares after point `n`, at column `q`. -/
theorem acc7_snd (c : Dev nD) (u : Fin 1) (q : Fin 64) : ∀ (n : ℕ) (h : n < cfg7.N),
    (acc7 V c n h).2 (ix2 u q) = ∑ t ∈ Finset.range (n + 1), ∑ r : Fin 3000,
      at2 (xin7 V c) (t * 3000 + r.val) q.val * at2 (xin7 V c) (t * 3000 + r.val) q.val
  | 0, h => by
    show k7_pay5 (F := Ideal) (iblk7 V c 0 ⟨0, h⟩) (k7_pay2 (F := Ideal)) (ix2 u q) = _
    rw [pay5_7_apply, pay2_7_apply, zero_add, Finset.sum_range_one]
    exact Finset.sum_congr rfl fun r _ => by rw [iblk7_apply V c ⟨0, h⟩ r q]
  | n + 1, h => by
    show k7_pay5 (F := Ideal) (iblk7 V c 0 ⟨n + 1, h⟩) (acc7 V c n (Nat.lt_of_succ_lt h)).2 (ix2 u q) = _
    rw [pay5_7_apply, acc7_snd c u q n, Finset.sum_range_succ _ (n + 1)]
    exact congrArg (_ + ·) (Finset.sum_congr rfl fun r _ => by rw [iblk7_apply V c ⟨n + 1, h⟩ r q])

/-- All 20 tiles together are all 60000 rows. -/
theorem tiles7 (f : ℕ → EReal) :
    ∑ t ∈ Finset.range (19 + 1), ∑ r : Fin 3000, f (t * 3000 + r.val) = ∑ i : Fin 60000, f i.val := by
  rw [← Fin.sum_univ_eq_sum_range (fun t => ∑ r : Fin 3000, f (t * 3000 + r.val)) (19 + 1)]
  exact Cert.Bridge.Bn.sum_tiles f 20 3000

/-- After the last point the first running sum is the column's sum over all rows, -/
theorem total7_fst (c : Dev nD) (u : Fin 1) (q : Fin 64) :
    (acc7 V c t7_last.val t7_last.isLt).1 (ix2 u q) = ∑ i : Fin 60000, xin7 V c (ix2 i q) := by
  refine (acc7_fst V c u q 19 _).trans ?_
  refine (tiles7 (fun k => at2 (xin7 V c) k q.val)).trans ?_
  exact Finset.sum_congr rfl fun i _ => (at2_of_idx (xin7 V c) (ix2 i q) i.val q.val rfl rfl).symm

/-- and the second the column's sum of squares. -/
theorem total7_snd (c : Dev nD) (u : Fin 1) (q : Fin 64) :
    (acc7 V c t7_last.val t7_last.isLt).2 (ix2 u q) = ∑ i : Fin 60000, xin7 V c (ix2 i q) * xin7 V c (ix2 i q) := by
  refine (acc7_snd V c u q 19 _).trans ?_
  refine (tiles7 (fun k => at2 (xin7 V c) k q.val * at2 (xin7 V c) k q.val)).trans ?_
  exact Finset.sum_congr rfl fun i _ => by rw [← at2_of_idx (xin7 V c) (ix2 i q) i.val q.val rfl rfl]

/-- What the last point leaves in the first output window is the column means, -/
theorem after7_1_last (c : Dev nD) : (dat7 (F := Ideal) V c).after 1 t7_last = kmeanA (xin7 V c) := by
  rw [after7_1, outsAt7_last]
  funext j
  obtain ⟨u, q, rfl⟩ : ∃ (u : Fin 1) (q : Fin 64), j = ix2 u q := ⟨j 0, j 1, eq_ix2 j⟩
  show k7_pay6 (F := Ideal) _ (ix2 u q) = _
  rw [pay6_7_apply, total7_fst]; rfl

/-- and in the second the column variances. -/
theorem after7_2_last (c : Dev nD) : (dat7 (F := Ideal) V c).after 2 t7_last = kvarA (xin7 V c) := by
  rw [after7_2, outsAt7_last]
  funext j
  obtain ⟨u, q, rfl⟩ : ∃ (u : Fin 1) (q : Fin 64), j = ix2 u q := ⟨j 0, j 1, eq_ix2 j⟩
  show k7_pay7 (F := Ideal) _ _ (ix2 u q) = _
  rw [pay7_7_apply, total7_fst, total7_snd]; rfl

/-- The one write-back of output window 1, at the last point, writes that: block (0, 0) of the [1, 64] array read
    through zero offsets is the array. -/
theorem flushed7_1_eq (c : Dev nD) (t : Fin cfg7.N) (hf : (cfg7.win 1).flush t = true) :
    (dat7 (F := Ideal) V c).flushed 1 t = ((cfg7.win 1).blk t).view.read (Elt Ideal) (kmeanA (xin7 V c)) := by
  have hN : cfg7.N = 20 := N_7
  have hl : t.val = 19 := by have := (flush7_1 t).mp hf; have := t.isLt; omega
  obtain rfl : t = t7_last := Fin.ext hl
  show (cfg7.win 1).cut (grid7.coords t7_last) ((dat7 (F := Ideal) V c).after 1 t7_last) = _
  rw [after7_1_last]
  have hz' : (fun a => win7_1.index t7_last a * main_v40_0.ty.shape.size a) = fun _ => 0 := funext fun a => by fin_cases a <;> decide
  exact (Memref.read_access_unit_zero (Elt Ideal) main_v40_0 hz' (fun a => by rw [congrFun hz' a]; simp) (kmeanA (xin7 V c))).symm

/-- So output array 1 ends holding it. -/
theorem final7_mean (c : Dev nD) : (dat7 (F := Ideal) V c).arrAt 1 cfg7.N = kmeanA (V c (Pipeline.arrRef spec7 0)) :=
  (dat7 (F := Ideal) V c).arrAt_eq_of_cover 1 (kmeanA (xin7 V c)) (flushed7_1_eq V c) fun i =>
    ⟨t7_last, (flush7_1 t7_last).mpr rfl, by
      show i ∈ ((View.whole main_v40_0).slice (win7_1.rect t7_last)).set
      rw [View.set_slice_whole, Rect.mem_set_unit]
      intro a
      have h0 : (i 0 : Nat) < 1 := (i 0).isLt
      have h1 : (i 1 : Nat) < 64 := (i 1).isLt
      match a with
      | ⟨0, _⟩ => show win7_1.index t7_last 0 * win7_1.size 0 ≤ (i 0 : Nat) ∧ (i 0 : Nat) < win7_1.index t7_last 0 * win7_1.size 0 + win7_1.xsize (grid7.coords t7_last) 0
                  rw [show win7_1.index t7_last 0 * win7_1.size 0 = 0 from by decide +kernel, show win7_1.xsize (grid7.coords t7_last) 0 = 1 from by decide +kernel]; omega
      | ⟨1, _⟩ => show win7_1.index t7_last 1 * win7_1.size 1 ≤ (i 1 : Nat) ∧ (i 1 : Nat) < win7_1.index t7_last 1 * win7_1.size 1 + win7_1.xsize (grid7.coords t7_last) 1
                  rw [show win7_1.index t7_last 1 * win7_1.size 1 = 0 from by decide +kernel, show win7_1.xsize (grid7.coords t7_last) 1 = 64 from by decide +kernel]; omega⟩

/-- The one write-back of output window 2, at the last point, writes that: block (0, 0) of the [1, 64] array read
    through zero offsets is the array. -/
theorem flushed7_2_eq (c : Dev nD) (t : Fin cfg7.N) (hf : (cfg7.win 2).flush t = true) :
    (dat7 (F := Ideal) V c).flushed 2 t = ((cfg7.win 2).blk t).view.read (Elt Ideal) (kvarA (xin7 V c)) := by
  have hN : cfg7.N = 20 := N_7
  have hl : t.val = 19 := by have := (flush7_2 t).mp hf; have := t.isLt; omega
  obtain rfl : t = t7_last := Fin.ext hl
  show (cfg7.win 2).cut (grid7.coords t7_last) ((dat7 (F := Ideal) V c).after 2 t7_last) = _
  rw [after7_2_last]
  have hz' : (fun a => win7_2.index t7_last a * main_v40_1.ty.shape.size a) = fun _ => 0 := funext fun a => by fin_cases a <;> decide
  exact (Memref.read_access_unit_zero (Elt Ideal) main_v40_1 hz' (fun a => by rw [congrFun hz' a]; simp) (kvarA (xin7 V c))).symm

/-- So output array 2 ends holding it. -/
theorem final7_var (c : Dev nD) : (dat7 (F := Ideal) V c).arrAt 2 cfg7.N = kvarA (V c (Pipeline.arrRef spec7 0)) :=
  (dat7 (F := Ideal) V c).arrAt_eq_of_cover 2 (kvarA (xin7 V c)) (flushed7_2_eq V c) fun i =>
    ⟨t7_last, (flush7_2 t7_last).mpr rfl, by
      show i ∈ ((View.whole main_v40_1).slice (win7_2.rect t7_last)).set
      rw [View.set_slice_whole, Rect.mem_set_unit]
      intro a
      have h0 : (i 0 : Nat) < 1 := (i 0).isLt
      have h1 : (i 1 : Nat) < 64 := (i 1).isLt
      match a with
      | ⟨0, _⟩ => show win7_2.index t7_last 0 * win7_2.size 0 ≤ (i 0 : Nat) ∧ (i 0 : Nat) < win7_2.index t7_last 0 * win7_2.size 0 + win7_2.xsize (grid7.coords t7_last) 0
                  rw [show win7_2.index t7_last 0 * win7_2.size 0 = 0 from by decide +kernel, show win7_2.xsize (grid7.coords t7_last) 0 = 1 from by decide +kernel]; omega
      | ⟨1, _⟩ => show win7_2.index t7_last 1 * win7_2.size 1 ≤ (i 1 : Nat) ∧ (i 1 : Nat) < win7_2.index t7_last 1 * win7_2.size 1 + win7_2.xsize (grid7.coords t7_last) 1
                  rw [show win7_2.index t7_last 1 * win7_2.size 1 = 0 from by decide +kernel, show win7_2.xsize (grid7.coords t7_last) 1 = 64 from by decide +kernel]; omega⟩

end Ideal7

end Cert.KernelIdeal.Vals

end
-- ==== Proof.StatsValue10.lean ====
import proofs.«180908_j8211977470570_1_alg».proof.Proof.StatsRegion10
import proofs.«180908_j8211977470570_1_alg».proof.Proof.StatsForms
import proofs.«180908_j8211977470570_1_alg».proof.Proof.BnBridge
import proofs.«180908_j8211977470570_1_alg».proof.Proof.LibBlockedSum
import Idealize.ShloMosaic.Lib.Pipeline.Value
import Idealize.ShloMosaic.Lib.ValueLayout
import Idealize.ShloMosaic.PureOps.Ideal.Laws
import Idealize.ShloMosaic.PureOps.IdealRules

set_option maxRecDepth 16384

noncomputable section

namespace Cert.KernelIdeal.Vals

open scoped BigOperators
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Regs

variable {F : FTy → Type} [FloatOps F] [Named F]

local notation "𝕄" => MT nD τ sig Unit (Elt F) ℕ (UR sig nD τ) ℕ

/-! # The statistics region of pipeline 10: what the two output arrays end holding, at the extended reals

The case runs' found pieces are read back as the body's payloads; the scratch buffers' contents after each point are a
recursion on the point; at the extended reals that recursion is the sum over the tiles of each tile's column sums, all
tiles together being all rows; the last point scales the totals by the named reciprocal of the row count and stores the
mean and the mean of squares less the squared mean; the one write-back of each output window writes its whole array. -/

/-! ## Each case's found pieces, read back as the body's payloads (at any float instance) -/

theorem hz10 : (![0, 0] : Fin 2 → Nat) = fun _ => 0 := funext fun a => by fin_cases a <;> rfl

/-- A middle point: the first scratch buffer, holding `xs0`, is left at `xs0 + colsum x`. -/
theorem sout10_B_0_eq (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : ¬cond10_1 i)
    (x : Vec F S3000x1 .f32) (xs0 xs1 : Vec F S1x1 .f32) :
    sout10_B_0 c i arg1 harg1 arg2 harg2 arg3 harg3 arg4 harg4 arg5 harg5 hc0 hc1 x xs0 xs1 = k10_pay4 x xs0 := by
  unfold sout10_B_0
  rw [View.read_writes_eq_canon _ _ _ (scover10_B_0 c i arg1 harg1 arg2 harg2 arg3 harg3 arg4 harg4 arg5 harg5 hc0 hc1 x xs0 xs1)]
  unfold kernelRun10_B
  dsimp only
  rw [View.canon_unit_zero hz10]
  simp only [View.readAt_eq_ld, harg1.read_unread, harg4.read_unread, harg5.read_unread, View.ld_unit_zero (S := S3000x1) hz10, View.ld_unit_zero (S := S1x1) hz10]

/-- A middle point: the second scratch buffer, holding `xs1`, is left at `xs1 + colsum (x·x)`. -/
theorem sout10_B_1_eq (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : ¬cond10_1 i)
    (x : Vec F S3000x1 .f32) (xs0 xs1 : Vec F S1x1 .f32) :
    sout10_B_1 c i arg1 harg1 arg2 harg2 arg3 harg3 arg4 harg4 arg5 harg5 hc0 hc1 x xs0 xs1 = k10_pay5 x xs1 := by
  unfold sout10_B_1
  rw [View.read_writes_eq_canon _ _ _ (scover10_B_1 c i arg1 harg1 arg2 harg2 arg3 harg3 arg4 harg4 arg5 harg5 hc0 hc1 x xs0 xs1)]
  unfold kernelRun10_B
  dsimp only
  rw [View.canon_unit_zero hz10]
  simp only [View.readAt_eq_ld, harg1.read_unread, harg4.read_unread, harg5.read_unread, View.ld_unit_zero (S := S3000x1) hz10, View.ld_unit_zero (S := S1x1) hz10]

/-- The first point: the first scratch buffer is zeroed, read back, and left at `0 + colsum x`. -/
theorem sout10_A_0_eq (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond10_0 i) (hc1 : ¬cond10_1 i)
    (x : Vec F S3000x1 .f32) :
    sout10_A_0 c i arg1 harg1 arg2 harg2 arg3 harg3 arg4 harg4 arg5 harg5 hc0 hc1 x = k10_pay4 x (k10_pay1 (F := F)) := by
  unfold sout10_A_0
  rw [View.read_writes_eq_canon _ _ _ (scover10_A_0 c i arg1 harg1 arg2 harg2 arg3 harg3 arg4 harg4 arg5 harg5 hc0 hc1 x)]
  unfold kernelRun10_A
  dsimp only
  sl_unfold_words
  rw [View.canon_cons_unit_zero (S := S1x1) hz10, View.readCov_unit_zero (S := S1x1) _ hz10]
  simp only [View.readAt_eq_ld, harg1.read_unread, harg4.read_unread, harg5.read_unread, View.ld_unit_zero (S := S3000x1) hz10, View.ld_unit_zero (S := S1x1) hz10]

/-- The first point: the second scratch buffer is zeroed, read back, and left at `0 + colsum (x·x)`. -/
theorem sout10_A_1_eq (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond10_0 i) (hc1 : ¬cond10_1 i)
    (x : Vec F S3000x1 .f32) :
    sout10_A_1 c i arg1 harg1 arg2 harg2 arg3 harg3 arg4 harg4 arg5 harg5 hc0 hc1 x = k10_pay5 x (k10_pay2 (F := F)) := by
  unfold sout10_A_1
  rw [View.read_writes_eq_canon _ _ _ (scover10_A_1 c i arg1 harg1 arg2 harg2 arg3 harg3 arg4 harg4 arg5 harg5 hc0 hc1 x)]
  unfold kernelRun10_A
  dsimp only
  sl_unfold_words
  rw [View.canon_cons_unit_zero (S := S1x1) hz10, View.readCov_unit_zero (S := S1x1) _ hz10]
  simp only [View.readAt_eq_ld, harg1.read_unread, harg4.read_unread, harg5.read_unread, View.ld_unit_zero (S := S3000x1) hz10, View.ld_unit_zero (S := S1x1) hz10]

/-- The last point: the first scratch buffer is left at `xs0 + colsum x`, -/
theorem sout10_C_0_eq (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x : Vec F S3000x1 .f32) (xs0 xs1 : Vec F S1x1 .f32) :
    sout10_C_0 c i arg1 harg1 arg2 harg2 arg3 harg3 arg4 harg4 arg5 harg5 hc0 hc1 x xs0 xs1 = k10_pay4 x xs0 := by
  unfold sout10_C_0
  rw [View.read_writes_eq_canon _ _ _ (scover10_C_0 c i arg1 harg1 arg2 harg2 arg3 harg3 arg4 harg4 arg5 harg5 hc0 hc1 x xs0 xs1)]
  unfold kernelRun10_C
  dsimp only
  sl_unfold_words
  rw [View.canon_unit_zero hz10]
  simp only [View.readAt_eq_ld, harg1.read_unread, harg4.read_unread, harg5.read_unread, View.ld_unit_zero (S := S3000x1) hz10, View.ld_unit_zero (S := S1x1) hz10]

/-- the second at `xs1 + colsum (x·x)`, -/
theorem sout10_C_1_eq (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x : Vec F S3000x1 .f32) (xs0 xs1 : Vec F S1x1 .f32) :
    sout10_C_1 c i arg1 harg1 arg2 harg2 arg3 harg3 arg4 harg4 arg5 harg5 hc0 hc1 x xs0 xs1 = k10_pay5 x xs1 := by
  unfold sout10_C_1
  rw [View.read_writes_eq_canon _ _ _ (scover10_C_1 c i arg1 harg1 arg2 harg2 arg3 harg3 arg4 harg4 arg5 harg5 hc0 hc1 x xs0 xs1)]
  unfold kernelRun10_C
  dsimp only
  sl_unfold_words
  rw [View.canon_unit_zero hz10]
  simp only [View.readAt_eq_ld, harg1.read_unread, harg4.read_unread, harg5.read_unread, View.ld_unit_zero (S := S3000x1) hz10, View.ld_unit_zero (S := S1x1) hz10]

/-- the first output window at the completed sum scaled, -/
theorem out10_C_1_eq (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x : Vec F S3000x1 .f32) (xs0 xs1 : Vec F S1x1 .f32) :
    out10_C_1 c i arg1 harg1 arg2 harg2 arg3 harg3 arg4 harg4 arg5 harg5 hc0 hc1 x xs0 xs1 = k10_pay6 (k10_pay4 x xs0) := by
  unfold out10_C_1
  rw [View.read_writes_eq_canon _ _ _ (cover10_C_1 c i arg1 harg1 arg2 harg2 arg3 harg3 arg4 harg4 arg5 harg5 hc0 hc1 x xs0 xs1)]
  unfold kernelRun10_C
  dsimp only
  sl_unfold_words
  rw [View.canon_unit_zero hz10, View.readCov_unit_zero (S := S1x1) _ hz10]
  simp only [View.readAt_eq_ld, harg1.read_unread, harg4.read_unread, harg5.read_unread, View.ld_unit_zero (S := S3000x1) hz10, View.ld_unit_zero (S := S1x1) hz10]

/-- and the second at the completed sum of squares scaled, less the square of the first. -/
theorem out10_C_2_eq (c : Dev nD) (i : grid10.Coords) (arg1 : Memref sig .tc .vmem S3000x1 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond10_0 i) (hc1 : cond10_1 i)
    (x : Vec F S3000x1 .f32) (xs0 xs1 : Vec F S1x1 .f32) :
    out10_C_2 c i arg1 harg1 arg2 harg2 arg3 harg3 arg4 harg4 arg5 harg5 hc0 hc1 x xs0 xs1 = k10_pay7 (k10_pay4 x xs0) (k10_pay5 x xs1) := by
  unfold out10_C_2
  rw [View.read_writes_eq_canon _ _ _ (cover10_C_2 c i arg1 harg1 arg2 harg2 arg3 harg3 arg4 harg4 arg5 harg5 hc0 hc1 x xs0 xs1)]
  unfold kernelRun10_C
  dsimp only
  sl_unfold_words
  rw [View.canon_unit_zero hz10, View.readCov_unit_zero (S := S1x1) _ hz10, View.readCov_unit_zero (S := S1x1) _ hz10]
  simp only [View.readAt_eq_ld, harg1.read_unread, harg4.read_unread, harg5.read_unread, View.ld_unit_zero (S := S3000x1) hz10, View.ld_unit_zero (S := S1x1) hz10]

/-! ## The running sums by recursion on the point (at any float instance) -/

section Acc10
variable (V : (c : Dev nD) → (b : Ref sig .tc) → Buf (Elt F) ((c : Thread nD τ).loc b))

/-- The two running sums after point `n`: the first point's column sums over the stored zero, then each point's column
    sums added to what the point before left. -/
def acc10 (c : Dev nD) : (n : ℕ) → n < cfg10.N → Vec F S1x1 .f32 × Vec F S1x1 .f32
  | 0, h => (k10_pay4 (iblk10 V c 0 ⟨0, h⟩) (k10_pay1 (F := F)), k10_pay5 (iblk10 V c 0 ⟨0, h⟩) (k10_pay2 (F := F)))
  | n + 1, h => (k10_pay4 (iblk10 V c 0 ⟨n + 1, h⟩) (acc10 c n (Nat.lt_of_succ_lt h)).1,
      k10_pay5 (iblk10 V c 0 ⟨n + 1, h⟩) (acc10 c n (Nat.lt_of_succ_lt h)).2)

/-- What the two scratch buffers hold after point `n` IS that recursion — by induction on the point. -/
theorem outsAt10_scratch (c : Dev nD) : ∀ (n : ℕ) (h : n < cfg10.N), (outsAt10 V c n h).2 = acc10 V c n h
  | 0, h => by
    refine (congrArg Prod.snd (outsAt10_A V c ⟨0, h⟩ ((hcond10_0 ⟨0, h⟩).mpr (Nat.zero_mod _)) (not_cond10_1_zero h))).trans ?_
    show (sout10_A_0 _ _ _ _ _ _ _ _ _ _ _ _ _ _ _, sout10_A_1 _ _ _ _ _ _ _ _ _ _ _ _ _ _ _) = _
    rw [sout10_A_0_eq, sout10_A_1_eq]; rfl
  | n + 1, h => by
    by_cases hc1 : cond10_1 (grid10.coords ⟨n + 1, h⟩)
    · refine (congrArg Prod.snd (outsAt10_C V c ⟨n + 1, h⟩ (not_cond10_0_succ n h) hc1)).trans ?_
      show (sout10_C_0 _ _ _ _ _ _ _ _ _ _ _ _ _ _ _ _ _, sout10_C_1 _ _ _ _ _ _ _ _ _ _ _ _ _ _ _ _ _) = _
      rw [sout10_C_0_eq, sout10_C_1_eq]
      show (k10_pay4 _ (outsAt10 V c n _).2.1, k10_pay5 _ (outsAt10 V c n _).2.2) = _
      rw [outsAt10_scratch c n]; rfl
    · refine (congrArg Prod.snd (outsAt10_B V c ⟨n + 1, h⟩ (not_cond10_0_succ n h) hc1)).trans ?_
      show (sout10_B_0 _ _ _ _ _ _ _ _ _ _ _ _ _ _ _ _ _, sout10_B_1 _ _ _ _ _ _ _ _ _ _ _ _ _ _ _ _ _) = _
      rw [sout10_B_0_eq, sout10_B_1_eq]
      show (k10_pay4 _ (outsAt10 V c n _).2.1, k10_pay5 _ (outsAt10 V c n _).2.2) = _
      rw [outsAt10_scratch c n]; rfl

/-- The last point. -/
def t10_last : Fin cfg10.N := ⟨19, by rw [show cfg10.N = 20 from N_10]; decide⟩

theorem cond10_1_last : cond10_1 (grid10.coords t10_last) := (hcond10_1 t10_last).mpr rfl
theorem not_cond10_0_last : ¬cond10_0 (grid10.coords t10_last) := fun h => absurd ((hcond10_0 t10_last).mp h) (by decide)

/-- What the last point leaves in the two output windows: the scaled sum, and the scaled sum of squares less its square. -/
theorem outsAt10_last (c : Dev nD) :
    (outsAt10 V c t10_last.val t10_last.isLt).1
      = (k10_pay6 (acc10 V c t10_last.val t10_last.isLt).1,
         k10_pay7 (acc10 V c t10_last.val t10_last.isLt).1 (acc10 V c t10_last.val t10_last.isLt).2) := by
  refine (congrArg Prod.fst (outsAt10_C V c t10_last not_cond10_0_last cond10_1_last)).trans ?_
  show (out10_C_1 _ _ _ _ _ _ _ _ _ _ _ _ _ _ _ _ _, out10_C_2 _ _ _ _ _ _ _ _ _ _ _ _ _ _ _ _ _) = _
  rw [out10_C_1_eq, out10_C_2_eq]
  show (k10_pay6 (k10_pay4 _ (outsAt10 V c (t10_last.val - 1) _).2.1), k10_pay7 (k10_pay4 _ (outsAt10 V c (t10_last.val - 1) _).2.1) (k10_pay5 _ (outsAt10 V c (t10_last.val - 1) _).2.2)) = _
  rw [outsAt10_scratch V c (t10_last.val - 1)]; rfl

end Acc10

/-! ## At the extended reals -/

section Ideal10
open Cert.BlockedSum

/-- The named reciprocal of the row count denotes the rational it names. -/
theorem inv10 : Named.named (F := Ideal) κ "inv_60000" (φ := .f32) 0x378BCF65#32 = ((1 / (60000 : ℝ) : ℝ) : EReal) :=
  IdealRules.named_const.ideal_named_scalar _ _ _ _ rfl

/-- The column sums of a block, re-laid as a row: at `(u, q)` the sum of column `q`. -/
theorem colsum10_apply (src : FVec Ideal S3000x1 .f32) (hφ : FKind.Formats .f32) (hacc : (0x00000000#32 : BitVec 32) = FKind.add.neutral .f32 hφ)
    (u : Fin 1) (q : Fin 1) :
    shapeCast S1x1 (multiReduction .add [0] S1 src 0x00000000#32 reduces_S3000x1_S1 hφ hacc) shapeCasts_S1_S1x1 (ix2 u q) = ∑ r : Fin 3000, src (ix2 r q) :=
  (shapeCast_a_1a_apply _ shapeCasts_S1_S1x1 u q).trans
    ((Ideal.multiReduction_add_single src 0x00000000#32 reduces_S3000x1_S1 hφ hacc (ix1 q)).trans
      (Finset.sum_congr rfl fun k _ => congrArg src (funext fun ax => Fin.ext (by
        match ax with
        | ⟨0, _⟩ => rfl
        | ⟨1, _⟩ => rfl))))

theorem pay1_10_apply (j : S1x1.Idx) : k10_pay1 (F := Ideal) j = 0 := by
  unfold k10_pay1; simp only [shapeCast_self]; exact Ideal.ofBits_zero_f32
theorem pay2_10_apply (j : S1x1.Idx) : k10_pay2 (F := Ideal) j = 0 := by
  unfold k10_pay2; simp only [shapeCast_self]; exact Ideal.ofBits_zero_f32

theorem pay4_10_apply (x : Vec Ideal S3000x1 .f32) (s : Vec Ideal S1x1 .f32) (u : Fin 1) (q : Fin 1) :
    k10_pay4 (F := Ideal) x s (ix2 u q) = s (ix2 u q) + ∑ r : Fin 3000, x (ix2 r q) := by
  unfold k10_pay4 k10_pay3; simp only [shapeCast_self]
  refine (addf_apply _ _ _).trans ?_
  exact congrArg (s (ix2 u q) + ·) (colsum10_apply x _ _ u q)

theorem pay5_10_apply (x : Vec Ideal S3000x1 .f32) (s : Vec Ideal S1x1 .f32) (u : Fin 1) (q : Fin 1) :
    k10_pay5 (F := Ideal) x s (ix2 u q) = s (ix2 u q) + ∑ r : Fin 3000, x (ix2 r q) * x (ix2 r q) := by
  unfold k10_pay5 k10_pay3; simp only [shapeCast_self]
  refine (addf_apply _ _ _).trans ?_
  exact congrArg (s (ix2 u q) + ·) (colsum10_apply (mulf x x) _ _ u q)

theorem pay6_10_apply (s : Vec Ideal S1x1 .f32) (j : S1x1.Idx) :
    k10_pay6 (F := Ideal) s j = s j * ((1 / (60000 : ℝ) : ℝ) : EReal) := by
  unfold k10_pay6
  show s j * Named.named (F := Ideal) κ "inv_60000" (φ := .f32) 0x378BCF65#32 = _
  rw [inv10]

theorem pay7_10_apply (s0 s1 : Vec Ideal S1x1 .f32) (j : S1x1.Idx) :
    k10_pay7 (F := Ideal) s0 s1 j = s1 j * ((1 / (60000 : ℝ) : ℝ) : EReal)
      - (s0 j * ((1 / (60000 : ℝ) : ℝ) : EReal)) * (s0 j * ((1 / (60000 : ℝ) : ℝ) : EReal)) := by
  unfold k10_pay7
  show s1 j * Named.named (F := Ideal) κ "inv_60000" (φ := .f32) 0x378BCF65#32 - k10_pay6 (F := Ideal) s0 j * k10_pay6 (F := Ideal) s0 j = _
  rw [inv10, pay6_10_apply]

variable (V : (c : Dev nD) → (b : Ref sig .tc) → Buf (Elt Ideal) ((c : Thread nD τ).loc b))

/-- The statistics' input array as the region finds it. -/
abbrev xin10 (c : Dev nD) : S60000x1.Idx → EReal := V c (Pipeline.arrRef spec10 0)

/-- The input window's block index at point `t` is `(t, 0)`. -/
theorem index10_0 : ∀ t : Fin grid10.N, win10_0.index t 0 = t.val ∧ win10_0.index t 1 = 0 := by decide +kernel

/-- Row `r` of the block at point `t` is row `t · 3000 + r` of the array. -/
theorem iblk10_apply (c : Dev nD) (t : Fin cfg10.N) (r : Fin 3000) (q : Fin 1) :
    (iblk10 V c 0 t : Vec Ideal S3000x1 .f32) (ix2 r q) = at2 (xin10 V c) (t.val * 3000 + r.val) q.val := by
  unfold iblk10
  rw [View.read_apply]
  show xin10 V c _ = _
  refine at2_of_idx (xin10 V c) _ _ _ ?_ ?_
  · show win10_0.index t 0 * 3000 + 1 * r.val = t.val * 3000 + r.val
    rw [(index10_0 t).1]; omega
  · show win10_0.index t 1 * 1 + 1 * q.val = q.val
    rw [(index10_0 t).2]; omega

/-- The running sum after point `n`, at column `q`: the sum over the first `n + 1` tiles of the tile's column sum. -/
theorem acc10_fst (c : Dev nD) (u : Fin 1) (q : Fin 1) : ∀ (n : ℕ) (h : n < cfg10.N),
    (acc10 V c n h).1 (ix2 u q) = ∑ t ∈ Finset.range (n + 1), ∑ r : Fin 3000, at2 (xin10 V c) (t * 3000 + r.val) q.val
  | 0, h => by
    show k10_pay4 (F := Ideal) (iblk10 V c 0 ⟨0, h⟩) (k10_pay1 (F := Ideal)) (ix2 u q) = _
    rw [pay4_10_apply, pay1_10_apply, zero_add, Finset.sum_range_one]
    exact Finset.sum_congr rfl fun r _ => iblk10_apply V c ⟨0, h⟩ r q
  | n + 1, h => by
    show k10_pay4 (F := Ideal) (iblk10 V c 0 ⟨n + 1, h⟩) (acc10 V c n (Nat.lt_of_succ_lt h)).1 (ix2 u q) = _
    rw [pay4_10_apply, acc10_fst c u q n, Finset.sum_range_succ _ (n + 1)]
    exact congrArg (_ + ·) (Finset.sum_congr rfl fun r _ => iblk10_apply V c ⟨n + 1, h⟩ r q)

/-- The running sum of squares after point `n`, at column `q`. -/
theorem acc10_snd (c : Dev nD) (u : Fin 1) (q : Fin 1) : ∀ (n : ℕ) (h : n < cfg10.N),
    (acc10 V c n h).2 (ix2 u q) = ∑ t ∈ Finset.range (n + 1), ∑ r : Fin 3000,
      at2 (xin10 V c) (t * 3000 + r.val) q.val * at2 (xin10 V c) (t * 3000 + r.val) q.val
  | 0, h => by
    show k10_pay5 (F := Ideal) (iblk10 V c 0 ⟨0, h⟩) (k10_pay2 (F := Ideal)) (ix2 u q) = _
    rw [pay5_10_apply, pay2_10_apply, zero_add, Finset.sum_range_one]
    exact Finset.sum_congr rfl fun r _ => by rw [iblk10_apply V c ⟨0, h⟩ r q]
  | n + 1, h => by
    show k10_pay5 (F := Ideal) (iblk10 V c 0 ⟨n + 1, h⟩) (acc10 V c n (Nat.lt_of_succ_lt h)).2 (ix2 u q) = _
    rw [pay5_10_apply, acc10_snd c u q n, Finset.sum_range_succ _ (n + 1)]
    exact congrArg (_ + ·) (Finset.sum_congr rfl fun r _ => by rw [iblk10_apply V c ⟨n + 1, h⟩ r q])

/-- All 20 tiles together are all 60000 rows. -/
theorem tiles10 (f : ℕ → EReal) :
    ∑ t ∈ Finset.range (19 + 1), ∑ r : Fin 3000, f (t * 3000 + r.val) = ∑ i : Fin 60000, f i.val := by
  rw [← Fin.sum_univ_eq_sum_range (fun t => ∑ r : Fin 3000, f (t * 3000 + r.val)) (19 + 1)]
  exact Cert.Bridge.Bn.sum_tiles f 20 3000

/-- After the last point the first running sum is the column's sum over all rows, -/
theorem total10_fst (c : Dev nD) (u : Fin 1) (q : Fin 1) :
    (acc10 V c t10_last.val t10_last.isLt).1 (ix2 u q) = ∑ i : Fin 60000, xin10 V c (ix2 i q) := by
  refine (acc10_fst V c u q 19 _).trans ?_
  refine (tiles10 (fun k => at2 (xin10 V c) k q.val)).trans ?_
  exact Finset.sum_congr rfl fun i _ => (at2_of_idx (xin10 V c) (ix2 i q) i.val q.val rfl rfl).symm

/-- and the second the column's sum of squares. -/
theorem total10_snd (c : Dev nD) (u : Fin 1) (q : Fin 1) :
    (acc10 V c t10_last.val t10_last.isLt).2 (ix2 u q) = ∑ i : Fin 60000, xin10 V c (ix2 i q) * xin10 V c (ix2 i q) := by
  refine (acc10_snd V c u q 19 _).trans ?_
  refine (tiles10 (fun k => at2 (xin10 V c) k q.val * at2 (xin10 V c) k q.val)).trans ?_
  exact Finset.sum_congr rfl fun i _ => by rw [← at2_of_idx (xin10 V c) (ix2 i q) i.val q.val rfl rfl]

/-- What the last point leaves in the first output window is the column means, -/
theorem after10_1_last (c : Dev nD) : (dat10 (F := Ideal) V c).after 1 t10_last = kmeanB (xin10 V c) := by
  rw [after10_1, outsAt10_last]
  funext j
  obtain ⟨u, q, rfl⟩ : ∃ (u : Fin 1) (q : Fin 1), j = ix2 u q := ⟨j 0, j 1, eq_ix2 j⟩
  show k10_pay6 (F := Ideal) _ (ix2 u q) = _
  rw [pay6_10_apply, total10_fst]; rfl

/-- and in the second the column variances. -/
theorem after10_2_last (c : Dev nD) : (dat10 (F := Ideal) V c).after 2 t10_last = kvarB (xin10 V c) := by
  rw [after10_2, outsAt10_last]
  funext j
  obtain ⟨u, q, rfl⟩ : ∃ (u : Fin 1) (q : Fin 1), j = ix2 u q := ⟨j 0, j 1, eq_ix2 j⟩
  show k10_pay7 (F := Ideal) _ _ (ix2 u q) = _
  rw [pay7_10_apply, total10_fst, total10_snd]; rfl

/-- The one write-back of output window 1, at the last point, writes that: block (0, 0) of the [1, 1] array read
    through zero offsets is the array. -/
theorem flushed10_1_eq (c : Dev nD) (t : Fin cfg10.N) (hf : (cfg10.win 1).flush t = true) :
    (dat10 (F := Ideal) V c).flushed 1 t = ((cfg10.win 1).blk t).view.read (Elt Ideal) (kmeanB (xin10 V c)) := by
  have hN : cfg10.N = 20 := N_10
  have hl : t.val = 19 := by have := (flush10_1 t).mp hf; have := t.isLt; omega
  obtain rfl : t = t10_last := Fin.ext hl
  show (cfg10.win 1).cut (grid10.coords t10_last) ((dat10 (F := Ideal) V c).after 1 t10_last) = _
  rw [after10_1_last]
  have hz' : (fun a => win10_1.index t10_last a * main_v52_0.ty.shape.size a) = fun _ => 0 := funext fun a => by fin_cases a <;> decide
  exact (Memref.read_access_unit_zero (Elt Ideal) main_v52_0 hz' (fun a => by rw [congrFun hz' a]; simp) (kmeanB (xin10 V c))).symm

/-- So output array 1 ends holding it. -/
theorem final10_mean (c : Dev nD) : (dat10 (F := Ideal) V c).arrAt 1 cfg10.N = kmeanB (V c (Pipeline.arrRef spec10 0)) :=
  (dat10 (F := Ideal) V c).arrAt_eq_of_cover 1 (kmeanB (xin10 V c)) (flushed10_1_eq V c) fun i =>
    ⟨t10_last, (flush10_1 t10_last).mpr rfl, by
      show i ∈ ((View.whole main_v52_0).slice (win10_1.rect t10_last)).set
      rw [View.set_slice_whole, Rect.mem_set_unit]
      intro a
      have h0 : (i 0 : Nat) < 1 := (i 0).isLt
      have h1 : (i 1 : Nat) < 1 := (i 1).isLt
      match a with
      | ⟨0, _⟩ => show win10_1.index t10_last 0 * win10_1.size 0 ≤ (i 0 : Nat) ∧ (i 0 : Nat) < win10_1.index t10_last 0 * win10_1.size 0 + win10_1.xsize (grid10.coords t10_last) 0
                  rw [show win10_1.index t10_last 0 * win10_1.size 0 = 0 from by decide +kernel, show win10_1.xsize (grid10.coords t10_last) 0 = 1 from by decide +kernel]; omega
      | ⟨1, _⟩ => show win10_1.index t10_last 1 * win10_1.size 1 ≤ (i 1 : Nat) ∧ (i 1 : Nat) < win10_1.index t10_last 1 * win10_1.size 1 + win10_1.xsize (grid10.coords t10_last) 1
                  rw [show win10_1.index t10_last 1 * win10_1.size 1 = 0 from by decide +kernel, show win10_1.xsize (grid10.coords t10_last) 1 = 1 from by decide +kernel]; omega⟩

/-- The one write-back of output window 2, at the last point, writes that: block (0, 0) of the [1, 1] array read
    through zero offsets is the array. -/
theorem flushed10_2_eq (c : Dev nD) (t : Fin cfg10.N) (hf : (cfg10.win 2).flush t = true) :
    (dat10 (F := Ideal) V c).flushed 2 t = ((cfg10.win 2).blk t).view.read (Elt Ideal) (kvarB (xin10 V c)) := by
  have hN : cfg10.N = 20 := N_10
  have hl : t.val = 19 := by have := (flush10_2 t).mp hf; have := t.isLt; omega
  obtain rfl : t = t10_last := Fin.ext hl
  show (cfg10.win 2).cut (grid10.coords t10_last) ((dat10 (F := Ideal) V c).after 2 t10_last) = _
  rw [after10_2_last]
  have hz' : (fun a => win10_2.index t10_last a * main_v52_1.ty.shape.size a) = fun _ => 0 := funext fun a => by fin_cases a <;> decide
  exact (Memref.read_access_unit_zero (Elt Ideal) main_v52_1 hz' (fun a => by rw [congrFun hz' a]; simp) (kvarB (xin10 V c))).symm

/-- So output array 2 ends holding it. -/
theorem final10_var (c : Dev nD) : (dat10 (F := Ideal) V c).arrAt 2 cfg10.N = kvarB (V c (Pipeline.arrRef spec10 0)) :=
  (dat10 (F := Ideal) V c).arrAt_eq_of_cover 2 (kvarB (xin10 V c)) (flushed10_2_eq V c) fun i =>
    ⟨t10_last, (flush10_2 t10_last).mpr rfl, by
      show i ∈ ((View.whole main_v52_1).slice (win10_2.rect t10_last)).set
      rw [View.set_slice_whole, Rect.mem_set_unit]
      intro a
      have h0 : (i 0 : Nat) < 1 := (i 0).isLt
      have h1 : (i 1 : Nat) < 1 := (i 1).isLt
      match a with
      | ⟨0, _⟩ => show win10_2.index t10_last 0 * win10_2.size 0 ≤ (i 0 : Nat) ∧ (i 0 : Nat) < win10_2.index t10_last 0 * win10_2.size 0 + win10_2.xsize (grid10.coords t10_last) 0
                  rw [show win10_2.index t10_last 0 * win10_2.size 0 = 0 from by decide +kernel, show win10_2.xsize (grid10.coords t10_last) 0 = 1 from by decide +kernel]; omega
      | ⟨1, _⟩ => show win10_2.index t10_last 1 * win10_2.size 1 ≤ (i 1 : Nat) ∧ (i 1 : Nat) < win10_2.index t10_last 1 * win10_2.size 1 + win10_2.xsize (grid10.coords t10_last) 1
                  rw [show win10_2.index t10_last 1 * win10_2.size 1 = 0 from by decide +kernel, show win10_2.xsize (grid10.coords t10_last) 1 = 1 from by decide +kernel]; omega⟩

end Ideal10

end Cert.KernelIdeal.Vals

end
-- ==== Proof.StatsValue13.lean ====
import proofs.«180908_j8211977470570_1_alg».proof.Proof.StatsRegion13
import proofs.«180908_j8211977470570_1_alg».proof.Proof.StatsForms
import proofs.«180908_j8211977470570_1_alg».proof.Proof.BnBridge
import proofs.«180908_j8211977470570_1_alg».proof.Proof.LibBlockedSum
import Idealize.ShloMosaic.Lib.Pipeline.Value
import Idealize.ShloMosaic.Lib.ValueLayout
import Idealize.ShloMosaic.PureOps.Ideal.Laws
import Idealize.ShloMosaic.PureOps.IdealRules

set_option maxRecDepth 16384

noncomputable section

namespace Cert.KernelIdeal.Vals

open scoped BigOperators
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Regs

variable {F : FTy → Type} [FloatOps F] [Named F]

local notation "𝕄" => MT nD τ sig Unit (Elt F) ℕ (UR sig nD τ) ℕ

/-! # The statistics region of pipeline 13: what the two output arrays end holding, at the extended reals

The case runs' found pieces are read back as the body's payloads; the scratch buffers' contents after each point are a
recursion on the point; at the extended reals that recursion is the sum over the tiles of each tile's column sums, all
tiles together being all rows; the last point scales the totals by the named reciprocal of the row count and stores the
mean and the mean of squares less the squared mean; the one write-back of each output window writes its whole array. -/

/-! ## Each case's found pieces, read back as the body's payloads (at any float instance) -/

theorem hz13 : (![0, 0] : Fin 2 → Nat) = fun _ => 0 := funext fun a => by fin_cases a <;> rfl

/-- A middle point: the first scratch buffer, holding `xs0`, is left at `xs0 + colsum x`. -/
theorem sout13_B_0_eq (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x : Vec F S10000x64 .f32) (xs0 xs1 : Vec F S1x64 .f32) :
    sout13_B_0 c i arg1 harg1 arg2 harg2 arg3 harg3 arg4 harg4 arg5 harg5 hc0 hc1 x xs0 xs1 = k13_pay4 x xs0 := by
  unfold sout13_B_0
  rw [View.read_writes_eq_canon _ _ _ (scover13_B_0 c i arg1 harg1 arg2 harg2 arg3 harg3 arg4 harg4 arg5 harg5 hc0 hc1 x xs0 xs1)]
  unfold kernelRun13_B
  dsimp only
  rw [View.canon_unit_zero hz13]
  simp only [View.readAt_eq_ld, harg1.read_unread, harg4.read_unread, harg5.read_unread, View.ld_unit_zero (S := S10000x64) hz13, View.ld_unit_zero (S := S1x64) hz13]

/-- A middle point: the second scratch buffer, holding `xs1`, is left at `xs1 + colsum (x·x)`. -/
theorem sout13_B_1_eq (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : ¬cond13_1 i)
    (x : Vec F S10000x64 .f32) (xs0 xs1 : Vec F S1x64 .f32) :
    sout13_B_1 c i arg1 harg1 arg2 harg2 arg3 harg3 arg4 harg4 arg5 harg5 hc0 hc1 x xs0 xs1 = k13_pay5 x xs1 := by
  unfold sout13_B_1
  rw [View.read_writes_eq_canon _ _ _ (scover13_B_1 c i arg1 harg1 arg2 harg2 arg3 harg3 arg4 harg4 arg5 harg5 hc0 hc1 x xs0 xs1)]
  unfold kernelRun13_B
  dsimp only
  rw [View.canon_unit_zero hz13]
  simp only [View.readAt_eq_ld, harg1.read_unread, harg4.read_unread, harg5.read_unread, View.ld_unit_zero (S := S10000x64) hz13, View.ld_unit_zero (S := S1x64) hz13]

/-- The first point: the first scratch buffer is zeroed, read back, and left at `0 + colsum x`. -/
theorem sout13_A_0_eq (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x : Vec F S10000x64 .f32) :
    sout13_A_0 c i arg1 harg1 arg2 harg2 arg3 harg3 arg4 harg4 arg5 harg5 hc0 hc1 x = k13_pay4 x (k13_pay1 (F := F)) := by
  unfold sout13_A_0
  rw [View.read_writes_eq_canon _ _ _ (scover13_A_0 c i arg1 harg1 arg2 harg2 arg3 harg3 arg4 harg4 arg5 harg5 hc0 hc1 x)]
  unfold kernelRun13_A
  dsimp only
  sl_unfold_words
  rw [View.canon_cons_unit_zero (S := S1x64) hz13, View.readCov_unit_zero (S := S1x64) _ hz13]
  simp only [View.readAt_eq_ld, harg1.read_unread, harg4.read_unread, harg5.read_unread, View.ld_unit_zero (S := S10000x64) hz13, View.ld_unit_zero (S := S1x64) hz13]

/-- The first point: the second scratch buffer is zeroed, read back, and left at `0 + colsum (x·x)`. -/
theorem sout13_A_1_eq (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond13_0 i) (hc1 : ¬cond13_1 i)
    (x : Vec F S10000x64 .f32) :
    sout13_A_1 c i arg1 harg1 arg2 harg2 arg3 harg3 arg4 harg4 arg5 harg5 hc0 hc1 x = k13_pay5 x (k13_pay2 (F := F)) := by
  unfold sout13_A_1
  rw [View.read_writes_eq_canon _ _ _ (scover13_A_1 c i arg1 harg1 arg2 harg2 arg3 harg3 arg4 harg4 arg5 harg5 hc0 hc1 x)]
  unfold kernelRun13_A
  dsimp only
  sl_unfold_words
  rw [View.canon_cons_unit_zero (S := S1x64) hz13, View.readCov_unit_zero (S := S1x64) _ hz13]
  simp only [View.readAt_eq_ld, harg1.read_unread, harg4.read_unread, harg5.read_unread, View.ld_unit_zero (S := S10000x64) hz13, View.ld_unit_zero (S := S1x64) hz13]

/-- The last point: the first scratch buffer is left at `xs0 + colsum x`, -/
theorem sout13_C_0_eq (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x : Vec F S10000x64 .f32) (xs0 xs1 : Vec F S1x64 .f32) :
    sout13_C_0 c i arg1 harg1 arg2 harg2 arg3 harg3 arg4 harg4 arg5 harg5 hc0 hc1 x xs0 xs1 = k13_pay4 x xs0 := by
  unfold sout13_C_0
  rw [View.read_writes_eq_canon _ _ _ (scover13_C_0 c i arg1 harg1 arg2 harg2 arg3 harg3 arg4 harg4 arg5 harg5 hc0 hc1 x xs0 xs1)]
  unfold kernelRun13_C
  dsimp only
  sl_unfold_words
  rw [View.canon_unit_zero hz13]
  simp only [View.readAt_eq_ld, harg1.read_unread, harg4.read_unread, harg5.read_unread, View.ld_unit_zero (S := S10000x64) hz13, View.ld_unit_zero (S := S1x64) hz13]

/-- the second at `xs1 + colsum (x·x)`, -/
theorem sout13_C_1_eq (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x : Vec F S10000x64 .f32) (xs0 xs1 : Vec F S1x64 .f32) :
    sout13_C_1 c i arg1 harg1 arg2 harg2 arg3 harg3 arg4 harg4 arg5 harg5 hc0 hc1 x xs0 xs1 = k13_pay5 x xs1 := by
  unfold sout13_C_1
  rw [View.read_writes_eq_canon _ _ _ (scover13_C_1 c i arg1 harg1 arg2 harg2 arg3 harg3 arg4 harg4 arg5 harg5 hc0 hc1 x xs0 xs1)]
  unfold kernelRun13_C
  dsimp only
  sl_unfold_words
  rw [View.canon_unit_zero hz13]
  simp only [View.readAt_eq_ld, harg1.read_unread, harg4.read_unread, harg5.read_unread, View.ld_unit_zero (S := S10000x64) hz13, View.ld_unit_zero (S := S1x64) hz13]

/-- the first output window at the completed sum scaled, -/
theorem out13_C_1_eq (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x : Vec F S10000x64 .f32) (xs0 xs1 : Vec F S1x64 .f32) :
    out13_C_1 c i arg1 harg1 arg2 harg2 arg3 harg3 arg4 harg4 arg5 harg5 hc0 hc1 x xs0 xs1 = k13_pay6 (k13_pay4 x xs0) := by
  unfold out13_C_1
  rw [View.read_writes_eq_canon _ _ _ (cover13_C_1 c i arg1 harg1 arg2 harg2 arg3 harg3 arg4 harg4 arg5 harg5 hc0 hc1 x xs0 xs1)]
  unfold kernelRun13_C
  dsimp only
  sl_unfold_words
  rw [View.canon_unit_zero hz13, View.readCov_unit_zero (S := S1x64) _ hz13]
  simp only [View.readAt_eq_ld, harg1.read_unread, harg4.read_unread, harg5.read_unread, View.ld_unit_zero (S := S10000x64) hz13, View.ld_unit_zero (S := S1x64) hz13]

/-- and the second at the completed sum of squares scaled, less the square of the first. -/
theorem out13_C_2_eq (c : Dev nD) (i : grid13.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond13_0 i) (hc1 : cond13_1 i)
    (x : Vec F S10000x64 .f32) (xs0 xs1 : Vec F S1x64 .f32) :
    out13_C_2 c i arg1 harg1 arg2 harg2 arg3 harg3 arg4 harg4 arg5 harg5 hc0 hc1 x xs0 xs1 = k13_pay7 (k13_pay4 x xs0) (k13_pay5 x xs1) := by
  unfold out13_C_2
  rw [View.read_writes_eq_canon _ _ _ (cover13_C_2 c i arg1 harg1 arg2 harg2 arg3 harg3 arg4 harg4 arg5 harg5 hc0 hc1 x xs0 xs1)]
  unfold kernelRun13_C
  dsimp only
  sl_unfold_words
  rw [View.canon_unit_zero hz13, View.readCov_unit_zero (S := S1x64) _ hz13, View.readCov_unit_zero (S := S1x64) _ hz13]
  simp only [View.readAt_eq_ld, harg1.read_unread, harg4.read_unread, harg5.read_unread, View.ld_unit_zero (S := S10000x64) hz13, View.ld_unit_zero (S := S1x64) hz13]

/-! ## The running sums by recursion on the point (at any float instance) -/

section Acc13
variable (V : (c : Dev nD) → (b : Ref sig .tc) → Buf (Elt F) ((c : Thread nD τ).loc b))

/-- The two running sums after point `n`: the first point's column sums over the stored zero, then each point's column
    sums added to what the point before left. -/
def acc13 (c : Dev nD) : (n : ℕ) → n < cfg13.N → Vec F S1x64 .f32 × Vec F S1x64 .f32
  | 0, h => (k13_pay4 (iblk13 V c 0 ⟨0, h⟩) (k13_pay1 (F := F)), k13_pay5 (iblk13 V c 0 ⟨0, h⟩) (k13_pay2 (F := F)))
  | n + 1, h => (k13_pay4 (iblk13 V c 0 ⟨n + 1, h⟩) (acc13 c n (Nat.lt_of_succ_lt h)).1,
      k13_pay5 (iblk13 V c 0 ⟨n + 1, h⟩) (acc13 c n (Nat.lt_of_succ_lt h)).2)

/-- What the two scratch buffers hold after point `n` IS that recursion — by induction on the point. -/
theorem outsAt13_scratch (c : Dev nD) : ∀ (n : ℕ) (h : n < cfg13.N), (outsAt13 V c n h).2 = acc13 V c n h
  | 0, h => by
    refine (congrArg Prod.snd (outsAt13_A V c ⟨0, h⟩ ((hcond13_0 ⟨0, h⟩).mpr (Nat.zero_mod _)) (not_cond13_1_zero h))).trans ?_
    show (sout13_A_0 _ _ _ _ _ _ _ _ _ _ _ _ _ _ _, sout13_A_1 _ _ _ _ _ _ _ _ _ _ _ _ _ _ _) = _
    rw [sout13_A_0_eq, sout13_A_1_eq]; rfl
  | n + 1, h => by
    by_cases hc1 : cond13_1 (grid13.coords ⟨n + 1, h⟩)
    · refine (congrArg Prod.snd (outsAt13_C V c ⟨n + 1, h⟩ (not_cond13_0_succ n h) hc1)).trans ?_
      show (sout13_C_0 _ _ _ _ _ _ _ _ _ _ _ _ _ _ _ _ _, sout13_C_1 _ _ _ _ _ _ _ _ _ _ _ _ _ _ _ _ _) = _
      rw [sout13_C_0_eq, sout13_C_1_eq]
      show (k13_pay4 _ (outsAt13 V c n _).2.1, k13_pay5 _ (outsAt13 V c n _).2.2) = _
      rw [outsAt13_scratch c n]; rfl
    · refine (congrArg Prod.snd (outsAt13_B V c ⟨n + 1, h⟩ (not_cond13_0_succ n h) hc1)).trans ?_
      show (sout13_B_0 _ _ _ _ _ _ _ _ _ _ _ _ _ _ _ _ _, sout13_B_1 _ _ _ _ _ _ _ _ _ _ _ _ _ _ _ _ _) = _
      rw [sout13_B_0_eq, sout13_B_1_eq]
      show (k13_pay4 _ (outsAt13 V c n _).2.1, k13_pay5 _ (outsAt13 V c n _).2.2) = _
      rw [outsAt13_scratch c n]; rfl

/-- The last point. -/
def t13_last : Fin cfg13.N := ⟨19, by rw [show cfg13.N = 20 from N_13]; decide⟩

theorem cond13_1_last : cond13_1 (grid13.coords t13_last) := (hcond13_1 t13_last).mpr rfl
theorem not_cond13_0_last : ¬cond13_0 (grid13.coords t13_last) := fun h => absurd ((hcond13_0 t13_last).mp h) (by decide)

/-- What the last point leaves in the two output windows: the scaled sum, and the scaled sum of squares less its square. -/
theorem outsAt13_last (c : Dev nD) :
    (outsAt13 V c t13_last.val t13_last.isLt).1
      = (k13_pay6 (acc13 V c t13_last.val t13_last.isLt).1,
         k13_pay7 (acc13 V c t13_last.val t13_last.isLt).1 (acc13 V c t13_last.val t13_last.isLt).2) := by
  refine (congrArg Prod.fst (outsAt13_C V c t13_last not_cond13_0_last cond13_1_last)).trans ?_
  show (out13_C_1 _ _ _ _ _ _ _ _ _ _ _ _ _ _ _ _ _, out13_C_2 _ _ _ _ _ _ _ _ _ _ _ _ _ _ _ _ _) = _
  rw [out13_C_1_eq, out13_C_2_eq]
  show (k13_pay6 (k13_pay4 _ (outsAt13 V c (t13_last.val - 1) _).2.1), k13_pay7 (k13_pay4 _ (outsAt13 V c (t13_last.val - 1) _).2.1) (k13_pay5 _ (outsAt13 V c (t13_last.val - 1) _).2.2)) = _
  rw [outsAt13_scratch V c (t13_last.val - 1)]; rfl

end Acc13

/-! ## At the extended reals -/

section Ideal13
open Cert.BlockedSum

/-- The named reciprocal of the row count denotes the rational it names. -/
theorem inv13 : Named.named (F := Ideal) κ "inv_200000" (φ := .f32) 0x36A7C5AC#32 = ((1 / (200000 : ℝ) : ℝ) : EReal) :=
  IdealRules.named_const.ideal_named_scalar _ _ _ _ rfl

/-- The column sums of a block, re-laid as a row: at `(u, q)` the sum of column `q`. -/
theorem colsum13_apply (src : FVec Ideal S10000x64 .f32) (hφ : FKind.Formats .f32) (hacc : (0x00000000#32 : BitVec 32) = FKind.add.neutral .f32 hφ)
    (u : Fin 1) (q : Fin 64) :
    shapeCast S1x64 (multiReduction .add [0] S64 src 0x00000000#32 reduces_S10000x64_S64 hφ hacc) shapeCasts_S64_S1x64 (ix2 u q) = ∑ r : Fin 10000, src (ix2 r q) :=
  (shapeCast_a_1a_apply _ shapeCasts_S64_S1x64 u q).trans
    ((Ideal.multiReduction_add_single src 0x00000000#32 reduces_S10000x64_S64 hφ hacc (ix1 q)).trans
      (Finset.sum_congr rfl fun k _ => congrArg src (funext fun ax => Fin.ext (by
        match ax with
        | ⟨0, _⟩ => rfl
        | ⟨1, _⟩ => rfl))))

theorem pay1_13_apply (j : S1x64.Idx) : k13_pay1 (F := Ideal) j = 0 := by
  unfold k13_pay1; simp only [shapeCast_self]; exact Ideal.ofBits_zero_f32
theorem pay2_13_apply (j : S1x64.Idx) : k13_pay2 (F := Ideal) j = 0 := by
  unfold k13_pay2; simp only [shapeCast_self]; exact Ideal.ofBits_zero_f32

theorem pay4_13_apply (x : Vec Ideal S10000x64 .f32) (s : Vec Ideal S1x64 .f32) (u : Fin 1) (q : Fin 64) :
    k13_pay4 (F := Ideal) x s (ix2 u q) = s (ix2 u q) + ∑ r : Fin 10000, x (ix2 r q) := by
  unfold k13_pay4 k13_pay3; simp only [shapeCast_self]
  refine (addf_apply _ _ _).trans ?_
  exact congrArg (s (ix2 u q) + ·) (colsum13_apply x _ _ u q)

theorem pay5_13_apply (x : Vec Ideal S10000x64 .f32) (s : Vec Ideal S1x64 .f32) (u : Fin 1) (q : Fin 64) :
    k13_pay5 (F := Ideal) x s (ix2 u q) = s (ix2 u q) + ∑ r : Fin 10000, x (ix2 r q) * x (ix2 r q) := by
  unfold k13_pay5 k13_pay3; simp only [shapeCast_self]
  refine (addf_apply _ _ _).trans ?_
  exact congrArg (s (ix2 u q) + ·) (colsum13_apply (mulf x x) _ _ u q)

theorem pay6_13_apply (s : Vec Ideal S1x64 .f32) (j : S1x64.Idx) :
    k13_pay6 (F := Ideal) s j = s j * ((1 / (200000 : ℝ) : ℝ) : EReal) := by
  unfold k13_pay6
  show s j * Named.named (F := Ideal) κ "inv_200000" (φ := .f32) 0x36A7C5AC#32 = _
  rw [inv13]

theorem pay7_13_apply (s0 s1 : Vec Ideal S1x64 .f32) (j : S1x64.Idx) :
    k13_pay7 (F := Ideal) s0 s1 j = s1 j * ((1 / (200000 : ℝ) : ℝ) : EReal)
      - (s0 j * ((1 / (200000 : ℝ) : ℝ) : EReal)) * (s0 j * ((1 / (200000 : ℝ) : ℝ) : EReal)) := by
  unfold k13_pay7
  show s1 j * Named.named (F := Ideal) κ "inv_200000" (φ := .f32) 0x36A7C5AC#32 - k13_pay6 (F := Ideal) s0 j * k13_pay6 (F := Ideal) s0 j = _
  rw [inv13, pay6_13_apply]

variable (V : (c : Dev nD) → (b : Ref sig .tc) → Buf (Elt Ideal) ((c : Thread nD τ).loc b))

/-- The statistics' input array as the region finds it. -/
abbrev xin13 (c : Dev nD) : S200000x64.Idx → EReal := V c (Pipeline.arrRef spec13 0)

/-- The input window's block index at point `t` is `(t, 0)`. -/
theorem index13_0 : ∀ t : Fin grid13.N, win13_0.index t 0 = t.val ∧ win13_0.index t 1 = 0 := by decide +kernel

/-- Row `r` of the block at point `t` is row `t · 10000 + r` of the array. -/
theorem iblk13_apply (c : Dev nD) (t : Fin cfg13.N) (r : Fin 10000) (q : Fin 64) :
    (iblk13 V c 0 t : Vec Ideal S10000x64 .f32) (ix2 r q) = at2 (xin13 V c) (t.val * 10000 + r.val) q.val := by
  unfold iblk13
  rw [View.read_apply]
  show xin13 V c _ = _
  refine at2_of_idx (xin13 V c) _ _ _ ?_ ?_
  · show win13_0.index t 0 * 10000 + 1 * r.val = t.val * 10000 + r.val
    rw [(index13_0 t).1]; omega
  · show win13_0.index t 1 * 64 + 1 * q.val = q.val
    rw [(index13_0 t).2]; omega

/-- The running sum after point `n`, at column `q`: the sum over the first `n + 1` tiles of the tile's column sum. -/
theorem acc13_fst (c : Dev nD) (u : Fin 1) (q : Fin 64) : ∀ (n : ℕ) (h : n < cfg13.N),
    (acc13 V c n h).1 (ix2 u q) = ∑ t ∈ Finset.range (n + 1), ∑ r : Fin 10000, at2 (xin13 V c) (t * 10000 + r.val) q.val
  | 0, h => by
    show k13_pay4 (F := Ideal) (iblk13 V c 0 ⟨0, h⟩) (k13_pay1 (F := Ideal)) (ix2 u q) = _
    rw [pay4_13_apply, pay1_13_apply, zero_add, Finset.sum_range_one]
    exact Finset.sum_congr rfl fun r _ => iblk13_apply V c ⟨0, h⟩ r q
  | n + 1, h => by
    show k13_pay4 (F := Ideal) (iblk13 V c 0 ⟨n + 1, h⟩) (acc13 V c n (Nat.lt_of_succ_lt h)).1 (ix2 u q) = _
    rw [pay4_13_apply, acc13_fst c u q n, Finset.sum_range_succ _ (n + 1)]
    exact congrArg (_ + ·) (Finset.sum_congr rfl fun r _ => iblk13_apply V c ⟨n + 1, h⟩ r q)

/-- The running sum of squares after point `n`, at column `q`. -/
theorem acc13_snd (c : Dev nD) (u : Fin 1) (q : Fin 64) : ∀ (n : ℕ) (h : n < cfg13.N),
    (acc13 V c n h).2 (ix2 u q) = ∑ t ∈ Finset.range (n + 1), ∑ r : Fin 10000,
      at2 (xin13 V c) (t * 10000 + r.val) q.val * at2 (xin13 V c) (t * 10000 + r.val) q.val
  | 0, h => by
    show k13_pay5 (F := Ideal) (iblk13 V c 0 ⟨0, h⟩) (k13_pay2 (F := Ideal)) (ix2 u q) = _
    rw [pay5_13_apply, pay2_13_apply, zero_add, Finset.sum_range_one]
    exact Finset.sum_congr rfl fun r _ => by rw [iblk13_apply V c ⟨0, h⟩ r q]
  | n + 1, h => by
    show k13_pay5 (F := Ideal) (iblk13 V c 0 ⟨n + 1, h⟩) (acc13 V c n (Nat.lt_of_succ_lt h)).2 (ix2 u q) = _
    rw [pay5_13_apply, acc13_snd c u q n, Finset.sum_range_succ _ (n + 1)]
    exact congrArg (_ + ·) (Finset.sum_congr rfl fun r _ => by rw [iblk13_apply V c ⟨n + 1, h⟩ r q])

/-- All 20 tiles together are all 200000 rows. -/
theorem tiles13 (f : ℕ → EReal) :
    ∑ t ∈ Finset.range (19 + 1), ∑ r : Fin 10000, f (t * 10000 + r.val) = ∑ i : Fin 200000, f i.val := by
  rw [← Fin.sum_univ_eq_sum_range (fun t => ∑ r : Fin 10000, f (t * 10000 + r.val)) (19 + 1)]
  exact Cert.Bridge.Bn.sum_tiles f 20 10000

/-- After the last point the first running sum is the column's sum over all rows, -/
theorem total13_fst (c : Dev nD) (u : Fin 1) (q : Fin 64) :
    (acc13 V c t13_last.val t13_last.isLt).1 (ix2 u q) = ∑ i : Fin 200000, xin13 V c (ix2 i q) := by
  refine (acc13_fst V c u q 19 _).trans ?_
  refine (tiles13 (fun k => at2 (xin13 V c) k q.val)).trans ?_
  exact Finset.sum_congr rfl fun i _ => (at2_of_idx (xin13 V c) (ix2 i q) i.val q.val rfl rfl).symm

/-- and the second the column's sum of squares. -/
theorem total13_snd (c : Dev nD) (u : Fin 1) (q : Fin 64) :
    (acc13 V c t13_last.val t13_last.isLt).2 (ix2 u q) = ∑ i : Fin 200000, xin13 V c (ix2 i q) * xin13 V c (ix2 i q) := by
  refine (acc13_snd V c u q 19 _).trans ?_
  refine (tiles13 (fun k => at2 (xin13 V c) k q.val * at2 (xin13 V c) k q.val)).trans ?_
  exact Finset.sum_congr rfl fun i _ => by rw [← at2_of_idx (xin13 V c) (ix2 i q) i.val q.val rfl rfl]

/-- What the last point leaves in the first output window is the column means, -/
theorem after13_1_last (c : Dev nD) : (dat13 (F := Ideal) V c).after 1 t13_last = kmeanC (xin13 V c) := by
  rw [after13_1, outsAt13_last]
  funext j
  obtain ⟨u, q, rfl⟩ : ∃ (u : Fin 1) (q : Fin 64), j = ix2 u q := ⟨j 0, j 1, eq_ix2 j⟩
  show k13_pay6 (F := Ideal) _ (ix2 u q) = _
  rw [pay6_13_apply, total13_fst]; rfl

/-- and in the second the column variances. -/
theorem after13_2_last (c : Dev nD) : (dat13 (F := Ideal) V c).after 2 t13_last = kvarC (xin13 V c) := by
  rw [after13_2, outsAt13_last]
  funext j
  obtain ⟨u, q, rfl⟩ : ∃ (u : Fin 1) (q : Fin 64), j = ix2 u q := ⟨j 0, j 1, eq_ix2 j⟩
  show k13_pay7 (F := Ideal) _ _ (ix2 u q) = _
  rw [pay7_13_apply, total13_fst, total13_snd]; rfl

/-- The one write-back of output window 1, at the last point, writes that: block (0, 0) of the [1, 64] array read
    through zero offsets is the array. -/
theorem flushed13_1_eq (c : Dev nD) (t : Fin cfg13.N) (hf : (cfg13.win 1).flush t = true) :
    (dat13 (F := Ideal) V c).flushed 1 t = ((cfg13.win 1).blk t).view.read (Elt Ideal) (kmeanC (xin13 V c)) := by
  have hN : cfg13.N = 20 := N_13
  have hl : t.val = 19 := by have := (flush13_1 t).mp hf; have := t.isLt; omega
  obtain rfl : t = t13_last := Fin.ext hl
  show (cfg13.win 1).cut (grid13.coords t13_last) ((dat13 (F := Ideal) V c).after 1 t13_last) = _
  rw [after13_1_last]
  have hz' : (fun a => win13_1.index t13_last a * main_v66_0.ty.shape.size a) = fun _ => 0 := funext fun a => by fin_cases a <;> decide
  exact (Memref.read_access_unit_zero (Elt Ideal) main_v66_0 hz' (fun a => by rw [congrFun hz' a]; simp) (kmeanC (xin13 V c))).symm

/-- So output array 1 ends holding it. -/
theorem final13_mean (c : Dev nD) : (dat13 (F := Ideal) V c).arrAt 1 cfg13.N = kmeanC (V c (Pipeline.arrRef spec13 0)) :=
  (dat13 (F := Ideal) V c).arrAt_eq_of_cover 1 (kmeanC (xin13 V c)) (flushed13_1_eq V c) fun i =>
    ⟨t13_last, (flush13_1 t13_last).mpr rfl, by
      show i ∈ ((View.whole main_v66_0).slice (win13_1.rect t13_last)).set
      rw [View.set_slice_whole, Rect.mem_set_unit]
      intro a
      have h0 : (i 0 : Nat) < 1 := (i 0).isLt
      have h1 : (i 1 : Nat) < 64 := (i 1).isLt
      match a with
      | ⟨0, _⟩ => show win13_1.index t13_last 0 * win13_1.size 0 ≤ (i 0 : Nat) ∧ (i 0 : Nat) < win13_1.index t13_last 0 * win13_1.size 0 + win13_1.xsize (grid13.coords t13_last) 0
                  rw [show win13_1.index t13_last 0 * win13_1.size 0 = 0 from by decide +kernel, show win13_1.xsize (grid13.coords t13_last) 0 = 1 from by decide +kernel]; omega
      | ⟨1, _⟩ => show win13_1.index t13_last 1 * win13_1.size 1 ≤ (i 1 : Nat) ∧ (i 1 : Nat) < win13_1.index t13_last 1 * win13_1.size 1 + win13_1.xsize (grid13.coords t13_last) 1
                  rw [show win13_1.index t13_last 1 * win13_1.size 1 = 0 from by decide +kernel, show win13_1.xsize (grid13.coords t13_last) 1 = 64 from by decide +kernel]; omega⟩

/-- The one write-back of output window 2, at the last point, writes that: block (0, 0) of the [1, 64] array read
    through zero offsets is the array. -/
theorem flushed13_2_eq (c : Dev nD) (t : Fin cfg13.N) (hf : (cfg13.win 2).flush t = true) :
    (dat13 (F := Ideal) V c).flushed 2 t = ((cfg13.win 2).blk t).view.read (Elt Ideal) (kvarC (xin13 V c)) := by
  have hN : cfg13.N = 20 := N_13
  have hl : t.val = 19 := by have := (flush13_2 t).mp hf; have := t.isLt; omega
  obtain rfl : t = t13_last := Fin.ext hl
  show (cfg13.win 2).cut (grid13.coords t13_last) ((dat13 (F := Ideal) V c).after 2 t13_last) = _
  rw [after13_2_last]
  have hz' : (fun a => win13_2.index t13_last a * main_v66_1.ty.shape.size a) = fun _ => 0 := funext fun a => by fin_cases a <;> decide
  exact (Memref.read_access_unit_zero (Elt Ideal) main_v66_1 hz' (fun a => by rw [congrFun hz' a]; simp) (kvarC (xin13 V c))).symm

/-- So output array 2 ends holding it. -/
theorem final13_var (c : Dev nD) : (dat13 (F := Ideal) V c).arrAt 2 cfg13.N = kvarC (V c (Pipeline.arrRef spec13 0)) :=
  (dat13 (F := Ideal) V c).arrAt_eq_of_cover 2 (kvarC (xin13 V c)) (flushed13_2_eq V c) fun i =>
    ⟨t13_last, (flush13_2 t13_last).mpr rfl, by
      show i ∈ ((View.whole main_v66_1).slice (win13_2.rect t13_last)).set
      rw [View.set_slice_whole, Rect.mem_set_unit]
      intro a
      have h0 : (i 0 : Nat) < 1 := (i 0).isLt
      have h1 : (i 1 : Nat) < 64 := (i 1).isLt
      match a with
      | ⟨0, _⟩ => show win13_2.index t13_last 0 * win13_2.size 0 ≤ (i 0 : Nat) ∧ (i 0 : Nat) < win13_2.index t13_last 0 * win13_2.size 0 + win13_2.xsize (grid13.coords t13_last) 0
                  rw [show win13_2.index t13_last 0 * win13_2.size 0 = 0 from by decide +kernel, show win13_2.xsize (grid13.coords t13_last) 0 = 1 from by decide +kernel]; omega
      | ⟨1, _⟩ => show win13_2.index t13_last 1 * win13_2.size 1 ≤ (i 1 : Nat) ∧ (i 1 : Nat) < win13_2.index t13_last 1 * win13_2.size 1 + win13_2.xsize (grid13.coords t13_last) 1
                  rw [show win13_2.index t13_last 1 * win13_2.size 1 = 0 from by decide +kernel, show win13_2.xsize (grid13.coords t13_last) 1 = 64 from by decide +kernel]; omega⟩

end Ideal13

end Cert.KernelIdeal.Vals

end
-- ==== Proof.KernelStepsStats.lean ====
/- The statistics regions of the kernel program over the extended reals: each leaves, in its two output arrays, the
   per-column mean and variance of the rows of the array it reads, as that array stood when the region was entered. -/
import proofs.«180908_j8211977470570_1_alg».proof.Proof.KernelSteps
import proofs.«180908_j8211977470570_1_alg».proof.Proof.StatsValue1
import proofs.«180908_j8211977470570_1_alg».proof.Proof.StatsValue4
import proofs.«180908_j8211977470570_1_alg».proof.Proof.StatsValue7
import proofs.«180908_j8211977470570_1_alg».proof.Proof.StatsValue10
import proofs.«180908_j8211977470570_1_alg».proof.Proof.StatsValue13

set_option maxRecDepth 16384

noncomputable section

namespace Cert.KernelIdeal.Chain

open Cert.KernelIdeal Cert.KernelIdeal.Gen Cert.KernelIdeal.Regs Cert.KernelIdeal.Vals
open Idealize.ShloMosaic Idealize.ShloMosaic.TcCoe

variable (m : (ℓ : Loc nD τ sig) → Buf (Elt Ideal) ℓ)

set_option maxHeartbeats 1000000 in
/-- Region 1: the mean `main_v12_0` after it, from `main_v9` before it. -/
theorem step1m (c : Dev nD) :
    W4 m c (Proc.devRef .tc main_v12_0) = kmeanA (W3 m c (Proc.devRef .tc main_v9)) :=
  (hF1 m c 1).symm.trans (final1_mean (atTc (W3 m)) c)

set_option maxHeartbeats 1000000 in
/-- Region 1: the variance `main_v12_1` after it, from `main_v9` before it. -/
theorem step1v (c : Dev nD) :
    W4 m c (Proc.devRef .tc main_v12_1) = kvarA (W3 m c (Proc.devRef .tc main_v9)) :=
  (hF1 m c 2).symm.trans (final1_var (atTc (W3 m)) c)

set_option maxHeartbeats 1000000 in
/-- Region 4: the mean `main_v26_0` after it, from `main_v23` before it. -/
theorem step4m (c : Dev nD) :
    W9 m c (Proc.devRef .tc main_v26_0) = kmeanA (W8 m c (Proc.devRef .tc main_v23)) :=
  (hF4 m c 1).symm.trans (final4_mean (atTc (W8 m)) c)

set_option maxHeartbeats 1000000 in
/-- Region 4: the variance `main_v26_1` after it, from `main_v23` before it. -/
theorem step4v (c : Dev nD) :
    W9 m c (Proc.devRef .tc main_v26_1) = kvarA (W8 m c (Proc.devRef .tc main_v23)) :=
  (hF4 m c 2).symm.trans (final4_var (atTc (W8 m)) c)

set_option maxHeartbeats 1000000 in
/-- Region 7: the mean `main_v40_0` after it, from `main_v37` before it. -/
theorem step7m (c : Dev nD) :
    W14 m c (Proc.devRef .tc main_v40_0) = kmeanA (W13 m c (Proc.devRef .tc main_v37)) :=
  (hF7 m c 1).symm.trans (final7_mean (atTc (W13 m)) c)

set_option maxHeartbeats 1000000 in
/-- Region 7: the variance `main_v40_1` after it, from `main_v37` before it. -/
theorem step7v (c : Dev nD) :
    W14 m c (Proc.devRef .tc main_v40_1) = kvarA (W13 m c (Proc.devRef .tc main_v37)) :=
  (hF7 m c 2).symm.trans (final7_var (atTc (W13 m)) c)

set_option maxHeartbeats 1000000 in
/-- Region 10: the mean `main_v52_0` after it, from `main_v49` before it. -/
theorem step10m (c : Dev nD) :
    W20 m c (Proc.devRef .tc main_v52_0) = kmeanB (W19 m c (Proc.devRef .tc main_v49)) :=
  (hF10 m c 1).symm.trans (final10_mean (atTc (W19 m)) c)

set_option maxHeartbeats 1000000 in
/-- Region 10: the variance `main_v52_1` after it, from `main_v49` before it. -/
theorem step10v (c : Dev nD) :
    W20 m c (Proc.devRef .tc main_v52_1) = kvarB (W19 m c (Proc.devRef .tc main_v49)) :=
  (hF10 m c 2).symm.trans (final10_var (atTc (W19 m)) c)

set_option maxHeartbeats 1000000 in
/-- Region 13: the mean `main_v66_0` after it, from `main_v63` before it. -/
theorem step13m (c : Dev nD) :
    W25 m c (Proc.devRef .tc main_v66_0) = kmeanC (W24 m c (Proc.devRef .tc main_v63)) :=
  (hF13 m c 1).symm.trans (final13_mean (atTc (W24 m)) c)

set_option maxHeartbeats 1000000 in
/-- Region 13: the variance `main_v66_1` after it, from `main_v63` before it. -/
theorem step13v (c : Dev nD) :
    W25 m c (Proc.devRef .tc main_v66_1) = kvarC (W24 m c (Proc.devRef .tc main_v63)) :=
  (hF13 m c 2).symm.trans (final13_var (atTc (W24 m)) c)

end Cert.KernelIdeal.Chain

end
-- ==== Proof.KernelValue.lean ====
/-
  The program's result array after its last item: the composition of the five stages at the argument arrays.

  The chain of the items gives this from what the five column-statistics regions leave; those leave the column means
  and variances of the arrays they read, which closes the chain.
-/
import proofs.«180908_j8211977470570_1_alg».proof.Proof.KernelChain
import proofs.«180908_j8211977470570_1_alg».proof.Proof.KernelStepsStats

set_option maxRecDepth 16384

noncomputable section

namespace Cert.KernelIdeal.Chain

open Cert.KernelIdeal Cert.KernelIdeal.Gen Cert.KernelIdeal.Regs Cert.KernelIdeal.Vals Cert.KernelIdeal.Stage
open Idealize.ShloMosaic Idealize.ShloMosaic.TcCoe

variable (m : (ℓ : Loc nD τ sig) → Buf (Elt Ideal) ℓ)

/-- The five column-statistics regions leave the column means and variances of the arrays they read. -/
theorem statSteps : StatSteps m :=
  ⟨step1m m, step1v m, step4m m, step4v m, step7m m, step7v m, step10m m, step10v m, step13m m, step13v m⟩

/-- The result array after the last item is stage 5's value at the argument arrays as launched. -/
theorem kernel_value (c : Dev nD) :
    W26 m c (Proc.devRef .tc main_v67) = (y5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) :=
  kernel_value_of m (statSteps m) c

end Cert.KernelIdeal.Chain

end
-- ==== Proof.LibBatchedDot.lean ====
/-
  A batched rows-by-columns product on the host, over the extended reals, read at coordinates: for operands of shapes
  [b, m, k] and [b, k, n] with the leading axis a batch axis, the left operand contracted on its last axis and the
  right on its middle axis, the entry (p, q, s) of the result is the sum over the shared axis of the products of row
  q of slab p of the left operand and column s of slab p of the right.  A product record of any program with these
  dimension numbers unifies with `batchDims` by unfolding.
-/
import Idealize.ShloMosaic.Lib.ValueIdx
import Idealize.ShloMosaic.PureOps.Ideal.Laws

noncomputable section

namespace Cert.LibBatchedDot

open Idealize.ShloMosaic Idealize.ShloMosaic.ValueIdx
open scoped BigOperators

/-- The dimension numbers of a batched [b, m, k] by [b, k, n] product: axis 0 of both operands the batch axis, the
    left operand contracted on axis 2 and the right on axis 1. -/
abbrev batchDims {b m k n : Nat}
    (wf : DotDims.WF (⟨3, ![b, m, k]⟩ : Shape) ⟨3, ![b, k, n]⟩ ⟨3, ![b, m, n]⟩ [2] [1] [1] [2] [0] [0]) :
    DotDims ⟨3, ![b, m, k]⟩ ⟨3, ![b, k, n]⟩ ⟨3, ![b, m, n]⟩ := ⟨[2], [1], [1], [2], [0], [0], wf⟩

section BatchDims
variable {b m k n : Nat}
  (wf : DotDims.WF (⟨3, ![b, m, k]⟩ : Shape) ⟨3, ![b, k, n]⟩ ⟨3, ![b, m, n]⟩ [2] [1] [1] [2] [0] [0])

/-- The left operand is read in the result's slab … -/
theorem lhs_slab (j : (⟨3, ![b, m, n]⟩ : Shape).Idx) (c : (batchDims wf).contr.Idx) :
    ((batchDims wf).lhsIdx j c 0).val = (j 0).val := by
  unfold DotDims.lhsIdx
  rw [dif_pos (show (0 : Fin (⟨3, ![b, m, k]⟩ : Shape).rank) ∈ (batchDims wf).lhsBatch from List.mem_singleton.mpr rfl)]
  rfl

/-- … and row, … -/
theorem lhs_row (j : (⟨3, ![b, m, n]⟩ : Shape).Idx) (c : (batchDims wf).contr.Idx) :
    ((batchDims wf).lhsIdx j c 1).val = (j 1).val := by
  unfold DotDims.lhsIdx
  rw [dif_neg (show ¬(1 : Fin (⟨3, ![b, m, k]⟩ : Shape).rank) ∈ (batchDims wf).lhsBatch from fun h => Nat.one_ne_zero (congrArg Fin.val (List.mem_singleton.mp h))),
    dif_pos (show (1 : Fin (⟨3, ![b, m, k]⟩ : Shape).rank) ∈ (batchDims wf).lhsNonContracting from List.mem_singleton.mpr rfl)]
  rfl

/-- … the right operand in the result's slab … -/
theorem rhs_slab (j : (⟨3, ![b, m, n]⟩ : Shape).Idx) (c : (batchDims wf).contr.Idx) :
    ((batchDims wf).rhsIdx j c 0).val = (j 0).val := by
  unfold DotDims.rhsIdx
  rw [dif_pos (show (0 : Fin (⟨3, ![b, k, n]⟩ : Shape).rank) ∈ (batchDims wf).rhsBatch from List.mem_singleton.mpr rfl)]
  rfl

/-- … and column. -/
theorem rhs_col (j : (⟨3, ![b, m, n]⟩ : Shape).Idx) (c : (batchDims wf).contr.Idx) :
    ((batchDims wf).rhsIdx j c 2).val = (j 2).val := by
  unfold DotDims.rhsIdx
  rw [dif_neg (show ¬(2 : Fin (⟨3, ![b, k, n]⟩ : Shape).rank) ∈ (batchDims wf).rhsBatch from fun h => (by decide : (2 : ℕ) ≠ 0) (congrArg Fin.val (List.mem_singleton.mp h))),
    dif_pos (show (2 : Fin (⟨3, ![b, k, n]⟩ : Shape).rank) ∈ (batchDims wf).rhsNonContracting from List.mem_singleton.mpr rfl)]
  rfl

/-- The batched product at (p, q, s): the sum over the shared axis of row q of slab p of the left operand times
    column s of slab p of the right, whatever the precision annotation and the schedule. -/
theorem dotGeneral_batched {φ₁ φ₂ : FTy} (prec : Option ContractPrecision) (sched : HostSchedule)
    (l : FVec Ideal ⟨3, ![b, m, k]⟩ φ₁) (r : FVec Ideal ⟨3, ![b, k, n]⟩ φ₂) (p : Fin b) (q : Fin m) (s : Fin n) :
    FloatOps.dotGeneral (batchDims wf) prec sched l r (ix3 p q s) = ∑ c : Fin k, l (ix3 p q c) * r (ix3 p c s) := by
  rw [Ideal.dotGeneral_apply, ← Equiv.sum_comp (contrEquiv1 (batchDims wf) k rfl rfl).symm]
  refine Finset.sum_congr rfl fun c _ => ?_
  have hc := contrEquiv1_symm_val (batchDims wf) k rfl rfl c
  have el : (batchDims wf).lhsIdx (ix3 p q s) ((contrEquiv1 (batchDims wf) k rfl rfl).symm c) = ix3 p q c :=
    funext fun a => Fin.ext (by
      match a with
      | ⟨0, _⟩ => exact lhs_slab wf _ _
      | ⟨1, _⟩ => exact lhs_row wf _ _
      | ⟨2, _⟩ => exact ((batchDims wf).lhsIdx_val_of_single rfl _ _).trans hc)
  have er : (batchDims wf).rhsIdx (ix3 p q s) ((contrEquiv1 (batchDims wf) k rfl rfl).symm c) = ix3 p c s :=
    funext fun a => Fin.ext (by
      match a with
      | ⟨0, _⟩ => exact rhs_slab wf _ _
      | ⟨1, _⟩ => exact ((batchDims wf).rhsIdx_val_of_single rfl _ _).trans hc
      | ⟨2, _⟩ => exact rhs_col wf _ _)
  rw [el, er]

end BatchDims

end Cert.LibBatchedDot

end
-- ==== Proof.MatmulMatchRef.lean ====
/- The reference's five products are the batched matrix products the kernel regions compute: each
   `dot_general` of the reference has the leading axis of both operands as a batch axis, contracts the last axis of
   the left operand with the middle axis of the right, and so at (k, r, q) is Σ_cc g[k, r, cc] · w[k, cc, q] —
   the function `mmK` the matching kernel region leaves in its output array. -/
import proofs.«180908_j8211977470570_1_alg».proof.ReferenceIdeal
import proofs.«180908_j8211977470570_1_alg».proof.Proof.MatmulValue0
import proofs.«180908_j8211977470570_1_alg».proof.Proof.MatmulValue3
import proofs.«180908_j8211977470570_1_alg».proof.Proof.MatmulValue6
import proofs.«180908_j8211977470570_1_alg».proof.Proof.MatmulValue9
import proofs.«180908_j8211977470570_1_alg».proof.Proof.MatmulValue12
import proofs.«180908_j8211977470570_1_alg».proof.Proof.LibBatchedDot

set_option maxRecDepth 16384

noncomputable section

namespace Cert.KernelIdeal.Vals

open Idealize.ShloMosaic Idealize.ShloMosaic.ValueIdx
open scoped BigOperators

variable [Cert.ReferenceIdeal.Facts₀]

/-- The reference's product of stage 1 is `mm0`. -/
theorem ref_mm0 (g : S27x40000x64.Idx → EReal) (w : S27x64x64.Idx → EReal) :
    Host.dotGeneral (F := Ideal) (φ₁ := .f32) (φ₂ := .f32) Cert.ReferenceIdeal.dot_S27x40000x64_S27x64x64_S27x40000x64_2_1_1_2_0_0 none g w = mm0 g w := by
  funext j
  obtain ⟨p, q, s, rfl⟩ : ∃ (p : Fin 27) (q : Fin 40000) (s : Fin 64), j = ix3 p q s := ⟨j 0, j 1, j 2, eq_ix3 j⟩
  exact (Cert.LibBatchedDot.dotGeneral_batched _ none .single g w p q s).trans rfl

/-- The reference's product of stage 2 is `mm3`. -/
theorem ref_mm3 (g : S27x25000x128.Idx → EReal) (w : S27x128x64.Idx → EReal) :
    Host.dotGeneral (F := Ideal) (φ₁ := .f32) (φ₂ := .f32) Cert.ReferenceIdeal.dot_S27x25000x128_S27x128x64_S27x25000x64_2_1_1_2_0_0 none g w = mm3 g w := by
  funext j
  obtain ⟨p, q, s, rfl⟩ : ∃ (p : Fin 27) (q : Fin 25000) (s : Fin 64), j = ix3 p q s := ⟨j 0, j 1, j 2, eq_ix3 j⟩
  exact (Cert.LibBatchedDot.dotGeneral_batched _ none .single g w p q s).trans rfl

/-- The reference's product of stage 3 is `mm6`. -/
theorem ref_mm6 (g : S27x25000x64.Idx → EReal) (w : S27x64x64.Idx → EReal) :
    Host.dotGeneral (F := Ideal) (φ₁ := .f32) (φ₂ := .f32) Cert.ReferenceIdeal.dot_S27x25000x64_S27x64x64_S27x25000x64_2_1_1_2_0_0 none g w = mm6 g w := by
  funext j
  obtain ⟨p, q, s, rfl⟩ : ∃ (p : Fin 27) (q : Fin 25000) (s : Fin 64), j = ix3 p q s := ⟨j 0, j 1, j 2, eq_ix3 j⟩
  exact (Cert.LibBatchedDot.dotGeneral_batched _ none .single g w p q s).trans rfl

/-- The reference's product of stage 4 is `mm9`. -/
theorem ref_mm9 (g : S27x25000x64.Idx → EReal) (w : S27x64x1.Idx → EReal) :
    Host.dotGeneral (F := Ideal) (φ₁ := .f32) (φ₂ := .f32) Cert.ReferenceIdeal.dot_S27x25000x64_S27x64x1_S27x25000x1_2_1_1_2_0_0 none g w = mm9 g w := by
  funext j
  obtain ⟨p, q, s, rfl⟩ : ∃ (p : Fin 27) (q : Fin 25000) (s : Fin 1), j = ix3 p q s := ⟨j 0, j 1, j 2, eq_ix3 j⟩
  exact (Cert.LibBatchedDot.dotGeneral_batched _ none .single g w p q s).trans rfl

/-- The reference's product of stage 5 is `mm12`. -/
theorem ref_mm12 (g : S27x40000x1.Idx → EReal) (w : S27x1x64.Idx → EReal) :
    Host.dotGeneral (F := Ideal) (φ₁ := .f32) (φ₂ := .f32) Cert.ReferenceIdeal.dot_S27x40000x1_S27x1x64_S27x40000x64_2_1_1_2_0_0 none g w = mm12 g w := by
  funext j
  obtain ⟨p, q, s, rfl⟩ : ∃ (p : Fin 27) (q : Fin 40000) (s : Fin 64), j = ix3 p q s := ⟨j 0, j 1, j 2, eq_ix3 j⟩
  exact (Cert.LibBatchedDot.dotGeneral_batched _ none .single g w p q s).trans rfl

end Cert.KernelIdeal.Vals

end
-- ==== Proof.MatmulFinite.lean ====
/- The batched products of arrays of reals are arrays of reals: every entry is a finite sum of products of reals. -/
import proofs.«180908_j8211977470570_1_alg».proof.Proof.MatmulValue0
import proofs.«180908_j8211977470570_1_alg».proof.Proof.MatmulValue3
import proofs.«180908_j8211977470570_1_alg».proof.Proof.MatmulValue6
import proofs.«180908_j8211977470570_1_alg».proof.Proof.MatmulValue9
import proofs.«180908_j8211977470570_1_alg».proof.Proof.MatmulValue12
import proofs.«180908_j8211977470570_1_alg».proof.Proof.LibFinite

noncomputable section

namespace Cert.KernelIdeal.Vals

open Idealize.ShloMosaic Idealize.ShloMosaic.ValueIdx
open scoped BigOperators

/-- `mm0` of two arrays of reals is an array of reals. -/
theorem mm0_allReal (g : S27x40000x64.Idx → EReal) (w : S27x64x64.Idx → EReal) (hg : LibFinite.AllReal g) (hw : LibFinite.AllReal w) :
    LibFinite.AllReal (mm0 g w) := fun j => by
  rw [mm0_apply]
  exact LibFinite.isReal_sum _ _ (fun cc _ => (hg _).mul (hw _))

/-- `mm3` of two arrays of reals is an array of reals. -/
theorem mm3_allReal (g : S27x25000x128.Idx → EReal) (w : S27x128x64.Idx → EReal) (hg : LibFinite.AllReal g) (hw : LibFinite.AllReal w) :
    LibFinite.AllReal (mm3 g w) := fun j => by
  rw [mm3_apply]
  exact LibFinite.isReal_sum _ _ (fun cc _ => (hg _).mul (hw _))

/-- `mm6` of two arrays of reals is an array of reals. -/
theorem mm6_allReal (g : S27x25000x64.Idx → EReal) (w : S27x64x64.Idx → EReal) (hg : LibFinite.AllReal g) (hw : LibFinite.AllReal w) :
    LibFinite.AllReal (mm6 g w) := fun j => by
  rw [mm6_apply]
  exact LibFinite.isReal_sum _ _ (fun cc _ => (hg _).mul (hw _))

/-- `mm9` of two arrays of reals is an array of reals. -/
theorem mm9_allReal (g : S27x25000x64.Idx → EReal) (w : S27x64x1.Idx → EReal) (hg : LibFinite.AllReal g) (hw : LibFinite.AllReal w) :
    LibFinite.AllReal (mm9 g w) := fun j => by
  rw [mm9_apply]
  exact LibFinite.isReal_sum _ _ (fun cc _ => (hg _).mul (hw _))

/-- `mm12` of two arrays of reals is an array of reals. -/
theorem mm12_allReal (g : S27x40000x1.Idx → EReal) (w : S27x1x64.Idx → EReal) (hg : LibFinite.AllReal g) (hw : LibFinite.AllReal w) :
    LibFinite.AllReal (mm12 g w) := fun j => by
  rw [mm12_apply]
  exact LibFinite.isReal_sum _ _ (fun cc _ => (hg _).mul (hw _))

end Cert.KernelIdeal.Vals

end
-- ==== Proof.BnStage2.lean ====
/-
  Region 2's batch-norm stage in the two-pass spelling.

  The region's output is act ((x − mean) · rsqrt (var + ε) · γ + β) column by column, with the mean and variance rows it
  reads. When those rows hold the ONE-PASS statistics of the 60000 finite entries of each column,
      mean = (Σ x) · (1/60000),   var = (Σ x·x) · (1/60000) − mean · mean,
  the same entry is the TWO-PASS value, mean = (Σ x) / 60000, var = (Σ (x − mean)²) / 60000: multiplying by the real 1/60000
  is dividing by 60000 at every extended real, and the two variances agree for finite data by the expansion of the
  square. The scale and shift rows are the [64] vectors γ, β laid as one row. The activation is the leaky select; equal
  arguments give equal selections.
  The result is again finite: the one-pass variance of finite data is a nonnegative real, so var + ε is positive and its
  reciprocal square root real; a selection between two reals is real.
-/
import proofs.«180908_j8211977470570_1_alg».proof.Proof.NormValue2
import proofs.«180908_j8211977470570_1_alg».proof.Proof.BnBridge
import proofs.«180908_j8211977470570_1_alg».proof.Proof.LibFinite

noncomputable section

namespace Cert.Bridge.Stage

open Cert.KernelIdeal Cert.KernelIdeal.Vals
open Idealize.ShloMosaic Idealize.ShloMosaic.ValueIdx
open scoped BigOperators

/-- The count of rows as a real. -/
theorem card2 : (Fintype.card (Fin 60000) : ℝ) = (60000 : ℝ) := Cert.Bridge.Bn.card_fin_cast (by norm_num)

/-- Entry j of the region's output, from one-pass statistics rows, in the two-pass spelling. -/
theorem bn_stage2 (x : S60000x64.Idx → EReal) (hx : LibFinite.AllReal x) (mu var gr br : S1x64.Idx → EReal) (g b : S64.Idx → EReal)
    (hmu : ∀ q : Fin 64, mu (ix2 (0 : Fin 1) q) = (∑ i : Fin 60000, x (ix2 i q)) * ((1 / (60000 : ℝ) : ℝ) : EReal))
    (hvar : ∀ q : Fin 64, var (ix2 (0 : Fin 1) q) = (∑ i : Fin 60000, x (ix2 i q) * x (ix2 i q)) * ((1 / (60000 : ℝ) : ℝ) : EReal) - ((∑ i : Fin 60000, x (ix2 i q)) * ((1 / (60000 : ℝ) : ℝ) : EReal)) * ((∑ i : Fin 60000, x (ix2 i q)) * ((1 / (60000 : ℝ) : ℝ) : EReal)))
    (hg : ∀ q : Fin 64, gr (ix2 (0 : Fin 1) q) = g (ix1 q)) (hb : ∀ q : Fin 64, br (ix2 (0 : Fin 1) q) = b (ix1 q)) (j : S60000x64.Idx) :
    bnAct2 x mu var gr br j = Scalar.select (Ideal.cmp .oge ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64))) 0) ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64))) (Ideal.ofBits .f32 0x3C23D70A#32 * ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64)))) := by
  rw [bnAct2_apply, hmu (j 1), hvar (j 1), hg (j 1), hb (j 1)]
  exact Cert.Bridge.Bn.bn_leaky_eq (fun i : Fin 60000 => x (ix2 i (j 1 : Fin 64))) (fun i => hx _) (60000 : ℝ) card2 (by norm_num)
    (x j) (Ideal.ofBits .f32 0x3727C5AC#32) (g (ix1 (j 1 : Fin 64))) (b (ix1 (j 1 : Fin 64))) (Ideal.ofBits .f32 0x3C23D70A#32) 0

/-- Every entry of the region's output is a real number, for finite data and finite scale and shift. -/
theorem bn_stage2_allReal (x : S60000x64.Idx → EReal) (hx : LibFinite.AllReal x) (mu var gr br : S1x64.Idx → EReal) (g b : S64.Idx → EReal)
    (hmu : ∀ q : Fin 64, mu (ix2 (0 : Fin 1) q) = (∑ i : Fin 60000, x (ix2 i q)) * ((1 / (60000 : ℝ) : ℝ) : EReal))
    (hvar : ∀ q : Fin 64, var (ix2 (0 : Fin 1) q) = (∑ i : Fin 60000, x (ix2 i q) * x (ix2 i q)) * ((1 / (60000 : ℝ) : ℝ) : EReal) - ((∑ i : Fin 60000, x (ix2 i q)) * ((1 / (60000 : ℝ) : ℝ) : EReal)) * ((∑ i : Fin 60000, x (ix2 i q)) * ((1 / (60000 : ℝ) : ℝ) : EReal)))
    (hg : ∀ q : Fin 64, gr (ix2 (0 : Fin 1) q) = g (ix1 q)) (hb : ∀ q : Fin 64, br (ix2 (0 : Fin 1) q) = b (ix1 q))
    (hgR : LibFinite.AllReal g) (hbR : LibFinite.AllReal b) : LibFinite.AllReal (bnAct2 x mu var gr br) := by
  intro j
  rw [bnAct2_apply, hmu (j 1), hvar (j 1), hg (j 1), hb (j 1)]
  exact Cert.Bridge.Bn.isReal_leaky (Cert.Bridge.Bn.isReal_bn (hx j)
    (Cert.Bridge.Bn.isReal_kmean (fun i : Fin 60000 => x (ix2 i (j 1 : Fin 64))) (fun i => hx _) (60000 : ℝ))
    (Cert.Bridge.Bn.kvar_nonneg (fun i : Fin 60000 => x (ix2 i (j 1 : Fin 64))) (fun i => hx _) card2 (by norm_num))
    (hgR _) (hbR _))

end Cert.Bridge.Stage
-- ==== Proof.RefBnRead.lean ====
/-
  Batch normalisation over the rows of a matrix, read at an entry, at the exact values.

  For an [N, C] matrix x and [C] vectors g and b: the per-channel mean is the sum over the rows divided by N, the
  per-channel variance the sum of the squared centred entries divided by N, and the normalised entry at (p, q) is
  (x (p, q) − mean q) · rsqrt (var q + ε) · g q + b q. The program builds it from sums over axis 0, a [C] vector
  re-laid as a [1, C] row and repeated along the rows, and entrywise arithmetic; each step read at an index is
  elementary. Then the two activations at an entry: the leaky one (the value where it is at least zero, a fixed
  multiple of it elsewhere) and the logistic one (one over one plus the exponential of the negated value).
-/
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.BnRead

open Idealize.ShloMosaic Idealize.ShloMosaic.ValueIdx
open scoped BigOperators

/-- A [C] vector re-laid as a [1, C] row and repeated along the rows reads, at (p, q), the vector at q. -/
theorem bcRow_apply {α : Type} {N C : ℕ} (h1 : (⟨1, ![C]⟩ : Shape).BroadcastsInDim ⟨2, ![1, C]⟩ ![1])
    (h2 : (⟨2, ![1, C]⟩ : Shape).BroadcastsInDim ⟨2, ![N, C]⟩ ![0, 1]) (v : (⟨1, ![C]⟩ : Shape).Idx → α) (p : Fin N) (q : Fin C) :
    broadcastInDim ⟨2, ![N, C]⟩ ![0, 1] h2 (broadcastInDim ⟨2, ![1, C]⟩ ![1] h1 v) (ix2 p q) = v (ix1 q) := by
  rw [broadcastInDim_apply ![0, 1] h2 _ (ix2 p q) (ix2 (0 : Fin 1) q) (fun ax => ?_),
    broadcastInDim_apply ![1] h1 v (ix2 (0 : Fin 1) q) (ix1 q) (fun ax => ?_)]
  · match ax with
    | ⟨0, _⟩ =>
      show q.val = if C = 1 then 0 else q.val
      split
      · have := q.isLt; omega
      · rfl
  · match ax with
    | ⟨0, _⟩ => rfl
    | ⟨1, _⟩ =>
      show q.val = if C = 1 then 0 else q.val
      split
      · have := q.isLt; omega
      · rfl

/-- The sum of an [N, C] matrix over its rows, from the zero constant, is at q the sum of column q. -/
theorem colSum_apply {N C : ℕ} (x : FVec Ideal ⟨2, ![N, C]⟩ .f32)
    (h' : (⟨2, ![N, C]⟩ : Shape).ReducesTo [0] ⟨1, ![C]⟩) (h : (⟨2, ![N, C]⟩ : Shape).Reduces [0] ⟨1, ![C]⟩)
    (hu : 0 < (⟨0, ![]⟩ : Shape).numel) (q : Fin C) :
    Host.reduceAdd x (constant (F := Ideal) ⟨0, ![]⟩ .f32 0x00000000#32) h' hu (ix1 q) = ∑ i : Fin N, x (ix2 i q) := by
  rw [hostReduceAdd_apply, Ideal.hostReduceAdd_single h' h, constant_apply, Ideal.ofBits_zero_f32, zero_add]
  exact Finset.sum_congr rfl fun k _ => congrArg x (funext fun ax => Fin.ext (by
    match ax with
    | ⟨0, _⟩ => rfl
    | ⟨1, _⟩ => rfl))

/-- A constant repeated to any shape reads the constant's value everywhere. -/
theorem bcConst_apply {T : Shape} (h : (⟨0, ![]⟩ : Shape).BroadcastsInDim T ![]) (bits : BitVec 32) (j : T.Idx) :
    broadcastInDim T ![] h (constant (F := Ideal) ⟨0, ![]⟩ .f32 bits) j = Ideal.ofBits .f32 bits := by
  rw [broadcastInDim_scalar_apply, constant_apply]

theorem hostRsqrt_apply {s : Shape} {φ : FTy} (a : FVec Ideal s φ) (i : s.Idx) : Host.rsqrt a i = Ideal.rsqrt (a i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl

section Core

variable {N C : ℕ} (hs : (⟨0, ![]⟩ : Shape).BroadcastsInDim ⟨1, ![C]⟩ ![])
  (h1 : (⟨1, ![C]⟩ : Shape).BroadcastsInDim ⟨2, ![1, C]⟩ ![1])
  (h2 : (⟨2, ![1, C]⟩ : Shape).BroadcastsInDim ⟨2, ![N, C]⟩ ![0, 1])
  (h' : (⟨2, ![N, C]⟩ : Shape).ReducesTo [0] ⟨1, ![C]⟩) (h : (⟨2, ![N, C]⟩ : Shape).Reduces [0] ⟨1, ![C]⟩)
  (hu : 0 < (⟨0, ![]⟩ : Shape).numel) (nbits : BitVec 32) {Nr : EReal} (hN : Ideal.ofBits .f32 nbits = Nr)
  (x : FVec Ideal ⟨2, ![N, C]⟩ .f32) (g b : FVec Ideal ⟨1, ![C]⟩ .f32)

/-- The per-channel mean as the program builds it. -/
abbrev meanOps : FVec Ideal ⟨1, ![C]⟩ .f32 :=
  Host.divf (Host.reduceAdd x (constant (F := Ideal) ⟨0, ![]⟩ .f32 0x00000000#32) h' hu)
    (broadcastInDim ⟨1, ![C]⟩ ![] hs (constant (F := Ideal) ⟨0, ![]⟩ .f32 nbits))

include h hN in
/-- The mean at channel q: the column's sum divided by the row count. -/
theorem meanOps_apply (q : Fin C) :
    meanOps hs h' hu nbits x (ix1 q) = Ideal.div (∑ i : Fin N, x (ix2 i q)) Nr := by
  rw [meanOps, hostDivf_apply, colSum_apply x h' h hu q, bcConst_apply, hN]

/-- The normalised matrix as the program builds it. -/
abbrev normOps : FVec Ideal ⟨2, ![N, C]⟩ .f32 :=
  addf (mulf (mulf
      (subf x (broadcastInDim ⟨2, ![N, C]⟩ ![0, 1] h2 (broadcastInDim ⟨2, ![1, C]⟩ ![1] h1 (meanOps hs h' hu nbits x))))
      (broadcastInDim ⟨2, ![N, C]⟩ ![0, 1] h2 (broadcastInDim ⟨2, ![1, C]⟩ ![1] h1
        (Host.rsqrt (addf
          (Host.divf
            (Host.reduceAdd
              (mulf
                (subf x (broadcastInDim ⟨2, ![N, C]⟩ ![0, 1] h2 (broadcastInDim ⟨2, ![1, C]⟩ ![1] h1 (meanOps hs h' hu nbits x))))
                (subf x (broadcastInDim ⟨2, ![N, C]⟩ ![0, 1] h2 (broadcastInDim ⟨2, ![1, C]⟩ ![1] h1 (meanOps hs h' hu nbits x)))))
              (constant (F := Ideal) ⟨0, ![]⟩ .f32 0x00000000#32) h' hu)
            (broadcastInDim ⟨1, ![C]⟩ ![] hs (constant (F := Ideal) ⟨0, ![]⟩ .f32 nbits)))
          (broadcastInDim ⟨1, ![C]⟩ ![] hs (constant (F := Ideal) ⟨0, ![]⟩ .f32 0x3727C5AC#32)))))))
      (broadcastInDim ⟨2, ![N, C]⟩ ![0, 1] h2 (broadcastInDim ⟨2, ![1, C]⟩ ![1] h1 g)))
    (broadcastInDim ⟨2, ![N, C]⟩ ![0, 1] h2 (broadcastInDim ⟨2, ![1, C]⟩ ![1] h1 b))

include h hN in
/-- The normalised entry at (p, q). -/
theorem normOps_apply (p : Fin N) (q : Fin C) :
    normOps hs h1 h2 h' hu nbits x g b (ix2 p q)
      = (x (ix2 p q) - Ideal.div (∑ i : Fin N, x (ix2 i q)) Nr)
        * Ideal.rsqrt (Ideal.div
            (∑ i : Fin N, (x (ix2 i q) - Ideal.div (∑ i : Fin N, x (ix2 i q)) Nr) * (x (ix2 i q) - Ideal.div (∑ i : Fin N, x (ix2 i q)) Nr))
            Nr + Ideal.ofBits .f32 0x3727C5AC#32) * g (ix1 q) + b (ix1 q) := by
  have hc : ∀ i : Fin N, subf x (broadcastInDim ⟨2, ![N, C]⟩ ![0, 1] h2 (broadcastInDim ⟨2, ![1, C]⟩ ![1] h1 (meanOps hs h' hu nbits x))) (ix2 i q)
      = x (ix2 i q) - Ideal.div (∑ i : Fin N, x (ix2 i q)) Nr := fun i => by
    rw [subf_apply, bcRow_apply, meanOps_apply hs h' h hu nbits hN x q]
  rw [normOps, addf_apply, mulf_apply, mulf_apply, hc p, bcRow_apply, bcRow_apply, bcRow_apply, hostRsqrt_apply, addf_apply,
    hostDivf_apply, colSum_apply _ h' h hu q, bcConst_apply, bcConst_apply, hN]
  simp only [mulf_apply, hc]

end Core

/-- The leaky activation at an entry. -/
theorem leaky_apply {T : Shape} (hb : (⟨0, ![]⟩ : Shape).BroadcastsInDim T ![]) (y : FVec Ideal T .f32) (j : T.Idx) :
    select (cmpf .oge y (broadcastInDim T ![] hb (constant (F := Ideal) ⟨0, ![]⟩ .f32 0x00000000#32))) y
        (mulf (broadcastInDim T ![] hb (constant (F := Ideal) ⟨0, ![]⟩ .f32 0x3C23D70A#32)) y) j
      = Scalar.select (Ideal.cmp .oge (y j) 0) (y j) (Ideal.ofBits .f32 0x3C23D70A#32 * y j) := by
  rw [select_apply, cmpf_apply, mulf_apply, bcConst_apply, bcConst_apply, Ideal.ofBits_zero_f32]
  rfl

/-- The logistic activation at an entry. -/
theorem logistic_apply {T : Shape} (hb : (⟨0, ![]⟩ : Shape).BroadcastsInDim T ![]) (y : FVec Ideal T .f32) (j : T.Idx) :
    Host.divf (broadcastInDim T ![] hb (constant (F := Ideal) ⟨0, ![]⟩ .f32 0x3F800000#32))
        (addf (broadcastInDim T ![] hb (constant (F := Ideal) ⟨0, ![]⟩ .f32 0x3F800000#32)) (Host.exp (Host.negf y))) j
      = Ideal.div 1 (1 + Ideal.exp (-(y j))) := by
  rw [hostDivf_apply, addf_apply, bcConst_apply, Ideal.ofBits_one_f32, hostExp_apply, hostNegf_apply]

end Cert.ReferenceIdeal.BnRead

end
-- ==== Proof.RefBnApply1.lean ====
/-
  Stage 1's batch normalisation and activation, read at an entry, at the exact values.

  The stage's function of the pre-activation x, the scale g and the shift b is, at the entry (p, q): with
  Y = (x (p, q) − mean q) · rsqrt (var q + ε) · g q + b q, mean and variance over the 60000 rows of column q,
  Y where Y is at least zero and a fixed multiple of Y elsewhere.
-/
import proofs.«180908_j8211977470570_1_alg».proof.Proof.RefStage1
import proofs.«180908_j8211977470570_1_alg».proof.Proof.RefBnRead
import proofs.«180908_j8211977470570_1_alg».proof.Proof.BnBridge

noncomputable section

namespace Cert.ReferenceIdeal.RefRun

open Cert.ReferenceIdeal Cert.ReferenceIdeal.Gen Cert.ReferenceIdeal.BnRead Idealize.ShloMosaic Idealize.ShloMosaic.ValueIdx
open scoped BigOperators

/-- The sum over the rows, with the row index named. -/
theorem reduces_1 : S60000x64.Reduces [0] S64 := by decide

/-- The normalised entry at (p, q). -/
theorem norm_1_apply (x : S60000x64.Idx → EReal) (g b : S64.Idx → EReal) (p : Fin 60000) (q : Fin 64) :
    norm_1 (F := Ideal) x g b (ix2 p q) = (x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q) :=
  normOps_apply bcast_S_S64 bcast_S64_S1x64_1 bcast_S1x64_S60000x64_0_1 reducesTo_S60000x64_S64_d0 reduces_1 h_S_ 0x476A6000#32 Cert.Bridge.Bn.f32_60000 x g b p q

/-- The stage's output at (p, q). -/
theorem refBn_1_core (x : S60000x64.Idx → EReal) (g b : S64.Idx → EReal) (p : Fin 60000) (q : Fin 64) :
    refBn_1 (F := Ideal) x g b (ix2 p q) = Scalar.select (Ideal.cmp .oge ((x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q)) 0) ((x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q)) (Ideal.ofBits .f32 0x3C23D70A#32 * ((x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q))) := by
  refine (leaky_apply bcast_S_S60000x64 (norm_1 (F := Ideal) x g b) (ix2 p q)).trans ?_
  rw [norm_1_apply]

/-- The stage's output at any entry. -/
theorem refBn_1_apply (x : S60000x64.Idx → EReal) (g b : S64.Idx → EReal) (j : S60000x64.Idx) :
    refBn_1 (F := Ideal) x g b j = Scalar.select (Ideal.cmp .oge ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64))) 0) ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64))) (Ideal.ofBits .f32 0x3C23D70A#32 * ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64)))) := by
  obtain ⟨p, q, rfl⟩ : ∃ (p : Fin 60000) (q : Fin 64), j = ix2 p q := ⟨j 0, j 1, eq_ix2 j⟩
  exact refBn_1_core x g b p q

end Cert.ReferenceIdeal.RefRun

end
-- ==== Proof.StageMatch1.lean ====
/-
  Stage 1: the kernel's composite equals the reference's, with finiteness carried along.

  Both programs look rows up, multiply by the weights offset by offset, scatter-add the messages into rows and add the bias,
  then normalise over the rows and apply the activation. The look-up, the scatter stage and the reshapes are the same
  operations in both; the product is the batched matrix product in both; the normalisation is the one-pass form in the
  kernel and the two-pass form in the reference, equal for finite data.
-/
import proofs.«180908_j8211977470570_1_alg».proof.Proof.KernelHostTake
import proofs.«180908_j8211977470570_1_alg».proof.Proof.KernelHostPre
import proofs.«180908_j8211977470570_1_alg».proof.Proof.MatmulMatchRef
import proofs.«180908_j8211977470570_1_alg».proof.Proof.MatmulFinite
import proofs.«180908_j8211977470570_1_alg».proof.Proof.StatsForms
import proofs.«180908_j8211977470570_1_alg».proof.Proof.BnStage2
import proofs.«180908_j8211977470570_1_alg».proof.Proof.RefStage1
import proofs.«180908_j8211977470570_1_alg».proof.Proof.RefBnApply1

set_option maxRecDepth 16384

noncomputable section

namespace Cert.Bridge.Match

open Idealize.ShloMosaic Idealize.ShloMosaic.ValueIdx
open Cert.KernelIdeal.Stage Cert.KernelIdeal.Vals Cert.ReferenceIdeal.RefRun
open LibFinite
open scoped BigOperators

variable [Cert.KernelIdeal.Facts] [Cert.ReferenceIdeal.Facts]

/-! ### (i) The pre-activation -/

attribute [local irreducible] Host.scatterAdd Host.gather Host.reduce in
/-- The reference's pre-activation with its product still the host's dot_general. -/
theorem pre_dot_1 (xin : FVec Ideal Cert.KernelIdeal.S200000x64 .f32) (src : IVec Cert.KernelIdeal.S27x40000 32) (W : FVec Ideal Cert.KernelIdeal.S27x64x64 .f32) (dst : IVec Cert.KernelIdeal.S27x40000 32) (bias : FVec Ideal Cert.KernelIdeal.S64 .f32) :
    refPre_1 (F := Ideal) xin src W dst bias
      = pre1 (Host.dotGeneral (F := Ideal) (φ₁ := .f32) (φ₂ := .f32) Cert.ReferenceIdeal.dot_S27x40000x64_S27x64x64_S27x40000x64_2_1_1_2_0_0 none (take1 xin src) W) dst bias := rfl

/-- The reference's pre-activation is the kernel's: look-up, batched product, scatter stage. -/
theorem pre_match_1 (xin : FVec Ideal Cert.KernelIdeal.S200000x64 .f32) (src : IVec Cert.KernelIdeal.S27x40000 32) (W : FVec Ideal Cert.KernelIdeal.S27x64x64 .f32) (dst : IVec Cert.KernelIdeal.S27x40000 32) (bias : FVec Ideal Cert.KernelIdeal.S64 .f32) :
    refPre_1 (F := Ideal) xin src W dst bias = pre1 (mm0 (take1 xin src) W) dst bias := by
  rw [pre_dot_1, ref_mm0]

/-! ### (ii) Finiteness of the pre-activation -/

/-- The pre-activation of real data at indices in range is real. -/
theorem x_allReal_1 (xin : FVec Ideal Cert.KernelIdeal.S200000x64 .f32) (src : IVec Cert.KernelIdeal.S27x40000 32) (W : FVec Ideal Cert.KernelIdeal.S27x64x64 .f32) (dst : IVec Cert.KernelIdeal.S27x40000 32) (bias : FVec Ideal Cert.KernelIdeal.S64 .f32)
    (hxin : AllReal xin) (hsrc : ∀ i, 0 ≤ (src i).toInt ∧ (src i).toInt < 200000) (hW : AllReal W) (hbias : AllReal bias) :
    AllReal (pre1 (mm0 (take1 xin src) W) dst bias) :=
  pre1_allReal _ _ _ (mm0_allReal _ _ (take1_allReal xin src hxin hsrc) hW) hbias

/-! ### (iii) The normalisation and activation -/

/-- The scale row read at column q is entry q of the scale vector. -/
theorem row64_apply_1 (g : FVec Ideal Cert.KernelIdeal.S64 .f32) (q : Fin 64) : row64 g (ix2 (0 : Fin 1) q) = g (ix1 q) :=
  shapeCast_a_1a_apply g _ 0 q

/-- The kernel's normalised output of real data is real. -/
theorem act_allReal_1 (x : FVec Ideal Cert.KernelIdeal.S60000x64 .f32) (hx : AllReal x) (g b : FVec Ideal Cert.KernelIdeal.S64 .f32)
    (hg : AllReal g) (hb : AllReal b) :
    AllReal (bnAct2 x (kmeanA x) (kvarA x) (row64 g) (row64 b)) :=
  Cert.Bridge.Stage.bn_stage2_allReal x hx (kmeanA x) (kvarA x) (row64 g) (row64 b) g b (fun q => rfl) (fun q => rfl)
    (row64_apply_1 g) (row64_apply_1 b) hg hb

/-- The kernel's normalised output (one-pass statistics, scale and shift laid as rows) is the reference's (two-pass
    statistics), for real data. -/
theorem stage_1 (x : FVec Ideal Cert.KernelIdeal.S60000x64 .f32) (hx : AllReal x) (g b : FVec Ideal Cert.KernelIdeal.S64 .f32) :
    bnAct2 x (kmeanA x) (kvarA x) (row64 g) (row64 b) = refBn_1 (F := Ideal) x g b := by
  funext j
  exact (Cert.Bridge.Stage.bn_stage2 x hx (kmeanA x) (kvarA x) (row64 g) (row64 b) g b (fun q => rfl) (fun q => rfl)
    (row64_apply_1 g) (row64_apply_1 b) j).trans (refBn_1_apply x g b j).symm

end Cert.Bridge.Match

end
-- ==== Proof.BnStage5.lean ====
/-
  Region 5's batch-norm stage in the two-pass spelling.

  The region's output is act ((x − mean) · rsqrt (var + ε) · γ + β) column by column, with the mean and variance rows it
  reads. When those rows hold the ONE-PASS statistics of the 60000 finite entries of each column,
      mean = (Σ x) · (1/60000),   var = (Σ x·x) · (1/60000) − mean · mean,
  the same entry is the TWO-PASS value, mean = (Σ x) / 60000, var = (Σ (x − mean)²) / 60000: multiplying by the real 1/60000
  is dividing by 60000 at every extended real, and the two variances agree for finite data by the expansion of the
  square. The scale and shift rows are the [64] vectors γ, β laid as one row. The activation is the leaky select; equal
  arguments give equal selections.
  The result is again finite: the one-pass variance of finite data is a nonnegative real, so var + ε is positive and its
  reciprocal square root real; a selection between two reals is real.
-/
import proofs.«180908_j8211977470570_1_alg».proof.Proof.NormValue5
import proofs.«180908_j8211977470570_1_alg».proof.Proof.BnBridge
import proofs.«180908_j8211977470570_1_alg».proof.Proof.LibFinite

noncomputable section

namespace Cert.Bridge.Stage

open Cert.KernelIdeal Cert.KernelIdeal.Vals
open Idealize.ShloMosaic Idealize.ShloMosaic.ValueIdx
open scoped BigOperators

/-- The count of rows as a real. -/
theorem card5 : (Fintype.card (Fin 60000) : ℝ) = (60000 : ℝ) := Cert.Bridge.Bn.card_fin_cast (by norm_num)

/-- Entry j of the region's output, from one-pass statistics rows, in the two-pass spelling. -/
theorem bn_stage5 (x : S60000x64.Idx → EReal) (hx : LibFinite.AllReal x) (mu var gr br : S1x64.Idx → EReal) (g b : S64.Idx → EReal)
    (hmu : ∀ q : Fin 64, mu (ix2 (0 : Fin 1) q) = (∑ i : Fin 60000, x (ix2 i q)) * ((1 / (60000 : ℝ) : ℝ) : EReal))
    (hvar : ∀ q : Fin 64, var (ix2 (0 : Fin 1) q) = (∑ i : Fin 60000, x (ix2 i q) * x (ix2 i q)) * ((1 / (60000 : ℝ) : ℝ) : EReal) - ((∑ i : Fin 60000, x (ix2 i q)) * ((1 / (60000 : ℝ) : ℝ) : EReal)) * ((∑ i : Fin 60000, x (ix2 i q)) * ((1 / (60000 : ℝ) : ℝ) : EReal)))
    (hg : ∀ q : Fin 64, gr (ix2 (0 : Fin 1) q) = g (ix1 q)) (hb : ∀ q : Fin 64, br (ix2 (0 : Fin 1) q) = b (ix1 q)) (j : S60000x64.Idx) :
    bnAct5 x mu var gr br j = Scalar.select (Ideal.cmp .oge ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64))) 0) ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64))) (Ideal.ofBits .f32 0x3C23D70A#32 * ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64)))) := by
  rw [bnAct5_apply, hmu (j 1), hvar (j 1), hg (j 1), hb (j 1)]
  exact Cert.Bridge.Bn.bn_leaky_eq (fun i : Fin 60000 => x (ix2 i (j 1 : Fin 64))) (fun i => hx _) (60000 : ℝ) card5 (by norm_num)
    (x j) (Ideal.ofBits .f32 0x3727C5AC#32) (g (ix1 (j 1 : Fin 64))) (b (ix1 (j 1 : Fin 64))) (Ideal.ofBits .f32 0x3C23D70A#32) 0

/-- Every entry of the region's output is a real number, for finite data and finite scale and shift. -/
theorem bn_stage5_allReal (x : S60000x64.Idx → EReal) (hx : LibFinite.AllReal x) (mu var gr br : S1x64.Idx → EReal) (g b : S64.Idx → EReal)
    (hmu : ∀ q : Fin 64, mu (ix2 (0 : Fin 1) q) = (∑ i : Fin 60000, x (ix2 i q)) * ((1 / (60000 : ℝ) : ℝ) : EReal))
    (hvar : ∀ q : Fin 64, var (ix2 (0 : Fin 1) q) = (∑ i : Fin 60000, x (ix2 i q) * x (ix2 i q)) * ((1 / (60000 : ℝ) : ℝ) : EReal) - ((∑ i : Fin 60000, x (ix2 i q)) * ((1 / (60000 : ℝ) : ℝ) : EReal)) * ((∑ i : Fin 60000, x (ix2 i q)) * ((1 / (60000 : ℝ) : ℝ) : EReal)))
    (hg : ∀ q : Fin 64, gr (ix2 (0 : Fin 1) q) = g (ix1 q)) (hb : ∀ q : Fin 64, br (ix2 (0 : Fin 1) q) = b (ix1 q))
    (hgR : LibFinite.AllReal g) (hbR : LibFinite.AllReal b) : LibFinite.AllReal (bnAct5 x mu var gr br) := by
  intro j
  rw [bnAct5_apply, hmu (j 1), hvar (j 1), hg (j 1), hb (j 1)]
  exact Cert.Bridge.Bn.isReal_leaky (Cert.Bridge.Bn.isReal_bn (hx j)
    (Cert.Bridge.Bn.isReal_kmean (fun i : Fin 60000 => x (ix2 i (j 1 : Fin 64))) (fun i => hx _) (60000 : ℝ))
    (Cert.Bridge.Bn.kvar_nonneg (fun i : Fin 60000 => x (ix2 i (j 1 : Fin 64))) (fun i => hx _) card5 (by norm_num))
    (hgR _) (hbR _))

end Cert.Bridge.Stage
-- ==== Proof.RefBnApply2.lean ====
/-
  Stage 2's batch normalisation and activation, read at an entry, at the exact values.

  The stage's function of the pre-activation x, the scale g and the shift b is, at the entry (p, q): with
  Y = (x (p, q) − mean q) · rsqrt (var q + ε) · g q + b q, mean and variance over the 60000 rows of column q,
  Y where Y is at least zero and a fixed multiple of Y elsewhere.
-/
import proofs.«180908_j8211977470570_1_alg».proof.Proof.RefStage2
import proofs.«180908_j8211977470570_1_alg».proof.Proof.RefBnRead
import proofs.«180908_j8211977470570_1_alg».proof.Proof.BnBridge

noncomputable section

namespace Cert.ReferenceIdeal.RefRun

open Cert.ReferenceIdeal Cert.ReferenceIdeal.Gen Cert.ReferenceIdeal.BnRead Idealize.ShloMosaic Idealize.ShloMosaic.ValueIdx
open scoped BigOperators

/-- The sum over the rows, with the row index named. -/
theorem reduces_2 : S60000x64.Reduces [0] S64 := by decide

/-- The normalised entry at (p, q). -/
theorem norm_2_apply (x : S60000x64.Idx → EReal) (g b : S64.Idx → EReal) (p : Fin 60000) (q : Fin 64) :
    norm_2 (F := Ideal) x g b (ix2 p q) = (x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q) :=
  normOps_apply bcast_S_S64 bcast_S64_S1x64_1 bcast_S1x64_S60000x64_0_1 reducesTo_S60000x64_S64_d0 reduces_2 h_S_ 0x476A6000#32 Cert.Bridge.Bn.f32_60000 x g b p q

/-- The stage's output at (p, q). -/
theorem refBn_2_core (x : S60000x64.Idx → EReal) (g b : S64.Idx → EReal) (p : Fin 60000) (q : Fin 64) :
    refBn_2 (F := Ideal) x g b (ix2 p q) = Scalar.select (Ideal.cmp .oge ((x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q)) 0) ((x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q)) (Ideal.ofBits .f32 0x3C23D70A#32 * ((x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q))) := by
  refine (leaky_apply bcast_S_S60000x64 (norm_2 (F := Ideal) x g b) (ix2 p q)).trans ?_
  rw [norm_2_apply]

/-- The stage's output at any entry. -/
theorem refBn_2_apply (x : S60000x64.Idx → EReal) (g b : S64.Idx → EReal) (j : S60000x64.Idx) :
    refBn_2 (F := Ideal) x g b j = Scalar.select (Ideal.cmp .oge ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64))) 0) ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64))) (Ideal.ofBits .f32 0x3C23D70A#32 * ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64)))) := by
  obtain ⟨p, q, rfl⟩ : ∃ (p : Fin 60000) (q : Fin 64), j = ix2 p q := ⟨j 0, j 1, eq_ix2 j⟩
  exact refBn_2_core x g b p q

end Cert.ReferenceIdeal.RefRun

end
-- ==== Proof.StageMatch2.lean ====
/-
  Stage 2: the kernel's composite equals the reference's, with finiteness carried along.

  Both programs look rows up, multiply by the weights offset by offset, scatter-add the messages into rows and add the bias,
  then normalise over the rows and apply the activation. The look-up, the scatter stage and the reshapes are the same
  operations in both; the product is the batched matrix product in both; the normalisation is the one-pass form in the
  kernel and the two-pass form in the reference, equal for finite data.
-/
import proofs.«180908_j8211977470570_1_alg».proof.Proof.KernelHostTake
import proofs.«180908_j8211977470570_1_alg».proof.Proof.KernelHostPre
import proofs.«180908_j8211977470570_1_alg».proof.Proof.MatmulMatchRef
import proofs.«180908_j8211977470570_1_alg».proof.Proof.MatmulFinite
import proofs.«180908_j8211977470570_1_alg».proof.Proof.StatsForms
import proofs.«180908_j8211977470570_1_alg».proof.Proof.BnStage5
import proofs.«180908_j8211977470570_1_alg».proof.Proof.RefStage2
import proofs.«180908_j8211977470570_1_alg».proof.Proof.RefBnApply2

set_option maxRecDepth 16384

noncomputable section

namespace Cert.Bridge.Match

open Idealize.ShloMosaic Idealize.ShloMosaic.ValueIdx
open Cert.KernelIdeal.Stage Cert.KernelIdeal.Vals Cert.ReferenceIdeal.RefRun
open LibFinite
open scoped BigOperators

variable [Cert.KernelIdeal.Facts] [Cert.ReferenceIdeal.Facts]

/-! ### (i) The pre-activation -/

attribute [local irreducible] Host.scatterAdd Host.gather Host.reduce in
/-- The reference's pre-activation with its product still the host's dot_general. -/
theorem pre_dot_2 (xin : FVec Ideal Cert.KernelIdeal.S60000x128 .f32) (src : IVec Cert.KernelIdeal.S27x25000 32) (W : FVec Ideal Cert.KernelIdeal.S27x128x64 .f32) (dst : IVec Cert.KernelIdeal.S27x25000 32) (bias : FVec Ideal Cert.KernelIdeal.S64 .f32) :
    refPre_2 (F := Ideal) xin src W dst bias
      = pre2 (Host.dotGeneral (F := Ideal) (φ₁ := .f32) (φ₂ := .f32) Cert.ReferenceIdeal.dot_S27x25000x128_S27x128x64_S27x25000x64_2_1_1_2_0_0 none (take2 xin src) W) dst bias := rfl

/-- The reference's pre-activation is the kernel's: look-up, batched product, scatter stage. -/
theorem pre_match_2 (xin : FVec Ideal Cert.KernelIdeal.S60000x128 .f32) (src : IVec Cert.KernelIdeal.S27x25000 32) (W : FVec Ideal Cert.KernelIdeal.S27x128x64 .f32) (dst : IVec Cert.KernelIdeal.S27x25000 32) (bias : FVec Ideal Cert.KernelIdeal.S64 .f32) :
    refPre_2 (F := Ideal) xin src W dst bias = pre2 (mm3 (take2 xin src) W) dst bias := by
  rw [pre_dot_2, ref_mm3]

/-! ### (ii) Finiteness of the pre-activation -/

/-- The pre-activation of real data at indices in range is real. -/
theorem x_allReal_2 (xin : FVec Ideal Cert.KernelIdeal.S60000x128 .f32) (src : IVec Cert.KernelIdeal.S27x25000 32) (W : FVec Ideal Cert.KernelIdeal.S27x128x64 .f32) (dst : IVec Cert.KernelIdeal.S27x25000 32) (bias : FVec Ideal Cert.KernelIdeal.S64 .f32)
    (hxin : AllReal xin) (hsrc : ∀ i, 0 ≤ (src i).toInt ∧ (src i).toInt < 60000) (hW : AllReal W) (hbias : AllReal bias) :
    AllReal (pre2 (mm3 (take2 xin src) W) dst bias) :=
  pre2_allReal _ _ _ (mm3_allReal _ _ (take2_allReal xin src hxin hsrc) hW) hbias

/-! ### (iii) The normalisation and activation -/

/-- The scale row read at column q is entry q of the scale vector. -/
theorem row64_apply_2 (g : FVec Ideal Cert.KernelIdeal.S64 .f32) (q : Fin 64) : row64 g (ix2 (0 : Fin 1) q) = g (ix1 q) :=
  shapeCast_a_1a_apply g _ 0 q

/-- The kernel's normalised output of real data is real. -/
theorem act_allReal_2 (x : FVec Ideal Cert.KernelIdeal.S60000x64 .f32) (hx : AllReal x) (g b : FVec Ideal Cert.KernelIdeal.S64 .f32)
    (hg : AllReal g) (hb : AllReal b) :
    AllReal (bnAct5 x (kmeanA x) (kvarA x) (row64 g) (row64 b)) :=
  Cert.Bridge.Stage.bn_stage5_allReal x hx (kmeanA x) (kvarA x) (row64 g) (row64 b) g b (fun q => rfl) (fun q => rfl)
    (row64_apply_2 g) (row64_apply_2 b) hg hb

/-- The kernel's normalised output (one-pass statistics, scale and shift laid as rows) is the reference's (two-pass
    statistics), for real data. -/
theorem stage_2 (x : FVec Ideal Cert.KernelIdeal.S60000x64 .f32) (hx : AllReal x) (g b : FVec Ideal Cert.KernelIdeal.S64 .f32) :
    bnAct5 x (kmeanA x) (kvarA x) (row64 g) (row64 b) = refBn_2 (F := Ideal) x g b := by
  funext j
  exact (Cert.Bridge.Stage.bn_stage5 x hx (kmeanA x) (kvarA x) (row64 g) (row64 b) g b (fun q => rfl) (fun q => rfl)
    (row64_apply_2 g) (row64_apply_2 b) j).trans (refBn_2_apply x g b j).symm

end Cert.Bridge.Match

end
-- ==== Proof.BnStage8.lean ====
/-
  Region 8's batch-norm stage in the two-pass spelling.

  The region's output is act ((x − mean) · rsqrt (var + ε) · γ + β) column by column, with the mean and variance rows it
  reads. When those rows hold the ONE-PASS statistics of the 60000 finite entries of each column,
      mean = (Σ x) · (1/60000),   var = (Σ x·x) · (1/60000) − mean · mean,
  the same entry is the TWO-PASS value, mean = (Σ x) / 60000, var = (Σ (x − mean)²) / 60000: multiplying by the real 1/60000
  is dividing by 60000 at every extended real, and the two variances agree for finite data by the expansion of the
  square. The scale and shift rows are the [64] vectors γ, β laid as one row. The activation is the leaky select; equal
  arguments give equal selections.
  The result is again finite: the one-pass variance of finite data is a nonnegative real, so var + ε is positive and its
  reciprocal square root real; a selection between two reals is real.
-/
import proofs.«180908_j8211977470570_1_alg».proof.Proof.NormValue8
import proofs.«180908_j8211977470570_1_alg».proof.Proof.BnBridge
import proofs.«180908_j8211977470570_1_alg».proof.Proof.LibFinite

noncomputable section

namespace Cert.Bridge.Stage

open Cert.KernelIdeal Cert.KernelIdeal.Vals
open Idealize.ShloMosaic Idealize.ShloMosaic.ValueIdx
open scoped BigOperators

/-- The count of rows as a real. -/
theorem card8 : (Fintype.card (Fin 60000) : ℝ) = (60000 : ℝ) := Cert.Bridge.Bn.card_fin_cast (by norm_num)

/-- Entry j of the region's output, from one-pass statistics rows, in the two-pass spelling. -/
theorem bn_stage8 (x : S60000x64.Idx → EReal) (hx : LibFinite.AllReal x) (mu var gr br : S1x64.Idx → EReal) (g b : S64.Idx → EReal)
    (hmu : ∀ q : Fin 64, mu (ix2 (0 : Fin 1) q) = (∑ i : Fin 60000, x (ix2 i q)) * ((1 / (60000 : ℝ) : ℝ) : EReal))
    (hvar : ∀ q : Fin 64, var (ix2 (0 : Fin 1) q) = (∑ i : Fin 60000, x (ix2 i q) * x (ix2 i q)) * ((1 / (60000 : ℝ) : ℝ) : EReal) - ((∑ i : Fin 60000, x (ix2 i q)) * ((1 / (60000 : ℝ) : ℝ) : EReal)) * ((∑ i : Fin 60000, x (ix2 i q)) * ((1 / (60000 : ℝ) : ℝ) : EReal)))
    (hg : ∀ q : Fin 64, gr (ix2 (0 : Fin 1) q) = g (ix1 q)) (hb : ∀ q : Fin 64, br (ix2 (0 : Fin 1) q) = b (ix1 q)) (j : S60000x64.Idx) :
    bnAct8 x mu var gr br j = Scalar.select (Ideal.cmp .oge ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64))) 0) ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64))) (Ideal.ofBits .f32 0x3C23D70A#32 * ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64)))) := by
  rw [bnAct8_apply, hmu (j 1), hvar (j 1), hg (j 1), hb (j 1)]
  exact Cert.Bridge.Bn.bn_leaky_eq (fun i : Fin 60000 => x (ix2 i (j 1 : Fin 64))) (fun i => hx _) (60000 : ℝ) card8 (by norm_num)
    (x j) (Ideal.ofBits .f32 0x3727C5AC#32) (g (ix1 (j 1 : Fin 64))) (b (ix1 (j 1 : Fin 64))) (Ideal.ofBits .f32 0x3C23D70A#32) 0

/-- Every entry of the region's output is a real number, for finite data and finite scale and shift. -/
theorem bn_stage8_allReal (x : S60000x64.Idx → EReal) (hx : LibFinite.AllReal x) (mu var gr br : S1x64.Idx → EReal) (g b : S64.Idx → EReal)
    (hmu : ∀ q : Fin 64, mu (ix2 (0 : Fin 1) q) = (∑ i : Fin 60000, x (ix2 i q)) * ((1 / (60000 : ℝ) : ℝ) : EReal))
    (hvar : ∀ q : Fin 64, var (ix2 (0 : Fin 1) q) = (∑ i : Fin 60000, x (ix2 i q) * x (ix2 i q)) * ((1 / (60000 : ℝ) : ℝ) : EReal) - ((∑ i : Fin 60000, x (ix2 i q)) * ((1 / (60000 : ℝ) : ℝ) : EReal)) * ((∑ i : Fin 60000, x (ix2 i q)) * ((1 / (60000 : ℝ) : ℝ) : EReal)))
    (hg : ∀ q : Fin 64, gr (ix2 (0 : Fin 1) q) = g (ix1 q)) (hb : ∀ q : Fin 64, br (ix2 (0 : Fin 1) q) = b (ix1 q))
    (hgR : LibFinite.AllReal g) (hbR : LibFinite.AllReal b) : LibFinite.AllReal (bnAct8 x mu var gr br) := by
  intro j
  rw [bnAct8_apply, hmu (j 1), hvar (j 1), hg (j 1), hb (j 1)]
  exact Cert.Bridge.Bn.isReal_leaky (Cert.Bridge.Bn.isReal_bn (hx j)
    (Cert.Bridge.Bn.isReal_kmean (fun i : Fin 60000 => x (ix2 i (j 1 : Fin 64))) (fun i => hx _) (60000 : ℝ))
    (Cert.Bridge.Bn.kvar_nonneg (fun i : Fin 60000 => x (ix2 i (j 1 : Fin 64))) (fun i => hx _) card8 (by norm_num))
    (hgR _) (hbR _))

end Cert.Bridge.Stage
-- ==== Proof.RefBnApply3.lean ====
/-
  Stage 3's batch normalisation and activation, read at an entry, at the exact values.

  The stage's function of the pre-activation x, the scale g and the shift b is, at the entry (p, q): with
  Y = (x (p, q) − mean q) · rsqrt (var q + ε) · g q + b q, mean and variance over the 60000 rows of column q,
  Y where Y is at least zero and a fixed multiple of Y elsewhere.
-/
import proofs.«180908_j8211977470570_1_alg».proof.Proof.RefStage3
import proofs.«180908_j8211977470570_1_alg».proof.Proof.RefBnRead
import proofs.«180908_j8211977470570_1_alg».proof.Proof.BnBridge

noncomputable section

namespace Cert.ReferenceIdeal.RefRun

open Cert.ReferenceIdeal Cert.ReferenceIdeal.Gen Cert.ReferenceIdeal.BnRead Idealize.ShloMosaic Idealize.ShloMosaic.ValueIdx
open scoped BigOperators

/-- The sum over the rows, with the row index named. -/
theorem reduces_3 : S60000x64.Reduces [0] S64 := by decide

/-- The normalised entry at (p, q). -/
theorem norm_3_apply (x : S60000x64.Idx → EReal) (g b : S64.Idx → EReal) (p : Fin 60000) (q : Fin 64) :
    norm_3 (F := Ideal) x g b (ix2 p q) = (x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q) :=
  normOps_apply bcast_S_S64 bcast_S64_S1x64_1 bcast_S1x64_S60000x64_0_1 reducesTo_S60000x64_S64_d0 reduces_3 h_S_ 0x476A6000#32 Cert.Bridge.Bn.f32_60000 x g b p q

/-- The stage's output at (p, q). -/
theorem refBn_3_core (x : S60000x64.Idx → EReal) (g b : S64.Idx → EReal) (p : Fin 60000) (q : Fin 64) :
    refBn_3 (F := Ideal) x g b (ix2 p q) = Scalar.select (Ideal.cmp .oge ((x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q)) 0) ((x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q)) (Ideal.ofBits .f32 0x3C23D70A#32 * ((x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q))) := by
  refine (leaky_apply bcast_S_S60000x64 (norm_3 (F := Ideal) x g b) (ix2 p q)).trans ?_
  rw [norm_3_apply]

/-- The stage's output at any entry. -/
theorem refBn_3_apply (x : S60000x64.Idx → EReal) (g b : S64.Idx → EReal) (j : S60000x64.Idx) :
    refBn_3 (F := Ideal) x g b j = Scalar.select (Ideal.cmp .oge ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64))) 0) ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64))) (Ideal.ofBits .f32 0x3C23D70A#32 * ((x j - Ideal.div (∑ i : Fin 60000, x (ix2 i (j 1 : Fin 64))) ((60000 : ℝ) : EReal)) * Ideal.rsqrt (Ideal.div (∑ i : Fin 60000, (x (ix2 i (j 1 : Fin 64)) - Ideal.div (∑ i : Fin 60000, x (ix2 i (j 1 : Fin 64))) ((60000 : ℝ) : EReal)) * (x (ix2 i (j 1 : Fin 64)) - Ideal.div (∑ i : Fin 60000, x (ix2 i (j 1 : Fin 64))) ((60000 : ℝ) : EReal))) ((60000 : ℝ) : EReal) + Ideal.ofBits .f32 0x3727C5AC#32) * g (ix1 (j 1 : Fin 64)) + b (ix1 (j 1 : Fin 64)))) := by
  obtain ⟨p, q, rfl⟩ : ∃ (p : Fin 60000) (q : Fin 64), j = ix2 p q := ⟨j 0, j 1, eq_ix2 j⟩
  exact refBn_3_core x g b p q

end Cert.ReferenceIdeal.RefRun

end
-- ==== Proof.StageMatch3.lean ====
/-
  Stage 3: the kernel's composite equals the reference's, with finiteness carried along.

  Both programs look rows up, multiply by the weights offset by offset, scatter-add the messages into rows and add the bias,
  then normalise over the rows and apply the activation. The look-up, the scatter stage and the reshapes are the same
  operations in both; the product is the batched matrix product in both; the normalisation is the one-pass form in the
  kernel and the two-pass form in the reference, equal for finite data.
-/
import proofs.«180908_j8211977470570_1_alg».proof.Proof.KernelHostTake
import proofs.«180908_j8211977470570_1_alg».proof.Proof.KernelHostPre
import proofs.«180908_j8211977470570_1_alg».proof.Proof.MatmulMatchRef
import proofs.«180908_j8211977470570_1_alg».proof.Proof.MatmulFinite
import proofs.«180908_j8211977470570_1_alg».proof.Proof.StatsForms
import proofs.«180908_j8211977470570_1_alg».proof.Proof.BnStage8
import proofs.«180908_j8211977470570_1_alg».proof.Proof.RefStage3
import proofs.«180908_j8211977470570_1_alg».proof.Proof.RefBnApply3

set_option maxRecDepth 16384

noncomputable section

namespace Cert.Bridge.Match

open Idealize.ShloMosaic Idealize.ShloMosaic.ValueIdx
open Cert.KernelIdeal.Stage Cert.KernelIdeal.Vals Cert.ReferenceIdeal.RefRun
open LibFinite
open scoped BigOperators

variable [Cert.KernelIdeal.Facts] [Cert.ReferenceIdeal.Facts]

/-! ### (i) The pre-activation -/

attribute [local irreducible] Host.scatterAdd Host.gather Host.reduce in
/-- The reference's pre-activation with its product still the host's dot_general. -/
theorem pre_dot_3 (xin : FVec Ideal Cert.KernelIdeal.S60000x64 .f32) (src : IVec Cert.KernelIdeal.S27x25000 32) (W : FVec Ideal Cert.KernelIdeal.S27x64x64 .f32) (dst : IVec Cert.KernelIdeal.S27x25000 32) (bias : FVec Ideal Cert.KernelIdeal.S64 .f32) :
    refPre_3 (F := Ideal) xin src W dst bias
      = pre2 (Host.dotGeneral (F := Ideal) (φ₁ := .f32) (φ₂ := .f32) Cert.ReferenceIdeal.dot_S27x25000x64_S27x64x64_S27x25000x64_2_1_1_2_0_0 none (take3 xin src) W) dst bias := rfl

/-- The reference's pre-activation is the kernel's: look-up, batched product, scatter stage. -/
theorem pre_match_3 (xin : FVec Ideal Cert.KernelIdeal.S60000x64 .f32) (src : IVec Cert.KernelIdeal.S27x25000 32) (W : FVec Ideal Cert.KernelIdeal.S27x64x64 .f32) (dst : IVec Cert.KernelIdeal.S27x25000 32) (bias : FVec Ideal Cert.KernelIdeal.S64 .f32) :
    refPre_3 (F := Ideal) xin src W dst bias = pre2 (mm6 (take3 xin src) W) dst bias := by
  rw [pre_dot_3, ref_mm6]

/-! ### (ii) Finiteness of the pre-activation -/

/-- The pre-activation of real data at indices in range is real. -/
theorem x_allReal_3 (xin : FVec Ideal Cert.KernelIdeal.S60000x64 .f32) (src : IVec Cert.KernelIdeal.S27x25000 32) (W : FVec Ideal Cert.KernelIdeal.S27x64x64 .f32) (dst : IVec Cert.KernelIdeal.S27x25000 32) (bias : FVec Ideal Cert.KernelIdeal.S64 .f32)
    (hxin : AllReal xin) (hsrc : ∀ i, 0 ≤ (src i).toInt ∧ (src i).toInt < 60000) (hW : AllReal W) (hbias : AllReal bias) :
    AllReal (pre2 (mm6 (take3 xin src) W) dst bias) :=
  pre2_allReal _ _ _ (mm6_allReal _ _ (take3_allReal xin src hxin hsrc) hW) hbias

/-! ### (iii) The normalisation and activation -/

/-- The scale row read at column q is entry q of the scale vector. -/
theorem row64_apply_3 (g : FVec Ideal Cert.KernelIdeal.S64 .f32) (q : Fin 64) : row64 g (ix2 (0 : Fin 1) q) = g (ix1 q) :=
  shapeCast_a_1a_apply g _ 0 q

/-- The kernel's normalised output of real data is real. -/
theorem act_allReal_3 (x : FVec Ideal Cert.KernelIdeal.S60000x64 .f32) (hx : AllReal x) (g b : FVec Ideal Cert.KernelIdeal.S64 .f32)
    (hg : AllReal g) (hb : AllReal b) :
    AllReal (bnAct8 x (kmeanA x) (kvarA x) (row64 g) (row64 b)) :=
  Cert.Bridge.Stage.bn_stage8_allReal x hx (kmeanA x) (kvarA x) (row64 g) (row64 b) g b (fun q => rfl) (fun q => rfl)
    (row64_apply_3 g) (row64_apply_3 b) hg hb

/-- The kernel's normalised output (one-pass statistics, scale and shift laid as rows) is the reference's (two-pass
    statistics), for real data. -/
theorem stage_3 (x : FVec Ideal Cert.KernelIdeal.S60000x64 .f32) (hx : AllReal x) (g b : FVec Ideal Cert.KernelIdeal.S64 .f32) :
    bnAct8 x (kmeanA x) (kvarA x) (row64 g) (row64 b) = refBn_3 (F := Ideal) x g b := by
  funext j
  exact (Cert.Bridge.Stage.bn_stage8 x hx (kmeanA x) (kvarA x) (row64 g) (row64 b) g b (fun q => rfl) (fun q => rfl)
    (row64_apply_3 g) (row64_apply_3 b) j).trans (refBn_3_apply x g b j).symm

end Cert.Bridge.Match

end
-- ==== Proof.BnStage11.lean ====
/-
  Region 11's batch-norm stage in the two-pass spelling.

  The region's output is act ((x − mean) · rsqrt (var + ε) · γ + β) column by column, with the mean and variance rows it
  reads. When those rows hold the ONE-PASS statistics of the 60000 finite entries of each column,
      mean = (Σ x) · (1/60000),   var = (Σ x·x) · (1/60000) − mean · mean,
  the same entry is the TWO-PASS value, mean = (Σ x) / 60000, var = (Σ (x − mean)²) / 60000: multiplying by the real 1/60000
  is dividing by 60000 at every extended real, and the two variances agree for finite data by the expansion of the
  square. The scale and shift rows are the [1] vectors γ, β laid as one row. The activation is the leaky select; equal
  arguments give equal selections.
  The result is again finite: the one-pass variance of finite data is a nonnegative real, so var + ε is positive and its
  reciprocal square root real; a selection between two reals is real.
-/
import proofs.«180908_j8211977470570_1_alg».proof.Proof.NormValue11
import proofs.«180908_j8211977470570_1_alg».proof.Proof.BnBridge
import proofs.«180908_j8211977470570_1_alg».proof.Proof.LibFinite

noncomputable section

namespace Cert.Bridge.Stage

open Cert.KernelIdeal Cert.KernelIdeal.Vals
open Idealize.ShloMosaic Idealize.ShloMosaic.ValueIdx
open scoped BigOperators

/-- The count of rows as a real. -/
theorem card11 : (Fintype.card (Fin 60000) : ℝ) = (60000 : ℝ) := Cert.Bridge.Bn.card_fin_cast (by norm_num)

/-- Entry j of the region's output, from one-pass statistics rows, in the two-pass spelling. -/
theorem bn_stage11 (x : S60000x1.Idx → EReal) (hx : LibFinite.AllReal x) (mu var gr br : S1x1.Idx → EReal) (g b : S1.Idx → EReal)
    (hmu : ∀ q : Fin 1, mu (ix2 (0 : Fin 1) q) = (∑ i : Fin 60000, x (ix2 i q)) * ((1 / (60000 : ℝ) : ℝ) : EReal))
    (hvar : ∀ q : Fin 1, var (ix2 (0 : Fin 1) q) = (∑ i : Fin 60000, x (ix2 i q) * x (ix2 i q)) * ((1 / (60000 : ℝ) : ℝ) : EReal) - ((∑ i : Fin 60000, x (ix2 i q)) * ((1 / (60000 : ℝ) : ℝ) : EReal)) * ((∑ i : Fin 60000, x (ix2 i q)) * ((1 / (60000 : ℝ) : ℝ) : EReal)))
    (hg : ∀ q : Fin 1, gr (ix2 (0 : Fin 1) q) = g (ix1 q)) (hb : ∀ q : Fin 1, br (ix2 (0 : Fin 1) q) = b (ix1 q)) (j : S60000x1.Idx) :
    bnAct11 x mu var gr br j = Scalar.select (Ideal.cmp .oge ((x j - Ideal.div (∑ i : Fin 60000, x (ix2 i (j 1 : Fin 1))) ((60000 : ℝ) : EReal)) * Ideal.rsqrt (Ideal.div (∑ i : Fin 60000, (x (ix2 i (j 1 : Fin 1)) - Ideal.div (∑ i : Fin 60000, x (ix2 i (j 1 : Fin 1))) ((60000 : ℝ) : EReal)) * (x (ix2 i (j 1 : Fin 1)) - Ideal.div (∑ i : Fin 60000, x (ix2 i (j 1 : Fin 1))) ((60000 : ℝ) : EReal))) ((60000 : ℝ) : EReal) + Ideal.ofBits .f32 0x3727C5AC#32) * g (ix1 (j 1 : Fin 1)) + b (ix1 (j 1 : Fin 1))) 0) ((x j - Ideal.div (∑ i : Fin 60000, x (ix2 i (j 1 : Fin 1))) ((60000 : ℝ) : EReal)) * Ideal.rsqrt (Ideal.div (∑ i : Fin 60000, (x (ix2 i (j 1 : Fin 1)) - Ideal.div (∑ i : Fin 60000, x (ix2 i (j 1 : Fin 1))) ((60000 : ℝ) : EReal)) * (x (ix2 i (j 1 : Fin 1)) - Ideal.div (∑ i : Fin 60000, x (ix2 i (j 1 : Fin 1))) ((60000 : ℝ) : EReal))) ((60000 : ℝ) : EReal) + Ideal.ofBits .f32 0x3727C5AC#32) * g (ix1 (j 1 : Fin 1)) + b (ix1 (j 1 : Fin 1))) (Ideal.ofBits .f32 0x3C23D70A#32 * ((x j - Ideal.div (∑ i : Fin 60000, x (ix2 i (j 1 : Fin 1))) ((60000 : ℝ) : EReal)) * Ideal.rsqrt (Ideal.div (∑ i : Fin 60000, (x (ix2 i (j 1 : Fin 1)) - Ideal.div (∑ i : Fin 60000, x (ix2 i (j 1 : Fin 1))) ((60000 : ℝ) : EReal)) * (x (ix2 i (j 1 : Fin 1)) - Ideal.div (∑ i : Fin 60000, x (ix2 i (j 1 : Fin 1))) ((60000 : ℝ) : EReal))) ((60000 : ℝ) : EReal) + Ideal.ofBits .f32 0x3727C5AC#32) * g (ix1 (j 1 : Fin 1)) + b (ix1 (j 1 : Fin 1)))) := by
  rw [bnAct11_apply, hmu (j 1), hvar (j 1), hg (j 1), hb (j 1)]
  exact Cert.Bridge.Bn.bn_leaky_eq (fun i : Fin 60000 => x (ix2 i (j 1 : Fin 1))) (fun i => hx _) (60000 : ℝ) card11 (by norm_num)
    (x j) (Ideal.ofBits .f32 0x3727C5AC#32) (g (ix1 (j 1 : Fin 1))) (b (ix1 (j 1 : Fin 1))) (Ideal.ofBits .f32 0x3C23D70A#32) 0

/-- Every entry of the region's output is a real number, for finite data and finite scale and shift. -/
theorem bn_stage11_allReal (x : S60000x1.Idx → EReal) (hx : LibFinite.AllReal x) (mu var gr br : S1x1.Idx → EReal) (g b : S1.Idx → EReal)
    (hmu : ∀ q : Fin 1, mu (ix2 (0 : Fin 1) q) = (∑ i : Fin 60000, x (ix2 i q)) * ((1 / (60000 : ℝ) : ℝ) : EReal))
    (hvar : ∀ q : Fin 1, var (ix2 (0 : Fin 1) q) = (∑ i : Fin 60000, x (ix2 i q) * x (ix2 i q)) * ((1 / (60000 : ℝ) : ℝ) : EReal) - ((∑ i : Fin 60000, x (ix2 i q)) * ((1 / (60000 : ℝ) : ℝ) : EReal)) * ((∑ i : Fin 60000, x (ix2 i q)) * ((1 / (60000 : ℝ) : ℝ) : EReal)))
    (hg : ∀ q : Fin 1, gr (ix2 (0 : Fin 1) q) = g (ix1 q)) (hb : ∀ q : Fin 1, br (ix2 (0 : Fin 1) q) = b (ix1 q))
    (hgR : LibFinite.AllReal g) (hbR : LibFinite.AllReal b) : LibFinite.AllReal (bnAct11 x mu var gr br) := by
  intro j
  rw [bnAct11_apply, hmu (j 1), hvar (j 1), hg (j 1), hb (j 1)]
  exact Cert.Bridge.Bn.isReal_leaky (Cert.Bridge.Bn.isReal_bn (hx j)
    (Cert.Bridge.Bn.isReal_kmean (fun i : Fin 60000 => x (ix2 i (j 1 : Fin 1))) (fun i => hx _) (60000 : ℝ))
    (Cert.Bridge.Bn.kvar_nonneg (fun i : Fin 60000 => x (ix2 i (j 1 : Fin 1))) (fun i => hx _) card11 (by norm_num))
    (hgR _) (hbR _))

end Cert.Bridge.Stage
-- ==== Proof.RefBnApply4.lean ====
/-
  Stage 4 of the reference: its batch normalisation and activation read at an entry, at the exact values.

  The per-channel mean is the column's sum over the 60000 rows divided by 60000; the variance the sum of the squared
  centred entries divided by 60000; the normalised entry (x − mean) · rsqrt (var + ε) · γ + β; then the activation.
-/
import proofs.«180908_j8211977470570_1_alg».proof.Proof.RefStage4
import proofs.«180908_j8211977470570_1_alg».proof.Proof.RefBnRead
import proofs.«180908_j8211977470570_1_alg».proof.Proof.BnBridge

noncomputable section

namespace Cert.ReferenceIdeal.RefRun

open Cert.ReferenceIdeal Cert.ReferenceIdeal.Gen Cert.ReferenceIdeal.BnRead
open Idealize.ShloMosaic Idealize.ShloMosaic.ValueIdx
open scoped BigOperators

/-- The rows are summed away, the channels kept. -/
theorem reduces_4 : S60000x1.Reduces [0] S1 := by decide

/-- The normalised entry (p, q): the stage's normalisation is the generic one at this stage's shapes. -/
theorem norm_4_apply (x : FVec Ideal S60000x1 .f32) (g b : FVec Ideal S1 .f32) (p : Fin 60000) (q : Fin 1) :
    norm_4 (F := Ideal) x g b (ix2 p q) = (x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q) :=
  normOps_apply bcast_S_S1 bcast_S1_S1x1_1 bcast_S1x1_S60000x1_0_1 reducesTo_S60000x1_S1_d0 reduces_4 h_S_ 0x476A6000#32 Cert.Bridge.Bn.f32_60000 x g b p q

/-- The stage's output at entry (p, q). -/
theorem refBn_4_core (x : FVec Ideal S60000x1 .f32) (g b : FVec Ideal S1 .f32) (p : Fin 60000) (q : Fin 1) :
    refBn_4 (F := Ideal) x g b (ix2 p q) = Scalar.select (Ideal.cmp .oge ((x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q)) 0) ((x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q)) (Ideal.ofBits .f32 0x3C23D70A#32 * ((x (ix2 p q) - Ideal.div (∑ i : Fin 60000, x (ix2 i q)) ((60000 : ℝ) : EReal)) * Ideal.rsqrt (Ideal.div (∑ i : Fin 60000, (x (ix2 i q) - Ideal.div (∑ i : Fin 60000, x (ix2 i q)) ((60000 : ℝ) : EReal)) * (x (ix2 i q) - Ideal.div (∑ i : Fin 60000, x (ix2 i q)) ((60000 : ℝ) : EReal))) ((60000 : ℝ) : EReal) + Ideal.ofBits .f32 0x3727C5AC#32) * g (ix1 q) + b (ix1 q))) := by
  refine (leaky_apply bcast_S_S60000x1 (norm_4 (F := Ideal) x g b) (ix2 p q)).trans ?_
  rw [norm_4_apply]

/-- The stage's output at entry j. -/
theorem refBn_4_apply (x : FVec Ideal S60000x1 .f32) (g b : FVec Ideal S1 .f32) (j : S60000x1.Idx) :
    refBn_4 (F := Ideal) x g b j = Scalar.select (Ideal.cmp .oge ((x j - Ideal.div (∑ i : Fin 60000, x (ix2 i (j 1 : Fin 1))) ((60000 : ℝ) : EReal)) * Ideal.rsqrt (Ideal.div (∑ i : Fin 60000, (x (ix2 i (j 1 : Fin 1)) - Ideal.div (∑ i : Fin 60000, x (ix2 i (j 1 : Fin 1))) ((60000 : ℝ) : EReal)) * (x (ix2 i (j 1 : Fin 1)) - Ideal.div (∑ i : Fin 60000, x (ix2 i (j 1 : Fin 1))) ((60000 : ℝ) : EReal))) ((60000 : ℝ) : EReal) + Ideal.ofBits .f32 0x3727C5AC#32) * g (ix1 (j 1 : Fin 1)) + b (ix1 (j 1 : Fin 1))) 0) ((x j - Ideal.div (∑ i : Fin 60000, x (ix2 i (j 1 : Fin 1))) ((60000 : ℝ) : EReal)) * Ideal.rsqrt (Ideal.div (∑ i : Fin 60000, (x (ix2 i (j 1 : Fin 1)) - Ideal.div (∑ i : Fin 60000, x (ix2 i (j 1 : Fin 1))) ((60000 : ℝ) : EReal)) * (x (ix2 i (j 1 : Fin 1)) - Ideal.div (∑ i : Fin 60000, x (ix2 i (j 1 : Fin 1))) ((60000 : ℝ) : EReal))) ((60000 : ℝ) : EReal) + Ideal.ofBits .f32 0x3727C5AC#32) * g (ix1 (j 1 : Fin 1)) + b (ix1 (j 1 : Fin 1))) (Ideal.ofBits .f32 0x3C23D70A#32 * ((x j - Ideal.div (∑ i : Fin 60000, x (ix2 i (j 1 : Fin 1))) ((60000 : ℝ) : EReal)) * Ideal.rsqrt (Ideal.div (∑ i : Fin 60000, (x (ix2 i (j 1 : Fin 1)) - Ideal.div (∑ i : Fin 60000, x (ix2 i (j 1 : Fin 1))) ((60000 : ℝ) : EReal)) * (x (ix2 i (j 1 : Fin 1)) - Ideal.div (∑ i : Fin 60000, x (ix2 i (j 1 : Fin 1))) ((60000 : ℝ) : EReal))) ((60000 : ℝ) : EReal) + Ideal.ofBits .f32 0x3727C5AC#32) * g (ix1 (j 1 : Fin 1)) + b (ix1 (j 1 : Fin 1)))) := by
  obtain ⟨p, q, rfl⟩ : ∃ (p : Fin 60000) (q : Fin 1), j = ix2 p q := ⟨j 0, j 1, eq_ix2 j⟩
  exact refBn_4_core x g b p q

end Cert.ReferenceIdeal.RefRun

end
-- ==== Proof.StageMatch4.lean ====
/-
  Stage 4: the kernel's composite equals the reference's, with finiteness carried along.

  Both programs look rows up, multiply by the weights offset by offset, scatter-add the messages into rows,
  then normalise over the rows and apply the activation. The look-up, the scatter stage and the reshapes are the same
  operations in both; the product is the batched matrix product in both; the normalisation is the one-pass form in the
  kernel and the two-pass form in the reference, equal for finite data.
-/
import proofs.«180908_j8211977470570_1_alg».proof.Proof.KernelHostTake
import proofs.«180908_j8211977470570_1_alg».proof.Proof.KernelHostPre
import proofs.«180908_j8211977470570_1_alg».proof.Proof.MatmulMatchRef
import proofs.«180908_j8211977470570_1_alg».proof.Proof.MatmulFinite
import proofs.«180908_j8211977470570_1_alg».proof.Proof.StatsForms
import proofs.«180908_j8211977470570_1_alg».proof.Proof.BnStage11
import proofs.«180908_j8211977470570_1_alg».proof.Proof.RefStage4
import proofs.«180908_j8211977470570_1_alg».proof.Proof.RefBnApply4

set_option maxRecDepth 16384

noncomputable section

namespace Cert.Bridge.Match

open Idealize.ShloMosaic Idealize.ShloMosaic.ValueIdx
open Cert.KernelIdeal.Stage Cert.KernelIdeal.Vals Cert.ReferenceIdeal.RefRun
open LibFinite
open scoped BigOperators

variable [Cert.KernelIdeal.Facts] [Cert.ReferenceIdeal.Facts]

/-! ### (i) The pre-activation -/

attribute [local irreducible] Host.scatterAdd Host.gather Host.reduce in
/-- The reference's pre-activation with its product still the host's dot_general. -/
theorem pre_dot_4 (xin : FVec Ideal Cert.KernelIdeal.S60000x64 .f32) (src : IVec Cert.KernelIdeal.S27x25000 32) (W : FVec Ideal Cert.KernelIdeal.S27x64x1 .f32) (dst : IVec Cert.KernelIdeal.S27x25000 32) :
    refPre_4 (F := Ideal) xin src W dst
      = pre4 (Host.dotGeneral (F := Ideal) (φ₁ := .f32) (φ₂ := .f32) Cert.ReferenceIdeal.dot_S27x25000x64_S27x64x1_S27x25000x1_2_1_1_2_0_0 none (take3 xin src) W) dst := rfl

/-- The reference's pre-activation is the kernel's: look-up, batched product, scatter stage. -/
theorem pre_match_4 (xin : FVec Ideal Cert.KernelIdeal.S60000x64 .f32) (src : IVec Cert.KernelIdeal.S27x25000 32) (W : FVec Ideal Cert.KernelIdeal.S27x64x1 .f32) (dst : IVec Cert.KernelIdeal.S27x25000 32) :
    refPre_4 (F := Ideal) xin src W dst = pre4 (mm9 (take3 xin src) W) dst := by
  rw [pre_dot_4, ref_mm9]

/-! ### (ii) Finiteness of the pre-activation -/

/-- The pre-activation of real data at indices in range is real. -/
theorem x_allReal_4 (xin : FVec Ideal Cert.KernelIdeal.S60000x64 .f32) (src : IVec Cert.KernelIdeal.S27x25000 32) (W : FVec Ideal Cert.KernelIdeal.S27x64x1 .f32) (dst : IVec Cert.KernelIdeal.S27x25000 32)
    (hxin : AllReal xin) (hsrc : ∀ i, 0 ≤ (src i).toInt ∧ (src i).toInt < 60000) (hW : AllReal W) :
    AllReal (pre4 (mm9 (take3 xin src) W) dst) :=
  pre4_allReal _ _ (mm9_allReal _ _ (take3_allReal xin src hxin hsrc) hW)

/-! ### (iii) The normalisation and activation -/

/-- The scale row read at column q is entry q of the scale vector. -/
theorem row1_apply_4 (g : FVec Ideal Cert.KernelIdeal.S1 .f32) (q : Fin 1) : row1 g (ix2 (0 : Fin 1) q) = g (ix1 q) :=
  shapeCast_a_1a_apply g _ 0 q

/-- The kernel's normalised output of real data is real. -/
theorem act_allReal_4 (x : FVec Ideal Cert.KernelIdeal.S60000x1 .f32) (hx : AllReal x) (g b : FVec Ideal Cert.KernelIdeal.S1 .f32)
    (hg : AllReal g) (hb : AllReal b) :
    AllReal (bnAct11 x (kmeanB x) (kvarB x) (row1 g) (row1 b)) :=
  Cert.Bridge.Stage.bn_stage11_allReal x hx (kmeanB x) (kvarB x) (row1 g) (row1 b) g b (fun q => rfl) (fun q => rfl)
    (row1_apply_4 g) (row1_apply_4 b) hg hb

/-- The kernel's normalised output (one-pass statistics, scale and shift laid as rows) is the reference's (two-pass
    statistics), for real data. -/
theorem stage_4 (x : FVec Ideal Cert.KernelIdeal.S60000x1 .f32) (hx : AllReal x) (g b : FVec Ideal Cert.KernelIdeal.S1 .f32) :
    bnAct11 x (kmeanB x) (kvarB x) (row1 g) (row1 b) = refBn_4 (F := Ideal) x g b := by
  funext j
  exact (Cert.Bridge.Stage.bn_stage11 x hx (kmeanB x) (kvarB x) (row1 g) (row1 b) g b (fun q => rfl) (fun q => rfl)
    (row1_apply_4 g) (row1_apply_4 b) j).trans (refBn_4_apply x g b j).symm

end Cert.Bridge.Match

end
-- ==== Proof.BnStage14.lean ====
/-
  Region 14's batch-norm stage in the two-pass spelling.

  The region's output is act ((x − mean) · rsqrt (var + ε) · γ + β) column by column, with the mean and variance rows it
  reads. When those rows hold the ONE-PASS statistics of the 200000 finite entries of each column,
      mean = (Σ x) · (1/200000),   var = (Σ x·x) · (1/200000) − mean · mean,
  the same entry is the TWO-PASS value, mean = (Σ x) / 200000, var = (Σ (x − mean)²) / 200000: multiplying by the real 1/200000
  is dividing by 200000 at every extended real, and the two variances agree for finite data by the expansion of the
  square. The scale and shift rows are the [64] vectors γ, β laid as one row. The activation is the logistic function, 1 / (1 + exp (−y)).
  The result is again finite: the one-pass variance of finite data is a nonnegative real, so var + ε is positive and its
  reciprocal square root real; the logistic function of a real is real.
-/
import proofs.«180908_j8211977470570_1_alg».proof.Proof.NormValue14
import proofs.«180908_j8211977470570_1_alg».proof.Proof.BnBridge
import proofs.«180908_j8211977470570_1_alg».proof.Proof.LibFinite

noncomputable section

namespace Cert.Bridge.Stage

open Cert.KernelIdeal Cert.KernelIdeal.Vals
open Idealize.ShloMosaic Idealize.ShloMosaic.ValueIdx
open scoped BigOperators

/-- The count of rows as a real. -/
theorem card14 : (Fintype.card (Fin 200000) : ℝ) = (200000 : ℝ) := Cert.Bridge.Bn.card_fin_cast (by norm_num)

/-- Entry j of the region's output, from one-pass statistics rows, in the two-pass spelling. -/
theorem bn_stage14 (x : S200000x64.Idx → EReal) (hx : LibFinite.AllReal x) (mu var gr br : S1x64.Idx → EReal) (g b : S64.Idx → EReal)
    (hmu : ∀ q : Fin 64, mu (ix2 (0 : Fin 1) q) = (∑ i : Fin 200000, x (ix2 i q)) * ((1 / (200000 : ℝ) : ℝ) : EReal))
    (hvar : ∀ q : Fin 64, var (ix2 (0 : Fin 1) q) = (∑ i : Fin 200000, x (ix2 i q) * x (ix2 i q)) * ((1 / (200000 : ℝ) : ℝ) : EReal) - ((∑ i : Fin 200000, x (ix2 i q)) * ((1 / (200000 : ℝ) : ℝ) : EReal)) * ((∑ i : Fin 200000, x (ix2 i q)) * ((1 / (200000 : ℝ) : ℝ) : EReal)))
    (hg : ∀ q : Fin 64, gr (ix2 (0 : Fin 1) q) = g (ix1 q)) (hb : ∀ q : Fin 64, br (ix2 (0 : Fin 1) q) = b (ix1 q)) (j : S200000x64.Idx) :
    bnAct14 x mu var gr br j = Ideal.div 1 (1 + Ideal.exp (-((x j - Ideal.div (∑ i : Fin 200000, x (ix2 i (j 1 : Fin 64))) ((200000 : ℝ) : EReal)) * Ideal.rsqrt (Ideal.div (∑ i : Fin 200000, (x (ix2 i (j 1 : Fin 64)) - Ideal.div (∑ i : Fin 200000, x (ix2 i (j 1 : Fin 64))) ((200000 : ℝ) : EReal)) * (x (ix2 i (j 1 : Fin 64)) - Ideal.div (∑ i : Fin 200000, x (ix2 i (j 1 : Fin 64))) ((200000 : ℝ) : EReal))) ((200000 : ℝ) : EReal) + Ideal.ofBits .f32 0x3727C5AC#32) * g (ix1 (j 1 : Fin 64)) + b (ix1 (j 1 : Fin 64))))) := by
  rw [bnAct14_apply, hmu (j 1), hvar (j 1), hg (j 1), hb (j 1)]
  exact Cert.Bridge.Bn.bn_logistic_eq (fun i : Fin 200000 => x (ix2 i (j 1 : Fin 64))) (fun i => hx _) (200000 : ℝ) card14 (by norm_num)
    (x j) (Ideal.ofBits .f32 0x3727C5AC#32) (g (ix1 (j 1 : Fin 64))) (b (ix1 (j 1 : Fin 64)))

/-- Every entry of the region's output is a real number, for finite data and finite scale and shift. -/
theorem bn_stage14_allReal (x : S200000x64.Idx → EReal) (hx : LibFinite.AllReal x) (mu var gr br : S1x64.Idx → EReal) (g b : S64.Idx → EReal)
    (hmu : ∀ q : Fin 64, mu (ix2 (0 : Fin 1) q) = (∑ i : Fin 200000, x (ix2 i q)) * ((1 / (200000 : ℝ) : ℝ) : EReal))
    (hvar : ∀ q : Fin 64, var (ix2 (0 : Fin 1) q) = (∑ i : Fin 200000, x (ix2 i q) * x (ix2 i q)) * ((1 / (200000 : ℝ) : ℝ) : EReal) - ((∑ i : Fin 200000, x (ix2 i q)) * ((1 / (200000 : ℝ) : ℝ) : EReal)) * ((∑ i : Fin 200000, x (ix2 i q)) * ((1 / (200000 : ℝ) : ℝ) : EReal)))
    (hg : ∀ q : Fin 64, gr (ix2 (0 : Fin 1) q) = g (ix1 q)) (hb : ∀ q : Fin 64, br (ix2 (0 : Fin 1) q) = b (ix1 q))
    (hgR : LibFinite.AllReal g) (hbR : LibFinite.AllReal b) : LibFinite.AllReal (bnAct14 x mu var gr br) := by
  intro j
  rw [bnAct14_apply, hmu (j 1), hvar (j 1), hg (j 1), hb (j 1)]
  exact Cert.Bridge.Bn.isReal_logistic (Cert.Bridge.Bn.isReal_bn (hx j)
    (Cert.Bridge.Bn.isReal_kmean (fun i : Fin 200000 => x (ix2 i (j 1 : Fin 64))) (fun i => hx _) (200000 : ℝ))
    (Cert.Bridge.Bn.kvar_nonneg (fun i : Fin 200000 => x (ix2 i (j 1 : Fin 64))) (fun i => hx _) card14 (by norm_num))
    (hgR _) (hbR _))

end Cert.Bridge.Stage
-- ==== Proof.RefBnApply5.lean ====
/-
  Stage 5 of the reference: its batch normalisation and activation read at an entry, at the exact values.

  The per-channel mean is the column's sum over the 200000 rows divided by 200000; the variance the sum of the squared
  centred entries divided by 200000; the normalised entry (x − mean) · rsqrt (var + ε) · γ + β; then the activation.
-/
import proofs.«180908_j8211977470570_1_alg».proof.Proof.RefStage5
import proofs.«180908_j8211977470570_1_alg».proof.Proof.RefBnRead
import proofs.«180908_j8211977470570_1_alg».proof.Proof.BnBridge

noncomputable section

namespace Cert.ReferenceIdeal.RefRun

open Cert.ReferenceIdeal Cert.ReferenceIdeal.Gen Cert.ReferenceIdeal.BnRead
open Idealize.ShloMosaic Idealize.ShloMosaic.ValueIdx
open scoped BigOperators

/-- The rows are summed away, the channels kept. -/
theorem reduces_5 : S200000x64.Reduces [0] S64 := by decide

/-- The normalised entry (p, q): the stage's normalisation is the generic one at this stage's shapes. -/
theorem norm_5_apply (x : FVec Ideal S200000x64 .f32) (g b : FVec Ideal S64 .f32) (p : Fin 200000) (q : Fin 64) :
    norm_5 (F := Ideal) x g b (ix2 p q) = (x (ix2 p q) - Ideal.div (∑ i : Fin 200000, x (ix2 i q)) ((200000 : ℝ) : EReal)) * Ideal.rsqrt (Ideal.div (∑ i : Fin 200000, (x (ix2 i q) - Ideal.div (∑ i : Fin 200000, x (ix2 i q)) ((200000 : ℝ) : EReal)) * (x (ix2 i q) - Ideal.div (∑ i : Fin 200000, x (ix2 i q)) ((200000 : ℝ) : EReal))) ((200000 : ℝ) : EReal) + Ideal.ofBits .f32 0x3727C5AC#32) * g (ix1 q) + b (ix1 q) :=
  normOps_apply bcast_S_S64 bcast_S64_S1x64_1 bcast_S1x64_S200000x64_0_1 reducesTo_S200000x64_S64_d0 reduces_5 h_S_ 0x48435000#32 Cert.Bridge.Bn.f32_200000 x g b p q

/-- The stage's output at entry (p, q). -/
theorem refBn_5_core (x : FVec Ideal S200000x64 .f32) (g b : FVec Ideal S64 .f32) (p : Fin 200000) (q : Fin 64) :
    refBn_5 (F := Ideal) x g b (ix2 p q) = Ideal.div 1 (1 + Ideal.exp (-((x (ix2 p q) - Ideal.div (∑ i : Fin 200000, x (ix2 i q)) ((200000 : ℝ) : EReal)) * Ideal.rsqrt (Ideal.div (∑ i : Fin 200000, (x (ix2 i q) - Ideal.div (∑ i : Fin 200000, x (ix2 i q)) ((200000 : ℝ) : EReal)) * (x (ix2 i q) - Ideal.div (∑ i : Fin 200000, x (ix2 i q)) ((200000 : ℝ) : EReal))) ((200000 : ℝ) : EReal) + Ideal.ofBits .f32 0x3727C5AC#32) * g (ix1 q) + b (ix1 q)))) := by
  refine (logistic_apply bcast_S_S200000x64 (norm_5 (F := Ideal) x g b) (ix2 p q)).trans ?_
  rw [norm_5_apply]

/-- The stage's output at entry j. -/
theorem refBn_5_apply (x : FVec Ideal S200000x64 .f32) (g b : FVec Ideal S64 .f32) (j : S200000x64.Idx) :
    refBn_5 (F := Ideal) x g b j = Ideal.div 1 (1 + Ideal.exp (-((x j - Ideal.div (∑ i : Fin 200000, x (ix2 i (j 1 : Fin 64))) ((200000 : ℝ) : EReal)) * Ideal.rsqrt (Ideal.div (∑ i : Fin 200000, (x (ix2 i (j 1 : Fin 64)) - Ideal.div (∑ i : Fin 200000, x (ix2 i (j 1 : Fin 64))) ((200000 : ℝ) : EReal)) * (x (ix2 i (j 1 : Fin 64)) - Ideal.div (∑ i : Fin 200000, x (ix2 i (j 1 : Fin 64))) ((200000 : ℝ) : EReal))) ((200000 : ℝ) : EReal) + Ideal.ofBits .f32 0x3727C5AC#32) * g (ix1 (j 1 : Fin 64)) + b (ix1 (j 1 : Fin 64))))) := by
  obtain ⟨p, q, rfl⟩ : ∃ (p : Fin 200000) (q : Fin 64), j = ix2 p q := ⟨j 0, j 1, eq_ix2 j⟩
  exact refBn_5_core x g b p q

end Cert.ReferenceIdeal.RefRun

end
-- ==== Proof.StageMatch5.lean ====
/-
  Stage 5: the kernel's composite equals the reference's, with finiteness carried along.

  Both programs look rows up, multiply by the weights offset by offset, scatter-add the messages into rows and add the bias,
  then normalise over the rows and apply the activation. The look-up, the scatter stage and the reshapes are the same
  operations in both; the product is the batched matrix product in both; the normalisation is the one-pass form in the
  kernel and the two-pass form in the reference, equal for finite data.
-/
import proofs.«180908_j8211977470570_1_alg».proof.Proof.KernelHostTake
import proofs.«180908_j8211977470570_1_alg».proof.Proof.KernelHostPre
import proofs.«180908_j8211977470570_1_alg».proof.Proof.MatmulMatchRef
import proofs.«180908_j8211977470570_1_alg».proof.Proof.MatmulFinite
import proofs.«180908_j8211977470570_1_alg».proof.Proof.StatsForms
import proofs.«180908_j8211977470570_1_alg».proof.Proof.BnStage14
import proofs.«180908_j8211977470570_1_alg».proof.Proof.RefStage5
import proofs.«180908_j8211977470570_1_alg».proof.Proof.RefBnApply5

set_option maxRecDepth 16384

noncomputable section

namespace Cert.Bridge.Match

open Idealize.ShloMosaic Idealize.ShloMosaic.ValueIdx
open Cert.KernelIdeal.Stage Cert.KernelIdeal.Vals Cert.ReferenceIdeal.RefRun
open LibFinite
open scoped BigOperators

variable [Cert.KernelIdeal.Facts] [Cert.ReferenceIdeal.Facts]

/-! ### (i) The pre-activation -/

attribute [local irreducible] Host.scatterAdd Host.gather Host.reduce in
/-- The reference's pre-activation with its product still the host's dot_general. -/
theorem pre_dot_5 (xin : FVec Ideal Cert.KernelIdeal.S60000x1 .f32) (src : IVec Cert.KernelIdeal.S27x40000 32) (W : FVec Ideal Cert.KernelIdeal.S27x1x64 .f32) (dst : IVec Cert.KernelIdeal.S27x40000 32) (bias : FVec Ideal Cert.KernelIdeal.S64 .f32) :
    refPre_5 (F := Ideal) xin src W dst bias
      = pre5 (Host.dotGeneral (F := Ideal) (φ₁ := .f32) (φ₂ := .f32) Cert.ReferenceIdeal.dot_S27x40000x1_S27x1x64_S27x40000x64_2_1_1_2_0_0 none (take5 xin src) W) dst bias := rfl

/-- The reference's pre-activation is the kernel's: look-up, batched product, scatter stage. -/
theorem pre_match_5 (xin : FVec Ideal Cert.KernelIdeal.S60000x1 .f32) (src : IVec Cert.KernelIdeal.S27x40000 32) (W : FVec Ideal Cert.KernelIdeal.S27x1x64 .f32) (dst : IVec Cert.KernelIdeal.S27x40000 32) (bias : FVec Ideal Cert.KernelIdeal.S64 .f32) :
    refPre_5 (F := Ideal) xin src W dst bias = pre5 (mm12 (take5 xin src) W) dst bias := by
  rw [pre_dot_5, ref_mm12]

/-! ### (ii) Finiteness of the pre-activation -/

/-- The pre-activation of real data at indices in range is real. -/
theorem x_allReal_5 (xin : FVec Ideal Cert.KernelIdeal.S60000x1 .f32) (src : IVec Cert.KernelIdeal.S27x40000 32) (W : FVec Ideal Cert.KernelIdeal.S27x1x64 .f32) (dst : IVec Cert.KernelIdeal.S27x40000 32) (bias : FVec Ideal Cert.KernelIdeal.S64 .f32)
    (hxin : AllReal xin) (hsrc : ∀ i, 0 ≤ (src i).toInt ∧ (src i).toInt < 60000) (hW : AllReal W) (hbias : AllReal bias) :
    AllReal (pre5 (mm12 (take5 xin src) W) dst bias) :=
  pre5_allReal _ _ _ (mm12_allReal _ _ (take5_allReal xin src hxin hsrc) hW) hbias

/-! ### (iii) The normalisation and activation -/

/-- The scale row read at column q is entry q of the scale vector. -/
theorem row64_apply_5 (g : FVec Ideal Cert.KernelIdeal.S64 .f32) (q : Fin 64) : row64 g (ix2 (0 : Fin 1) q) = g (ix1 q) :=
  shapeCast_a_1a_apply g _ 0 q

/-- The kernel's normalised output of real data is real. -/
theorem act_allReal_5 (x : FVec Ideal Cert.KernelIdeal.S200000x64 .f32) (hx : AllReal x) (g b : FVec Ideal Cert.KernelIdeal.S64 .f32)
    (hg : AllReal g) (hb : AllReal b) :
    AllReal (bnAct14 x (kmeanC x) (kvarC x) (row64 g) (row64 b)) :=
  Cert.Bridge.Stage.bn_stage14_allReal x hx (kmeanC x) (kvarC x) (row64 g) (row64 b) g b (fun q => rfl) (fun q => rfl)
    (row64_apply_5 g) (row64_apply_5 b) hg hb

/-- The kernel's normalised output (one-pass statistics, scale and shift laid as rows) is the reference's (two-pass
    statistics), for real data. -/
theorem stage_5 (x : FVec Ideal Cert.KernelIdeal.S200000x64 .f32) (hx : AllReal x) (g b : FVec Ideal Cert.KernelIdeal.S64 .f32) :
    bnAct14 x (kmeanC x) (kvarC x) (row64 g) (row64 b) = refBn_5 (F := Ideal) x g b := by
  funext j
  exact (Cert.Bridge.Stage.bn_stage14 x hx (kmeanC x) (kvarC x) (row64 g) (row64 b) g b (fun q => rfl) (fun q => rfl)
    (row64_apply_5 g) (row64_apply_5 b) j).trans (refBn_5_apply x g b j).symm

end Cert.Bridge.Match

end
-- ==== Proof.Algebraic.lean ====
/-
  The results agree. The kernel program ends with its result array at the composition of its five stages read off the
  run; the reference ends at the composition of its operations. On real argument arrays with indices in range the two
  compositions are one function: in every stage the gathered rows are real, the per-offset products are the same sums,
  the scattered sums and the bias keep them real, the column statistics of real columns agree in both forms (the
  variance is a nonnegative real either way), and the normalised, activated output is real again, so the next stage
  starts from equal real arrays.
-/
import proofs.«180908_j8211977470570_1_alg».proof.Defs
import proofs.«180908_j8211977470570_1_alg».proof.Proof.Gen.KernelIdeal
import proofs.«180908_j8211977470570_1_alg».proof.Proof.Gen.ReferenceIdeal
import proofs.«180908_j8211977470570_1_alg».proof.Proof.Gen.Pre_finite_inputs
import proofs.«180908_j8211977470570_1_alg».proof.Proof.RunFactsIdeal
import proofs.«180908_j8211977470570_1_alg».proof.Proof.RefValue
import proofs.«180908_j8211977470570_1_alg».proof.Proof.RefRunValue
import proofs.«180908_j8211977470570_1_alg».proof.Proof.KernelValue
import proofs.«180908_j8211977470570_1_alg».proof.Proof.PreDecode
import proofs.«180908_j8211977470570_1_alg».proof.Proof.StageMatch1
import proofs.«180908_j8211977470570_1_alg».proof.Proof.StageMatch2
import proofs.«180908_j8211977470570_1_alg».proof.Proof.StageMatch3
import proofs.«180908_j8211977470570_1_alg».proof.Proof.StageMatch4
import proofs.«180908_j8211977470570_1_alg».proof.Proof.StageMatch5

set_option maxRecDepth 16384

noncomputable section

namespace Cert.Proof.Pieces

open Idealize.ShloMosaic Idealize.ShloMosaic.TcCoe Idealize.SL.Sem
open LibFinite Cert.Bridge.Match Cert.KernelIdeal.Chain Cert.ReferenceIdeal.RefRun

/-- The reference's result and the kernel program's are one function of real argument arrays with indices in range:
    stage by stage the pre-activations are the same host operations of equal products, they are real, so the two
    normalisations agree, and each stage's output is real again. -/
theorem result_eq (A0 : _) (A1 : _) (A2 : _) (A3 : _) (A4 : _) (A5 : _) (A6 : _) (A7 : _) (A8 : _) (A9 : _) (A10 : _) (A11 : _) (A12 : _) (A13 : _) (A14 : _) (A15 : _) (A16 : _) (A17 : _) (A18 : _) (A19 : _) (A20 : _) (A21 : _) (A22 : _) (A23 : _) (A24 : _)
    (D : Cert.Bridge.Pre.Decoded A0 A1 A2 A3 A4 A5 A6 A7 A8 A9 A10 A11 A12 A13 A14 A15 A16 A17 A18 A19 A20 A21 A22 A23 A24) :
    Cert.ReferenceIdeal.RefRun.refOut (F := Ideal) A0 A1 A2 A3 A4 A5 A6 A7 A8 A9 A10 A11 A12 A13 A14 A15 A16 A17 A18 A19 A20 A21 A22 A23 A24 = Cert.KernelIdeal.Chain.y5 A0 A1 A2 A3 A4 A5 A6 A7 A8 A9 A10 A11 A12 A13 A14 A15 A16 A17 A18 A19 A20 A21 A22 A23 A24 := by
  -- stage 1
  have hx1 : AllReal (x1 A1 A2 A3 A6 A7) := x_allReal_1 A1 A2 A6 A3 A7 D.real1 D.range2 D.real6 D.real7
  have e1 : refBn_1 (F := Ideal) (refPre_1 (F := Ideal) A1 A2 A6 A3 A7) A15 A16 = y1 A1 A2 A3 A6 A7 A15 A16 := by
    rw [pre_match_1]; exact (stage_1 (x1 A1 A2 A3 A6 A7) hx1 A15 A16).symm
  have r1 : AllReal (y1 A1 A2 A3 A6 A7 A15 A16) := act_allReal_1 (x1 A1 A2 A3 A6 A7) hx1 A15 A16 D.real15 D.real16
  -- stage 2
  have hx2 : AllReal (x2 A0 A4 A5 A8 A9) := x_allReal_2 A0 A4 A8 A5 A9 D.real0 D.range4 D.real8 D.real9
  have e2 : refBn_2 (F := Ideal) (refPre_2 (F := Ideal) A0 A4 A8 A5 A9) A17 A18 = y2 A0 A4 A5 A8 A9 A17 A18 := by
    rw [pre_match_2]; exact (stage_2 (x2 A0 A4 A5 A8 A9) hx2 A17 A18).symm
  have r2 : AllReal (y2 A0 A4 A5 A8 A9 A17 A18) := act_allReal_2 (x2 A0 A4 A5 A8 A9) hx2 A17 A18 D.real17 D.real18
  -- stage 3
  have hx3 : AllReal (x3 A0 A4 A5 A8 A9 A10 A11 A17 A18) :=
    x_allReal_3 (y2 A0 A4 A5 A8 A9 A17 A18) A5 A10 A4 A11 r2 D.range5 D.real10 D.real11
  have e3 : refBn_3 (F := Ideal) (refPre_3 (F := Ideal) (y2 A0 A4 A5 A8 A9 A17 A18) A5 A10 A4 A11) A19 A20
      = y3 A0 A4 A5 A8 A9 A10 A11 A17 A18 A19 A20 := by
    rw [pre_match_3]; exact (stage_3 (x3 A0 A4 A5 A8 A9 A10 A11 A17 A18) hx3 A19 A20).symm
  have r3 : AllReal (y3 A0 A4 A5 A8 A9 A10 A11 A17 A18 A19 A20) :=
    act_allReal_3 (x3 A0 A4 A5 A8 A9 A10 A11 A17 A18) hx3 A19 A20 D.real19 D.real20
  -- the sum of the two branches
  have rs : AllReal (s A0 A1 A2 A3 A4 A5 A6 A7 A8 A9 A10 A11 A15 A16 A17 A18 A19 A20) := LibFinite.allReal_addf r3 r1
  -- stage 4
  have hx4 : AllReal (x4 A0 A1 A2 A3 A4 A5 A6 A7 A8 A9 A10 A11 A12 A15 A16 A17 A18 A19 A20) :=
    x_allReal_4 (s A0 A1 A2 A3 A4 A5 A6 A7 A8 A9 A10 A11 A15 A16 A17 A18 A19 A20) A4 A12 A5 rs D.range4 D.real12
  have e4 : refBn_4 (F := Ideal) (refPre_4 (F := Ideal) (s A0 A1 A2 A3 A4 A5 A6 A7 A8 A9 A10 A11 A15 A16 A17 A18 A19 A20) A4 A12 A5) A21 A22
      = y4 A0 A1 A2 A3 A4 A5 A6 A7 A8 A9 A10 A11 A12 A15 A16 A17 A18 A19 A20 A21 A22 := by
    rw [pre_match_4]; exact (stage_4 (x4 A0 A1 A2 A3 A4 A5 A6 A7 A8 A9 A10 A11 A12 A15 A16 A17 A18 A19 A20) hx4 A21 A22).symm
  have r4 : AllReal (y4 A0 A1 A2 A3 A4 A5 A6 A7 A8 A9 A10 A11 A12 A15 A16 A17 A18 A19 A20 A21 A22) :=
    act_allReal_4 (x4 A0 A1 A2 A3 A4 A5 A6 A7 A8 A9 A10 A11 A12 A15 A16 A17 A18 A19 A20) hx4 A21 A22 D.real21 D.real22
  -- stage 5
  have hx5 : AllReal (x5 A0 A1 A2 A3 A4 A5 A6 A7 A8 A9 A10 A11 A12 A13 A14 A15 A16 A17 A18 A19 A20 A21 A22) :=
    x_allReal_5 (y4 A0 A1 A2 A3 A4 A5 A6 A7 A8 A9 A10 A11 A12 A15 A16 A17 A18 A19 A20 A21 A22) A3 A13 A2 A14 r4 D.range3 D.real13 D.real14
  have e5 : refBn_5 (F := Ideal) (refPre_5 (F := Ideal) (y4 A0 A1 A2 A3 A4 A5 A6 A7 A8 A9 A10 A11 A12 A15 A16 A17 A18 A19 A20 A21 A22) A3 A13 A2 A14) A23 A24
      = y5 A0 A1 A2 A3 A4 A5 A6 A7 A8 A9 A10 A11 A12 A13 A14 A15 A16 A17 A18 A19 A20 A21 A22 A23 A24 := by
    rw [pre_match_5]; exact (stage_5 (x5 A0 A1 A2 A3 A4 A5 A6 A7 A8 A9 A10 A11 A12 A13 A14 A15 A16 A17 A18 A19 A20 A21 A22) hx5 A23 A24).symm
  unfold Cert.ReferenceIdeal.RefRun.refOut
  rw [e2, e3, e1]
  change refBn_5 (F := Ideal) (refPre_5 (F := Ideal) (refBn_4 (F := Ideal) (refPre_4 (F := Ideal) (s A0 A1 A2 A3 A4 A5 A6 A7 A8 A9 A10 A11 A15 A16 A17 A18 A19 A20) A4 A12 A5) A21 A22) A3 A13 A2 A14) A23 A24 = _
  rw [e4]
  exact e5

/-- The two idealized programs, run from memories that agree on the arguments, end with equal results. -/
theorem algebraic : Cert.algebraic_KernelIdeal_ReferenceIdeal := by
  intro m ρ m' ρ' hpre hagree
  refine ⟨fun c => Cert.KernelIdeal.Regs.W26 (F := Ideal) m c (Proc.devRef .tc Cert.KernelIdeal.main_v67),
    Cert.KernelIdeal.Regs.run_result (F := Ideal) m ρ, ?_⟩
  refine (θ_run (Cert.ReferenceIdeal.defs (F := Ideal)) _ _).mono (fun r h c => ⟨(h c).1.trans ?_, (h c).2⟩)
    (Cert.ReferenceIdeal.RefRun.run_value (F := Ideal) m' ρ')
  show _ = Cert.KernelIdeal.Regs.W26 (F := Ideal) m c (Proc.devRef .tc Cert.KernelIdeal.main_v67)
  rw [Cert.KernelIdeal.Chain.kernel_value m c]
  obtain ⟨h0, h1, h2, h3, h4, h5, h6, h7, h8, h9, h10, h11, h12, h13, h14, h15, h16, h17, h18, h19, h20, h21, h22, h23, h24⟩ := hagree c
  rw [h0, h1, h2, h3, h4, h5, h6, h7, h8, h9, h10, h11, h12, h13, h14, h15, h16, h17, h18, h19, h20, h21, h22, h23, h24]
  exact result_eq _ _ _ _ _ _ _ _ _ _ _ _ _ _ _ _ _ _ _ _ _ _ _ _ _ (Cert.Bridge.Pre.decoded m hpre c)

end Cert.Proof.Pieces

end
-- ==== Proof.lean ====
/-
  The certificate of a five-stage sparse convolution stack. Each stage gathers rows of its input by an index array,
  multiplies every gathered row by the weight slab of its offset, adds the products into the rows named by a second
  index array, adds a bias, and normalises each channel over all rows (batch statistics) before a leaky ramp, in the
  last stage a logistic. The kernel program runs the per-offset products, the column statistics and the normalisation
  as fifteen pipelined regions between host stretches; it accumulates the column sums tile by tile, multiplies by the
  reciprocal of the row count and takes the variance as the mean of squares minus the squared mean. The reference takes
  the products as one batched contraction, divides by the row count and takes the variance as the mean of the squared
  deviations. On the extended reals the two agree when every entry is a real number: then every intermediate array is
  real (the variance is a nonnegative real, so its reciprocal root is real), sums may be regrouped, and the two
  variance formulas are one. The gathers read inside their arrays because the index arrays are in range.
  The claims: the three frames (Frames), the ten named reciprocals (Preserves), and the equality of the results
  (Algebraic).
-/
import proofs.«180908_j8211977470570_1_alg».proof.Defs
import proofs.«180908_j8211977470570_1_alg».proof.Proof.Gen.Kernel
import proofs.«180908_j8211977470570_1_alg».proof.Proof.Gen.KernelIdeal
import proofs.«180908_j8211977470570_1_alg».proof.Proof.Gen.ReferenceIdeal
import proofs.«180908_j8211977470570_1_alg».proof.Proof.Gen.Pre_finite_inputs
import proofs.«180908_j8211977470570_1_alg».proof.Proof.Preserves
import proofs.«180908_j8211977470570_1_alg».proof.Proof.Frames
import proofs.«180908_j8211977470570_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Pieces.frame_kernel, Cert.Proof.Pieces.frame_kernelIdeal, Cert.Proof.Pieces.frame_referenceIdeal,
    Cert.Proof.Pieces.preserves, Cert.Proof.Pieces.algebraic⟩

end Cert.Proof

end
